-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v307)) (v1 : (c : Dev Cert.KernelIdeal.nD) → Buf (Elt Ideal) ((c.tc : Thread Cert.KernelIdeal.nD Cert.KernelIdeal.τ).loc Cert.KernelIdeal.main_v301)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v307) = v0 c
          ∧ r.2.mem ((c.tc : Thread Cert.KernelIdeal.nD Cert.KernelIdeal.τ).loc Cert.KernelIdeal.main_v301) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v502) = v0 c
          ∧ r.2.mem ((c.tc : Thread Cert.ReferenceIdeal.nD Cert.ReferenceIdeal.τ).loc Cert.ReferenceIdeal.main_v495) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x56x56 : Shape := ⟨4, ![1, 256, 56, 56]⟩
abbrev S1x512x28x28 : Shape := ⟨4, ![1, 512, 28, 28]⟩
abbrev S1x1024x14x14 : Shape := ⟨4, ![1, 1024, 14, 14]⟩
abbrev S1x2048x7x7 : Shape := ⟨4, ![1, 2048, 7, 7]⟩
abbrev S8192x8192 : Shape := ⟨2, ![8192, 8192]⟩
abbrev S8192x3 : Shape := ⟨2, ![8192, 3]⟩
abbrev S8192x128 : Shape := ⟨2, ![8192, 128]⟩
abbrev S3840x128 : Shape := ⟨2, ![3840, 128]⟩
abbrev S259x128 : Shape := ⟨2, ![259, 128]⟩
abbrev S128x128 : Shape := ⟨2, ![128, 128]⟩
abbrev S128x3 : Shape := ⟨2, ![128, 3]⟩
abbrev S_ : Shape := ⟨0, ![]⟩

class Facts : Prop where
  bcast_S_S1x256x56x56 : S_.BroadcastsInDim S1x256x56x56 (![] : Fin 0 → Fin S1x256x56x56.rank)
  reducesTo_S1x256x56x56_S_d0_1_2_3 : S1x256x56x56.ReducesTo [0, 1, 2, 3] S_
  h_S_ : 0 < S_.numel
  bcast_S_S1x512x28x28 : S_.BroadcastsInDim S1x512x28x28 (![] : Fin 0 → Fin S1x512x28x28.rank)
  reducesTo_S1x512x28x28_S_d0_1_2_3 : S1x512x28x28.ReducesTo [0, 1, 2, 3] S_
  bcast_S_S1x1024x14x14 : S_.BroadcastsInDim S1x1024x14x14 (![] : Fin 0 → Fin S1x1024x14x14.rank)
  reducesTo_S1x1024x14x14_S_d0_1_2_3 : S1x1024x14x14.ReducesTo [0, 1, 2, 3] S_
  bcast_S_S1x2048x7x7 : S_.BroadcastsInDim S1x2048x7x7 (![] : Fin 0 → Fin S1x2048x7x7.rank)
  reducesTo_S1x2048x7x7_S_d0_1_2_3 : S1x2048x7x7.ReducesTo [0, 1, 2, 3] S_
  bcast_S_S8192x8192 : S_.BroadcastsInDim S8192x8192 (![] : Fin 0 → Fin S8192x8192.rank)
  reducesTo_S8192x8192_S_d0_1 : S8192x8192.ReducesTo [0, 1] S_
  bcast_S_S8192x3 : S_.BroadcastsInDim S8192x3 (![] : Fin 0 → Fin S8192x3.rank)
  reducesTo_S8192x3_S_d0_1 : S8192x3.ReducesTo [0, 1] S_
  bcast_S_S8192x128 : S_.BroadcastsInDim S8192x128 (![] : Fin 0 → Fin S8192x128.rank)
  reducesTo_S8192x128_S_d0_1 : S8192x128.ReducesTo [0, 1] S_
  bcast_S_S3840x128 : S_.BroadcastsInDim S3840x128 (![] : Fin 0 → Fin S3840x128.rank)
  reducesTo_S3840x128_S_d0_1 : S3840x128.ReducesTo [0, 1] S_
  bcast_S_S259x128 : S_.BroadcastsInDim S259x128 (![] : Fin 0 → Fin S259x128.rank)
  reducesTo_S259x128_S_d0_1 : S259x128.ReducesTo [0, 1] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_

variable [Facts]

def fn_part6 {F : FTy → Type} [FloatOps F] (main_arg21 : FVec F S128x3 .f32) (main_arg22 : FVec F S128x3 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128x3 .f32 := Host.absf main_arg21
  let main_cst_40 : FVec F S_ .f32 := constant S_ .f32 0x7F800000#32
  let main_v105 : FVec F S128x3 .f32 := broadcastInDim S128x3 ![] bcast_S_S128x3 main_cst_40
  let main_v106 : IVec S128x3 1 := cmpf .olt main_v104 main_v105
  let main_c_41 : IVec S_ 1 := constantI S_ 1 1#1
  let main_v107 : IVec S_ 1 := (fun x v => Host.reduce IntOp.andi x v reducesTo_S128x3_S_d0_1 h_S_) main_v106 main_c_41
  let main_v108 : IVec S_ 1 := andi main_v103 main_v107
  let main_v109 : FVec F S128x3 .f32 := Host.absf main_arg22
  let main_cst_42 : FVec F S_ .f32 := constant S_ .f32 0x7F800000#32
  let main_v110 : FVec F S128x3 .f32 := broadcastInDim S128x3 ![] bcast_S_S128x3 main_cst_42
  let main_v111 : IVec S128x3 1 := cmpf .olt main_v109 main_v110
  let main_c_43 : IVec S_ 1 := constantI S_ 1 1#1
  let main_v112 : IVec S_ 1 := (fun x v => Host.reduce IntOp.andi x v reducesTo_S128x3_S_d0_1 h_S_) main_v111 main_c_43
  let main_v113 : IVec S_ 1 := andi main_v108 main_v112
  main_v113

def fn_part5 {F : FTy → Type} [FloatOps F] (main_arg18 : FVec F S128x128 .f32) (main_arg19 : FVec F S128x128 .f32) (main_arg20 : FVec F S128x128 .f32) (main_arg21 : FVec F S128x3 .f32) (main_arg22 : FVec F S128x3 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128x128 .f32 := Host.absf main_arg20
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S128x128 .f32) (main_arg15 : FVec F S128x128 .f32) (main_arg16 : FVec F S128x128 .f32) (main_arg17 : FVec F S128x128 .f32) (main_arg18 : FVec F S128x128 .f32) (main_arg19 : FVec F S128x128 .f32) (main_arg20 : FVec F S128x128 .f32) (main_arg21 : FVec F S128x3 .f32) (main_arg22 : FVec F S128x3 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S128x128 .f32) (main_arg12 : FVec F S259x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_arg19 : FVec F S128x128 .f32) (main_arg20 : FVec F S128x128 .f32) (main_arg21 : FVec F S128x3 .f32) (main_arg22 : FVec F S128x3 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S259x128 .f32 := Host.absf main_arg12
  let main_cst_22 : FVec F S_ .f32 := constant S_ .f32 0x7F800000#32
  let main_v60 : FVec F S259x128 .f32 := broadcastInDim S259x128 ![] bcast_S_S259x128 main_cst_22
  let main_v61 : IVec S259x128 1 := cmpf .olt main_v59 main_v60
  let main_c_23 : IVec S_ 1 := constantI S_ 1 1#1
  let main_v62 : IVec S_ 1 := (fun x v => Host.reduce IntOp.andi x v reducesTo_S259x128_S_d0_1 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S3840x128 .f32) (main_arg8 : FVec F S259x128 .f32) (main_arg9 : FVec F S259x128 .f32) (main_arg10 : FVec F S128x128 .f32) (main_arg11 : FVec F S128x128 .f32) (main_arg12 : FVec F S259x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_arg19 : FVec F S128x128 .f32) (main_arg20 : FVec F S128x128 .f32) (main_arg21 : FVec F S128x3 .f32) (main_arg22 : FVec F S128x3 .f32) (main_v33 : IVec S_ 1) : IVec S_ 1 :=
  let main_v34 : FVec F S3840x128 .f32 := Host.absf main_arg7
  let main_cst_12 : FVec F S_ .f32 := constant S_ .f32 0x7F800000#32
  let main_v35 : FVec F S3840x128 .f32 := broadcastInDim S3840x128 ![] bcast_S_S3840x128 main_cst_12
  let main_v36 : IVec S3840x128 1 := cmpf .olt main_v34 main_v35
  let main_c_13 : IVec S_ 1 := constantI S_ 1 1#1
  let main_v37 : IVec S_ 1 := (fun x v => Host.reduce IntOp.andi x v reducesTo_S3840x128_S_d0_1 h_S_) main_v36 main_c_13
  let main_v38 : IVec S_ 1 := andi main_v33 main_v37
  let main_v39 : FVec F S259x128 .f32 := Host.absf main_arg8
  let main_cst_14 : FVec F S_ .f32 := constant S_ .f32 0x7F800000#32
  let main_v40 : FVec F S259x128 .f32 := broadcastInDim S259x128 ![] bcast_S_S259x128 main_cst_14
  let main_v41 : IVec S259x128 1 := cmpf .olt main_v39 main_v40
  let main_c_15 : IVec S_ 1 := constantI S_ 1 1#1
  let main_v42 : IVec S_ 1 := (fun x v => Host.reduce IntOp.andi x v reducesTo_S259x128_S_d0_1 h_S_) main_v41 main_c_15
  let main_v43 : IVec S_ 1 := andi main_v38 main_v42
  let main_v44 : FVec F S259x128 .f32 := Host.absf main_arg9
  let main_cst_16 : FVec F S_ .f32 := constant S_ .f32 0x7F800000#32
  let main_v45 : FVec F S259x128 .f32 := broadcastInDim S259x128 ![] bcast_S_S259x128 main_cst_16
  let main_v46 : IVec S259x128 1 := cmpf .olt main_v44 main_v45
  let main_c_17 : IVec S_ 1 := constantI S_ 1 1#1
  let main_v47 : IVec S_ 1 := (fun x v => Host.reduce IntOp.andi x v reducesTo_S259x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S8192x8192 .f32) (main_arg5 : FVec F S8192x3 .f32) (main_arg6 : FVec F S8192x128 .f32) (main_arg7 : FVec F S3840x128 .f32) (main_arg8 : FVec F S259x128 .f32) (main_arg9 : FVec F S259x128 .f32) (main_arg10 : FVec F S128x128 .f32) (main_arg11 : FVec F S128x128 .f32) (main_arg12 : FVec F S259x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_arg19 : FVec F S128x128 .f32) (main_arg20 : FVec F S128x128 .f32) (main_arg21 : FVec F S128x3 .f32) (main_arg22 : FVec F S128x3 .f32) (main_v13 : IVec S_ 1) (main_v16 : IVec S1x2048x7x7 1) : IVec S_ 1 :=
  let main_c_5 : IVec S_ 1 := constantI S_ 1 1#1
  let main_v17 : IVec S_ 1 := (fun x v => Host.reduce IntOp.andi x v reducesTo_S1x2048x7x7_S_d0_1_2_3 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S8192x3 .f32 := Host.absf main_arg5
  let main_cst_8 : FVec F S_ .f32 := constant S_ .f32 0x7F800000#32
  let main_v25 : FVec F S8192x3 .f32 := broadcastInDim S8192x3 ![] bcast_S_S8192x3 main_cst_8
  let main_v26 : IVec S8192x3 1 := cmpf .olt main_v24 main_v25
  let main_c_9 : IVec S_ 1 := constantI S_ 1 1#1
  let main_v27 : IVec S_ 1 := (fun x v => Host.reduce IntOp.andi x v reducesTo_S8192x3_S_d0_1 h_S_) main_v26 main_c_9
  let main_v28 : IVec S_ 1 := andi main_v23 main_v27
  let main_v29 : FVec F S8192x128 .f32 := Host.absf main_arg6
  let main_cst_10 : FVec F S_ .f32 := constant S_ .f32 0x7F800000#32
  let main_v30 : FVec F S8192x128 .f32 := broadcastInDim S8192x128 ![] bcast_S_S8192x128 main_cst_10
  let main_v31 : IVec S8192x128 1 := cmpf .olt main_v29 main_v30
  let main_c_11 : IVec S_ 1 := constantI S_ 1 1#1
  let main_v32 : IVec S_ 1 := (fun x v => Host.reduce IntOp.andi x v reducesTo_S8192x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S1x256x56x56 .f32) (main_arg1 : FVec F S1x512x28x28 .f32) (main_arg2 : FVec F S1x1024x14x14 .f32) (main_arg3 : FVec F S1x2048x7x7 .f32) (main_arg4 : FVec F S8192x8192 .f32) (main_arg5 : FVec F S8192x3 .f32) (main_arg6 : FVec F S8192x128 .f32) (main_arg7 : FVec F S3840x128 .f32) (main_arg8 : FVec F S259x128 .f32) (main_arg9 : FVec F S259x128 .f32) (main_arg10 : FVec F S128x128 .f32) (main_arg11 : FVec F S128x128 .f32) (main_arg12 : FVec F S259x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_arg19 : FVec F S128x128 .f32) (main_arg20 : FVec F S128x128 .f32) (main_arg21 : FVec F S128x3 .f32) (main_arg22 : FVec F S128x3 .f32) : IVec S_ 1 :=
  let main_v0 : FVec F S1x256x56x56 .f32 := Host.absf main_arg0
  let main_cst : FVec F S_ .f32 := constant S_ .f32 0x7F800000#32
  let main_v1 : FVec F S1x256x56x56 .f32 := broadcastInDim S1x256x56x56 ![] bcast_S_S1x256x56x56 main_cst
  let main_v2 : IVec S1x256x56x56 1 := cmpf .olt main_v0 main_v1
  let main_c : IVec S_ 1 := constantI S_ 1 1#1
  let main_v3 : IVec S_ 1 := (fun x v => Host.reduce IntOp.andi x v reducesTo_S1x256x56x56_S_d0_1_2_3 h_S_) main_v2 main_c
  let main_v4 : FVec F S1x512x28x28 .f32 := Host.absf main_arg1
  let main_cst_0 : FVec F S_ .f32 := constant S_ .f32 0x7F800000#32
  let main_v5 : FVec F S1x512x28x28 .f32 := broadcastInDim S1x512x28x28 ![] bcast_S_S1x512x28x28 main_cst_0
  let main_v6 : IVec S1x512x28x28 1 := cmpf .olt main_v4 main_v5
  let main_c_1 : IVec S_ 1 := constantI S_ 1 1#1
  let main_v7 : IVec S_ 1 := (fun x v => Host.reduce IntOp.andi x v reducesTo_S1x512x28x28_S_d0_1_2_3 h_S_) main_v6 main_c_1
  let main_v8 : IVec S_ 1 := andi main_v3 main_v7
  let main_v9 : FVec F S1x1024x14x14 .f32 := Host.absf main_arg2
  let main_cst_2 : FVec F S_ .f32 := constant S_ .f32 0x7F800000#32
  let main_v10 : FVec F S1x1024x14x14 .f32 := broadcastInDim S1x1024x14x14 ![] bcast_S_S1x1024x14x14 main_cst_2
  let main_v11 : IVec S1x1024x14x14 1 := cmpf .olt main_v9 main_v10
  let main_c_3 : IVec S_ 1 := constantI S_ 1 1#1
  let main_v12 : IVec S_ 1 := (fun x v => Host.reduce IntOp.andi x v reducesTo_S1x1024x14x14_S_d0_1_2_3 h_S_) main_v11 main_c_3
  let main_v13 : IVec S_ 1 := andi main_v8 main_v12
  let main_v14 : FVec F S1x2048x7x7 .f32 := Host.absf main_arg3
  let main_cst_4 : FVec F S_ .f32 := constant S_ .f32 0x7F800000#32
  let main_v15 : FVec F S1x2048x7x7 .f32 := broadcastInDim S1x2048x7x7 ![] bcast_S_S1x2048x7x7 main_cst_4
  let main_v16 : IVec S1x2048x7x7 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S1x256x56x56 : Shape := ⟨4, ![1, 256, 56, 56]⟩
abbrev S1x512x28x28 : Shape := ⟨4, ![1, 512, 28, 28]⟩
abbrev S1x1024x14x14 : Shape := ⟨4, ![1, 1024, 14, 14]⟩
abbrev S1x2048x7x7 : Shape := ⟨4, ![1, 2048, 7, 7]⟩
abbrev S8192x8192 : Shape := ⟨2, ![8192, 8192]⟩
abbrev S8192x3 : Shape := ⟨2, ![8192, 3]⟩
abbrev S8192x128 : Shape := ⟨2, ![8192, 128]⟩
abbrev S3840x128 : Shape := ⟨2, ![3840, 128]⟩
abbrev S259x128 : Shape := ⟨2, ![259, 128]⟩
abbrev S128x128 : Shape := ⟨2, ![128, 128]⟩
abbrev S128x3 : Shape := ⟨2, ![128, 3]⟩
abbrev S256x56x56 : Shape := ⟨3, ![256, 56, 56]⟩
abbrev S512x28x28 : Shape := ⟨3, ![512, 28, 28]⟩
abbrev S1024x14x14 : Shape := ⟨3, ![1024, 14, 14]⟩
abbrev S2048x7x7 : Shape := ⟨3, ![2048, 7, 7]⟩
abbrev S8192x1 : Shape := ⟨2, ![8192, 1]⟩
abbrev S8192 : Shape := ⟨1, ![8192]⟩
abbrev S_ : Shape := ⟨0, ![]⟩
abbrev S256x128 : Shape := ⟨2, ![256, 128]⟩
abbrev S256x3136 : Shape := ⟨2, ![256, 3136]⟩
abbrev S3136x256 : Shape := ⟨2, ![3136, 256]⟩
abbrev S3136x128 : Shape := ⟨2, ![3136, 128]⟩
abbrev S3200x128 : Shape := ⟨2, ![3200, 128]⟩
abbrev S256x1 : Shape := ⟨2, ![256, 1]⟩
abbrev S256x3200 : Shape := ⟨2, ![256, 3200]⟩
abbrev S512x128 : Shape := ⟨2, ![512, 128]⟩
abbrev S512x784 : Shape := ⟨2, ![512, 784]⟩
abbrev S784x512 : Shape := ⟨2, ![784, 512]⟩
abbrev S784x128 : Shape := ⟨2, ![784, 128]⟩
abbrev S896x128 : Shape := ⟨2, ![896, 128]⟩
abbrev S256x896 : Shape := ⟨2, ![256, 896]⟩
abbrev S1024x128 : Shape := ⟨2, ![1024, 128]⟩
abbrev S1024x196 : Shape := ⟨2, ![1024, 196]⟩
abbrev S196x1024 : Shape := ⟨2, ![196, 1024]⟩
abbrev S196x128 : Shape := ⟨2, ![196, 128]⟩
abbrev S256x256 : Shape := ⟨2, ![256, 256]⟩
abbrev S2048x128 : Shape := ⟨2, ![2048, 128]⟩
abbrev S2048x49 : Shape := ⟨2, ![2048, 49]⟩
abbrev S49x2048 : Shape := ⟨2, ![49, 2048]⟩
abbrev S49x128 : Shape := ⟨2, ![49, 128]⟩
abbrev S8192x259 : Shape := ⟨2, ![8192, 259]⟩
abbrev S1024x4096 : Shape := ⟨2, ![1024, 4096]⟩
abbrev S4096x128 : Shape := ⟨2, ![4096, 128]⟩
abbrev S4096x3 : Shape := ⟨2, ![4096, 3]⟩
abbrev S1024x3 : Shape := ⟨2, ![1024, 3]⟩

abbrev nBuf : Space → Nat
  | .hbm => 390
  | .vmem => 139
  | .smem => 0
  | _ => 0

abbrev hbmTy0_0 (i : Nat) : BufTy := match i % 128 with
  | 0 => ⟨S1x256x56x56, .f32⟩
  | 1 => ⟨S1x512x28x28, .f32⟩
  | 2 => ⟨S1x1024x14x14, .f32⟩
  | 3 => ⟨S1x2048x7x7, .f32⟩
  | 4 => ⟨S8192x8192, .f32⟩
  | 5 => ⟨S8192x3, .f32⟩
  | 6 => ⟨S8192x128, .f32⟩
  | 7 => ⟨S3840x128, .f32⟩
  | 8 => ⟨S259x128, .f32⟩
  | 9 => ⟨S259x128, .f32⟩
  | 10 => ⟨S128x128, .f32⟩
  | 11 => ⟨S128x128, .f32⟩
  | 12 => ⟨S259x128, .f32⟩
  | 13 => ⟨S128x128, .f32⟩
  | 14 => ⟨S128x128, .f32⟩
  | 15 => ⟨S128x128, .f32⟩
  | 16 => ⟨S128x128, .f32⟩
  | 17 => ⟨S128x128, .f32⟩
  | 18 => ⟨S128x128, .f32⟩
  | 19 => ⟨S128x128, .f32⟩
  | 20 => ⟨S128x128, .f32⟩
  | 21 => ⟨S128x3, .f32⟩
  | 22 => ⟨S128x3, .f32⟩
  | 23 => ⟨S8192x8192, .bf16⟩
  | 24 => ⟨S256x56x56, .f32⟩
  | 25 => ⟨S512x28x28, .f32⟩
  | 26 => ⟨S1024x14x14, .f32⟩
  | 27 => ⟨S2048x7x7, .f32⟩
  | 28 => ⟨S8192x1, .f32⟩
  | 29 => ⟨S8192, .f32⟩
  | 30 => ⟨S8192x1, .f32⟩
  | 31 => ⟨S8192, .f32⟩
  | 32 => ⟨S8192, .f32⟩
  | 33 => ⟨S_, .f32⟩
  | 34 => ⟨S8192, .f32⟩
  | 35 => ⟨S8192, .f32⟩
  | 36 => ⟨S_, .f32⟩
  | 37 => ⟨S8192, .f32⟩
  | 38 => ⟨S8192, .f32⟩
  | 39 => ⟨S_, .f32⟩
  | 40 => ⟨S_, .i32⟩
  | 41 => ⟨S_, .f32⟩
  | 42 => ⟨S8192, .f32⟩
  | 43 => ⟨S8192, .f32⟩
  | 44 => ⟨S_, .f32⟩
  | 45 => ⟨S8192, .f32⟩
  | 46 => ⟨S8192, .f32⟩
  | 47 => ⟨S8192x1, .f32⟩
  | 48 => ⟨S8192, .f32⟩
  | 49 => ⟨S8192, .f32⟩
  | 50 => ⟨S8192, .f32⟩
  | 51 => ⟨S_, .f32⟩
  | 52 => ⟨S8192, .f32⟩
  | 53 => ⟨S8192, .f32⟩
  | 54 => ⟨S_, .f32⟩
  | 55 => ⟨S8192, .f32⟩
  | 56 => ⟨S8192, .f32⟩
  | 57 => ⟨S_, .f32⟩
  | 58 => ⟨S_, .i32⟩
  | 59 => ⟨S_, .f32⟩
  | 60 => ⟨S8192, .f32⟩
  | 61 => ⟨S8192, .f32⟩
  | 62 => ⟨S_, .f32⟩
  | 63 => ⟨S8192, .f32⟩
  | 64 => ⟨S8192, .f32⟩
  | 65 => ⟨S_, .f32⟩
  | 66 => ⟨S8192, .f32⟩
  | 67 => ⟨S8192, .f32⟩
  | 68 => ⟨S_, .f32⟩
  | 69 => ⟨S8192, .f32⟩
  | 70 => ⟨S8192, .f32⟩
  | 71 => ⟨S8192, .f32⟩
  | 72 => ⟨S8192, .i32⟩
  | 73 => ⟨S8192, .f32⟩
  | 74 => ⟨S8192, .i32⟩
  | 75 => ⟨S_, .i32⟩
  | 76 => ⟨S8192, .i32⟩
  | 77 => ⟨S8192, .i32⟩
  | 78 => ⟨S8192, .f32⟩
  | 79 => ⟨S8192, .i32⟩
  | 80 => ⟨S8192, .f32⟩
  | 81 => ⟨S8192, .i32⟩
  | 82 => ⟨S_, .i32⟩
  | 83 => ⟨S8192, .i32⟩
  | 84 => ⟨S8192, .i32⟩
  | 85 => ⟨S8192, .i32⟩
  | 86 => ⟨S8192, .i32⟩
  | 87 => ⟨S8192, .i32⟩
  | 88 => ⟨S8192, .i32⟩
  | 89 => ⟨S8192, .i32⟩
  | 90 => ⟨S8192, .f32⟩
  | 91 => ⟨S8192, .i32⟩
  | 92 => ⟨S8192, .i32⟩
  | 93 => ⟨S8192, .i32⟩
  | 94 => ⟨S8192, .f32⟩
  | 95 => ⟨S8192, .i32⟩
  | 96 => ⟨S8192, .i32⟩
  | 97 => ⟨S8192, .i32⟩
  | 98 => ⟨S8192, .f32⟩
  | 99 => ⟨S8192, .i32⟩
  | 100 => ⟨S8192, .i32⟩
  | 101 => ⟨S8192, .i32⟩
  | 102 => ⟨S8192, .f32⟩
  | 103 => ⟨S_, .i32⟩
  | 104 => ⟨S8192, .i32⟩
  | 105 => ⟨S8192, .i32⟩
  | 106 => ⟨S8192, .i32⟩
  | 107 => ⟨S_, .i32⟩
  | 108 => ⟨S8192, .i32⟩
  | 109 => ⟨S8192, .i32⟩
  | 110 => ⟨S8192, .i32⟩
  | 111 => ⟨S_, .i32⟩
  | 112 => ⟨S8192, .i32⟩
  | 113 => ⟨S8192, .i32⟩
  | 114 => ⟨S8192, .i32⟩
  | 115 => ⟨S_, .i32⟩
  | 116 => ⟨S8192, .i32⟩
  | 117 => ⟨S8192, .i32⟩
  | 118 => ⟨S8192, .i32⟩
  | 119 => ⟨S_, .f32⟩
  | 120 => ⟨S8192, .f32⟩
  | 121 => ⟨S8192, .f32⟩
  | 122 => ⟨S_, .f32⟩
  | 123 => ⟨S8192, .f32⟩
  | 124 => ⟨S8192, .f32⟩
  | 125 => ⟨S8192, .f32⟩
  | 126 => ⟨S8192, .i32⟩
  | 127 => ⟨S8192, .f32⟩
  | _ => ⟨S1x256x56x56, .f32⟩

abbrev hbmTy0_1 (i : Nat) : BufTy := match i % 128 with
  | 0 => ⟨S8192, .i32⟩
  | 1 => ⟨S_, .i32⟩
  | 2 => ⟨S8192, .i32⟩
  | 3 => ⟨S8192, .i32⟩
  | 4 => ⟨S8192, .f32⟩
  | 5 => ⟨S8192, .i32⟩
  | 6 => ⟨S8192, .f32⟩
  | 7 => ⟨S8192, .i32⟩
  | 8 => ⟨S_, .i32⟩
  | 9 => ⟨S8192, .i32⟩
  | 10 => ⟨S8192, .i32⟩
  | 11 => ⟨S8192, .i32⟩
  | 12 => ⟨S8192, .i32⟩
  | 13 => ⟨S8192, .i32⟩
  | 14 => ⟨S8192, .i32⟩
  | 15 => ⟨S8192, .i32⟩
  | 16 => ⟨S8192, .f32⟩
  | 17 => ⟨S8192, .i32⟩
  | 18 => ⟨S8192, .i32⟩
  | 19 => ⟨S8192, .i32⟩
  | 20 => ⟨S8192, .f32⟩
  | 21 => ⟨S8192, .i32⟩
  | 22 => ⟨S8192, .i32⟩
  | 23 => ⟨S8192, .i32⟩
  | 24 => ⟨S8192, .f32⟩
  | 25 => ⟨S8192, .i32⟩
  | 26 => ⟨S8192, .i32⟩
  | 27 => ⟨S8192, .i32⟩
  | 28 => ⟨S8192, .f32⟩
  | 29 => ⟨S_, .i32⟩
  | 30 => ⟨S8192, .i32⟩
  | 31 => ⟨S8192, .i32⟩
  | 32 => ⟨S8192, .i32⟩
  | 33 => ⟨S_, .i32⟩
  | 34 => ⟨S8192, .i32⟩
  | 35 => ⟨S8192, .i32⟩
  | 36 => ⟨S8192, .i32⟩
  | 37 => ⟨S_, .i32⟩
  | 38 => ⟨S8192, .i32⟩
  | 39 => ⟨S8192, .i32⟩
  | 40 => ⟨S8192, .i32⟩
  | 41 => ⟨S_, .i32⟩
  | 42 => ⟨S8192, .i32⟩
  | 43 => ⟨S8192, .i32⟩
  | 44 => ⟨S8192, .i32⟩
  | 45 => ⟨S_, .f32⟩
  | 46 => ⟨S8192, .f32⟩
  | 47 => ⟨S8192, .f32⟩
  | 48 => ⟨S_, .f32⟩
  | 49 => ⟨S8192, .f32⟩
  | 50 => ⟨S8192, .f32⟩
  | 51 => ⟨S8192, .f32⟩
  | 52 => ⟨S8192, .i32⟩
  | 53 => ⟨S8192, .f32⟩
  | 54 => ⟨S8192, .i32⟩
  | 55 => ⟨S_, .i32⟩
  | 56 => ⟨S8192, .i32⟩
  | 57 => ⟨S8192, .i32⟩
  | 58 => ⟨S8192, .f32⟩
  | 59 => ⟨S8192, .i32⟩
  | 60 => ⟨S8192, .f32⟩
  | 61 => ⟨S8192, .i32⟩
  | 62 => ⟨S_, .i32⟩
  | 63 => ⟨S8192, .i32⟩
  | 64 => ⟨S8192, .i32⟩
  | 65 => ⟨S8192, .i32⟩
  | 66 => ⟨S8192, .i32⟩
  | 67 => ⟨S8192, .i32⟩
  | 68 => ⟨S8192, .i32⟩
  | 69 => ⟨S8192, .i32⟩
  | 70 => ⟨S8192, .f32⟩
  | 71 => ⟨S8192, .i32⟩
  | 72 => ⟨S8192, .i32⟩
  | 73 => ⟨S8192, .i32⟩
  | 74 => ⟨S8192, .f32⟩
  | 75 => ⟨S8192, .i32⟩
  | 76 => ⟨S8192, .i32⟩
  | 77 => ⟨S8192, .i32⟩
  | 78 => ⟨S8192, .f32⟩
  | 79 => ⟨S8192, .i32⟩
  | 80 => ⟨S8192, .i32⟩
  | 81 => ⟨S8192, .i32⟩
  | 82 => ⟨S8192, .f32⟩
  | 83 => ⟨S_, .i32⟩
  | 84 => ⟨S8192, .i32⟩
  | 85 => ⟨S8192, .i32⟩
  | 86 => ⟨S8192, .i32⟩
  | 87 => ⟨S_, .i32⟩
  | 88 => ⟨S8192, .i32⟩
  | 89 => ⟨S8192, .i32⟩
  | 90 => ⟨S8192, .i32⟩
  | 91 => ⟨S_, .i32⟩
  | 92 => ⟨S8192, .i32⟩
  | 93 => ⟨S8192, .i32⟩
  | 94 => ⟨S8192, .i32⟩
  | 95 => ⟨S_, .i32⟩
  | 96 => ⟨S8192, .i32⟩
  | 97 => ⟨S8192, .i32⟩
  | 98 => ⟨S8192, .i32⟩
  | 99 => ⟨S_, .f32⟩
  | 100 => ⟨S8192, .f32⟩
  | 101 => ⟨S8192, .f32⟩
  | 102 => ⟨S_, .f32⟩
  | 103 => ⟨S8192, .f32⟩
  | 104 => ⟨S8192, .f32⟩
  | 105 => ⟨S8192, .f32⟩
  | 106 => ⟨S8192, .i32⟩
  | 107 => ⟨S8192, .f32⟩
  | 108 => ⟨S8192, .i32⟩
  | 109 => ⟨S_, .i32⟩
  | 110 => ⟨S8192, .i32⟩
  | 111 => ⟨S8192, .i32⟩
  | 112 => ⟨S8192, .f32⟩
  | 113 => ⟨S8192, .i32⟩
  | 114 => ⟨S8192, .f32⟩
  | 115 => ⟨S8192, .i32⟩
  | 116 => ⟨S_, .i32⟩
  | 117 => ⟨S8192, .i32⟩
  | 118 => ⟨S8192, .i32⟩
  | 119 => ⟨S8192, .i32⟩
  | 120 => ⟨S8192, .i32⟩
  | 121 => ⟨S8192, .i32⟩
  | 122 => ⟨S8192, .i32⟩
  | 123 => ⟨S8192, .i32⟩
  | 124 => ⟨S8192, .f32⟩
  | 125 => ⟨S8192, .i32⟩
  | 126 => ⟨S8192, .i32⟩
  | 127 => ⟨S8192, .i32⟩
  | _ => ⟨S1x256x56x56, .f32⟩

abbrev hbmTy0_2 (i : Nat) : BufTy := match i % 128 with
  | 0 => ⟨S8192, .f32⟩
  | 1 => ⟨S8192, .i32⟩
  | 2 => ⟨S8192, .i32⟩
  | 3 => ⟨S8192, .i32⟩
  | 4 => ⟨S8192, .f32⟩
  | 5 => ⟨S8192, .i32⟩
  | 6 => ⟨S8192, .i32⟩
  | 7 => ⟨S8192, .i32⟩
  | 8 => ⟨S8192, .f32⟩
  | 9 => ⟨S_, .i32⟩
  | 10 => ⟨S8192, .i32⟩
  | 11 => ⟨S8192, .i32⟩
  | 12 => ⟨S8192, .i32⟩
  | 13 => ⟨S_, .i32⟩
  | 14 => ⟨S8192, .i32⟩
  | 15 => ⟨S8192, .i32⟩
  | 16 => ⟨S8192, .i32⟩
  | 17 => ⟨S_, .i32⟩
  | 18 => ⟨S8192, .i32⟩
  | 19 => ⟨S8192, .i32⟩
  | 20 => ⟨S8192, .i32⟩
  | 21 => ⟨S_, .i32⟩
  | 22 => ⟨S8192, .i32⟩
  | 23 => ⟨S8192, .i32⟩
  | 24 => ⟨S8192, .i32⟩
  | 25 => ⟨S_, .f32⟩
  | 26 => ⟨S8192x128, .f32⟩
  | 27 => ⟨S256x128, .f32⟩
  | 28 => ⟨S256x3136, .f32⟩
  | 29 => ⟨S3136x256, .f32⟩
  | 30 => ⟨S3136x128, .f32⟩
  | 31 => ⟨S_, .i32⟩
  | 32 => ⟨S_, .f32⟩
  | 33 => ⟨S3200x128, .f32⟩
  | 34 => ⟨S3200x128, .bf16⟩
  | 35 => ⟨S8192x1, .i32⟩
  | 36 => ⟨S8192x1, .i32⟩
  | 37 => ⟨S8192x1, .i32⟩
  | 38 => ⟨S8192x1, .i32⟩
  | 39 => ⟨S8192x1, .f32⟩
  | 40 => ⟨S8192x1, .f32⟩
  | 41 => ⟨S8192x1, .f32⟩
  | 42 => ⟨S8192x1, .f32⟩
  | 43 => ⟨S8192x128, .f32⟩
  | 44 => ⟨S8192x128, .f32⟩
  | 45 => ⟨S512x128, .f32⟩
  | 46 => ⟨S512x784, .f32⟩
  | 47 => ⟨S784x512, .f32⟩
  | 48 => ⟨S784x128, .f32⟩
  | 49 => ⟨S_, .i32⟩
  | 50 => ⟨S_, .f32⟩
  | 51 => ⟨S896x128, .f32⟩
  | 52 => ⟨S896x128, .bf16⟩
  | 53 => ⟨S8192x1, .i32⟩
  | 54 => ⟨S8192x1, .i32⟩
  | 55 => ⟨S8192x1, .i32⟩
  | 56 => ⟨S8192x1, .i32⟩
  | 57 => ⟨S8192x1, .f32⟩
  | 58 => ⟨S8192x1, .f32⟩
  | 59 => ⟨S8192x1, .f32⟩
  | 60 => ⟨S8192x1, .f32⟩
  | 61 => ⟨S8192x128, .f32⟩
  | 62 => ⟨S8192x128, .f32⟩
  | 63 => ⟨S1024x128, .f32⟩
  | 64 => ⟨S1024x196, .f32⟩
  | 65 => ⟨S196x1024, .f32⟩
  | 66 => ⟨S196x128, .f32⟩
  | 67 => ⟨S_, .i32⟩
  | 68 => ⟨S_, .f32⟩
  | 69 => ⟨S256x128, .f32⟩
  | 70 => ⟨S256x128, .bf16⟩
  | 71 => ⟨S8192x1, .i32⟩
  | 72 => ⟨S8192x1, .i32⟩
  | 73 => ⟨S8192x1, .i32⟩
  | 74 => ⟨S8192x1, .i32⟩
  | 75 => ⟨S8192x1, .f32⟩
  | 76 => ⟨S8192x1, .f32⟩
  | 77 => ⟨S8192x1, .f32⟩
  | 78 => ⟨S8192x1, .f32⟩
  | 79 => ⟨S8192x128, .f32⟩
  | 80 => ⟨S8192x128, .f32⟩
  | 81 => ⟨S2048x128, .f32⟩
  | 82 => ⟨S2048x49, .f32⟩
  | 83 => ⟨S49x2048, .f32⟩
  | 84 => ⟨S49x128, .f32⟩
  | 85 => ⟨S_, .i32⟩
  | 86 => ⟨S_, .f32⟩
  | 87 => ⟨S128x128, .f32⟩
  | 88 => ⟨S128x128, .bf16⟩
  | 89 => ⟨S8192x1, .i32⟩
  | 90 => ⟨S8192x1, .i32⟩
  | 91 => ⟨S8192x1, .i32⟩
  | 92 => ⟨S8192x1, .i32⟩
  | 93 => ⟨S8192x1, .f32⟩
  | 94 => ⟨S8192x1, .f32⟩
  | 95 => ⟨S8192x1, .f32⟩
  | 96 => ⟨S8192x1, .f32⟩
  | 97 => ⟨S8192x128, .f32⟩
  | 98 => ⟨S8192x128, .f32⟩
  | 99 => ⟨S8192x259, .f32⟩
  | 100 => ⟨S8192x128, .f32⟩
  | 101 => ⟨S8192x128, .f32⟩
  | 102 => ⟨S8192x128, .f32⟩
  | 103 => ⟨S8192x128, .bf16⟩
  | 104 => ⟨S8192x128, .f32⟩
  | 105 => ⟨S8192x128, .f32⟩
  | 106 => ⟨S8192x128, .f32⟩
  | 107 => ⟨S8192x128, .bf16⟩
  | 108 => ⟨S8192x128, .f32⟩
  | 109 => ⟨S8192x128, .f32⟩
  | 110 => ⟨S8192x128, .f32⟩
  | 111 => ⟨S8192x128, .f32⟩
  | 112 => ⟨S8192x128, .bf16⟩
  | 113 => ⟨S8192x128, .f32⟩
  | 114 => ⟨S8192x128, .f32⟩
  | 115 => ⟨S8192x128, .f32⟩
  | 116 => ⟨S8192x128, .bf16⟩
  | 117 => ⟨S8192x128, .f32⟩
  | 118 => ⟨S8192x128, .f32⟩
  | 119 => ⟨S8192x128, .f32⟩
  | 120 => ⟨S8192x128, .f32⟩
  | 121 => ⟨S8192x128, .bf16⟩
  | 122 => ⟨S8192x128, .f32⟩
  | 123 => ⟨S8192x128, .f32⟩
  | 124 => ⟨S8192x128, .f32⟩
  | 125 => ⟨S8192x128, .bf16⟩
  | 126 => ⟨S8192x128, .f32⟩
  | 127 => ⟨S8192x128, .f32⟩
  | _ => ⟨S1x256x56x56, .f32⟩

abbrev hbmTy0_3 (i : Nat) : BufTy := match i % 128 with
  | 0 => ⟨S8192x3, .f32⟩
  | 1 => ⟨S8192x3, .f32⟩
  | 2 => ⟨S8192x3, .bf16⟩
  | 3 => ⟨S8192x3, .f32⟩
  | 4 => ⟨S8192x3, .f32⟩
  | 5 => ⟨S8192x3, .f32⟩
  | _ => ⟨S1x256x56x56, .f32⟩

abbrev hbmTy (i : Nat) : BufTy := match i / 128 with
  | 0 => hbmTy0_0 i
  | 1 => hbmTy0_1 i
  | 2 => hbmTy0_2 i
  | 3 => hbmTy0_3 i
  | _ => ⟨S1x256x56x56, .f32⟩

abbrev vmemTy0_0 (i : Nat) : BufTy := match i % 128 with
  | 0 => ⟨S256x1, .i32⟩
  | 1 => ⟨S256x1, .i32⟩
  | 2 => ⟨S256x1, .i32⟩
  | 3 => ⟨S256x1, .i32⟩
  | 4 => ⟨S256x1, .i32⟩
  | 5 => ⟨S256x1, .i32⟩
  | 6 => ⟨S256x1, .i32⟩
  | 7 => ⟨S256x1, .i32⟩
  | 8 => ⟨S256x1, .f32⟩
  | 9 => ⟨S256x1, .f32⟩
  | 10 => ⟨S256x1, .f32⟩
  | 11 => ⟨S256x1, .f32⟩
  | 12 => ⟨S256x1, .f32⟩
  | 13 => ⟨S256x1, .f32⟩
  | 14 => ⟨S256x1, .f32⟩
  | 15 => ⟨S256x1, .f32⟩
  | 16 => ⟨S3200x128, .bf16⟩
  | 17 => ⟨S256x128, .f32⟩
  | 18 => ⟨S256x128, .f32⟩
  | 19 => ⟨S256x1, .i32⟩
  | 20 => ⟨S256x1, .i32⟩
  | 21 => ⟨S256x1, .i32⟩
  | 22 => ⟨S256x1, .i32⟩
  | 23 => ⟨S256x1, .i32⟩
  | 24 => ⟨S256x1, .i32⟩
  | 25 => ⟨S256x1, .i32⟩
  | 26 => ⟨S256x1, .i32⟩
  | 27 => ⟨S256x1, .f32⟩
  | 28 => ⟨S256x1, .f32⟩
  | 29 => ⟨S256x1, .f32⟩
  | 30 => ⟨S256x1, .f32⟩
  | 31 => ⟨S256x1, .f32⟩
  | 32 => ⟨S256x1, .f32⟩
  | 33 => ⟨S256x1, .f32⟩
  | 34 => ⟨S256x1, .f32⟩
  | 35 => ⟨S896x128, .bf16⟩
  | 36 => ⟨S256x128, .f32⟩
  | 37 => ⟨S256x128, .f32⟩
  | 38 => ⟨S256x1, .i32⟩
  | 39 => ⟨S256x1, .i32⟩
  | 40 => ⟨S256x1, .i32⟩
  | 41 => ⟨S256x1, .i32⟩
  | 42 => ⟨S256x1, .i32⟩
  | 43 => ⟨S256x1, .i32⟩
  | 44 => ⟨S256x1, .i32⟩
  | 45 => ⟨S256x1, .i32⟩
  | 46 => ⟨S256x1, .f32⟩
  | 47 => ⟨S256x1, .f32⟩
  | 48 => ⟨S256x1, .f32⟩
  | 49 => ⟨S256x1, .f32⟩
  | 50 => ⟨S256x1, .f32⟩
  | 51 => ⟨S256x1, .f32⟩
  | 52 => ⟨S256x1, .f32⟩
  | 53 => ⟨S256x1, .f32⟩
  | 54 => ⟨S256x128, .bf16⟩
  | 55 => ⟨S256x128, .f32⟩
  | 56 => ⟨S256x128, .f32⟩
  | 57 => ⟨S256x1, .i32⟩
  | 58 => ⟨S256x1, .i32⟩
  | 59 => ⟨S256x1, .i32⟩
  | 60 => ⟨S256x1, .i32⟩
  | 61 => ⟨S256x1, .i32⟩
  | 62 => ⟨S256x1, .i32⟩
  | 63 => ⟨S256x1, .i32⟩
  | 64 => ⟨S256x1, .i32⟩
  | 65 => ⟨S256x1, .f32⟩
  | 66 => ⟨S256x1, .f32⟩
  | 67 => ⟨S256x1, .f32⟩
  | 68 => ⟨S256x1, .f32⟩
  | 69 => ⟨S256x1, .f32⟩
  | 70 => ⟨S256x1, .f32⟩
  | 71 => ⟨S256x1, .f32⟩
  | 72 => ⟨S256x1, .f32⟩
  | 73 => ⟨S128x128, .bf16⟩
  | 74 => ⟨S256x128, .f32⟩
  | 75 => ⟨S256x128, .f32⟩
  | 76 => ⟨S1024x4096, .bf16⟩
  | 77 => ⟨S1024x4096, .bf16⟩
  | 78 => ⟨S4096x128, .bf16⟩
  | 79 => ⟨S4096x128, .bf16⟩
  | 80 => ⟨S1024x128, .f32⟩
  | 81 => ⟨S1024x128, .f32⟩
  | 82 => ⟨S1024x128, .f32⟩
  | 83 => ⟨S1024x128, .f32⟩
  | 84 => ⟨S1024x128, .f32⟩
  | 85 => ⟨S1024x4096, .bf16⟩
  | 86 => ⟨S1024x4096, .bf16⟩
  | 87 => ⟨S4096x128, .bf16⟩
  | 88 => ⟨S4096x128, .bf16⟩
  | 89 => ⟨S1024x128, .f32⟩
  | 90 => ⟨S1024x128, .f32⟩
  | 91 => ⟨S1024x128, .f32⟩
  | 92 => ⟨S1024x128, .f32⟩
  | 93 => ⟨S1024x128, .f32⟩
  | 94 => ⟨S1024x4096, .bf16⟩
  | 95 => ⟨S1024x4096, .bf16⟩
  | 96 => ⟨S4096x128, .bf16⟩
  | 97 => ⟨S4096x128, .bf16⟩
  | 98 => ⟨S1024x128, .f32⟩
  | 99 => ⟨S1024x128, .f32⟩
  | 100 => ⟨S1024x128, .f32⟩
  | 101 => ⟨S1024x128, .f32⟩
  | 102 => ⟨S1024x128, .f32⟩
  | 103 => ⟨S1024x4096, .bf16⟩
  | 104 => ⟨S1024x4096, .bf16⟩
  | 105 => ⟨S4096x128, .bf16⟩
  | 106 => ⟨S4096x128, .bf16⟩
  | 107 => ⟨S1024x128, .f32⟩
  | 108 => ⟨S1024x128, .f32⟩
  | 109 => ⟨S1024x128, .f32⟩
  | 110 => ⟨S1024x128, .f32⟩
  | 111 => ⟨S1024x128, .f32⟩
  | 112 => ⟨S1024x4096, .bf16⟩
  | 113 => ⟨S1024x4096, .bf16⟩
  | 114 => ⟨S4096x128, .bf16⟩
  | 115 => ⟨S4096x128, .bf16⟩
  | 116 => ⟨S1024x128, .f32⟩
  | 117 => ⟨S1024x128, .f32⟩
  | 118 => ⟨S1024x128, .f32⟩
  | 119 => ⟨S1024x128, .f32⟩
  | 120 => ⟨S1024x128, .f32⟩
  | 121 => ⟨S1024x4096, .bf16⟩
  | 122 => ⟨S1024x4096, .bf16⟩
  | 123 => ⟨S4096x128, .bf16⟩
  | 124 => ⟨S4096x128, .bf16⟩
  | 125 => ⟨S1024x128, .f32⟩
  | 126 => ⟨S1024x128, .f32⟩
  | 127 => ⟨S1024x128, .f32⟩
  | _ => ⟨S1x256x56x56, .f32⟩

abbrev vmemTy0_1 (i : Nat) : BufTy := match i % 128 with
  | 0 => ⟨S1024x128, .f32⟩
  | 1 => ⟨S1024x128, .f32⟩
  | 2 => ⟨S1024x4096, .bf16⟩
  | 3 => ⟨S1024x4096, .bf16⟩
  | 4 => ⟨S4096x3, .bf16⟩
  | 5 => ⟨S4096x3, .bf16⟩
  | 6 => ⟨S1024x3, .f32⟩
  | 7 => ⟨S1024x3, .f32⟩
  | 8 => ⟨S1024x3, .f32⟩
  | 9 => ⟨S1024x3, .f32⟩
  | 10 => ⟨S1024x3, .f32⟩
  | _ => ⟨S1x256x56x56, .f32⟩

abbrev vmemTy (i : Nat) : BufTy := match i / 128 with
  | 0 => vmemTy0_0 i
  | 1 => vmemTy0_1 i
  | _ => ⟨S1x256x56x56, .f32⟩

abbrev bufTy : (tb : Table) → Fin (tcTables nBuf tb) → BufTy
  | .hbm, ⟨i, _⟩ => hbmTy i
  | .local _ .vmem, ⟨i, _⟩ => vmemTy i
  | _, _ => ⟨S1x256x56x56, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩
abbrev main_cst_3 : Ref sig .tc := ⟨.hbm, 54, rfl⟩
abbrev main_v21 : Ref sig .tc := ⟨.hbm, 55, rfl⟩
abbrev main_v22 : Ref sig .tc := ⟨.hbm, 56, rfl⟩
abbrev main_cst_4 : Ref sig .tc := ⟨.hbm, 57, rfl⟩
abbrev main_c_5 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v23 : Ref sig .tc := ⟨.hbm, 64, rfl⟩
abbrev main_cst_6 : Ref sig .tc := ⟨.hbm, 65, rfl⟩
abbrev main_v24 : Ref sig .tc := ⟨.hbm, 66, rfl⟩
abbrev main_v25 : Ref sig .tc := ⟨.hbm, 67, rfl⟩
abbrev main_cst_7 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_c_8 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_c_9 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_c_10 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_c_11 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_c_12 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_c_13 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_14 : Ref sig .tc := ⟨.hbm, 119, rfl⟩
abbrev main_v70 : Ref sig .tc := ⟨.hbm, 120, rfl⟩
abbrev main_v71 : Ref sig .tc := ⟨.hbm, 121, rfl⟩
abbrev main_cst_15 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_c_16 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_c_17 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_c_18 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_c_19 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_c_20 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_c_21 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_22 : Ref sig .tc := ⟨.hbm, 173, rfl⟩
abbrev main_v116 : Ref sig .tc := ⟨.hbm, 174, rfl⟩
abbrev main_v117 : Ref sig .tc := ⟨.hbm, 175, rfl⟩
abbrev main_cst_23 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_c_24 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_c_25 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_c_26 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_c_27 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_c_28 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_c_29 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_cst_30 : Ref sig .tc := ⟨.hbm, 227, rfl⟩
abbrev main_v162 : Ref sig .tc := ⟨.hbm, 228, rfl⟩
abbrev main_v163 : Ref sig .tc := ⟨.hbm, 229, rfl⟩
abbrev main_cst_31 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_c_32 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_c_33 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_c_34 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_c_35 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_c_36 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_c_37 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_cst_38 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_c_39 : Ref sig .tc := ⟨.hbm, 287, rfl⟩
abbrev main_call2_v0 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_c_40 : Ref sig .tc := ⟨.hbm, 305, rfl⟩
abbrev main_call3_v0 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_c_41 : Ref sig .tc := ⟨.hbm, 323, rfl⟩
abbrev main_call4_v0 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_c_42 : Ref sig .tc := ⟨.hbm, 341, rfl⟩
abbrev main_call5_v0 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_v271 : Ref sig .tc := ⟨.hbm, 353, rfl⟩
abbrev main_v272 : Ref sig .tc := ⟨.hbm, 354, rfl⟩
abbrev main_v273 : Ref sig .tc := ⟨.hbm, 355, rfl⟩
abbrev main_v274 : Ref sig .tc := ⟨.hbm, 356, rfl⟩
abbrev main_v275 : Ref sig .tc := ⟨.hbm, 357, rfl⟩
abbrev main_v276 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩
abbrev main_v299 : Ref sig .tc := ⟨.hbm, 381, rfl⟩
abbrev main_v300 : Ref sig .tc := ⟨.hbm, 382, rfl⟩
abbrev main_v301 : Ref sig .tc := ⟨.hbm, 383, rfl⟩
abbrev main_v302 : Ref sig .tc := ⟨.hbm, 384, rfl⟩
abbrev main_v303 : Ref sig .tc := ⟨.hbm, 385, rfl⟩
abbrev main_v304 : Ref sig .tc := ⟨.hbm, 386, rfl⟩
abbrev main_v305 : Ref sig .tc := ⟨.hbm, 387, rfl⟩
abbrev main_v306 : Ref sig .tc := ⟨.hbm, 388, rfl⟩
abbrev main_v307 : Ref sig .tc := ⟨.hbm, 389, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg9_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg2_1 : Ref sig .tc := ⟨.vmem, 43, rfl⟩
abbrev cc2_stg3_0 : Ref sig .tc := ⟨.vmem, 44, rfl⟩
abbrev cc2_stg3_1 : Ref sig .tc := ⟨.vmem, 45, rfl⟩
abbrev cc2_stg4_0 : Ref sig .tc := ⟨.vmem, 46, rfl⟩
abbrev cc2_stg4_1 : Ref sig .tc := ⟨.vmem, 47, rfl⟩
abbrev cc2_stg5_0 : Ref sig .tc := ⟨.vmem, 48, rfl⟩
abbrev cc2_stg5_1 : Ref sig .tc := ⟨.vmem, 49, rfl⟩
abbrev cc2_stg6_0 : Ref sig .tc := ⟨.vmem, 50, rfl⟩
abbrev cc2_stg6_1 : Ref sig .tc := ⟨.vmem, 51, rfl⟩
abbrev cc2_stg7_0 : Ref sig .tc := ⟨.vmem, 52, rfl⟩
abbrev cc2_stg7_1 : Ref sig .tc := ⟨.vmem, 53, rfl⟩
abbrev cc2_stg8_0 : Ref sig .tc := ⟨.vmem, 54, rfl⟩
abbrev cc2_stg9_0 : Ref sig .tc := ⟨.vmem, 55, rfl⟩
abbrev cc2_stg9_1 : Ref sig .tc := ⟨.vmem, 56, rfl⟩
abbrev cc3_stg0_0 : Ref sig .tc := ⟨.vmem, 57, rfl⟩
abbrev cc3_stg0_1 : Ref sig .tc := ⟨.vmem, 58, rfl⟩
abbrev cc3_stg1_0 : Ref sig .tc := ⟨.vmem, 59, rfl⟩
abbrev cc3_stg1_1 : Ref sig .tc := ⟨.vmem, 60, rfl⟩
abbrev cc3_stg2_0 : Ref sig .tc := ⟨.vmem, 61, rfl⟩
abbrev cc3_stg2_1 : Ref sig .tc := ⟨.vmem, 62, rfl⟩
abbrev cc3_stg3_0 : Ref sig .tc := ⟨.vmem, 63, rfl⟩
abbrev cc3_stg3_1 : Ref sig .tc := ⟨.vmem, 64, rfl⟩
abbrev cc3_stg4_0 : Ref sig .tc := ⟨.vmem, 65, rfl⟩
abbrev cc3_stg4_1 : Ref sig .tc := ⟨.vmem, 66, rfl⟩
abbrev cc3_stg5_0 : Ref sig .tc := ⟨.vmem, 67, rfl⟩
abbrev cc3_stg5_1 : Ref sig .tc := ⟨.vmem, 68, rfl⟩
abbrev cc3_stg6_0 : Ref sig .tc := ⟨.vmem, 69, rfl⟩
abbrev cc3_stg6_1 : Ref sig .tc := ⟨.vmem, 70, rfl⟩
abbrev cc3_stg7_0 : Ref sig .tc := ⟨.vmem, 71, rfl⟩
abbrev cc3_stg7_1 : Ref sig .tc := ⟨.vmem, 72, rfl⟩
abbrev cc3_stg8_0 : Ref sig .tc := ⟨.vmem, 73, rfl⟩
abbrev cc3_stg9_0 : Ref sig .tc := ⟨.vmem, 74, rfl⟩
abbrev cc3_stg9_1 : Ref sig .tc := ⟨.vmem, 75, rfl⟩
abbrev cc4_stg0_0 : Ref sig .tc := ⟨.vmem, 76, rfl⟩
abbrev cc4_stg0_1 : Ref sig .tc := ⟨.vmem, 77, rfl⟩
abbrev cc4_stg1_0 : Ref sig .tc := ⟨.vmem, 78, rfl⟩
abbrev cc4_stg1_1 : Ref sig .tc := ⟨.vmem, 79, rfl⟩
abbrev cc4_stg2_0 : Ref sig .tc := ⟨.vmem, 80, rfl⟩
abbrev cc4_stg2_1 : Ref sig .tc := ⟨.vmem, 81, rfl⟩
abbrev cc4_stg3_0 : Ref sig .tc := ⟨.vmem, 82, rfl⟩
abbrev cc4_stg3_1 : Ref sig .tc := ⟨.vmem, 83, rfl⟩
abbrev cc4_scratch0 : Ref sig .tc := ⟨.vmem, 84, rfl⟩
abbrev cc5_stg0_0 : Ref sig .tc := ⟨.vmem, 85, rfl⟩
abbrev cc5_stg0_1 : Ref sig .tc := ⟨.vmem, 86, rfl⟩
abbrev cc5_stg1_0 : Ref sig .tc := ⟨.vmem, 87, rfl⟩
abbrev cc5_stg1_1 : Ref sig .tc := ⟨.vmem, 88, rfl⟩
abbrev cc5_stg2_0 : Ref sig .tc := ⟨.vmem, 89, rfl⟩
abbrev cc5_stg2_1 : Ref sig .tc := ⟨.vmem, 90, rfl⟩
abbrev cc5_stg3_0 : Ref sig .tc := ⟨.vmem, 91, rfl⟩
abbrev cc5_stg3_1 : Ref sig .tc := ⟨.vmem, 92, rfl⟩
abbrev cc5_scratch0 : Ref sig .tc := ⟨.vmem, 93, rfl⟩
abbrev cc6_stg0_0 : Ref sig .tc := ⟨.vmem, 94, rfl⟩
abbrev cc6_stg0_1 : Ref sig .tc := ⟨.vmem, 95, rfl⟩
abbrev cc6_stg1_0 : Ref sig .tc := ⟨.vmem, 96, rfl⟩
abbrev cc6_stg1_1 : Ref sig .tc := ⟨.vmem, 97, rfl⟩
abbrev cc6_stg2_0 : Ref sig .tc := ⟨.vmem, 98, rfl⟩
abbrev cc6_stg2_1 : Ref sig .tc := ⟨.vmem, 99, rfl⟩
abbrev cc6_stg3_0 : Ref sig .tc := ⟨.vmem, 100, rfl⟩
abbrev cc6_stg3_1 : Ref sig .tc := ⟨.vmem, 101, rfl⟩
abbrev cc6_scratch0 : Ref sig .tc := ⟨.vmem, 102, rfl⟩
abbrev cc7_stg0_0 : Ref sig .tc := ⟨.vmem, 103, rfl⟩
abbrev cc7_stg0_1 : Ref sig .tc := ⟨.vmem, 104, rfl⟩
abbrev cc7_stg1_0 : Ref sig .tc := ⟨.vmem, 105, rfl⟩
abbrev cc7_stg1_1 : Ref sig .tc := ⟨.vmem, 106, rfl⟩
abbrev cc7_stg2_0 : Ref sig .tc := ⟨.vmem, 107, rfl⟩
abbrev cc7_stg2_1 : Ref sig .tc := ⟨.vmem, 108, rfl⟩
abbrev cc7_stg3_0 : Ref sig .tc := ⟨.vmem, 109, rfl⟩
abbrev cc7_stg3_1 : Ref sig .tc := ⟨.vmem, 110, rfl⟩
abbrev cc7_scratch0 : Ref sig .tc := ⟨.vmem, 111, rfl⟩
abbrev cc8_stg0_0 : Ref sig .tc := ⟨.vmem, 112, rfl⟩
abbrev cc8_stg0_1 : Ref sig .tc := ⟨.vmem, 113, rfl⟩
abbrev cc8_stg1_0 : Ref sig .tc := ⟨.vmem, 114, rfl⟩
abbrev cc8_stg1_1 : Ref sig .tc := ⟨.vmem, 115, rfl⟩
abbrev cc8_stg2_0 : Ref sig .tc := ⟨.vmem, 116, rfl⟩
abbrev cc8_stg2_1 : Ref sig .tc := ⟨.vmem, 117, rfl⟩
abbrev cc8_stg3_0 : Ref sig .tc := ⟨.vmem, 118, rfl⟩
abbrev cc8_stg3_1 : Ref sig .tc := ⟨.vmem, 119, rfl⟩
abbrev cc8_scratch0 : Ref sig .tc := ⟨.vmem, 120, rfl⟩
abbrev cc9_stg0_0 : Ref sig .tc := ⟨.vmem, 121, rfl⟩
abbrev cc9_stg0_1 : Ref sig .tc := ⟨.vmem, 122, rfl⟩
abbrev cc9_stg1_0 : Ref sig .tc := ⟨.vmem, 123, rfl⟩
abbrev cc9_stg1_1 : Ref sig .tc := ⟨.vmem, 124, rfl⟩
abbrev cc9_stg2_0 : Ref sig .tc := ⟨.vmem, 125, rfl⟩
abbrev cc9_stg2_1 : Ref sig .tc := ⟨.vmem, 126, rfl⟩
abbrev cc9_stg3_0 : Ref sig .tc := ⟨.vmem, 127, rfl⟩
abbrev cc9_stg3_1 : Ref sig .tc := ⟨.vmem, 128, rfl⟩
abbrev cc9_scratch0 : Ref sig .tc := ⟨.vmem, 129, rfl⟩
abbrev cc10_stg0_0 : Ref sig .tc := ⟨.vmem, 130, rfl⟩
abbrev cc10_stg0_1 : Ref sig .tc := ⟨.vmem, 131, rfl⟩
abbrev cc10_stg1_0 : Ref sig .tc := ⟨.vmem, 132, rfl⟩
abbrev cc10_stg1_1 : Ref sig .tc := ⟨.vmem, 133, rfl⟩
abbrev cc10_stg2_0 : Ref sig .tc := ⟨.vmem, 134, rfl⟩
abbrev cc10_stg2_1 : Ref sig .tc := ⟨.vmem, 135, rfl⟩
abbrev cc10_stg3_0 : Ref sig .tc := ⟨.vmem, 136, rfl⟩
abbrev cc10_stg3_1 : Ref sig .tc := ⟨.vmem, 137, rfl⟩
abbrev cc10_scratch0 : Ref sig .tc := ⟨.vmem, 138, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem6_1 : DmaSem sig := 32
abbrev cc1_sem7_0 : DmaSem sig := 33
abbrev cc1_sem7_1 : DmaSem sig := 34
abbrev cc1_sem8_0 : DmaSem sig := 35
abbrev cc1_sem9_0 : DmaSem sig := 36
abbrev cc1_sem9_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc2_sem3_0 : DmaSem sig := 44
abbrev cc2_sem3_1 : DmaSem sig := 45
abbrev cc2_sem4_0 : DmaSem sig := 46
abbrev cc2_sem4_1 : DmaSem sig := 47
abbrev cc2_sem5_0 : DmaSem sig := 48
abbrev cc2_sem5_1 : DmaSem sig := 49
abbrev cc2_sem6_0 : DmaSem sig := 50
abbrev cc2_sem6_1 : DmaSem sig := 51
abbrev cc2_sem7_0 : DmaSem sig := 52
abbrev cc2_sem7_1 : DmaSem sig := 53
abbrev cc2_sem8_0 : DmaSem sig := 54
abbrev cc2_sem9_0 : DmaSem sig := 55
abbrev cc2_sem9_1 : DmaSem sig := 56
abbrev cc3_sem0_0 : DmaSem sig := 57
abbrev cc3_sem0_1 : DmaSem sig := 58
abbrev cc3_sem1_0 : DmaSem sig := 59
abbrev cc3_sem1_1 : DmaSem sig := 60
abbrev cc3_sem2_0 : DmaSem sig := 61
abbrev cc3_sem2_1 : DmaSem sig := 62
abbrev cc3_sem3_0 : DmaSem sig := 63
abbrev cc3_sem3_1 : DmaSem sig := 64
abbrev cc3_sem4_0 : DmaSem sig := 65
abbrev cc3_sem4_1 : DmaSem sig := 66
abbrev cc3_sem5_0 : DmaSem sig := 67
abbrev cc3_sem5_1 : DmaSem sig := 68
abbrev cc3_sem6_0 : DmaSem sig := 69
abbrev cc3_sem6_1 : DmaSem sig := 70
abbrev cc3_sem7_0 : DmaSem sig := 71
abbrev cc3_sem7_1 : DmaSem sig := 72
abbrev cc3_sem8_0 : DmaSem sig := 73
abbrev cc3_sem9_0 : DmaSem sig := 74
abbrev cc3_sem9_1 : DmaSem sig := 75
abbrev cc4_sem0_0 : DmaSem sig := 76
abbrev cc4_sem0_1 : DmaSem sig := 77
abbrev cc4_sem1_0 : DmaSem sig := 78
abbrev cc4_sem1_1 : DmaSem sig := 79
abbrev cc4_sem2_0 : DmaSem sig := 80
abbrev cc4_sem2_1 : DmaSem sig := 81
abbrev cc4_sem3_0 : DmaSem sig := 82
abbrev cc4_sem3_1 : DmaSem sig := 83
abbrev cc5_sem0_0 : DmaSem sig := 84
abbrev cc5_sem0_1 : DmaSem sig := 85
abbrev cc5_sem1_0 : DmaSem sig := 86
abbrev cc5_sem1_1 : DmaSem sig := 87
abbrev cc5_sem2_0 : DmaSem sig := 88
abbrev cc5_sem2_1 : DmaSem sig := 89
abbrev cc5_sem3_0 : DmaSem sig := 90
abbrev cc5_sem3_1 : DmaSem sig := 91
abbrev cc6_sem0_0 : DmaSem sig := 92
abbrev cc6_sem0_1 : DmaSem sig := 93
abbrev cc6_sem1_0 : DmaSem sig := 94
abbrev cc6_sem1_1 : DmaSem sig := 95
abbrev cc6_sem2_0 : DmaSem sig := 96
abbrev cc6_sem2_1 : DmaSem sig := 97
abbrev cc6_sem3_0 : DmaSem sig := 98
abbrev cc6_sem3_1 : DmaSem sig := 99
abbrev cc7_sem0_0 : DmaSem sig := 100
abbrev cc7_sem0_1 : DmaSem sig := 101
abbrev cc7_sem1_0 : DmaSem sig := 102
abbrev cc7_sem1_1 : DmaSem sig := 103
abbrev cc7_sem2_0 : DmaSem sig := 104
abbrev cc7_sem2_1 : DmaSem sig := 105
abbrev cc7_sem3_0 : DmaSem sig := 106
abbrev cc7_sem3_1 : DmaSem sig := 107
abbrev cc8_sem0_0 : DmaSem sig := 108
abbrev cc8_sem0_1 : DmaSem sig := 109
abbrev cc8_sem1_0 : DmaSem sig := 110
abbrev cc8_sem1_1 : DmaSem sig := 111
abbrev cc8_sem2_0 : DmaSem sig := 112
abbrev cc8_sem2_1 : DmaSem sig := 113
abbrev cc8_sem3_0 : DmaSem sig := 114
abbrev cc8_sem3_1 : DmaSem sig := 115
abbrev cc9_sem0_0 : DmaSem sig := 116
abbrev cc9_sem0_1 : DmaSem sig := 117
abbrev cc9_sem1_0 : DmaSem sig := 118
abbrev cc9_sem1_1 : DmaSem sig := 119
abbrev cc9_sem2_0 : DmaSem sig := 120
abbrev cc9_sem2_1 : DmaSem sig := 121
abbrev cc9_sem3_0 : DmaSem sig := 122
abbrev cc9_sem3_1 : DmaSem sig := 123
abbrev cc10_sem0_0 : DmaSem sig := 124
abbrev cc10_sem0_1 : DmaSem sig := 125
abbrev cc10_sem1_0 : DmaSem sig := 126
abbrev cc10_sem1_1 : DmaSem sig := 127
abbrev cc10_sem2_0 : DmaSem sig := 128
abbrev cc10_sem2_1 : DmaSem sig := 129
abbrev cc10_sem3_0 : DmaSem sig := 130
abbrev cc10_sem3_1 : DmaSem sig := 131

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3200x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S896x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S256x128 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S256x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S128x128 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S256x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨2, ![8, 2], ![false, false]⟩

def k4_cond2 (i : grid4.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S4096x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![8, 2], ![false, false]⟩

def k5_cond2 (i : grid5.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S4096x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1024x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨2, ![8, 2], ![false, false]⟩

def k6_cond2 (i : grid6.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S4096x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S1024x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![8, 2], ![false, false]⟩

def k7_cond2 (i : grid7.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S4096x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1024x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![8, 2], ![false, false]⟩

def k8_cond2 (i : grid8.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1024x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S4096x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev stage8_3 : Fin 2 → Memref sig .tc .vmem S1024x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev grid9 : Pipeline.Grid := ⟨2, ![8, 2], ![false, false]⟩

def k9_cond2 (i : grid9.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S1024x4096 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S4096x128 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1024x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 2 → Memref sig .tc .vmem S1024x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev grid10 : Pipeline.Grid := ⟨2, ![8, 2], ![false, false]⟩

def k10_cond2 (i : grid10.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S1024x4096 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S4096x3 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1024x3 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev stage10_3 : Fin 2 → Memref sig .tc .vmem S1024x3 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

class Facts₀ : Prop where
  bitsLt_bf16_f32 : FTy.bits .bf16 < FTy.bits .f32
  shapeCasts_S1x256x56x56_S256x56x56 : S1x256x56x56.ShapeCasts S256x56x56
  shapeCasts_S1x512x28x28_S512x28x28 : S1x512x28x28.ShapeCasts S512x28x28
  shapeCasts_S1x1024x14x14_S1024x14x14 : S1x1024x14x14.ShapeCasts S1024x14x14
  shapeCasts_S1x2048x7x7_S2048x7x7 : S1x2048x7x7.ShapeCasts S2048x7x7
  slices_S8192x3_S8192x1_0_2 : S8192x3.Slices ![0, 2] S8192x1
  shapeCasts_S8192x1_S8192 : S8192x1.ShapeCasts S8192
  slices_S8192x3_S8192x1_0_1 : S8192x3.Slices ![0, 1] S8192x1
  bcast_S_S8192 : S_.BroadcastsInDim S8192 (![] : Fin 0 → Fin S8192.rank)
  slices_S8192x3_S8192x1_0_0 : S8192x3.Slices ![0, 0] S8192x1
  bcast_S_S8192x128 : S_.BroadcastsInDim S8192x128 (![] : Fin 0 → Fin S8192x128.rank)
  slices_S3840x128_S256x128_0_0 : S3840x128.Slices ![0, 0] S256x128
  shapeCasts_S256x56x56_S256x3136 : S256x56x56.ShapeCasts S256x3136
  transposes_S256x3136_S3136x256_1_0 : S256x3136.Transposes [1, 0] S3136x256
  pads_S3136x128_S3200x128_0640_000 : S3136x128.Pads (![0, 0] : Fin 2 → Nat) ![64, 0] ![0, 0] S3200x128
  h_S_ : 0 < S_.numel
  shapeCasts_S8192_S8192x1 : S8192.ShapeCasts S8192x1
  iota_S256x3200_d1_w32 : S256x3200.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x3200 : S256x1.Broadcasts S256x3200
  natLt_1_32 : 1 < 32
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S256x128_S256x128_0_0 : ∀ a, (![0, 0] : Fin 2 → Nat) a + S256x128.size a ≤ S256x128.size a
  h_S256x128 : 0 < S256x128.numel
  slices_S3840x128_S512x128_256_0 : S3840x128.Slices ![256, 0] S512x128
  shapeCasts_S512x28x28_S512x784 : S512x28x28.ShapeCasts S512x784
  transposes_S512x784_S784x512_1_0 : S512x784.Transposes [1, 0] S784x512
  pads_S784x128_S896x128_01120_000 : S784x128.Pads (![0, 0] : Fin 2 → Nat) ![112, 0] ![0, 0] S896x128
  iota_S256x896_d1_w32 : S256x896.Iotas .tc 32 [1]
  broadcasts_S256x1_S256x896 : S256x1.Broadcasts S256x896
  inb_S896x128_S896x128_0_0 : ∀ a, (![0, 0] : Fin 2 → Nat) a + S896x128.size a ≤ S896x128.size a
  h_S896x128 : 0 < S896x128.numel
  shapeCasts_S896x128_S896x128 : S896x128.ShapeCasts S896x128
  slices_S3840x128_S1024x128_768_0 : S3840x128.Slices ![768, 0] S1024x128
  shapeCasts_S1024x14x14_S1024x196 : S1024x14x14.ShapeCasts S1024x196
  transposes_S1024x196_S196x1024_1_0 : S1024x196.Transposes [1, 0] S196x1024
  pads_S196x128_S256x128_0600_000 : S196x128.Pads (![0, 0] : Fin 2 → Nat) ![60, 0] ![0, 0] S256x128
  iota_S256x256_d1_w32 : S256x256.Iotas .tc 32 [1]
  broadcasts_S256x1_S256x256 : S256x1.Broadcasts S256x256
  shapeCasts_S256x128_S256x128 : S256x128.ShapeCasts S256x128
  slices_S3840x128_S2048x128_1792_0 : S3840x128.Slices ![1792, 0] S2048x128
  shapeCasts_S2048x7x7_S2048x49 : S2048x7x7.ShapeCasts S2048x49
  transposes_S2048x49_S49x2048_1_0 : S2048x49.Transposes [1, 0] S49x2048
  pads_S49x128_S128x128_0790_000 : S49x128.Pads (![0, 0] : Fin 2 → Nat) ![79, 0] ![0, 0] S128x128
  iota_S256x128_d1_w32 : S256x128.Iotas .tc 32 [1]
  broadcasts_S256x1_S256x128 : S256x1.Broadcasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S8192x128_S8192x3_S8192x128_S8192x259_d1 : Shape.Concatenates [S8192x128, S8192x3, S8192x128] S8192x259 1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  dot_S3136x256_S256x128_S3136x128_1_0_0_1_n_n_wf : DotDims.WF S3136x256 S256x128 S3136x128 [1] [0] [0] [1] [] []
  dot_S256x3200_S3200x128_S256x128_1_0_0_1_n_n_wf : DotDims.WF S256x3200 S3200x128 S256x128 [1] [0] [0] [1] [] []
  dot_S784x512_S512x128_S784x128_1_0_0_1_n_n_wf : DotDims.WF S784x512 S512x128 S784x128 [1] [0] [0] [1] [] []
  dot_S256x896_S896x128_S256x128_1_0_0_1_n_n_wf : DotDims.WF S256x896 S896x128 S256x128 [1] [0] [0] [1] [] []
  dot_S196x1024_S1024x128_S196x128_1_0_0_1_n_n_wf : DotDims.WF S196x1024 S1024x128 S196x128 [1] [0] [0] [1] [] []
  dot_S256x256_S256x128_S256x128_1_0_0_1_n_n_wf : DotDims.WF S256x256 S256x128 S256x128 [1] [0] [0] [1] [] []
  dot_S49x2048_S2048x128_S49x128_1_0_0_1_n_n_wf : DotDims.WF S49x2048 S2048x128 S49x128 [1] [0] [0] [1] [] []
  dot_S256x128_S128x128_S256x128_1_0_0_1_n_n_wf : DotDims.WF S256x128 S128x128 S256x128 [1] [0] [0] [1] [] []
  dot_S8192x259_S259x128_S8192x128_1_0_0_1_n_n_wf : DotDims.WF S8192x259 S259x128 S8192x128 [1] [0] [0] [1] [] []
  dot_S1024x4096_S4096x128_S1024x128_1_0_0_1_n_n_wf : DotDims.WF S1024x4096 S4096x128 S1024x128 [1] [0] [0] [1] [] []
  dot_S8192x128_S128x128_S8192x128_1_0_0_1_n_n_wf : DotDims.WF S8192x128 S128x128 S8192x128 [1] [0] [0] [1] [] []
  dot_S8192x128_S128x3_S8192x3_1_0_0_1_n_n_wf : DotDims.WF S8192x128 S128x3 S8192x3 [1] [0] [0] [1] [] []
  dot_S1024x4096_S4096x3_S1024x3_1_0_0_1_n_n_wf : DotDims.WF S1024x4096 S4096x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S8192x1.size a
  hwx0_0 : ∀ i : grid0.Coords, EltTy.bits .i32 = 32 ∨ (Rect.block (s := S8192x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .i32 = 32 ∨ (Rect.block (s := S8192x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .i32 = 32 ∨ (Rect.block (s := S8192x1) S256x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S8192x1.size a
  hwx0_5 : ∀ i : grid0.Coords, EltTy.bits .f32 = 32 ∨ (Rect.block (s := S8192x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S8192x1.size a
  hwx0_6 : ∀ i : grid0.Coords, EltTy.bits .f32 = 32 ∨ (Rect.block (s := S8192x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S8192x1.size a
  hwx0_7 : ∀ i : grid0.Coords, EltTy.bits .f32 = 32 ∨ (Rect.block (s := S8192x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3200x128.size a ≤ S3200x128.size a
  hwx0_8 : ∀ i : grid0.Coords, EltTy.bits .bf16 = 32 ∨ (Rect.block (s := S3200x128) S3200x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S8192x128.size a
  hwx0_9 : ∀ i : grid0.Coords, EltTy.bits .f32 = 32 ∨ (Rect.block (s := S8192x128) S256x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1.size a ≤ S8192x1.size a
  hwx1_0 : ∀ i : grid1.Coords, EltTy.bits .i32 = 32 ∨ (Rect.block (s := S8192x1) S256x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S8192x1.size a
  hwx1_1 : ∀ i : grid1.Coords, EltTy.bits .i32 = 32 ∨ (Rect.block (s := S8192x1) S256x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S8192x1.size a
  hwx1_2 : ∀ i : grid1.Coords, EltTy.bits .i32 = 32 ∨ (Rect.block (s := S8192x1) S256x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S8192x1.size a
  hwx1_3 : ∀ i : grid1.Coords, EltTy.bits .i32 = 32 ∨ (Rect.block (s := S8192x1) S256x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S8192x1.size a
  hwx1_4 : ∀ i : grid1.Coords, EltTy.bits .f32 = 32 ∨ (Rect.block (s := S8192x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S8192x1.size a
  hwx1_5 : ∀ i : grid1.Coords, EltTy.bits .f32 = 32 ∨ (Rect.block (s := S8192x1) S256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S8192x1.size a
  hwx1_6 : ∀ i : grid1.Coords, EltTy.bits .f32 = 32 ∨ (Rect.block (s := S8192x1) S256x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x1.size a ≤ S8192x1.size a
  hwx1_7 : ∀ i : grid1.Coords, EltTy.bits .f32 = 32 ∨ (Rect.block (s := S8192x1) S256x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S896x128.size a ≤ S896x128.size a
  hwx1_8 : ∀ i : grid1.Coords, EltTy.bits .bf16 = 32 ∨ (Rect.block (s := S896x128) S896x128.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x128.size a ≤ S8192x128.size a
  hwx1_9 : ∀ i : grid1.Coords, EltTy.bits .f32 = 32 ∨ (Rect.block (s := S8192x128) S256x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1.size a ≤ S8192x1.size a
  hwx2_0 : ∀ i : grid2.Coords, EltTy.bits .i32 = 32 ∨ (Rect.block (s := S8192x1) S256x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S8192x1.size a
  hwx2_1 : ∀ i : grid2.Coords, EltTy.bits .i32 = 32 ∨ (Rect.block (s := S8192x1) S256x1.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S8192x1.size a
  hwx2_2 : ∀ i : grid2.Coords, EltTy.bits .i32 = 32 ∨ (Rect.block (s := S8192x1) S256x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S8192x1.size a
  hwx2_3 : ∀ i : grid2.Coords, EltTy.bits .i32 = 32 ∨ (Rect.block (s := S8192x1) S256x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S8192x1.size a
  hwx2_4 : ∀ i : grid2.Coords, EltTy.bits .f32 = 32 ∨ (Rect.block (s := S8192x1) S256x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S8192x1.size a
  hwx2_5 : ∀ i : grid2.Coords, EltTy.bits .f32 = 32 ∨ (Rect.block (s := S8192x1) S256x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x1.size a ≤ S8192x1.size a
  hwx2_6 : ∀ i : grid2.Coords, EltTy.bits .f32 = 32 ∨ (Rect.block (s := S8192x1) S256x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x1.size a ≤ S8192x1.size a
  hwx2_7 : ∀ i : grid2.Coords, EltTy.bits .f32 = 32 ∨ (Rect.block (s := S8192x1) S256x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S256x128.size a
  hwx2_8 : ∀ i : grid2.Coords, EltTy.bits .bf16 = 32 ∨ (Rect.block (s := S256x128) S256x128.size (cc2_transform_8 i) (hinb2_8 i)).WholeWords (EltTy.packing .bf16)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S256x128.size a ≤ S8192x128.size a
  hwx2_9 : ∀ i : grid2.Coords, EltTy.bits .f32 = 32 ∨ (Rect.block (s := S8192x128) S256x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x1.size a ≤ S8192x1.size a
  hwx3_0 : ∀ i : grid3.Coords, EltTy.bits .i32 = 32 ∨ (Rect.block (s := S8192x1) S256x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x1.size a ≤ S8192x1.size a
  hwx3_1 : ∀ i : grid3.Coords, EltTy.bits .i32 = 32 ∨ (Rect.block (s := S8192x1) S256x1.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1.size a ≤ S8192x1.size a
  hwx3_2 : ∀ i : grid3.Coords, EltTy.bits .i32 = 32 ∨ (Rect.block (s := S8192x1) S256x1.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x1.size a ≤ S8192x1.size a
  hwx3_3 : ∀ i : grid3.Coords, EltTy.bits .i32 = 32 ∨ (Rect.block (s := S8192x1) S256x1.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x1.size a ≤ S8192x1.size a
  hwx3_4 : ∀ i : grid3.Coords, EltTy.bits .f32 = 32 ∨ (Rect.block (s := S8192x1) S256x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x1.size a ≤ S8192x1.size a
  hwx3_5 : ∀ i : grid3.Coords, EltTy.bits .f32 = 32 ∨ (Rect.block (s := S8192x1) S256x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S256x1.size a ≤ S8192x1.size a
  hwx3_6 : ∀ i : grid3.Coords, EltTy.bits .f32 = 32 ∨ (Rect.block (s := S8192x1) S256x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S256x1.size a ≤ S8192x1.size a
  hwx3_7 : ∀ i : grid3.Coords, EltTy.bits .f32 = 32 ∨ (Rect.block (s := S8192x1) S256x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .bf16 = 32 ∨ (Rect.block (s := S128x128) S128x128.size (cc3_transform_8 i) (hinb3_8 i)).WholeWords (EltTy.packing .bf16)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S256x128.size a ≤ S8192x128.size a
  hwx3_9 : ∀ i : grid3.Coords, EltTy.bits .f32 = 32 ∨ (Rect.block (s := S8192x128) S256x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x4096.size a ≤ S8192x8192.size a
  hwx4_0 : ∀ i : grid4.Coords, EltTy.bits .bf16 = 32 ∨ (Rect.block (s := S8192x8192) S1024x4096.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S8192x128.size a
  hwx4_1 : ∀ i : grid4.Coords, EltTy.bits .bf16 = 32 ∨ (Rect.block (s := S8192x128) S4096x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S8192x128.size a
  hwx4_2 : ∀ i : grid4.Coords, EltTy.bits .f32 = 32 ∨ (Rect.block (s := S8192x128) S1024x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S8192x128.size a
  hwx4_3 : ∀ i : grid4.Coords, EltTy.bits .f32 = 32 ∨ (Rect.block (s := S8192x128) S1024x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x4096.size a ≤ S8192x8192.size a
  hwx5_0 : ∀ i : grid5.Coords, EltTy.bits .bf16 = 32 ∨ (Rect.block (s := S8192x8192) S1024x4096.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x128.size a ≤ S8192x128.size a
  hwx5_1 : ∀ i : grid5.Coords, EltTy.bits .bf16 = 32 ∨ (Rect.block (s := S8192x128) S4096x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x128.size a ≤ S8192x128.size a
  hwx5_2 : ∀ i : grid5.Coords, EltTy.bits .f32 = 32 ∨ (Rect.block (s := S8192x128) S1024x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x128.size a ≤ S8192x128.size a
  hwx5_3 : ∀ i : grid5.Coords, EltTy.bits .f32 = 32 ∨ (Rect.block (s := S8192x128) S1024x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x4096.size a ≤ S8192x8192.size a
  hwx6_0 : ∀ i : grid6.Coords, EltTy.bits .bf16 = 32 ∨ (Rect.block (s := S8192x8192) S1024x4096.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x128.size a ≤ S8192x128.size a
  hwx6_1 : ∀ i : grid6.Coords, EltTy.bits .bf16 = 32 ∨ (Rect.block (s := S8192x128) S4096x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x128.size a ≤ S8192x128.size a
  hwx6_2 : ∀ i : grid6.Coords, EltTy.bits .f32 = 32 ∨ (Rect.block (s := S8192x128) S1024x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x128.size a ≤ S8192x128.size a
  hwx6_3 : ∀ i : grid6.Coords, EltTy.bits .f32 = 32 ∨ (Rect.block (s := S8192x128) S1024x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x4096.size a ≤ S8192x8192.size a
  hwx7_0 : ∀ i : grid7.Coords, EltTy.bits .bf16 = 32 ∨ (Rect.block (s := S8192x8192) S1024x4096.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4096x128.size a ≤ S8192x128.size a
  hwx7_1 : ∀ i : grid7.Coords, EltTy.bits .bf16 = 32 ∨ (Rect.block (s := S8192x128) S4096x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x128.size a ≤ S8192x128.size a
  hwx7_2 : ∀ i : grid7.Coords, EltTy.bits .f32 = 32 ∨ (Rect.block (s := S8192x128) S1024x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x128.size a ≤ S8192x128.size a
  hwx7_3 : ∀ i : grid7.Coords, EltTy.bits .f32 = 32 ∨ (Rect.block (s := S8192x128) S1024x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x4096.size a ≤ S8192x8192.size a
  hwx8_0 : ∀ i : grid8.Coords, EltTy.bits .bf16 = 32 ∨ (Rect.block (s := S8192x8192) S1024x4096.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096x128.size a ≤ S8192x128.size a
  hwx8_1 : ∀ i : grid8.Coords, EltTy.bits .bf16 = 32 ∨ (Rect.block (s := S8192x128) S4096x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x128.size a ≤ S8192x128.size a
  hwx8_2 : ∀ i : grid8.Coords, EltTy.bits .f32 = 32 ∨ (Rect.block (s := S8192x128) S1024x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1024x128.size a ≤ S8192x128.size a
  hwx8_3 : ∀ i : grid8.Coords, EltTy.bits .f32 = 32 ∨ (Rect.block (s := S8192x128) S1024x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x4096.size a ≤ S8192x8192.size a
  hwx9_0 : ∀ i : grid9.Coords, EltTy.bits .bf16 = 32 ∨ (Rect.block (s := S8192x8192) S1024x4096.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4096x128.size a ≤ S8192x128.size a
  hwx9_1 : ∀ i : grid9.Coords, EltTy.bits .bf16 = 32 ∨ (Rect.block (s := S8192x128) S4096x128.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x128.size a ≤ S8192x128.size a
  hwx9_2 : ∀ i : grid9.Coords, EltTy.bits .f32 = 32 ∨ (Rect.block (s := S8192x128) S1024x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1024x128.size a ≤ S8192x128.size a
  hwx9_3 : ∀ i : grid9.Coords, EltTy.bits .f32 = 32 ∨ (Rect.block (s := S8192x128) S1024x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x4096.size a ≤ S8192x8192.size a
  hwx10_0 : ∀ i : grid10.Coords, EltTy.bits .bf16 = 32 ∨ (Rect.block (s := S8192x8192) S1024x4096.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4096x3.size a ≤ S8192x3.size a
  hwx10_1 : ∀ i : grid10.Coords, EltTy.bits .bf16 = 32 ∨ (Rect.block (s := S8192x3) S4096x3.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x3.size a ≤ S8192x3.size a
  hwx10_2 : ∀ i : grid10.Coords, EltTy.bits .f32 = 32 ∨ (Rect.block (s := S8192x3) S1024x3.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1024x3.size a ≤ S8192x3.size a
  hwx10_3 : ∀ i : grid10.Coords, EltTy.bits .f32 = 32 ∨ (Rect.block (s := S8192x3) S1024x3.size (cc10_transform_3 i) (hinb10_3 i)).WholeWords (EltTy.packing .f32)

variable [Facts₀]

def dot_S3136x256_S256x128_S3136x128_1_0_0_1_n_n : DotDims S3136x256 S256x128 S3136x128 where
  lhsContracting := [1]
  rhsContracting := [0]
  lhsNonContracting := [0]
  rhsNonContracting := [1]
  lhsBatch := []
  rhsBatch := []
  wf := dot_S3136x256_S256x128_S3136x128_1_0_0_1_n_n_wf
def dot_S256x3200_S3200x128_S256x128_1_0_0_1_n_n : DotDims S256x3200 S3200x128 S256x128 where
  lhsContracting := [1]
  rhsContracting := [0]
  lhsNonContracting := [0]
  rhsNonContracting := [1]
  lhsBatch := []
  rhsBatch := []
  wf := dot_S256x3200_S3200x128_S256x128_1_0_0_1_n_n_wf
def dot_S784x512_S512x128_S784x128_1_0_0_1_n_n : DotDims S784x512 S512x128 S784x128 where
  lhsContracting := [1]
  rhsContracting := [0]
  lhsNonContracting := [0]
  rhsNonContracting := [1]
  lhsBatch := []
  rhsBatch := []
  wf := dot_S784x512_S512x128_S784x128_1_0_0_1_n_n_wf
def dot_S256x896_S896x128_S256x128_1_0_0_1_n_n : DotDims S256x896 S896x128 S256x128 where
  lhsContracting := [1]
  rhsContracting := [0]
  lhsNonContracting := [0]
  rhsNonContracting := [1]
  lhsBatch := []
  rhsBatch := []
  wf := dot_S256x896_S896x128_S256x128_1_0_0_1_n_n_wf
def dot_S196x1024_S1024x128_S196x128_1_0_0_1_n_n : DotDims S196x1024 S1024x128 S196x128 where
  lhsContracting := [1]
  rhsContracting := [0]
  lhsNonContracting := [0]
  rhsNonContracting := [1]
  lhsBatch := []
  rhsBatch := []
  wf := dot_S196x1024_S1024x128_S196x128_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S49x2048_S2048x128_S49x128_1_0_0_1_n_n : DotDims S49x2048 S2048x128 S49x128 where
  lhsContracting := [1]
  rhsContracting := [0]
  lhsNonContracting := [0]
  rhsNonContracting := [1]
  lhsBatch := []
  rhsBatch := []
  wf := dot_S49x2048_S2048x128_S49x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S8192x259_S259x128_S8192x128_1_0_0_1_n_n : DotDims S8192x259 S259x128 S8192x128 where
  lhsContracting := [1]
  rhsContracting := [0]
  lhsNonContracting := [0]
  rhsNonContracting := [1]
  lhsBatch := []
  rhsBatch := []
  wf := dot_S8192x259_S259x128_S8192x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x3_S8192x3_1_0_0_1_n_n : DotDims S8192x128 S128x3 S8192x3 where
  lhsContracting := [1]
  rhsContracting := [0]
  lhsNonContracting := [0]
  rhsNonContracting := [1]
  lhsBatch := []
  rhsBatch := []
  wf := dot_S8192x128_S128x3_S8192x3_1_0_0_1_n_n_wf
def dot_S1024x4096_S4096x3_S1024x3_1_0_0_1_n_n : DotDims S1024x4096 S4096x3 S1024x3 where
  lhsContracting := [1]
  rhsContracting := [0]
  lhsNonContracting := [0]
  rhsNonContracting := [1]
  lhsBatch := []
  rhsBatch := []
  wf := dot_S1024x4096_S4096x3_S1024x3_1_0_0_1_n_n_wf

abbrev win0_0 : Pipeline.Window sig grid0 :=
  Pipeline.Window.ofSpec (Memref.whole main_v215) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v216) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v217) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v218) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v219) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v220) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v221) S256x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v222) S256x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v214) S3200x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v223) S256x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v231) S256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v232) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v233) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v234) S256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v235) S256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v236) S256x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v237) S256x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v238) S256x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v230) S896x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v239) S256x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v247) S256x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v248) S256x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v249) S256x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v250) S256x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v251) S256x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v252) S256x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v253) S256x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v254) S256x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v246) S256x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v255) S256x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v263) S256x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v264) S256x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v265) S256x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v266) S256x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v267) S256x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v268) S256x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v269) S256x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v270) S256x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v262) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v271) S256x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v0) S1024x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v277) S4096x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v275) S1024x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v278) S1024x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v0) S1024x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v281) S4096x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v279) S1024x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v282) S1024x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v0) S1024x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v286) S4096x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v284) S1024x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v287) S1024x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v0) S1024x4096.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v290) S4096x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v288) S1024x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v291) S1024x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v0) S1024x4096.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v295) S4096x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v293) S1024x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v296) S1024x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v0) S1024x4096.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v299) S4096x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v297) S1024x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v300) S1024x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v0) S1024x4096.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v304) S4096x3.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v302) S1024x3.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v305) S1024x3.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

class Facts : Prop extends Facts₀ where

variable [Facts]
-- ==== ReferenceIdeal.lean ====
abbrev S1x256x56x56 : Shape := ⟨4, ![1, 256, 56, 56]⟩
abbrev S1x512x28x28 : Shape := ⟨4, ![1, 512, 28, 28]⟩
abbrev S1x1024x14x14 : Shape := ⟨4, ![1, 1024, 14, 14]⟩
abbrev S1x2048x7x7 : Shape := ⟨4, ![1, 2048, 7, 7]⟩
abbrev S8192x8192 : Shape := ⟨2, ![8192, 8192]⟩
abbrev S8192x3 : Shape := ⟨2, ![8192, 3]⟩
abbrev S8192x128 : Shape := ⟨2, ![8192, 128]⟩
abbrev S3840x128 : Shape := ⟨2, ![3840, 128]⟩
abbrev S259x128 : Shape := ⟨2, ![259, 128]⟩
abbrev S128x128 : Shape := ⟨2, ![128, 128]⟩
abbrev S128x3 : Shape := ⟨2, ![128, 3]⟩
abbrev S256x56x56 : Shape := ⟨3, ![256, 56, 56]⟩
abbrev S512x28x28 : Shape := ⟨3, ![512, 28, 28]⟩
abbrev S1024x14x14 : Shape := ⟨3, ![1024, 14, 14]⟩
abbrev S2048x7x7 : Shape := ⟨3, ![2048, 7, 7]⟩
abbrev S8192x1 : Shape := ⟨2, ![8192, 1]⟩
abbrev S8192 : Shape := ⟨1, ![8192]⟩
abbrev S_ : Shape := ⟨0, ![]⟩
abbrev S8192x2 : Shape := ⟨2, ![8192, 2]⟩
abbrev S256x8192 : Shape := ⟨2, ![256, 8192]⟩
abbrev S8192x256 : Shape := ⟨2, ![8192, 256]⟩
abbrev S512x8192 : Shape := ⟨2, ![512, 8192]⟩
abbrev S8192x512 : Shape := ⟨2, ![8192, 512]⟩
abbrev S1024x8192 : Shape := ⟨2, ![1024, 8192]⟩
abbrev S8192x1024 : Shape := ⟨2, ![8192, 1024]⟩
abbrev S2048x8192 : Shape := ⟨2, ![2048, 8192]⟩
abbrev S8192x2048 : Shape := ⟨2, ![8192, 2048]⟩
abbrev S8192x3840 : Shape := ⟨2, ![8192, 3840]⟩
abbrev S8192x259 : Shape := ⟨2, ![8192, 259]⟩

abbrev nBuf : Space → Nat
  | .hbm => 638
  | .vmem => 0
  | .smem => 0
  | _ => 0

abbrev hbmTy0_0 (i : Nat) : BufTy := match i % 128 with
  | 0 => ⟨S1x256x56x56, .f32⟩
  | 1 => ⟨S1x512x28x28, .f32⟩
  | 2 => ⟨S1x1024x14x14, .f32⟩
  | 3 => ⟨S1x2048x7x7, .f32⟩
  | 4 => ⟨S8192x8192, .f32⟩
  | 5 => ⟨S8192x3, .f32⟩
  | 6 => ⟨S8192x128, .f32⟩
  | 7 => ⟨S3840x128, .f32⟩
  | 8 => ⟨S259x128, .f32⟩
  | 9 => ⟨S259x128, .f32⟩
  | 10 => ⟨S128x128, .f32⟩
  | 11 => ⟨S128x128, .f32⟩
  | 12 => ⟨S259x128, .f32⟩
  | 13 => ⟨S128x128, .f32⟩
  | 14 => ⟨S128x128, .f32⟩
  | 15 => ⟨S128x128, .f32⟩
  | 16 => ⟨S128x128, .f32⟩
  | 17 => ⟨S128x128, .f32⟩
  | 18 => ⟨S128x128, .f32⟩
  | 19 => ⟨S128x128, .f32⟩
  | 20 => ⟨S128x128, .f32⟩
  | 21 => ⟨S128x3, .f32⟩
  | 22 => ⟨S128x3, .f32⟩
  | 23 => ⟨S256x56x56, .f32⟩
  | 24 => ⟨S512x28x28, .f32⟩
  | 25 => ⟨S1024x14x14, .f32⟩
  | 26 => ⟨S2048x7x7, .f32⟩
  | 27 => ⟨S8192x1, .f32⟩
  | 28 => ⟨S8192, .f32⟩
  | 29 => ⟨S8192x1, .f32⟩
  | 30 => ⟨S8192, .f32⟩
  | 31 => ⟨S8192, .f32⟩
  | 32 => ⟨S_, .f32⟩
  | 33 => ⟨S8192, .f32⟩
  | 34 => ⟨S8192, .f32⟩
  | 35 => ⟨S_, .f32⟩
  | 36 => ⟨S8192, .f32⟩
  | 37 => ⟨S8192, .f32⟩
  | 38 => ⟨S_, .f32⟩
  | 39 => ⟨S_, .i32⟩
  | 40 => ⟨S_, .f32⟩
  | 41 => ⟨S8192, .f32⟩
  | 42 => ⟨S8192, .f32⟩
  | 43 => ⟨S_, .f32⟩
  | 44 => ⟨S8192, .f32⟩
  | 45 => ⟨S8192, .f32⟩
  | 46 => ⟨S8192x1, .f32⟩
  | 47 => ⟨S8192, .f32⟩
  | 48 => ⟨S8192, .f32⟩
  | 49 => ⟨S8192, .f32⟩
  | 50 => ⟨S_, .f32⟩
  | 51 => ⟨S8192, .f32⟩
  | 52 => ⟨S8192, .f32⟩
  | 53 => ⟨S_, .f32⟩
  | 54 => ⟨S8192, .f32⟩
  | 55 => ⟨S8192, .f32⟩
  | 56 => ⟨S_, .f32⟩
  | 57 => ⟨S_, .i32⟩
  | 58 => ⟨S_, .f32⟩
  | 59 => ⟨S8192, .f32⟩
  | 60 => ⟨S8192, .f32⟩
  | 61 => ⟨S_, .f32⟩
  | 62 => ⟨S8192, .f32⟩
  | 63 => ⟨S8192, .f32⟩
  | 64 => ⟨S_, .f32⟩
  | 65 => ⟨S8192, .f32⟩
  | 66 => ⟨S8192, .f32⟩
  | 67 => ⟨S_, .f32⟩
  | 68 => ⟨S8192, .f32⟩
  | 69 => ⟨S8192, .f32⟩
  | 70 => ⟨S8192, .f32⟩
  | 71 => ⟨S8192, .i32⟩
  | 72 => ⟨S8192, .f32⟩
  | 73 => ⟨S8192, .i32⟩
  | 74 => ⟨S_, .i32⟩
  | 75 => ⟨S8192, .i32⟩
  | 76 => ⟨S8192, .i32⟩
  | 77 => ⟨S8192, .f32⟩
  | 78 => ⟨S8192, .i32⟩
  | 79 => ⟨S8192, .f32⟩
  | 80 => ⟨S8192, .i32⟩
  | 81 => ⟨S_, .i32⟩
  | 82 => ⟨S8192, .i32⟩
  | 83 => ⟨S8192, .i32⟩
  | 84 => ⟨S8192, .i32⟩
  | 85 => ⟨S8192, .i32⟩
  | 86 => ⟨S8192, .i32⟩
  | 87 => ⟨S8192, .i32⟩
  | 88 => ⟨S8192, .i32⟩
  | 89 => ⟨S8192, .f32⟩
  | 90 => ⟨S8192x1, .f32⟩
  | 91 => ⟨S8192, .i32⟩
  | 92 => ⟨S8192, .i32⟩
  | 93 => ⟨S8192, .i32⟩
  | 94 => ⟨S8192, .f32⟩
  | 95 => ⟨S8192x1, .f32⟩
  | 96 => ⟨S8192, .i32⟩
  | 97 => ⟨S8192, .i32⟩
  | 98 => ⟨S8192, .i32⟩
  | 99 => ⟨S8192, .f32⟩
  | 100 => ⟨S8192x1, .f32⟩
  | 101 => ⟨S8192, .i32⟩
  | 102 => ⟨S8192, .i32⟩
  | 103 => ⟨S8192, .i32⟩
  | 104 => ⟨S8192, .f32⟩
  | 105 => ⟨S8192x1, .f32⟩
  | 106 => ⟨S_, .i32⟩
  | 107 => ⟨S8192, .i32⟩
  | 108 => ⟨S8192, .i1⟩
  | 109 => ⟨S_, .i32⟩
  | 110 => ⟨S8192, .i32⟩
  | 111 => ⟨S8192, .i32⟩
  | 112 => ⟨S8192, .i32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S8192x1, .i32⟩
  | 121 => ⟨S8192x1, .i32⟩
  | 122 => ⟨S8192x2, .i32⟩
  | 123 => ⟨S256x8192, .f32⟩
  | 124 => ⟨S8192x256, .f32⟩
  | 125 => ⟨S_, .i32⟩
  | 126 => ⟨S8192, .i32⟩
  | 127 => ⟨S8192, .i1⟩
  | _ => ⟨S1x256x56x56, .f32⟩

abbrev hbmTy0_1 (i : Nat) : BufTy := match i % 128 with
  | 0 => ⟨S_, .i32⟩
  | 1 => ⟨S8192, .i32⟩
  | 2 => ⟨S8192, .i32⟩
  | 3 => ⟨S8192, .i32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S8192x1, .i32⟩
  | 13 => ⟨S8192x2, .i32⟩
  | 14 => ⟨S256x8192, .f32⟩
  | 15 => ⟨S8192x256, .f32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192x1, .i32⟩
  | 32 => ⟨S8192x2, .i32⟩
  | 33 => ⟨S256x8192, .f32⟩
  | 34 => ⟨S8192x256, .f32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S_, .i32⟩
  | 43 => ⟨S8192, .i32⟩
  | 44 => ⟨S8192, .i1⟩
  | 45 => ⟨S_, .i32⟩
  | 46 => ⟨S8192, .i32⟩
  | 47 => ⟨S8192, .i32⟩
  | 48 => ⟨S8192, .i32⟩
  | 49 => ⟨S8192x1, .i32⟩
  | 50 => ⟨S8192x1, .i32⟩
  | 51 => ⟨S8192x2, .i32⟩
  | 52 => ⟨S256x8192, .f32⟩
  | 53 => ⟨S8192x256, .f32⟩
  | 54 => ⟨S8192x256, .f32⟩
  | 55 => ⟨S8192x256, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S8192x256, .f32⟩
  | 63 => ⟨S8192x256, .f32⟩
  | 64 => ⟨S8192x256, .f32⟩
  | 65 => ⟨S_, .f32⟩
  | 66 => ⟨S8192, .f32⟩
  | 67 => ⟨S8192, .f32⟩
  | 68 => ⟨S_, .f32⟩
  | 69 => ⟨S8192, .f32⟩
  | 70 => ⟨S8192, .f32⟩
  | 71 => ⟨S8192, .f32⟩
  | 72 => ⟨S8192, .i32⟩
  | 73 => ⟨S8192, .f32⟩
  | 74 => ⟨S8192, .i32⟩
  | 75 => ⟨S_, .i32⟩
  | 76 => ⟨S8192, .i32⟩
  | 77 => ⟨S8192, .i32⟩
  | 78 => ⟨S8192, .f32⟩
  | 79 => ⟨S8192, .i32⟩
  | 80 => ⟨S8192, .f32⟩
  | 81 => ⟨S8192, .i32⟩
  | 82 => ⟨S_, .i32⟩
  | 83 => ⟨S8192, .i32⟩
  | 84 => ⟨S8192, .i32⟩
  | 85 => ⟨S8192, .i32⟩
  | 86 => ⟨S8192, .i32⟩
  | 87 => ⟨S8192, .i32⟩
  | 88 => ⟨S8192, .i32⟩
  | 89 => ⟨S8192, .i32⟩
  | 90 => ⟨S8192, .f32⟩
  | 91 => ⟨S8192x1, .f32⟩
  | 92 => ⟨S8192, .i32⟩
  | 93 => ⟨S8192, .i32⟩
  | 94 => ⟨S8192, .i32⟩
  | 95 => ⟨S8192, .f32⟩
  | 96 => ⟨S8192x1, .f32⟩
  | 97 => ⟨S8192, .i32⟩
  | 98 => ⟨S8192, .i32⟩
  | 99 => ⟨S8192, .i32⟩
  | 100 => ⟨S8192, .f32⟩
  | 101 => ⟨S8192x1, .f32⟩
  | 102 => ⟨S8192, .i32⟩
  | 103 => ⟨S8192, .i32⟩
  | 104 => ⟨S8192, .i32⟩
  | 105 => ⟨S8192, .f32⟩
  | 106 => ⟨S8192x1, .f32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192x1, .i32⟩
  | 123 => ⟨S8192x2, .i32⟩
  | 124 => ⟨S512x8192, .f32⟩
  | 125 => ⟨S8192x512, .f32⟩
  | 126 => ⟨S_, .i32⟩
  | 127 => ⟨S8192, .i32⟩
  | _ => ⟨S1x256x56x56, .f32⟩

abbrev hbmTy0_2 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S_, .i32⟩
  | 6 => ⟨S8192, .i32⟩
  | 7 => ⟨S8192, .i1⟩
  | 8 => ⟨S_, .i32⟩
  | 9 => ⟨S8192, .i32⟩
  | 10 => ⟨S8192, .i32⟩
  | 11 => ⟨S8192, .i32⟩
  | 12 => ⟨S8192x1, .i32⟩
  | 13 => ⟨S8192x1, .i32⟩
  | 14 => ⟨S8192x2, .i32⟩
  | 15 => ⟨S512x8192, .f32⟩
  | 16 => ⟨S8192x512, .f32⟩
  | 17 => ⟨S_, .i32⟩
  | 18 => ⟨S8192, .i32⟩
  | 19 => ⟨S8192, .i1⟩
  | 20 => ⟨S_, .i32⟩
  | 21 => ⟨S8192, .i32⟩
  | 22 => ⟨S8192, .i32⟩
  | 23 => ⟨S8192, .i32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x1, .i32⟩
  | 33 => ⟨S8192x2, .i32⟩
  | 34 => ⟨S512x8192, .f32⟩
  | 35 => ⟨S8192x512, .f32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S8192x1, .i32⟩
  | 52 => ⟨S8192x2, .i32⟩
  | 53 => ⟨S512x8192, .f32⟩
  | 54 => ⟨S8192x512, .f32⟩
  | 55 => ⟨S8192x512, .f32⟩
  | 56 => ⟨S8192x512, .f32⟩
  | 57 => ⟨S8192x512, .f32⟩
  | 58 => ⟨S8192x512, .f32⟩
  | 59 => ⟨S8192x512, .f32⟩
  | 60 => ⟨S8192x512, .f32⟩
  | 61 => ⟨S8192x512, .f32⟩
  | 62 => ⟨S8192x512, .f32⟩
  | 63 => ⟨S8192x512, .f32⟩
  | 64 => ⟨S8192x512, .f32⟩
  | 65 => ⟨S8192x512, .f32⟩
  | 66 => ⟨S_, .f32⟩
  | 67 => ⟨S8192, .f32⟩
  | 68 => ⟨S8192, .f32⟩
  | 69 => ⟨S_, .f32⟩
  | 70 => ⟨S8192, .f32⟩
  | 71 => ⟨S8192, .f32⟩
  | 72 => ⟨S8192, .f32⟩
  | 73 => ⟨S8192, .i32⟩
  | 74 => ⟨S8192, .f32⟩
  | 75 => ⟨S8192, .i32⟩
  | 76 => ⟨S_, .i32⟩
  | 77 => ⟨S8192, .i32⟩
  | 78 => ⟨S8192, .i32⟩
  | 79 => ⟨S8192, .f32⟩
  | 80 => ⟨S8192, .i32⟩
  | 81 => ⟨S8192, .f32⟩
  | 82 => ⟨S8192, .i32⟩
  | 83 => ⟨S_, .i32⟩
  | 84 => ⟨S8192, .i32⟩
  | 85 => ⟨S8192, .i32⟩
  | 86 => ⟨S8192, .i32⟩
  | 87 => ⟨S8192, .i32⟩
  | 88 => ⟨S8192, .i32⟩
  | 89 => ⟨S8192, .i32⟩
  | 90 => ⟨S8192, .i32⟩
  | 91 => ⟨S8192, .f32⟩
  | 92 => ⟨S8192x1, .f32⟩
  | 93 => ⟨S8192, .i32⟩
  | 94 => ⟨S8192, .i32⟩
  | 95 => ⟨S8192, .i32⟩
  | 96 => ⟨S8192, .f32⟩
  | 97 => ⟨S8192x1, .f32⟩
  | 98 => ⟨S8192, .i32⟩
  | 99 => ⟨S8192, .i32⟩
  | 100 => ⟨S8192, .i32⟩
  | 101 => ⟨S8192, .f32⟩
  | 102 => ⟨S8192x1, .f32⟩
  | 103 => ⟨S8192, .i32⟩
  | 104 => ⟨S8192, .i32⟩
  | 105 => ⟨S8192, .i32⟩
  | 106 => ⟨S8192, .f32⟩
  | 107 => ⟨S8192x1, .f32⟩
  | 108 => ⟨S_, .i32⟩
  | 109 => ⟨S8192, .i32⟩
  | 110 => ⟨S8192, .i1⟩
  | 111 => ⟨S_, .i32⟩
  | 112 => ⟨S8192, .i32⟩
  | 113 => ⟨S8192, .i32⟩
  | 114 => ⟨S8192, .i32⟩
  | 115 => ⟨S_, .i32⟩
  | 116 => ⟨S8192, .i32⟩
  | 117 => ⟨S8192, .i1⟩
  | 118 => ⟨S_, .i32⟩
  | 119 => ⟨S8192, .i32⟩
  | 120 => ⟨S8192, .i32⟩
  | 121 => ⟨S8192, .i32⟩
  | 122 => ⟨S8192x1, .i32⟩
  | 123 => ⟨S8192x1, .i32⟩
  | 124 => ⟨S8192x2, .i32⟩
  | 125 => ⟨S1024x8192, .f32⟩
  | 126 => ⟨S8192x1024, .f32⟩
  | 127 => ⟨S_, .i32⟩
  | _ => ⟨S1x256x56x56, .f32⟩

abbrev hbmTy0_3 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192x1, .i32⟩
  | 15 => ⟨S8192x2, .i32⟩
  | 16 => ⟨S1024x8192, .f32⟩
  | 17 => ⟨S8192x1024, .f32⟩
  | 18 => ⟨S_, .i32⟩
  | 19 => ⟨S8192, .i32⟩
  | 20 => ⟨S8192, .i1⟩
  | 21 => ⟨S_, .i32⟩
  | 22 => ⟨S8192, .i32⟩
  | 23 => ⟨S8192, .i32⟩
  | 24 => ⟨S8192, .i32⟩
  | 25 => ⟨S_, .i32⟩
  | 26 => ⟨S8192, .i32⟩
  | 27 => ⟨S8192, .i1⟩
  | 28 => ⟨S_, .i32⟩
  | 29 => ⟨S8192, .i32⟩
  | 30 => ⟨S8192, .i32⟩
  | 31 => ⟨S8192, .i32⟩
  | 32 => ⟨S8192x1, .i32⟩
  | 33 => ⟨S8192x1, .i32⟩
  | 34 => ⟨S8192x2, .i32⟩
  | 35 => ⟨S1024x8192, .f32⟩
  | 36 => ⟨S8192x1024, .f32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S8192x1, .i32⟩
  | 53 => ⟨S8192x2, .i32⟩
  | 54 => ⟨S1024x8192, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192, .f32⟩
  | 69 => ⟨S8192, .f32⟩
  | 70 => ⟨S_, .f32⟩
  | 71 => ⟨S8192, .f32⟩
  | 72 => ⟨S8192, .f32⟩
  | 73 => ⟨S8192, .f32⟩
  | 74 => ⟨S8192, .i32⟩
  | 75 => ⟨S8192, .f32⟩
  | 76 => ⟨S8192, .i32⟩
  | 77 => ⟨S_, .i32⟩
  | 78 => ⟨S8192, .i32⟩
  | 79 => ⟨S8192, .i32⟩
  | 80 => ⟨S8192, .f32⟩
  | 81 => ⟨S8192, .i32⟩
  | 82 => ⟨S8192, .f32⟩
  | 83 => ⟨S8192, .i32⟩
  | 84 => ⟨S_, .i32⟩
  | 85 => ⟨S8192, .i32⟩
  | 86 => ⟨S8192, .i32⟩
  | 87 => ⟨S8192, .i32⟩
  | 88 => ⟨S8192, .i32⟩
  | 89 => ⟨S8192, .i32⟩
  | 90 => ⟨S8192, .i32⟩
  | 91 => ⟨S8192, .i32⟩
  | 92 => ⟨S8192, .f32⟩
  | 93 => ⟨S8192x1, .f32⟩
  | 94 => ⟨S8192, .i32⟩
  | 95 => ⟨S8192, .i32⟩
  | 96 => ⟨S8192, .i32⟩
  | 97 => ⟨S8192, .f32⟩
  | 98 => ⟨S8192x1, .f32⟩
  | 99 => ⟨S8192, .i32⟩
  | 100 => ⟨S8192, .i32⟩
  | 101 => ⟨S8192, .i32⟩
  | 102 => ⟨S8192, .f32⟩
  | 103 => ⟨S8192x1, .f32⟩
  | 104 => ⟨S8192, .i32⟩
  | 105 => ⟨S8192, .i32⟩
  | 106 => ⟨S8192, .i32⟩
  | 107 => ⟨S8192, .f32⟩
  | 108 => ⟨S8192x1, .f32⟩
  | 109 => ⟨S_, .i32⟩
  | 110 => ⟨S8192, .i32⟩
  | 111 => ⟨S8192, .i1⟩
  | 112 => ⟨S_, .i32⟩
  | 113 => ⟨S8192, .i32⟩
  | 114 => ⟨S8192, .i32⟩
  | 115 => ⟨S8192, .i32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S8192x1, .i32⟩
  | 124 => ⟨S8192x1, .i32⟩
  | 125 => ⟨S8192x2, .i32⟩
  | 126 => ⟨S2048x8192, .f32⟩
  | 127 => ⟨S8192x2048, .f32⟩
  | _ => ⟨S1x256x56x56, .f32⟩

abbrev hbmTy0_4 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x1, .i32⟩
  | 16 => ⟨S8192x2, .i32⟩
  | 17 => ⟨S2048x8192, .f32⟩
  | 18 => ⟨S8192x2048, .f32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S8192x1, .i32⟩
  | 35 => ⟨S8192x2, .i32⟩
  | 36 => ⟨S2048x8192, .f32⟩
  | 37 => ⟨S8192x2048, .f32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S_, .i32⟩
  | 46 => ⟨S8192, .i32⟩
  | 47 => ⟨S8192, .i1⟩
  | 48 => ⟨S_, .i32⟩
  | 49 => ⟨S8192, .i32⟩
  | 50 => ⟨S8192, .i32⟩
  | 51 => ⟨S8192, .i32⟩
  | 52 => ⟨S8192x1, .i32⟩
  | 53 => ⟨S8192x1, .i32⟩
  | 54 => ⟨S8192x2, .i32⟩
  | 55 => ⟨S2048x8192, .f32⟩
  | 56 => ⟨S8192x2048, .f32⟩
  | 57 => ⟨S8192x2048, .f32⟩
  | 58 => ⟨S8192x2048, .f32⟩
  | 59 => ⟨S8192x2048, .f32⟩
  | 60 => ⟨S8192x2048, .f32⟩
  | 61 => ⟨S8192x2048, .f32⟩
  | 62 => ⟨S8192x2048, .f32⟩
  | 63 => ⟨S8192x2048, .f32⟩
  | 64 => ⟨S8192x2048, .f32⟩
  | 65 => ⟨S8192x2048, .f32⟩
  | 66 => ⟨S8192x2048, .f32⟩
  | 67 => ⟨S8192x2048, .f32⟩
  | 68 => ⟨S8192x3840, .f32⟩
  | 69 => ⟨S8192x128, .f32⟩
  | 70 => ⟨S8192x259, .f32⟩
  | 71 => ⟨S8192x128, .f32⟩
  | 72 => ⟨S8192x128, .f32⟩
  | 73 => ⟨S8192x128, .f32⟩
  | 74 => ⟨S8192x128, .f32⟩
  | 75 => ⟨S8192x128, .f32⟩
  | 76 => ⟨S_, .f32⟩
  | 77 => ⟨S8192x128, .f32⟩
  | 78 => ⟨S8192x128, .f32⟩
  | 79 => ⟨S8192x128, .f32⟩
  | 80 => ⟨S8192x128, .f32⟩
  | 81 => ⟨S8192x128, .f32⟩
  | 82 => ⟨S8192x128, .f32⟩
  | 83 => ⟨S_, .f32⟩
  | 84 => ⟨S8192x128, .f32⟩
  | 85 => ⟨S8192x128, .f32⟩
  | 86 => ⟨S8192x128, .f32⟩
  | 87 => ⟨S8192x128, .f32⟩
  | 88 => ⟨S8192x128, .f32⟩
  | 89 => ⟨S8192x128, .f32⟩
  | 90 => ⟨S8192x128, .f32⟩
  | 91 => ⟨S_, .f32⟩
  | 92 => ⟨S8192x128, .f32⟩
  | 93 => ⟨S8192x128, .f32⟩
  | 94 => ⟨S8192x128, .f32⟩
  | 95 => ⟨S8192x128, .f32⟩
  | 96 => ⟨S8192x128, .f32⟩
  | 97 => ⟨S8192x128, .f32⟩
  | 98 => ⟨S_, .f32⟩
  | 99 => ⟨S8192x128, .f32⟩
  | 100 => ⟨S8192x128, .f32⟩
  | 101 => ⟨S8192x128, .f32⟩
  | 102 => ⟨S8192x128, .f32⟩
  | 103 => ⟨S8192x128, .f32⟩
  | 104 => ⟨S8192x128, .f32⟩
  | 105 => ⟨S8192x128, .f32⟩
  | 106 => ⟨S_, .f32⟩
  | 107 => ⟨S8192x128, .f32⟩
  | 108 => ⟨S8192x128, .f32⟩
  | 109 => ⟨S8192x128, .f32⟩
  | 110 => ⟨S8192x128, .f32⟩
  | 111 => ⟨S8192x128, .f32⟩
  | 112 => ⟨S8192x128, .f32⟩
  | 113 => ⟨S_, .f32⟩
  | 114 => ⟨S8192x128, .f32⟩
  | 115 => ⟨S8192x128, .f32⟩
  | 116 => ⟨S8192x128, .f32⟩
  | 117 => ⟨S8192x3, .f32⟩
  | 118 => ⟨S8192x3, .f32⟩
  | 119 => ⟨S8192x3, .f32⟩
  | 120 => ⟨S8192x3, .f32⟩
  | 121 => ⟨S_, .f32⟩
  | 122 => ⟨S8192x3, .f32⟩
  | 123 => ⟨S8192x3, .f32⟩
  | 124 => ⟨S8192x3, .f32⟩
  | 125 => ⟨S8192x3, .f32⟩
  | _ => ⟨S1x256x56x56, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x256x56x56, .f32⟩

abbrev bufTy : (tb : Table) → Fin (tcTables nBuf tb) → BufTy
  | .hbm, ⟨i, _⟩ => hbmTy i
  | _, _ => ⟨S1x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_c : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_2 : Ref sig .tc := ⟨.hbm, 50, rfl⟩
abbrev main_v18 : Ref sig .tc := ⟨.hbm, 51, rfl⟩
abbrev main_v19 : Ref sig .tc := ⟨.hbm, 52, rfl⟩
abbrev main_cst_3 : Ref sig .tc := ⟨.hbm, 53, rfl⟩
abbrev main_v20 : Ref sig .tc := ⟨.hbm, 54, rfl⟩
abbrev main_v21 : Ref sig .tc := ⟨.hbm, 55, rfl⟩
abbrev main_cst_4 : Ref sig .tc := ⟨.hbm, 56, rfl⟩
abbrev main_c_5 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v22 : Ref sig .tc := ⟨.hbm, 63, rfl⟩
abbrev main_cst_6 : Ref sig .tc := ⟨.hbm, 64, rfl⟩
abbrev main_v23 : Ref sig .tc := ⟨.hbm, 65, rfl⟩
abbrev main_v24 : Ref sig .tc := ⟨.hbm, 66, rfl⟩
abbrev main_cst_7 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_c_8 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_c_9 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_c_10 : Ref sig .tc := ⟨.hbm, 106, rfl⟩
abbrev main_v61 : Ref sig .tc := ⟨.hbm, 107, rfl⟩
abbrev main_v62 : Ref sig .tc := ⟨.hbm, 108, rfl⟩
abbrev main_c_11 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_c_12 : Ref sig .tc := ⟨.hbm, 113, rfl⟩
abbrev main_v66 : Ref sig .tc := ⟨.hbm, 114, rfl⟩
abbrev main_v67 : Ref sig .tc := ⟨.hbm, 115, rfl⟩
abbrev main_c_13 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_c_14 : Ref sig .tc := ⟨.hbm, 125, rfl⟩
abbrev main_v76 : Ref sig .tc := ⟨.hbm, 126, rfl⟩
abbrev main_v77 : Ref sig .tc := ⟨.hbm, 127, rfl⟩
abbrev main_c_15 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_c_16 : Ref sig .tc := ⟨.hbm, 132, rfl⟩
abbrev main_v81 : Ref sig .tc := ⟨.hbm, 133, rfl⟩
abbrev main_v82 : Ref sig .tc := ⟨.hbm, 134, rfl⟩
abbrev main_c_17 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_c_18 : Ref sig .tc := ⟨.hbm, 144, rfl⟩
abbrev main_v91 : Ref sig .tc := ⟨.hbm, 145, rfl⟩
abbrev main_v92 : Ref sig .tc := ⟨.hbm, 146, rfl⟩
abbrev main_c_19 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_c_20 : Ref sig .tc := ⟨.hbm, 151, rfl⟩
abbrev main_v96 : Ref sig .tc := ⟨.hbm, 152, rfl⟩
abbrev main_v97 : Ref sig .tc := ⟨.hbm, 153, rfl⟩
abbrev main_c_21 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_c_22 : Ref sig .tc := ⟨.hbm, 163, rfl⟩
abbrev main_v106 : Ref sig .tc := ⟨.hbm, 164, rfl⟩
abbrev main_v107 : Ref sig .tc := ⟨.hbm, 165, rfl⟩
abbrev main_c_23 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_c_24 : Ref sig .tc := ⟨.hbm, 170, rfl⟩
abbrev main_v111 : Ref sig .tc := ⟨.hbm, 171, rfl⟩
abbrev main_v112 : Ref sig .tc := ⟨.hbm, 172, rfl⟩
abbrev main_c_25 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_cst_26 : Ref sig .tc := ⟨.hbm, 193, rfl⟩
abbrev main_v132 : Ref sig .tc := ⟨.hbm, 194, rfl⟩
abbrev main_v133 : Ref sig .tc := ⟨.hbm, 195, rfl⟩
abbrev main_cst_27 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_c_28 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_c_29 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_c_30 : Ref sig .tc := ⟨.hbm, 235, rfl⟩
abbrev main_v170 : Ref sig .tc := ⟨.hbm, 236, rfl⟩
abbrev main_v171 : Ref sig .tc := ⟨.hbm, 237, rfl⟩
abbrev main_c_31 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_c_32 : Ref sig .tc := ⟨.hbm, 242, rfl⟩
abbrev main_v175 : Ref sig .tc := ⟨.hbm, 243, rfl⟩
abbrev main_v176 : Ref sig .tc := ⟨.hbm, 244, rfl⟩
abbrev main_c_33 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_c_34 : Ref sig .tc := ⟨.hbm, 254, rfl⟩
abbrev main_v185 : Ref sig .tc := ⟨.hbm, 255, rfl⟩
abbrev main_v186 : Ref sig .tc := ⟨.hbm, 256, rfl⟩
abbrev main_c_35 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_c_36 : Ref sig .tc := ⟨.hbm, 261, rfl⟩
abbrev main_v190 : Ref sig .tc := ⟨.hbm, 262, rfl⟩
abbrev main_v191 : Ref sig .tc := ⟨.hbm, 263, rfl⟩
abbrev main_c_37 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_c_38 : Ref sig .tc := ⟨.hbm, 273, rfl⟩
abbrev main_v200 : Ref sig .tc := ⟨.hbm, 274, rfl⟩
abbrev main_v201 : Ref sig .tc := ⟨.hbm, 275, rfl⟩
abbrev main_c_39 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_c_40 : Ref sig .tc := ⟨.hbm, 280, rfl⟩
abbrev main_v205 : Ref sig .tc := ⟨.hbm, 281, rfl⟩
abbrev main_v206 : Ref sig .tc := ⟨.hbm, 282, rfl⟩
abbrev main_c_41 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_c_42 : Ref sig .tc := ⟨.hbm, 292, rfl⟩
abbrev main_v215 : Ref sig .tc := ⟨.hbm, 293, rfl⟩
abbrev main_v216 : Ref sig .tc := ⟨.hbm, 294, rfl⟩
abbrev main_c_43 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_c_44 : Ref sig .tc := ⟨.hbm, 299, rfl⟩
abbrev main_v220 : Ref sig .tc := ⟨.hbm, 300, rfl⟩
abbrev main_v221 : Ref sig .tc := ⟨.hbm, 301, rfl⟩
abbrev main_c_45 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_cst_46 : Ref sig .tc := ⟨.hbm, 322, rfl⟩
abbrev main_v241 : Ref sig .tc := ⟨.hbm, 323, rfl⟩
abbrev main_v242 : Ref sig .tc := ⟨.hbm, 324, rfl⟩
abbrev main_cst_47 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_c_48 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_c_49 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev main_v268 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_c_50 : Ref sig .tc := ⟨.hbm, 364, rfl⟩
abbrev main_v279 : Ref sig .tc := ⟨.hbm, 365, rfl⟩
abbrev main_v280 : Ref sig .tc := ⟨.hbm, 366, rfl⟩
abbrev main_c_51 : Ref sig .tc := ⟨.hbm, 367, rfl⟩
abbrev main_v281 : Ref sig .tc := ⟨.hbm, 368, rfl⟩
abbrev main_v282 : Ref sig .tc := ⟨.hbm, 369, rfl⟩
abbrev main_v283 : Ref sig .tc := ⟨.hbm, 370, rfl⟩
abbrev main_c_52 : Ref sig .tc := ⟨.hbm, 371, rfl⟩
abbrev main_v284 : Ref sig .tc := ⟨.hbm, 372, rfl⟩
abbrev main_v285 : Ref sig .tc := ⟨.hbm, 373, rfl⟩
abbrev main_c_53 : Ref sig .tc := ⟨.hbm, 374, rfl⟩
abbrev main_v286 : Ref sig .tc := ⟨.hbm, 375, rfl⟩
abbrev main_v287 : Ref sig .tc := ⟨.hbm, 376, rfl⟩
abbrev main_v288 : Ref sig .tc := ⟨.hbm, 377, rfl⟩
abbrev main_v289 : Ref sig .tc := ⟨.hbm, 378, rfl⟩
abbrev main_v290 : Ref sig .tc := ⟨.hbm, 379, rfl⟩
abbrev main_v291 : Ref sig .tc := ⟨.hbm, 380, rfl⟩
abbrev main_v292 : Ref sig .tc := ⟨.hbm, 381, rfl⟩
abbrev main_v293 : Ref sig .tc := ⟨.hbm, 382, rfl⟩
abbrev main_c_54 : Ref sig .tc := ⟨.hbm, 383, rfl⟩
abbrev main_v294 : Ref sig .tc := ⟨.hbm, 384, rfl⟩
abbrev main_v295 : Ref sig .tc := ⟨.hbm, 385, rfl⟩
abbrev main_c_55 : Ref sig .tc := ⟨.hbm, 386, rfl⟩
abbrev main_v296 : Ref sig .tc := ⟨.hbm, 387, rfl⟩
abbrev main_v297 : Ref sig .tc := ⟨.hbm, 388, rfl⟩
abbrev main_v298 : Ref sig .tc := ⟨.hbm, 389, rfl⟩
abbrev main_c_56 : Ref sig .tc := ⟨.hbm, 390, rfl⟩
abbrev main_v299 : Ref sig .tc := ⟨.hbm, 391, rfl⟩
abbrev main_v300 : Ref sig .tc := ⟨.hbm, 392, rfl⟩
abbrev main_c_57 : Ref sig .tc := ⟨.hbm, 393, rfl⟩
abbrev main_v301 : Ref sig .tc := ⟨.hbm, 394, rfl⟩
abbrev main_v302 : Ref sig .tc := ⟨.hbm, 395, rfl⟩
abbrev main_v303 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_v307 : Ref sig .tc := ⟨.hbm, 400, rfl⟩
abbrev main_v308 : Ref sig .tc := ⟨.hbm, 401, rfl⟩
abbrev main_c_58 : Ref sig .tc := ⟨.hbm, 402, rfl⟩
abbrev main_v309 : Ref sig .tc := ⟨.hbm, 403, rfl⟩
abbrev main_v310 : Ref sig .tc := ⟨.hbm, 404, rfl⟩
abbrev main_c_59 : Ref sig .tc := ⟨.hbm, 405, rfl⟩
abbrev main_v311 : Ref sig .tc := ⟨.hbm, 406, rfl⟩
abbrev main_v312 : Ref sig .tc := ⟨.hbm, 407, rfl⟩
abbrev main_v313 : Ref sig .tc := ⟨.hbm, 408, rfl⟩
abbrev main_c_60 : Ref sig .tc := ⟨.hbm, 409, rfl⟩
abbrev main_v314 : Ref sig .tc := ⟨.hbm, 410, rfl⟩
abbrev main_v315 : Ref sig .tc := ⟨.hbm, 411, rfl⟩
abbrev main_c_61 : Ref sig .tc := ⟨.hbm, 412, rfl⟩
abbrev main_v316 : Ref sig .tc := ⟨.hbm, 413, rfl⟩
abbrev main_v317 : Ref sig .tc := ⟨.hbm, 414, rfl⟩
abbrev main_v318 : Ref sig .tc := ⟨.hbm, 415, rfl⟩
abbrev main_v319 : Ref sig .tc := ⟨.hbm, 416, rfl⟩
abbrev main_v320 : Ref sig .tc := ⟨.hbm, 417, rfl⟩
abbrev main_v321 : Ref sig .tc := ⟨.hbm, 418, rfl⟩
abbrev main_v322 : Ref sig .tc := ⟨.hbm, 419, rfl⟩
abbrev main_v323 : Ref sig .tc := ⟨.hbm, 420, rfl⟩
abbrev main_c_62 : Ref sig .tc := ⟨.hbm, 421, rfl⟩
abbrev main_v324 : Ref sig .tc := ⟨.hbm, 422, rfl⟩
abbrev main_v325 : Ref sig .tc := ⟨.hbm, 423, rfl⟩
abbrev main_c_63 : Ref sig .tc := ⟨.hbm, 424, rfl⟩
abbrev main_v326 : Ref sig .tc := ⟨.hbm, 425, rfl⟩
abbrev main_v327 : Ref sig .tc := ⟨.hbm, 426, rfl⟩
abbrev main_v328 : Ref sig .tc := ⟨.hbm, 427, rfl⟩
abbrev main_c_64 : Ref sig .tc := ⟨.hbm, 428, rfl⟩
abbrev main_v329 : Ref sig .tc := ⟨.hbm, 429, rfl⟩
abbrev main_v330 : Ref sig .tc := ⟨.hbm, 430, rfl⟩
abbrev main_c_65 : Ref sig .tc := ⟨.hbm, 431, rfl⟩
abbrev main_v331 : Ref sig .tc := ⟨.hbm, 432, rfl⟩
abbrev main_v332 : Ref sig .tc := ⟨.hbm, 433, rfl⟩
abbrev main_v333 : Ref sig .tc := ⟨.hbm, 434, rfl⟩
abbrev main_v334 : Ref sig .tc := ⟨.hbm, 435, rfl⟩
abbrev main_v335 : Ref sig .tc := ⟨.hbm, 436, rfl⟩
abbrev main_v336 : Ref sig .tc := ⟨.hbm, 437, rfl⟩
abbrev main_v337 : Ref sig .tc := ⟨.hbm, 438, rfl⟩
abbrev main_v338 : Ref sig .tc := ⟨.hbm, 439, rfl⟩
abbrev main_v339 : Ref sig .tc := ⟨.hbm, 440, rfl⟩
abbrev main_v340 : Ref sig .tc := ⟨.hbm, 441, rfl⟩
abbrev main_v341 : Ref sig .tc := ⟨.hbm, 442, rfl⟩
abbrev main_v342 : Ref sig .tc := ⟨.hbm, 443, rfl⟩
abbrev main_v343 : Ref sig .tc := ⟨.hbm, 444, rfl⟩
abbrev main_v344 : Ref sig .tc := ⟨.hbm, 445, rfl⟩
abbrev main_v345 : Ref sig .tc := ⟨.hbm, 446, rfl⟩
abbrev main_v346 : Ref sig .tc := ⟨.hbm, 447, rfl⟩
abbrev main_v347 : Ref sig .tc := ⟨.hbm, 448, rfl⟩
abbrev main_v348 : Ref sig .tc := ⟨.hbm, 449, rfl⟩
abbrev main_v349 : Ref sig .tc := ⟨.hbm, 450, rfl⟩
abbrev main_cst_66 : Ref sig .tc := ⟨.hbm, 451, rfl⟩
abbrev main_v350 : Ref sig .tc := ⟨.hbm, 452, rfl⟩
abbrev main_v351 : Ref sig .tc := ⟨.hbm, 453, rfl⟩
abbrev main_cst_67 : Ref sig .tc := ⟨.hbm, 454, rfl⟩
abbrev main_v352 : Ref sig .tc := ⟨.hbm, 455, rfl⟩
abbrev main_v353 : Ref sig .tc := ⟨.hbm, 456, rfl⟩
abbrev main_v354 : Ref sig .tc := ⟨.hbm, 457, rfl⟩
abbrev main_v355 : Ref sig .tc := ⟨.hbm, 458, rfl⟩
abbrev main_v356 : Ref sig .tc := ⟨.hbm, 459, rfl⟩
abbrev main_v357 : Ref sig .tc := ⟨.hbm, 460, rfl⟩
abbrev main_c_68 : Ref sig .tc := ⟨.hbm, 461, rfl⟩
abbrev main_v358 : Ref sig .tc := ⟨.hbm, 462, rfl⟩
abbrev main_v359 : Ref sig .tc := ⟨.hbm, 463, rfl⟩
abbrev main_v360 : Ref sig .tc := ⟨.hbm, 464, rfl⟩
abbrev main_v361 : Ref sig .tc := ⟨.hbm, 465, rfl⟩
abbrev main_v362 : Ref sig .tc := ⟨.hbm, 466, rfl⟩
abbrev main_v363 : Ref sig .tc := ⟨.hbm, 467, rfl⟩
abbrev main_c_69 : Ref sig .tc := ⟨.hbm, 468, rfl⟩
abbrev main_v364 : Ref sig .tc := ⟨.hbm, 469, rfl⟩
abbrev main_v365 : Ref sig .tc := ⟨.hbm, 470, rfl⟩
abbrev main_v366 : Ref sig .tc := ⟨.hbm, 471, rfl⟩
abbrev main_v367 : Ref sig .tc := ⟨.hbm, 472, rfl⟩
abbrev main_v368 : Ref sig .tc := ⟨.hbm, 473, rfl⟩
abbrev main_v369 : Ref sig .tc := ⟨.hbm, 474, rfl⟩
abbrev main_v370 : Ref sig .tc := ⟨.hbm, 475, rfl⟩
abbrev main_v371 : Ref sig .tc := ⟨.hbm, 476, rfl⟩
abbrev main_v372 : Ref sig .tc := ⟨.hbm, 477, rfl⟩
abbrev main_v373 : Ref sig .tc := ⟨.hbm, 478, rfl⟩
abbrev main_v374 : Ref sig .tc := ⟨.hbm, 479, rfl⟩
abbrev main_v375 : Ref sig .tc := ⟨.hbm, 480, rfl⟩
abbrev main_v376 : Ref sig .tc := ⟨.hbm, 481, rfl⟩
abbrev main_v377 : Ref sig .tc := ⟨.hbm, 482, rfl⟩
abbrev main_v378 : Ref sig .tc := ⟨.hbm, 483, rfl⟩
abbrev main_v379 : Ref sig .tc := ⟨.hbm, 484, rfl⟩
abbrev main_v380 : Ref sig .tc := ⟨.hbm, 485, rfl⟩
abbrev main_v381 : Ref sig .tc := ⟨.hbm, 486, rfl⟩
abbrev main_v382 : Ref sig .tc := ⟨.hbm, 487, rfl⟩
abbrev main_v383 : Ref sig .tc := ⟨.hbm, 488, rfl⟩
abbrev main_v384 : Ref sig .tc := ⟨.hbm, 489, rfl⟩
abbrev main_v385 : Ref sig .tc := ⟨.hbm, 490, rfl⟩
abbrev main_v386 : Ref sig .tc := ⟨.hbm, 491, rfl⟩
abbrev main_v387 : Ref sig .tc := ⟨.hbm, 492, rfl⟩
abbrev main_c_70 : Ref sig .tc := ⟨.hbm, 493, rfl⟩
abbrev main_v388 : Ref sig .tc := ⟨.hbm, 494, rfl⟩
abbrev main_v389 : Ref sig .tc := ⟨.hbm, 495, rfl⟩
abbrev main_c_71 : Ref sig .tc := ⟨.hbm, 496, rfl⟩
abbrev main_v390 : Ref sig .tc := ⟨.hbm, 497, rfl⟩
abbrev main_v391 : Ref sig .tc := ⟨.hbm, 498, rfl⟩
abbrev main_v392 : Ref sig .tc := ⟨.hbm, 499, rfl⟩
abbrev main_c_72 : Ref sig .tc := ⟨.hbm, 500, rfl⟩
abbrev main_v393 : Ref sig .tc := ⟨.hbm, 501, rfl⟩
abbrev main_v394 : Ref sig .tc := ⟨.hbm, 502, rfl⟩
abbrev main_c_73 : Ref sig .tc := ⟨.hbm, 503, rfl⟩
abbrev main_v395 : Ref sig .tc := ⟨.hbm, 504, rfl⟩
abbrev main_v396 : Ref sig .tc := ⟨.hbm, 505, rfl⟩
abbrev main_v397 : Ref sig .tc := ⟨.hbm, 506, rfl⟩
abbrev main_v398 : Ref sig .tc := ⟨.hbm, 507, rfl⟩
abbrev main_v399 : Ref sig .tc := ⟨.hbm, 508, rfl⟩
abbrev main_v400 : Ref sig .tc := ⟨.hbm, 509, rfl⟩
abbrev main_v401 : Ref sig .tc := ⟨.hbm, 510, rfl⟩
abbrev main_v402 : Ref sig .tc := ⟨.hbm, 511, rfl⟩
abbrev main_c_74 : Ref sig .tc := ⟨.hbm, 512, rfl⟩
abbrev main_v403 : Ref sig .tc := ⟨.hbm, 513, rfl⟩
abbrev main_v404 : Ref sig .tc := ⟨.hbm, 514, rfl⟩
abbrev main_c_75 : Ref sig .tc := ⟨.hbm, 515, rfl⟩
abbrev main_v405 : Ref sig .tc := ⟨.hbm, 516, rfl⟩
abbrev main_v406 : Ref sig .tc := ⟨.hbm, 517, rfl⟩
abbrev main_v407 : Ref sig .tc := ⟨.hbm, 518, rfl⟩
abbrev main_c_76 : Ref sig .tc := ⟨.hbm, 519, rfl⟩
abbrev main_v408 : Ref sig .tc := ⟨.hbm, 520, rfl⟩
abbrev main_v409 : Ref sig .tc := ⟨.hbm, 521, rfl⟩
abbrev main_c_77 : Ref sig .tc := ⟨.hbm, 522, rfl⟩
abbrev main_v410 : Ref sig .tc := ⟨.hbm, 523, rfl⟩
abbrev main_v411 : Ref sig .tc := ⟨.hbm, 524, rfl⟩
abbrev main_v412 : Ref sig .tc := ⟨.hbm, 525, rfl⟩
abbrev main_v413 : Ref sig .tc := ⟨.hbm, 526, rfl⟩
abbrev main_v414 : Ref sig .tc := ⟨.hbm, 527, rfl⟩
abbrev main_v415 : Ref sig .tc := ⟨.hbm, 528, rfl⟩
abbrev main_v416 : Ref sig .tc := ⟨.hbm, 529, rfl⟩
abbrev main_v417 : Ref sig .tc := ⟨.hbm, 530, rfl⟩
abbrev main_c_78 : Ref sig .tc := ⟨.hbm, 531, rfl⟩
abbrev main_v418 : Ref sig .tc := ⟨.hbm, 532, rfl⟩
abbrev main_v419 : Ref sig .tc := ⟨.hbm, 533, rfl⟩
abbrev main_c_79 : Ref sig .tc := ⟨.hbm, 534, rfl⟩
abbrev main_v420 : Ref sig .tc := ⟨.hbm, 535, rfl⟩
abbrev main_v421 : Ref sig .tc := ⟨.hbm, 536, rfl⟩
abbrev main_v422 : Ref sig .tc := ⟨.hbm, 537, rfl⟩
abbrev main_c_80 : Ref sig .tc := ⟨.hbm, 538, rfl⟩
abbrev main_v423 : Ref sig .tc := ⟨.hbm, 539, rfl⟩
abbrev main_v424 : Ref sig .tc := ⟨.hbm, 540, rfl⟩
abbrev main_c_81 : Ref sig .tc := ⟨.hbm, 541, rfl⟩
abbrev main_v425 : Ref sig .tc := ⟨.hbm, 542, rfl⟩
abbrev main_v426 : Ref sig .tc := ⟨.hbm, 543, rfl⟩
abbrev main_v427 : Ref sig .tc := ⟨.hbm, 544, rfl⟩
abbrev main_v428 : Ref sig .tc := ⟨.hbm, 545, rfl⟩
abbrev main_v429 : Ref sig .tc := ⟨.hbm, 546, rfl⟩
abbrev main_v430 : Ref sig .tc := ⟨.hbm, 547, rfl⟩
abbrev main_v431 : Ref sig .tc := ⟨.hbm, 548, rfl⟩
abbrev main_v432 : Ref sig .tc := ⟨.hbm, 549, rfl⟩
abbrev main_c_82 : Ref sig .tc := ⟨.hbm, 550, rfl⟩
abbrev main_v433 : Ref sig .tc := ⟨.hbm, 551, rfl⟩
abbrev main_v434 : Ref sig .tc := ⟨.hbm, 552, rfl⟩
abbrev main_c_83 : Ref sig .tc := ⟨.hbm, 553, rfl⟩
abbrev main_v435 : Ref sig .tc := ⟨.hbm, 554, rfl⟩
abbrev main_v436 : Ref sig .tc := ⟨.hbm, 555, rfl⟩
abbrev main_v437 : Ref sig .tc := ⟨.hbm, 556, rfl⟩
abbrev main_c_84 : Ref sig .tc := ⟨.hbm, 557, rfl⟩
abbrev main_v438 : Ref sig .tc := ⟨.hbm, 558, rfl⟩
abbrev main_v439 : Ref sig .tc := ⟨.hbm, 559, rfl⟩
abbrev main_c_85 : Ref sig .tc := ⟨.hbm, 560, rfl⟩
abbrev main_v440 : Ref sig .tc := ⟨.hbm, 561, rfl⟩
abbrev main_v441 : Ref sig .tc := ⟨.hbm, 562, rfl⟩
abbrev main_v442 : Ref sig .tc := ⟨.hbm, 563, rfl⟩
abbrev main_v443 : Ref sig .tc := ⟨.hbm, 564, rfl⟩
abbrev main_v444 : Ref sig .tc := ⟨.hbm, 565, rfl⟩
abbrev main_v445 : Ref sig .tc := ⟨.hbm, 566, rfl⟩
abbrev main_v446 : Ref sig .tc := ⟨.hbm, 567, rfl⟩
abbrev main_v447 : Ref sig .tc := ⟨.hbm, 568, rfl⟩
abbrev main_v448 : Ref sig .tc := ⟨.hbm, 569, rfl⟩
abbrev main_v449 : Ref sig .tc := ⟨.hbm, 570, rfl⟩
abbrev main_v450 : Ref sig .tc := ⟨.hbm, 571, rfl⟩
abbrev main_v451 : Ref sig .tc := ⟨.hbm, 572, rfl⟩
abbrev main_v452 : Ref sig .tc := ⟨.hbm, 573, rfl⟩
abbrev main_v453 : Ref sig .tc := ⟨.hbm, 574, rfl⟩
abbrev main_v454 : Ref sig .tc := ⟨.hbm, 575, rfl⟩
abbrev main_v455 : Ref sig .tc := ⟨.hbm, 576, rfl⟩
abbrev main_v456 : Ref sig .tc := ⟨.hbm, 577, rfl⟩
abbrev main_v457 : Ref sig .tc := ⟨.hbm, 578, rfl⟩
abbrev main_v458 : Ref sig .tc := ⟨.hbm, 579, rfl⟩
abbrev main_v459 : Ref sig .tc := ⟨.hbm, 580, rfl⟩
abbrev main_v460 : Ref sig .tc := ⟨.hbm, 581, rfl⟩
abbrev main_v461 : Ref sig .tc := ⟨.hbm, 582, rfl⟩
abbrev main_v462 : Ref sig .tc := ⟨.hbm, 583, rfl⟩
abbrev main_v463 : Ref sig .tc := ⟨.hbm, 584, rfl⟩
abbrev main_v464 : Ref sig .tc := ⟨.hbm, 585, rfl⟩
abbrev main_v465 : Ref sig .tc := ⟨.hbm, 586, rfl⟩
abbrev main_v466 : Ref sig .tc := ⟨.hbm, 587, rfl⟩
abbrev main_call2_cst : Ref sig .tc := ⟨.hbm, 588, rfl⟩
abbrev main_call2_v0 : Ref sig .tc := ⟨.hbm, 589, rfl⟩
abbrev main_v467 : Ref sig .tc := ⟨.hbm, 590, rfl⟩
abbrev main_v468 : Ref sig .tc := ⟨.hbm, 591, rfl⟩
abbrev main_v469 : Ref sig .tc := ⟨.hbm, 592, rfl⟩
abbrev main_v470 : Ref sig .tc := ⟨.hbm, 593, rfl⟩
abbrev main_v471 : Ref sig .tc := ⟨.hbm, 594, rfl⟩
abbrev main_call3_cst : Ref sig .tc := ⟨.hbm, 595, rfl⟩
abbrev main_call3_v0 : Ref sig .tc := ⟨.hbm, 596, rfl⟩
abbrev main_v472 : Ref sig .tc := ⟨.hbm, 597, rfl⟩
abbrev main_v473 : Ref sig .tc := ⟨.hbm, 598, rfl⟩
abbrev main_v474 : Ref sig .tc := ⟨.hbm, 599, rfl⟩
abbrev main_v475 : Ref sig .tc := ⟨.hbm, 600, rfl⟩
abbrev main_v476 : Ref sig .tc := ⟨.hbm, 601, rfl⟩
abbrev main_v477 : Ref sig .tc := ⟨.hbm, 602, rfl⟩
abbrev main_call4_cst : Ref sig .tc := ⟨.hbm, 603, rfl⟩
abbrev main_call4_v0 : Ref sig .tc := ⟨.hbm, 604, rfl⟩
abbrev main_v478 : Ref sig .tc := ⟨.hbm, 605, rfl⟩
abbrev main_v479 : Ref sig .tc := ⟨.hbm, 606, rfl⟩
abbrev main_v480 : Ref sig .tc := ⟨.hbm, 607, rfl⟩
abbrev main_v481 : Ref sig .tc := ⟨.hbm, 608, rfl⟩
abbrev main_v482 : Ref sig .tc := ⟨.hbm, 609, rfl⟩
abbrev main_call5_cst : Ref sig .tc := ⟨.hbm, 610, rfl⟩
abbrev main_call5_v0 : Ref sig .tc := ⟨.hbm, 611, rfl⟩
abbrev main_v483 : Ref sig .tc := ⟨.hbm, 612, rfl⟩
abbrev main_v484 : Ref sig .tc := ⟨.hbm, 613, rfl⟩
abbrev main_v485 : Ref sig .tc := ⟨.hbm, 614, rfl⟩
abbrev main_v486 : Ref sig .tc := ⟨.hbm, 615, rfl⟩
abbrev main_v487 : Ref sig .tc := ⟨.hbm, 616, rfl⟩
abbrev main_v488 : Ref sig .tc := ⟨.hbm, 617, rfl⟩
abbrev main_call6_cst : Ref sig .tc := ⟨.hbm, 618, rfl⟩
abbrev main_call6_v0 : Ref sig .tc := ⟨.hbm, 619, rfl⟩
abbrev main_v489 : Ref sig .tc := ⟨.hbm, 620, rfl⟩
abbrev main_v490 : Ref sig .tc := ⟨.hbm, 621, rfl⟩
abbrev main_v491 : Ref sig .tc := ⟨.hbm, 622, rfl⟩
abbrev main_v492 : Ref sig .tc := ⟨.hbm, 623, rfl⟩
abbrev main_v493 : Ref sig .tc := ⟨.hbm, 624, rfl⟩
abbrev main_call7_cst : Ref sig .tc := ⟨.hbm, 625, rfl⟩
abbrev main_call7_v0 : Ref sig .tc := ⟨.hbm, 626, rfl⟩
abbrev main_v494 : Ref sig .tc := ⟨.hbm, 627, rfl⟩
abbrev main_v495 : Ref sig .tc := ⟨.hbm, 628, rfl⟩
abbrev main_v496 : Ref sig .tc := ⟨.hbm, 629, rfl⟩
abbrev main_v497 : Ref sig .tc := ⟨.hbm, 630, rfl⟩
abbrev main_v498 : Ref sig .tc := ⟨.hbm, 631, rfl⟩
abbrev main_v499 : Ref sig .tc := ⟨.hbm, 632, rfl⟩
abbrev main_call8_cst : Ref sig .tc := ⟨.hbm, 633, rfl⟩
abbrev main_call8_v0 : Ref sig .tc := ⟨.hbm, 634, rfl⟩
abbrev main_v500 : Ref sig .tc := ⟨.hbm, 635, rfl⟩
abbrev main_v501 : Ref sig .tc := ⟨.hbm, 636, rfl⟩
abbrev main_v502 : Ref sig .tc := ⟨.hbm, 637, rfl⟩

abbrev nD : Nat := 1
abbrev τ : Topo := Topo.v7x

variable {F : FTy → Type} [FloatOps F]

class Facts₀ : Prop where
  shapeCasts_S1x256x56x56_S256x56x56 : S1x256x56x56.ShapeCasts S256x56x56
  shapeCasts_S1x512x28x28_S512x28x28 : S1x512x28x28.ShapeCasts S512x28x28
  shapeCasts_S1x1024x14x14_S1024x14x14 : S1x1024x14x14.ShapeCasts S1024x14x14
  shapeCasts_S1x2048x7x7_S2048x7x7 : S1x2048x7x7.ShapeCasts S2048x7x7
  slices_S8192x3_S8192x1_0_2 : S8192x3.Slices ![0, 2] S8192x1
  shapeCasts_S8192x1_S8192 : S8192x1.ShapeCasts S8192
  slices_S8192x3_S8192x1_0_1 : S8192x3.Slices ![0, 1] S8192x1
  bcast_S_S8192 : S_.BroadcastsInDim S8192 (![] : Fin 0 → Fin S8192.rank)
  slices_S8192x3_S8192x1_0_0 : S8192x3.Slices ![0, 0] S8192x1
  bcast_S8192_S8192x1_0 : S8192.BroadcastsInDim S8192x1 (![0] : Fin 1 → Fin S8192x1.rank)
  concatenates_S8192x1_S8192x1_S8192x2_d1 : Shape.Concatenates [S8192x1, S8192x1] S8192x2 1
  transposes_S256x8192_S8192x256_1_0 : S256x8192.Transposes [1, 0] S8192x256
  bcast_S8192x1_S8192x256_0_1 : S8192x1.BroadcastsInDim S8192x256 (![0, 1] : Fin 2 → Fin S8192x256.rank)
  transposes_S512x8192_S8192x512_1_0 : S512x8192.Transposes [1, 0] S8192x512
  bcast_S8192x1_S8192x512_0_1 : S8192x1.BroadcastsInDim S8192x512 (![0, 1] : Fin 2 → Fin S8192x512.rank)
  transposes_S1024x8192_S8192x1024_1_0 : S1024x8192.Transposes [1, 0] S8192x1024
  bcast_S8192x1_S8192x1024_0_1 : S8192x1.BroadcastsInDim S8192x1024 (![0, 1] : Fin 2 → Fin S8192x1024.rank)
  transposes_S2048x8192_S8192x2048_1_0 : S2048x8192.Transposes [1, 0] S8192x2048
  bcast_S8192x1_S8192x2048_0_1 : S8192x1.BroadcastsInDim S8192x2048 (![0, 1] : Fin 2 → Fin S8192x2048.rank)
  concatenates_S8192x256_S8192x512_S8192x1024_S8192x2048_S8192x3840_d1 : Shape.Concatenates [S8192x256, S8192x512, S8192x1024, S8192x2048] S8192x3840 1
  concatenates_S8192x128_S8192x3_S8192x128_S8192x259_d1 : Shape.Concatenates [S8192x128, S8192x3, S8192x128] S8192x259 1
  bcast_S_S8192x128 : S_.BroadcastsInDim S8192x128 (![] : Fin 0 → Fin S8192x128.rank)
  bcast_S_S8192x3 : S_.BroadcastsInDim S8192x3 (![] : Fin 0 → Fin S8192x3.rank)
  gather_S256x56x56_S8192x2_S256x8192_0_12_n_n_12_1_25611_wf : GatherDims.WF S256x56x56 S8192x2 S256x8192 [0] [1, 2] [] [1, 2] [] 1 ![256, 1, 1]
  gather_S512x28x28_S8192x2_S512x8192_0_12_n_n_12_1_51211_wf : GatherDims.WF S512x28x28 S8192x2 S512x8192 [0] [1, 2] [] [1, 2] [] 1 ![512, 1, 1]
  gather_S1024x14x14_S8192x2_S1024x8192_0_12_n_n_12_1_102411_wf : GatherDims.WF S1024x14x14 S8192x2 S1024x8192 [0] [1, 2] [] [1, 2] [] 1 ![1024, 1, 1]
  gather_S2048x7x7_S8192x2_S2048x8192_0_12_n_n_12_1_204811_wf : GatherDims.WF S2048x7x7 S8192x2 S2048x8192 [0] [1, 2] [] [1, 2] [] 1 ![2048, 1, 1]
  dot_S8192x3840_S3840x128_S8192x128_1_0_0_1_n_n_wf : DotDims.WF S8192x3840 S3840x128 S8192x128 [1] [0] [0] [1] [] []
  dot_S8192x259_S259x128_S8192x128_1_0_0_1_n_n_wf : DotDims.WF S8192x259 S259x128 S8192x128 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  dot_S8192x128_S128x3_S8192x3_1_0_0_1_n_n_wf : DotDims.WF S8192x128 S128x3 S8192x3 [1] [0] [0] [1] [] []
  dot_S8192x8192_S8192x3_S8192x3_1_0_0_1_n_n_wf : DotDims.WF S8192x8192 S8192x3 S8192x3 [1] [0] [0] [1] [] []

variable [Facts₀]

def gather_S256x56x56_S8192x2_S256x8192_0_12_n_n_12_1_25611 : GatherDims S256x56x56 S8192x2 S256x8192 where
  offsetDims := [0]
  collapsedSliceDims := [1, 2]
  operandBatchingDims := []
  startIndicesBatchingDims := []
  startIndexMap := [1, 2]
  indexVectorDim := 1
  sliceSizes := ![256, 1, 1]
  wf := gather_S256x56x56_S8192x2_S256x8192_0_12_n_n_12_1_25611_wf
def gather_S512x28x28_S8192x2_S512x8192_0_12_n_n_12_1_51211 : GatherDims S512x28x28 S8192x2 S512x8192 where
  offsetDims := [0]
  collapsedSliceDims := [1, 2]
  operandBatchingDims := []
  startIndicesBatchingDims := []
  startIndexMap := [1, 2]
  indexVectorDim := 1
  sliceSizes := ![512, 1, 1]
  wf := gather_S512x28x28_S8192x2_S512x8192_0_12_n_n_12_1_51211_wf
def gather_S1024x14x14_S8192x2_S1024x8192_0_12_n_n_12_1_102411 : GatherDims S1024x14x14 S8192x2 S1024x8192 where
  offsetDims := [0]
  collapsedSliceDims := [1, 2]
  operandBatchingDims := []
  startIndicesBatchingDims := []
  startIndexMap := [1, 2]
  indexVectorDim := 1
  sliceSizes := ![1024, 1, 1]
  wf := gather_S1024x14x14_S8192x2_S1024x8192_0_12_n_n_12_1_102411_wf
def gather_S2048x7x7_S8192x2_S2048x8192_0_12_n_n_12_1_204811 : GatherDims S2048x7x7 S8192x2 S2048x8192 where
  offsetDims := [0]
  collapsedSliceDims := [1, 2]
  operandBatchingDims := []
  startIndicesBatchingDims := []
  startIndexMap := [1, 2]
  indexVectorDim := 1
  sliceSizes := ![2048, 1, 1]
  wf := gather_S2048x7x7_S8192x2_S2048x8192_0_12_n_n_12_1_204811_wf
def dot_S8192x3840_S3840x128_S8192x128_1_0_0_1_n_n : DotDims S8192x3840 S3840x128 S8192x128 where
  lhsContracting := [1]
  rhsContracting := [0]
  lhsNonContracting := [0]
  rhsNonContracting := [1]
  lhsBatch := []
  rhsBatch := []
  wf := dot_S8192x3840_S3840x128_S8192x128_1_0_0_1_n_n_wf
def dot_S8192x259_S259x128_S8192x128_1_0_0_1_n_n : DotDims S8192x259 S259x128 S8192x128 where
  lhsContracting := [1]
  rhsContracting := [0]
  lhsNonContracting := [0]
  rhsNonContracting := [1]
  lhsBatch := []
  rhsBatch := []
  wf := dot_S8192x259_S259x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x3_S8192x3_1_0_0_1_n_n : DotDims S8192x128 S128x3 S8192x3 where
  lhsContracting := [1]
  rhsContracting := [0]
  lhsNonContracting := [0]
  rhsNonContracting := [1]
  lhsBatch := []
  rhsBatch := []
  wf := dot_S8192x128_S128x3_S8192x3_1_0_0_1_n_n_wf
def dot_S8192x8192_S8192x3_S8192x3_1_0_0_1_n_n : DotDims S8192x8192 S8192x3 S8192x3 where
  lhsContracting := [1]
  rhsContracting := [0]
  lhsNonContracting := [0]
  rhsNonContracting := [1]
  lhsBatch := []
  rhsBatch := []
  wf := dot_S8192x8192_S8192x3_S8192x3_1_0_0_1_n_n_wf

class Facts : Prop extends Facts₀ where

variable [Facts]
-- ==== Proof.K.R0.lean ====
import proofs.«120270_j2259152797813_2_alg».proof.Proof.Gen.Kernel.Launch
import proofs.«120270_j2259152797813_2_alg».proof.Proof.Gen.Kernel.Skeleton
import proofs.«120270_j2259152797813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# Region 0: the one-hot selection kernel on the 3200-row projected feature map

A grid point is a tile of 256 vertices.  The body reads the tile's four corner indices and four corner weights
(each a column of 256 entries) and the whole projected map, builds the 256 x 3200 selection matrix whose entry
(v, s) is the sum over the corners whose index is s of the corner's weight, and stores its product with the map
as the tile's 256 x 128 block of the result.  Everything here is stated at a parameter `V`, the contents of the
TensorCore's buffers when the region is entered.
-/

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rc0 : Rect S256x1 := Rect.unit (s := S256x1) ![0, 0] S256x1.size inb_S256x1_S256x1_0_0
abbrev rf0 : Rect S3200x128 := Rect.unit (s := S3200x128) ![0, 0] S3200x128.size inb_S3200x128_S3200x128_0_0
abbrev ro0 : Rect S256x128 := Rect.unit (s := S256x128) ![0, 0] S256x128.size inb_S256x128_S256x128_0_0

/-- What the body leaves in the result window's buffer, from the input blocks: its one store, of the product of
    the selection matrix (three corners' terms, then the fourth's) with the projected map. -/
def out0_9 (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S3200x128 .bf16) : Vec F S256x128 .f32 :=
  View.canon [⟨ro0, k0_pay1 (k0_pay2 (View.ld x0 rc0) (View.ld x4 rc0) (View.ld x1 rc0) (View.ld x5 rc0) (View.ld x2 rc0) (View.ld x6 rc0))
    (k0_pay3 (View.ld x3 rc0) (View.ld x7 rc0)) (View.ld x8 rf0)⟩]

/-- The one store covers the buffer. -/
theorem cover0_9 (p0 : Vec F S256x128 .f32) (y : S256x128.Idx) :
    ∃ pc ∈ ([⟨ro0, p0⟩] : List (View.Piece (Elt F) S256x128 .f32)), y ∈ pc.1.set :=
  View.cover_of_tiled [⟨ro0, p0⟩] S256x128.size (by rfl) y

set_option maxHeartbeats 4000000 in
/-- The body on whole staging memrefs, the inputs' at read contents and the result's at anything, runs to the
    continuation holding the inputs' as they were and the result's at `out0_9` of the inputs'. -/
theorem sound_kernel0 (c : Dev nD) (E : Set ℕ) (i : grid0.Coords) (arg1 : Memref sig .tc .vmem S256x1 .i32) (harg1 : arg1.IsWhole) (arg2 : Memref sig .tc .vmem S256x1 .i32) (harg2 : arg2.IsWhole) (arg3 : Memref sig .tc .vmem S256x1 .i32) (harg3 : arg3.IsWhole) (arg4 : Memref sig .tc .vmem S256x1 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S3200x128 .bf16) (harg9 : arg9.IsWhole) (arg10 : Memref sig .tc .vmem S256x128 .f32) (harg10 : arg10.IsWhole)
    (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S3200x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__gather_proj_kernel i arg1 harg1 arg2 harg2 arg3 harg3 arg4 harg4 arg5 harg5 arg6 harg6 arg7 harg7 arg8 harg8 arg9 harg9 arg10 harg10) K := by
  simp only [cc0__gather_proj_kernel_eq_skeleton]; unfold cc0__gather_proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-- The proof data of the region on core `c`: the arrays as the region finds them; after the body at point `t` each
    input's buffer at its block and the result's at `out0_9` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's triple applies; the invariant and
    the core's duties pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«120270_j2259152797813_2_alg».proof.Proof.Gen.Kernel.Launch
import proofs.«120270_j2259152797813_2_alg».proof.Proof.Gen.Kernel.Skeleton
import proofs.«120270_j2259152797813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# Region 1: the one-hot selection kernel on the 896-row projected feature map

A grid point is a tile of 256 vertices.  The body reads the tile's four corner indices and four corner weights
(each a column of 256 entries) and the whole projected map, builds the 256 x 896 selection matrix whose entry
(v, s) is the sum over the corners whose index is s of the corner's weight, and stores its product with the map
as the tile's 256 x 128 block of the result.  Everything here is stated at a parameter `V`, the contents of the
TensorCore's buffers when the region is entered.
-/

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rc1 : Rect S256x1 := Rect.unit (s := S256x1) ![0, 0] S256x1.size inb_S256x1_S256x1_0_0
abbrev rf1 : Rect S896x128 := Rect.unit (s := S896x128) ![0, 0] S896x128.size inb_S896x128_S896x128_0_0
abbrev ro1 : Rect S256x128 := Rect.unit (s := S256x128) ![0, 0] S256x128.size inb_S256x128_S256x128_0_0

/-- What the body leaves in the result window's buffer, from the input blocks: its one store, of the product of
    the selection matrix (three corners' terms, then the fourth's) with the projected map. -/
def out1_9 (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S896x128 .bf16) : Vec F S256x128 .f32 :=
  View.canon [⟨ro1, k1_pay1 (k1_pay2 (View.ld x0 rc1) (View.ld x4 rc1) (View.ld x1 rc1) (View.ld x5 rc1) (View.ld x2 rc1) (View.ld x6 rc1))
    (k1_pay3 (View.ld x3 rc1) (View.ld x7 rc1)) (View.ld x8 rf1)⟩]

/-- The one store covers the buffer. -/
theorem cover1_9 (p0 : Vec F S256x128 .f32) (y : S256x128.Idx) :
    ∃ pc ∈ ([⟨ro1, p0⟩] : List (View.Piece (Elt F) S256x128 .f32)), y ∈ pc.1.set :=
  View.cover_of_tiled [⟨ro1, p0⟩] S256x128.size (by rfl) y

set_option maxHeartbeats 4000000 in
/-- The body on whole staging memrefs, the inputs' at read contents and the result's at anything, runs to the
    continuation holding the inputs' as they were and the result's at `out1_9` of the inputs'. -/
theorem sound_kernel1 (c : Dev nD) (E : Set ℕ) (i : grid1.Coords) (arg1 : Memref sig .tc .vmem S256x1 .i32) (harg1 : arg1.IsWhole) (arg2 : Memref sig .tc .vmem S256x1 .i32) (harg2 : arg2.IsWhole) (arg3 : Memref sig .tc .vmem S256x1 .i32) (harg3 : arg3.IsWhole) (arg4 : Memref sig .tc .vmem S256x1 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S896x128 .bf16) (harg9 : arg9.IsWhole) (arg10 : Memref sig .tc .vmem S256x128 .f32) (harg10 : arg10.IsWhole)
    (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S896x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__gather_proj_kernel i arg1 harg1 arg2 harg2 arg3 harg3 arg4 harg4 arg5 harg5 arg6 harg6 arg7 harg7 arg8 harg8 arg9 harg9 arg10 harg10) K := by
  simp only [cc1__gather_proj_kernel_eq_skeleton]; unfold cc1__gather_proj_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-- The proof data of the region on core `c`: the arrays as the region finds them; after the body at point `t` each
    input's buffer at its block and the result's at `out1_9` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- The body at any point: the inputs' memrefs hold their blocks, so the body's triple applies; the invariant and
    the core's duties pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«120270_j2259152797813_2_alg».proof.Proof.Gen.Kernel.Launch
import proofs.«120270_j2259152797813_2_alg».proof.Proof.Gen.Kernel.Skeleton
import proofs.«120270_j2259152797813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# Region 2: the one-hot selection kernel on the 256-row projected feature map

A grid point is a tile of 256 vertices.  The body reads the tile's four corner indices and four corner weights
(each a column of 256 entries) and the whole projected map, builds the 256 x 256 selection matrix whose entry
(v, s) is the sum over the corners whose index is s of the corner's weight, and stores its product with the map
as the tile's 256 x 128 block of the result.  Everything here is stated at a parameter `V`, the contents of the
TensorCore's buffers when the region is entered.
-/

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rc2 : Rect S256x1 := Rect.unit (s := S256x1) ![0, 0] S256x1.size inb_S256x1_S256x1_0_0
abbrev rf2 : Rect S256x128 := Rect.unit (s := S256x128) ![0, 0] S256x128.size inb_S256x128_S256x128_0_0
abbrev ro2 : Rect S256x128 := Rect.unit (s := S256x128) ![0, 0] S256x128.size inb_S256x128_S256x128_0_0

/-- What the body leaves in the result window's buffer, from the input blocks: its one store, of the product of
    the selection matrix (three corners' terms, then the fourth's) with the projected map. -/
def out2_9 (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S256x128 .bf16) : Vec F S256x128 .f32 :=
  View.canon [⟨ro2, k2_pay1 (k2_pay2 (View.ld x0 rc2) (View.ld x4 rc2) (View.ld x1 rc2) (View.ld x5 rc2) (View.ld x2 rc2) (View.ld x6 rc2))
    (k2_pay3 (View.ld x3 rc2) (View.ld x7 rc2)) (View.ld x8 rf2)⟩]

/-- The one store covers the buffer. -/
theorem cover2_9 (p0 : Vec F S256x128 .f32) (y : S256x128.Idx) :
    ∃ pc ∈ ([⟨ro2, p0⟩] : List (View.Piece (Elt F) S256x128 .f32)), y ∈ pc.1.set :=
  View.cover_of_tiled [⟨ro2, p0⟩] S256x128.size (by rfl) y

set_option maxHeartbeats 4000000 in
/-- The body on whole staging memrefs, the inputs' at read contents and the result's at anything, runs to the
    continuation holding the inputs' as they were and the result's at `out2_9` of the inputs'. -/
theorem sound_kernel2 (c : Dev nD) (E : Set ℕ) (i : grid2.Coords) (arg1 : Memref sig .tc .vmem S256x1 .i32) (harg1 : arg1.IsWhole) (arg2 : Memref sig .tc .vmem S256x1 .i32) (harg2 : arg2.IsWhole) (arg3 : Memref sig .tc .vmem S256x1 .i32) (harg3 : arg3.IsWhole) (arg4 : Memref sig .tc .vmem S256x1 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .bf16) (harg9 : arg9.IsWhole) (arg10 : Memref sig .tc .vmem S256x128 .f32) (harg10 : arg10.IsWhole)
    (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S256x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__gather_proj_kernel i arg1 harg1 arg2 harg2 arg3 harg3 arg4 harg4 arg5 harg5 arg6 harg6 arg7 harg7 arg8 harg8 arg9 harg9 arg10 harg10) K := by
  simp only [cc2__gather_proj_kernel_eq_skeleton]; unfold cc2__gather_proj_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-- The proof data of the region on core `c`: the arrays as the region finds them; after the body at point `t` each
    input's buffer at its block and the result's at `out2_9` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 4000000 in
/-- The body at any point: the inputs' memrefs hold their blocks, so the body's triple applies; the invariant and
    the core's duties pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«120270_j2259152797813_2_alg».proof.Proof.Gen.Kernel.Launch
import proofs.«120270_j2259152797813_2_alg».proof.Proof.Gen.Kernel.Skeleton
import proofs.«120270_j2259152797813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# Region 3: the one-hot selection kernel on the 128-row projected feature map

A grid point is a tile of 256 vertices.  The body reads the tile's four corner indices and four corner weights
(each a column of 256 entries) and the whole projected map, builds the 256 x 128 selection matrix whose entry
(v, s) is the sum over the corners whose index is s of the corner's weight, and stores its product with the map
as the tile's 256 x 128 block of the result.  Everything here is stated at a parameter `V`, the contents of the
TensorCore's buffers when the region is entered.
-/

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rc3 : Rect S256x1 := Rect.unit (s := S256x1) ![0, 0] S256x1.size inb_S256x1_S256x1_0_0
abbrev rf3 : Rect S128x128 := Rect.unit (s := S128x128) ![0, 0] S128x128.size inb_S128x128_S128x128_0_0
abbrev ro3 : Rect S256x128 := Rect.unit (s := S256x128) ![0, 0] S256x128.size inb_S256x128_S256x128_0_0

/-- What the body leaves in the result window's buffer, from the input blocks: its one store, of the product of
    the selection matrix (three corners' terms, then the fourth's) with the projected map. -/
def out3_9 (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S128x128 .bf16) : Vec F S256x128 .f32 :=
  View.canon [⟨ro3, k3_pay1 (k3_pay2 (View.ld x0 rc3) (View.ld x4 rc3) (View.ld x1 rc3) (View.ld x5 rc3) (View.ld x2 rc3) (View.ld x6 rc3))
    (k3_pay3 (View.ld x3 rc3) (View.ld x7 rc3)) (View.ld x8 rf3)⟩]

/-- The one store covers the buffer. -/
theorem cover3_9 (p0 : Vec F S256x128 .f32) (y : S256x128.Idx) :
    ∃ pc ∈ ([⟨ro3, p0⟩] : List (View.Piece (Elt F) S256x128 .f32)), y ∈ pc.1.set :=
  View.cover_of_tiled [⟨ro3, p0⟩] S256x128.size (by rfl) y

set_option maxHeartbeats 4000000 in
/-- The body on whole staging memrefs, the inputs' at read contents and the result's at anything, runs to the
    continuation holding the inputs' as they were and the result's at `out3_9` of the inputs'. -/
theorem sound_kernel3 (c : Dev nD) (E : Set ℕ) (i : grid3.Coords) (arg1 : Memref sig .tc .vmem S256x1 .i32) (harg1 : arg1.IsWhole) (arg2 : Memref sig .tc .vmem S256x1 .i32) (harg2 : arg2.IsWhole) (arg3 : Memref sig .tc .vmem S256x1 .i32) (harg3 : arg3.IsWhole) (arg4 : Memref sig .tc .vmem S256x1 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S128x128 .bf16) (harg9 : arg9.IsWhole) (arg10 : Memref sig .tc .vmem S256x128 .f32) (harg10 : arg10.IsWhole)
    (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3__gather_proj_kernel i arg1 harg1 arg2 harg2 arg3 harg3 arg4 harg4 arg5 harg5 arg6 harg6 arg7 harg7 arg8 harg8 arg9 harg9 arg10 harg10) K := by
  simp only [cc3__gather_proj_kernel_eq_skeleton]; unfold cc3__gather_proj_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-- The proof data of the region on core `c`: the arrays as the region finds them; after the body at point `t` each
    input's buffer at its block and the result's at `out3_9` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

set_option maxHeartbeats 4000000 in
/-- The body at any point: the inputs' memrefs hold their blocks, so the body's triple applies; the invariant and
    the core's duties pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4Runs.lean ====
import proofs.«120270_j2259152797813_2_alg».proof.Proof.Gen.Kernel.Launch
import proofs.«120270_j2259152797813_2_alg».proof.Proof.Gen.Kernel.Skeleton
import proofs.«120270_j2259152797813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (the adjacency product with a carried accumulator): what its two cases share -/

section R4
variable (V : (c : Dev nD) → (b : Ref sig .tc) → Buf (Elt F) ((c : Thread nD τ).loc b))

/-- Window `w`'s block at grid point `t`, read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the point fetches it or
    not (an unfetched window's block index has not moved), for any proof data over the entry contents whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

end R4

/-! ## The body's two branch conditions, over the grid -/

/-- The first conditional (zero the accumulator): the reduction coordinate is 0. -/
abbrev cond4_0 (i : grid4.Coords) : Prop := (Scalar.cmpi .ne (Scalar.extui (Scalar.cmpi .eq (BitVec.ofNat 32 (i 1).val) 0#32)) 0#32) = 1#1
/-- It holds at the even points. -/
theorem hcond4_0 : ∀ t : Fin cfg4.N, cond4_0 (grid4.coords t) ↔ t.val % 2 = 0 :=
  (by decide +kernel : ∀ t : Fin grid4.N, cond4_0 (grid4.coords t) ↔ t.val % 2 = 0)

/-- The second conditional (store the output): the reduction coordinate is 1. -/
abbrev cond4_1 (i : grid4.Coords) : Prop := k4_cond2 i = 1#1
/-- It holds at the odd points. -/
theorem hcond4_1 : ∀ t : Fin cfg4.N, cond4_1 (grid4.coords t) ↔ t.val % 2 = 1 :=
  (by decide +kernel : ∀ t : Fin grid4.N, cond4_1 (grid4.coords t) ↔ t.val % 2 = 1)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- At an even point the output window is idle: nothing is stored into it, -/
theorem idleAt4_3_A : ∀ t : Fin cfg4.N, cond4_0 (grid4.coords t) → ¬cond4_1 (grid4.coords t) → cfg4.idle 3 (grid4.coords t) = true := by decide +kernel
/-- and its block is not written back. -/
theorem noFlush4_3_A : ∀ t : Fin cfg4.N, cond4_0 (grid4.coords t) → ¬cond4_1 (grid4.coords t) → (cfg4.win 3).flush t = false := by decide +kernel
/-- At an odd point the output window is live. -/
theorem liveAt4_3_B : ∀ t : Fin cfg4.N, ¬cond4_0 (grid4.coords t) → cond4_1 (grid4.coords t) → cfg4.idle 3 (grid4.coords t) = false := by decide +kernel

/-! ## The memrefs the body is called with -/

/-- One staging buffer of the output window, through which its contents are stated. -/
abbrev VO4_3 : View sig .tc .vmem S1024x128 .f32 := (Memref.whole cc4_stg3_0 : Memref sig .tc .vmem S1024x128 .f32).view
abbrev ms4_0 (t : Fin cfg4.N) : Memref sig .tc .vmem S1024x4096 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x128 .f32 := win4_3.stage (cfg4.slots t 3)
abbrev hs4_3 (t : Fin cfg4.N) : (ms4_3 t).IsWhole := hstage4_3 ((cfg4.slots t 3).cast nbuf4_3)
/-- The accumulator: a whole scoped buffer of the kernel's own, passed beside the windows, -/
abbrev scM4_0 : Memref sig .tc .vmem S1024x128 .f32 := Memref.whole cc4_scratch0
/-- and as a view. -/
abbrev VS4_0 : View sig .tc .vmem S1024x128 .f32 := scM4_0.view

/-- What the launch hands the region beside the windows — the scoped buffers no window stages and the
    generator register — with the accumulator split out as a memref owned at some contents. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Hand

end
-- ==== Proof.K.R4RunA.lean ====
import proofs.«120270_j2259152797813_2_alg».proof.Proof.K.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (an even point: the reduction coordinate is 0). On whole memrefs — the three inputs at their contents,
    the output's buffer at contents `xi3` that the body does not touch, the accumulator at anything — the body
    zeroes the accumulator, adds the product of the two input blocks to it, and returns the inputs and the
    output's buffer as they were and the accumulator with its stores written: the pieces `LS0` (last first) are
    found by running the body. The output gets no piece. -/
noncomputable def kernelRun4_A (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S1024x4096 .bf16) (x1 : Vec F S4096x128 .bf16) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__adjmm_kernel i arg2 harg2 arg3 harg3 arg4 harg4 arg5 harg5 arg6 harg6) K } := by
  refine ⟨[], ?_, fun xi3 E K => ?run⟩
  case run =>
    simp only [cc4__adjmm_kernel_eq_skeleton]; unfold cc4__adjmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R4RunB.lean ====
import proofs.«120270_j2259152797813_2_alg».proof.Proof.K.R4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an odd point: the reduction coordinate is 1). On whole memrefs — the three inputs at their contents,
    the output's buffer at anything, the accumulator at the contents `xs0` the point before left — the body adds
    the product of the two input blocks to the accumulator and stores the rectified sum of the accumulator and
    the third input into the output: the inputs come back as they were, the output's buffer with its pieces `L3`
    written and the accumulator with its pieces `LS0` written (last first), both found by running the body. -/
noncomputable def kernelRun4_B (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S1024x4096 .bf16) (x1 : Vec F S4096x128 .bf16) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__adjmm_kernel i arg2 harg2 arg3 harg3 arg4 harg4 arg5 harg5 arg6 harg6) K } := by
  refine ⟨?_, ?_, fun E K => ?run⟩
  case run =>
    simp only [cc4__adjmm_kernel_eq_skeleton]; unfold cc4__adjmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R4.lean ====
import proofs.«120270_j2259152797813_2_alg».proof.Proof.K.R4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: what the two cases leave, point by point; the proof data; the body obligation -/

/-! ## Per case -/

/-- Case A stores nothing into the output (the window is idle at the even points and not written back there):
    a placeholder nothing consults. -/
def out4_A_3 (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S1024x4096 .bf16) (x1 : Vec F S4096x128 .bf16) (x2 : Vec F S1024x128 .f32) : Vec F S1024x128 .f32 :=
  VO4_3.read (Elt F) (VO4_3.writes (Elt F) VO4_3.junk (kernelRun4_A c i arg2 harg2 arg3 harg3 arg4 harg4 arg5 harg5 arg6 harg6 hc0 hc1 x0 x1 x2).1)

/-- Case A's pieces for the accumulator tile it, so they cover it. -/
theorem scover4_A_0 (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S1024x4096 .bf16) (x1 : Vec F S4096x128 .bf16) (x2 : Vec F S1024x128 .f32) (y : S1024x128.Idx) :
    ∃ pc ∈ (kernelRun4_A c i arg2 harg2 arg3 harg3 arg4 harg4 arg5 harg5 arg6 harg6 hc0 hc1 x0 x1 x2).2.1, y ∈ pc.1.set :=
  View.cover_of_tiledL (kernelRun4_A c i arg2 harg2 arg3 harg3 arg4 harg4 arg5 harg5 arg6 harg6 hc0 hc1 x0 x1 x2).2.1 S1024x128.size (by sl_kernel_rfl) y

/-- What case A leaves in the accumulator: its pieces read back. -/
def sout4_A_0 (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S1024x4096 .bf16) (x1 : Vec F S4096x128 .bf16) (x2 : Vec F S1024x128 .f32) : Vec F S1024x128 .f32 :=
  VS4_0.read (Elt F) (VS4_0.writes (Elt F) VS4_0.junk (kernelRun4_A c i arg2 harg2 arg3 harg3 arg4 harg4 arg5 harg5 arg6 harg6 hc0 hc1 x0 x1 x2).2.1)

/-- Case B's pieces for the output tile its block, so they cover it. -/
theorem cover4_B_3 (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S1024x4096 .bf16) (x1 : Vec F S4096x128 .bf16) (x2 : Vec F S1024x128 .f32) (xs0 : Vec F S1024x128 .f32) (y : S1024x128.Idx) :
    ∃ pc ∈ (kernelRun4_B c i arg2 harg2 arg3 harg3 arg4 harg4 arg5 harg5 arg6 harg6 hc0 hc1 x0 x1 x2 xs0).1, y ∈ pc.1.set :=
  View.cover_of_tiledL (kernelRun4_B c i arg2 harg2 arg3 harg3 arg4 harg4 arg5 harg5 arg6 harg6 hc0 hc1 x0 x1 x2 xs0).1 S1024x128.size (by sl_kernel_rfl) y

/-- What case B leaves in the output's staging buffer: its pieces read back. -/
def out4_B_3 (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S1024x4096 .bf16) (x1 : Vec F S4096x128 .bf16) (x2 : Vec F S1024x128 .f32) (xs0 : Vec F S1024x128 .f32) : Vec F S1024x128 .f32 :=
  VO4_3.read (Elt F) (VO4_3.writes (Elt F) VO4_3.junk (kernelRun4_B c i arg2 harg2 arg3 harg3 arg4 harg4 arg5 harg5 arg6 harg6 hc0 hc1 x0 x1 x2 xs0).1)

/-- Case B's pieces for the accumulator tile it, so they cover it. -/
theorem scover4_B_0 (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S1024x4096 .bf16) (x1 : Vec F S4096x128 .bf16) (x2 : Vec F S1024x128 .f32) (xs0 : Vec F S1024x128 .f32) (y : S1024x128.Idx) :
    ∃ pc ∈ (kernelRun4_B c i arg2 harg2 arg3 harg3 arg4 harg4 arg5 harg5 arg6 harg6 hc0 hc1 x0 x1 x2 xs0).2.1, y ∈ pc.1.set :=
  View.cover_of_tiledL (kernelRun4_B c i arg2 harg2 arg3 harg3 arg4 harg4 arg5 harg5 arg6 harg6 hc0 hc1 x0 x1 x2 xs0).2.1 S1024x128.size (by sl_kernel_rfl) y

/-- What case B leaves in the accumulator: its pieces read back. -/
def sout4_B_0 (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S1024x4096 .bf16) (x1 : Vec F S4096x128 .bf16) (x2 : Vec F S1024x128 .f32) (xs0 : Vec F S1024x128 .f32) : Vec F S1024x128 .f32 :=
  VS4_0.read (Elt F) (VS4_0.writes (Elt F) VS4_0.junk (kernelRun4_B c i arg2 harg2 arg3 harg3 arg4 harg4 arg5 harg5 arg6 harg6 hc0 hc1 x0 x1 x2 xs0).2.1)

/-! ## Which case a point is in -/

theorem hcA0 (t : Fin cfg4.N) (h0 : t.val % 2 = 0) : cond4_0 (grid4.coords t) := (hcond4_0 t).mpr h0
theorem hcA1 (t : Fin cfg4.N) (h0 : t.val % 2 = 0) : ¬cond4_1 (grid4.coords t) := fun h => by
  have h1 := (hcond4_1 t).mp h; omega
theorem hcB0 (t : Fin cfg4.N) (h0 : ¬t.val % 2 = 0) : ¬cond4_0 (grid4.coords t) := fun h => h0 ((hcond4_0 t).mp h)
theorem hcB1 (t : Fin cfg4.N) (h0 : ¬t.val % 2 = 0) : cond4_1 (grid4.coords t) := (hcond4_1 t).mpr (by omega)

section R4
variable (V : (c : Dev nD) → (b : Ref sig .tc) → Buf (Elt F) ((c : Thread nD τ).loc b))

/-! ## Point by point -/

/-- At an even point `t`: the output's placeholder, -/
def oA4 (c : Dev nD) (t : Fin cfg4.N) (h0 : t.val % 2 = 0) : Vec F S1024x128 .f32 :=
  out4_A_3 c (grid4.coords t) (ms4_0 t) (hs4_0 t) (ms4_1 t) (hs4_1 t) (ms4_2 t) (hs4_2 t) (ms4_3 t) (hs4_3 t) scM4_0 (Memref.isWhole_whole _) (hcA0 t h0) (hcA1 t h0) (iblk4 V c 0 t) (iblk4 V c 1 t) (iblk4 V c 2 t)
/-- and the accumulator: zero plus the product of the point's two blocks. -/
def sA4 (c : Dev nD) (t : Fin cfg4.N) (h0 : t.val % 2 = 0) : Vec F S1024x128 .f32 :=
  sout4_A_0 c (grid4.coords t) (ms4_0 t) (hs4_0 t) (ms4_1 t) (hs4_1 t) (ms4_2 t) (hs4_2 t) (ms4_3 t) (hs4_3 t) scM4_0 (Memref.isWhole_whole _) (hcA0 t h0) (hcA1 t h0) (iblk4 V c 0 t) (iblk4 V c 1 t) (iblk4 V c 2 t)
/-- At an odd point `t`, the accumulator holding `xs0` before it: the output, -/
def oB4 (c : Dev nD) (t : Fin cfg4.N) (h0 : ¬t.val % 2 = 0) (xs0 : Vec F S1024x128 .f32) : Vec F S1024x128 .f32 :=
  out4_B_3 c (grid4.coords t) (ms4_0 t) (hs4_0 t) (ms4_1 t) (hs4_1 t) (ms4_2 t) (hs4_2 t) (ms4_3 t) (hs4_3 t) scM4_0 (Memref.isWhole_whole _) (hcB0 t h0) (hcB1 t h0) (iblk4 V c 0 t) (iblk4 V c 1 t) (iblk4 V c 2 t) xs0
/-- and the accumulator. -/
def sB4 (c : Dev nD) (t : Fin cfg4.N) (h0 : ¬t.val % 2 = 0) (xs0 : Vec F S1024x128 .f32) : Vec F S1024x128 .f32 :=
  sout4_B_0 c (grid4.coords t) (ms4_0 t) (hs4_0 t) (ms4_1 t) (hs4_1 t) (ms4_2 t) (hs4_2 t) (ms4_3 t) (hs4_3 t) scM4_0 (Memref.isWhole_whole _) (hcB0 t h0) (hcB1 t h0) (iblk4 V c 0 t) (iblk4 V c 1 t) (iblk4 V c 2 t) xs0

/-- THE ACCUMULATION. What the output's staging buffer and the accumulator hold after the body at position `n`
    (a pair: the output, then the accumulator): an even point starts the accumulator afresh, an odd one continues
    from what the point before left. -/
def accAt4 (c : Dev nD) : (n : ℕ) → n < cfg4.N → Vec F S1024x128 .f32 × Vec F S1024x128 .f32
  | 0, hn => (oA4 V c ⟨0, hn⟩ (Nat.zero_mod _), sA4 V c ⟨0, hn⟩ (Nat.zero_mod _))
  | n + 1, hn =>
    if h0 : (n + 1) % 2 = 0 then
      (oA4 V c ⟨n + 1, hn⟩ h0, sA4 V c ⟨n + 1, hn⟩ h0)
    else
      (oB4 V c ⟨n + 1, hn⟩ h0 (accAt4 c n (Nat.lt_of_succ_lt hn)).2, sB4 V c ⟨n + 1, hn⟩ h0 (accAt4 c n (Nat.lt_of_succ_lt hn)).2)

/-- At an even point: case A's contents. -/
theorem accAt4_A (c : Dev nD) (t : Fin cfg4.N) (h0 : t.val % 2 = 0) :
    accAt4 V c t.val t.isLt = (oA4 V c t h0, sA4 V c t h0) := by
  obtain ⟨n, hn⟩ := t
  cases n with
  | zero => exact rfl
  | succ n => exact (dif_pos h0).trans rfl

/-- At an odd point: case B's contents, over what the point before left in the accumulator. -/
theorem accAt4_B (c : Dev nD) (t : Fin cfg4.N) (h0 : ¬t.val % 2 = 0) :
    accAt4 V c t.val t.isLt
      = (oB4 V c t h0 (accAt4 V c (t.val - 1) (Nat.lt_of_le_of_lt (Nat.sub_le _ _) t.isLt)).2,
         sB4 V c t h0 (accAt4 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- What the output's staging buffer holds after the body at point `t`. -/
def outsAt4 (c : Dev nD) (t : Fin cfg4.N) : Vec F S1024x128 .f32 := (accAt4 V c t.val t.isLt).1
/-- What the accumulator holds after the body at point `t`. -/
def sAt4 (c : Dev nD) (t : Fin cfg4.N) : Vec F S1024x128 .f32 := (accAt4 V c t.val t.isLt).2

/-! ## The invariant -/

/-- The region's invariant before position `n`: before the first point, what the launch hands over (every
    scoped buffer no window stages at anything, the generator register at some state); afterwards the same with
    the accumulator at what the point before left in it. -/
def PhiS4 (c : Dev nD) : (n : ℕ) → n ≤ cfg4.N → sProp 𝕄
  | 0, _ => Pipeline.ΦA spec4 c
  | n + 1, hn => iprop(iprop(owns (c : Thread nD τ) scM4_0 fullShare ((accAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((accAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((accAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The region's proof data on core `c`: the arrays as the region finds them; after the body each input's buffer
    at its block and the output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outsAt4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (accAt4 V c t.val t.isLt).1 := by dsimp only [dat4, outsAt4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point. The inputs' memrefs hold their blocks; the point's parity says which case it is in.
    At an even point the accumulator goes in at anything (whatever the invariant holds it at) and the output's
    buffer comes back untouched; at an odd point the accumulator goes in at what the point before left. Either
    way it comes back at this point's contents, its pieces covering it; the rest of the invariant is untouched
    and the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  have hN : t.val < 16 := lt_of_lt_of_eq t.isLt (show cfg4.N = 16 from N_4)
  by_cases h0 : t.val % 2 = 0
  · rw [Dat.leavesExact_idle (dat4 V c) 3 t (idleAt4_3_A t (hcA0 t h0) (hcA1 t h0)) (noFlush4_3_A t (hcA0 t h0) (hcA1 t h0))]
    rw [accAt4_A V c t h0]
    unfold sA4 sout4_A_0; (try dsimp only)
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩, ⟨%d3, H3⟩⟩
      iapply ((kernelRun4_A c (grid4.coords t) _ _ _ _ _ _ _ _ _ _ (hcA0 t h0) (hcA1 t h0) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_A c (grid4.coords t) _ _ _ _ _ _ _ _ _ _ (hcA0 t h0) (hcA1 t h0) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat4 V c).leavesExact 3 t = owns (c : Thread nD τ) (ms4_3 t) fullShare ((dat4 V c).after 3 t) from by
      unfold Dat.leavesExact; rw [liveAt4_3_B t (hcB0 t h0) (hcB1 t h0)], after4_3]
    rw [accAt4_B V c t h0]
    unfold oB4 sB4 out4_B_3 sout4_B_0; (try dsimp only)
    have hz : t.val ≠ 0 := fun e => h0 (by rw [e])
    rw [PhiS4_castSucc V c t, PhiS4_pos V c _ _ hz]
    iintro ⟨⟨⟨HS0, HR⟩, Hg⟩, Ho, ⟨%d0, H0⟩, ⟨%d1, H1⟩, ⟨%d2, H2⟩, ⟨%d3, H3⟩⟩
    iapply ((kernelRun4_B c (grid4.coords t) _ _ _ _ _ _ _ _ _ _ (hcB0 t h0) (hcB1 t h0) (iblk4 V c 0 t) (iblk4 V c 1 t) (iblk4 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover4_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover4_B_3 c _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into the invariant and out of it -/

/-- What the launch hands the region is the invariant before the first point. -/
theorem hin4 (c : Dev nD) :
    iprop((∃ r, prngReg c r) ∗ Pipeline.scopedRest (Ix := Unit) (Name := ℕ) (U := UR sig nD τ) (Lvl := ℕ) (Val := Elt F) spec4 c)
      ⊢ ((dat4 V c).Φ 0 : sProp 𝕄) := by
  rw [show (dat4 V c).Φ 0 = PhiS4 V c 0 (Nat.zero_le _) from rfl, PhiS4_zero V c 0 _ rfl]
  unfold Pipeline.ΦA
  iintro ⟨Hp, Hr⟩
  isplitl [Hr]; · iexact Hr
  iexact Hp

/-- After any point the invariant gives the same back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point, in the order the launch takes it back. -/
theorem hout4 (c : Dev nD) :
    ((dat4 V c).Φ (Fin.last cfg4.N) : sProp 𝕄)
      ⊢ iprop((∃ r, prngReg c r) ∗ Pipeline.scopedRest (Ix := Unit) (Name := ℕ) (U := UR sig nD τ) (Lvl := ℕ) (Val := Elt F) spec4 c) := by
  refine (Phi_out4 V c _ (by rw [Fin.val_last]; have : cfg4.N = 16 := N_4; omega)).trans ?_
  unfold Pipeline.ΦA
  iintro ⟨Hr, Hp⟩
  isplitl [Hp]; · iexact Hp
  iexact Hr

end R4

end Cert.Kernel.Hand

end
-- ==== Proof.K.R5Runs.lean ====
import proofs.«120270_j2259152797813_2_alg».proof.Proof.Gen.Kernel.Launch
import proofs.«120270_j2259152797813_2_alg».proof.Proof.Gen.Kernel.Skeleton
import proofs.«120270_j2259152797813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5 (the adjacency product with a carried accumulator): what its two cases share -/

section R5
variable (V : (c : Dev nD) → (b : Ref sig .tc) → Buf (Elt F) ((c : Thread nD τ).loc b))

/-- Window `w`'s block at grid point `t`, read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether the point fetches it or
    not (an unfetched window's block index has not moved), for any proof data over the entry contents whose
    body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

end R5

/-! ## The body's two branch conditions, over the grid -/

/-- The first conditional (zero the accumulator): the reduction coordinate is 0. -/
abbrev cond5_0 (i : grid5.Coords) : Prop := (Scalar.cmpi .ne (Scalar.extui (Scalar.cmpi .eq (BitVec.ofNat 32 (i 1).val) 0#32)) 0#32) = 1#1
/-- It holds at the even points. -/
theorem hcond5_0 : ∀ t : Fin cfg5.N, cond5_0 (grid5.coords t) ↔ t.val % 2 = 0 :=
  (by decide +kernel : ∀ t : Fin grid5.N, cond5_0 (grid5.coords t) ↔ t.val % 2 = 0)

/-- The second conditional (store the output): the reduction coordinate is 1. -/
abbrev cond5_1 (i : grid5.Coords) : Prop := k5_cond2 i = 1#1
/-- It holds at the odd points. -/
theorem hcond5_1 : ∀ t : Fin cfg5.N, cond5_1 (grid5.coords t) ↔ t.val % 2 = 1 :=
  (by decide +kernel : ∀ t : Fin grid5.N, cond5_1 (grid5.coords t) ↔ t.val % 2 = 1)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- At an even point the output window is idle: nothing is stored into it, -/
theorem idleAt5_3_A : ∀ t : Fin cfg5.N, cond5_0 (grid5.coords t) → ¬cond5_1 (grid5.coords t) → cfg5.idle 3 (grid5.coords t) = true := by decide +kernel
/-- and its block is not written back. -/
theorem noFlush5_3_A : ∀ t : Fin cfg5.N, cond5_0 (grid5.coords t) → ¬cond5_1 (grid5.coords t) → (cfg5.win 3).flush t = false := by decide +kernel
/-- At an odd point the output window is live. -/
theorem liveAt5_3_B : ∀ t : Fin cfg5.N, ¬cond5_0 (grid5.coords t) → cond5_1 (grid5.coords t) → cfg5.idle 3 (grid5.coords t) = false := by decide +kernel

/-! ## The memrefs the body is called with -/

/-- One staging buffer of the output window, through which its contents are stated. -/
abbrev VO5_3 : View sig .tc .vmem S1024x128 .f32 := (Memref.whole cc5_stg3_0 : Memref sig .tc .vmem S1024x128 .f32).view
abbrev ms5_0 (t : Fin cfg5.N) : Memref sig .tc .vmem S1024x4096 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4096x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x128 .f32 := win5_3.stage (cfg5.slots t 3)
abbrev hs5_3 (t : Fin cfg5.N) : (ms5_3 t).IsWhole := hstage5_3 ((cfg5.slots t 3).cast nbuf5_3)
/-- The accumulator: a whole scoped buffer of the kernel's own, passed beside the windows, -/
abbrev scM5_0 : Memref sig .tc .vmem S1024x128 .f32 := Memref.whole cc5_scratch0
/-- and as a view. -/
abbrev VS5_0 : View sig .tc .vmem S1024x128 .f32 := scM5_0.view

/-- What the launch hands the region beside the windows — the scoped buffers no window stages and the
    generator register — with the accumulator split out as a memref owned at some contents. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.Kernel.Hand

end
-- ==== Proof.K.R5RunA.lean ====
import proofs.«120270_j2259152797813_2_alg».proof.Proof.K.R5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (an even point: the reduction coordinate is 0). On whole memrefs — the three inputs at their contents,
    the output's buffer at contents `xi3` that the body does not touch, the accumulator at anything — the body
    zeroes the accumulator, adds the product of the two input blocks to it, and returns the inputs and the
    output's buffer as they were and the accumulator with its stores written: the pieces `LS0` (last first) are
    found by running the body. The output gets no piece. -/
noncomputable def kernelRun5_A (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond5_0 i) (hc1 : ¬cond5_1 i)
    (x0 : Vec F S1024x4096 .bf16) (x1 : Vec F S4096x128 .bf16) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__adjmm_kernel i arg2 harg2 arg3 harg3 arg4 harg4 arg5 harg5 arg6 harg6) K } := by
  refine ⟨[], ?_, fun xi3 E K => ?run⟩
  case run =>
    simp only [cc5__adjmm_kernel_eq_skeleton]; unfold cc5__adjmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R5RunB.lean ====
import proofs.«120270_j2259152797813_2_alg».proof.Proof.K.R5RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an odd point: the reduction coordinate is 1). On whole memrefs — the three inputs at their contents,
    the output's buffer at anything, the accumulator at the contents `xs0` the point before left — the body adds
    the product of the two input blocks to the accumulator and stores the rectified sum of the accumulator and
    the third input into the output: the inputs come back as they were, the output's buffer with its pieces `L3`
    written and the accumulator with its pieces `LS0` written (last first), both found by running the body. -/
noncomputable def kernelRun5_B (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond5_0 i) (hc1 : cond5_1 i)
    (x0 : Vec F S1024x4096 .bf16) (x1 : Vec F S4096x128 .bf16) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__adjmm_kernel i arg2 harg2 arg3 harg3 arg4 harg4 arg5 harg5 arg6 harg6) K } := by
  refine ⟨?_, ?_, fun E K => ?run⟩
  case run =>
    simp only [cc5__adjmm_kernel_eq_skeleton]; unfold cc5__adjmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R5.lean ====
import proofs.«120270_j2259152797813_2_alg».proof.Proof.K.R5RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: what the two cases leave, point by point; the proof data; the body obligation -/

/-! ## Per case -/

/-- Case A stores nothing into the output (the window is idle at the even points and not written back there):
    a placeholder nothing consults. -/
def out5_A_3 (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond5_0 i) (hc1 : ¬cond5_1 i)
    (x0 : Vec F S1024x4096 .bf16) (x1 : Vec F S4096x128 .bf16) (x2 : Vec F S1024x128 .f32) : Vec F S1024x128 .f32 :=
  VO5_3.read (Elt F) (VO5_3.writes (Elt F) VO5_3.junk (kernelRun5_A c i arg2 harg2 arg3 harg3 arg4 harg4 arg5 harg5 arg6 harg6 hc0 hc1 x0 x1 x2).1)

/-- Case A's pieces for the accumulator tile it, so they cover it. -/
theorem scover5_A_0 (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond5_0 i) (hc1 : ¬cond5_1 i)
    (x0 : Vec F S1024x4096 .bf16) (x1 : Vec F S4096x128 .bf16) (x2 : Vec F S1024x128 .f32) (y : S1024x128.Idx) :
    ∃ pc ∈ (kernelRun5_A c i arg2 harg2 arg3 harg3 arg4 harg4 arg5 harg5 arg6 harg6 hc0 hc1 x0 x1 x2).2.1, y ∈ pc.1.set :=
  View.cover_of_tiledL (kernelRun5_A c i arg2 harg2 arg3 harg3 arg4 harg4 arg5 harg5 arg6 harg6 hc0 hc1 x0 x1 x2).2.1 S1024x128.size (by sl_kernel_rfl) y

/-- What case A leaves in the accumulator: its pieces read back. -/
def sout5_A_0 (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond5_0 i) (hc1 : ¬cond5_1 i)
    (x0 : Vec F S1024x4096 .bf16) (x1 : Vec F S4096x128 .bf16) (x2 : Vec F S1024x128 .f32) : Vec F S1024x128 .f32 :=
  VS5_0.read (Elt F) (VS5_0.writes (Elt F) VS5_0.junk (kernelRun5_A c i arg2 harg2 arg3 harg3 arg4 harg4 arg5 harg5 arg6 harg6 hc0 hc1 x0 x1 x2).2.1)

/-- Case B's pieces for the output tile its block, so they cover it. -/
theorem cover5_B_3 (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond5_0 i) (hc1 : cond5_1 i)
    (x0 : Vec F S1024x4096 .bf16) (x1 : Vec F S4096x128 .bf16) (x2 : Vec F S1024x128 .f32) (xs0 : Vec F S1024x128 .f32) (y : S1024x128.Idx) :
    ∃ pc ∈ (kernelRun5_B c i arg2 harg2 arg3 harg3 arg4 harg4 arg5 harg5 arg6 harg6 hc0 hc1 x0 x1 x2 xs0).1, y ∈ pc.1.set :=
  View.cover_of_tiledL (kernelRun5_B c i arg2 harg2 arg3 harg3 arg4 harg4 arg5 harg5 arg6 harg6 hc0 hc1 x0 x1 x2 xs0).1 S1024x128.size (by sl_kernel_rfl) y

/-- What case B leaves in the output's staging buffer: its pieces read back. -/
def out5_B_3 (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond5_0 i) (hc1 : cond5_1 i)
    (x0 : Vec F S1024x4096 .bf16) (x1 : Vec F S4096x128 .bf16) (x2 : Vec F S1024x128 .f32) (xs0 : Vec F S1024x128 .f32) : Vec F S1024x128 .f32 :=
  VO5_3.read (Elt F) (VO5_3.writes (Elt F) VO5_3.junk (kernelRun5_B c i arg2 harg2 arg3 harg3 arg4 harg4 arg5 harg5 arg6 harg6 hc0 hc1 x0 x1 x2 xs0).1)

/-- Case B's pieces for the accumulator tile it, so they cover it. -/
theorem scover5_B_0 (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond5_0 i) (hc1 : cond5_1 i)
    (x0 : Vec F S1024x4096 .bf16) (x1 : Vec F S4096x128 .bf16) (x2 : Vec F S1024x128 .f32) (xs0 : Vec F S1024x128 .f32) (y : S1024x128.Idx) :
    ∃ pc ∈ (kernelRun5_B c i arg2 harg2 arg3 harg3 arg4 harg4 arg5 harg5 arg6 harg6 hc0 hc1 x0 x1 x2 xs0).2.1, y ∈ pc.1.set :=
  View.cover_of_tiledL (kernelRun5_B c i arg2 harg2 arg3 harg3 arg4 harg4 arg5 harg5 arg6 harg6 hc0 hc1 x0 x1 x2 xs0).2.1 S1024x128.size (by sl_kernel_rfl) y

/-- What case B leaves in the accumulator: its pieces read back. -/
def sout5_B_0 (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond5_0 i) (hc1 : cond5_1 i)
    (x0 : Vec F S1024x4096 .bf16) (x1 : Vec F S4096x128 .bf16) (x2 : Vec F S1024x128 .f32) (xs0 : Vec F S1024x128 .f32) : Vec F S1024x128 .f32 :=
  VS5_0.read (Elt F) (VS5_0.writes (Elt F) VS5_0.junk (kernelRun5_B c i arg2 harg2 arg3 harg3 arg4 harg4 arg5 harg5 arg6 harg6 hc0 hc1 x0 x1 x2 xs0).2.1)

/-! ## Which case a point is in -/

theorem hc5A0 (t : Fin cfg5.N) (h0 : t.val % 2 = 0) : cond5_0 (grid5.coords t) := (hcond5_0 t).mpr h0
theorem hc5A1 (t : Fin cfg5.N) (h0 : t.val % 2 = 0) : ¬cond5_1 (grid5.coords t) := fun h => by
  have h1 := (hcond5_1 t).mp h; omega
theorem hc5B0 (t : Fin cfg5.N) (h0 : ¬t.val % 2 = 0) : ¬cond5_0 (grid5.coords t) := fun h => h0 ((hcond5_0 t).mp h)
theorem hc5B1 (t : Fin cfg5.N) (h0 : ¬t.val % 2 = 0) : cond5_1 (grid5.coords t) := (hcond5_1 t).mpr (by omega)

section R5
variable (V : (c : Dev nD) → (b : Ref sig .tc) → Buf (Elt F) ((c : Thread nD τ).loc b))

/-! ## Point by point -/

/-- At an even point `t`: the output's placeholder, -/
def oA5 (c : Dev nD) (t : Fin cfg5.N) (h0 : t.val % 2 = 0) : Vec F S1024x128 .f32 :=
  out5_A_3 c (grid5.coords t) (ms5_0 t) (hs5_0 t) (ms5_1 t) (hs5_1 t) (ms5_2 t) (hs5_2 t) (ms5_3 t) (hs5_3 t) scM5_0 (Memref.isWhole_whole _) (hc5A0 t h0) (hc5A1 t h0) (iblk5 V c 0 t) (iblk5 V c 1 t) (iblk5 V c 2 t)
/-- and the accumulator: zero plus the product of the point's two blocks. -/
def sA5 (c : Dev nD) (t : Fin cfg5.N) (h0 : t.val % 2 = 0) : Vec F S1024x128 .f32 :=
  sout5_A_0 c (grid5.coords t) (ms5_0 t) (hs5_0 t) (ms5_1 t) (hs5_1 t) (ms5_2 t) (hs5_2 t) (ms5_3 t) (hs5_3 t) scM5_0 (Memref.isWhole_whole _) (hc5A0 t h0) (hc5A1 t h0) (iblk5 V c 0 t) (iblk5 V c 1 t) (iblk5 V c 2 t)
/-- At an odd point `t`, the accumulator holding `xs0` before it: the output, -/
def oB5 (c : Dev nD) (t : Fin cfg5.N) (h0 : ¬t.val % 2 = 0) (xs0 : Vec F S1024x128 .f32) : Vec F S1024x128 .f32 :=
  out5_B_3 c (grid5.coords t) (ms5_0 t) (hs5_0 t) (ms5_1 t) (hs5_1 t) (ms5_2 t) (hs5_2 t) (ms5_3 t) (hs5_3 t) scM5_0 (Memref.isWhole_whole _) (hc5B0 t h0) (hc5B1 t h0) (iblk5 V c 0 t) (iblk5 V c 1 t) (iblk5 V c 2 t) xs0
/-- and the accumulator. -/
def sB5 (c : Dev nD) (t : Fin cfg5.N) (h0 : ¬t.val % 2 = 0) (xs0 : Vec F S1024x128 .f32) : Vec F S1024x128 .f32 :=
  sout5_B_0 c (grid5.coords t) (ms5_0 t) (hs5_0 t) (ms5_1 t) (hs5_1 t) (ms5_2 t) (hs5_2 t) (ms5_3 t) (hs5_3 t) scM5_0 (Memref.isWhole_whole _) (hc5B0 t h0) (hc5B1 t h0) (iblk5 V c 0 t) (iblk5 V c 1 t) (iblk5 V c 2 t) xs0

/-- THE ACCUMULATION. What the output's staging buffer and the accumulator hold after the body at position `n`
    (a pair: the output, then the accumulator): an even point starts the accumulator afresh, an odd one continues
    from what the point before left. -/
def accAt5 (c : Dev nD) : (n : ℕ) → n < cfg5.N → Vec F S1024x128 .f32 × Vec F S1024x128 .f32
  | 0, hn => (oA5 V c ⟨0, hn⟩ (Nat.zero_mod _), sA5 V c ⟨0, hn⟩ (Nat.zero_mod _))
  | n + 1, hn =>
    if h0 : (n + 1) % 2 = 0 then
      (oA5 V c ⟨n + 1, hn⟩ h0, sA5 V c ⟨n + 1, hn⟩ h0)
    else
      (oB5 V c ⟨n + 1, hn⟩ h0 (accAt5 c n (Nat.lt_of_succ_lt hn)).2, sB5 V c ⟨n + 1, hn⟩ h0 (accAt5 c n (Nat.lt_of_succ_lt hn)).2)

/-- At an even point: case A's contents. -/
theorem accAt5_A (c : Dev nD) (t : Fin cfg5.N) (h0 : t.val % 2 = 0) :
    accAt5 V c t.val t.isLt = (oA5 V c t h0, sA5 V c t h0) := by
  obtain ⟨n, hn⟩ := t
  cases n with
  | zero => exact rfl
  | succ n => exact (dif_pos h0).trans rfl

/-- At an odd point: case B's contents, over what the point before left in the accumulator. -/
theorem accAt5_B (c : Dev nD) (t : Fin cfg5.N) (h0 : ¬t.val % 2 = 0) :
    accAt5 V c t.val t.isLt
      = (oB5 V c t h0 (accAt5 V c (t.val - 1) (Nat.lt_of_le_of_lt (Nat.sub_le _ _) t.isLt)).2,
         sB5 V c t h0 (accAt5 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- What the output's staging buffer holds after the body at point `t`. -/
def outsAt5 (c : Dev nD) (t : Fin cfg5.N) : Vec F S1024x128 .f32 := (accAt5 V c t.val t.isLt).1
/-- What the accumulator holds after the body at point `t`. -/
def sAt5 (c : Dev nD) (t : Fin cfg5.N) : Vec F S1024x128 .f32 := (accAt5 V c t.val t.isLt).2

/-! ## The invariant -/

/-- The region's invariant before position `n`: before the first point, what the launch hands over (every
    scoped buffer no window stages at anything, the generator register at some state); afterwards the same with
    the accumulator at what the point before left in it. -/
def PhiS5 (c : Dev nD) : (n : ℕ) → n ≤ cfg5.N → sProp 𝕄
  | 0, _ => Pipeline.ΦA spec5 c
  | n + 1, hn => iprop(iprop(owns (c : Thread nD τ) scM5_0 fullShare ((accAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((accAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((accAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The region's proof data on core `c`: the arrays as the region finds them; after the body each input's buffer
    at its block and the output's at `outsAt5`; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outsAt5 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (accAt5 V c t.val t.isLt).1 := by dsimp only [dat5, outsAt5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point. The inputs' memrefs hold their blocks; the point's parity says which case it is in.
    At an even point the accumulator goes in at anything (whatever the invariant holds it at) and the output's
    buffer comes back untouched; at an odd point the accumulator goes in at what the point before left. Either
    way it comes back at this point's contents, its pieces covering it; the rest of the invariant is untouched
    and the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  have hN : t.val < 16 := lt_of_lt_of_eq t.isLt (show cfg5.N = 16 from N_5)
  by_cases h0 : t.val % 2 = 0
  · rw [Dat.leavesExact_idle (dat5 V c) 3 t (idleAt5_3_A t (hc5A0 t h0) (hc5A1 t h0)) (noFlush5_3_A t (hc5A0 t h0) (hc5A1 t h0))]
    rw [accAt5_A V c t h0]
    unfold sA5 sout5_A_0; (try dsimp only)
    by_cases hz : t.val = 0
    · rw [PhiS5_castSucc V c t, PhiS5_zero V c _ _ hz, PhiA5_eq]
      iintro ⟨⟨⟨HS0, HR⟩, Hg⟩, Ho, ⟨%d0, H0⟩, ⟨%d1, H1⟩, ⟨%d2, H2⟩, ⟨%d3, H3⟩⟩
      iapply ((kernelRun5_A c (grid5.coords t) _ _ _ _ _ _ _ _ _ _ (hc5A0 t h0) (hc5A1 t h0) (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩⟩
      iapply ((kernelRun5_A c (grid5.coords t) _ _ _ _ _ _ _ _ _ _ (hc5A0 t h0) (hc5A1 t h0) (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat5 V c).leavesExact 3 t = owns (c : Thread nD τ) (ms5_3 t) fullShare ((dat5 V c).after 3 t) from by
      unfold Dat.leavesExact; rw [liveAt5_3_B t (hc5B0 t h0) (hc5B1 t h0)], after5_3]
    rw [accAt5_B V c t h0]
    unfold oB5 sB5 out5_B_3 sout5_B_0; (try dsimp only)
    have hz : t.val ≠ 0 := fun e => h0 (by rw [e])
    rw [PhiS5_castSucc V c t, PhiS5_pos V c _ _ hz]
    iintro ⟨⟨⟨HS0, HR⟩, Hg⟩, Ho, ⟨%d0, H0⟩, ⟨%d1, H1⟩, ⟨%d2, H2⟩, ⟨%d3, H3⟩⟩
    iapply ((kernelRun5_B c (grid5.coords t) _ _ _ _ _ _ _ _ _ _ (hc5B0 t h0) (hc5B1 t h0) (iblk5 V c 0 t) (iblk5 V c 1 t) (iblk5 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover5_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover5_B_3 c _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Into the invariant and out of it -/

/-- What the launch hands the region is the invariant before the first point. -/
theorem hin5 (c : Dev nD) :
    iprop((∃ r, prngReg c r) ∗ Pipeline.scopedRest (Ix := Unit) (Name := ℕ) (U := UR sig nD τ) (Lvl := ℕ) (Val := Elt F) spec5 c)
      ⊢ ((dat5 V c).Φ 0 : sProp 𝕄) := by
  rw [show (dat5 V c).Φ 0 = PhiS5 V c 0 (Nat.zero_le _) from rfl, PhiS5_zero V c 0 _ rfl]
  unfold Pipeline.ΦA
  iintro ⟨Hp, Hr⟩
  isplitl [Hr]; · iexact Hr
  iexact Hp

/-- After any point the invariant gives the same back: the accumulator's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point, in the order the launch takes it back. -/
theorem hout5 (c : Dev nD) :
    ((dat5 V c).Φ (Fin.last cfg5.N) : sProp 𝕄)
      ⊢ iprop((∃ r, prngReg c r) ∗ Pipeline.scopedRest (Ix := Unit) (Name := ℕ) (U := UR sig nD τ) (Lvl := ℕ) (Val := Elt F) spec5 c) := by
  refine (Phi_out5 V c _ (by rw [Fin.val_last]; have : cfg5.N = 16 := N_5; omega)).trans ?_
  unfold Pipeline.ΦA
  iintro ⟨Hr, Hp⟩
  isplitl [Hp]; · iexact Hp
  iexact Hr

end R5

end Cert.Kernel.Hand

end
-- ==== Proof.K.R6Runs.lean ====
import proofs.«120270_j2259152797813_2_alg».proof.Proof.Gen.Kernel.Launch
import proofs.«120270_j2259152797813_2_alg».proof.Proof.Gen.Kernel.Skeleton
import proofs.«120270_j2259152797813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6 (the adjacency product with a carried accumulator): what its two cases share -/

section R6
variable (V : (c : Dev nD) → (b : Ref sig .tc) → Buf (Elt F) ((c : Thread nD τ).loc b))

/-- Window `w`'s block at grid point `t`, read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, whether the point fetches it or
    not (an unfetched window's block index has not moved), for any proof data over the entry contents whose
    body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

end R6

/-! ## The body's two branch conditions, over the grid -/

/-- The first conditional (zero the accumulator): the reduction coordinate is 0. -/
abbrev cond6_0 (i : grid6.Coords) : Prop := (Scalar.cmpi .ne (Scalar.extui (Scalar.cmpi .eq (BitVec.ofNat 32 (i 1).val) 0#32)) 0#32) = 1#1
/-- It holds at the even points. -/
theorem hcond6_0 : ∀ t : Fin cfg6.N, cond6_0 (grid6.coords t) ↔ t.val % 2 = 0 :=
  (by decide +kernel : ∀ t : Fin grid6.N, cond6_0 (grid6.coords t) ↔ t.val % 2 = 0)

/-- The second conditional (store the output): the reduction coordinate is 1. -/
abbrev cond6_1 (i : grid6.Coords) : Prop := k6_cond2 i = 1#1
/-- It holds at the odd points. -/
theorem hcond6_1 : ∀ t : Fin cfg6.N, cond6_1 (grid6.coords t) ↔ t.val % 2 = 1 :=
  (by decide +kernel : ∀ t : Fin grid6.N, cond6_1 (grid6.coords t) ↔ t.val % 2 = 1)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
/-- At an even point the output window is idle: nothing is stored into it, -/
theorem idleAt6_3_A : ∀ t : Fin cfg6.N, cond6_0 (grid6.coords t) → ¬cond6_1 (grid6.coords t) → cfg6.idle 3 (grid6.coords t) = true := by decide +kernel
/-- and its block is not written back. -/
theorem noFlush6_3_A : ∀ t : Fin cfg6.N, cond6_0 (grid6.coords t) → ¬cond6_1 (grid6.coords t) → (cfg6.win 3).flush t = false := by decide +kernel
/-- At an odd point the output window is live. -/
theorem liveAt6_3_B : ∀ t : Fin cfg6.N, ¬cond6_0 (grid6.coords t) → cond6_1 (grid6.coords t) → cfg6.idle 3 (grid6.coords t) = false := by decide +kernel

/-! ## The memrefs the body is called with -/

/-- One staging buffer of the output window, through which its contents are stated. -/
abbrev VO6_3 : View sig .tc .vmem S1024x128 .f32 := (Memref.whole cc6_stg3_0 : Memref sig .tc .vmem S1024x128 .f32).view
abbrev ms6_0 (t : Fin cfg6.N) : Memref sig .tc .vmem S1024x4096 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S4096x128 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1024x128 .f32 := win6_3.stage (cfg6.slots t 3)
abbrev hs6_3 (t : Fin cfg6.N) : (ms6_3 t).IsWhole := hstage6_3 ((cfg6.slots t 3).cast nbuf6_3)
/-- The accumulator: a whole scoped buffer of the kernel's own, passed beside the windows, -/
abbrev scM6_0 : Memref sig .tc .vmem S1024x128 .f32 := Memref.whole cc6_scratch0
/-- and as a view. -/
abbrev VS6_0 : View sig .tc .vmem S1024x128 .f32 := scM6_0.view

/-- What the launch hands the region beside the windows — the scoped buffers no window stages and the
    generator register — with the accumulator split out as a memref owned at some contents. -/
theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

end Cert.Kernel.Hand

end
-- ==== Proof.K.R6RunA.lean ====
import proofs.«120270_j2259152797813_2_alg».proof.Proof.K.R6Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (an even point: the reduction coordinate is 0). On whole memrefs — the three inputs at their contents,
    the output's buffer at contents `xi3` that the body does not touch, the accumulator at anything — the body
    zeroes the accumulator, adds the product of the two input blocks to it, and returns the inputs and the
    output's buffer as they were and the accumulator with its stores written: the pieces `LS0` (last first) are
    found by running the body. The output gets no piece. -/
noncomputable def kernelRun6_A (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S1024x4096 .bf16) (x1 : Vec F S4096x128 .bf16) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc6__adjmm_kernel i arg2 harg2 arg3 harg3 arg4 harg4 arg5 harg5 arg6 harg6) K } := by
  refine ⟨[], ?_, fun xi3 E K => ?run⟩
  case run =>
    simp only [cc6__adjmm_kernel_eq_skeleton]; unfold cc6__adjmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R6RunB.lean ====
import proofs.«120270_j2259152797813_2_alg».proof.Proof.K.R6RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an odd point: the reduction coordinate is 1). On whole memrefs — the three inputs at their contents,
    the output's buffer at anything, the accumulator at the contents `xs0` the point before left — the body adds
    the product of the two input blocks to the accumulator and stores the rectified sum of the accumulator and
    the third input into the output: the inputs come back as they were, the output's buffer with its pieces `L3`
    written and the accumulator with its pieces `LS0` written (last first), both found by running the body. -/
noncomputable def kernelRun6_B (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S1024x4096 .bf16) (x1 : Vec F S4096x128 .bf16) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc6__adjmm_kernel i arg2 harg2 arg3 harg3 arg4 harg4 arg5 harg5 arg6 harg6) K } := by
  refine ⟨?_, ?_, fun E K => ?run⟩
  case run =>
    simp only [cc6__adjmm_kernel_eq_skeleton]; unfold cc6__adjmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R6.lean ====
import proofs.«120270_j2259152797813_2_alg».proof.Proof.K.R6RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: what the two cases leave, point by point; the proof data; the body obligation -/

/-! ## Per case -/

/-- Case A stores nothing into the output (the window is idle at the even points and not written back there):
    a placeholder nothing consults. -/
def out6_A_3 (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S1024x4096 .bf16) (x1 : Vec F S4096x128 .bf16) (x2 : Vec F S1024x128 .f32) : Vec F S1024x128 .f32 :=
  VO6_3.read (Elt F) (VO6_3.writes (Elt F) VO6_3.junk (kernelRun6_A c i arg2 harg2 arg3 harg3 arg4 harg4 arg5 harg5 arg6 harg6 hc0 hc1 x0 x1 x2).1)

/-- Case A's pieces for the accumulator tile it, so they cover it. -/
theorem scover6_A_0 (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S1024x4096 .bf16) (x1 : Vec F S4096x128 .bf16) (x2 : Vec F S1024x128 .f32) (y : S1024x128.Idx) :
    ∃ pc ∈ (kernelRun6_A c i arg2 harg2 arg3 harg3 arg4 harg4 arg5 harg5 arg6 harg6 hc0 hc1 x0 x1 x2).2.1, y ∈ pc.1.set :=
  View.cover_of_tiledL (kernelRun6_A c i arg2 harg2 arg3 harg3 arg4 harg4 arg5 harg5 arg6 harg6 hc0 hc1 x0 x1 x2).2.1 S1024x128.size (by sl_kernel_rfl) y

/-- What case A leaves in the accumulator: its pieces read back. -/
def sout6_A_0 (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S1024x4096 .bf16) (x1 : Vec F S4096x128 .bf16) (x2 : Vec F S1024x128 .f32) : Vec F S1024x128 .f32 :=
  VS6_0.read (Elt F) (VS6_0.writes (Elt F) VS6_0.junk (kernelRun6_A c i arg2 harg2 arg3 harg3 arg4 harg4 arg5 harg5 arg6 harg6 hc0 hc1 x0 x1 x2).2.1)

/-- Case B's pieces for the output tile its block, so they cover it. -/
theorem cover6_B_3 (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S1024x4096 .bf16) (x1 : Vec F S4096x128 .bf16) (x2 : Vec F S1024x128 .f32) (xs0 : Vec F S1024x128 .f32) (y : S1024x128.Idx) :
    ∃ pc ∈ (kernelRun6_B c i arg2 harg2 arg3 harg3 arg4 harg4 arg5 harg5 arg6 harg6 hc0 hc1 x0 x1 x2 xs0).1, y ∈ pc.1.set :=
  View.cover_of_tiledL (kernelRun6_B c i arg2 harg2 arg3 harg3 arg4 harg4 arg5 harg5 arg6 harg6 hc0 hc1 x0 x1 x2 xs0).1 S1024x128.size (by sl_kernel_rfl) y

/-- What case B leaves in the output's staging buffer: its pieces read back. -/
def out6_B_3 (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S1024x4096 .bf16) (x1 : Vec F S4096x128 .bf16) (x2 : Vec F S1024x128 .f32) (xs0 : Vec F S1024x128 .f32) : Vec F S1024x128 .f32 :=
  VO6_3.read (Elt F) (VO6_3.writes (Elt F) VO6_3.junk (kernelRun6_B c i arg2 harg2 arg3 harg3 arg4 harg4 arg5 harg5 arg6 harg6 hc0 hc1 x0 x1 x2 xs0).1)

/-- Case B's pieces for the accumulator tile it, so they cover it. -/
theorem scover6_B_0 (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S1024x4096 .bf16) (x1 : Vec F S4096x128 .bf16) (x2 : Vec F S1024x128 .f32) (xs0 : Vec F S1024x128 .f32) (y : S1024x128.Idx) :
    ∃ pc ∈ (kernelRun6_B c i arg2 harg2 arg3 harg3 arg4 harg4 arg5 harg5 arg6 harg6 hc0 hc1 x0 x1 x2 xs0).2.1, y ∈ pc.1.set :=
  View.cover_of_tiledL (kernelRun6_B c i arg2 harg2 arg3 harg3 arg4 harg4 arg5 harg5 arg6 harg6 hc0 hc1 x0 x1 x2 xs0).2.1 S1024x128.size (by sl_kernel_rfl) y

/-- What case B leaves in the accumulator: its pieces read back. -/
def sout6_B_0 (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S1024x4096 .bf16) (x1 : Vec F S4096x128 .bf16) (x2 : Vec F S1024x128 .f32) (xs0 : Vec F S1024x128 .f32) : Vec F S1024x128 .f32 :=
  VS6_0.read (Elt F) (VS6_0.writes (Elt F) VS6_0.junk (kernelRun6_B c i arg2 harg2 arg3 harg3 arg4 harg4 arg5 harg5 arg6 harg6 hc0 hc1 x0 x1 x2 xs0).2.1)

/-! ## Which case a point is in -/

theorem hc6A0 (t : Fin cfg6.N) (h0 : t.val % 2 = 0) : cond6_0 (grid6.coords t) := (hcond6_0 t).mpr h0
theorem hc6A1 (t : Fin cfg6.N) (h0 : t.val % 2 = 0) : ¬cond6_1 (grid6.coords t) := fun h => by
  have h1 := (hcond6_1 t).mp h; omega
theorem hc6B0 (t : Fin cfg6.N) (h0 : ¬t.val % 2 = 0) : ¬cond6_0 (grid6.coords t) := fun h => h0 ((hcond6_0 t).mp h)
theorem hc6B1 (t : Fin cfg6.N) (h0 : ¬t.val % 2 = 0) : cond6_1 (grid6.coords t) := (hcond6_1 t).mpr (by omega)

section R6
variable (V : (c : Dev nD) → (b : Ref sig .tc) → Buf (Elt F) ((c : Thread nD τ).loc b))

/-! ## Point by point -/

/-- At an even point `t`: the output's placeholder, -/
def oA6 (c : Dev nD) (t : Fin cfg6.N) (h0 : t.val % 2 = 0) : Vec F S1024x128 .f32 :=
  out6_A_3 c (grid6.coords t) (ms6_0 t) (hs6_0 t) (ms6_1 t) (hs6_1 t) (ms6_2 t) (hs6_2 t) (ms6_3 t) (hs6_3 t) scM6_0 (Memref.isWhole_whole _) (hc6A0 t h0) (hc6A1 t h0) (iblk6 V c 0 t) (iblk6 V c 1 t) (iblk6 V c 2 t)
/-- and the accumulator: zero plus the product of the point's two blocks. -/
def sA6 (c : Dev nD) (t : Fin cfg6.N) (h0 : t.val % 2 = 0) : Vec F S1024x128 .f32 :=
  sout6_A_0 c (grid6.coords t) (ms6_0 t) (hs6_0 t) (ms6_1 t) (hs6_1 t) (ms6_2 t) (hs6_2 t) (ms6_3 t) (hs6_3 t) scM6_0 (Memref.isWhole_whole _) (hc6A0 t h0) (hc6A1 t h0) (iblk6 V c 0 t) (iblk6 V c 1 t) (iblk6 V c 2 t)
/-- At an odd point `t`, the accumulator holding `xs0` before it: the output, -/
def oB6 (c : Dev nD) (t : Fin cfg6.N) (h0 : ¬t.val % 2 = 0) (xs0 : Vec F S1024x128 .f32) : Vec F S1024x128 .f32 :=
  out6_B_3 c (grid6.coords t) (ms6_0 t) (hs6_0 t) (ms6_1 t) (hs6_1 t) (ms6_2 t) (hs6_2 t) (ms6_3 t) (hs6_3 t) scM6_0 (Memref.isWhole_whole _) (hc6B0 t h0) (hc6B1 t h0) (iblk6 V c 0 t) (iblk6 V c 1 t) (iblk6 V c 2 t) xs0
/-- and the accumulator. -/
def sB6 (c : Dev nD) (t : Fin cfg6.N) (h0 : ¬t.val % 2 = 0) (xs0 : Vec F S1024x128 .f32) : Vec F S1024x128 .f32 :=
  sout6_B_0 c (grid6.coords t) (ms6_0 t) (hs6_0 t) (ms6_1 t) (hs6_1 t) (ms6_2 t) (hs6_2 t) (ms6_3 t) (hs6_3 t) scM6_0 (Memref.isWhole_whole _) (hc6B0 t h0) (hc6B1 t h0) (iblk6 V c 0 t) (iblk6 V c 1 t) (iblk6 V c 2 t) xs0

/-- THE ACCUMULATION. What the output's staging buffer and the accumulator hold after the body at position `n`
    (a pair: the output, then the accumulator): an even point starts the accumulator afresh, an odd one continues
    from what the point before left. -/
def accAt6 (c : Dev nD) : (n : ℕ) → n < cfg6.N → Vec F S1024x128 .f32 × Vec F S1024x128 .f32
  | 0, hn => (oA6 V c ⟨0, hn⟩ (Nat.zero_mod _), sA6 V c ⟨0, hn⟩ (Nat.zero_mod _))
  | n + 1, hn =>
    if h0 : (n + 1) % 2 = 0 then
      (oA6 V c ⟨n + 1, hn⟩ h0, sA6 V c ⟨n + 1, hn⟩ h0)
    else
      (oB6 V c ⟨n + 1, hn⟩ h0 (accAt6 c n (Nat.lt_of_succ_lt hn)).2, sB6 V c ⟨n + 1, hn⟩ h0 (accAt6 c n (Nat.lt_of_succ_lt hn)).2)

/-- At an even point: case A's contents. -/
theorem accAt6_A (c : Dev nD) (t : Fin cfg6.N) (h0 : t.val % 2 = 0) :
    accAt6 V c t.val t.isLt = (oA6 V c t h0, sA6 V c t h0) := by
  obtain ⟨n, hn⟩ := t
  cases n with
  | zero => exact rfl
  | succ n => exact (dif_pos h0).trans rfl

/-- At an odd point: case B's contents, over what the point before left in the accumulator. -/
theorem accAt6_B (c : Dev nD) (t : Fin cfg6.N) (h0 : ¬t.val % 2 = 0) :
    accAt6 V c t.val t.isLt
      = (oB6 V c t h0 (accAt6 V c (t.val - 1) (Nat.lt_of_le_of_lt (Nat.sub_le _ _) t.isLt)).2,
         sB6 V c t h0 (accAt6 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- What the output's staging buffer holds after the body at point `t`. -/
def outsAt6 (c : Dev nD) (t : Fin cfg6.N) : Vec F S1024x128 .f32 := (accAt6 V c t.val t.isLt).1
/-- What the accumulator holds after the body at point `t`. -/
def sAt6 (c : Dev nD) (t : Fin cfg6.N) : Vec F S1024x128 .f32 := (accAt6 V c t.val t.isLt).2

/-! ## The invariant -/

/-- The region's invariant before position `n`: before the first point, what the launch hands over (every
    scoped buffer no window stages at anything, the generator register at some state); afterwards the same with
    the accumulator at what the point before left in it. -/
def PhiS6 (c : Dev nD) : (n : ℕ) → n ≤ cfg6.N → sProp 𝕄
  | 0, _ => Pipeline.ΦA spec6 c
  | n + 1, hn => iprop(iprop(owns (c : Thread nD τ) scM6_0 fullShare ((accAt6 V c n hn).2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((accAt6 V c n hn).2) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((accAt6 V c (n - 1) (by omega)).2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The proof data -/

/-- The region's proof data on core `c`: the arrays as the region finds them; after the body each input's buffer
    at its block and the output's at `outsAt6`; the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => outsAt6 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (accAt6 V c t.val t.isLt).1 := by dsimp only [dat6, outsAt6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point. The inputs' memrefs hold their blocks; the point's parity says which case it is in.
    At an even point the accumulator goes in at anything (whatever the invariant holds it at) and the output's
    buffer comes back untouched; at an odd point the accumulator goes in at what the point before left. Either
    way it comes back at this point's contents, its pieces covering it; the rest of the invariant is untouched
    and the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  have hN : t.val < 16 := lt_of_lt_of_eq t.isLt (show cfg6.N = 16 from N_6)
  by_cases h0 : t.val % 2 = 0
  · rw [Dat.leavesExact_idle (dat6 V c) 3 t (idleAt6_3_A t (hc6A0 t h0) (hc6A1 t h0)) (noFlush6_3_A t (hc6A0 t h0) (hc6A1 t h0))]
    rw [accAt6_A V c t h0]
    unfold sA6 sout6_A_0; (try dsimp only)
    by_cases hz : t.val = 0
    · rw [PhiS6_castSucc V c t, PhiS6_zero V c _ _ hz, PhiA6_eq]
      iintro ⟨⟨⟨HS0, HR⟩, Hg⟩, Ho, ⟨%d0, H0⟩, ⟨%d1, H1⟩, ⟨%d2, H2⟩, ⟨%d3, H3⟩⟩
      iapply ((kernelRun6_A c (grid6.coords t) _ _ _ _ _ _ _ _ _ _ (hc6A0 t h0) (hc6A1 t h0) (iblk6 V c 0 t) (iblk6 V c 1 t) (iblk6 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS6_castSucc V c t, PhiS6_pos V c _ _ hz]
      iintro ⟨⟨⟨HS0, HR⟩, Hg⟩, Ho, ⟨%d0, H0⟩, ⟨%d1, H1⟩, ⟨%d2, H2⟩, ⟨%d3, H3⟩⟩
      iapply ((kernelRun6_A c (grid6.coords t) _ _ _ _ _ _ _ _ _ _ (hc6A0 t h0) (hc6A1 t h0) (iblk6 V c 0 t) (iblk6 V c 1 t) (iblk6 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat6 V c).leavesExact 3 t = owns (c : Thread nD τ) (ms6_3 t) fullShare ((dat6 V c).after 3 t) from by
      unfold Dat.leavesExact; rw [liveAt6_3_B t (hc6B0 t h0) (hc6B1 t h0)], after6_3]
    rw [accAt6_B V c t h0]
    unfold oB6 sB6 out6_B_3 sout6_B_0; (try dsimp only)
    have hz : t.val ≠ 0 := fun e => h0 (by rw [e])
    rw [PhiS6_castSucc V c t, PhiS6_pos V c _ _ hz]
    iintro ⟨⟨⟨HS0, HR⟩, Hg⟩, Ho, ⟨%d0, H0⟩, ⟨%d1, H1⟩, ⟨%d2, H2⟩, ⟨%d3, H3⟩⟩
    iapply ((kernelRun6_B c (grid6.coords t) _ _ _ _ _ _ _ _ _ _ (hc6B0 t h0) (hc6B1 t h0) (iblk6 V c 0 t) (iblk6 V c 1 t) (iblk6 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover6_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover6_B_3 c _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Into the invariant and out of it -/

/-- What the launch hands the region is the invariant before the first point. -/
theorem hin6 (c : Dev nD) :
    iprop((∃ r, prngReg c r) ∗ Pipeline.scopedRest (Ix := Unit) (Name := ℕ) (U := UR sig nD τ) (Lvl := ℕ) (Val := Elt F) spec6 c)
      ⊢ ((dat6 V c).Φ 0 : sProp 𝕄) := by
  rw [show (dat6 V c).Φ 0 = PhiS6 V c 0 (Nat.zero_le _) from rfl, PhiS6_zero V c 0 _ rfl]
  unfold Pipeline.ΦA
  iintro ⟨Hp, Hr⟩
  isplitl [Hr]; · iexact Hr
  iexact Hp

/-- After any point the invariant gives the same back: the accumulator's named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg

/-- The same after the last point, in the order the launch takes it back. -/
theorem hout6 (c : Dev nD) :
    ((dat6 V c).Φ (Fin.last cfg6.N) : sProp 𝕄)
      ⊢ iprop((∃ r, prngReg c r) ∗ Pipeline.scopedRest (Ix := Unit) (Name := ℕ) (U := UR sig nD τ) (Lvl := ℕ) (Val := Elt F) spec6 c) := by
  refine (Phi_out6 V c _ (by rw [Fin.val_last]; have : cfg6.N = 16 := N_6; omega)).trans ?_
  unfold Pipeline.ΦA
  iintro ⟨Hr, Hp⟩
  isplitl [Hp]; · iexact Hp
  iexact Hr

end R6

end Cert.Kernel.Hand

end
-- ==== Proof.K.R7Runs.lean ====
import proofs.«120270_j2259152797813_2_alg».proof.Proof.Gen.Kernel.Launch
import proofs.«120270_j2259152797813_2_alg».proof.Proof.Gen.Kernel.Skeleton
import proofs.«120270_j2259152797813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7 (the adjacency product with a carried accumulator): what its two cases share -/

section R7
variable (V : (c : Dev nD) → (b : Ref sig .tc) → Buf (Elt F) ((c : Thread nD τ).loc b))

/-- Window `w`'s block at grid point `t`, read off the array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, whether the point fetches it or
    not (an unfetched window's block index has not moved), for any proof data over the entry contents whose
    body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

end R7

/-! ## The body's two branch conditions, over the grid -/

/-- The first conditional (zero the accumulator): the reduction coordinate is 0. -/
abbrev cond7_0 (i : grid7.Coords) : Prop := (Scalar.cmpi .ne (Scalar.extui (Scalar.cmpi .eq (BitVec.ofNat 32 (i 1).val) 0#32)) 0#32) = 1#1
/-- It holds at the even points. -/
theorem hcond7_0 : ∀ t : Fin cfg7.N, cond7_0 (grid7.coords t) ↔ t.val % 2 = 0 :=
  (by decide +kernel : ∀ t : Fin grid7.N, cond7_0 (grid7.coords t) ↔ t.val % 2 = 0)

/-- The second conditional (store the output): the reduction coordinate is 1. -/
abbrev cond7_1 (i : grid7.Coords) : Prop := k7_cond2 i = 1#1
/-- It holds at the odd points. -/
theorem hcond7_1 : ∀ t : Fin cfg7.N, cond7_1 (grid7.coords t) ↔ t.val % 2 = 1 :=
  (by decide +kernel : ∀ t : Fin grid7.N, cond7_1 (grid7.coords t) ↔ t.val % 2 = 1)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
/-- At an even point the output window is idle: nothing is stored into it, -/
theorem idleAt7_3_A : ∀ t : Fin cfg7.N, cond7_0 (grid7.coords t) → ¬cond7_1 (grid7.coords t) → cfg7.idle 3 (grid7.coords t) = true := by decide +kernel
/-- and its block is not written back. -/
theorem noFlush7_3_A : ∀ t : Fin cfg7.N, cond7_0 (grid7.coords t) → ¬cond7_1 (grid7.coords t) → (cfg7.win 3).flush t = false := by decide +kernel
/-- At an odd point the output window is live. -/
theorem liveAt7_3_B : ∀ t : Fin cfg7.N, ¬cond7_0 (grid7.coords t) → cond7_1 (grid7.coords t) → cfg7.idle 3 (grid7.coords t) = false := by decide +kernel

/-! ## The memrefs the body is called with -/

/-- One staging buffer of the output window, through which its contents are stated. -/
abbrev VO7_3 : View sig .tc .vmem S1024x128 .f32 := (Memref.whole cc7_stg3_0 : Memref sig .tc .vmem S1024x128 .f32).view
abbrev ms7_0 (t : Fin cfg7.N) : Memref sig .tc .vmem S1024x4096 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S4096x128 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x128 .f32 := win7_3.stage (cfg7.slots t 3)
abbrev hs7_3 (t : Fin cfg7.N) : (ms7_3 t).IsWhole := hstage7_3 ((cfg7.slots t 3).cast nbuf7_3)
/-- The accumulator: a whole scoped buffer of the kernel's own, passed beside the windows, -/
abbrev scM7_0 : Memref sig .tc .vmem S1024x128 .f32 := Memref.whole cc7_scratch0
/-- and as a view. -/
abbrev VS7_0 : View sig .tc .vmem S1024x128 .f32 := scM7_0.view

/-- What the launch hands the region beside the windows — the scoped buffers no window stages and the
    generator register — with the accumulator split out as a memref owned at some contents. -/
theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

end Cert.Kernel.Hand

end
-- ==== Proof.K.R7RunA.lean ====
import proofs.«120270_j2259152797813_2_alg».proof.Proof.K.R7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (an even point: the reduction coordinate is 0). On whole memrefs — the three inputs at their contents,
    the output's buffer at contents `xi3` that the body does not touch, the accumulator at anything — the body
    zeroes the accumulator, adds the product of the two input blocks to it, and returns the inputs and the
    output's buffer as they were and the accumulator with its stores written: the pieces `LS0` (last first) are
    found by running the body. The output gets no piece. -/
noncomputable def kernelRun7_A (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond7_0 i) (hc1 : ¬cond7_1 i)
    (x0 : Vec F S1024x4096 .bf16) (x1 : Vec F S4096x128 .bf16) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__adjmm_kernel i arg2 harg2 arg3 harg3 arg4 harg4 arg5 harg5 arg6 harg6) K } := by
  refine ⟨[], ?_, fun xi3 E K => ?run⟩
  case run =>
    simp only [cc7__adjmm_kernel_eq_skeleton]; unfold cc7__adjmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R7RunB.lean ====
import proofs.«120270_j2259152797813_2_alg».proof.Proof.K.R7RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an odd point: the reduction coordinate is 1). On whole memrefs — the three inputs at their contents,
    the output's buffer at anything, the accumulator at the contents `xs0` the point before left — the body adds
    the product of the two input blocks to the accumulator and stores the rectified sum of the accumulator and
    the third input into the output: the inputs come back as they were, the output's buffer with its pieces `L3`
    written and the accumulator with its pieces `LS0` written (last first), both found by running the body. -/
noncomputable def kernelRun7_B (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond7_0 i) (hc1 : cond7_1 i)
    (x0 : Vec F S1024x4096 .bf16) (x1 : Vec F S4096x128 .bf16) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc7__adjmm_kernel i arg2 harg2 arg3 harg3 arg4 harg4 arg5 harg5 arg6 harg6) K } := by
  refine ⟨?_, ?_, fun E K => ?run⟩
  case run =>
    simp only [cc7__adjmm_kernel_eq_skeleton]; unfold cc7__adjmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R7.lean ====
import proofs.«120270_j2259152797813_2_alg».proof.Proof.K.R7RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: what the two cases leave, point by point; the proof data; the body obligation -/

/-! ## Per case -/

/-- Case A stores nothing into the output (the window is idle at the even points and not written back there):
    a placeholder nothing consults. -/
def out7_A_3 (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond7_0 i) (hc1 : ¬cond7_1 i)
    (x0 : Vec F S1024x4096 .bf16) (x1 : Vec F S4096x128 .bf16) (x2 : Vec F S1024x128 .f32) : Vec F S1024x128 .f32 :=
  VO7_3.read (Elt F) (VO7_3.writes (Elt F) VO7_3.junk (kernelRun7_A c i arg2 harg2 arg3 harg3 arg4 harg4 arg5 harg5 arg6 harg6 hc0 hc1 x0 x1 x2).1)

/-- Case A's pieces for the accumulator tile it, so they cover it. -/
theorem scover7_A_0 (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond7_0 i) (hc1 : ¬cond7_1 i)
    (x0 : Vec F S1024x4096 .bf16) (x1 : Vec F S4096x128 .bf16) (x2 : Vec F S1024x128 .f32) (y : S1024x128.Idx) :
    ∃ pc ∈ (kernelRun7_A c i arg2 harg2 arg3 harg3 arg4 harg4 arg5 harg5 arg6 harg6 hc0 hc1 x0 x1 x2).2.1, y ∈ pc.1.set :=
  View.cover_of_tiledL (kernelRun7_A c i arg2 harg2 arg3 harg3 arg4 harg4 arg5 harg5 arg6 harg6 hc0 hc1 x0 x1 x2).2.1 S1024x128.size (by sl_kernel_rfl) y

/-- What case A leaves in the accumulator: its pieces read back. -/
def sout7_A_0 (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond7_0 i) (hc1 : ¬cond7_1 i)
    (x0 : Vec F S1024x4096 .bf16) (x1 : Vec F S4096x128 .bf16) (x2 : Vec F S1024x128 .f32) : Vec F S1024x128 .f32 :=
  VS7_0.read (Elt F) (VS7_0.writes (Elt F) VS7_0.junk (kernelRun7_A c i arg2 harg2 arg3 harg3 arg4 harg4 arg5 harg5 arg6 harg6 hc0 hc1 x0 x1 x2).2.1)

/-- Case B's pieces for the output tile its block, so they cover it. -/
theorem cover7_B_3 (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond7_0 i) (hc1 : cond7_1 i)
    (x0 : Vec F S1024x4096 .bf16) (x1 : Vec F S4096x128 .bf16) (x2 : Vec F S1024x128 .f32) (xs0 : Vec F S1024x128 .f32) (y : S1024x128.Idx) :
    ∃ pc ∈ (kernelRun7_B c i arg2 harg2 arg3 harg3 arg4 harg4 arg5 harg5 arg6 harg6 hc0 hc1 x0 x1 x2 xs0).1, y ∈ pc.1.set :=
  View.cover_of_tiledL (kernelRun7_B c i arg2 harg2 arg3 harg3 arg4 harg4 arg5 harg5 arg6 harg6 hc0 hc1 x0 x1 x2 xs0).1 S1024x128.size (by sl_kernel_rfl) y

/-- What case B leaves in the output's staging buffer: its pieces read back. -/
def out7_B_3 (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond7_0 i) (hc1 : cond7_1 i)
    (x0 : Vec F S1024x4096 .bf16) (x1 : Vec F S4096x128 .bf16) (x2 : Vec F S1024x128 .f32) (xs0 : Vec F S1024x128 .f32) : Vec F S1024x128 .f32 :=
  VO7_3.read (Elt F) (VO7_3.writes (Elt F) VO7_3.junk (kernelRun7_B c i arg2 harg2 arg3 harg3 arg4 harg4 arg5 harg5 arg6 harg6 hc0 hc1 x0 x1 x2 xs0).1)

/-- Case B's pieces for the accumulator tile it, so they cover it. -/
theorem scover7_B_0 (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond7_0 i) (hc1 : cond7_1 i)
    (x0 : Vec F S1024x4096 .bf16) (x1 : Vec F S4096x128 .bf16) (x2 : Vec F S1024x128 .f32) (xs0 : Vec F S1024x128 .f32) (y : S1024x128.Idx) :
    ∃ pc ∈ (kernelRun7_B c i arg2 harg2 arg3 harg3 arg4 harg4 arg5 harg5 arg6 harg6 hc0 hc1 x0 x1 x2 xs0).2.1, y ∈ pc.1.set :=
  View.cover_of_tiledL (kernelRun7_B c i arg2 harg2 arg3 harg3 arg4 harg4 arg5 harg5 arg6 harg6 hc0 hc1 x0 x1 x2 xs0).2.1 S1024x128.size (by sl_kernel_rfl) y

/-- What case B leaves in the accumulator: its pieces read back. -/
def sout7_B_0 (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond7_0 i) (hc1 : cond7_1 i)
    (x0 : Vec F S1024x4096 .bf16) (x1 : Vec F S4096x128 .bf16) (x2 : Vec F S1024x128 .f32) (xs0 : Vec F S1024x128 .f32) : Vec F S1024x128 .f32 :=
  VS7_0.read (Elt F) (VS7_0.writes (Elt F) VS7_0.junk (kernelRun7_B c i arg2 harg2 arg3 harg3 arg4 harg4 arg5 harg5 arg6 harg6 hc0 hc1 x0 x1 x2 xs0).2.1)

/-! ## Which case a point is in -/

theorem hc7A0 (t : Fin cfg7.N) (h0 : t.val % 2 = 0) : cond7_0 (grid7.coords t) := (hcond7_0 t).mpr h0
theorem hc7A1 (t : Fin cfg7.N) (h0 : t.val % 2 = 0) : ¬cond7_1 (grid7.coords t) := fun h => by
  have h1 := (hcond7_1 t).mp h; omega
theorem hc7B0 (t : Fin cfg7.N) (h0 : ¬t.val % 2 = 0) : ¬cond7_0 (grid7.coords t) := fun h => h0 ((hcond7_0 t).mp h)
theorem hc7B1 (t : Fin cfg7.N) (h0 : ¬t.val % 2 = 0) : cond7_1 (grid7.coords t) := (hcond7_1 t).mpr (by omega)

section R7
variable (V : (c : Dev nD) → (b : Ref sig .tc) → Buf (Elt F) ((c : Thread nD τ).loc b))

/-! ## Point by point -/

/-- At an even point `t`: the output's placeholder, -/
def oA7 (c : Dev nD) (t : Fin cfg7.N) (h0 : t.val % 2 = 0) : Vec F S1024x128 .f32 :=
  out7_A_3 c (grid7.coords t) (ms7_0 t) (hs7_0 t) (ms7_1 t) (hs7_1 t) (ms7_2 t) (hs7_2 t) (ms7_3 t) (hs7_3 t) scM7_0 (Memref.isWhole_whole _) (hc7A0 t h0) (hc7A1 t h0) (iblk7 V c 0 t) (iblk7 V c 1 t) (iblk7 V c 2 t)
/-- and the accumulator: zero plus the product of the point's two blocks. -/
def sA7 (c : Dev nD) (t : Fin cfg7.N) (h0 : t.val % 2 = 0) : Vec F S1024x128 .f32 :=
  sout7_A_0 c (grid7.coords t) (ms7_0 t) (hs7_0 t) (ms7_1 t) (hs7_1 t) (ms7_2 t) (hs7_2 t) (ms7_3 t) (hs7_3 t) scM7_0 (Memref.isWhole_whole _) (hc7A0 t h0) (hc7A1 t h0) (iblk7 V c 0 t) (iblk7 V c 1 t) (iblk7 V c 2 t)
/-- At an odd point `t`, the accumulator holding `xs0` before it: the output, -/
def oB7 (c : Dev nD) (t : Fin cfg7.N) (h0 : ¬t.val % 2 = 0) (xs0 : Vec F S1024x128 .f32) : Vec F S1024x128 .f32 :=
  out7_B_3 c (grid7.coords t) (ms7_0 t) (hs7_0 t) (ms7_1 t) (hs7_1 t) (ms7_2 t) (hs7_2 t) (ms7_3 t) (hs7_3 t) scM7_0 (Memref.isWhole_whole _) (hc7B0 t h0) (hc7B1 t h0) (iblk7 V c 0 t) (iblk7 V c 1 t) (iblk7 V c 2 t) xs0
/-- and the accumulator. -/
def sB7 (c : Dev nD) (t : Fin cfg7.N) (h0 : ¬t.val % 2 = 0) (xs0 : Vec F S1024x128 .f32) : Vec F S1024x128 .f32 :=
  sout7_B_0 c (grid7.coords t) (ms7_0 t) (hs7_0 t) (ms7_1 t) (hs7_1 t) (ms7_2 t) (hs7_2 t) (ms7_3 t) (hs7_3 t) scM7_0 (Memref.isWhole_whole _) (hc7B0 t h0) (hc7B1 t h0) (iblk7 V c 0 t) (iblk7 V c 1 t) (iblk7 V c 2 t) xs0

/-- THE ACCUMULATION. What the output's staging buffer and the accumulator hold after the body at position `n`
    (a pair: the output, then the accumulator): an even point starts the accumulator afresh, an odd one continues
    from what the point before left. -/
def accAt7 (c : Dev nD) : (n : ℕ) → n < cfg7.N → Vec F S1024x128 .f32 × Vec F S1024x128 .f32
  | 0, hn => (oA7 V c ⟨0, hn⟩ (Nat.zero_mod _), sA7 V c ⟨0, hn⟩ (Nat.zero_mod _))
  | n + 1, hn =>
    if h0 : (n + 1) % 2 = 0 then
      (oA7 V c ⟨n + 1, hn⟩ h0, sA7 V c ⟨n + 1, hn⟩ h0)
    else
      (oB7 V c ⟨n + 1, hn⟩ h0 (accAt7 c n (Nat.lt_of_succ_lt hn)).2, sB7 V c ⟨n + 1, hn⟩ h0 (accAt7 c n (Nat.lt_of_succ_lt hn)).2)

/-- At an even point: case A's contents. -/
theorem accAt7_A (c : Dev nD) (t : Fin cfg7.N) (h0 : t.val % 2 = 0) :
    accAt7 V c t.val t.isLt = (oA7 V c t h0, sA7 V c t h0) := by
  obtain ⟨n, hn⟩ := t
  cases n with
  | zero => exact rfl
  | succ n => exact (dif_pos h0).trans rfl

/-- At an odd point: case B's contents, over what the point before left in the accumulator. -/
theorem accAt7_B (c : Dev nD) (t : Fin cfg7.N) (h0 : ¬t.val % 2 = 0) :
    accAt7 V c t.val t.isLt
      = (oB7 V c t h0 (accAt7 V c (t.val - 1) (Nat.lt_of_le_of_lt (Nat.sub_le _ _) t.isLt)).2,
         sB7 V c t h0 (accAt7 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- What the output's staging buffer holds after the body at point `t`. -/
def outsAt7 (c : Dev nD) (t : Fin cfg7.N) : Vec F S1024x128 .f32 := (accAt7 V c t.val t.isLt).1
/-- What the accumulator holds after the body at point `t`. -/
def sAt7 (c : Dev nD) (t : Fin cfg7.N) : Vec F S1024x128 .f32 := (accAt7 V c t.val t.isLt).2

/-! ## The invariant -/

/-- The region's invariant before position `n`: before the first point, what the launch hands over (every
    scoped buffer no window stages at anything, the generator register at some state); afterwards the same with
    the accumulator at what the point before left in it. -/
def PhiS7 (c : Dev nD) : (n : ℕ) → n ≤ cfg7.N → sProp 𝕄
  | 0, _ => Pipeline.ΦA spec7 c
  | n + 1, hn => iprop(iprop(owns (c : Thread nD τ) scM7_0 fullShare ((accAt7 V c n hn).2) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7_0 fullShare ((accAt7 V c n hn).2) ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7_0 fullShare ((accAt7 V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The proof data -/

/-- The region's proof data on core `c`: the arrays as the region finds them; after the body each input's buffer
    at its block and the output's at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => outsAt7 V c t
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (accAt7 V c t.val t.isLt).1 := by dsimp only [dat7, outsAt7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point. The inputs' memrefs hold their blocks; the point's parity says which case it is in.
    At an even point the accumulator goes in at anything (whatever the invariant holds it at) and the output's
    buffer comes back untouched; at an odd point the accumulator goes in at what the point before left. Either
    way it comes back at this point's contents, its pieces covering it; the rest of the invariant is untouched
    and the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  have hN : t.val < 16 := lt_of_lt_of_eq t.isLt (show cfg7.N = 16 from N_7)
  by_cases h0 : t.val % 2 = 0
  · rw [Dat.leavesExact_idle (dat7 V c) 3 t (idleAt7_3_A t (hc7A0 t h0) (hc7A1 t h0)) (noFlush7_3_A t (hc7A0 t h0) (hc7A1 t h0))]
    rw [accAt7_A V c t h0]
    unfold sA7 sout7_A_0; (try dsimp only)
    by_cases hz : t.val = 0
    · rw [PhiS7_castSucc V c t, PhiS7_zero V c _ _ hz, PhiA7_eq]
      iintro ⟨⟨⟨HS0, HR⟩, Hg⟩, Ho, ⟨%d0, H0⟩, ⟨%d1, H1⟩, ⟨%d2, H2⟩, ⟨%d3, H3⟩⟩
      iapply ((kernelRun7_A c (grid7.coords t) _ _ _ _ _ _ _ _ _ _ (hc7A0 t h0) (hc7A1 t h0) (iblk7 V c 0 t) (iblk7 V c 1 t) (iblk7 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩⟩
      iapply ((kernelRun7_A c (grid7.coords t) _ _ _ _ _ _ _ _ _ _ (hc7A0 t h0) (hc7A1 t h0) (iblk7 V c 0 t) (iblk7 V c 1 t) (iblk7 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat7 V c).leavesExact 3 t = owns (c : Thread nD τ) (ms7_3 t) fullShare ((dat7 V c).after 3 t) from by
      unfold Dat.leavesExact; rw [liveAt7_3_B t (hc7B0 t h0) (hc7B1 t h0)], after7_3]
    rw [accAt7_B V c t h0]
    unfold oB7 sB7 out7_B_3 sout7_B_0; (try dsimp only)
    have hz : t.val ≠ 0 := fun e => h0 (by rw [e])
    rw [PhiS7_castSucc V c t, PhiS7_pos V c _ _ hz]
    iintro ⟨⟨⟨HS0, HR⟩, Hg⟩, Ho, ⟨%d0, H0⟩, ⟨%d1, H1⟩, ⟨%d2, H2⟩, ⟨%d3, H3⟩⟩
    iapply ((kernelRun7_B c (grid7.coords t) _ _ _ _ _ _ _ _ _ _ (hc7B0 t h0) (hc7B1 t h0) (iblk7 V c 0 t) (iblk7 V c 1 t) (iblk7 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover7_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover7_B_3 c _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Into the invariant and out of it -/

/-- What the launch hands the region is the invariant before the first point. -/
theorem hin7 (c : Dev nD) :
    iprop((∃ r, prngReg c r) ∗ Pipeline.scopedRest (Ix := Unit) (Name := ℕ) (U := UR sig nD τ) (Lvl := ℕ) (Val := Elt F) spec7 c)
      ⊢ ((dat7 V c).Φ 0 : sProp 𝕄) := by
  rw [show (dat7 V c).Φ 0 = PhiS7 V c 0 (Nat.zero_le _) from rfl, PhiS7_zero V c 0 _ rfl]
  unfold Pipeline.ΦA
  iintro ⟨Hp, Hr⟩
  isplitl [Hr]; · iexact Hr
  iexact Hp

/-- After any point the invariant gives the same back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, HR⟩, Hg⟩
  isplitl [HS0 HR]
  · isplitl [HS0]
    · iexists _; iexact HS0
    iexact HR
  iexact Hg

/-- The same after the last point, in the order the launch takes it back. -/
theorem hout7 (c : Dev nD) :
    ((dat7 V c).Φ (Fin.last cfg7.N) : sProp 𝕄)
      ⊢ iprop((∃ r, prngReg c r) ∗ Pipeline.scopedRest (Ix := Unit) (Name := ℕ) (U := UR sig nD τ) (Lvl := ℕ) (Val := Elt F) spec7 c) := by
  refine (Phi_out7 V c _ (by rw [Fin.val_last]; have : cfg7.N = 16 := N_7; omega)).trans ?_
  unfold Pipeline.ΦA
  iintro ⟨Hr, Hp⟩
  isplitl [Hp]; · iexact Hp
  iexact Hr

end R7

end Cert.Kernel.Hand

end
-- ==== Proof.K.R8Runs.lean ====
import proofs.«120270_j2259152797813_2_alg».proof.Proof.Gen.Kernel.Launch
import proofs.«120270_j2259152797813_2_alg».proof.Proof.Gen.Kernel.Skeleton
import proofs.«120270_j2259152797813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8 (the adjacency product with a carried accumulator): what its two cases share -/

section R8
variable (V : (c : Dev nD) → (b : Ref sig .tc) → Buf (Elt F) ((c : Thread nD τ).loc b))

/-- Window `w`'s block at grid point `t`, read off the array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, whether the point fetches it or
    not (an unfetched window's block index has not moved), for any proof data over the entry contents whose
    body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

end R8

/-! ## The body's two branch conditions, over the grid -/

/-- The first conditional (zero the accumulator): the reduction coordinate is 0. -/
abbrev cond8_0 (i : grid8.Coords) : Prop := (Scalar.cmpi .ne (Scalar.extui (Scalar.cmpi .eq (BitVec.ofNat 32 (i 1).val) 0#32)) 0#32) = 1#1
/-- It holds at the even points. -/
theorem hcond8_0 : ∀ t : Fin cfg8.N, cond8_0 (grid8.coords t) ↔ t.val % 2 = 0 :=
  (by decide +kernel : ∀ t : Fin grid8.N, cond8_0 (grid8.coords t) ↔ t.val % 2 = 0)

/-- The second conditional (store the output): the reduction coordinate is 1. -/
abbrev cond8_1 (i : grid8.Coords) : Prop := k8_cond2 i = 1#1
/-- It holds at the odd points. -/
theorem hcond8_1 : ∀ t : Fin cfg8.N, cond8_1 (grid8.coords t) ↔ t.val % 2 = 1 :=
  (by decide +kernel : ∀ t : Fin grid8.N, cond8_1 (grid8.coords t) ↔ t.val % 2 = 1)

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
/-- At an even point the output window is idle: nothing is stored into it, -/
theorem idleAt8_3_A : ∀ t : Fin cfg8.N, cond8_0 (grid8.coords t) → ¬cond8_1 (grid8.coords t) → cfg8.idle 3 (grid8.coords t) = true := by decide +kernel
/-- and its block is not written back. -/
theorem noFlush8_3_A : ∀ t : Fin cfg8.N, cond8_0 (grid8.coords t) → ¬cond8_1 (grid8.coords t) → (cfg8.win 3).flush t = false := by decide +kernel
/-- At an odd point the output window is live. -/
theorem liveAt8_3_B : ∀ t : Fin cfg8.N, ¬cond8_0 (grid8.coords t) → cond8_1 (grid8.coords t) → cfg8.idle 3 (grid8.coords t) = false := by decide +kernel

/-! ## The memrefs the body is called with -/

/-- One staging buffer of the output window, through which its contents are stated. -/
abbrev VO8_3 : View sig .tc .vmem S1024x128 .f32 := (Memref.whole cc8_stg3_0 : Memref sig .tc .vmem S1024x128 .f32).view
abbrev ms8_0 (t : Fin cfg8.N) : Memref sig .tc .vmem S1024x4096 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S4096x128 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1024x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1024x128 .f32 := win8_3.stage (cfg8.slots t 3)
abbrev hs8_3 (t : Fin cfg8.N) : (ms8_3 t).IsWhole := hstage8_3 ((cfg8.slots t 3).cast nbuf8_3)
/-- The accumulator: a whole scoped buffer of the kernel's own, passed beside the windows, -/
abbrev scM8_0 : Memref sig .tc .vmem S1024x128 .f32 := Memref.whole cc8_scratch0
/-- and as a view. -/
abbrev VS8_0 : View sig .tc .vmem S1024x128 .f32 := scM8_0.view

/-- What the launch hands the region beside the windows — the scoped buffers no window stages and the
    generator register — with the accumulator split out as a memref owned at some contents. -/
theorem PhiA8_eq (c : Dev nD) :
    (Pipeline.ΦA spec8 c : sProp 𝕄)
      = iprop(iprop(iprop((∃ d, owns (c : Thread nD τ) scM8_0 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

end Cert.Kernel.Hand

end
-- ==== Proof.K.R8RunA.lean ====
import proofs.«120270_j2259152797813_2_alg».proof.Proof.K.R8Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (an even point: the reduction coordinate is 0). On whole memrefs — the three inputs at their contents,
    the output's buffer at contents `xi3` that the body does not touch, the accumulator at anything — the body
    zeroes the accumulator, adds the product of the two input blocks to it, and returns the inputs and the
    output's buffer as they were and the accumulator with its stores written: the pieces `LS0` (last first) are
    found by running the body. The output gets no piece. -/
noncomputable def kernelRun8_A (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond8_0 i) (hc1 : ¬cond8_1 i)
    (x0 : Vec F S1024x4096 .bf16) (x1 : Vec F S4096x128 .bf16) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc8__adjmm_kernel i arg2 harg2 arg3 harg3 arg4 harg4 arg5 harg5 arg6 harg6) K } := by
  refine ⟨[], ?_, fun xi3 E K => ?run⟩
  case run =>
    simp only [cc8__adjmm_kernel_eq_skeleton]; unfold cc8__adjmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R8RunB.lean ====
import proofs.«120270_j2259152797813_2_alg».proof.Proof.K.R8RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an odd point: the reduction coordinate is 1). On whole memrefs — the three inputs at their contents,
    the output's buffer at anything, the accumulator at the contents `xs0` the point before left — the body adds
    the product of the two input blocks to the accumulator and stores the rectified sum of the accumulator and
    the third input into the output: the inputs come back as they were, the output's buffer with its pieces `L3`
    written and the accumulator with its pieces `LS0` written (last first), both found by running the body. -/
noncomputable def kernelRun8_B (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond8_0 i) (hc1 : cond8_1 i)
    (x0 : Vec F S1024x4096 .bf16) (x1 : Vec F S4096x128 .bf16) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc8__adjmm_kernel i arg2 harg2 arg3 harg3 arg4 harg4 arg5 harg5 arg6 harg6) K } := by
  refine ⟨?_, ?_, fun E K => ?run⟩
  case run =>
    simp only [cc8__adjmm_kernel_eq_skeleton]; unfold cc8__adjmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R8.lean ====
import proofs.«120270_j2259152797813_2_alg».proof.Proof.K.R8RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: what the two cases leave, point by point; the proof data; the body obligation -/

/-! ## Per case -/

/-- Case A stores nothing into the output (the window is idle at the even points and not written back there):
    a placeholder nothing consults. -/
def out8_A_3 (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond8_0 i) (hc1 : ¬cond8_1 i)
    (x0 : Vec F S1024x4096 .bf16) (x1 : Vec F S4096x128 .bf16) (x2 : Vec F S1024x128 .f32) : Vec F S1024x128 .f32 :=
  VO8_3.read (Elt F) (VO8_3.writes (Elt F) VO8_3.junk (kernelRun8_A c i arg2 harg2 arg3 harg3 arg4 harg4 arg5 harg5 arg6 harg6 hc0 hc1 x0 x1 x2).1)

/-- Case A's pieces for the accumulator tile it, so they cover it. -/
theorem scover8_A_0 (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond8_0 i) (hc1 : ¬cond8_1 i)
    (x0 : Vec F S1024x4096 .bf16) (x1 : Vec F S4096x128 .bf16) (x2 : Vec F S1024x128 .f32) (y : S1024x128.Idx) :
    ∃ pc ∈ (kernelRun8_A c i arg2 harg2 arg3 harg3 arg4 harg4 arg5 harg5 arg6 harg6 hc0 hc1 x0 x1 x2).2.1, y ∈ pc.1.set :=
  View.cover_of_tiledL (kernelRun8_A c i arg2 harg2 arg3 harg3 arg4 harg4 arg5 harg5 arg6 harg6 hc0 hc1 x0 x1 x2).2.1 S1024x128.size (by sl_kernel_rfl) y

/-- What case A leaves in the accumulator: its pieces read back. -/
def sout8_A_0 (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond8_0 i) (hc1 : ¬cond8_1 i)
    (x0 : Vec F S1024x4096 .bf16) (x1 : Vec F S4096x128 .bf16) (x2 : Vec F S1024x128 .f32) : Vec F S1024x128 .f32 :=
  VS8_0.read (Elt F) (VS8_0.writes (Elt F) VS8_0.junk (kernelRun8_A c i arg2 harg2 arg3 harg3 arg4 harg4 arg5 harg5 arg6 harg6 hc0 hc1 x0 x1 x2).2.1)

/-- Case B's pieces for the output tile its block, so they cover it. -/
theorem cover8_B_3 (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond8_0 i) (hc1 : cond8_1 i)
    (x0 : Vec F S1024x4096 .bf16) (x1 : Vec F S4096x128 .bf16) (x2 : Vec F S1024x128 .f32) (xs0 : Vec F S1024x128 .f32) (y : S1024x128.Idx) :
    ∃ pc ∈ (kernelRun8_B c i arg2 harg2 arg3 harg3 arg4 harg4 arg5 harg5 arg6 harg6 hc0 hc1 x0 x1 x2 xs0).1, y ∈ pc.1.set :=
  View.cover_of_tiledL (kernelRun8_B c i arg2 harg2 arg3 harg3 arg4 harg4 arg5 harg5 arg6 harg6 hc0 hc1 x0 x1 x2 xs0).1 S1024x128.size (by sl_kernel_rfl) y

/-- What case B leaves in the output's staging buffer: its pieces read back. -/
def out8_B_3 (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond8_0 i) (hc1 : cond8_1 i)
    (x0 : Vec F S1024x4096 .bf16) (x1 : Vec F S4096x128 .bf16) (x2 : Vec F S1024x128 .f32) (xs0 : Vec F S1024x128 .f32) : Vec F S1024x128 .f32 :=
  VO8_3.read (Elt F) (VO8_3.writes (Elt F) VO8_3.junk (kernelRun8_B c i arg2 harg2 arg3 harg3 arg4 harg4 arg5 harg5 arg6 harg6 hc0 hc1 x0 x1 x2 xs0).1)

/-- Case B's pieces for the accumulator tile it, so they cover it. -/
theorem scover8_B_0 (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond8_0 i) (hc1 : cond8_1 i)
    (x0 : Vec F S1024x4096 .bf16) (x1 : Vec F S4096x128 .bf16) (x2 : Vec F S1024x128 .f32) (xs0 : Vec F S1024x128 .f32) (y : S1024x128.Idx) :
    ∃ pc ∈ (kernelRun8_B c i arg2 harg2 arg3 harg3 arg4 harg4 arg5 harg5 arg6 harg6 hc0 hc1 x0 x1 x2 xs0).2.1, y ∈ pc.1.set :=
  View.cover_of_tiledL (kernelRun8_B c i arg2 harg2 arg3 harg3 arg4 harg4 arg5 harg5 arg6 harg6 hc0 hc1 x0 x1 x2 xs0).2.1 S1024x128.size (by sl_kernel_rfl) y

/-- What case B leaves in the accumulator: its pieces read back. -/
def sout8_B_0 (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond8_0 i) (hc1 : cond8_1 i)
    (x0 : Vec F S1024x4096 .bf16) (x1 : Vec F S4096x128 .bf16) (x2 : Vec F S1024x128 .f32) (xs0 : Vec F S1024x128 .f32) : Vec F S1024x128 .f32 :=
  VS8_0.read (Elt F) (VS8_0.writes (Elt F) VS8_0.junk (kernelRun8_B c i arg2 harg2 arg3 harg3 arg4 harg4 arg5 harg5 arg6 harg6 hc0 hc1 x0 x1 x2 xs0).2.1)

/-! ## Which case a point is in -/

theorem hc8A0 (t : Fin cfg8.N) (h0 : t.val % 2 = 0) : cond8_0 (grid8.coords t) := (hcond8_0 t).mpr h0
theorem hc8A1 (t : Fin cfg8.N) (h0 : t.val % 2 = 0) : ¬cond8_1 (grid8.coords t) := fun h => by
  have h1 := (hcond8_1 t).mp h; omega
theorem hc8B0 (t : Fin cfg8.N) (h0 : ¬t.val % 2 = 0) : ¬cond8_0 (grid8.coords t) := fun h => h0 ((hcond8_0 t).mp h)
theorem hc8B1 (t : Fin cfg8.N) (h0 : ¬t.val % 2 = 0) : cond8_1 (grid8.coords t) := (hcond8_1 t).mpr (by omega)

section R8
variable (V : (c : Dev nD) → (b : Ref sig .tc) → Buf (Elt F) ((c : Thread nD τ).loc b))

/-! ## Point by point -/

/-- At an even point `t`: the output's placeholder, -/
def oA8 (c : Dev nD) (t : Fin cfg8.N) (h0 : t.val % 2 = 0) : Vec F S1024x128 .f32 :=
  out8_A_3 c (grid8.coords t) (ms8_0 t) (hs8_0 t) (ms8_1 t) (hs8_1 t) (ms8_2 t) (hs8_2 t) (ms8_3 t) (hs8_3 t) scM8_0 (Memref.isWhole_whole _) (hc8A0 t h0) (hc8A1 t h0) (iblk8 V c 0 t) (iblk8 V c 1 t) (iblk8 V c 2 t)
/-- and the accumulator: zero plus the product of the point's two blocks. -/
def sA8 (c : Dev nD) (t : Fin cfg8.N) (h0 : t.val % 2 = 0) : Vec F S1024x128 .f32 :=
  sout8_A_0 c (grid8.coords t) (ms8_0 t) (hs8_0 t) (ms8_1 t) (hs8_1 t) (ms8_2 t) (hs8_2 t) (ms8_3 t) (hs8_3 t) scM8_0 (Memref.isWhole_whole _) (hc8A0 t h0) (hc8A1 t h0) (iblk8 V c 0 t) (iblk8 V c 1 t) (iblk8 V c 2 t)
/-- At an odd point `t`, the accumulator holding `xs0` before it: the output, -/
def oB8 (c : Dev nD) (t : Fin cfg8.N) (h0 : ¬t.val % 2 = 0) (xs0 : Vec F S1024x128 .f32) : Vec F S1024x128 .f32 :=
  out8_B_3 c (grid8.coords t) (ms8_0 t) (hs8_0 t) (ms8_1 t) (hs8_1 t) (ms8_2 t) (hs8_2 t) (ms8_3 t) (hs8_3 t) scM8_0 (Memref.isWhole_whole _) (hc8B0 t h0) (hc8B1 t h0) (iblk8 V c 0 t) (iblk8 V c 1 t) (iblk8 V c 2 t) xs0
/-- and the accumulator. -/
def sB8 (c : Dev nD) (t : Fin cfg8.N) (h0 : ¬t.val % 2 = 0) (xs0 : Vec F S1024x128 .f32) : Vec F S1024x128 .f32 :=
  sout8_B_0 c (grid8.coords t) (ms8_0 t) (hs8_0 t) (ms8_1 t) (hs8_1 t) (ms8_2 t) (hs8_2 t) (ms8_3 t) (hs8_3 t) scM8_0 (Memref.isWhole_whole _) (hc8B0 t h0) (hc8B1 t h0) (iblk8 V c 0 t) (iblk8 V c 1 t) (iblk8 V c 2 t) xs0

/-- THE ACCUMULATION. What the output's staging buffer and the accumulator hold after the body at position `n`
    (a pair: the output, then the accumulator): an even point starts the accumulator afresh, an odd one continues
    from what the point before left. -/
def accAt8 (c : Dev nD) : (n : ℕ) → n < cfg8.N → Vec F S1024x128 .f32 × Vec F S1024x128 .f32
  | 0, hn => (oA8 V c ⟨0, hn⟩ (Nat.zero_mod _), sA8 V c ⟨0, hn⟩ (Nat.zero_mod _))
  | n + 1, hn =>
    if h0 : (n + 1) % 2 = 0 then
      (oA8 V c ⟨n + 1, hn⟩ h0, sA8 V c ⟨n + 1, hn⟩ h0)
    else
      (oB8 V c ⟨n + 1, hn⟩ h0 (accAt8 c n (Nat.lt_of_succ_lt hn)).2, sB8 V c ⟨n + 1, hn⟩ h0 (accAt8 c n (Nat.lt_of_succ_lt hn)).2)

/-- At an even point: case A's contents. -/
theorem accAt8_A (c : Dev nD) (t : Fin cfg8.N) (h0 : t.val % 2 = 0) :
    accAt8 V c t.val t.isLt = (oA8 V c t h0, sA8 V c t h0) := by
  obtain ⟨n, hn⟩ := t
  cases n with
  | zero => exact rfl
  | succ n => exact (dif_pos h0).trans rfl

/-- At an odd point: case B's contents, over what the point before left in the accumulator. -/
theorem accAt8_B (c : Dev nD) (t : Fin cfg8.N) (h0 : ¬t.val % 2 = 0) :
    accAt8 V c t.val t.isLt
      = (oB8 V c t h0 (accAt8 V c (t.val - 1) (Nat.lt_of_le_of_lt (Nat.sub_le _ _) t.isLt)).2,
         sB8 V c t h0 (accAt8 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- What the output's staging buffer holds after the body at point `t`. -/
def outsAt8 (c : Dev nD) (t : Fin cfg8.N) : Vec F S1024x128 .f32 := (accAt8 V c t.val t.isLt).1
/-- What the accumulator holds after the body at point `t`. -/
def sAt8 (c : Dev nD) (t : Fin cfg8.N) : Vec F S1024x128 .f32 := (accAt8 V c t.val t.isLt).2

/-! ## The invariant -/

/-- The region's invariant before position `n`: before the first point, what the launch hands over (every
    scoped buffer no window stages at anything, the generator register at some state); afterwards the same with
    the accumulator at what the point before left in it. -/
def PhiS8 (c : Dev nD) : (n : ℕ) → n ≤ cfg8.N → sProp 𝕄
  | 0, _ => Pipeline.ΦA spec8 c
  | n + 1, hn => iprop(iprop(owns (c : Thread nD τ) scM8_0 fullShare ((accAt8 V c n hn).2) ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(owns (c : Thread nD τ) scM8_0 fullShare ((accAt8 V c n hn).2) ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hz : n ≠ 0) :
    PhiS8 V c n h = iprop(iprop(owns (c : Thread nD τ) scM8_0 fullShare ((accAt8 V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The proof data -/

/-- The region's proof data on core `c`: the arrays as the region finds them; after the body each input's buffer
    at its block and the output's at `outsAt8`; the invariant `PhiS8`; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => outsAt8 V c t
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (accAt8 V c t.val t.isLt).1 := by dsimp only [dat8, outsAt8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 4800000 in
/-- The body at any point. The inputs' memrefs hold their blocks; the point's parity says which case it is in.
    At an even point the accumulator goes in at anything (whatever the invariant holds it at) and the output's
    buffer comes back untouched; at an odd point the accumulator goes in at what the point before left. Either
    way it comes back at this point's contents, its pieces covering it; the rest of the invariant is untouched
    and the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  have hN : t.val < 16 := lt_of_lt_of_eq t.isLt (show cfg8.N = 16 from N_8)
  by_cases h0 : t.val % 2 = 0
  · rw [Dat.leavesExact_idle (dat8 V c) 3 t (idleAt8_3_A t (hc8A0 t h0) (hc8A1 t h0)) (noFlush8_3_A t (hc8A0 t h0) (hc8A1 t h0))]
    rw [accAt8_A V c t h0]
    unfold sA8 sout8_A_0; (try dsimp only)
    by_cases hz : t.val = 0
    · rw [PhiS8_castSucc V c t, PhiS8_zero V c _ _ hz, PhiA8_eq]
      iintro ⟨⟨⟨HS0, HR⟩, Hg⟩, Ho, ⟨%d0, H0⟩, ⟨%d1, H1⟩, ⟨%d2, H2⟩, ⟨%d3, H3⟩⟩
      iapply ((kernelRun8_A c (grid8.coords t) _ _ _ _ _ _ _ _ _ _ (hc8A0 t h0) (hc8A1 t h0) (iblk8 V c 0 t) (iblk8 V c 1 t) (iblk8 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS8_castSucc V c t, PhiS8_pos V c _ _ hz]
      iintro ⟨⟨⟨HS0, HR⟩, Hg⟩, Ho, ⟨%d0, H0⟩, ⟨%d1, H1⟩, ⟨%d2, H2⟩, ⟨%d3, H3⟩⟩
      iapply ((kernelRun8_A c (grid8.coords t) _ _ _ _ _ _ _ _ _ _ (hc8A0 t h0) (hc8A1 t h0) (iblk8 V c 0 t) (iblk8 V c 1 t) (iblk8 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat8 V c).leavesExact 3 t = owns (c : Thread nD τ) (ms8_3 t) fullShare ((dat8 V c).after 3 t) from by
      unfold Dat.leavesExact; rw [liveAt8_3_B t (hc8B0 t h0) (hc8B1 t h0)], after8_3]
    rw [accAt8_B V c t h0]
    unfold oB8 sB8 out8_B_3 sout8_B_0; (try dsimp only)
    have hz : t.val ≠ 0 := fun e => h0 (by rw [e])
    rw [PhiS8_castSucc V c t, PhiS8_pos V c _ _ hz]
    iintro ⟨⟨⟨HS0, HR⟩, Hg⟩, Ho, ⟨%d0, H0⟩, ⟨%d1, H1⟩, ⟨%d2, H2⟩, ⟨%d3, H3⟩⟩
    iapply ((kernelRun8_B c (grid8.coords t) _ _ _ _ _ _ _ _ _ _ (hc8B0 t h0) (hc8B1 t h0) (iblk8 V c 0 t) (iblk8 V c 1 t) (iblk8 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover8_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover8_B_3 c _ _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## Into the invariant and out of it -/

/-- What the launch hands the region is the invariant before the first point. -/
theorem hin8 (c : Dev nD) :
    iprop((∃ r, prngReg c r) ∗ Pipeline.scopedRest (Ix := Unit) (Name := ℕ) (U := UR sig nD τ) (Lvl := ℕ) (Val := Elt F) spec8 c)
      ⊢ ((dat8 V c).Φ 0 : sProp 𝕄) := by
  rw [show (dat8 V c).Φ 0 = PhiS8 V c 0 (Nat.zero_le _) from rfl, PhiS8_zero V c 0 _ rfl]
  unfold Pipeline.ΦA
  iintro ⟨Hp, Hr⟩
  isplitl [Hr]; · iexact Hr
  iexact Hp

/-- After any point the invariant gives the same back: the accumulator's named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS0, HR⟩, Hg⟩
  isplitl [HS0 HR]
  · isplitl [HS0]
    · iexists _; iexact HS0
    iexact HR
  iexact Hg

/-- The same after the last point, in the order the launch takes it back. -/
theorem hout8 (c : Dev nD) :
    ((dat8 V c).Φ (Fin.last cfg8.N) : sProp 𝕄)
      ⊢ iprop((∃ r, prngReg c r) ∗ Pipeline.scopedRest (Ix := Unit) (Name := ℕ) (U := UR sig nD τ) (Lvl := ℕ) (Val := Elt F) spec8 c) := by
  refine (Phi_out8 V c _ (by rw [Fin.val_last]; have : cfg8.N = 16 := N_8; omega)).trans ?_
  unfold Pipeline.ΦA
  iintro ⟨Hr, Hp⟩
  isplitl [Hp]; · iexact Hp
  iexact Hr

end R8

end Cert.Kernel.Hand

end
-- ==== Proof.K.R9Runs.lean ====
import proofs.«120270_j2259152797813_2_alg».proof.Proof.Gen.Kernel.Launch
import proofs.«120270_j2259152797813_2_alg».proof.Proof.Gen.Kernel.Skeleton
import proofs.«120270_j2259152797813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9 (the adjacency product with a carried accumulator): what its two cases share -/

section R9
variable (V : (c : Dev nD) → (b : Ref sig .tc) → Buf (Elt F) ((c : Thread nD τ).loc b))

/-- Window `w`'s block at grid point `t`, read off the array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, whether the point fetches it or
    not (an unfetched window's block index has not moved), for any proof data over the entry contents whose
    body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

end R9

/-! ## The body's two branch conditions, over the grid -/

/-- The first conditional (zero the accumulator): the reduction coordinate is 0. -/
abbrev cond9_0 (i : grid9.Coords) : Prop := (Scalar.cmpi .ne (Scalar.extui (Scalar.cmpi .eq (BitVec.ofNat 32 (i 1).val) 0#32)) 0#32) = 1#1
/-- It holds at the even points. -/
theorem hcond9_0 : ∀ t : Fin cfg9.N, cond9_0 (grid9.coords t) ↔ t.val % 2 = 0 :=
  (by decide +kernel : ∀ t : Fin grid9.N, cond9_0 (grid9.coords t) ↔ t.val % 2 = 0)

/-- The second conditional (store the output): the reduction coordinate is 1. -/
abbrev cond9_1 (i : grid9.Coords) : Prop := k9_cond2 i = 1#1
/-- It holds at the odd points. -/
theorem hcond9_1 : ∀ t : Fin cfg9.N, cond9_1 (grid9.coords t) ↔ t.val % 2 = 1 :=
  (by decide +kernel : ∀ t : Fin grid9.N, cond9_1 (grid9.coords t) ↔ t.val % 2 = 1)

/-! ## Where the windows are idle -/

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
/-- At an even point the output window is idle: nothing is stored into it, -/
theorem idleAt9_3_A : ∀ t : Fin cfg9.N, cond9_0 (grid9.coords t) → ¬cond9_1 (grid9.coords t) → cfg9.idle 3 (grid9.coords t) = true := by decide +kernel
/-- and its block is not written back. -/
theorem noFlush9_3_A : ∀ t : Fin cfg9.N, cond9_0 (grid9.coords t) → ¬cond9_1 (grid9.coords t) → (cfg9.win 3).flush t = false := by decide +kernel
/-- At an odd point the output window is live. -/
theorem liveAt9_3_B : ∀ t : Fin cfg9.N, ¬cond9_0 (grid9.coords t) → cond9_1 (grid9.coords t) → cfg9.idle 3 (grid9.coords t) = false := by decide +kernel

/-! ## The memrefs the body is called with -/

/-- One staging buffer of the output window, through which its contents are stated. -/
abbrev VO9_3 : View sig .tc .vmem S1024x128 .f32 := (Memref.whole cc9_stg3_0 : Memref sig .tc .vmem S1024x128 .f32).view
abbrev ms9_0 (t : Fin cfg9.N) : Memref sig .tc .vmem S1024x4096 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S4096x128 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1024x128 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1024x128 .f32 := win9_3.stage (cfg9.slots t 3)
abbrev hs9_3 (t : Fin cfg9.N) : (ms9_3 t).IsWhole := hstage9_3 ((cfg9.slots t 3).cast nbuf9_3)
/-- The accumulator: a whole scoped buffer of the kernel's own, passed beside the windows, -/
abbrev scM9_0 : Memref sig .tc .vmem S1024x128 .f32 := Memref.whole cc9_scratch0
/-- and as a view. -/
abbrev VS9_0 : View sig .tc .vmem S1024x128 .f32 := scM9_0.view

/-- What the launch hands the region beside the windows — the scoped buffers no window stages and the
    generator register — with the accumulator split out as a memref owned at some contents. -/
theorem PhiA9_eq (c : Dev nD) :
    (Pipeline.ΦA spec9 c : sProp 𝕄)
      = iprop(iprop(iprop((∃ d, owns (c : Thread nD τ) scM9_0 fullShare d))
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9_0, owns_whole]; try rfl

end Cert.Kernel.Hand

end
-- ==== Proof.K.R9RunA.lean ====
import proofs.«120270_j2259152797813_2_alg».proof.Proof.K.R9Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (an even point: the reduction coordinate is 0). On whole memrefs — the three inputs at their contents,
    the output's buffer at contents `xi3` that the body does not touch, the accumulator at anything — the body
    zeroes the accumulator, adds the product of the two input blocks to it, and returns the inputs and the
    output's buffer as they were and the accumulator with its stores written: the pieces `LS0` (last first) are
    found by running the body. The output gets no piece. -/
noncomputable def kernelRun9_A (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond9_0 i) (hc1 : ¬cond9_1 i)
    (x0 : Vec F S1024x4096 .bf16) (x1 : Vec F S4096x128 .bf16) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc9__adjmm_kernel i arg2 harg2 arg3 harg3 arg4 harg4 arg5 harg5 arg6 harg6) K } := by
  refine ⟨[], ?_, fun xi3 E K => ?run⟩
  case run =>
    simp only [cc9__adjmm_kernel_eq_skeleton]; unfold cc9__adjmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R9RunB.lean ====
import proofs.«120270_j2259152797813_2_alg».proof.Proof.K.R9RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an odd point: the reduction coordinate is 1). On whole memrefs — the three inputs at their contents,
    the output's buffer at anything, the accumulator at the contents `xs0` the point before left — the body adds
    the product of the two input blocks to the accumulator and stores the rectified sum of the accumulator and
    the third input into the output: the inputs come back as they were, the output's buffer with its pieces `L3`
    written and the accumulator with its pieces `LS0` written (last first), both found by running the body. -/
noncomputable def kernelRun9_B (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond9_0 i) (hc1 : cond9_1 i)
    (x0 : Vec F S1024x4096 .bf16) (x1 : Vec F S4096x128 .bf16) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc9__adjmm_kernel i arg2 harg2 arg3 harg3 arg4 harg4 arg5 harg5 arg6 harg6) K } := by
  refine ⟨?_, ?_, fun E K => ?run⟩
  case run =>
    simp only [cc9__adjmm_kernel_eq_skeleton]; unfold cc9__adjmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R9.lean ====
import proofs.«120270_j2259152797813_2_alg».proof.Proof.K.R9RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9: what the two cases leave, point by point; the proof data; the body obligation -/

/-! ## Per case -/

/-- Case A stores nothing into the output (the window is idle at the even points and not written back there):
    a placeholder nothing consults. -/
def out9_A_3 (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond9_0 i) (hc1 : ¬cond9_1 i)
    (x0 : Vec F S1024x4096 .bf16) (x1 : Vec F S4096x128 .bf16) (x2 : Vec F S1024x128 .f32) : Vec F S1024x128 .f32 :=
  VO9_3.read (Elt F) (VO9_3.writes (Elt F) VO9_3.junk (kernelRun9_A c i arg2 harg2 arg3 harg3 arg4 harg4 arg5 harg5 arg6 harg6 hc0 hc1 x0 x1 x2).1)

/-- Case A's pieces for the accumulator tile it, so they cover it. -/
theorem scover9_A_0 (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond9_0 i) (hc1 : ¬cond9_1 i)
    (x0 : Vec F S1024x4096 .bf16) (x1 : Vec F S4096x128 .bf16) (x2 : Vec F S1024x128 .f32) (y : S1024x128.Idx) :
    ∃ pc ∈ (kernelRun9_A c i arg2 harg2 arg3 harg3 arg4 harg4 arg5 harg5 arg6 harg6 hc0 hc1 x0 x1 x2).2.1, y ∈ pc.1.set :=
  View.cover_of_tiledL (kernelRun9_A c i arg2 harg2 arg3 harg3 arg4 harg4 arg5 harg5 arg6 harg6 hc0 hc1 x0 x1 x2).2.1 S1024x128.size (by sl_kernel_rfl) y

/-- What case A leaves in the accumulator: its pieces read back. -/
def sout9_A_0 (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond9_0 i) (hc1 : ¬cond9_1 i)
    (x0 : Vec F S1024x4096 .bf16) (x1 : Vec F S4096x128 .bf16) (x2 : Vec F S1024x128 .f32) : Vec F S1024x128 .f32 :=
  VS9_0.read (Elt F) (VS9_0.writes (Elt F) VS9_0.junk (kernelRun9_A c i arg2 harg2 arg3 harg3 arg4 harg4 arg5 harg5 arg6 harg6 hc0 hc1 x0 x1 x2).2.1)

/-- Case B's pieces for the output tile its block, so they cover it. -/
theorem cover9_B_3 (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond9_0 i) (hc1 : cond9_1 i)
    (x0 : Vec F S1024x4096 .bf16) (x1 : Vec F S4096x128 .bf16) (x2 : Vec F S1024x128 .f32) (xs0 : Vec F S1024x128 .f32) (y : S1024x128.Idx) :
    ∃ pc ∈ (kernelRun9_B c i arg2 harg2 arg3 harg3 arg4 harg4 arg5 harg5 arg6 harg6 hc0 hc1 x0 x1 x2 xs0).1, y ∈ pc.1.set :=
  View.cover_of_tiledL (kernelRun9_B c i arg2 harg2 arg3 harg3 arg4 harg4 arg5 harg5 arg6 harg6 hc0 hc1 x0 x1 x2 xs0).1 S1024x128.size (by sl_kernel_rfl) y

/-- What case B leaves in the output's staging buffer: its pieces read back. -/
def out9_B_3 (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond9_0 i) (hc1 : cond9_1 i)
    (x0 : Vec F S1024x4096 .bf16) (x1 : Vec F S4096x128 .bf16) (x2 : Vec F S1024x128 .f32) (xs0 : Vec F S1024x128 .f32) : Vec F S1024x128 .f32 :=
  VO9_3.read (Elt F) (VO9_3.writes (Elt F) VO9_3.junk (kernelRun9_B c i arg2 harg2 arg3 harg3 arg4 harg4 arg5 harg5 arg6 harg6 hc0 hc1 x0 x1 x2 xs0).1)

/-- Case B's pieces for the accumulator tile it, so they cover it. -/
theorem scover9_B_0 (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond9_0 i) (hc1 : cond9_1 i)
    (x0 : Vec F S1024x4096 .bf16) (x1 : Vec F S4096x128 .bf16) (x2 : Vec F S1024x128 .f32) (xs0 : Vec F S1024x128 .f32) (y : S1024x128.Idx) :
    ∃ pc ∈ (kernelRun9_B c i arg2 harg2 arg3 harg3 arg4 harg4 arg5 harg5 arg6 harg6 hc0 hc1 x0 x1 x2 xs0).2.1, y ∈ pc.1.set :=
  View.cover_of_tiledL (kernelRun9_B c i arg2 harg2 arg3 harg3 arg4 harg4 arg5 harg5 arg6 harg6 hc0 hc1 x0 x1 x2 xs0).2.1 S1024x128.size (by sl_kernel_rfl) y

/-- What case B leaves in the accumulator: its pieces read back. -/
def sout9_B_0 (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond9_0 i) (hc1 : cond9_1 i)
    (x0 : Vec F S1024x4096 .bf16) (x1 : Vec F S4096x128 .bf16) (x2 : Vec F S1024x128 .f32) (xs0 : Vec F S1024x128 .f32) : Vec F S1024x128 .f32 :=
  VS9_0.read (Elt F) (VS9_0.writes (Elt F) VS9_0.junk (kernelRun9_B c i arg2 harg2 arg3 harg3 arg4 harg4 arg5 harg5 arg6 harg6 hc0 hc1 x0 x1 x2 xs0).2.1)

/-! ## Which case a point is in -/

theorem hc9A0 (t : Fin cfg9.N) (h0 : t.val % 2 = 0) : cond9_0 (grid9.coords t) := (hcond9_0 t).mpr h0
theorem hc9A1 (t : Fin cfg9.N) (h0 : t.val % 2 = 0) : ¬cond9_1 (grid9.coords t) := fun h => by
  have h1 := (hcond9_1 t).mp h; omega
theorem hc9B0 (t : Fin cfg9.N) (h0 : ¬t.val % 2 = 0) : ¬cond9_0 (grid9.coords t) := fun h => h0 ((hcond9_0 t).mp h)
theorem hc9B1 (t : Fin cfg9.N) (h0 : ¬t.val % 2 = 0) : cond9_1 (grid9.coords t) := (hcond9_1 t).mpr (by omega)

section R9
variable (V : (c : Dev nD) → (b : Ref sig .tc) → Buf (Elt F) ((c : Thread nD τ).loc b))

/-! ## Point by point -/

/-- At an even point `t`: the output's placeholder, -/
def oA9 (c : Dev nD) (t : Fin cfg9.N) (h0 : t.val % 2 = 0) : Vec F S1024x128 .f32 :=
  out9_A_3 c (grid9.coords t) (ms9_0 t) (hs9_0 t) (ms9_1 t) (hs9_1 t) (ms9_2 t) (hs9_2 t) (ms9_3 t) (hs9_3 t) scM9_0 (Memref.isWhole_whole _) (hc9A0 t h0) (hc9A1 t h0) (iblk9 V c 0 t) (iblk9 V c 1 t) (iblk9 V c 2 t)
/-- and the accumulator: zero plus the product of the point's two blocks. -/
def sA9 (c : Dev nD) (t : Fin cfg9.N) (h0 : t.val % 2 = 0) : Vec F S1024x128 .f32 :=
  sout9_A_0 c (grid9.coords t) (ms9_0 t) (hs9_0 t) (ms9_1 t) (hs9_1 t) (ms9_2 t) (hs9_2 t) (ms9_3 t) (hs9_3 t) scM9_0 (Memref.isWhole_whole _) (hc9A0 t h0) (hc9A1 t h0) (iblk9 V c 0 t) (iblk9 V c 1 t) (iblk9 V c 2 t)
/-- At an odd point `t`, the accumulator holding `xs0` before it: the output, -/
def oB9 (c : Dev nD) (t : Fin cfg9.N) (h0 : ¬t.val % 2 = 0) (xs0 : Vec F S1024x128 .f32) : Vec F S1024x128 .f32 :=
  out9_B_3 c (grid9.coords t) (ms9_0 t) (hs9_0 t) (ms9_1 t) (hs9_1 t) (ms9_2 t) (hs9_2 t) (ms9_3 t) (hs9_3 t) scM9_0 (Memref.isWhole_whole _) (hc9B0 t h0) (hc9B1 t h0) (iblk9 V c 0 t) (iblk9 V c 1 t) (iblk9 V c 2 t) xs0
/-- and the accumulator. -/
def sB9 (c : Dev nD) (t : Fin cfg9.N) (h0 : ¬t.val % 2 = 0) (xs0 : Vec F S1024x128 .f32) : Vec F S1024x128 .f32 :=
  sout9_B_0 c (grid9.coords t) (ms9_0 t) (hs9_0 t) (ms9_1 t) (hs9_1 t) (ms9_2 t) (hs9_2 t) (ms9_3 t) (hs9_3 t) scM9_0 (Memref.isWhole_whole _) (hc9B0 t h0) (hc9B1 t h0) (iblk9 V c 0 t) (iblk9 V c 1 t) (iblk9 V c 2 t) xs0

/-- THE ACCUMULATION. What the output's staging buffer and the accumulator hold after the body at position `n`
    (a pair: the output, then the accumulator): an even point starts the accumulator afresh, an odd one continues
    from what the point before left. -/
def accAt9 (c : Dev nD) : (n : ℕ) → n < cfg9.N → Vec F S1024x128 .f32 × Vec F S1024x128 .f32
  | 0, hn => (oA9 V c ⟨0, hn⟩ (Nat.zero_mod _), sA9 V c ⟨0, hn⟩ (Nat.zero_mod _))
  | n + 1, hn =>
    if h0 : (n + 1) % 2 = 0 then
      (oA9 V c ⟨n + 1, hn⟩ h0, sA9 V c ⟨n + 1, hn⟩ h0)
    else
      (oB9 V c ⟨n + 1, hn⟩ h0 (accAt9 c n (Nat.lt_of_succ_lt hn)).2, sB9 V c ⟨n + 1, hn⟩ h0 (accAt9 c n (Nat.lt_of_succ_lt hn)).2)

/-- At an even point: case A's contents. -/
theorem accAt9_A (c : Dev nD) (t : Fin cfg9.N) (h0 : t.val % 2 = 0) :
    accAt9 V c t.val t.isLt = (oA9 V c t h0, sA9 V c t h0) := by
  obtain ⟨n, hn⟩ := t
  cases n with
  | zero => exact rfl
  | succ n => exact (dif_pos h0).trans rfl

/-- At an odd point: case B's contents, over what the point before left in the accumulator. -/
theorem accAt9_B (c : Dev nD) (t : Fin cfg9.N) (h0 : ¬t.val % 2 = 0) :
    accAt9 V c t.val t.isLt
      = (oB9 V c t h0 (accAt9 V c (t.val - 1) (Nat.lt_of_le_of_lt (Nat.sub_le _ _) t.isLt)).2,
         sB9 V c t h0 (accAt9 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- What the output's staging buffer holds after the body at point `t`. -/
def outsAt9 (c : Dev nD) (t : Fin cfg9.N) : Vec F S1024x128 .f32 := (accAt9 V c t.val t.isLt).1
/-- What the accumulator holds after the body at point `t`. -/
def sAt9 (c : Dev nD) (t : Fin cfg9.N) : Vec F S1024x128 .f32 := (accAt9 V c t.val t.isLt).2

/-! ## The invariant -/

/-- The region's invariant before position `n`: before the first point, what the launch hands over (every
    scoped buffer no window stages at anything, the generator register at some state); afterwards the same with
    the accumulator at what the point before left in it. -/
def PhiS9 (c : Dev nD) : (n : ℕ) → n ≤ cfg9.N → sProp 𝕄
  | 0, _ => Pipeline.ΦA spec9 c
  | n + 1, hn => iprop(iprop(owns (c : Thread nD τ) scM9_0 fullShare ((accAt9 V c n hn).2) ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9_0 fullShare ((accAt9 V c n hn).2) ∗ Pipeline.scopedRestBut (Ix := Unit) (Name := ℕ) (U := UR sig nD τ) (Lvl := ℕ) (Val := Elt F) spec9 c [cc9_scratch0]) ∗ (∃ r, prngReg c r)) := rfl

theorem PhiS9_pos (c : Dev nD) (n : ℕ) (h : n ≤ cfg9.N) (hz : n ≠ 0) :
    PhiS9 V c n h = iprop(iprop(owns (c : Thread nD τ) scM9_0 fullShare ((accAt9 V c (n - 1) (by omega)).2) ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

/-! ## The proof data -/

/-- The region's proof data on core `c`: the arrays as the region finds them; after the body each input's buffer
    at its block and the output's at `outsAt9`; the invariant `PhiS9`; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => outsAt9 V c t
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (accAt9 V c t.val t.isLt).1 := by dsimp only [dat9, outsAt9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point. The inputs' memrefs hold their blocks; the point's parity says which case it is in.
    At an even point the accumulator goes in at anything (whatever the invariant holds it at) and the output's
    buffer comes back untouched; at an odd point the accumulator goes in at what the point before left. Either
    way it comes back at this point's contents, its pieces covering it; the rest of the invariant is untouched
    and the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  have hN : t.val < 16 := lt_of_lt_of_eq t.isLt (show cfg9.N = 16 from N_9)
  by_cases h0 : t.val % 2 = 0
  · rw [Dat.leavesExact_idle (dat9 V c) 3 t (idleAt9_3_A t (hc9A0 t h0) (hc9A1 t h0)) (noFlush9_3_A t (hc9A0 t h0) (hc9A1 t h0))]
    rw [accAt9_A V c t h0]
    unfold sA9 sout9_A_0; (try dsimp only)
    by_cases hz : t.val = 0
    · rw [PhiS9_castSucc V c t, PhiS9_zero V c _ _ hz, PhiA9_eq]
      iintro ⟨⟨⟨HS0, HR⟩, Hg⟩, Ho, ⟨%d0, H0⟩, ⟨%d1, H1⟩, ⟨%d2, H2⟩, ⟨%d3, H3⟩⟩
      iapply ((kernelRun9_A c (grid9.coords t) _ _ _ _ _ _ _ _ _ _ (hc9A0 t h0) (hc9A1 t h0) (iblk9 V c 0 t) (iblk9 V c 1 t) (iblk9 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS9_castSucc V c t, PhiS9_pos V c _ _ hz]
      iintro ⟨⟨⟨HS0, HR⟩, Hg⟩, Ho, ⟨%d0, H0⟩, ⟨%d1, H1⟩, ⟨%d2, H2⟩, ⟨%d3, H3⟩⟩
      iapply ((kernelRun9_A c (grid9.coords t) _ _ _ _ _ _ _ _ _ _ (hc9A0 t h0) (hc9A1 t h0) (iblk9 V c 0 t) (iblk9 V c 1 t) (iblk9 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat9 V c).leavesExact 3 t = owns (c : Thread nD τ) (ms9_3 t) fullShare ((dat9 V c).after 3 t) from by
      unfold Dat.leavesExact; rw [liveAt9_3_B t (hc9B0 t h0) (hc9B1 t h0)], after9_3]
    rw [accAt9_B V c t h0]
    unfold oB9 sB9 out9_B_3 sout9_B_0; (try dsimp only)
    have hz : t.val ≠ 0 := fun e => h0 (by rw [e])
    rw [PhiS9_castSucc V c t, PhiS9_pos V c _ _ hz]
    iintro ⟨⟨⟨HS0, HR⟩, Hg⟩, Ho, ⟨%d0, H0⟩, ⟨%d1, H1⟩, ⟨%d2, H2⟩, ⟨%d3, H3⟩⟩
    iapply ((kernelRun9_B c (grid9.coords t) _ _ _ _ _ _ _ _ _ _ (hc9B0 t h0) (hc9B1 t h0) (iblk9 V c 0 t) (iblk9 V c 1 t) (iblk9 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover9_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover9_B_3 c _ _ _ _ _ _ _ _ _ _ _ _ _ _ _ _ _)

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## Into the invariant and out of it -/

/-- What the launch hands the region is the invariant before the first point. -/
theorem hin9 (c : Dev nD) :
    iprop((∃ r, prngReg c r) ∗ Pipeline.scopedRest (Ix := Unit) (Name := ℕ) (U := UR sig nD τ) (Lvl := ℕ) (Val := Elt F) spec9 c)
      ⊢ ((dat9 V c).Φ 0 : sProp 𝕄) := by
  rw [show (dat9 V c).Φ 0 = PhiS9 V c 0 (Nat.zero_le _) from rfl, PhiS9_zero V c 0 _ rfl]
  unfold Pipeline.ΦA
  iintro ⟨Hp, Hr⟩
  isplitl [Hr]; · iexact Hr
  iexact Hp

/-- After any point the invariant gives the same back: the accumulator's named contents are forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨HS0, HR⟩, Hg⟩
  isplitl [HS0 HR]
  · isplitl [HS0]
    · iexists _; iexact HS0
    iexact HR
  iexact Hg

/-- The same after the last point, in the order the launch takes it back. -/
theorem hout9 (c : Dev nD) :
    ((dat9 V c).Φ (Fin.last cfg9.N) : sProp 𝕄)
      ⊢ iprop((∃ r, prngReg c r) ∗ Pipeline.scopedRest (Ix := Unit) (Name := ℕ) (U := UR sig nD τ) (Lvl := ℕ) (Val := Elt F) spec9 c) := by
  refine (Phi_out9 V c _ (by rw [Fin.val_last]; have : cfg9.N = 16 := N_9; omega)).trans ?_
  unfold Pipeline.ΦA
  iintro ⟨Hr, Hp⟩
  isplitl [Hp]; · iexact Hp
  iexact Hr

end R9

end Cert.Kernel.Hand

end
-- ==== Proof.K.R10Runs.lean ====
import proofs.«120270_j2259152797813_2_alg».proof.Proof.Gen.Kernel.Launch
import proofs.«120270_j2259152797813_2_alg».proof.Proof.Gen.Kernel.Skeleton
import proofs.«120270_j2259152797813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 10 (the adjacency product with a carried accumulator): what its two cases share -/

section R10
variable (V : (c : Dev nD) → (b : Ref sig .tc) → Buf (Elt F) ((c : Thread nD τ).loc b))

/-- Window `w`'s block at grid point `t`, read off the array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, whether the point fetches it or
    not (an unfetched window's block index has not moved), for any proof data over the entry contents whose
    body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

end R10

/-! ## The body's two branch conditions, over the grid -/

/-- The first conditional (zero the accumulator): the reduction coordinate is 0. -/
abbrev cond10_0 (i : grid10.Coords) : Prop := (Scalar.cmpi .ne (Scalar.extui (Scalar.cmpi .eq (BitVec.ofNat 32 (i 1).val) 0#32)) 0#32) = 1#1
/-- It holds at the even points. -/
theorem hcond10_0 : ∀ t : Fin cfg10.N, cond10_0 (grid10.coords t) ↔ t.val % 2 = 0 :=
  (by decide +kernel : ∀ t : Fin grid10.N, cond10_0 (grid10.coords t) ↔ t.val % 2 = 0)

/-- The second conditional (store the output): the reduction coordinate is 1. -/
abbrev cond10_1 (i : grid10.Coords) : Prop := k10_cond2 i = 1#1
/-- It holds at the odd points. -/
theorem hcond10_1 : ∀ t : Fin cfg10.N, cond10_1 (grid10.coords t) ↔ t.val % 2 = 1 :=
  (by decide +kernel : ∀ t : Fin grid10.N, cond10_1 (grid10.coords t) ↔ t.val % 2 = 1)

/-! ## Where the windows are idle -/

theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
/-- At an even point the output window is idle: nothing is stored into it, -/
theorem idleAt10_3_A : ∀ t : Fin cfg10.N, cond10_0 (grid10.coords t) → ¬cond10_1 (grid10.coords t) → cfg10.idle 3 (grid10.coords t) = true := by decide +kernel
/-- and its block is not written back. -/
theorem noFlush10_3_A : ∀ t : Fin cfg10.N, cond10_0 (grid10.coords t) → ¬cond10_1 (grid10.coords t) → (cfg10.win 3).flush t = false := by decide +kernel
/-- At an odd point the output window is live. -/
theorem liveAt10_3_B : ∀ t : Fin cfg10.N, ¬cond10_0 (grid10.coords t) → cond10_1 (grid10.coords t) → cfg10.idle 3 (grid10.coords t) = false := by decide +kernel

/-! ## The memrefs the body is called with -/

/-- One staging buffer of the output window, through which its contents are stated. -/
abbrev VO10_3 : View sig .tc .vmem S1024x3 .f32 := (Memref.whole cc10_stg3_0 : Memref sig .tc .vmem S1024x3 .f32).view
abbrev ms10_0 (t : Fin cfg10.N) : Memref sig .tc .vmem S1024x4096 .bf16 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S4096x3 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1024x3 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1024x3 .f32 := win10_3.stage (cfg10.slots t 3)
abbrev hs10_3 (t : Fin cfg10.N) : (ms10_3 t).IsWhole := hstage10_3 ((cfg10.slots t 3).cast nbuf10_3)
/-- The accumulator: a whole scoped buffer of the kernel's own, passed beside the windows, -/
abbrev scM10_0 : Memref sig .tc .vmem S1024x3 .f32 := Memref.whole cc10_scratch0
/-- and as a view. -/
abbrev VS10_0 : View sig .tc .vmem S1024x3 .f32 := scM10_0.view

/-- What the launch hands the region beside the windows — the scoped buffers no window stages and the
    generator register — with the accumulator split out as a memref owned at some contents. -/
theorem PhiA10_eq (c : Dev nD) :
    (Pipeline.ΦA spec10 c : sProp 𝕄)
      = iprop(iprop(iprop((∃ d, owns (c : Thread nD τ) scM10_0 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10_0, owns_whole]; try rfl

end Cert.Kernel.Hand

end
-- ==== Proof.K.R10RunA.lean ====
import proofs.«120270_j2259152797813_2_alg».proof.Proof.K.R10Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (an even point: the reduction coordinate is 0). On whole memrefs — the three inputs at their contents,
    the output's buffer at contents `xi3` that the body does not touch, the accumulator at anything — the body
    zeroes the accumulator, adds the product of the two input blocks to it, and returns the inputs and the
    output's buffer as they were and the accumulator with its stores written: the pieces `LS0` (last first) are
    found by running the body. The output gets no piece. -/
noncomputable def kernelRun10_A (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : cond10_0 i) (hc1 : ¬cond10_1 i)
    (x0 : Vec F S1024x4096 .bf16) (x1 : Vec F S4096x3 .bf16) (x2 : Vec F S1024x3 .f32) :
    Σ' (L3 : List (View.Piece (Elt F) S1024x3 .f32)), { LS0 : List (View.Piece (Elt F) S1024x3 .f32) //
      ∀ (xi3 : Vec F S1024x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc10__adjmm_kernel i arg2 harg2 arg3 harg3 arg4 harg4 arg5 harg5 arg6 harg6) K } := by
  refine ⟨[], ?_, fun xi3 E K => ?run⟩
  case run =>
    simp only [cc10__adjmm_kernel_eq_skeleton]; unfold cc10__adjmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R10RunB.lean ====
import proofs.«120270_j2259152797813_2_alg».proof.Proof.K.R10RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an odd point: the reduction coordinate is 1). On whole memrefs — the three inputs at their contents,
    the output's buffer at anything, the accumulator at the contents `xs0` the point before left — the body adds
    the product of the two input blocks to the accumulator and stores the rectified sum of the accumulator and
    the third input into the output: the inputs come back as they were, the output's buffer with its pieces `L3`
    written and the accumulator with its pieces `LS0` written (last first), both found by running the body. -/
noncomputable def kernelRun10_B (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond10_0 i) (hc1 : cond10_1 i)
    (x0 : Vec F S1024x4096 .bf16) (x1 : Vec F S4096x3 .bf16) (x2 : Vec F S1024x3 .f32) (xs0 : Vec F S1024x3 .f32) :
    Σ' (L3 : List (View.Piece (Elt F) S1024x3 .f32)), { LS0 : List (View.Piece (Elt F) S1024x3 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc10__adjmm_kernel i arg2 harg2 arg3 harg3 arg4 harg4 arg5 harg5 arg6 harg6) K } := by
  refine ⟨?_, ?_, fun E K => ?run⟩
  case run =>
    simp only [cc10__adjmm_kernel_eq_skeleton]; unfold cc10__adjmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R10.lean ====
import proofs.«120270_j2259152797813_2_alg».proof.Proof.K.R10RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 10: what the two cases leave, point by point; the proof data; the body obligation -/

/-! ## Per case -/

/-- Case A stores nothing into the output (the window is idle at the even points and not written back there):
    a placeholder nothing consults. -/
def out10_A_3 (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : cond10_0 i) (hc1 : ¬cond10_1 i)
    (x0 : Vec F S1024x4096 .bf16) (x1 : Vec F S4096x3 .bf16) (x2 : Vec F S1024x3 .f32) : Vec F S1024x3 .f32 :=
  VO10_3.read (Elt F) (VO10_3.writes (Elt F) VO10_3.junk (kernelRun10_A c i arg2 harg2 arg3 harg3 arg4 harg4 arg5 harg5 arg6 harg6 hc0 hc1 x0 x1 x2).1)

/-- Case A's pieces for the accumulator tile it, so they cover it. -/
theorem scover10_A_0 (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : cond10_0 i) (hc1 : ¬cond10_1 i)
    (x0 : Vec F S1024x4096 .bf16) (x1 : Vec F S4096x3 .bf16) (x2 : Vec F S1024x3 .f32) (y : S1024x3.Idx) :
    ∃ pc ∈ (kernelRun10_A c i arg2 harg2 arg3 harg3 arg4 harg4 arg5 harg5 arg6 harg6 hc0 hc1 x0 x1 x2).2.1, y ∈ pc.1.set :=
  View.cover_of_tiledL (kernelRun10_A c i arg2 harg2 arg3 harg3 arg4 harg4 arg5 harg5 arg6 harg6 hc0 hc1 x0 x1 x2).2.1 S1024x3.size (by sl_kernel_rfl) y

/-- What case A leaves in the accumulator: its pieces read back. -/
def sout10_A_0 (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : cond10_0 i) (hc1 : ¬cond10_1 i)
    (x0 : Vec F S1024x4096 .bf16) (x1 : Vec F S4096x3 .bf16) (x2 : Vec F S1024x3 .f32) : Vec F S1024x3 .f32 :=
  VS10_0.read (Elt F) (VS10_0.writes (Elt F) VS10_0.junk (kernelRun10_A c i arg2 harg2 arg3 harg3 arg4 harg4 arg5 harg5 arg6 harg6 hc0 hc1 x0 x1 x2).2.1)

/-- Case B's pieces for the output tile its block, so they cover it. -/
theorem cover10_B_3 (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond10_0 i) (hc1 : cond10_1 i)
    (x0 : Vec F S1024x4096 .bf16) (x1 : Vec F S4096x3 .bf16) (x2 : Vec F S1024x3 .f32) (xs0 : Vec F S1024x3 .f32) (y : S1024x3.Idx) :
    ∃ pc ∈ (kernelRun10_B c i arg2 harg2 arg3 harg3 arg4 harg4 arg5 harg5 arg6 harg6 hc0 hc1 x0 x1 x2 xs0).1, y ∈ pc.1.set :=
  View.cover_of_tiledL (kernelRun10_B c i arg2 harg2 arg3 harg3 arg4 harg4 arg5 harg5 arg6 harg6 hc0 hc1 x0 x1 x2 xs0).1 S1024x3.size (by sl_kernel_rfl) y

/-- What case B leaves in the output's staging buffer: its pieces read back. -/
def out10_B_3 (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond10_0 i) (hc1 : cond10_1 i)
    (x0 : Vec F S1024x4096 .bf16) (x1 : Vec F S4096x3 .bf16) (x2 : Vec F S1024x3 .f32) (xs0 : Vec F S1024x3 .f32) : Vec F S1024x3 .f32 :=
  VO10_3.read (Elt F) (VO10_3.writes (Elt F) VO10_3.junk (kernelRun10_B c i arg2 harg2 arg3 harg3 arg4 harg4 arg5 harg5 arg6 harg6 hc0 hc1 x0 x1 x2 xs0).1)

/-- Case B's pieces for the accumulator tile it, so they cover it. -/
theorem scover10_B_0 (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond10_0 i) (hc1 : cond10_1 i)
    (x0 : Vec F S1024x4096 .bf16) (x1 : Vec F S4096x3 .bf16) (x2 : Vec F S1024x3 .f32) (xs0 : Vec F S1024x3 .f32) (y : S1024x3.Idx) :
    ∃ pc ∈ (kernelRun10_B c i arg2 harg2 arg3 harg3 arg4 harg4 arg5 harg5 arg6 harg6 hc0 hc1 x0 x1 x2 xs0).2.1, y ∈ pc.1.set :=
  View.cover_of_tiledL (kernelRun10_B c i arg2 harg2 arg3 harg3 arg4 harg4 arg5 harg5 arg6 harg6 hc0 hc1 x0 x1 x2 xs0).2.1 S1024x3.size (by sl_kernel_rfl) y

/-- What case B leaves in the accumulator: its pieces read back. -/
def sout10_B_0 (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond10_0 i) (hc1 : cond10_1 i)
    (x0 : Vec F S1024x4096 .bf16) (x1 : Vec F S4096x3 .bf16) (x2 : Vec F S1024x3 .f32) (xs0 : Vec F S1024x3 .f32) : Vec F S1024x3 .f32 :=
  VS10_0.read (Elt F) (VS10_0.writes (Elt F) VS10_0.junk (kernelRun10_B c i arg2 harg2 arg3 harg3 arg4 harg4 arg5 harg5 arg6 harg6 hc0 hc1 x0 x1 x2 xs0).2.1)

/-! ## Which case a point is in -/

theorem hc10A0 (t : Fin cfg10.N) (h0 : t.val % 2 = 0) : cond10_0 (grid10.coords t) := (hcond10_0 t).mpr h0
theorem hc10A1 (t : Fin cfg10.N) (h0 : t.val % 2 = 0) : ¬cond10_1 (grid10.coords t) := fun h => by
  have h1 := (hcond10_1 t).mp h; omega
theorem hc10B0 (t : Fin cfg10.N) (h0 : ¬t.val % 2 = 0) : ¬cond10_0 (grid10.coords t) := fun h => h0 ((hcond10_0 t).mp h)
theorem hc10B1 (t : Fin cfg10.N) (h0 : ¬t.val % 2 = 0) : cond10_1 (grid10.coords t) := (hcond10_1 t).mpr (by omega)

section R10
variable (V : (c : Dev nD) → (b : Ref sig .tc) → Buf (Elt F) ((c : Thread nD τ).loc b))

/-! ## Point by point -/

/-- At an even point `t`: the output's placeholder, -/
def oA10 (c : Dev nD) (t : Fin cfg10.N) (h0 : t.val % 2 = 0) : Vec F S1024x3 .f32 :=
  out10_A_3 c (grid10.coords t) (ms10_0 t) (hs10_0 t) (ms10_1 t) (hs10_1 t) (ms10_2 t) (hs10_2 t) (ms10_3 t) (hs10_3 t) scM10_0 (Memref.isWhole_whole _) (hc10A0 t h0) (hc10A1 t h0) (iblk10 V c 0 t) (iblk10 V c 1 t) (iblk10 V c 2 t)
/-- and the accumulator: zero plus the product of the point's two blocks. -/
def sA10 (c : Dev nD) (t : Fin cfg10.N) (h0 : t.val % 2 = 0) : Vec F S1024x3 .f32 :=
  sout10_A_0 c (grid10.coords t) (ms10_0 t) (hs10_0 t) (ms10_1 t) (hs10_1 t) (ms10_2 t) (hs10_2 t) (ms10_3 t) (hs10_3 t) scM10_0 (Memref.isWhole_whole _) (hc10A0 t h0) (hc10A1 t h0) (iblk10 V c 0 t) (iblk10 V c 1 t) (iblk10 V c 2 t)
/-- At an odd point `t`, the accumulator holding `xs0` before it: the output, -/
def oB10 (c : Dev nD) (t : Fin cfg10.N) (h0 : ¬t.val % 2 = 0) (xs0 : Vec F S1024x3 .f32) : Vec F S1024x3 .f32 :=
  out10_B_3 c (grid10.coords t) (ms10_0 t) (hs10_0 t) (ms10_1 t) (hs10_1 t) (ms10_2 t) (hs10_2 t) (ms10_3 t) (hs10_3 t) scM10_0 (Memref.isWhole_whole _) (hc10B0 t h0) (hc10B1 t h0) (iblk10 V c 0 t) (iblk10 V c 1 t) (iblk10 V c 2 t) xs0
/-- and the accumulator. -/
def sB10 (c : Dev nD) (t : Fin cfg10.N) (h0 : ¬t.val % 2 = 0) (xs0 : Vec F S1024x3 .f32) : Vec F S1024x3 .f32 :=
  sout10_B_0 c (grid10.coords t) (ms10_0 t) (hs10_0 t) (ms10_1 t) (hs10_1 t) (ms10_2 t) (hs10_2 t) (ms10_3 t) (hs10_3 t) scM10_0 (Memref.isWhole_whole _) (hc10B0 t h0) (hc10B1 t h0) (iblk10 V c 0 t) (iblk10 V c 1 t) (iblk10 V c 2 t) xs0

/-- THE ACCUMULATION. What the output's staging buffer and the accumulator hold after the body at position `n`
    (a pair: the output, then the accumulator): an even point starts the accumulator afresh, an odd one continues
    from what the point before left. -/
def accAt10 (c : Dev nD) : (n : ℕ) → n < cfg10.N → Vec F S1024x3 .f32 × Vec F S1024x3 .f32
  | 0, hn => (oA10 V c ⟨0, hn⟩ (Nat.zero_mod _), sA10 V c ⟨0, hn⟩ (Nat.zero_mod _))
  | n + 1, hn =>
    if h0 : (n + 1) % 2 = 0 then
      (oA10 V c ⟨n + 1, hn⟩ h0, sA10 V c ⟨n + 1, hn⟩ h0)
    else
      (oB10 V c ⟨n + 1, hn⟩ h0 (accAt10 c n (Nat.lt_of_succ_lt hn)).2, sB10 V c ⟨n + 1, hn⟩ h0 (accAt10 c n (Nat.lt_of_succ_lt hn)).2)

/-- At an even point: case A's contents. -/
theorem accAt10_A (c : Dev nD) (t : Fin cfg10.N) (h0 : t.val % 2 = 0) :
    accAt10 V c t.val t.isLt = (oA10 V c t h0, sA10 V c t h0) := by
  obtain ⟨n, hn⟩ := t
  cases n with
  | zero => exact rfl
  | succ n => exact (dif_pos h0).trans rfl

/-- At an odd point: case B's contents, over what the point before left in the accumulator. -/
theorem accAt10_B (c : Dev nD) (t : Fin cfg10.N) (h0 : ¬t.val % 2 = 0) :
    accAt10 V c t.val t.isLt
      = (oB10 V c t h0 (accAt10 V c (t.val - 1) (Nat.lt_of_le_of_lt (Nat.sub_le _ _) t.isLt)).2,
         sB10 V c t h0 (accAt10 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- What the output's staging buffer holds after the body at point `t`. -/
def outsAt10 (c : Dev nD) (t : Fin cfg10.N) : Vec F S1024x3 .f32 := (accAt10 V c t.val t.isLt).1
/-- What the accumulator holds after the body at point `t`. -/
def sAt10 (c : Dev nD) (t : Fin cfg10.N) : Vec F S1024x3 .f32 := (accAt10 V c t.val t.isLt).2

/-! ## The invariant -/

/-- The region's invariant before position `n`: before the first point, what the launch hands over (every
    scoped buffer no window stages at anything, the generator register at some state); afterwards the same with
    the accumulator at what the point before left in it. -/
def PhiS10 (c : Dev nD) : (n : ℕ) → n ≤ cfg10.N → sProp 𝕄
  | 0, _ => Pipeline.ΦA spec10 c
  | n + 1, hn => iprop(iprop(owns (c : Thread nD τ) scM10_0 fullShare ((accAt10 V c n hn).2) ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(owns (c : Thread nD τ) scM10_0 fullShare ((accAt10 V c n hn).2) ∗ Pipeline.scopedRestBut (Ix := Unit) (Name := ℕ) (U := UR sig nD τ) (Lvl := ℕ) (Val := Elt F) spec10 c [cc10_scratch0]) ∗ (∃ r, prngReg c r)) := rfl

theorem PhiS10_pos (c : Dev nD) (n : ℕ) (h : n ≤ cfg10.N) (hz : n ≠ 0) :
    PhiS10 V c n h = iprop(iprop(owns (c : Thread nD τ) scM10_0 fullShare ((accAt10 V c (n - 1) (by omega)).2) ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-! ## The proof data -/

/-- The region's proof data on core `c`: the arrays as the region finds them; after the body each input's buffer
    at its block and the output's at `outsAt10`; the invariant `PhiS10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => outsAt10 V c t
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = (accAt10 V c t.val t.isLt).1 := by dsimp only [dat10, outsAt10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4800000 in
/-- The body at any point. The inputs' memrefs hold their blocks; the point's parity says which case it is in.
    At an even point the accumulator goes in at anything (whatever the invariant holds it at) and the output's
    buffer comes back untouched; at an odd point the accumulator goes in at what the point before left. Either
    way it comes back at this point's contents, its pieces covering it; the rest of the invariant is untouched
    and the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl]
  rw [show (dat10 V c).Φ t.succ = PhiS10 V c (t.val + 1) t.isLt from rfl, PhiS10_succ]
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [show (dat10 V c).leavesExact 2 t = owns (c : Thread nD τ) (ms10_2 t) fullShare ((dat10 V c).after 2 t) from by
    unfold Dat.leavesExact; rw [liveAt10_2 t], after10_2]
  have hN : t.val < 16 := lt_of_lt_of_eq t.isLt (show cfg10.N = 16 from N_10)
  by_cases h0 : t.val % 2 = 0
  · rw [Dat.leavesExact_idle (dat10 V c) 3 t (idleAt10_3_A t (hc10A0 t h0) (hc10A1 t h0)) (noFlush10_3_A t (hc10A0 t h0) (hc10A1 t h0))]
    rw [accAt10_A V c t h0]
    unfold sA10 sout10_A_0; (try dsimp only)
    by_cases hz : t.val = 0
    · rw [PhiS10_castSucc V c t, PhiS10_zero V c _ _ hz, PhiA10_eq]
      iintro ⟨⟨⟨HS0, HR⟩, Hg⟩, Ho, ⟨%d0, H0⟩, ⟨%d1, H1⟩, ⟨%d2, H2⟩, ⟨%d3, H3⟩⟩
      iapply ((kernelRun10_A c (grid10.coords t) _ _ _ _ _ _ _ _ _ _ (hc10A0 t h0) (hc10A1 t h0) (iblk10 V c 0 t) (iblk10 V c 1 t) (iblk10 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS10_castSucc V c t, PhiS10_pos V c _ _ hz]
      iintro ⟨⟨⟨HS0, HR⟩, Hg⟩, Ho, ⟨%d0, H0⟩, ⟨%d1, H1⟩, ⟨%d2, H2⟩, ⟨%d3, H3⟩⟩
      iapply ((kernelRun10_A c (grid10.coords t) _ _ _ _ _ _ _ _ _ _ (hc10A0 t h0) (hc10A1 t h0) (iblk10 V c 0 t) (iblk10 V c 1 t) (iblk10 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat10 V c).leavesExact 3 t = owns (c : Thread nD τ) (ms10_3 t) fullShare ((dat10 V c).after 3 t) from by
      unfold Dat.leavesExact; rw [liveAt10_3_B t (hc10B0 t h0) (hc10B1 t h0)], after10_3]
    rw [accAt10_B V c t h0]
    unfold oB10 sB10 out10_B_3 sout10_B_0; (try dsimp only)
    have hz : t.val ≠ 0 := fun e => h0 (by rw [e])
    rw [PhiS10_castSucc V c t, PhiS10_pos V c _ _ hz]
    iintro ⟨⟨⟨HS0, HR⟩, Hg⟩, Ho, ⟨%d0, H0⟩, ⟨%d1, H1⟩, ⟨%d2, H2⟩, ⟨%d3, H3⟩⟩
    iapply ((kernelRun10_B c (grid10.coords t) _ _ _ _ _ _ _ _ _ _ (hc10B0 t h0) (hc10B1 t h0) (iblk10 V c 0 t) (iblk10 V c 1 t) (iblk10 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover10_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover10_B_3 c _ _ _ _ _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Into the invariant and out of it -/

/-- What the launch hands the region is the invariant before the first point. -/
theorem hin10 (c : Dev nD) :
    iprop((∃ r, prngReg c r) ∗ Pipeline.scopedRest (Ix := Unit) (Name := ℕ) (U := UR sig nD τ) (Lvl := ℕ) (Val := Elt F) spec10 c)
      ⊢ ((dat10 V c).Φ 0 : sProp 𝕄) := by
  rw [show (dat10 V c).Φ 0 = PhiS10 V c 0 (Nat.zero_le _) from rfl, PhiS10_zero V c 0 _ rfl]
  unfold Pipeline.ΦA
  iintro ⟨Hp, Hr⟩
  isplitl [Hr]; · iexact Hr
  iexact Hp

/-- After any point the invariant gives the same back: the accumulator's named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS0, HR⟩, Hg⟩
  isplitl [HS0 HR]
  · isplitl [HS0]
    · iexists _; iexact HS0
    iexact HR
  iexact Hg

/-- The same after the last point, in the order the launch takes it back. -/
theorem hout10 (c : Dev nD) :
    ((dat10 V c).Φ (Fin.last cfg10.N) : sProp 𝕄)
      ⊢ iprop((∃ r, prngReg c r) ∗ Pipeline.scopedRest (Ix := Unit) (Name := ℕ) (U := UR sig nD τ) (Lvl := ℕ) (Val := Elt F) spec10 c) := by
  refine (Phi_out10 V c _ (by rw [Fin.val_last]; have : cfg10.N = 16 := N_10; omega)).trans ?_
  unfold Pipeline.ΦA
  iintro ⟨Hr, Hp⟩
  isplitl [Hp]; · iexact Hp
  iexact Hr

end R10

end Cert.Kernel.Hand

end
-- ==== Proof.K.Run.lean ====
import proofs.«120270_j2259152797813_2_alg».proof.Proof.Gen.Kernel.Launch
import proofs.«120270_j2259152797813_2_alg».proof.Proof.Gen.Kernel.Skeleton
import proofs.«120270_j2259152797813_2_alg».proof.Proof.Gen.Kernel.Points
import proofs.«120270_j2259152797813_2_alg».proof.Proof.K.R0
import proofs.«120270_j2259152797813_2_alg».proof.Proof.K.R1
import proofs.«120270_j2259152797813_2_alg».proof.Proof.K.R2
import proofs.«120270_j2259152797813_2_alg».proof.Proof.K.R3
import proofs.«120270_j2259152797813_2_alg».proof.Proof.K.R4
import proofs.«120270_j2259152797813_2_alg».proof.Proof.K.R5
import proofs.«120270_j2259152797813_2_alg».proof.Proof.K.R6
import proofs.«120270_j2259152797813_2_alg».proof.Proof.K.R7
import proofs.«120270_j2259152797813_2_alg».proof.Proof.K.R8
import proofs.«120270_j2259152797813_2_alg».proof.Proof.K.R9
import proofs.«120270_j2259152797813_2_alg».proof.Proof.K.R10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The run of @main: its host stretches and its eleven kernel regions in order

The contents of the TensorCore's buffers at every boundary between two segments of @main are a fold from the launch
memory: a stretch of host operations applies its operations; a kernel region leaves its windows' arrays at what the
write-backs of its grid points leave and every other buffer as it found it.  No host operation and no region writes an
argument array, so at the end every argument holds what it held at launch.
-/

variable (m : (ℓ : Loc nD τ sig) → Buf (Elt F) ℓ) (ρ : Dev nD → PrngReg)

/-- The argument arrays. -/
abbrev argR : Fin 23 → Ref sig .tc := ![main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

theorem hostOps0_fresh : (hostOps0 : List (HloOp τ sig (Elt F))).Forall fun op => op.fresh = ∅ := by
  simp only [List.Forall]; repeat' constructor
set_option maxHeartbeats 4000000 in
/-- No operation of this stretch writes an argument array. -/
theorem hostOps0_args (W : Valuation τ sig (Elt F)) (j : Fin 23) :
    StableHlo.after (hostOps0 (F := F)) W (Proc.devRef .tc (argR j)) = W (Proc.devRef .tc (argR j)) :=
  StableHlo.after_of_forall_not_mem (b := Proc.devRef .tc (argR j)) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps0_1_fresh : (hostOps0_1 : List (HloOp τ sig (Elt F))).Forall fun op => op.fresh = ∅ := by
  simp only [List.Forall]; repeat' constructor
set_option maxHeartbeats 4000000 in
/-- No operation of this stretch writes an argument array. -/
theorem hostOps0_1_args (W : Valuation τ sig (Elt F)) (j : Fin 23) :
    StableHlo.after (hostOps0_1 (F := F)) W (Proc.devRef .tc (argR j)) = W (Proc.devRef .tc (argR j)) :=
  StableHlo.after_of_forall_not_mem (b := Proc.devRef .tc (argR j)) _ _ (List.forall_iff_forall_mem.mp (by
    simp only [hostOps0_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps0_2_fresh : (hostOps0_2 : List (HloOp τ sig (Elt F))).Forall fun op => op.fresh = ∅ := by
  simp only [List.Forall]; repeat' constructor
set_option maxHeartbeats 4000000 in
/-- No operation of this stretch writes an argument array. -/
theorem hostOps0_2_args (W : Valuation τ sig (Elt F)) (j : Fin 23) :
    StableHlo.after (hostOps0_2 (F := F)) W (Proc.devRef .tc (argR j)) = W (Proc.devRef .tc (argR j)) :=
  StableHlo.after_of_forall_not_mem (b := Proc.devRef .tc (argR j)) _ _ (List.forall_iff_forall_mem.mp (by
    simp only [hostOps0_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps0_3_fresh : (hostOps0_3 : List (HloOp τ sig (Elt F))).Forall fun op => op.fresh = ∅ := by
  simp only [List.Forall]; repeat' constructor
set_option maxHeartbeats 4000000 in
/-- No operation of this stretch writes an argument array. -/
theorem hostOps0_3_args (W : Valuation τ sig (Elt F)) (j : Fin 23) :
    StableHlo.after (hostOps0_3 (F := F)) W (Proc.devRef .tc (argR j)) = W (Proc.devRef .tc (argR j)) :=
  StableHlo.after_of_forall_not_mem (b := Proc.devRef .tc (argR j)) _ _ (List.forall_iff_forall_mem.mp (by
    simp only [hostOps0_3, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps0_4_fresh : (hostOps0_4 : List (HloOp τ sig (Elt F))).Forall fun op => op.fresh = ∅ := by
  simp only [List.Forall]; repeat' constructor
set_option maxHeartbeats 4000000 in
/-- No operation of this stretch writes an argument array. -/
theorem hostOps0_4_args (W : Valuation τ sig (Elt F)) (j : Fin 23) :
    StableHlo.after (hostOps0_4 (F := F)) W (Proc.devRef .tc (argR j)) = W (Proc.devRef .tc (argR j)) :=
  StableHlo.after_of_forall_not_mem (b := Proc.devRef .tc (argR j)) _ _ (List.forall_iff_forall_mem.mp (by
    simp only [hostOps0_4, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps0_5_fresh : (hostOps0_5 : List (HloOp τ sig (Elt F))).Forall fun op => op.fresh = ∅ := by
  simp only [List.Forall]; repeat' constructor
set_option maxHeartbeats 4000000 in
/-- No operation of this stretch writes an argument array. -/
theorem hostOps0_5_args (W : Valuation τ sig (Elt F)) (j : Fin 23) :
    StableHlo.after (hostOps0_5 (F := F)) W (Proc.devRef .tc (argR j)) = W (Proc.devRef .tc (argR j)) :=
  StableHlo.after_of_forall_not_mem (b := Proc.devRef .tc (argR j)) _ _ (List.forall_iff_forall_mem.mp (by
    simp only [hostOps0_5, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps0_6_fresh : (hostOps0_6 : List (HloOp τ sig (Elt F))).Forall fun op => op.fresh = ∅ := by
  simp only [List.Forall]; repeat' constructor
set_option maxHeartbeats 4000000 in
/-- No operation of this stretch writes an argument array. -/
theorem hostOps0_6_args (W : Valuation τ sig (Elt F)) (j : Fin 23) :
    StableHlo.after (hostOps0_6 (F := F)) W (Proc.devRef .tc (argR j)) = W (Proc.devRef .tc (argR j)) :=
  StableHlo.after_of_forall_not_mem (b := Proc.devRef .tc (argR j)) _ _ (List.forall_iff_forall_mem.mp (by
    simp only [hostOps0_6, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps1_fresh : (hostOps1 : List (HloOp τ sig (Elt F))).Forall fun op => op.fresh = ∅ := by
  simp only [List.Forall]; repeat' constructor
set_option maxHeartbeats 4000000 in
/-- No operation of this stretch writes an argument array. -/
theorem hostOps1_args (W : Valuation τ sig (Elt F)) (j : Fin 23) :
    StableHlo.after (hostOps1 (F := F)) W (Proc.devRef .tc (argR j)) = W (Proc.devRef .tc (argR j)) :=
  StableHlo.after_of_forall_not_mem (b := Proc.devRef .tc (argR j)) _ _ (List.forall_iff_forall_mem.mp (by
    simp only [hostOps1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps1_1_fresh : (hostOps1_1 : List (HloOp τ sig (Elt F))).Forall fun op => op.fresh = ∅ := by
  simp only [List.Forall]; repeat' constructor
set_option maxHeartbeats 4000000 in
/-- No operation of this stretch writes an argument array. -/
theorem hostOps1_1_args (W : Valuation τ sig (Elt F)) (j : Fin 23) :
    StableHlo.after (hostOps1_1 (F := F)) W (Proc.devRef .tc (argR j)) = W (Proc.devRef .tc (argR j)) :=
  StableHlo.after_of_forall_not_mem (b := Proc.devRef .tc (argR j)) _ _ (List.forall_iff_forall_mem.mp (by
    simp only [hostOps1_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps1_2_fresh : (hostOps1_2 : List (HloOp τ sig (Elt F))).Forall fun op => op.fresh = ∅ := by
  simp only [List.Forall]; repeat' constructor
set_option maxHeartbeats 4000000 in
/-- No operation of this stretch writes an argument array. -/
theorem hostOps1_2_args (W : Valuation τ sig (Elt F)) (j : Fin 23) :
    StableHlo.after (hostOps1_2 (F := F)) W (Proc.devRef .tc (argR j)) = W (Proc.devRef .tc (argR j)) :=
  StableHlo.after_of_forall_not_mem (b := Proc.devRef .tc (argR j)) _ _ (List.forall_iff_forall_mem.mp (by
    simp only [hostOps1_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps2_fresh : (hostOps2 : List (HloOp τ sig (Elt F))).Forall fun op => op.fresh = ∅ := by
  simp only [List.Forall]; repeat' constructor
set_option maxHeartbeats 4000000 in
/-- No operation of this stretch writes an argument array. -/
theorem hostOps2_args (W : Valuation τ sig (Elt F)) (j : Fin 23) :
    StableHlo.after (hostOps2 (F := F)) W (Proc.devRef .tc (argR j)) = W (Proc.devRef .tc (argR j)) :=
  StableHlo.after_of_forall_not_mem (b := Proc.devRef .tc (argR j)) _ _ (List.forall_iff_forall_mem.mp (by
    simp only [hostOps2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps2_1_fresh : (hostOps2_1 : List (HloOp τ sig (Elt F))).Forall fun op => op.fresh = ∅ := by
  simp only [List.Forall]; repeat' constructor
set_option maxHeartbeats 4000000 in
/-- No operation of this stretch writes an argument array. -/
theorem hostOps2_1_args (W : Valuation τ sig (Elt F)) (j : Fin 23) :
    StableHlo.after (hostOps2_1 (F := F)) W (Proc.devRef .tc (argR j)) = W (Proc.devRef .tc (argR j)) :=
  StableHlo.after_of_forall_not_mem (b := Proc.devRef .tc (argR j)) _ _ (List.forall_iff_forall_mem.mp (by
    simp only [hostOps2_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps2_2_fresh : (hostOps2_2 : List (HloOp τ sig (Elt F))).Forall fun op => op.fresh = ∅ := by
  simp only [List.Forall]; repeat' constructor
set_option maxHeartbeats 4000000 in
/-- No operation of this stretch writes an argument array. -/
theorem hostOps2_2_args (W : Valuation τ sig (Elt F)) (j : Fin 23) :
    StableHlo.after (hostOps2_2 (F := F)) W (Proc.devRef .tc (argR j)) = W (Proc.devRef .tc (argR j)) :=
  StableHlo.after_of_forall_not_mem (b := Proc.devRef .tc (argR j)) _ _ (List.forall_iff_forall_mem.mp (by
    simp only [hostOps2_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps3_fresh : (hostOps3 : List (HloOp τ sig (Elt F))).Forall fun op => op.fresh = ∅ := by
  simp only [List.Forall]; repeat' constructor
set_option maxHeartbeats 4000000 in
/-- No operation of this stretch writes an argument array. -/
theorem hostOps3_args (W : Valuation τ sig (Elt F)) (j : Fin 23) :
    StableHlo.after (hostOps3 (F := F)) W (Proc.devRef .tc (argR j)) = W (Proc.devRef .tc (argR j)) :=
  StableHlo.after_of_forall_not_mem (b := Proc.devRef .tc (argR j)) _ _ (List.forall_iff_forall_mem.mp (by
    simp only [hostOps3, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps3_1_fresh : (hostOps3_1 : List (HloOp τ sig (Elt F))).Forall fun op => op.fresh = ∅ := by
  simp only [List.Forall]; repeat' constructor
set_option maxHeartbeats 4000000 in
/-- No operation of this stretch writes an argument array. -/
theorem hostOps3_1_args (W : Valuation τ sig (Elt F)) (j : Fin 23) :
    StableHlo.after (hostOps3_1 (F := F)) W (Proc.devRef .tc (argR j)) = W (Proc.devRef .tc (argR j)) :=
  StableHlo.after_of_forall_not_mem (b := Proc.devRef .tc (argR j)) _ _ (List.forall_iff_forall_mem.mp (by
    simp only [hostOps3_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps3_2_fresh : (hostOps3_2 : List (HloOp τ sig (Elt F))).Forall fun op => op.fresh = ∅ := by
  simp only [List.Forall]; repeat' constructor
set_option maxHeartbeats 4000000 in
/-- No operation of this stretch writes an argument array. -/
theorem hostOps3_2_args (W : Valuation τ sig (Elt F)) (j : Fin 23) :
    StableHlo.after (hostOps3_2 (F := F)) W (Proc.devRef .tc (argR j)) = W (Proc.devRef .tc (argR j)) :=
  StableHlo.after_of_forall_not_mem (b := Proc.devRef .tc (argR j)) _ _ (List.forall_iff_forall_mem.mp (by
    simp only [hostOps3_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps4_fresh : (hostOps4 : List (HloOp τ sig (Elt F))).Forall fun op => op.fresh = ∅ := by
  simp only [List.Forall]; repeat' constructor
set_option maxHeartbeats 4000000 in
/-- No operation of this stretch writes an argument array. -/
theorem hostOps4_args (W : Valuation τ sig (Elt F)) (j : Fin 23) :
    StableHlo.after (hostOps4 (F := F)) W (Proc.devRef .tc (argR j)) = W (Proc.devRef .tc (argR j)) :=
  StableHlo.after_of_forall_not_mem (b := Proc.devRef .tc (argR j)) _ _ (List.forall_iff_forall_mem.mp (by
    simp only [hostOps4, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps5_fresh : (hostOps5 : List (HloOp τ sig (Elt F))).Forall fun op => op.fresh = ∅ := by
  simp only [List.Forall]; repeat' constructor
set_option maxHeartbeats 4000000 in
/-- No operation of this stretch writes an argument array. -/
theorem hostOps5_args (W : Valuation τ sig (Elt F)) (j : Fin 23) :
    StableHlo.after (hostOps5 (F := F)) W (Proc.devRef .tc (argR j)) = W (Proc.devRef .tc (argR j)) :=
  StableHlo.after_of_forall_not_mem (b := Proc.devRef .tc (argR j)) _ _ (List.forall_iff_forall_mem.mp (by
    simp only [hostOps5, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps6_fresh : (hostOps6 : List (HloOp τ sig (Elt F))).Forall fun op => op.fresh = ∅ := by
  simp only [List.Forall]; repeat' constructor
set_option maxHeartbeats 4000000 in
/-- No operation of this stretch writes an argument array. -/
theorem hostOps6_args (W : Valuation τ sig (Elt F)) (j : Fin 23) :
    StableHlo.after (hostOps6 (F := F)) W (Proc.devRef .tc (argR j)) = W (Proc.devRef .tc (argR j)) :=
  StableHlo.after_of_forall_not_mem (b := Proc.devRef .tc (argR j)) _ _ (List.forall_iff_forall_mem.mp (by
    simp only [hostOps6, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps7_fresh : (hostOps7 : List (HloOp τ sig (Elt F))).Forall fun op => op.fresh = ∅ := by
  simp only [List.Forall]; repeat' constructor
set_option maxHeartbeats 4000000 in
/-- No operation of this stretch writes an argument array. -/
theorem hostOps7_args (W : Valuation τ sig (Elt F)) (j : Fin 23) :
    StableHlo.after (hostOps7 (F := F)) W (Proc.devRef .tc (argR j)) = W (Proc.devRef .tc (argR j)) :=
  StableHlo.after_of_forall_not_mem (b := Proc.devRef .tc (argR j)) _ _ (List.forall_iff_forall_mem.mp (by
    simp only [hostOps7, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps8_fresh : (hostOps8 : List (HloOp τ sig (Elt F))).Forall fun op => op.fresh = ∅ := by
  simp only [List.Forall]; repeat' constructor
set_option maxHeartbeats 4000000 in
/-- No operation of this stretch writes an argument array. -/
theorem hostOps8_args (W : Valuation τ sig (Elt F)) (j : Fin 23) :
    StableHlo.after (hostOps8 (F := F)) W (Proc.devRef .tc (argR j)) = W (Proc.devRef .tc (argR j)) :=
  StableHlo.after_of_forall_not_mem (b := Proc.devRef .tc (argR j)) _ _ (List.forall_iff_forall_mem.mp (by
    simp only [hostOps8, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps9_fresh : (hostOps9 : List (HloOp τ sig (Elt F))).Forall fun op => op.fresh = ∅ := by
  simp only [List.Forall]; repeat' constructor
set_option maxHeartbeats 4000000 in
/-- No operation of this stretch writes an argument array. -/
theorem hostOps9_args (W : Valuation τ sig (Elt F)) (j : Fin 23) :
    StableHlo.after (hostOps9 (F := F)) W (Proc.devRef .tc (argR j)) = W (Proc.devRef .tc (argR j)) :=
  StableHlo.after_of_forall_not_mem (b := Proc.devRef .tc (argR j)) _ _ (List.forall_iff_forall_mem.mp (by
    simp only [hostOps9, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps10_fresh : (hostOps10 : List (HloOp τ sig (Elt F))).Forall fun op => op.fresh = ∅ := by
  simp only [List.Forall]; repeat' constructor
set_option maxHeartbeats 4000000 in
/-- No operation of this stretch writes an argument array. -/
theorem hostOps10_args (W : Valuation τ sig (Elt F)) (j : Fin 23) :
    StableHlo.after (hostOps10 (F := F)) W (Proc.devRef .tc (argR j)) = W (Proc.devRef .tc (argR j)) :=
  StableHlo.after_of_forall_not_mem (b := Proc.devRef .tc (argR j)) _ _ (List.forall_iff_forall_mem.mp (by
    simp only [hostOps10, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps11_fresh : (hostOps11 : List (HloOp τ sig (Elt F))).Forall fun op => op.fresh = ∅ := by
  simp only [List.Forall]; repeat' constructor
set_option maxHeartbeats 4000000 in
/-- No operation of this stretch writes an argument array. -/
theorem hostOps11_args (W : Valuation τ sig (Elt F)) (j : Fin 23) :
    StableHlo.after (hostOps11 (F := F)) W (Proc.devRef .tc (argR j)) = W (Proc.devRef .tc (argR j)) :=
  StableHlo.after_of_forall_not_mem (b := Proc.devRef .tc (argR j)) _ _ (List.forall_iff_forall_mem.mp (by
    simp only [hostOps11, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_args (c : Dev nD) (j : Fin 23) : W1 m ρ c (Proc.devRef .tc (argR j)) = W0 m ρ c (Proc.devRef .tc (argR j)) :=
  hostOps0_args (W0 m ρ c) j
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_args (c : Dev nD) (j : Fin 23) : W2 m ρ c (Proc.devRef .tc (argR j)) = W1 m ρ c (Proc.devRef .tc (argR j)) :=
  hostOps0_1_args (W1 m ρ c) j
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_args (c : Dev nD) (j : Fin 23) : W3 m ρ c (Proc.devRef .tc (argR j)) = W2 m ρ c (Proc.devRef .tc (argR j)) :=
  hostOps0_2_args (W2 m ρ c) j
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
theorem W4_args (c : Dev nD) (j : Fin 23) : W4 m ρ c (Proc.devRef .tc (argR j)) = W3 m ρ c (Proc.devRef .tc (argR j)) :=
  hostOps0_3_args (W3 m ρ c) j
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
theorem W5_args (c : Dev nD) (j : Fin 23) : W5 m ρ c (Proc.devRef .tc (argR j)) = W4 m ρ c (Proc.devRef .tc (argR j)) :=
  hostOps0_4_args (W4 m ρ c) j
abbrev W6 : Dev nD → Valuation τ sig (Elt F) := fun c => StableHlo.after hostOps0_5 (W5 m ρ c)
abbrev V6 : (c : Dev nD) → (b : Ref sig .tc) → Buf (Elt F) ((c : Thread nD τ).loc b) := fun c b => W6 m ρ c b
theorem W6_args (c : Dev nD) (j : Fin 23) : W6 m ρ c (Proc.devRef .tc (argR j)) = W5 m ρ c (Proc.devRef .tc (argR j)) :=
  hostOps0_5_args (W5 m ρ c) j
abbrev W7 : Dev nD → Valuation τ sig (Elt F) := fun c => StableHlo.after hostOps0_6 (W6 m ρ c)
abbrev V7 : (c : Dev nD) → (b : Ref sig .tc) → Buf (Elt F) ((c : Thread nD τ).loc b) := fun c b => W7 m ρ c b
theorem W7_args (c : Dev nD) (j : Fin 23) : W7 m ρ c (Proc.devRef .tc (argR j)) = W6 m ρ c (Proc.devRef .tc (argR j)) :=
  hostOps0_6_args (W6 m ρ c) j
/-- At region 0's exit: its arrays at what the write-backs leave, every other buffer as entered. -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
abbrev V8 : (c : Dev nD) → (b : Ref sig .tc) → Buf (Elt F) ((c : Thread nD τ).loc b) := fun c b => W8 m ρ c b
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)
theorem W8_args (c : Dev nD) (j : Fin 23) : W8 m ρ c (Proc.devRef .tc (argR j)) = W7 m ρ c (Proc.devRef .tc (argR j)) :=
  W8_of_ne m ρ c (argR j) (by revert j; decide)
abbrev W9 : Dev nD → Valuation τ sig (Elt F) := fun c => StableHlo.after hostOps1 (W8 m ρ c)
abbrev V9 : (c : Dev nD) → (b : Ref sig .tc) → Buf (Elt F) ((c : Thread nD τ).loc b) := fun c b => W9 m ρ c b
theorem W9_args (c : Dev nD) (j : Fin 23) : W9 m ρ c (Proc.devRef .tc (argR j)) = W8 m ρ c (Proc.devRef .tc (argR j)) :=
  hostOps1_args (W8 m ρ c) j
abbrev W10 : Dev nD → Valuation τ sig (Elt F) := fun c => StableHlo.after hostOps1_1 (W9 m ρ c)
abbrev V10 : (c : Dev nD) → (b : Ref sig .tc) → Buf (Elt F) ((c : Thread nD τ).loc b) := fun c b => W10 m ρ c b
theorem W10_args (c : Dev nD) (j : Fin 23) : W10 m ρ c (Proc.devRef .tc (argR j)) = W9 m ρ c (Proc.devRef .tc (argR j)) :=
  hostOps1_1_args (W9 m ρ c) j
abbrev W11 : Dev nD → Valuation τ sig (Elt F) := fun c => StableHlo.after hostOps1_2 (W10 m ρ c)
abbrev V11 : (c : Dev nD) → (b : Ref sig .tc) → Buf (Elt F) ((c : Thread nD τ).loc b) := fun c b => W11 m ρ c b
theorem W11_args (c : Dev nD) (j : Fin 23) : W11 m ρ c (Proc.devRef .tc (argR j)) = W10 m ρ c (Proc.devRef .tc (argR j)) :=
  hostOps1_2_args (W10 m ρ c) j
/-- At region 1's exit: its arrays at what the write-backs leave, every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev V12 : (c : Dev nD) → (b : Ref sig .tc) → Buf (Elt F) ((c : Thread nD τ).loc b) := fun c b => W12 m ρ c b
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)
theorem W12_args (c : Dev nD) (j : Fin 23) : W12 m ρ c (Proc.devRef .tc (argR j)) = W11 m ρ c (Proc.devRef .tc (argR j)) :=
  W12_of_ne m ρ c (argR j) (by revert j; decide)
abbrev W13 : Dev nD → Valuation τ sig (Elt F) := fun c => StableHlo.after hostOps2 (W12 m ρ c)
abbrev V13 : (c : Dev nD) → (b : Ref sig .tc) → Buf (Elt F) ((c : Thread nD τ).loc b) := fun c b => W13 m ρ c b
theorem W13_args (c : Dev nD) (j : Fin 23) : W13 m ρ c (Proc.devRef .tc (argR j)) = W12 m ρ c (Proc.devRef .tc (argR j)) :=
  hostOps2_args (W12 m ρ c) j
abbrev W14 : Dev nD → Valuation τ sig (Elt F) := fun c => StableHlo.after hostOps2_1 (W13 m ρ c)
abbrev V14 : (c : Dev nD) → (b : Ref sig .tc) → Buf (Elt F) ((c : Thread nD τ).loc b) := fun c b => W14 m ρ c b
theorem W14_args (c : Dev nD) (j : Fin 23) : W14 m ρ c (Proc.devRef .tc (argR j)) = W13 m ρ c (Proc.devRef .tc (argR j)) :=
  hostOps2_1_args (W13 m ρ c) j
abbrev W15 : Dev nD → Valuation τ sig (Elt F) := fun c => StableHlo.after hostOps2_2 (W14 m ρ c)
abbrev V15 : (c : Dev nD) → (b : Ref sig .tc) → Buf (Elt F) ((c : Thread nD τ).loc b) := fun c b => W15 m ρ c b
theorem W15_args (c : Dev nD) (j : Fin 23) : W15 m ρ c (Proc.devRef .tc (argR j)) = W14 m ρ c (Proc.devRef .tc (argR j)) :=
  hostOps2_2_args (W14 m ρ c) j
/-- At region 2's exit: its arrays at what the write-backs leave, every other buffer as entered. -/
def W16 (c : Dev nD) : Valuation τ sig (Elt F) :=
  Pipeline.withArrays spec2 c (W15 m ρ c) fun w => (dat2 (V15 m ρ) c).arrAt w cfg2.N
theorem W16_arr (c : Dev nD) (w : Fin cfg2.W) :
    W16 m ρ c (Proc.devRef .tc (Pipeline.arrRef spec2 w)) = (dat2 (V15 m ρ) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m ρ c (Proc.devRef .tc b) = W15 m ρ c (Proc.devRef .tc b) := by
  unfold W16; exact Pipeline.withArrays_of_ne spec2 c _ _ b hb
abbrev V16 : (c : Dev nD) → (b : Ref sig .tc) → Buf (Elt F) ((c : Thread nD τ).loc b) := fun c b => W16 m ρ c b
theorem hF2 (c : Dev nD) (w : Fin cfg2.W) : (dat2 (V15 m ρ) c).arrAt w cfg2.N = V16 m ρ c (Pipeline.arrRef spec2 w) :=
  (W16_arr m ρ c w).symm
theorem hrest2 (c : Dev nD) : ∀ b, b ∉ Finset.univ.image (Pipeline.arrRef spec2) → V16 m ρ c b = V15 m ρ c b :=
  fun b hb => W16_of_ne m ρ c b fun w e => hb (Finset.mem_image.mpr ⟨w, Finset.mem_univ _, e⟩)
theorem W16_args (c : Dev nD) (j : Fin 23) : W16 m ρ c (Proc.devRef .tc (argR j)) = W15 m ρ c (Proc.devRef .tc (argR j)) :=
  W16_of_ne m ρ c (argR j) (by revert j; decide)
abbrev W17 : Dev nD → Valuation τ sig (Elt F) := fun c => StableHlo.after hostOps3 (W16 m ρ c)
abbrev V17 : (c : Dev nD) → (b : Ref sig .tc) → Buf (Elt F) ((c : Thread nD τ).loc b) := fun c b => W17 m ρ c b
theorem W17_args (c : Dev nD) (j : Fin 23) : W17 m ρ c (Proc.devRef .tc (argR j)) = W16 m ρ c (Proc.devRef .tc (argR j)) :=
  hostOps3_args (W16 m ρ c) j
abbrev W18 : Dev nD → Valuation τ sig (Elt F) := fun c => StableHlo.after hostOps3_1 (W17 m ρ c)
abbrev V18 : (c : Dev nD) → (b : Ref sig .tc) → Buf (Elt F) ((c : Thread nD τ).loc b) := fun c b => W18 m ρ c b
theorem W18_args (c : Dev nD) (j : Fin 23) : W18 m ρ c (Proc.devRef .tc (argR j)) = W17 m ρ c (Proc.devRef .tc (argR j)) :=
  hostOps3_1_args (W17 m ρ c) j
abbrev W19 : Dev nD → Valuation τ sig (Elt F) := fun c => StableHlo.after hostOps3_2 (W18 m ρ c)
abbrev V19 : (c : Dev nD) → (b : Ref sig .tc) → Buf (Elt F) ((c : Thread nD τ).loc b) := fun c b => W19 m ρ c b
theorem W19_args (c : Dev nD) (j : Fin 23) : W19 m ρ c (Proc.devRef .tc (argR j)) = W18 m ρ c (Proc.devRef .tc (argR j)) :=
  hostOps3_2_args (W18 m ρ c) j
/-- At region 3's exit: its arrays at what the write-backs leave, every other buffer as entered. -/
def W20 (c : Dev nD) : Valuation τ sig (Elt F) :=
  Pipeline.withArrays spec3 c (W19 m ρ c) fun w => (dat3 (V19 m ρ) c).arrAt w cfg3.N
theorem W20_arr (c : Dev nD) (w : Fin cfg3.W) :
    W20 m ρ c (Proc.devRef .tc (Pipeline.arrRef spec3 w)) = (dat3 (V19 m ρ) c).arrAt w cfg3.N := by
  unfold W20; exact Pipeline.withArrays_arr spec3 launch3.win.arr_inj c _ _ w
theorem W20_of_ne (c : Dev nD) (b : Ref sig .tc) (hb : ∀ w, Pipeline.arrRef spec3 w ≠ b) :
    W20 m ρ c (Proc.devRef .tc b) = W19 m ρ c (Proc.devRef .tc b) := by
  unfold W20; exact Pipeline.withArrays_of_ne spec3 c _ _ b hb
abbrev V20 : (c : Dev nD) → (b : Ref sig .tc) → Buf (Elt F) ((c : Thread nD τ).loc b) := fun c b => W20 m ρ c b
theorem hF3 (c : Dev nD) (w : Fin cfg3.W) : (dat3 (V19 m ρ) c).arrAt w cfg3.N = V20 m ρ c (Pipeline.arrRef spec3 w) :=
  (W20_arr m ρ c w).symm
theorem hrest3 (c : Dev nD) : ∀ b, b ∉ Finset.univ.image (Pipeline.arrRef spec3) → V20 m ρ c b = V19 m ρ c b :=
  fun b hb => W20_of_ne m ρ c b fun w e => hb (Finset.mem_image.mpr ⟨w, Finset.mem_univ _, e⟩)
theorem W20_args (c : Dev nD) (j : Fin 23) : W20 m ρ c (Proc.devRef .tc (argR j)) = W19 m ρ c (Proc.devRef .tc (argR j)) :=
  W20_of_ne m ρ c (argR j) (by revert j; decide)
abbrev W21 : Dev nD → Valuation τ sig (Elt F) := fun c => StableHlo.after hostOps4 (W20 m ρ c)
abbrev V21 : (c : Dev nD) → (b : Ref sig .tc) → Buf (Elt F) ((c : Thread nD τ).loc b) := fun c b => W21 m ρ c b
theorem W21_args (c : Dev nD) (j : Fin 23) : W21 m ρ c (Proc.devRef .tc (argR j)) = W20 m ρ c (Proc.devRef .tc (argR j)) :=
  hostOps4_args (W20 m ρ c) j
/-- At region 4's exit: its arrays at what the write-backs leave, every other buffer as entered. -/
def W22 (c : Dev nD) : Valuation τ sig (Elt F) :=
  Pipeline.withArrays spec4 c (W21 m ρ c) fun w => (dat4 (V21 m ρ) c).arrAt w cfg4.N
theorem W22_arr (c : Dev nD) (w : Fin cfg4.W) :
    W22 m ρ c (Proc.devRef .tc (Pipeline.arrRef spec4 w)) = (dat4 (V21 m ρ) c).arrAt w cfg4.N := by
  unfold W22; exact Pipeline.withArrays_arr spec4 launch4.win.arr_inj c _ _ w
theorem W22_of_ne (c : Dev nD) (b : Ref sig .tc) (hb : ∀ w, Pipeline.arrRef spec4 w ≠ b) :
    W22 m ρ c (Proc.devRef .tc b) = W21 m ρ c (Proc.devRef .tc b) := by
  unfold W22; exact Pipeline.withArrays_of_ne spec4 c _ _ b hb
abbrev V22 : (c : Dev nD) → (b : Ref sig .tc) → Buf (Elt F) ((c : Thread nD τ).loc b) := fun c b => W22 m ρ c b
theorem hF4 (c : Dev nD) (w : Fin cfg4.W) : (dat4 (V21 m ρ) c).arrAt w cfg4.N = V22 m ρ c (Pipeline.arrRef spec4 w) :=
  (W22_arr m ρ c w).symm
theorem hrest4 (c : Dev nD) : ∀ b, b ∉ Finset.univ.image (Pipeline.arrRef spec4) → V22 m ρ c b = V21 m ρ c b :=
  fun b hb => W22_of_ne m ρ c b fun w e => hb (Finset.mem_image.mpr ⟨w, Finset.mem_univ _, e⟩)
theorem W22_args (c : Dev nD) (j : Fin 23) : W22 m ρ c (Proc.devRef .tc (argR j)) = W21 m ρ c (Proc.devRef .tc (argR j)) :=
  W22_of_ne m ρ c (argR j) (by revert j; decide)
abbrev W23 : Dev nD → Valuation τ sig (Elt F) := fun c => StableHlo.after hostOps5 (W22 m ρ c)
abbrev V23 : (c : Dev nD) → (b : Ref sig .tc) → Buf (Elt F) ((c : Thread nD τ).loc b) := fun c b => W23 m ρ c b
theorem W23_args (c : Dev nD) (j : Fin 23) : W23 m ρ c (Proc.devRef .tc (argR j)) = W22 m ρ c (Proc.devRef .tc (argR j)) :=
  hostOps5_args (W22 m ρ c) j
/-- At region 5's exit: its arrays at what the write-backs leave, every other buffer as entered. -/
def W24 (c : Dev nD) : Valuation τ sig (Elt F) :=
  Pipeline.withArrays spec5 c (W23 m ρ c) fun w => (dat5 (V23 m ρ) c).arrAt w cfg5.N
theorem W24_arr (c : Dev nD) (w : Fin cfg5.W) :
    W24 m ρ c (Proc.devRef .tc (Pipeline.arrRef spec5 w)) = (dat5 (V23 m ρ) c).arrAt w cfg5.N := by
  unfold W24; exact Pipeline.withArrays_arr spec5 launch5.win.arr_inj c _ _ w
theorem W24_of_ne (c : Dev nD) (b : Ref sig .tc) (hb : ∀ w, Pipeline.arrRef spec5 w ≠ b) :
    W24 m ρ c (Proc.devRef .tc b) = W23 m ρ c (Proc.devRef .tc b) := by
  unfold W24; exact Pipeline.withArrays_of_ne spec5 c _ _ b hb
abbrev V24 : (c : Dev nD) → (b : Ref sig .tc) → Buf (Elt F) ((c : Thread nD τ).loc b) := fun c b => W24 m ρ c b
theorem hF5 (c : Dev nD) (w : Fin cfg5.W) : (dat5 (V23 m ρ) c).arrAt w cfg5.N = V24 m ρ c (Pipeline.arrRef spec5 w) :=
  (W24_arr m ρ c w).symm
theorem hrest5 (c : Dev nD) : ∀ b, b ∉ Finset.univ.image (Pipeline.arrRef spec5) → V24 m ρ c b = V23 m ρ c b :=
  fun b hb => W24_of_ne m ρ c b fun w e => hb (Finset.mem_image.mpr ⟨w, Finset.mem_univ _, e⟩)
theorem W24_args (c : Dev nD) (j : Fin 23) : W24 m ρ c (Proc.devRef .tc (argR j)) = W23 m ρ c (Proc.devRef .tc (argR j)) :=
  W24_of_ne m ρ c (argR j) (by revert j; decide)
abbrev W25 : Dev nD → Valuation τ sig (Elt F) := fun c => StableHlo.after hostOps6 (W24 m ρ c)
abbrev V25 : (c : Dev nD) → (b : Ref sig .tc) → Buf (Elt F) ((c : Thread nD τ).loc b) := fun c b => W25 m ρ c b
theorem W25_args (c : Dev nD) (j : Fin 23) : W25 m ρ c (Proc.devRef .tc (argR j)) = W24 m ρ c (Proc.devRef .tc (argR j)) :=
  hostOps6_args (W24 m ρ c) j
/-- At region 6's exit: its arrays at what the write-backs leave, every other buffer as entered. -/
def W26 (c : Dev nD) : Valuation τ sig (Elt F) :=
  Pipeline.withArrays spec6 c (W25 m ρ c) fun w => (dat6 (V25 m ρ) c).arrAt w cfg6.N
theorem W26_arr (c : Dev nD) (w : Fin cfg6.W) :
    W26 m ρ c (Proc.devRef .tc (Pipeline.arrRef spec6 w)) = (dat6 (V25 m ρ) c).arrAt w cfg6.N := by
  unfold W26; exact Pipeline.withArrays_arr spec6 launch6.win.arr_inj c _ _ w
theorem W26_of_ne (c : Dev nD) (b : Ref sig .tc) (hb : ∀ w, Pipeline.arrRef spec6 w ≠ b) :
    W26 m ρ c (Proc.devRef .tc b) = W25 m ρ c (Proc.devRef .tc b) := by
  unfold W26; exact Pipeline.withArrays_of_ne spec6 c _ _ b hb
abbrev V26 : (c : Dev nD) → (b : Ref sig .tc) → Buf (Elt F) ((c : Thread nD τ).loc b) := fun c b => W26 m ρ c b
theorem hF6 (c : Dev nD) (w : Fin cfg6.W) : (dat6 (V25 m ρ) c).arrAt w cfg6.N = V26 m ρ c (Pipeline.arrRef spec6 w) :=
  (W26_arr m ρ c w).symm
theorem hrest6 (c : Dev nD) : ∀ b, b ∉ Finset.univ.image (Pipeline.arrRef spec6) → V26 m ρ c b = V25 m ρ c b :=
  fun b hb => W26_of_ne m ρ c b fun w e => hb (Finset.mem_image.mpr ⟨w, Finset.mem_univ _, e⟩)
theorem W26_args (c : Dev nD) (j : Fin 23) : W26 m ρ c (Proc.devRef .tc (argR j)) = W25 m ρ c (Proc.devRef .tc (argR j)) :=
  W26_of_ne m ρ c (argR j) (by revert j; decide)
abbrev W27 : Dev nD → Valuation τ sig (Elt F) := fun c => StableHlo.after hostOps7 (W26 m ρ c)
abbrev V27 : (c : Dev nD) → (b : Ref sig .tc) → Buf (Elt F) ((c : Thread nD τ).loc b) := fun c b => W27 m ρ c b
theorem W27_args (c : Dev nD) (j : Fin 23) : W27 m ρ c (Proc.devRef .tc (argR j)) = W26 m ρ c (Proc.devRef .tc (argR j)) :=
  hostOps7_args (W26 m ρ c) j
/-- At region 7's exit: its arrays at what the write-backs leave, every other buffer as entered. -/
def W28 (c : Dev nD) : Valuation τ sig (Elt F) :=
  Pipeline.withArrays spec7 c (W27 m ρ c) fun w => (dat7 (V27 m ρ) c).arrAt w cfg7.N
theorem W28_arr (c : Dev nD) (w : Fin cfg7.W) :
    W28 m ρ c (Proc.devRef .tc (Pipeline.arrRef spec7 w)) = (dat7 (V27 m ρ) c).arrAt w cfg7.N := by
  unfold W28; exact Pipeline.withArrays_arr spec7 launch7.win.arr_inj c _ _ w
theorem W28_of_ne (c : Dev nD) (b : Ref sig .tc) (hb : ∀ w, Pipeline.arrRef spec7 w ≠ b) :
    W28 m ρ c (Proc.devRef .tc b) = W27 m ρ c (Proc.devRef .tc b) := by
  unfold W28; exact Pipeline.withArrays_of_ne spec7 c _ _ b hb
abbrev V28 : (c : Dev nD) → (b : Ref sig .tc) → Buf (Elt F) ((c : Thread nD τ).loc b) := fun c b => W28 m ρ c b
theorem hF7 (c : Dev nD) (w : Fin cfg7.W) : (dat7 (V27 m ρ) c).arrAt w cfg7.N = V28 m ρ c (Pipeline.arrRef spec7 w) :=
  (W28_arr m ρ c w).symm
theorem hrest7 (c : Dev nD) : ∀ b, b ∉ Finset.univ.image (Pipeline.arrRef spec7) → V28 m ρ c b = V27 m ρ c b :=
  fun b hb => W28_of_ne m ρ c b fun w e => hb (Finset.mem_image.mpr ⟨w, Finset.mem_univ _, e⟩)
theorem W28_args (c : Dev nD) (j : Fin 23) : W28 m ρ c (Proc.devRef .tc (argR j)) = W27 m ρ c (Proc.devRef .tc (argR j)) :=
  W28_of_ne m ρ c (argR j) (by revert j; decide)
abbrev W29 : Dev nD → Valuation τ sig (Elt F) := fun c => StableHlo.after hostOps8 (W28 m ρ c)
abbrev V29 : (c : Dev nD) → (b : Ref sig .tc) → Buf (Elt F) ((c : Thread nD τ).loc b) := fun c b => W29 m ρ c b
theorem W29_args (c : Dev nD) (j : Fin 23) : W29 m ρ c (Proc.devRef .tc (argR j)) = W28 m ρ c (Proc.devRef .tc (argR j)) :=
  hostOps8_args (W28 m ρ c) j
/-- At region 8's exit: its arrays at what the write-backs leave, every other buffer as entered. -/
def W30 (c : Dev nD) : Valuation τ sig (Elt F) :=
  Pipeline.withArrays spec8 c (W29 m ρ c) fun w => (dat8 (V29 m ρ) c).arrAt w cfg8.N
theorem W30_arr (c : Dev nD) (w : Fin cfg8.W) :
    W30 m ρ c (Proc.devRef .tc (Pipeline.arrRef spec8 w)) = (dat8 (V29 m ρ) c).arrAt w cfg8.N := by
  unfold W30; exact Pipeline.withArrays_arr spec8 launch8.win.arr_inj c _ _ w
theorem W30_of_ne (c : Dev nD) (b : Ref sig .tc) (hb : ∀ w, Pipeline.arrRef spec8 w ≠ b) :
    W30 m ρ c (Proc.devRef .tc b) = W29 m ρ c (Proc.devRef .tc b) := by
  unfold W30; exact Pipeline.withArrays_of_ne spec8 c _ _ b hb
abbrev V30 : (c : Dev nD) → (b : Ref sig .tc) → Buf (Elt F) ((c : Thread nD τ).loc b) := fun c b => W30 m ρ c b
theorem hF8 (c : Dev nD) (w : Fin cfg8.W) : (dat8 (V29 m ρ) c).arrAt w cfg8.N = V30 m ρ c (Pipeline.arrRef spec8 w) :=
  (W30_arr m ρ c w).symm
theorem hrest8 (c : Dev nD) : ∀ b, b ∉ Finset.univ.image (Pipeline.arrRef spec8) → V30 m ρ c b = V29 m ρ c b :=
  fun b hb => W30_of_ne m ρ c b fun w e => hb (Finset.mem_image.mpr ⟨w, Finset.mem_univ _, e⟩)
theorem W30_args (c : Dev nD) (j : Fin 23) : W30 m ρ c (Proc.devRef .tc (argR j)) = W29 m ρ c (Proc.devRef .tc (argR j)) :=
  W30_of_ne m ρ c (argR j) (by revert j; decide)
abbrev W31 : Dev nD → Valuation τ sig (Elt F) := fun c => StableHlo.after hostOps9 (W30 m ρ c)
abbrev V31 : (c : Dev nD) → (b : Ref sig .tc) → Buf (Elt F) ((c : Thread nD τ).loc b) := fun c b => W31 m ρ c b
theorem W31_args (c : Dev nD) (j : Fin 23) : W31 m ρ c (Proc.devRef .tc (argR j)) = W30 m ρ c (Proc.devRef .tc (argR j)) :=
  hostOps9_args (W30 m ρ c) j
/-- At region 9's exit: its arrays at what the write-backs leave, every other buffer as entered. -/
def W32 (c : Dev nD) : Valuation τ sig (Elt F) :=
  Pipeline.withArrays spec9 c (W31 m ρ c) fun w => (dat9 (V31 m ρ) c).arrAt w cfg9.N
theorem W32_arr (c : Dev nD) (w : Fin cfg9.W) :
    W32 m ρ c (Proc.devRef .tc (Pipeline.arrRef spec9 w)) = (dat9 (V31 m ρ) c).arrAt w cfg9.N := by
  unfold W32; exact Pipeline.withArrays_arr spec9 launch9.win.arr_inj c _ _ w
theorem W32_of_ne (c : Dev nD) (b : Ref sig .tc) (hb : ∀ w, Pipeline.arrRef spec9 w ≠ b) :
    W32 m ρ c (Proc.devRef .tc b) = W31 m ρ c (Proc.devRef .tc b) := by
  unfold W32; exact Pipeline.withArrays_of_ne spec9 c _ _ b hb
abbrev V32 : (c : Dev nD) → (b : Ref sig .tc) → Buf (Elt F) ((c : Thread nD τ).loc b) := fun c b => W32 m ρ c b
theorem hF9 (c : Dev nD) (w : Fin cfg9.W) : (dat9 (V31 m ρ) c).arrAt w cfg9.N = V32 m ρ c (Pipeline.arrRef spec9 w) :=
  (W32_arr m ρ c w).symm
theorem hrest9 (c : Dev nD) : ∀ b, b ∉ Finset.univ.image (Pipeline.arrRef spec9) → V32 m ρ c b = V31 m ρ c b :=
  fun b hb => W32_of_ne m ρ c b fun w e => hb (Finset.mem_image.mpr ⟨w, Finset.mem_univ _, e⟩)
theorem W32_args (c : Dev nD) (j : Fin 23) : W32 m ρ c (Proc.devRef .tc (argR j)) = W31 m ρ c (Proc.devRef .tc (argR j)) :=
  W32_of_ne m ρ c (argR j) (by revert j; decide)
abbrev W33 : Dev nD → Valuation τ sig (Elt F) := fun c => StableHlo.after hostOps10 (W32 m ρ c)
abbrev V33 : (c : Dev nD) → (b : Ref sig .tc) → Buf (Elt F) ((c : Thread nD τ).loc b) := fun c b => W33 m ρ c b
theorem W33_args (c : Dev nD) (j : Fin 23) : W33 m ρ c (Proc.devRef .tc (argR j)) = W32 m ρ c (Proc.devRef .tc (argR j)) :=
  hostOps10_args (W32 m ρ c) j
/-- At region 10's exit: its arrays at what the write-backs leave, every other buffer as entered. -/
def W34 (c : Dev nD) : Valuation τ sig (Elt F) :=
  Pipeline.withArrays spec10 c (W33 m ρ c) fun w => (dat10 (V33 m ρ) c).arrAt w cfg10.N
theorem W34_arr (c : Dev nD) (w : Fin cfg10.W) :
    W34 m ρ c (Proc.devRef .tc (Pipeline.arrRef spec10 w)) = (dat10 (V33 m ρ) c).arrAt w cfg10.N := by
  unfold W34; exact Pipeline.withArrays_arr spec10 launch10.win.arr_inj c _ _ w
theorem W34_of_ne (c : Dev nD) (b : Ref sig .tc) (hb : ∀ w, Pipeline.arrRef spec10 w ≠ b) :
    W34 m ρ c (Proc.devRef .tc b) = W33 m ρ c (Proc.devRef .tc b) := by
  unfold W34; exact Pipeline.withArrays_of_ne spec10 c _ _ b hb
abbrev V34 : (c : Dev nD) → (b : Ref sig .tc) → Buf (Elt F) ((c : Thread nD τ).loc b) := fun c b => W34 m ρ c b
theorem hF10 (c : Dev nD) (w : Fin cfg10.W) : (dat10 (V33 m ρ) c).arrAt w cfg10.N = V34 m ρ c (Pipeline.arrRef spec10 w) :=
  (W34_arr m ρ c w).symm
theorem hrest10 (c : Dev nD) : ∀ b, b ∉ Finset.univ.image (Pipeline.arrRef spec10) → V34 m ρ c b = V33 m ρ c b :=
  fun b hb => W34_of_ne m ρ c b fun w e => hb (Finset.mem_image.mpr ⟨w, Finset.mem_univ _, e⟩)
theorem W34_args (c : Dev nD) (j : Fin 23) : W34 m ρ c (Proc.devRef .tc (argR j)) = W33 m ρ c (Proc.devRef .tc (argR j)) :=
  W34_of_ne m ρ c (argR j) (by revert j; decide)
abbrev W35 : Dev nD → Valuation τ sig (Elt F) := fun c => StableHlo.after hostOps11 (W34 m ρ c)
abbrev V35 : (c : Dev nD) → (b : Ref sig .tc) → Buf (Elt F) ((c : Thread nD τ).loc b) := fun c b => W35 m ρ c b
theorem W35_args (c : Dev nD) (j : Fin 23) : W35 m ρ c (Proc.devRef .tc (argR j)) = W34 m ρ c (Proc.devRef .tc (argR j)) :=
  hostOps11_args (W34 m ρ c) j

/-- Every argument array holds at the end what it held at launch. -/
theorem Wend_args (c : Dev nD) (j : Fin 23) : W35 m ρ c (Proc.devRef .tc (argR j)) = m ((c : Thread nD τ).loc (argR j)) :=
  (W35_args m ρ c j).trans ((W34_args m ρ c j).trans ((W33_args m ρ c j).trans ((W32_args m ρ c j).trans ((W31_args m ρ c j).trans ((W30_args m ρ c j).trans ((W29_args m ρ c j).trans ((W28_args m ρ c j).trans ((W27_args m ρ c j).trans ((W26_args m ρ c j).trans ((W25_args m ρ c j).trans ((W24_args m ρ c j).trans ((W23_args m ρ c j).trans ((W22_args m ρ c j).trans ((W21_args m ρ c j).trans ((W20_args m ρ c j).trans ((W19_args m ρ c j).trans ((W18_args m ρ c j).trans ((W17_args m ρ c j).trans ((W16_args m ρ c j).trans ((W15_args m ρ c j).trans ((W14_args m ρ c j).trans ((W13_args m ρ c j).trans ((W12_args m ρ c j).trans ((W11_args m ρ c j).trans ((W10_args m ρ c j).trans ((W9_args m ρ c j).trans ((W8_args m ρ c j).trans ((W7_args m ρ c j).trans ((W6_args m ρ c j).trans ((W5_args m ρ c j).trans ((W4_args m ρ c j).trans ((W3_args m ρ c j).trans ((W2_args m ρ c j).trans ((W1_args m ρ c j).trans ((rfl : W0 m ρ c (Proc.devRef .tc (argR j)) = m ((c : Thread nD τ).loc (argR j))))))))))))))))))))))))))))))))))))))

/-- No pipeline has a prefetched table. -/
abbrev adm : (p : Fin 11) → (pcfgs (F := F) p).Adm := fun p => (cfgs p).toPCfg_adm
/-- Every pipeline's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V11 m ρ) c
  | ⟨2, _⟩ => fun c => dat2 (V15 m ρ) c
  | ⟨3, _⟩ => fun c => dat3 (V19 m ρ) c
  | ⟨4, _⟩ => fun c => dat4 (V21 m ρ) c
  | ⟨5, _⟩ => fun c => dat5 (V23 m ρ) c
  | ⟨6, _⟩ => fun c => dat6 (V25 m ρ) c
  | ⟨7, _⟩ => fun c => dat7 (V27 m ρ) c
  | ⟨8, _⟩ => fun c => dat8 (V29 m ρ) c
  | ⟨9, _⟩ => fun c => dat9 (V31 m ρ) c
  | ⟨10, _⟩ => fun c => dat10 (V33 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W35 m ρ c) ∗ ∃ r, prngReg c r)

set_option backward.isDefEq.respectTransparency.types false in
/-- Region 0 over the thread state: entered from every unscoped buffer at `W7`, left at `W8`; its arrays split
    out of the unscoped buffers and put back at the exit contents; the generator register into the invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W11`, left at `W12`; its arrays split
    out of the unscoped buffers and put back at the exit contents; the generator register into the invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W15`, left at `W16`; its arrays split
    out of the unscoped buffers and put back at the exit contents; the generator register into the invariant and out. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V15 m ρ) c).loose
  hwaits := Pipeline.hwaits_of_owed_zero _ _ _ _ L lv 2 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec2 c (V15 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V15 m ρ c) (V16 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W19`, left at `W20`; its arrays split
    out of the unscoped buffers and put back at the exit contents; the generator register into the invariant and out. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V19 m ρ) c).loose
  hwaits := Pipeline.hwaits_of_owed_zero _ _ _ _ L lv 3 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec3 c (V19 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V19 m ρ c) (V20 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W21`, left at `W22`; its arrays split
    out of the unscoped buffers and put back at the exit contents; the generator register into the invariant and out. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V21 m ρ) c).loose
  hwaits := Pipeline.hwaits_of_owed_zero _ _ _ _ L lv 4 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec4 c (V21 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V21 m ρ) c).Φ 0 from rfl]
    iintro ⟨Hp, -, Hr⟩
    iapply (hin4 (V21 m ρ) c)
    isplitl [Hp]; · iexact Hp
    iexact Hr
  hout c := by
    rw [Pipeline.ownSems0_none, show (pdats m ρ 4 c).Φ (Fin.last _) = (dat4 (V21 m ρ) c).Φ (Fin.last cfg4.N) from rfl]
    iintro H
    ihave H' := (hout4 (V21 m ρ) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V21 m ρ c) (V22 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W23`, left at `W24`; its arrays split
    out of the unscoped buffers and put back at the exit contents; the generator register into the invariant and out. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V23 m ρ) c).loose
  hwaits := Pipeline.hwaits_of_owed_zero _ _ _ _ L lv 5 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec5 c (V23 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V23 m ρ) c).Φ 0 from rfl]
    iintro ⟨Hp, -, Hr⟩
    iapply (hin5 (V23 m ρ) c)
    isplitl [Hp]; · iexact Hp
    iexact Hr
  hout c := by
    rw [Pipeline.ownSems0_none, show (pdats m ρ 5 c).Φ (Fin.last _) = (dat5 (V23 m ρ) c).Φ (Fin.last cfg5.N) from rfl]
    iintro H
    ihave H' := (hout5 (V23 m ρ) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V23 m ρ c) (V24 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W25`, left at `W26`; its arrays split
    out of the unscoped buffers and put back at the exit contents; the generator register into the invariant and out. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V25 m ρ) c).loose
  hwaits := Pipeline.hwaits_of_owed_zero _ _ _ _ L lv 6 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec6 c (V25 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V25 m ρ) c).Φ 0 from rfl]
    iintro ⟨Hp, -, Hr⟩
    iapply (hin6 (V25 m ρ) c)
    isplitl [Hp]; · iexact Hp
    iexact Hr
  hout c := by
    rw [Pipeline.ownSems0_none, show (pdats m ρ 6 c).Φ (Fin.last _) = (dat6 (V25 m ρ) c).Φ (Fin.last cfg6.N) from rfl]
    iintro H
    ihave H' := (hout6 (V25 m ρ) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V25 m ρ c) (V26 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W27`, left at `W28`; its arrays split
    out of the unscoped buffers and put back at the exit contents; the generator register into the invariant and out. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V27 m ρ) c).loose
  hwaits := Pipeline.hwaits_of_owed_zero _ _ _ _ L lv 7 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec7 c (V27 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V27 m ρ) c).Φ 0 from rfl]
    iintro ⟨Hp, -, Hr⟩
    iapply (hin7 (V27 m ρ) c)
    isplitl [Hp]; · iexact Hp
    iexact Hr
  hout c := by
    rw [Pipeline.ownSems0_none, show (pdats m ρ 7 c).Φ (Fin.last _) = (dat7 (V27 m ρ) c).Φ (Fin.last cfg7.N) from rfl]
    iintro H
    ihave H' := (hout7 (V27 m ρ) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V27 m ρ c) (V28 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W29`, left at `W30`; its arrays split
    out of the unscoped buffers and put back at the exit contents; the generator register into the invariant and out. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V29 m ρ) c).loose
  hwaits := Pipeline.hwaits_of_owed_zero _ _ _ _ L lv 8 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec8 c (V29 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (V29 m ρ) c).Φ 0 from rfl]
    iintro ⟨Hp, -, Hr⟩
    iapply (hin8 (V29 m ρ) c)
    isplitl [Hp]; · iexact Hp
    iexact Hr
  hout c := by
    rw [Pipeline.ownSems0_none, show (pdats m ρ 8 c).Φ (Fin.last _) = (dat8 (V29 m ρ) c).Φ (Fin.last cfg8.N) from rfl]
    iintro H
    ihave H' := (hout8 (V29 m ρ) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V29 m ρ c) (V30 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W31`, left at `W32`; its arrays split
    out of the unscoped buffers and put back at the exit contents; the generator register into the invariant and out. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V31 m ρ) c).loose
  hwaits := Pipeline.hwaits_of_owed_zero _ _ _ _ L lv 9 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec9 c (V31 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = (dat9 (V31 m ρ) c).Φ 0 from rfl]
    iintro ⟨Hp, -, Hr⟩
    iapply (hin9 (V31 m ρ) c)
    isplitl [Hp]; · iexact Hp
    iexact Hr
  hout c := by
    rw [Pipeline.ownSems0_none, show (pdats m ρ 9 c).Φ (Fin.last _) = (dat9 (V31 m ρ) c).Φ (Fin.last cfg9.N) from rfl]
    iintro H
    ihave H' := (hout9 (V31 m ρ) c) $$ H
    icases H' with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V31 m ρ c) (V32 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W33`, left at `W34`; its arrays split
    out of the unscoped buffers and put back at the exit contents; the generator register into the invariant and out. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V33 m ρ) c).loose
  hwaits := Pipeline.hwaits_of_owed_zero _ _ _ _ L lv 10 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec10 c (V33 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = (dat10 (V33 m ρ) c).Φ 0 from rfl]
    iintro ⟨Hp, -, Hr⟩
    iapply (hin10 (V33 m ρ) c)
    isplitl [Hp]; · iexact Hp
    iexact Hr
  hout c := by
    rw [Pipeline.ownSems0_none, show (pdats m ρ 10 c).Φ (Fin.last _) = (dat10 (V33 m ρ) c).Φ (Fin.last cfg10.N) from rfl]
    iintro H
    ihave H' := (hout10 (V33 m ρ) c) $$ H
    icases H' with ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V33 m ρ c) (V34 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's 35 segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .host (hseg hostOps1_1 hostOps1_1_sub hostOps1_1_fresh (W9 m ρ)),
    .host (hseg hostOps1_2 hostOps1_2_sub hostOps1_2_fresh (W10 m ρ)),
    .region (reg1 m ρ),
    .host (hseg hostOps2 hostOps2_sub hostOps2_fresh (W12 m ρ)),
    .host (hseg hostOps2_1 hostOps2_1_sub hostOps2_1_fresh (W13 m ρ)),
    .host (hseg hostOps2_2 hostOps2_2_sub hostOps2_2_fresh (W14 m ρ)),
    .region (reg2 m ρ),
    .host (hseg hostOps3 hostOps3_sub hostOps3_fresh (W16 m ρ)),
    .host (hseg hostOps3_1 hostOps3_1_sub hostOps3_1_fresh (W17 m ρ)),
    .host (hseg hostOps3_2 hostOps3_2_sub hostOps3_2_fresh (W18 m ρ)),
    .region (reg3 m ρ),
    .host (hseg hostOps4 hostOps4_sub hostOps4_fresh (W20 m ρ)),
    .region (reg4 m ρ),
    .host (hseg hostOps5 hostOps5_sub hostOps5_fresh (W22 m ρ)),
    .region (reg5 m ρ),
    .host (hseg hostOps6 hostOps6_sub hostOps6_fresh (W24 m ρ)),
    .region (reg6 m ρ),
    .host (hseg hostOps7 hostOps7_sub hostOps7_fresh (W26 m ρ)),
    .region (reg7 m ρ),
    .host (hseg hostOps8 hostOps8_sub hostOps8_fresh (W28 m ρ)),
    .region (reg8 m ρ),
    .host (hseg hostOps9 hostOps9_sub hostOps9_fresh (W30 m ρ)),
    .region (reg9 m ρ),
    .host (hseg hostOps10 hostOps10_sub hostOps10_fresh (W32 m ρ)),
    .region (reg10 m ρ),
    .host (hseg hostOps11 hostOps11_sub hostOps11_fresh (W34 m ρ)) ]
set_option maxHeartbeats 40000000 in
/-- @main is the run of the segments. -/
theorem main_run (c : Dev nD) : main (F := F) c = Pipeline.Seg.run (segs m ρ) := (main_chain c).trans (by chain_rfl)

set_option maxHeartbeats 40000000 in
set_option backward.isDefEq.respectTransparency.types false in
/-- THE RUN: from any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W35 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W35 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W35 m ρ c b)
    (hfin := fun c s' => by
      iintro ⟨⟨Hh, -⟩, HSI⟩
      unfold StableHlo.held
      imodintro
      iapply (pointsTo_read_all (Pipeline.ucRefs τ sig) (fun b => (((c : Thread nD τ)).1, b)) (W35 m ρ c) s')
      isplitl [Hh] <;> iassumption)
    (hQ := fun s h => h)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_uc main_arg0 (by decide))).trans (Wend_args m ρ c 0),
     (h c _ (mem_uc main_arg1 (by decide))).trans (Wend_args m ρ c 1),
     (h c _ (mem_uc main_arg2 (by decide))).trans (Wend_args m ρ c 2),
     (h c _ (mem_uc main_arg3 (by decide))).trans (Wend_args m ρ c 3),
     (h c _ (mem_uc main_arg4 (by decide))).trans (Wend_args m ρ c 4),
     (h c _ (mem_uc main_arg5 (by decide))).trans (Wend_args m ρ c 5),
     (h c _ (mem_uc main_arg6 (by decide))).trans (Wend_args m ρ c 6),
     (h c _ (mem_uc main_arg7 (by decide))).trans (Wend_args m ρ c 7),
     (h c _ (mem_uc main_arg8 (by decide))).trans (Wend_args m ρ c 8),
     (h c _ (mem_uc main_arg9 (by decide))).trans (Wend_args m ρ c 9),
     (h c _ (mem_uc main_arg10 (by decide))).trans (Wend_args m ρ c 10),
     (h c _ (mem_uc main_arg11 (by decide))).trans (Wend_args m ρ c 11),
     (h c _ (mem_uc main_arg12 (by decide))).trans (Wend_args m ρ c 12),
     (h c _ (mem_uc main_arg13 (by decide))).trans (Wend_args m ρ c 13),
     (h c _ (mem_uc main_arg14 (by decide))).trans (Wend_args m ρ c 14),
     (h c _ (mem_uc main_arg15 (by decide))).trans (Wend_args m ρ c 15),
     (h c _ (mem_uc main_arg16 (by decide))).trans (Wend_args m ρ c 16),
     (h c _ (mem_uc main_arg17 (by decide))).trans (Wend_args m ρ c 17),
     (h c _ (mem_uc main_arg18 (by decide))).trans (Wend_args m ρ c 18),
     (h c _ (mem_uc main_arg19 (by decide))).trans (Wend_args m ρ c 19),
     (h c _ (mem_uc main_arg20 (by decide))).trans (Wend_args m ρ c 20),
     (h c _ (mem_uc main_arg21 (by decide))).trans (Wend_args m ρ c 21),
     (h c _ (mem_uc main_arg22 (by decide))).trans (Wend_args m ρ c 22)⟩) (run_all m ρ)

end Cert.Kernel.Hand

end
-- ==== Proof.KI.R0.lean ====
import proofs.«120270_j2259152797813_2_alg».proof.Proof.Gen.KernelIdeal.Launch
import proofs.«120270_j2259152797813_2_alg».proof.Proof.Gen.KernelIdeal.Skeleton
import proofs.«120270_j2259152797813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# Region 0: the one-hot selection kernel on the 3200-row projected feature map

A grid point is a tile of 256 vertices.  The body reads the tile's four corner indices and four corner weights
(each a column of 256 entries) and the whole projected map, builds the 256 x 3200 selection matrix whose entry
(v, s) is the sum over the corners whose index is s of the corner's weight, and stores its product with the map
as the tile's 256 x 128 block of the result.  Everything here is stated at a parameter `V`, the contents of the
TensorCore's buffers when the region is entered.
-/

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rc0 : Rect S256x1 := Rect.unit (s := S256x1) ![0, 0] S256x1.size inb_S256x1_S256x1_0_0
abbrev rf0 : Rect S3200x128 := Rect.unit (s := S3200x128) ![0, 0] S3200x128.size inb_S3200x128_S3200x128_0_0
abbrev ro0 : Rect S256x128 := Rect.unit (s := S256x128) ![0, 0] S256x128.size inb_S256x128_S256x128_0_0

/-- What the body leaves in the result window's buffer, from the input blocks: its one store, of the product of
    the selection matrix (three corners' terms, then the fourth's) with the projected map. -/
def out0_9 (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S3200x128 .bf16) : Vec F S256x128 .f32 :=
  View.canon [⟨ro0, k0_pay1 (k0_pay2 (View.ld x0 rc0) (View.ld x4 rc0) (View.ld x1 rc0) (View.ld x5 rc0) (View.ld x2 rc0) (View.ld x6 rc0))
    (k0_pay3 (View.ld x3 rc0) (View.ld x7 rc0)) (View.ld x8 rf0)⟩]

/-- The one store covers the buffer. -/
theorem cover0_9 (p0 : Vec F S256x128 .f32) (y : S256x128.Idx) :
    ∃ pc ∈ ([⟨ro0, p0⟩] : List (View.Piece (Elt F) S256x128 .f32)), y ∈ pc.1.set :=
  View.cover_of_tiled [⟨ro0, p0⟩] S256x128.size (by rfl) y

set_option maxHeartbeats 4000000 in
/-- The body on whole staging memrefs, the inputs' at read contents and the result's at anything, runs to the
    continuation holding the inputs' as they were and the result's at `out0_9` of the inputs'. -/
theorem sound_kernel0 (c : Dev nD) (E : Set ℕ) (i : grid0.Coords) (arg1 : Memref sig .tc .vmem S256x1 .i32) (harg1 : arg1.IsWhole) (arg2 : Memref sig .tc .vmem S256x1 .i32) (harg2 : arg2.IsWhole) (arg3 : Memref sig .tc .vmem S256x1 .i32) (harg3 : arg3.IsWhole) (arg4 : Memref sig .tc .vmem S256x1 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S3200x128 .bf16) (harg9 : arg9.IsWhole) (arg10 : Memref sig .tc .vmem S256x128 .f32) (harg10 : arg10.IsWhole)
    (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S3200x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__gather_proj_kernel i arg1 harg1 arg2 harg2 arg3 harg3 arg4 harg4 arg5 harg5 arg6 harg6 arg7 harg7 arg8 harg8 arg9 harg9 arg10 harg10) K := by
  simp only [cc0__gather_proj_kernel_eq_skeleton]; unfold cc0__gather_proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-- The proof data of the region on core `c`: the arrays as the region finds them; after the body at point `t` each
    input's buffer at its block and the result's at `out0_9` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's triple applies; the invariant and
    the core's duties pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«120270_j2259152797813_2_alg».proof.Proof.Gen.KernelIdeal.Launch
import proofs.«120270_j2259152797813_2_alg».proof.Proof.Gen.KernelIdeal.Skeleton
import proofs.«120270_j2259152797813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# Region 1: the one-hot selection kernel on the 896-row projected feature map

A grid point is a tile of 256 vertices.  The body reads the tile's four corner indices and four corner weights
(each a column of 256 entries) and the whole projected map, builds the 256 x 896 selection matrix whose entry
(v, s) is the sum over the corners whose index is s of the corner's weight, and stores its product with the map
as the tile's 256 x 128 block of the result.  Everything here is stated at a parameter `V`, the contents of the
TensorCore's buffers when the region is entered.
-/

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rc1 : Rect S256x1 := Rect.unit (s := S256x1) ![0, 0] S256x1.size inb_S256x1_S256x1_0_0
abbrev rf1 : Rect S896x128 := Rect.unit (s := S896x128) ![0, 0] S896x128.size inb_S896x128_S896x128_0_0
abbrev ro1 : Rect S256x128 := Rect.unit (s := S256x128) ![0, 0] S256x128.size inb_S256x128_S256x128_0_0

/-- What the body leaves in the result window's buffer, from the input blocks: its one store, of the product of
    the selection matrix (three corners' terms, then the fourth's) with the projected map. -/
def out1_9 (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S896x128 .bf16) : Vec F S256x128 .f32 :=
  View.canon [⟨ro1, k1_pay1 (k1_pay2 (View.ld x0 rc1) (View.ld x4 rc1) (View.ld x1 rc1) (View.ld x5 rc1) (View.ld x2 rc1) (View.ld x6 rc1))
    (k1_pay3 (View.ld x3 rc1) (View.ld x7 rc1)) (View.ld x8 rf1)⟩]

/-- The one store covers the buffer. -/
theorem cover1_9 (p0 : Vec F S256x128 .f32) (y : S256x128.Idx) :
    ∃ pc ∈ ([⟨ro1, p0⟩] : List (View.Piece (Elt F) S256x128 .f32)), y ∈ pc.1.set :=
  View.cover_of_tiled [⟨ro1, p0⟩] S256x128.size (by rfl) y

set_option maxHeartbeats 4000000 in
/-- The body on whole staging memrefs, the inputs' at read contents and the result's at anything, runs to the
    continuation holding the inputs' as they were and the result's at `out1_9` of the inputs'. -/
theorem sound_kernel1 (c : Dev nD) (E : Set ℕ) (i : grid1.Coords) (arg1 : Memref sig .tc .vmem S256x1 .i32) (harg1 : arg1.IsWhole) (arg2 : Memref sig .tc .vmem S256x1 .i32) (harg2 : arg2.IsWhole) (arg3 : Memref sig .tc .vmem S256x1 .i32) (harg3 : arg3.IsWhole) (arg4 : Memref sig .tc .vmem S256x1 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S896x128 .bf16) (harg9 : arg9.IsWhole) (arg10 : Memref sig .tc .vmem S256x128 .f32) (harg10 : arg10.IsWhole)
    (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S896x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__gather_proj_kernel i arg1 harg1 arg2 harg2 arg3 harg3 arg4 harg4 arg5 harg5 arg6 harg6 arg7 harg7 arg8 harg8 arg9 harg9 arg10 harg10) K := by
  simp only [cc1__gather_proj_kernel_eq_skeleton]; unfold cc1__gather_proj_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-- The proof data of the region on core `c`: the arrays as the region finds them; after the body at point `t` each
    input's buffer at its block and the result's at `out1_9` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- The body at any point: the inputs' memrefs hold their blocks, so the body's triple applies; the invariant and
    the core's duties pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«120270_j2259152797813_2_alg».proof.Proof.Gen.KernelIdeal.Launch
import proofs.«120270_j2259152797813_2_alg».proof.Proof.Gen.KernelIdeal.Skeleton
import proofs.«120270_j2259152797813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# Region 2: the one-hot selection kernel on the 256-row projected feature map

A grid point is a tile of 256 vertices.  The body reads the tile's four corner indices and four corner weights
(each a column of 256 entries) and the whole projected map, builds the 256 x 256 selection matrix whose entry
(v, s) is the sum over the corners whose index is s of the corner's weight, and stores its product with the map
as the tile's 256 x 128 block of the result.  Everything here is stated at a parameter `V`, the contents of the
TensorCore's buffers when the region is entered.
-/

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rc2 : Rect S256x1 := Rect.unit (s := S256x1) ![0, 0] S256x1.size inb_S256x1_S256x1_0_0
abbrev rf2 : Rect S256x128 := Rect.unit (s := S256x128) ![0, 0] S256x128.size inb_S256x128_S256x128_0_0
abbrev ro2 : Rect S256x128 := Rect.unit (s := S256x128) ![0, 0] S256x128.size inb_S256x128_S256x128_0_0

/-- What the body leaves in the result window's buffer, from the input blocks: its one store, of the product of
    the selection matrix (three corners' terms, then the fourth's) with the projected map. -/
def out2_9 (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S256x128 .bf16) : Vec F S256x128 .f32 :=
  View.canon [⟨ro2, k2_pay1 (k2_pay2 (View.ld x0 rc2) (View.ld x4 rc2) (View.ld x1 rc2) (View.ld x5 rc2) (View.ld x2 rc2) (View.ld x6 rc2))
    (k2_pay3 (View.ld x3 rc2) (View.ld x7 rc2)) (View.ld x8 rf2)⟩]

/-- The one store covers the buffer. -/
theorem cover2_9 (p0 : Vec F S256x128 .f32) (y : S256x128.Idx) :
    ∃ pc ∈ ([⟨ro2, p0⟩] : List (View.Piece (Elt F) S256x128 .f32)), y ∈ pc.1.set :=
  View.cover_of_tiled [⟨ro2, p0⟩] S256x128.size (by rfl) y

set_option maxHeartbeats 4000000 in
/-- The body on whole staging memrefs, the inputs' at read contents and the result's at anything, runs to the
    continuation holding the inputs' as they were and the result's at `out2_9` of the inputs'. -/
theorem sound_kernel2 (c : Dev nD) (E : Set ℕ) (i : grid2.Coords) (arg1 : Memref sig .tc .vmem S256x1 .i32) (harg1 : arg1.IsWhole) (arg2 : Memref sig .tc .vmem S256x1 .i32) (harg2 : arg2.IsWhole) (arg3 : Memref sig .tc .vmem S256x1 .i32) (harg3 : arg3.IsWhole) (arg4 : Memref sig .tc .vmem S256x1 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x128 .bf16) (harg9 : arg9.IsWhole) (arg10 : Memref sig .tc .vmem S256x128 .f32) (harg10 : arg10.IsWhole)
    (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S256x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__gather_proj_kernel i arg1 harg1 arg2 harg2 arg3 harg3 arg4 harg4 arg5 harg5 arg6 harg6 arg7 harg7 arg8 harg8 arg9 harg9 arg10 harg10) K := by
  simp only [cc2__gather_proj_kernel_eq_skeleton]; unfold cc2__gather_proj_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-- The proof data of the region on core `c`: the arrays as the region finds them; after the body at point `t` each
    input's buffer at its block and the result's at `out2_9` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 4000000 in
/-- The body at any point: the inputs' memrefs hold their blocks, so the body's triple applies; the invariant and
    the core's duties pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«120270_j2259152797813_2_alg».proof.Proof.Gen.KernelIdeal.Launch
import proofs.«120270_j2259152797813_2_alg».proof.Proof.Gen.KernelIdeal.Skeleton
import proofs.«120270_j2259152797813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# Region 3: the one-hot selection kernel on the 128-row projected feature map

A grid point is a tile of 256 vertices.  The body reads the tile's four corner indices and four corner weights
(each a column of 256 entries) and the whole projected map, builds the 256 x 128 selection matrix whose entry
(v, s) is the sum over the corners whose index is s of the corner's weight, and stores its product with the map
as the tile's 256 x 128 block of the result.  Everything here is stated at a parameter `V`, the contents of the
TensorCore's buffers when the region is entered.
-/

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rc3 : Rect S256x1 := Rect.unit (s := S256x1) ![0, 0] S256x1.size inb_S256x1_S256x1_0_0
abbrev rf3 : Rect S128x128 := Rect.unit (s := S128x128) ![0, 0] S128x128.size inb_S128x128_S128x128_0_0
abbrev ro3 : Rect S256x128 := Rect.unit (s := S256x128) ![0, 0] S256x128.size inb_S256x128_S256x128_0_0

/-- What the body leaves in the result window's buffer, from the input blocks: its one store, of the product of
    the selection matrix (three corners' terms, then the fourth's) with the projected map. -/
def out3_9 (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S128x128 .bf16) : Vec F S256x128 .f32 :=
  View.canon [⟨ro3, k3_pay1 (k3_pay2 (View.ld x0 rc3) (View.ld x4 rc3) (View.ld x1 rc3) (View.ld x5 rc3) (View.ld x2 rc3) (View.ld x6 rc3))
    (k3_pay3 (View.ld x3 rc3) (View.ld x7 rc3)) (View.ld x8 rf3)⟩]

/-- The one store covers the buffer. -/
theorem cover3_9 (p0 : Vec F S256x128 .f32) (y : S256x128.Idx) :
    ∃ pc ∈ ([⟨ro3, p0⟩] : List (View.Piece (Elt F) S256x128 .f32)), y ∈ pc.1.set :=
  View.cover_of_tiled [⟨ro3, p0⟩] S256x128.size (by rfl) y

set_option maxHeartbeats 4000000 in
/-- The body on whole staging memrefs, the inputs' at read contents and the result's at anything, runs to the
    continuation holding the inputs' as they were and the result's at `out3_9` of the inputs'. -/
theorem sound_kernel3 (c : Dev nD) (E : Set ℕ) (i : grid3.Coords) (arg1 : Memref sig .tc .vmem S256x1 .i32) (harg1 : arg1.IsWhole) (arg2 : Memref sig .tc .vmem S256x1 .i32) (harg2 : arg2.IsWhole) (arg3 : Memref sig .tc .vmem S256x1 .i32) (harg3 : arg3.IsWhole) (arg4 : Memref sig .tc .vmem S256x1 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S128x128 .bf16) (harg9 : arg9.IsWhole) (arg10 : Memref sig .tc .vmem S256x128 .f32) (harg10 : arg10.IsWhole)
    (x0 : Vec F S256x1 .i32) (x1 : Vec F S256x1 .i32) (x2 : Vec F S256x1 .i32) (x3 : Vec F S256x1 .i32) (x4 : Vec F S256x1 .f32) (x5 : Vec F S256x1 .f32) (x6 : Vec F S256x1 .f32) (x7 : Vec F S256x1 .f32) (x8 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3__gather_proj_kernel i arg1 harg1 arg2 harg2 arg3 harg3 arg4 harg4 arg5 harg5 arg6 harg6 arg7 harg7 arg8 harg8 arg9 harg9 arg10 harg10) K := by
  simp only [cc3__gather_proj_kernel_eq_skeleton]; unfold cc3__gather_proj_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-- The proof data of the region on core `c`: the arrays as the region finds them; after the body at point `t` each
    input's buffer at its block and the result's at `out3_9` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

set_option maxHeartbeats 4000000 in
/-- The body at any point: the inputs' memrefs hold their blocks, so the body's triple applies; the invariant and
    the core's duties pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4Runs.lean ====
import proofs.«120270_j2259152797813_2_alg».proof.Proof.Gen.KernelIdeal.Launch
import proofs.«120270_j2259152797813_2_alg».proof.Proof.Gen.KernelIdeal.Skeleton
import proofs.«120270_j2259152797813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (the adjacency product with a carried accumulator): what its two cases share -/

section R4
variable (V : (c : Dev nD) → (b : Ref sig .tc) → Buf (Elt F) ((c : Thread nD τ).loc b))

/-- Window `w`'s block at grid point `t`, read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the point fetches it or
    not (an unfetched window's block index has not moved), for any proof data over the entry contents whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

end R4

/-! ## The body's two branch conditions, over the grid -/

/-- The first conditional (zero the accumulator): the reduction coordinate is 0. -/
abbrev cond4_0 (i : grid4.Coords) : Prop := (Scalar.cmpi .ne (Scalar.extui (Scalar.cmpi .eq (BitVec.ofNat 32 (i 1).val) 0#32)) 0#32) = 1#1
/-- It holds at the even points. -/
theorem hcond4_0 : ∀ t : Fin cfg4.N, cond4_0 (grid4.coords t) ↔ t.val % 2 = 0 :=
  (by decide +kernel : ∀ t : Fin grid4.N, cond4_0 (grid4.coords t) ↔ t.val % 2 = 0)

/-- The second conditional (store the output): the reduction coordinate is 1. -/
abbrev cond4_1 (i : grid4.Coords) : Prop := k4_cond2 i = 1#1
/-- It holds at the odd points. -/
theorem hcond4_1 : ∀ t : Fin cfg4.N, cond4_1 (grid4.coords t) ↔ t.val % 2 = 1 :=
  (by decide +kernel : ∀ t : Fin grid4.N, cond4_1 (grid4.coords t) ↔ t.val % 2 = 1)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- At an even point the output window is idle: nothing is stored into it, -/
theorem idleAt4_3_A : ∀ t : Fin cfg4.N, cond4_0 (grid4.coords t) → ¬cond4_1 (grid4.coords t) → cfg4.idle 3 (grid4.coords t) = true := by decide +kernel
/-- and its block is not written back. -/
theorem noFlush4_3_A : ∀ t : Fin cfg4.N, cond4_0 (grid4.coords t) → ¬cond4_1 (grid4.coords t) → (cfg4.win 3).flush t = false := by decide +kernel
/-- At an odd point the output window is live. -/
theorem liveAt4_3_B : ∀ t : Fin cfg4.N, ¬cond4_0 (grid4.coords t) → cond4_1 (grid4.coords t) → cfg4.idle 3 (grid4.coords t) = false := by decide +kernel

/-! ## The memrefs the body is called with -/

/-- One staging buffer of the output window, through which its contents are stated. -/
abbrev VO4_3 : View sig .tc .vmem S1024x128 .f32 := (Memref.whole cc4_stg3_0 : Memref sig .tc .vmem S1024x128 .f32).view
abbrev ms4_0 (t : Fin cfg4.N) : Memref sig .tc .vmem S1024x4096 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x128 .f32 := win4_3.stage (cfg4.slots t 3)
abbrev hs4_3 (t : Fin cfg4.N) : (ms4_3 t).IsWhole := hstage4_3 ((cfg4.slots t 3).cast nbuf4_3)
/-- The accumulator: a whole scoped buffer of the kernel's own, passed beside the windows, -/
abbrev scM4_0 : Memref sig .tc .vmem S1024x128 .f32 := Memref.whole cc4_scratch0
/-- and as a view. -/
abbrev VS4_0 : View sig .tc .vmem S1024x128 .f32 := scM4_0.view

/-- What the launch hands the region beside the windows — the scoped buffers no window stages and the
    generator register — with the accumulator split out as a memref owned at some contents. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KI.R4RunA.lean ====
import proofs.«120270_j2259152797813_2_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (an even point: the reduction coordinate is 0). On whole memrefs — the three inputs at their contents,
    the output's buffer at contents `xi3` that the body does not touch, the accumulator at anything — the body
    zeroes the accumulator, adds the product of the two input blocks to it, and returns the inputs and the
    output's buffer as they were and the accumulator with its stores written: the pieces `LS0` (last first) are
    found by running the body. The output gets no piece. -/
noncomputable def kernelRun4_A (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S1024x4096 .bf16) (x1 : Vec F S4096x128 .bf16) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__adjmm_kernel i arg2 harg2 arg3 harg3 arg4 harg4 arg5 harg5 arg6 harg6) K } := by
  refine ⟨[], ?_, fun xi3 E K => ?run⟩
  case run =>
    simp only [cc4__adjmm_kernel_eq_skeleton]; unfold cc4__adjmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R4RunB.lean ====
import proofs.«120270_j2259152797813_2_alg».proof.Proof.KI.R4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an odd point: the reduction coordinate is 1). On whole memrefs — the three inputs at their contents,
    the output's buffer at anything, the accumulator at the contents `xs0` the point before left — the body adds
    the product of the two input blocks to the accumulator and stores the rectified sum of the accumulator and
    the third input into the output: the inputs come back as they were, the output's buffer with its pieces `L3`
    written and the accumulator with its pieces `LS0` written (last first), both found by running the body. -/
noncomputable def kernelRun4_B (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S1024x4096 .bf16) (x1 : Vec F S4096x128 .bf16) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__adjmm_kernel i arg2 harg2 arg3 harg3 arg4 harg4 arg5 harg5 arg6 harg6) K } := by
  refine ⟨?_, ?_, fun E K => ?run⟩
  case run =>
    simp only [cc4__adjmm_kernel_eq_skeleton]; unfold cc4__adjmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R4.lean ====
import proofs.«120270_j2259152797813_2_alg».proof.Proof.KI.R4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: what the two cases leave, point by point; the proof data; the body obligation -/

/-! ## Per case -/

/-- Case A stores nothing into the output (the window is idle at the even points and not written back there):
    a placeholder nothing consults. -/
def out4_A_3 (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S1024x4096 .bf16) (x1 : Vec F S4096x128 .bf16) (x2 : Vec F S1024x128 .f32) : Vec F S1024x128 .f32 :=
  VO4_3.read (Elt F) (VO4_3.writes (Elt F) VO4_3.junk (kernelRun4_A c i arg2 harg2 arg3 harg3 arg4 harg4 arg5 harg5 arg6 harg6 hc0 hc1 x0 x1 x2).1)

/-- Case A's pieces for the accumulator tile it, so they cover it. -/
theorem scover4_A_0 (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S1024x4096 .bf16) (x1 : Vec F S4096x128 .bf16) (x2 : Vec F S1024x128 .f32) (y : S1024x128.Idx) :
    ∃ pc ∈ (kernelRun4_A c i arg2 harg2 arg3 harg3 arg4 harg4 arg5 harg5 arg6 harg6 hc0 hc1 x0 x1 x2).2.1, y ∈ pc.1.set :=
  View.cover_of_tiledL (kernelRun4_A c i arg2 harg2 arg3 harg3 arg4 harg4 arg5 harg5 arg6 harg6 hc0 hc1 x0 x1 x2).2.1 S1024x128.size (by sl_kernel_rfl) y

/-- What case A leaves in the accumulator: its pieces read back. -/
def sout4_A_0 (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S1024x4096 .bf16) (x1 : Vec F S4096x128 .bf16) (x2 : Vec F S1024x128 .f32) : Vec F S1024x128 .f32 :=
  VS4_0.read (Elt F) (VS4_0.writes (Elt F) VS4_0.junk (kernelRun4_A c i arg2 harg2 arg3 harg3 arg4 harg4 arg5 harg5 arg6 harg6 hc0 hc1 x0 x1 x2).2.1)

/-- Case B's pieces for the output tile its block, so they cover it. -/
theorem cover4_B_3 (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S1024x4096 .bf16) (x1 : Vec F S4096x128 .bf16) (x2 : Vec F S1024x128 .f32) (xs0 : Vec F S1024x128 .f32) (y : S1024x128.Idx) :
    ∃ pc ∈ (kernelRun4_B c i arg2 harg2 arg3 harg3 arg4 harg4 arg5 harg5 arg6 harg6 hc0 hc1 x0 x1 x2 xs0).1, y ∈ pc.1.set :=
  View.cover_of_tiledL (kernelRun4_B c i arg2 harg2 arg3 harg3 arg4 harg4 arg5 harg5 arg6 harg6 hc0 hc1 x0 x1 x2 xs0).1 S1024x128.size (by sl_kernel_rfl) y

/-- What case B leaves in the output's staging buffer: its pieces read back. -/
def out4_B_3 (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S1024x4096 .bf16) (x1 : Vec F S4096x128 .bf16) (x2 : Vec F S1024x128 .f32) (xs0 : Vec F S1024x128 .f32) : Vec F S1024x128 .f32 :=
  VO4_3.read (Elt F) (VO4_3.writes (Elt F) VO4_3.junk (kernelRun4_B c i arg2 harg2 arg3 harg3 arg4 harg4 arg5 harg5 arg6 harg6 hc0 hc1 x0 x1 x2 xs0).1)

/-- Case B's pieces for the accumulator tile it, so they cover it. -/
theorem scover4_B_0 (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S1024x4096 .bf16) (x1 : Vec F S4096x128 .bf16) (x2 : Vec F S1024x128 .f32) (xs0 : Vec F S1024x128 .f32) (y : S1024x128.Idx) :
    ∃ pc ∈ (kernelRun4_B c i arg2 harg2 arg3 harg3 arg4 harg4 arg5 harg5 arg6 harg6 hc0 hc1 x0 x1 x2 xs0).2.1, y ∈ pc.1.set :=
  View.cover_of_tiledL (kernelRun4_B c i arg2 harg2 arg3 harg3 arg4 harg4 arg5 harg5 arg6 harg6 hc0 hc1 x0 x1 x2 xs0).2.1 S1024x128.size (by sl_kernel_rfl) y

/-- What case B leaves in the accumulator: its pieces read back. -/
def sout4_B_0 (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S1024x4096 .bf16) (x1 : Vec F S4096x128 .bf16) (x2 : Vec F S1024x128 .f32) (xs0 : Vec F S1024x128 .f32) : Vec F S1024x128 .f32 :=
  VS4_0.read (Elt F) (VS4_0.writes (Elt F) VS4_0.junk (kernelRun4_B c i arg2 harg2 arg3 harg3 arg4 harg4 arg5 harg5 arg6 harg6 hc0 hc1 x0 x1 x2 xs0).2.1)

/-! ## Which case a point is in -/

theorem hcA0 (t : Fin cfg4.N) (h0 : t.val % 2 = 0) : cond4_0 (grid4.coords t) := (hcond4_0 t).mpr h0
theorem hcA1 (t : Fin cfg4.N) (h0 : t.val % 2 = 0) : ¬cond4_1 (grid4.coords t) := fun h => by
  have h1 := (hcond4_1 t).mp h; omega
theorem hcB0 (t : Fin cfg4.N) (h0 : ¬t.val % 2 = 0) : ¬cond4_0 (grid4.coords t) := fun h => h0 ((hcond4_0 t).mp h)
theorem hcB1 (t : Fin cfg4.N) (h0 : ¬t.val % 2 = 0) : cond4_1 (grid4.coords t) := (hcond4_1 t).mpr (by omega)

section R4
variable (V : (c : Dev nD) → (b : Ref sig .tc) → Buf (Elt F) ((c : Thread nD τ).loc b))

/-! ## Point by point -/

/-- At an even point `t`: the output's placeholder, -/
def oA4 (c : Dev nD) (t : Fin cfg4.N) (h0 : t.val % 2 = 0) : Vec F S1024x128 .f32 :=
  out4_A_3 c (grid4.coords t) (ms4_0 t) (hs4_0 t) (ms4_1 t) (hs4_1 t) (ms4_2 t) (hs4_2 t) (ms4_3 t) (hs4_3 t) scM4_0 (Memref.isWhole_whole _) (hcA0 t h0) (hcA1 t h0) (iblk4 V c 0 t) (iblk4 V c 1 t) (iblk4 V c 2 t)
/-- and the accumulator: zero plus the product of the point's two blocks. -/
def sA4 (c : Dev nD) (t : Fin cfg4.N) (h0 : t.val % 2 = 0) : Vec F S1024x128 .f32 :=
  sout4_A_0 c (grid4.coords t) (ms4_0 t) (hs4_0 t) (ms4_1 t) (hs4_1 t) (ms4_2 t) (hs4_2 t) (ms4_3 t) (hs4_3 t) scM4_0 (Memref.isWhole_whole _) (hcA0 t h0) (hcA1 t h0) (iblk4 V c 0 t) (iblk4 V c 1 t) (iblk4 V c 2 t)
/-- At an odd point `t`, the accumulator holding `xs0` before it: the output, -/
def oB4 (c : Dev nD) (t : Fin cfg4.N) (h0 : ¬t.val % 2 = 0) (xs0 : Vec F S1024x128 .f32) : Vec F S1024x128 .f32 :=
  out4_B_3 c (grid4.coords t) (ms4_0 t) (hs4_0 t) (ms4_1 t) (hs4_1 t) (ms4_2 t) (hs4_2 t) (ms4_3 t) (hs4_3 t) scM4_0 (Memref.isWhole_whole _) (hcB0 t h0) (hcB1 t h0) (iblk4 V c 0 t) (iblk4 V c 1 t) (iblk4 V c 2 t) xs0
/-- and the accumulator. -/
def sB4 (c : Dev nD) (t : Fin cfg4.N) (h0 : ¬t.val % 2 = 0) (xs0 : Vec F S1024x128 .f32) : Vec F S1024x128 .f32 :=
  sout4_B_0 c (grid4.coords t) (ms4_0 t) (hs4_0 t) (ms4_1 t) (hs4_1 t) (ms4_2 t) (hs4_2 t) (ms4_3 t) (hs4_3 t) scM4_0 (Memref.isWhole_whole _) (hcB0 t h0) (hcB1 t h0) (iblk4 V c 0 t) (iblk4 V c 1 t) (iblk4 V c 2 t) xs0

/-- THE ACCUMULATION. What the output's staging buffer and the accumulator hold after the body at position `n`
    (a pair: the output, then the accumulator): an even point starts the accumulator afresh, an odd one continues
    from what the point before left. -/
def accAt4 (c : Dev nD) : (n : ℕ) → n < cfg4.N → Vec F S1024x128 .f32 × Vec F S1024x128 .f32
  | 0, hn => (oA4 V c ⟨0, hn⟩ (Nat.zero_mod _), sA4 V c ⟨0, hn⟩ (Nat.zero_mod _))
  | n + 1, hn =>
    if h0 : (n + 1) % 2 = 0 then
      (oA4 V c ⟨n + 1, hn⟩ h0, sA4 V c ⟨n + 1, hn⟩ h0)
    else
      (oB4 V c ⟨n + 1, hn⟩ h0 (accAt4 c n (Nat.lt_of_succ_lt hn)).2, sB4 V c ⟨n + 1, hn⟩ h0 (accAt4 c n (Nat.lt_of_succ_lt hn)).2)

/-- At an even point: case A's contents. -/
theorem accAt4_A (c : Dev nD) (t : Fin cfg4.N) (h0 : t.val % 2 = 0) :
    accAt4 V c t.val t.isLt = (oA4 V c t h0, sA4 V c t h0) := by
  obtain ⟨n, hn⟩ := t
  cases n with
  | zero => exact rfl
  | succ n => exact (dif_pos h0).trans rfl

/-- At an odd point: case B's contents, over what the point before left in the accumulator. -/
theorem accAt4_B (c : Dev nD) (t : Fin cfg4.N) (h0 : ¬t.val % 2 = 0) :
    accAt4 V c t.val t.isLt
      = (oB4 V c t h0 (accAt4 V c (t.val - 1) (Nat.lt_of_le_of_lt (Nat.sub_le _ _) t.isLt)).2,
         sB4 V c t h0 (accAt4 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- What the output's staging buffer holds after the body at point `t`. -/
def outsAt4 (c : Dev nD) (t : Fin cfg4.N) : Vec F S1024x128 .f32 := (accAt4 V c t.val t.isLt).1
/-- What the accumulator holds after the body at point `t`. -/
def sAt4 (c : Dev nD) (t : Fin cfg4.N) : Vec F S1024x128 .f32 := (accAt4 V c t.val t.isLt).2

/-! ## The invariant -/

/-- The region's invariant before position `n`: before the first point, what the launch hands over (every
    scoped buffer no window stages at anything, the generator register at some state); afterwards the same with
    the accumulator at what the point before left in it. -/
def PhiS4 (c : Dev nD) : (n : ℕ) → n ≤ cfg4.N → sProp 𝕄
  | 0, _ => Pipeline.ΦA spec4 c
  | n + 1, hn => iprop(iprop(owns (c : Thread nD τ) scM4_0 fullShare ((accAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((accAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((accAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The region's proof data on core `c`: the arrays as the region finds them; after the body each input's buffer
    at its block and the output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outsAt4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (accAt4 V c t.val t.isLt).1 := by dsimp only [dat4, outsAt4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point. The inputs' memrefs hold their blocks; the point's parity says which case it is in.
    At an even point the accumulator goes in at anything (whatever the invariant holds it at) and the output's
    buffer comes back untouched; at an odd point the accumulator goes in at what the point before left. Either
    way it comes back at this point's contents, its pieces covering it; the rest of the invariant is untouched
    and the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  have hN : t.val < 16 := lt_of_lt_of_eq t.isLt (show cfg4.N = 16 from N_4)
  by_cases h0 : t.val % 2 = 0
  · rw [Dat.leavesExact_idle (dat4 V c) 3 t (idleAt4_3_A t (hcA0 t h0) (hcA1 t h0)) (noFlush4_3_A t (hcA0 t h0) (hcA1 t h0))]
    rw [accAt4_A V c t h0]
    unfold sA4 sout4_A_0; (try dsimp only)
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩, ⟨%d3, H3⟩⟩
      iapply ((kernelRun4_A c (grid4.coords t) _ _ _ _ _ _ _ _ _ _ (hcA0 t h0) (hcA1 t h0) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_A c (grid4.coords t) _ _ _ _ _ _ _ _ _ _ (hcA0 t h0) (hcA1 t h0) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat4 V c).leavesExact 3 t = owns (c : Thread nD τ) (ms4_3 t) fullShare ((dat4 V c).after 3 t) from by
      unfold Dat.leavesExact; rw [liveAt4_3_B t (hcB0 t h0) (hcB1 t h0)], after4_3]
    rw [accAt4_B V c t h0]
    unfold oB4 sB4 out4_B_3 sout4_B_0; (try dsimp only)
    have hz : t.val ≠ 0 := fun e => h0 (by rw [e])
    rw [PhiS4_castSucc V c t, PhiS4_pos V c _ _ hz]
    iintro ⟨⟨⟨HS0, HR⟩, Hg⟩, Ho, ⟨%d0, H0⟩, ⟨%d1, H1⟩, ⟨%d2, H2⟩, ⟨%d3, H3⟩⟩
    iapply ((kernelRun4_B c (grid4.coords t) _ _ _ _ _ _ _ _ _ _ (hcB0 t h0) (hcB1 t h0) (iblk4 V c 0 t) (iblk4 V c 1 t) (iblk4 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover4_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover4_B_3 c _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into the invariant and out of it -/

/-- What the launch hands the region is the invariant before the first point. -/
theorem hin4 (c : Dev nD) :
    iprop((∃ r, prngReg c r) ∗ Pipeline.scopedRest (Ix := Unit) (Name := ℕ) (U := UR sig nD τ) (Lvl := ℕ) (Val := Elt F) spec4 c)
      ⊢ ((dat4 V c).Φ 0 : sProp 𝕄) := by
  rw [show (dat4 V c).Φ 0 = PhiS4 V c 0 (Nat.zero_le _) from rfl, PhiS4_zero V c 0 _ rfl]
  unfold Pipeline.ΦA
  iintro ⟨Hp, Hr⟩
  isplitl [Hr]; · iexact Hr
  iexact Hp

/-- After any point the invariant gives the same back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point, in the order the launch takes it back. -/
theorem hout4 (c : Dev nD) :
    ((dat4 V c).Φ (Fin.last cfg4.N) : sProp 𝕄)
      ⊢ iprop((∃ r, prngReg c r) ∗ Pipeline.scopedRest (Ix := Unit) (Name := ℕ) (U := UR sig nD τ) (Lvl := ℕ) (Val := Elt F) spec4 c) := by
  refine (Phi_out4 V c _ (by rw [Fin.val_last]; have : cfg4.N = 16 := N_4; omega)).trans ?_
  unfold Pipeline.ΦA
  iintro ⟨Hr, Hp⟩
  isplitl [Hp]; · iexact Hp
  iexact Hr

end R4

end Cert.KernelIdeal.Hand

end
-- ==== Proof.KI.R5Runs.lean ====
import proofs.«120270_j2259152797813_2_alg».proof.Proof.Gen.KernelIdeal.Launch
import proofs.«120270_j2259152797813_2_alg».proof.Proof.Gen.KernelIdeal.Skeleton
import proofs.«120270_j2259152797813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5 (the adjacency product with a carried accumulator): what its two cases share -/

section R5
variable (V : (c : Dev nD) → (b : Ref sig .tc) → Buf (Elt F) ((c : Thread nD τ).loc b))

/-- Window `w`'s block at grid point `t`, read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether the point fetches it or
    not (an unfetched window's block index has not moved), for any proof data over the entry contents whose
    body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

end R5

/-! ## The body's two branch conditions, over the grid -/

/-- The first conditional (zero the accumulator): the reduction coordinate is 0. -/
abbrev cond5_0 (i : grid5.Coords) : Prop := (Scalar.cmpi .ne (Scalar.extui (Scalar.cmpi .eq (BitVec.ofNat 32 (i 1).val) 0#32)) 0#32) = 1#1
/-- It holds at the even points. -/
theorem hcond5_0 : ∀ t : Fin cfg5.N, cond5_0 (grid5.coords t) ↔ t.val % 2 = 0 :=
  (by decide +kernel : ∀ t : Fin grid5.N, cond5_0 (grid5.coords t) ↔ t.val % 2 = 0)

/-- The second conditional (store the output): the reduction coordinate is 1. -/
abbrev cond5_1 (i : grid5.Coords) : Prop := k5_cond2 i = 1#1
/-- It holds at the odd points. -/
theorem hcond5_1 : ∀ t : Fin cfg5.N, cond5_1 (grid5.coords t) ↔ t.val % 2 = 1 :=
  (by decide +kernel : ∀ t : Fin grid5.N, cond5_1 (grid5.coords t) ↔ t.val % 2 = 1)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- At an even point the output window is idle: nothing is stored into it, -/
theorem idleAt5_3_A : ∀ t : Fin cfg5.N, cond5_0 (grid5.coords t) → ¬cond5_1 (grid5.coords t) → cfg5.idle 3 (grid5.coords t) = true := by decide +kernel
/-- and its block is not written back. -/
theorem noFlush5_3_A : ∀ t : Fin cfg5.N, cond5_0 (grid5.coords t) → ¬cond5_1 (grid5.coords t) → (cfg5.win 3).flush t = false := by decide +kernel
/-- At an odd point the output window is live. -/
theorem liveAt5_3_B : ∀ t : Fin cfg5.N, ¬cond5_0 (grid5.coords t) → cond5_1 (grid5.coords t) → cfg5.idle 3 (grid5.coords t) = false := by decide +kernel

/-! ## The memrefs the body is called with -/

/-- One staging buffer of the output window, through which its contents are stated. -/
abbrev VO5_3 : View sig .tc .vmem S1024x128 .f32 := (Memref.whole cc5_stg3_0 : Memref sig .tc .vmem S1024x128 .f32).view
abbrev ms5_0 (t : Fin cfg5.N) : Memref sig .tc .vmem S1024x4096 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4096x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x128 .f32 := win5_3.stage (cfg5.slots t 3)
abbrev hs5_3 (t : Fin cfg5.N) : (ms5_3 t).IsWhole := hstage5_3 ((cfg5.slots t 3).cast nbuf5_3)
/-- The accumulator: a whole scoped buffer of the kernel's own, passed beside the windows, -/
abbrev scM5_0 : Memref sig .tc .vmem S1024x128 .f32 := Memref.whole cc5_scratch0
/-- and as a view. -/
abbrev VS5_0 : View sig .tc .vmem S1024x128 .f32 := scM5_0.view

/-- What the launch hands the region beside the windows — the scoped buffers no window stages and the
    generator register — with the accumulator split out as a memref owned at some contents. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.KernelIdeal.Hand

end
-- ==== Proof.KI.R5RunA.lean ====
import proofs.«120270_j2259152797813_2_alg».proof.Proof.KI.R5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (an even point: the reduction coordinate is 0). On whole memrefs — the three inputs at their contents,
    the output's buffer at contents `xi3` that the body does not touch, the accumulator at anything — the body
    zeroes the accumulator, adds the product of the two input blocks to it, and returns the inputs and the
    output's buffer as they were and the accumulator with its stores written: the pieces `LS0` (last first) are
    found by running the body. The output gets no piece. -/
noncomputable def kernelRun5_A (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond5_0 i) (hc1 : ¬cond5_1 i)
    (x0 : Vec F S1024x4096 .bf16) (x1 : Vec F S4096x128 .bf16) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__adjmm_kernel i arg2 harg2 arg3 harg3 arg4 harg4 arg5 harg5 arg6 harg6) K } := by
  refine ⟨[], ?_, fun xi3 E K => ?run⟩
  case run =>
    simp only [cc5__adjmm_kernel_eq_skeleton]; unfold cc5__adjmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R5RunB.lean ====
import proofs.«120270_j2259152797813_2_alg».proof.Proof.KI.R5RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an odd point: the reduction coordinate is 1). On whole memrefs — the three inputs at their contents,
    the output's buffer at anything, the accumulator at the contents `xs0` the point before left — the body adds
    the product of the two input blocks to the accumulator and stores the rectified sum of the accumulator and
    the third input into the output: the inputs come back as they were, the output's buffer with its pieces `L3`
    written and the accumulator with its pieces `LS0` written (last first), both found by running the body. -/
noncomputable def kernelRun5_B (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond5_0 i) (hc1 : cond5_1 i)
    (x0 : Vec F S1024x4096 .bf16) (x1 : Vec F S4096x128 .bf16) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__adjmm_kernel i arg2 harg2 arg3 harg3 arg4 harg4 arg5 harg5 arg6 harg6) K } := by
  refine ⟨?_, ?_, fun E K => ?run⟩
  case run =>
    simp only [cc5__adjmm_kernel_eq_skeleton]; unfold cc5__adjmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R5.lean ====
import proofs.«120270_j2259152797813_2_alg».proof.Proof.KI.R5RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: what the two cases leave, point by point; the proof data; the body obligation -/

/-! ## Per case -/

/-- Case A stores nothing into the output (the window is idle at the even points and not written back there):
    a placeholder nothing consults. -/
def out5_A_3 (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond5_0 i) (hc1 : ¬cond5_1 i)
    (x0 : Vec F S1024x4096 .bf16) (x1 : Vec F S4096x128 .bf16) (x2 : Vec F S1024x128 .f32) : Vec F S1024x128 .f32 :=
  VO5_3.read (Elt F) (VO5_3.writes (Elt F) VO5_3.junk (kernelRun5_A c i arg2 harg2 arg3 harg3 arg4 harg4 arg5 harg5 arg6 harg6 hc0 hc1 x0 x1 x2).1)

/-- Case A's pieces for the accumulator tile it, so they cover it. -/
theorem scover5_A_0 (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond5_0 i) (hc1 : ¬cond5_1 i)
    (x0 : Vec F S1024x4096 .bf16) (x1 : Vec F S4096x128 .bf16) (x2 : Vec F S1024x128 .f32) (y : S1024x128.Idx) :
    ∃ pc ∈ (kernelRun5_A c i arg2 harg2 arg3 harg3 arg4 harg4 arg5 harg5 arg6 harg6 hc0 hc1 x0 x1 x2).2.1, y ∈ pc.1.set :=
  View.cover_of_tiledL (kernelRun5_A c i arg2 harg2 arg3 harg3 arg4 harg4 arg5 harg5 arg6 harg6 hc0 hc1 x0 x1 x2).2.1 S1024x128.size (by sl_kernel_rfl) y

/-- What case A leaves in the accumulator: its pieces read back. -/
def sout5_A_0 (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond5_0 i) (hc1 : ¬cond5_1 i)
    (x0 : Vec F S1024x4096 .bf16) (x1 : Vec F S4096x128 .bf16) (x2 : Vec F S1024x128 .f32) : Vec F S1024x128 .f32 :=
  VS5_0.read (Elt F) (VS5_0.writes (Elt F) VS5_0.junk (kernelRun5_A c i arg2 harg2 arg3 harg3 arg4 harg4 arg5 harg5 arg6 harg6 hc0 hc1 x0 x1 x2).2.1)

/-- Case B's pieces for the output tile its block, so they cover it. -/
theorem cover5_B_3 (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond5_0 i) (hc1 : cond5_1 i)
    (x0 : Vec F S1024x4096 .bf16) (x1 : Vec F S4096x128 .bf16) (x2 : Vec F S1024x128 .f32) (xs0 : Vec F S1024x128 .f32) (y : S1024x128.Idx) :
    ∃ pc ∈ (kernelRun5_B c i arg2 harg2 arg3 harg3 arg4 harg4 arg5 harg5 arg6 harg6 hc0 hc1 x0 x1 x2 xs0).1, y ∈ pc.1.set :=
  View.cover_of_tiledL (kernelRun5_B c i arg2 harg2 arg3 harg3 arg4 harg4 arg5 harg5 arg6 harg6 hc0 hc1 x0 x1 x2 xs0).1 S1024x128.size (by sl_kernel_rfl) y

/-- What case B leaves in the output's staging buffer: its pieces read back. -/
def out5_B_3 (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond5_0 i) (hc1 : cond5_1 i)
    (x0 : Vec F S1024x4096 .bf16) (x1 : Vec F S4096x128 .bf16) (x2 : Vec F S1024x128 .f32) (xs0 : Vec F S1024x128 .f32) : Vec F S1024x128 .f32 :=
  VO5_3.read (Elt F) (VO5_3.writes (Elt F) VO5_3.junk (kernelRun5_B c i arg2 harg2 arg3 harg3 arg4 harg4 arg5 harg5 arg6 harg6 hc0 hc1 x0 x1 x2 xs0).1)

/-- Case B's pieces for the accumulator tile it, so they cover it. -/
theorem scover5_B_0 (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond5_0 i) (hc1 : cond5_1 i)
    (x0 : Vec F S1024x4096 .bf16) (x1 : Vec F S4096x128 .bf16) (x2 : Vec F S1024x128 .f32) (xs0 : Vec F S1024x128 .f32) (y : S1024x128.Idx) :
    ∃ pc ∈ (kernelRun5_B c i arg2 harg2 arg3 harg3 arg4 harg4 arg5 harg5 arg6 harg6 hc0 hc1 x0 x1 x2 xs0).2.1, y ∈ pc.1.set :=
  View.cover_of_tiledL (kernelRun5_B c i arg2 harg2 arg3 harg3 arg4 harg4 arg5 harg5 arg6 harg6 hc0 hc1 x0 x1 x2 xs0).2.1 S1024x128.size (by sl_kernel_rfl) y

/-- What case B leaves in the accumulator: its pieces read back. -/
def sout5_B_0 (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond5_0 i) (hc1 : cond5_1 i)
    (x0 : Vec F S1024x4096 .bf16) (x1 : Vec F S4096x128 .bf16) (x2 : Vec F S1024x128 .f32) (xs0 : Vec F S1024x128 .f32) : Vec F S1024x128 .f32 :=
  VS5_0.read (Elt F) (VS5_0.writes (Elt F) VS5_0.junk (kernelRun5_B c i arg2 harg2 arg3 harg3 arg4 harg4 arg5 harg5 arg6 harg6 hc0 hc1 x0 x1 x2 xs0).2.1)

/-! ## Which case a point is in -/

theorem hc5A0 (t : Fin cfg5.N) (h0 : t.val % 2 = 0) : cond5_0 (grid5.coords t) := (hcond5_0 t).mpr h0
theorem hc5A1 (t : Fin cfg5.N) (h0 : t.val % 2 = 0) : ¬cond5_1 (grid5.coords t) := fun h => by
  have h1 := (hcond5_1 t).mp h; omega
theorem hc5B0 (t : Fin cfg5.N) (h0 : ¬t.val % 2 = 0) : ¬cond5_0 (grid5.coords t) := fun h => h0 ((hcond5_0 t).mp h)
theorem hc5B1 (t : Fin cfg5.N) (h0 : ¬t.val % 2 = 0) : cond5_1 (grid5.coords t) := (hcond5_1 t).mpr (by omega)

section R5
variable (V : (c : Dev nD) → (b : Ref sig .tc) → Buf (Elt F) ((c : Thread nD τ).loc b))

/-! ## Point by point -/

/-- At an even point `t`: the output's placeholder, -/
def oA5 (c : Dev nD) (t : Fin cfg5.N) (h0 : t.val % 2 = 0) : Vec F S1024x128 .f32 :=
  out5_A_3 c (grid5.coords t) (ms5_0 t) (hs5_0 t) (ms5_1 t) (hs5_1 t) (ms5_2 t) (hs5_2 t) (ms5_3 t) (hs5_3 t) scM5_0 (Memref.isWhole_whole _) (hc5A0 t h0) (hc5A1 t h0) (iblk5 V c 0 t) (iblk5 V c 1 t) (iblk5 V c 2 t)
/-- and the accumulator: zero plus the product of the point's two blocks. -/
def sA5 (c : Dev nD) (t : Fin cfg5.N) (h0 : t.val % 2 = 0) : Vec F S1024x128 .f32 :=
  sout5_A_0 c (grid5.coords t) (ms5_0 t) (hs5_0 t) (ms5_1 t) (hs5_1 t) (ms5_2 t) (hs5_2 t) (ms5_3 t) (hs5_3 t) scM5_0 (Memref.isWhole_whole _) (hc5A0 t h0) (hc5A1 t h0) (iblk5 V c 0 t) (iblk5 V c 1 t) (iblk5 V c 2 t)
/-- At an odd point `t`, the accumulator holding `xs0` before it: the output, -/
def oB5 (c : Dev nD) (t : Fin cfg5.N) (h0 : ¬t.val % 2 = 0) (xs0 : Vec F S1024x128 .f32) : Vec F S1024x128 .f32 :=
  out5_B_3 c (grid5.coords t) (ms5_0 t) (hs5_0 t) (ms5_1 t) (hs5_1 t) (ms5_2 t) (hs5_2 t) (ms5_3 t) (hs5_3 t) scM5_0 (Memref.isWhole_whole _) (hc5B0 t h0) (hc5B1 t h0) (iblk5 V c 0 t) (iblk5 V c 1 t) (iblk5 V c 2 t) xs0
/-- and the accumulator. -/
def sB5 (c : Dev nD) (t : Fin cfg5.N) (h0 : ¬t.val % 2 = 0) (xs0 : Vec F S1024x128 .f32) : Vec F S1024x128 .f32 :=
  sout5_B_0 c (grid5.coords t) (ms5_0 t) (hs5_0 t) (ms5_1 t) (hs5_1 t) (ms5_2 t) (hs5_2 t) (ms5_3 t) (hs5_3 t) scM5_0 (Memref.isWhole_whole _) (hc5B0 t h0) (hc5B1 t h0) (iblk5 V c 0 t) (iblk5 V c 1 t) (iblk5 V c 2 t) xs0

/-- THE ACCUMULATION. What the output's staging buffer and the accumulator hold after the body at position `n`
    (a pair: the output, then the accumulator): an even point starts the accumulator afresh, an odd one continues
    from what the point before left. -/
def accAt5 (c : Dev nD) : (n : ℕ) → n < cfg5.N → Vec F S1024x128 .f32 × Vec F S1024x128 .f32
  | 0, hn => (oA5 V c ⟨0, hn⟩ (Nat.zero_mod _), sA5 V c ⟨0, hn⟩ (Nat.zero_mod _))
  | n + 1, hn =>
    if h0 : (n + 1) % 2 = 0 then
      (oA5 V c ⟨n + 1, hn⟩ h0, sA5 V c ⟨n + 1, hn⟩ h0)
    else
      (oB5 V c ⟨n + 1, hn⟩ h0 (accAt5 c n (Nat.lt_of_succ_lt hn)).2, sB5 V c ⟨n + 1, hn⟩ h0 (accAt5 c n (Nat.lt_of_succ_lt hn)).2)

/-- At an even point: case A's contents. -/
theorem accAt5_A (c : Dev nD) (t : Fin cfg5.N) (h0 : t.val % 2 = 0) :
    accAt5 V c t.val t.isLt = (oA5 V c t h0, sA5 V c t h0) := by
  obtain ⟨n, hn⟩ := t
  cases n with
  | zero => exact rfl
  | succ n => exact (dif_pos h0).trans rfl

/-- At an odd point: case B's contents, over what the point before left in the accumulator. -/
theorem accAt5_B (c : Dev nD) (t : Fin cfg5.N) (h0 : ¬t.val % 2 = 0) :
    accAt5 V c t.val t.isLt
      = (oB5 V c t h0 (accAt5 V c (t.val - 1) (Nat.lt_of_le_of_lt (Nat.sub_le _ _) t.isLt)).2,
         sB5 V c t h0 (accAt5 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- What the output's staging buffer holds after the body at point `t`. -/
def outsAt5 (c : Dev nD) (t : Fin cfg5.N) : Vec F S1024x128 .f32 := (accAt5 V c t.val t.isLt).1
/-- What the accumulator holds after the body at point `t`. -/
def sAt5 (c : Dev nD) (t : Fin cfg5.N) : Vec F S1024x128 .f32 := (accAt5 V c t.val t.isLt).2

/-! ## The invariant -/

/-- The region's invariant before position `n`: before the first point, what the launch hands over (every
    scoped buffer no window stages at anything, the generator register at some state); afterwards the same with
    the accumulator at what the point before left in it. -/
def PhiS5 (c : Dev nD) : (n : ℕ) → n ≤ cfg5.N → sProp 𝕄
  | 0, _ => Pipeline.ΦA spec5 c
  | n + 1, hn => iprop(iprop(owns (c : Thread nD τ) scM5_0 fullShare ((accAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((accAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((accAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The region's proof data on core `c`: the arrays as the region finds them; after the body each input's buffer
    at its block and the output's at `outsAt5`; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outsAt5 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (accAt5 V c t.val t.isLt).1 := by dsimp only [dat5, outsAt5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point. The inputs' memrefs hold their blocks; the point's parity says which case it is in.
    At an even point the accumulator goes in at anything (whatever the invariant holds it at) and the output's
    buffer comes back untouched; at an odd point the accumulator goes in at what the point before left. Either
    way it comes back at this point's contents, its pieces covering it; the rest of the invariant is untouched
    and the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  have hN : t.val < 16 := lt_of_lt_of_eq t.isLt (show cfg5.N = 16 from N_5)
  by_cases h0 : t.val % 2 = 0
  · rw [Dat.leavesExact_idle (dat5 V c) 3 t (idleAt5_3_A t (hc5A0 t h0) (hc5A1 t h0)) (noFlush5_3_A t (hc5A0 t h0) (hc5A1 t h0))]
    rw [accAt5_A V c t h0]
    unfold sA5 sout5_A_0; (try dsimp only)
    by_cases hz : t.val = 0
    · rw [PhiS5_castSucc V c t, PhiS5_zero V c _ _ hz, PhiA5_eq]
      iintro ⟨⟨⟨HS0, HR⟩, Hg⟩, Ho, ⟨%d0, H0⟩, ⟨%d1, H1⟩, ⟨%d2, H2⟩, ⟨%d3, H3⟩⟩
      iapply ((kernelRun5_A c (grid5.coords t) _ _ _ _ _ _ _ _ _ _ (hc5A0 t h0) (hc5A1 t h0) (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩⟩
      iapply ((kernelRun5_A c (grid5.coords t) _ _ _ _ _ _ _ _ _ _ (hc5A0 t h0) (hc5A1 t h0) (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat5 V c).leavesExact 3 t = owns (c : Thread nD τ) (ms5_3 t) fullShare ((dat5 V c).after 3 t) from by
      unfold Dat.leavesExact; rw [liveAt5_3_B t (hc5B0 t h0) (hc5B1 t h0)], after5_3]
    rw [accAt5_B V c t h0]
    unfold oB5 sB5 out5_B_3 sout5_B_0; (try dsimp only)
    have hz : t.val ≠ 0 := fun e => h0 (by rw [e])
    rw [PhiS5_castSucc V c t, PhiS5_pos V c _ _ hz]
    iintro ⟨⟨⟨HS0, HR⟩, Hg⟩, Ho, ⟨%d0, H0⟩, ⟨%d1, H1⟩, ⟨%d2, H2⟩, ⟨%d3, H3⟩⟩
    iapply ((kernelRun5_B c (grid5.coords t) _ _ _ _ _ _ _ _ _ _ (hc5B0 t h0) (hc5B1 t h0) (iblk5 V c 0 t) (iblk5 V c 1 t) (iblk5 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover5_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover5_B_3 c _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Into the invariant and out of it -/

/-- What the launch hands the region is the invariant before the first point. -/
theorem hin5 (c : Dev nD) :
    iprop((∃ r, prngReg c r) ∗ Pipeline.scopedRest (Ix := Unit) (Name := ℕ) (U := UR sig nD τ) (Lvl := ℕ) (Val := Elt F) spec5 c)
      ⊢ ((dat5 V c).Φ 0 : sProp 𝕄) := by
  rw [show (dat5 V c).Φ 0 = PhiS5 V c 0 (Nat.zero_le _) from rfl, PhiS5_zero V c 0 _ rfl]
  unfold Pipeline.ΦA
  iintro ⟨Hp, Hr⟩
  isplitl [Hr]; · iexact Hr
  iexact Hp

/-- After any point the invariant gives the same back: the accumulator's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point, in the order the launch takes it back. -/
theorem hout5 (c : Dev nD) :
    ((dat5 V c).Φ (Fin.last cfg5.N) : sProp 𝕄)
      ⊢ iprop((∃ r, prngReg c r) ∗ Pipeline.scopedRest (Ix := Unit) (Name := ℕ) (U := UR sig nD τ) (Lvl := ℕ) (Val := Elt F) spec5 c) := by
  refine (Phi_out5 V c _ (by rw [Fin.val_last]; have : cfg5.N = 16 := N_5; omega)).trans ?_
  unfold Pipeline.ΦA
  iintro ⟨Hr, Hp⟩
  isplitl [Hp]; · iexact Hp
  iexact Hr

end R5

end Cert.KernelIdeal.Hand

end
-- ==== Proof.KI.R6Runs.lean ====
import proofs.«120270_j2259152797813_2_alg».proof.Proof.Gen.KernelIdeal.Launch
import proofs.«120270_j2259152797813_2_alg».proof.Proof.Gen.KernelIdeal.Skeleton
import proofs.«120270_j2259152797813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6 (the adjacency product with a carried accumulator): what its two cases share -/

section R6
variable (V : (c : Dev nD) → (b : Ref sig .tc) → Buf (Elt F) ((c : Thread nD τ).loc b))

/-- Window `w`'s block at grid point `t`, read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, whether the point fetches it or
    not (an unfetched window's block index has not moved), for any proof data over the entry contents whose
    body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

end R6

/-! ## The body's two branch conditions, over the grid -/

/-- The first conditional (zero the accumulator): the reduction coordinate is 0. -/
abbrev cond6_0 (i : grid6.Coords) : Prop := (Scalar.cmpi .ne (Scalar.extui (Scalar.cmpi .eq (BitVec.ofNat 32 (i 1).val) 0#32)) 0#32) = 1#1
/-- It holds at the even points. -/
theorem hcond6_0 : ∀ t : Fin cfg6.N, cond6_0 (grid6.coords t) ↔ t.val % 2 = 0 :=
  (by decide +kernel : ∀ t : Fin grid6.N, cond6_0 (grid6.coords t) ↔ t.val % 2 = 0)

/-- The second conditional (store the output): the reduction coordinate is 1. -/
abbrev cond6_1 (i : grid6.Coords) : Prop := k6_cond2 i = 1#1
/-- It holds at the odd points. -/
theorem hcond6_1 : ∀ t : Fin cfg6.N, cond6_1 (grid6.coords t) ↔ t.val % 2 = 1 :=
  (by decide +kernel : ∀ t : Fin grid6.N, cond6_1 (grid6.coords t) ↔ t.val % 2 = 1)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
/-- At an even point the output window is idle: nothing is stored into it, -/
theorem idleAt6_3_A : ∀ t : Fin cfg6.N, cond6_0 (grid6.coords t) → ¬cond6_1 (grid6.coords t) → cfg6.idle 3 (grid6.coords t) = true := by decide +kernel
/-- and its block is not written back. -/
theorem noFlush6_3_A : ∀ t : Fin cfg6.N, cond6_0 (grid6.coords t) → ¬cond6_1 (grid6.coords t) → (cfg6.win 3).flush t = false := by decide +kernel
/-- At an odd point the output window is live. -/
theorem liveAt6_3_B : ∀ t : Fin cfg6.N, ¬cond6_0 (grid6.coords t) → cond6_1 (grid6.coords t) → cfg6.idle 3 (grid6.coords t) = false := by decide +kernel

/-! ## The memrefs the body is called with -/

/-- One staging buffer of the output window, through which its contents are stated. -/
abbrev VO6_3 : View sig .tc .vmem S1024x128 .f32 := (Memref.whole cc6_stg3_0 : Memref sig .tc .vmem S1024x128 .f32).view
abbrev ms6_0 (t : Fin cfg6.N) : Memref sig .tc .vmem S1024x4096 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S4096x128 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1024x128 .f32 := win6_3.stage (cfg6.slots t 3)
abbrev hs6_3 (t : Fin cfg6.N) : (ms6_3 t).IsWhole := hstage6_3 ((cfg6.slots t 3).cast nbuf6_3)
/-- The accumulator: a whole scoped buffer of the kernel's own, passed beside the windows, -/
abbrev scM6_0 : Memref sig .tc .vmem S1024x128 .f32 := Memref.whole cc6_scratch0
/-- and as a view. -/
abbrev VS6_0 : View sig .tc .vmem S1024x128 .f32 := scM6_0.view

/-- What the launch hands the region beside the windows — the scoped buffers no window stages and the
    generator register — with the accumulator split out as a memref owned at some contents. -/
theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

end Cert.KernelIdeal.Hand

end
-- ==== Proof.KI.R6RunA.lean ====
import proofs.«120270_j2259152797813_2_alg».proof.Proof.KI.R6Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (an even point: the reduction coordinate is 0). On whole memrefs — the three inputs at their contents,
    the output's buffer at contents `xi3` that the body does not touch, the accumulator at anything — the body
    zeroes the accumulator, adds the product of the two input blocks to it, and returns the inputs and the
    output's buffer as they were and the accumulator with its stores written: the pieces `LS0` (last first) are
    found by running the body. The output gets no piece. -/
noncomputable def kernelRun6_A (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S1024x4096 .bf16) (x1 : Vec F S4096x128 .bf16) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc6__adjmm_kernel i arg2 harg2 arg3 harg3 arg4 harg4 arg5 harg5 arg6 harg6) K } := by
  refine ⟨[], ?_, fun xi3 E K => ?run⟩
  case run =>
    simp only [cc6__adjmm_kernel_eq_skeleton]; unfold cc6__adjmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R6RunB.lean ====
import proofs.«120270_j2259152797813_2_alg».proof.Proof.KI.R6RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an odd point: the reduction coordinate is 1). On whole memrefs — the three inputs at their contents,
    the output's buffer at anything, the accumulator at the contents `xs0` the point before left — the body adds
    the product of the two input blocks to the accumulator and stores the rectified sum of the accumulator and
    the third input into the output: the inputs come back as they were, the output's buffer with its pieces `L3`
    written and the accumulator with its pieces `LS0` written (last first), both found by running the body. -/
noncomputable def kernelRun6_B (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S1024x4096 .bf16) (x1 : Vec F S4096x128 .bf16) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc6__adjmm_kernel i arg2 harg2 arg3 harg3 arg4 harg4 arg5 harg5 arg6 harg6) K } := by
  refine ⟨?_, ?_, fun E K => ?run⟩
  case run =>
    simp only [cc6__adjmm_kernel_eq_skeleton]; unfold cc6__adjmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R6.lean ====
import proofs.«120270_j2259152797813_2_alg».proof.Proof.KI.R6RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: what the two cases leave, point by point; the proof data; the body obligation -/

/-! ## Per case -/

/-- Case A stores nothing into the output (the window is idle at the even points and not written back there):
    a placeholder nothing consults. -/
def out6_A_3 (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S1024x4096 .bf16) (x1 : Vec F S4096x128 .bf16) (x2 : Vec F S1024x128 .f32) : Vec F S1024x128 .f32 :=
  VO6_3.read (Elt F) (VO6_3.writes (Elt F) VO6_3.junk (kernelRun6_A c i arg2 harg2 arg3 harg3 arg4 harg4 arg5 harg5 arg6 harg6 hc0 hc1 x0 x1 x2).1)

/-- Case A's pieces for the accumulator tile it, so they cover it. -/
theorem scover6_A_0 (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S1024x4096 .bf16) (x1 : Vec F S4096x128 .bf16) (x2 : Vec F S1024x128 .f32) (y : S1024x128.Idx) :
    ∃ pc ∈ (kernelRun6_A c i arg2 harg2 arg3 harg3 arg4 harg4 arg5 harg5 arg6 harg6 hc0 hc1 x0 x1 x2).2.1, y ∈ pc.1.set :=
  View.cover_of_tiledL (kernelRun6_A c i arg2 harg2 arg3 harg3 arg4 harg4 arg5 harg5 arg6 harg6 hc0 hc1 x0 x1 x2).2.1 S1024x128.size (by sl_kernel_rfl) y

/-- What case A leaves in the accumulator: its pieces read back. -/
def sout6_A_0 (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S1024x4096 .bf16) (x1 : Vec F S4096x128 .bf16) (x2 : Vec F S1024x128 .f32) : Vec F S1024x128 .f32 :=
  VS6_0.read (Elt F) (VS6_0.writes (Elt F) VS6_0.junk (kernelRun6_A c i arg2 harg2 arg3 harg3 arg4 harg4 arg5 harg5 arg6 harg6 hc0 hc1 x0 x1 x2).2.1)

/-- Case B's pieces for the output tile its block, so they cover it. -/
theorem cover6_B_3 (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S1024x4096 .bf16) (x1 : Vec F S4096x128 .bf16) (x2 : Vec F S1024x128 .f32) (xs0 : Vec F S1024x128 .f32) (y : S1024x128.Idx) :
    ∃ pc ∈ (kernelRun6_B c i arg2 harg2 arg3 harg3 arg4 harg4 arg5 harg5 arg6 harg6 hc0 hc1 x0 x1 x2 xs0).1, y ∈ pc.1.set :=
  View.cover_of_tiledL (kernelRun6_B c i arg2 harg2 arg3 harg3 arg4 harg4 arg5 harg5 arg6 harg6 hc0 hc1 x0 x1 x2 xs0).1 S1024x128.size (by sl_kernel_rfl) y

/-- What case B leaves in the output's staging buffer: its pieces read back. -/
def out6_B_3 (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S1024x4096 .bf16) (x1 : Vec F S4096x128 .bf16) (x2 : Vec F S1024x128 .f32) (xs0 : Vec F S1024x128 .f32) : Vec F S1024x128 .f32 :=
  VO6_3.read (Elt F) (VO6_3.writes (Elt F) VO6_3.junk (kernelRun6_B c i arg2 harg2 arg3 harg3 arg4 harg4 arg5 harg5 arg6 harg6 hc0 hc1 x0 x1 x2 xs0).1)

/-- Case B's pieces for the accumulator tile it, so they cover it. -/
theorem scover6_B_0 (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S1024x4096 .bf16) (x1 : Vec F S4096x128 .bf16) (x2 : Vec F S1024x128 .f32) (xs0 : Vec F S1024x128 .f32) (y : S1024x128.Idx) :
    ∃ pc ∈ (kernelRun6_B c i arg2 harg2 arg3 harg3 arg4 harg4 arg5 harg5 arg6 harg6 hc0 hc1 x0 x1 x2 xs0).2.1, y ∈ pc.1.set :=
  View.cover_of_tiledL (kernelRun6_B c i arg2 harg2 arg3 harg3 arg4 harg4 arg5 harg5 arg6 harg6 hc0 hc1 x0 x1 x2 xs0).2.1 S1024x128.size (by sl_kernel_rfl) y

/-- What case B leaves in the accumulator: its pieces read back. -/
def sout6_B_0 (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S1024x4096 .bf16) (x1 : Vec F S4096x128 .bf16) (x2 : Vec F S1024x128 .f32) (xs0 : Vec F S1024x128 .f32) : Vec F S1024x128 .f32 :=
  VS6_0.read (Elt F) (VS6_0.writes (Elt F) VS6_0.junk (kernelRun6_B c i arg2 harg2 arg3 harg3 arg4 harg4 arg5 harg5 arg6 harg6 hc0 hc1 x0 x1 x2 xs0).2.1)

/-! ## Which case a point is in -/

theorem hc6A0 (t : Fin cfg6.N) (h0 : t.val % 2 = 0) : cond6_0 (grid6.coords t) := (hcond6_0 t).mpr h0
theorem hc6A1 (t : Fin cfg6.N) (h0 : t.val % 2 = 0) : ¬cond6_1 (grid6.coords t) := fun h => by
  have h1 := (hcond6_1 t).mp h; omega
theorem hc6B0 (t : Fin cfg6.N) (h0 : ¬t.val % 2 = 0) : ¬cond6_0 (grid6.coords t) := fun h => h0 ((hcond6_0 t).mp h)
theorem hc6B1 (t : Fin cfg6.N) (h0 : ¬t.val % 2 = 0) : cond6_1 (grid6.coords t) := (hcond6_1 t).mpr (by omega)

section R6
variable (V : (c : Dev nD) → (b : Ref sig .tc) → Buf (Elt F) ((c : Thread nD τ).loc b))

/-! ## Point by point -/

/-- At an even point `t`: the output's placeholder, -/
def oA6 (c : Dev nD) (t : Fin cfg6.N) (h0 : t.val % 2 = 0) : Vec F S1024x128 .f32 :=
  out6_A_3 c (grid6.coords t) (ms6_0 t) (hs6_0 t) (ms6_1 t) (hs6_1 t) (ms6_2 t) (hs6_2 t) (ms6_3 t) (hs6_3 t) scM6_0 (Memref.isWhole_whole _) (hc6A0 t h0) (hc6A1 t h0) (iblk6 V c 0 t) (iblk6 V c 1 t) (iblk6 V c 2 t)
/-- and the accumulator: zero plus the product of the point's two blocks. -/
def sA6 (c : Dev nD) (t : Fin cfg6.N) (h0 : t.val % 2 = 0) : Vec F S1024x128 .f32 :=
  sout6_A_0 c (grid6.coords t) (ms6_0 t) (hs6_0 t) (ms6_1 t) (hs6_1 t) (ms6_2 t) (hs6_2 t) (ms6_3 t) (hs6_3 t) scM6_0 (Memref.isWhole_whole _) (hc6A0 t h0) (hc6A1 t h0) (iblk6 V c 0 t) (iblk6 V c 1 t) (iblk6 V c 2 t)
/-- At an odd point `t`, the accumulator holding `xs0` before it: the output, -/
def oB6 (c : Dev nD) (t : Fin cfg6.N) (h0 : ¬t.val % 2 = 0) (xs0 : Vec F S1024x128 .f32) : Vec F S1024x128 .f32 :=
  out6_B_3 c (grid6.coords t) (ms6_0 t) (hs6_0 t) (ms6_1 t) (hs6_1 t) (ms6_2 t) (hs6_2 t) (ms6_3 t) (hs6_3 t) scM6_0 (Memref.isWhole_whole _) (hc6B0 t h0) (hc6B1 t h0) (iblk6 V c 0 t) (iblk6 V c 1 t) (iblk6 V c 2 t) xs0
/-- and the accumulator. -/
def sB6 (c : Dev nD) (t : Fin cfg6.N) (h0 : ¬t.val % 2 = 0) (xs0 : Vec F S1024x128 .f32) : Vec F S1024x128 .f32 :=
  sout6_B_0 c (grid6.coords t) (ms6_0 t) (hs6_0 t) (ms6_1 t) (hs6_1 t) (ms6_2 t) (hs6_2 t) (ms6_3 t) (hs6_3 t) scM6_0 (Memref.isWhole_whole _) (hc6B0 t h0) (hc6B1 t h0) (iblk6 V c 0 t) (iblk6 V c 1 t) (iblk6 V c 2 t) xs0

/-- THE ACCUMULATION. What the output's staging buffer and the accumulator hold after the body at position `n`
    (a pair: the output, then the accumulator): an even point starts the accumulator afresh, an odd one continues
    from what the point before left. -/
def accAt6 (c : Dev nD) : (n : ℕ) → n < cfg6.N → Vec F S1024x128 .f32 × Vec F S1024x128 .f32
  | 0, hn => (oA6 V c ⟨0, hn⟩ (Nat.zero_mod _), sA6 V c ⟨0, hn⟩ (Nat.zero_mod _))
  | n + 1, hn =>
    if h0 : (n + 1) % 2 = 0 then
      (oA6 V c ⟨n + 1, hn⟩ h0, sA6 V c ⟨n + 1, hn⟩ h0)
    else
      (oB6 V c ⟨n + 1, hn⟩ h0 (accAt6 c n (Nat.lt_of_succ_lt hn)).2, sB6 V c ⟨n + 1, hn⟩ h0 (accAt6 c n (Nat.lt_of_succ_lt hn)).2)

/-- At an even point: case A's contents. -/
theorem accAt6_A (c : Dev nD) (t : Fin cfg6.N) (h0 : t.val % 2 = 0) :
    accAt6 V c t.val t.isLt = (oA6 V c t h0, sA6 V c t h0) := by
  obtain ⟨n, hn⟩ := t
  cases n with
  | zero => exact rfl
  | succ n => exact (dif_pos h0).trans rfl

/-- At an odd point: case B's contents, over what the point before left in the accumulator. -/
theorem accAt6_B (c : Dev nD) (t : Fin cfg6.N) (h0 : ¬t.val % 2 = 0) :
    accAt6 V c t.val t.isLt
      = (oB6 V c t h0 (accAt6 V c (t.val - 1) (Nat.lt_of_le_of_lt (Nat.sub_le _ _) t.isLt)).2,
         sB6 V c t h0 (accAt6 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- What the output's staging buffer holds after the body at point `t`. -/
def outsAt6 (c : Dev nD) (t : Fin cfg6.N) : Vec F S1024x128 .f32 := (accAt6 V c t.val t.isLt).1
/-- What the accumulator holds after the body at point `t`. -/
def sAt6 (c : Dev nD) (t : Fin cfg6.N) : Vec F S1024x128 .f32 := (accAt6 V c t.val t.isLt).2

/-! ## The invariant -/

/-- The region's invariant before position `n`: before the first point, what the launch hands over (every
    scoped buffer no window stages at anything, the generator register at some state); afterwards the same with
    the accumulator at what the point before left in it. -/
def PhiS6 (c : Dev nD) : (n : ℕ) → n ≤ cfg6.N → sProp 𝕄
  | 0, _ => Pipeline.ΦA spec6 c
  | n + 1, hn => iprop(iprop(owns (c : Thread nD τ) scM6_0 fullShare ((accAt6 V c n hn).2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((accAt6 V c n hn).2) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((accAt6 V c (n - 1) (by omega)).2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The proof data -/

/-- The region's proof data on core `c`: the arrays as the region finds them; after the body each input's buffer
    at its block and the output's at `outsAt6`; the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => outsAt6 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (accAt6 V c t.val t.isLt).1 := by dsimp only [dat6, outsAt6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point. The inputs' memrefs hold their blocks; the point's parity says which case it is in.
    At an even point the accumulator goes in at anything (whatever the invariant holds it at) and the output's
    buffer comes back untouched; at an odd point the accumulator goes in at what the point before left. Either
    way it comes back at this point's contents, its pieces covering it; the rest of the invariant is untouched
    and the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  have hN : t.val < 16 := lt_of_lt_of_eq t.isLt (show cfg6.N = 16 from N_6)
  by_cases h0 : t.val % 2 = 0
  · rw [Dat.leavesExact_idle (dat6 V c) 3 t (idleAt6_3_A t (hc6A0 t h0) (hc6A1 t h0)) (noFlush6_3_A t (hc6A0 t h0) (hc6A1 t h0))]
    rw [accAt6_A V c t h0]
    unfold sA6 sout6_A_0; (try dsimp only)
    by_cases hz : t.val = 0
    · rw [PhiS6_castSucc V c t, PhiS6_zero V c _ _ hz, PhiA6_eq]
      iintro ⟨⟨⟨HS0, HR⟩, Hg⟩, Ho, ⟨%d0, H0⟩, ⟨%d1, H1⟩, ⟨%d2, H2⟩, ⟨%d3, H3⟩⟩
      iapply ((kernelRun6_A c (grid6.coords t) _ _ _ _ _ _ _ _ _ _ (hc6A0 t h0) (hc6A1 t h0) (iblk6 V c 0 t) (iblk6 V c 1 t) (iblk6 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS6_castSucc V c t, PhiS6_pos V c _ _ hz]
      iintro ⟨⟨⟨HS0, HR⟩, Hg⟩, Ho, ⟨%d0, H0⟩, ⟨%d1, H1⟩, ⟨%d2, H2⟩, ⟨%d3, H3⟩⟩
      iapply ((kernelRun6_A c (grid6.coords t) _ _ _ _ _ _ _ _ _ _ (hc6A0 t h0) (hc6A1 t h0) (iblk6 V c 0 t) (iblk6 V c 1 t) (iblk6 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat6 V c).leavesExact 3 t = owns (c : Thread nD τ) (ms6_3 t) fullShare ((dat6 V c).after 3 t) from by
      unfold Dat.leavesExact; rw [liveAt6_3_B t (hc6B0 t h0) (hc6B1 t h0)], after6_3]
    rw [accAt6_B V c t h0]
    unfold oB6 sB6 out6_B_3 sout6_B_0; (try dsimp only)
    have hz : t.val ≠ 0 := fun e => h0 (by rw [e])
    rw [PhiS6_castSucc V c t, PhiS6_pos V c _ _ hz]
    iintro ⟨⟨⟨HS0, HR⟩, Hg⟩, Ho, ⟨%d0, H0⟩, ⟨%d1, H1⟩, ⟨%d2, H2⟩, ⟨%d3, H3⟩⟩
    iapply ((kernelRun6_B c (grid6.coords t) _ _ _ _ _ _ _ _ _ _ (hc6B0 t h0) (hc6B1 t h0) (iblk6 V c 0 t) (iblk6 V c 1 t) (iblk6 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover6_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover6_B_3 c _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Into the invariant and out of it -/

/-- What the launch hands the region is the invariant before the first point. -/
theorem hin6 (c : Dev nD) :
    iprop((∃ r, prngReg c r) ∗ Pipeline.scopedRest (Ix := Unit) (Name := ℕ) (U := UR sig nD τ) (Lvl := ℕ) (Val := Elt F) spec6 c)
      ⊢ ((dat6 V c).Φ 0 : sProp 𝕄) := by
  rw [show (dat6 V c).Φ 0 = PhiS6 V c 0 (Nat.zero_le _) from rfl, PhiS6_zero V c 0 _ rfl]
  unfold Pipeline.ΦA
  iintro ⟨Hp, Hr⟩
  isplitl [Hr]; · iexact Hr
  iexact Hp

/-- After any point the invariant gives the same back: the accumulator's named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg

/-- The same after the last point, in the order the launch takes it back. -/
theorem hout6 (c : Dev nD) :
    ((dat6 V c).Φ (Fin.last cfg6.N) : sProp 𝕄)
      ⊢ iprop((∃ r, prngReg c r) ∗ Pipeline.scopedRest (Ix := Unit) (Name := ℕ) (U := UR sig nD τ) (Lvl := ℕ) (Val := Elt F) spec6 c) := by
  refine (Phi_out6 V c _ (by rw [Fin.val_last]; have : cfg6.N = 16 := N_6; omega)).trans ?_
  unfold Pipeline.ΦA
  iintro ⟨Hr, Hp⟩
  isplitl [Hp]; · iexact Hp
  iexact Hr

end R6

end Cert.KernelIdeal.Hand

end
-- ==== Proof.KI.R7Runs.lean ====
import proofs.«120270_j2259152797813_2_alg».proof.Proof.Gen.KernelIdeal.Launch
import proofs.«120270_j2259152797813_2_alg».proof.Proof.Gen.KernelIdeal.Skeleton
import proofs.«120270_j2259152797813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7 (the adjacency product with a carried accumulator): what its two cases share -/

section R7
variable (V : (c : Dev nD) → (b : Ref sig .tc) → Buf (Elt F) ((c : Thread nD τ).loc b))

/-- Window `w`'s block at grid point `t`, read off the array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, whether the point fetches it or
    not (an unfetched window's block index has not moved), for any proof data over the entry contents whose
    body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

end R7

/-! ## The body's two branch conditions, over the grid -/

/-- The first conditional (zero the accumulator): the reduction coordinate is 0. -/
abbrev cond7_0 (i : grid7.Coords) : Prop := (Scalar.cmpi .ne (Scalar.extui (Scalar.cmpi .eq (BitVec.ofNat 32 (i 1).val) 0#32)) 0#32) = 1#1
/-- It holds at the even points. -/
theorem hcond7_0 : ∀ t : Fin cfg7.N, cond7_0 (grid7.coords t) ↔ t.val % 2 = 0 :=
  (by decide +kernel : ∀ t : Fin grid7.N, cond7_0 (grid7.coords t) ↔ t.val % 2 = 0)

/-- The second conditional (store the output): the reduction coordinate is 1. -/
abbrev cond7_1 (i : grid7.Coords) : Prop := k7_cond2 i = 1#1
/-- It holds at the odd points. -/
theorem hcond7_1 : ∀ t : Fin cfg7.N, cond7_1 (grid7.coords t) ↔ t.val % 2 = 1 :=
  (by decide +kernel : ∀ t : Fin grid7.N, cond7_1 (grid7.coords t) ↔ t.val % 2 = 1)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
/-- At an even point the output window is idle: nothing is stored into it, -/
theorem idleAt7_3_A : ∀ t : Fin cfg7.N, cond7_0 (grid7.coords t) → ¬cond7_1 (grid7.coords t) → cfg7.idle 3 (grid7.coords t) = true := by decide +kernel
/-- and its block is not written back. -/
theorem noFlush7_3_A : ∀ t : Fin cfg7.N, cond7_0 (grid7.coords t) → ¬cond7_1 (grid7.coords t) → (cfg7.win 3).flush t = false := by decide +kernel
/-- At an odd point the output window is live. -/
theorem liveAt7_3_B : ∀ t : Fin cfg7.N, ¬cond7_0 (grid7.coords t) → cond7_1 (grid7.coords t) → cfg7.idle 3 (grid7.coords t) = false := by decide +kernel

/-! ## The memrefs the body is called with -/

/-- One staging buffer of the output window, through which its contents are stated. -/
abbrev VO7_3 : View sig .tc .vmem S1024x128 .f32 := (Memref.whole cc7_stg3_0 : Memref sig .tc .vmem S1024x128 .f32).view
abbrev ms7_0 (t : Fin cfg7.N) : Memref sig .tc .vmem S1024x4096 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S4096x128 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x128 .f32 := win7_3.stage (cfg7.slots t 3)
abbrev hs7_3 (t : Fin cfg7.N) : (ms7_3 t).IsWhole := hstage7_3 ((cfg7.slots t 3).cast nbuf7_3)
/-- The accumulator: a whole scoped buffer of the kernel's own, passed beside the windows, -/
abbrev scM7_0 : Memref sig .tc .vmem S1024x128 .f32 := Memref.whole cc7_scratch0
/-- and as a view. -/
abbrev VS7_0 : View sig .tc .vmem S1024x128 .f32 := scM7_0.view

/-- What the launch hands the region beside the windows — the scoped buffers no window stages and the
    generator register — with the accumulator split out as a memref owned at some contents. -/
theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

end Cert.KernelIdeal.Hand

end
-- ==== Proof.KI.R7RunA.lean ====
import proofs.«120270_j2259152797813_2_alg».proof.Proof.KI.R7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (an even point: the reduction coordinate is 0). On whole memrefs — the three inputs at their contents,
    the output's buffer at contents `xi3` that the body does not touch, the accumulator at anything — the body
    zeroes the accumulator, adds the product of the two input blocks to it, and returns the inputs and the
    output's buffer as they were and the accumulator with its stores written: the pieces `LS0` (last first) are
    found by running the body. The output gets no piece. -/
noncomputable def kernelRun7_A (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond7_0 i) (hc1 : ¬cond7_1 i)
    (x0 : Vec F S1024x4096 .bf16) (x1 : Vec F S4096x128 .bf16) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__adjmm_kernel i arg2 harg2 arg3 harg3 arg4 harg4 arg5 harg5 arg6 harg6) K } := by
  refine ⟨[], ?_, fun xi3 E K => ?run⟩
  case run =>
    simp only [cc7__adjmm_kernel_eq_skeleton]; unfold cc7__adjmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R7RunB.lean ====
import proofs.«120270_j2259152797813_2_alg».proof.Proof.KI.R7RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an odd point: the reduction coordinate is 1). On whole memrefs — the three inputs at their contents,
    the output's buffer at anything, the accumulator at the contents `xs0` the point before left — the body adds
    the product of the two input blocks to the accumulator and stores the rectified sum of the accumulator and
    the third input into the output: the inputs come back as they were, the output's buffer with its pieces `L3`
    written and the accumulator with its pieces `LS0` written (last first), both found by running the body. -/
noncomputable def kernelRun7_B (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond7_0 i) (hc1 : cond7_1 i)
    (x0 : Vec F S1024x4096 .bf16) (x1 : Vec F S4096x128 .bf16) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc7__adjmm_kernel i arg2 harg2 arg3 harg3 arg4 harg4 arg5 harg5 arg6 harg6) K } := by
  refine ⟨?_, ?_, fun E K => ?run⟩
  case run =>
    simp only [cc7__adjmm_kernel_eq_skeleton]; unfold cc7__adjmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R7.lean ====
import proofs.«120270_j2259152797813_2_alg».proof.Proof.KI.R7RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: what the two cases leave, point by point; the proof data; the body obligation -/

/-! ## Per case -/

/-- Case A stores nothing into the output (the window is idle at the even points and not written back there):
    a placeholder nothing consults. -/
def out7_A_3 (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond7_0 i) (hc1 : ¬cond7_1 i)
    (x0 : Vec F S1024x4096 .bf16) (x1 : Vec F S4096x128 .bf16) (x2 : Vec F S1024x128 .f32) : Vec F S1024x128 .f32 :=
  VO7_3.read (Elt F) (VO7_3.writes (Elt F) VO7_3.junk (kernelRun7_A c i arg2 harg2 arg3 harg3 arg4 harg4 arg5 harg5 arg6 harg6 hc0 hc1 x0 x1 x2).1)

/-- Case A's pieces for the accumulator tile it, so they cover it. -/
theorem scover7_A_0 (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond7_0 i) (hc1 : ¬cond7_1 i)
    (x0 : Vec F S1024x4096 .bf16) (x1 : Vec F S4096x128 .bf16) (x2 : Vec F S1024x128 .f32) (y : S1024x128.Idx) :
    ∃ pc ∈ (kernelRun7_A c i arg2 harg2 arg3 harg3 arg4 harg4 arg5 harg5 arg6 harg6 hc0 hc1 x0 x1 x2).2.1, y ∈ pc.1.set :=
  View.cover_of_tiledL (kernelRun7_A c i arg2 harg2 arg3 harg3 arg4 harg4 arg5 harg5 arg6 harg6 hc0 hc1 x0 x1 x2).2.1 S1024x128.size (by sl_kernel_rfl) y

/-- What case A leaves in the accumulator: its pieces read back. -/
def sout7_A_0 (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond7_0 i) (hc1 : ¬cond7_1 i)
    (x0 : Vec F S1024x4096 .bf16) (x1 : Vec F S4096x128 .bf16) (x2 : Vec F S1024x128 .f32) : Vec F S1024x128 .f32 :=
  VS7_0.read (Elt F) (VS7_0.writes (Elt F) VS7_0.junk (kernelRun7_A c i arg2 harg2 arg3 harg3 arg4 harg4 arg5 harg5 arg6 harg6 hc0 hc1 x0 x1 x2).2.1)

/-- Case B's pieces for the output tile its block, so they cover it. -/
theorem cover7_B_3 (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond7_0 i) (hc1 : cond7_1 i)
    (x0 : Vec F S1024x4096 .bf16) (x1 : Vec F S4096x128 .bf16) (x2 : Vec F S1024x128 .f32) (xs0 : Vec F S1024x128 .f32) (y : S1024x128.Idx) :
    ∃ pc ∈ (kernelRun7_B c i arg2 harg2 arg3 harg3 arg4 harg4 arg5 harg5 arg6 harg6 hc0 hc1 x0 x1 x2 xs0).1, y ∈ pc.1.set :=
  View.cover_of_tiledL (kernelRun7_B c i arg2 harg2 arg3 harg3 arg4 harg4 arg5 harg5 arg6 harg6 hc0 hc1 x0 x1 x2 xs0).1 S1024x128.size (by sl_kernel_rfl) y

/-- What case B leaves in the output's staging buffer: its pieces read back. -/
def out7_B_3 (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond7_0 i) (hc1 : cond7_1 i)
    (x0 : Vec F S1024x4096 .bf16) (x1 : Vec F S4096x128 .bf16) (x2 : Vec F S1024x128 .f32) (xs0 : Vec F S1024x128 .f32) : Vec F S1024x128 .f32 :=
  VO7_3.read (Elt F) (VO7_3.writes (Elt F) VO7_3.junk (kernelRun7_B c i arg2 harg2 arg3 harg3 arg4 harg4 arg5 harg5 arg6 harg6 hc0 hc1 x0 x1 x2 xs0).1)

/-- Case B's pieces for the accumulator tile it, so they cover it. -/
theorem scover7_B_0 (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond7_0 i) (hc1 : cond7_1 i)
    (x0 : Vec F S1024x4096 .bf16) (x1 : Vec F S4096x128 .bf16) (x2 : Vec F S1024x128 .f32) (xs0 : Vec F S1024x128 .f32) (y : S1024x128.Idx) :
    ∃ pc ∈ (kernelRun7_B c i arg2 harg2 arg3 harg3 arg4 harg4 arg5 harg5 arg6 harg6 hc0 hc1 x0 x1 x2 xs0).2.1, y ∈ pc.1.set :=
  View.cover_of_tiledL (kernelRun7_B c i arg2 harg2 arg3 harg3 arg4 harg4 arg5 harg5 arg6 harg6 hc0 hc1 x0 x1 x2 xs0).2.1 S1024x128.size (by sl_kernel_rfl) y

/-- What case B leaves in the accumulator: its pieces read back. -/
def sout7_B_0 (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond7_0 i) (hc1 : cond7_1 i)
    (x0 : Vec F S1024x4096 .bf16) (x1 : Vec F S4096x128 .bf16) (x2 : Vec F S1024x128 .f32) (xs0 : Vec F S1024x128 .f32) : Vec F S1024x128 .f32 :=
  VS7_0.read (Elt F) (VS7_0.writes (Elt F) VS7_0.junk (kernelRun7_B c i arg2 harg2 arg3 harg3 arg4 harg4 arg5 harg5 arg6 harg6 hc0 hc1 x0 x1 x2 xs0).2.1)

/-! ## Which case a point is in -/

theorem hc7A0 (t : Fin cfg7.N) (h0 : t.val % 2 = 0) : cond7_0 (grid7.coords t) := (hcond7_0 t).mpr h0
theorem hc7A1 (t : Fin cfg7.N) (h0 : t.val % 2 = 0) : ¬cond7_1 (grid7.coords t) := fun h => by
  have h1 := (hcond7_1 t).mp h; omega
theorem hc7B0 (t : Fin cfg7.N) (h0 : ¬t.val % 2 = 0) : ¬cond7_0 (grid7.coords t) := fun h => h0 ((hcond7_0 t).mp h)
theorem hc7B1 (t : Fin cfg7.N) (h0 : ¬t.val % 2 = 0) : cond7_1 (grid7.coords t) := (hcond7_1 t).mpr (by omega)

section R7
variable (V : (c : Dev nD) → (b : Ref sig .tc) → Buf (Elt F) ((c : Thread nD τ).loc b))

/-! ## Point by point -/

/-- At an even point `t`: the output's placeholder, -/
def oA7 (c : Dev nD) (t : Fin cfg7.N) (h0 : t.val % 2 = 0) : Vec F S1024x128 .f32 :=
  out7_A_3 c (grid7.coords t) (ms7_0 t) (hs7_0 t) (ms7_1 t) (hs7_1 t) (ms7_2 t) (hs7_2 t) (ms7_3 t) (hs7_3 t) scM7_0 (Memref.isWhole_whole _) (hc7A0 t h0) (hc7A1 t h0) (iblk7 V c 0 t) (iblk7 V c 1 t) (iblk7 V c 2 t)
/-- and the accumulator: zero plus the product of the point's two blocks. -/
def sA7 (c : Dev nD) (t : Fin cfg7.N) (h0 : t.val % 2 = 0) : Vec F S1024x128 .f32 :=
  sout7_A_0 c (grid7.coords t) (ms7_0 t) (hs7_0 t) (ms7_1 t) (hs7_1 t) (ms7_2 t) (hs7_2 t) (ms7_3 t) (hs7_3 t) scM7_0 (Memref.isWhole_whole _) (hc7A0 t h0) (hc7A1 t h0) (iblk7 V c 0 t) (iblk7 V c 1 t) (iblk7 V c 2 t)
/-- At an odd point `t`, the accumulator holding `xs0` before it: the output, -/
def oB7 (c : Dev nD) (t : Fin cfg7.N) (h0 : ¬t.val % 2 = 0) (xs0 : Vec F S1024x128 .f32) : Vec F S1024x128 .f32 :=
  out7_B_3 c (grid7.coords t) (ms7_0 t) (hs7_0 t) (ms7_1 t) (hs7_1 t) (ms7_2 t) (hs7_2 t) (ms7_3 t) (hs7_3 t) scM7_0 (Memref.isWhole_whole _) (hc7B0 t h0) (hc7B1 t h0) (iblk7 V c 0 t) (iblk7 V c 1 t) (iblk7 V c 2 t) xs0
/-- and the accumulator. -/
def sB7 (c : Dev nD) (t : Fin cfg7.N) (h0 : ¬t.val % 2 = 0) (xs0 : Vec F S1024x128 .f32) : Vec F S1024x128 .f32 :=
  sout7_B_0 c (grid7.coords t) (ms7_0 t) (hs7_0 t) (ms7_1 t) (hs7_1 t) (ms7_2 t) (hs7_2 t) (ms7_3 t) (hs7_3 t) scM7_0 (Memref.isWhole_whole _) (hc7B0 t h0) (hc7B1 t h0) (iblk7 V c 0 t) (iblk7 V c 1 t) (iblk7 V c 2 t) xs0

/-- THE ACCUMULATION. What the output's staging buffer and the accumulator hold after the body at position `n`
    (a pair: the output, then the accumulator): an even point starts the accumulator afresh, an odd one continues
    from what the point before left. -/
def accAt7 (c : Dev nD) : (n : ℕ) → n < cfg7.N → Vec F S1024x128 .f32 × Vec F S1024x128 .f32
  | 0, hn => (oA7 V c ⟨0, hn⟩ (Nat.zero_mod _), sA7 V c ⟨0, hn⟩ (Nat.zero_mod _))
  | n + 1, hn =>
    if h0 : (n + 1) % 2 = 0 then
      (oA7 V c ⟨n + 1, hn⟩ h0, sA7 V c ⟨n + 1, hn⟩ h0)
    else
      (oB7 V c ⟨n + 1, hn⟩ h0 (accAt7 c n (Nat.lt_of_succ_lt hn)).2, sB7 V c ⟨n + 1, hn⟩ h0 (accAt7 c n (Nat.lt_of_succ_lt hn)).2)

/-- At an even point: case A's contents. -/
theorem accAt7_A (c : Dev nD) (t : Fin cfg7.N) (h0 : t.val % 2 = 0) :
    accAt7 V c t.val t.isLt = (oA7 V c t h0, sA7 V c t h0) := by
  obtain ⟨n, hn⟩ := t
  cases n with
  | zero => exact rfl
  | succ n => exact (dif_pos h0).trans rfl

/-- At an odd point: case B's contents, over what the point before left in the accumulator. -/
theorem accAt7_B (c : Dev nD) (t : Fin cfg7.N) (h0 : ¬t.val % 2 = 0) :
    accAt7 V c t.val t.isLt
      = (oB7 V c t h0 (accAt7 V c (t.val - 1) (Nat.lt_of_le_of_lt (Nat.sub_le _ _) t.isLt)).2,
         sB7 V c t h0 (accAt7 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- What the output's staging buffer holds after the body at point `t`. -/
def outsAt7 (c : Dev nD) (t : Fin cfg7.N) : Vec F S1024x128 .f32 := (accAt7 V c t.val t.isLt).1
/-- What the accumulator holds after the body at point `t`. -/
def sAt7 (c : Dev nD) (t : Fin cfg7.N) : Vec F S1024x128 .f32 := (accAt7 V c t.val t.isLt).2

/-! ## The invariant -/

/-- The region's invariant before position `n`: before the first point, what the launch hands over (every
    scoped buffer no window stages at anything, the generator register at some state); afterwards the same with
    the accumulator at what the point before left in it. -/
def PhiS7 (c : Dev nD) : (n : ℕ) → n ≤ cfg7.N → sProp 𝕄
  | 0, _ => Pipeline.ΦA spec7 c
  | n + 1, hn => iprop(iprop(owns (c : Thread nD τ) scM7_0 fullShare ((accAt7 V c n hn).2) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7_0 fullShare ((accAt7 V c n hn).2) ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7_0 fullShare ((accAt7 V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The proof data -/

/-- The region's proof data on core `c`: the arrays as the region finds them; after the body each input's buffer
    at its block and the output's at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => outsAt7 V c t
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (accAt7 V c t.val t.isLt).1 := by dsimp only [dat7, outsAt7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point. The inputs' memrefs hold their blocks; the point's parity says which case it is in.
    At an even point the accumulator goes in at anything (whatever the invariant holds it at) and the output's
    buffer comes back untouched; at an odd point the accumulator goes in at what the point before left. Either
    way it comes back at this point's contents, its pieces covering it; the rest of the invariant is untouched
    and the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  have hN : t.val < 16 := lt_of_lt_of_eq t.isLt (show cfg7.N = 16 from N_7)
  by_cases h0 : t.val % 2 = 0
  · rw [Dat.leavesExact_idle (dat7 V c) 3 t (idleAt7_3_A t (hc7A0 t h0) (hc7A1 t h0)) (noFlush7_3_A t (hc7A0 t h0) (hc7A1 t h0))]
    rw [accAt7_A V c t h0]
    unfold sA7 sout7_A_0; (try dsimp only)
    by_cases hz : t.val = 0
    · rw [PhiS7_castSucc V c t, PhiS7_zero V c _ _ hz, PhiA7_eq]
      iintro ⟨⟨⟨HS0, HR⟩, Hg⟩, Ho, ⟨%d0, H0⟩, ⟨%d1, H1⟩, ⟨%d2, H2⟩, ⟨%d3, H3⟩⟩
      iapply ((kernelRun7_A c (grid7.coords t) _ _ _ _ _ _ _ _ _ _ (hc7A0 t h0) (hc7A1 t h0) (iblk7 V c 0 t) (iblk7 V c 1 t) (iblk7 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩⟩
      iapply ((kernelRun7_A c (grid7.coords t) _ _ _ _ _ _ _ _ _ _ (hc7A0 t h0) (hc7A1 t h0) (iblk7 V c 0 t) (iblk7 V c 1 t) (iblk7 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat7 V c).leavesExact 3 t = owns (c : Thread nD τ) (ms7_3 t) fullShare ((dat7 V c).after 3 t) from by
      unfold Dat.leavesExact; rw [liveAt7_3_B t (hc7B0 t h0) (hc7B1 t h0)], after7_3]
    rw [accAt7_B V c t h0]
    unfold oB7 sB7 out7_B_3 sout7_B_0; (try dsimp only)
    have hz : t.val ≠ 0 := fun e => h0 (by rw [e])
    rw [PhiS7_castSucc V c t, PhiS7_pos V c _ _ hz]
    iintro ⟨⟨⟨HS0, HR⟩, Hg⟩, Ho, ⟨%d0, H0⟩, ⟨%d1, H1⟩, ⟨%d2, H2⟩, ⟨%d3, H3⟩⟩
    iapply ((kernelRun7_B c (grid7.coords t) _ _ _ _ _ _ _ _ _ _ (hc7B0 t h0) (hc7B1 t h0) (iblk7 V c 0 t) (iblk7 V c 1 t) (iblk7 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover7_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover7_B_3 c _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Into the invariant and out of it -/

/-- What the launch hands the region is the invariant before the first point. -/
theorem hin7 (c : Dev nD) :
    iprop((∃ r, prngReg c r) ∗ Pipeline.scopedRest (Ix := Unit) (Name := ℕ) (U := UR sig nD τ) (Lvl := ℕ) (Val := Elt F) spec7 c)
      ⊢ ((dat7 V c).Φ 0 : sProp 𝕄) := by
  rw [show (dat7 V c).Φ 0 = PhiS7 V c 0 (Nat.zero_le _) from rfl, PhiS7_zero V c 0 _ rfl]
  unfold Pipeline.ΦA
  iintro ⟨Hp, Hr⟩
  isplitl [Hr]; · iexact Hr
  iexact Hp

/-- After any point the invariant gives the same back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, HR⟩, Hg⟩
  isplitl [HS0 HR]
  · isplitl [HS0]
    · iexists _; iexact HS0
    iexact HR
  iexact Hg

/-- The same after the last point, in the order the launch takes it back. -/
theorem hout7 (c : Dev nD) :
    ((dat7 V c).Φ (Fin.last cfg7.N) : sProp 𝕄)
      ⊢ iprop((∃ r, prngReg c r) ∗ Pipeline.scopedRest (Ix := Unit) (Name := ℕ) (U := UR sig nD τ) (Lvl := ℕ) (Val := Elt F) spec7 c) := by
  refine (Phi_out7 V c _ (by rw [Fin.val_last]; have : cfg7.N = 16 := N_7; omega)).trans ?_
  unfold Pipeline.ΦA
  iintro ⟨Hr, Hp⟩
  isplitl [Hp]; · iexact Hp
  iexact Hr

end R7

end Cert.KernelIdeal.Hand

end
-- ==== Proof.KI.R8Runs.lean ====
import proofs.«120270_j2259152797813_2_alg».proof.Proof.Gen.KernelIdeal.Launch
import proofs.«120270_j2259152797813_2_alg».proof.Proof.Gen.KernelIdeal.Skeleton
import proofs.«120270_j2259152797813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8 (the adjacency product with a carried accumulator): what its two cases share -/

section R8
variable (V : (c : Dev nD) → (b : Ref sig .tc) → Buf (Elt F) ((c : Thread nD τ).loc b))

/-- Window `w`'s block at grid point `t`, read off the array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, whether the point fetches it or
    not (an unfetched window's block index has not moved), for any proof data over the entry contents whose
    body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

end R8

/-! ## The body's two branch conditions, over the grid -/

/-- The first conditional (zero the accumulator): the reduction coordinate is 0. -/
abbrev cond8_0 (i : grid8.Coords) : Prop := (Scalar.cmpi .ne (Scalar.extui (Scalar.cmpi .eq (BitVec.ofNat 32 (i 1).val) 0#32)) 0#32) = 1#1
/-- It holds at the even points. -/
theorem hcond8_0 : ∀ t : Fin cfg8.N, cond8_0 (grid8.coords t) ↔ t.val % 2 = 0 :=
  (by decide +kernel : ∀ t : Fin grid8.N, cond8_0 (grid8.coords t) ↔ t.val % 2 = 0)

/-- The second conditional (store the output): the reduction coordinate is 1. -/
abbrev cond8_1 (i : grid8.Coords) : Prop := k8_cond2 i = 1#1
/-- It holds at the odd points. -/
theorem hcond8_1 : ∀ t : Fin cfg8.N, cond8_1 (grid8.coords t) ↔ t.val % 2 = 1 :=
  (by decide +kernel : ∀ t : Fin grid8.N, cond8_1 (grid8.coords t) ↔ t.val % 2 = 1)

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
/-- At an even point the output window is idle: nothing is stored into it, -/
theorem idleAt8_3_A : ∀ t : Fin cfg8.N, cond8_0 (grid8.coords t) → ¬cond8_1 (grid8.coords t) → cfg8.idle 3 (grid8.coords t) = true := by decide +kernel
/-- and its block is not written back. -/
theorem noFlush8_3_A : ∀ t : Fin cfg8.N, cond8_0 (grid8.coords t) → ¬cond8_1 (grid8.coords t) → (cfg8.win 3).flush t = false := by decide +kernel
/-- At an odd point the output window is live. -/
theorem liveAt8_3_B : ∀ t : Fin cfg8.N, ¬cond8_0 (grid8.coords t) → cond8_1 (grid8.coords t) → cfg8.idle 3 (grid8.coords t) = false := by decide +kernel

/-! ## The memrefs the body is called with -/

/-- One staging buffer of the output window, through which its contents are stated. -/
abbrev VO8_3 : View sig .tc .vmem S1024x128 .f32 := (Memref.whole cc8_stg3_0 : Memref sig .tc .vmem S1024x128 .f32).view
abbrev ms8_0 (t : Fin cfg8.N) : Memref sig .tc .vmem S1024x4096 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S4096x128 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1024x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1024x128 .f32 := win8_3.stage (cfg8.slots t 3)
abbrev hs8_3 (t : Fin cfg8.N) : (ms8_3 t).IsWhole := hstage8_3 ((cfg8.slots t 3).cast nbuf8_3)
/-- The accumulator: a whole scoped buffer of the kernel's own, passed beside the windows, -/
abbrev scM8_0 : Memref sig .tc .vmem S1024x128 .f32 := Memref.whole cc8_scratch0
/-- and as a view. -/
abbrev VS8_0 : View sig .tc .vmem S1024x128 .f32 := scM8_0.view

/-- What the launch hands the region beside the windows — the scoped buffers no window stages and the
    generator register — with the accumulator split out as a memref owned at some contents. -/
theorem PhiA8_eq (c : Dev nD) :
    (Pipeline.ΦA spec8 c : sProp 𝕄)
      = iprop(iprop(iprop((∃ d, owns (c : Thread nD τ) scM8_0 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

end Cert.KernelIdeal.Hand

end
-- ==== Proof.KI.R8RunA.lean ====
import proofs.«120270_j2259152797813_2_alg».proof.Proof.KI.R8Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (an even point: the reduction coordinate is 0). On whole memrefs — the three inputs at their contents,
    the output's buffer at contents `xi3` that the body does not touch, the accumulator at anything — the body
    zeroes the accumulator, adds the product of the two input blocks to it, and returns the inputs and the
    output's buffer as they were and the accumulator with its stores written: the pieces `LS0` (last first) are
    found by running the body. The output gets no piece. -/
noncomputable def kernelRun8_A (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond8_0 i) (hc1 : ¬cond8_1 i)
    (x0 : Vec F S1024x4096 .bf16) (x1 : Vec F S4096x128 .bf16) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc8__adjmm_kernel i arg2 harg2 arg3 harg3 arg4 harg4 arg5 harg5 arg6 harg6) K } := by
  refine ⟨[], ?_, fun xi3 E K => ?run⟩
  case run =>
    simp only [cc8__adjmm_kernel_eq_skeleton]; unfold cc8__adjmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R8RunB.lean ====
import proofs.«120270_j2259152797813_2_alg».proof.Proof.KI.R8RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an odd point: the reduction coordinate is 1). On whole memrefs — the three inputs at their contents,
    the output's buffer at anything, the accumulator at the contents `xs0` the point before left — the body adds
    the product of the two input blocks to the accumulator and stores the rectified sum of the accumulator and
    the third input into the output: the inputs come back as they were, the output's buffer with its pieces `L3`
    written and the accumulator with its pieces `LS0` written (last first), both found by running the body. -/
noncomputable def kernelRun8_B (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond8_0 i) (hc1 : cond8_1 i)
    (x0 : Vec F S1024x4096 .bf16) (x1 : Vec F S4096x128 .bf16) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc8__adjmm_kernel i arg2 harg2 arg3 harg3 arg4 harg4 arg5 harg5 arg6 harg6) K } := by
  refine ⟨?_, ?_, fun E K => ?run⟩
  case run =>
    simp only [cc8__adjmm_kernel_eq_skeleton]; unfold cc8__adjmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R8.lean ====
import proofs.«120270_j2259152797813_2_alg».proof.Proof.KI.R8RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: what the two cases leave, point by point; the proof data; the body obligation -/

/-! ## Per case -/

/-- Case A stores nothing into the output (the window is idle at the even points and not written back there):
    a placeholder nothing consults. -/
def out8_A_3 (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond8_0 i) (hc1 : ¬cond8_1 i)
    (x0 : Vec F S1024x4096 .bf16) (x1 : Vec F S4096x128 .bf16) (x2 : Vec F S1024x128 .f32) : Vec F S1024x128 .f32 :=
  VO8_3.read (Elt F) (VO8_3.writes (Elt F) VO8_3.junk (kernelRun8_A c i arg2 harg2 arg3 harg3 arg4 harg4 arg5 harg5 arg6 harg6 hc0 hc1 x0 x1 x2).1)

/-- Case A's pieces for the accumulator tile it, so they cover it. -/
theorem scover8_A_0 (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond8_0 i) (hc1 : ¬cond8_1 i)
    (x0 : Vec F S1024x4096 .bf16) (x1 : Vec F S4096x128 .bf16) (x2 : Vec F S1024x128 .f32) (y : S1024x128.Idx) :
    ∃ pc ∈ (kernelRun8_A c i arg2 harg2 arg3 harg3 arg4 harg4 arg5 harg5 arg6 harg6 hc0 hc1 x0 x1 x2).2.1, y ∈ pc.1.set :=
  View.cover_of_tiledL (kernelRun8_A c i arg2 harg2 arg3 harg3 arg4 harg4 arg5 harg5 arg6 harg6 hc0 hc1 x0 x1 x2).2.1 S1024x128.size (by sl_kernel_rfl) y

/-- What case A leaves in the accumulator: its pieces read back. -/
def sout8_A_0 (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond8_0 i) (hc1 : ¬cond8_1 i)
    (x0 : Vec F S1024x4096 .bf16) (x1 : Vec F S4096x128 .bf16) (x2 : Vec F S1024x128 .f32) : Vec F S1024x128 .f32 :=
  VS8_0.read (Elt F) (VS8_0.writes (Elt F) VS8_0.junk (kernelRun8_A c i arg2 harg2 arg3 harg3 arg4 harg4 arg5 harg5 arg6 harg6 hc0 hc1 x0 x1 x2).2.1)

/-- Case B's pieces for the output tile its block, so they cover it. -/
theorem cover8_B_3 (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond8_0 i) (hc1 : cond8_1 i)
    (x0 : Vec F S1024x4096 .bf16) (x1 : Vec F S4096x128 .bf16) (x2 : Vec F S1024x128 .f32) (xs0 : Vec F S1024x128 .f32) (y : S1024x128.Idx) :
    ∃ pc ∈ (kernelRun8_B c i arg2 harg2 arg3 harg3 arg4 harg4 arg5 harg5 arg6 harg6 hc0 hc1 x0 x1 x2 xs0).1, y ∈ pc.1.set :=
  View.cover_of_tiledL (kernelRun8_B c i arg2 harg2 arg3 harg3 arg4 harg4 arg5 harg5 arg6 harg6 hc0 hc1 x0 x1 x2 xs0).1 S1024x128.size (by sl_kernel_rfl) y

/-- What case B leaves in the output's staging buffer: its pieces read back. -/
def out8_B_3 (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond8_0 i) (hc1 : cond8_1 i)
    (x0 : Vec F S1024x4096 .bf16) (x1 : Vec F S4096x128 .bf16) (x2 : Vec F S1024x128 .f32) (xs0 : Vec F S1024x128 .f32) : Vec F S1024x128 .f32 :=
  VO8_3.read (Elt F) (VO8_3.writes (Elt F) VO8_3.junk (kernelRun8_B c i arg2 harg2 arg3 harg3 arg4 harg4 arg5 harg5 arg6 harg6 hc0 hc1 x0 x1 x2 xs0).1)

/-- Case B's pieces for the accumulator tile it, so they cover it. -/
theorem scover8_B_0 (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond8_0 i) (hc1 : cond8_1 i)
    (x0 : Vec F S1024x4096 .bf16) (x1 : Vec F S4096x128 .bf16) (x2 : Vec F S1024x128 .f32) (xs0 : Vec F S1024x128 .f32) (y : S1024x128.Idx) :
    ∃ pc ∈ (kernelRun8_B c i arg2 harg2 arg3 harg3 arg4 harg4 arg5 harg5 arg6 harg6 hc0 hc1 x0 x1 x2 xs0).2.1, y ∈ pc.1.set :=
  View.cover_of_tiledL (kernelRun8_B c i arg2 harg2 arg3 harg3 arg4 harg4 arg5 harg5 arg6 harg6 hc0 hc1 x0 x1 x2 xs0).2.1 S1024x128.size (by sl_kernel_rfl) y

/-- What case B leaves in the accumulator: its pieces read back. -/
def sout8_B_0 (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond8_0 i) (hc1 : cond8_1 i)
    (x0 : Vec F S1024x4096 .bf16) (x1 : Vec F S4096x128 .bf16) (x2 : Vec F S1024x128 .f32) (xs0 : Vec F S1024x128 .f32) : Vec F S1024x128 .f32 :=
  VS8_0.read (Elt F) (VS8_0.writes (Elt F) VS8_0.junk (kernelRun8_B c i arg2 harg2 arg3 harg3 arg4 harg4 arg5 harg5 arg6 harg6 hc0 hc1 x0 x1 x2 xs0).2.1)

/-! ## Which case a point is in -/

theorem hc8A0 (t : Fin cfg8.N) (h0 : t.val % 2 = 0) : cond8_0 (grid8.coords t) := (hcond8_0 t).mpr h0
theorem hc8A1 (t : Fin cfg8.N) (h0 : t.val % 2 = 0) : ¬cond8_1 (grid8.coords t) := fun h => by
  have h1 := (hcond8_1 t).mp h; omega
theorem hc8B0 (t : Fin cfg8.N) (h0 : ¬t.val % 2 = 0) : ¬cond8_0 (grid8.coords t) := fun h => h0 ((hcond8_0 t).mp h)
theorem hc8B1 (t : Fin cfg8.N) (h0 : ¬t.val % 2 = 0) : cond8_1 (grid8.coords t) := (hcond8_1 t).mpr (by omega)

section R8
variable (V : (c : Dev nD) → (b : Ref sig .tc) → Buf (Elt F) ((c : Thread nD τ).loc b))

/-! ## Point by point -/

/-- At an even point `t`: the output's placeholder, -/
def oA8 (c : Dev nD) (t : Fin cfg8.N) (h0 : t.val % 2 = 0) : Vec F S1024x128 .f32 :=
  out8_A_3 c (grid8.coords t) (ms8_0 t) (hs8_0 t) (ms8_1 t) (hs8_1 t) (ms8_2 t) (hs8_2 t) (ms8_3 t) (hs8_3 t) scM8_0 (Memref.isWhole_whole _) (hc8A0 t h0) (hc8A1 t h0) (iblk8 V c 0 t) (iblk8 V c 1 t) (iblk8 V c 2 t)
/-- and the accumulator: zero plus the product of the point's two blocks. -/
def sA8 (c : Dev nD) (t : Fin cfg8.N) (h0 : t.val % 2 = 0) : Vec F S1024x128 .f32 :=
  sout8_A_0 c (grid8.coords t) (ms8_0 t) (hs8_0 t) (ms8_1 t) (hs8_1 t) (ms8_2 t) (hs8_2 t) (ms8_3 t) (hs8_3 t) scM8_0 (Memref.isWhole_whole _) (hc8A0 t h0) (hc8A1 t h0) (iblk8 V c 0 t) (iblk8 V c 1 t) (iblk8 V c 2 t)
/-- At an odd point `t`, the accumulator holding `xs0` before it: the output, -/
def oB8 (c : Dev nD) (t : Fin cfg8.N) (h0 : ¬t.val % 2 = 0) (xs0 : Vec F S1024x128 .f32) : Vec F S1024x128 .f32 :=
  out8_B_3 c (grid8.coords t) (ms8_0 t) (hs8_0 t) (ms8_1 t) (hs8_1 t) (ms8_2 t) (hs8_2 t) (ms8_3 t) (hs8_3 t) scM8_0 (Memref.isWhole_whole _) (hc8B0 t h0) (hc8B1 t h0) (iblk8 V c 0 t) (iblk8 V c 1 t) (iblk8 V c 2 t) xs0
/-- and the accumulator. -/
def sB8 (c : Dev nD) (t : Fin cfg8.N) (h0 : ¬t.val % 2 = 0) (xs0 : Vec F S1024x128 .f32) : Vec F S1024x128 .f32 :=
  sout8_B_0 c (grid8.coords t) (ms8_0 t) (hs8_0 t) (ms8_1 t) (hs8_1 t) (ms8_2 t) (hs8_2 t) (ms8_3 t) (hs8_3 t) scM8_0 (Memref.isWhole_whole _) (hc8B0 t h0) (hc8B1 t h0) (iblk8 V c 0 t) (iblk8 V c 1 t) (iblk8 V c 2 t) xs0

/-- THE ACCUMULATION. What the output's staging buffer and the accumulator hold after the body at position `n`
    (a pair: the output, then the accumulator): an even point starts the accumulator afresh, an odd one continues
    from what the point before left. -/
def accAt8 (c : Dev nD) : (n : ℕ) → n < cfg8.N → Vec F S1024x128 .f32 × Vec F S1024x128 .f32
  | 0, hn => (oA8 V c ⟨0, hn⟩ (Nat.zero_mod _), sA8 V c ⟨0, hn⟩ (Nat.zero_mod _))
  | n + 1, hn =>
    if h0 : (n + 1) % 2 = 0 then
      (oA8 V c ⟨n + 1, hn⟩ h0, sA8 V c ⟨n + 1, hn⟩ h0)
    else
      (oB8 V c ⟨n + 1, hn⟩ h0 (accAt8 c n (Nat.lt_of_succ_lt hn)).2, sB8 V c ⟨n + 1, hn⟩ h0 (accAt8 c n (Nat.lt_of_succ_lt hn)).2)

/-- At an even point: case A's contents. -/
theorem accAt8_A (c : Dev nD) (t : Fin cfg8.N) (h0 : t.val % 2 = 0) :
    accAt8 V c t.val t.isLt = (oA8 V c t h0, sA8 V c t h0) := by
  obtain ⟨n, hn⟩ := t
  cases n with
  | zero => exact rfl
  | succ n => exact (dif_pos h0).trans rfl

/-- At an odd point: case B's contents, over what the point before left in the accumulator. -/
theorem accAt8_B (c : Dev nD) (t : Fin cfg8.N) (h0 : ¬t.val % 2 = 0) :
    accAt8 V c t.val t.isLt
      = (oB8 V c t h0 (accAt8 V c (t.val - 1) (Nat.lt_of_le_of_lt (Nat.sub_le _ _) t.isLt)).2,
         sB8 V c t h0 (accAt8 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- What the output's staging buffer holds after the body at point `t`. -/
def outsAt8 (c : Dev nD) (t : Fin cfg8.N) : Vec F S1024x128 .f32 := (accAt8 V c t.val t.isLt).1
/-- What the accumulator holds after the body at point `t`. -/
def sAt8 (c : Dev nD) (t : Fin cfg8.N) : Vec F S1024x128 .f32 := (accAt8 V c t.val t.isLt).2

/-! ## The invariant -/

/-- The region's invariant before position `n`: before the first point, what the launch hands over (every
    scoped buffer no window stages at anything, the generator register at some state); afterwards the same with
    the accumulator at what the point before left in it. -/
def PhiS8 (c : Dev nD) : (n : ℕ) → n ≤ cfg8.N → sProp 𝕄
  | 0, _ => Pipeline.ΦA spec8 c
  | n + 1, hn => iprop(iprop(owns (c : Thread nD τ) scM8_0 fullShare ((accAt8 V c n hn).2) ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(owns (c : Thread nD τ) scM8_0 fullShare ((accAt8 V c n hn).2) ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hz : n ≠ 0) :
    PhiS8 V c n h = iprop(iprop(owns (c : Thread nD τ) scM8_0 fullShare ((accAt8 V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The proof data -/

/-- The region's proof data on core `c`: the arrays as the region finds them; after the body each input's buffer
    at its block and the output's at `outsAt8`; the invariant `PhiS8`; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => outsAt8 V c t
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (accAt8 V c t.val t.isLt).1 := by dsimp only [dat8, outsAt8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 4800000 in
/-- The body at any point. The inputs' memrefs hold their blocks; the point's parity says which case it is in.
    At an even point the accumulator goes in at anything (whatever the invariant holds it at) and the output's
    buffer comes back untouched; at an odd point the accumulator goes in at what the point before left. Either
    way it comes back at this point's contents, its pieces covering it; the rest of the invariant is untouched
    and the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  have hN : t.val < 16 := lt_of_lt_of_eq t.isLt (show cfg8.N = 16 from N_8)
  by_cases h0 : t.val % 2 = 0
  · rw [Dat.leavesExact_idle (dat8 V c) 3 t (idleAt8_3_A t (hc8A0 t h0) (hc8A1 t h0)) (noFlush8_3_A t (hc8A0 t h0) (hc8A1 t h0))]
    rw [accAt8_A V c t h0]
    unfold sA8 sout8_A_0; (try dsimp only)
    by_cases hz : t.val = 0
    · rw [PhiS8_castSucc V c t, PhiS8_zero V c _ _ hz, PhiA8_eq]
      iintro ⟨⟨⟨HS0, HR⟩, Hg⟩, Ho, ⟨%d0, H0⟩, ⟨%d1, H1⟩, ⟨%d2, H2⟩, ⟨%d3, H3⟩⟩
      iapply ((kernelRun8_A c (grid8.coords t) _ _ _ _ _ _ _ _ _ _ (hc8A0 t h0) (hc8A1 t h0) (iblk8 V c 0 t) (iblk8 V c 1 t) (iblk8 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS8_castSucc V c t, PhiS8_pos V c _ _ hz]
      iintro ⟨⟨⟨HS0, HR⟩, Hg⟩, Ho, ⟨%d0, H0⟩, ⟨%d1, H1⟩, ⟨%d2, H2⟩, ⟨%d3, H3⟩⟩
      iapply ((kernelRun8_A c (grid8.coords t) _ _ _ _ _ _ _ _ _ _ (hc8A0 t h0) (hc8A1 t h0) (iblk8 V c 0 t) (iblk8 V c 1 t) (iblk8 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat8 V c).leavesExact 3 t = owns (c : Thread nD τ) (ms8_3 t) fullShare ((dat8 V c).after 3 t) from by
      unfold Dat.leavesExact; rw [liveAt8_3_B t (hc8B0 t h0) (hc8B1 t h0)], after8_3]
    rw [accAt8_B V c t h0]
    unfold oB8 sB8 out8_B_3 sout8_B_0; (try dsimp only)
    have hz : t.val ≠ 0 := fun e => h0 (by rw [e])
    rw [PhiS8_castSucc V c t, PhiS8_pos V c _ _ hz]
    iintro ⟨⟨⟨HS0, HR⟩, Hg⟩, Ho, ⟨%d0, H0⟩, ⟨%d1, H1⟩, ⟨%d2, H2⟩, ⟨%d3, H3⟩⟩
    iapply ((kernelRun8_B c (grid8.coords t) _ _ _ _ _ _ _ _ _ _ (hc8B0 t h0) (hc8B1 t h0) (iblk8 V c 0 t) (iblk8 V c 1 t) (iblk8 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover8_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover8_B_3 c _ _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## Into the invariant and out of it -/

/-- What the launch hands the region is the invariant before the first point. -/
theorem hin8 (c : Dev nD) :
    iprop((∃ r, prngReg c r) ∗ Pipeline.scopedRest (Ix := Unit) (Name := ℕ) (U := UR sig nD τ) (Lvl := ℕ) (Val := Elt F) spec8 c)
      ⊢ ((dat8 V c).Φ 0 : sProp 𝕄) := by
  rw [show (dat8 V c).Φ 0 = PhiS8 V c 0 (Nat.zero_le _) from rfl, PhiS8_zero V c 0 _ rfl]
  unfold Pipeline.ΦA
  iintro ⟨Hp, Hr⟩
  isplitl [Hr]; · iexact Hr
  iexact Hp

/-- After any point the invariant gives the same back: the accumulator's named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS0, HR⟩, Hg⟩
  isplitl [HS0 HR]
  · isplitl [HS0]
    · iexists _; iexact HS0
    iexact HR
  iexact Hg

/-- The same after the last point, in the order the launch takes it back. -/
theorem hout8 (c : Dev nD) :
    ((dat8 V c).Φ (Fin.last cfg8.N) : sProp 𝕄)
      ⊢ iprop((∃ r, prngReg c r) ∗ Pipeline.scopedRest (Ix := Unit) (Name := ℕ) (U := UR sig nD τ) (Lvl := ℕ) (Val := Elt F) spec8 c) := by
  refine (Phi_out8 V c _ (by rw [Fin.val_last]; have : cfg8.N = 16 := N_8; omega)).trans ?_
  unfold Pipeline.ΦA
  iintro ⟨Hr, Hp⟩
  isplitl [Hp]; · iexact Hp
  iexact Hr

end R8

end Cert.KernelIdeal.Hand

end
-- ==== Proof.KI.R9Runs.lean ====
import proofs.«120270_j2259152797813_2_alg».proof.Proof.Gen.KernelIdeal.Launch
import proofs.«120270_j2259152797813_2_alg».proof.Proof.Gen.KernelIdeal.Skeleton
import proofs.«120270_j2259152797813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9 (the adjacency product with a carried accumulator): what its two cases share -/

section R9
variable (V : (c : Dev nD) → (b : Ref sig .tc) → Buf (Elt F) ((c : Thread nD τ).loc b))

/-- Window `w`'s block at grid point `t`, read off the array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, whether the point fetches it or
    not (an unfetched window's block index has not moved), for any proof data over the entry contents whose
    body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

end R9

/-! ## The body's two branch conditions, over the grid -/

/-- The first conditional (zero the accumulator): the reduction coordinate is 0. -/
abbrev cond9_0 (i : grid9.Coords) : Prop := (Scalar.cmpi .ne (Scalar.extui (Scalar.cmpi .eq (BitVec.ofNat 32 (i 1).val) 0#32)) 0#32) = 1#1
/-- It holds at the even points. -/
theorem hcond9_0 : ∀ t : Fin cfg9.N, cond9_0 (grid9.coords t) ↔ t.val % 2 = 0 :=
  (by decide +kernel : ∀ t : Fin grid9.N, cond9_0 (grid9.coords t) ↔ t.val % 2 = 0)

/-- The second conditional (store the output): the reduction coordinate is 1. -/
abbrev cond9_1 (i : grid9.Coords) : Prop := k9_cond2 i = 1#1
/-- It holds at the odd points. -/
theorem hcond9_1 : ∀ t : Fin cfg9.N, cond9_1 (grid9.coords t) ↔ t.val % 2 = 1 :=
  (by decide +kernel : ∀ t : Fin grid9.N, cond9_1 (grid9.coords t) ↔ t.val % 2 = 1)

/-! ## Where the windows are idle -/

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
/-- At an even point the output window is idle: nothing is stored into it, -/
theorem idleAt9_3_A : ∀ t : Fin cfg9.N, cond9_0 (grid9.coords t) → ¬cond9_1 (grid9.coords t) → cfg9.idle 3 (grid9.coords t) = true := by decide +kernel
/-- and its block is not written back. -/
theorem noFlush9_3_A : ∀ t : Fin cfg9.N, cond9_0 (grid9.coords t) → ¬cond9_1 (grid9.coords t) → (cfg9.win 3).flush t = false := by decide +kernel
/-- At an odd point the output window is live. -/
theorem liveAt9_3_B : ∀ t : Fin cfg9.N, ¬cond9_0 (grid9.coords t) → cond9_1 (grid9.coords t) → cfg9.idle 3 (grid9.coords t) = false := by decide +kernel

/-! ## The memrefs the body is called with -/

/-- One staging buffer of the output window, through which its contents are stated. -/
abbrev VO9_3 : View sig .tc .vmem S1024x128 .f32 := (Memref.whole cc9_stg3_0 : Memref sig .tc .vmem S1024x128 .f32).view
abbrev ms9_0 (t : Fin cfg9.N) : Memref sig .tc .vmem S1024x4096 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S4096x128 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1024x128 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1024x128 .f32 := win9_3.stage (cfg9.slots t 3)
abbrev hs9_3 (t : Fin cfg9.N) : (ms9_3 t).IsWhole := hstage9_3 ((cfg9.slots t 3).cast nbuf9_3)
/-- The accumulator: a whole scoped buffer of the kernel's own, passed beside the windows, -/
abbrev scM9_0 : Memref sig .tc .vmem S1024x128 .f32 := Memref.whole cc9_scratch0
/-- and as a view. -/
abbrev VS9_0 : View sig .tc .vmem S1024x128 .f32 := scM9_0.view

/-- What the launch hands the region beside the windows — the scoped buffers no window stages and the
    generator register — with the accumulator split out as a memref owned at some contents. -/
theorem PhiA9_eq (c : Dev nD) :
    (Pipeline.ΦA spec9 c : sProp 𝕄)
      = iprop(iprop(iprop((∃ d, owns (c : Thread nD τ) scM9_0 fullShare d))
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9_0, owns_whole]; try rfl

end Cert.KernelIdeal.Hand

end
-- ==== Proof.KI.R9RunA.lean ====
import proofs.«120270_j2259152797813_2_alg».proof.Proof.KI.R9Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (an even point: the reduction coordinate is 0). On whole memrefs — the three inputs at their contents,
    the output's buffer at contents `xi3` that the body does not touch, the accumulator at anything — the body
    zeroes the accumulator, adds the product of the two input blocks to it, and returns the inputs and the
    output's buffer as they were and the accumulator with its stores written: the pieces `LS0` (last first) are
    found by running the body. The output gets no piece. -/
noncomputable def kernelRun9_A (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond9_0 i) (hc1 : ¬cond9_1 i)
    (x0 : Vec F S1024x4096 .bf16) (x1 : Vec F S4096x128 .bf16) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc9__adjmm_kernel i arg2 harg2 arg3 harg3 arg4 harg4 arg5 harg5 arg6 harg6) K } := by
  refine ⟨[], ?_, fun xi3 E K => ?run⟩
  case run =>
    simp only [cc9__adjmm_kernel_eq_skeleton]; unfold cc9__adjmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R9RunB.lean ====
import proofs.«120270_j2259152797813_2_alg».proof.Proof.KI.R9RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an odd point: the reduction coordinate is 1). On whole memrefs — the three inputs at their contents,
    the output's buffer at anything, the accumulator at the contents `xs0` the point before left — the body adds
    the product of the two input blocks to the accumulator and stores the rectified sum of the accumulator and
    the third input into the output: the inputs come back as they were, the output's buffer with its pieces `L3`
    written and the accumulator with its pieces `LS0` written (last first), both found by running the body. -/
noncomputable def kernelRun9_B (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond9_0 i) (hc1 : cond9_1 i)
    (x0 : Vec F S1024x4096 .bf16) (x1 : Vec F S4096x128 .bf16) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc9__adjmm_kernel i arg2 harg2 arg3 harg3 arg4 harg4 arg5 harg5 arg6 harg6) K } := by
  refine ⟨?_, ?_, fun E K => ?run⟩
  case run =>
    simp only [cc9__adjmm_kernel_eq_skeleton]; unfold cc9__adjmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R9.lean ====
import proofs.«120270_j2259152797813_2_alg».proof.Proof.KI.R9RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9: what the two cases leave, point by point; the proof data; the body obligation -/

/-! ## Per case -/

/-- Case A stores nothing into the output (the window is idle at the even points and not written back there):
    a placeholder nothing consults. -/
def out9_A_3 (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond9_0 i) (hc1 : ¬cond9_1 i)
    (x0 : Vec F S1024x4096 .bf16) (x1 : Vec F S4096x128 .bf16) (x2 : Vec F S1024x128 .f32) : Vec F S1024x128 .f32 :=
  VO9_3.read (Elt F) (VO9_3.writes (Elt F) VO9_3.junk (kernelRun9_A c i arg2 harg2 arg3 harg3 arg4 harg4 arg5 harg5 arg6 harg6 hc0 hc1 x0 x1 x2).1)

/-- Case A's pieces for the accumulator tile it, so they cover it. -/
theorem scover9_A_0 (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond9_0 i) (hc1 : ¬cond9_1 i)
    (x0 : Vec F S1024x4096 .bf16) (x1 : Vec F S4096x128 .bf16) (x2 : Vec F S1024x128 .f32) (y : S1024x128.Idx) :
    ∃ pc ∈ (kernelRun9_A c i arg2 harg2 arg3 harg3 arg4 harg4 arg5 harg5 arg6 harg6 hc0 hc1 x0 x1 x2).2.1, y ∈ pc.1.set :=
  View.cover_of_tiledL (kernelRun9_A c i arg2 harg2 arg3 harg3 arg4 harg4 arg5 harg5 arg6 harg6 hc0 hc1 x0 x1 x2).2.1 S1024x128.size (by sl_kernel_rfl) y

/-- What case A leaves in the accumulator: its pieces read back. -/
def sout9_A_0 (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond9_0 i) (hc1 : ¬cond9_1 i)
    (x0 : Vec F S1024x4096 .bf16) (x1 : Vec F S4096x128 .bf16) (x2 : Vec F S1024x128 .f32) : Vec F S1024x128 .f32 :=
  VS9_0.read (Elt F) (VS9_0.writes (Elt F) VS9_0.junk (kernelRun9_A c i arg2 harg2 arg3 harg3 arg4 harg4 arg5 harg5 arg6 harg6 hc0 hc1 x0 x1 x2).2.1)

/-- Case B's pieces for the output tile its block, so they cover it. -/
theorem cover9_B_3 (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond9_0 i) (hc1 : cond9_1 i)
    (x0 : Vec F S1024x4096 .bf16) (x1 : Vec F S4096x128 .bf16) (x2 : Vec F S1024x128 .f32) (xs0 : Vec F S1024x128 .f32) (y : S1024x128.Idx) :
    ∃ pc ∈ (kernelRun9_B c i arg2 harg2 arg3 harg3 arg4 harg4 arg5 harg5 arg6 harg6 hc0 hc1 x0 x1 x2 xs0).1, y ∈ pc.1.set :=
  View.cover_of_tiledL (kernelRun9_B c i arg2 harg2 arg3 harg3 arg4 harg4 arg5 harg5 arg6 harg6 hc0 hc1 x0 x1 x2 xs0).1 S1024x128.size (by sl_kernel_rfl) y

/-- What case B leaves in the output's staging buffer: its pieces read back. -/
def out9_B_3 (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond9_0 i) (hc1 : cond9_1 i)
    (x0 : Vec F S1024x4096 .bf16) (x1 : Vec F S4096x128 .bf16) (x2 : Vec F S1024x128 .f32) (xs0 : Vec F S1024x128 .f32) : Vec F S1024x128 .f32 :=
  VO9_3.read (Elt F) (VO9_3.writes (Elt F) VO9_3.junk (kernelRun9_B c i arg2 harg2 arg3 harg3 arg4 harg4 arg5 harg5 arg6 harg6 hc0 hc1 x0 x1 x2 xs0).1)

/-- Case B's pieces for the accumulator tile it, so they cover it. -/
theorem scover9_B_0 (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond9_0 i) (hc1 : cond9_1 i)
    (x0 : Vec F S1024x4096 .bf16) (x1 : Vec F S4096x128 .bf16) (x2 : Vec F S1024x128 .f32) (xs0 : Vec F S1024x128 .f32) (y : S1024x128.Idx) :
    ∃ pc ∈ (kernelRun9_B c i arg2 harg2 arg3 harg3 arg4 harg4 arg5 harg5 arg6 harg6 hc0 hc1 x0 x1 x2 xs0).2.1, y ∈ pc.1.set :=
  View.cover_of_tiledL (kernelRun9_B c i arg2 harg2 arg3 harg3 arg4 harg4 arg5 harg5 arg6 harg6 hc0 hc1 x0 x1 x2 xs0).2.1 S1024x128.size (by sl_kernel_rfl) y

/-- What case B leaves in the accumulator: its pieces read back. -/
def sout9_B_0 (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond9_0 i) (hc1 : cond9_1 i)
    (x0 : Vec F S1024x4096 .bf16) (x1 : Vec F S4096x128 .bf16) (x2 : Vec F S1024x128 .f32) (xs0 : Vec F S1024x128 .f32) : Vec F S1024x128 .f32 :=
  VS9_0.read (Elt F) (VS9_0.writes (Elt F) VS9_0.junk (kernelRun9_B c i arg2 harg2 arg3 harg3 arg4 harg4 arg5 harg5 arg6 harg6 hc0 hc1 x0 x1 x2 xs0).2.1)

/-! ## Which case a point is in -/

theorem hc9A0 (t : Fin cfg9.N) (h0 : t.val % 2 = 0) : cond9_0 (grid9.coords t) := (hcond9_0 t).mpr h0
theorem hc9A1 (t : Fin cfg9.N) (h0 : t.val % 2 = 0) : ¬cond9_1 (grid9.coords t) := fun h => by
  have h1 := (hcond9_1 t).mp h; omega
theorem hc9B0 (t : Fin cfg9.N) (h0 : ¬t.val % 2 = 0) : ¬cond9_0 (grid9.coords t) := fun h => h0 ((hcond9_0 t).mp h)
theorem hc9B1 (t : Fin cfg9.N) (h0 : ¬t.val % 2 = 0) : cond9_1 (grid9.coords t) := (hcond9_1 t).mpr (by omega)

section R9
variable (V : (c : Dev nD) → (b : Ref sig .tc) → Buf (Elt F) ((c : Thread nD τ).loc b))

/-! ## Point by point -/

/-- At an even point `t`: the output's placeholder, -/
def oA9 (c : Dev nD) (t : Fin cfg9.N) (h0 : t.val % 2 = 0) : Vec F S1024x128 .f32 :=
  out9_A_3 c (grid9.coords t) (ms9_0 t) (hs9_0 t) (ms9_1 t) (hs9_1 t) (ms9_2 t) (hs9_2 t) (ms9_3 t) (hs9_3 t) scM9_0 (Memref.isWhole_whole _) (hc9A0 t h0) (hc9A1 t h0) (iblk9 V c 0 t) (iblk9 V c 1 t) (iblk9 V c 2 t)
/-- and the accumulator: zero plus the product of the point's two blocks. -/
def sA9 (c : Dev nD) (t : Fin cfg9.N) (h0 : t.val % 2 = 0) : Vec F S1024x128 .f32 :=
  sout9_A_0 c (grid9.coords t) (ms9_0 t) (hs9_0 t) (ms9_1 t) (hs9_1 t) (ms9_2 t) (hs9_2 t) (ms9_3 t) (hs9_3 t) scM9_0 (Memref.isWhole_whole _) (hc9A0 t h0) (hc9A1 t h0) (iblk9 V c 0 t) (iblk9 V c 1 t) (iblk9 V c 2 t)
/-- At an odd point `t`, the accumulator holding `xs0` before it: the output, -/
def oB9 (c : Dev nD) (t : Fin cfg9.N) (h0 : ¬t.val % 2 = 0) (xs0 : Vec F S1024x128 .f32) : Vec F S1024x128 .f32 :=
  out9_B_3 c (grid9.coords t) (ms9_0 t) (hs9_0 t) (ms9_1 t) (hs9_1 t) (ms9_2 t) (hs9_2 t) (ms9_3 t) (hs9_3 t) scM9_0 (Memref.isWhole_whole _) (hc9B0 t h0) (hc9B1 t h0) (iblk9 V c 0 t) (iblk9 V c 1 t) (iblk9 V c 2 t) xs0
/-- and the accumulator. -/
def sB9 (c : Dev nD) (t : Fin cfg9.N) (h0 : ¬t.val % 2 = 0) (xs0 : Vec F S1024x128 .f32) : Vec F S1024x128 .f32 :=
  sout9_B_0 c (grid9.coords t) (ms9_0 t) (hs9_0 t) (ms9_1 t) (hs9_1 t) (ms9_2 t) (hs9_2 t) (ms9_3 t) (hs9_3 t) scM9_0 (Memref.isWhole_whole _) (hc9B0 t h0) (hc9B1 t h0) (iblk9 V c 0 t) (iblk9 V c 1 t) (iblk9 V c 2 t) xs0

/-- THE ACCUMULATION. What the output's staging buffer and the accumulator hold after the body at position `n`
    (a pair: the output, then the accumulator): an even point starts the accumulator afresh, an odd one continues
    from what the point before left. -/
def accAt9 (c : Dev nD) : (n : ℕ) → n < cfg9.N → Vec F S1024x128 .f32 × Vec F S1024x128 .f32
  | 0, hn => (oA9 V c ⟨0, hn⟩ (Nat.zero_mod _), sA9 V c ⟨0, hn⟩ (Nat.zero_mod _))
  | n + 1, hn =>
    if h0 : (n + 1) % 2 = 0 then
      (oA9 V c ⟨n + 1, hn⟩ h0, sA9 V c ⟨n + 1, hn⟩ h0)
    else
      (oB9 V c ⟨n + 1, hn⟩ h0 (accAt9 c n (Nat.lt_of_succ_lt hn)).2, sB9 V c ⟨n + 1, hn⟩ h0 (accAt9 c n (Nat.lt_of_succ_lt hn)).2)

/-- At an even point: case A's contents. -/
theorem accAt9_A (c : Dev nD) (t : Fin cfg9.N) (h0 : t.val % 2 = 0) :
    accAt9 V c t.val t.isLt = (oA9 V c t h0, sA9 V c t h0) := by
  obtain ⟨n, hn⟩ := t
  cases n with
  | zero => exact rfl
  | succ n => exact (dif_pos h0).trans rfl

/-- At an odd point: case B's contents, over what the point before left in the accumulator. -/
theorem accAt9_B (c : Dev nD) (t : Fin cfg9.N) (h0 : ¬t.val % 2 = 0) :
    accAt9 V c t.val t.isLt
      = (oB9 V c t h0 (accAt9 V c (t.val - 1) (Nat.lt_of_le_of_lt (Nat.sub_le _ _) t.isLt)).2,
         sB9 V c t h0 (accAt9 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- What the output's staging buffer holds after the body at point `t`. -/
def outsAt9 (c : Dev nD) (t : Fin cfg9.N) : Vec F S1024x128 .f32 := (accAt9 V c t.val t.isLt).1
/-- What the accumulator holds after the body at point `t`. -/
def sAt9 (c : Dev nD) (t : Fin cfg9.N) : Vec F S1024x128 .f32 := (accAt9 V c t.val t.isLt).2

/-! ## The invariant -/

/-- The region's invariant before position `n`: before the first point, what the launch hands over (every
    scoped buffer no window stages at anything, the generator register at some state); afterwards the same with
    the accumulator at what the point before left in it. -/
def PhiS9 (c : Dev nD) : (n : ℕ) → n ≤ cfg9.N → sProp 𝕄
  | 0, _ => Pipeline.ΦA spec9 c
  | n + 1, hn => iprop(iprop(owns (c : Thread nD τ) scM9_0 fullShare ((accAt9 V c n hn).2) ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9_0 fullShare ((accAt9 V c n hn).2) ∗ Pipeline.scopedRestBut (Ix := Unit) (Name := ℕ) (U := UR sig nD τ) (Lvl := ℕ) (Val := Elt F) spec9 c [cc9_scratch0]) ∗ (∃ r, prngReg c r)) := rfl

theorem PhiS9_pos (c : Dev nD) (n : ℕ) (h : n ≤ cfg9.N) (hz : n ≠ 0) :
    PhiS9 V c n h = iprop(iprop(owns (c : Thread nD τ) scM9_0 fullShare ((accAt9 V c (n - 1) (by omega)).2) ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

/-! ## The proof data -/

/-- The region's proof data on core `c`: the arrays as the region finds them; after the body each input's buffer
    at its block and the output's at `outsAt9`; the invariant `PhiS9`; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => outsAt9 V c t
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (accAt9 V c t.val t.isLt).1 := by dsimp only [dat9, outsAt9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point. The inputs' memrefs hold their blocks; the point's parity says which case it is in.
    At an even point the accumulator goes in at anything (whatever the invariant holds it at) and the output's
    buffer comes back untouched; at an odd point the accumulator goes in at what the point before left. Either
    way it comes back at this point's contents, its pieces covering it; the rest of the invariant is untouched
    and the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  have hN : t.val < 16 := lt_of_lt_of_eq t.isLt (show cfg9.N = 16 from N_9)
  by_cases h0 : t.val % 2 = 0
  · rw [Dat.leavesExact_idle (dat9 V c) 3 t (idleAt9_3_A t (hc9A0 t h0) (hc9A1 t h0)) (noFlush9_3_A t (hc9A0 t h0) (hc9A1 t h0))]
    rw [accAt9_A V c t h0]
    unfold sA9 sout9_A_0; (try dsimp only)
    by_cases hz : t.val = 0
    · rw [PhiS9_castSucc V c t, PhiS9_zero V c _ _ hz, PhiA9_eq]
      iintro ⟨⟨⟨HS0, HR⟩, Hg⟩, Ho, ⟨%d0, H0⟩, ⟨%d1, H1⟩, ⟨%d2, H2⟩, ⟨%d3, H3⟩⟩
      iapply ((kernelRun9_A c (grid9.coords t) _ _ _ _ _ _ _ _ _ _ (hc9A0 t h0) (hc9A1 t h0) (iblk9 V c 0 t) (iblk9 V c 1 t) (iblk9 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS9_castSucc V c t, PhiS9_pos V c _ _ hz]
      iintro ⟨⟨⟨HS0, HR⟩, Hg⟩, Ho, ⟨%d0, H0⟩, ⟨%d1, H1⟩, ⟨%d2, H2⟩, ⟨%d3, H3⟩⟩
      iapply ((kernelRun9_A c (grid9.coords t) _ _ _ _ _ _ _ _ _ _ (hc9A0 t h0) (hc9A1 t h0) (iblk9 V c 0 t) (iblk9 V c 1 t) (iblk9 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat9 V c).leavesExact 3 t = owns (c : Thread nD τ) (ms9_3 t) fullShare ((dat9 V c).after 3 t) from by
      unfold Dat.leavesExact; rw [liveAt9_3_B t (hc9B0 t h0) (hc9B1 t h0)], after9_3]
    rw [accAt9_B V c t h0]
    unfold oB9 sB9 out9_B_3 sout9_B_0; (try dsimp only)
    have hz : t.val ≠ 0 := fun e => h0 (by rw [e])
    rw [PhiS9_castSucc V c t, PhiS9_pos V c _ _ hz]
    iintro ⟨⟨⟨HS0, HR⟩, Hg⟩, Ho, ⟨%d0, H0⟩, ⟨%d1, H1⟩, ⟨%d2, H2⟩, ⟨%d3, H3⟩⟩
    iapply ((kernelRun9_B c (grid9.coords t) _ _ _ _ _ _ _ _ _ _ (hc9B0 t h0) (hc9B1 t h0) (iblk9 V c 0 t) (iblk9 V c 1 t) (iblk9 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover9_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover9_B_3 c _ _ _ _ _ _ _ _ _ _ _ _ _ _ _ _ _)

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## Into the invariant and out of it -/

/-- What the launch hands the region is the invariant before the first point. -/
theorem hin9 (c : Dev nD) :
    iprop((∃ r, prngReg c r) ∗ Pipeline.scopedRest (Ix := Unit) (Name := ℕ) (U := UR sig nD τ) (Lvl := ℕ) (Val := Elt F) spec9 c)
      ⊢ ((dat9 V c).Φ 0 : sProp 𝕄) := by
  rw [show (dat9 V c).Φ 0 = PhiS9 V c 0 (Nat.zero_le _) from rfl, PhiS9_zero V c 0 _ rfl]
  unfold Pipeline.ΦA
  iintro ⟨Hp, Hr⟩
  isplitl [Hr]; · iexact Hr
  iexact Hp

/-- After any point the invariant gives the same back: the accumulator's named contents are forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨HS0, HR⟩, Hg⟩
  isplitl [HS0 HR]
  · isplitl [HS0]
    · iexists _; iexact HS0
    iexact HR
  iexact Hg

/-- The same after the last point, in the order the launch takes it back. -/
theorem hout9 (c : Dev nD) :
    ((dat9 V c).Φ (Fin.last cfg9.N) : sProp 𝕄)
      ⊢ iprop((∃ r, prngReg c r) ∗ Pipeline.scopedRest (Ix := Unit) (Name := ℕ) (U := UR sig nD τ) (Lvl := ℕ) (Val := Elt F) spec9 c) := by
  refine (Phi_out9 V c _ (by rw [Fin.val_last]; have : cfg9.N = 16 := N_9; omega)).trans ?_
  unfold Pipeline.ΦA
  iintro ⟨Hr, Hp⟩
  isplitl [Hp]; · iexact Hp
  iexact Hr

end R9

end Cert.KernelIdeal.Hand

end
-- ==== Proof.KI.R10Runs.lean ====
import proofs.«120270_j2259152797813_2_alg».proof.Proof.Gen.KernelIdeal.Launch
import proofs.«120270_j2259152797813_2_alg».proof.Proof.Gen.KernelIdeal.Skeleton
import proofs.«120270_j2259152797813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 10 (the adjacency product with a carried accumulator): what its two cases share -/

section R10
variable (V : (c : Dev nD) → (b : Ref sig .tc) → Buf (Elt F) ((c : Thread nD τ).loc b))

/-- Window `w`'s block at grid point `t`, read off the array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, whether the point fetches it or
    not (an unfetched window's block index has not moved), for any proof data over the entry contents whose
    body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

end R10

/-! ## The body's two branch conditions, over the grid -/

/-- The first conditional (zero the accumulator): the reduction coordinate is 0. -/
abbrev cond10_0 (i : grid10.Coords) : Prop := (Scalar.cmpi .ne (Scalar.extui (Scalar.cmpi .eq (BitVec.ofNat 32 (i 1).val) 0#32)) 0#32) = 1#1
/-- It holds at the even points. -/
theorem hcond10_0 : ∀ t : Fin cfg10.N, cond10_0 (grid10.coords t) ↔ t.val % 2 = 0 :=
  (by decide +kernel : ∀ t : Fin grid10.N, cond10_0 (grid10.coords t) ↔ t.val % 2 = 0)

/-- The second conditional (store the output): the reduction coordinate is 1. -/
abbrev cond10_1 (i : grid10.Coords) : Prop := k10_cond2 i = 1#1
/-- It holds at the odd points. -/
theorem hcond10_1 : ∀ t : Fin cfg10.N, cond10_1 (grid10.coords t) ↔ t.val % 2 = 1 :=
  (by decide +kernel : ∀ t : Fin grid10.N, cond10_1 (grid10.coords t) ↔ t.val % 2 = 1)

/-! ## Where the windows are idle -/

theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
/-- At an even point the output window is idle: nothing is stored into it, -/
theorem idleAt10_3_A : ∀ t : Fin cfg10.N, cond10_0 (grid10.coords t) → ¬cond10_1 (grid10.coords t) → cfg10.idle 3 (grid10.coords t) = true := by decide +kernel
/-- and its block is not written back. -/
theorem noFlush10_3_A : ∀ t : Fin cfg10.N, cond10_0 (grid10.coords t) → ¬cond10_1 (grid10.coords t) → (cfg10.win 3).flush t = false := by decide +kernel
/-- At an odd point the output window is live. -/
theorem liveAt10_3_B : ∀ t : Fin cfg10.N, ¬cond10_0 (grid10.coords t) → cond10_1 (grid10.coords t) → cfg10.idle 3 (grid10.coords t) = false := by decide +kernel

/-! ## The memrefs the body is called with -/

/-- One staging buffer of the output window, through which its contents are stated. -/
abbrev VO10_3 : View sig .tc .vmem S1024x3 .f32 := (Memref.whole cc10_stg3_0 : Memref sig .tc .vmem S1024x3 .f32).view
abbrev ms10_0 (t : Fin cfg10.N) : Memref sig .tc .vmem S1024x4096 .bf16 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S4096x3 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1024x3 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1024x3 .f32 := win10_3.stage (cfg10.slots t 3)
abbrev hs10_3 (t : Fin cfg10.N) : (ms10_3 t).IsWhole := hstage10_3 ((cfg10.slots t 3).cast nbuf10_3)
/-- The accumulator: a whole scoped buffer of the kernel's own, passed beside the windows, -/
abbrev scM10_0 : Memref sig .tc .vmem S1024x3 .f32 := Memref.whole cc10_scratch0
/-- and as a view. -/
abbrev VS10_0 : View sig .tc .vmem S1024x3 .f32 := scM10_0.view

/-- What the launch hands the region beside the windows — the scoped buffers no window stages and the
    generator register — with the accumulator split out as a memref owned at some contents. -/
theorem PhiA10_eq (c : Dev nD) :
    (Pipeline.ΦA spec10 c : sProp 𝕄)
      = iprop(iprop(iprop((∃ d, owns (c : Thread nD τ) scM10_0 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10_0, owns_whole]; try rfl

end Cert.KernelIdeal.Hand

end
-- ==== Proof.KI.R10RunA.lean ====
import proofs.«120270_j2259152797813_2_alg».proof.Proof.KI.R10Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (an even point: the reduction coordinate is 0). On whole memrefs — the three inputs at their contents,
    the output's buffer at contents `xi3` that the body does not touch, the accumulator at anything — the body
    zeroes the accumulator, adds the product of the two input blocks to it, and returns the inputs and the
    output's buffer as they were and the accumulator with its stores written: the pieces `LS0` (last first) are
    found by running the body. The output gets no piece. -/
noncomputable def kernelRun10_A (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : cond10_0 i) (hc1 : ¬cond10_1 i)
    (x0 : Vec F S1024x4096 .bf16) (x1 : Vec F S4096x3 .bf16) (x2 : Vec F S1024x3 .f32) :
    Σ' (L3 : List (View.Piece (Elt F) S1024x3 .f32)), { LS0 : List (View.Piece (Elt F) S1024x3 .f32) //
      ∀ (xi3 : Vec F S1024x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc10__adjmm_kernel i arg2 harg2 arg3 harg3 arg4 harg4 arg5 harg5 arg6 harg6) K } := by
  refine ⟨[], ?_, fun xi3 E K => ?run⟩
  case run =>
    simp only [cc10__adjmm_kernel_eq_skeleton]; unfold cc10__adjmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R10RunB.lean ====
import proofs.«120270_j2259152797813_2_alg».proof.Proof.KI.R10RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an odd point: the reduction coordinate is 1). On whole memrefs — the three inputs at their contents,
    the output's buffer at anything, the accumulator at the contents `xs0` the point before left — the body adds
    the product of the two input blocks to the accumulator and stores the rectified sum of the accumulator and
    the third input into the output: the inputs come back as they were, the output's buffer with its pieces `L3`
    written and the accumulator with its pieces `LS0` written (last first), both found by running the body. -/
noncomputable def kernelRun10_B (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond10_0 i) (hc1 : cond10_1 i)
    (x0 : Vec F S1024x4096 .bf16) (x1 : Vec F S4096x3 .bf16) (x2 : Vec F S1024x3 .f32) (xs0 : Vec F S1024x3 .f32) :
    Σ' (L3 : List (View.Piece (Elt F) S1024x3 .f32)), { LS0 : List (View.Piece (Elt F) S1024x3 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc10__adjmm_kernel i arg2 harg2 arg3 harg3 arg4 harg4 arg5 harg5 arg6 harg6) K } := by
  refine ⟨?_, ?_, fun E K => ?run⟩
  case run =>
    simp only [cc10__adjmm_kernel_eq_skeleton]; unfold cc10__adjmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R10.lean ====
import proofs.«120270_j2259152797813_2_alg».proof.Proof.KI.R10RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 10: what the two cases leave, point by point; the proof data; the body obligation -/

/-! ## Per case -/

/-- Case A stores nothing into the output (the window is idle at the even points and not written back there):
    a placeholder nothing consults. -/
def out10_A_3 (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : cond10_0 i) (hc1 : ¬cond10_1 i)
    (x0 : Vec F S1024x4096 .bf16) (x1 : Vec F S4096x3 .bf16) (x2 : Vec F S1024x3 .f32) : Vec F S1024x3 .f32 :=
  VO10_3.read (Elt F) (VO10_3.writes (Elt F) VO10_3.junk (kernelRun10_A c i arg2 harg2 arg3 harg3 arg4 harg4 arg5 harg5 arg6 harg6 hc0 hc1 x0 x1 x2).1)

/-- Case A's pieces for the accumulator tile it, so they cover it. -/
theorem scover10_A_0 (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : cond10_0 i) (hc1 : ¬cond10_1 i)
    (x0 : Vec F S1024x4096 .bf16) (x1 : Vec F S4096x3 .bf16) (x2 : Vec F S1024x3 .f32) (y : S1024x3.Idx) :
    ∃ pc ∈ (kernelRun10_A c i arg2 harg2 arg3 harg3 arg4 harg4 arg5 harg5 arg6 harg6 hc0 hc1 x0 x1 x2).2.1, y ∈ pc.1.set :=
  View.cover_of_tiledL (kernelRun10_A c i arg2 harg2 arg3 harg3 arg4 harg4 arg5 harg5 arg6 harg6 hc0 hc1 x0 x1 x2).2.1 S1024x3.size (by sl_kernel_rfl) y

/-- What case A leaves in the accumulator: its pieces read back. -/
def sout10_A_0 (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : cond10_0 i) (hc1 : ¬cond10_1 i)
    (x0 : Vec F S1024x4096 .bf16) (x1 : Vec F S4096x3 .bf16) (x2 : Vec F S1024x3 .f32) : Vec F S1024x3 .f32 :=
  VS10_0.read (Elt F) (VS10_0.writes (Elt F) VS10_0.junk (kernelRun10_A c i arg2 harg2 arg3 harg3 arg4 harg4 arg5 harg5 arg6 harg6 hc0 hc1 x0 x1 x2).2.1)

/-- Case B's pieces for the output tile its block, so they cover it. -/
theorem cover10_B_3 (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond10_0 i) (hc1 : cond10_1 i)
    (x0 : Vec F S1024x4096 .bf16) (x1 : Vec F S4096x3 .bf16) (x2 : Vec F S1024x3 .f32) (xs0 : Vec F S1024x3 .f32) (y : S1024x3.Idx) :
    ∃ pc ∈ (kernelRun10_B c i arg2 harg2 arg3 harg3 arg4 harg4 arg5 harg5 arg6 harg6 hc0 hc1 x0 x1 x2 xs0).1, y ∈ pc.1.set :=
  View.cover_of_tiledL (kernelRun10_B c i arg2 harg2 arg3 harg3 arg4 harg4 arg5 harg5 arg6 harg6 hc0 hc1 x0 x1 x2 xs0).1 S1024x3.size (by sl_kernel_rfl) y

/-- What case B leaves in the output's staging buffer: its pieces read back. -/
def out10_B_3 (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond10_0 i) (hc1 : cond10_1 i)
    (x0 : Vec F S1024x4096 .bf16) (x1 : Vec F S4096x3 .bf16) (x2 : Vec F S1024x3 .f32) (xs0 : Vec F S1024x3 .f32) : Vec F S1024x3 .f32 :=
  VO10_3.read (Elt F) (VO10_3.writes (Elt F) VO10_3.junk (kernelRun10_B c i arg2 harg2 arg3 harg3 arg4 harg4 arg5 harg5 arg6 harg6 hc0 hc1 x0 x1 x2 xs0).1)

/-- Case B's pieces for the accumulator tile it, so they cover it. -/
theorem scover10_B_0 (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond10_0 i) (hc1 : cond10_1 i)
    (x0 : Vec F S1024x4096 .bf16) (x1 : Vec F S4096x3 .bf16) (x2 : Vec F S1024x3 .f32) (xs0 : Vec F S1024x3 .f32) (y : S1024x3.Idx) :
    ∃ pc ∈ (kernelRun10_B c i arg2 harg2 arg3 harg3 arg4 harg4 arg5 harg5 arg6 harg6 hc0 hc1 x0 x1 x2 xs0).2.1, y ∈ pc.1.set :=
  View.cover_of_tiledL (kernelRun10_B c i arg2 harg2 arg3 harg3 arg4 harg4 arg5 harg5 arg6 harg6 hc0 hc1 x0 x1 x2 xs0).2.1 S1024x3.size (by sl_kernel_rfl) y

/-- What case B leaves in the accumulator: its pieces read back. -/
def sout10_B_0 (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond10_0 i) (hc1 : cond10_1 i)
    (x0 : Vec F S1024x4096 .bf16) (x1 : Vec F S4096x3 .bf16) (x2 : Vec F S1024x3 .f32) (xs0 : Vec F S1024x3 .f32) : Vec F S1024x3 .f32 :=
  VS10_0.read (Elt F) (VS10_0.writes (Elt F) VS10_0.junk (kernelRun10_B c i arg2 harg2 arg3 harg3 arg4 harg4 arg5 harg5 arg6 harg6 hc0 hc1 x0 x1 x2 xs0).2.1)

/-! ## Which case a point is in -/

theorem hc10A0 (t : Fin cfg10.N) (h0 : t.val % 2 = 0) : cond10_0 (grid10.coords t) := (hcond10_0 t).mpr h0
theorem hc10A1 (t : Fin cfg10.N) (h0 : t.val % 2 = 0) : ¬cond10_1 (grid10.coords t) := fun h => by
  have h1 := (hcond10_1 t).mp h; omega
theorem hc10B0 (t : Fin cfg10.N) (h0 : ¬t.val % 2 = 0) : ¬cond10_0 (grid10.coords t) := fun h => h0 ((hcond10_0 t).mp h)
theorem hc10B1 (t : Fin cfg10.N) (h0 : ¬t.val % 2 = 0) : cond10_1 (grid10.coords t) := (hcond10_1 t).mpr (by omega)

section R10
variable (V : (c : Dev nD) → (b : Ref sig .tc) → Buf (Elt F) ((c : Thread nD τ).loc b))

/-! ## Point by point -/

/-- At an even point `t`: the output's placeholder, -/
def oA10 (c : Dev nD) (t : Fin cfg10.N) (h0 : t.val % 2 = 0) : Vec F S1024x3 .f32 :=
  out10_A_3 c (grid10.coords t) (ms10_0 t) (hs10_0 t) (ms10_1 t) (hs10_1 t) (ms10_2 t) (hs10_2 t) (ms10_3 t) (hs10_3 t) scM10_0 (Memref.isWhole_whole _) (hc10A0 t h0) (hc10A1 t h0) (iblk10 V c 0 t) (iblk10 V c 1 t) (iblk10 V c 2 t)
/-- and the accumulator: zero plus the product of the point's two blocks. -/
def sA10 (c : Dev nD) (t : Fin cfg10.N) (h0 : t.val % 2 = 0) : Vec F S1024x3 .f32 :=
  sout10_A_0 c (grid10.coords t) (ms10_0 t) (hs10_0 t) (ms10_1 t) (hs10_1 t) (ms10_2 t) (hs10_2 t) (ms10_3 t) (hs10_3 t) scM10_0 (Memref.isWhole_whole _) (hc10A0 t h0) (hc10A1 t h0) (iblk10 V c 0 t) (iblk10 V c 1 t) (iblk10 V c 2 t)
/-- At an odd point `t`, the accumulator holding `xs0` before it: the output, -/
def oB10 (c : Dev nD) (t : Fin cfg10.N) (h0 : ¬t.val % 2 = 0) (xs0 : Vec F S1024x3 .f32) : Vec F S1024x3 .f32 :=
  out10_B_3 c (grid10.coords t) (ms10_0 t) (hs10_0 t) (ms10_1 t) (hs10_1 t) (ms10_2 t) (hs10_2 t) (ms10_3 t) (hs10_3 t) scM10_0 (Memref.isWhole_whole _) (hc10B0 t h0) (hc10B1 t h0) (iblk10 V c 0 t) (iblk10 V c 1 t) (iblk10 V c 2 t) xs0
/-- and the accumulator. -/
def sB10 (c : Dev nD) (t : Fin cfg10.N) (h0 : ¬t.val % 2 = 0) (xs0 : Vec F S1024x3 .f32) : Vec F S1024x3 .f32 :=
  sout10_B_0 c (grid10.coords t) (ms10_0 t) (hs10_0 t) (ms10_1 t) (hs10_1 t) (ms10_2 t) (hs10_2 t) (ms10_3 t) (hs10_3 t) scM10_0 (Memref.isWhole_whole _) (hc10B0 t h0) (hc10B1 t h0) (iblk10 V c 0 t) (iblk10 V c 1 t) (iblk10 V c 2 t) xs0

/-- THE ACCUMULATION. What the output's staging buffer and the accumulator hold after the body at position `n`
    (a pair: the output, then the accumulator): an even point starts the accumulator afresh, an odd one continues
    from what the point before left. -/
def accAt10 (c : Dev nD) : (n : ℕ) → n < cfg10.N → Vec F S1024x3 .f32 × Vec F S1024x3 .f32
  | 0, hn => (oA10 V c ⟨0, hn⟩ (Nat.zero_mod _), sA10 V c ⟨0, hn⟩ (Nat.zero_mod _))
  | n + 1, hn =>
    if h0 : (n + 1) % 2 = 0 then
      (oA10 V c ⟨n + 1, hn⟩ h0, sA10 V c ⟨n + 1, hn⟩ h0)
    else
      (oB10 V c ⟨n + 1, hn⟩ h0 (accAt10 c n (Nat.lt_of_succ_lt hn)).2, sB10 V c ⟨n + 1, hn⟩ h0 (accAt10 c n (Nat.lt_of_succ_lt hn)).2)

/-- At an even point: case A's contents. -/
theorem accAt10_A (c : Dev nD) (t : Fin cfg10.N) (h0 : t.val % 2 = 0) :
    accAt10 V c t.val t.isLt = (oA10 V c t h0, sA10 V c t h0) := by
  obtain ⟨n, hn⟩ := t
  cases n with
  | zero => exact rfl
  | succ n => exact (dif_pos h0).trans rfl

/-- At an odd point: case B's contents, over what the point before left in the accumulator. -/
theorem accAt10_B (c : Dev nD) (t : Fin cfg10.N) (h0 : ¬t.val % 2 = 0) :
    accAt10 V c t.val t.isLt
      = (oB10 V c t h0 (accAt10 V c (t.val - 1) (Nat.lt_of_le_of_lt (Nat.sub_le _ _) t.isLt)).2,
         sB10 V c t h0 (accAt10 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- What the output's staging buffer holds after the body at point `t`. -/
def outsAt10 (c : Dev nD) (t : Fin cfg10.N) : Vec F S1024x3 .f32 := (accAt10 V c t.val t.isLt).1
/-- What the accumulator holds after the body at point `t`. -/
def sAt10 (c : Dev nD) (t : Fin cfg10.N) : Vec F S1024x3 .f32 := (accAt10 V c t.val t.isLt).2

/-! ## The invariant -/

/-- The region's invariant before position `n`: before the first point, what the launch hands over (every
    scoped buffer no window stages at anything, the generator register at some state); afterwards the same with
    the accumulator at what the point before left in it. -/
def PhiS10 (c : Dev nD) : (n : ℕ) → n ≤ cfg10.N → sProp 𝕄
  | 0, _ => Pipeline.ΦA spec10 c
  | n + 1, hn => iprop(iprop(owns (c : Thread nD τ) scM10_0 fullShare ((accAt10 V c n hn).2) ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(owns (c : Thread nD τ) scM10_0 fullShare ((accAt10 V c n hn).2) ∗ Pipeline.scopedRestBut (Ix := Unit) (Name := ℕ) (U := UR sig nD τ) (Lvl := ℕ) (Val := Elt F) spec10 c [cc10_scratch0]) ∗ (∃ r, prngReg c r)) := rfl

theorem PhiS10_pos (c : Dev nD) (n : ℕ) (h : n ≤ cfg10.N) (hz : n ≠ 0) :
    PhiS10 V c n h = iprop(iprop(owns (c : Thread nD τ) scM10_0 fullShare ((accAt10 V c (n - 1) (by omega)).2) ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-! ## The proof data -/

/-- The region's proof data on core `c`: the arrays as the region finds them; after the body each input's buffer
    at its block and the output's at `outsAt10`; the invariant `PhiS10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => outsAt10 V c t
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = (accAt10 V c t.val t.isLt).1 := by dsimp only [dat10, outsAt10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4800000 in
/-- The body at any point. The inputs' memrefs hold their blocks; the point's parity says which case it is in.
    At an even point the accumulator goes in at anything (whatever the invariant holds it at) and the output's
    buffer comes back untouched; at an odd point the accumulator goes in at what the point before left. Either
    way it comes back at this point's contents, its pieces covering it; the rest of the invariant is untouched
    and the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl]
  rw [show (dat10 V c).Φ t.succ = PhiS10 V c (t.val + 1) t.isLt from rfl, PhiS10_succ]
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [show (dat10 V c).leavesExact 2 t = owns (c : Thread nD τ) (ms10_2 t) fullShare ((dat10 V c).after 2 t) from by
    unfold Dat.leavesExact; rw [liveAt10_2 t], after10_2]
  have hN : t.val < 16 := lt_of_lt_of_eq t.isLt (show cfg10.N = 16 from N_10)
  by_cases h0 : t.val % 2 = 0
  · rw [Dat.leavesExact_idle (dat10 V c) 3 t (idleAt10_3_A t (hc10A0 t h0) (hc10A1 t h0)) (noFlush10_3_A t (hc10A0 t h0) (hc10A1 t h0))]
    rw [accAt10_A V c t h0]
    unfold sA10 sout10_A_0; (try dsimp only)
    by_cases hz : t.val = 0
    · rw [PhiS10_castSucc V c t, PhiS10_zero V c _ _ hz, PhiA10_eq]
      iintro ⟨⟨⟨HS0, HR⟩, Hg⟩, Ho, ⟨%d0, H0⟩, ⟨%d1, H1⟩, ⟨%d2, H2⟩, ⟨%d3, H3⟩⟩
      iapply ((kernelRun10_A c (grid10.coords t) _ _ _ _ _ _ _ _ _ _ (hc10A0 t h0) (hc10A1 t h0) (iblk10 V c 0 t) (iblk10 V c 1 t) (iblk10 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS10_castSucc V c t, PhiS10_pos V c _ _ hz]
      iintro ⟨⟨⟨HS0, HR⟩, Hg⟩, Ho, ⟨%d0, H0⟩, ⟨%d1, H1⟩, ⟨%d2, H2⟩, ⟨%d3, H3⟩⟩
      iapply ((kernelRun10_A c (grid10.coords t) _ _ _ _ _ _ _ _ _ _ (hc10A0 t h0) (hc10A1 t h0) (iblk10 V c 0 t) (iblk10 V c 1 t) (iblk10 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat10 V c).leavesExact 3 t = owns (c : Thread nD τ) (ms10_3 t) fullShare ((dat10 V c).after 3 t) from by
      unfold Dat.leavesExact; rw [liveAt10_3_B t (hc10B0 t h0) (hc10B1 t h0)], after10_3]
    rw [accAt10_B V c t h0]
    unfold oB10 sB10 out10_B_3 sout10_B_0; (try dsimp only)
    have hz : t.val ≠ 0 := fun e => h0 (by rw [e])
    rw [PhiS10_castSucc V c t, PhiS10_pos V c _ _ hz]
    iintro ⟨⟨⟨HS0, HR⟩, Hg⟩, Ho, ⟨%d0, H0⟩, ⟨%d1, H1⟩, ⟨%d2, H2⟩, ⟨%d3, H3⟩⟩
    iapply ((kernelRun10_B c (grid10.coords t) _ _ _ _ _ _ _ _ _ _ (hc10B0 t h0) (hc10B1 t h0) (iblk10 V c 0 t) (iblk10 V c 1 t) (iblk10 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover10_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover10_B_3 c _ _ _ _ _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Into the invariant and out of it -/

/-- What the launch hands the region is the invariant before the first point. -/
theorem hin10 (c : Dev nD) :
    iprop((∃ r, prngReg c r) ∗ Pipeline.scopedRest (Ix := Unit) (Name := ℕ) (U := UR sig nD τ) (Lvl := ℕ) (Val := Elt F) spec10 c)
      ⊢ ((dat10 V c).Φ 0 : sProp 𝕄) := by
  rw [show (dat10 V c).Φ 0 = PhiS10 V c 0 (Nat.zero_le _) from rfl, PhiS10_zero V c 0 _ rfl]
  unfold Pipeline.ΦA
  iintro ⟨Hp, Hr⟩
  isplitl [Hr]; · iexact Hr
  iexact Hp

/-- After any point the invariant gives the same back: the accumulator's named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS0, HR⟩, Hg⟩
  isplitl [HS0 HR]
  · isplitl [HS0]
    · iexists _; iexact HS0
    iexact HR
  iexact Hg

/-- The same after the last point, in the order the launch takes it back. -/
theorem hout10 (c : Dev nD) :
    ((dat10 V c).Φ (Fin.last cfg10.N) : sProp 𝕄)
      ⊢ iprop((∃ r, prngReg c r) ∗ Pipeline.scopedRest (Ix := Unit) (Name := ℕ) (U := UR sig nD τ) (Lvl := ℕ) (Val := Elt F) spec10 c) := by
  refine (Phi_out10 V c _ (by rw [Fin.val_last]; have : cfg10.N = 16 := N_10; omega)).trans ?_
  unfold Pipeline.ΦA
  iintro ⟨Hr, Hp⟩
  isplitl [Hp]; · iexact Hp
  iexact Hr

end R10

end Cert.KernelIdeal.Hand

end
-- ==== Proof.KI.Run.lean ====
import proofs.«120270_j2259152797813_2_alg».proof.Proof.Gen.KernelIdeal.Launch
import proofs.«120270_j2259152797813_2_alg».proof.Proof.Gen.KernelIdeal.Skeleton
import proofs.«120270_j2259152797813_2_alg».proof.Proof.Gen.KernelIdeal.Points
import proofs.«120270_j2259152797813_2_alg».proof.Proof.KI.R0
import proofs.«120270_j2259152797813_2_alg».proof.Proof.KI.R1
import proofs.«120270_j2259152797813_2_alg».proof.Proof.KI.R2
import proofs.«120270_j2259152797813_2_alg».proof.Proof.KI.R3
import proofs.«120270_j2259152797813_2_alg».proof.Proof.KI.R4
import proofs.«120270_j2259152797813_2_alg».proof.Proof.KI.R5
import proofs.«120270_j2259152797813_2_alg».proof.Proof.KI.R6
import proofs.«120270_j2259152797813_2_alg».proof.Proof.KI.R7
import proofs.«120270_j2259152797813_2_alg».proof.Proof.KI.R8
import proofs.«120270_j2259152797813_2_alg».proof.Proof.KI.R9
import proofs.«120270_j2259152797813_2_alg».proof.Proof.KI.R10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The run of @main: its host stretches and its eleven kernel regions in order

The contents of the TensorCore's buffers at every boundary between two segments of @main are a fold from the launch
memory: a stretch of host operations applies its operations; a kernel region leaves its windows' arrays at what the
write-backs of its grid points leave and every other buffer as it found it.  No host operation and no region writes an
argument array, so at the end every argument holds what it held at launch.
-/

variable (m : (ℓ : Loc nD τ sig) → Buf (Elt F) ℓ) (ρ : Dev nD → PrngReg)

/-- The argument arrays. -/
abbrev argR : Fin 23 → Ref sig .tc := ![main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

theorem hostOps0_fresh : (hostOps0 : List (HloOp τ sig (Elt F))).Forall fun op => op.fresh = ∅ := by
  simp only [List.Forall]; repeat' constructor
set_option maxHeartbeats 4000000 in
/-- No operation of this stretch writes an argument array. -/
theorem hostOps0_args (W : Valuation τ sig (Elt F)) (j : Fin 23) :
    StableHlo.after (hostOps0 (F := F)) W (Proc.devRef .tc (argR j)) = W (Proc.devRef .tc (argR j)) :=
  StableHlo.after_of_forall_not_mem (b := Proc.devRef .tc (argR j)) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps0_1_fresh : (hostOps0_1 : List (HloOp τ sig (Elt F))).Forall fun op => op.fresh = ∅ := by
  simp only [List.Forall]; repeat' constructor
set_option maxHeartbeats 4000000 in
/-- No operation of this stretch writes an argument array. -/
theorem hostOps0_1_args (W : Valuation τ sig (Elt F)) (j : Fin 23) :
    StableHlo.after (hostOps0_1 (F := F)) W (Proc.devRef .tc (argR j)) = W (Proc.devRef .tc (argR j)) :=
  StableHlo.after_of_forall_not_mem (b := Proc.devRef .tc (argR j)) _ _ (List.forall_iff_forall_mem.mp (by
    simp only [hostOps0_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps0_2_fresh : (hostOps0_2 : List (HloOp τ sig (Elt F))).Forall fun op => op.fresh = ∅ := by
  simp only [List.Forall]; repeat' constructor
set_option maxHeartbeats 4000000 in
/-- No operation of this stretch writes an argument array. -/
theorem hostOps0_2_args (W : Valuation τ sig (Elt F)) (j : Fin 23) :
    StableHlo.after (hostOps0_2 (F := F)) W (Proc.devRef .tc (argR j)) = W (Proc.devRef .tc (argR j)) :=
  StableHlo.after_of_forall_not_mem (b := Proc.devRef .tc (argR j)) _ _ (List.forall_iff_forall_mem.mp (by
    simp only [hostOps0_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps0_3_fresh : (hostOps0_3 : List (HloOp τ sig (Elt F))).Forall fun op => op.fresh = ∅ := by
  simp only [List.Forall]; repeat' constructor
set_option maxHeartbeats 4000000 in
/-- No operation of this stretch writes an argument array. -/
theorem hostOps0_3_args (W : Valuation τ sig (Elt F)) (j : Fin 23) :
    StableHlo.after (hostOps0_3 (F := F)) W (Proc.devRef .tc (argR j)) = W (Proc.devRef .tc (argR j)) :=
  StableHlo.after_of_forall_not_mem (b := Proc.devRef .tc (argR j)) _ _ (List.forall_iff_forall_mem.mp (by
    simp only [hostOps0_3, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps0_4_fresh : (hostOps0_4 : List (HloOp τ sig (Elt F))).Forall fun op => op.fresh = ∅ := by
  simp only [List.Forall]; repeat' constructor
set_option maxHeartbeats 4000000 in
/-- No operation of this stretch writes an argument array. -/
theorem hostOps0_4_args (W : Valuation τ sig (Elt F)) (j : Fin 23) :
    StableHlo.after (hostOps0_4 (F := F)) W (Proc.devRef .tc (argR j)) = W (Proc.devRef .tc (argR j)) :=
  StableHlo.after_of_forall_not_mem (b := Proc.devRef .tc (argR j)) _ _ (List.forall_iff_forall_mem.mp (by
    simp only [hostOps0_4, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps0_5_fresh : (hostOps0_5 : List (HloOp τ sig (Elt F))).Forall fun op => op.fresh = ∅ := by
  simp only [List.Forall]; repeat' constructor
set_option maxHeartbeats 4000000 in
/-- No operation of this stretch writes an argument array. -/
theorem hostOps0_5_args (W : Valuation τ sig (Elt F)) (j : Fin 23) :
    StableHlo.after (hostOps0_5 (F := F)) W (Proc.devRef .tc (argR j)) = W (Proc.devRef .tc (argR j)) :=
  StableHlo.after_of_forall_not_mem (b := Proc.devRef .tc (argR j)) _ _ (List.forall_iff_forall_mem.mp (by
    simp only [hostOps0_5, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps0_6_fresh : (hostOps0_6 : List (HloOp τ sig (Elt F))).Forall fun op => op.fresh = ∅ := by
  simp only [List.Forall]; repeat' constructor
set_option maxHeartbeats 4000000 in
/-- No operation of this stretch writes an argument array. -/
theorem hostOps0_6_args (W : Valuation τ sig (Elt F)) (j : Fin 23) :
    StableHlo.after (hostOps0_6 (F := F)) W (Proc.devRef .tc (argR j)) = W (Proc.devRef .tc (argR j)) :=
  StableHlo.after_of_forall_not_mem (b := Proc.devRef .tc (argR j)) _ _ (List.forall_iff_forall_mem.mp (by
    simp only [hostOps0_6, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps1_fresh : (hostOps1 : List (HloOp τ sig (Elt F))).Forall fun op => op.fresh = ∅ := by
  simp only [List.Forall]; repeat' constructor
set_option maxHeartbeats 4000000 in
/-- No operation of this stretch writes an argument array. -/
theorem hostOps1_args (W : Valuation τ sig (Elt F)) (j : Fin 23) :
    StableHlo.after (hostOps1 (F := F)) W (Proc.devRef .tc (argR j)) = W (Proc.devRef .tc (argR j)) :=
  StableHlo.after_of_forall_not_mem (b := Proc.devRef .tc (argR j)) _ _ (List.forall_iff_forall_mem.mp (by
    simp only [hostOps1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps1_1_fresh : (hostOps1_1 : List (HloOp τ sig (Elt F))).Forall fun op => op.fresh = ∅ := by
  simp only [List.Forall]; repeat' constructor
set_option maxHeartbeats 4000000 in
/-- No operation of this stretch writes an argument array. -/
theorem hostOps1_1_args (W : Valuation τ sig (Elt F)) (j : Fin 23) :
    StableHlo.after (hostOps1_1 (F := F)) W (Proc.devRef .tc (argR j)) = W (Proc.devRef .tc (argR j)) :=
  StableHlo.after_of_forall_not_mem (b := Proc.devRef .tc (argR j)) _ _ (List.forall_iff_forall_mem.mp (by
    simp only [hostOps1_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps1_2_fresh : (hostOps1_2 : List (HloOp τ sig (Elt F))).Forall fun op => op.fresh = ∅ := by
  simp only [List.Forall]; repeat' constructor
set_option maxHeartbeats 4000000 in
/-- No operation of this stretch writes an argument array. -/
theorem hostOps1_2_args (W : Valuation τ sig (Elt F)) (j : Fin 23) :
    StableHlo.after (hostOps1_2 (F := F)) W (Proc.devRef .tc (argR j)) = W (Proc.devRef .tc (argR j)) :=
  StableHlo.after_of_forall_not_mem (b := Proc.devRef .tc (argR j)) _ _ (List.forall_iff_forall_mem.mp (by
    simp only [hostOps1_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps2_fresh : (hostOps2 : List (HloOp τ sig (Elt F))).Forall fun op => op.fresh = ∅ := by
  simp only [List.Forall]; repeat' constructor
set_option maxHeartbeats 4000000 in
/-- No operation of this stretch writes an argument array. -/
theorem hostOps2_args (W : Valuation τ sig (Elt F)) (j : Fin 23) :
    StableHlo.after (hostOps2 (F := F)) W (Proc.devRef .tc (argR j)) = W (Proc.devRef .tc (argR j)) :=
  StableHlo.after_of_forall_not_mem (b := Proc.devRef .tc (argR j)) _ _ (List.forall_iff_forall_mem.mp (by
    simp only [hostOps2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps2_1_fresh : (hostOps2_1 : List (HloOp τ sig (Elt F))).Forall fun op => op.fresh = ∅ := by
  simp only [List.Forall]; repeat' constructor
set_option maxHeartbeats 4000000 in
/-- No operation of this stretch writes an argument array. -/
theorem hostOps2_1_args (W : Valuation τ sig (Elt F)) (j : Fin 23) :
    StableHlo.after (hostOps2_1 (F := F)) W (Proc.devRef .tc (argR j)) = W (Proc.devRef .tc (argR j)) :=
  StableHlo.after_of_forall_not_mem (b := Proc.devRef .tc (argR j)) _ _ (List.forall_iff_forall_mem.mp (by
    simp only [hostOps2_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps2_2_fresh : (hostOps2_2 : List (HloOp τ sig (Elt F))).Forall fun op => op.fresh = ∅ := by
  simp only [List.Forall]; repeat' constructor
set_option maxHeartbeats 4000000 in
/-- No operation of this stretch writes an argument array. -/
theorem hostOps2_2_args (W : Valuation τ sig (Elt F)) (j : Fin 23) :
    StableHlo.after (hostOps2_2 (F := F)) W (Proc.devRef .tc (argR j)) = W (Proc.devRef .tc (argR j)) :=
  StableHlo.after_of_forall_not_mem (b := Proc.devRef .tc (argR j)) _ _ (List.forall_iff_forall_mem.mp (by
    simp only [hostOps2_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps3_fresh : (hostOps3 : List (HloOp τ sig (Elt F))).Forall fun op => op.fresh = ∅ := by
  simp only [List.Forall]; repeat' constructor
set_option maxHeartbeats 4000000 in
/-- No operation of this stretch writes an argument array. -/
theorem hostOps3_args (W : Valuation τ sig (Elt F)) (j : Fin 23) :
    StableHlo.after (hostOps3 (F := F)) W (Proc.devRef .tc (argR j)) = W (Proc.devRef .tc (argR j)) :=
  StableHlo.after_of_forall_not_mem (b := Proc.devRef .tc (argR j)) _ _ (List.forall_iff_forall_mem.mp (by
    simp only [hostOps3, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps3_1_fresh : (hostOps3_1 : List (HloOp τ sig (Elt F))).Forall fun op => op.fresh = ∅ := by
  simp only [List.Forall]; repeat' constructor
set_option maxHeartbeats 4000000 in
/-- No operation of this stretch writes an argument array. -/
theorem hostOps3_1_args (W : Valuation τ sig (Elt F)) (j : Fin 23) :
    StableHlo.after (hostOps3_1 (F := F)) W (Proc.devRef .tc (argR j)) = W (Proc.devRef .tc (argR j)) :=
  StableHlo.after_of_forall_not_mem (b := Proc.devRef .tc (argR j)) _ _ (List.forall_iff_forall_mem.mp (by
    simp only [hostOps3_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps3_2_fresh : (hostOps3_2 : List (HloOp τ sig (Elt F))).Forall fun op => op.fresh = ∅ := by
  simp only [List.Forall]; repeat' constructor
set_option maxHeartbeats 4000000 in
/-- No operation of this stretch writes an argument array. -/
theorem hostOps3_2_args (W : Valuation τ sig (Elt F)) (j : Fin 23) :
    StableHlo.after (hostOps3_2 (F := F)) W (Proc.devRef .tc (argR j)) = W (Proc.devRef .tc (argR j)) :=
  StableHlo.after_of_forall_not_mem (b := Proc.devRef .tc (argR j)) _ _ (List.forall_iff_forall_mem.mp (by
    simp only [hostOps3_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps4_fresh : (hostOps4 : List (HloOp τ sig (Elt F))).Forall fun op => op.fresh = ∅ := by
  simp only [List.Forall]; repeat' constructor
set_option maxHeartbeats 4000000 in
/-- No operation of this stretch writes an argument array. -/
theorem hostOps4_args (W : Valuation τ sig (Elt F)) (j : Fin 23) :
    StableHlo.after (hostOps4 (F := F)) W (Proc.devRef .tc (argR j)) = W (Proc.devRef .tc (argR j)) :=
  StableHlo.after_of_forall_not_mem (b := Proc.devRef .tc (argR j)) _ _ (List.forall_iff_forall_mem.mp (by
    simp only [hostOps4, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps5_fresh : (hostOps5 : List (HloOp τ sig (Elt F))).Forall fun op => op.fresh = ∅ := by
  simp only [List.Forall]; repeat' constructor
set_option maxHeartbeats 4000000 in
/-- No operation of this stretch writes an argument array. -/
theorem hostOps5_args (W : Valuation τ sig (Elt F)) (j : Fin 23) :
    StableHlo.after (hostOps5 (F := F)) W (Proc.devRef .tc (argR j)) = W (Proc.devRef .tc (argR j)) :=
  StableHlo.after_of_forall_not_mem (b := Proc.devRef .tc (argR j)) _ _ (List.forall_iff_forall_mem.mp (by
    simp only [hostOps5, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps6_fresh : (hostOps6 : List (HloOp τ sig (Elt F))).Forall fun op => op.fresh = ∅ := by
  simp only [List.Forall]; repeat' constructor
set_option maxHeartbeats 4000000 in
/-- No operation of this stretch writes an argument array. -/
theorem hostOps6_args (W : Valuation τ sig (Elt F)) (j : Fin 23) :
    StableHlo.after (hostOps6 (F := F)) W (Proc.devRef .tc (argR j)) = W (Proc.devRef .tc (argR j)) :=
  StableHlo.after_of_forall_not_mem (b := Proc.devRef .tc (argR j)) _ _ (List.forall_iff_forall_mem.mp (by
    simp only [hostOps6, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps7_fresh : (hostOps7 : List (HloOp τ sig (Elt F))).Forall fun op => op.fresh = ∅ := by
  simp only [List.Forall]; repeat' constructor
set_option maxHeartbeats 4000000 in
/-- No operation of this stretch writes an argument array. -/
theorem hostOps7_args (W : Valuation τ sig (Elt F)) (j : Fin 23) :
    StableHlo.after (hostOps7 (F := F)) W (Proc.devRef .tc (argR j)) = W (Proc.devRef .tc (argR j)) :=
  StableHlo.after_of_forall_not_mem (b := Proc.devRef .tc (argR j)) _ _ (List.forall_iff_forall_mem.mp (by
    simp only [hostOps7, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps8_fresh : (hostOps8 : List (HloOp τ sig (Elt F))).Forall fun op => op.fresh = ∅ := by
  simp only [List.Forall]; repeat' constructor
set_option maxHeartbeats 4000000 in
/-- No operation of this stretch writes an argument array. -/
theorem hostOps8_args (W : Valuation τ sig (Elt F)) (j : Fin 23) :
    StableHlo.after (hostOps8 (F := F)) W (Proc.devRef .tc (argR j)) = W (Proc.devRef .tc (argR j)) :=
  StableHlo.after_of_forall_not_mem (b := Proc.devRef .tc (argR j)) _ _ (List.forall_iff_forall_mem.mp (by
    simp only [hostOps8, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps9_fresh : (hostOps9 : List (HloOp τ sig (Elt F))).Forall fun op => op.fresh = ∅ := by
  simp only [List.Forall]; repeat' constructor
set_option maxHeartbeats 4000000 in
/-- No operation of this stretch writes an argument array. -/
theorem hostOps9_args (W : Valuation τ sig (Elt F)) (j : Fin 23) :
    StableHlo.after (hostOps9 (F := F)) W (Proc.devRef .tc (argR j)) = W (Proc.devRef .tc (argR j)) :=
  StableHlo.after_of_forall_not_mem (b := Proc.devRef .tc (argR j)) _ _ (List.forall_iff_forall_mem.mp (by
    simp only [hostOps9, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps10_fresh : (hostOps10 : List (HloOp τ sig (Elt F))).Forall fun op => op.fresh = ∅ := by
  simp only [List.Forall]; repeat' constructor
set_option maxHeartbeats 4000000 in
/-- No operation of this stretch writes an argument array. -/
theorem hostOps10_args (W : Valuation τ sig (Elt F)) (j : Fin 23) :
    StableHlo.after (hostOps10 (F := F)) W (Proc.devRef .tc (argR j)) = W (Proc.devRef .tc (argR j)) :=
  StableHlo.after_of_forall_not_mem (b := Proc.devRef .tc (argR j)) _ _ (List.forall_iff_forall_mem.mp (by
    simp only [hostOps10, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

theorem hostOps11_fresh : (hostOps11 : List (HloOp τ sig (Elt F))).Forall fun op => op.fresh = ∅ := by
  simp only [List.Forall]; repeat' constructor
set_option maxHeartbeats 4000000 in
/-- No operation of this stretch writes an argument array. -/
theorem hostOps11_args (W : Valuation τ sig (Elt F)) (j : Fin 23) :
    StableHlo.after (hostOps11 (F := F)) W (Proc.devRef .tc (argR j)) = W (Proc.devRef .tc (argR j)) :=
  StableHlo.after_of_forall_not_mem (b := Proc.devRef .tc (argR j)) _ _ (List.forall_iff_forall_mem.mp (by
    simp only [hostOps11, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by revert j; decide)))

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_args (c : Dev nD) (j : Fin 23) : W1 m ρ c (Proc.devRef .tc (argR j)) = W0 m ρ c (Proc.devRef .tc (argR j)) :=
  hostOps0_args (W0 m ρ c) j
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_args (c : Dev nD) (j : Fin 23) : W2 m ρ c (Proc.devRef .tc (argR j)) = W1 m ρ c (Proc.devRef .tc (argR j)) :=
  hostOps0_1_args (W1 m ρ c) j
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_args (c : Dev nD) (j : Fin 23) : W3 m ρ c (Proc.devRef .tc (argR j)) = W2 m ρ c (Proc.devRef .tc (argR j)) :=
  hostOps0_2_args (W2 m ρ c) j
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
theorem W4_args (c : Dev nD) (j : Fin 23) : W4 m ρ c (Proc.devRef .tc (argR j)) = W3 m ρ c (Proc.devRef .tc (argR j)) :=
  hostOps0_3_args (W3 m ρ c) j
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
theorem W5_args (c : Dev nD) (j : Fin 23) : W5 m ρ c (Proc.devRef .tc (argR j)) = W4 m ρ c (Proc.devRef .tc (argR j)) :=
  hostOps0_4_args (W4 m ρ c) j
abbrev W6 : Dev nD → Valuation τ sig (Elt F) := fun c => StableHlo.after hostOps0_5 (W5 m ρ c)
abbrev V6 : (c : Dev nD) → (b : Ref sig .tc) → Buf (Elt F) ((c : Thread nD τ).loc b) := fun c b => W6 m ρ c b
theorem W6_args (c : Dev nD) (j : Fin 23) : W6 m ρ c (Proc.devRef .tc (argR j)) = W5 m ρ c (Proc.devRef .tc (argR j)) :=
  hostOps0_5_args (W5 m ρ c) j
abbrev W7 : Dev nD → Valuation τ sig (Elt F) := fun c => StableHlo.after hostOps0_6 (W6 m ρ c)
abbrev V7 : (c : Dev nD) → (b : Ref sig .tc) → Buf (Elt F) ((c : Thread nD τ).loc b) := fun c b => W7 m ρ c b
theorem W7_args (c : Dev nD) (j : Fin 23) : W7 m ρ c (Proc.devRef .tc (argR j)) = W6 m ρ c (Proc.devRef .tc (argR j)) :=
  hostOps0_6_args (W6 m ρ c) j
/-- At region 0's exit: its arrays at what the write-backs leave, every other buffer as entered. -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
abbrev V8 : (c : Dev nD) → (b : Ref sig .tc) → Buf (Elt F) ((c : Thread nD τ).loc b) := fun c b => W8 m ρ c b
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)
theorem W8_args (c : Dev nD) (j : Fin 23) : W8 m ρ c (Proc.devRef .tc (argR j)) = W7 m ρ c (Proc.devRef .tc (argR j)) :=
  W8_of_ne m ρ c (argR j) (by revert j; decide)
abbrev W9 : Dev nD → Valuation τ sig (Elt F) := fun c => StableHlo.after hostOps1 (W8 m ρ c)
abbrev V9 : (c : Dev nD) → (b : Ref sig .tc) → Buf (Elt F) ((c : Thread nD τ).loc b) := fun c b => W9 m ρ c b
theorem W9_args (c : Dev nD) (j : Fin 23) : W9 m ρ c (Proc.devRef .tc (argR j)) = W8 m ρ c (Proc.devRef .tc (argR j)) :=
  hostOps1_args (W8 m ρ c) j
abbrev W10 : Dev nD → Valuation τ sig (Elt F) := fun c => StableHlo.after hostOps1_1 (W9 m ρ c)
abbrev V10 : (c : Dev nD) → (b : Ref sig .tc) → Buf (Elt F) ((c : Thread nD τ).loc b) := fun c b => W10 m ρ c b
theorem W10_args (c : Dev nD) (j : Fin 23) : W10 m ρ c (Proc.devRef .tc (argR j)) = W9 m ρ c (Proc.devRef .tc (argR j)) :=
  hostOps1_1_args (W9 m ρ c) j
abbrev W11 : Dev nD → Valuation τ sig (Elt F) := fun c => StableHlo.after hostOps1_2 (W10 m ρ c)
abbrev V11 : (c : Dev nD) → (b : Ref sig .tc) → Buf (Elt F) ((c : Thread nD τ).loc b) := fun c b => W11 m ρ c b
theorem W11_args (c : Dev nD) (j : Fin 23) : W11 m ρ c (Proc.devRef .tc (argR j)) = W10 m ρ c (Proc.devRef .tc (argR j)) :=
  hostOps1_2_args (W10 m ρ c) j
/-- At region 1's exit: its arrays at what the write-backs leave, every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev V12 : (c : Dev nD) → (b : Ref sig .tc) → Buf (Elt F) ((c : Thread nD τ).loc b) := fun c b => W12 m ρ c b
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)
theorem W12_args (c : Dev nD) (j : Fin 23) : W12 m ρ c (Proc.devRef .tc (argR j)) = W11 m ρ c (Proc.devRef .tc (argR j)) :=
  W12_of_ne m ρ c (argR j) (by revert j; decide)
abbrev W13 : Dev nD → Valuation τ sig (Elt F) := fun c => StableHlo.after hostOps2 (W12 m ρ c)
abbrev V13 : (c : Dev nD) → (b : Ref sig .tc) → Buf (Elt F) ((c : Thread nD τ).loc b) := fun c b => W13 m ρ c b
theorem W13_args (c : Dev nD) (j : Fin 23) : W13 m ρ c (Proc.devRef .tc (argR j)) = W12 m ρ c (Proc.devRef .tc (argR j)) :=
  hostOps2_args (W12 m ρ c) j
abbrev W14 : Dev nD → Valuation τ sig (Elt F) := fun c => StableHlo.after hostOps2_1 (W13 m ρ c)
abbrev V14 : (c : Dev nD) → (b : Ref sig .tc) → Buf (Elt F) ((c : Thread nD τ).loc b) := fun c b => W14 m ρ c b
theorem W14_args (c : Dev nD) (j : Fin 23) : W14 m ρ c (Proc.devRef .tc (argR j)) = W13 m ρ c (Proc.devRef .tc (argR j)) :=
  hostOps2_1_args (W13 m ρ c) j
abbrev W15 : Dev nD → Valuation τ sig (Elt F) := fun c => StableHlo.after hostOps2_2 (W14 m ρ c)
abbrev V15 : (c : Dev nD) → (b : Ref sig .tc) → Buf (Elt F) ((c : Thread nD τ).loc b) := fun c b => W15 m ρ c b
theorem W15_args (c : Dev nD) (j : Fin 23) : W15 m ρ c (Proc.devRef .tc (argR j)) = W14 m ρ c (Proc.devRef .tc (argR j)) :=
  hostOps2_2_args (W14 m ρ c) j
/-- At region 2's exit: its arrays at what the write-backs leave, every other buffer as entered. -/
def W16 (c : Dev nD) : Valuation τ sig (Elt F) :=
  Pipeline.withArrays spec2 c (W15 m ρ c) fun w => (dat2 (V15 m ρ) c).arrAt w cfg2.N
theorem W16_arr (c : Dev nD) (w : Fin cfg2.W) :
    W16 m ρ c (Proc.devRef .tc (Pipeline.arrRef spec2 w)) = (dat2 (V15 m ρ) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m ρ c (Proc.devRef .tc b) = W15 m ρ c (Proc.devRef .tc b) := by
  unfold W16; exact Pipeline.withArrays_of_ne spec2 c _ _ b hb
abbrev V16 : (c : Dev nD) → (b : Ref sig .tc) → Buf (Elt F) ((c : Thread nD τ).loc b) := fun c b => W16 m ρ c b
theorem hF2 (c : Dev nD) (w : Fin cfg2.W) : (dat2 (V15 m ρ) c).arrAt w cfg2.N = V16 m ρ c (Pipeline.arrRef spec2 w) :=
  (W16_arr m ρ c w).symm
theorem hrest2 (c : Dev nD) : ∀ b, b ∉ Finset.univ.image (Pipeline.arrRef spec2) → V16 m ρ c b = V15 m ρ c b :=
  fun b hb => W16_of_ne m ρ c b fun w e => hb (Finset.mem_image.mpr ⟨w, Finset.mem_univ _, e⟩)
theorem W16_args (c : Dev nD) (j : Fin 23) : W16 m ρ c (Proc.devRef .tc (argR j)) = W15 m ρ c (Proc.devRef .tc (argR j)) :=
  W16_of_ne m ρ c (argR j) (by revert j; decide)
abbrev W17 : Dev nD → Valuation τ sig (Elt F) := fun c => StableHlo.after hostOps3 (W16 m ρ c)
abbrev V17 : (c : Dev nD) → (b : Ref sig .tc) → Buf (Elt F) ((c : Thread nD τ).loc b) := fun c b => W17 m ρ c b
theorem W17_args (c : Dev nD) (j : Fin 23) : W17 m ρ c (Proc.devRef .tc (argR j)) = W16 m ρ c (Proc.devRef .tc (argR j)) :=
  hostOps3_args (W16 m ρ c) j
abbrev W18 : Dev nD → Valuation τ sig (Elt F) := fun c => StableHlo.after hostOps3_1 (W17 m ρ c)
abbrev V18 : (c : Dev nD) → (b : Ref sig .tc) → Buf (Elt F) ((c : Thread nD τ).loc b) := fun c b => W18 m ρ c b
theorem W18_args (c : Dev nD) (j : Fin 23) : W18 m ρ c (Proc.devRef .tc (argR j)) = W17 m ρ c (Proc.devRef .tc (argR j)) :=
  hostOps3_1_args (W17 m ρ c) j
abbrev W19 : Dev nD → Valuation τ sig (Elt F) := fun c => StableHlo.after hostOps3_2 (W18 m ρ c)
abbrev V19 : (c : Dev nD) → (b : Ref sig .tc) → Buf (Elt F) ((c : Thread nD τ).loc b) := fun c b => W19 m ρ c b
theorem W19_args (c : Dev nD) (j : Fin 23) : W19 m ρ c (Proc.devRef .tc (argR j)) = W18 m ρ c (Proc.devRef .tc (argR j)) :=
  hostOps3_2_args (W18 m ρ c) j
/-- At region 3's exit: its arrays at what the write-backs leave, every other buffer as entered. -/
def W20 (c : Dev nD) : Valuation τ sig (Elt F) :=
  Pipeline.withArrays spec3 c (W19 m ρ c) fun w => (dat3 (V19 m ρ) c).arrAt w cfg3.N
theorem W20_arr (c : Dev nD) (w : Fin cfg3.W) :
    W20 m ρ c (Proc.devRef .tc (Pipeline.arrRef spec3 w)) = (dat3 (V19 m ρ) c).arrAt w cfg3.N := by
  unfold W20; exact Pipeline.withArrays_arr spec3 launch3.win.arr_inj c _ _ w
theorem W20_of_ne (c : Dev nD) (b : Ref sig .tc) (hb : ∀ w, Pipeline.arrRef spec3 w ≠ b) :
    W20 m ρ c (Proc.devRef .tc b) = W19 m ρ c (Proc.devRef .tc b) := by
  unfold W20; exact Pipeline.withArrays_of_ne spec3 c _ _ b hb
abbrev V20 : (c : Dev nD) → (b : Ref sig .tc) → Buf (Elt F) ((c : Thread nD τ).loc b) := fun c b => W20 m ρ c b
theorem hF3 (c : Dev nD) (w : Fin cfg3.W) : (dat3 (V19 m ρ) c).arrAt w cfg3.N = V20 m ρ c (Pipeline.arrRef spec3 w) :=
  (W20_arr m ρ c w).symm
theorem hrest3 (c : Dev nD) : ∀ b, b ∉ Finset.univ.image (Pipeline.arrRef spec3) → V20 m ρ c b = V19 m ρ c b :=
  fun b hb => W20_of_ne m ρ c b fun w e => hb (Finset.mem_image.mpr ⟨w, Finset.mem_univ _, e⟩)
theorem W20_args (c : Dev nD) (j : Fin 23) : W20 m ρ c (Proc.devRef .tc (argR j)) = W19 m ρ c (Proc.devRef .tc (argR j)) :=
  W20_of_ne m ρ c (argR j) (by revert j; decide)
abbrev W21 : Dev nD → Valuation τ sig (Elt F) := fun c => StableHlo.after hostOps4 (W20 m ρ c)
abbrev V21 : (c : Dev nD) → (b : Ref sig .tc) → Buf (Elt F) ((c : Thread nD τ).loc b) := fun c b => W21 m ρ c b
theorem W21_args (c : Dev nD) (j : Fin 23) : W21 m ρ c (Proc.devRef .tc (argR j)) = W20 m ρ c (Proc.devRef .tc (argR j)) :=
  hostOps4_args (W20 m ρ c) j
/-- At region 4's exit: its arrays at what the write-backs leave, every other buffer as entered. -/
def W22 (c : Dev nD) : Valuation τ sig (Elt F) :=
  Pipeline.withArrays spec4 c (W21 m ρ c) fun w => (dat4 (V21 m ρ) c).arrAt w cfg4.N
theorem W22_arr (c : Dev nD) (w : Fin cfg4.W) :
    W22 m ρ c (Proc.devRef .tc (Pipeline.arrRef spec4 w)) = (dat4 (V21 m ρ) c).arrAt w cfg4.N := by
  unfold W22; exact Pipeline.withArrays_arr spec4 launch4.win.arr_inj c _ _ w
theorem W22_of_ne (c : Dev nD) (b : Ref sig .tc) (hb : ∀ w, Pipeline.arrRef spec4 w ≠ b) :
    W22 m ρ c (Proc.devRef .tc b) = W21 m ρ c (Proc.devRef .tc b) := by
  unfold W22; exact Pipeline.withArrays_of_ne spec4 c _ _ b hb
abbrev V22 : (c : Dev nD) → (b : Ref sig .tc) → Buf (Elt F) ((c : Thread nD τ).loc b) := fun c b => W22 m ρ c b
theorem hF4 (c : Dev nD) (w : Fin cfg4.W) : (dat4 (V21 m ρ) c).arrAt w cfg4.N = V22 m ρ c (Pipeline.arrRef spec4 w) :=
  (W22_arr m ρ c w).symm
theorem hrest4 (c : Dev nD) : ∀ b, b ∉ Finset.univ.image (Pipeline.arrRef spec4) → V22 m ρ c b = V21 m ρ c b :=
  fun b hb => W22_of_ne m ρ c b fun w e => hb (Finset.mem_image.mpr ⟨w, Finset.mem_univ _, e⟩)
theorem W22_args (c : Dev nD) (j : Fin 23) : W22 m ρ c (Proc.devRef .tc (argR j)) = W21 m ρ c (Proc.devRef .tc (argR j)) :=
  W22_of_ne m ρ c (argR j) (by revert j; decide)
abbrev W23 : Dev nD → Valuation τ sig (Elt F) := fun c => StableHlo.after hostOps5 (W22 m ρ c)
abbrev V23 : (c : Dev nD) → (b : Ref sig .tc) → Buf (Elt F) ((c : Thread nD τ).loc b) := fun c b => W23 m ρ c b
theorem W23_args (c : Dev nD) (j : Fin 23) : W23 m ρ c (Proc.devRef .tc (argR j)) = W22 m ρ c (Proc.devRef .tc (argR j)) :=
  hostOps5_args (W22 m ρ c) j
/-- At region 5's exit: its arrays at what the write-backs leave, every other buffer as entered. -/
def W24 (c : Dev nD) : Valuation τ sig (Elt F) :=
  Pipeline.withArrays spec5 c (W23 m ρ c) fun w => (dat5 (V23 m ρ) c).arrAt w cfg5.N
theorem W24_arr (c : Dev nD) (w : Fin cfg5.W) :
    W24 m ρ c (Proc.devRef .tc (Pipeline.arrRef spec5 w)) = (dat5 (V23 m ρ) c).arrAt w cfg5.N := by
  unfold W24; exact Pipeline.withArrays_arr spec5 launch5.win.arr_inj c _ _ w
theorem W24_of_ne (c : Dev nD) (b : Ref sig .tc) (hb : ∀ w, Pipeline.arrRef spec5 w ≠ b) :
    W24 m ρ c (Proc.devRef .tc b) = W23 m ρ c (Proc.devRef .tc b) := by
  unfold W24; exact Pipeline.withArrays_of_ne spec5 c _ _ b hb
abbrev V24 : (c : Dev nD) → (b : Ref sig .tc) → Buf (Elt F) ((c : Thread nD τ).loc b) := fun c b => W24 m ρ c b
theorem hF5 (c : Dev nD) (w : Fin cfg5.W) : (dat5 (V23 m ρ) c).arrAt w cfg5.N = V24 m ρ c (Pipeline.arrRef spec5 w) :=
  (W24_arr m ρ c w).symm
theorem hrest5 (c : Dev nD) : ∀ b, b ∉ Finset.univ.image (Pipeline.arrRef spec5) → V24 m ρ c b = V23 m ρ c b :=
  fun b hb => W24_of_ne m ρ c b fun w e => hb (Finset.mem_image.mpr ⟨w, Finset.mem_univ _, e⟩)
theorem W24_args (c : Dev nD) (j : Fin 23) : W24 m ρ c (Proc.devRef .tc (argR j)) = W23 m ρ c (Proc.devRef .tc (argR j)) :=
  W24_of_ne m ρ c (argR j) (by revert j; decide)
abbrev W25 : Dev nD → Valuation τ sig (Elt F) := fun c => StableHlo.after hostOps6 (W24 m ρ c)
abbrev V25 : (c : Dev nD) → (b : Ref sig .tc) → Buf (Elt F) ((c : Thread nD τ).loc b) := fun c b => W25 m ρ c b
theorem W25_args (c : Dev nD) (j : Fin 23) : W25 m ρ c (Proc.devRef .tc (argR j)) = W24 m ρ c (Proc.devRef .tc (argR j)) :=
  hostOps6_args (W24 m ρ c) j
/-- At region 6's exit: its arrays at what the write-backs leave, every other buffer as entered. -/
def W26 (c : Dev nD) : Valuation τ sig (Elt F) :=
  Pipeline.withArrays spec6 c (W25 m ρ c) fun w => (dat6 (V25 m ρ) c).arrAt w cfg6.N
theorem W26_arr (c : Dev nD) (w : Fin cfg6.W) :
    W26 m ρ c (Proc.devRef .tc (Pipeline.arrRef spec6 w)) = (dat6 (V25 m ρ) c).arrAt w cfg6.N := by
  unfold W26; exact Pipeline.withArrays_arr spec6 launch6.win.arr_inj c _ _ w
theorem W26_of_ne (c : Dev nD) (b : Ref sig .tc) (hb : ∀ w, Pipeline.arrRef spec6 w ≠ b) :
    W26 m ρ c (Proc.devRef .tc b) = W25 m ρ c (Proc.devRef .tc b) := by
  unfold W26; exact Pipeline.withArrays_of_ne spec6 c _ _ b hb
abbrev V26 : (c : Dev nD) → (b : Ref sig .tc) → Buf (Elt F) ((c : Thread nD τ).loc b) := fun c b => W26 m ρ c b
theorem hF6 (c : Dev nD) (w : Fin cfg6.W) : (dat6 (V25 m ρ) c).arrAt w cfg6.N = V26 m ρ c (Pipeline.arrRef spec6 w) :=
  (W26_arr m ρ c w).symm
theorem hrest6 (c : Dev nD) : ∀ b, b ∉ Finset.univ.image (Pipeline.arrRef spec6) → V26 m ρ c b = V25 m ρ c b :=
  fun b hb => W26_of_ne m ρ c b fun w e => hb (Finset.mem_image.mpr ⟨w, Finset.mem_univ _, e⟩)
theorem W26_args (c : Dev nD) (j : Fin 23) : W26 m ρ c (Proc.devRef .tc (argR j)) = W25 m ρ c (Proc.devRef .tc (argR j)) :=
  W26_of_ne m ρ c (argR j) (by revert j; decide)
abbrev W27 : Dev nD → Valuation τ sig (Elt F) := fun c => StableHlo.after hostOps7 (W26 m ρ c)
abbrev V27 : (c : Dev nD) → (b : Ref sig .tc) → Buf (Elt F) ((c : Thread nD τ).loc b) := fun c b => W27 m ρ c b
theorem W27_args (c : Dev nD) (j : Fin 23) : W27 m ρ c (Proc.devRef .tc (argR j)) = W26 m ρ c (Proc.devRef .tc (argR j)) :=
  hostOps7_args (W26 m ρ c) j
/-- At region 7's exit: its arrays at what the write-backs leave, every other buffer as entered. -/
def W28 (c : Dev nD) : Valuation τ sig (Elt F) :=
  Pipeline.withArrays spec7 c (W27 m ρ c) fun w => (dat7 (V27 m ρ) c).arrAt w cfg7.N
theorem W28_arr (c : Dev nD) (w : Fin cfg7.W) :
    W28 m ρ c (Proc.devRef .tc (Pipeline.arrRef spec7 w)) = (dat7 (V27 m ρ) c).arrAt w cfg7.N := by
  unfold W28; exact Pipeline.withArrays_arr spec7 launch7.win.arr_inj c _ _ w
theorem W28_of_ne (c : Dev nD) (b : Ref sig .tc) (hb : ∀ w, Pipeline.arrRef spec7 w ≠ b) :
    W28 m ρ c (Proc.devRef .tc b) = W27 m ρ c (Proc.devRef .tc b) := by
  unfold W28; exact Pipeline.withArrays_of_ne spec7 c _ _ b hb
abbrev V28 : (c : Dev nD) → (b : Ref sig .tc) → Buf (Elt F) ((c : Thread nD τ).loc b) := fun c b => W28 m ρ c b
theorem hF7 (c : Dev nD) (w : Fin cfg7.W) : (dat7 (V27 m ρ) c).arrAt w cfg7.N = V28 m ρ c (Pipeline.arrRef spec7 w) :=
  (W28_arr m ρ c w).symm
theorem hrest7 (c : Dev nD) : ∀ b, b ∉ Finset.univ.image (Pipeline.arrRef spec7) → V28 m ρ c b = V27 m ρ c b :=
  fun b hb => W28_of_ne m ρ c b fun w e => hb (Finset.mem_image.mpr ⟨w, Finset.mem_univ _, e⟩)
theorem W28_args (c : Dev nD) (j : Fin 23) : W28 m ρ c (Proc.devRef .tc (argR j)) = W27 m ρ c (Proc.devRef .tc (argR j)) :=
  W28_of_ne m ρ c (argR j) (by revert j; decide)
abbrev W29 : Dev nD → Valuation τ sig (Elt F) := fun c => StableHlo.after hostOps8 (W28 m ρ c)
abbrev V29 : (c : Dev nD) → (b : Ref sig .tc) → Buf (Elt F) ((c : Thread nD τ).loc b) := fun c b => W29 m ρ c b
theorem W29_args (c : Dev nD) (j : Fin 23) : W29 m ρ c (Proc.devRef .tc (argR j)) = W28 m ρ c (Proc.devRef .tc (argR j)) :=
  hostOps8_args (W28 m ρ c) j
/-- At region 8's exit: its arrays at what the write-backs leave, every other buffer as entered. -/
def W30 (c : Dev nD) : Valuation τ sig (Elt F) :=
  Pipeline.withArrays spec8 c (W29 m ρ c) fun w => (dat8 (V29 m ρ) c).arrAt w cfg8.N
theorem W30_arr (c : Dev nD) (w : Fin cfg8.W) :
    W30 m ρ c (Proc.devRef .tc (Pipeline.arrRef spec8 w)) = (dat8 (V29 m ρ) c).arrAt w cfg8.N := by
  unfold W30; exact Pipeline.withArrays_arr spec8 launch8.win.arr_inj c _ _ w
theorem W30_of_ne (c : Dev nD) (b : Ref sig .tc) (hb : ∀ w, Pipeline.arrRef spec8 w ≠ b) :
    W30 m ρ c (Proc.devRef .tc b) = W29 m ρ c (Proc.devRef .tc b) := by
  unfold W30; exact Pipeline.withArrays_of_ne spec8 c _ _ b hb
abbrev V30 : (c : Dev nD) → (b : Ref sig .tc) → Buf (Elt F) ((c : Thread nD τ).loc b) := fun c b => W30 m ρ c b
theorem hF8 (c : Dev nD) (w : Fin cfg8.W) : (dat8 (V29 m ρ) c).arrAt w cfg8.N = V30 m ρ c (Pipeline.arrRef spec8 w) :=
  (W30_arr m ρ c w).symm
theorem hrest8 (c : Dev nD) : ∀ b, b ∉ Finset.univ.image (Pipeline.arrRef spec8) → V30 m ρ c b = V29 m ρ c b :=
  fun b hb => W30_of_ne m ρ c b fun w e => hb (Finset.mem_image.mpr ⟨w, Finset.mem_univ _, e⟩)
theorem W30_args (c : Dev nD) (j : Fin 23) : W30 m ρ c (Proc.devRef .tc (argR j)) = W29 m ρ c (Proc.devRef .tc (argR j)) :=
  W30_of_ne m ρ c (argR j) (by revert j; decide)
abbrev W31 : Dev nD → Valuation τ sig (Elt F) := fun c => StableHlo.after hostOps9 (W30 m ρ c)
abbrev V31 : (c : Dev nD) → (b : Ref sig .tc) → Buf (Elt F) ((c : Thread nD τ).loc b) := fun c b => W31 m ρ c b
theorem W31_args (c : Dev nD) (j : Fin 23) : W31 m ρ c (Proc.devRef .tc (argR j)) = W30 m ρ c (Proc.devRef .tc (argR j)) :=
  hostOps9_args (W30 m ρ c) j
/-- At region 9's exit: its arrays at what the write-backs leave, every other buffer as entered. -/
def W32 (c : Dev nD) : Valuation τ sig (Elt F) :=
  Pipeline.withArrays spec9 c (W31 m ρ c) fun w => (dat9 (V31 m ρ) c).arrAt w cfg9.N
theorem W32_arr (c : Dev nD) (w : Fin cfg9.W) :
    W32 m ρ c (Proc.devRef .tc (Pipeline.arrRef spec9 w)) = (dat9 (V31 m ρ) c).arrAt w cfg9.N := by
  unfold W32; exact Pipeline.withArrays_arr spec9 launch9.win.arr_inj c _ _ w
theorem W32_of_ne (c : Dev nD) (b : Ref sig .tc) (hb : ∀ w, Pipeline.arrRef spec9 w ≠ b) :
    W32 m ρ c (Proc.devRef .tc b) = W31 m ρ c (Proc.devRef .tc b) := by
  unfold W32; exact Pipeline.withArrays_of_ne spec9 c _ _ b hb
abbrev V32 : (c : Dev nD) → (b : Ref sig .tc) → Buf (Elt F) ((c : Thread nD τ).loc b) := fun c b => W32 m ρ c b
theorem hF9 (c : Dev nD) (w : Fin cfg9.W) : (dat9 (V31 m ρ) c).arrAt w cfg9.N = V32 m ρ c (Pipeline.arrRef spec9 w) :=
  (W32_arr m ρ c w).symm
theorem hrest9 (c : Dev nD) : ∀ b, b ∉ Finset.univ.image (Pipeline.arrRef spec9) → V32 m ρ c b = V31 m ρ c b :=
  fun b hb => W32_of_ne m ρ c b fun w e => hb (Finset.mem_image.mpr ⟨w, Finset.mem_univ _, e⟩)
theorem W32_args (c : Dev nD) (j : Fin 23) : W32 m ρ c (Proc.devRef .tc (argR j)) = W31 m ρ c (Proc.devRef .tc (argR j)) :=
  W32_of_ne m ρ c (argR j) (by revert j; decide)
abbrev W33 : Dev nD → Valuation τ sig (Elt F) := fun c => StableHlo.after hostOps10 (W32 m ρ c)
abbrev V33 : (c : Dev nD) → (b : Ref sig .tc) → Buf (Elt F) ((c : Thread nD τ).loc b) := fun c b => W33 m ρ c b
theorem W33_args (c : Dev nD) (j : Fin 23) : W33 m ρ c (Proc.devRef .tc (argR j)) = W32 m ρ c (Proc.devRef .tc (argR j)) :=
  hostOps10_args (W32 m ρ c) j
/-- At region 10's exit: its arrays at what the write-backs leave, every other buffer as entered. -/
def W34 (c : Dev nD) : Valuation τ sig (Elt F) :=
  Pipeline.withArrays spec10 c (W33 m ρ c) fun w => (dat10 (V33 m ρ) c).arrAt w cfg10.N
theorem W34_arr (c : Dev nD) (w : Fin cfg10.W) :
    W34 m ρ c (Proc.devRef .tc (Pipeline.arrRef spec10 w)) = (dat10 (V33 m ρ) c).arrAt w cfg10.N := by
  unfold W34; exact Pipeline.withArrays_arr spec10 launch10.win.arr_inj c _ _ w
theorem W34_of_ne (c : Dev nD) (b : Ref sig .tc) (hb : ∀ w, Pipeline.arrRef spec10 w ≠ b) :
    W34 m ρ c (Proc.devRef .tc b) = W33 m ρ c (Proc.devRef .tc b) := by
  unfold W34; exact Pipeline.withArrays_of_ne spec10 c _ _ b hb
abbrev V34 : (c : Dev nD) → (b : Ref sig .tc) → Buf (Elt F) ((c : Thread nD τ).loc b) := fun c b => W34 m ρ c b
theorem hF10 (c : Dev nD) (w : Fin cfg10.W) : (dat10 (V33 m ρ) c).arrAt w cfg10.N = V34 m ρ c (Pipeline.arrRef spec10 w) :=
  (W34_arr m ρ c w).symm
theorem hrest10 (c : Dev nD) : ∀ b, b ∉ Finset.univ.image (Pipeline.arrRef spec10) → V34 m ρ c b = V33 m ρ c b :=
  fun b hb => W34_of_ne m ρ c b fun w e => hb (Finset.mem_image.mpr ⟨w, Finset.mem_univ _, e⟩)
theorem W34_args (c : Dev nD) (j : Fin 23) : W34 m ρ c (Proc.devRef .tc (argR j)) = W33 m ρ c (Proc.devRef .tc (argR j)) :=
  W34_of_ne m ρ c (argR j) (by revert j; decide)
abbrev W35 : Dev nD → Valuation τ sig (Elt F) := fun c => StableHlo.after hostOps11 (W34 m ρ c)
abbrev V35 : (c : Dev nD) → (b : Ref sig .tc) → Buf (Elt F) ((c : Thread nD τ).loc b) := fun c b => W35 m ρ c b
theorem W35_args (c : Dev nD) (j : Fin 23) : W35 m ρ c (Proc.devRef .tc (argR j)) = W34 m ρ c (Proc.devRef .tc (argR j)) :=
  hostOps11_args (W34 m ρ c) j

/-- Every argument array holds at the end what it held at launch. -/
theorem Wend_args (c : Dev nD) (j : Fin 23) : W35 m ρ c (Proc.devRef .tc (argR j)) = m ((c : Thread nD τ).loc (argR j)) :=
  (W35_args m ρ c j).trans ((W34_args m ρ c j).trans ((W33_args m ρ c j).trans ((W32_args m ρ c j).trans ((W31_args m ρ c j).trans ((W30_args m ρ c j).trans ((W29_args m ρ c j).trans ((W28_args m ρ c j).trans ((W27_args m ρ c j).trans ((W26_args m ρ c j).trans ((W25_args m ρ c j).trans ((W24_args m ρ c j).trans ((W23_args m ρ c j).trans ((W22_args m ρ c j).trans ((W21_args m ρ c j).trans ((W20_args m ρ c j).trans ((W19_args m ρ c j).trans ((W18_args m ρ c j).trans ((W17_args m ρ c j).trans ((W16_args m ρ c j).trans ((W15_args m ρ c j).trans ((W14_args m ρ c j).trans ((W13_args m ρ c j).trans ((W12_args m ρ c j).trans ((W11_args m ρ c j).trans ((W10_args m ρ c j).trans ((W9_args m ρ c j).trans ((W8_args m ρ c j).trans ((W7_args m ρ c j).trans ((W6_args m ρ c j).trans ((W5_args m ρ c j).trans ((W4_args m ρ c j).trans ((W3_args m ρ c j).trans ((W2_args m ρ c j).trans ((W1_args m ρ c j).trans ((rfl : W0 m ρ c (Proc.devRef .tc (argR j)) = m ((c : Thread nD τ).loc (argR j))))))))))))))))))))))))))))))))))))))

/-- No pipeline has a prefetched table. -/
abbrev adm : (p : Fin 11) → (pcfgs (F := F) p).Adm := fun p => (cfgs p).toPCfg_adm
/-- Every pipeline's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V11 m ρ) c
  | ⟨2, _⟩ => fun c => dat2 (V15 m ρ) c
  | ⟨3, _⟩ => fun c => dat3 (V19 m ρ) c
  | ⟨4, _⟩ => fun c => dat4 (V21 m ρ) c
  | ⟨5, _⟩ => fun c => dat5 (V23 m ρ) c
  | ⟨6, _⟩ => fun c => dat6 (V25 m ρ) c
  | ⟨7, _⟩ => fun c => dat7 (V27 m ρ) c
  | ⟨8, _⟩ => fun c => dat8 (V29 m ρ) c
  | ⟨9, _⟩ => fun c => dat9 (V31 m ρ) c
  | ⟨10, _⟩ => fun c => dat10 (V33 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W35 m ρ c) ∗ ∃ r, prngReg c r)

set_option backward.isDefEq.respectTransparency.types false in
/-- Region 0 over the thread state: entered from every unscoped buffer at `W7`, left at `W8`; its arrays split
    out of the unscoped buffers and put back at the exit contents; the generator register into the invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W11`, left at `W12`; its arrays split
    out of the unscoped buffers and put back at the exit contents; the generator register into the invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W15`, left at `W16`; its arrays split
    out of the unscoped buffers and put back at the exit contents; the generator register into the invariant and out. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V15 m ρ) c).loose
  hwaits := Pipeline.hwaits_of_owed_zero _ _ _ _ L lv 2 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec2 c (V15 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V15 m ρ c) (V16 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W19`, left at `W20`; its arrays split
    out of the unscoped buffers and put back at the exit contents; the generator register into the invariant and out. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V19 m ρ) c).loose
  hwaits := Pipeline.hwaits_of_owed_zero _ _ _ _ L lv 3 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec3 c (V19 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V19 m ρ c) (V20 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W21`, left at `W22`; its arrays split
    out of the unscoped buffers and put back at the exit contents; the generator register into the invariant and out. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V21 m ρ) c).loose
  hwaits := Pipeline.hwaits_of_owed_zero _ _ _ _ L lv 4 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec4 c (V21 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V21 m ρ) c).Φ 0 from rfl]
    iintro ⟨Hp, -, Hr⟩
    iapply (hin4 (V21 m ρ) c)
    isplitl [Hp]; · iexact Hp
    iexact Hr
  hout c := by
    rw [Pipeline.ownSems0_none, show (pdats m ρ 4 c).Φ (Fin.last _) = (dat4 (V21 m ρ) c).Φ (Fin.last cfg4.N) from rfl]
    iintro H
    ihave H' := (hout4 (V21 m ρ) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V21 m ρ c) (V22 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W23`, left at `W24`; its arrays split
    out of the unscoped buffers and put back at the exit contents; the generator register into the invariant and out. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V23 m ρ) c).loose
  hwaits := Pipeline.hwaits_of_owed_zero _ _ _ _ L lv 5 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec5 c (V23 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V23 m ρ) c).Φ 0 from rfl]
    iintro ⟨Hp, -, Hr⟩
    iapply (hin5 (V23 m ρ) c)
    isplitl [Hp]; · iexact Hp
    iexact Hr
  hout c := by
    rw [Pipeline.ownSems0_none, show (pdats m ρ 5 c).Φ (Fin.last _) = (dat5 (V23 m ρ) c).Φ (Fin.last cfg5.N) from rfl]
    iintro H
    ihave H' := (hout5 (V23 m ρ) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V23 m ρ c) (V24 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W25`, left at `W26`; its arrays split
    out of the unscoped buffers and put back at the exit contents; the generator register into the invariant and out. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V25 m ρ) c).loose
  hwaits := Pipeline.hwaits_of_owed_zero _ _ _ _ L lv 6 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec6 c (V25 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V25 m ρ) c).Φ 0 from rfl]
    iintro ⟨Hp, -, Hr⟩
    iapply (hin6 (V25 m ρ) c)
    isplitl [Hp]; · iexact Hp
    iexact Hr
  hout c := by
    rw [Pipeline.ownSems0_none, show (pdats m ρ 6 c).Φ (Fin.last _) = (dat6 (V25 m ρ) c).Φ (Fin.last cfg6.N) from rfl]
    iintro H
    ihave H' := (hout6 (V25 m ρ) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V25 m ρ c) (V26 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W27`, left at `W28`; its arrays split
    out of the unscoped buffers and put back at the exit contents; the generator register into the invariant and out. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V27 m ρ) c).loose
  hwaits := Pipeline.hwaits_of_owed_zero _ _ _ _ L lv 7 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec7 c (V27 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V27 m ρ) c).Φ 0 from rfl]
    iintro ⟨Hp, -, Hr⟩
    iapply (hin7 (V27 m ρ) c)
    isplitl [Hp]; · iexact Hp
    iexact Hr
  hout c := by
    rw [Pipeline.ownSems0_none, show (pdats m ρ 7 c).Φ (Fin.last _) = (dat7 (V27 m ρ) c).Φ (Fin.last cfg7.N) from rfl]
    iintro H
    ihave H' := (hout7 (V27 m ρ) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V27 m ρ c) (V28 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W29`, left at `W30`; its arrays split
    out of the unscoped buffers and put back at the exit contents; the generator register into the invariant and out. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V29 m ρ) c).loose
  hwaits := Pipeline.hwaits_of_owed_zero _ _ _ _ L lv 8 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec8 c (V29 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (V29 m ρ) c).Φ 0 from rfl]
    iintro ⟨Hp, -, Hr⟩
    iapply (hin8 (V29 m ρ) c)
    isplitl [Hp]; · iexact Hp
    iexact Hr
  hout c := by
    rw [Pipeline.ownSems0_none, show (pdats m ρ 8 c).Φ (Fin.last _) = (dat8 (V29 m ρ) c).Φ (Fin.last cfg8.N) from rfl]
    iintro H
    ihave H' := (hout8 (V29 m ρ) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V29 m ρ c) (V30 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W31`, left at `W32`; its arrays split
    out of the unscoped buffers and put back at the exit contents; the generator register into the invariant and out. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V31 m ρ) c).loose
  hwaits := Pipeline.hwaits_of_owed_zero _ _ _ _ L lv 9 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec9 c (V31 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = (dat9 (V31 m ρ) c).Φ 0 from rfl]
    iintro ⟨Hp, -, Hr⟩
    iapply (hin9 (V31 m ρ) c)
    isplitl [Hp]; · iexact Hp
    iexact Hr
  hout c := by
    rw [Pipeline.ownSems0_none, show (pdats m ρ 9 c).Φ (Fin.last _) = (dat9 (V31 m ρ) c).Φ (Fin.last cfg9.N) from rfl]
    iintro H
    ihave H' := (hout9 (V31 m ρ) c) $$ H
    icases H' with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V31 m ρ c) (V32 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W33`, left at `W34`; its arrays split
    out of the unscoped buffers and put back at the exit contents; the generator register into the invariant and out. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V33 m ρ) c).loose
  hwaits := Pipeline.hwaits_of_owed_zero _ _ _ _ L lv 10 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec10 c (V33 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = (dat10 (V33 m ρ) c).Φ 0 from rfl]
    iintro ⟨Hp, -, Hr⟩
    iapply (hin10 (V33 m ρ) c)
    isplitl [Hp]; · iexact Hp
    iexact Hr
  hout c := by
    rw [Pipeline.ownSems0_none, show (pdats m ρ 10 c).Φ (Fin.last _) = (dat10 (V33 m ρ) c).Φ (Fin.last cfg10.N) from rfl]
    iintro H
    ihave H' := (hout10 (V33 m ρ) c) $$ H
    icases H' with ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V33 m ρ c) (V34 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's 35 segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .host (hseg hostOps1_1 hostOps1_1_sub hostOps1_1_fresh (W9 m ρ)),
    .host (hseg hostOps1_2 hostOps1_2_sub hostOps1_2_fresh (W10 m ρ)),
    .region (reg1 m ρ),
    .host (hseg hostOps2 hostOps2_sub hostOps2_fresh (W12 m ρ)),
    .host (hseg hostOps2_1 hostOps2_1_sub hostOps2_1_fresh (W13 m ρ)),
    .host (hseg hostOps2_2 hostOps2_2_sub hostOps2_2_fresh (W14 m ρ)),
    .region (reg2 m ρ),
    .host (hseg hostOps3 hostOps3_sub hostOps3_fresh (W16 m ρ)),
    .host (hseg hostOps3_1 hostOps3_1_sub hostOps3_1_fresh (W17 m ρ)),
    .host (hseg hostOps3_2 hostOps3_2_sub hostOps3_2_fresh (W18 m ρ)),
    .region (reg3 m ρ),
    .host (hseg hostOps4 hostOps4_sub hostOps4_fresh (W20 m ρ)),
    .region (reg4 m ρ),
    .host (hseg hostOps5 hostOps5_sub hostOps5_fresh (W22 m ρ)),
    .region (reg5 m ρ),
    .host (hseg hostOps6 hostOps6_sub hostOps6_fresh (W24 m ρ)),
    .region (reg6 m ρ),
    .host (hseg hostOps7 hostOps7_sub hostOps7_fresh (W26 m ρ)),
    .region (reg7 m ρ),
    .host (hseg hostOps8 hostOps8_sub hostOps8_fresh (W28 m ρ)),
    .region (reg8 m ρ),
    .host (hseg hostOps9 hostOps9_sub hostOps9_fresh (W30 m ρ)),
    .region (reg9 m ρ),
    .host (hseg hostOps10 hostOps10_sub hostOps10_fresh (W32 m ρ)),
    .region (reg10 m ρ),
    .host (hseg hostOps11 hostOps11_sub hostOps11_fresh (W34 m ρ)) ]
set_option maxHeartbeats 40000000 in
/-- @main is the run of the segments. -/
theorem main_run (c : Dev nD) : main (F := F) c = Pipeline.Seg.run (segs m ρ) := (main_chain c).trans (by chain_rfl)

set_option maxHeartbeats 40000000 in
set_option backward.isDefEq.respectTransparency.types false in
/-- THE RUN: from any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W35 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W35 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W35 m ρ c b)
    (hfin := fun c s' => by
      iintro ⟨⟨Hh, -⟩, HSI⟩
      unfold StableHlo.held
      imodintro
      iapply (pointsTo_read_all (Pipeline.ucRefs τ sig) (fun b => (((c : Thread nD τ)).1, b)) (W35 m ρ c) s')
      isplitl [Hh] <;> iassumption)
    (hQ := fun s h => h)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_uc main_arg0 (by decide))).trans (Wend_args m ρ c 0),
     (h c _ (mem_uc main_arg1 (by decide))).trans (Wend_args m ρ c 1),
     (h c _ (mem_uc main_arg2 (by decide))).trans (Wend_args m ρ c 2),
     (h c _ (mem_uc main_arg3 (by decide))).trans (Wend_args m ρ c 3),
     (h c _ (mem_uc main_arg4 (by decide))).trans (Wend_args m ρ c 4),
     (h c _ (mem_uc main_arg5 (by decide))).trans (Wend_args m ρ c 5),
     (h c _ (mem_uc main_arg6 (by decide))).trans (Wend_args m ρ c 6),
     (h c _ (mem_uc main_arg7 (by decide))).trans (Wend_args m ρ c 7),
     (h c _ (mem_uc main_arg8 (by decide))).trans (Wend_args m ρ c 8),
     (h c _ (mem_uc main_arg9 (by decide))).trans (Wend_args m ρ c 9),
     (h c _ (mem_uc main_arg10 (by decide))).trans (Wend_args m ρ c 10),
     (h c _ (mem_uc main_arg11 (by decide))).trans (Wend_args m ρ c 11),
     (h c _ (mem_uc main_arg12 (by decide))).trans (Wend_args m ρ c 12),
     (h c _ (mem_uc main_arg13 (by decide))).trans (Wend_args m ρ c 13),
     (h c _ (mem_uc main_arg14 (by decide))).trans (Wend_args m ρ c 14),
     (h c _ (mem_uc main_arg15 (by decide))).trans (Wend_args m ρ c 15),
     (h c _ (mem_uc main_arg16 (by decide))).trans (Wend_args m ρ c 16),
     (h c _ (mem_uc main_arg17 (by decide))).trans (Wend_args m ρ c 17),
     (h c _ (mem_uc main_arg18 (by decide))).trans (Wend_args m ρ c 18),
     (h c _ (mem_uc main_arg19 (by decide))).trans (Wend_args m ρ c 19),
     (h c _ (mem_uc main_arg20 (by decide))).trans (Wend_args m ρ c 20),
     (h c _ (mem_uc main_arg21 (by decide))).trans (Wend_args m ρ c 21),
     (h c _ (mem_uc main_arg22 (by decide))).trans (Wend_args m ρ c 22)⟩) (run_all m ρ)

end Cert.KernelIdeal.Hand

end
-- ==== Proof.RefFrame.lean ====
/-
  The reference program has no kernel launch: its @main is a straight line of host operations, so every weakly
  fair execution runs them in order, terminates, and writes only the operations' own result buffers.  The
  argument arrays are therefore left as launched: the frame of the reference is its run with the results dropped.
-/
import proofs.«120270_j2259152797813_2_alg».proof.Defs
import proofs.«120270_j2259152797813_2_alg».proof.Proof.Gen.ReferenceIdeal
import proofs.«120270_j2259152797813_2_alg».proof.Proof.Gen.Pre_finite_inputs
import proofs.«120270_j2259152797813_2_alg».proof.Proof.RefRunPatched

noncomputable section

open Idealize.ShloMosaic Idealize.ShloMosaic.TcCoe Idealize.SL.Sem

namespace Cert.Proof.RefFrame

/-- Every weakly fair execution of the reference terminates, nothing faulting, with the argument arrays as launched. -/
theorem frame_ri [hR : Cert.ReferenceIdeal.Facts] [hP : Cert.Pre_finite_inputs.Facts] : Cert.frame_ReferenceIdeal := fun m ρ _ =>
  (θ_run Cert.ReferenceIdeal.defs _ _).mono (fun _ h c => (h c).2.2) (Cert.ReferenceIdeal.ValueP.run (F := Ideal) m ρ)

end Cert.Proof.RefFrame

end
-- ==== Proof.KI.R4Val.lean ====
import proofs.«120270_j2259152797813_2_alg».proof.Proof.KI.R4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: what its two cases leave, through the kernel's named payloads -/

theorem hz4 : (![0, 0] : Fin 2 → Nat) = fun _ => 0 := funext fun a => by fin_cases a <;> rfl

set_option maxHeartbeats 400000 in
/-- Case A leaves in the accumulator the zero block plus the product of the two input blocks: the second of its
    two whole-block stores, whose payload reads the first one back. -/
theorem sout4_A_0_eq (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S1024x4096 .bf16) (x1 : Vec F S4096x128 .bf16) (x2 : Vec F S1024x128 .f32) :
    sout4_A_0 c i arg2 harg2 arg3 harg3 arg4 harg4 arg5 harg5 arg6 harg6 hc0 hc1 x0 x1 x2 = k4_pay2 (k4_pay1 (F := F)) x0 x1 := by
  unfold sout4_A_0
  rw [View.read_writes_eq_canon _ _ _ (scover4_A_0 c i arg2 harg2 arg3 harg3 arg4 harg4 arg5 harg5 arg6 harg6 hc0 hc1 x0 x1 x2)]
  unfold kernelRun4_A
  dsimp only
  sl_unfold_words
  rw [View.canon_cons_unit_zero (S := S1024x128) hz4, View.readCov_unit_zero (S := S1024x128) _ hz4]
  simp only [View.readAt_eq_ld, harg2.read_unread, harg3.read_unread, View.ld_unit_zero (S := S1024x4096) hz4, View.ld_unit_zero (S := S4096x128) hz4]

set_option maxHeartbeats 400000 in
/-- Case B leaves in the accumulator what it held plus the product of the two input blocks. -/
theorem sout4_B_0_eq (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S1024x4096 .bf16) (x1 : Vec F S4096x128 .bf16) (x2 : Vec F S1024x128 .f32) (xs0 : Vec F S1024x128 .f32) :
    sout4_B_0 c i arg2 harg2 arg3 harg3 arg4 harg4 arg5 harg5 arg6 harg6 hc0 hc1 x0 x1 x2 xs0 = k4_pay2 xs0 x0 x1 := by
  unfold sout4_B_0
  rw [View.read_writes_eq_canon _ _ _ (scover4_B_0 c i arg2 harg2 arg3 harg3 arg4 harg4 arg5 harg5 arg6 harg6 hc0 hc1 x0 x1 x2 xs0)]
  unfold kernelRun4_B
  dsimp only
  sl_unfold_words
  rw [View.canon_unit_zero (S := S1024x128) hz4]
  simp only [View.readAt_eq_ld, harg2.read_unread, harg3.read_unread, harg6.read_unread, View.ld_unit_zero (S := S1024x4096) hz4, View.ld_unit_zero (S := S4096x128) hz4, View.ld_unit_zero (S := S1024x128) hz4]

set_option maxHeartbeats 400000 in
/-- Case B leaves in the output's buffer the rectified sum of the new accumulator and the third input block. -/
theorem out4_B_3_eq (c : Dev nD) (i : grid4.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S1024x4096 .bf16) (x1 : Vec F S4096x128 .bf16) (x2 : Vec F S1024x128 .f32) (xs0 : Vec F S1024x128 .f32) :
    out4_B_3 c i arg2 harg2 arg3 harg3 arg4 harg4 arg5 harg5 arg6 harg6 hc0 hc1 x0 x1 x2 xs0 = k4_pay3 (k4_pay2 xs0 x0 x1) x2 := by
  unfold out4_B_3
  rw [View.read_writes_eq_canon _ _ _ (cover4_B_3 c i arg2 harg2 arg3 harg3 arg4 harg4 arg5 harg5 arg6 harg6 hc0 hc1 x0 x1 x2 xs0)]
  unfold kernelRun4_B
  dsimp only
  sl_unfold_words
  rw [View.canon_unit_zero (S := S1024x128) hz4, View.readCov_unit_zero (S := S1024x128) _ hz4]
  simp only [View.readAt_eq_ld, harg2.read_unread, harg3.read_unread, harg4.read_unread, harg6.read_unread, View.ld_unit_zero (S := S1024x4096) hz4, View.ld_unit_zero (S := S4096x128) hz4, View.ld_unit_zero (S := S1024x128) hz4]

section R4
variable (V : (c : Dev nD) → (b : Ref sig .tc) → Buf (Elt F) ((c : Thread nD τ).loc b))

/-- The point before `t` (the point itself at 0, where nothing reads it). -/
def prev4 (t : Fin cfg4.N) : Fin cfg4.N := ⟨t.val - 1, Nat.lt_of_le_of_lt (Nat.sub_le _ _) t.isLt⟩

theorem prev4_even (t : Fin cfg4.N) (h0 : ¬t.val % 2 = 0) : (prev4 t).val % 2 = 0 := by
  show (t.val - 1) % 2 = 0; omega

/-- After an even point the accumulator holds zero plus the product of the point's two blocks. -/
theorem sAt4_even (c : Dev nD) (t : Fin cfg4.N) (h0 : t.val % 2 = 0) :
    sAt4 V c t = k4_pay2 (k4_pay1 (F := F)) (iblk4 V c 0 t) (iblk4 V c 1 t) := by
  unfold sAt4; rw [accAt4_A V c t h0]; dsimp only; unfold sA4
  exact sout4_A_0_eq c (grid4.coords t) (ms4_0 t) (hs4_0 t) (ms4_1 t) (hs4_1 t) (ms4_2 t) (hs4_2 t) (ms4_3 t) (hs4_3 t) scM4_0 (Memref.isWhole_whole _) (hcA0 t h0) (hcA1 t h0) (iblk4 V c 0 t) (iblk4 V c 1 t) (iblk4 V c 2 t)

/-- After an odd point it holds what the point before left plus the product of the point's two blocks. -/
theorem sAt4_odd (c : Dev nD) (t : Fin cfg4.N) (h0 : ¬t.val % 2 = 0) :
    sAt4 V c t = k4_pay2 (sAt4 V c (prev4 t)) (iblk4 V c 0 t) (iblk4 V c 1 t) := by
  unfold sAt4; rw [accAt4_B V c t h0]; dsimp only; unfold sB4
  exact sout4_B_0_eq c (grid4.coords t) (ms4_0 t) (hs4_0 t) (ms4_1 t) (hs4_1 t) (ms4_2 t) (hs4_2 t) (ms4_3 t) (hs4_3 t) scM4_0 (Memref.isWhole_whole _) (hcB0 t h0) (hcB1 t h0) (iblk4 V c 0 t) (iblk4 V c 1 t) (iblk4 V c 2 t) (accAt4 V c (t.val - 1) (Nat.lt_of_le_of_lt (Nat.sub_le _ _) t.isLt)).2

/-- After an odd point the output's buffer holds the rectified sum of the new accumulator and the third block. -/
theorem outsAt4_odd (c : Dev nD) (t : Fin cfg4.N) (h0 : ¬t.val % 2 = 0) :
    outsAt4 V c t = k4_pay3 (k4_pay2 (sAt4 V c (prev4 t)) (iblk4 V c 0 t) (iblk4 V c 1 t)) (iblk4 V c 2 t) := by
  unfold outsAt4 sAt4; rw [accAt4_B V c t h0]; dsimp only; unfold oB4
  exact out4_B_3_eq c (grid4.coords t) (ms4_0 t) (hs4_0 t) (ms4_1 t) (hs4_1 t) (ms4_2 t) (hs4_2 t) (ms4_3 t) (hs4_3 t) scM4_0 (Memref.isWhole_whole _) (hcB0 t h0) (hcB1 t h0) (iblk4 V c 0 t) (iblk4 V c 1 t) (iblk4 V c 2 t) (accAt4 V c (t.val - 1) (Nat.lt_of_le_of_lt (Nat.sub_le _ _) t.isLt)).2

/-- The same in closed form: the two reduction steps of the row block, from zero, then the third block added and
    the sum rectified. -/
theorem outsAt4_odd_closed (c : Dev nD) (t : Fin cfg4.N) (h0 : ¬t.val % 2 = 0) :
    outsAt4 V c t
      = k4_pay3 (k4_pay2 (k4_pay2 (k4_pay1 (F := F)) (iblk4 V c 0 (prev4 t)) (iblk4 V c 1 (prev4 t))) (iblk4 V c 0 t) (iblk4 V c 1 t)) (iblk4 V c 2 t) :=
  (outsAt4_odd V c t h0).trans
    (congrArg (fun s => k4_pay3 (k4_pay2 s (iblk4 V c 0 t) (iblk4 V c 1 t)) (iblk4 V c 2 t)) (sAt4_even V c (prev4 t) (prev4_even t h0)))

end R4

end Cert.KernelIdeal.Hand

end
-- ==== Proof.KI.R4Pay.lean ====
import proofs.«120270_j2259152797813_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! # Region 4: its three payloads read at an index, over the extended reals -/

/-- The block product at an entry: the sum over the 4096 contracted positions of the entries' products. -/
theorem mm4_apply (A : FVec Ideal S1024x4096 .bf16) (B : FVec Ideal S4096x128 .bf16) (a : Fin 1024) (b : Fin 128) :
    FloatOps.matmul dot_S1024x4096_S4096x128_S1024x128_1_0_0_1_n_n none A B (constant (F := Ideal) S1024x128 .f32 0x00000000#32) (ix2 a b)
      = ∑ k : Fin 4096, A (ix2 a k) * B (ix2 k b) := by
  rw [Ideal.matmul_constant_zero_apply, ← Equiv.sum_comp (contrEquiv1 dot_S1024x4096_S4096x128_S1024x128_1_0_0_1_n_n 4096 rfl rfl).symm]
  refine Finset.sum_congr rfl fun k _ => ?_
  have c2 := contrEquiv1_symm_val dot_S1024x4096_S4096x128_S1024x128_1_0_0_1_n_n 4096 rfl rfl k
  have l2 : dot_S1024x4096_S4096x128_S1024x128_1_0_0_1_n_n.lhsIdx (ix2 a b) ((contrEquiv1 _ 4096 rfl rfl).symm k) = ix2 a k := by
    funext ax; apply Fin.ext
    match ax with
    | ⟨0, _⟩ => simp [DotDims.lhsIdx, dot_S1024x4096_S4096x128_S1024x128_1_0_0_1_n_n]; rfl
    | ⟨1, _⟩ => simp [DotDims.lhsIdx, dot_S1024x4096_S4096x128_S1024x128_1_0_0_1_n_n]; exact c2
  have r2 : dot_S1024x4096_S4096x128_S1024x128_1_0_0_1_n_n.rhsIdx (ix2 a b) ((contrEquiv1 _ 4096 rfl rfl).symm k) = ix2 k b := by
    funext ax; apply Fin.ext
    match ax with
    | ⟨0, _⟩ => simp [DotDims.rhsIdx, dot_S1024x4096_S4096x128_S1024x128_1_0_0_1_n_n]; exact c2
    | ⟨1, _⟩ => simp [DotDims.rhsIdx, dot_S1024x4096_S4096x128_S1024x128_1_0_0_1_n_n]; rfl
  rw [l2, r2]

/-- The zero block. -/
theorem pay1_4_apply (i : S1024x128.Idx) : k4_pay1 (F := Ideal) i = 0 := by
  unfold k4_pay1
  simp only [shapeCast_self]
  show Ideal.ofBits .f32 0x00000000#32 = 0
  exact Ideal.ofBits_zero_f32

/-- The accumulation step at an entry: what the accumulator held plus the row-by-column sum of the two blocks. -/
theorem pay2_4_apply (v3 : Vec Ideal S1024x128 .f32) (v4 : Vec Ideal S1024x4096 .bf16) (v6 : Vec Ideal S4096x128 .bf16)
    (a : Fin 1024) (b : Fin 128) :
    k4_pay2 (F := Ideal) v3 v4 v6 (ix2 a b) = v3 (ix2 a b) + ∑ k : Fin 4096, v4 (ix2 a k) * v6 (ix2 k b) := by
  unfold k4_pay2
  simp only [shapeCast_self]
  show v3 (ix2 a b) + _ = _
  exact congrArg (v3 (ix2 a b) + ·) (mm4_apply v4 v6 a b)

/-- The epilogue at an entry: the accumulator plus the third block, rectified. -/
theorem pay3_4_apply (v16 : Vec Ideal S1024x128 .f32) (v17 : Vec Ideal S1024x128 .f32) (i : S1024x128.Idx) :
    k4_pay3 (F := Ideal) v16 v17 i = max (v16 i + v17 i) 0 := by
  unfold k4_pay3
  simp only [shapeCast_self]
  show max (v16 i + v17 i) (Ideal.ofBits .f32 0x00000000#32) = _
  rw [Ideal.ofBits_zero_f32]

/-- The result, entry by entry: the rectified sum of the third array's entry and the product of row `p` of the
    first array with column `q` of the second over all 8192 contracted positions. -/
def G4 (A0 : S8192x8192.Idx → EReal) (A1 : S8192x128.Idx → EReal) (A2 : S8192x128.Idx → EReal) : S8192x128.Idx → EReal :=
  fun i => max (A2 i + ∑ k : Fin 8192, A0 (ix2 (i 0) k) * A1 (ix2 k (i 1))) 0

/-- A sum over the 8192 contracted positions is the sum over its two halves. -/
theorem sum_halves4 (f : Fin 8192 → EReal) :
    ∑ k : Fin 8192, f k = ∑ k : Fin 4096, f (Fin.castAdd 4096 k) + ∑ k : Fin 4096, f (Fin.natAdd 4096 k) :=
  Fin.sum_univ_add (M := EReal) (a := 4096) (b := 4096) f

/-- ONE ENTRY of what an odd point writes back. The accumulator starts from zero, takes the first halves' product
    (blocks `x0'`, `x1'`) and then the second halves' (`x0`, `x1`); the third block `x2` is added and the sum
    rectified. When the five blocks are the cuts of the arrays `A0`, `A1`, `A2` at row `p` and column `b`, this is the
    entry (p, b) of `G4`: zero is neutral, the two half sums join, and the two summands commute. -/
theorem join4 (A0 : S8192x8192.Idx → EReal) (A1 : S8192x128.Idx → EReal) (A2 : S8192x128.Idx → EReal)
    (x0' x0 : Vec Ideal S1024x4096 .bf16) (x1' x1 : Vec Ideal S4096x128 .bf16) (x2 : Vec Ideal S1024x128 .f32)
    (r : Fin 1024) (b : Fin 128) (p : Fin 8192)
    (h0' : ∀ k : Fin 4096, x0' (ix2 r k) = A0 (ix2 p (Fin.castAdd 4096 k)))
    (h0 : ∀ k : Fin 4096, x0 (ix2 r k) = A0 (ix2 p (Fin.natAdd 4096 k)))
    (h1' : ∀ k : Fin 4096, x1' (ix2 k b) = A1 (ix2 (Fin.castAdd 4096 k) b))
    (h1 : ∀ k : Fin 4096, x1 (ix2 k b) = A1 (ix2 (Fin.natAdd 4096 k) b))
    (h2 : x2 (ix2 r b) = A2 (ix2 p b)) :
    k4_pay3 (F := Ideal) (k4_pay2 (k4_pay2 (k4_pay1 (F := Ideal)) x0' x1') x0 x1) x2 (ix2 r b) = G4 A0 A1 A2 (ix2 p b) := by
  rw [pay3_4_apply, pay2_4_apply, pay2_4_apply, pay1_4_apply, zero_add, h2]
  rw [Finset.sum_congr rfl (fun k _ => by rw [h0' k, h1' k] : ∀ k ∈ Finset.univ, x0' (ix2 r k) * x1' (ix2 k b) = A0 (ix2 p (Fin.castAdd 4096 k)) * A1 (ix2 (Fin.castAdd 4096 k) b))]
  rw [Finset.sum_congr rfl (fun k _ => by rw [h0 k, h1 k] : ∀ k ∈ Finset.univ, x0 (ix2 r k) * x1 (ix2 k b) = A0 (ix2 p (Fin.natAdd 4096 k)) * A1 (ix2 (Fin.natAdd 4096 k) b))]
  show _ = max (A2 (ix2 p b) + ∑ k : Fin 8192, A0 (ix2 p k) * A1 (ix2 k b)) 0
  rw [sum_halves4 (fun k => A0 (ix2 p k) * A1 (ix2 k b)), add_comm]

end Cert.KernelIdeal.Hand

end
-- ==== Proof.KI.R4Final.lean ====
import proofs.«120270_j2259152797813_2_alg».proof.Proof.KI.R4Val
import proofs.«120270_j2259152797813_2_alg».proof.Proof.KI.R4Pay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.ValueIdx
open scoped BigOperators

variable (V : (c : Dev nD) → (b : Ref sig .tc) → Buf (Elt Ideal) ((c : Thread nD τ).loc b))

/-! # Region 4: its output array after the region, as one function of the three input arrays -/

/-- The four windows' block indices at point `t = 2·i + k` of the (8, 2) grid: the row block `i` and the half `k` of
    the contracted axis. Decided over the grid. -/
theorem idx_facts4 : ∀ t : Fin cfg4.N,
    win4_0.index t (0 : Fin 2) = t.val / 2 ∧ win4_0.index t (1 : Fin 2) = t.val % 2
    ∧ win4_1.index t (0 : Fin 2) = t.val % 2 ∧ win4_1.index t (1 : Fin 2) = 0
    ∧ win4_2.index t (0 : Fin 2) = t.val / 2 ∧ win4_2.index t (1 : Fin 2) = 0
    ∧ win4_3.index t (0 : Fin 2) = t.val / 2 ∧ win4_3.index t (1 : Fin 2) = 0 :=
  (by decide +kernel : ∀ t : Fin grid4.N, _)

/-- An entry of the first window's block is the entry of its array at row `1024·(t/2) + r`, column `4096·(t%2) + k`. -/
theorem iblk4_0_apply (c : Dev nD) (t : Fin cfg4.N) (r : Fin 1024) (k : Fin 4096) (p q : Fin 8192)
    (hp : p.val = 1024 * (t.val / 2) + r.val) (hq : q.val = 4096 * (t.val % 2) + k.val) :
    (iblk4 V c 0 t : Vec Ideal S1024x4096 .bf16) (ix2 r k) = (V c (Pipeline.arrRef spec4 0) : S8192x8192.Idx → EReal) (ix2 p q) := by
  obtain ⟨e0, e1, -⟩ := idx_facts4 t
  show V c (Pipeline.arrRef spec4 0) (((cfg4.win 0).blk t).view.emb (ix2 r k)) = _
  congr 1
  funext a; apply Fin.ext
  match a with
  | ⟨0, _⟩ => show win4_0.index t (0 : Fin 2) * 1024 + 1 * r.val = p.val; rw [e0, hp]; omega
  | ⟨1, _⟩ => show win4_0.index t (1 : Fin 2) * 4096 + 1 * k.val = q.val; rw [e1, hq]; omega

/-- An entry of the second window's block: row `4096·(t%2) + k` of its array, the same column. -/
theorem iblk4_1_apply (c : Dev nD) (t : Fin cfg4.N) (k : Fin 4096) (b : Fin 128) (q : Fin 8192)
    (hq : q.val = 4096 * (t.val % 2) + k.val) :
    (iblk4 V c 1 t : Vec Ideal S4096x128 .bf16) (ix2 k b) = (V c (Pipeline.arrRef spec4 1) : S8192x128.Idx → EReal) (ix2 q b) := by
  obtain ⟨-, -, e0, e1, -⟩ := idx_facts4 t
  show V c (Pipeline.arrRef spec4 1) (((cfg4.win 1).blk t).view.emb (ix2 k b)) = _
  congr 1
  funext a; apply Fin.ext
  match a with
  | ⟨0, _⟩ => show win4_1.index t (0 : Fin 2) * 4096 + 1 * k.val = q.val; rw [e0, hq]; omega
  | ⟨1, _⟩ => show win4_1.index t (1 : Fin 2) * 128 + 1 * b.val = b.val; rw [e1]; omega

/-- An entry of the third window's block: row `1024·(t/2) + r` of its array, the same column. -/
theorem iblk4_2_apply (c : Dev nD) (t : Fin cfg4.N) (r : Fin 1024) (b : Fin 128) (p : Fin 8192)
    (hp : p.val = 1024 * (t.val / 2) + r.val) :
    (iblk4 V c 2 t : Vec Ideal S1024x128 .f32) (ix2 r b) = (V c (Pipeline.arrRef spec4 2) : S8192x128.Idx → EReal) (ix2 p b) := by
  obtain ⟨-, -, -, -, e0, e1, -⟩ := idx_facts4 t
  show V c (Pipeline.arrRef spec4 2) (((cfg4.win 2).blk t).view.emb (ix2 r b)) = _
  congr 1
  funext a; apply Fin.ext
  match a with
  | ⟨0, _⟩ => show win4_2.index t (0 : Fin 2) * 1024 + 1 * r.val = p.val; rw [e0, hp]; omega
  | ⟨1, _⟩ => show win4_2.index t (1 : Fin 2) * 128 + 1 * b.val = b.val; rw [e1]; omega

/-- The row of the array that row `r` of point `t`'s block is. -/
theorem row_lt4 (t : Fin cfg4.N) (r : Fin 1024) : 1024 * (t.val / 2) + r.val < 8192 := by
  have hN : t.val < 16 := lt_of_lt_of_eq t.isLt (show cfg4.N = 16 from N_4)
  have hr := r.isLt; omega

set_option maxHeartbeats 1000000 in
/-- WHAT AN ODD POINT WRITES BACK is its block of `G4` of the three arrays as the region finds them. -/
theorem flushed4_eq (c : Dev nD) (t : Fin cfg4.N) (hf : (cfg4.win 3).flush t = true) :
    (dat4 V c).flushed 3 t
      = ((cfg4.win 3).blk t).view.read (Elt Ideal)
          (G4 (V c (Pipeline.arrRef spec4 0)) (V c (Pipeline.arrRef spec4 1)) (V c (Pipeline.arrRef spec4 2))) := by
  have h1 : t.val % 2 = 1 := (flush4_3 t).mp hf
  have h0 : ¬t.val % 2 = 0 := by omega
  have hN : t.val < 16 := lt_of_lt_of_eq t.isLt (show cfg4.N = 16 from N_4)
  obtain ⟨-, -, -, -, -, -, e0, e1⟩ := idx_facts4 t
  show (cfg4.win 3).cut (grid4.coords t) ((dat4 V c).after 3 t) = _
  rw [show (dat4 V c).after 3 t = outsAt4 V c t from by dsimp only [dat4]]
  rw [outsAt4_odd_closed V c t h0]
  funext j
  obtain ⟨r, b, rfl⟩ : ∃ (r : Fin 1024) (b : Fin 128), j = ix2 r b := ⟨j 0, j 1, eq_ix2 j⟩
  have hemb : ((cfg4.win 3).blk t).view.emb (ix2 r b) = ix2 (⟨1024 * (t.val / 2) + r.val, row_lt4 t r⟩ : Fin 8192) b := by
    funext a; apply Fin.ext
    match a with
    | ⟨0, _⟩ => show win4_3.index t (0 : Fin 2) * 1024 + 1 * r.val = 1024 * (t.val / 2) + r.val; rw [e0]; omega
    | ⟨1, _⟩ => show win4_3.index t (1 : Fin 2) * 128 + 1 * b.val = b.val; rw [e1]; omega
  show k4_pay3 (F := Ideal) (k4_pay2 (k4_pay2 (k4_pay1 (F := Ideal)) (iblk4 V c 0 (prev4 t)) (iblk4 V c 1 (prev4 t))) (iblk4 V c 0 t) (iblk4 V c 1 t)) (iblk4 V c 2 t) (ix2 r b)
    = G4 (V c (Pipeline.arrRef spec4 0)) (V c (Pipeline.arrRef spec4 1)) (V c (Pipeline.arrRef spec4 2)) (((cfg4.win 3).blk t).view.emb (ix2 r b))
  rw [hemb]
  have hpv : (prev4 t).val = t.val - 1 := rfl
  exact join4 (V c (Pipeline.arrRef spec4 0)) (V c (Pipeline.arrRef spec4 1)) (V c (Pipeline.arrRef spec4 2))
    (iblk4 V c 0 (prev4 t)) (iblk4 V c 0 t) (iblk4 V c 1 (prev4 t)) (iblk4 V c 1 t) (iblk4 V c 2 t) r b
    ⟨1024 * (t.val / 2) + r.val, row_lt4 t r⟩
    (fun k => iblk4_0_apply V c (prev4 t) r k _ (Fin.castAdd 4096 k)
      (by show 1024 * (t.val / 2) + r.val = 1024 * ((prev4 t).val / 2) + r.val; rw [hpv]; omega)
      (by show k.val = 4096 * ((prev4 t).val % 2) + k.val; rw [hpv]; omega))
    (fun k => iblk4_0_apply V c t r k _ (Fin.natAdd 4096 k) rfl
      (by show 4096 + k.val = 4096 * (t.val % 2) + k.val; omega))
    (fun k => iblk4_1_apply V c (prev4 t) k b (Fin.castAdd 4096 k)
      (by show k.val = 4096 * ((prev4 t).val % 2) + k.val; rw [hpv]; omega))
    (fun k => iblk4_1_apply V c t k b (Fin.natAdd 4096 k)
      (by show 4096 + k.val = 4096 * (t.val % 2) + k.val; omega))
    (iblk4_2_apply V c t r b _ rfl)

/-- An index of the output array is in point `t`'s block iff each coordinate is in the block's range on its axis. -/
theorem mem_blk4 (t : Fin cfg4.N) (i : S8192x128.Idx) :
    i ∈ ((cfg4.win 3).blk t).view.set ↔ ∀ a : Fin 2, win4_3.index t a * S1024x128.size a ≤ (i a).val ∧ (i a).val < win4_3.index t a * S1024x128.size a + S1024x128.size a := by
  show i ∈ ((View.whole (Pipeline.arrRef spec4 3)).slice (win4_3.rect t)).set ↔ _
  rw [View.set_slice_whole, Rect.mem_set_unit]
  exact Iff.rfl

/-- Every entry of the output array is in the block some odd point writes back: row `p` at point `2·(p / 1024) + 1`. -/
theorem cover4 (i : S8192x128.Idx) : ∃ t : Fin cfg4.N, (cfg4.win 3).flush t = true ∧ i ∈ ((cfg4.win 3).blk t).view.set := by
  have hi0 : (i 0).val < 8192 := idx2_lt0 i
  have hi1 : (i 1).val < 128 := idx2_lt1 i
  have hlt : 2 * ((i 0).val / 1024) + 1 < cfg4.N := by rw [show cfg4.N = 16 from N_4]; omega
  refine ⟨⟨2 * ((i 0).val / 1024) + 1, hlt⟩, (flush4_3 _).mpr (by show (2 * ((i 0).val / 1024) + 1) % 2 = 1; omega), ?_⟩
  obtain ⟨-, -, -, -, -, -, e0, e1⟩ := idx_facts4 ⟨2 * ((i 0).val / 1024) + 1, hlt⟩
  have e0' : win4_3.index ⟨2 * ((i 0).val / 1024) + 1, hlt⟩ (0 : Fin 2) = (i 0).val / 1024 := by rw [e0]; show (2 * ((i 0).val / 1024) + 1) / 2 = _; omega
  rw [mem_blk4]
  intro a
  match a with
  | ⟨0, _⟩ => show win4_3.index _ (0 : Fin 2) * 1024 ≤ (i 0).val ∧ (i 0).val < win4_3.index _ (0 : Fin 2) * 1024 + 1024; rw [e0']; omega
  | ⟨1, _⟩ => show win4_3.index _ (1 : Fin 2) * 128 ≤ (i 1).val ∧ (i 1).val < win4_3.index _ (1 : Fin 2) * 128 + 128; rw [e1]; omega

/-- THE OUTPUT ARRAY after the region: `G4` of the three input arrays as the region finds them. -/
theorem final3_4 (c : Dev nD) :
    (dat4 V c).arrAt 3 cfg4.N = G4 (V c (Pipeline.arrRef spec4 0)) (V c (Pipeline.arrRef spec4 1)) (V c (Pipeline.arrRef spec4 2)) :=
  (dat4 V c).arrAt_eq_of_cover 3 _ (fun t hf => flushed4_eq V c t hf) cover4

end Cert.KernelIdeal.Hand

end
-- ==== Proof.KI.R5Val.lean ====
import proofs.«120270_j2259152797813_2_alg».proof.Proof.KI.R5
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: what its two cases leave, through the kernel's named payloads -/

theorem hz5 : (![0, 0] : Fin 2 → Nat) = fun _ => 0 := funext fun a => by fin_cases a <;> rfl

set_option maxHeartbeats 400000 in
/-- Case A leaves in the accumulator the zero block plus the product of the two input blocks: the second of its
    two whole-block stores, whose payload reads the first one back. -/
theorem sout5_A_0_eq (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond5_0 i) (hc1 : ¬cond5_1 i)
    (x0 : Vec F S1024x4096 .bf16) (x1 : Vec F S4096x128 .bf16) (x2 : Vec F S1024x128 .f32) :
    sout5_A_0 c i arg2 harg2 arg3 harg3 arg4 harg4 arg5 harg5 arg6 harg6 hc0 hc1 x0 x1 x2 = k5_pay2 (k5_pay1 (F := F)) x0 x1 := by
  unfold sout5_A_0
  rw [View.read_writes_eq_canon _ _ _ (scover5_A_0 c i arg2 harg2 arg3 harg3 arg4 harg4 arg5 harg5 arg6 harg6 hc0 hc1 x0 x1 x2)]
  unfold kernelRun5_A
  dsimp only
  sl_unfold_words
  rw [View.canon_cons_unit_zero (S := S1024x128) hz5, View.readCov_unit_zero (S := S1024x128) _ hz5]
  simp only [View.readAt_eq_ld, harg2.read_unread, harg3.read_unread, View.ld_unit_zero (S := S1024x4096) hz5, View.ld_unit_zero (S := S4096x128) hz5]

set_option maxHeartbeats 400000 in
/-- Case B leaves in the accumulator what it held plus the product of the two input blocks. -/
theorem sout5_B_0_eq (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond5_0 i) (hc1 : cond5_1 i)
    (x0 : Vec F S1024x4096 .bf16) (x1 : Vec F S4096x128 .bf16) (x2 : Vec F S1024x128 .f32) (xs0 : Vec F S1024x128 .f32) :
    sout5_B_0 c i arg2 harg2 arg3 harg3 arg4 harg4 arg5 harg5 arg6 harg6 hc0 hc1 x0 x1 x2 xs0 = k5_pay2 xs0 x0 x1 := by
  unfold sout5_B_0
  rw [View.read_writes_eq_canon _ _ _ (scover5_B_0 c i arg2 harg2 arg3 harg3 arg4 harg4 arg5 harg5 arg6 harg6 hc0 hc1 x0 x1 x2 xs0)]
  unfold kernelRun5_B
  dsimp only
  sl_unfold_words
  rw [View.canon_unit_zero (S := S1024x128) hz5]
  simp only [View.readAt_eq_ld, harg2.read_unread, harg3.read_unread, harg6.read_unread, View.ld_unit_zero (S := S1024x4096) hz5, View.ld_unit_zero (S := S4096x128) hz5, View.ld_unit_zero (S := S1024x128) hz5]

set_option maxHeartbeats 400000 in
/-- Case B leaves in the output's buffer the rectified sum of the new accumulator and the third input block. -/
theorem out5_B_3_eq (c : Dev nD) (i : grid5.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond5_0 i) (hc1 : cond5_1 i)
    (x0 : Vec F S1024x4096 .bf16) (x1 : Vec F S4096x128 .bf16) (x2 : Vec F S1024x128 .f32) (xs0 : Vec F S1024x128 .f32) :
    out5_B_3 c i arg2 harg2 arg3 harg3 arg4 harg4 arg5 harg5 arg6 harg6 hc0 hc1 x0 x1 x2 xs0 = k5_pay3 (k5_pay2 xs0 x0 x1) x2 := by
  unfold out5_B_3
  rw [View.read_writes_eq_canon _ _ _ (cover5_B_3 c i arg2 harg2 arg3 harg3 arg4 harg4 arg5 harg5 arg6 harg6 hc0 hc1 x0 x1 x2 xs0)]
  unfold kernelRun5_B
  dsimp only
  sl_unfold_words
  rw [View.canon_unit_zero (S := S1024x128) hz5, View.readCov_unit_zero (S := S1024x128) _ hz5]
  simp only [View.readAt_eq_ld, harg2.read_unread, harg3.read_unread, harg4.read_unread, harg6.read_unread, View.ld_unit_zero (S := S1024x4096) hz5, View.ld_unit_zero (S := S4096x128) hz5, View.ld_unit_zero (S := S1024x128) hz5]

section R5
variable (V : (c : Dev nD) → (b : Ref sig .tc) → Buf (Elt F) ((c : Thread nD τ).loc b))

/-- The point before `t` (the point itself at 0, where nothing reads it). -/
def prev5 (t : Fin cfg5.N) : Fin cfg5.N := ⟨t.val - 1, Nat.lt_of_le_of_lt (Nat.sub_le _ _) t.isLt⟩

theorem prev5_even (t : Fin cfg5.N) (h0 : ¬t.val % 2 = 0) : (prev5 t).val % 2 = 0 := by
  show (t.val - 1) % 2 = 0; omega

/-- After an even point the accumulator holds zero plus the product of the point's two blocks. -/
theorem sAt5_even (c : Dev nD) (t : Fin cfg5.N) (h0 : t.val % 2 = 0) :
    sAt5 V c t = k5_pay2 (k5_pay1 (F := F)) (iblk5 V c 0 t) (iblk5 V c 1 t) := by
  unfold sAt5; rw [accAt5_A V c t h0]; dsimp only; unfold sA5
  exact sout5_A_0_eq c (grid5.coords t) (ms5_0 t) (hs5_0 t) (ms5_1 t) (hs5_1 t) (ms5_2 t) (hs5_2 t) (ms5_3 t) (hs5_3 t) scM5_0 (Memref.isWhole_whole _) (hc5A0 t h0) (hc5A1 t h0) (iblk5 V c 0 t) (iblk5 V c 1 t) (iblk5 V c 2 t)

/-- After an odd point it holds what the point before left plus the product of the point's two blocks. -/
theorem sAt5_odd (c : Dev nD) (t : Fin cfg5.N) (h0 : ¬t.val % 2 = 0) :
    sAt5 V c t = k5_pay2 (sAt5 V c (prev5 t)) (iblk5 V c 0 t) (iblk5 V c 1 t) := by
  unfold sAt5; rw [accAt5_B V c t h0]; dsimp only; unfold sB5
  exact sout5_B_0_eq c (grid5.coords t) (ms5_0 t) (hs5_0 t) (ms5_1 t) (hs5_1 t) (ms5_2 t) (hs5_2 t) (ms5_3 t) (hs5_3 t) scM5_0 (Memref.isWhole_whole _) (hc5B0 t h0) (hc5B1 t h0) (iblk5 V c 0 t) (iblk5 V c 1 t) (iblk5 V c 2 t) (accAt5 V c (t.val - 1) (Nat.lt_of_le_of_lt (Nat.sub_le _ _) t.isLt)).2

/-- After an odd point the output's buffer holds the rectified sum of the new accumulator and the third block. -/
theorem outsAt5_odd (c : Dev nD) (t : Fin cfg5.N) (h0 : ¬t.val % 2 = 0) :
    outsAt5 V c t = k5_pay3 (k5_pay2 (sAt5 V c (prev5 t)) (iblk5 V c 0 t) (iblk5 V c 1 t)) (iblk5 V c 2 t) := by
  unfold outsAt5 sAt5; rw [accAt5_B V c t h0]; dsimp only; unfold oB5
  exact out5_B_3_eq c (grid5.coords t) (ms5_0 t) (hs5_0 t) (ms5_1 t) (hs5_1 t) (ms5_2 t) (hs5_2 t) (ms5_3 t) (hs5_3 t) scM5_0 (Memref.isWhole_whole _) (hc5B0 t h0) (hc5B1 t h0) (iblk5 V c 0 t) (iblk5 V c 1 t) (iblk5 V c 2 t) (accAt5 V c (t.val - 1) (Nat.lt_of_le_of_lt (Nat.sub_le _ _) t.isLt)).2

/-- The same in closed form: the two reduction steps of the row block, from zero, then the third block added and
    the sum rectified. -/
theorem outsAt5_odd_closed (c : Dev nD) (t : Fin cfg5.N) (h0 : ¬t.val % 2 = 0) :
    outsAt5 V c t
      = k5_pay3 (k5_pay2 (k5_pay2 (k5_pay1 (F := F)) (iblk5 V c 0 (prev5 t)) (iblk5 V c 1 (prev5 t))) (iblk5 V c 0 t) (iblk5 V c 1 t)) (iblk5 V c 2 t) :=
  (outsAt5_odd V c t h0).trans
    (congrArg (fun s => k5_pay3 (k5_pay2 s (iblk5 V c 0 t) (iblk5 V c 1 t)) (iblk5 V c 2 t)) (sAt5_even V c (prev5 t) (prev5_even t h0)))

end R5

end Cert.KernelIdeal.Hand

end
-- ==== Proof.KI.R5Pay.lean ====
import proofs.«120270_j2259152797813_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! # Region 5: its three payloads read at an index, over the extended reals -/

/-- The block product at an entry: the sum over the 4096 contracted positions of the entries' products. -/
theorem mm5_apply (A : FVec Ideal S1024x4096 .bf16) (B : FVec Ideal S4096x128 .bf16) (a : Fin 1024) (b : Fin 128) :
    FloatOps.matmul dot_S1024x4096_S4096x128_S1024x128_1_0_0_1_n_n none A B (constant (F := Ideal) S1024x128 .f32 0x00000000#32) (ix2 a b)
      = ∑ k : Fin 4096, A (ix2 a k) * B (ix2 k b) := by
  rw [Ideal.matmul_constant_zero_apply, ← Equiv.sum_comp (contrEquiv1 dot_S1024x4096_S4096x128_S1024x128_1_0_0_1_n_n 4096 rfl rfl).symm]
  refine Finset.sum_congr rfl fun k _ => ?_
  have c2 := contrEquiv1_symm_val dot_S1024x4096_S4096x128_S1024x128_1_0_0_1_n_n 4096 rfl rfl k
  have l2 : dot_S1024x4096_S4096x128_S1024x128_1_0_0_1_n_n.lhsIdx (ix2 a b) ((contrEquiv1 _ 4096 rfl rfl).symm k) = ix2 a k := by
    funext ax; apply Fin.ext
    match ax with
    | ⟨0, _⟩ => simp [DotDims.lhsIdx, dot_S1024x4096_S4096x128_S1024x128_1_0_0_1_n_n]; rfl
    | ⟨1, _⟩ => simp [DotDims.lhsIdx, dot_S1024x4096_S4096x128_S1024x128_1_0_0_1_n_n]; exact c2
  have r2 : dot_S1024x4096_S4096x128_S1024x128_1_0_0_1_n_n.rhsIdx (ix2 a b) ((contrEquiv1 _ 4096 rfl rfl).symm k) = ix2 k b := by
    funext ax; apply Fin.ext
    match ax with
    | ⟨0, _⟩ => simp [DotDims.rhsIdx, dot_S1024x4096_S4096x128_S1024x128_1_0_0_1_n_n]; exact c2
    | ⟨1, _⟩ => simp [DotDims.rhsIdx, dot_S1024x4096_S4096x128_S1024x128_1_0_0_1_n_n]; rfl
  rw [l2, r2]

/-- The zero block. -/
theorem pay1_5_apply (i : S1024x128.Idx) : k5_pay1 (F := Ideal) i = 0 := by
  unfold k5_pay1
  simp only [shapeCast_self]
  show Ideal.ofBits .f32 0x00000000#32 = 0
  exact Ideal.ofBits_zero_f32

/-- The accumulation step at an entry: what the accumulator held plus the row-by-column sum of the two blocks. -/
theorem pay2_5_apply (v3 : Vec Ideal S1024x128 .f32) (v5 : Vec Ideal S1024x4096 .bf16) (v6 : Vec Ideal S4096x128 .bf16)
    (a : Fin 1024) (b : Fin 128) :
    k5_pay2 (F := Ideal) v3 v5 v6 (ix2 a b) = v3 (ix2 a b) + ∑ k : Fin 4096, v5 (ix2 a k) * v6 (ix2 k b) := by
  unfold k5_pay2
  simp only [shapeCast_self]
  show v3 (ix2 a b) + _ = _
  exact congrArg (v3 (ix2 a b) + ·) (mm5_apply v5 v6 a b)

/-- The epilogue at an entry: the accumulator plus the third block, rectified. -/
theorem pay3_5_apply (v16 : Vec Ideal S1024x128 .f32) (v17 : Vec Ideal S1024x128 .f32) (i : S1024x128.Idx) :
    k5_pay3 (F := Ideal) v16 v17 i = max (v16 i + v17 i) 0 := by
  unfold k5_pay3
  simp only [shapeCast_self]
  show max (v16 i + v17 i) (Ideal.ofBits .f32 0x00000000#32) = _
  rw [Ideal.ofBits_zero_f32]

/-- The result, entry by entry: the rectified sum of the third array's entry and the product of row `p` of the
    first array with column `q` of the second over all 8192 contracted positions. -/
def G5 (A0 : S8192x8192.Idx → EReal) (A1 : S8192x128.Idx → EReal) (A2 : S8192x128.Idx → EReal) : S8192x128.Idx → EReal :=
  fun i => max (A2 i + ∑ k : Fin 8192, A0 (ix2 (i 0) k) * A1 (ix2 k (i 1))) 0

/-- A sum over the 8192 contracted positions is the sum over its two halves. -/
theorem sum_halves5 (f : Fin 8192 → EReal) :
    ∑ k : Fin 8192, f k = ∑ k : Fin 4096, f (Fin.castAdd 4096 k) + ∑ k : Fin 4096, f (Fin.natAdd 4096 k) :=
  Fin.sum_univ_add (M := EReal) (a := 4096) (b := 4096) f

/-- ONE ENTRY of what an odd point writes back. The accumulator starts from zero, takes the first halves' product
    (blocks `x0'`, `x1'`) and then the second halves' (`x0`, `x1`); the third block `x2` is added and the sum
    rectified. When the five blocks are the cuts of the arrays `A0`, `A1`, `A2` at row `p` and column `b`, this is the
    entry (p, b) of `G5`: zero is neutral, the two half sums join, and the two summands commute. -/
theorem join5 (A0 : S8192x8192.Idx → EReal) (A1 : S8192x128.Idx → EReal) (A2 : S8192x128.Idx → EReal)
    (x0' x0 : Vec Ideal S1024x4096 .bf16) (x1' x1 : Vec Ideal S4096x128 .bf16) (x2 : Vec Ideal S1024x128 .f32)
    (r : Fin 1024) (b : Fin 128) (p : Fin 8192)
    (h0' : ∀ k : Fin 4096, x0' (ix2 r k) = A0 (ix2 p (Fin.castAdd 4096 k)))
    (h0 : ∀ k : Fin 4096, x0 (ix2 r k) = A0 (ix2 p (Fin.natAdd 4096 k)))
    (h1' : ∀ k : Fin 4096, x1' (ix2 k b) = A1 (ix2 (Fin.castAdd 4096 k) b))
    (h1 : ∀ k : Fin 4096, x1 (ix2 k b) = A1 (ix2 (Fin.natAdd 4096 k) b))
    (h2 : x2 (ix2 r b) = A2 (ix2 p b)) :
    k5_pay3 (F := Ideal) (k5_pay2 (k5_pay2 (k5_pay1 (F := Ideal)) x0' x1') x0 x1) x2 (ix2 r b) = G5 A0 A1 A2 (ix2 p b) := by
  rw [pay3_5_apply, pay2_5_apply, pay2_5_apply, pay1_5_apply, zero_add, h2]
  rw [Finset.sum_congr rfl (fun k _ => by rw [h0' k, h1' k] : ∀ k ∈ Finset.univ, x0' (ix2 r k) * x1' (ix2 k b) = A0 (ix2 p (Fin.castAdd 4096 k)) * A1 (ix2 (Fin.castAdd 4096 k) b))]
  rw [Finset.sum_congr rfl (fun k _ => by rw [h0 k, h1 k] : ∀ k ∈ Finset.univ, x0 (ix2 r k) * x1 (ix2 k b) = A0 (ix2 p (Fin.natAdd 4096 k)) * A1 (ix2 (Fin.natAdd 4096 k) b))]
  show _ = max (A2 (ix2 p b) + ∑ k : Fin 8192, A0 (ix2 p k) * A1 (ix2 k b)) 0
  rw [sum_halves5 (fun k => A0 (ix2 p k) * A1 (ix2 k b)), add_comm]

end Cert.KernelIdeal.Hand

end
-- ==== Proof.KI.R5Final.lean ====
import proofs.«120270_j2259152797813_2_alg».proof.Proof.KI.R5Val
import proofs.«120270_j2259152797813_2_alg».proof.Proof.KI.R5Pay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.ValueIdx
open scoped BigOperators

variable (V : (c : Dev nD) → (b : Ref sig .tc) → Buf (Elt Ideal) ((c : Thread nD τ).loc b))

/-! # Region 5: its output array after the region, as one function of the three input arrays -/

/-- The four windows' block indices at point `t = 2·i + k` of the (8, 2) grid: the row block `i` and the half `k` of
    the contracted axis. Decided over the grid. -/
theorem idx_facts5 : ∀ t : Fin cfg5.N,
    win5_0.index t (0 : Fin 2) = t.val / 2 ∧ win5_0.index t (1 : Fin 2) = t.val % 2
    ∧ win5_1.index t (0 : Fin 2) = t.val % 2 ∧ win5_1.index t (1 : Fin 2) = 0
    ∧ win5_2.index t (0 : Fin 2) = t.val / 2 ∧ win5_2.index t (1 : Fin 2) = 0
    ∧ win5_3.index t (0 : Fin 2) = t.val / 2 ∧ win5_3.index t (1 : Fin 2) = 0 :=
  (by decide +kernel : ∀ t : Fin grid5.N, _)

/-- An entry of the first window's block is the entry of its array at row `1024·(t/2) + r`, column `4096·(t%2) + k`. -/
theorem iblk5_0_apply (c : Dev nD) (t : Fin cfg5.N) (r : Fin 1024) (k : Fin 4096) (p q : Fin 8192)
    (hp : p.val = 1024 * (t.val / 2) + r.val) (hq : q.val = 4096 * (t.val % 2) + k.val) :
    (iblk5 V c 0 t : Vec Ideal S1024x4096 .bf16) (ix2 r k) = (V c (Pipeline.arrRef spec5 0) : S8192x8192.Idx → EReal) (ix2 p q) := by
  obtain ⟨e0, e1, -⟩ := idx_facts5 t
  show V c (Pipeline.arrRef spec5 0) (((cfg5.win 0).blk t).view.emb (ix2 r k)) = _
  congr 1
  funext a; apply Fin.ext
  match a with
  | ⟨0, _⟩ => show win5_0.index t (0 : Fin 2) * 1024 + 1 * r.val = p.val; rw [e0, hp]; omega
  | ⟨1, _⟩ => show win5_0.index t (1 : Fin 2) * 4096 + 1 * k.val = q.val; rw [e1, hq]; omega

/-- An entry of the second window's block: row `4096·(t%2) + k` of its array, the same column. -/
theorem iblk5_1_apply (c : Dev nD) (t : Fin cfg5.N) (k : Fin 4096) (b : Fin 128) (q : Fin 8192)
    (hq : q.val = 4096 * (t.val % 2) + k.val) :
    (iblk5 V c 1 t : Vec Ideal S4096x128 .bf16) (ix2 k b) = (V c (Pipeline.arrRef spec5 1) : S8192x128.Idx → EReal) (ix2 q b) := by
  obtain ⟨-, -, e0, e1, -⟩ := idx_facts5 t
  show V c (Pipeline.arrRef spec5 1) (((cfg5.win 1).blk t).view.emb (ix2 k b)) = _
  congr 1
  funext a; apply Fin.ext
  match a with
  | ⟨0, _⟩ => show win5_1.index t (0 : Fin 2) * 4096 + 1 * k.val = q.val; rw [e0, hq]; omega
  | ⟨1, _⟩ => show win5_1.index t (1 : Fin 2) * 128 + 1 * b.val = b.val; rw [e1]; omega

/-- An entry of the third window's block: row `1024·(t/2) + r` of its array, the same column. -/
theorem iblk5_2_apply (c : Dev nD) (t : Fin cfg5.N) (r : Fin 1024) (b : Fin 128) (p : Fin 8192)
    (hp : p.val = 1024 * (t.val / 2) + r.val) :
    (iblk5 V c 2 t : Vec Ideal S1024x128 .f32) (ix2 r b) = (V c (Pipeline.arrRef spec5 2) : S8192x128.Idx → EReal) (ix2 p b) := by
  obtain ⟨-, -, -, -, e0, e1, -⟩ := idx_facts5 t
  show V c (Pipeline.arrRef spec5 2) (((cfg5.win 2).blk t).view.emb (ix2 r b)) = _
  congr 1
  funext a; apply Fin.ext
  match a with
  | ⟨0, _⟩ => show win5_2.index t (0 : Fin 2) * 1024 + 1 * r.val = p.val; rw [e0, hp]; omega
  | ⟨1, _⟩ => show win5_2.index t (1 : Fin 2) * 128 + 1 * b.val = b.val; rw [e1]; omega

/-- The row of the array that row `r` of point `t`'s block is. -/
theorem row_lt5 (t : Fin cfg5.N) (r : Fin 1024) : 1024 * (t.val / 2) + r.val < 8192 := by
  have hN : t.val < 16 := lt_of_lt_of_eq t.isLt (show cfg5.N = 16 from N_5)
  have hr := r.isLt; omega

set_option maxHeartbeats 1000000 in
/-- WHAT AN ODD POINT WRITES BACK is its block of `G5` of the three arrays as the region finds them. -/
theorem flushed5_eq (c : Dev nD) (t : Fin cfg5.N) (hf : (cfg5.win 3).flush t = true) :
    (dat5 V c).flushed 3 t
      = ((cfg5.win 3).blk t).view.read (Elt Ideal)
          (G5 (V c (Pipeline.arrRef spec5 0)) (V c (Pipeline.arrRef spec5 1)) (V c (Pipeline.arrRef spec5 2))) := by
  have h1 : t.val % 2 = 1 := (flush5_3 t).mp hf
  have h0 : ¬t.val % 2 = 0 := by omega
  have hN : t.val < 16 := lt_of_lt_of_eq t.isLt (show cfg5.N = 16 from N_5)
  obtain ⟨-, -, -, -, -, -, e0, e1⟩ := idx_facts5 t
  show (cfg5.win 3).cut (grid5.coords t) ((dat5 V c).after 3 t) = _
  rw [show (dat5 V c).after 3 t = outsAt5 V c t from by dsimp only [dat5]]
  rw [outsAt5_odd_closed V c t h0]
  funext j
  obtain ⟨r, b, rfl⟩ : ∃ (r : Fin 1024) (b : Fin 128), j = ix2 r b := ⟨j 0, j 1, eq_ix2 j⟩
  have hemb : ((cfg5.win 3).blk t).view.emb (ix2 r b) = ix2 (⟨1024 * (t.val / 2) + r.val, row_lt5 t r⟩ : Fin 8192) b := by
    funext a; apply Fin.ext
    match a with
    | ⟨0, _⟩ => show win5_3.index t (0 : Fin 2) * 1024 + 1 * r.val = 1024 * (t.val / 2) + r.val; rw [e0]; omega
    | ⟨1, _⟩ => show win5_3.index t (1 : Fin 2) * 128 + 1 * b.val = b.val; rw [e1]; omega
  show k5_pay3 (F := Ideal) (k5_pay2 (k5_pay2 (k5_pay1 (F := Ideal)) (iblk5 V c 0 (prev5 t)) (iblk5 V c 1 (prev5 t))) (iblk5 V c 0 t) (iblk5 V c 1 t)) (iblk5 V c 2 t) (ix2 r b)
    = G5 (V c (Pipeline.arrRef spec5 0)) (V c (Pipeline.arrRef spec5 1)) (V c (Pipeline.arrRef spec5 2)) (((cfg5.win 3).blk t).view.emb (ix2 r b))
  rw [hemb]
  have hpv : (prev5 t).val = t.val - 1 := rfl
  exact join5 (V c (Pipeline.arrRef spec5 0)) (V c (Pipeline.arrRef spec5 1)) (V c (Pipeline.arrRef spec5 2))
    (iblk5 V c 0 (prev5 t)) (iblk5 V c 0 t) (iblk5 V c 1 (prev5 t)) (iblk5 V c 1 t) (iblk5 V c 2 t) r b
    ⟨1024 * (t.val / 2) + r.val, row_lt5 t r⟩
    (fun k => iblk5_0_apply V c (prev5 t) r k _ (Fin.castAdd 4096 k)
      (by show 1024 * (t.val / 2) + r.val = 1024 * ((prev5 t).val / 2) + r.val; rw [hpv]; omega)
      (by show k.val = 4096 * ((prev5 t).val % 2) + k.val; rw [hpv]; omega))
    (fun k => iblk5_0_apply V c t r k _ (Fin.natAdd 4096 k) rfl
      (by show 4096 + k.val = 4096 * (t.val % 2) + k.val; omega))
    (fun k => iblk5_1_apply V c (prev5 t) k b (Fin.castAdd 4096 k)
      (by show k.val = 4096 * ((prev5 t).val % 2) + k.val; rw [hpv]; omega))
    (fun k => iblk5_1_apply V c t k b (Fin.natAdd 4096 k)
      (by show 4096 + k.val = 4096 * (t.val % 2) + k.val; omega))
    (iblk5_2_apply V c t r b _ rfl)

/-- An index of the output array is in point `t`'s block iff each coordinate is in the block's range on its axis. -/
theorem mem_blk5 (t : Fin cfg5.N) (i : S8192x128.Idx) :
    i ∈ ((cfg5.win 3).blk t).view.set ↔ ∀ a : Fin 2, win5_3.index t a * S1024x128.size a ≤ (i a).val ∧ (i a).val < win5_3.index t a * S1024x128.size a + S1024x128.size a := by
  show i ∈ ((View.whole (Pipeline.arrRef spec5 3)).slice (win5_3.rect t)).set ↔ _
  rw [View.set_slice_whole, Rect.mem_set_unit]
  exact Iff.rfl

/-- Every entry of the output array is in the block some odd point writes back: row `p` at point `2·(p / 1024) + 1`. -/
theorem cover5 (i : S8192x128.Idx) : ∃ t : Fin cfg5.N, (cfg5.win 3).flush t = true ∧ i ∈ ((cfg5.win 3).blk t).view.set := by
  have hi0 : (i 0).val < 8192 := idx2_lt0 i
  have hi1 : (i 1).val < 128 := idx2_lt1 i
  have hlt : 2 * ((i 0).val / 1024) + 1 < cfg5.N := by rw [show cfg5.N = 16 from N_5]; omega
  refine ⟨⟨2 * ((i 0).val / 1024) + 1, hlt⟩, (flush5_3 _).mpr (by show (2 * ((i 0).val / 1024) + 1) % 2 = 1; omega), ?_⟩
  obtain ⟨-, -, -, -, -, -, e0, e1⟩ := idx_facts5 ⟨2 * ((i 0).val / 1024) + 1, hlt⟩
  have e0' : win5_3.index ⟨2 * ((i 0).val / 1024) + 1, hlt⟩ (0 : Fin 2) = (i 0).val / 1024 := by rw [e0]; show (2 * ((i 0).val / 1024) + 1) / 2 = _; omega
  rw [mem_blk5]
  intro a
  match a with
  | ⟨0, _⟩ => show win5_3.index _ (0 : Fin 2) * 1024 ≤ (i 0).val ∧ (i 0).val < win5_3.index _ (0 : Fin 2) * 1024 + 1024; rw [e0']; omega
  | ⟨1, _⟩ => show win5_3.index _ (1 : Fin 2) * 128 ≤ (i 1).val ∧ (i 1).val < win5_3.index _ (1 : Fin 2) * 128 + 128; rw [e1]; omega

/-- THE OUTPUT ARRAY after the region: `G5` of the three input arrays as the region finds them. -/
theorem final3_5 (c : Dev nD) :
    (dat5 V c).arrAt 3 cfg5.N = G5 (V c (Pipeline.arrRef spec5 0)) (V c (Pipeline.arrRef spec5 1)) (V c (Pipeline.arrRef spec5 2)) :=
  (dat5 V c).arrAt_eq_of_cover 3 _ (fun t hf => flushed5_eq V c t hf) cover5

end Cert.KernelIdeal.Hand

end
-- ==== Proof.KI.R6Val.lean ====
import proofs.«120270_j2259152797813_2_alg».proof.Proof.KI.R6
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: what its two cases leave, through the kernel's named payloads -/

theorem hz6 : (![0, 0] : Fin 2 → Nat) = fun _ => 0 := funext fun a => by fin_cases a <;> rfl

set_option maxHeartbeats 400000 in
/-- Case A leaves in the accumulator the zero block plus the product of the two input blocks: the second of its
    two whole-block stores, whose payload reads the first one back. -/
theorem sout6_A_0_eq (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S1024x4096 .bf16) (x1 : Vec F S4096x128 .bf16) (x2 : Vec F S1024x128 .f32) :
    sout6_A_0 c i arg2 harg2 arg3 harg3 arg4 harg4 arg5 harg5 arg6 harg6 hc0 hc1 x0 x1 x2 = k6_pay2 (k6_pay1 (F := F)) x0 x1 := by
  unfold sout6_A_0
  rw [View.read_writes_eq_canon _ _ _ (scover6_A_0 c i arg2 harg2 arg3 harg3 arg4 harg4 arg5 harg5 arg6 harg6 hc0 hc1 x0 x1 x2)]
  unfold kernelRun6_A
  dsimp only
  sl_unfold_words
  rw [View.canon_cons_unit_zero (S := S1024x128) hz6, View.readCov_unit_zero (S := S1024x128) _ hz6]
  simp only [View.readAt_eq_ld, harg2.read_unread, harg3.read_unread, View.ld_unit_zero (S := S1024x4096) hz6, View.ld_unit_zero (S := S4096x128) hz6]

set_option maxHeartbeats 400000 in
/-- Case B leaves in the accumulator what it held plus the product of the two input blocks. -/
theorem sout6_B_0_eq (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S1024x4096 .bf16) (x1 : Vec F S4096x128 .bf16) (x2 : Vec F S1024x128 .f32) (xs0 : Vec F S1024x128 .f32) :
    sout6_B_0 c i arg2 harg2 arg3 harg3 arg4 harg4 arg5 harg5 arg6 harg6 hc0 hc1 x0 x1 x2 xs0 = k6_pay2 xs0 x0 x1 := by
  unfold sout6_B_0
  rw [View.read_writes_eq_canon _ _ _ (scover6_B_0 c i arg2 harg2 arg3 harg3 arg4 harg4 arg5 harg5 arg6 harg6 hc0 hc1 x0 x1 x2 xs0)]
  unfold kernelRun6_B
  dsimp only
  sl_unfold_words
  rw [View.canon_unit_zero (S := S1024x128) hz6]
  simp only [View.readAt_eq_ld, harg2.read_unread, harg3.read_unread, harg6.read_unread, View.ld_unit_zero (S := S1024x4096) hz6, View.ld_unit_zero (S := S4096x128) hz6, View.ld_unit_zero (S := S1024x128) hz6]

set_option maxHeartbeats 400000 in
/-- Case B leaves in the output's buffer the rectified sum of the new accumulator and the third input block. -/
theorem out6_B_3_eq (c : Dev nD) (i : grid6.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S1024x4096 .bf16) (x1 : Vec F S4096x128 .bf16) (x2 : Vec F S1024x128 .f32) (xs0 : Vec F S1024x128 .f32) :
    out6_B_3 c i arg2 harg2 arg3 harg3 arg4 harg4 arg5 harg5 arg6 harg6 hc0 hc1 x0 x1 x2 xs0 = k6_pay3 (k6_pay2 xs0 x0 x1) x2 := by
  unfold out6_B_3
  rw [View.read_writes_eq_canon _ _ _ (cover6_B_3 c i arg2 harg2 arg3 harg3 arg4 harg4 arg5 harg5 arg6 harg6 hc0 hc1 x0 x1 x2 xs0)]
  unfold kernelRun6_B
  dsimp only
  sl_unfold_words
  rw [View.canon_unit_zero (S := S1024x128) hz6, View.readCov_unit_zero (S := S1024x128) _ hz6]
  simp only [View.readAt_eq_ld, harg2.read_unread, harg3.read_unread, harg4.read_unread, harg6.read_unread, View.ld_unit_zero (S := S1024x4096) hz6, View.ld_unit_zero (S := S4096x128) hz6, View.ld_unit_zero (S := S1024x128) hz6]

section R6
variable (V : (c : Dev nD) → (b : Ref sig .tc) → Buf (Elt F) ((c : Thread nD τ).loc b))

/-- The point before `t` (the point itself at 0, where nothing reads it). -/
def prev6 (t : Fin cfg6.N) : Fin cfg6.N := ⟨t.val - 1, Nat.lt_of_le_of_lt (Nat.sub_le _ _) t.isLt⟩

theorem prev6_even (t : Fin cfg6.N) (h0 : ¬t.val % 2 = 0) : (prev6 t).val % 2 = 0 := by
  show (t.val - 1) % 2 = 0; omega

/-- After an even point the accumulator holds zero plus the product of the point's two blocks. -/
theorem sAt6_even (c : Dev nD) (t : Fin cfg6.N) (h0 : t.val % 2 = 0) :
    sAt6 V c t = k6_pay2 (k6_pay1 (F := F)) (iblk6 V c 0 t) (iblk6 V c 1 t) := by
  unfold sAt6; rw [accAt6_A V c t h0]; dsimp only; unfold sA6
  exact sout6_A_0_eq c (grid6.coords t) (ms6_0 t) (hs6_0 t) (ms6_1 t) (hs6_1 t) (ms6_2 t) (hs6_2 t) (ms6_3 t) (hs6_3 t) scM6_0 (Memref.isWhole_whole _) (hc6A0 t h0) (hc6A1 t h0) (iblk6 V c 0 t) (iblk6 V c 1 t) (iblk6 V c 2 t)

/-- After an odd point it holds what the point before left plus the product of the point's two blocks. -/
theorem sAt6_odd (c : Dev nD) (t : Fin cfg6.N) (h0 : ¬t.val % 2 = 0) :
    sAt6 V c t = k6_pay2 (sAt6 V c (prev6 t)) (iblk6 V c 0 t) (iblk6 V c 1 t) := by
  unfold sAt6; rw [accAt6_B V c t h0]; dsimp only; unfold sB6
  exact sout6_B_0_eq c (grid6.coords t) (ms6_0 t) (hs6_0 t) (ms6_1 t) (hs6_1 t) (ms6_2 t) (hs6_2 t) (ms6_3 t) (hs6_3 t) scM6_0 (Memref.isWhole_whole _) (hc6B0 t h0) (hc6B1 t h0) (iblk6 V c 0 t) (iblk6 V c 1 t) (iblk6 V c 2 t) (accAt6 V c (t.val - 1) (Nat.lt_of_le_of_lt (Nat.sub_le _ _) t.isLt)).2

/-- After an odd point the output's buffer holds the rectified sum of the new accumulator and the third block. -/
theorem outsAt6_odd (c : Dev nD) (t : Fin cfg6.N) (h0 : ¬t.val % 2 = 0) :
    outsAt6 V c t = k6_pay3 (k6_pay2 (sAt6 V c (prev6 t)) (iblk6 V c 0 t) (iblk6 V c 1 t)) (iblk6 V c 2 t) := by
  unfold outsAt6 sAt6; rw [accAt6_B V c t h0]; dsimp only; unfold oB6
  exact out6_B_3_eq c (grid6.coords t) (ms6_0 t) (hs6_0 t) (ms6_1 t) (hs6_1 t) (ms6_2 t) (hs6_2 t) (ms6_3 t) (hs6_3 t) scM6_0 (Memref.isWhole_whole _) (hc6B0 t h0) (hc6B1 t h0) (iblk6 V c 0 t) (iblk6 V c 1 t) (iblk6 V c 2 t) (accAt6 V c (t.val - 1) (Nat.lt_of_le_of_lt (Nat.sub_le _ _) t.isLt)).2

/-- The same in closed form: the two reduction steps of the row block, from zero, then the third block added and
    the sum rectified. -/
theorem outsAt6_odd_closed (c : Dev nD) (t : Fin cfg6.N) (h0 : ¬t.val % 2 = 0) :
    outsAt6 V c t
      = k6_pay3 (k6_pay2 (k6_pay2 (k6_pay1 (F := F)) (iblk6 V c 0 (prev6 t)) (iblk6 V c 1 (prev6 t))) (iblk6 V c 0 t) (iblk6 V c 1 t)) (iblk6 V c 2 t) :=
  (outsAt6_odd V c t h0).trans
    (congrArg (fun s => k6_pay3 (k6_pay2 s (iblk6 V c 0 t) (iblk6 V c 1 t)) (iblk6 V c 2 t)) (sAt6_even V c (prev6 t) (prev6_even t h0)))

end R6

end Cert.KernelIdeal.Hand

end
-- ==== Proof.KI.R6Pay.lean ====
import proofs.«120270_j2259152797813_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! # Region 6: its three payloads read at an index, over the extended reals -/

/-- The block product at an entry: the sum over the 4096 contracted positions of the entries' products. -/
theorem mm6_apply (A : FVec Ideal S1024x4096 .bf16) (B : FVec Ideal S4096x128 .bf16) (a : Fin 1024) (b : Fin 128) :
    FloatOps.matmul dot_S1024x4096_S4096x128_S1024x128_1_0_0_1_n_n none A B (constant (F := Ideal) S1024x128 .f32 0x00000000#32) (ix2 a b)
      = ∑ k : Fin 4096, A (ix2 a k) * B (ix2 k b) := by
  rw [Ideal.matmul_constant_zero_apply, ← Equiv.sum_comp (contrEquiv1 dot_S1024x4096_S4096x128_S1024x128_1_0_0_1_n_n 4096 rfl rfl).symm]
  refine Finset.sum_congr rfl fun k _ => ?_
  have c2 := contrEquiv1_symm_val dot_S1024x4096_S4096x128_S1024x128_1_0_0_1_n_n 4096 rfl rfl k
  have l2 : dot_S1024x4096_S4096x128_S1024x128_1_0_0_1_n_n.lhsIdx (ix2 a b) ((contrEquiv1 _ 4096 rfl rfl).symm k) = ix2 a k := by
    funext ax; apply Fin.ext
    match ax with
    | ⟨0, _⟩ => simp [DotDims.lhsIdx, dot_S1024x4096_S4096x128_S1024x128_1_0_0_1_n_n]; rfl
    | ⟨1, _⟩ => simp [DotDims.lhsIdx, dot_S1024x4096_S4096x128_S1024x128_1_0_0_1_n_n]; exact c2
  have r2 : dot_S1024x4096_S4096x128_S1024x128_1_0_0_1_n_n.rhsIdx (ix2 a b) ((contrEquiv1 _ 4096 rfl rfl).symm k) = ix2 k b := by
    funext ax; apply Fin.ext
    match ax with
    | ⟨0, _⟩ => simp [DotDims.rhsIdx, dot_S1024x4096_S4096x128_S1024x128_1_0_0_1_n_n]; exact c2
    | ⟨1, _⟩ => simp [DotDims.rhsIdx, dot_S1024x4096_S4096x128_S1024x128_1_0_0_1_n_n]; rfl
  rw [l2, r2]

/-- The zero block. -/
theorem pay1_6_apply (i : S1024x128.Idx) : k6_pay1 (F := Ideal) i = 0 := by
  unfold k6_pay1
  simp only [shapeCast_self]
  show Ideal.ofBits .f32 0x00000000#32 = 0
  exact Ideal.ofBits_zero_f32

/-- The accumulation step at an entry: what the accumulator held plus the row-by-column sum of the two blocks. -/
theorem pay2_6_apply (v3 : Vec Ideal S1024x128 .f32) (v4 : Vec Ideal S1024x4096 .bf16) (v6 : Vec Ideal S4096x128 .bf16)
    (a : Fin 1024) (b : Fin 128) :
    k6_pay2 (F := Ideal) v3 v4 v6 (ix2 a b) = v3 (ix2 a b) + ∑ k : Fin 4096, v4 (ix2 a k) * v6 (ix2 k b) := by
  unfold k6_pay2
  simp only [shapeCast_self]
  show v3 (ix2 a b) + _ = _
  exact congrArg (v3 (ix2 a b) + ·) (mm6_apply v4 v6 a b)

/-- The epilogue at an entry: the accumulator plus the third block, rectified. -/
theorem pay3_6_apply (v16 : Vec Ideal S1024x128 .f32) (v17 : Vec Ideal S1024x128 .f32) (i : S1024x128.Idx) :
    k6_pay3 (F := Ideal) v16 v17 i = max (v16 i + v17 i) 0 := by
  unfold k6_pay3
  simp only [shapeCast_self]
  show max (v16 i + v17 i) (Ideal.ofBits .f32 0x00000000#32) = _
  rw [Ideal.ofBits_zero_f32]

/-- The result, entry by entry: the rectified sum of the third array's entry and the product of row `p` of the
    first array with column `q` of the second over all 8192 contracted positions. -/
def G6 (A0 : S8192x8192.Idx → EReal) (A1 : S8192x128.Idx → EReal) (A2 : S8192x128.Idx → EReal) : S8192x128.Idx → EReal :=
  fun i => max (A2 i + ∑ k : Fin 8192, A0 (ix2 (i 0) k) * A1 (ix2 k (i 1))) 0

/-- A sum over the 8192 contracted positions is the sum over its two halves. -/
theorem sum_halves6 (f : Fin 8192 → EReal) :
    ∑ k : Fin 8192, f k = ∑ k : Fin 4096, f (Fin.castAdd 4096 k) + ∑ k : Fin 4096, f (Fin.natAdd 4096 k) :=
  Fin.sum_univ_add (M := EReal) (a := 4096) (b := 4096) f

/-- ONE ENTRY of what an odd point writes back. The accumulator starts from zero, takes the first halves' product
    (blocks `x0'`, `x1'`) and then the second halves' (`x0`, `x1`); the third block `x2` is added and the sum
    rectified. When the five blocks are the cuts of the arrays `A0`, `A1`, `A2` at row `p` and column `b`, this is the
    entry (p, b) of `G6`: zero is neutral, the two half sums join, and the two summands commute. -/
theorem join6 (A0 : S8192x8192.Idx → EReal) (A1 : S8192x128.Idx → EReal) (A2 : S8192x128.Idx → EReal)
    (x0' x0 : Vec Ideal S1024x4096 .bf16) (x1' x1 : Vec Ideal S4096x128 .bf16) (x2 : Vec Ideal S1024x128 .f32)
    (r : Fin 1024) (b : Fin 128) (p : Fin 8192)
    (h0' : ∀ k : Fin 4096, x0' (ix2 r k) = A0 (ix2 p (Fin.castAdd 4096 k)))
    (h0 : ∀ k : Fin 4096, x0 (ix2 r k) = A0 (ix2 p (Fin.natAdd 4096 k)))
    (h1' : ∀ k : Fin 4096, x1' (ix2 k b) = A1 (ix2 (Fin.castAdd 4096 k) b))
    (h1 : ∀ k : Fin 4096, x1 (ix2 k b) = A1 (ix2 (Fin.natAdd 4096 k) b))
    (h2 : x2 (ix2 r b) = A2 (ix2 p b)) :
    k6_pay3 (F := Ideal) (k6_pay2 (k6_pay2 (k6_pay1 (F := Ideal)) x0' x1') x0 x1) x2 (ix2 r b) = G6 A0 A1 A2 (ix2 p b) := by
  rw [pay3_6_apply, pay2_6_apply, pay2_6_apply, pay1_6_apply, zero_add, h2]
  rw [Finset.sum_congr rfl (fun k _ => by rw [h0' k, h1' k] : ∀ k ∈ Finset.univ, x0' (ix2 r k) * x1' (ix2 k b) = A0 (ix2 p (Fin.castAdd 4096 k)) * A1 (ix2 (Fin.castAdd 4096 k) b))]
  rw [Finset.sum_congr rfl (fun k _ => by rw [h0 k, h1 k] : ∀ k ∈ Finset.univ, x0 (ix2 r k) * x1 (ix2 k b) = A0 (ix2 p (Fin.natAdd 4096 k)) * A1 (ix2 (Fin.natAdd 4096 k) b))]
  show _ = max (A2 (ix2 p b) + ∑ k : Fin 8192, A0 (ix2 p k) * A1 (ix2 k b)) 0
  rw [sum_halves6 (fun k => A0 (ix2 p k) * A1 (ix2 k b)), add_comm]

end Cert.KernelIdeal.Hand

end
-- ==== Proof.KI.R6Final.lean ====
import proofs.«120270_j2259152797813_2_alg».proof.Proof.KI.R6Val
import proofs.«120270_j2259152797813_2_alg».proof.Proof.KI.R6Pay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.ValueIdx
open scoped BigOperators

variable (V : (c : Dev nD) → (b : Ref sig .tc) → Buf (Elt Ideal) ((c : Thread nD τ).loc b))

/-! # Region 6: its output array after the region, as one function of the three input arrays -/

/-- The four windows' block indices at point `t = 2·i + k` of the (8, 2) grid: the row block `i` and the half `k` of
    the contracted axis. Decided over the grid. -/
theorem idx_facts6 : ∀ t : Fin cfg6.N,
    win6_0.index t (0 : Fin 2) = t.val / 2 ∧ win6_0.index t (1 : Fin 2) = t.val % 2
    ∧ win6_1.index t (0 : Fin 2) = t.val % 2 ∧ win6_1.index t (1 : Fin 2) = 0
    ∧ win6_2.index t (0 : Fin 2) = t.val / 2 ∧ win6_2.index t (1 : Fin 2) = 0
    ∧ win6_3.index t (0 : Fin 2) = t.val / 2 ∧ win6_3.index t (1 : Fin 2) = 0 :=
  (by decide +kernel : ∀ t : Fin grid6.N, _)

/-- An entry of the first window's block is the entry of its array at row `1024·(t/2) + r`, column `4096·(t%2) + k`. -/
theorem iblk6_0_apply (c : Dev nD) (t : Fin cfg6.N) (r : Fin 1024) (k : Fin 4096) (p q : Fin 8192)
    (hp : p.val = 1024 * (t.val / 2) + r.val) (hq : q.val = 4096 * (t.val % 2) + k.val) :
    (iblk6 V c 0 t : Vec Ideal S1024x4096 .bf16) (ix2 r k) = (V c (Pipeline.arrRef spec6 0) : S8192x8192.Idx → EReal) (ix2 p q) := by
  obtain ⟨e0, e1, -⟩ := idx_facts6 t
  show V c (Pipeline.arrRef spec6 0) (((cfg6.win 0).blk t).view.emb (ix2 r k)) = _
  congr 1
  funext a; apply Fin.ext
  match a with
  | ⟨0, _⟩ => show win6_0.index t (0 : Fin 2) * 1024 + 1 * r.val = p.val; rw [e0, hp]; omega
  | ⟨1, _⟩ => show win6_0.index t (1 : Fin 2) * 4096 + 1 * k.val = q.val; rw [e1, hq]; omega

/-- An entry of the second window's block: row `4096·(t%2) + k` of its array, the same column. -/
theorem iblk6_1_apply (c : Dev nD) (t : Fin cfg6.N) (k : Fin 4096) (b : Fin 128) (q : Fin 8192)
    (hq : q.val = 4096 * (t.val % 2) + k.val) :
    (iblk6 V c 1 t : Vec Ideal S4096x128 .bf16) (ix2 k b) = (V c (Pipeline.arrRef spec6 1) : S8192x128.Idx → EReal) (ix2 q b) := by
  obtain ⟨-, -, e0, e1, -⟩ := idx_facts6 t
  show V c (Pipeline.arrRef spec6 1) (((cfg6.win 1).blk t).view.emb (ix2 k b)) = _
  congr 1
  funext a; apply Fin.ext
  match a with
  | ⟨0, _⟩ => show win6_1.index t (0 : Fin 2) * 4096 + 1 * k.val = q.val; rw [e0, hq]; omega
  | ⟨1, _⟩ => show win6_1.index t (1 : Fin 2) * 128 + 1 * b.val = b.val; rw [e1]; omega

/-- An entry of the third window's block: row `1024·(t/2) + r` of its array, the same column. -/
theorem iblk6_2_apply (c : Dev nD) (t : Fin cfg6.N) (r : Fin 1024) (b : Fin 128) (p : Fin 8192)
    (hp : p.val = 1024 * (t.val / 2) + r.val) :
    (iblk6 V c 2 t : Vec Ideal S1024x128 .f32) (ix2 r b) = (V c (Pipeline.arrRef spec6 2) : S8192x128.Idx → EReal) (ix2 p b) := by
  obtain ⟨-, -, -, -, e0, e1, -⟩ := idx_facts6 t
  show V c (Pipeline.arrRef spec6 2) (((cfg6.win 2).blk t).view.emb (ix2 r b)) = _
  congr 1
  funext a; apply Fin.ext
  match a with
  | ⟨0, _⟩ => show win6_2.index t (0 : Fin 2) * 1024 + 1 * r.val = p.val; rw [e0, hp]; omega
  | ⟨1, _⟩ => show win6_2.index t (1 : Fin 2) * 128 + 1 * b.val = b.val; rw [e1]; omega

/-- The row of the array that row `r` of point `t`'s block is. -/
theorem row_lt6 (t : Fin cfg6.N) (r : Fin 1024) : 1024 * (t.val / 2) + r.val < 8192 := by
  have hN : t.val < 16 := lt_of_lt_of_eq t.isLt (show cfg6.N = 16 from N_6)
  have hr := r.isLt; omega

set_option maxHeartbeats 1000000 in
/-- WHAT AN ODD POINT WRITES BACK is its block of `G6` of the three arrays as the region finds them. -/
theorem flushed6_eq (c : Dev nD) (t : Fin cfg6.N) (hf : (cfg6.win 3).flush t = true) :
    (dat6 V c).flushed 3 t
      = ((cfg6.win 3).blk t).view.read (Elt Ideal)
          (G6 (V c (Pipeline.arrRef spec6 0)) (V c (Pipeline.arrRef spec6 1)) (V c (Pipeline.arrRef spec6 2))) := by
  have h1 : t.val % 2 = 1 := (flush6_3 t).mp hf
  have h0 : ¬t.val % 2 = 0 := by omega
  have hN : t.val < 16 := lt_of_lt_of_eq t.isLt (show cfg6.N = 16 from N_6)
  obtain ⟨-, -, -, -, -, -, e0, e1⟩ := idx_facts6 t
  show (cfg6.win 3).cut (grid6.coords t) ((dat6 V c).after 3 t) = _
  rw [show (dat6 V c).after 3 t = outsAt6 V c t from by dsimp only [dat6]]
  rw [outsAt6_odd_closed V c t h0]
  funext j
  obtain ⟨r, b, rfl⟩ : ∃ (r : Fin 1024) (b : Fin 128), j = ix2 r b := ⟨j 0, j 1, eq_ix2 j⟩
  have hemb : ((cfg6.win 3).blk t).view.emb (ix2 r b) = ix2 (⟨1024 * (t.val / 2) + r.val, row_lt6 t r⟩ : Fin 8192) b := by
    funext a; apply Fin.ext
    match a with
    | ⟨0, _⟩ => show win6_3.index t (0 : Fin 2) * 1024 + 1 * r.val = 1024 * (t.val / 2) + r.val; rw [e0]; omega
    | ⟨1, _⟩ => show win6_3.index t (1 : Fin 2) * 128 + 1 * b.val = b.val; rw [e1]; omega
  show k6_pay3 (F := Ideal) (k6_pay2 (k6_pay2 (k6_pay1 (F := Ideal)) (iblk6 V c 0 (prev6 t)) (iblk6 V c 1 (prev6 t))) (iblk6 V c 0 t) (iblk6 V c 1 t)) (iblk6 V c 2 t) (ix2 r b)
    = G6 (V c (Pipeline.arrRef spec6 0)) (V c (Pipeline.arrRef spec6 1)) (V c (Pipeline.arrRef spec6 2)) (((cfg6.win 3).blk t).view.emb (ix2 r b))
  rw [hemb]
  have hpv : (prev6 t).val = t.val - 1 := rfl
  exact join6 (V c (Pipeline.arrRef spec6 0)) (V c (Pipeline.arrRef spec6 1)) (V c (Pipeline.arrRef spec6 2))
    (iblk6 V c 0 (prev6 t)) (iblk6 V c 0 t) (iblk6 V c 1 (prev6 t)) (iblk6 V c 1 t) (iblk6 V c 2 t) r b
    ⟨1024 * (t.val / 2) + r.val, row_lt6 t r⟩
    (fun k => iblk6_0_apply V c (prev6 t) r k _ (Fin.castAdd 4096 k)
      (by show 1024 * (t.val / 2) + r.val = 1024 * ((prev6 t).val / 2) + r.val; rw [hpv]; omega)
      (by show k.val = 4096 * ((prev6 t).val % 2) + k.val; rw [hpv]; omega))
    (fun k => iblk6_0_apply V c t r k _ (Fin.natAdd 4096 k) rfl
      (by show 4096 + k.val = 4096 * (t.val % 2) + k.val; omega))
    (fun k => iblk6_1_apply V c (prev6 t) k b (Fin.castAdd 4096 k)
      (by show k.val = 4096 * ((prev6 t).val % 2) + k.val; rw [hpv]; omega))
    (fun k => iblk6_1_apply V c t k b (Fin.natAdd 4096 k)
      (by show 4096 + k.val = 4096 * (t.val % 2) + k.val; omega))
    (iblk6_2_apply V c t r b _ rfl)

/-- An index of the output array is in point `t`'s block iff each coordinate is in the block's range on its axis. -/
theorem mem_blk6 (t : Fin cfg6.N) (i : S8192x128.Idx) :
    i ∈ ((cfg6.win 3).blk t).view.set ↔ ∀ a : Fin 2, win6_3.index t a * S1024x128.size a ≤ (i a).val ∧ (i a).val < win6_3.index t a * S1024x128.size a + S1024x128.size a := by
  show i ∈ ((View.whole (Pipeline.arrRef spec6 3)).slice (win6_3.rect t)).set ↔ _
  rw [View.set_slice_whole, Rect.mem_set_unit]
  exact Iff.rfl

/-- Every entry of the output array is in the block some odd point writes back: row `p` at point `2·(p / 1024) + 1`. -/
theorem cover6 (i : S8192x128.Idx) : ∃ t : Fin cfg6.N, (cfg6.win 3).flush t = true ∧ i ∈ ((cfg6.win 3).blk t).view.set := by
  have hi0 : (i 0).val < 8192 := idx2_lt0 i
  have hi1 : (i 1).val < 128 := idx2_lt1 i
  have hlt : 2 * ((i 0).val / 1024) + 1 < cfg6.N := by rw [show cfg6.N = 16 from N_6]; omega
  refine ⟨⟨2 * ((i 0).val / 1024) + 1, hlt⟩, (flush6_3 _).mpr (by show (2 * ((i 0).val / 1024) + 1) % 2 = 1; omega), ?_⟩
  obtain ⟨-, -, -, -, -, -, e0, e1⟩ := idx_facts6 ⟨2 * ((i 0).val / 1024) + 1, hlt⟩
  have e0' : win6_3.index ⟨2 * ((i 0).val / 1024) + 1, hlt⟩ (0 : Fin 2) = (i 0).val / 1024 := by rw [e0]; show (2 * ((i 0).val / 1024) + 1) / 2 = _; omega
  rw [mem_blk6]
  intro a
  match a with
  | ⟨0, _⟩ => show win6_3.index _ (0 : Fin 2) * 1024 ≤ (i 0).val ∧ (i 0).val < win6_3.index _ (0 : Fin 2) * 1024 + 1024; rw [e0']; omega
  | ⟨1, _⟩ => show win6_3.index _ (1 : Fin 2) * 128 ≤ (i 1).val ∧ (i 1).val < win6_3.index _ (1 : Fin 2) * 128 + 128; rw [e1]; omega

/-- THE OUTPUT ARRAY after the region: `G6` of the three input arrays as the region finds them. -/
theorem final3_6 (c : Dev nD) :
    (dat6 V c).arrAt 3 cfg6.N = G6 (V c (Pipeline.arrRef spec6 0)) (V c (Pipeline.arrRef spec6 1)) (V c (Pipeline.arrRef spec6 2)) :=
  (dat6 V c).arrAt_eq_of_cover 3 _ (fun t hf => flushed6_eq V c t hf) cover6

end Cert.KernelIdeal.Hand

end
-- ==== Proof.KI.R7Val.lean ====
import proofs.«120270_j2259152797813_2_alg».proof.Proof.KI.R7
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: what its two cases leave, through the kernel's named payloads -/

theorem hz7 : (![0, 0] : Fin 2 → Nat) = fun _ => 0 := funext fun a => by fin_cases a <;> rfl

set_option maxHeartbeats 400000 in
/-- Case A leaves in the accumulator the zero block plus the product of the two input blocks: the second of its
    two whole-block stores, whose payload reads the first one back. -/
theorem sout7_A_0_eq (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond7_0 i) (hc1 : ¬cond7_1 i)
    (x0 : Vec F S1024x4096 .bf16) (x1 : Vec F S4096x128 .bf16) (x2 : Vec F S1024x128 .f32) :
    sout7_A_0 c i arg2 harg2 arg3 harg3 arg4 harg4 arg5 harg5 arg6 harg6 hc0 hc1 x0 x1 x2 = k7_pay2 (k7_pay1 (F := F)) x0 x1 := by
  unfold sout7_A_0
  rw [View.read_writes_eq_canon _ _ _ (scover7_A_0 c i arg2 harg2 arg3 harg3 arg4 harg4 arg5 harg5 arg6 harg6 hc0 hc1 x0 x1 x2)]
  unfold kernelRun7_A
  dsimp only
  sl_unfold_words
  rw [View.canon_cons_unit_zero (S := S1024x128) hz7, View.readCov_unit_zero (S := S1024x128) _ hz7]
  simp only [View.readAt_eq_ld, harg2.read_unread, harg3.read_unread, View.ld_unit_zero (S := S1024x4096) hz7, View.ld_unit_zero (S := S4096x128) hz7]

set_option maxHeartbeats 400000 in
/-- Case B leaves in the accumulator what it held plus the product of the two input blocks. -/
theorem sout7_B_0_eq (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond7_0 i) (hc1 : cond7_1 i)
    (x0 : Vec F S1024x4096 .bf16) (x1 : Vec F S4096x128 .bf16) (x2 : Vec F S1024x128 .f32) (xs0 : Vec F S1024x128 .f32) :
    sout7_B_0 c i arg2 harg2 arg3 harg3 arg4 harg4 arg5 harg5 arg6 harg6 hc0 hc1 x0 x1 x2 xs0 = k7_pay2 xs0 x0 x1 := by
  unfold sout7_B_0
  rw [View.read_writes_eq_canon _ _ _ (scover7_B_0 c i arg2 harg2 arg3 harg3 arg4 harg4 arg5 harg5 arg6 harg6 hc0 hc1 x0 x1 x2 xs0)]
  unfold kernelRun7_B
  dsimp only
  sl_unfold_words
  rw [View.canon_unit_zero (S := S1024x128) hz7]
  simp only [View.readAt_eq_ld, harg2.read_unread, harg3.read_unread, harg6.read_unread, View.ld_unit_zero (S := S1024x4096) hz7, View.ld_unit_zero (S := S4096x128) hz7, View.ld_unit_zero (S := S1024x128) hz7]

set_option maxHeartbeats 400000 in
/-- Case B leaves in the output's buffer the rectified sum of the new accumulator and the third input block. -/
theorem out7_B_3_eq (c : Dev nD) (i : grid7.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond7_0 i) (hc1 : cond7_1 i)
    (x0 : Vec F S1024x4096 .bf16) (x1 : Vec F S4096x128 .bf16) (x2 : Vec F S1024x128 .f32) (xs0 : Vec F S1024x128 .f32) :
    out7_B_3 c i arg2 harg2 arg3 harg3 arg4 harg4 arg5 harg5 arg6 harg6 hc0 hc1 x0 x1 x2 xs0 = k7_pay3 (k7_pay2 xs0 x0 x1) x2 := by
  unfold out7_B_3
  rw [View.read_writes_eq_canon _ _ _ (cover7_B_3 c i arg2 harg2 arg3 harg3 arg4 harg4 arg5 harg5 arg6 harg6 hc0 hc1 x0 x1 x2 xs0)]
  unfold kernelRun7_B
  dsimp only
  sl_unfold_words
  rw [View.canon_unit_zero (S := S1024x128) hz7, View.readCov_unit_zero (S := S1024x128) _ hz7]
  simp only [View.readAt_eq_ld, harg2.read_unread, harg3.read_unread, harg4.read_unread, harg6.read_unread, View.ld_unit_zero (S := S1024x4096) hz7, View.ld_unit_zero (S := S4096x128) hz7, View.ld_unit_zero (S := S1024x128) hz7]

section R7
variable (V : (c : Dev nD) → (b : Ref sig .tc) → Buf (Elt F) ((c : Thread nD τ).loc b))

/-- The point before `t` (the point itself at 0, where nothing reads it). -/
def prev7 (t : Fin cfg7.N) : Fin cfg7.N := ⟨t.val - 1, Nat.lt_of_le_of_lt (Nat.sub_le _ _) t.isLt⟩

theorem prev7_even (t : Fin cfg7.N) (h0 : ¬t.val % 2 = 0) : (prev7 t).val % 2 = 0 := by
  show (t.val - 1) % 2 = 0; omega

/-- After an even point the accumulator holds zero plus the product of the point's two blocks. -/
theorem sAt7_even (c : Dev nD) (t : Fin cfg7.N) (h0 : t.val % 2 = 0) :
    sAt7 V c t = k7_pay2 (k7_pay1 (F := F)) (iblk7 V c 0 t) (iblk7 V c 1 t) := by
  unfold sAt7; rw [accAt7_A V c t h0]; dsimp only; unfold sA7
  exact sout7_A_0_eq c (grid7.coords t) (ms7_0 t) (hs7_0 t) (ms7_1 t) (hs7_1 t) (ms7_2 t) (hs7_2 t) (ms7_3 t) (hs7_3 t) scM7_0 (Memref.isWhole_whole _) (hc7A0 t h0) (hc7A1 t h0) (iblk7 V c 0 t) (iblk7 V c 1 t) (iblk7 V c 2 t)

/-- After an odd point it holds what the point before left plus the product of the point's two blocks. -/
theorem sAt7_odd (c : Dev nD) (t : Fin cfg7.N) (h0 : ¬t.val % 2 = 0) :
    sAt7 V c t = k7_pay2 (sAt7 V c (prev7 t)) (iblk7 V c 0 t) (iblk7 V c 1 t) := by
  unfold sAt7; rw [accAt7_B V c t h0]; dsimp only; unfold sB7
  exact sout7_B_0_eq c (grid7.coords t) (ms7_0 t) (hs7_0 t) (ms7_1 t) (hs7_1 t) (ms7_2 t) (hs7_2 t) (ms7_3 t) (hs7_3 t) scM7_0 (Memref.isWhole_whole _) (hc7B0 t h0) (hc7B1 t h0) (iblk7 V c 0 t) (iblk7 V c 1 t) (iblk7 V c 2 t) (accAt7 V c (t.val - 1) (Nat.lt_of_le_of_lt (Nat.sub_le _ _) t.isLt)).2

/-- After an odd point the output's buffer holds the rectified sum of the new accumulator and the third block. -/
theorem outsAt7_odd (c : Dev nD) (t : Fin cfg7.N) (h0 : ¬t.val % 2 = 0) :
    outsAt7 V c t = k7_pay3 (k7_pay2 (sAt7 V c (prev7 t)) (iblk7 V c 0 t) (iblk7 V c 1 t)) (iblk7 V c 2 t) := by
  unfold outsAt7 sAt7; rw [accAt7_B V c t h0]; dsimp only; unfold oB7
  exact out7_B_3_eq c (grid7.coords t) (ms7_0 t) (hs7_0 t) (ms7_1 t) (hs7_1 t) (ms7_2 t) (hs7_2 t) (ms7_3 t) (hs7_3 t) scM7_0 (Memref.isWhole_whole _) (hc7B0 t h0) (hc7B1 t h0) (iblk7 V c 0 t) (iblk7 V c 1 t) (iblk7 V c 2 t) (accAt7 V c (t.val - 1) (Nat.lt_of_le_of_lt (Nat.sub_le _ _) t.isLt)).2

/-- The same in closed form: the two reduction steps of the row block, from zero, then the third block added and
    the sum rectified. -/
theorem outsAt7_odd_closed (c : Dev nD) (t : Fin cfg7.N) (h0 : ¬t.val % 2 = 0) :
    outsAt7 V c t
      = k7_pay3 (k7_pay2 (k7_pay2 (k7_pay1 (F := F)) (iblk7 V c 0 (prev7 t)) (iblk7 V c 1 (prev7 t))) (iblk7 V c 0 t) (iblk7 V c 1 t)) (iblk7 V c 2 t) :=
  (outsAt7_odd V c t h0).trans
    (congrArg (fun s => k7_pay3 (k7_pay2 s (iblk7 V c 0 t) (iblk7 V c 1 t)) (iblk7 V c 2 t)) (sAt7_even V c (prev7 t) (prev7_even t h0)))

end R7

end Cert.KernelIdeal.Hand

end
-- ==== Proof.KI.R7Pay.lean ====
import proofs.«120270_j2259152797813_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! # Region 7: its three payloads read at an index, over the extended reals -/

/-- The block product at an entry: the sum over the 4096 contracted positions of the entries' products. -/
theorem mm7_apply (A : FVec Ideal S1024x4096 .bf16) (B : FVec Ideal S4096x128 .bf16) (a : Fin 1024) (b : Fin 128) :
    FloatOps.matmul dot_S1024x4096_S4096x128_S1024x128_1_0_0_1_n_n none A B (constant (F := Ideal) S1024x128 .f32 0x00000000#32) (ix2 a b)
      = ∑ k : Fin 4096, A (ix2 a k) * B (ix2 k b) := by
  rw [Ideal.matmul_constant_zero_apply, ← Equiv.sum_comp (contrEquiv1 dot_S1024x4096_S4096x128_S1024x128_1_0_0_1_n_n 4096 rfl rfl).symm]
  refine Finset.sum_congr rfl fun k _ => ?_
  have c2 := contrEquiv1_symm_val dot_S1024x4096_S4096x128_S1024x128_1_0_0_1_n_n 4096 rfl rfl k
  have l2 : dot_S1024x4096_S4096x128_S1024x128_1_0_0_1_n_n.lhsIdx (ix2 a b) ((contrEquiv1 _ 4096 rfl rfl).symm k) = ix2 a k := by
    funext ax; apply Fin.ext
    match ax with
    | ⟨0, _⟩ => simp [DotDims.lhsIdx, dot_S1024x4096_S4096x128_S1024x128_1_0_0_1_n_n]; rfl
    | ⟨1, _⟩ => simp [DotDims.lhsIdx, dot_S1024x4096_S4096x128_S1024x128_1_0_0_1_n_n]; exact c2
  have r2 : dot_S1024x4096_S4096x128_S1024x128_1_0_0_1_n_n.rhsIdx (ix2 a b) ((contrEquiv1 _ 4096 rfl rfl).symm k) = ix2 k b := by
    funext ax; apply Fin.ext
    match ax with
    | ⟨0, _⟩ => simp [DotDims.rhsIdx, dot_S1024x4096_S4096x128_S1024x128_1_0_0_1_n_n]; exact c2
    | ⟨1, _⟩ => simp [DotDims.rhsIdx, dot_S1024x4096_S4096x128_S1024x128_1_0_0_1_n_n]; rfl
  rw [l2, r2]

/-- The zero block. -/
theorem pay1_7_apply (i : S1024x128.Idx) : k7_pay1 (F := Ideal) i = 0 := by
  unfold k7_pay1
  simp only [shapeCast_self]
  show Ideal.ofBits .f32 0x00000000#32 = 0
  exact Ideal.ofBits_zero_f32

/-- The accumulation step at an entry: what the accumulator held plus the row-by-column sum of the two blocks. -/
theorem pay2_7_apply (v3 : Vec Ideal S1024x128 .f32) (v7 : Vec Ideal S1024x4096 .bf16) (v6 : Vec Ideal S4096x128 .bf16)
    (a : Fin 1024) (b : Fin 128) :
    k7_pay2 (F := Ideal) v3 v7 v6 (ix2 a b) = v3 (ix2 a b) + ∑ k : Fin 4096, v7 (ix2 a k) * v6 (ix2 k b) := by
  unfold k7_pay2
  simp only [shapeCast_self]
  show v3 (ix2 a b) + _ = _
  exact congrArg (v3 (ix2 a b) + ·) (mm7_apply v7 v6 a b)

/-- The epilogue at an entry: the accumulator plus the third block, rectified. -/
theorem pay3_7_apply (v16 : Vec Ideal S1024x128 .f32) (v17 : Vec Ideal S1024x128 .f32) (i : S1024x128.Idx) :
    k7_pay3 (F := Ideal) v16 v17 i = max (v16 i + v17 i) 0 := by
  unfold k7_pay3
  simp only [shapeCast_self]
  show max (v16 i + v17 i) (Ideal.ofBits .f32 0x00000000#32) = _
  rw [Ideal.ofBits_zero_f32]

/-- The result, entry by entry: the rectified sum of the third array's entry and the product of row `p` of the
    first array with column `q` of the second over all 8192 contracted positions. -/
def G7 (A0 : S8192x8192.Idx → EReal) (A1 : S8192x128.Idx → EReal) (A2 : S8192x128.Idx → EReal) : S8192x128.Idx → EReal :=
  fun i => max (A2 i + ∑ k : Fin 8192, A0 (ix2 (i 0) k) * A1 (ix2 k (i 1))) 0

/-- A sum over the 8192 contracted positions is the sum over its two halves. -/
theorem sum_halves7 (f : Fin 8192 → EReal) :
    ∑ k : Fin 8192, f k = ∑ k : Fin 4096, f (Fin.castAdd 4096 k) + ∑ k : Fin 4096, f (Fin.natAdd 4096 k) :=
  Fin.sum_univ_add (M := EReal) (a := 4096) (b := 4096) f

/-- ONE ENTRY of what an odd point writes back. The accumulator starts from zero, takes the first halves' product
    (blocks `x0'`, `x1'`) and then the second halves' (`x0`, `x1`); the third block `x2` is added and the sum
    rectified. When the five blocks are the cuts of the arrays `A0`, `A1`, `A2` at row `p` and column `b`, this is the
    entry (p, b) of `G7`: zero is neutral, the two half sums join, and the two summands commute. -/
theorem join7 (A0 : S8192x8192.Idx → EReal) (A1 : S8192x128.Idx → EReal) (A2 : S8192x128.Idx → EReal)
    (x0' x0 : Vec Ideal S1024x4096 .bf16) (x1' x1 : Vec Ideal S4096x128 .bf16) (x2 : Vec Ideal S1024x128 .f32)
    (r : Fin 1024) (b : Fin 128) (p : Fin 8192)
    (h0' : ∀ k : Fin 4096, x0' (ix2 r k) = A0 (ix2 p (Fin.castAdd 4096 k)))
    (h0 : ∀ k : Fin 4096, x0 (ix2 r k) = A0 (ix2 p (Fin.natAdd 4096 k)))
    (h1' : ∀ k : Fin 4096, x1' (ix2 k b) = A1 (ix2 (Fin.castAdd 4096 k) b))
    (h1 : ∀ k : Fin 4096, x1 (ix2 k b) = A1 (ix2 (Fin.natAdd 4096 k) b))
    (h2 : x2 (ix2 r b) = A2 (ix2 p b)) :
    k7_pay3 (F := Ideal) (k7_pay2 (k7_pay2 (k7_pay1 (F := Ideal)) x0' x1') x0 x1) x2 (ix2 r b) = G7 A0 A1 A2 (ix2 p b) := by
  rw [pay3_7_apply, pay2_7_apply, pay2_7_apply, pay1_7_apply, zero_add, h2]
  rw [Finset.sum_congr rfl (fun k _ => by rw [h0' k, h1' k] : ∀ k ∈ Finset.univ, x0' (ix2 r k) * x1' (ix2 k b) = A0 (ix2 p (Fin.castAdd 4096 k)) * A1 (ix2 (Fin.castAdd 4096 k) b))]
  rw [Finset.sum_congr rfl (fun k _ => by rw [h0 k, h1 k] : ∀ k ∈ Finset.univ, x0 (ix2 r k) * x1 (ix2 k b) = A0 (ix2 p (Fin.natAdd 4096 k)) * A1 (ix2 (Fin.natAdd 4096 k) b))]
  show _ = max (A2 (ix2 p b) + ∑ k : Fin 8192, A0 (ix2 p k) * A1 (ix2 k b)) 0
  rw [sum_halves7 (fun k => A0 (ix2 p k) * A1 (ix2 k b)), add_comm]

end Cert.KernelIdeal.Hand

end
-- ==== Proof.KI.R7Final.lean ====
import proofs.«120270_j2259152797813_2_alg».proof.Proof.KI.R7Val
import proofs.«120270_j2259152797813_2_alg».proof.Proof.KI.R7Pay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.ValueIdx
open scoped BigOperators

variable (V : (c : Dev nD) → (b : Ref sig .tc) → Buf (Elt Ideal) ((c : Thread nD τ).loc b))

/-! # Region 7: its output array after the region, as one function of the three input arrays -/

/-- The four windows' block indices at point `t = 2·i + k` of the (8, 2) grid: the row block `i` and the half `k` of
    the contracted axis. Decided over the grid. -/
theorem idx_facts7 : ∀ t : Fin cfg7.N,
    win7_0.index t (0 : Fin 2) = t.val / 2 ∧ win7_0.index t (1 : Fin 2) = t.val % 2
    ∧ win7_1.index t (0 : Fin 2) = t.val % 2 ∧ win7_1.index t (1 : Fin 2) = 0
    ∧ win7_2.index t (0 : Fin 2) = t.val / 2 ∧ win7_2.index t (1 : Fin 2) = 0
    ∧ win7_3.index t (0 : Fin 2) = t.val / 2 ∧ win7_3.index t (1 : Fin 2) = 0 :=
  (by decide +kernel : ∀ t : Fin grid7.N, _)

/-- An entry of the first window's block is the entry of its array at row `1024·(t/2) + r`, column `4096·(t%2) + k`. -/
theorem iblk7_0_apply (c : Dev nD) (t : Fin cfg7.N) (r : Fin 1024) (k : Fin 4096) (p q : Fin 8192)
    (hp : p.val = 1024 * (t.val / 2) + r.val) (hq : q.val = 4096 * (t.val % 2) + k.val) :
    (iblk7 V c 0 t : Vec Ideal S1024x4096 .bf16) (ix2 r k) = (V c (Pipeline.arrRef spec7 0) : S8192x8192.Idx → EReal) (ix2 p q) := by
  obtain ⟨e0, e1, -⟩ := idx_facts7 t
  show V c (Pipeline.arrRef spec7 0) (((cfg7.win 0).blk t).view.emb (ix2 r k)) = _
  congr 1
  funext a; apply Fin.ext
  match a with
  | ⟨0, _⟩ => show win7_0.index t (0 : Fin 2) * 1024 + 1 * r.val = p.val; rw [e0, hp]; omega
  | ⟨1, _⟩ => show win7_0.index t (1 : Fin 2) * 4096 + 1 * k.val = q.val; rw [e1, hq]; omega

/-- An entry of the second window's block: row `4096·(t%2) + k` of its array, the same column. -/
theorem iblk7_1_apply (c : Dev nD) (t : Fin cfg7.N) (k : Fin 4096) (b : Fin 128) (q : Fin 8192)
    (hq : q.val = 4096 * (t.val % 2) + k.val) :
    (iblk7 V c 1 t : Vec Ideal S4096x128 .bf16) (ix2 k b) = (V c (Pipeline.arrRef spec7 1) : S8192x128.Idx → EReal) (ix2 q b) := by
  obtain ⟨-, -, e0, e1, -⟩ := idx_facts7 t
  show V c (Pipeline.arrRef spec7 1) (((cfg7.win 1).blk t).view.emb (ix2 k b)) = _
  congr 1
  funext a; apply Fin.ext
  match a with
  | ⟨0, _⟩ => show win7_1.index t (0 : Fin 2) * 4096 + 1 * k.val = q.val; rw [e0, hq]; omega
  | ⟨1, _⟩ => show win7_1.index t (1 : Fin 2) * 128 + 1 * b.val = b.val; rw [e1]; omega

/-- An entry of the third window's block: row `1024·(t/2) + r` of its array, the same column. -/
theorem iblk7_2_apply (c : Dev nD) (t : Fin cfg7.N) (r : Fin 1024) (b : Fin 128) (p : Fin 8192)
    (hp : p.val = 1024 * (t.val / 2) + r.val) :
    (iblk7 V c 2 t : Vec Ideal S1024x128 .f32) (ix2 r b) = (V c (Pipeline.arrRef spec7 2) : S8192x128.Idx → EReal) (ix2 p b) := by
  obtain ⟨-, -, -, -, e0, e1, -⟩ := idx_facts7 t
  show V c (Pipeline.arrRef spec7 2) (((cfg7.win 2).blk t).view.emb (ix2 r b)) = _
  congr 1
  funext a; apply Fin.ext
  match a with
  | ⟨0, _⟩ => show win7_2.index t (0 : Fin 2) * 1024 + 1 * r.val = p.val; rw [e0, hp]; omega
  | ⟨1, _⟩ => show win7_2.index t (1 : Fin 2) * 128 + 1 * b.val = b.val; rw [e1]; omega

/-- The row of the array that row `r` of point `t`'s block is. -/
theorem row_lt7 (t : Fin cfg7.N) (r : Fin 1024) : 1024 * (t.val / 2) + r.val < 8192 := by
  have hN : t.val < 16 := lt_of_lt_of_eq t.isLt (show cfg7.N = 16 from N_7)
  have hr := r.isLt; omega

set_option maxHeartbeats 1000000 in
/-- WHAT AN ODD POINT WRITES BACK is its block of `G7` of the three arrays as the region finds them. -/
theorem flushed7_eq (c : Dev nD) (t : Fin cfg7.N) (hf : (cfg7.win 3).flush t = true) :
    (dat7 V c).flushed 3 t
      = ((cfg7.win 3).blk t).view.read (Elt Ideal)
          (G7 (V c (Pipeline.arrRef spec7 0)) (V c (Pipeline.arrRef spec7 1)) (V c (Pipeline.arrRef spec7 2))) := by
  have h1 : t.val % 2 = 1 := (flush7_3 t).mp hf
  have h0 : ¬t.val % 2 = 0 := by omega
  have hN : t.val < 16 := lt_of_lt_of_eq t.isLt (show cfg7.N = 16 from N_7)
  obtain ⟨-, -, -, -, -, -, e0, e1⟩ := idx_facts7 t
  show (cfg7.win 3).cut (grid7.coords t) ((dat7 V c).after 3 t) = _
  rw [show (dat7 V c).after 3 t = outsAt7 V c t from by dsimp only [dat7]]
  rw [outsAt7_odd_closed V c t h0]
  funext j
  obtain ⟨r, b, rfl⟩ : ∃ (r : Fin 1024) (b : Fin 128), j = ix2 r b := ⟨j 0, j 1, eq_ix2 j⟩
  have hemb : ((cfg7.win 3).blk t).view.emb (ix2 r b) = ix2 (⟨1024 * (t.val / 2) + r.val, row_lt7 t r⟩ : Fin 8192) b := by
    funext a; apply Fin.ext
    match a with
    | ⟨0, _⟩ => show win7_3.index t (0 : Fin 2) * 1024 + 1 * r.val = 1024 * (t.val / 2) + r.val; rw [e0]; omega
    | ⟨1, _⟩ => show win7_3.index t (1 : Fin 2) * 128 + 1 * b.val = b.val; rw [e1]; omega
  show k7_pay3 (F := Ideal) (k7_pay2 (k7_pay2 (k7_pay1 (F := Ideal)) (iblk7 V c 0 (prev7 t)) (iblk7 V c 1 (prev7 t))) (iblk7 V c 0 t) (iblk7 V c 1 t)) (iblk7 V c 2 t) (ix2 r b)
    = G7 (V c (Pipeline.arrRef spec7 0)) (V c (Pipeline.arrRef spec7 1)) (V c (Pipeline.arrRef spec7 2)) (((cfg7.win 3).blk t).view.emb (ix2 r b))
  rw [hemb]
  have hpv : (prev7 t).val = t.val - 1 := rfl
  exact join7 (V c (Pipeline.arrRef spec7 0)) (V c (Pipeline.arrRef spec7 1)) (V c (Pipeline.arrRef spec7 2))
    (iblk7 V c 0 (prev7 t)) (iblk7 V c 0 t) (iblk7 V c 1 (prev7 t)) (iblk7 V c 1 t) (iblk7 V c 2 t) r b
    ⟨1024 * (t.val / 2) + r.val, row_lt7 t r⟩
    (fun k => iblk7_0_apply V c (prev7 t) r k _ (Fin.castAdd 4096 k)
      (by show 1024 * (t.val / 2) + r.val = 1024 * ((prev7 t).val / 2) + r.val; rw [hpv]; omega)
      (by show k.val = 4096 * ((prev7 t).val % 2) + k.val; rw [hpv]; omega))
    (fun k => iblk7_0_apply V c t r k _ (Fin.natAdd 4096 k) rfl
      (by show 4096 + k.val = 4096 * (t.val % 2) + k.val; omega))
    (fun k => iblk7_1_apply V c (prev7 t) k b (Fin.castAdd 4096 k)
      (by show k.val = 4096 * ((prev7 t).val % 2) + k.val; rw [hpv]; omega))
    (fun k => iblk7_1_apply V c t k b (Fin.natAdd 4096 k)
      (by show 4096 + k.val = 4096 * (t.val % 2) + k.val; omega))
    (iblk7_2_apply V c t r b _ rfl)

/-- An index of the output array is in point `t`'s block iff each coordinate is in the block's range on its axis. -/
theorem mem_blk7 (t : Fin cfg7.N) (i : S8192x128.Idx) :
    i ∈ ((cfg7.win 3).blk t).view.set ↔ ∀ a : Fin 2, win7_3.index t a * S1024x128.size a ≤ (i a).val ∧ (i a).val < win7_3.index t a * S1024x128.size a + S1024x128.size a := by
  show i ∈ ((View.whole (Pipeline.arrRef spec7 3)).slice (win7_3.rect t)).set ↔ _
  rw [View.set_slice_whole, Rect.mem_set_unit]
  exact Iff.rfl

/-- Every entry of the output array is in the block some odd point writes back: row `p` at point `2·(p / 1024) + 1`. -/
theorem cover7 (i : S8192x128.Idx) : ∃ t : Fin cfg7.N, (cfg7.win 3).flush t = true ∧ i ∈ ((cfg7.win 3).blk t).view.set := by
  have hi0 : (i 0).val < 8192 := idx2_lt0 i
  have hi1 : (i 1).val < 128 := idx2_lt1 i
  have hlt : 2 * ((i 0).val / 1024) + 1 < cfg7.N := by rw [show cfg7.N = 16 from N_7]; omega
  refine ⟨⟨2 * ((i 0).val / 1024) + 1, hlt⟩, (flush7_3 _).mpr (by show (2 * ((i 0).val / 1024) + 1) % 2 = 1; omega), ?_⟩
  obtain ⟨-, -, -, -, -, -, e0, e1⟩ := idx_facts7 ⟨2 * ((i 0).val / 1024) + 1, hlt⟩
  have e0' : win7_3.index ⟨2 * ((i 0).val / 1024) + 1, hlt⟩ (0 : Fin 2) = (i 0).val / 1024 := by rw [e0]; show (2 * ((i 0).val / 1024) + 1) / 2 = _; omega
  rw [mem_blk7]
  intro a
  match a with
  | ⟨0, _⟩ => show win7_3.index _ (0 : Fin 2) * 1024 ≤ (i 0).val ∧ (i 0).val < win7_3.index _ (0 : Fin 2) * 1024 + 1024; rw [e0']; omega
  | ⟨1, _⟩ => show win7_3.index _ (1 : Fin 2) * 128 ≤ (i 1).val ∧ (i 1).val < win7_3.index _ (1 : Fin 2) * 128 + 128; rw [e1]; omega

/-- THE OUTPUT ARRAY after the region: `G7` of the three input arrays as the region finds them. -/
theorem final3_7 (c : Dev nD) :
    (dat7 V c).arrAt 3 cfg7.N = G7 (V c (Pipeline.arrRef spec7 0)) (V c (Pipeline.arrRef spec7 1)) (V c (Pipeline.arrRef spec7 2)) :=
  (dat7 V c).arrAt_eq_of_cover 3 _ (fun t hf => flushed7_eq V c t hf) cover7

end Cert.KernelIdeal.Hand

end
-- ==== Proof.KI.R8Val.lean ====
import proofs.«120270_j2259152797813_2_alg».proof.Proof.KI.R8
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: what its two cases leave, through the kernel's named payloads -/

theorem hz8 : (![0, 0] : Fin 2 → Nat) = fun _ => 0 := funext fun a => by fin_cases a <;> rfl

set_option maxHeartbeats 400000 in
/-- Case A leaves in the accumulator the zero block plus the product of the two input blocks: the second of its
    two whole-block stores, whose payload reads the first one back. -/
theorem sout8_A_0_eq (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond8_0 i) (hc1 : ¬cond8_1 i)
    (x0 : Vec F S1024x4096 .bf16) (x1 : Vec F S4096x128 .bf16) (x2 : Vec F S1024x128 .f32) :
    sout8_A_0 c i arg2 harg2 arg3 harg3 arg4 harg4 arg5 harg5 arg6 harg6 hc0 hc1 x0 x1 x2 = k8_pay2 (k8_pay1 (F := F)) x0 x1 := by
  unfold sout8_A_0
  rw [View.read_writes_eq_canon _ _ _ (scover8_A_0 c i arg2 harg2 arg3 harg3 arg4 harg4 arg5 harg5 arg6 harg6 hc0 hc1 x0 x1 x2)]
  unfold kernelRun8_A
  dsimp only
  sl_unfold_words
  rw [View.canon_cons_unit_zero (S := S1024x128) hz8, View.readCov_unit_zero (S := S1024x128) _ hz8]
  simp only [View.readAt_eq_ld, harg2.read_unread, harg3.read_unread, View.ld_unit_zero (S := S1024x4096) hz8, View.ld_unit_zero (S := S4096x128) hz8]

set_option maxHeartbeats 400000 in
/-- Case B leaves in the accumulator what it held plus the product of the two input blocks. -/
theorem sout8_B_0_eq (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond8_0 i) (hc1 : cond8_1 i)
    (x0 : Vec F S1024x4096 .bf16) (x1 : Vec F S4096x128 .bf16) (x2 : Vec F S1024x128 .f32) (xs0 : Vec F S1024x128 .f32) :
    sout8_B_0 c i arg2 harg2 arg3 harg3 arg4 harg4 arg5 harg5 arg6 harg6 hc0 hc1 x0 x1 x2 xs0 = k8_pay2 xs0 x0 x1 := by
  unfold sout8_B_0
  rw [View.read_writes_eq_canon _ _ _ (scover8_B_0 c i arg2 harg2 arg3 harg3 arg4 harg4 arg5 harg5 arg6 harg6 hc0 hc1 x0 x1 x2 xs0)]
  unfold kernelRun8_B
  dsimp only
  sl_unfold_words
  rw [View.canon_unit_zero (S := S1024x128) hz8]
  simp only [View.readAt_eq_ld, harg2.read_unread, harg3.read_unread, harg6.read_unread, View.ld_unit_zero (S := S1024x4096) hz8, View.ld_unit_zero (S := S4096x128) hz8, View.ld_unit_zero (S := S1024x128) hz8]

set_option maxHeartbeats 400000 in
/-- Case B leaves in the output's buffer the rectified sum of the new accumulator and the third input block. -/
theorem out8_B_3_eq (c : Dev nD) (i : grid8.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond8_0 i) (hc1 : cond8_1 i)
    (x0 : Vec F S1024x4096 .bf16) (x1 : Vec F S4096x128 .bf16) (x2 : Vec F S1024x128 .f32) (xs0 : Vec F S1024x128 .f32) :
    out8_B_3 c i arg2 harg2 arg3 harg3 arg4 harg4 arg5 harg5 arg6 harg6 hc0 hc1 x0 x1 x2 xs0 = k8_pay3 (k8_pay2 xs0 x0 x1) x2 := by
  unfold out8_B_3
  rw [View.read_writes_eq_canon _ _ _ (cover8_B_3 c i arg2 harg2 arg3 harg3 arg4 harg4 arg5 harg5 arg6 harg6 hc0 hc1 x0 x1 x2 xs0)]
  unfold kernelRun8_B
  dsimp only
  sl_unfold_words
  rw [View.canon_unit_zero (S := S1024x128) hz8, View.readCov_unit_zero (S := S1024x128) _ hz8]
  simp only [View.readAt_eq_ld, harg2.read_unread, harg3.read_unread, harg4.read_unread, harg6.read_unread, View.ld_unit_zero (S := S1024x4096) hz8, View.ld_unit_zero (S := S4096x128) hz8, View.ld_unit_zero (S := S1024x128) hz8]

section R8
variable (V : (c : Dev nD) → (b : Ref sig .tc) → Buf (Elt F) ((c : Thread nD τ).loc b))

/-- The point before `t` (the point itself at 0, where nothing reads it). -/
def prev8 (t : Fin cfg8.N) : Fin cfg8.N := ⟨t.val - 1, Nat.lt_of_le_of_lt (Nat.sub_le _ _) t.isLt⟩

theorem prev8_even (t : Fin cfg8.N) (h0 : ¬t.val % 2 = 0) : (prev8 t).val % 2 = 0 := by
  show (t.val - 1) % 2 = 0; omega

/-- After an even point the accumulator holds zero plus the product of the point's two blocks. -/
theorem sAt8_even (c : Dev nD) (t : Fin cfg8.N) (h0 : t.val % 2 = 0) :
    sAt8 V c t = k8_pay2 (k8_pay1 (F := F)) (iblk8 V c 0 t) (iblk8 V c 1 t) := by
  unfold sAt8; rw [accAt8_A V c t h0]; dsimp only; unfold sA8
  exact sout8_A_0_eq c (grid8.coords t) (ms8_0 t) (hs8_0 t) (ms8_1 t) (hs8_1 t) (ms8_2 t) (hs8_2 t) (ms8_3 t) (hs8_3 t) scM8_0 (Memref.isWhole_whole _) (hc8A0 t h0) (hc8A1 t h0) (iblk8 V c 0 t) (iblk8 V c 1 t) (iblk8 V c 2 t)

/-- After an odd point it holds what the point before left plus the product of the point's two blocks. -/
theorem sAt8_odd (c : Dev nD) (t : Fin cfg8.N) (h0 : ¬t.val % 2 = 0) :
    sAt8 V c t = k8_pay2 (sAt8 V c (prev8 t)) (iblk8 V c 0 t) (iblk8 V c 1 t) := by
  unfold sAt8; rw [accAt8_B V c t h0]; dsimp only; unfold sB8
  exact sout8_B_0_eq c (grid8.coords t) (ms8_0 t) (hs8_0 t) (ms8_1 t) (hs8_1 t) (ms8_2 t) (hs8_2 t) (ms8_3 t) (hs8_3 t) scM8_0 (Memref.isWhole_whole _) (hc8B0 t h0) (hc8B1 t h0) (iblk8 V c 0 t) (iblk8 V c 1 t) (iblk8 V c 2 t) (accAt8 V c (t.val - 1) (Nat.lt_of_le_of_lt (Nat.sub_le _ _) t.isLt)).2

/-- After an odd point the output's buffer holds the rectified sum of the new accumulator and the third block. -/
theorem outsAt8_odd (c : Dev nD) (t : Fin cfg8.N) (h0 : ¬t.val % 2 = 0) :
    outsAt8 V c t = k8_pay3 (k8_pay2 (sAt8 V c (prev8 t)) (iblk8 V c 0 t) (iblk8 V c 1 t)) (iblk8 V c 2 t) := by
  unfold outsAt8 sAt8; rw [accAt8_B V c t h0]; dsimp only; unfold oB8
  exact out8_B_3_eq c (grid8.coords t) (ms8_0 t) (hs8_0 t) (ms8_1 t) (hs8_1 t) (ms8_2 t) (hs8_2 t) (ms8_3 t) (hs8_3 t) scM8_0 (Memref.isWhole_whole _) (hc8B0 t h0) (hc8B1 t h0) (iblk8 V c 0 t) (iblk8 V c 1 t) (iblk8 V c 2 t) (accAt8 V c (t.val - 1) (Nat.lt_of_le_of_lt (Nat.sub_le _ _) t.isLt)).2

/-- The same in closed form: the two reduction steps of the row block, from zero, then the third block added and
    the sum rectified. -/
theorem outsAt8_odd_closed (c : Dev nD) (t : Fin cfg8.N) (h0 : ¬t.val % 2 = 0) :
    outsAt8 V c t
      = k8_pay3 (k8_pay2 (k8_pay2 (k8_pay1 (F := F)) (iblk8 V c 0 (prev8 t)) (iblk8 V c 1 (prev8 t))) (iblk8 V c 0 t) (iblk8 V c 1 t)) (iblk8 V c 2 t) :=
  (outsAt8_odd V c t h0).trans
    (congrArg (fun s => k8_pay3 (k8_pay2 s (iblk8 V c 0 t) (iblk8 V c 1 t)) (iblk8 V c 2 t)) (sAt8_even V c (prev8 t) (prev8_even t h0)))

end R8

end Cert.KernelIdeal.Hand

end
-- ==== Proof.KI.R8Pay.lean ====
import proofs.«120270_j2259152797813_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! # Region 8: its three payloads read at an index, over the extended reals -/

/-- The block product at an entry: the sum over the 4096 contracted positions of the entries' products. -/
theorem mm8_apply (A : FVec Ideal S1024x4096 .bf16) (B : FVec Ideal S4096x128 .bf16) (a : Fin 1024) (b : Fin 128) :
    FloatOps.matmul dot_S1024x4096_S4096x128_S1024x128_1_0_0_1_n_n none A B (constant (F := Ideal) S1024x128 .f32 0x00000000#32) (ix2 a b)
      = ∑ k : Fin 4096, A (ix2 a k) * B (ix2 k b) := by
  rw [Ideal.matmul_constant_zero_apply, ← Equiv.sum_comp (contrEquiv1 dot_S1024x4096_S4096x128_S1024x128_1_0_0_1_n_n 4096 rfl rfl).symm]
  refine Finset.sum_congr rfl fun k _ => ?_
  have c2 := contrEquiv1_symm_val dot_S1024x4096_S4096x128_S1024x128_1_0_0_1_n_n 4096 rfl rfl k
  have l2 : dot_S1024x4096_S4096x128_S1024x128_1_0_0_1_n_n.lhsIdx (ix2 a b) ((contrEquiv1 _ 4096 rfl rfl).symm k) = ix2 a k := by
    funext ax; apply Fin.ext
    match ax with
    | ⟨0, _⟩ => simp [DotDims.lhsIdx, dot_S1024x4096_S4096x128_S1024x128_1_0_0_1_n_n]; rfl
    | ⟨1, _⟩ => simp [DotDims.lhsIdx, dot_S1024x4096_S4096x128_S1024x128_1_0_0_1_n_n]; exact c2
  have r2 : dot_S1024x4096_S4096x128_S1024x128_1_0_0_1_n_n.rhsIdx (ix2 a b) ((contrEquiv1 _ 4096 rfl rfl).symm k) = ix2 k b := by
    funext ax; apply Fin.ext
    match ax with
    | ⟨0, _⟩ => simp [DotDims.rhsIdx, dot_S1024x4096_S4096x128_S1024x128_1_0_0_1_n_n]; exact c2
    | ⟨1, _⟩ => simp [DotDims.rhsIdx, dot_S1024x4096_S4096x128_S1024x128_1_0_0_1_n_n]; rfl
  rw [l2, r2]

/-- The zero block. -/
theorem pay1_8_apply (i : S1024x128.Idx) : k8_pay1 (F := Ideal) i = 0 := by
  unfold k8_pay1
  simp only [shapeCast_self]
  show Ideal.ofBits .f32 0x00000000#32 = 0
  exact Ideal.ofBits_zero_f32

/-- The accumulation step at an entry: what the accumulator held plus the row-by-column sum of the two blocks. -/
theorem pay2_8_apply (v3 : Vec Ideal S1024x128 .f32) (v8 : Vec Ideal S1024x4096 .bf16) (v6 : Vec Ideal S4096x128 .bf16)
    (a : Fin 1024) (b : Fin 128) :
    k8_pay2 (F := Ideal) v3 v8 v6 (ix2 a b) = v3 (ix2 a b) + ∑ k : Fin 4096, v8 (ix2 a k) * v6 (ix2 k b) := by
  unfold k8_pay2
  simp only [shapeCast_self]
  show v3 (ix2 a b) + _ = _
  exact congrArg (v3 (ix2 a b) + ·) (mm8_apply v8 v6 a b)

/-- The epilogue at an entry: the accumulator plus the third block, rectified. -/
theorem pay3_8_apply (v16 : Vec Ideal S1024x128 .f32) (v17 : Vec Ideal S1024x128 .f32) (i : S1024x128.Idx) :
    k8_pay3 (F := Ideal) v16 v17 i = max (v16 i + v17 i) 0 := by
  unfold k8_pay3
  simp only [shapeCast_self]
  show max (v16 i + v17 i) (Ideal.ofBits .f32 0x00000000#32) = _
  rw [Ideal.ofBits_zero_f32]

/-- The result, entry by entry: the rectified sum of the third array's entry and the product of row `p` of the
    first array with column `q` of the second over all 8192 contracted positions. -/
def G8 (A0 : S8192x8192.Idx → EReal) (A1 : S8192x128.Idx → EReal) (A2 : S8192x128.Idx → EReal) : S8192x128.Idx → EReal :=
  fun i => max (A2 i + ∑ k : Fin 8192, A0 (ix2 (i 0) k) * A1 (ix2 k (i 1))) 0

/-- A sum over the 8192 contracted positions is the sum over its two halves. -/
theorem sum_halves8 (f : Fin 8192 → EReal) :
    ∑ k : Fin 8192, f k = ∑ k : Fin 4096, f (Fin.castAdd 4096 k) + ∑ k : Fin 4096, f (Fin.natAdd 4096 k) :=
  Fin.sum_univ_add (M := EReal) (a := 4096) (b := 4096) f

/-- ONE ENTRY of what an odd point writes back. The accumulator starts from zero, takes the first halves' product
    (blocks `x0'`, `x1'`) and then the second halves' (`x0`, `x1`); the third block `x2` is added and the sum
    rectified. When the five blocks are the cuts of the arrays `A0`, `A1`, `A2` at row `p` and column `b`, this is the
    entry (p, b) of `G8`: zero is neutral, the two half sums join, and the two summands commute. -/
theorem join8 (A0 : S8192x8192.Idx → EReal) (A1 : S8192x128.Idx → EReal) (A2 : S8192x128.Idx → EReal)
    (x0' x0 : Vec Ideal S1024x4096 .bf16) (x1' x1 : Vec Ideal S4096x128 .bf16) (x2 : Vec Ideal S1024x128 .f32)
    (r : Fin 1024) (b : Fin 128) (p : Fin 8192)
    (h0' : ∀ k : Fin 4096, x0' (ix2 r k) = A0 (ix2 p (Fin.castAdd 4096 k)))
    (h0 : ∀ k : Fin 4096, x0 (ix2 r k) = A0 (ix2 p (Fin.natAdd 4096 k)))
    (h1' : ∀ k : Fin 4096, x1' (ix2 k b) = A1 (ix2 (Fin.castAdd 4096 k) b))
    (h1 : ∀ k : Fin 4096, x1 (ix2 k b) = A1 (ix2 (Fin.natAdd 4096 k) b))
    (h2 : x2 (ix2 r b) = A2 (ix2 p b)) :
    k8_pay3 (F := Ideal) (k8_pay2 (k8_pay2 (k8_pay1 (F := Ideal)) x0' x1') x0 x1) x2 (ix2 r b) = G8 A0 A1 A2 (ix2 p b) := by
  rw [pay3_8_apply, pay2_8_apply, pay2_8_apply, pay1_8_apply, zero_add, h2]
  rw [Finset.sum_congr rfl (fun k _ => by rw [h0' k, h1' k] : ∀ k ∈ Finset.univ, x0' (ix2 r k) * x1' (ix2 k b) = A0 (ix2 p (Fin.castAdd 4096 k)) * A1 (ix2 (Fin.castAdd 4096 k) b))]
  rw [Finset.sum_congr rfl (fun k _ => by rw [h0 k, h1 k] : ∀ k ∈ Finset.univ, x0 (ix2 r k) * x1 (ix2 k b) = A0 (ix2 p (Fin.natAdd 4096 k)) * A1 (ix2 (Fin.natAdd 4096 k) b))]
  show _ = max (A2 (ix2 p b) + ∑ k : Fin 8192, A0 (ix2 p k) * A1 (ix2 k b)) 0
  rw [sum_halves8 (fun k => A0 (ix2 p k) * A1 (ix2 k b)), add_comm]

end Cert.KernelIdeal.Hand

end
-- ==== Proof.KI.R8Final.lean ====
import proofs.«120270_j2259152797813_2_alg».proof.Proof.KI.R8Val
import proofs.«120270_j2259152797813_2_alg».proof.Proof.KI.R8Pay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.ValueIdx
open scoped BigOperators

variable (V : (c : Dev nD) → (b : Ref sig .tc) → Buf (Elt Ideal) ((c : Thread nD τ).loc b))

/-! # Region 8: its output array after the region, as one function of the three input arrays -/

/-- The four windows' block indices at point `t = 2·i + k` of the (8, 2) grid: the row block `i` and the half `k` of
    the contracted axis. Decided over the grid. -/
theorem idx_facts8 : ∀ t : Fin cfg8.N,
    win8_0.index t (0 : Fin 2) = t.val / 2 ∧ win8_0.index t (1 : Fin 2) = t.val % 2
    ∧ win8_1.index t (0 : Fin 2) = t.val % 2 ∧ win8_1.index t (1 : Fin 2) = 0
    ∧ win8_2.index t (0 : Fin 2) = t.val / 2 ∧ win8_2.index t (1 : Fin 2) = 0
    ∧ win8_3.index t (0 : Fin 2) = t.val / 2 ∧ win8_3.index t (1 : Fin 2) = 0 :=
  (by decide +kernel : ∀ t : Fin grid8.N, _)

/-- An entry of the first window's block is the entry of its array at row `1024·(t/2) + r`, column `4096·(t%2) + k`. -/
theorem iblk8_0_apply (c : Dev nD) (t : Fin cfg8.N) (r : Fin 1024) (k : Fin 4096) (p q : Fin 8192)
    (hp : p.val = 1024 * (t.val / 2) + r.val) (hq : q.val = 4096 * (t.val % 2) + k.val) :
    (iblk8 V c 0 t : Vec Ideal S1024x4096 .bf16) (ix2 r k) = (V c (Pipeline.arrRef spec8 0) : S8192x8192.Idx → EReal) (ix2 p q) := by
  obtain ⟨e0, e1, -⟩ := idx_facts8 t
  show V c (Pipeline.arrRef spec8 0) (((cfg8.win 0).blk t).view.emb (ix2 r k)) = _
  congr 1
  funext a; apply Fin.ext
  match a with
  | ⟨0, _⟩ => show win8_0.index t (0 : Fin 2) * 1024 + 1 * r.val = p.val; rw [e0, hp]; omega
  | ⟨1, _⟩ => show win8_0.index t (1 : Fin 2) * 4096 + 1 * k.val = q.val; rw [e1, hq]; omega

/-- An entry of the second window's block: row `4096·(t%2) + k` of its array, the same column. -/
theorem iblk8_1_apply (c : Dev nD) (t : Fin cfg8.N) (k : Fin 4096) (b : Fin 128) (q : Fin 8192)
    (hq : q.val = 4096 * (t.val % 2) + k.val) :
    (iblk8 V c 1 t : Vec Ideal S4096x128 .bf16) (ix2 k b) = (V c (Pipeline.arrRef spec8 1) : S8192x128.Idx → EReal) (ix2 q b) := by
  obtain ⟨-, -, e0, e1, -⟩ := idx_facts8 t
  show V c (Pipeline.arrRef spec8 1) (((cfg8.win 1).blk t).view.emb (ix2 k b)) = _
  congr 1
  funext a; apply Fin.ext
  match a with
  | ⟨0, _⟩ => show win8_1.index t (0 : Fin 2) * 4096 + 1 * k.val = q.val; rw [e0, hq]; omega
  | ⟨1, _⟩ => show win8_1.index t (1 : Fin 2) * 128 + 1 * b.val = b.val; rw [e1]; omega

/-- An entry of the third window's block: row `1024·(t/2) + r` of its array, the same column. -/
theorem iblk8_2_apply (c : Dev nD) (t : Fin cfg8.N) (r : Fin 1024) (b : Fin 128) (p : Fin 8192)
    (hp : p.val = 1024 * (t.val / 2) + r.val) :
    (iblk8 V c 2 t : Vec Ideal S1024x128 .f32) (ix2 r b) = (V c (Pipeline.arrRef spec8 2) : S8192x128.Idx → EReal) (ix2 p b) := by
  obtain ⟨-, -, -, -, e0, e1, -⟩ := idx_facts8 t
  show V c (Pipeline.arrRef spec8 2) (((cfg8.win 2).blk t).view.emb (ix2 r b)) = _
  congr 1
  funext a; apply Fin.ext
  match a with
  | ⟨0, _⟩ => show win8_2.index t (0 : Fin 2) * 1024 + 1 * r.val = p.val; rw [e0, hp]; omega
  | ⟨1, _⟩ => show win8_2.index t (1 : Fin 2) * 128 + 1 * b.val = b.val; rw [e1]; omega

/-- The row of the array that row `r` of point `t`'s block is. -/
theorem row_lt8 (t : Fin cfg8.N) (r : Fin 1024) : 1024 * (t.val / 2) + r.val < 8192 := by
  have hN : t.val < 16 := lt_of_lt_of_eq t.isLt (show cfg8.N = 16 from N_8)
  have hr := r.isLt; omega

set_option maxHeartbeats 1000000 in
/-- WHAT AN ODD POINT WRITES BACK is its block of `G8` of the three arrays as the region finds them. -/
theorem flushed8_eq (c : Dev nD) (t : Fin cfg8.N) (hf : (cfg8.win 3).flush t = true) :
    (dat8 V c).flushed 3 t
      = ((cfg8.win 3).blk t).view.read (Elt Ideal)
          (G8 (V c (Pipeline.arrRef spec8 0)) (V c (Pipeline.arrRef spec8 1)) (V c (Pipeline.arrRef spec8 2))) := by
  have h1 : t.val % 2 = 1 := (flush8_3 t).mp hf
  have h0 : ¬t.val % 2 = 0 := by omega
  have hN : t.val < 16 := lt_of_lt_of_eq t.isLt (show cfg8.N = 16 from N_8)
  obtain ⟨-, -, -, -, -, -, e0, e1⟩ := idx_facts8 t
  show (cfg8.win 3).cut (grid8.coords t) ((dat8 V c).after 3 t) = _
  rw [show (dat8 V c).after 3 t = outsAt8 V c t from by dsimp only [dat8]]
  rw [outsAt8_odd_closed V c t h0]
  funext j
  obtain ⟨r, b, rfl⟩ : ∃ (r : Fin 1024) (b : Fin 128), j = ix2 r b := ⟨j 0, j 1, eq_ix2 j⟩
  have hemb : ((cfg8.win 3).blk t).view.emb (ix2 r b) = ix2 (⟨1024 * (t.val / 2) + r.val, row_lt8 t r⟩ : Fin 8192) b := by
    funext a; apply Fin.ext
    match a with
    | ⟨0, _⟩ => show win8_3.index t (0 : Fin 2) * 1024 + 1 * r.val = 1024 * (t.val / 2) + r.val; rw [e0]; omega
    | ⟨1, _⟩ => show win8_3.index t (1 : Fin 2) * 128 + 1 * b.val = b.val; rw [e1]; omega
  show k8_pay3 (F := Ideal) (k8_pay2 (k8_pay2 (k8_pay1 (F := Ideal)) (iblk8 V c 0 (prev8 t)) (iblk8 V c 1 (prev8 t))) (iblk8 V c 0 t) (iblk8 V c 1 t)) (iblk8 V c 2 t) (ix2 r b)
    = G8 (V c (Pipeline.arrRef spec8 0)) (V c (Pipeline.arrRef spec8 1)) (V c (Pipeline.arrRef spec8 2)) (((cfg8.win 3).blk t).view.emb (ix2 r b))
  rw [hemb]
  have hpv : (prev8 t).val = t.val - 1 := rfl
  exact join8 (V c (Pipeline.arrRef spec8 0)) (V c (Pipeline.arrRef spec8 1)) (V c (Pipeline.arrRef spec8 2))
    (iblk8 V c 0 (prev8 t)) (iblk8 V c 0 t) (iblk8 V c 1 (prev8 t)) (iblk8 V c 1 t) (iblk8 V c 2 t) r b
    ⟨1024 * (t.val / 2) + r.val, row_lt8 t r⟩
    (fun k => iblk8_0_apply V c (prev8 t) r k _ (Fin.castAdd 4096 k)
      (by show 1024 * (t.val / 2) + r.val = 1024 * ((prev8 t).val / 2) + r.val; rw [hpv]; omega)
      (by show k.val = 4096 * ((prev8 t).val % 2) + k.val; rw [hpv]; omega))
    (fun k => iblk8_0_apply V c t r k _ (Fin.natAdd 4096 k) rfl
      (by show 4096 + k.val = 4096 * (t.val % 2) + k.val; omega))
    (fun k => iblk8_1_apply V c (prev8 t) k b (Fin.castAdd 4096 k)
      (by show k.val = 4096 * ((prev8 t).val % 2) + k.val; rw [hpv]; omega))
    (fun k => iblk8_1_apply V c t k b (Fin.natAdd 4096 k)
      (by show 4096 + k.val = 4096 * (t.val % 2) + k.val; omega))
    (iblk8_2_apply V c t r b _ rfl)

/-- An index of the output array is in point `t`'s block iff each coordinate is in the block's range on its axis. -/
theorem mem_blk8 (t : Fin cfg8.N) (i : S8192x128.Idx) :
    i ∈ ((cfg8.win 3).blk t).view.set ↔ ∀ a : Fin 2, win8_3.index t a * S1024x128.size a ≤ (i a).val ∧ (i a).val < win8_3.index t a * S1024x128.size a + S1024x128.size a := by
  show i ∈ ((View.whole (Pipeline.arrRef spec8 3)).slice (win8_3.rect t)).set ↔ _
  rw [View.set_slice_whole, Rect.mem_set_unit]
  exact Iff.rfl

/-- Every entry of the output array is in the block some odd point writes back: row `p` at point `2·(p / 1024) + 1`. -/
theorem cover8 (i : S8192x128.Idx) : ∃ t : Fin cfg8.N, (cfg8.win 3).flush t = true ∧ i ∈ ((cfg8.win 3).blk t).view.set := by
  have hi0 : (i 0).val < 8192 := idx2_lt0 i
  have hi1 : (i 1).val < 128 := idx2_lt1 i
  have hlt : 2 * ((i 0).val / 1024) + 1 < cfg8.N := by rw [show cfg8.N = 16 from N_8]; omega
  refine ⟨⟨2 * ((i 0).val / 1024) + 1, hlt⟩, (flush8_3 _).mpr (by show (2 * ((i 0).val / 1024) + 1) % 2 = 1; omega), ?_⟩
  obtain ⟨-, -, -, -, -, -, e0, e1⟩ := idx_facts8 ⟨2 * ((i 0).val / 1024) + 1, hlt⟩
  have e0' : win8_3.index ⟨2 * ((i 0).val / 1024) + 1, hlt⟩ (0 : Fin 2) = (i 0).val / 1024 := by rw [e0]; show (2 * ((i 0).val / 1024) + 1) / 2 = _; omega
  rw [mem_blk8]
  intro a
  match a with
  | ⟨0, _⟩ => show win8_3.index _ (0 : Fin 2) * 1024 ≤ (i 0).val ∧ (i 0).val < win8_3.index _ (0 : Fin 2) * 1024 + 1024; rw [e0']; omega
  | ⟨1, _⟩ => show win8_3.index _ (1 : Fin 2) * 128 ≤ (i 1).val ∧ (i 1).val < win8_3.index _ (1 : Fin 2) * 128 + 128; rw [e1]; omega

/-- THE OUTPUT ARRAY after the region: `G8` of the three input arrays as the region finds them. -/
theorem final3_8 (c : Dev nD) :
    (dat8 V c).arrAt 3 cfg8.N = G8 (V c (Pipeline.arrRef spec8 0)) (V c (Pipeline.arrRef spec8 1)) (V c (Pipeline.arrRef spec8 2)) :=
  (dat8 V c).arrAt_eq_of_cover 3 _ (fun t hf => flushed8_eq V c t hf) cover8

end Cert.KernelIdeal.Hand

end
-- ==== Proof.KI.R9Val.lean ====
import proofs.«120270_j2259152797813_2_alg».proof.Proof.KI.R9
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9: what its two cases leave, through the kernel's named payloads -/

theorem hz9 : (![0, 0] : Fin 2 → Nat) = fun _ => 0 := funext fun a => by fin_cases a <;> rfl

set_option maxHeartbeats 400000 in
/-- Case A leaves in the accumulator the zero block plus the product of the two input blocks: the second of its
    two whole-block stores, whose payload reads the first one back. -/
theorem sout9_A_0_eq (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond9_0 i) (hc1 : ¬cond9_1 i)
    (x0 : Vec F S1024x4096 .bf16) (x1 : Vec F S4096x128 .bf16) (x2 : Vec F S1024x128 .f32) :
    sout9_A_0 c i arg2 harg2 arg3 harg3 arg4 harg4 arg5 harg5 arg6 harg6 hc0 hc1 x0 x1 x2 = k9_pay2 (k9_pay1 (F := F)) x0 x1 := by
  unfold sout9_A_0
  rw [View.read_writes_eq_canon _ _ _ (scover9_A_0 c i arg2 harg2 arg3 harg3 arg4 harg4 arg5 harg5 arg6 harg6 hc0 hc1 x0 x1 x2)]
  unfold kernelRun9_A
  dsimp only
  sl_unfold_words
  rw [View.canon_cons_unit_zero (S := S1024x128) hz9, View.readCov_unit_zero (S := S1024x128) _ hz9]
  simp only [View.readAt_eq_ld, harg2.read_unread, harg3.read_unread, View.ld_unit_zero (S := S1024x4096) hz9, View.ld_unit_zero (S := S4096x128) hz9]

set_option maxHeartbeats 400000 in
/-- Case B leaves in the accumulator what it held plus the product of the two input blocks. -/
theorem sout9_B_0_eq (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond9_0 i) (hc1 : cond9_1 i)
    (x0 : Vec F S1024x4096 .bf16) (x1 : Vec F S4096x128 .bf16) (x2 : Vec F S1024x128 .f32) (xs0 : Vec F S1024x128 .f32) :
    sout9_B_0 c i arg2 harg2 arg3 harg3 arg4 harg4 arg5 harg5 arg6 harg6 hc0 hc1 x0 x1 x2 xs0 = k9_pay2 xs0 x0 x1 := by
  unfold sout9_B_0
  rw [View.read_writes_eq_canon _ _ _ (scover9_B_0 c i arg2 harg2 arg3 harg3 arg4 harg4 arg5 harg5 arg6 harg6 hc0 hc1 x0 x1 x2 xs0)]
  unfold kernelRun9_B
  dsimp only
  sl_unfold_words
  rw [View.canon_unit_zero (S := S1024x128) hz9]
  simp only [View.readAt_eq_ld, harg2.read_unread, harg3.read_unread, harg6.read_unread, View.ld_unit_zero (S := S1024x4096) hz9, View.ld_unit_zero (S := S4096x128) hz9, View.ld_unit_zero (S := S1024x128) hz9]

set_option maxHeartbeats 400000 in
/-- Case B leaves in the output's buffer the rectified sum of the new accumulator and the third input block. -/
theorem out9_B_3_eq (c : Dev nD) (i : grid9.Coords) (arg2 : Memref sig .tc .vmem S1024x4096 .bf16) (harg2 : arg2.IsWhole) (arg3 : Memref sig .tc .vmem S4096x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond9_0 i) (hc1 : cond9_1 i)
    (x0 : Vec F S1024x4096 .bf16) (x1 : Vec F S4096x128 .bf16) (x2 : Vec F S1024x128 .f32) (xs0 : Vec F S1024x128 .f32) :
    out9_B_3 c i arg2 harg2 arg3 harg3 arg4 harg4 arg5 harg5 arg6 harg6 hc0 hc1 x0 x1 x2 xs0 = k9_pay3 (k9_pay2 xs0 x0 x1) x2 := by
  unfold out9_B_3
  rw [View.read_writes_eq_canon _ _ _ (cover9_B_3 c i arg2 harg2 arg3 harg3 arg4 harg4 arg5 harg5 arg6 harg6 hc0 hc1 x0 x1 x2 xs0)]
  unfold kernelRun9_B
  dsimp only
  sl_unfold_words
  rw [View.canon_unit_zero (S := S1024x128) hz9, View.readCov_unit_zero (S := S1024x128) _ hz9]
  simp only [View.readAt_eq_ld, harg2.read_unread, harg3.read_unread, harg4.read_unread, harg6.read_unread, View.ld_unit_zero (S := S1024x4096) hz9, View.ld_unit_zero (S := S4096x128) hz9, View.ld_unit_zero (S := S1024x128) hz9]

section R9
variable (V : (c : Dev nD) → (b : Ref sig .tc) → Buf (Elt F) ((c : Thread nD τ).loc b))

/-- The point before `t` (the point itself at 0, where nothing reads it). -/
def prev9 (t : Fin cfg9.N) : Fin cfg9.N := ⟨t.val - 1, Nat.lt_of_le_of_lt (Nat.sub_le _ _) t.isLt⟩

theorem prev9_even (t : Fin cfg9.N) (h0 : ¬t.val % 2 = 0) : (prev9 t).val % 2 = 0 := by
  show (t.val - 1) % 2 = 0; omega

/-- After an even point the accumulator holds zero plus the product of the point's two blocks. -/
theorem sAt9_even (c : Dev nD) (t : Fin cfg9.N) (h0 : t.val % 2 = 0) :
    sAt9 V c t = k9_pay2 (k9_pay1 (F := F)) (iblk9 V c 0 t) (iblk9 V c 1 t) := by
  unfold sAt9; rw [accAt9_A V c t h0]; dsimp only; unfold sA9
  exact sout9_A_0_eq c (grid9.coords t) (ms9_0 t) (hs9_0 t) (ms9_1 t) (hs9_1 t) (ms9_2 t) (hs9_2 t) (ms9_3 t) (hs9_3 t) scM9_0 (Memref.isWhole_whole _) (hc9A0 t h0) (hc9A1 t h0) (iblk9 V c 0 t) (iblk9 V c 1 t) (iblk9 V c 2 t)

/-- After an odd point it holds what the point before left plus the product of the point's two blocks. -/
theorem sAt9_odd (c : Dev nD) (t : Fin cfg9.N) (h0 : ¬t.val % 2 = 0) :
    sAt9 V c t = k9_pay2 (sAt9 V c (prev9 t)) (iblk9 V c 0 t) (iblk9 V c 1 t) := by
  unfold sAt9; rw [accAt9_B V c t h0]; dsimp only; unfold sB9
  exact sout9_B_0_eq c (grid9.coords t) (ms9_0 t) (hs9_0 t) (ms9_1 t) (hs9_1 t) (ms9_2 t) (hs9_2 t) (ms9_3 t) (hs9_3 t) scM9_0 (Memref.isWhole_whole _) (hc9B0 t h0) (hc9B1 t h0) (iblk9 V c 0 t) (iblk9 V c 1 t) (iblk9 V c 2 t) (accAt9 V c (t.val - 1) (Nat.lt_of_le_of_lt (Nat.sub_le _ _) t.isLt)).2

/-- After an odd point the output's buffer holds the rectified sum of the new accumulator and the third block. -/
theorem outsAt9_odd (c : Dev nD) (t : Fin cfg9.N) (h0 : ¬t.val % 2 = 0) :
    outsAt9 V c t = k9_pay3 (k9_pay2 (sAt9 V c (prev9 t)) (iblk9 V c 0 t) (iblk9 V c 1 t)) (iblk9 V c 2 t) := by
  unfold outsAt9 sAt9; rw [accAt9_B V c t h0]; dsimp only; unfold oB9
  exact out9_B_3_eq c (grid9.coords t) (ms9_0 t) (hs9_0 t) (ms9_1 t) (hs9_1 t) (ms9_2 t) (hs9_2 t) (ms9_3 t) (hs9_3 t) scM9_0 (Memref.isWhole_whole _) (hc9B0 t h0) (hc9B1 t h0) (iblk9 V c 0 t) (iblk9 V c 1 t) (iblk9 V c 2 t) (accAt9 V c (t.val - 1) (Nat.lt_of_le_of_lt (Nat.sub_le _ _) t.isLt)).2

/-- The same in closed form: the two reduction steps of the row block, from zero, then the third block added and
    the sum rectified. -/
theorem outsAt9_odd_closed (c : Dev nD) (t : Fin cfg9.N) (h0 : ¬t.val % 2 = 0) :
    outsAt9 V c t
      = k9_pay3 (k9_pay2 (k9_pay2 (k9_pay1 (F := F)) (iblk9 V c 0 (prev9 t)) (iblk9 V c 1 (prev9 t))) (iblk9 V c 0 t) (iblk9 V c 1 t)) (iblk9 V c 2 t) :=
  (outsAt9_odd V c t h0).trans
    (congrArg (fun s => k9_pay3 (k9_pay2 s (iblk9 V c 0 t) (iblk9 V c 1 t)) (iblk9 V c 2 t)) (sAt9_even V c (prev9 t) (prev9_even t h0)))

end R9

end Cert.KernelIdeal.Hand

end
-- ==== Proof.KI.R9Pay.lean ====
import proofs.«120270_j2259152797813_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! # Region 9: its three payloads read at an index, over the extended reals -/

/-- The block product at an entry: the sum over the 4096 contracted positions of the entries' products. -/
theorem mm9_apply (A : FVec Ideal S1024x4096 .bf16) (B : FVec Ideal S4096x128 .bf16) (a : Fin 1024) (b : Fin 128) :
    FloatOps.matmul dot_S1024x4096_S4096x128_S1024x128_1_0_0_1_n_n none A B (constant (F := Ideal) S1024x128 .f32 0x00000000#32) (ix2 a b)
      = ∑ k : Fin 4096, A (ix2 a k) * B (ix2 k b) := by
  rw [Ideal.matmul_constant_zero_apply, ← Equiv.sum_comp (contrEquiv1 dot_S1024x4096_S4096x128_S1024x128_1_0_0_1_n_n 4096 rfl rfl).symm]
  refine Finset.sum_congr rfl fun k _ => ?_
  have c2 := contrEquiv1_symm_val dot_S1024x4096_S4096x128_S1024x128_1_0_0_1_n_n 4096 rfl rfl k
  have l2 : dot_S1024x4096_S4096x128_S1024x128_1_0_0_1_n_n.lhsIdx (ix2 a b) ((contrEquiv1 _ 4096 rfl rfl).symm k) = ix2 a k := by
    funext ax; apply Fin.ext
    match ax with
    | ⟨0, _⟩ => simp [DotDims.lhsIdx, dot_S1024x4096_S4096x128_S1024x128_1_0_0_1_n_n]; rfl
    | ⟨1, _⟩ => simp [DotDims.lhsIdx, dot_S1024x4096_S4096x128_S1024x128_1_0_0_1_n_n]; exact c2
  have r2 : dot_S1024x4096_S4096x128_S1024x128_1_0_0_1_n_n.rhsIdx (ix2 a b) ((contrEquiv1 _ 4096 rfl rfl).symm k) = ix2 k b := by
    funext ax; apply Fin.ext
    match ax with
    | ⟨0, _⟩ => simp [DotDims.rhsIdx, dot_S1024x4096_S4096x128_S1024x128_1_0_0_1_n_n]; exact c2
    | ⟨1, _⟩ => simp [DotDims.rhsIdx, dot_S1024x4096_S4096x128_S1024x128_1_0_0_1_n_n]; rfl
  rw [l2, r2]

/-- The zero block. -/
theorem pay1_9_apply (i : S1024x128.Idx) : k9_pay1 (F := Ideal) i = 0 := by
  unfold k9_pay1
  simp only [shapeCast_self]
  show Ideal.ofBits .f32 0x00000000#32 = 0
  exact Ideal.ofBits_zero_f32

/-- The accumulation step at an entry: what the accumulator held plus the row-by-column sum of the two blocks. -/
theorem pay2_9_apply (v3 : Vec Ideal S1024x128 .f32) (v9 : Vec Ideal S1024x4096 .bf16) (v6 : Vec Ideal S4096x128 .bf16)
    (a : Fin 1024) (b : Fin 128) :
    k9_pay2 (F := Ideal) v3 v9 v6 (ix2 a b) = v3 (ix2 a b) + ∑ k : Fin 4096, v9 (ix2 a k) * v6 (ix2 k b) := by
  unfold k9_pay2
  simp only [shapeCast_self]
  show v3 (ix2 a b) + _ = _
  exact congrArg (v3 (ix2 a b) + ·) (mm9_apply v9 v6 a b)

/-- The epilogue at an entry: the accumulator plus the third block, rectified. -/
theorem pay3_9_apply (v16 : Vec Ideal S1024x128 .f32) (v17 : Vec Ideal S1024x128 .f32) (i : S1024x128.Idx) :
    k9_pay3 (F := Ideal) v16 v17 i = max (v16 i + v17 i) 0 := by
  unfold k9_pay3
  simp only [shapeCast_self]
  show max (v16 i + v17 i) (Ideal.ofBits .f32 0x00000000#32) = _
  rw [Ideal.ofBits_zero_f32]

/-- The result, entry by entry: the rectified sum of the third array's entry and the product of row `p` of the
    first array with column `q` of the second over all 8192 contracted positions. -/
def G9 (A0 : S8192x8192.Idx → EReal) (A1 : S8192x128.Idx → EReal) (A2 : S8192x128.Idx → EReal) : S8192x128.Idx → EReal :=
  fun i => max (A2 i + ∑ k : Fin 8192, A0 (ix2 (i 0) k) * A1 (ix2 k (i 1))) 0

/-- A sum over the 8192 contracted positions is the sum over its two halves. -/
theorem sum_halves9 (f : Fin 8192 → EReal) :
    ∑ k : Fin 8192, f k = ∑ k : Fin 4096, f (Fin.castAdd 4096 k) + ∑ k : Fin 4096, f (Fin.natAdd 4096 k) :=
  Fin.sum_univ_add (M := EReal) (a := 4096) (b := 4096) f

/-- ONE ENTRY of what an odd point writes back. The accumulator starts from zero, takes the first halves' product
    (blocks `x0'`, `x1'`) and then the second halves' (`x0`, `x1`); the third block `x2` is added and the sum
    rectified. When the five blocks are the cuts of the arrays `A0`, `A1`, `A2` at row `p` and column `b`, this is the
    entry (p, b) of `G9`: zero is neutral, the two half sums join, and the two summands commute. -/
theorem join9 (A0 : S8192x8192.Idx → EReal) (A1 : S8192x128.Idx → EReal) (A2 : S8192x128.Idx → EReal)
    (x0' x0 : Vec Ideal S1024x4096 .bf16) (x1' x1 : Vec Ideal S4096x128 .bf16) (x2 : Vec Ideal S1024x128 .f32)
    (r : Fin 1024) (b : Fin 128) (p : Fin 8192)
    (h0' : ∀ k : Fin 4096, x0' (ix2 r k) = A0 (ix2 p (Fin.castAdd 4096 k)))
    (h0 : ∀ k : Fin 4096, x0 (ix2 r k) = A0 (ix2 p (Fin.natAdd 4096 k)))
    (h1' : ∀ k : Fin 4096, x1' (ix2 k b) = A1 (ix2 (Fin.castAdd 4096 k) b))
    (h1 : ∀ k : Fin 4096, x1 (ix2 k b) = A1 (ix2 (Fin.natAdd 4096 k) b))
    (h2 : x2 (ix2 r b) = A2 (ix2 p b)) :
    k9_pay3 (F := Ideal) (k9_pay2 (k9_pay2 (k9_pay1 (F := Ideal)) x0' x1') x0 x1) x2 (ix2 r b) = G9 A0 A1 A2 (ix2 p b) := by
  rw [pay3_9_apply, pay2_9_apply, pay2_9_apply, pay1_9_apply, zero_add, h2]
  rw [Finset.sum_congr rfl (fun k _ => by rw [h0' k, h1' k] : ∀ k ∈ Finset.univ, x0' (ix2 r k) * x1' (ix2 k b) = A0 (ix2 p (Fin.castAdd 4096 k)) * A1 (ix2 (Fin.castAdd 4096 k) b))]
  rw [Finset.sum_congr rfl (fun k _ => by rw [h0 k, h1 k] : ∀ k ∈ Finset.univ, x0 (ix2 r k) * x1 (ix2 k b) = A0 (ix2 p (Fin.natAdd 4096 k)) * A1 (ix2 (Fin.natAdd 4096 k) b))]
  show _ = max (A2 (ix2 p b) + ∑ k : Fin 8192, A0 (ix2 p k) * A1 (ix2 k b)) 0
  rw [sum_halves9 (fun k => A0 (ix2 p k) * A1 (ix2 k b)), add_comm]

end Cert.KernelIdeal.Hand

end
-- ==== Proof.KI.R9Final.lean ====
import proofs.«120270_j2259152797813_2_alg».proof.Proof.KI.R9Val
import proofs.«120270_j2259152797813_2_alg».proof.Proof.KI.R9Pay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.ValueIdx
open scoped BigOperators

variable (V : (c : Dev nD) → (b : Ref sig .tc) → Buf (Elt Ideal) ((c : Thread nD τ).loc b))

/-! # Region 9: its output array after the region, as one function of the three input arrays -/

/-- The four windows' block indices at point `t = 2·i + k` of the (8, 2) grid: the row block `i` and the half `k` of
    the contracted axis. Decided over the grid. -/
theorem idx_facts9 : ∀ t : Fin cfg9.N,
    win9_0.index t (0 : Fin 2) = t.val / 2 ∧ win9_0.index t (1 : Fin 2) = t.val % 2
    ∧ win9_1.index t (0 : Fin 2) = t.val % 2 ∧ win9_1.index t (1 : Fin 2) = 0
    ∧ win9_2.index t (0 : Fin 2) = t.val / 2 ∧ win9_2.index t (1 : Fin 2) = 0
    ∧ win9_3.index t (0 : Fin 2) = t.val / 2 ∧ win9_3.index t (1 : Fin 2) = 0 :=
  (by decide +kernel : ∀ t : Fin grid9.N, _)

/-- An entry of the first window's block is the entry of its array at row `1024·(t/2) + r`, column `4096·(t%2) + k`. -/
theorem iblk9_0_apply (c : Dev nD) (t : Fin cfg9.N) (r : Fin 1024) (k : Fin 4096) (p q : Fin 8192)
    (hp : p.val = 1024 * (t.val / 2) + r.val) (hq : q.val = 4096 * (t.val % 2) + k.val) :
    (iblk9 V c 0 t : Vec Ideal S1024x4096 .bf16) (ix2 r k) = (V c (Pipeline.arrRef spec9 0) : S8192x8192.Idx → EReal) (ix2 p q) := by
  obtain ⟨e0, e1, -⟩ := idx_facts9 t
  show V c (Pipeline.arrRef spec9 0) (((cfg9.win 0).blk t).view.emb (ix2 r k)) = _
  congr 1
  funext a; apply Fin.ext
  match a with
  | ⟨0, _⟩ => show win9_0.index t (0 : Fin 2) * 1024 + 1 * r.val = p.val; rw [e0, hp]; omega
  | ⟨1, _⟩ => show win9_0.index t (1 : Fin 2) * 4096 + 1 * k.val = q.val; rw [e1, hq]; omega

/-- An entry of the second window's block: row `4096·(t%2) + k` of its array, the same column. -/
theorem iblk9_1_apply (c : Dev nD) (t : Fin cfg9.N) (k : Fin 4096) (b : Fin 128) (q : Fin 8192)
    (hq : q.val = 4096 * (t.val % 2) + k.val) :
    (iblk9 V c 1 t : Vec Ideal S4096x128 .bf16) (ix2 k b) = (V c (Pipeline.arrRef spec9 1) : S8192x128.Idx → EReal) (ix2 q b) := by
  obtain ⟨-, -, e0, e1, -⟩ := idx_facts9 t
  show V c (Pipeline.arrRef spec9 1) (((cfg9.win 1).blk t).view.emb (ix2 k b)) = _
  congr 1
  funext a; apply Fin.ext
  match a with
  | ⟨0, _⟩ => show win9_1.index t (0 : Fin 2) * 4096 + 1 * k.val = q.val; rw [e0, hq]; omega
  | ⟨1, _⟩ => show win9_1.index t (1 : Fin 2) * 128 + 1 * b.val = b.val; rw [e1]; omega

/-- An entry of the third window's block: row `1024·(t/2) + r` of its array, the same column. -/
theorem iblk9_2_apply (c : Dev nD) (t : Fin cfg9.N) (r : Fin 1024) (b : Fin 128) (p : Fin 8192)
    (hp : p.val = 1024 * (t.val / 2) + r.val) :
    (iblk9 V c 2 t : Vec Ideal S1024x128 .f32) (ix2 r b) = (V c (Pipeline.arrRef spec9 2) : S8192x128.Idx → EReal) (ix2 p b) := by
  obtain ⟨-, -, -, -, e0, e1, -⟩ := idx_facts9 t
  show V c (Pipeline.arrRef spec9 2) (((cfg9.win 2).blk t).view.emb (ix2 r b)) = _
  congr 1
  funext a; apply Fin.ext
  match a with
  | ⟨0, _⟩ => show win9_2.index t (0 : Fin 2) * 1024 + 1 * r.val = p.val; rw [e0, hp]; omega
  | ⟨1, _⟩ => show win9_2.index t (1 : Fin 2) * 128 + 1 * b.val = b.val; rw [e1]; omega

/-- The row of the array that row `r` of point `t`'s block is. -/
theorem row_lt9 (t : Fin cfg9.N) (r : Fin 1024) : 1024 * (t.val / 2) + r.val < 8192 := by
  have hN : t.val < 16 := lt_of_lt_of_eq t.isLt (show cfg9.N = 16 from N_9)
  have hr := r.isLt; omega

set_option maxHeartbeats 1000000 in
/-- WHAT AN ODD POINT WRITES BACK is its block of `G9` of the three arrays as the region finds them. -/
theorem flushed9_eq (c : Dev nD) (t : Fin cfg9.N) (hf : (cfg9.win 3).flush t = true) :
    (dat9 V c).flushed 3 t
      = ((cfg9.win 3).blk t).view.read (Elt Ideal)
          (G9 (V c (Pipeline.arrRef spec9 0)) (V c (Pipeline.arrRef spec9 1)) (V c (Pipeline.arrRef spec9 2))) := by
  have h1 : t.val % 2 = 1 := (flush9_3 t).mp hf
  have h0 : ¬t.val % 2 = 0 := by omega
  have hN : t.val < 16 := lt_of_lt_of_eq t.isLt (show cfg9.N = 16 from N_9)
  obtain ⟨-, -, -, -, -, -, e0, e1⟩ := idx_facts9 t
  show (cfg9.win 3).cut (grid9.coords t) ((dat9 V c).after 3 t) = _
  rw [show (dat9 V c).after 3 t = outsAt9 V c t from by dsimp only [dat9]]
  rw [outsAt9_odd_closed V c t h0]
  funext j
  obtain ⟨r, b, rfl⟩ : ∃ (r : Fin 1024) (b : Fin 128), j = ix2 r b := ⟨j 0, j 1, eq_ix2 j⟩
  have hemb : ((cfg9.win 3).blk t).view.emb (ix2 r b) = ix2 (⟨1024 * (t.val / 2) + r.val, row_lt9 t r⟩ : Fin 8192) b := by
    funext a; apply Fin.ext
    match a with
    | ⟨0, _⟩ => show win9_3.index t (0 : Fin 2) * 1024 + 1 * r.val = 1024 * (t.val / 2) + r.val; rw [e0]; omega
    | ⟨1, _⟩ => show win9_3.index t (1 : Fin 2) * 128 + 1 * b.val = b.val; rw [e1]; omega
  show k9_pay3 (F := Ideal) (k9_pay2 (k9_pay2 (k9_pay1 (F := Ideal)) (iblk9 V c 0 (prev9 t)) (iblk9 V c 1 (prev9 t))) (iblk9 V c 0 t) (iblk9 V c 1 t)) (iblk9 V c 2 t) (ix2 r b)
    = G9 (V c (Pipeline.arrRef spec9 0)) (V c (Pipeline.arrRef spec9 1)) (V c (Pipeline.arrRef spec9 2)) (((cfg9.win 3).blk t).view.emb (ix2 r b))
  rw [hemb]
  have hpv : (prev9 t).val = t.val - 1 := rfl
  exact join9 (V c (Pipeline.arrRef spec9 0)) (V c (Pipeline.arrRef spec9 1)) (V c (Pipeline.arrRef spec9 2))
    (iblk9 V c 0 (prev9 t)) (iblk9 V c 0 t) (iblk9 V c 1 (prev9 t)) (iblk9 V c 1 t) (iblk9 V c 2 t) r b
    ⟨1024 * (t.val / 2) + r.val, row_lt9 t r⟩
    (fun k => iblk9_0_apply V c (prev9 t) r k _ (Fin.castAdd 4096 k)
      (by show 1024 * (t.val / 2) + r.val = 1024 * ((prev9 t).val / 2) + r.val; rw [hpv]; omega)
      (by show k.val = 4096 * ((prev9 t).val % 2) + k.val; rw [hpv]; omega))
    (fun k => iblk9_0_apply V c t r k _ (Fin.natAdd 4096 k) rfl
      (by show 4096 + k.val = 4096 * (t.val % 2) + k.val; omega))
    (fun k => iblk9_1_apply V c (prev9 t) k b (Fin.castAdd 4096 k)
      (by show k.val = 4096 * ((prev9 t).val % 2) + k.val; rw [hpv]; omega))
    (fun k => iblk9_1_apply V c t k b (Fin.natAdd 4096 k)
      (by show 4096 + k.val = 4096 * (t.val % 2) + k.val; omega))
    (iblk9_2_apply V c t r b _ rfl)

/-- An index of the output array is in point `t`'s block iff each coordinate is in the block's range on its axis. -/
theorem mem_blk9 (t : Fin cfg9.N) (i : S8192x128.Idx) :
    i ∈ ((cfg9.win 3).blk t).view.set ↔ ∀ a : Fin 2, win9_3.index t a * S1024x128.size a ≤ (i a).val ∧ (i a).val < win9_3.index t a * S1024x128.size a + S1024x128.size a := by
  show i ∈ ((View.whole (Pipeline.arrRef spec9 3)).slice (win9_3.rect t)).set ↔ _
  rw [View.set_slice_whole, Rect.mem_set_unit]
  exact Iff.rfl

/-- Every entry of the output array is in the block some odd point writes back: row `p` at point `2·(p / 1024) + 1`. -/
theorem cover9 (i : S8192x128.Idx) : ∃ t : Fin cfg9.N, (cfg9.win 3).flush t = true ∧ i ∈ ((cfg9.win 3).blk t).view.set := by
  have hi0 : (i 0).val < 8192 := idx2_lt0 i
  have hi1 : (i 1).val < 128 := idx2_lt1 i
  have hlt : 2 * ((i 0).val / 1024) + 1 < cfg9.N := by rw [show cfg9.N = 16 from N_9]; omega
  refine ⟨⟨2 * ((i 0).val / 1024) + 1, hlt⟩, (flush9_3 _).mpr (by show (2 * ((i 0).val / 1024) + 1) % 2 = 1; omega), ?_⟩
  obtain ⟨-, -, -, -, -, -, e0, e1⟩ := idx_facts9 ⟨2 * ((i 0).val / 1024) + 1, hlt⟩
  have e0' : win9_3.index ⟨2 * ((i 0).val / 1024) + 1, hlt⟩ (0 : Fin 2) = (i 0).val / 1024 := by rw [e0]; show (2 * ((i 0).val / 1024) + 1) / 2 = _; omega
  rw [mem_blk9]
  intro a
  match a with
  | ⟨0, _⟩ => show win9_3.index _ (0 : Fin 2) * 1024 ≤ (i 0).val ∧ (i 0).val < win9_3.index _ (0 : Fin 2) * 1024 + 1024; rw [e0']; omega
  | ⟨1, _⟩ => show win9_3.index _ (1 : Fin 2) * 128 ≤ (i 1).val ∧ (i 1).val < win9_3.index _ (1 : Fin 2) * 128 + 128; rw [e1]; omega

/-- THE OUTPUT ARRAY after the region: `G9` of the three input arrays as the region finds them. -/
theorem final3_9 (c : Dev nD) :
    (dat9 V c).arrAt 3 cfg9.N = G9 (V c (Pipeline.arrRef spec9 0)) (V c (Pipeline.arrRef spec9 1)) (V c (Pipeline.arrRef spec9 2)) :=
  (dat9 V c).arrAt_eq_of_cover 3 _ (fun t hf => flushed9_eq V c t hf) cover9

end Cert.KernelIdeal.Hand

end
-- ==== Proof.KI.R10Val.lean ====
import proofs.«120270_j2259152797813_2_alg».proof.Proof.KI.R10
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 10: what its two cases leave, through the kernel's named payloads -/

theorem hz10 : (![0, 0] : Fin 2 → Nat) = fun _ => 0 := funext fun a => by fin_cases a <;> rfl

set_option maxHeartbeats 400000 in
/-- Case A leaves in the accumulator the zero block plus the product of the two input blocks: the second of its
    two whole-block stores, whose payload reads the first one back. -/
theorem sout10_A_0_eq (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : cond10_0 i) (hc1 : ¬cond10_1 i)
    (x0 : Vec F S1024x4096 .bf16) (x1 : Vec F S4096x3 .bf16) (x2 : Vec F S1024x3 .f32) :
    sout10_A_0 c i arg2 harg2 arg3 harg3 arg4 harg4 arg5 harg5 arg6 harg6 hc0 hc1 x0 x1 x2 = k10_pay2 (k10_pay1 (F := F)) x0 x1 := by
  unfold sout10_A_0
  rw [View.read_writes_eq_canon _ _ _ (scover10_A_0 c i arg2 harg2 arg3 harg3 arg4 harg4 arg5 harg5 arg6 harg6 hc0 hc1 x0 x1 x2)]
  unfold kernelRun10_A
  dsimp only
  sl_unfold_words
  rw [View.canon_cons_unit_zero (S := S1024x3) hz10, View.readCov_unit_zero (S := S1024x3) _ hz10]
  simp only [View.readAt_eq_ld, harg2.read_unread, harg3.read_unread, View.ld_unit_zero (S := S1024x4096) hz10, View.ld_unit_zero (S := S4096x3) hz10]

set_option maxHeartbeats 400000 in
/-- Case B leaves in the accumulator what it held plus the product of the two input blocks. -/
theorem sout10_B_0_eq (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond10_0 i) (hc1 : cond10_1 i)
    (x0 : Vec F S1024x4096 .bf16) (x1 : Vec F S4096x3 .bf16) (x2 : Vec F S1024x3 .f32) (xs0 : Vec F S1024x3 .f32) :
    sout10_B_0 c i arg2 harg2 arg3 harg3 arg4 harg4 arg5 harg5 arg6 harg6 hc0 hc1 x0 x1 x2 xs0 = k10_pay2 xs0 x0 x1 := by
  unfold sout10_B_0
  rw [View.read_writes_eq_canon _ _ _ (scover10_B_0 c i arg2 harg2 arg3 harg3 arg4 harg4 arg5 harg5 arg6 harg6 hc0 hc1 x0 x1 x2 xs0)]
  unfold kernelRun10_B
  dsimp only
  sl_unfold_words
  rw [View.canon_unit_zero (S := S1024x3) hz10]
  simp only [View.readAt_eq_ld, harg2.read_unread, harg3.read_unread, harg6.read_unread, View.ld_unit_zero (S := S1024x4096) hz10, View.ld_unit_zero (S := S4096x3) hz10, View.ld_unit_zero (S := S1024x3) hz10]

set_option maxHeartbeats 400000 in
/-- Case B leaves in the output's buffer the rectified sum of the new accumulator and the third input block. -/
theorem out10_B_3_eq (c : Dev nD) (i : grid10.Coords) (arg2 : Memref sig .tc .vmem S1024x4096 .bf16) (harg2 : arg2.IsWhole) (arg3 : Memref sig .tc .vmem S4096x3 .bf16) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond10_0 i) (hc1 : cond10_1 i)
    (x0 : Vec F S1024x4096 .bf16) (x1 : Vec F S4096x3 .bf16) (x2 : Vec F S1024x3 .f32) (xs0 : Vec F S1024x3 .f32) :
    out10_B_3 c i arg2 harg2 arg3 harg3 arg4 harg4 arg5 harg5 arg6 harg6 hc0 hc1 x0 x1 x2 xs0 = k10_pay3 (k10_pay2 xs0 x0 x1) x2 := by
  unfold out10_B_3
  rw [View.read_writes_eq_canon _ _ _ (cover10_B_3 c i arg2 harg2 arg3 harg3 arg4 harg4 arg5 harg5 arg6 harg6 hc0 hc1 x0 x1 x2 xs0)]
  unfold kernelRun10_B
  dsimp only
  sl_unfold_words
  rw [View.canon_unit_zero (S := S1024x3) hz10, View.readCov_unit_zero (S := S1024x3) _ hz10]
  simp only [View.readAt_eq_ld, harg2.read_unread, harg3.read_unread, harg4.read_unread, harg6.read_unread, View.ld_unit_zero (S := S1024x4096) hz10, View.ld_unit_zero (S := S4096x3) hz10, View.ld_unit_zero (S := S1024x3) hz10]

section R10
variable (V : (c : Dev nD) → (b : Ref sig .tc) → Buf (Elt F) ((c : Thread nD τ).loc b))

/-- The point before `t` (the point itself at 0, where nothing reads it). -/
def prev10 (t : Fin cfg10.N) : Fin cfg10.N := ⟨t.val - 1, Nat.lt_of_le_of_lt (Nat.sub_le _ _) t.isLt⟩

theorem prev10_even (t : Fin cfg10.N) (h0 : ¬t.val % 2 = 0) : (prev10 t).val % 2 = 0 := by
  show (t.val - 1) % 2 = 0; omega

/-- After an even point the accumulator holds zero plus the product of the point's two blocks. -/
theorem sAt10_even (c : Dev nD) (t : Fin cfg10.N) (h0 : t.val % 2 = 0) :
    sAt10 V c t = k10_pay2 (k10_pay1 (F := F)) (iblk10 V c 0 t) (iblk10 V c 1 t) := by
  unfold sAt10; rw [accAt10_A V c t h0]; dsimp only; unfold sA10
  exact sout10_A_0_eq c (grid10.coords t) (ms10_0 t) (hs10_0 t) (ms10_1 t) (hs10_1 t) (ms10_2 t) (hs10_2 t) (ms10_3 t) (hs10_3 t) scM10_0 (Memref.isWhole_whole _) (hc10A0 t h0) (hc10A1 t h0) (iblk10 V c 0 t) (iblk10 V c 1 t) (iblk10 V c 2 t)

/-- After an odd point it holds what the point before left plus the product of the point's two blocks. -/
theorem sAt10_odd (c : Dev nD) (t : Fin cfg10.N) (h0 : ¬t.val % 2 = 0) :
    sAt10 V c t = k10_pay2 (sAt10 V c (prev10 t)) (iblk10 V c 0 t) (iblk10 V c 1 t) := by
  unfold sAt10; rw [accAt10_B V c t h0]; dsimp only; unfold sB10
  exact sout10_B_0_eq c (grid10.coords t) (ms10_0 t) (hs10_0 t) (ms10_1 t) (hs10_1 t) (ms10_2 t) (hs10_2 t) (ms10_3 t) (hs10_3 t) scM10_0 (Memref.isWhole_whole _) (hc10B0 t h0) (hc10B1 t h0) (iblk10 V c 0 t) (iblk10 V c 1 t) (iblk10 V c 2 t) (accAt10 V c (t.val - 1) (Nat.lt_of_le_of_lt (Nat.sub_le _ _) t.isLt)).2

/-- After an odd point the output's buffer holds the rectified sum of the new accumulator and the third block. -/
theorem outsAt10_odd (c : Dev nD) (t : Fin cfg10.N) (h0 : ¬t.val % 2 = 0) :
    outsAt10 V c t = k10_pay3 (k10_pay2 (sAt10 V c (prev10 t)) (iblk10 V c 0 t) (iblk10 V c 1 t)) (iblk10 V c 2 t) := by
  unfold outsAt10 sAt10; rw [accAt10_B V c t h0]; dsimp only; unfold oB10
  exact out10_B_3_eq c (grid10.coords t) (ms10_0 t) (hs10_0 t) (ms10_1 t) (hs10_1 t) (ms10_2 t) (hs10_2 t) (ms10_3 t) (hs10_3 t) scM10_0 (Memref.isWhole_whole _) (hc10B0 t h0) (hc10B1 t h0) (iblk10 V c 0 t) (iblk10 V c 1 t) (iblk10 V c 2 t) (accAt10 V c (t.val - 1) (Nat.lt_of_le_of_lt (Nat.sub_le _ _) t.isLt)).2

/-- The same in closed form: the two reduction steps of the row block, from zero, then the third block added and
    the sum rectified. -/
theorem outsAt10_odd_closed (c : Dev nD) (t : Fin cfg10.N) (h0 : ¬t.val % 2 = 0) :
    outsAt10 V c t
      = k10_pay3 (k10_pay2 (k10_pay2 (k10_pay1 (F := F)) (iblk10 V c 0 (prev10 t)) (iblk10 V c 1 (prev10 t))) (iblk10 V c 0 t) (iblk10 V c 1 t)) (iblk10 V c 2 t) :=
  (outsAt10_odd V c t h0).trans
    (congrArg (fun s => k10_pay3 (k10_pay2 s (iblk10 V c 0 t) (iblk10 V c 1 t)) (iblk10 V c 2 t)) (sAt10_even V c (prev10 t) (prev10_even t h0)))

end R10

end Cert.KernelIdeal.Hand

end
-- ==== Proof.KI.R10Pay.lean ====
import proofs.«120270_j2259152797813_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! # Region 10: its three payloads read at an index, over the extended reals -/

/-- The block product at an entry: the sum over the 4096 contracted positions of the entries' products. -/
theorem mm10_apply (A : FVec Ideal S1024x4096 .bf16) (B : FVec Ideal S4096x3 .bf16) (a : Fin 1024) (b : Fin 3) :
    FloatOps.matmul dot_S1024x4096_S4096x3_S1024x3_1_0_0_1_n_n none A B (constant (F := Ideal) S1024x3 .f32 0x00000000#32) (ix2 a b)
      = ∑ k : Fin 4096, A (ix2 a k) * B (ix2 k b) := by
  rw [Ideal.matmul_constant_zero_apply, ← Equiv.sum_comp (contrEquiv1 dot_S1024x4096_S4096x3_S1024x3_1_0_0_1_n_n 4096 rfl rfl).symm]
  refine Finset.sum_congr rfl fun k _ => ?_
  have c2 := contrEquiv1_symm_val dot_S1024x4096_S4096x3_S1024x3_1_0_0_1_n_n 4096 rfl rfl k
  have l2 : dot_S1024x4096_S4096x3_S1024x3_1_0_0_1_n_n.lhsIdx (ix2 a b) ((contrEquiv1 _ 4096 rfl rfl).symm k) = ix2 a k := by
    funext ax; apply Fin.ext
    match ax with
    | ⟨0, _⟩ => simp [DotDims.lhsIdx, dot_S1024x4096_S4096x3_S1024x3_1_0_0_1_n_n]; rfl
    | ⟨1, _⟩ => simp [DotDims.lhsIdx, dot_S1024x4096_S4096x3_S1024x3_1_0_0_1_n_n]; exact c2
  have r2 : dot_S1024x4096_S4096x3_S1024x3_1_0_0_1_n_n.rhsIdx (ix2 a b) ((contrEquiv1 _ 4096 rfl rfl).symm k) = ix2 k b := by
    funext ax; apply Fin.ext
    match ax with
    | ⟨0, _⟩ => simp [DotDims.rhsIdx, dot_S1024x4096_S4096x3_S1024x3_1_0_0_1_n_n]; exact c2
    | ⟨1, _⟩ => simp [DotDims.rhsIdx, dot_S1024x4096_S4096x3_S1024x3_1_0_0_1_n_n]; rfl
  rw [l2, r2]

/-- The zero block. -/
theorem pay1_10_apply (i : S1024x3.Idx) : k10_pay1 (F := Ideal) i = 0 := by
  unfold k10_pay1
  simp only [shapeCast_self]
  show Ideal.ofBits .f32 0x00000000#32 = 0
  exact Ideal.ofBits_zero_f32

/-- The accumulation step at an entry: what the accumulator held plus the row-by-column sum of the two blocks. -/
theorem pay2_10_apply (v3 : Vec Ideal S1024x3 .f32) (v10 : Vec Ideal S1024x4096 .bf16) (v6 : Vec Ideal S4096x3 .bf16)
    (a : Fin 1024) (b : Fin 3) :
    k10_pay2 (F := Ideal) v3 v10 v6 (ix2 a b) = v3 (ix2 a b) + ∑ k : Fin 4096, v10 (ix2 a k) * v6 (ix2 k b) := by
  unfold k10_pay2
  simp only [shapeCast_self]
  show v3 (ix2 a b) + _ = _
  exact congrArg (v3 (ix2 a b) + ·) (mm10_apply v10 v6 a b)

/-- The epilogue at an entry: the accumulator plus the third block, rectified. -/
theorem pay3_10_apply (v16 : Vec Ideal S1024x3 .f32) (v17 : Vec Ideal S1024x3 .f32) (i : S1024x3.Idx) :
    k10_pay3 (F := Ideal) v16 v17 i = max (v16 i + v17 i) 0 := by
  unfold k10_pay3
  simp only [shapeCast_self]
  show max (v16 i + v17 i) (Ideal.ofBits .f32 0x00000000#32) = _
  rw [Ideal.ofBits_zero_f32]

/-- The result, entry by entry: the rectified sum of the third array's entry and the product of row `p` of the
    first array with column `q` of the second over all 8192 contracted positions. -/
def G10 (A0 : S8192x8192.Idx → EReal) (A1 : S8192x3.Idx → EReal) (A2 : S8192x3.Idx → EReal) : S8192x3.Idx → EReal :=
  fun i => max (A2 i + ∑ k : Fin 8192, A0 (ix2 (i 0) k) * A1 (ix2 k (i 1))) 0

/-- A sum over the 8192 contracted positions is the sum over its two halves. -/
theorem sum_halves10 (f : Fin 8192 → EReal) :
    ∑ k : Fin 8192, f k = ∑ k : Fin 4096, f (Fin.castAdd 4096 k) + ∑ k : Fin 4096, f (Fin.natAdd 4096 k) :=
  Fin.sum_univ_add (M := EReal) (a := 4096) (b := 4096) f

/-- ONE ENTRY of what an odd point writes back. The accumulator starts from zero, takes the first halves' product
    (blocks `x0'`, `x1'`) and then the second halves' (`x0`, `x1`); the third block `x2` is added and the sum
    rectified. When the five blocks are the cuts of the arrays `A0`, `A1`, `A2` at row `p` and column `b`, this is the
    entry (p, b) of `G10`: zero is neutral, the two half sums join, and the two summands commute. -/
theorem join10 (A0 : S8192x8192.Idx → EReal) (A1 : S8192x3.Idx → EReal) (A2 : S8192x3.Idx → EReal)
    (x0' x0 : Vec Ideal S1024x4096 .bf16) (x1' x1 : Vec Ideal S4096x3 .bf16) (x2 : Vec Ideal S1024x3 .f32)
    (r : Fin 1024) (b : Fin 3) (p : Fin 8192)
    (h0' : ∀ k : Fin 4096, x0' (ix2 r k) = A0 (ix2 p (Fin.castAdd 4096 k)))
    (h0 : ∀ k : Fin 4096, x0 (ix2 r k) = A0 (ix2 p (Fin.natAdd 4096 k)))
    (h1' : ∀ k : Fin 4096, x1' (ix2 k b) = A1 (ix2 (Fin.castAdd 4096 k) b))
    (h1 : ∀ k : Fin 4096, x1 (ix2 k b) = A1 (ix2 (Fin.natAdd 4096 k) b))
    (h2 : x2 (ix2 r b) = A2 (ix2 p b)) :
    k10_pay3 (F := Ideal) (k10_pay2 (k10_pay2 (k10_pay1 (F := Ideal)) x0' x1') x0 x1) x2 (ix2 r b) = G10 A0 A1 A2 (ix2 p b) := by
  rw [pay3_10_apply, pay2_10_apply, pay2_10_apply, pay1_10_apply, zero_add, h2]
  rw [Finset.sum_congr rfl (fun k _ => by rw [h0' k, h1' k] : ∀ k ∈ Finset.univ, x0' (ix2 r k) * x1' (ix2 k b) = A0 (ix2 p (Fin.castAdd 4096 k)) * A1 (ix2 (Fin.castAdd 4096 k) b))]
  rw [Finset.sum_congr rfl (fun k _ => by rw [h0 k, h1 k] : ∀ k ∈ Finset.univ, x0 (ix2 r k) * x1 (ix2 k b) = A0 (ix2 p (Fin.natAdd 4096 k)) * A1 (ix2 (Fin.natAdd 4096 k) b))]
  show _ = max (A2 (ix2 p b) + ∑ k : Fin 8192, A0 (ix2 p k) * A1 (ix2 k b)) 0
  rw [sum_halves10 (fun k => A0 (ix2 p k) * A1 (ix2 k b)), add_comm]

end Cert.KernelIdeal.Hand

end
-- ==== Proof.KI.R10Final.lean ====
import proofs.«120270_j2259152797813_2_alg».proof.Proof.KI.R10Val
import proofs.«120270_j2259152797813_2_alg».proof.Proof.KI.R10Pay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.ValueIdx
open scoped BigOperators

variable (V : (c : Dev nD) → (b : Ref sig .tc) → Buf (Elt Ideal) ((c : Thread nD τ).loc b))

/-! # Region 10: its output array after the region, as one function of the three input arrays -/

/-- The four windows' block indices at point `t = 2·i + k` of the (8, 2) grid: the row block `i` and the half `k` of
    the contracted axis. Decided over the grid. -/
theorem idx_facts10 : ∀ t : Fin cfg10.N,
    win10_0.index t (0 : Fin 2) = t.val / 2 ∧ win10_0.index t (1 : Fin 2) = t.val % 2
    ∧ win10_1.index t (0 : Fin 2) = t.val % 2 ∧ win10_1.index t (1 : Fin 2) = 0
    ∧ win10_2.index t (0 : Fin 2) = t.val / 2 ∧ win10_2.index t (1 : Fin 2) = 0
    ∧ win10_3.index t (0 : Fin 2) = t.val / 2 ∧ win10_3.index t (1 : Fin 2) = 0 :=
  (by decide +kernel : ∀ t : Fin grid10.N, _)

/-- An entry of the first window's block is the entry of its array at row `1024·(t/2) + r`, column `4096·(t%2) + k`. -/
theorem iblk10_0_apply (c : Dev nD) (t : Fin cfg10.N) (r : Fin 1024) (k : Fin 4096) (p q : Fin 8192)
    (hp : p.val = 1024 * (t.val / 2) + r.val) (hq : q.val = 4096 * (t.val % 2) + k.val) :
    (iblk10 V c 0 t : Vec Ideal S1024x4096 .bf16) (ix2 r k) = (V c (Pipeline.arrRef spec10 0) : S8192x8192.Idx → EReal) (ix2 p q) := by
  obtain ⟨e0, e1, -⟩ := idx_facts10 t
  show V c (Pipeline.arrRef spec10 0) (((cfg10.win 0).blk t).view.emb (ix2 r k)) = _
  congr 1
  funext a; apply Fin.ext
  match a with
  | ⟨0, _⟩ => show win10_0.index t (0 : Fin 2) * 1024 + 1 * r.val = p.val; rw [e0, hp]; omega
  | ⟨1, _⟩ => show win10_0.index t (1 : Fin 2) * 4096 + 1 * k.val = q.val; rw [e1, hq]; omega

/-- An entry of the second window's block: row `4096·(t%2) + k` of its array, the same column. -/
theorem iblk10_1_apply (c : Dev nD) (t : Fin cfg10.N) (k : Fin 4096) (b : Fin 3) (q : Fin 8192)
    (hq : q.val = 4096 * (t.val % 2) + k.val) :
    (iblk10 V c 1 t : Vec Ideal S4096x3 .bf16) (ix2 k b) = (V c (Pipeline.arrRef spec10 1) : S8192x3.Idx → EReal) (ix2 q b) := by
  obtain ⟨-, -, e0, e1, -⟩ := idx_facts10 t
  show V c (Pipeline.arrRef spec10 1) (((cfg10.win 1).blk t).view.emb (ix2 k b)) = _
  congr 1
  funext a; apply Fin.ext
  match a with
  | ⟨0, _⟩ => show win10_1.index t (0 : Fin 2) * 4096 + 1 * k.val = q.val; rw [e0, hq]; omega
  | ⟨1, _⟩ => show win10_1.index t (1 : Fin 2) * 3 + 1 * b.val = b.val; rw [e1]; omega

/-- An entry of the third window's block: row `1024·(t/2) + r` of its array, the same column. -/
theorem iblk10_2_apply (c : Dev nD) (t : Fin cfg10.N) (r : Fin 1024) (b : Fin 3) (p : Fin 8192)
    (hp : p.val = 1024 * (t.val / 2) + r.val) :
    (iblk10 V c 2 t : Vec Ideal S1024x3 .f32) (ix2 r b) = (V c (Pipeline.arrRef spec10 2) : S8192x3.Idx → EReal) (ix2 p b) := by
  obtain ⟨-, -, -, -, e0, e1, -⟩ := idx_facts10 t
  show V c (Pipeline.arrRef spec10 2) (((cfg10.win 2).blk t).view.emb (ix2 r b)) = _
  congr 1
  funext a; apply Fin.ext
  match a with
  | ⟨0, _⟩ => show win10_2.index t (0 : Fin 2) * 1024 + 1 * r.val = p.val; rw [e0, hp]; omega
  | ⟨1, _⟩ => show win10_2.index t (1 : Fin 2) * 3 + 1 * b.val = b.val; rw [e1]; omega

/-- The row of the array that row `r` of point `t`'s block is. -/
theorem row_lt10 (t : Fin cfg10.N) (r : Fin 1024) : 1024 * (t.val / 2) + r.val < 8192 := by
  have hN : t.val < 16 := lt_of_lt_of_eq t.isLt (show cfg10.N = 16 from N_10)
  have hr := r.isLt; omega

set_option maxHeartbeats 1000000 in
/-- WHAT AN ODD POINT WRITES BACK is its block of `G10` of the three arrays as the region finds them. -/
theorem flushed10_eq (c : Dev nD) (t : Fin cfg10.N) (hf : (cfg10.win 3).flush t = true) :
    (dat10 V c).flushed 3 t
      = ((cfg10.win 3).blk t).view.read (Elt Ideal)
          (G10 (V c (Pipeline.arrRef spec10 0)) (V c (Pipeline.arrRef spec10 1)) (V c (Pipeline.arrRef spec10 2))) := by
  have h1 : t.val % 2 = 1 := (flush10_3 t).mp hf
  have h0 : ¬t.val % 2 = 0 := by omega
  have hN : t.val < 16 := lt_of_lt_of_eq t.isLt (show cfg10.N = 16 from N_10)
  obtain ⟨-, -, -, -, -, -, e0, e1⟩ := idx_facts10 t
  show (cfg10.win 3).cut (grid10.coords t) ((dat10 V c).after 3 t) = _
  rw [show (dat10 V c).after 3 t = outsAt10 V c t from by dsimp only [dat10]]
  rw [outsAt10_odd_closed V c t h0]
  funext j
  obtain ⟨r, b, rfl⟩ : ∃ (r : Fin 1024) (b : Fin 3), j = ix2 r b := ⟨j 0, j 1, eq_ix2 j⟩
  have hemb : ((cfg10.win 3).blk t).view.emb (ix2 r b) = ix2 (⟨1024 * (t.val / 2) + r.val, row_lt10 t r⟩ : Fin 8192) b := by
    funext a; apply Fin.ext
    match a with
    | ⟨0, _⟩ => show win10_3.index t (0 : Fin 2) * 1024 + 1 * r.val = 1024 * (t.val / 2) + r.val; rw [e0]; omega
    | ⟨1, _⟩ => show win10_3.index t (1 : Fin 2) * 3 + 1 * b.val = b.val; rw [e1]; omega
  show k10_pay3 (F := Ideal) (k10_pay2 (k10_pay2 (k10_pay1 (F := Ideal)) (iblk10 V c 0 (prev10 t)) (iblk10 V c 1 (prev10 t))) (iblk10 V c 0 t) (iblk10 V c 1 t)) (iblk10 V c 2 t) (ix2 r b)
    = G10 (V c (Pipeline.arrRef spec10 0)) (V c (Pipeline.arrRef spec10 1)) (V c (Pipeline.arrRef spec10 2)) (((cfg10.win 3).blk t).view.emb (ix2 r b))
  rw [hemb]
  have hpv : (prev10 t).val = t.val - 1 := rfl
  exact join10 (V c (Pipeline.arrRef spec10 0)) (V c (Pipeline.arrRef spec10 1)) (V c (Pipeline.arrRef spec10 2))
    (iblk10 V c 0 (prev10 t)) (iblk10 V c 0 t) (iblk10 V c 1 (prev10 t)) (iblk10 V c 1 t) (iblk10 V c 2 t) r b
    ⟨1024 * (t.val / 2) + r.val, row_lt10 t r⟩
    (fun k => iblk10_0_apply V c (prev10 t) r k _ (Fin.castAdd 4096 k)
      (by show 1024 * (t.val / 2) + r.val = 1024 * ((prev10 t).val / 2) + r.val; rw [hpv]; omega)
      (by show k.val = 4096 * ((prev10 t).val % 2) + k.val; rw [hpv]; omega))
    (fun k => iblk10_0_apply V c t r k _ (Fin.natAdd 4096 k) rfl
      (by show 4096 + k.val = 4096 * (t.val % 2) + k.val; omega))
    (fun k => iblk10_1_apply V c (prev10 t) k b (Fin.castAdd 4096 k)
      (by show k.val = 4096 * ((prev10 t).val % 2) + k.val; rw [hpv]; omega))
    (fun k => iblk10_1_apply V c t k b (Fin.natAdd 4096 k)
      (by show 4096 + k.val = 4096 * (t.val % 2) + k.val; omega))
    (iblk10_2_apply V c t r b _ rfl)

/-- An index of the output array is in point `t`'s block iff each coordinate is in the block's range on its axis. -/
theorem mem_blk10 (t : Fin cfg10.N) (i : S8192x3.Idx) :
    i ∈ ((cfg10.win 3).blk t).view.set ↔ ∀ a : Fin 2, win10_3.index t a * S1024x3.size a ≤ (i a).val ∧ (i a).val < win10_3.index t a * S1024x3.size a + S1024x3.size a := by
  show i ∈ ((View.whole (Pipeline.arrRef spec10 3)).slice (win10_3.rect t)).set ↔ _
  rw [View.set_slice_whole, Rect.mem_set_unit]
  exact Iff.rfl

/-- Every entry of the output array is in the block some odd point writes back: row `p` at point `2·(p / 1024) + 1`. -/
theorem cover10 (i : S8192x3.Idx) : ∃ t : Fin cfg10.N, (cfg10.win 3).flush t = true ∧ i ∈ ((cfg10.win 3).blk t).view.set := by
  have hi0 : (i 0).val < 8192 := idx2_lt0 i
  have hi1 : (i 1).val < 3 := idx2_lt1 i
  have hlt : 2 * ((i 0).val / 1024) + 1 < cfg10.N := by rw [show cfg10.N = 16 from N_10]; omega
  refine ⟨⟨2 * ((i 0).val / 1024) + 1, hlt⟩, (flush10_3 _).mpr (by show (2 * ((i 0).val / 1024) + 1) % 2 = 1; omega), ?_⟩
  obtain ⟨-, -, -, -, -, -, e0, e1⟩ := idx_facts10 ⟨2 * ((i 0).val / 1024) + 1, hlt⟩
  have e0' : win10_3.index ⟨2 * ((i 0).val / 1024) + 1, hlt⟩ (0 : Fin 2) = (i 0).val / 1024 := by rw [e0]; show (2 * ((i 0).val / 1024) + 1) / 2 = _; omega
  rw [mem_blk10]
  intro a
  match a with
  | ⟨0, _⟩ => show win10_3.index _ (0 : Fin 2) * 1024 ≤ (i 0).val ∧ (i 0).val < win10_3.index _ (0 : Fin 2) * 1024 + 1024; rw [e0']; omega
  | ⟨1, _⟩ => show win10_3.index _ (1 : Fin 2) * 3 ≤ (i 1).val ∧ (i 1).val < win10_3.index _ (1 : Fin 2) * 3 + 3; rw [e1]; omega

/-- THE OUTPUT ARRAY after the region: `G10` of the three input arrays as the region finds them. -/
theorem final3_10 (c : Dev nD) :
    (dat10 V c).arrAt 3 cfg10.N = G10 (V c (Pipeline.arrRef spec10 0)) (V c (Pipeline.arrRef spec10 1)) (V c (Pipeline.arrRef spec10 2)) :=
  (dat10 V c).arrAt_eq_of_cover 3 _ (fun t hf => flushed10_eq V c t hf) cover10

end Cert.KernelIdeal.Hand

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.Tail.lean ====
/-
  The tail of the value claim: from the 8192 x 259 input of the graph convolutions to the two results.

  Both programs apply the same seven graph convolutions relu(x W0 + A (x W1)), the same three residual sums, tanh and
  the final sum with the vertex positions.  In the kernel program every adjacency product A (x W1) is a kernel region
  whose result, read at an entry, is max (x W0 + Σ_k A(p,k) (x W1)(k,q)) 0 — the whole contracted axis, its two halves
  re-joined — which is the reference's relu (x W0 + A (x W1)) at that entry.  So once the two programs agree on the
  projected features they agree on both results.
-/
import proofs.«120270_j2259152797813_2_alg».proof.Proof.KI.Run
import proofs.«120270_j2259152797813_2_alg».proof.Proof.KI.R4Final
import proofs.«120270_j2259152797813_2_alg».proof.Proof.KI.R5Final
import proofs.«120270_j2259152797813_2_alg».proof.Proof.KI.R6Final
import proofs.«120270_j2259152797813_2_alg».proof.Proof.KI.R7Final
import proofs.«120270_j2259152797813_2_alg».proof.Proof.KI.R8Final
import proofs.«120270_j2259152797813_2_alg».proof.Proof.KI.R9Final
import proofs.«120270_j2259152797813_2_alg».proof.Proof.KI.R10Final
import proofs.«120270_j2259152797813_2_alg».proof.Proof.RefRunPatched
import proofs.«120270_j2259152797813_2_alg».proof.Proof.LibPlainMatmul
import Idealize.ShloMosaic.Lib.ValueIdx
import Idealize.ShloMosaic.Lib.Pipeline.Value
import Idealize.ShloMosaic.PureOps.Ideal.Laws

set_option maxRecDepth 16384

noncomputable section

open scoped BigOperators

namespace Cert.Proof.Tail

open Idealize.ShloMosaic Idealize.ShloMosaic.TcCoe Idealize.SL.Sem Idealize.ShloMosaic.ValueIdx

/-- At an entry the region's closed form is the host's relu (x + A v): 128 columns. -/
theorem gc_bridge (A : FVec Ideal Cert.ReferenceIdeal.S8192x8192 .f32) (v x : FVec Ideal Cert.ReferenceIdeal.S8192x128 .f32) :
    (fun i : Cert.ReferenceIdeal.S8192x128.Idx => max (x i + ∑ k : Fin 8192, A (ix2 (i 0) k) * v (ix2 k (i 1))) 0)
      = maximumf (addf x (Host.dotGeneral Cert.ReferenceIdeal.dot_S8192x8192_S8192x128_S8192x128_1_0_0_1_n_n none A v))
          (broadcastInDim Cert.ReferenceIdeal.S8192x128 ![] Cert.ReferenceIdeal.Facts₀.bcast_S_S8192x128 (constant Cert.ReferenceIdeal.S_ .f32 0x00000000#32)) := by
  funext i
  obtain ⟨p, q, rfl⟩ : ∃ (p : Fin 8192) (q : Fin 128), i = ix2 p q := ⟨i 0, i 1, eq_ix2 i⟩
  rw [maximumf_apply, addf_apply]
  have hd : Host.dotGeneral Cert.ReferenceIdeal.dot_S8192x8192_S8192x128_S8192x128_1_0_0_1_n_n none A v (ix2 p q)
      = ∑ k : Fin 8192, A (ix2 p k) * v (ix2 k q) := Cert.LibPlainMatmul.dotGeneral_apply 8192 8192 128 none A v p q
  have hz : broadcastInDim Cert.ReferenceIdeal.S8192x128 ![] Cert.ReferenceIdeal.Facts₀.bcast_S_S8192x128 (constant (F := Ideal) Cert.ReferenceIdeal.S_ .f32 0x00000000#32) (ix2 p q) = 0 := by
    rw [broadcastInDim_apply _ _ _ _ (fun d => d.elim0) (fun a => a.elim0), constant_apply, Ideal.ofBits_zero_f32]
  rw [hd, hz]

/-- The same with 3 columns. -/
theorem gc_bridge3 (A : FVec Ideal Cert.ReferenceIdeal.S8192x8192 .f32) (v x : FVec Ideal Cert.ReferenceIdeal.S8192x3 .f32) :
    (fun i : Cert.ReferenceIdeal.S8192x3.Idx => max (x i + ∑ k : Fin 8192, A (ix2 (i 0) k) * v (ix2 k (i 1))) 0)
      = maximumf (addf x (Host.dotGeneral Cert.ReferenceIdeal.dot_S8192x8192_S8192x3_S8192x3_1_0_0_1_n_n none A v))
          (broadcastInDim Cert.ReferenceIdeal.S8192x3 ![] Cert.ReferenceIdeal.Facts₀.bcast_S_S8192x3 (constant Cert.ReferenceIdeal.S_ .f32 0x00000000#32)) := by
  funext i
  obtain ⟨p, q, rfl⟩ : ∃ (p : Fin 8192) (q : Fin 3), i = ix2 p q := ⟨i 0, i 1, eq_ix2 i⟩
  rw [maximumf_apply, addf_apply]
  have hd : Host.dotGeneral Cert.ReferenceIdeal.dot_S8192x8192_S8192x3_S8192x3_1_0_0_1_n_n none A v (ix2 p q)
      = ∑ k : Fin 8192, A (ix2 p k) * v (ix2 k q) := Cert.LibPlainMatmul.dotGeneral_apply 8192 8192 3 none A v p q
  have hz : broadcastInDim Cert.ReferenceIdeal.S8192x3 ![] Cert.ReferenceIdeal.Facts₀.bcast_S_S8192x3 (constant (F := Ideal) Cert.ReferenceIdeal.S_ .f32 0x00000000#32) (ix2 p q) = 0 := by
    rw [broadcastInDim_apply _ _ _ _ (fun d => d.elim0) (fun a => a.elim0), constant_apply, Ideal.ofBits_zero_f32]
  rw [hd, hz]

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

theorem rd21_v272 : (show FVec Ideal Cert.KernelIdeal.S8192x128 .f32 from Cert.KernelIdeal.Hand.W21 (F := Ideal) m ρ c (Proc.devRef .tc Cert.KernelIdeal.main_v272)) = addf (show FVec Ideal Cert.KernelIdeal.S8192x128 .f32 from Cert.KernelIdeal.Hand.W20 (F := Ideal) m ρ c (Proc.devRef .tc Cert.KernelIdeal.main_v256)) (show FVec Ideal Cert.KernelIdeal.S8192x128 .f32 from Cert.KernelIdeal.Hand.W20 (F := Ideal) m ρ c (Proc.devRef .tc Cert.KernelIdeal.main_v271)) := by
  show StableHlo.after (Cert.KernelIdeal.Gen.hostOps4 (F := Ideal)) (Cert.KernelIdeal.Hand.W20 (F := Ideal) m ρ c) (Proc.devRef .tc Cert.KernelIdeal.main_v272) = _
  generalize Cert.KernelIdeal.Hand.W20 (F := Ideal) m ρ c = W
  after_results <;> rfl
theorem rd21_v273 : (show FVec Ideal Cert.KernelIdeal.S8192x259 .f32 from Cert.KernelIdeal.Hand.W21 (F := Ideal) m ρ c (Proc.devRef .tc Cert.KernelIdeal.main_v273)) = (concatenate Cert.KernelIdeal.S8192x259 1 [⟨Cert.KernelIdeal.S8192x128, (show FVec Ideal Cert.KernelIdeal.S8192x128 .f32 from Cert.KernelIdeal.Hand.W20 (F := Ideal) m ρ c (Proc.devRef .tc Cert.KernelIdeal.main_arg6))⟩, ⟨Cert.KernelIdeal.S8192x3, (show FVec Ideal Cert.KernelIdeal.S8192x3 .f32 from Cert.KernelIdeal.Hand.W20 (F := Ideal) m ρ c (Proc.devRef .tc Cert.KernelIdeal.main_arg5))⟩, ⟨Cert.KernelIdeal.S8192x128, (addf (show FVec Ideal Cert.KernelIdeal.S8192x128 .f32 from Cert.KernelIdeal.Hand.W20 (F := Ideal) m ρ c (Proc.devRef .tc Cert.KernelIdeal.main_v256)) (show FVec Ideal Cert.KernelIdeal.S8192x128 .f32 from Cert.KernelIdeal.Hand.W20 (F := Ideal) m ρ c (Proc.devRef .tc Cert.KernelIdeal.main_v271)))⟩] Cert.KernelIdeal.Facts₀.concatenates_S8192x128_S8192x3_S8192x128_S8192x259_d1) := by
  show StableHlo.after (Cert.KernelIdeal.Gen.hostOps4 (F := Ideal)) (Cert.KernelIdeal.Hand.W20 (F := Ideal) m ρ c) (Proc.devRef .tc Cert.KernelIdeal.main_v273) = _
  generalize Cert.KernelIdeal.Hand.W20 (F := Ideal) m ρ c = W
  after_results <;> rfl
theorem rd21_v274 : (show FVec Ideal Cert.KernelIdeal.S8192x128 .f32 from Cert.KernelIdeal.Hand.W21 (F := Ideal) m ρ c (Proc.devRef .tc Cert.KernelIdeal.main_v274)) = (Host.dotGeneral Cert.KernelIdeal.dot_S8192x259_S259x128_S8192x128_1_0_0_1_n_n none (concatenate Cert.KernelIdeal.S8192x259 1 [⟨Cert.KernelIdeal.S8192x128, (show FVec Ideal Cert.KernelIdeal.S8192x128 .f32 from Cert.KernelIdeal.Hand.W20 (F := Ideal) m ρ c (Proc.devRef .tc Cert.KernelIdeal.main_arg6))⟩, ⟨Cert.KernelIdeal.S8192x3, (show FVec Ideal Cert.KernelIdeal.S8192x3 .f32 from Cert.KernelIdeal.Hand.W20 (F := Ideal) m ρ c (Proc.devRef .tc Cert.KernelIdeal.main_arg5))⟩, ⟨Cert.KernelIdeal.S8192x128, (addf (show FVec Ideal Cert.KernelIdeal.S8192x128 .f32 from Cert.KernelIdeal.Hand.W20 (F := Ideal) m ρ c (Proc.devRef .tc Cert.KernelIdeal.main_v256)) (show FVec Ideal Cert.KernelIdeal.S8192x128 .f32 from Cert.KernelIdeal.Hand.W20 (F := Ideal) m ρ c (Proc.devRef .tc Cert.KernelIdeal.main_v271)))⟩] Cert.KernelIdeal.Facts₀.concatenates_S8192x128_S8192x3_S8192x128_S8192x259_d1) (show FVec Ideal Cert.KernelIdeal.S259x128 .f32 from Cert.KernelIdeal.Hand.W20 (F := Ideal) m ρ c (Proc.devRef .tc Cert.KernelIdeal.main_arg12))) := by
  show StableHlo.after (Cert.KernelIdeal.Gen.hostOps4 (F := Ideal)) (Cert.KernelIdeal.Hand.W20 (F := Ideal) m ρ c) (Proc.devRef .tc Cert.KernelIdeal.main_v274) = _
  generalize Cert.KernelIdeal.Hand.W20 (F := Ideal) m ρ c = W
  after_results <;> rfl
theorem rd21_v275 : (show FVec Ideal Cert.KernelIdeal.S8192x128 .f32 from Cert.KernelIdeal.Hand.W21 (F := Ideal) m ρ c (Proc.devRef .tc Cert.KernelIdeal.main_v275)) = (Host.dotGeneral Cert.KernelIdeal.dot_S8192x259_S259x128_S8192x128_1_0_0_1_n_n none (concatenate Cert.KernelIdeal.S8192x259 1 [⟨Cert.KernelIdeal.S8192x128, (show FVec Ideal Cert.KernelIdeal.S8192x128 .f32 from Cert.KernelIdeal.Hand.W20 (F := Ideal) m ρ c (Proc.devRef .tc Cert.KernelIdeal.main_arg6))⟩, ⟨Cert.KernelIdeal.S8192x3, (show FVec Ideal Cert.KernelIdeal.S8192x3 .f32 from Cert.KernelIdeal.Hand.W20 (F := Ideal) m ρ c (Proc.devRef .tc Cert.KernelIdeal.main_arg5))⟩, ⟨Cert.KernelIdeal.S8192x128, (addf (show FVec Ideal Cert.KernelIdeal.S8192x128 .f32 from Cert.KernelIdeal.Hand.W20 (F := Ideal) m ρ c (Proc.devRef .tc Cert.KernelIdeal.main_v256)) (show FVec Ideal Cert.KernelIdeal.S8192x128 .f32 from Cert.KernelIdeal.Hand.W20 (F := Ideal) m ρ c (Proc.devRef .tc Cert.KernelIdeal.main_v271)))⟩] Cert.KernelIdeal.Facts₀.concatenates_S8192x128_S8192x3_S8192x128_S8192x259_d1) (show FVec Ideal Cert.KernelIdeal.S259x128 .f32 from Cert.KernelIdeal.Hand.W20 (F := Ideal) m ρ c (Proc.devRef .tc Cert.KernelIdeal.main_arg8))) := by
  show StableHlo.after (Cert.KernelIdeal.Gen.hostOps4 (F := Ideal)) (Cert.KernelIdeal.Hand.W20 (F := Ideal) m ρ c) (Proc.devRef .tc Cert.KernelIdeal.main_v275) = _
  generalize Cert.KernelIdeal.Hand.W20 (F := Ideal) m ρ c = W
  after_results <;> rfl
theorem rd21_v277 : (show FVec Ideal Cert.KernelIdeal.S8192x128 .bf16 from Cert.KernelIdeal.Hand.W21 (F := Ideal) m ρ c (Proc.devRef .tc Cert.KernelIdeal.main_v277)) = (truncf .bf16 (Host.dotGeneral Cert.KernelIdeal.dot_S8192x259_S259x128_S8192x128_1_0_0_1_n_n none (concatenate Cert.KernelIdeal.S8192x259 1 [⟨Cert.KernelIdeal.S8192x128, (show FVec Ideal Cert.KernelIdeal.S8192x128 .f32 from Cert.KernelIdeal.Hand.W20 (F := Ideal) m ρ c (Proc.devRef .tc Cert.KernelIdeal.main_arg6))⟩, ⟨Cert.KernelIdeal.S8192x3, (show FVec Ideal Cert.KernelIdeal.S8192x3 .f32 from Cert.KernelIdeal.Hand.W20 (F := Ideal) m ρ c (Proc.devRef .tc Cert.KernelIdeal.main_arg5))⟩, ⟨Cert.KernelIdeal.S8192x128, (addf (show FVec Ideal Cert.KernelIdeal.S8192x128 .f32 from Cert.KernelIdeal.Hand.W20 (F := Ideal) m ρ c (Proc.devRef .tc Cert.KernelIdeal.main_v256)) (show FVec Ideal Cert.KernelIdeal.S8192x128 .f32 from Cert.KernelIdeal.Hand.W20 (F := Ideal) m ρ c (Proc.devRef .tc Cert.KernelIdeal.main_v271)))⟩] Cert.KernelIdeal.Facts₀.concatenates_S8192x128_S8192x3_S8192x128_S8192x259_d1) (show FVec Ideal Cert.KernelIdeal.S259x128 .f32 from Cert.KernelIdeal.Hand.W20 (F := Ideal) m ρ c (Proc.devRef .tc Cert.KernelIdeal.main_arg9))) Cert.KernelIdeal.Facts₀.bitsLt_bf16_f32) := by
  show StableHlo.after (Cert.KernelIdeal.Gen.hostOps4 (F := Ideal)) (Cert.KernelIdeal.Hand.W20 (F := Ideal) m ρ c) (Proc.devRef .tc Cert.KernelIdeal.main_v277) = _
  generalize Cert.KernelIdeal.Hand.W20 (F := Ideal) m ρ c = W
  after_results <;> rfl
theorem kp21_v0 : (show FVec Ideal Cert.KernelIdeal.S8192x8192 .bf16 from Cert.KernelIdeal.Hand.W21 (F := Ideal) m ρ c (Proc.devRef .tc Cert.KernelIdeal.main_v0)) = (show FVec Ideal Cert.KernelIdeal.S8192x8192 .bf16 from Cert.KernelIdeal.Hand.W20 (F := Ideal) m ρ c (Proc.devRef .tc Cert.KernelIdeal.main_v0)) :=
  StableHlo.after_of_forall_not_mem (b := Proc.devRef .tc Cert.KernelIdeal.main_v0) _ _ (List.forall_iff_forall_mem.mp (by
    simp only [Cert.KernelIdeal.Gen.hostOps4, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem rd22_v278 : (show FVec Ideal Cert.KernelIdeal.S8192x128 .f32 from Cert.KernelIdeal.Hand.W22 (F := Ideal) m ρ c (Proc.devRef .tc Cert.KernelIdeal.main_v278)) = Cert.KernelIdeal.Hand.G4 (show FVec Ideal Cert.KernelIdeal.S8192x8192 .bf16 from Cert.KernelIdeal.Hand.W21 (F := Ideal) m ρ c (Proc.devRef .tc Cert.KernelIdeal.main_v0)) (show FVec Ideal Cert.KernelIdeal.S8192x128 .bf16 from Cert.KernelIdeal.Hand.W21 (F := Ideal) m ρ c (Proc.devRef .tc Cert.KernelIdeal.main_v277)) (show FVec Ideal Cert.KernelIdeal.S8192x128 .f32 from Cert.KernelIdeal.Hand.W21 (F := Ideal) m ρ c (Proc.devRef .tc Cert.KernelIdeal.main_v275)) :=
  (Cert.KernelIdeal.Hand.W22_arr (F := Ideal) m ρ c 3).trans (Cert.KernelIdeal.Hand.final3_4 (Cert.KernelIdeal.Hand.V21 (F := Ideal) m ρ) c)
theorem kp22_v0 : (show FVec Ideal Cert.KernelIdeal.S8192x8192 .bf16 from Cert.KernelIdeal.Hand.W22 (F := Ideal) m ρ c (Proc.devRef .tc Cert.KernelIdeal.main_v0)) = (show FVec Ideal Cert.KernelIdeal.S8192x8192 .bf16 from Cert.KernelIdeal.Hand.W21 (F := Ideal) m ρ c (Proc.devRef .tc Cert.KernelIdeal.main_v0)) :=
  (Cert.KernelIdeal.Hand.W22_arr (F := Ideal) m ρ c 0).trans (((Cert.KernelIdeal.Hand.dat4 (Cert.KernelIdeal.Hand.V21 (F := Ideal) m ρ) c).arrAt_in 0 rfl _).trans (Cert.KernelIdeal.Hand.A_eq4 (Cert.KernelIdeal.Hand.V21 (F := Ideal) m ρ) c 0))
theorem kp22_v274 : (show FVec Ideal Cert.KernelIdeal.S8192x128 .f32 from Cert.KernelIdeal.Hand.W22 (F := Ideal) m ρ c (Proc.devRef .tc Cert.KernelIdeal.main_v274)) = (show FVec Ideal Cert.KernelIdeal.S8192x128 .f32 from Cert.KernelIdeal.Hand.W21 (F := Ideal) m ρ c (Proc.devRef .tc Cert.KernelIdeal.main_v274)) :=
  Cert.KernelIdeal.Hand.W22_of_ne (F := Ideal) m ρ c Cert.KernelIdeal.main_v274 (by decide)
theorem rd23_v279 : (show FVec Ideal Cert.KernelIdeal.S8192x128 .f32 from Cert.KernelIdeal.Hand.W23 (F := Ideal) m ρ c (Proc.devRef .tc Cert.KernelIdeal.main_v279)) = (Host.dotGeneral Cert.KernelIdeal.dot_S8192x128_S128x128_S8192x128_1_0_0_1_n_n none (show FVec Ideal Cert.KernelIdeal.S8192x128 .f32 from Cert.KernelIdeal.Hand.W22 (F := Ideal) m ρ c (Proc.devRef .tc Cert.KernelIdeal.main_v278)) (show FVec Ideal Cert.KernelIdeal.S128x128 .f32 from Cert.KernelIdeal.Hand.W22 (F := Ideal) m ρ c (Proc.devRef .tc Cert.KernelIdeal.main_arg10))) := by
  show StableHlo.after (Cert.KernelIdeal.Gen.hostOps5 (F := Ideal)) (Cert.KernelIdeal.Hand.W22 (F := Ideal) m ρ c) (Proc.devRef .tc Cert.KernelIdeal.main_v279) = _
  generalize Cert.KernelIdeal.Hand.W22 (F := Ideal) m ρ c = W
  after_results <;> rfl
theorem rd23_v281 : (show FVec Ideal Cert.KernelIdeal.S8192x128 .bf16 from Cert.KernelIdeal.Hand.W23 (F := Ideal) m ρ c (Proc.devRef .tc Cert.KernelIdeal.main_v281)) = (truncf .bf16 (Host.dotGeneral Cert.KernelIdeal.dot_S8192x128_S128x128_S8192x128_1_0_0_1_n_n none (show FVec Ideal Cert.KernelIdeal.S8192x128 .f32 from Cert.KernelIdeal.Hand.W22 (F := Ideal) m ρ c (Proc.devRef .tc Cert.KernelIdeal.main_v278)) (show FVec Ideal Cert.KernelIdeal.S128x128 .f32 from Cert.KernelIdeal.Hand.W22 (F := Ideal) m ρ c (Proc.devRef .tc Cert.KernelIdeal.main_arg11))) Cert.KernelIdeal.Facts₀.bitsLt_bf16_f32) := by
  show StableHlo.after (Cert.KernelIdeal.Gen.hostOps5 (F := Ideal)) (Cert.KernelIdeal.Hand.W22 (F := Ideal) m ρ c) (Proc.devRef .tc Cert.KernelIdeal.main_v281) = _
  generalize Cert.KernelIdeal.Hand.W22 (F := Ideal) m ρ c = W
  after_results <;> rfl
theorem kp23_v0 : (show FVec Ideal Cert.KernelIdeal.S8192x8192 .bf16 from Cert.KernelIdeal.Hand.W23 (F := Ideal) m ρ c (Proc.devRef .tc Cert.KernelIdeal.main_v0)) = (show FVec Ideal Cert.KernelIdeal.S8192x8192 .bf16 from Cert.KernelIdeal.Hand.W22 (F := Ideal) m ρ c (Proc.devRef .tc Cert.KernelIdeal.main_v0)) :=
  StableHlo.after_of_forall_not_mem (b := Proc.devRef .tc Cert.KernelIdeal.main_v0) _ _ (List.forall_iff_forall_mem.mp (by
    simp only [Cert.KernelIdeal.Gen.hostOps5, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kp23_v274 : (show FVec Ideal Cert.KernelIdeal.S8192x128 .f32 from Cert.KernelIdeal.Hand.W23 (F := Ideal) m ρ c (Proc.devRef .tc Cert.KernelIdeal.main_v274)) = (show FVec Ideal Cert.KernelIdeal.S8192x128 .f32 from Cert.KernelIdeal.Hand.W22 (F := Ideal) m ρ c (Proc.devRef .tc Cert.KernelIdeal.main_v274)) :=
  StableHlo.after_of_forall_not_mem (b := Proc.devRef .tc Cert.KernelIdeal.main_v274) _ _ (List.forall_iff_forall_mem.mp (by
    simp only [Cert.KernelIdeal.Gen.hostOps5, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem rd24_v282 : (show FVec Ideal Cert.KernelIdeal.S8192x128 .f32 from Cert.KernelIdeal.Hand.W24 (F := Ideal) m ρ c (Proc.devRef .tc Cert.KernelIdeal.main_v282)) = Cert.KernelIdeal.Hand.G5 (show FVec Ideal Cert.KernelIdeal.S8192x8192 .bf16 from Cert.KernelIdeal.Hand.W23 (F := Ideal) m ρ c (Proc.devRef .tc Cert.KernelIdeal.main_v0)) (show FVec Ideal Cert.KernelIdeal.S8192x128 .bf16 from Cert.KernelIdeal.Hand.W23 (F := Ideal) m ρ c (Proc.devRef .tc Cert.KernelIdeal.main_v281)) (show FVec Ideal Cert.KernelIdeal.S8192x128 .f32 from Cert.KernelIdeal.Hand.W23 (F := Ideal) m ρ c (Proc.devRef .tc Cert.KernelIdeal.main_v279)) :=
  (Cert.KernelIdeal.Hand.W24_arr (F := Ideal) m ρ c 3).trans (Cert.KernelIdeal.Hand.final3_5 (Cert.KernelIdeal.Hand.V23 (F := Ideal) m ρ) c)
theorem kp24_v0 : (show FVec Ideal Cert.KernelIdeal.S8192x8192 .bf16 from Cert.KernelIdeal.Hand.W24 (F := Ideal) m ρ c (Proc.devRef .tc Cert.KernelIdeal.main_v0)) = (show FVec Ideal Cert.KernelIdeal.S8192x8192 .bf16 from Cert.KernelIdeal.Hand.W23 (F := Ideal) m ρ c (Proc.devRef .tc Cert.KernelIdeal.main_v0)) :=
  (Cert.KernelIdeal.Hand.W24_arr (F := Ideal) m ρ c 0).trans (((Cert.KernelIdeal.Hand.dat5 (Cert.KernelIdeal.Hand.V23 (F := Ideal) m ρ) c).arrAt_in 0 rfl _).trans (Cert.KernelIdeal.Hand.A_eq5 (Cert.KernelIdeal.Hand.V23 (F := Ideal) m ρ) c 0))
theorem kp24_v274 : (show FVec Ideal Cert.KernelIdeal.S8192x128 .f32 from Cert.KernelIdeal.Hand.W24 (F := Ideal) m ρ c (Proc.devRef .tc Cert.KernelIdeal.main_v274)) = (show FVec Ideal Cert.KernelIdeal.S8192x128 .f32 from Cert.KernelIdeal.Hand.W23 (F := Ideal) m ρ c (Proc.devRef .tc Cert.KernelIdeal.main_v274)) :=
  Cert.KernelIdeal.Hand.W24_of_ne (F := Ideal) m ρ c Cert.KernelIdeal.main_v274 (by decide)
theorem rd25_v283 : (show FVec Ideal Cert.KernelIdeal.S8192x128 .f32 from Cert.KernelIdeal.Hand.W25 (F := Ideal) m ρ c (Proc.devRef .tc Cert.KernelIdeal.main_v283)) = (addf (show FVec Ideal Cert.KernelIdeal.S8192x128 .f32 from Cert.KernelIdeal.Hand.W24 (F := Ideal) m ρ c (Proc.devRef .tc Cert.KernelIdeal.main_v274)) (show FVec Ideal Cert.KernelIdeal.S8192x128 .f32 from Cert.KernelIdeal.Hand.W24 (F := Ideal) m ρ c (Proc.devRef .tc Cert.KernelIdeal.main_v282))) := by
  show StableHlo.after (Cert.KernelIdeal.Gen.hostOps6 (F := Ideal)) (Cert.KernelIdeal.Hand.W24 (F := Ideal) m ρ c) (Proc.devRef .tc Cert.KernelIdeal.main_v283) = _
  generalize Cert.KernelIdeal.Hand.W24 (F := Ideal) m ρ c = W
  after_results <;> rfl
theorem rd25_v284 : (show FVec Ideal Cert.KernelIdeal.S8192x128 .f32 from Cert.KernelIdeal.Hand.W25 (F := Ideal) m ρ c (Proc.devRef .tc Cert.KernelIdeal.main_v284)) = (Host.dotGeneral Cert.KernelIdeal.dot_S8192x128_S128x128_S8192x128_1_0_0_1_n_n none (addf (show FVec Ideal Cert.KernelIdeal.S8192x128 .f32 from Cert.KernelIdeal.Hand.W24 (F := Ideal) m ρ c (Proc.devRef .tc Cert.KernelIdeal.main_v274)) (show FVec Ideal Cert.KernelIdeal.S8192x128 .f32 from Cert.KernelIdeal.Hand.W24 (F := Ideal) m ρ c (Proc.devRef .tc Cert.KernelIdeal.main_v282))) (show FVec Ideal Cert.KernelIdeal.S128x128 .f32 from Cert.KernelIdeal.Hand.W24 (F := Ideal) m ρ c (Proc.devRef .tc Cert.KernelIdeal.main_arg13))) := by
  show StableHlo.after (Cert.KernelIdeal.Gen.hostOps6 (F := Ideal)) (Cert.KernelIdeal.Hand.W24 (F := Ideal) m ρ c) (Proc.devRef .tc Cert.KernelIdeal.main_v284) = _
  generalize Cert.KernelIdeal.Hand.W24 (F := Ideal) m ρ c = W
  after_results <;> rfl
theorem rd25_v286 : (show FVec Ideal Cert.KernelIdeal.S8192x128 .bf16 from Cert.KernelIdeal.Hand.W25 (F := Ideal) m ρ c (Proc.devRef .tc Cert.KernelIdeal.main_v286)) = (truncf .bf16 (Host.dotGeneral Cert.KernelIdeal.dot_S8192x128_S128x128_S8192x128_1_0_0_1_n_n none (addf (show FVec Ideal Cert.KernelIdeal.S8192x128 .f32 from Cert.KernelIdeal.Hand.W24 (F := Ideal) m ρ c (Proc.devRef .tc Cert.KernelIdeal.main_v274)) (show FVec Ideal Cert.KernelIdeal.S8192x128 .f32 from Cert.KernelIdeal.Hand.W24 (F := Ideal) m ρ c (Proc.devRef .tc Cert.KernelIdeal.main_v282))) (show FVec Ideal Cert.KernelIdeal.S128x128 .f32 from Cert.KernelIdeal.Hand.W24 (F := Ideal) m ρ c (Proc.devRef .tc Cert.KernelIdeal.main_arg14))) Cert.KernelIdeal.Facts₀.bitsLt_bf16_f32) := by
  show StableHlo.after (Cert.KernelIdeal.Gen.hostOps6 (F := Ideal)) (Cert.KernelIdeal.Hand.W24 (F := Ideal) m ρ c) (Proc.devRef .tc Cert.KernelIdeal.main_v286) = _
  generalize Cert.KernelIdeal.Hand.W24 (F := Ideal) m ρ c = W
  after_results <;> rfl
theorem kp25_v0 : (show FVec Ideal Cert.KernelIdeal.S8192x8192 .bf16 from Cert.KernelIdeal.Hand.W25 (F := Ideal) m ρ c (Proc.devRef .tc Cert.KernelIdeal.main_v0)) = (show FVec Ideal Cert.KernelIdeal.S8192x8192 .bf16 from Cert.KernelIdeal.Hand.W24 (F := Ideal) m ρ c (Proc.devRef .tc Cert.KernelIdeal.main_v0)) :=
  StableHlo.after_of_forall_not_mem (b := Proc.devRef .tc Cert.KernelIdeal.main_v0) _ _ (List.forall_iff_forall_mem.mp (by
    simp only [Cert.KernelIdeal.Gen.hostOps6, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem rd26_v287 : (show FVec Ideal Cert.KernelIdeal.S8192x128 .f32 from Cert.KernelIdeal.Hand.W26 (F := Ideal) m ρ c (Proc.devRef .tc Cert.KernelIdeal.main_v287)) = Cert.KernelIdeal.Hand.G6 (show FVec Ideal Cert.KernelIdeal.S8192x8192 .bf16 from Cert.KernelIdeal.Hand.W25 (F := Ideal) m ρ c (Proc.devRef .tc Cert.KernelIdeal.main_v0)) (show FVec Ideal Cert.KernelIdeal.S8192x128 .bf16 from Cert.KernelIdeal.Hand.W25 (F := Ideal) m ρ c (Proc.devRef .tc Cert.KernelIdeal.main_v286)) (show FVec Ideal Cert.KernelIdeal.S8192x128 .f32 from Cert.KernelIdeal.Hand.W25 (F := Ideal) m ρ c (Proc.devRef .tc Cert.KernelIdeal.main_v284)) :=
  (Cert.KernelIdeal.Hand.W26_arr (F := Ideal) m ρ c 3).trans (Cert.KernelIdeal.Hand.final3_6 (Cert.KernelIdeal.Hand.V25 (F := Ideal) m ρ) c)
theorem kp26_v0 : (show FVec Ideal Cert.KernelIdeal.S8192x8192 .bf16 from Cert.KernelIdeal.Hand.W26 (F := Ideal) m ρ c (Proc.devRef .tc Cert.KernelIdeal.main_v0)) = (show FVec Ideal Cert.KernelIdeal.S8192x8192 .bf16 from Cert.KernelIdeal.Hand.W25 (F := Ideal) m ρ c (Proc.devRef .tc Cert.KernelIdeal.main_v0)) :=
  (Cert.KernelIdeal.Hand.W26_arr (F := Ideal) m ρ c 0).trans (((Cert.KernelIdeal.Hand.dat6 (Cert.KernelIdeal.Hand.V25 (F := Ideal) m ρ) c).arrAt_in 0 rfl _).trans (Cert.KernelIdeal.Hand.A_eq6 (Cert.KernelIdeal.Hand.V25 (F := Ideal) m ρ) c 0))
theorem kp26_v283 : (show FVec Ideal Cert.KernelIdeal.S8192x128 .f32 from Cert.KernelIdeal.Hand.W26 (F := Ideal) m ρ c (Proc.devRef .tc Cert.KernelIdeal.main_v283)) = (show FVec Ideal Cert.KernelIdeal.S8192x128 .f32 from Cert.KernelIdeal.Hand.W25 (F := Ideal) m ρ c (Proc.devRef .tc Cert.KernelIdeal.main_v283)) :=
  Cert.KernelIdeal.Hand.W26_of_ne (F := Ideal) m ρ c Cert.KernelIdeal.main_v283 (by decide)
theorem rd27_v288 : (show FVec Ideal Cert.KernelIdeal.S8192x128 .f32 from Cert.KernelIdeal.Hand.W27 (F := Ideal) m ρ c (Proc.devRef .tc Cert.KernelIdeal.main_v288)) = (Host.dotGeneral Cert.KernelIdeal.dot_S8192x128_S128x128_S8192x128_1_0_0_1_n_n none (show FVec Ideal Cert.KernelIdeal.S8192x128 .f32 from Cert.KernelIdeal.Hand.W26 (F := Ideal) m ρ c (Proc.devRef .tc Cert.KernelIdeal.main_v287)) (show FVec Ideal Cert.KernelIdeal.S128x128 .f32 from Cert.KernelIdeal.Hand.W26 (F := Ideal) m ρ c (Proc.devRef .tc Cert.KernelIdeal.main_arg15))) := by
  show StableHlo.after (Cert.KernelIdeal.Gen.hostOps7 (F := Ideal)) (Cert.KernelIdeal.Hand.W26 (F := Ideal) m ρ c) (Proc.devRef .tc Cert.KernelIdeal.main_v288) = _
  generalize Cert.KernelIdeal.Hand.W26 (F := Ideal) m ρ c = W
  after_results <;> rfl
theorem rd27_v290 : (show FVec Ideal Cert.KernelIdeal.S8192x128 .bf16 from Cert.KernelIdeal.Hand.W27 (F := Ideal) m ρ c (Proc.devRef .tc Cert.KernelIdeal.main_v290)) = (truncf .bf16 (Host.dotGeneral Cert.KernelIdeal.dot_S8192x128_S128x128_S8192x128_1_0_0_1_n_n none (show FVec Ideal Cert.KernelIdeal.S8192x128 .f32 from Cert.KernelIdeal.Hand.W26 (F := Ideal) m ρ c (Proc.devRef .tc Cert.KernelIdeal.main_v287)) (show FVec Ideal Cert.KernelIdeal.S128x128 .f32 from Cert.KernelIdeal.Hand.W26 (F := Ideal) m ρ c (Proc.devRef .tc Cert.KernelIdeal.main_arg16))) Cert.KernelIdeal.Facts₀.bitsLt_bf16_f32) := by
  show StableHlo.after (Cert.KernelIdeal.Gen.hostOps7 (F := Ideal)) (Cert.KernelIdeal.Hand.W26 (F := Ideal) m ρ c) (Proc.devRef .tc Cert.KernelIdeal.main_v290) = _
  generalize Cert.KernelIdeal.Hand.W26 (F := Ideal) m ρ c = W
  after_results <;> rfl
theorem kp27_v0 : (show FVec Ideal Cert.KernelIdeal.S8192x8192 .bf16 from Cert.KernelIdeal.Hand.W27 (F := Ideal) m ρ c (Proc.devRef .tc Cert.KernelIdeal.main_v0)) = (show FVec Ideal Cert.KernelIdeal.S8192x8192 .bf16 from Cert.KernelIdeal.Hand.W26 (F := Ideal) m ρ c (Proc.devRef .tc Cert.KernelIdeal.main_v0)) :=
  StableHlo.after_of_forall_not_mem (b := Proc.devRef .tc Cert.KernelIdeal.main_v0) _ _ (List.forall_iff_forall_mem.mp (by
    simp only [Cert.KernelIdeal.Gen.hostOps7, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kp27_v283 : (show FVec Ideal Cert.KernelIdeal.S8192x128 .f32 from Cert.KernelIdeal.Hand.W27 (F := Ideal) m ρ c (Proc.devRef .tc Cert.KernelIdeal.main_v283)) = (show FVec Ideal Cert.KernelIdeal.S8192x128 .f32 from Cert.KernelIdeal.Hand.W26 (F := Ideal) m ρ c (Proc.devRef .tc Cert.KernelIdeal.main_v283)) :=
  StableHlo.after_of_forall_not_mem (b := Proc.devRef .tc Cert.KernelIdeal.main_v283) _ _ (List.forall_iff_forall_mem.mp (by
    simp only [Cert.KernelIdeal.Gen.hostOps7, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem rd28_v291 : (show FVec Ideal Cert.KernelIdeal.S8192x128 .f32 from Cert.KernelIdeal.Hand.W28 (F := Ideal) m ρ c (Proc.devRef .tc Cert.KernelIdeal.main_v291)) = Cert.KernelIdeal.Hand.G7 (show FVec Ideal Cert.KernelIdeal.S8192x8192 .bf16 from Cert.KernelIdeal.Hand.W27 (F := Ideal) m ρ c (Proc.devRef .tc Cert.KernelIdeal.main_v0)) (show FVec Ideal Cert.KernelIdeal.S8192x128 .bf16 from Cert.KernelIdeal.Hand.W27 (F := Ideal) m ρ c (Proc.devRef .tc Cert.KernelIdeal.main_v290)) (show FVec Ideal Cert.KernelIdeal.S8192x128 .f32 from Cert.KernelIdeal.Hand.W27 (F := Ideal) m ρ c (Proc.devRef .tc Cert.KernelIdeal.main_v288)) :=
  (Cert.KernelIdeal.Hand.W28_arr (F := Ideal) m ρ c 3).trans (Cert.KernelIdeal.Hand.final3_7 (Cert.KernelIdeal.Hand.V27 (F := Ideal) m ρ) c)
theorem kp28_v0 : (show FVec Ideal Cert.KernelIdeal.S8192x8192 .bf16 from Cert.KernelIdeal.Hand.W28 (F := Ideal) m ρ c (Proc.devRef .tc Cert.KernelIdeal.main_v0)) = (show FVec Ideal Cert.KernelIdeal.S8192x8192 .bf16 from Cert.KernelIdeal.Hand.W27 (F := Ideal) m ρ c (Proc.devRef .tc Cert.KernelIdeal.main_v0)) :=
  (Cert.KernelIdeal.Hand.W28_arr (F := Ideal) m ρ c 0).trans (((Cert.KernelIdeal.Hand.dat7 (Cert.KernelIdeal.Hand.V27 (F := Ideal) m ρ) c).arrAt_in 0 rfl _).trans (Cert.KernelIdeal.Hand.A_eq7 (Cert.KernelIdeal.Hand.V27 (F := Ideal) m ρ) c 0))
theorem kp28_v283 : (show FVec Ideal Cert.KernelIdeal.S8192x128 .f32 from Cert.KernelIdeal.Hand.W28 (F := Ideal) m ρ c (Proc.devRef .tc Cert.KernelIdeal.main_v283)) = (show FVec Ideal Cert.KernelIdeal.S8192x128 .f32 from Cert.KernelIdeal.Hand.W27 (F := Ideal) m ρ c (Proc.devRef .tc Cert.KernelIdeal.main_v283)) :=
  Cert.KernelIdeal.Hand.W28_of_ne (F := Ideal) m ρ c Cert.KernelIdeal.main_v283 (by decide)
theorem rd29_v292 : (show FVec Ideal Cert.KernelIdeal.S8192x128 .f32 from Cert.KernelIdeal.Hand.W29 (F := Ideal) m ρ c (Proc.devRef .tc Cert.KernelIdeal.main_v292)) = (addf (show FVec Ideal Cert.KernelIdeal.S8192x128 .f32 from Cert.KernelIdeal.Hand.W28 (F := Ideal) m ρ c (Proc.devRef .tc Cert.KernelIdeal.main_v283)) (show FVec Ideal Cert.KernelIdeal.S8192x128 .f32 from Cert.KernelIdeal.Hand.W28 (F := Ideal) m ρ c (Proc.devRef .tc Cert.KernelIdeal.main_v291))) := by
  show StableHlo.after (Cert.KernelIdeal.Gen.hostOps8 (F := Ideal)) (Cert.KernelIdeal.Hand.W28 (F := Ideal) m ρ c) (Proc.devRef .tc Cert.KernelIdeal.main_v292) = _
  generalize Cert.KernelIdeal.Hand.W28 (F := Ideal) m ρ c = W
  after_results <;> rfl
theorem rd29_v293 : (show FVec Ideal Cert.KernelIdeal.S8192x128 .f32 from Cert.KernelIdeal.Hand.W29 (F := Ideal) m ρ c (Proc.devRef .tc Cert.KernelIdeal.main_v293)) = (Host.dotGeneral Cert.KernelIdeal.dot_S8192x128_S128x128_S8192x128_1_0_0_1_n_n none (addf (show FVec Ideal Cert.KernelIdeal.S8192x128 .f32 from Cert.KernelIdeal.Hand.W28 (F := Ideal) m ρ c (Proc.devRef .tc Cert.KernelIdeal.main_v283)) (show FVec Ideal Cert.KernelIdeal.S8192x128 .f32 from Cert.KernelIdeal.Hand.W28 (F := Ideal) m ρ c (Proc.devRef .tc Cert.KernelIdeal.main_v291))) (show FVec Ideal Cert.KernelIdeal.S128x128 .f32 from Cert.KernelIdeal.Hand.W28 (F := Ideal) m ρ c (Proc.devRef .tc Cert.KernelIdeal.main_arg17))) := by
  show StableHlo.after (Cert.KernelIdeal.Gen.hostOps8 (F := Ideal)) (Cert.KernelIdeal.Hand.W28 (F := Ideal) m ρ c) (Proc.devRef .tc Cert.KernelIdeal.main_v293) = _
  generalize Cert.KernelIdeal.Hand.W28 (F := Ideal) m ρ c = W
  after_results <;> rfl
theorem rd29_v295 : (show FVec Ideal Cert.KernelIdeal.S8192x128 .bf16 from Cert.KernelIdeal.Hand.W29 (F := Ideal) m ρ c (Proc.devRef .tc Cert.KernelIdeal.main_v295)) = (truncf .bf16 (Host.dotGeneral Cert.KernelIdeal.dot_S8192x128_S128x128_S8192x128_1_0_0_1_n_n none (addf (show FVec Ideal Cert.KernelIdeal.S8192x128 .f32 from Cert.KernelIdeal.Hand.W28 (F := Ideal) m ρ c (Proc.devRef .tc Cert.KernelIdeal.main_v283)) (show FVec Ideal Cert.KernelIdeal.S8192x128 .f32 from Cert.KernelIdeal.Hand.W28 (F := Ideal) m ρ c (Proc.devRef .tc Cert.KernelIdeal.main_v291))) (show FVec Ideal Cert.KernelIdeal.S128x128 .f32 from Cert.KernelIdeal.Hand.W28 (F := Ideal) m ρ c (Proc.devRef .tc Cert.KernelIdeal.main_arg18))) Cert.KernelIdeal.Facts₀.bitsLt_bf16_f32) := by
  show StableHlo.after (Cert.KernelIdeal.Gen.hostOps8 (F := Ideal)) (Cert.KernelIdeal.Hand.W28 (F := Ideal) m ρ c) (Proc.devRef .tc Cert.KernelIdeal.main_v295) = _
  generalize Cert.KernelIdeal.Hand.W28 (F := Ideal) m ρ c = W
  after_results <;> rfl
theorem kp29_v0 : (show FVec Ideal Cert.KernelIdeal.S8192x8192 .bf16 from Cert.KernelIdeal.Hand.W29 (F := Ideal) m ρ c (Proc.devRef .tc Cert.KernelIdeal.main_v0)) = (show FVec Ideal Cert.KernelIdeal.S8192x8192 .bf16 from Cert.KernelIdeal.Hand.W28 (F := Ideal) m ρ c (Proc.devRef .tc Cert.KernelIdeal.main_v0)) :=
  StableHlo.after_of_forall_not_mem (b := Proc.devRef .tc Cert.KernelIdeal.main_v0) _ _ (List.forall_iff_forall_mem.mp (by
    simp only [Cert.KernelIdeal.Gen.hostOps8, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem rd30_v296 : (show FVec Ideal Cert.KernelIdeal.S8192x128 .f32 from Cert.KernelIdeal.Hand.W30 (F := Ideal) m ρ c (Proc.devRef .tc Cert.KernelIdeal.main_v296)) = Cert.KernelIdeal.Hand.G8 (show FVec Ideal Cert.KernelIdeal.S8192x8192 .bf16 from Cert.KernelIdeal.Hand.W29 (F := Ideal) m ρ c (Proc.devRef .tc Cert.KernelIdeal.main_v0)) (show FVec Ideal Cert.KernelIdeal.S8192x128 .bf16 from Cert.KernelIdeal.Hand.W29 (F := Ideal) m ρ c (Proc.devRef .tc Cert.KernelIdeal.main_v295)) (show FVec Ideal Cert.KernelIdeal.S8192x128 .f32 from Cert.KernelIdeal.Hand.W29 (F := Ideal) m ρ c (Proc.devRef .tc Cert.KernelIdeal.main_v293)) :=
  (Cert.KernelIdeal.Hand.W30_arr (F := Ideal) m ρ c 3).trans (Cert.KernelIdeal.Hand.final3_8 (Cert.KernelIdeal.Hand.V29 (F := Ideal) m ρ) c)
theorem kp30_v0 : (show FVec Ideal Cert.KernelIdeal.S8192x8192 .bf16 from Cert.KernelIdeal.Hand.W30 (F := Ideal) m ρ c (Proc.devRef .tc Cert.KernelIdeal.main_v0)) = (show FVec Ideal Cert.KernelIdeal.S8192x8192 .bf16 from Cert.KernelIdeal.Hand.W29 (F := Ideal) m ρ c (Proc.devRef .tc Cert.KernelIdeal.main_v0)) :=
  (Cert.KernelIdeal.Hand.W30_arr (F := Ideal) m ρ c 0).trans (((Cert.KernelIdeal.Hand.dat8 (Cert.KernelIdeal.Hand.V29 (F := Ideal) m ρ) c).arrAt_in 0 rfl _).trans (Cert.KernelIdeal.Hand.A_eq8 (Cert.KernelIdeal.Hand.V29 (F := Ideal) m ρ) c 0))
theorem kp30_v292 : (show FVec Ideal Cert.KernelIdeal.S8192x128 .f32 from Cert.KernelIdeal.Hand.W30 (F := Ideal) m ρ c (Proc.devRef .tc Cert.KernelIdeal.main_v292)) = (show FVec Ideal Cert.KernelIdeal.S8192x128 .f32 from Cert.KernelIdeal.Hand.W29 (F := Ideal) m ρ c (Proc.devRef .tc Cert.KernelIdeal.main_v292)) :=
  Cert.KernelIdeal.Hand.W30_of_ne (F := Ideal) m ρ c Cert.KernelIdeal.main_v292 (by decide)
theorem rd31_v297 : (show FVec Ideal Cert.KernelIdeal.S8192x128 .f32 from Cert.KernelIdeal.Hand.W31 (F := Ideal) m ρ c (Proc.devRef .tc Cert.KernelIdeal.main_v297)) = (Host.dotGeneral Cert.KernelIdeal.dot_S8192x128_S128x128_S8192x128_1_0_0_1_n_n none (show FVec Ideal Cert.KernelIdeal.S8192x128 .f32 from Cert.KernelIdeal.Hand.W30 (F := Ideal) m ρ c (Proc.devRef .tc Cert.KernelIdeal.main_v296)) (show FVec Ideal Cert.KernelIdeal.S128x128 .f32 from Cert.KernelIdeal.Hand.W30 (F := Ideal) m ρ c (Proc.devRef .tc Cert.KernelIdeal.main_arg19))) := by
  show StableHlo.after (Cert.KernelIdeal.Gen.hostOps9 (F := Ideal)) (Cert.KernelIdeal.Hand.W30 (F := Ideal) m ρ c) (Proc.devRef .tc Cert.KernelIdeal.main_v297) = _
  generalize Cert.KernelIdeal.Hand.W30 (F := Ideal) m ρ c = W
  after_results <;> rfl
theorem rd31_v299 : (show FVec Ideal Cert.KernelIdeal.S8192x128 .bf16 from Cert.KernelIdeal.Hand.W31 (F := Ideal) m ρ c (Proc.devRef .tc Cert.KernelIdeal.main_v299)) = (truncf .bf16 (Host.dotGeneral Cert.KernelIdeal.dot_S8192x128_S128x128_S8192x128_1_0_0_1_n_n none (show FVec Ideal Cert.KernelIdeal.S8192x128 .f32 from Cert.KernelIdeal.Hand.W30 (F := Ideal) m ρ c (Proc.devRef .tc Cert.KernelIdeal.main_v296)) (show FVec Ideal Cert.KernelIdeal.S128x128 .f32 from Cert.KernelIdeal.Hand.W30 (F := Ideal) m ρ c (Proc.devRef .tc Cert.KernelIdeal.main_arg20))) Cert.KernelIdeal.Facts₀.bitsLt_bf16_f32) := by
  show StableHlo.after (Cert.KernelIdeal.Gen.hostOps9 (F := Ideal)) (Cert.KernelIdeal.Hand.W30 (F := Ideal) m ρ c) (Proc.devRef .tc Cert.KernelIdeal.main_v299) = _
  generalize Cert.KernelIdeal.Hand.W30 (F := Ideal) m ρ c = W
  after_results <;> rfl
theorem kp31_v0 : (show FVec Ideal Cert.KernelIdeal.S8192x8192 .bf16 from Cert.KernelIdeal.Hand.W31 (F := Ideal) m ρ c (Proc.devRef .tc Cert.KernelIdeal.main_v0)) = (show FVec Ideal Cert.KernelIdeal.S8192x8192 .bf16 from Cert.KernelIdeal.Hand.W30 (F := Ideal) m ρ c (Proc.devRef .tc Cert.KernelIdeal.main_v0)) :=
  StableHlo.after_of_forall_not_mem (b := Proc.devRef .tc Cert.KernelIdeal.main_v0) _ _ (List.forall_iff_forall_mem.mp (by
    simp only [Cert.KernelIdeal.Gen.hostOps9, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kp31_v292 : (show FVec Ideal Cert.KernelIdeal.S8192x128 .f32 from Cert.KernelIdeal.Hand.W31 (F := Ideal) m ρ c (Proc.devRef .tc Cert.KernelIdeal.main_v292)) = (show FVec Ideal Cert.KernelIdeal.S8192x128 .f32 from Cert.KernelIdeal.Hand.W30 (F := Ideal) m ρ c (Proc.devRef .tc Cert.KernelIdeal.main_v292)) :=
  StableHlo.after_of_forall_not_mem (b := Proc.devRef .tc Cert.KernelIdeal.main_v292) _ _ (List.forall_iff_forall_mem.mp (by
    simp only [Cert.KernelIdeal.Gen.hostOps9, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem rd32_v300 : (show FVec Ideal Cert.KernelIdeal.S8192x128 .f32 from Cert.KernelIdeal.Hand.W32 (F := Ideal) m ρ c (Proc.devRef .tc Cert.KernelIdeal.main_v300)) = Cert.KernelIdeal.Hand.G9 (show FVec Ideal Cert.KernelIdeal.S8192x8192 .bf16 from Cert.KernelIdeal.Hand.W31 (F := Ideal) m ρ c (Proc.devRef .tc Cert.KernelIdeal.main_v0)) (show FVec Ideal Cert.KernelIdeal.S8192x128 .bf16 from Cert.KernelIdeal.Hand.W31 (F := Ideal) m ρ c (Proc.devRef .tc Cert.KernelIdeal.main_v299)) (show FVec Ideal Cert.KernelIdeal.S8192x128 .f32 from Cert.KernelIdeal.Hand.W31 (F := Ideal) m ρ c (Proc.devRef .tc Cert.KernelIdeal.main_v297)) :=
  (Cert.KernelIdeal.Hand.W32_arr (F := Ideal) m ρ c 3).trans (Cert.KernelIdeal.Hand.final3_9 (Cert.KernelIdeal.Hand.V31 (F := Ideal) m ρ) c)
theorem kp32_v0 : (show FVec Ideal Cert.KernelIdeal.S8192x8192 .bf16 from Cert.KernelIdeal.Hand.W32 (F := Ideal) m ρ c (Proc.devRef .tc Cert.KernelIdeal.main_v0)) = (show FVec Ideal Cert.KernelIdeal.S8192x8192 .bf16 from Cert.KernelIdeal.Hand.W31 (F := Ideal) m ρ c (Proc.devRef .tc Cert.KernelIdeal.main_v0)) :=
  (Cert.KernelIdeal.Hand.W32_arr (F := Ideal) m ρ c 0).trans (((Cert.KernelIdeal.Hand.dat9 (Cert.KernelIdeal.Hand.V31 (F := Ideal) m ρ) c).arrAt_in 0 rfl _).trans (Cert.KernelIdeal.Hand.A_eq9 (Cert.KernelIdeal.Hand.V31 (F := Ideal) m ρ) c 0))
theorem kp32_v292 : (show FVec Ideal Cert.KernelIdeal.S8192x128 .f32 from Cert.KernelIdeal.Hand.W32 (F := Ideal) m ρ c (Proc.devRef .tc Cert.KernelIdeal.main_v292)) = (show FVec Ideal Cert.KernelIdeal.S8192x128 .f32 from Cert.KernelIdeal.Hand.W31 (F := Ideal) m ρ c (Proc.devRef .tc Cert.KernelIdeal.main_v292)) :=
  Cert.KernelIdeal.Hand.W32_of_ne (F := Ideal) m ρ c Cert.KernelIdeal.main_v292 (by decide)
theorem rd33_v301 : (show FVec Ideal Cert.KernelIdeal.S8192x128 .f32 from Cert.KernelIdeal.Hand.W33 (F := Ideal) m ρ c (Proc.devRef .tc Cert.KernelIdeal.main_v301)) = (addf (show FVec Ideal Cert.KernelIdeal.S8192x128 .f32 from Cert.KernelIdeal.Hand.W32 (F := Ideal) m ρ c (Proc.devRef .tc Cert.KernelIdeal.main_v292)) (show FVec Ideal Cert.KernelIdeal.S8192x128 .f32 from Cert.KernelIdeal.Hand.W32 (F := Ideal) m ρ c (Proc.devRef .tc Cert.KernelIdeal.main_v300))) := by
  show StableHlo.after (Cert.KernelIdeal.Gen.hostOps10 (F := Ideal)) (Cert.KernelIdeal.Hand.W32 (F := Ideal) m ρ c) (Proc.devRef .tc Cert.KernelIdeal.main_v301) = _
  generalize Cert.KernelIdeal.Hand.W32 (F := Ideal) m ρ c = W
  after_results <;> rfl
theorem rd33_v302 : (show FVec Ideal Cert.KernelIdeal.S8192x3 .f32 from Cert.KernelIdeal.Hand.W33 (F := Ideal) m ρ c (Proc.devRef .tc Cert.KernelIdeal.main_v302)) = (Host.dotGeneral Cert.KernelIdeal.dot_S8192x128_S128x3_S8192x3_1_0_0_1_n_n none (addf (show FVec Ideal Cert.KernelIdeal.S8192x128 .f32 from Cert.KernelIdeal.Hand.W32 (F := Ideal) m ρ c (Proc.devRef .tc Cert.KernelIdeal.main_v292)) (show FVec Ideal Cert.KernelIdeal.S8192x128 .f32 from Cert.KernelIdeal.Hand.W32 (F := Ideal) m ρ c (Proc.devRef .tc Cert.KernelIdeal.main_v300))) (show FVec Ideal Cert.KernelIdeal.S128x3 .f32 from Cert.KernelIdeal.Hand.W32 (F := Ideal) m ρ c (Proc.devRef .tc Cert.KernelIdeal.main_arg21))) := by
  show StableHlo.after (Cert.KernelIdeal.Gen.hostOps10 (F := Ideal)) (Cert.KernelIdeal.Hand.W32 (F := Ideal) m ρ c) (Proc.devRef .tc Cert.KernelIdeal.main_v302) = _
  generalize Cert.KernelIdeal.Hand.W32 (F := Ideal) m ρ c = W
  after_results <;> rfl
theorem rd33_v304 : (show FVec Ideal Cert.KernelIdeal.S8192x3 .bf16 from Cert.KernelIdeal.Hand.W33 (F := Ideal) m ρ c (Proc.devRef .tc Cert.KernelIdeal.main_v304)) = (truncf .bf16 (Host.dotGeneral Cert.KernelIdeal.dot_S8192x128_S128x3_S8192x3_1_0_0_1_n_n none (addf (show FVec Ideal Cert.KernelIdeal.S8192x128 .f32 from Cert.KernelIdeal.Hand.W32 (F := Ideal) m ρ c (Proc.devRef .tc Cert.KernelIdeal.main_v292)) (show FVec Ideal Cert.KernelIdeal.S8192x128 .f32 from Cert.KernelIdeal.Hand.W32 (F := Ideal) m ρ c (Proc.devRef .tc Cert.KernelIdeal.main_v300))) (show FVec Ideal Cert.KernelIdeal.S128x3 .f32 from Cert.KernelIdeal.Hand.W32 (F := Ideal) m ρ c (Proc.devRef .tc Cert.KernelIdeal.main_arg22))) Cert.KernelIdeal.Facts₀.bitsLt_bf16_f32) := by
  show StableHlo.after (Cert.KernelIdeal.Gen.hostOps10 (F := Ideal)) (Cert.KernelIdeal.Hand.W32 (F := Ideal) m ρ c) (Proc.devRef .tc Cert.KernelIdeal.main_v304) = _
  generalize Cert.KernelIdeal.Hand.W32 (F := Ideal) m ρ c = W
  after_results <;> rfl
theorem kp33_v0 : (show FVec Ideal Cert.KernelIdeal.S8192x8192 .bf16 from Cert.KernelIdeal.Hand.W33 (F := Ideal) m ρ c (Proc.devRef .tc Cert.KernelIdeal.main_v0)) = (show FVec Ideal Cert.KernelIdeal.S8192x8192 .bf16 from Cert.KernelIdeal.Hand.W32 (F := Ideal) m ρ c (Proc.devRef .tc Cert.KernelIdeal.main_v0)) :=
  StableHlo.after_of_forall_not_mem (b := Proc.devRef .tc Cert.KernelIdeal.main_v0) _ _ (List.forall_iff_forall_mem.mp (by
    simp only [Cert.KernelIdeal.Gen.hostOps10, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem rd34_v305 : (show FVec Ideal Cert.KernelIdeal.S8192x3 .f32 from Cert.KernelIdeal.Hand.W34 (F := Ideal) m ρ c (Proc.devRef .tc Cert.KernelIdeal.main_v305)) = Cert.KernelIdeal.Hand.G10 (show FVec Ideal Cert.KernelIdeal.S8192x8192 .bf16 from Cert.KernelIdeal.Hand.W33 (F := Ideal) m ρ c (Proc.devRef .tc Cert.KernelIdeal.main_v0)) (show FVec Ideal Cert.KernelIdeal.S8192x3 .bf16 from Cert.KernelIdeal.Hand.W33 (F := Ideal) m ρ c (Proc.devRef .tc Cert.KernelIdeal.main_v304)) (show FVec Ideal Cert.KernelIdeal.S8192x3 .f32 from Cert.KernelIdeal.Hand.W33 (F := Ideal) m ρ c (Proc.devRef .tc Cert.KernelIdeal.main_v302)) :=
  (Cert.KernelIdeal.Hand.W34_arr (F := Ideal) m ρ c 3).trans (Cert.KernelIdeal.Hand.final3_10 (Cert.KernelIdeal.Hand.V33 (F := Ideal) m ρ) c)
theorem kp34_v301 : (show FVec Ideal Cert.KernelIdeal.S8192x128 .f32 from Cert.KernelIdeal.Hand.W34 (F := Ideal) m ρ c (Proc.devRef .tc Cert.KernelIdeal.main_v301)) = (show FVec Ideal Cert.KernelIdeal.S8192x128 .f32 from Cert.KernelIdeal.Hand.W33 (F := Ideal) m ρ c (Proc.devRef .tc Cert.KernelIdeal.main_v301)) :=
  Cert.KernelIdeal.Hand.W34_of_ne (F := Ideal) m ρ c Cert.KernelIdeal.main_v301 (by decide)
theorem rd35_v307 : (show FVec Ideal Cert.KernelIdeal.S8192x3 .f32 from Cert.KernelIdeal.Hand.W35 (F := Ideal) m ρ c (Proc.devRef .tc Cert.KernelIdeal.main_v307)) = addf (show FVec Ideal Cert.KernelIdeal.S8192x3 .f32 from Cert.KernelIdeal.Hand.W34 (F := Ideal) m ρ c (Proc.devRef .tc Cert.KernelIdeal.main_arg5)) (Host.tanh (show FVec Ideal Cert.KernelIdeal.S8192x3 .f32 from Cert.KernelIdeal.Hand.W34 (F := Ideal) m ρ c (Proc.devRef .tc Cert.KernelIdeal.main_v305))) := by
  show StableHlo.after (Cert.KernelIdeal.Gen.hostOps11 (F := Ideal)) (Cert.KernelIdeal.Hand.W34 (F := Ideal) m ρ c) (Proc.devRef .tc Cert.KernelIdeal.main_v307) = _
  generalize Cert.KernelIdeal.Hand.W34 (F := Ideal) m ρ c = W
  after_results <;> rfl
theorem kp35_v301 : (show FVec Ideal Cert.KernelIdeal.S8192x128 .f32 from Cert.KernelIdeal.Hand.W35 (F := Ideal) m ρ c (Proc.devRef .tc Cert.KernelIdeal.main_v301)) = (show FVec Ideal Cert.KernelIdeal.S8192x128 .f32 from Cert.KernelIdeal.Hand.W34 (F := Ideal) m ρ c (Proc.devRef .tc Cert.KernelIdeal.main_v301)) :=
  StableHlo.after_of_forall_not_mem (b := Proc.devRef .tc Cert.KernelIdeal.main_v301) _ _ (List.forall_iff_forall_mem.mp (by
    simp only [Cert.KernelIdeal.Gen.hostOps11, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

end Cert.Proof.Tail

end
-- ==== Proof.TailSpec.lean ====
/-
  The tail of both programs as one function of the adjacency, the vertex positions and features, the projected
  features and the fourteen layer weights: the 8192 x 259 concatenation, the skip projection, three residual blocks of
  two graph convolutions relu(x W0 + A (x W1)) each, and the last graph convolution to three columns under tanh, added
  to the positions.  Spelt with the reference program's operations, so that the reference's host operations compute it
  by their own text and the kernel program's regions compute it entry by entry.
-/
import proofs.«120270_j2259152797813_2_alg».proof.ReferenceIdeal
import proofs.«120270_j2259152797813_2_alg».proof.Proof.Gen.ReferenceIdeal
import Idealize.ShloMosaic.PureOps.Ideal

noncomputable section

namespace Cert.Proof.TailSpec

open Idealize.ShloMosaic Cert.ReferenceIdeal Cert.ReferenceIdeal.Facts₀

abbrev V128 := FVec Ideal S8192x128 .f32
abbrev V3 := FVec Ideal S8192x3 .f32
abbrev VA := FVec Ideal S8192x8192 .f32
abbrev M128 := FVec Ideal S128x128 .f32
abbrev M259 := FVec Ideal S259x128 .f32
abbrev M3 := FVec Ideal S128x3 .f32

/-- relu on 128 and on 3 columns, as the reference spells it: the maximum with a broadcast zero. -/
def relu128 (x : V128) : V128 := maximumf x (broadcastInDim S8192x128 ![] bcast_S_S8192x128 (constant S_ .f32 0x00000000#32))
def relu3 (x : V3) : V3 := maximumf x (broadcastInDim S8192x3 ![] bcast_S_S8192x3 (constant S_ .f32 0x00000000#32))

def dg259 (X : FVec Ideal S8192x259 .f32) (w : M259) : V128 := Host.dotGeneral dot_S8192x259_S259x128_S8192x128_1_0_0_1_n_n none X w
def dg128 (x : V128) (w : M128) : V128 := Host.dotGeneral dot_S8192x128_S128x128_S8192x128_1_0_0_1_n_n none x w
def dg3 (x : V128) (w : M3) : V3 := Host.dotGeneral dot_S8192x128_S128x3_S8192x3_1_0_0_1_n_n none x w
def dgA (A : VA) (v : V128) : V128 := Host.dotGeneral dot_S8192x8192_S8192x128_S8192x128_1_0_0_1_n_n none A v
def dgA3 (A : VA) (v : V3) : V3 := Host.dotGeneral dot_S8192x8192_S8192x3_S8192x3_1_0_0_1_n_n none A v

/-- The 8192 x 259 input of the first block: vertex features, positions, projected features side by side. -/
def cat (a6 : V128) (a5 : V3) (P : V128) : FVec Ideal S8192x259 .f32 :=
  concatenate S8192x259 1 [⟨S8192x128, a6⟩, ⟨S8192x3, a5⟩, ⟨S8192x128, P⟩] concatenates_S8192x128_S8192x3_S8192x128_S8192x259_d1

/-- One graph convolution relu(x W0 + A (x W1)). -/
def gc (A : VA) (x : V128) (w0 w1 : M128) : V128 := relu128 (addf (dg128 x w0) (dgA A (dg128 x w1)))
def gc259 (A : VA) (X : FVec Ideal S8192x259 .f32) (w0 w1 : M259) : V128 := relu128 (addf (dg259 X w0) (dgA A (dg259 X w1)))
def gc3 (A : VA) (x : V128) (w0 w1 : M3) : V3 := relu3 (addf (dg3 x w0) (dgA3 A (dg3 x w1)))

/-- The three residual blocks: the second result. -/
def blk1 (A : VA) (a5 : V3) (a6 P : V128) (a8 a9 a12 : M259) (a10 a11 : M128) : V128 :=
  addf (dg259 (cat a6 a5 P) a12) (gc A (gc259 A (cat a6 a5 P) a8 a9) a10 a11)
def blk (A : VA) (x : V128) (w0 w1 w2 w3 : M128) : V128 := addf x (gc A (gc A x w0 w1) w2 w3)
def tailX (A : VA) (a5 : V3) (a6 P : V128) (a8 a9 a12 : M259) (a10 a11 a13 a14 a15 a16 a17 a18 a19 a20 : M128) : V128 :=
  blk A (blk A (blk1 A a5 a6 P a8 a9 a12 a10 a11) a13 a14 a15 a16) a17 a18 a19 a20
/-- The moved vertex positions: the first result, from the second. -/
def tailY (A : VA) (a5 : V3) (x : V128) (a21 a22 : M3) : V3 := addf a5 (Host.tanh (gc3 A x a21 a22))

end Cert.Proof.TailSpec

end
-- ==== Proof.TailK.lean ====
/-
  The kernel program's tail computes the common tail function: every adjacency region's closed form is the
  reference's relu (x W0 + A (x W1)) entry by entry, the format changes to bf16 are the identity on extended reals, and
  the host operations between the regions are the reference's own.
-/
import proofs.«120270_j2259152797813_2_alg».proof.Proof.Tail
import proofs.«120270_j2259152797813_2_alg».proof.Proof.TailSpec

set_option maxRecDepth 16384

noncomputable section

open scoped BigOperators

namespace Cert.Proof.TailK

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

theorem G5_gc (A : Cert.Proof.TailSpec.VA) (x : Cert.Proof.TailSpec.V128) (w0 w1 : Cert.Proof.TailSpec.M128) :
    Cert.KernelIdeal.Hand.G5 A (truncf .bf16 (Host.dotGeneral Cert.KernelIdeal.dot_S8192x128_S128x128_S8192x128_1_0_0_1_n_n none x w1) Cert.KernelIdeal.Facts₀.bitsLt_bf16_f32)
      (Host.dotGeneral Cert.KernelIdeal.dot_S8192x128_S128x128_S8192x128_1_0_0_1_n_n none x w0) = Cert.Proof.TailSpec.gc A x w0 w1 :=
  Cert.Proof.Tail.gc_bridge A (Cert.Proof.TailSpec.dg128 x w1) (Cert.Proof.TailSpec.dg128 x w0)
theorem G6_gc (A : Cert.Proof.TailSpec.VA) (x : Cert.Proof.TailSpec.V128) (w0 w1 : Cert.Proof.TailSpec.M128) :
    Cert.KernelIdeal.Hand.G6 A (truncf .bf16 (Host.dotGeneral Cert.KernelIdeal.dot_S8192x128_S128x128_S8192x128_1_0_0_1_n_n none x w1) Cert.KernelIdeal.Facts₀.bitsLt_bf16_f32)
      (Host.dotGeneral Cert.KernelIdeal.dot_S8192x128_S128x128_S8192x128_1_0_0_1_n_n none x w0) = Cert.Proof.TailSpec.gc A x w0 w1 :=
  Cert.Proof.Tail.gc_bridge A (Cert.Proof.TailSpec.dg128 x w1) (Cert.Proof.TailSpec.dg128 x w0)
theorem G7_gc (A : Cert.Proof.TailSpec.VA) (x : Cert.Proof.TailSpec.V128) (w0 w1 : Cert.Proof.TailSpec.M128) :
    Cert.KernelIdeal.Hand.G7 A (truncf .bf16 (Host.dotGeneral Cert.KernelIdeal.dot_S8192x128_S128x128_S8192x128_1_0_0_1_n_n none x w1) Cert.KernelIdeal.Facts₀.bitsLt_bf16_f32)
      (Host.dotGeneral Cert.KernelIdeal.dot_S8192x128_S128x128_S8192x128_1_0_0_1_n_n none x w0) = Cert.Proof.TailSpec.gc A x w0 w1 :=
  Cert.Proof.Tail.gc_bridge A (Cert.Proof.TailSpec.dg128 x w1) (Cert.Proof.TailSpec.dg128 x w0)
theorem G8_gc (A : Cert.Proof.TailSpec.VA) (x : Cert.Proof.TailSpec.V128) (w0 w1 : Cert.Proof.TailSpec.M128) :
    Cert.KernelIdeal.Hand.G8 A (truncf .bf16 (Host.dotGeneral Cert.KernelIdeal.dot_S8192x128_S128x128_S8192x128_1_0_0_1_n_n none x w1) Cert.KernelIdeal.Facts₀.bitsLt_bf16_f32)
      (Host.dotGeneral Cert.KernelIdeal.dot_S8192x128_S128x128_S8192x128_1_0_0_1_n_n none x w0) = Cert.Proof.TailSpec.gc A x w0 w1 :=
  Cert.Proof.Tail.gc_bridge A (Cert.Proof.TailSpec.dg128 x w1) (Cert.Proof.TailSpec.dg128 x w0)
theorem G9_gc (A : Cert.Proof.TailSpec.VA) (x : Cert.Proof.TailSpec.V128) (w0 w1 : Cert.Proof.TailSpec.M128) :
    Cert.KernelIdeal.Hand.G9 A (truncf .bf16 (Host.dotGeneral Cert.KernelIdeal.dot_S8192x128_S128x128_S8192x128_1_0_0_1_n_n none x w1) Cert.KernelIdeal.Facts₀.bitsLt_bf16_f32)
      (Host.dotGeneral Cert.KernelIdeal.dot_S8192x128_S128x128_S8192x128_1_0_0_1_n_n none x w0) = Cert.Proof.TailSpec.gc A x w0 w1 :=
  Cert.Proof.Tail.gc_bridge A (Cert.Proof.TailSpec.dg128 x w1) (Cert.Proof.TailSpec.dg128 x w0)
theorem G4_gc (A : Cert.Proof.TailSpec.VA) (X : FVec Ideal Cert.ReferenceIdeal.S8192x259 .f32) (w0 w1 : Cert.Proof.TailSpec.M259) :
    Cert.KernelIdeal.Hand.G4 A (truncf .bf16 (Host.dotGeneral Cert.KernelIdeal.dot_S8192x259_S259x128_S8192x128_1_0_0_1_n_n none X w1) Cert.KernelIdeal.Facts₀.bitsLt_bf16_f32)
      (Host.dotGeneral Cert.KernelIdeal.dot_S8192x259_S259x128_S8192x128_1_0_0_1_n_n none X w0) = Cert.Proof.TailSpec.gc259 A X w0 w1 :=
  Cert.Proof.Tail.gc_bridge A (Cert.Proof.TailSpec.dg259 X w1) (Cert.Proof.TailSpec.dg259 X w0)
theorem G10_gc (A : Cert.Proof.TailSpec.VA) (x : Cert.Proof.TailSpec.V128) (w0 w1 : Cert.Proof.TailSpec.M3) :
    Cert.KernelIdeal.Hand.G10 A (truncf .bf16 (Host.dotGeneral Cert.KernelIdeal.dot_S8192x128_S128x3_S8192x3_1_0_0_1_n_n none x w1) Cert.KernelIdeal.Facts₀.bitsLt_bf16_f32)
      (Host.dotGeneral Cert.KernelIdeal.dot_S8192x128_S128x3_S8192x3_1_0_0_1_n_n none x w0) = Cert.Proof.TailSpec.gc3 A x w0 w1 :=
  Cert.Proof.Tail.gc_bridge3 A (Cert.Proof.TailSpec.dg3 x w1) (Cert.Proof.TailSpec.dg3 x w0)

theorem kv2 : Cert.KernelIdeal.Hand.W2 (F := Ideal) m ρ c (Proc.devRef .tc Cert.KernelIdeal.main_v0) = Cert.KernelIdeal.Hand.W1 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps0_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv3 : Cert.KernelIdeal.Hand.W3 (F := Ideal) m ρ c (Proc.devRef .tc Cert.KernelIdeal.main_v0) = Cert.KernelIdeal.Hand.W2 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps0_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv4 : Cert.KernelIdeal.Hand.W4 (F := Ideal) m ρ c (Proc.devRef .tc Cert.KernelIdeal.main_v0) = Cert.KernelIdeal.Hand.W3 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps0_3, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv5 : Cert.KernelIdeal.Hand.W5 (F := Ideal) m ρ c (Proc.devRef .tc Cert.KernelIdeal.main_v0) = Cert.KernelIdeal.Hand.W4 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps0_4, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv6 : Cert.KernelIdeal.Hand.W6 (F := Ideal) m ρ c (Proc.devRef .tc Cert.KernelIdeal.main_v0) = Cert.KernelIdeal.Hand.W5 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps0_5, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv7 : Cert.KernelIdeal.Hand.W7 (F := Ideal) m ρ c (Proc.devRef .tc Cert.KernelIdeal.main_v0) = Cert.KernelIdeal.Hand.W6 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps0_6, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv8 : Cert.KernelIdeal.Hand.W8 (F := Ideal) m ρ c (Proc.devRef .tc Cert.KernelIdeal.main_v0) = Cert.KernelIdeal.Hand.W7 (F := Ideal) m ρ c (Proc.devRef .tc Cert.KernelIdeal.main_v0) := Cert.KernelIdeal.Hand.W8_of_ne (F := Ideal) m ρ c Cert.KernelIdeal.main_v0 (by decide)
theorem kv9 : Cert.KernelIdeal.Hand.W9 (F := Ideal) m ρ c (Proc.devRef .tc Cert.KernelIdeal.main_v0) = Cert.KernelIdeal.Hand.W8 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv10 : Cert.KernelIdeal.Hand.W10 (F := Ideal) m ρ c (Proc.devRef .tc Cert.KernelIdeal.main_v0) = Cert.KernelIdeal.Hand.W9 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps1_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv11 : Cert.KernelIdeal.Hand.W11 (F := Ideal) m ρ c (Proc.devRef .tc Cert.KernelIdeal.main_v0) = Cert.KernelIdeal.Hand.W10 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps1_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv12 : Cert.KernelIdeal.Hand.W12 (F := Ideal) m ρ c (Proc.devRef .tc Cert.KernelIdeal.main_v0) = Cert.KernelIdeal.Hand.W11 (F := Ideal) m ρ c (Proc.devRef .tc Cert.KernelIdeal.main_v0) := Cert.KernelIdeal.Hand.W12_of_ne (F := Ideal) m ρ c Cert.KernelIdeal.main_v0 (by decide)
theorem kv13 : Cert.KernelIdeal.Hand.W13 (F := Ideal) m ρ c (Proc.devRef .tc Cert.KernelIdeal.main_v0) = Cert.KernelIdeal.Hand.W12 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv14 : Cert.KernelIdeal.Hand.W14 (F := Ideal) m ρ c (Proc.devRef .tc Cert.KernelIdeal.main_v0) = Cert.KernelIdeal.Hand.W13 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps2_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv15 : Cert.KernelIdeal.Hand.W15 (F := Ideal) m ρ c (Proc.devRef .tc Cert.KernelIdeal.main_v0) = Cert.KernelIdeal.Hand.W14 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps2_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv16 : Cert.KernelIdeal.Hand.W16 (F := Ideal) m ρ c (Proc.devRef .tc Cert.KernelIdeal.main_v0) = Cert.KernelIdeal.Hand.W15 (F := Ideal) m ρ c (Proc.devRef .tc Cert.KernelIdeal.main_v0) := Cert.KernelIdeal.Hand.W16_of_ne (F := Ideal) m ρ c Cert.KernelIdeal.main_v0 (by decide)
theorem kv17 : Cert.KernelIdeal.Hand.W17 (F := Ideal) m ρ c (Proc.devRef .tc Cert.KernelIdeal.main_v0) = Cert.KernelIdeal.Hand.W16 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps3, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv18 : Cert.KernelIdeal.Hand.W18 (F := Ideal) m ρ c (Proc.devRef .tc Cert.KernelIdeal.main_v0) = Cert.KernelIdeal.Hand.W17 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps3_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv19 : Cert.KernelIdeal.Hand.W19 (F := Ideal) m ρ c (Proc.devRef .tc Cert.KernelIdeal.main_v0) = Cert.KernelIdeal.Hand.W18 (F := Ideal) m ρ c (Proc.devRef .tc Cert.KernelIdeal.main_v0) :=
  StableHlo.after_of_forall_not_mem (b := Proc.devRef .tc Cert.KernelIdeal.main_v0) _ _ (List.forall_iff_forall_mem.mp (by
    simp only [Cert.KernelIdeal.Gen.hostOps3_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem kv20 : Cert.KernelIdeal.Hand.W20 (F := Ideal) m ρ c (Proc.devRef .tc Cert.KernelIdeal.main_v0) = Cert.KernelIdeal.Hand.W19 (F := Ideal) m ρ c (Proc.devRef .tc Cert.KernelIdeal.main_v0) := Cert.KernelIdeal.Hand.W20_of_ne (F := Ideal) m ρ c Cert.KernelIdeal.main_v0 (by decide)
theorem rd1_v0 : (show FVec Ideal Cert.KernelIdeal.S8192x8192 .bf16 from Cert.KernelIdeal.Hand.W1 (F := Ideal) m ρ c (Proc.devRef .tc Cert.KernelIdeal.main_v0)) = truncf .bf16 (show FVec Ideal Cert.KernelIdeal.S8192x8192 .f32 from m ((c : Thread Cert.KernelIdeal.nD Cert.KernelIdeal.τ).loc Cert.KernelIdeal.main_arg4)) Cert.KernelIdeal.Facts₀.bitsLt_bf16_f32 := by
  show StableHlo.after (Cert.KernelIdeal.Gen.hostOps0 (F := Ideal)) (Cert.KernelIdeal.Hand.W0 (F := Ideal) m ρ c) (Proc.devRef .tc Cert.KernelIdeal.main_v0) = _
  after_results <;> rfl
/-- The adjacency every region reads is the launch adjacency (its format change is the identity). -/
theorem v0_at20 : (show FVec Ideal Cert.KernelIdeal.S8192x8192 .bf16 from Cert.KernelIdeal.Hand.W20 (F := Ideal) m ρ c (Proc.devRef .tc Cert.KernelIdeal.main_v0)) = (show FVec Ideal Cert.KernelIdeal.S8192x8192 .f32 from m ((c : Thread Cert.KernelIdeal.nD Cert.KernelIdeal.τ).loc Cert.KernelIdeal.main_arg4)) :=
  (kv20 m ρ c).trans ((kv19 m ρ c).trans ((kv18 m ρ c).trans ((kv17 m ρ c).trans ((kv16 m ρ c).trans ((kv15 m ρ c).trans ((kv14 m ρ c).trans ((kv13 m ρ c).trans ((kv12 m ρ c).trans ((kv11 m ρ c).trans ((kv10 m ρ c).trans ((kv9 m ρ c).trans ((kv8 m ρ c).trans ((kv7 m ρ c).trans ((kv6 m ρ c).trans ((kv5 m ρ c).trans ((kv4 m ρ c).trans ((kv3 m ρ c).trans ((kv2 m ρ c).trans ((rd1_v0 m ρ c))))))))))))))))))))
theorem args20 (j : Fin 23) : Cert.KernelIdeal.Hand.W20 (F := Ideal) m ρ c (Proc.devRef .tc (Cert.KernelIdeal.Hand.argR j)) = m ((c : Thread Cert.KernelIdeal.nD Cert.KernelIdeal.τ).loc (Cert.KernelIdeal.Hand.argR j)) :=
  (Cert.KernelIdeal.Hand.W20_args (F := Ideal) m ρ c j).trans ((Cert.KernelIdeal.Hand.W19_args (F := Ideal) m ρ c j).trans ((Cert.KernelIdeal.Hand.W18_args (F := Ideal) m ρ c j).trans ((Cert.KernelIdeal.Hand.W17_args (F := Ideal) m ρ c j).trans ((Cert.KernelIdeal.Hand.W16_args (F := Ideal) m ρ c j).trans ((Cert.KernelIdeal.Hand.W15_args (F := Ideal) m ρ c j).trans ((Cert.KernelIdeal.Hand.W14_args (F := Ideal) m ρ c j).trans ((Cert.KernelIdeal.Hand.W13_args (F := Ideal) m ρ c j).trans ((Cert.KernelIdeal.Hand.W12_args (F := Ideal) m ρ c j).trans ((Cert.KernelIdeal.Hand.W11_args (F := Ideal) m ρ c j).trans ((Cert.KernelIdeal.Hand.W10_args (F := Ideal) m ρ c j).trans ((Cert.KernelIdeal.Hand.W9_args (F := Ideal) m ρ c j).trans ((Cert.KernelIdeal.Hand.W8_args (F := Ideal) m ρ c j).trans ((Cert.KernelIdeal.Hand.W7_args (F := Ideal) m ρ c j).trans ((Cert.KernelIdeal.Hand.W6_args (F := Ideal) m ρ c j).trans ((Cert.KernelIdeal.Hand.W5_args (F := Ideal) m ρ c j).trans ((Cert.KernelIdeal.Hand.W4_args (F := Ideal) m ρ c j).trans ((Cert.KernelIdeal.Hand.W3_args (F := Ideal) m ρ c j).trans ((Cert.KernelIdeal.Hand.W2_args (F := Ideal) m ρ c j).trans ((Cert.KernelIdeal.Hand.W1_args (F := Ideal) m ρ c j).trans ((rfl : Cert.KernelIdeal.Hand.W0 (F := Ideal) m ρ c (Proc.devRef .tc (Cert.KernelIdeal.Hand.argR j)) = m ((c : Thread Cert.KernelIdeal.nD Cert.KernelIdeal.τ).loc (Cert.KernelIdeal.Hand.argR j)))))))))))))))))))))))
theorem args22 (j : Fin 23) : Cert.KernelIdeal.Hand.W22 (F := Ideal) m ρ c (Proc.devRef .tc (Cert.KernelIdeal.Hand.argR j)) = m ((c : Thread Cert.KernelIdeal.nD Cert.KernelIdeal.τ).loc (Cert.KernelIdeal.Hand.argR j)) :=
  (Cert.KernelIdeal.Hand.W22_args (F := Ideal) m ρ c j).trans ((Cert.KernelIdeal.Hand.W21_args (F := Ideal) m ρ c j).trans ((Cert.KernelIdeal.Hand.W20_args (F := Ideal) m ρ c j).trans ((Cert.KernelIdeal.Hand.W19_args (F := Ideal) m ρ c j).trans ((Cert.KernelIdeal.Hand.W18_args (F := Ideal) m ρ c j).trans ((Cert.KernelIdeal.Hand.W17_args (F := Ideal) m ρ c j).trans ((Cert.KernelIdeal.Hand.W16_args (F := Ideal) m ρ c j).trans ((Cert.KernelIdeal.Hand.W15_args (F := Ideal) m ρ c j).trans ((Cert.KernelIdeal.Hand.W14_args (F := Ideal) m ρ c j).trans ((Cert.KernelIdeal.Hand.W13_args (F := Ideal) m ρ c j).trans ((Cert.KernelIdeal.Hand.W12_args (F := Ideal) m ρ c j).trans ((Cert.KernelIdeal.Hand.W11_args (F := Ideal) m ρ c j).trans ((Cert.KernelIdeal.Hand.W10_args (F := Ideal) m ρ c j).trans ((Cert.KernelIdeal.Hand.W9_args (F := Ideal) m ρ c j).trans ((Cert.KernelIdeal.Hand.W8_args (F := Ideal) m ρ c j).trans ((Cert.KernelIdeal.Hand.W7_args (F := Ideal) m ρ c j).trans ((Cert.KernelIdeal.Hand.W6_args (F := Ideal) m ρ c j).trans ((Cert.KernelIdeal.Hand.W5_args (F := Ideal) m ρ c j).trans ((Cert.KernelIdeal.Hand.W4_args (F := Ideal) m ρ c j).trans ((Cert.KernelIdeal.Hand.W3_args (F := Ideal) m ρ c j).trans ((Cert.KernelIdeal.Hand.W2_args (F := Ideal) m ρ c j).trans ((Cert.KernelIdeal.Hand.W1_args (F := Ideal) m ρ c j).trans ((rfl : Cert.KernelIdeal.Hand.W0 (F := Ideal) m ρ c (Proc.devRef .tc (Cert.KernelIdeal.Hand.argR j)) = m ((c : Thread Cert.KernelIdeal.nD Cert.KernelIdeal.τ).loc (Cert.KernelIdeal.Hand.argR j)))))))))))))))))))))))))
theorem args24 (j : Fin 23) : Cert.KernelIdeal.Hand.W24 (F := Ideal) m ρ c (Proc.devRef .tc (Cert.KernelIdeal.Hand.argR j)) = m ((c : Thread Cert.KernelIdeal.nD Cert.KernelIdeal.τ).loc (Cert.KernelIdeal.Hand.argR j)) :=
  (Cert.KernelIdeal.Hand.W24_args (F := Ideal) m ρ c j).trans ((Cert.KernelIdeal.Hand.W23_args (F := Ideal) m ρ c j).trans ((Cert.KernelIdeal.Hand.W22_args (F := Ideal) m ρ c j).trans ((Cert.KernelIdeal.Hand.W21_args (F := Ideal) m ρ c j).trans ((Cert.KernelIdeal.Hand.W20_args (F := Ideal) m ρ c j).trans ((Cert.KernelIdeal.Hand.W19_args (F := Ideal) m ρ c j).trans ((Cert.KernelIdeal.Hand.W18_args (F := Ideal) m ρ c j).trans ((Cert.KernelIdeal.Hand.W17_args (F := Ideal) m ρ c j).trans ((Cert.KernelIdeal.Hand.W16_args (F := Ideal) m ρ c j).trans ((Cert.KernelIdeal.Hand.W15_args (F := Ideal) m ρ c j).trans ((Cert.KernelIdeal.Hand.W14_args (F := Ideal) m ρ c j).trans ((Cert.KernelIdeal.Hand.W13_args (F := Ideal) m ρ c j).trans ((Cert.KernelIdeal.Hand.W12_args (F := Ideal) m ρ c j).trans ((Cert.KernelIdeal.Hand.W11_args (F := Ideal) m ρ c j).trans ((Cert.KernelIdeal.Hand.W10_args (F := Ideal) m ρ c j).trans ((Cert.KernelIdeal.Hand.W9_args (F := Ideal) m ρ c j).trans ((Cert.KernelIdeal.Hand.W8_args (F := Ideal) m ρ c j).trans ((Cert.KernelIdeal.Hand.W7_args (F := Ideal) m ρ c j).trans ((Cert.KernelIdeal.Hand.W6_args (F := Ideal) m ρ c j).trans ((Cert.KernelIdeal.Hand.W5_args (F := Ideal) m ρ c j).trans ((Cert.KernelIdeal.Hand.W4_args (F := Ideal) m ρ c j).trans ((Cert.KernelIdeal.Hand.W3_args (F := Ideal) m ρ c j).trans ((Cert.KernelIdeal.Hand.W2_args (F := Ideal) m ρ c j).trans ((Cert.KernelIdeal.Hand.W1_args (F := Ideal) m ρ c j).trans ((rfl : Cert.KernelIdeal.Hand.W0 (F := Ideal) m ρ c (Proc.devRef .tc (Cert.KernelIdeal.Hand.argR j)) = m ((c : Thread Cert.KernelIdeal.nD Cert.KernelIdeal.τ).loc (Cert.KernelIdeal.Hand.argR j)))))))))))))))))))))))))))
theorem args26 (j : Fin 23) : Cert.KernelIdeal.Hand.W26 (F := Ideal) m ρ c (Proc.devRef .tc (Cert.KernelIdeal.Hand.argR j)) = m ((c : Thread Cert.KernelIdeal.nD Cert.KernelIdeal.τ).loc (Cert.KernelIdeal.Hand.argR j)) :=
  (Cert.KernelIdeal.Hand.W26_args (F := Ideal) m ρ c j).trans ((Cert.KernelIdeal.Hand.W25_args (F := Ideal) m ρ c j).trans ((Cert.KernelIdeal.Hand.W24_args (F := Ideal) m ρ c j).trans ((Cert.KernelIdeal.Hand.W23_args (F := Ideal) m ρ c j).trans ((Cert.KernelIdeal.Hand.W22_args (F := Ideal) m ρ c j).trans ((Cert.KernelIdeal.Hand.W21_args (F := Ideal) m ρ c j).trans ((Cert.KernelIdeal.Hand.W20_args (F := Ideal) m ρ c j).trans ((Cert.KernelIdeal.Hand.W19_args (F := Ideal) m ρ c j).trans ((Cert.KernelIdeal.Hand.W18_args (F := Ideal) m ρ c j).trans ((Cert.KernelIdeal.Hand.W17_args (F := Ideal) m ρ c j).trans ((Cert.KernelIdeal.Hand.W16_args (F := Ideal) m ρ c j).trans ((Cert.KernelIdeal.Hand.W15_args (F := Ideal) m ρ c j).trans ((Cert.KernelIdeal.Hand.W14_args (F := Ideal) m ρ c j).trans ((Cert.KernelIdeal.Hand.W13_args (F := Ideal) m ρ c j).trans ((Cert.KernelIdeal.Hand.W12_args (F := Ideal) m ρ c j).trans ((Cert.KernelIdeal.Hand.W11_args (F := Ideal) m ρ c j).trans ((Cert.KernelIdeal.Hand.W10_args (F := Ideal) m ρ c j).trans ((Cert.KernelIdeal.Hand.W9_args (F := Ideal) m ρ c j).trans ((Cert.KernelIdeal.Hand.W8_args (F := Ideal) m ρ c j).trans ((Cert.KernelIdeal.Hand.W7_args (F := Ideal) m ρ c j).trans ((Cert.KernelIdeal.Hand.W6_args (F := Ideal) m ρ c j).trans ((Cert.KernelIdeal.Hand.W5_args (F := Ideal) m ρ c j).trans ((Cert.KernelIdeal.Hand.W4_args (F := Ideal) m ρ c j).trans ((Cert.KernelIdeal.Hand.W3_args (F := Ideal) m ρ c j).trans ((Cert.KernelIdeal.Hand.W2_args (F := Ideal) m ρ c j).trans ((Cert.KernelIdeal.Hand.W1_args (F := Ideal) m ρ c j).trans ((rfl : Cert.KernelIdeal.Hand.W0 (F := Ideal) m ρ c (Proc.devRef .tc (Cert.KernelIdeal.Hand.argR j)) = m ((c : Thread Cert.KernelIdeal.nD Cert.KernelIdeal.τ).loc (Cert.KernelIdeal.Hand.argR j)))))))))))))))))))))))))))))
theorem args28 (j : Fin 23) : Cert.KernelIdeal.Hand.W28 (F := Ideal) m ρ c (Proc.devRef .tc (Cert.KernelIdeal.Hand.argR j)) = m ((c : Thread Cert.KernelIdeal.nD Cert.KernelIdeal.τ).loc (Cert.KernelIdeal.Hand.argR j)) :=
  (Cert.KernelIdeal.Hand.W28_args (F := Ideal) m ρ c j).trans ((Cert.KernelIdeal.Hand.W27_args (F := Ideal) m ρ c j).trans ((Cert.KernelIdeal.Hand.W26_args (F := Ideal) m ρ c j).trans ((Cert.KernelIdeal.Hand.W25_args (F := Ideal) m ρ c j).trans ((Cert.KernelIdeal.Hand.W24_args (F := Ideal) m ρ c j).trans ((Cert.KernelIdeal.Hand.W23_args (F := Ideal) m ρ c j).trans ((Cert.KernelIdeal.Hand.W22_args (F := Ideal) m ρ c j).trans ((Cert.KernelIdeal.Hand.W21_args (F := Ideal) m ρ c j).trans ((Cert.KernelIdeal.Hand.W20_args (F := Ideal) m ρ c j).trans ((Cert.KernelIdeal.Hand.W19_args (F := Ideal) m ρ c j).trans ((Cert.KernelIdeal.Hand.W18_args (F := Ideal) m ρ c j).trans ((Cert.KernelIdeal.Hand.W17_args (F := Ideal) m ρ c j).trans ((Cert.KernelIdeal.Hand.W16_args (F := Ideal) m ρ c j).trans ((Cert.KernelIdeal.Hand.W15_args (F := Ideal) m ρ c j).trans ((Cert.KernelIdeal.Hand.W14_args (F := Ideal) m ρ c j).trans ((Cert.KernelIdeal.Hand.W13_args (F := Ideal) m ρ c j).trans ((Cert.KernelIdeal.Hand.W12_args (F := Ideal) m ρ c j).trans ((Cert.KernelIdeal.Hand.W11_args (F := Ideal) m ρ c j).trans ((Cert.KernelIdeal.Hand.W10_args (F := Ideal) m ρ c j).trans ((Cert.KernelIdeal.Hand.W9_args (F := Ideal) m ρ c j).trans ((Cert.KernelIdeal.Hand.W8_args (F := Ideal) m ρ c j).trans ((Cert.KernelIdeal.Hand.W7_args (F := Ideal) m ρ c j).trans ((Cert.KernelIdeal.Hand.W6_args (F := Ideal) m ρ c j).trans ((Cert.KernelIdeal.Hand.W5_args (F := Ideal) m ρ c j).trans ((Cert.KernelIdeal.Hand.W4_args (F := Ideal) m ρ c j).trans ((Cert.KernelIdeal.Hand.W3_args (F := Ideal) m ρ c j).trans ((Cert.KernelIdeal.Hand.W2_args (F := Ideal) m ρ c j).trans ((Cert.KernelIdeal.Hand.W1_args (F := Ideal) m ρ c j).trans ((rfl : Cert.KernelIdeal.Hand.W0 (F := Ideal) m ρ c (Proc.devRef .tc (Cert.KernelIdeal.Hand.argR j)) = m ((c : Thread Cert.KernelIdeal.nD Cert.KernelIdeal.τ).loc (Cert.KernelIdeal.Hand.argR j)))))))))))))))))))))))))))))))
theorem args30 (j : Fin 23) : Cert.KernelIdeal.Hand.W30 (F := Ideal) m ρ c (Proc.devRef .tc (Cert.KernelIdeal.Hand.argR j)) = m ((c : Thread Cert.KernelIdeal.nD Cert.KernelIdeal.τ).loc (Cert.KernelIdeal.Hand.argR j)) :=
  (Cert.KernelIdeal.Hand.W30_args (F := Ideal) m ρ c j).trans ((Cert.KernelIdeal.Hand.W29_args (F := Ideal) m ρ c j).trans ((Cert.KernelIdeal.Hand.W28_args (F := Ideal) m ρ c j).trans ((Cert.KernelIdeal.Hand.W27_args (F := Ideal) m ρ c j).trans ((Cert.KernelIdeal.Hand.W26_args (F := Ideal) m ρ c j).trans ((Cert.KernelIdeal.Hand.W25_args (F := Ideal) m ρ c j).trans ((Cert.KernelIdeal.Hand.W24_args (F := Ideal) m ρ c j).trans ((Cert.KernelIdeal.Hand.W23_args (F := Ideal) m ρ c j).trans ((Cert.KernelIdeal.Hand.W22_args (F := Ideal) m ρ c j).trans ((Cert.KernelIdeal.Hand.W21_args (F := Ideal) m ρ c j).trans ((Cert.KernelIdeal.Hand.W20_args (F := Ideal) m ρ c j).trans ((Cert.KernelIdeal.Hand.W19_args (F := Ideal) m ρ c j).trans ((Cert.KernelIdeal.Hand.W18_args (F := Ideal) m ρ c j).trans ((Cert.KernelIdeal.Hand.W17_args (F := Ideal) m ρ c j).trans ((Cert.KernelIdeal.Hand.W16_args (F := Ideal) m ρ c j).trans ((Cert.KernelIdeal.Hand.W15_args (F := Ideal) m ρ c j).trans ((Cert.KernelIdeal.Hand.W14_args (F := Ideal) m ρ c j).trans ((Cert.KernelIdeal.Hand.W13_args (F := Ideal) m ρ c j).trans ((Cert.KernelIdeal.Hand.W12_args (F := Ideal) m ρ c j).trans ((Cert.KernelIdeal.Hand.W11_args (F := Ideal) m ρ c j).trans ((Cert.KernelIdeal.Hand.W10_args (F := Ideal) m ρ c j).trans ((Cert.KernelIdeal.Hand.W9_args (F := Ideal) m ρ c j).trans ((Cert.KernelIdeal.Hand.W8_args (F := Ideal) m ρ c j).trans ((Cert.KernelIdeal.Hand.W7_args (F := Ideal) m ρ c j).trans ((Cert.KernelIdeal.Hand.W6_args (F := Ideal) m ρ c j).trans ((Cert.KernelIdeal.Hand.W5_args (F := Ideal) m ρ c j).trans ((Cert.KernelIdeal.Hand.W4_args (F := Ideal) m ρ c j).trans ((Cert.KernelIdeal.Hand.W3_args (F := Ideal) m ρ c j).trans ((Cert.KernelIdeal.Hand.W2_args (F := Ideal) m ρ c j).trans ((Cert.KernelIdeal.Hand.W1_args (F := Ideal) m ρ c j).trans ((rfl : Cert.KernelIdeal.Hand.W0 (F := Ideal) m ρ c (Proc.devRef .tc (Cert.KernelIdeal.Hand.argR j)) = m ((c : Thread Cert.KernelIdeal.nD Cert.KernelIdeal.τ).loc (Cert.KernelIdeal.Hand.argR j)))))))))))))))))))))))))))))))))
theorem args32 (j : Fin 23) : Cert.KernelIdeal.Hand.W32 (F := Ideal) m ρ c (Proc.devRef .tc (Cert.KernelIdeal.Hand.argR j)) = m ((c : Thread Cert.KernelIdeal.nD Cert.KernelIdeal.τ).loc (Cert.KernelIdeal.Hand.argR j)) :=
  (Cert.KernelIdeal.Hand.W32_args (F := Ideal) m ρ c j).trans ((Cert.KernelIdeal.Hand.W31_args (F := Ideal) m ρ c j).trans ((Cert.KernelIdeal.Hand.W30_args (F := Ideal) m ρ c j).trans ((Cert.KernelIdeal.Hand.W29_args (F := Ideal) m ρ c j).trans ((Cert.KernelIdeal.Hand.W28_args (F := Ideal) m ρ c j).trans ((Cert.KernelIdeal.Hand.W27_args (F := Ideal) m ρ c j).trans ((Cert.KernelIdeal.Hand.W26_args (F := Ideal) m ρ c j).trans ((Cert.KernelIdeal.Hand.W25_args (F := Ideal) m ρ c j).trans ((Cert.KernelIdeal.Hand.W24_args (F := Ideal) m ρ c j).trans ((Cert.KernelIdeal.Hand.W23_args (F := Ideal) m ρ c j).trans ((Cert.KernelIdeal.Hand.W22_args (F := Ideal) m ρ c j).trans ((Cert.KernelIdeal.Hand.W21_args (F := Ideal) m ρ c j).trans ((Cert.KernelIdeal.Hand.W20_args (F := Ideal) m ρ c j).trans ((Cert.KernelIdeal.Hand.W19_args (F := Ideal) m ρ c j).trans ((Cert.KernelIdeal.Hand.W18_args (F := Ideal) m ρ c j).trans ((Cert.KernelIdeal.Hand.W17_args (F := Ideal) m ρ c j).trans ((Cert.KernelIdeal.Hand.W16_args (F := Ideal) m ρ c j).trans ((Cert.KernelIdeal.Hand.W15_args (F := Ideal) m ρ c j).trans ((Cert.KernelIdeal.Hand.W14_args (F := Ideal) m ρ c j).trans ((Cert.KernelIdeal.Hand.W13_args (F := Ideal) m ρ c j).trans ((Cert.KernelIdeal.Hand.W12_args (F := Ideal) m ρ c j).trans ((Cert.KernelIdeal.Hand.W11_args (F := Ideal) m ρ c j).trans ((Cert.KernelIdeal.Hand.W10_args (F := Ideal) m ρ c j).trans ((Cert.KernelIdeal.Hand.W9_args (F := Ideal) m ρ c j).trans ((Cert.KernelIdeal.Hand.W8_args (F := Ideal) m ρ c j).trans ((Cert.KernelIdeal.Hand.W7_args (F := Ideal) m ρ c j).trans ((Cert.KernelIdeal.Hand.W6_args (F := Ideal) m ρ c j).trans ((Cert.KernelIdeal.Hand.W5_args (F := Ideal) m ρ c j).trans ((Cert.KernelIdeal.Hand.W4_args (F := Ideal) m ρ c j).trans ((Cert.KernelIdeal.Hand.W3_args (F := Ideal) m ρ c j).trans ((Cert.KernelIdeal.Hand.W2_args (F := Ideal) m ρ c j).trans ((Cert.KernelIdeal.Hand.W1_args (F := Ideal) m ρ c j).trans ((rfl : Cert.KernelIdeal.Hand.W0 (F := Ideal) m ρ c (Proc.devRef .tc (Cert.KernelIdeal.Hand.argR j)) = m ((c : Thread Cert.KernelIdeal.nD Cert.KernelIdeal.τ).loc (Cert.KernelIdeal.Hand.argR j)))))))))))))))))))))))))))))))))))
theorem args34 (j : Fin 23) : Cert.KernelIdeal.Hand.W34 (F := Ideal) m ρ c (Proc.devRef .tc (Cert.KernelIdeal.Hand.argR j)) = m ((c : Thread Cert.KernelIdeal.nD Cert.KernelIdeal.τ).loc (Cert.KernelIdeal.Hand.argR j)) :=
  (Cert.KernelIdeal.Hand.W34_args (F := Ideal) m ρ c j).trans ((Cert.KernelIdeal.Hand.W33_args (F := Ideal) m ρ c j).trans ((Cert.KernelIdeal.Hand.W32_args (F := Ideal) m ρ c j).trans ((Cert.KernelIdeal.Hand.W31_args (F := Ideal) m ρ c j).trans ((Cert.KernelIdeal.Hand.W30_args (F := Ideal) m ρ c j).trans ((Cert.KernelIdeal.Hand.W29_args (F := Ideal) m ρ c j).trans ((Cert.KernelIdeal.Hand.W28_args (F := Ideal) m ρ c j).trans ((Cert.KernelIdeal.Hand.W27_args (F := Ideal) m ρ c j).trans ((Cert.KernelIdeal.Hand.W26_args (F := Ideal) m ρ c j).trans ((Cert.KernelIdeal.Hand.W25_args (F := Ideal) m ρ c j).trans ((Cert.KernelIdeal.Hand.W24_args (F := Ideal) m ρ c j).trans ((Cert.KernelIdeal.Hand.W23_args (F := Ideal) m ρ c j).trans ((Cert.KernelIdeal.Hand.W22_args (F := Ideal) m ρ c j).trans ((Cert.KernelIdeal.Hand.W21_args (F := Ideal) m ρ c j).trans ((Cert.KernelIdeal.Hand.W20_args (F := Ideal) m ρ c j).trans ((Cert.KernelIdeal.Hand.W19_args (F := Ideal) m ρ c j).trans ((Cert.KernelIdeal.Hand.W18_args (F := Ideal) m ρ c j).trans ((Cert.KernelIdeal.Hand.W17_args (F := Ideal) m ρ c j).trans ((Cert.KernelIdeal.Hand.W16_args (F := Ideal) m ρ c j).trans ((Cert.KernelIdeal.Hand.W15_args (F := Ideal) m ρ c j).trans ((Cert.KernelIdeal.Hand.W14_args (F := Ideal) m ρ c j).trans ((Cert.KernelIdeal.Hand.W13_args (F := Ideal) m ρ c j).trans ((Cert.KernelIdeal.Hand.W12_args (F := Ideal) m ρ c j).trans ((Cert.KernelIdeal.Hand.W11_args (F := Ideal) m ρ c j).trans ((Cert.KernelIdeal.Hand.W10_args (F := Ideal) m ρ c j).trans ((Cert.KernelIdeal.Hand.W9_args (F := Ideal) m ρ c j).trans ((Cert.KernelIdeal.Hand.W8_args (F := Ideal) m ρ c j).trans ((Cert.KernelIdeal.Hand.W7_args (F := Ideal) m ρ c j).trans ((Cert.KernelIdeal.Hand.W6_args (F := Ideal) m ρ c j).trans ((Cert.KernelIdeal.Hand.W5_args (F := Ideal) m ρ c j).trans ((Cert.KernelIdeal.Hand.W4_args (F := Ideal) m ρ c j).trans ((Cert.KernelIdeal.Hand.W3_args (F := Ideal) m ρ c j).trans ((Cert.KernelIdeal.Hand.W2_args (F := Ideal) m ρ c j).trans ((Cert.KernelIdeal.Hand.W1_args (F := Ideal) m ρ c j).trans ((rfl : Cert.KernelIdeal.Hand.W0 (F := Ideal) m ρ c (Proc.devRef .tc (Cert.KernelIdeal.Hand.argR j)) = m ((c : Thread Cert.KernelIdeal.nD Cert.KernelIdeal.τ).loc (Cert.KernelIdeal.Hand.argR j)))))))))))))))))))))))))))))))))))))

/-- The adjacency at the later boundaries. -/
theorem v0_at21 : (show FVec Ideal Cert.KernelIdeal.S8192x8192 .bf16 from Cert.KernelIdeal.Hand.W21 (F := Ideal) m ρ c (Proc.devRef .tc Cert.KernelIdeal.main_v0)) = (show FVec Ideal Cert.KernelIdeal.S8192x8192 .f32 from m ((c : Thread Cert.KernelIdeal.nD Cert.KernelIdeal.τ).loc Cert.KernelIdeal.main_arg4)) := (Cert.Proof.Tail.kp21_v0 m ρ c).trans (v0_at20 m ρ c)
theorem v0_at22 : (show FVec Ideal Cert.KernelIdeal.S8192x8192 .bf16 from Cert.KernelIdeal.Hand.W22 (F := Ideal) m ρ c (Proc.devRef .tc Cert.KernelIdeal.main_v0)) = (show FVec Ideal Cert.KernelIdeal.S8192x8192 .f32 from m ((c : Thread Cert.KernelIdeal.nD Cert.KernelIdeal.τ).loc Cert.KernelIdeal.main_arg4)) := (Cert.Proof.Tail.kp22_v0 m ρ c).trans (v0_at21 m ρ c)
theorem v0_at23 : (show FVec Ideal Cert.KernelIdeal.S8192x8192 .bf16 from Cert.KernelIdeal.Hand.W23 (F := Ideal) m ρ c (Proc.devRef .tc Cert.KernelIdeal.main_v0)) = (show FVec Ideal Cert.KernelIdeal.S8192x8192 .f32 from m ((c : Thread Cert.KernelIdeal.nD Cert.KernelIdeal.τ).loc Cert.KernelIdeal.main_arg4)) := (Cert.Proof.Tail.kp23_v0 m ρ c).trans (v0_at22 m ρ c)
theorem v0_at24 : (show FVec Ideal Cert.KernelIdeal.S8192x8192 .bf16 from Cert.KernelIdeal.Hand.W24 (F := Ideal) m ρ c (Proc.devRef .tc Cert.KernelIdeal.main_v0)) = (show FVec Ideal Cert.KernelIdeal.S8192x8192 .f32 from m ((c : Thread Cert.KernelIdeal.nD Cert.KernelIdeal.τ).loc Cert.KernelIdeal.main_arg4)) := (Cert.Proof.Tail.kp24_v0 m ρ c).trans (v0_at23 m ρ c)
theorem v0_at25 : (show FVec Ideal Cert.KernelIdeal.S8192x8192 .bf16 from Cert.KernelIdeal.Hand.W25 (F := Ideal) m ρ c (Proc.devRef .tc Cert.KernelIdeal.main_v0)) = (show FVec Ideal Cert.KernelIdeal.S8192x8192 .f32 from m ((c : Thread Cert.KernelIdeal.nD Cert.KernelIdeal.τ).loc Cert.KernelIdeal.main_arg4)) := (Cert.Proof.Tail.kp25_v0 m ρ c).trans (v0_at24 m ρ c)
theorem v0_at26 : (show FVec Ideal Cert.KernelIdeal.S8192x8192 .bf16 from Cert.KernelIdeal.Hand.W26 (F := Ideal) m ρ c (Proc.devRef .tc Cert.KernelIdeal.main_v0)) = (show FVec Ideal Cert.KernelIdeal.S8192x8192 .f32 from m ((c : Thread Cert.KernelIdeal.nD Cert.KernelIdeal.τ).loc Cert.KernelIdeal.main_arg4)) := (Cert.Proof.Tail.kp26_v0 m ρ c).trans (v0_at25 m ρ c)
theorem v0_at27 : (show FVec Ideal Cert.KernelIdeal.S8192x8192 .bf16 from Cert.KernelIdeal.Hand.W27 (F := Ideal) m ρ c (Proc.devRef .tc Cert.KernelIdeal.main_v0)) = (show FVec Ideal Cert.KernelIdeal.S8192x8192 .f32 from m ((c : Thread Cert.KernelIdeal.nD Cert.KernelIdeal.τ).loc Cert.KernelIdeal.main_arg4)) := (Cert.Proof.Tail.kp27_v0 m ρ c).trans (v0_at26 m ρ c)
theorem v0_at28 : (show FVec Ideal Cert.KernelIdeal.S8192x8192 .bf16 from Cert.KernelIdeal.Hand.W28 (F := Ideal) m ρ c (Proc.devRef .tc Cert.KernelIdeal.main_v0)) = (show FVec Ideal Cert.KernelIdeal.S8192x8192 .f32 from m ((c : Thread Cert.KernelIdeal.nD Cert.KernelIdeal.τ).loc Cert.KernelIdeal.main_arg4)) := (Cert.Proof.Tail.kp28_v0 m ρ c).trans (v0_at27 m ρ c)
theorem v0_at29 : (show FVec Ideal Cert.KernelIdeal.S8192x8192 .bf16 from Cert.KernelIdeal.Hand.W29 (F := Ideal) m ρ c (Proc.devRef .tc Cert.KernelIdeal.main_v0)) = (show FVec Ideal Cert.KernelIdeal.S8192x8192 .f32 from m ((c : Thread Cert.KernelIdeal.nD Cert.KernelIdeal.τ).loc Cert.KernelIdeal.main_arg4)) := (Cert.Proof.Tail.kp29_v0 m ρ c).trans (v0_at28 m ρ c)
theorem v0_at30 : (show FVec Ideal Cert.KernelIdeal.S8192x8192 .bf16 from Cert.KernelIdeal.Hand.W30 (F := Ideal) m ρ c (Proc.devRef .tc Cert.KernelIdeal.main_v0)) = (show FVec Ideal Cert.KernelIdeal.S8192x8192 .f32 from m ((c : Thread Cert.KernelIdeal.nD Cert.KernelIdeal.τ).loc Cert.KernelIdeal.main_arg4)) := (Cert.Proof.Tail.kp30_v0 m ρ c).trans (v0_at29 m ρ c)
theorem v0_at31 : (show FVec Ideal Cert.KernelIdeal.S8192x8192 .bf16 from Cert.KernelIdeal.Hand.W31 (F := Ideal) m ρ c (Proc.devRef .tc Cert.KernelIdeal.main_v0)) = (show FVec Ideal Cert.KernelIdeal.S8192x8192 .f32 from m ((c : Thread Cert.KernelIdeal.nD Cert.KernelIdeal.τ).loc Cert.KernelIdeal.main_arg4)) := (Cert.Proof.Tail.kp31_v0 m ρ c).trans (v0_at30 m ρ c)
theorem v0_at32 : (show FVec Ideal Cert.KernelIdeal.S8192x8192 .bf16 from Cert.KernelIdeal.Hand.W32 (F := Ideal) m ρ c (Proc.devRef .tc Cert.KernelIdeal.main_v0)) = (show FVec Ideal Cert.KernelIdeal.S8192x8192 .f32 from m ((c : Thread Cert.KernelIdeal.nD Cert.KernelIdeal.τ).loc Cert.KernelIdeal.main_arg4)) := (Cert.Proof.Tail.kp32_v0 m ρ c).trans (v0_at31 m ρ c)
theorem v0_at33 : (show FVec Ideal Cert.KernelIdeal.S8192x8192 .bf16 from Cert.KernelIdeal.Hand.W33 (F := Ideal) m ρ c (Proc.devRef .tc Cert.KernelIdeal.main_v0)) = (show FVec Ideal Cert.KernelIdeal.S8192x8192 .f32 from m ((c : Thread Cert.KernelIdeal.nD Cert.KernelIdeal.τ).loc Cert.KernelIdeal.main_arg4)) := (Cert.Proof.Tail.kp33_v0 m ρ c).trans (v0_at32 m ρ c)

abbrev aa4 (m : (ℓ : Loc Cert.KernelIdeal.nD Cert.KernelIdeal.τ Cert.KernelIdeal.sig) → Buf (Elt Ideal) ℓ) (c : Dev Cert.KernelIdeal.nD) : FVec Ideal Cert.KernelIdeal.S8192x8192 .f32 := m ((c : Thread Cert.KernelIdeal.nD Cert.KernelIdeal.τ).loc Cert.KernelIdeal.main_arg4)
abbrev aa5 (m : (ℓ : Loc Cert.KernelIdeal.nD Cert.KernelIdeal.τ Cert.KernelIdeal.sig) → Buf (Elt Ideal) ℓ) (c : Dev Cert.KernelIdeal.nD) : FVec Ideal Cert.KernelIdeal.S8192x3 .f32 := m ((c : Thread Cert.KernelIdeal.nD Cert.KernelIdeal.τ).loc Cert.KernelIdeal.main_arg5)
abbrev aa6 (m : (ℓ : Loc Cert.KernelIdeal.nD Cert.KernelIdeal.τ Cert.KernelIdeal.sig) → Buf (Elt Ideal) ℓ) (c : Dev Cert.KernelIdeal.nD) : FVec Ideal Cert.KernelIdeal.S8192x128 .f32 := m ((c : Thread Cert.KernelIdeal.nD Cert.KernelIdeal.τ).loc Cert.KernelIdeal.main_arg6)
abbrev aa8 (m : (ℓ : Loc Cert.KernelIdeal.nD Cert.KernelIdeal.τ Cert.KernelIdeal.sig) → Buf (Elt Ideal) ℓ) (c : Dev Cert.KernelIdeal.nD) : FVec Ideal Cert.KernelIdeal.S259x128 .f32 := m ((c : Thread Cert.KernelIdeal.nD Cert.KernelIdeal.τ).loc Cert.KernelIdeal.main_arg8)
abbrev aa9 (m : (ℓ : Loc Cert.KernelIdeal.nD Cert.KernelIdeal.τ Cert.KernelIdeal.sig) → Buf (Elt Ideal) ℓ) (c : Dev Cert.KernelIdeal.nD) : FVec Ideal Cert.KernelIdeal.S259x128 .f32 := m ((c : Thread Cert.KernelIdeal.nD Cert.KernelIdeal.τ).loc Cert.KernelIdeal.main_arg9)
abbrev aa10 (m : (ℓ : Loc Cert.KernelIdeal.nD Cert.KernelIdeal.τ Cert.KernelIdeal.sig) → Buf (Elt Ideal) ℓ) (c : Dev Cert.KernelIdeal.nD) : FVec Ideal Cert.KernelIdeal.S128x128 .f32 := m ((c : Thread Cert.KernelIdeal.nD Cert.KernelIdeal.τ).loc Cert.KernelIdeal.main_arg10)
abbrev aa11 (m : (ℓ : Loc Cert.KernelIdeal.nD Cert.KernelIdeal.τ Cert.KernelIdeal.sig) → Buf (Elt Ideal) ℓ) (c : Dev Cert.KernelIdeal.nD) : FVec Ideal Cert.KernelIdeal.S128x128 .f32 := m ((c : Thread Cert.KernelIdeal.nD Cert.KernelIdeal.τ).loc Cert.KernelIdeal.main_arg11)
abbrev aa12 (m : (ℓ : Loc Cert.KernelIdeal.nD Cert.KernelIdeal.τ Cert.KernelIdeal.sig) → Buf (Elt Ideal) ℓ) (c : Dev Cert.KernelIdeal.nD) : FVec Ideal Cert.KernelIdeal.S259x128 .f32 := m ((c : Thread Cert.KernelIdeal.nD Cert.KernelIdeal.τ).loc Cert.KernelIdeal.main_arg12)
abbrev aa13 (m : (ℓ : Loc Cert.KernelIdeal.nD Cert.KernelIdeal.τ Cert.KernelIdeal.sig) → Buf (Elt Ideal) ℓ) (c : Dev Cert.KernelIdeal.nD) : FVec Ideal Cert.KernelIdeal.S128x128 .f32 := m ((c : Thread Cert.KernelIdeal.nD Cert.KernelIdeal.τ).loc Cert.KernelIdeal.main_arg13)
abbrev aa14 (m : (ℓ : Loc Cert.KernelIdeal.nD Cert.KernelIdeal.τ Cert.KernelIdeal.sig) → Buf (Elt Ideal) ℓ) (c : Dev Cert.KernelIdeal.nD) : FVec Ideal Cert.KernelIdeal.S128x128 .f32 := m ((c : Thread Cert.KernelIdeal.nD Cert.KernelIdeal.τ).loc Cert.KernelIdeal.main_arg14)
abbrev aa15 (m : (ℓ : Loc Cert.KernelIdeal.nD Cert.KernelIdeal.τ Cert.KernelIdeal.sig) → Buf (Elt Ideal) ℓ) (c : Dev Cert.KernelIdeal.nD) : FVec Ideal Cert.KernelIdeal.S128x128 .f32 := m ((c : Thread Cert.KernelIdeal.nD Cert.KernelIdeal.τ).loc Cert.KernelIdeal.main_arg15)
abbrev aa16 (m : (ℓ : Loc Cert.KernelIdeal.nD Cert.KernelIdeal.τ Cert.KernelIdeal.sig) → Buf (Elt Ideal) ℓ) (c : Dev Cert.KernelIdeal.nD) : FVec Ideal Cert.KernelIdeal.S128x128 .f32 := m ((c : Thread Cert.KernelIdeal.nD Cert.KernelIdeal.τ).loc Cert.KernelIdeal.main_arg16)
abbrev aa17 (m : (ℓ : Loc Cert.KernelIdeal.nD Cert.KernelIdeal.τ Cert.KernelIdeal.sig) → Buf (Elt Ideal) ℓ) (c : Dev Cert.KernelIdeal.nD) : FVec Ideal Cert.KernelIdeal.S128x128 .f32 := m ((c : Thread Cert.KernelIdeal.nD Cert.KernelIdeal.τ).loc Cert.KernelIdeal.main_arg17)
abbrev aa18 (m : (ℓ : Loc Cert.KernelIdeal.nD Cert.KernelIdeal.τ Cert.KernelIdeal.sig) → Buf (Elt Ideal) ℓ) (c : Dev Cert.KernelIdeal.nD) : FVec Ideal Cert.KernelIdeal.S128x128 .f32 := m ((c : Thread Cert.KernelIdeal.nD Cert.KernelIdeal.τ).loc Cert.KernelIdeal.main_arg18)
abbrev aa19 (m : (ℓ : Loc Cert.KernelIdeal.nD Cert.KernelIdeal.τ Cert.KernelIdeal.sig) → Buf (Elt Ideal) ℓ) (c : Dev Cert.KernelIdeal.nD) : FVec Ideal Cert.KernelIdeal.S128x128 .f32 := m ((c : Thread Cert.KernelIdeal.nD Cert.KernelIdeal.τ).loc Cert.KernelIdeal.main_arg19)
abbrev aa20 (m : (ℓ : Loc Cert.KernelIdeal.nD Cert.KernelIdeal.τ Cert.KernelIdeal.sig) → Buf (Elt Ideal) ℓ) (c : Dev Cert.KernelIdeal.nD) : FVec Ideal Cert.KernelIdeal.S128x128 .f32 := m ((c : Thread Cert.KernelIdeal.nD Cert.KernelIdeal.τ).loc Cert.KernelIdeal.main_arg20)
abbrev aa21 (m : (ℓ : Loc Cert.KernelIdeal.nD Cert.KernelIdeal.τ Cert.KernelIdeal.sig) → Buf (Elt Ideal) ℓ) (c : Dev Cert.KernelIdeal.nD) : FVec Ideal Cert.KernelIdeal.S128x3 .f32 := m ((c : Thread Cert.KernelIdeal.nD Cert.KernelIdeal.τ).loc Cert.KernelIdeal.main_arg21)
abbrev aa22 (m : (ℓ : Loc Cert.KernelIdeal.nD Cert.KernelIdeal.τ Cert.KernelIdeal.sig) → Buf (Elt Ideal) ℓ) (c : Dev Cert.KernelIdeal.nD) : FVec Ideal Cert.KernelIdeal.S128x3 .f32 := m ((c : Thread Cert.KernelIdeal.nD Cert.KernelIdeal.τ).loc Cert.KernelIdeal.main_arg22)
abbrev PP : Cert.Proof.TailSpec.V128 := (show FVec Ideal Cert.KernelIdeal.S8192x128 .f32 from Cert.KernelIdeal.Hand.W21 (F := Ideal) m ρ c (Proc.devRef .tc Cert.KernelIdeal.main_v272))
abbrev X0s : FVec Ideal Cert.ReferenceIdeal.S8192x259 .f32 := Cert.Proof.TailSpec.cat (aa6 m c) (aa5 m c) (PP m ρ c)
abbrev g1 : Cert.Proof.TailSpec.V128 := Cert.Proof.TailSpec.gc259 (aa4 m c) (X0s m ρ c) (aa8 m c) (aa9 m c)
abbrev x1 : Cert.Proof.TailSpec.V128 := Cert.Proof.TailSpec.blk1 (aa4 m c) (aa5 m c) (aa6 m c) (PP m ρ c) (aa8 m c) (aa9 m c) (aa12 m c) (aa10 m c) (aa11 m c)
abbrev g3 : Cert.Proof.TailSpec.V128 := Cert.Proof.TailSpec.gc (aa4 m c) (x1 m ρ c) (aa13 m c) (aa14 m c)
abbrev x2 : Cert.Proof.TailSpec.V128 := Cert.Proof.TailSpec.blk (aa4 m c) (x1 m ρ c) (aa13 m c) (aa14 m c) (aa15 m c) (aa16 m c)
abbrev g5 : Cert.Proof.TailSpec.V128 := Cert.Proof.TailSpec.gc (aa4 m c) (x2 m ρ c) (aa17 m c) (aa18 m c)
abbrev x3 : Cert.Proof.TailSpec.V128 := Cert.Proof.TailSpec.blk (aa4 m c) (x2 m ρ c) (aa17 m c) (aa18 m c) (aa19 m c) (aa20 m c)

theorem h273 : (show FVec Ideal Cert.KernelIdeal.S8192x259 .f32 from Cert.KernelIdeal.Hand.W21 (F := Ideal) m ρ c (Proc.devRef .tc Cert.KernelIdeal.main_v273)) = X0s m ρ c := by
  rw [Cert.Proof.Tail.rd21_v273 m ρ c, ← Cert.Proof.Tail.rd21_v272 m ρ c]
  exact congrArg₂ (fun x y => Cert.Proof.TailSpec.cat x y (PP m ρ c)) (args20 m ρ c 6) (args20 m ρ c 5)
theorem h274 : (show FVec Ideal Cert.KernelIdeal.S8192x128 .f32 from Cert.KernelIdeal.Hand.W21 (F := Ideal) m ρ c (Proc.devRef .tc Cert.KernelIdeal.main_v274)) = Cert.Proof.TailSpec.dg259 (X0s m ρ c) (aa12 m c) := by
  have hX0 := (Cert.Proof.Tail.rd21_v273 m ρ c).symm.trans (h273 m ρ c)
  rw [Cert.Proof.Tail.rd21_v274 m ρ c, hX0]
  exact congrArg (fun w => Host.dotGeneral Cert.KernelIdeal.dot_S8192x259_S259x128_S8192x128_1_0_0_1_n_n none (X0s m ρ c) w) (args20 m ρ c 12)
theorem h275 : (show FVec Ideal Cert.KernelIdeal.S8192x128 .f32 from Cert.KernelIdeal.Hand.W21 (F := Ideal) m ρ c (Proc.devRef .tc Cert.KernelIdeal.main_v275)) = Cert.Proof.TailSpec.dg259 (X0s m ρ c) (aa8 m c) := by
  have hX0 := (Cert.Proof.Tail.rd21_v273 m ρ c).symm.trans (h273 m ρ c)
  rw [Cert.Proof.Tail.rd21_v275 m ρ c, hX0]
  exact congrArg (fun w => Host.dotGeneral Cert.KernelIdeal.dot_S8192x259_S259x128_S8192x128_1_0_0_1_n_n none (X0s m ρ c) w) (args20 m ρ c 8)
theorem h277 : (show FVec Ideal Cert.KernelIdeal.S8192x128 .bf16 from Cert.KernelIdeal.Hand.W21 (F := Ideal) m ρ c (Proc.devRef .tc Cert.KernelIdeal.main_v277)) = truncf .bf16 (Cert.Proof.TailSpec.dg259 (X0s m ρ c) (aa9 m c)) Cert.KernelIdeal.Facts₀.bitsLt_bf16_f32 := by
  have hX0 := (Cert.Proof.Tail.rd21_v273 m ρ c).symm.trans (h273 m ρ c)
  rw [Cert.Proof.Tail.rd21_v277 m ρ c, hX0]
  exact congrArg (fun w => truncf .bf16 (Host.dotGeneral Cert.KernelIdeal.dot_S8192x259_S259x128_S8192x128_1_0_0_1_n_n none (X0s m ρ c) w) Cert.KernelIdeal.Facts₀.bitsLt_bf16_f32) (args20 m ρ c 9)
theorem h278 : (show FVec Ideal Cert.KernelIdeal.S8192x128 .f32 from Cert.KernelIdeal.Hand.W22 (F := Ideal) m ρ c (Proc.devRef .tc Cert.KernelIdeal.main_v278)) = g1 m ρ c := by
  rw [Cert.Proof.Tail.rd22_v278 m ρ c, v0_at21 m ρ c, h277 m ρ c, h275 m ρ c]
  exact G4_gc (aa4 m c) (X0s m ρ c) (aa8 m c) (aa9 m c)
theorem k274_22 : (show FVec Ideal Cert.KernelIdeal.S8192x128 .f32 from Cert.KernelIdeal.Hand.W22 (F := Ideal) m ρ c (Proc.devRef .tc Cert.KernelIdeal.main_v274)) = Cert.Proof.TailSpec.dg259 (X0s m ρ c) (aa12 m c) :=
  (Cert.Proof.Tail.kp22_v274 m ρ c).trans (h274 m ρ c)
theorem k274_23 : (show FVec Ideal Cert.KernelIdeal.S8192x128 .f32 from Cert.KernelIdeal.Hand.W23 (F := Ideal) m ρ c (Proc.devRef .tc Cert.KernelIdeal.main_v274)) = Cert.Proof.TailSpec.dg259 (X0s m ρ c) (aa12 m c) :=
  (Cert.Proof.Tail.kp23_v274 m ρ c).trans (k274_22 m ρ c)
theorem k274_24 : (show FVec Ideal Cert.KernelIdeal.S8192x128 .f32 from Cert.KernelIdeal.Hand.W24 (F := Ideal) m ρ c (Proc.devRef .tc Cert.KernelIdeal.main_v274)) = Cert.Proof.TailSpec.dg259 (X0s m ρ c) (aa12 m c) :=
  (Cert.Proof.Tail.kp24_v274 m ρ c).trans (k274_23 m ρ c)
theorem h279 : (show FVec Ideal Cert.KernelIdeal.S8192x128 .f32 from Cert.KernelIdeal.Hand.W23 (F := Ideal) m ρ c (Proc.devRef .tc Cert.KernelIdeal.main_v279)) = Cert.Proof.TailSpec.dg128 (g1 m ρ c) (aa10 m c) := by
  rw [Cert.Proof.Tail.rd23_v279 m ρ c, h278 m ρ c]
  exact congrArg (fun w => Host.dotGeneral Cert.KernelIdeal.dot_S8192x128_S128x128_S8192x128_1_0_0_1_n_n none (g1 m ρ c) w) (args22 m ρ c 10)
theorem h281 : (show FVec Ideal Cert.KernelIdeal.S8192x128 .bf16 from Cert.KernelIdeal.Hand.W23 (F := Ideal) m ρ c (Proc.devRef .tc Cert.KernelIdeal.main_v281)) = truncf .bf16 (Cert.Proof.TailSpec.dg128 (g1 m ρ c) (aa11 m c)) Cert.KernelIdeal.Facts₀.bitsLt_bf16_f32 := by
  rw [Cert.Proof.Tail.rd23_v281 m ρ c, h278 m ρ c]
  exact congrArg (fun w => truncf .bf16 (Host.dotGeneral Cert.KernelIdeal.dot_S8192x128_S128x128_S8192x128_1_0_0_1_n_n none (g1 m ρ c) w) Cert.KernelIdeal.Facts₀.bitsLt_bf16_f32) (args22 m ρ c 11)
theorem h282 : (show FVec Ideal Cert.KernelIdeal.S8192x128 .f32 from Cert.KernelIdeal.Hand.W24 (F := Ideal) m ρ c (Proc.devRef .tc Cert.KernelIdeal.main_v282)) = Cert.Proof.TailSpec.gc (aa4 m c) (g1 m ρ c) (aa10 m c) (aa11 m c) := by
  rw [Cert.Proof.Tail.rd24_v282 m ρ c, v0_at23 m ρ c, h281 m ρ c, h279 m ρ c]
  exact G5_gc (aa4 m c) (g1 m ρ c) (aa10 m c) (aa11 m c)
theorem h283 : (show FVec Ideal Cert.KernelIdeal.S8192x128 .f32 from Cert.KernelIdeal.Hand.W25 (F := Ideal) m ρ c (Proc.devRef .tc Cert.KernelIdeal.main_v283)) = x1 m ρ c := by
  rw [Cert.Proof.Tail.rd25_v283 m ρ c, k274_24 m ρ c, h282 m ρ c]
  rfl
theorem h284 : (show FVec Ideal Cert.KernelIdeal.S8192x128 .f32 from Cert.KernelIdeal.Hand.W25 (F := Ideal) m ρ c (Proc.devRef .tc Cert.KernelIdeal.main_v284)) = Cert.Proof.TailSpec.dg128 (x1 m ρ c) (aa13 m c) := by
  rw [Cert.Proof.Tail.rd25_v284 m ρ c, k274_24 m ρ c, h282 m ρ c]
  exact congrArg (fun w => Host.dotGeneral Cert.KernelIdeal.dot_S8192x128_S128x128_S8192x128_1_0_0_1_n_n none (x1 m ρ c) w) (args24 m ρ c 13)
theorem h286 : (show FVec Ideal Cert.KernelIdeal.S8192x128 .bf16 from Cert.KernelIdeal.Hand.W25 (F := Ideal) m ρ c (Proc.devRef .tc Cert.KernelIdeal.main_v286)) = truncf .bf16 (Cert.Proof.TailSpec.dg128 (x1 m ρ c) (aa14 m c)) Cert.KernelIdeal.Facts₀.bitsLt_bf16_f32 := by
  rw [Cert.Proof.Tail.rd25_v286 m ρ c, k274_24 m ρ c, h282 m ρ c]
  exact congrArg (fun w => truncf .bf16 (Host.dotGeneral Cert.KernelIdeal.dot_S8192x128_S128x128_S8192x128_1_0_0_1_n_n none (x1 m ρ c) w) Cert.KernelIdeal.Facts₀.bitsLt_bf16_f32) (args24 m ρ c 14)
theorem h287 : (show FVec Ideal Cert.KernelIdeal.S8192x128 .f32 from Cert.KernelIdeal.Hand.W26 (F := Ideal) m ρ c (Proc.devRef .tc Cert.KernelIdeal.main_v287)) = g3 m ρ c := by
  rw [Cert.Proof.Tail.rd26_v287 m ρ c, v0_at25 m ρ c, h286 m ρ c, h284 m ρ c]
  exact G6_gc (aa4 m c) (x1 m ρ c) (aa13 m c) (aa14 m c)
theorem k283_26 : (show FVec Ideal Cert.KernelIdeal.S8192x128 .f32 from Cert.KernelIdeal.Hand.W26 (F := Ideal) m ρ c (Proc.devRef .tc Cert.KernelIdeal.main_v283)) = x1 m ρ c :=
  (Cert.Proof.Tail.kp26_v283 m ρ c).trans (h283 m ρ c)
theorem k283_27 : (show FVec Ideal Cert.KernelIdeal.S8192x128 .f32 from Cert.KernelIdeal.Hand.W27 (F := Ideal) m ρ c (Proc.devRef .tc Cert.KernelIdeal.main_v283)) = x1 m ρ c :=
  (Cert.Proof.Tail.kp27_v283 m ρ c).trans (k283_26 m ρ c)
theorem k283_28 : (show FVec Ideal Cert.KernelIdeal.S8192x128 .f32 from Cert.KernelIdeal.Hand.W28 (F := Ideal) m ρ c (Proc.devRef .tc Cert.KernelIdeal.main_v283)) = x1 m ρ c :=
  (Cert.Proof.Tail.kp28_v283 m ρ c).trans (k283_27 m ρ c)
theorem h288 : (show FVec Ideal Cert.KernelIdeal.S8192x128 .f32 from Cert.KernelIdeal.Hand.W27 (F := Ideal) m ρ c (Proc.devRef .tc Cert.KernelIdeal.main_v288)) = Cert.Proof.TailSpec.dg128 (g3 m ρ c) (aa15 m c) := by
  rw [Cert.Proof.Tail.rd27_v288 m ρ c, h287 m ρ c]
  exact congrArg (fun w => Host.dotGeneral Cert.KernelIdeal.dot_S8192x128_S128x128_S8192x128_1_0_0_1_n_n none (g3 m ρ c) w) (args26 m ρ c 15)
theorem h290 : (show FVec Ideal Cert.KernelIdeal.S8192x128 .bf16 from Cert.KernelIdeal.Hand.W27 (F := Ideal) m ρ c (Proc.devRef .tc Cert.KernelIdeal.main_v290)) = truncf .bf16 (Cert.Proof.TailSpec.dg128 (g3 m ρ c) (aa16 m c)) Cert.KernelIdeal.Facts₀.bitsLt_bf16_f32 := by
  rw [Cert.Proof.Tail.rd27_v290 m ρ c, h287 m ρ c]
  exact congrArg (fun w => truncf .bf16 (Host.dotGeneral Cert.KernelIdeal.dot_S8192x128_S128x128_S8192x128_1_0_0_1_n_n none (g3 m ρ c) w) Cert.KernelIdeal.Facts₀.bitsLt_bf16_f32) (args26 m ρ c 16)
theorem h291 : (show FVec Ideal Cert.KernelIdeal.S8192x128 .f32 from Cert.KernelIdeal.Hand.W28 (F := Ideal) m ρ c (Proc.devRef .tc Cert.KernelIdeal.main_v291)) = Cert.Proof.TailSpec.gc (aa4 m c) (g3 m ρ c) (aa15 m c) (aa16 m c) := by
  rw [Cert.Proof.Tail.rd28_v291 m ρ c, v0_at27 m ρ c, h290 m ρ c, h288 m ρ c]
  exact G7_gc (aa4 m c) (g3 m ρ c) (aa15 m c) (aa16 m c)
theorem h292 : (show FVec Ideal Cert.KernelIdeal.S8192x128 .f32 from Cert.KernelIdeal.Hand.W29 (F := Ideal) m ρ c (Proc.devRef .tc Cert.KernelIdeal.main_v292)) = x2 m ρ c := by
  rw [Cert.Proof.Tail.rd29_v292 m ρ c, k283_28 m ρ c, h291 m ρ c]
  rfl
theorem h293 : (show FVec Ideal Cert.KernelIdeal.S8192x128 .f32 from Cert.KernelIdeal.Hand.W29 (F := Ideal) m ρ c (Proc.devRef .tc Cert.KernelIdeal.main_v293)) = Cert.Proof.TailSpec.dg128 (x2 m ρ c) (aa17 m c) := by
  rw [Cert.Proof.Tail.rd29_v293 m ρ c, k283_28 m ρ c, h291 m ρ c]
  exact congrArg (fun w => Host.dotGeneral Cert.KernelIdeal.dot_S8192x128_S128x128_S8192x128_1_0_0_1_n_n none (x2 m ρ c) w) (args28 m ρ c 17)
theorem h295 : (show FVec Ideal Cert.KernelIdeal.S8192x128 .bf16 from Cert.KernelIdeal.Hand.W29 (F := Ideal) m ρ c (Proc.devRef .tc Cert.KernelIdeal.main_v295)) = truncf .bf16 (Cert.Proof.TailSpec.dg128 (x2 m ρ c) (aa18 m c)) Cert.KernelIdeal.Facts₀.bitsLt_bf16_f32 := by
  rw [Cert.Proof.Tail.rd29_v295 m ρ c, k283_28 m ρ c, h291 m ρ c]
  exact congrArg (fun w => truncf .bf16 (Host.dotGeneral Cert.KernelIdeal.dot_S8192x128_S128x128_S8192x128_1_0_0_1_n_n none (x2 m ρ c) w) Cert.KernelIdeal.Facts₀.bitsLt_bf16_f32) (args28 m ρ c 18)
theorem h296 : (show FVec Ideal Cert.KernelIdeal.S8192x128 .f32 from Cert.KernelIdeal.Hand.W30 (F := Ideal) m ρ c (Proc.devRef .tc Cert.KernelIdeal.main_v296)) = g5 m ρ c := by
  rw [Cert.Proof.Tail.rd30_v296 m ρ c, v0_at29 m ρ c, h295 m ρ c, h293 m ρ c]
  exact G8_gc (aa4 m c) (x2 m ρ c) (aa17 m c) (aa18 m c)
theorem k292_30 : (show FVec Ideal Cert.KernelIdeal.S8192x128 .f32 from Cert.KernelIdeal.Hand.W30 (F := Ideal) m ρ c (Proc.devRef .tc Cert.KernelIdeal.main_v292)) = x2 m ρ c :=
  (Cert.Proof.Tail.kp30_v292 m ρ c).trans (h292 m ρ c)
theorem k292_31 : (show FVec Ideal Cert.KernelIdeal.S8192x128 .f32 from Cert.KernelIdeal.Hand.W31 (F := Ideal) m ρ c (Proc.devRef .tc Cert.KernelIdeal.main_v292)) = x2 m ρ c :=
  (Cert.Proof.Tail.kp31_v292 m ρ c).trans (k292_30 m ρ c)
theorem k292_32 : (show FVec Ideal Cert.KernelIdeal.S8192x128 .f32 from Cert.KernelIdeal.Hand.W32 (F := Ideal) m ρ c (Proc.devRef .tc Cert.KernelIdeal.main_v292)) = x2 m ρ c :=
  (Cert.Proof.Tail.kp32_v292 m ρ c).trans (k292_31 m ρ c)
theorem h297 : (show FVec Ideal Cert.KernelIdeal.S8192x128 .f32 from Cert.KernelIdeal.Hand.W31 (F := Ideal) m ρ c (Proc.devRef .tc Cert.KernelIdeal.main_v297)) = Cert.Proof.TailSpec.dg128 (g5 m ρ c) (aa19 m c) := by
  rw [Cert.Proof.Tail.rd31_v297 m ρ c, h296 m ρ c]
  exact congrArg (fun w => Host.dotGeneral Cert.KernelIdeal.dot_S8192x128_S128x128_S8192x128_1_0_0_1_n_n none (g5 m ρ c) w) (args30 m ρ c 19)
theorem h299 : (show FVec Ideal Cert.KernelIdeal.S8192x128 .bf16 from Cert.KernelIdeal.Hand.W31 (F := Ideal) m ρ c (Proc.devRef .tc Cert.KernelIdeal.main_v299)) = truncf .bf16 (Cert.Proof.TailSpec.dg128 (g5 m ρ c) (aa20 m c)) Cert.KernelIdeal.Facts₀.bitsLt_bf16_f32 := by
  rw [Cert.Proof.Tail.rd31_v299 m ρ c, h296 m ρ c]
  exact congrArg (fun w => truncf .bf16 (Host.dotGeneral Cert.KernelIdeal.dot_S8192x128_S128x128_S8192x128_1_0_0_1_n_n none (g5 m ρ c) w) Cert.KernelIdeal.Facts₀.bitsLt_bf16_f32) (args30 m ρ c 20)
theorem h300 : (show FVec Ideal Cert.KernelIdeal.S8192x128 .f32 from Cert.KernelIdeal.Hand.W32 (F := Ideal) m ρ c (Proc.devRef .tc Cert.KernelIdeal.main_v300)) = Cert.Proof.TailSpec.gc (aa4 m c) (g5 m ρ c) (aa19 m c) (aa20 m c) := by
  rw [Cert.Proof.Tail.rd32_v300 m ρ c, v0_at31 m ρ c, h299 m ρ c, h297 m ρ c]
  exact G9_gc (aa4 m c) (g5 m ρ c) (aa19 m c) (aa20 m c)
theorem h301 : (show FVec Ideal Cert.KernelIdeal.S8192x128 .f32 from Cert.KernelIdeal.Hand.W33 (F := Ideal) m ρ c (Proc.devRef .tc Cert.KernelIdeal.main_v301)) = x3 m ρ c := by
  rw [Cert.Proof.Tail.rd33_v301 m ρ c, k292_32 m ρ c, h300 m ρ c]
  rfl
theorem h302 : (show FVec Ideal Cert.KernelIdeal.S8192x3 .f32 from Cert.KernelIdeal.Hand.W33 (F := Ideal) m ρ c (Proc.devRef .tc Cert.KernelIdeal.main_v302)) = Cert.Proof.TailSpec.dg3 (x3 m ρ c) (aa21 m c) := by
  rw [Cert.Proof.Tail.rd33_v302 m ρ c, k292_32 m ρ c, h300 m ρ c]
  exact congrArg (fun w => Host.dotGeneral Cert.KernelIdeal.dot_S8192x128_S128x3_S8192x3_1_0_0_1_n_n none (x3 m ρ c) w) (args32 m ρ c 21)
theorem h304 : (show FVec Ideal Cert.KernelIdeal.S8192x3 .bf16 from Cert.KernelIdeal.Hand.W33 (F := Ideal) m ρ c (Proc.devRef .tc Cert.KernelIdeal.main_v304)) = truncf .bf16 (Cert.Proof.TailSpec.dg3 (x3 m ρ c) (aa22 m c)) Cert.KernelIdeal.Facts₀.bitsLt_bf16_f32 := by
  rw [Cert.Proof.Tail.rd33_v304 m ρ c, k292_32 m ρ c, h300 m ρ c]
  exact congrArg (fun w => truncf .bf16 (Host.dotGeneral Cert.KernelIdeal.dot_S8192x128_S128x3_S8192x3_1_0_0_1_n_n none (x3 m ρ c) w) Cert.KernelIdeal.Facts₀.bitsLt_bf16_f32) (args32 m ρ c 22)
theorem h305 : (show FVec Ideal Cert.KernelIdeal.S8192x3 .f32 from Cert.KernelIdeal.Hand.W34 (F := Ideal) m ρ c (Proc.devRef .tc Cert.KernelIdeal.main_v305)) = Cert.Proof.TailSpec.gc3 (aa4 m c) (x3 m ρ c) (aa21 m c) (aa22 m c) := by
  rw [Cert.Proof.Tail.rd34_v305 m ρ c, v0_at33 m ρ c, h304 m ρ c, h302 m ρ c]
  exact G10_gc (aa4 m c) (x3 m ρ c) (aa21 m c) (aa22 m c)

/-- THE KERNEL PROGRAM'S TWO RESULTS are the tail function of the launch arrays and of its projected features. -/
theorem kernel_tailX : (show FVec Ideal Cert.KernelIdeal.S8192x128 .f32 from Cert.KernelIdeal.Hand.W35 (F := Ideal) m ρ c (Proc.devRef .tc Cert.KernelIdeal.main_v301)) = Cert.Proof.TailSpec.tailX (aa4 m c) (aa5 m c) (aa6 m c) (PP m ρ c) (aa8 m c) (aa9 m c) (aa12 m c) (aa10 m c) (aa11 m c) (aa13 m c) (aa14 m c) (aa15 m c) (aa16 m c) (aa17 m c) (aa18 m c) (aa19 m c) (aa20 m c) :=
  (Cert.Proof.Tail.kp35_v301 m ρ c).trans ((Cert.Proof.Tail.kp34_v301 m ρ c).trans (h301 m ρ c))
theorem kernel_tailY : (show FVec Ideal Cert.KernelIdeal.S8192x3 .f32 from Cert.KernelIdeal.Hand.W35 (F := Ideal) m ρ c (Proc.devRef .tc Cert.KernelIdeal.main_v307)) = Cert.Proof.TailSpec.tailY (aa4 m c) (aa5 m c) (x3 m ρ c) (aa21 m c) (aa22 m c) := by
  rw [Cert.Proof.Tail.rd35_v307 m ρ c, h305 m ρ c]
  exact congrArg (fun p : Cert.Proof.TailSpec.V3 => addf p (Host.tanh (Cert.Proof.TailSpec.gc3 (aa4 m c) (x3 m ρ c) (aa21 m c) (aa22 m c)))) (args34 m ρ c 5)

end Cert.Proof.TailK

end
-- ==== Proof.TailRef.lean ====
import proofs.«120270_j2259152797813_2_alg».proof.Proof.RefRunPatched
import Idealize.ShloMosaic.Lib.StableHlo.Run
import Idealize.ShloMosaic.Lib.Pipeline.Frame
import Idealize.ShloMosaic.PureOps.Ideal
import proofs.«120270_j2259152797813_2_alg».proof.Proof.TailSpec

set_option maxRecDepth 8192

noncomputable section

/-! # The reference's last window, read in nine short stretches

The last 65 operations of the reference program are cut into nine consecutive stretches `C0` … `C8`; `Yk U` is the
device's buffer contents after stretches 0 … k from contents `U`. Each stretch's results are stated as the stretch's
own operations applied to the contents BEFORE the stretch (`rrK_…`), nothing unfolded further, and every buffer a
stretch does not write keeps its contents through it (`rkK`); in particular the 23 argument arrays (`YK_arg`,
`YK_args`). Last, the whole program's contents are the last window's from the contents `U9` before it, where the
argument arrays are still the launch's. -/

namespace Cert.Proof.TailRef

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The argument arrays. -/
abbrev argR : Fin 23 → Ref sig .tc := ![main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- Stretch 0: operations 1 … 9 of the last window. -/
abbrev C0 : List (HloOp τ sig (Elt F)) :=
  [ binary main_v449 main_v451 main_v452 (addf : (⟨S8192x2048, .f32⟩ : BufTy).Contents (Elt F) → (⟨S8192x2048, .f32⟩ : BufTy).Contents (Elt F) → (⟨S8192x2048, .f32⟩ : BufTy).Contents (Elt F)),
    unary main_v377 main_v453 (broadcastInDim S8192x2048 ![0, 1] bcast_S8192x1_S8192x2048_0_1 : (⟨S8192x1, .f32⟩ : BufTy).Contents (Elt F) → (⟨S8192x2048, .f32⟩ : BufTy).Contents (Elt F)),
    binary main_v453 main_v417 main_v454 (mulf : (⟨S8192x2048, .f32⟩ : BufTy).Contents (Elt F) → (⟨S8192x2048, .f32⟩ : BufTy).Contents (Elt F) → (⟨S8192x2048, .f32⟩ : BufTy).Contents (Elt F)),
    binary main_v452 main_v454 main_v455 (addf : (⟨S8192x2048, .f32⟩ : BufTy).Contents (Elt F) → (⟨S8192x2048, .f32⟩ : BufTy).Contents (Elt F) → (⟨S8192x2048, .f32⟩ : BufTy).Contents (Elt F)),
    unary main_v387 main_v456 (broadcastInDim S8192x2048 ![0, 1] bcast_S8192x1_S8192x2048_0_1 : (⟨S8192x1, .f32⟩ : BufTy).Contents (Elt F) → (⟨S8192x2048, .f32⟩ : BufTy).Contents (Elt F)),
    binary main_v456 main_v447 main_v457 (mulf : (⟨S8192x2048, .f32⟩ : BufTy).Contents (Elt F) → (⟨S8192x2048, .f32⟩ : BufTy).Contents (Elt F) → (⟨S8192x2048, .f32⟩ : BufTy).Contents (Elt F)),
    binary main_v455 main_v457 main_v458 (addf : (⟨S8192x2048, .f32⟩ : BufTy).Contents (Elt F) → (⟨S8192x2048, .f32⟩ : BufTy).Contents (Elt F) → (⟨S8192x2048, .f32⟩ : BufTy).Contents (Elt F)),
    nary ![main_v131, main_v240, main_v349, main_v458] main_v459 (fun u => concatenate S8192x3840 1 [⟨S8192x256, u 0⟩, ⟨S8192x512, u 1⟩, ⟨S8192x1024, u 2⟩, ⟨S8192x2048, u 3⟩] concatenates_S8192x256_S8192x512_S8192x1024_S8192x2048_S8192x3840_d1),
    binary main_v459 main_arg7 main_v460 ((fun l r => Host.dotGeneral dot_S8192x3840_S3840x128_S8192x128_1_0_0_1_n_n none l r) : (⟨S8192x3840, .f32⟩ : BufTy).Contents (Elt F) → (⟨S3840x128, .f32⟩ : BufTy).Contents (Elt F) → (⟨S8192x128, .f32⟩ : BufTy).Contents (Elt F)) ]

/-- Stretch 1: operations 10 … 18 of the last window. -/
abbrev C1 : List (HloOp τ sig (Elt F)) :=
  [ nary ![main_arg6, main_arg5, main_v460] main_v461 (fun u => concatenate S8192x259 1 [⟨S8192x128, u 0⟩, ⟨S8192x3, u 1⟩, ⟨S8192x128, u 2⟩] concatenates_S8192x128_S8192x3_S8192x128_S8192x259_d1),
    binary main_v461 main_arg12 main_v462 ((fun l r => Host.dotGeneral dot_S8192x259_S259x128_S8192x128_1_0_0_1_n_n none l r) : (⟨S8192x259, .f32⟩ : BufTy).Contents (Elt F) → (⟨S259x128, .f32⟩ : BufTy).Contents (Elt F) → (⟨S8192x128, .f32⟩ : BufTy).Contents (Elt F)),
    binary main_v461 main_arg8 main_v463 ((fun l r => Host.dotGeneral dot_S8192x259_S259x128_S8192x128_1_0_0_1_n_n none l r) : (⟨S8192x259, .f32⟩ : BufTy).Contents (Elt F) → (⟨S259x128, .f32⟩ : BufTy).Contents (Elt F) → (⟨S8192x128, .f32⟩ : BufTy).Contents (Elt F)),
    binary main_v461 main_arg9 main_v464 ((fun l r => Host.dotGeneral dot_S8192x259_S259x128_S8192x128_1_0_0_1_n_n none l r) : (⟨S8192x259, .f32⟩ : BufTy).Contents (Elt F) → (⟨S259x128, .f32⟩ : BufTy).Contents (Elt F) → (⟨S8192x128, .f32⟩ : BufTy).Contents (Elt F)),
    binary main_arg4 main_v464 main_v465 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v463 main_v465 main_v466 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x128, .f32⟩) main_call2_v0) (broadcastInDim S8192x128 ![] bcast_S_S8192x128),
    TRef.binary (TRef.of (T := ⟨S8192x128, .f32⟩) main_v466) (TRef.of (T := ⟨S8192x128, .f32⟩) main_call2_v0) (TRef.of (T := ⟨S8192x128, .f32⟩) main_v467) maximumf ]

/-- Stretch 2: operations 19 … 25 of the last window. -/
abbrev C2 : List (HloOp τ sig (Elt F)) :=
  [ binary main_v467 main_arg10 main_v468 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    binary main_v467 main_arg11 main_v469 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    binary main_arg4 main_v469 main_v470 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v468 main_v470 main_v471 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8192x128, .f32⟩) main_call3_v0) (broadcastInDim S8192x128 ![] bcast_S_S8192x128),
    TRef.binary (TRef.of (T := ⟨S8192x128, .f32⟩) main_v471) (TRef.of (T := ⟨S8192x128, .f32⟩) main_call3_v0) (TRef.of (T := ⟨S8192x128, .f32⟩) main_v472) maximumf ]

/-- Stretch 3: operations 26 … 33 of the last window. -/
abbrev C3 : List (HloOp τ sig (Elt F)) :=
  [ binary main_v462 main_v472 main_v473 (addf : (⟨S8192x128, .f32⟩ : BufTy).Contents (Elt F) → (⟨S8192x128, .f32⟩ : BufTy).Contents (Elt F) → (⟨S8192x128, .f32⟩ : BufTy).Contents (Elt F)),
    binary main_v473 main_arg13 main_v474 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    binary main_v473 main_arg14 main_v475 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    binary main_arg4 main_v475 main_v476 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v474 main_v476 main_v477 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8192x128, .f32⟩) main_call4_v0) (broadcastInDim S8192x128 ![] bcast_S_S8192x128),
    TRef.binary (TRef.of (T := ⟨S8192x128, .f32⟩) main_v477) (TRef.of (T := ⟨S8192x128, .f32⟩) main_call4_v0) (TRef.of (T := ⟨S8192x128, .f32⟩) main_v478) maximumf ]

/-- Stretch 4: operations 34 … 40 of the last window. -/
abbrev C4 : List (HloOp τ sig (Elt F)) :=
  [ binary main_v478 main_arg15 main_v479 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    binary main_v478 main_arg16 main_v480 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    binary main_arg4 main_v480 main_v481 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v479 main_v481 main_v482 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8192x128, .f32⟩) main_call5_v0) (broadcastInDim S8192x128 ![] bcast_S_S8192x128),
    TRef.binary (TRef.of (T := ⟨S8192x128, .f32⟩) main_v482) (TRef.of (T := ⟨S8192x128, .f32⟩) main_call5_v0) (TRef.of (T := ⟨S8192x128, .f32⟩) main_v483) maximumf ]

/-- Stretch 5: operations 41 … 48 of the last window. -/
abbrev C5 : List (HloOp τ sig (Elt F)) :=
  [ binary main_v473 main_v483 main_v484 (addf : (⟨S8192x128, .f32⟩ : BufTy).Contents (Elt F) → (⟨S8192x128, .f32⟩ : BufTy).Contents (Elt F) → (⟨S8192x128, .f32⟩ : BufTy).Contents (Elt F)),
    binary main_v484 main_arg17 main_v485 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    binary main_v484 main_arg18 main_v486 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    binary main_arg4 main_v486 main_v487 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v485 main_v487 main_v488 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8192x128, .f32⟩) main_call6_v0) (broadcastInDim S8192x128 ![] bcast_S_S8192x128),
    TRef.binary (TRef.of (T := ⟨S8192x128, .f32⟩) main_v488) (TRef.of (T := ⟨S8192x128, .f32⟩) main_call6_v0) (TRef.of (T := ⟨S8192x128, .f32⟩) main_v489) maximumf ]

/-- Stretch 6: operations 49 … 55 of the last window. -/
abbrev C6 : List (HloOp τ sig (Elt F)) :=
  [ binary main_v489 main_arg19 main_v490 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    binary main_v489 main_arg20 main_v491 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    binary main_arg4 main_v491 main_v492 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v490 main_v492 main_v493 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8192x128, .f32⟩) main_call7_v0) (broadcastInDim S8192x128 ![] bcast_S_S8192x128),
    TRef.binary (TRef.of (T := ⟨S8192x128, .f32⟩) main_v493) (TRef.of (T := ⟨S8192x128, .f32⟩) main_call7_v0) (TRef.of (T := ⟨S8192x128, .f32⟩) main_v494) maximumf ]

/-- Stretch 7: operations 56 … 63 of the last window. -/
abbrev C7 : List (HloOp τ sig (Elt F)) :=
  [ binary main_v484 main_v494 main_v495 (addf : (⟨S8192x128, .f32⟩ : BufTy).Contents (Elt F) → (⟨S8192x128, .f32⟩ : BufTy).Contents (Elt F) → (⟨S8192x128, .f32⟩ : BufTy).Contents (Elt F)),
    binary main_v495 main_arg21 main_v496 ((fun l r => Host.dotGeneral dot_S8192x128_S128x3_S8192x3_1_0_0_1_n_n none l r) : (⟨S8192x128, .f32⟩ : BufTy).Contents (Elt F) → (⟨S128x3, .f32⟩ : BufTy).Contents (Elt F) → (⟨S8192x3, .f32⟩ : BufTy).Contents (Elt F)),
    binary main_v495 main_arg22 main_v497 ((fun l r => Host.dotGeneral dot_S8192x128_S128x3_S8192x3_1_0_0_1_n_n none l r) : (⟨S8192x128, .f32⟩ : BufTy).Contents (Elt F) → (⟨S128x3, .f32⟩ : BufTy).Contents (Elt F) → (⟨S8192x3, .f32⟩ : BufTy).Contents (Elt F)),
    binary main_arg4 main_v497 main_v498 ((fun l r => Host.dotGeneral dot_S8192x8192_S8192x3_S8192x3_1_0_0_1_n_n none l r) : (⟨S8192x8192, .f32⟩ : BufTy).Contents (Elt F) → (⟨S8192x3, .f32⟩ : BufTy).Contents (Elt F) → (⟨S8192x3, .f32⟩ : BufTy).Contents (Elt F)),
    binary main_v496 main_v498 main_v499 (addf : (⟨S8192x3, .f32⟩ : BufTy).Contents (Elt F) → (⟨S8192x3, .f32⟩ : BufTy).Contents (Elt F) → (⟨S8192x3, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S8192x3, .f32⟩) main_call8_v0) (broadcastInDim S8192x3 ![] bcast_S_S8192x3),
    TRef.binary (TRef.of (T := ⟨S8192x3, .f32⟩) main_v499) (TRef.of (T := ⟨S8192x3, .f32⟩) main_call8_v0) (TRef.of (T := ⟨S8192x3, .f32⟩) main_v500) maximumf ]

/-- Stretch 8: operations 64 … 65 of the last window. -/
abbrev C8 : List (HloOp τ sig (Elt F)) :=
  [ unary main_v500 main_v501 (Host.tanh : (⟨S8192x3, .f32⟩ : BufTy).Contents (Elt F) → (⟨S8192x3, .f32⟩ : BufTy).Contents (Elt F)),
    binary main_arg5 main_v501 main_v502 (addf : (⟨S8192x3, .f32⟩ : BufTy).Contents (Elt F) → (⟨S8192x3, .f32⟩ : BufTy).Contents (Elt F) → (⟨S8192x3, .f32⟩ : BufTy).Contents (Elt F)) ]

/-- The last window is its nine stretches, in order. -/
theorem part9_split : (ops_part9 : List (HloOp τ sig (Elt F))) = C0 ++ (C1 ++ (C2 ++ (C3 ++ (C4 ++ (C5 ++ (C6 ++ (C7 ++ C8))))))) := rfl

/-- The buffers stretch 0 writes. -/
abbrev C0_W : List (Ref sig .tc) := [main_v452, main_v453, main_v454, main_v455, main_v456, main_v457, main_v458, main_v459, main_v460]
theorem C0_writes : (C0 : List (HloOp τ sig (Elt F))).Forall fun op => op.writes ⊆ (C0_W.map (Proc.devRef (τ := τ) .tc)).toFinset := by
  simp only [List.Forall]
  refine ⟨?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- The buffers stretch 1 writes. -/
abbrev C1_W : List (Ref sig .tc) := [main_v461, main_v462, main_v463, main_v464, main_v465, main_v466, main_call2_cst, main_call2_v0, main_v467]
theorem C1_writes : (C1 : List (HloOp τ sig (Elt F))).Forall fun op => op.writes ⊆ (C1_W.map (Proc.devRef (τ := τ) .tc)).toFinset := by
  simp only [List.Forall]
  refine ⟨?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- The buffers stretch 2 writes. -/
abbrev C2_W : List (Ref sig .tc) := [main_v468, main_v469, main_v470, main_v471, main_call3_cst, main_call3_v0, main_v472]
theorem C2_writes : (C2 : List (HloOp τ sig (Elt F))).Forall fun op => op.writes ⊆ (C2_W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- The buffers stretch 3 writes. -/
abbrev C3_W : List (Ref sig .tc) := [main_v473, main_v474, main_v475, main_v476, main_v477, main_call4_cst, main_call4_v0, main_v478]
theorem C3_writes : (C3 : List (HloOp τ sig (Elt F))).Forall fun op => op.writes ⊆ (C3_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- The buffers stretch 4 writes. -/
abbrev C4_W : List (Ref sig .tc) := [main_v479, main_v480, main_v481, main_v482, main_call5_cst, main_call5_v0, main_v483]
theorem C4_writes : (C4 : List (HloOp τ sig (Elt F))).Forall fun op => op.writes ⊆ (C4_W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- The buffers stretch 5 writes. -/
abbrev C5_W : List (Ref sig .tc) := [main_v484, main_v485, main_v486, main_v487, main_v488, main_call6_cst, main_call6_v0, main_v489]
theorem C5_writes : (C5 : List (HloOp τ sig (Elt F))).Forall fun op => op.writes ⊆ (C5_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- The buffers stretch 6 writes. -/
abbrev C6_W : List (Ref sig .tc) := [main_v490, main_v491, main_v492, main_v493, main_call7_cst, main_call7_v0, main_v494]
theorem C6_writes : (C6 : List (HloOp τ sig (Elt F))).Forall fun op => op.writes ⊆ (C6_W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- The buffers stretch 7 writes. -/
abbrev C7_W : List (Ref sig .tc) := [main_v495, main_v496, main_v497, main_v498, main_v499, main_call8_cst, main_call8_v0, main_v500]
theorem C7_writes : (C7 : List (HloOp τ sig (Elt F))).Forall fun op => op.writes ⊆ (C7_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- The buffers stretch 8 writes. -/
abbrev C8_W : List (Ref sig .tc) := [main_v501, main_v502]
theorem C8_writes : (C8 : List (HloOp τ sig (Elt F))).Forall fun op => op.writes ⊆ (C8_W.map (Proc.devRef (τ := τ) .tc)).toFinset := by
  simp only [List.Forall]
  refine ⟨?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

section Reads
variable (U : Valuation τ sig (Elt Ideal))

/-- The contents after stretches 0 … 0. -/
def Y0 : Valuation τ sig (Elt Ideal) := after C0 U
/-- The contents after stretches 0 … 1. -/
def Y1 : Valuation τ sig (Elt Ideal) := after C1 (Y0 U)
/-- The contents after stretches 0 … 2. -/
def Y2 : Valuation τ sig (Elt Ideal) := after C2 (Y1 U)
/-- The contents after stretches 0 … 3. -/
def Y3 : Valuation τ sig (Elt Ideal) := after C3 (Y2 U)
/-- The contents after stretches 0 … 4. -/
def Y4 : Valuation τ sig (Elt Ideal) := after C4 (Y3 U)
/-- The contents after stretches 0 … 5. -/
def Y5 : Valuation τ sig (Elt Ideal) := after C5 (Y4 U)
/-- The contents after stretches 0 … 6. -/
def Y6 : Valuation τ sig (Elt Ideal) := after C6 (Y5 U)
/-- The contents after stretches 0 … 7. -/
def Y7 : Valuation τ sig (Elt Ideal) := after C7 (Y6 U)
/-- The contents after stretches 0 … 8. -/
def Y8 : Valuation τ sig (Elt Ideal) := after C8 (Y7 U)

/-- The last window from `U` ends at `Y8 U`. -/
theorem after_part9 : after ops_part9 U = Y8 U := by
  rw [part9_split]; simp only [after_append]; rfl

/-- A buffer stretch 0 does not write keeps its contents through it. -/
theorem rk0 (r : Ref sig .tc) (h : r ∉ C0_W) : Y0 U (Proc.devRef .tc r) = U (Proc.devRef .tc r) :=
  after_of_writes_sub C0 U C0_writes h
/-- In particular each argument array. -/
theorem Y0_arg (j : Fin 23) : Y0 U (Proc.devRef .tc (argR j)) = U (Proc.devRef .tc (argR j)) :=
  rk0 U (argR j) (by revert j; decide)
set_option maxHeartbeats 1000000 in
theorem rr0_v460 : (Y0 U (Proc.devRef .tc main_v460) : (⟨S8192x128, .f32⟩ : BufTy).Contents (Elt Ideal))
    = Host.dotGeneral (F := Ideal) (φ₁ := .f32) (φ₂ := .f32) dot_S8192x3840_S3840x128_S8192x128_1_0_0_1_n_n none (concatenate (α := Ideal .f32) S8192x3840 1 [⟨S8192x256, (U (Proc.devRef .tc main_v131) : (⟨S8192x256, .f32⟩ : BufTy).Contents (Elt Ideal))⟩, ⟨S8192x512, (U (Proc.devRef .tc main_v240) : (⟨S8192x512, .f32⟩ : BufTy).Contents (Elt Ideal))⟩, ⟨S8192x1024, (U (Proc.devRef .tc main_v349) : (⟨S8192x1024, .f32⟩ : BufTy).Contents (Elt Ideal))⟩, ⟨S8192x2048, (addf (F := Ideal) (φ := .f32) (addf (F := Ideal) (φ := .f32) (addf (F := Ideal) (φ := .f32) (U (Proc.devRef .tc main_v449) : (⟨S8192x2048, .f32⟩ : BufTy).Contents (Elt Ideal)) (U (Proc.devRef .tc main_v451) : (⟨S8192x2048, .f32⟩ : BufTy).Contents (Elt Ideal))) (mulf (F := Ideal) (φ := .f32) (broadcastInDim (α := Ideal .f32) S8192x2048 ![0, 1] bcast_S8192x1_S8192x2048_0_1 (U (Proc.devRef .tc main_v377) : (⟨S8192x1, .f32⟩ : BufTy).Contents (Elt Ideal))) (U (Proc.devRef .tc main_v417) : (⟨S8192x2048, .f32⟩ : BufTy).Contents (Elt Ideal)))) (mulf (F := Ideal) (φ := .f32) (broadcastInDim (α := Ideal .f32) S8192x2048 ![0, 1] bcast_S8192x1_S8192x2048_0_1 (U (Proc.devRef .tc main_v387) : (⟨S8192x1, .f32⟩ : BufTy).Contents (Elt Ideal))) (U (Proc.devRef .tc main_v447) : (⟨S8192x2048, .f32⟩ : BufTy).Contents (Elt Ideal))))⟩] concatenates_S8192x256_S8192x512_S8192x1024_S8192x2048_S8192x3840_d1) (U (Proc.devRef .tc main_arg7) : (⟨S3840x128, .f32⟩ : BufTy).Contents (Elt Ideal)) := by
  show after C0 U (Proc.devRef .tc main_v460) = _
  after_results
  all_goals rfl

/-- A buffer stretch 1 does not write keeps its contents through it. -/
theorem rk1 (r : Ref sig .tc) (h : r ∉ C1_W) : Y1 U (Proc.devRef .tc r) = (Y0 U) (Proc.devRef .tc r) :=
  after_of_writes_sub C1 (Y0 U) C1_writes h
/-- In particular each argument array. -/
theorem Y1_arg (j : Fin 23) : Y1 U (Proc.devRef .tc (argR j)) = (Y0 U) (Proc.devRef .tc (argR j)) :=
  rk1 U (argR j) (by revert j; decide)
set_option maxHeartbeats 1000000 in
theorem rr1_v461 : (Y1 U (Proc.devRef .tc main_v461) : (⟨S8192x259, .f32⟩ : BufTy).Contents (Elt Ideal))
    = concatenate (α := Ideal .f32) S8192x259 1 [⟨S8192x128, ((Y0 U) (Proc.devRef .tc main_arg6) : (⟨S8192x128, .f32⟩ : BufTy).Contents (Elt Ideal))⟩, ⟨S8192x3, ((Y0 U) (Proc.devRef .tc main_arg5) : (⟨S8192x3, .f32⟩ : BufTy).Contents (Elt Ideal))⟩, ⟨S8192x128, ((Y0 U) (Proc.devRef .tc main_v460) : (⟨S8192x128, .f32⟩ : BufTy).Contents (Elt Ideal))⟩] concatenates_S8192x128_S8192x3_S8192x128_S8192x259_d1 := by
  show after C1 (Y0 U) (Proc.devRef .tc main_v461) = _
  generalize Y0 U = W
  after_results
  all_goals rfl
set_option maxHeartbeats 1000000 in
theorem rr1_v462 : (Y1 U (Proc.devRef .tc main_v462) : (⟨S8192x128, .f32⟩ : BufTy).Contents (Elt Ideal))
    = Host.dotGeneral (F := Ideal) (φ₁ := .f32) (φ₂ := .f32) dot_S8192x259_S259x128_S8192x128_1_0_0_1_n_n none (concatenate (α := Ideal .f32) S8192x259 1 [⟨S8192x128, ((Y0 U) (Proc.devRef .tc main_arg6) : (⟨S8192x128, .f32⟩ : BufTy).Contents (Elt Ideal))⟩, ⟨S8192x3, ((Y0 U) (Proc.devRef .tc main_arg5) : (⟨S8192x3, .f32⟩ : BufTy).Contents (Elt Ideal))⟩, ⟨S8192x128, ((Y0 U) (Proc.devRef .tc main_v460) : (⟨S8192x128, .f32⟩ : BufTy).Contents (Elt Ideal))⟩] concatenates_S8192x128_S8192x3_S8192x128_S8192x259_d1) ((Y0 U) (Proc.devRef .tc main_arg12) : (⟨S259x128, .f32⟩ : BufTy).Contents (Elt Ideal)) := by
  show after C1 (Y0 U) (Proc.devRef .tc main_v462) = _
  generalize Y0 U = W
  after_results
  all_goals rfl
set_option maxHeartbeats 1000000 in
theorem rr1_v467 : (Y1 U (Proc.devRef .tc main_v467) : (⟨S8192x128, .f32⟩ : BufTy).Contents (Elt Ideal))
    = maximumf (F := Ideal) (φ := .f32) (addf (F := Ideal) (φ := .f32) (Host.dotGeneral (F := Ideal) (φ₁ := .f32) (φ₂ := .f32) dot_S8192x259_S259x128_S8192x128_1_0_0_1_n_n none (concatenate (α := Ideal .f32) S8192x259 1 [⟨S8192x128, ((Y0 U) (Proc.devRef .tc main_arg6) : (⟨S8192x128, .f32⟩ : BufTy).Contents (Elt Ideal))⟩, ⟨S8192x3, ((Y0 U) (Proc.devRef .tc main_arg5) : (⟨S8192x3, .f32⟩ : BufTy).Contents (Elt Ideal))⟩, ⟨S8192x128, ((Y0 U) (Proc.devRef .tc main_v460) : (⟨S8192x128, .f32⟩ : BufTy).Contents (Elt Ideal))⟩] concatenates_S8192x128_S8192x3_S8192x128_S8192x259_d1) ((Y0 U) (Proc.devRef .tc main_arg8) : (⟨S259x128, .f32⟩ : BufTy).Contents (Elt Ideal))) (Host.dotGeneral (F := Ideal) (φ₁ := .f32) (φ₂ := .f32) dot_S8192x8192_S8192x128_S8192x128_1_0_0_1_n_n none ((Y0 U) (Proc.devRef .tc main_arg4) : (⟨S8192x8192, .f32⟩ : BufTy).Contents (Elt Ideal)) (Host.dotGeneral (F := Ideal) (φ₁ := .f32) (φ₂ := .f32) dot_S8192x259_S259x128_S8192x128_1_0_0_1_n_n none (concatenate (α := Ideal .f32) S8192x259 1 [⟨S8192x128, ((Y0 U) (Proc.devRef .tc main_arg6) : (⟨S8192x128, .f32⟩ : BufTy).Contents (Elt Ideal))⟩, ⟨S8192x3, ((Y0 U) (Proc.devRef .tc main_arg5) : (⟨S8192x3, .f32⟩ : BufTy).Contents (Elt Ideal))⟩, ⟨S8192x128, ((Y0 U) (Proc.devRef .tc main_v460) : (⟨S8192x128, .f32⟩ : BufTy).Contents (Elt Ideal))⟩] concatenates_S8192x128_S8192x3_S8192x128_S8192x259_d1) ((Y0 U) (Proc.devRef .tc main_arg9) : (⟨S259x128, .f32⟩ : BufTy).Contents (Elt Ideal))))) (broadcastInDim (α := Ideal .f32) S8192x128 ![] bcast_S_S8192x128 (constant (F := Ideal) S_ .f32 0x00000000#32)) := by
  show after C1 (Y0 U) (Proc.devRef .tc main_v467) = _
  generalize Y0 U = W
  after_results
  all_goals rfl

/-- A buffer stretch 2 does not write keeps its contents through it. -/
theorem rk2 (r : Ref sig .tc) (h : r ∉ C2_W) : Y2 U (Proc.devRef .tc r) = (Y1 U) (Proc.devRef .tc r) :=
  after_of_writes_sub C2 (Y1 U) C2_writes h
/-- In particular each argument array. -/
theorem Y2_arg (j : Fin 23) : Y2 U (Proc.devRef .tc (argR j)) = (Y1 U) (Proc.devRef .tc (argR j)) :=
  rk2 U (argR j) (by revert j; decide)
set_option maxHeartbeats 1000000 in
theorem rr2_v472 : (Y2 U (Proc.devRef .tc main_v472) : (⟨S8192x128, .f32⟩ : BufTy).Contents (Elt Ideal))
    = maximumf (F := Ideal) (φ := .f32) (addf (F := Ideal) (φ := .f32) (Host.dotGeneral (F := Ideal) (φ₁ := .f32) (φ₂ := .f32) dot_S8192x128_S128x128_S8192x128_1_0_0_1_n_n none ((Y1 U) (Proc.devRef .tc main_v467) : (⟨S8192x128, .f32⟩ : BufTy).Contents (Elt Ideal)) ((Y1 U) (Proc.devRef .tc main_arg10) : (⟨S128x128, .f32⟩ : BufTy).Contents (Elt Ideal))) (Host.dotGeneral (F := Ideal) (φ₁ := .f32) (φ₂ := .f32) dot_S8192x8192_S8192x128_S8192x128_1_0_0_1_n_n none ((Y1 U) (Proc.devRef .tc main_arg4) : (⟨S8192x8192, .f32⟩ : BufTy).Contents (Elt Ideal)) (Host.dotGeneral (F := Ideal) (φ₁ := .f32) (φ₂ := .f32) dot_S8192x128_S128x128_S8192x128_1_0_0_1_n_n none ((Y1 U) (Proc.devRef .tc main_v467) : (⟨S8192x128, .f32⟩ : BufTy).Contents (Elt Ideal)) ((Y1 U) (Proc.devRef .tc main_arg11) : (⟨S128x128, .f32⟩ : BufTy).Contents (Elt Ideal))))) (broadcastInDim (α := Ideal .f32) S8192x128 ![] bcast_S_S8192x128 (constant (F := Ideal) S_ .f32 0x00000000#32)) := by
  show after C2 (Y1 U) (Proc.devRef .tc main_v472) = _
  generalize Y1 U = W
  after_results
  all_goals rfl

/-- A buffer stretch 3 does not write keeps its contents through it. -/
theorem rk3 (r : Ref sig .tc) (h : r ∉ C3_W) : Y3 U (Proc.devRef .tc r) = (Y2 U) (Proc.devRef .tc r) :=
  after_of_writes_sub C3 (Y2 U) C3_writes h
/-- In particular each argument array. -/
theorem Y3_arg (j : Fin 23) : Y3 U (Proc.devRef .tc (argR j)) = (Y2 U) (Proc.devRef .tc (argR j)) :=
  rk3 U (argR j) (by revert j; decide)
set_option maxHeartbeats 1000000 in
theorem rr3_v473 : (Y3 U (Proc.devRef .tc main_v473) : (⟨S8192x128, .f32⟩ : BufTy).Contents (Elt Ideal))
    = addf (F := Ideal) (φ := .f32) ((Y2 U) (Proc.devRef .tc main_v462) : (⟨S8192x128, .f32⟩ : BufTy).Contents (Elt Ideal)) ((Y2 U) (Proc.devRef .tc main_v472) : (⟨S8192x128, .f32⟩ : BufTy).Contents (Elt Ideal)) := by
  show after C3 (Y2 U) (Proc.devRef .tc main_v473) = _
  generalize Y2 U = W
  after_results
  all_goals rfl
set_option maxHeartbeats 1000000 in
theorem rr3_v478 : (Y3 U (Proc.devRef .tc main_v478) : (⟨S8192x128, .f32⟩ : BufTy).Contents (Elt Ideal))
    = maximumf (F := Ideal) (φ := .f32) (addf (F := Ideal) (φ := .f32) (Host.dotGeneral (F := Ideal) (φ₁ := .f32) (φ₂ := .f32) dot_S8192x128_S128x128_S8192x128_1_0_0_1_n_n none (addf (F := Ideal) (φ := .f32) ((Y2 U) (Proc.devRef .tc main_v462) : (⟨S8192x128, .f32⟩ : BufTy).Contents (Elt Ideal)) ((Y2 U) (Proc.devRef .tc main_v472) : (⟨S8192x128, .f32⟩ : BufTy).Contents (Elt Ideal))) ((Y2 U) (Proc.devRef .tc main_arg13) : (⟨S128x128, .f32⟩ : BufTy).Contents (Elt Ideal))) (Host.dotGeneral (F := Ideal) (φ₁ := .f32) (φ₂ := .f32) dot_S8192x8192_S8192x128_S8192x128_1_0_0_1_n_n none ((Y2 U) (Proc.devRef .tc main_arg4) : (⟨S8192x8192, .f32⟩ : BufTy).Contents (Elt Ideal)) (Host.dotGeneral (F := Ideal) (φ₁ := .f32) (φ₂ := .f32) dot_S8192x128_S128x128_S8192x128_1_0_0_1_n_n none (addf (F := Ideal) (φ := .f32) ((Y2 U) (Proc.devRef .tc main_v462) : (⟨S8192x128, .f32⟩ : BufTy).Contents (Elt Ideal)) ((Y2 U) (Proc.devRef .tc main_v472) : (⟨S8192x128, .f32⟩ : BufTy).Contents (Elt Ideal))) ((Y2 U) (Proc.devRef .tc main_arg14) : (⟨S128x128, .f32⟩ : BufTy).Contents (Elt Ideal))))) (broadcastInDim (α := Ideal .f32) S8192x128 ![] bcast_S_S8192x128 (constant (F := Ideal) S_ .f32 0x00000000#32)) := by
  show after C3 (Y2 U) (Proc.devRef .tc main_v478) = _
  generalize Y2 U = W
  after_results
  all_goals rfl

/-- A buffer stretch 4 does not write keeps its contents through it. -/
theorem rk4 (r : Ref sig .tc) (h : r ∉ C4_W) : Y4 U (Proc.devRef .tc r) = (Y3 U) (Proc.devRef .tc r) :=
  after_of_writes_sub C4 (Y3 U) C4_writes h
/-- In particular each argument array. -/
theorem Y4_arg (j : Fin 23) : Y4 U (Proc.devRef .tc (argR j)) = (Y3 U) (Proc.devRef .tc (argR j)) :=
  rk4 U (argR j) (by revert j; decide)
set_option maxHeartbeats 1000000 in
theorem rr4_v483 : (Y4 U (Proc.devRef .tc main_v483) : (⟨S8192x128, .f32⟩ : BufTy).Contents (Elt Ideal))
    = maximumf (F := Ideal) (φ := .f32) (addf (F := Ideal) (φ := .f32) (Host.dotGeneral (F := Ideal) (φ₁ := .f32) (φ₂ := .f32) dot_S8192x128_S128x128_S8192x128_1_0_0_1_n_n none ((Y3 U) (Proc.devRef .tc main_v478) : (⟨S8192x128, .f32⟩ : BufTy).Contents (Elt Ideal)) ((Y3 U) (Proc.devRef .tc main_arg15) : (⟨S128x128, .f32⟩ : BufTy).Contents (Elt Ideal))) (Host.dotGeneral (F := Ideal) (φ₁ := .f32) (φ₂ := .f32) dot_S8192x8192_S8192x128_S8192x128_1_0_0_1_n_n none ((Y3 U) (Proc.devRef .tc main_arg4) : (⟨S8192x8192, .f32⟩ : BufTy).Contents (Elt Ideal)) (Host.dotGeneral (F := Ideal) (φ₁ := .f32) (φ₂ := .f32) dot_S8192x128_S128x128_S8192x128_1_0_0_1_n_n none ((Y3 U) (Proc.devRef .tc main_v478) : (⟨S8192x128, .f32⟩ : BufTy).Contents (Elt Ideal)) ((Y3 U) (Proc.devRef .tc main_arg16) : (⟨S128x128, .f32⟩ : BufTy).Contents (Elt Ideal))))) (broadcastInDim (α := Ideal .f32) S8192x128 ![] bcast_S_S8192x128 (constant (F := Ideal) S_ .f32 0x00000000#32)) := by
  show after C4 (Y3 U) (Proc.devRef .tc main_v483) = _
  generalize Y3 U = W
  after_results
  all_goals rfl

/-- A buffer stretch 5 does not write keeps its contents through it. -/
theorem rk5 (r : Ref sig .tc) (h : r ∉ C5_W) : Y5 U (Proc.devRef .tc r) = (Y4 U) (Proc.devRef .tc r) :=
  after_of_writes_sub C5 (Y4 U) C5_writes h
/-- In particular each argument array. -/
theorem Y5_arg (j : Fin 23) : Y5 U (Proc.devRef .tc (argR j)) = (Y4 U) (Proc.devRef .tc (argR j)) :=
  rk5 U (argR j) (by revert j; decide)
set_option maxHeartbeats 1000000 in
theorem rr5_v484 : (Y5 U (Proc.devRef .tc main_v484) : (⟨S8192x128, .f32⟩ : BufTy).Contents (Elt Ideal))
    = addf (F := Ideal) (φ := .f32) ((Y4 U) (Proc.devRef .tc main_v473) : (⟨S8192x128, .f32⟩ : BufTy).Contents (Elt Ideal)) ((Y4 U) (Proc.devRef .tc main_v483) : (⟨S8192x128, .f32⟩ : BufTy).Contents (Elt Ideal)) := by
  show after C5 (Y4 U) (Proc.devRef .tc main_v484) = _
  generalize Y4 U = W
  after_results
  all_goals rfl
set_option maxHeartbeats 1000000 in
theorem rr5_v489 : (Y5 U (Proc.devRef .tc main_v489) : (⟨S8192x128, .f32⟩ : BufTy).Contents (Elt Ideal))
    = maximumf (F := Ideal) (φ := .f32) (addf (F := Ideal) (φ := .f32) (Host.dotGeneral (F := Ideal) (φ₁ := .f32) (φ₂ := .f32) dot_S8192x128_S128x128_S8192x128_1_0_0_1_n_n none (addf (F := Ideal) (φ := .f32) ((Y4 U) (Proc.devRef .tc main_v473) : (⟨S8192x128, .f32⟩ : BufTy).Contents (Elt Ideal)) ((Y4 U) (Proc.devRef .tc main_v483) : (⟨S8192x128, .f32⟩ : BufTy).Contents (Elt Ideal))) ((Y4 U) (Proc.devRef .tc main_arg17) : (⟨S128x128, .f32⟩ : BufTy).Contents (Elt Ideal))) (Host.dotGeneral (F := Ideal) (φ₁ := .f32) (φ₂ := .f32) dot_S8192x8192_S8192x128_S8192x128_1_0_0_1_n_n none ((Y4 U) (Proc.devRef .tc main_arg4) : (⟨S8192x8192, .f32⟩ : BufTy).Contents (Elt Ideal)) (Host.dotGeneral (F := Ideal) (φ₁ := .f32) (φ₂ := .f32) dot_S8192x128_S128x128_S8192x128_1_0_0_1_n_n none (addf (F := Ideal) (φ := .f32) ((Y4 U) (Proc.devRef .tc main_v473) : (⟨S8192x128, .f32⟩ : BufTy).Contents (Elt Ideal)) ((Y4 U) (Proc.devRef .tc main_v483) : (⟨S8192x128, .f32⟩ : BufTy).Contents (Elt Ideal))) ((Y4 U) (Proc.devRef .tc main_arg18) : (⟨S128x128, .f32⟩ : BufTy).Contents (Elt Ideal))))) (broadcastInDim (α := Ideal .f32) S8192x128 ![] bcast_S_S8192x128 (constant (F := Ideal) S_ .f32 0x00000000#32)) := by
  show after C5 (Y4 U) (Proc.devRef .tc main_v489) = _
  generalize Y4 U = W
  after_results
  all_goals rfl

/-- A buffer stretch 6 does not write keeps its contents through it. -/
theorem rk6 (r : Ref sig .tc) (h : r ∉ C6_W) : Y6 U (Proc.devRef .tc r) = (Y5 U) (Proc.devRef .tc r) :=
  after_of_writes_sub C6 (Y5 U) C6_writes h
/-- In particular each argument array. -/
theorem Y6_arg (j : Fin 23) : Y6 U (Proc.devRef .tc (argR j)) = (Y5 U) (Proc.devRef .tc (argR j)) :=
  rk6 U (argR j) (by revert j; decide)
set_option maxHeartbeats 1000000 in
theorem rr6_v494 : (Y6 U (Proc.devRef .tc main_v494) : (⟨S8192x128, .f32⟩ : BufTy).Contents (Elt Ideal))
    = maximumf (F := Ideal) (φ := .f32) (addf (F := Ideal) (φ := .f32) (Host.dotGeneral (F := Ideal) (φ₁ := .f32) (φ₂ := .f32) dot_S8192x128_S128x128_S8192x128_1_0_0_1_n_n none ((Y5 U) (Proc.devRef .tc main_v489) : (⟨S8192x128, .f32⟩ : BufTy).Contents (Elt Ideal)) ((Y5 U) (Proc.devRef .tc main_arg19) : (⟨S128x128, .f32⟩ : BufTy).Contents (Elt Ideal))) (Host.dotGeneral (F := Ideal) (φ₁ := .f32) (φ₂ := .f32) dot_S8192x8192_S8192x128_S8192x128_1_0_0_1_n_n none ((Y5 U) (Proc.devRef .tc main_arg4) : (⟨S8192x8192, .f32⟩ : BufTy).Contents (Elt Ideal)) (Host.dotGeneral (F := Ideal) (φ₁ := .f32) (φ₂ := .f32) dot_S8192x128_S128x128_S8192x128_1_0_0_1_n_n none ((Y5 U) (Proc.devRef .tc main_v489) : (⟨S8192x128, .f32⟩ : BufTy).Contents (Elt Ideal)) ((Y5 U) (Proc.devRef .tc main_arg20) : (⟨S128x128, .f32⟩ : BufTy).Contents (Elt Ideal))))) (broadcastInDim (α := Ideal .f32) S8192x128 ![] bcast_S_S8192x128 (constant (F := Ideal) S_ .f32 0x00000000#32)) := by
  show after C6 (Y5 U) (Proc.devRef .tc main_v494) = _
  generalize Y5 U = W
  after_results
  all_goals rfl

/-- A buffer stretch 7 does not write keeps its contents through it. -/
theorem rk7 (r : Ref sig .tc) (h : r ∉ C7_W) : Y7 U (Proc.devRef .tc r) = (Y6 U) (Proc.devRef .tc r) :=
  after_of_writes_sub C7 (Y6 U) C7_writes h
/-- In particular each argument array. -/
theorem Y7_arg (j : Fin 23) : Y7 U (Proc.devRef .tc (argR j)) = (Y6 U) (Proc.devRef .tc (argR j)) :=
  rk7 U (argR j) (by revert j; decide)
set_option maxHeartbeats 1000000 in
theorem rr7_v495 : (Y7 U (Proc.devRef .tc main_v495) : (⟨S8192x128, .f32⟩ : BufTy).Contents (Elt Ideal))
    = addf (F := Ideal) (φ := .f32) ((Y6 U) (Proc.devRef .tc main_v484) : (⟨S8192x128, .f32⟩ : BufTy).Contents (Elt Ideal)) ((Y6 U) (Proc.devRef .tc main_v494) : (⟨S8192x128, .f32⟩ : BufTy).Contents (Elt Ideal)) := by
  show after C7 (Y6 U) (Proc.devRef .tc main_v495) = _
  generalize Y6 U = W
  after_results
  all_goals rfl
set_option maxHeartbeats 1000000 in
theorem rr7_v500 : (Y7 U (Proc.devRef .tc main_v500) : (⟨S8192x3, .f32⟩ : BufTy).Contents (Elt Ideal))
    = maximumf (F := Ideal) (φ := .f32) (addf (F := Ideal) (φ := .f32) (Host.dotGeneral (F := Ideal) (φ₁ := .f32) (φ₂ := .f32) dot_S8192x128_S128x3_S8192x3_1_0_0_1_n_n none (addf (F := Ideal) (φ := .f32) ((Y6 U) (Proc.devRef .tc main_v484) : (⟨S8192x128, .f32⟩ : BufTy).Contents (Elt Ideal)) ((Y6 U) (Proc.devRef .tc main_v494) : (⟨S8192x128, .f32⟩ : BufTy).Contents (Elt Ideal))) ((Y6 U) (Proc.devRef .tc main_arg21) : (⟨S128x3, .f32⟩ : BufTy).Contents (Elt Ideal))) (Host.dotGeneral (F := Ideal) (φ₁ := .f32) (φ₂ := .f32) dot_S8192x8192_S8192x3_S8192x3_1_0_0_1_n_n none ((Y6 U) (Proc.devRef .tc main_arg4) : (⟨S8192x8192, .f32⟩ : BufTy).Contents (Elt Ideal)) (Host.dotGeneral (F := Ideal) (φ₁ := .f32) (φ₂ := .f32) dot_S8192x128_S128x3_S8192x3_1_0_0_1_n_n none (addf (F := Ideal) (φ := .f32) ((Y6 U) (Proc.devRef .tc main_v484) : (⟨S8192x128, .f32⟩ : BufTy).Contents (Elt Ideal)) ((Y6 U) (Proc.devRef .tc main_v494) : (⟨S8192x128, .f32⟩ : BufTy).Contents (Elt Ideal))) ((Y6 U) (Proc.devRef .tc main_arg22) : (⟨S128x3, .f32⟩ : BufTy).Contents (Elt Ideal))))) (broadcastInDim (α := Ideal .f32) S8192x3 ![] bcast_S_S8192x3 (constant (F := Ideal) S_ .f32 0x00000000#32)) := by
  show after C7 (Y6 U) (Proc.devRef .tc main_v500) = _
  generalize Y6 U = W
  after_results
  all_goals rfl

/-- A buffer stretch 8 does not write keeps its contents through it. -/
theorem rk8 (r : Ref sig .tc) (h : r ∉ C8_W) : Y8 U (Proc.devRef .tc r) = (Y7 U) (Proc.devRef .tc r) :=
  after_of_writes_sub C8 (Y7 U) C8_writes h
/-- In particular each argument array. -/
theorem Y8_arg (j : Fin 23) : Y8 U (Proc.devRef .tc (argR j)) = (Y7 U) (Proc.devRef .tc (argR j)) :=
  rk8 U (argR j) (by revert j; decide)
set_option maxHeartbeats 1000000 in
theorem rr8_v501 : (Y8 U (Proc.devRef .tc main_v501) : (⟨S8192x3, .f32⟩ : BufTy).Contents (Elt Ideal))
    = Host.tanh (F := Ideal) (φ := .f32) ((Y7 U) (Proc.devRef .tc main_v500) : (⟨S8192x3, .f32⟩ : BufTy).Contents (Elt Ideal)) := by
  show after C8 (Y7 U) (Proc.devRef .tc main_v501) = _
  generalize Y7 U = W
  after_results
  all_goals rfl
set_option maxHeartbeats 1000000 in
theorem rr8_v502 : (Y8 U (Proc.devRef .tc main_v502) : (⟨S8192x3, .f32⟩ : BufTy).Contents (Elt Ideal))
    = addf (F := Ideal) (φ := .f32) ((Y7 U) (Proc.devRef .tc main_arg5) : (⟨S8192x3, .f32⟩ : BufTy).Contents (Elt Ideal)) (Host.tanh (F := Ideal) (φ := .f32) ((Y7 U) (Proc.devRef .tc main_v500) : (⟨S8192x3, .f32⟩ : BufTy).Contents (Elt Ideal))) := by
  show after C8 (Y7 U) (Proc.devRef .tc main_v502) = _
  generalize Y7 U = W
  after_results
  all_goals rfl

theorem rk2_v462 : Y2 U (Proc.devRef .tc main_v462) = Y1 U (Proc.devRef .tc main_v462) := rk2 U main_v462 (by decide)
theorem rk4_v473 : Y4 U (Proc.devRef .tc main_v473) = Y3 U (Proc.devRef .tc main_v473) := rk4 U main_v473 (by decide)
theorem rk6_v484 : Y6 U (Proc.devRef .tc main_v484) = Y5 U (Proc.devRef .tc main_v484) := rk6 U main_v484 (by decide)
theorem rk8_v495 : Y8 U (Proc.devRef .tc main_v495) = Y7 U (Proc.devRef .tc main_v495) := rk8 U main_v495 (by decide)

/-- Through stretches 0 … 0 each argument array is as in `U`. -/
theorem Y0_args (j : Fin 23) : Y0 U (Proc.devRef .tc (argR j)) = U (Proc.devRef .tc (argR j)) :=
  Y0_arg U j
/-- Through stretches 0 … 1 each argument array is as in `U`. -/
theorem Y1_args (j : Fin 23) : Y1 U (Proc.devRef .tc (argR j)) = U (Proc.devRef .tc (argR j)) :=
  (Y1_arg U j).trans (Y0_args U j)
/-- Through stretches 0 … 2 each argument array is as in `U`. -/
theorem Y2_args (j : Fin 23) : Y2 U (Proc.devRef .tc (argR j)) = U (Proc.devRef .tc (argR j)) :=
  (Y2_arg U j).trans (Y1_args U j)
/-- Through stretches 0 … 3 each argument array is as in `U`. -/
theorem Y3_args (j : Fin 23) : Y3 U (Proc.devRef .tc (argR j)) = U (Proc.devRef .tc (argR j)) :=
  (Y3_arg U j).trans (Y2_args U j)
/-- Through stretches 0 … 4 each argument array is as in `U`. -/
theorem Y4_args (j : Fin 23) : Y4 U (Proc.devRef .tc (argR j)) = U (Proc.devRef .tc (argR j)) :=
  (Y4_arg U j).trans (Y3_args U j)
/-- Through stretches 0 … 5 each argument array is as in `U`. -/
theorem Y5_args (j : Fin 23) : Y5 U (Proc.devRef .tc (argR j)) = U (Proc.devRef .tc (argR j)) :=
  (Y5_arg U j).trans (Y4_args U j)
/-- Through stretches 0 … 6 each argument array is as in `U`. -/
theorem Y6_args (j : Fin 23) : Y6 U (Proc.devRef .tc (argR j)) = U (Proc.devRef .tc (argR j)) :=
  (Y6_arg U j).trans (Y5_args U j)
/-- Through stretches 0 … 7 each argument array is as in `U`. -/
theorem Y7_args (j : Fin 23) : Y7 U (Proc.devRef .tc (argR j)) = U (Proc.devRef .tc (argR j)) :=
  (Y7_arg U j).trans (Y6_args U j)
/-- Through stretches 0 … 8 each argument array is as in `U`. -/
theorem Y8_args (j : Fin 23) : Y8 U (Proc.devRef .tc (argR j)) = U (Proc.devRef .tc (argR j)) :=
  (Y8_arg U j).trans (Y7_args U j)

end Reads

section Close
variable (U : Valuation τ sig (Elt Ideal))

open Cert.Proof.TailSpec

/-- The tail's inputs as `U` holds them: the adjacency, the positions, the vertex features, the projected features (what
    stretch 0 leaves in its last buffer) and the fourteen layer weights. -/
abbrev tA : VA := U (Proc.devRef .tc main_arg4)
abbrev t5 : V3 := U (Proc.devRef .tc main_arg5)
abbrev t6 : V128 := U (Proc.devRef .tc main_arg6)
abbrev tP : V128 := Y0 U (Proc.devRef .tc main_v460)
abbrev t8 : M259 := U (Proc.devRef .tc main_arg8)
abbrev t9 : M259 := U (Proc.devRef .tc main_arg9)
abbrev t12 : M259 := U (Proc.devRef .tc main_arg12)
abbrev t10 : M128 := U (Proc.devRef .tc main_arg10)
abbrev t11 : M128 := U (Proc.devRef .tc main_arg11)
abbrev t13 : M128 := U (Proc.devRef .tc main_arg13)
abbrev t14 : M128 := U (Proc.devRef .tc main_arg14)
abbrev t15 : M128 := U (Proc.devRef .tc main_arg15)
abbrev t16 : M128 := U (Proc.devRef .tc main_arg16)
abbrev t17 : M128 := U (Proc.devRef .tc main_arg17)
abbrev t18 : M128 := U (Proc.devRef .tc main_arg18)
abbrev t19 : M128 := U (Proc.devRef .tc main_arg19)
abbrev t20 : M128 := U (Proc.devRef .tc main_arg20)
abbrev t21 : M3 := U (Proc.devRef .tc main_arg21)
abbrev t22 : M3 := U (Proc.devRef .tc main_arg22)

/-- The first block's input. -/
abbrev tCat : FVec Ideal S8192x259 .f32 := cat (t6 U) (t5 U) (tP U)
/-- After the first, the second and the third residual block. -/
abbrev tX1 : V128 := blk1 (tA U) (t5 U) (t6 U) (tP U) (t8 U) (t9 U) (t12 U) (t10 U) (t11 U)
abbrev tX2 : V128 := blk (tA U) (tX1 U) (t13 U) (t14 U) (t15 U) (t16 U)

set_option maxHeartbeats 2000000 in
theorem e462 : (Y1 U (Proc.devRef .tc main_v462) : V128) = dg259 (tCat U) (t12 U) := by
  rw [rr1_v462, (show Y0 U (Proc.devRef .tc main_arg6) = U (Proc.devRef .tc main_arg6) from Y0_args U 6), (show Y0 U (Proc.devRef .tc main_arg5) = U (Proc.devRef .tc main_arg5) from Y0_args U 5), (show Y0 U (Proc.devRef .tc main_arg12) = U (Proc.devRef .tc main_arg12) from Y0_args U 12)]
  rfl

set_option maxHeartbeats 2000000 in
theorem e467 : (Y1 U (Proc.devRef .tc main_v467) : V128) = gc259 (tA U) (tCat U) (t8 U) (t9 U) := by
  rw [rr1_v467, (show Y0 U (Proc.devRef .tc main_arg6) = U (Proc.devRef .tc main_arg6) from Y0_args U 6), (show Y0 U (Proc.devRef .tc main_arg5) = U (Proc.devRef .tc main_arg5) from Y0_args U 5), (show Y0 U (Proc.devRef .tc main_arg8) = U (Proc.devRef .tc main_arg8) from Y0_args U 8), (show Y0 U (Proc.devRef .tc main_arg4) = U (Proc.devRef .tc main_arg4) from Y0_args U 4), (show Y0 U (Proc.devRef .tc main_arg9) = U (Proc.devRef .tc main_arg9) from Y0_args U 9)]
  rfl

set_option maxHeartbeats 2000000 in
theorem e472 : (Y2 U (Proc.devRef .tc main_v472) : V128) = gc (tA U) (gc259 (tA U) (tCat U) (t8 U) (t9 U)) (t10 U) (t11 U) := by
  rw [rr2_v472, e467, (show Y1 U (Proc.devRef .tc main_arg10) = U (Proc.devRef .tc main_arg10) from Y1_args U 10), (show Y1 U (Proc.devRef .tc main_arg4) = U (Proc.devRef .tc main_arg4) from Y1_args U 4), (show Y1 U (Proc.devRef .tc main_arg11) = U (Proc.devRef .tc main_arg11) from Y1_args U 11)]
  rfl

theorem k462 : (Y2 U (Proc.devRef .tc main_v462) : V128) = dg259 (tCat U) (t12 U) := (rk2_v462 U).trans (e462 U)

set_option maxHeartbeats 2000000 in
theorem e473 : (Y3 U (Proc.devRef .tc main_v473) : V128) = tX1 U := by
  rw [rr3_v473, k462, e472]
  rfl

set_option maxHeartbeats 2000000 in
theorem e478 : (Y3 U (Proc.devRef .tc main_v478) : V128) = gc (tA U) (tX1 U) (t13 U) (t14 U) := by
  rw [rr3_v478, k462, e472, (show Y2 U (Proc.devRef .tc main_arg13) = U (Proc.devRef .tc main_arg13) from Y2_args U 13), (show Y2 U (Proc.devRef .tc main_arg4) = U (Proc.devRef .tc main_arg4) from Y2_args U 4), (show Y2 U (Proc.devRef .tc main_arg14) = U (Proc.devRef .tc main_arg14) from Y2_args U 14)]
  rfl

set_option maxHeartbeats 2000000 in
theorem e483 : (Y4 U (Proc.devRef .tc main_v483) : V128) = gc (tA U) (gc (tA U) (tX1 U) (t13 U) (t14 U)) (t15 U) (t16 U) := by
  rw [rr4_v483, e478, (show Y3 U (Proc.devRef .tc main_arg15) = U (Proc.devRef .tc main_arg15) from Y3_args U 15), (show Y3 U (Proc.devRef .tc main_arg4) = U (Proc.devRef .tc main_arg4) from Y3_args U 4), (show Y3 U (Proc.devRef .tc main_arg16) = U (Proc.devRef .tc main_arg16) from Y3_args U 16)]
  rfl

theorem k473 : (Y4 U (Proc.devRef .tc main_v473) : V128) = tX1 U := (rk4_v473 U).trans (e473 U)

set_option maxHeartbeats 2000000 in
theorem e484 : (Y5 U (Proc.devRef .tc main_v484) : V128) = tX2 U := by
  rw [rr5_v484, k473, e483]
  rfl

set_option maxHeartbeats 2000000 in
theorem e489 : (Y5 U (Proc.devRef .tc main_v489) : V128) = gc (tA U) (tX2 U) (t17 U) (t18 U) := by
  rw [rr5_v489, k473, e483, (show Y4 U (Proc.devRef .tc main_arg17) = U (Proc.devRef .tc main_arg17) from Y4_args U 17), (show Y4 U (Proc.devRef .tc main_arg4) = U (Proc.devRef .tc main_arg4) from Y4_args U 4), (show Y4 U (Proc.devRef .tc main_arg18) = U (Proc.devRef .tc main_arg18) from Y4_args U 18)]
  rfl

set_option maxHeartbeats 2000000 in
theorem e494 : (Y6 U (Proc.devRef .tc main_v494) : V128) = gc (tA U) (gc (tA U) (tX2 U) (t17 U) (t18 U)) (t19 U) (t20 U) := by
  rw [rr6_v494, e489, (show Y5 U (Proc.devRef .tc main_arg19) = U (Proc.devRef .tc main_arg19) from Y5_args U 19), (show Y5 U (Proc.devRef .tc main_arg4) = U (Proc.devRef .tc main_arg4) from Y5_args U 4), (show Y5 U (Proc.devRef .tc main_arg20) = U (Proc.devRef .tc main_arg20) from Y5_args U 20)]
  rfl

theorem k484 : (Y6 U (Proc.devRef .tc main_v484) : V128) = tX2 U := (rk6_v484 U).trans (e484 U)

/-- The tail's second result as the one function. -/
abbrev tX : V128 :=
  tailX (tA U) (t5 U) (t6 U) (tP U) (t8 U) (t9 U) (t12 U) (t10 U) (t11 U) (t13 U) (t14 U) (t15 U) (t16 U) (t17 U) (t18 U) (t19 U) (t20 U)

set_option maxHeartbeats 2000000 in
theorem e495 : (Y7 U (Proc.devRef .tc main_v495) : V128) = tX U := by
  rw [rr7_v495, k484, e494]
  rfl

/-- THE SECOND RESULT after the last window: the three residual blocks of the tail. -/
theorem ref_tailX : (Y8 U (Proc.devRef .tc main_v495) : V128) = tX U := (rk8_v495 U).trans (e495 U)

set_option maxHeartbeats 2000000 in
theorem e500 : (Y7 U (Proc.devRef .tc main_v500) : V3) = gc3 (tA U) (tX U) (t21 U) (t22 U) := by
  rw [rr7_v500, k484, e494, (show Y6 U (Proc.devRef .tc main_arg21) = U (Proc.devRef .tc main_arg21) from Y6_args U 21), (show Y6 U (Proc.devRef .tc main_arg4) = U (Proc.devRef .tc main_arg4) from Y6_args U 4), (show Y6 U (Proc.devRef .tc main_arg22) = U (Proc.devRef .tc main_arg22) from Y6_args U 22)]
  rfl

set_option maxHeartbeats 2000000 in
/-- THE FIRST RESULT after the last window: the moved positions. -/
theorem ref_tailY : (Y8 U (Proc.devRef .tc main_v502) : V3) = tailY (tA U) (t5 U) (tX U) (t21 U) (t22 U) := by
  rw [rr8_v502, e500, (show Y7 U (Proc.devRef .tc main_arg5) = U (Proc.devRef .tc main_arg5) from Y7_args U 5)]
  rfl

/-- No later stretch writes the projected features: what stretch 0 left is still there at the end. -/
theorem Y8_v460 : Y8 U (Proc.devRef .tc main_v460) = Y0 U (Proc.devRef .tc main_v460) :=
  (rk8 U main_v460 (by decide)).trans ((rk7 U main_v460 (by decide)).trans ((rk6 U main_v460 (by decide)).trans ((rk5 U main_v460 (by decide)).trans
    ((rk4 U main_v460 (by decide)).trans ((rk3 U main_v460 (by decide)).trans ((rk2 U main_v460 (by decide)).trans (rk1 U main_v460 (by decide))))))))

end Close

section Whole
variable (L' : Valuation τ sig (Elt Ideal))

/-- The contents before the last window: the first nine windows' operations from the launch contents `L'`. -/
def U9 : Valuation τ sig (Elt Ideal) :=
  after ops_part8 (after ops_part7 (after ops_part6 (after ops_part5 (after ops_part4 (after ops_part3 (after ops_part2 (after ops_part1 (after ops_part0 L'))))))))

/-- The whole program's contents are the last window's from `U9`. -/
theorem after_ops : after ops L' = after ops_part9 (U9 L') := by
  simp only [ops, after_append]; rfl

/-- No window writes an argument array: before the last window they are the launch's. -/
theorem U9_args (j : Fin 23) : U9 L' (Proc.devRef .tc (argR j)) = L' (Proc.devRef .tc (argR j)) := by
  unfold U9
  rw [ops_part8_keep _ (argR j) (by revert j; decide), ops_part7_keep _ (argR j) (by revert j; decide), ops_part6_keep _ (argR j) (by revert j; decide),
    ops_part5_keep _ (argR j) (by revert j; decide), ops_part4_keep _ (argR j) (by revert j; decide), ops_part3_keep _ (argR j) (by revert j; decide),
    ops_part2_keep _ (argR j) (by revert j; decide), ops_part1_keep _ (argR j) (by revert j; decide), ops_part0_keep _ (argR j) (by revert j; decide)]

/-- The whole program's contents: the nine stretches of the last window from `U9`. -/
theorem after_ops_Y8 : after ops L' = Y8 (U9 L') := (after_ops L').trans (after_part9 (U9 L'))

end Whole

end Cert.Proof.TailRef

end
-- ==== Proof.KI.Acc.lean ====
import proofs.«120270_j2259152797813_2_alg».proof.Proof.KI.Run
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-! # The sum of the four maps' contributions

The projected features are built up over the four regions: a zero array plus region 0's result, plus region 1's,
plus region 2's, plus region 3's, each sum taken by the host stretch that follows the region. -/

set_option maxHeartbeats 4000000 in
/-- The zero array the sum starts from. -/
theorem W5_zeros (c : Dev nD) : (W5 m ρ c (Proc.devRef .tc main_v208) : S8192x128.Idx → EReal)
    = fun _ => FloatOps.ofBits (F := Ideal) .f32 0x00000000#32 := by
  show StableHlo.after hostOps0_4 (W4 m ρ c) (Proc.devRef .tc main_v208) = _
  generalize W4 m ρ c = V
  after_results_simp
  rfl

set_option maxHeartbeats 2000000 in
/-- The projected features of the kernel program: the four regions' results added in order onto the zero array. -/
theorem projected_sum (c : Dev nD) :
    (W21 m ρ c (Proc.devRef .tc main_v272) : S8192x128.Idx → EReal)
      = fun i => ((((show EReal from (W5 m ρ c (Proc.devRef .tc main_v208) : S8192x128.Idx → EReal) i) + (show EReal from (W8 m ρ c (Proc.devRef .tc main_v223) : S8192x128.Idx → EReal) i)) + (show EReal from (W12 m ρ c (Proc.devRef .tc main_v239) : S8192x128.Idx → EReal) i)) + (show EReal from (W16 m ρ c (Proc.devRef .tc main_v255) : S8192x128.Idx → EReal) i)) + (show EReal from (W20 m ρ c (Proc.devRef .tc main_v271) : S8192x128.Idx → EReal) i) := by
  have s4 : (W21 m ρ c (Proc.devRef .tc main_v272) : S8192x128.Idx → EReal) = fun i => (show EReal from (W20 m ρ c (Proc.devRef .tc main_v256) : S8192x128.Idx → EReal) i) + (show EReal from (W20 m ρ c (Proc.devRef .tc main_v271) : S8192x128.Idx → EReal) i) := by
    show StableHlo.after hostOps4 (W20 m ρ c) (Proc.devRef .tc main_v272) = _
    generalize W20 m ρ c = V
    after_results_simp
    try rfl
  have r3 : W20 m ρ c (Proc.devRef .tc main_v256) = W19 m ρ c (Proc.devRef .tc main_v256) := W20_of_ne m ρ c main_v256 (by decide)
  have s3 : (W19 m ρ c (Proc.devRef .tc main_v256) : S8192x128.Idx → EReal) = fun i => (show EReal from (W16 m ρ c (Proc.devRef .tc main_v240) : S8192x128.Idx → EReal) i) + (show EReal from (W16 m ρ c (Proc.devRef .tc main_v255) : S8192x128.Idx → EReal) i) := by
    show StableHlo.after hostOps3_2 (StableHlo.after hostOps3_1 (StableHlo.after hostOps3 (W16 m ρ c))) (Proc.devRef .tc main_v256) = _
    generalize W16 m ρ c = V
    after_results_simp
    try rfl
  have r2 : W16 m ρ c (Proc.devRef .tc main_v240) = W15 m ρ c (Proc.devRef .tc main_v240) := W16_of_ne m ρ c main_v240 (by decide)
  have s2 : (W15 m ρ c (Proc.devRef .tc main_v240) : S8192x128.Idx → EReal) = fun i => (show EReal from (W12 m ρ c (Proc.devRef .tc main_v224) : S8192x128.Idx → EReal) i) + (show EReal from (W12 m ρ c (Proc.devRef .tc main_v239) : S8192x128.Idx → EReal) i) := by
    show StableHlo.after hostOps2_2 (StableHlo.after hostOps2_1 (StableHlo.after hostOps2 (W12 m ρ c))) (Proc.devRef .tc main_v240) = _
    generalize W12 m ρ c = V
    after_results_simp
    try rfl
  have r1 : W12 m ρ c (Proc.devRef .tc main_v224) = W11 m ρ c (Proc.devRef .tc main_v224) := W12_of_ne m ρ c main_v224 (by decide)
  have s1 : (W11 m ρ c (Proc.devRef .tc main_v224) : S8192x128.Idx → EReal) = fun i => (show EReal from (W8 m ρ c (Proc.devRef .tc main_v208) : S8192x128.Idx → EReal) i) + (show EReal from (W8 m ρ c (Proc.devRef .tc main_v223) : S8192x128.Idx → EReal) i) := by
    show StableHlo.after hostOps1_2 (StableHlo.after hostOps1_1 (StableHlo.after hostOps1 (W8 m ρ c))) (Proc.devRef .tc main_v224) = _
    generalize W8 m ρ c = V
    after_results_simp
    try rfl
  have r0 : W8 m ρ c (Proc.devRef .tc main_v208) = W7 m ρ c (Proc.devRef .tc main_v208) := W8_of_ne m ρ c main_v208 (by decide)
  have k7 : W7 m ρ c (Proc.devRef .tc main_v208) = W5 m ρ c (Proc.devRef .tc main_v208) := by
    show StableHlo.after hostOps0_6 (StableHlo.after hostOps0_5 (W5 m ρ c)) (Proc.devRef .tc main_v208) = _
    generalize W5 m ρ c = V
    after_results_simp
  rw [s4, r3, s3, r2, s2, r1, s1, r0, k7]
  rfl

end Cert.KernelIdeal.Hand

end
-- ==== Proof.LibGridCoordinate.lean ====
/-
  Integer grid coordinates from a real coordinate, at the extended reals.

  A sampling position `r` (a real number, `0 ≤ r`, far below 2³¹) is turned into 32-bit integer grid coordinates by
  rounding down, rounding up, or truncating, and converting the rounded float to a signed integer.  At the extended
  reals the rounding is the mathematical one and the conversion clamps to the 32-bit range, so below 2³¹ the three
  integers are exactly `⌊r⌋`, `⌈r⌉` and `⌊r⌋`, read signed.  If moreover `r ≤ n - 1` for a natural `n` then every one
  of them lies in `[0, n - 1]` — the fact that keeps a bilinear corner inside an `n`-wide feature map.
-/
import Idealize.ShloMosaic.PureOps.Ideal

namespace Cert.LibGridCoordinate

open Idealize.ShloMosaic

/-- A signed 32-bit word made from an integer in range reads back as that integer. -/
theorem toInt_ofInt_of_range (z : ℤ) (h0 : 0 ≤ z) (h1 : z < 2147483648) : (BitVec.ofInt 32 z).toInt = z := by
  rw [BitVec.toInt_ofInt]
  have hm : ((2 ^ 32 : ℕ) : ℤ) = 4294967296 := by norm_num
  have h : z % ((2 ^ 32 : ℕ) : ℤ) = z := Int.emod_eq_of_lt h0 (by rw [hm]; omega)
  unfold Int.bmod
  simp only [h, hm]
  first | omega | (rw [if_pos (by omega)]) | (split_ifs <;> omega)

/-- Truncating a nonnegative real below 2³¹ to a signed 32-bit integer gives its floor. -/
theorem fptosi_coe_of_nonneg (r : ℝ) (h0 : 0 ≤ r) (h1 : r < 2147483647) :
    (Ideal.fptosi 32 (r : EReal)).toInt = ⌊r⌋ := by
  have hfl0 : 0 ≤ ⌊r⌋ := Int.floor_nonneg.mpr h0
  have hfl1 : ⌊r⌋ < 2147483647 := by
    have : (⌊r⌋ : ℝ) ≤ r := Int.floor_le r
    have h2 : ((⌊r⌋ : ℤ) : ℝ) < ((2147483647 : ℤ) : ℝ) := by push_cast; linarith
    exact_mod_cast h2
  unfold Ideal.fptosi
  rw [Ideal.toIntClamped_coe]
  rw [if_pos h0]
  have hmin : min ((2 ^ (32 - 1) : ℕ) - 1 : ℤ) ⌊r⌋ = ⌊r⌋ := by
    apply min_eq_right; norm_num; omega
  have hmax : max (-((2 ^ (32 - 1) : ℕ) : ℤ)) ⌊r⌋ = ⌊r⌋ := by
    apply max_eq_right; norm_num; omega
  rw [hmin, hmax]
  exact toInt_ofInt_of_range _ hfl0 (by omega)

/-- Rounding down and then converting gives the floor. -/
theorem fptosi_floor (r : ℝ) (h0 : 0 ≤ r) (h1 : r < 2147483647) :
    (Ideal.fptosi 32 (Ideal.liftRound Int.floor (r : EReal))).toInt = ⌊r⌋ := by
  rw [Ideal.liftRound_coe]
  have hfl0 : (0 : ℝ) ≤ ((⌊r⌋ : ℤ) : ℝ) := by exact_mod_cast Int.floor_nonneg.mpr h0
  have hfl1 : ((⌊r⌋ : ℤ) : ℝ) < 2147483647 := lt_of_le_of_lt (Int.floor_le r) h1
  rw [fptosi_coe_of_nonneg _ hfl0 hfl1, Int.floor_intCast]

/-- Rounding up and then converting gives the ceiling. -/
theorem fptosi_ceil (r : ℝ) (h0 : 0 ≤ r) (h1 : r < 2147483646) :
    (Ideal.fptosi 32 (Ideal.liftRound Int.ceil (r : EReal))).toInt = ⌈r⌉ := by
  rw [Ideal.liftRound_coe]
  have hc0 : (0 : ℝ) ≤ ((⌈r⌉ : ℤ) : ℝ) := by exact_mod_cast Int.ceil_nonneg h0
  have hc1 : ((⌈r⌉ : ℤ) : ℝ) < 2147483647 := by
    have := Int.ceil_lt_add_one r
    linarith
  rw [fptosi_coe_of_nonneg _ hc0 hc1, Int.floor_intCast]

/-- A position inside an `n`-wide map has its floor inside the map. -/
theorem floor_mem_range (r : ℝ) (n : ℕ) (h0 : 0 ≤ r) (h1 : r ≤ (n : ℝ) - 1) : 0 ≤ ⌊r⌋ ∧ ⌊r⌋ ≤ (n : ℤ) - 1 := by
  refine ⟨Int.floor_nonneg.mpr h0, ?_⟩
  have : ⌊r⌋ ≤ ⌊(n : ℝ) - 1⌋ := Int.floor_le_floor h1
  have h2 : ⌊(n : ℝ) - 1⌋ = (n : ℤ) - 1 := by
    have : ((n : ℝ) - 1) = (((n : ℤ) - 1 : ℤ) : ℝ) := by push_cast; ring
    rw [this, Int.floor_intCast]
  omega

/-- and its ceiling, cut at the last column, too. -/
theorem min_ceil_mem_range (r : ℝ) (n : ℕ) (h0 : 0 ≤ r) (hn : 1 ≤ n) : 0 ≤ min ⌈r⌉ ((n : ℤ) - 1) ∧ min ⌈r⌉ ((n : ℤ) - 1) ≤ (n : ℤ) - 1 := by
  refine ⟨le_min (Int.ceil_nonneg h0) (by omega), min_le_right _ _⟩

end Cert.LibGridCoordinate
-- ==== Proof.LibOneHotMask.lean ====
/-
  A one-hot mask from an integer comparison, and a flat index from two grid coordinates.

  A kernel that selects rows by a matrix product builds its selection matrix from a mask: compare a running
  position `s` (an iota word) with an index word, widen the one-bit answer to a 32-bit integer, and convert that to
  a float.  At the extended reals the mask is `1` where the two words are equal and `0` elsewhere.  The position is
  a word made from a natural number below 2³², so it equals the index word exactly when the natural number is the
  index word's unsigned value.  And a flat index `a · n + b` computed in 32-bit words from two grid coordinates
  `0 ≤ a < h`, `0 ≤ b < n` (read signed) has the unsigned value `a · n + b` as long as `h · n` stays below 2³¹.
-/
import Idealize.ShloMosaic.PureOps.Ideal

namespace Cert.LibOneHotMask

open Idealize.ShloMosaic

/-- The mask of one comparison, at the extended reals: one where the words are equal, zero elsewhere. -/
theorem mask_eq (a b : BitVec 32) :
    (FloatOps.sitofp (F := Ideal) .f32 ((Scalar.cmpi .eq a b).setWidth 32) : EReal) = if a = b then 1 else 0 := by
  by_cases h : a = b
  · subst h
    rw [if_pos rfl]
    have : Scalar.cmpi .eq a a = 1#1 := by simp [Scalar.cmpi, IntOp.cmpi]
    rw [this]
    show (((((1#1 : BitVec 1).setWidth 32).toInt : ℤ) : ℝ) : EReal) = 1
    norm_num
  · rw [if_neg h]
    have : Scalar.cmpi .eq a b = 0#1 := by
      have hb : (a == b) = false := beq_false_of_ne h
      simp [Scalar.cmpi, IntOp.cmpi, hb]
    rw [this]
    show (((((0#1 : BitVec 1).setWidth 32).toInt : ℤ) : ℝ) : EReal) = 0
    norm_num

/-- The same mask with the comparison spelled as the vector operations spell it at an entry. -/
theorem mask_eq' (a b : BitVec 32) :
    (FloatOps.sitofp (F := Ideal) .f32 ((IntOp.cmpi .eq a b).setWidth 32) : EReal) = if a = b then 1 else 0 :=
  mask_eq a b

/-- A position word equals an index word exactly when the position is the index word's unsigned value. -/
theorem ofNat_eq_iff (s : ℕ) (hs : s < 4294967296) (i : BitVec 32) : BitVec.ofNat 32 s = i ↔ s = i.toNat := by
  constructor
  · intro h
    rw [← h, BitVec.toNat_ofNat]
    exact (Nat.mod_eq_of_lt hs).symm
  · intro h
    rw [h]
    apply BitVec.eq_of_toNat_eq
    rw [BitVec.toNat_ofNat]
    exact Nat.mod_eq_of_lt i.isLt

/-- The flat index of the grid point `(a, b)` in an `h`-by-`n` map, computed in 32-bit words, has the unsigned
    value `a · n + b`. -/
theorem flat_index_toNat (a b : BitVec 32) (h n : ℕ) (hn : h * n < 2147483648)
    (ha0 : 0 ≤ a.toInt) (ha1 : a.toInt < h) (hb0 : 0 ≤ b.toInt) (hb1 : b.toInt < n) :
    (a * BitVec.ofNat 32 n + b).toNat = a.toInt.toNat * n + b.toInt.toNat := by
  have hA : a.toNat = a.toInt.toNat := by
    have := BitVec.toInt_eq_toNat_cond a
    split at this <;> omega
  have hB : b.toNat = b.toInt.toNat := by
    have := BitVec.toInt_eq_toNat_cond b
    split at this <;> omega
  have hA' : a.toInt.toNat < h := by omega
  have hB' : b.toInt.toNat < n := by omega
  have hlt : a.toInt.toNat * n + b.toInt.toNat < h * n := by
    have : a.toInt.toNat * n + n ≤ h * n := by
      have : (a.toInt.toNat + 1) * n ≤ h * n := Nat.mul_le_mul_right n (by omega)
      rw [Nat.add_mul, Nat.one_mul] at this; exact this
    omega
  have hnlt : n < 4294967296 := by
    rcases Nat.eq_zero_or_pos h with h0 | hpos
    · omega
    · have : n ≤ h * n := Nat.le_mul_of_pos_left n hpos
      omega
  rw [BitVec.toNat_add, BitVec.toNat_mul, BitVec.toNat_ofNat, Nat.mod_eq_of_lt hnlt, hA, hB]
  have h1 : a.toInt.toNat * n < 4294967296 := by omega
  rw [Nat.mod_eq_of_lt (show a.toInt.toNat * n < 2 ^ 32 by norm_num; exact h1)]
  exact Nat.mod_eq_of_lt (by norm_num; omega)

end Cert.LibOneHotMask
-- ==== Proof.PrefixChain.lean ====
/-
  The integer grid coordinates, interpolation weights and flat indices of one vertex on one feature map, as functions
  of the vertex's two clipped image coordinates.

  A clipped image coordinate `e` (a real number in `[0, 223]`) is divided by the cell size `c = 224 / s` of a map of
  side `s`; `lo` is the quotient rounded down, `hi` the quotient rounded up and cut at the last cell `s - 1`, `tr` the
  quotient truncated, all as signed 32-bit words.  The four interpolation weights are products of differences of these
  words, converted to floats; the four flat indices are `row · s + column` in 32-bit words.  Every weight is a
  converted integer, hence finite; `lo` and `hi` lie in `[0, s - 1]`, so a flat index has the unsigned value
  `row · s + column` and stays below `s²`.
-/
import Idealize.ShloMosaic.PureOps.Ideal
import Idealize.ShloMosaic.PureOps.Ideal.Laws
import proofs.«120270_j2259152797813_2_alg».proof.Proof.LibGridCoordinate
import proofs.«120270_j2259152797813_2_alg».proof.Proof.LibOneHotMask

noncomputable section

namespace Cert.Proof.Chain

open Idealize.ShloMosaic

/-- The clipping of a projected coordinate to the image: at least 0 and at most 223. -/
def clip (e : EReal) : EReal :=
  FloatOps.minimumf (F := Ideal) (φ := .f32) (FloatOps.sitofp .f32 (223#32 : BitVec 32))
    (FloatOps.maximumf (F := Ideal) (φ := .f32) (FloatOps.ofBits .f32 0x00000000#32) e)

/-- The coordinate in cells. -/
def q (cb : BitVec 32) (e : EReal) : EReal := FloatOps.hostDivf (F := Ideal) (φ := .f32) e (FloatOps.ofBits .f32 cb)
/-- Rounded down. -/
def lo (cb : BitVec 32) (e : EReal) : BitVec 32 :=
  FloatOps.fptosi (F := Ideal) (φ := .f32) 32 (FloatOps.hostUnary (F := Ideal) (φ := .f32) .floor (q cb e))
/-- Rounded up, cut at the last cell. -/
def hi (cb smax : BitVec 32) (e : EReal) : BitVec 32 :=
  IntOp.minsi (FloatOps.fptosi (F := Ideal) (φ := .f32) 32 (FloatOps.hostUnary (F := Ideal) (φ := .f32) .ceil (q cb e))) smax
/-- Truncated. -/
def tr (cb : BitVec 32) (e : EReal) : BitVec 32 := FloatOps.fptosi (F := Ideal) (φ := .f32) 32 (q cb e)

/-- The four interpolation weights (`x` the column coordinate's source, `y` the row's). -/
def w11 (cb smax : BitVec 32) (x y : EReal) : EReal :=
  FloatOps.sitofp (F := Ideal) .f32 (IntOp.muli (IntOp.subi (hi cb smax x) (tr cb x)) (IntOp.subi (hi cb smax y) (tr cb y)))
def w12 (cb smax : BitVec 32) (x y : EReal) : EReal :=
  FloatOps.sitofp (F := Ideal) .f32 (IntOp.muli (IntOp.subi (hi cb smax x) (tr cb x)) (IntOp.subi (tr cb y) (lo cb y)))
def w21 (cb smax : BitVec 32) (x y : EReal) : EReal :=
  FloatOps.sitofp (F := Ideal) .f32 (IntOp.muli (IntOp.subi (tr cb x) (lo cb x)) (IntOp.subi (hi cb smax y) (tr cb y)))
def w22 (cb smax : BitVec 32) (x y : EReal) : EReal :=
  FloatOps.sitofp (F := Ideal) .f32 (IntOp.muli (IntOp.subi (tr cb x) (lo cb x)) (IntOp.subi (tr cb y) (lo cb y)))

/-- The four flat indices. -/
def i11 (cb sW : BitVec 32) (x y : EReal) : BitVec 32 := IntOp.addi (IntOp.muli (lo cb x) sW) (lo cb y)
def i12 (cb smax sW : BitVec 32) (x y : EReal) : BitVec 32 := IntOp.addi (IntOp.muli (lo cb x) sW) (hi cb smax y)
def i21 (cb smax sW : BitVec 32) (x y : EReal) : BitVec 32 := IntOp.addi (IntOp.muli (hi cb smax x) sW) (lo cb y)
def i22 (cb smax sW : BitVec 32) (x y : EReal) : BitVec 32 := IntOp.addi (IntOp.muli (hi cb smax x) sW) (hi cb smax y)

/-- A converted integer is finite. -/
theorem sitofp_finite (b : BitVec 32) : (FloatOps.sitofp (F := Ideal) .f32 b : EReal) ≠ ⊤ ∧ (FloatOps.sitofp (F := Ideal) .f32 b : EReal) ≠ ⊥ :=
  ⟨EReal.coe_ne_top _, EReal.coe_ne_bot _⟩

theorem w11_finite (cb smax : BitVec 32) (x y : EReal) : w11 cb smax x y ≠ ⊤ ∧ w11 cb smax x y ≠ ⊥ := sitofp_finite _
theorem w12_finite (cb smax : BitVec 32) (x y : EReal) : w12 cb smax x y ≠ ⊤ ∧ w12 cb smax x y ≠ ⊥ := sitofp_finite _
theorem w21_finite (cb smax : BitVec 32) (x y : EReal) : w21 cb smax x y ≠ ⊤ ∧ w21 cb smax x y ≠ ⊥ := sitofp_finite _
theorem w22_finite (cb smax : BitVec 32) (x y : EReal) : w22 cb smax x y ≠ ⊤ ∧ w22 cb smax x y ≠ ⊥ := sitofp_finite _

/-- The clipped coordinate is a real number between 0 and 223, whatever was clipped. -/
theorem clip_real (e : EReal) : ∃ r : ℝ, clip e = (r : EReal) ∧ 0 ≤ r ∧ r ≤ 223 := by
  have h223 : (FloatOps.sitofp (F := Ideal) .f32 (223#32 : BitVec 32) : EReal) = ((223 : ℝ) : EReal) := by
    show ((((223#32 : BitVec 32).toInt : ℤ) : ℝ) : EReal) = _
    rw [show (223#32 : BitVec 32).toInt = 223 from by decide]
    norm_num
  have h0 : (FloatOps.ofBits (F := Ideal) .f32 0x00000000#32 : EReal) = ((0 : ℝ) : EReal) := by
    show Ideal.ofBits .f32 0x00000000#32 = _
    rw [Ideal.ofBits_zero_f32]; rfl
  unfold clip
  show ∃ r : ℝ, min (FloatOps.sitofp (F := Ideal) .f32 (223#32 : BitVec 32) : EReal) (max (FloatOps.ofBits (F := Ideal) .f32 0x00000000#32 : EReal) e) = (r : EReal) ∧ 0 ≤ r ∧ r ≤ 223
  rw [h223, h0]
  induction e using EReal.rec with
  | bot => exact ⟨0, by simp, le_refl _, by norm_num⟩
  | top => exact ⟨223, by simp, by norm_num, le_refl _⟩
  | coe x =>
    refine ⟨min 223 (max 0 x), ?_, le_min (by norm_num) (le_max_left _ _), min_le_left _ _⟩
    rcases le_total (0 : ℝ) x with hx | hx
    · rw [max_eq_right hx, max_eq_right (EReal.coe_le_coe_iff.mpr hx)]
      rcases le_total (223 : ℝ) x with h2 | h2
      · rw [min_eq_left h2, min_eq_left (EReal.coe_le_coe_iff.mpr h2)]
      · rw [min_eq_right h2, min_eq_right (EReal.coe_le_coe_iff.mpr h2)]
    · rw [max_eq_left hx, max_eq_left (EReal.coe_le_coe_iff.mpr hx)]
      rw [min_eq_right (by norm_num : (0 : ℝ) ≤ 223), min_eq_right (EReal.coe_le_coe_iff.mpr (by norm_num : (0 : ℝ) ≤ 223))]

/-- The cell sizes of the four maps. -/
theorem ofBits_four : (FloatOps.ofBits (F := Ideal) .f32 0x40800000#32 : EReal) = ((4 : ℝ) : EReal) := by
  show Ideal.ofBits .f32 0x40800000#32 = _
  simp [Ideal.ofBits, Ideal.ieee]
  first | (rw [← EReal.coe_mul]; congr 1; norm_num) | (norm_cast; norm_num) | (push_cast; norm_num)
theorem ofBits_eight : (FloatOps.ofBits (F := Ideal) .f32 0x41000000#32 : EReal) = ((8 : ℝ) : EReal) := by
  show Ideal.ofBits .f32 0x41000000#32 = _
  simp [Ideal.ofBits, Ideal.ieee]
  first | (rw [← EReal.coe_mul]; congr 1; norm_num) | (norm_cast; norm_num) | (push_cast; norm_num)
theorem ofBits_sixteen : (FloatOps.ofBits (F := Ideal) .f32 0x41800000#32 : EReal) = ((16 : ℝ) : EReal) := by
  show Ideal.ofBits .f32 0x41800000#32 = _
  simp [Ideal.ofBits, Ideal.ieee]
  first | (rw [← EReal.coe_mul]; congr 1; norm_num) | (norm_cast; norm_num) | (push_cast; norm_num)
theorem ofBits_thirtytwo : (FloatOps.ofBits (F := Ideal) .f32 0x42000000#32 : EReal) = ((32 : ℝ) : EReal) := by
  show Ideal.ofBits .f32 0x42000000#32 = _
  simp [Ideal.ofBits, Ideal.ieee]
  first | (rw [← EReal.coe_mul]; congr 1; norm_num) | (norm_cast; norm_num) | (push_cast; norm_num)

/-- The coordinate in cells of a real coordinate is the real quotient. -/
theorem q_coe (cb : BitVec 32) (c : ℝ) (hc : (FloatOps.ofBits (F := Ideal) .f32 cb : EReal) = (c : EReal)) (hc0 : c ≠ 0) (r : ℝ) :
    q cb (r : EReal) = ((r / c : ℝ) : EReal) := by
  unfold q
  show Ideal.div (r : EReal) (FloatOps.ofBits (F := Ideal) .f32 cb) = _
  rw [hc, Ideal.div_coe hc0, ← EReal.coe_mul, mul_one_div]

/-- The lesser of two signed words, read signed. -/
theorem toInt_minsi (x y : BitVec 32) : (IntOp.minsi x y).toInt = min x.toInt y.toInt := by
  unfold IntOp.minsi
  by_cases h : x.toInt < y.toInt
  · rw [if_pos (by simp [BitVec.slt, h]), min_eq_left h.le]
  · rw [if_neg (by simp [BitVec.slt, h]), min_eq_right (not_lt.mp h)]

/-- The coordinate rounded down lies inside the map. -/
theorem lo_range (cb : BitVec 32) (c : ℝ) (s : ℕ) (hc : (FloatOps.ofBits (F := Ideal) .f32 cb : EReal) = (c : EReal)) (hcpos : 0 < c)
    (hs : (223 : ℝ) / c ≤ (s : ℝ) - 1) (hbig : (223 : ℝ) / c < 2147483646) (r : ℝ) (h0 : 0 ≤ r) (h1 : r ≤ 223) :
    0 ≤ (lo cb (r : EReal)).toInt ∧ (lo cb (r : EReal)).toInt < s := by
  have hq0 : 0 ≤ r / c := div_nonneg h0 hcpos.le
  have hq1 : r / c ≤ 223 / c := div_le_div_of_nonneg_right h1 hcpos.le
  have e : (lo cb (r : EReal)).toInt = ⌊r / c⌋ := by
    unfold lo
    rw [q_coe cb c hc hcpos.ne' r]
    exact LibGridCoordinate.fptosi_floor (r / c) hq0 (by linarith)
  rw [e]
  have := LibGridCoordinate.floor_mem_range (r / c) s hq0 (le_trans hq1 hs)
  omega

/-- The coordinate rounded up and cut at the last cell lies inside the map. -/
theorem hi_range (cb smax : BitVec 32) (c : ℝ) (s : ℕ) (hc : (FloatOps.ofBits (F := Ideal) .f32 cb : EReal) = (c : EReal)) (hcpos : 0 < c)
    (hsmax : smax.toInt = (s : ℤ) - 1) (hs1 : 1 ≤ s) (hbig : (223 : ℝ) / c < 2147483646) (r : ℝ) (h0 : 0 ≤ r) (h1 : r ≤ 223) :
    0 ≤ (hi cb smax (r : EReal)).toInt ∧ (hi cb smax (r : EReal)).toInt < s := by
  have hq0 : 0 ≤ r / c := div_nonneg h0 hcpos.le
  have hq1 : r / c ≤ 223 / c := div_le_div_of_nonneg_right h1 hcpos.le
  have e : (hi cb smax (r : EReal)).toInt = min ⌈r / c⌉ ((s : ℤ) - 1) := by
    unfold hi
    rw [toInt_minsi, hsmax, q_coe cb c hc hcpos.ne' r]
    congr 1
    exact LibGridCoordinate.fptosi_ceil (r / c) hq0 (by linarith)
  rw [e]
  have := LibGridCoordinate.min_ceil_mem_range (r / c) s hq0 hs1
  omega

/-- A flat index of two coordinates inside the map has the unsigned value `row · s + column`. -/
theorem flat_toNat (a b sW : BitVec 32) (s : ℕ) (hsW : sW = BitVec.ofNat 32 s) (hs : s * s < 2147483648)
    (ha : 0 ≤ a.toInt ∧ a.toInt < s) (hb : 0 ≤ b.toInt ∧ b.toInt < s) :
    (IntOp.addi (IntOp.muli a sW) b).toNat = a.toInt.toNat * s + b.toInt.toNat := by
  subst hsW
  exact LibOneHotMask.flat_index_toNat a b s s hs ha.1 ha.2 hb.1 hb.2

end Cert.Proof.Chain

end
-- ==== Proof.KI.ColsA0.lean ====
import proofs.«120270_j2259152797813_2_alg».proof.Proof.KI.Run
import proofs.«120270_j2259152797813_2_alg».proof.Proof.PrefixChain
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Cert.Proof

variable (m : (ℓ : Loc nD τ sig) → Buf (Elt Ideal) ℓ) (ρ : Dev nD → PrngReg)

/-! # Map 0: the flat indices and weights after the long host stretch, as the chain functions of the two clipped
coordinates, vertex by vertex -/

set_option maxHeartbeats 4000000 in
/-- The vector `i11` of map 0: at every vertex the chain function of the vertex's two clipped coordinates. -/
theorem W5_main_v60 (c : Dev nD) : (W5 m ρ c (Proc.devRef .tc main_v60) : S8192.Idx → BitVec 32)
    = fun i => Chain.i11 0x40800000#32 56#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v60) = _
  generalize W4 m ρ c = V
  after_results_simp
  rfl

set_option maxHeartbeats 4000000 in
/-- The vector `i12` of map 0: at every vertex the chain function of the vertex's two clipped coordinates. -/
theorem W5_main_v63 (c : Dev nD) : (W5 m ρ c (Proc.devRef .tc main_v63) : S8192.Idx → BitVec 32)
    = fun i => Chain.i12 0x40800000#32 55#32 56#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v63) = _
  generalize W4 m ρ c = V
  after_results_simp
  rfl

set_option maxHeartbeats 4000000 in
/-- The vector `i21` of map 0: at every vertex the chain function of the vertex's two clipped coordinates. -/
theorem W5_main_v66 (c : Dev nD) : (W5 m ρ c (Proc.devRef .tc main_v66) : S8192.Idx → BitVec 32)
    = fun i => Chain.i21 0x40800000#32 55#32 56#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v66) = _
  generalize W4 m ρ c = V
  after_results_simp
  rfl

set_option maxHeartbeats 4000000 in
/-- The vector `i22` of map 0: at every vertex the chain function of the vertex's two clipped coordinates. -/
theorem W5_main_v69 (c : Dev nD) : (W5 m ρ c (Proc.devRef .tc main_v69) : S8192.Idx → BitVec 32)
    = fun i => Chain.i22 0x40800000#32 55#32 56#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v69) = _
  generalize W4 m ρ c = V
  after_results_simp
  rfl

set_option maxHeartbeats 4000000 in
/-- The vector `w11` of map 0: at every vertex the chain function of the vertex's two clipped coordinates. -/
theorem W5_main_v45 (c : Dev nD) : (W5 m ρ c (Proc.devRef .tc main_v45) : S8192.Idx → EReal)
    = fun i => Chain.w11 0x40800000#32 55#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v45) = _
  generalize W4 m ρ c = V
  after_results_simp
  rfl

set_option maxHeartbeats 4000000 in
/-- The vector `w12` of map 0: at every vertex the chain function of the vertex's two clipped coordinates. -/
theorem W5_main_v49 (c : Dev nD) : (W5 m ρ c (Proc.devRef .tc main_v49) : S8192.Idx → EReal)
    = fun i => Chain.w12 0x40800000#32 55#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v49) = _
  generalize W4 m ρ c = V
  after_results_simp
  rfl

set_option maxHeartbeats 4000000 in
/-- The vector `w21` of map 0: at every vertex the chain function of the vertex's two clipped coordinates. -/
theorem W5_main_v53 (c : Dev nD) : (W5 m ρ c (Proc.devRef .tc main_v53) : S8192.Idx → EReal)
    = fun i => Chain.w21 0x40800000#32 55#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v53) = _
  generalize W4 m ρ c = V
  after_results_simp
  rfl

set_option maxHeartbeats 4000000 in
/-- The vector `w22` of map 0: at every vertex the chain function of the vertex's two clipped coordinates. -/
theorem W5_main_v57 (c : Dev nD) : (W5 m ρ c (Proc.devRef .tc main_v57) : S8192.Idx → EReal)
    = fun i => Chain.w22 0x40800000#32 55#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v57) = _
  generalize W4 m ρ c = V
  after_results_simp
  rfl

end Cert.KernelIdeal.Hand

end
-- ==== Proof.LibColumnCast.lean ====
/-
  A vector of length `a` recast as a column `[a, 1]`: the column's entry `(i, 0)` is the vector's entry `i`.
-/
import Idealize.ShloMosaic.Lib.ValueIdx
import Idealize.ShloMosaic.Lib.Pipeline.Value

namespace Cert.LibColumnCast

open Idealize.ShloMosaic Idealize.ShloMosaic.ValueIdx

variable {α : Type}

/-- The column cast read at `(i, u)`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.LibColumnCast
-- ==== Proof.KI.ColsB0.lean ====
import proofs.«120270_j2259152797813_2_alg».proof.Proof.KI.ColsA0
import proofs.«120270_j2259152797813_2_alg».proof.Proof.LibColumnCast
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Cert.Proof

variable (m : (ℓ : Loc nD τ sig) → Buf (Elt Ideal) ℓ) (ρ : Dev nD → PrngReg)
open Cert.LibColumnCast

/-! # Map 0: the eight index and weight columns as region 0 finds them, vertex by vertex -/

set_option maxHeartbeats 2000000 in
/-- Column `i11` of map 0 at vertex `v`: the chain function of the vertex's two clipped coordinates. -/
theorem col0_i11 (c : Dev nD) (v : Fin 8192) :
    (W7 m ρ c (Proc.devRef .tc main_v215) : S8192x1.Idx → BitVec 32) (ix2 v 0)
      = Chain.i11 0x40800000#32 56#32 ((W4 m ρ c (Proc.devRef .tc main_v23) : S8192.Idx → EReal) (ix1 v)) ((W4 m ρ c (Proc.devRef .tc main_v14) : S8192.Idx → EReal) (ix1 v)) := by
  have e1 : (W7 m ρ c (Proc.devRef .tc main_v215) : S8192x1.Idx → BitVec 32)
      = shapeCast S8192x1 (W5 m ρ c (Proc.devRef .tc main_v60) : S8192.Idx → BitVec 32) shapeCasts_S8192_S8192x1 := by
    show StableHlo.after hostOps0_6 (StableHlo.after hostOps0_5 (W5 m ρ c)) (Proc.devRef .tc main_v215) = _
    generalize W5 m ρ c = V
    after_results_simp
    try rfl
  rw [e1, shapeCast_a_a1_apply, W5_main_v60]

set_option maxHeartbeats 2000000 in
/-- Column `i12` of map 0 at vertex `v`: the chain function of the vertex's two clipped coordinates. -/
theorem col0_i12 (c : Dev nD) (v : Fin 8192) :
    (W7 m ρ c (Proc.devRef .tc main_v216) : S8192x1.Idx → BitVec 32) (ix2 v 0)
      = Chain.i12 0x40800000#32 55#32 56#32 ((W4 m ρ c (Proc.devRef .tc main_v23) : S8192.Idx → EReal) (ix1 v)) ((W4 m ρ c (Proc.devRef .tc main_v14) : S8192.Idx → EReal) (ix1 v)) := by
  have e1 : (W7 m ρ c (Proc.devRef .tc main_v216) : S8192x1.Idx → BitVec 32)
      = shapeCast S8192x1 (W5 m ρ c (Proc.devRef .tc main_v63) : S8192.Idx → BitVec 32) shapeCasts_S8192_S8192x1 := by
    show StableHlo.after hostOps0_6 (StableHlo.after hostOps0_5 (W5 m ρ c)) (Proc.devRef .tc main_v216) = _
    generalize W5 m ρ c = V
    after_results_simp
    try rfl
  rw [e1, shapeCast_a_a1_apply, W5_main_v63]

set_option maxHeartbeats 2000000 in
/-- Column `i21` of map 0 at vertex `v`: the chain function of the vertex's two clipped coordinates. -/
theorem col0_i21 (c : Dev nD) (v : Fin 8192) :
    (W7 m ρ c (Proc.devRef .tc main_v217) : S8192x1.Idx → BitVec 32) (ix2 v 0)
      = Chain.i21 0x40800000#32 55#32 56#32 ((W4 m ρ c (Proc.devRef .tc main_v23) : S8192.Idx → EReal) (ix1 v)) ((W4 m ρ c (Proc.devRef .tc main_v14) : S8192.Idx → EReal) (ix1 v)) := by
  have e1 : (W7 m ρ c (Proc.devRef .tc main_v217) : S8192x1.Idx → BitVec 32)
      = shapeCast S8192x1 (W5 m ρ c (Proc.devRef .tc main_v66) : S8192.Idx → BitVec 32) shapeCasts_S8192_S8192x1 := by
    show StableHlo.after hostOps0_6 (StableHlo.after hostOps0_5 (W5 m ρ c)) (Proc.devRef .tc main_v217) = _
    generalize W5 m ρ c = V
    after_results_simp
    try rfl
  rw [e1, shapeCast_a_a1_apply, W5_main_v66]

set_option maxHeartbeats 2000000 in
/-- Column `i22` of map 0 at vertex `v`: the chain function of the vertex's two clipped coordinates. -/
theorem col0_i22 (c : Dev nD) (v : Fin 8192) :
    (W7 m ρ c (Proc.devRef .tc main_v218) : S8192x1.Idx → BitVec 32) (ix2 v 0)
      = Chain.i22 0x40800000#32 55#32 56#32 ((W4 m ρ c (Proc.devRef .tc main_v23) : S8192.Idx → EReal) (ix1 v)) ((W4 m ρ c (Proc.devRef .tc main_v14) : S8192.Idx → EReal) (ix1 v)) := by
  have e1 : (W7 m ρ c (Proc.devRef .tc main_v218) : S8192x1.Idx → BitVec 32)
      = shapeCast S8192x1 (W5 m ρ c (Proc.devRef .tc main_v69) : S8192.Idx → BitVec 32) shapeCasts_S8192_S8192x1 := by
    show StableHlo.after hostOps0_6 (StableHlo.after hostOps0_5 (W5 m ρ c)) (Proc.devRef .tc main_v218) = _
    generalize W5 m ρ c = V
    after_results_simp
    try rfl
  rw [e1, shapeCast_a_a1_apply, W5_main_v69]

set_option maxHeartbeats 2000000 in
/-- Column `w11` of map 0 at vertex `v`: the chain function of the vertex's two clipped coordinates. -/
theorem col0_w11 (c : Dev nD) (v : Fin 8192) :
    (W7 m ρ c (Proc.devRef .tc main_v219) : S8192x1.Idx → EReal) (ix2 v 0)
      = Chain.w11 0x40800000#32 55#32 ((W4 m ρ c (Proc.devRef .tc main_v23) : S8192.Idx → EReal) (ix1 v)) ((W4 m ρ c (Proc.devRef .tc main_v14) : S8192.Idx → EReal) (ix1 v)) := by
  have e1 : (W7 m ρ c (Proc.devRef .tc main_v219) : S8192x1.Idx → EReal)
      = shapeCast S8192x1 (W5 m ρ c (Proc.devRef .tc main_v45) : S8192.Idx → EReal) shapeCasts_S8192_S8192x1 := by
    show StableHlo.after hostOps0_6 (StableHlo.after hostOps0_5 (W5 m ρ c)) (Proc.devRef .tc main_v219) = _
    generalize W5 m ρ c = V
    after_results_simp
    try rfl
  rw [e1, shapeCast_a_a1_apply, W5_main_v45]

set_option maxHeartbeats 2000000 in
/-- Column `w12` of map 0 at vertex `v`: the chain function of the vertex's two clipped coordinates. -/
theorem col0_w12 (c : Dev nD) (v : Fin 8192) :
    (W7 m ρ c (Proc.devRef .tc main_v220) : S8192x1.Idx → EReal) (ix2 v 0)
      = Chain.w12 0x40800000#32 55#32 ((W4 m ρ c (Proc.devRef .tc main_v23) : S8192.Idx → EReal) (ix1 v)) ((W4 m ρ c (Proc.devRef .tc main_v14) : S8192.Idx → EReal) (ix1 v)) := by
  have e1 : (W7 m ρ c (Proc.devRef .tc main_v220) : S8192x1.Idx → EReal)
      = shapeCast S8192x1 (W5 m ρ c (Proc.devRef .tc main_v49) : S8192.Idx → EReal) shapeCasts_S8192_S8192x1 := by
    show StableHlo.after hostOps0_6 (StableHlo.after hostOps0_5 (W5 m ρ c)) (Proc.devRef .tc main_v220) = _
    generalize W5 m ρ c = V
    after_results_simp
    try rfl
  rw [e1, shapeCast_a_a1_apply, W5_main_v49]

set_option maxHeartbeats 2000000 in
/-- Column `w21` of map 0 at vertex `v`: the chain function of the vertex's two clipped coordinates. -/
theorem col0_w21 (c : Dev nD) (v : Fin 8192) :
    (W7 m ρ c (Proc.devRef .tc main_v221) : S8192x1.Idx → EReal) (ix2 v 0)
      = Chain.w21 0x40800000#32 55#32 ((W4 m ρ c (Proc.devRef .tc main_v23) : S8192.Idx → EReal) (ix1 v)) ((W4 m ρ c (Proc.devRef .tc main_v14) : S8192.Idx → EReal) (ix1 v)) := by
  have e1 : (W7 m ρ c (Proc.devRef .tc main_v221) : S8192x1.Idx → EReal)
      = shapeCast S8192x1 (W5 m ρ c (Proc.devRef .tc main_v53) : S8192.Idx → EReal) shapeCasts_S8192_S8192x1 := by
    show StableHlo.after hostOps0_6 (StableHlo.after hostOps0_5 (W5 m ρ c)) (Proc.devRef .tc main_v221) = _
    generalize W5 m ρ c = V
    after_results_simp
    try rfl
  rw [e1, shapeCast_a_a1_apply, W5_main_v53]

set_option maxHeartbeats 2000000 in
/-- Column `w22` of map 0 at vertex `v`: the chain function of the vertex's two clipped coordinates. -/
theorem col0_w22 (c : Dev nD) (v : Fin 8192) :
    (W7 m ρ c (Proc.devRef .tc main_v222) : S8192x1.Idx → EReal) (ix2 v 0)
      = Chain.w22 0x40800000#32 55#32 ((W4 m ρ c (Proc.devRef .tc main_v23) : S8192.Idx → EReal) (ix1 v)) ((W4 m ρ c (Proc.devRef .tc main_v14) : S8192.Idx → EReal) (ix1 v)) := by
  have e1 : (W7 m ρ c (Proc.devRef .tc main_v222) : S8192x1.Idx → EReal)
      = shapeCast S8192x1 (W5 m ρ c (Proc.devRef .tc main_v57) : S8192.Idx → EReal) shapeCasts_S8192_S8192x1 := by
    show StableHlo.after hostOps0_6 (StableHlo.after hostOps0_5 (W5 m ρ c)) (Proc.devRef .tc main_v222) = _
    generalize W5 m ρ c = V
    after_results_simp
    try rfl
  rw [e1, shapeCast_a_a1_apply, W5_main_v57]

end Cert.KernelIdeal.Hand

end
-- ==== Proof.KI.R0Sel.lean ====
import proofs.«120270_j2259152797813_2_alg».proof.Proof.Gen.KernelIdeal.Skeleton
import Idealize.ShloMosaic.Lib.ValueIdx
import Idealize.ShloMosaic.Lib.Pipeline.Value
import Idealize.ShloMosaic.PureOps.Ideal.Laws
import proofs.«120270_j2259152797813_2_alg».proof.Proof.LibOneHotMask

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! # Region 0: its payloads read at an entry, over the extended reals -/

/-- The block product at an entry: the sum over the 3200 contracted positions of the entries' products. -/
theorem mm0_apply (A : FVec Ideal S256x3200 .bf16) (B : FVec Ideal S3200x128 .bf16) (a : Fin 256) (b : Fin 128) :
    FloatOps.matmul dot_S256x3200_S3200x128_S256x128_1_0_0_1_n_n none A B (constant (F := Ideal) S256x128 .f32 0x00000000#32) (ix2 a b)
      = ∑ k : Fin 3200, A (ix2 a k) * B (ix2 k b) := by
  rw [Ideal.matmul_constant_zero_apply, ← Equiv.sum_comp (contrEquiv1 dot_S256x3200_S3200x128_S256x128_1_0_0_1_n_n 3200 rfl rfl).symm]
  refine Finset.sum_congr rfl fun k _ => ?_
  have c2 := contrEquiv1_symm_val dot_S256x3200_S3200x128_S256x128_1_0_0_1_n_n 3200 rfl rfl k
  have l2 : dot_S256x3200_S3200x128_S256x128_1_0_0_1_n_n.lhsIdx (ix2 a b) ((contrEquiv1 _ 3200 rfl rfl).symm k) = ix2 a k := by
    funext ax; apply Fin.ext
    match ax with
    | ⟨0, _⟩ => simp [DotDims.lhsIdx, dot_S256x3200_S3200x128_S256x128_1_0_0_1_n_n]; rfl
    | ⟨1, _⟩ => simp [DotDims.lhsIdx, dot_S256x3200_S3200x128_S256x128_1_0_0_1_n_n]; exact c2
  have r2 : dot_S256x3200_S3200x128_S256x128_1_0_0_1_n_n.rhsIdx (ix2 a b) ((contrEquiv1 _ 3200 rfl rfl).symm k) = ix2 k b := by
    funext ax; apply Fin.ext
    match ax with
    | ⟨0, _⟩ => simp [DotDims.rhsIdx, dot_S256x3200_S3200x128_S256x128_1_0_0_1_n_n]; exact c2
    | ⟨1, _⟩ => simp [DotDims.rhsIdx, dot_S256x3200_S3200x128_S256x128_1_0_0_1_n_n]; rfl
  rw [l2, r2]

/-- A column of 256 entries broadcast over 3200 positions: the entry at row `r`, position `t` is the column's entry
    at row `r`. -/
theorem bcast0_apply {α : Type} (v : S256x1.Idx → α) (r : Fin 256) (t : Fin 3200) :
    broadcastTo S256x3200 v broadcasts_S256x1_S256x3200 (ix2 r t) = v (ix2 r (0 : Fin 1)) := by
  refine broadcastTo_apply v broadcasts_S256x1_S256x3200 (ix2 r t) (ix2 r (0 : Fin 1)) fun ax => ?_
  match ax with
  | ⟨0, _⟩ => rfl
  | ⟨1, _⟩ => rfl

/-- One corner's term of the selection matrix at row `r`, position `t`: the corner's weight at that row where the
    position is the corner's index, zero elsewhere. -/
theorem term0_apply (x : Vec Ideal S256x1 .i32) (w : Vec Ideal S256x1 .f32) (r : Fin 256) (t : Fin 3200) :
    (mulf (sitofp .f32 (extui 32 (cmpi .eq (iota .tc S256x3200 32 [1] iota_S256x3200_d1_w32)
        (broadcastTo S256x3200 (shapeCast S256x1 x shapeCasts_S256x1_S256x1) broadcasts_S256x1_S256x3200)) natLt_1_32))
      (broadcastTo S256x3200 (shapeCast S256x1 w shapeCasts_S256x1_S256x1) broadcasts_S256x1_S256x3200) : FVec Ideal S256x3200 .f32) (ix2 r t)
      = (if BitVec.ofNat 32 t.val = x (ix2 r (0 : Fin 1)) then (1 : EReal) else 0) * w (ix2 r (0 : Fin 1)) := by
  rw [mulf_apply, sitofp_apply, extui_apply]
  show FloatOps.sitofp (F := Ideal) .f32 ((IntOp.cmpi .eq (iota .tc S256x3200 32 [1] iota_S256x3200_d1_w32 (ix2 r t))
      (broadcastTo S256x3200 (shapeCast S256x1 x shapeCasts_S256x1_S256x1) broadcasts_S256x1_S256x3200 (ix2 r t))).setWidth 32)
    * broadcastTo S256x3200 (shapeCast S256x1 w shapeCasts_S256x1_S256x1) broadcasts_S256x1_S256x3200 (ix2 r t) = _
  rw [iota_single_apply, bcast0_apply, bcast0_apply, shapeCast_self, shapeCast_self, Cert.LibOneHotMask.mask_eq']

/-- The first three corners' terms of the selection matrix at an entry. -/
theorem pay2_0_apply (x0 : Vec Ideal S256x1 .i32) (x4 : Vec Ideal S256x1 .f32) (x1 : Vec Ideal S256x1 .i32) (x5 : Vec Ideal S256x1 .f32)
    (x2 : Vec Ideal S256x1 .i32) (x6 : Vec Ideal S256x1 .f32) (r : Fin 256) (t : Fin 3200) :
    k0_pay2 (F := Ideal) x0 x4 x1 x5 x2 x6 (ix2 r t)
      = ((if BitVec.ofNat 32 t.val = x0 (ix2 r (0 : Fin 1)) then (1 : EReal) else 0) * x4 (ix2 r (0 : Fin 1))
          + (if BitVec.ofNat 32 t.val = x1 (ix2 r (0 : Fin 1)) then (1 : EReal) else 0) * x5 (ix2 r (0 : Fin 1)))
        + (if BitVec.ofNat 32 t.val = x2 (ix2 r (0 : Fin 1)) then (1 : EReal) else 0) * x6 (ix2 r (0 : Fin 1)) := by
  unfold k0_pay2
  dsimp only
  rw [addf_apply, addf_apply, term0_apply, term0_apply, term0_apply]

/-- The fourth corner's term of the selection matrix at an entry. -/
theorem pay3_0_apply (x3 : Vec Ideal S256x1 .i32) (x7 : Vec Ideal S256x1 .f32) (r : Fin 256) (t : Fin 3200) :
    k0_pay3 (F := Ideal) x3 x7 (ix2 r t)
      = (if BitVec.ofNat 32 t.val = x3 (ix2 r (0 : Fin 1)) then (1 : EReal) else 0) * x7 (ix2 r (0 : Fin 1)) := by
  unfold k0_pay3
  dsimp only
  rw [term0_apply]

/-- The stored block at an entry: row `r` of the selection matrix (the four corners' terms added in the body's
    order) times column `b` of the projected map. -/
theorem pay0_apply (x0 x1 x2 x3 : Vec Ideal S256x1 .i32) (x4 x5 x6 x7 : Vec Ideal S256x1 .f32) (x8 : Vec Ideal S3200x128 .bf16)
    (r : Fin 256) (b : Fin 128) :
    k0_pay1 (F := Ideal) (k0_pay2 x0 x4 x1 x5 x2 x6) (k0_pay3 x3 x7) x8 (ix2 r b)
      = ∑ t : Fin 3200, ((((if BitVec.ofNat 32 t.val = x0 (ix2 r (0 : Fin 1)) then (1 : EReal) else 0) * x4 (ix2 r (0 : Fin 1))
          + (if BitVec.ofNat 32 t.val = x1 (ix2 r (0 : Fin 1)) then (1 : EReal) else 0) * x5 (ix2 r (0 : Fin 1)))
        + (if BitVec.ofNat 32 t.val = x2 (ix2 r (0 : Fin 1)) then (1 : EReal) else 0) * x6 (ix2 r (0 : Fin 1)))
        + (if BitVec.ofNat 32 t.val = x3 (ix2 r (0 : Fin 1)) then (1 : EReal) else 0) * x7 (ix2 r (0 : Fin 1))) * x8 (ix2 t b) := by
  unfold k0_pay1
  simp only [shapeCast_self]
  refine (mm0_apply _ _ r b).trans ?_
  refine Finset.sum_congr rfl fun t _ => ?_
  rw [truncf_apply, addf_apply, pay2_0_apply, pay3_0_apply]

/-- The result, entry by entry: at vertex row `p`, column `q`, the sum over the 3200 map positions of the row's
    selection weight at the position (each corner's weight where the position is that corner's flat index, added in the
    body's order) times the projected map's entry at the position and column `q`. -/
def Sel0 (I0 I1 I2 I3 : S8192x1.Idx → BitVec 32) (A4 A5 A6 A7 : S8192x1.Idx → EReal) (P : S3200x128.Idx → EReal) : S8192x128.Idx → EReal :=
  fun i => ∑ t : Fin 3200, ((((if BitVec.ofNat 32 t.val = I0 (ix2 (i 0) 0) then (1 : EReal) else 0) * A4 (ix2 (i 0) 0) + (if BitVec.ofNat 32 t.val = I1 (ix2 (i 0) 0) then (1 : EReal) else 0) * A5 (ix2 (i 0) 0)) + (if BitVec.ofNat 32 t.val = I2 (ix2 (i 0) 0) then (1 : EReal) else 0) * A6 (ix2 (i 0) 0)) + (if BitVec.ofNat 32 t.val = I3 (ix2 (i 0) 0) then (1 : EReal) else 0) * A7 (ix2 (i 0) 0)) * P (ix2 t (i 1))

/-- ONE ENTRY of what a point writes back. When the nine blocks are the cuts of the arrays at vertex row `p` (the
    eight columns) and the whole projected map, the stored block's entry (r, b) is the entry (p, b) of `Sel0`. -/
theorem join0 (I0 I1 I2 I3 : S8192x1.Idx → BitVec 32) (A4 A5 A6 A7 : S8192x1.Idx → EReal) (P : S3200x128.Idx → EReal)
    (x0 x1 x2 x3 : Vec Ideal S256x1 .i32) (x4 x5 x6 x7 : Vec Ideal S256x1 .f32) (x8 : Vec Ideal S3200x128 .bf16)
    (r : Fin 256) (b : Fin 128) (p : Fin 8192)
    (h0 : x0 (ix2 r (0 : Fin 1)) = I0 (ix2 p 0)) (h1 : x1 (ix2 r (0 : Fin 1)) = I1 (ix2 p 0))
    (h2 : x2 (ix2 r (0 : Fin 1)) = I2 (ix2 p 0)) (h3 : x3 (ix2 r (0 : Fin 1)) = I3 (ix2 p 0))
    (h4 : x4 (ix2 r (0 : Fin 1)) = A4 (ix2 p 0)) (h5 : x5 (ix2 r (0 : Fin 1)) = A5 (ix2 p 0))
    (h6 : x6 (ix2 r (0 : Fin 1)) = A6 (ix2 p 0)) (h7 : x7 (ix2 r (0 : Fin 1)) = A7 (ix2 p 0))
    (h8 : ∀ t : Fin 3200, x8 (ix2 t b) = P (ix2 t b)) :
    k0_pay1 (F := Ideal) (k0_pay2 x0 x4 x1 x5 x2 x6) (k0_pay3 x3 x7) x8 (ix2 r b) = Sel0 I0 I1 I2 I3 A4 A5 A6 A7 P (ix2 p b) := by
  rw [pay0_apply, h0, h1, h2, h3, h4, h5, h6, h7]
  show _ = ∑ t : Fin 3200, _
  exact Finset.sum_congr rfl fun t _ => by rw [h8 t]

end Cert.KernelIdeal.Hand

end
-- ==== Proof.KI.R0SelFinal.lean ====
import proofs.«120270_j2259152797813_2_alg».proof.Proof.KI.R0
import proofs.«120270_j2259152797813_2_alg».proof.Proof.KI.R0Sel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.ValueIdx
open scoped BigOperators

variable (V : (c : Dev nD) → (b : Ref sig .tc) → Buf (Elt Ideal) ((c : Thread nD τ).loc b))

/-! # Region 0: its result array after the region, as one function of the nine input arrays -/

theorem hz0s : (![0, 0] : Fin 2 → Nat) = fun _ => 0 := funext fun a => by fin_cases a <;> rfl

/-- Window 0's block index at point `t`: row block `t`. Decided over the grid. -/
theorem idx0_0 : ∀ t : Fin cfg0.N, win0_0.index t (0 : Fin 2) = t.val ∧ win0_0.index t (1 : Fin 2) = 0 :=
  (by decide +kernel : ∀ t : Fin grid0.N, _)
/-- Window 1's block index at point `t`: row block `t`. Decided over the grid. -/
theorem idx0_1 : ∀ t : Fin cfg0.N, win0_1.index t (0 : Fin 2) = t.val ∧ win0_1.index t (1 : Fin 2) = 0 :=
  (by decide +kernel : ∀ t : Fin grid0.N, _)
/-- Window 2's block index at point `t`: row block `t`. Decided over the grid. -/
theorem idx0_2 : ∀ t : Fin cfg0.N, win0_2.index t (0 : Fin 2) = t.val ∧ win0_2.index t (1 : Fin 2) = 0 :=
  (by decide +kernel : ∀ t : Fin grid0.N, _)
/-- Window 3's block index at point `t`: row block `t`. Decided over the grid. -/
theorem idx0_3 : ∀ t : Fin cfg0.N, win0_3.index t (0 : Fin 2) = t.val ∧ win0_3.index t (1 : Fin 2) = 0 :=
  (by decide +kernel : ∀ t : Fin grid0.N, _)
/-- Window 4's block index at point `t`: row block `t`. Decided over the grid. -/
theorem idx0_4 : ∀ t : Fin cfg0.N, win0_4.index t (0 : Fin 2) = t.val ∧ win0_4.index t (1 : Fin 2) = 0 :=
  (by decide +kernel : ∀ t : Fin grid0.N, _)
/-- Window 5's block index at point `t`: row block `t`. Decided over the grid. -/
theorem idx0_5 : ∀ t : Fin cfg0.N, win0_5.index t (0 : Fin 2) = t.val ∧ win0_5.index t (1 : Fin 2) = 0 :=
  (by decide +kernel : ∀ t : Fin grid0.N, _)
/-- Window 6's block index at point `t`: row block `t`. Decided over the grid. -/
theorem idx0_6 : ∀ t : Fin cfg0.N, win0_6.index t (0 : Fin 2) = t.val ∧ win0_6.index t (1 : Fin 2) = 0 :=
  (by decide +kernel : ∀ t : Fin grid0.N, _)
/-- Window 7's block index at point `t`: row block `t`. Decided over the grid. -/
theorem idx0_7 : ∀ t : Fin cfg0.N, win0_7.index t (0 : Fin 2) = t.val ∧ win0_7.index t (1 : Fin 2) = 0 :=
  (by decide +kernel : ∀ t : Fin grid0.N, _)
/-- Window 8's block index at point `t`: the one block, at every point. Decided over the grid. -/
theorem idx0_8 : ∀ t : Fin cfg0.N, win0_8.index t (0 : Fin 2) = 0 ∧ win0_8.index t (1 : Fin 2) = 0 :=
  (by decide +kernel : ∀ t : Fin grid0.N, _)
/-- Window 9's block index at point `t`: row block `t`. Decided over the grid. -/
theorem idx0_9 : ∀ t : Fin cfg0.N, win0_9.index t (0 : Fin 2) = t.val ∧ win0_9.index t (1 : Fin 2) = 0 :=
  (by decide +kernel : ∀ t : Fin grid0.N, _)

/-- An entry of window 0's block is the entry of its column at vertex row `256·t + r`. -/
theorem iblk0_0_apply (c : Dev nD) (t : Fin cfg0.N) (r : Fin 256) (p : Fin 8192) (hp : p.val = 256 * t.val + r.val) :
    (iblk0 V c 0 t : Vec Ideal S256x1 .i32) (ix2 r (0 : Fin 1)) = (V c (Pipeline.arrRef spec0 0) : S8192x1.Idx → BitVec 32) (ix2 p (0 : Fin 1)) := by
  obtain ⟨e0, e1⟩ := idx0_0 t
  show V c (Pipeline.arrRef spec0 0) (((cfg0.win 0).blk t).view.emb (ix2 r (0 : Fin 1))) = _
  congr 1
  funext a; apply Fin.ext
  match a with
  | ⟨0, _⟩ => show win0_0.index t (0 : Fin 2) * 256 + 1 * r.val = p.val; rw [e0, hp]; omega
  | ⟨1, _⟩ => show win0_0.index t (1 : Fin 2) * 1 + 1 * 0 = 0; rw [e1]

/-- An entry of window 1's block is the entry of its column at vertex row `256·t + r`. -/
theorem iblk0_1_apply (c : Dev nD) (t : Fin cfg0.N) (r : Fin 256) (p : Fin 8192) (hp : p.val = 256 * t.val + r.val) :
    (iblk0 V c 1 t : Vec Ideal S256x1 .i32) (ix2 r (0 : Fin 1)) = (V c (Pipeline.arrRef spec0 1) : S8192x1.Idx → BitVec 32) (ix2 p (0 : Fin 1)) := by
  obtain ⟨e0, e1⟩ := idx0_1 t
  show V c (Pipeline.arrRef spec0 1) (((cfg0.win 1).blk t).view.emb (ix2 r (0 : Fin 1))) = _
  congr 1
  funext a; apply Fin.ext
  match a with
  | ⟨0, _⟩ => show win0_1.index t (0 : Fin 2) * 256 + 1 * r.val = p.val; rw [e0, hp]; omega
  | ⟨1, _⟩ => show win0_1.index t (1 : Fin 2) * 1 + 1 * 0 = 0; rw [e1]

/-- An entry of window 2's block is the entry of its column at vertex row `256·t + r`. -/
theorem iblk0_2_apply (c : Dev nD) (t : Fin cfg0.N) (r : Fin 256) (p : Fin 8192) (hp : p.val = 256 * t.val + r.val) :
    (iblk0 V c 2 t : Vec Ideal S256x1 .i32) (ix2 r (0 : Fin 1)) = (V c (Pipeline.arrRef spec0 2) : S8192x1.Idx → BitVec 32) (ix2 p (0 : Fin 1)) := by
  obtain ⟨e0, e1⟩ := idx0_2 t
  show V c (Pipeline.arrRef spec0 2) (((cfg0.win 2).blk t).view.emb (ix2 r (0 : Fin 1))) = _
  congr 1
  funext a; apply Fin.ext
  match a with
  | ⟨0, _⟩ => show win0_2.index t (0 : Fin 2) * 256 + 1 * r.val = p.val; rw [e0, hp]; omega
  | ⟨1, _⟩ => show win0_2.index t (1 : Fin 2) * 1 + 1 * 0 = 0; rw [e1]

/-- An entry of window 3's block is the entry of its column at vertex row `256·t + r`. -/
theorem iblk0_3_apply (c : Dev nD) (t : Fin cfg0.N) (r : Fin 256) (p : Fin 8192) (hp : p.val = 256 * t.val + r.val) :
    (iblk0 V c 3 t : Vec Ideal S256x1 .i32) (ix2 r (0 : Fin 1)) = (V c (Pipeline.arrRef spec0 3) : S8192x1.Idx → BitVec 32) (ix2 p (0 : Fin 1)) := by
  obtain ⟨e0, e1⟩ := idx0_3 t
  show V c (Pipeline.arrRef spec0 3) (((cfg0.win 3).blk t).view.emb (ix2 r (0 : Fin 1))) = _
  congr 1
  funext a; apply Fin.ext
  match a with
  | ⟨0, _⟩ => show win0_3.index t (0 : Fin 2) * 256 + 1 * r.val = p.val; rw [e0, hp]; omega
  | ⟨1, _⟩ => show win0_3.index t (1 : Fin 2) * 1 + 1 * 0 = 0; rw [e1]

/-- An entry of window 4's block is the entry of its column at vertex row `256·t + r`. -/
theorem iblk0_4_apply (c : Dev nD) (t : Fin cfg0.N) (r : Fin 256) (p : Fin 8192) (hp : p.val = 256 * t.val + r.val) :
    (iblk0 V c 4 t : Vec Ideal S256x1 .f32) (ix2 r (0 : Fin 1)) = (V c (Pipeline.arrRef spec0 4) : S8192x1.Idx → EReal) (ix2 p (0 : Fin 1)) := by
  obtain ⟨e0, e1⟩ := idx0_4 t
  show V c (Pipeline.arrRef spec0 4) (((cfg0.win 4).blk t).view.emb (ix2 r (0 : Fin 1))) = _
  congr 1
  funext a; apply Fin.ext
  match a with
  | ⟨0, _⟩ => show win0_4.index t (0 : Fin 2) * 256 + 1 * r.val = p.val; rw [e0, hp]; omega
  | ⟨1, _⟩ => show win0_4.index t (1 : Fin 2) * 1 + 1 * 0 = 0; rw [e1]

/-- An entry of window 5's block is the entry of its column at vertex row `256·t + r`. -/
theorem iblk0_5_apply (c : Dev nD) (t : Fin cfg0.N) (r : Fin 256) (p : Fin 8192) (hp : p.val = 256 * t.val + r.val) :
    (iblk0 V c 5 t : Vec Ideal S256x1 .f32) (ix2 r (0 : Fin 1)) = (V c (Pipeline.arrRef spec0 5) : S8192x1.Idx → EReal) (ix2 p (0 : Fin 1)) := by
  obtain ⟨e0, e1⟩ := idx0_5 t
  show V c (Pipeline.arrRef spec0 5) (((cfg0.win 5).blk t).view.emb (ix2 r (0 : Fin 1))) = _
  congr 1
  funext a; apply Fin.ext
  match a with
  | ⟨0, _⟩ => show win0_5.index t (0 : Fin 2) * 256 + 1 * r.val = p.val; rw [e0, hp]; omega
  | ⟨1, _⟩ => show win0_5.index t (1 : Fin 2) * 1 + 1 * 0 = 0; rw [e1]

/-- An entry of window 6's block is the entry of its column at vertex row `256·t + r`. -/
theorem iblk0_6_apply (c : Dev nD) (t : Fin cfg0.N) (r : Fin 256) (p : Fin 8192) (hp : p.val = 256 * t.val + r.val) :
    (iblk0 V c 6 t : Vec Ideal S256x1 .f32) (ix2 r (0 : Fin 1)) = (V c (Pipeline.arrRef spec0 6) : S8192x1.Idx → EReal) (ix2 p (0 : Fin 1)) := by
  obtain ⟨e0, e1⟩ := idx0_6 t
  show V c (Pipeline.arrRef spec0 6) (((cfg0.win 6).blk t).view.emb (ix2 r (0 : Fin 1))) = _
  congr 1
  funext a; apply Fin.ext
  match a with
  | ⟨0, _⟩ => show win0_6.index t (0 : Fin 2) * 256 + 1 * r.val = p.val; rw [e0, hp]; omega
  | ⟨1, _⟩ => show win0_6.index t (1 : Fin 2) * 1 + 1 * 0 = 0; rw [e1]

/-- An entry of window 7's block is the entry of its column at vertex row `256·t + r`. -/
theorem iblk0_7_apply (c : Dev nD) (t : Fin cfg0.N) (r : Fin 256) (p : Fin 8192) (hp : p.val = 256 * t.val + r.val) :
    (iblk0 V c 7 t : Vec Ideal S256x1 .f32) (ix2 r (0 : Fin 1)) = (V c (Pipeline.arrRef spec0 7) : S8192x1.Idx → EReal) (ix2 p (0 : Fin 1)) := by
  obtain ⟨e0, e1⟩ := idx0_7 t
  show V c (Pipeline.arrRef spec0 7) (((cfg0.win 7).blk t).view.emb (ix2 r (0 : Fin 1))) = _
  congr 1
  funext a; apply Fin.ext
  match a with
  | ⟨0, _⟩ => show win0_7.index t (0 : Fin 2) * 256 + 1 * r.val = p.val; rw [e0, hp]; omega
  | ⟨1, _⟩ => show win0_7.index t (1 : Fin 2) * 1 + 1 * 0 = 0; rw [e1]

/-- Window 8's block is its whole array, at every point. -/
theorem iblk0_8_apply (c : Dev nD) (t : Fin cfg0.N) (k : Fin 3200) (b : Fin 128) :
    (iblk0 V c 8 t : Vec Ideal S3200x128 .bf16) (ix2 k b) = (V c (Pipeline.arrRef spec0 8) : S3200x128.Idx → EReal) (ix2 k b) := by
  obtain ⟨e0, e1⟩ := idx0_8 t
  show V c (Pipeline.arrRef spec0 8) (((cfg0.win 8).blk t).view.emb (ix2 k b)) = _
  congr 1
  funext a; apply Fin.ext
  match a with
  | ⟨0, _⟩ => show win0_8.index t (0 : Fin 2) * 3200 + 1 * k.val = k.val; rw [e0]; omega
  | ⟨1, _⟩ => show win0_8.index t (1 : Fin 2) * 128 + 1 * b.val = b.val; rw [e1]; omega

/-- The vertex row of the array that row `r` of point `t`'s block is. -/
theorem row_lt0s (t : Fin cfg0.N) (r : Fin 256) : 256 * t.val + r.val < 8192 := by
  have hN : t.val < 32 := lt_of_lt_of_eq t.isLt (show cfg0.N = 32 from N_0)
  have hr := r.isLt; omega

set_option maxHeartbeats 1000000 in
/-- WHAT A POINT WRITES BACK is its block of `Sel0` of the nine arrays as the region finds them. -/
theorem flushed0_eq (c : Dev nD) (t : Fin cfg0.N) (hf : (cfg0.win 9).flush t = true) :
    (dat0 V c).flushed 9 t
      = ((cfg0.win 9).blk t).view.read (Elt Ideal)
          (Sel0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8))) := by
  obtain ⟨e0, e1⟩ := idx0_9 t
  show (cfg0.win 9).cut (grid0.coords t) ((dat0 V c).after 9 t) = _
  rw [after0_9]
  unfold out0_9
  rw [View.canon_unit_zero (S := S256x128) hz0s]
  simp only [View.ld_unit_zero (S := S256x1) hz0s, View.ld_unit_zero (S := S3200x128) hz0s]
  funext j
  obtain ⟨r, b, rfl⟩ : ∃ (r : Fin 256) (b : Fin 128), j = ix2 r b := ⟨j 0, j 1, eq_ix2 j⟩
  have hemb : ((cfg0.win 9).blk t).view.emb (ix2 r b) = ix2 (⟨256 * t.val + r.val, row_lt0s t r⟩ : Fin 8192) b := by
    funext a; apply Fin.ext
    match a with
    | ⟨0, _⟩ => show win0_9.index t (0 : Fin 2) * 256 + 1 * r.val = 256 * t.val + r.val; rw [e0]; omega
    | ⟨1, _⟩ => show win0_9.index t (1 : Fin 2) * 128 + 1 * b.val = b.val; rw [e1]; omega
  show k0_pay1 (F := Ideal) (k0_pay2 (iblk0 V c 0 t) (iblk0 V c 4 t) (iblk0 V c 1 t) (iblk0 V c 5 t) (iblk0 V c 2 t) (iblk0 V c 6 t))
      (k0_pay3 (iblk0 V c 3 t) (iblk0 V c 7 t)) (iblk0 V c 8 t) (ix2 r b)
    = Sel0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (((cfg0.win 9).blk t).view.emb (ix2 r b))
  rw [hemb]
  exact join0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8))
    (iblk0 V c 0 t) (iblk0 V c 1 t) (iblk0 V c 2 t) (iblk0 V c 3 t) (iblk0 V c 4 t) (iblk0 V c 5 t) (iblk0 V c 6 t) (iblk0 V c 7 t) (iblk0 V c 8 t) r b
    ⟨256 * t.val + r.val, row_lt0s t r⟩
    (iblk0_0_apply V c t r _ rfl) (iblk0_1_apply V c t r _ rfl) (iblk0_2_apply V c t r _ rfl) (iblk0_3_apply V c t r _ rfl)
    (iblk0_4_apply V c t r _ rfl) (iblk0_5_apply V c t r _ rfl) (iblk0_6_apply V c t r _ rfl) (iblk0_7_apply V c t r _ rfl)
    (fun k => iblk0_8_apply V c t k b)

/-- An index of the result array is in point `t`'s block iff each coordinate is in the block's range on its axis. -/
theorem mem_blk0 (t : Fin cfg0.N) (i : S8192x128.Idx) :
    i ∈ ((cfg0.win 9).blk t).view.set ↔ ∀ a : Fin 2, win0_9.index t a * S256x128.size a ≤ (i a).val ∧ (i a).val < win0_9.index t a * S256x128.size a + S256x128.size a := by
  show i ∈ ((View.whole (Pipeline.arrRef spec0 9)).slice (win0_9.rect t)).set ↔ _
  rw [View.set_slice_whole, Rect.mem_set_unit]
  exact Iff.rfl

/-- Every entry of the result array is in the block some point writes back: vertex row `p` at point `p / 256`. -/
theorem cover0s (i : S8192x128.Idx) : ∃ t : Fin cfg0.N, (cfg0.win 9).flush t = true ∧ i ∈ ((cfg0.win 9).blk t).view.set := by
  have hi0 : (i 0).val < 8192 := idx2_lt0 i
  have hi1 : (i 1).val < 128 := idx2_lt1 i
  have hlt : (i 0).val / 256 < cfg0.N := by rw [show cfg0.N = 32 from N_0]; omega
  refine ⟨⟨(i 0).val / 256, hlt⟩, flush0_9 _, ?_⟩
  obtain ⟨e0, e1⟩ := idx0_9 ⟨(i 0).val / 256, hlt⟩
  have e0' : win0_9.index ⟨(i 0).val / 256, hlt⟩ (0 : Fin 2) = (i 0).val / 256 := e0
  rw [mem_blk0]
  intro a
  match a with
  | ⟨0, _⟩ => show win0_9.index _ (0 : Fin 2) * 256 ≤ (i 0).val ∧ (i 0).val < win0_9.index _ (0 : Fin 2) * 256 + 256; rw [e0']; omega
  | ⟨1, _⟩ => show win0_9.index _ (1 : Fin 2) * 128 ≤ (i 1).val ∧ (i 1).val < win0_9.index _ (1 : Fin 2) * 128 + 128; rw [e1]; omega

/-- THE RESULT ARRAY after the region: `Sel0` of the nine input arrays as the region finds them. -/
theorem final9_0 (c : Dev nD) :
    (dat0 V c).arrAt 9 cfg0.N = Sel0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) :=
  (dat0 V c).arrAt_eq_of_cover 9 _ (fun t hf => flushed0_eq V c t hf) cover0s

end Cert.KernelIdeal.Hand

end
-- ==== Proof.PrefixFp.lean ====
import proofs.«120270_j2259152797813_2_alg».proof.Proof.KI.Run
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-! # The four projected feature maps of the kernel program, entry by entry

Each of the four feature maps (C channels on an s × s grid) is flattened to s·s rows of C channels, multiplied by its C
rows of the projection weights (rows off … off + C of the 3840 × 128 weight array), padded below with zero rows to the
next block boundary and changed to the narrower float format — the identity on extended reals. So row `X·s + Y` of the
result, at column `j`, is the sum over the channels of the map's entry at (channel, X, Y) times the weight's entry at
(off + channel, j). The maps' reshapes are made in the first stretch of host operations and carried, unwritten, to the
stretch that uses them. -/

/-- The reshaped feature maps: written once, in the first stretch. -/
abbrev vR : Fin 4 → Ref sig .tc := ![main_v1, main_v2, main_v3, main_v4]

set_option maxHeartbeats 4000000 in
/-- No operation of this stretch writes a reshaped feature map. -/
theorem hostOps0_1_vs (W : Valuation τ sig (Elt Ideal)) (i : Fin 4) :
    StableHlo.after (hostOps0_1 (F := Ideal)) W (Proc.devRef .tc (vR i)) = W (Proc.devRef .tc (vR i)) :=
  StableHlo.after_of_forall_not_mem (b := Proc.devRef .tc (vR i)) _ _ (List.forall_iff_forall_mem.mp (by
    simp only [hostOps0_1, List.Forall, StableHlo.nullary_writes, StableHlo.unary_writes, StableHlo.binary_writes, StableHlo.ternary_writes, StableHlo.quaternary_writes, StableHlo.nary_writes, StableHlo.reshape_writes, StableHlo.binaryIndexed_writes, StableHlo.unaryIndexed_writes, Finset.mem_singleton]
    repeat' apply And.intro
    all_goals exact StableHlo.devRef_ne_of_ne (by revert i; decide)))
set_option maxHeartbeats 4000000 in
/-- No operation of this stretch writes a reshaped feature map. -/
theorem hostOps0_2_vs (W : Valuation τ sig (Elt Ideal)) (i : Fin 4) :
    StableHlo.after (hostOps0_2 (F := Ideal)) W (Proc.devRef .tc (vR i)) = W (Proc.devRef .tc (vR i)) :=
  StableHlo.after_of_forall_not_mem (b := Proc.devRef .tc (vR i)) _ _ (List.forall_iff_forall_mem.mp (by
    simp only [hostOps0_2, List.Forall, StableHlo.nullary_writes, StableHlo.unary_writes, StableHlo.binary_writes, StableHlo.ternary_writes, StableHlo.quaternary_writes, StableHlo.nary_writes, StableHlo.reshape_writes, StableHlo.binaryIndexed_writes, StableHlo.unaryIndexed_writes, Finset.mem_singleton]
    repeat' apply And.intro
    all_goals exact StableHlo.devRef_ne_of_ne (by revert i; decide)))
set_option maxHeartbeats 4000000 in
/-- No operation of this stretch writes a reshaped feature map. -/
theorem hostOps0_3_vs (W : Valuation τ sig (Elt Ideal)) (i : Fin 4) :
    StableHlo.after (hostOps0_3 (F := Ideal)) W (Proc.devRef .tc (vR i)) = W (Proc.devRef .tc (vR i)) :=
  StableHlo.after_of_forall_not_mem (b := Proc.devRef .tc (vR i)) _ _ (List.forall_iff_forall_mem.mp (by
    simp only [hostOps0_3, List.Forall, StableHlo.nullary_writes, StableHlo.unary_writes, StableHlo.binary_writes, StableHlo.ternary_writes, StableHlo.quaternary_writes, StableHlo.nary_writes, StableHlo.reshape_writes, StableHlo.binaryIndexed_writes, StableHlo.unaryIndexed_writes, Finset.mem_singleton]
    repeat' apply And.intro
    all_goals exact StableHlo.devRef_ne_of_ne (by revert i; decide)))
set_option maxHeartbeats 4000000 in
/-- No operation of this stretch writes a reshaped feature map. -/
theorem hostOps0_4_vs (W : Valuation τ sig (Elt Ideal)) (i : Fin 4) :
    StableHlo.after (hostOps0_4 (F := Ideal)) W (Proc.devRef .tc (vR i)) = W (Proc.devRef .tc (vR i)) :=
  StableHlo.after_of_forall_not_mem (b := Proc.devRef .tc (vR i)) _ _ (List.forall_iff_forall_mem.mp (by
    simp only [hostOps0_4, List.Forall, StableHlo.nullary_writes, StableHlo.unary_writes, StableHlo.binary_writes, StableHlo.ternary_writes, StableHlo.quaternary_writes, StableHlo.nary_writes, StableHlo.reshape_writes, StableHlo.binaryIndexed_writes, StableHlo.unaryIndexed_writes, Finset.mem_singleton]
    repeat' apply And.intro
    all_goals exact StableHlo.devRef_ne_of_ne (by revert i; decide)))
set_option maxHeartbeats 4000000 in
/-- No operation of this stretch writes a reshaped feature map. -/
theorem hostOps0_5_vs (W : Valuation τ sig (Elt Ideal)) (i : Fin 4) :
    StableHlo.after (hostOps0_5 (F := Ideal)) W (Proc.devRef .tc (vR i)) = W (Proc.devRef .tc (vR i)) :=
  StableHlo.after_of_forall_not_mem (b := Proc.devRef .tc (vR i)) _ _ (List.forall_iff_forall_mem.mp (by
    simp only [hostOps0_5, List.Forall, StableHlo.nullary_writes, StableHlo.unary_writes, StableHlo.binary_writes, StableHlo.ternary_writes, StableHlo.quaternary_writes, StableHlo.nary_writes, StableHlo.reshape_writes, StableHlo.binaryIndexed_writes, StableHlo.unaryIndexed_writes, Finset.mem_singleton]
    repeat' apply And.intro
    all_goals exact StableHlo.devRef_ne_of_ne (by revert i; decide)))
set_option maxHeartbeats 4000000 in
/-- No operation of this stretch writes a reshaped feature map. -/
theorem hostOps0_6_vs (W : Valuation τ sig (Elt Ideal)) (i : Fin 4) :
    StableHlo.after (hostOps0_6 (F := Ideal)) W (Proc.devRef .tc (vR i)) = W (Proc.devRef .tc (vR i)) :=
  StableHlo.after_of_forall_not_mem (b := Proc.devRef .tc (vR i)) _ _ (List.forall_iff_forall_mem.mp (by
    simp only [hostOps0_6, List.Forall, StableHlo.nullary_writes, StableHlo.unary_writes, StableHlo.binary_writes, StableHlo.ternary_writes, StableHlo.quaternary_writes, StableHlo.nary_writes, StableHlo.reshape_writes, StableHlo.binaryIndexed_writes, StableHlo.unaryIndexed_writes, Finset.mem_singleton]
    repeat' apply And.intro
    all_goals exact StableHlo.devRef_ne_of_ne (by revert i; decide)))
set_option maxHeartbeats 4000000 in
/-- No operation of this stretch writes a reshaped feature map. -/
theorem hostOps1_vs (W : Valuation τ sig (Elt Ideal)) (i : Fin 4) :
    StableHlo.after (hostOps1 (F := Ideal)) W (Proc.devRef .tc (vR i)) = W (Proc.devRef .tc (vR i)) :=
  StableHlo.after_of_forall_not_mem (b := Proc.devRef .tc (vR i)) _ _ (List.forall_iff_forall_mem.mp (by
    simp only [hostOps1, List.Forall, StableHlo.nullary_writes, StableHlo.unary_writes, StableHlo.binary_writes, StableHlo.ternary_writes, StableHlo.quaternary_writes, StableHlo.nary_writes, StableHlo.reshape_writes, StableHlo.binaryIndexed_writes, StableHlo.unaryIndexed_writes, Finset.mem_singleton]
    repeat' apply And.intro
    all_goals exact StableHlo.devRef_ne_of_ne (by revert i; decide)))
set_option maxHeartbeats 4000000 in
/-- No operation of this stretch writes a reshaped feature map. -/
theorem hostOps1_1_vs (W : Valuation τ sig (Elt Ideal)) (i : Fin 4) :
    StableHlo.after (hostOps1_1 (F := Ideal)) W (Proc.devRef .tc (vR i)) = W (Proc.devRef .tc (vR i)) :=
  StableHlo.after_of_forall_not_mem (b := Proc.devRef .tc (vR i)) _ _ (List.forall_iff_forall_mem.mp (by
    simp only [hostOps1_1, List.Forall, StableHlo.nullary_writes, StableHlo.unary_writes, StableHlo.binary_writes, StableHlo.ternary_writes, StableHlo.quaternary_writes, StableHlo.nary_writes, StableHlo.reshape_writes, StableHlo.binaryIndexed_writes, StableHlo.unaryIndexed_writes, Finset.mem_singleton]
    repeat' apply And.intro
    all_goals exact StableHlo.devRef_ne_of_ne (by revert i; decide)))
set_option maxHeartbeats 4000000 in
/-- No operation of this stretch writes a reshaped feature map. -/
theorem hostOps1_2_vs (W : Valuation τ sig (Elt Ideal)) (i : Fin 4) :
    StableHlo.after (hostOps1_2 (F := Ideal)) W (Proc.devRef .tc (vR i)) = W (Proc.devRef .tc (vR i)) :=
  StableHlo.after_of_forall_not_mem (b := Proc.devRef .tc (vR i)) _ _ (List.forall_iff_forall_mem.mp (by
    simp only [hostOps1_2, List.Forall, StableHlo.nullary_writes, StableHlo.unary_writes, StableHlo.binary_writes, StableHlo.ternary_writes, StableHlo.quaternary_writes, StableHlo.nary_writes, StableHlo.reshape_writes, StableHlo.binaryIndexed_writes, StableHlo.unaryIndexed_writes, Finset.mem_singleton]
    repeat' apply And.intro
    all_goals exact StableHlo.devRef_ne_of_ne (by revert i; decide)))
set_option maxHeartbeats 4000000 in
/-- No operation of this stretch writes a reshaped feature map. -/
theorem hostOps2_vs (W : Valuation τ sig (Elt Ideal)) (i : Fin 4) :
    StableHlo.after (hostOps2 (F := Ideal)) W (Proc.devRef .tc (vR i)) = W (Proc.devRef .tc (vR i)) :=
  StableHlo.after_of_forall_not_mem (b := Proc.devRef .tc (vR i)) _ _ (List.forall_iff_forall_mem.mp (by
    simp only [hostOps2, List.Forall, StableHlo.nullary_writes, StableHlo.unary_writes, StableHlo.binary_writes, StableHlo.ternary_writes, StableHlo.quaternary_writes, StableHlo.nary_writes, StableHlo.reshape_writes, StableHlo.binaryIndexed_writes, StableHlo.unaryIndexed_writes, Finset.mem_singleton]
    repeat' apply And.intro
    all_goals exact StableHlo.devRef_ne_of_ne (by revert i; decide)))
set_option maxHeartbeats 4000000 in
/-- No operation of this stretch writes a reshaped feature map. -/
theorem hostOps2_1_vs (W : Valuation τ sig (Elt Ideal)) (i : Fin 4) :
    StableHlo.after (hostOps2_1 (F := Ideal)) W (Proc.devRef .tc (vR i)) = W (Proc.devRef .tc (vR i)) :=
  StableHlo.after_of_forall_not_mem (b := Proc.devRef .tc (vR i)) _ _ (List.forall_iff_forall_mem.mp (by
    simp only [hostOps2_1, List.Forall, StableHlo.nullary_writes, StableHlo.unary_writes, StableHlo.binary_writes, StableHlo.ternary_writes, StableHlo.quaternary_writes, StableHlo.nary_writes, StableHlo.reshape_writes, StableHlo.binaryIndexed_writes, StableHlo.unaryIndexed_writes, Finset.mem_singleton]
    repeat' apply And.intro
    all_goals exact StableHlo.devRef_ne_of_ne (by revert i; decide)))
set_option maxHeartbeats 4000000 in
/-- No operation of this stretch writes a reshaped feature map. -/
theorem hostOps2_2_vs (W : Valuation τ sig (Elt Ideal)) (i : Fin 4) :
    StableHlo.after (hostOps2_2 (F := Ideal)) W (Proc.devRef .tc (vR i)) = W (Proc.devRef .tc (vR i)) :=
  StableHlo.after_of_forall_not_mem (b := Proc.devRef .tc (vR i)) _ _ (List.forall_iff_forall_mem.mp (by
    simp only [hostOps2_2, List.Forall, StableHlo.nullary_writes, StableHlo.unary_writes, StableHlo.binary_writes, StableHlo.ternary_writes, StableHlo.quaternary_writes, StableHlo.nary_writes, StableHlo.reshape_writes, StableHlo.binaryIndexed_writes, StableHlo.unaryIndexed_writes, Finset.mem_singleton]
    repeat' apply And.intro
    all_goals exact StableHlo.devRef_ne_of_ne (by revert i; decide)))

/-- A reshaped feature map is carried from one boundary to the next. -/
theorem W2_vs (i : Fin 4) : W2 (F := Ideal) m ρ c (Proc.devRef .tc (vR i)) = W1 (F := Ideal) m ρ c (Proc.devRef .tc (vR i)) := hostOps0_1_vs (W1 (F := Ideal) m ρ c) i
theorem W3_vs (i : Fin 4) : W3 (F := Ideal) m ρ c (Proc.devRef .tc (vR i)) = W2 (F := Ideal) m ρ c (Proc.devRef .tc (vR i)) := hostOps0_2_vs (W2 (F := Ideal) m ρ c) i
theorem W4_vs (i : Fin 4) : W4 (F := Ideal) m ρ c (Proc.devRef .tc (vR i)) = W3 (F := Ideal) m ρ c (Proc.devRef .tc (vR i)) := hostOps0_3_vs (W3 (F := Ideal) m ρ c) i
theorem W5_vs (i : Fin 4) : W5 (F := Ideal) m ρ c (Proc.devRef .tc (vR i)) = W4 (F := Ideal) m ρ c (Proc.devRef .tc (vR i)) := hostOps0_4_vs (W4 (F := Ideal) m ρ c) i
theorem W6_vs (i : Fin 4) : W6 (F := Ideal) m ρ c (Proc.devRef .tc (vR i)) = W5 (F := Ideal) m ρ c (Proc.devRef .tc (vR i)) := hostOps0_5_vs (W5 (F := Ideal) m ρ c) i
theorem W7_vs (i : Fin 4) : W7 (F := Ideal) m ρ c (Proc.devRef .tc (vR i)) = W6 (F := Ideal) m ρ c (Proc.devRef .tc (vR i)) := hostOps0_6_vs (W6 (F := Ideal) m ρ c) i
theorem W8_vs (i : Fin 4) : W8 (F := Ideal) m ρ c (Proc.devRef .tc (vR i)) = W7 (F := Ideal) m ρ c (Proc.devRef .tc (vR i)) := W8_of_ne (F := Ideal) m ρ c (vR i) (by revert i; decide)
theorem W9_vs (i : Fin 4) : W9 (F := Ideal) m ρ c (Proc.devRef .tc (vR i)) = W8 (F := Ideal) m ρ c (Proc.devRef .tc (vR i)) := hostOps1_vs (W8 (F := Ideal) m ρ c) i
theorem W10_vs (i : Fin 4) : W10 (F := Ideal) m ρ c (Proc.devRef .tc (vR i)) = W9 (F := Ideal) m ρ c (Proc.devRef .tc (vR i)) := hostOps1_1_vs (W9 (F := Ideal) m ρ c) i
theorem W11_vs (i : Fin 4) : W11 (F := Ideal) m ρ c (Proc.devRef .tc (vR i)) = W10 (F := Ideal) m ρ c (Proc.devRef .tc (vR i)) := hostOps1_2_vs (W10 (F := Ideal) m ρ c) i
theorem W12_vs (i : Fin 4) : W12 (F := Ideal) m ρ c (Proc.devRef .tc (vR i)) = W11 (F := Ideal) m ρ c (Proc.devRef .tc (vR i)) := W12_of_ne (F := Ideal) m ρ c (vR i) (by revert i; decide)
theorem W13_vs (i : Fin 4) : W13 (F := Ideal) m ρ c (Proc.devRef .tc (vR i)) = W12 (F := Ideal) m ρ c (Proc.devRef .tc (vR i)) := hostOps2_vs (W12 (F := Ideal) m ρ c) i
theorem W14_vs (i : Fin 4) : W14 (F := Ideal) m ρ c (Proc.devRef .tc (vR i)) = W13 (F := Ideal) m ρ c (Proc.devRef .tc (vR i)) := hostOps2_1_vs (W13 (F := Ideal) m ρ c) i
theorem W15_vs (i : Fin 4) : W15 (F := Ideal) m ρ c (Proc.devRef .tc (vR i)) = W14 (F := Ideal) m ρ c (Proc.devRef .tc (vR i)) := hostOps2_2_vs (W14 (F := Ideal) m ρ c) i
theorem W16_vs (i : Fin 4) : W16 (F := Ideal) m ρ c (Proc.devRef .tc (vR i)) = W15 (F := Ideal) m ρ c (Proc.devRef .tc (vR i)) := W16_of_ne (F := Ideal) m ρ c (vR i) (by revert i; decide)
/-- From the first boundary to boundary 4. -/
theorem vs_at4 (i : Fin 4) : W4 (F := Ideal) m ρ c (Proc.devRef .tc (vR i)) = W1 (F := Ideal) m ρ c (Proc.devRef .tc (vR i)) :=
  (W4_vs m ρ c i).trans ((W3_vs m ρ c i).trans (W2_vs m ρ c i))
/-- The argument arrays at boundary 4 are the launch's. -/
theorem args_at4 (j : Fin 23) : W4 (F := Ideal) m ρ c (Proc.devRef .tc (argR j)) = W0 (F := Ideal) m ρ c (Proc.devRef .tc (argR j)) :=
  (W4_args (F := Ideal) m ρ c j).trans ((W3_args (F := Ideal) m ρ c j).trans ((W2_args (F := Ideal) m ρ c j).trans (W1_args (F := Ideal) m ρ c j)))
/-- From the first boundary to boundary 8. -/
theorem vs_at8 (i : Fin 4) : W8 (F := Ideal) m ρ c (Proc.devRef .tc (vR i)) = W1 (F := Ideal) m ρ c (Proc.devRef .tc (vR i)) :=
  (W8_vs m ρ c i).trans ((W7_vs m ρ c i).trans ((W6_vs m ρ c i).trans ((W5_vs m ρ c i).trans ((W4_vs m ρ c i).trans ((W3_vs m ρ c i).trans (W2_vs m ρ c i))))))
/-- The argument arrays at boundary 8 are the launch's. -/
theorem args_at8 (j : Fin 23) : W8 (F := Ideal) m ρ c (Proc.devRef .tc (argR j)) = W0 (F := Ideal) m ρ c (Proc.devRef .tc (argR j)) :=
  (W8_args (F := Ideal) m ρ c j).trans ((W7_args (F := Ideal) m ρ c j).trans ((W6_args (F := Ideal) m ρ c j).trans ((W5_args (F := Ideal) m ρ c j).trans ((W4_args (F := Ideal) m ρ c j).trans ((W3_args (F := Ideal) m ρ c j).trans ((W2_args (F := Ideal) m ρ c j).trans (W1_args (F := Ideal) m ρ c j)))))))
/-- From the first boundary to boundary 12. -/
theorem vs_at12 (i : Fin 4) : W12 (F := Ideal) m ρ c (Proc.devRef .tc (vR i)) = W1 (F := Ideal) m ρ c (Proc.devRef .tc (vR i)) :=
  (W12_vs m ρ c i).trans ((W11_vs m ρ c i).trans ((W10_vs m ρ c i).trans ((W9_vs m ρ c i).trans ((W8_vs m ρ c i).trans ((W7_vs m ρ c i).trans ((W6_vs m ρ c i).trans ((W5_vs m ρ c i).trans ((W4_vs m ρ c i).trans ((W3_vs m ρ c i).trans (W2_vs m ρ c i))))))))))
/-- The argument arrays at boundary 12 are the launch's. -/
theorem args_at12 (j : Fin 23) : W12 (F := Ideal) m ρ c (Proc.devRef .tc (argR j)) = W0 (F := Ideal) m ρ c (Proc.devRef .tc (argR j)) :=
  (W12_args (F := Ideal) m ρ c j).trans ((W11_args (F := Ideal) m ρ c j).trans ((W10_args (F := Ideal) m ρ c j).trans ((W9_args (F := Ideal) m ρ c j).trans ((W8_args (F := Ideal) m ρ c j).trans ((W7_args (F := Ideal) m ρ c j).trans ((W6_args (F := Ideal) m ρ c j).trans ((W5_args (F := Ideal) m ρ c j).trans ((W4_args (F := Ideal) m ρ c j).trans ((W3_args (F := Ideal) m ρ c j).trans ((W2_args (F := Ideal) m ρ c j).trans (W1_args (F := Ideal) m ρ c j)))))))))))
/-- From the first boundary to boundary 16. -/
theorem vs_at16 (i : Fin 4) : W16 (F := Ideal) m ρ c (Proc.devRef .tc (vR i)) = W1 (F := Ideal) m ρ c (Proc.devRef .tc (vR i)) :=
  (W16_vs m ρ c i).trans ((W15_vs m ρ c i).trans ((W14_vs m ρ c i).trans ((W13_vs m ρ c i).trans ((W12_vs m ρ c i).trans ((W11_vs m ρ c i).trans ((W10_vs m ρ c i).trans ((W9_vs m ρ c i).trans ((W8_vs m ρ c i).trans ((W7_vs m ρ c i).trans ((W6_vs m ρ c i).trans ((W5_vs m ρ c i).trans ((W4_vs m ρ c i).trans ((W3_vs m ρ c i).trans (W2_vs m ρ c i))))))))))))))
/-- The argument arrays at boundary 16 are the launch's. -/
theorem args_at16 (j : Fin 23) : W16 (F := Ideal) m ρ c (Proc.devRef .tc (argR j)) = W0 (F := Ideal) m ρ c (Proc.devRef .tc (argR j)) :=
  (W16_args (F := Ideal) m ρ c j).trans ((W15_args (F := Ideal) m ρ c j).trans ((W14_args (F := Ideal) m ρ c j).trans ((W13_args (F := Ideal) m ρ c j).trans ((W12_args (F := Ideal) m ρ c j).trans ((W11_args (F := Ideal) m ρ c j).trans ((W10_args (F := Ideal) m ρ c j).trans ((W9_args (F := Ideal) m ρ c j).trans ((W8_args (F := Ideal) m ρ c j).trans ((W7_args (F := Ideal) m ρ c j).trans ((W6_args (F := Ideal) m ρ c j).trans ((W5_args (F := Ideal) m ρ c j).trans ((W4_args (F := Ideal) m ρ c j).trans ((W3_args (F := Ideal) m ρ c j).trans ((W2_args (F := Ideal) m ρ c j).trans (W1_args (F := Ideal) m ρ c j)))))))))))))))

/-! ## Map 0: 256 channels on a 56 × 56 grid -/

set_option maxHeartbeats 1000000 in
/-- The reshape drops the leading unit axis. -/
theorem rd_v1 (ch : Fin 256) (X Y : Fin 56) :
    (show FVec Ideal S256x56x56 .f32 from W1 (F := Ideal) m ρ c (Proc.devRef .tc main_v1)) (ix3 ch X Y)
      = (show FVec Ideal S1x256x56x56 .f32 from W0 (F := Ideal) m ρ c (Proc.devRef .tc main_arg0)) (ix4 (0 : Fin 1) ch X Y) := by
  show (StableHlo.after (hostOps0 (F := Ideal)) (W0 (F := Ideal) m ρ c) (Proc.devRef .tc main_v1) : FVec Ideal S256x56x56 .f32) (ix3 ch X Y) = _
  generalize W0 (F := Ideal) m ρ c = W
  after_results
  show shapeCast S256x56x56 (show FVec Ideal S1x256x56x56 .f32 from W (Proc.devRef .tc main_arg0)) shapeCasts_S1x256x56x56_S256x56x56 (ix3 ch X Y) = _
  exact shapeCast_apply _ _ (ix3 ch X Y) (ix4 (0 : Fin 1) ch X Y) (by
    rw [Shape.rowMajor_val_four, Shape.rowMajor_val_three]
    show ((0 * 256 + ch.val) * 56 + X.val) * 56 + Y.val = (ch.val * 56 + X.val) * 56 + Y.val
    omega)

set_option maxHeartbeats 4000000 in
/-- The product stretch at an entry: row `X·56 + Y` of the flattened, transposed map times the weight rows. -/
theorem rdA0 (t : Fin 3136) (j : Fin 128) (X Y : Fin 56) (h : t.val = X.val * 56 + Y.val) :
    (show FVec Ideal S3136x128 .f32 from W5 (F := Ideal) m ρ c (Proc.devRef .tc main_v212)) (ix2 t j)
      = ∑ ch : Fin 256, (show FVec Ideal S256x56x56 .f32 from W4 (F := Ideal) m ρ c (Proc.devRef .tc main_v1)) (ix3 ch X Y)
          * (show FVec Ideal S3840x128 .f32 from W4 (F := Ideal) m ρ c (Proc.devRef .tc main_arg7)) (ix2 (⟨0 + ch.val, by have := ch.isLt; omega⟩ : Fin 3840) j) := by
  show (StableHlo.after (hostOps0_4 (F := Ideal)) (W4 (F := Ideal) m ρ c) (Proc.devRef .tc main_v212) : FVec Ideal S3136x128 .f32) (ix2 t j) = _
  generalize W4 (F := Ideal) m ρ c = W
  after_results_simp
  show Host.dotGeneral (DotDims.plain 3136 256 128) none _ _ (ix2 t j) = _
  rw [StackMember.dotGeneral_plain_apply]
  refine Finset.sum_congr rfl fun ch _ => ?_
  congr 1
  · rw [transpose_apply [1, 0] _ transposes_S256x3136_S3136x256_1_0 (ix2 t ch) (ix2 ch t) (fun b => by
      match b with
      | ⟨0, _⟩ => rfl
      | ⟨1, _⟩ => rfl)]
    show shapeCast S256x3136 (show FVec Ideal S256x56x56 .f32 from W (Proc.devRef .tc main_v1)) shapeCasts_S256x56x56_S256x3136 (ix2 ch t) = _
    exact shapeCast_apply _ _ (ix2 ch t) (ix3 ch X Y) (by
      rw [Shape.rowMajor_val_three, Shape.rowMajor_val_two]
      show (ch.val * 56 + X.val) * 56 + Y.val = ch.val * 3136 + t.val
      omega)
  · exact extractStridedSlice_apply _ _ slices_S3840x128_S256x128_0_0 (ix2 ch j) (ix2 (⟨0 + ch.val, by have := ch.isLt; omega⟩ : Fin 3840) j) (fun a => by
      match a with
      | ⟨0, _⟩ => rfl
      | ⟨1, _⟩ => show j.val = 0 + j.val; omega)

set_option maxHeartbeats 1000000 in
/-- The padding stretch leaves the first 3136 rows as they were. -/
theorem rdB0 (t : Fin 3200) (j : Fin 128) (ht : t.val < 3136) :
    (show FVec Ideal S3200x128 .f32 from W6 (F := Ideal) m ρ c (Proc.devRef .tc main_v213)) (ix2 t j)
      = (show FVec Ideal S3136x128 .f32 from W5 (F := Ideal) m ρ c (Proc.devRef .tc main_v212)) (ix2 (⟨t.val, ht⟩ : Fin 3136) j) := by
  show (StableHlo.after (hostOps0_5 (F := Ideal)) (W5 (F := Ideal) m ρ c) (Proc.devRef .tc main_v213) : FVec Ideal S3200x128 .f32) (ix2 t j) = _
  generalize W5 (F := Ideal) m ρ c = W
  after_results
  show pad S3200x128 ![0, 0] ![64, 0] ![0, 0] (show FVec Ideal S3136x128 .f32 from W (Proc.devRef .tc main_v212)) _ pads_S3136x128_S3200x128_0640_000 h_S_ (ix2 t j) = _
  exact pad_apply_of_inside _ _ _ _ _ pads_S3136x128_S3200x128_0640_000 h_S_ (ix2 t j) (ix2 (⟨t.val, ht⟩ : Fin 3136) j) (fun a => by
    match a with
    | ⟨0, _⟩ => show t.val = 0 + t.val * (0 + 1); omega
    | ⟨1, _⟩ => show j.val = 0 + j.val * (0 + 1); omega)

set_option maxHeartbeats 1000000 in
/-- The change of float format is the identity on extended reals. -/
theorem rdC0 (t : Fin 3200) (j : Fin 128) :
    (show FVec Ideal S3200x128 .bf16 from W7 (F := Ideal) m ρ c (Proc.devRef .tc main_v214)) (ix2 t j)
      = (show FVec Ideal S3200x128 .f32 from W6 (F := Ideal) m ρ c (Proc.devRef .tc main_v213)) (ix2 t j) := by
  show (StableHlo.after (hostOps0_6 (F := Ideal)) (W6 (F := Ideal) m ρ c) (Proc.devRef .tc main_v214) : FVec Ideal S3200x128 .bf16) (ix2 t j) = _
  generalize W6 (F := Ideal) m ρ c = W
  after_results
  rfl

/-- MAP 0, PROJECTED: row `X·56 + Y`, column `j` of the padded, narrowed product is the sum over the 256 channels of
    the map's entry at (channel, X, Y) times the weight's entry at (0 + channel, j). -/
theorem fp0_apply (t : Fin 3200) (j : Fin 128) (X Y : Fin 56) (h : t.val = X.val * 56 + Y.val) :
    (show FVec Ideal S3200x128 .bf16 from W7 (F := Ideal) m ρ c (Proc.devRef .tc main_v214)) (ix2 t j)
      = ∑ ch : Fin 256, (show FVec Ideal S1x256x56x56 .f32 from W0 (F := Ideal) m ρ c (Proc.devRef .tc main_arg0)) (ix4 (0 : Fin 1) ch X Y)
          * (show FVec Ideal S3840x128 .f32 from W0 (F := Ideal) m ρ c (Proc.devRef .tc main_arg7)) (ix2 (⟨0 + ch.val, by have := ch.isLt; omega⟩ : Fin 3840) j) := by
  have ht : t.val < 3136 := by have hX := X.isLt; have hY := Y.isLt; rw [h]; nlinarith
  rw [rdC0 m ρ c t j, rdB0 m ρ c t j ht, rdA0 m ρ c ⟨t.val, ht⟩ j X Y h]
  refine Finset.sum_congr rfl fun ch _ => ?_
  rw [show W4 (F := Ideal) m ρ c (Proc.devRef .tc main_v1) = W1 (F := Ideal) m ρ c (Proc.devRef .tc main_v1) from vs_at4 m ρ c 0,
    show W4 (F := Ideal) m ρ c (Proc.devRef .tc main_arg7) = W0 (F := Ideal) m ρ c (Proc.devRef .tc main_arg7) from args_at4 m ρ c 7,
    rd_v1 m ρ c ch X Y]

/-! ## Map 1: 512 channels on a 28 × 28 grid -/

set_option maxHeartbeats 1000000 in
/-- The reshape drops the leading unit axis. -/
theorem rd_v2 (ch : Fin 512) (X Y : Fin 28) :
    (show FVec Ideal S512x28x28 .f32 from W1 (F := Ideal) m ρ c (Proc.devRef .tc main_v2)) (ix3 ch X Y)
      = (show FVec Ideal S1x512x28x28 .f32 from W0 (F := Ideal) m ρ c (Proc.devRef .tc main_arg1)) (ix4 (0 : Fin 1) ch X Y) := by
  show (StableHlo.after (hostOps0 (F := Ideal)) (W0 (F := Ideal) m ρ c) (Proc.devRef .tc main_v2) : FVec Ideal S512x28x28 .f32) (ix3 ch X Y) = _
  generalize W0 (F := Ideal) m ρ c = W
  after_results
  show shapeCast S512x28x28 (show FVec Ideal S1x512x28x28 .f32 from W (Proc.devRef .tc main_arg1)) shapeCasts_S1x512x28x28_S512x28x28 (ix3 ch X Y) = _
  exact shapeCast_apply _ _ (ix3 ch X Y) (ix4 (0 : Fin 1) ch X Y) (by
    rw [Shape.rowMajor_val_four, Shape.rowMajor_val_three]
    show ((0 * 512 + ch.val) * 28 + X.val) * 28 + Y.val = (ch.val * 28 + X.val) * 28 + Y.val
    omega)

set_option maxHeartbeats 4000000 in
/-- The product stretch at an entry: row `X·28 + Y` of the flattened, transposed map times the weight rows. -/
theorem rdA1 (t : Fin 784) (j : Fin 128) (X Y : Fin 28) (h : t.val = X.val * 28 + Y.val) :
    (show FVec Ideal S784x128 .f32 from W9 (F := Ideal) m ρ c (Proc.devRef .tc main_v228)) (ix2 t j)
      = ∑ ch : Fin 512, (show FVec Ideal S512x28x28 .f32 from W8 (F := Ideal) m ρ c (Proc.devRef .tc main_v2)) (ix3 ch X Y)
          * (show FVec Ideal S3840x128 .f32 from W8 (F := Ideal) m ρ c (Proc.devRef .tc main_arg7)) (ix2 (⟨256 + ch.val, by have := ch.isLt; omega⟩ : Fin 3840) j) := by
  show (StableHlo.after (hostOps1 (F := Ideal)) (W8 (F := Ideal) m ρ c) (Proc.devRef .tc main_v228) : FVec Ideal S784x128 .f32) (ix2 t j) = _
  generalize W8 (F := Ideal) m ρ c = W
  after_results
  show Host.dotGeneral (DotDims.plain 784 512 128) none _ _ (ix2 t j) = _
  rw [StackMember.dotGeneral_plain_apply]
  refine Finset.sum_congr rfl fun ch _ => ?_
  congr 1
  · rw [transpose_apply [1, 0] _ transposes_S512x784_S784x512_1_0 (ix2 t ch) (ix2 ch t) (fun b => by
      match b with
      | ⟨0, _⟩ => rfl
      | ⟨1, _⟩ => rfl)]
    show shapeCast S512x784 (show FVec Ideal S512x28x28 .f32 from W (Proc.devRef .tc main_v2)) shapeCasts_S512x28x28_S512x784 (ix2 ch t) = _
    exact shapeCast_apply _ _ (ix2 ch t) (ix3 ch X Y) (by
      rw [Shape.rowMajor_val_three, Shape.rowMajor_val_two]
      show (ch.val * 28 + X.val) * 28 + Y.val = ch.val * 784 + t.val
      omega)
  · exact extractStridedSlice_apply _ _ slices_S3840x128_S512x128_256_0 (ix2 ch j) (ix2 (⟨256 + ch.val, by have := ch.isLt; omega⟩ : Fin 3840) j) (fun a => by
      match a with
      | ⟨0, _⟩ => rfl
      | ⟨1, _⟩ => show j.val = 0 + j.val; omega)

set_option maxHeartbeats 1000000 in
/-- The padding stretch leaves the first 784 rows as they were. -/
theorem rdB1 (t : Fin 896) (j : Fin 128) (ht : t.val < 784) :
    (show FVec Ideal S896x128 .f32 from W10 (F := Ideal) m ρ c (Proc.devRef .tc main_v229)) (ix2 t j)
      = (show FVec Ideal S784x128 .f32 from W9 (F := Ideal) m ρ c (Proc.devRef .tc main_v228)) (ix2 (⟨t.val, ht⟩ : Fin 784) j) := by
  show (StableHlo.after (hostOps1_1 (F := Ideal)) (W9 (F := Ideal) m ρ c) (Proc.devRef .tc main_v229) : FVec Ideal S896x128 .f32) (ix2 t j) = _
  generalize W9 (F := Ideal) m ρ c = W
  after_results
  show pad S896x128 ![0, 0] ![112, 0] ![0, 0] (show FVec Ideal S784x128 .f32 from W (Proc.devRef .tc main_v228)) _ pads_S784x128_S896x128_01120_000 h_S_ (ix2 t j) = _
  exact pad_apply_of_inside _ _ _ _ _ pads_S784x128_S896x128_01120_000 h_S_ (ix2 t j) (ix2 (⟨t.val, ht⟩ : Fin 784) j) (fun a => by
    match a with
    | ⟨0, _⟩ => show t.val = 0 + t.val * (0 + 1); omega
    | ⟨1, _⟩ => show j.val = 0 + j.val * (0 + 1); omega)

set_option maxHeartbeats 1000000 in
/-- The change of float format is the identity on extended reals. -/
theorem rdC1 (t : Fin 896) (j : Fin 128) :
    (show FVec Ideal S896x128 .bf16 from W11 (F := Ideal) m ρ c (Proc.devRef .tc main_v230)) (ix2 t j)
      = (show FVec Ideal S896x128 .f32 from W10 (F := Ideal) m ρ c (Proc.devRef .tc main_v229)) (ix2 t j) := by
  show (StableHlo.after (hostOps1_2 (F := Ideal)) (W10 (F := Ideal) m ρ c) (Proc.devRef .tc main_v230) : FVec Ideal S896x128 .bf16) (ix2 t j) = _
  generalize W10 (F := Ideal) m ρ c = W
  after_results
  rfl

/-- MAP 1, PROJECTED: row `X·28 + Y`, column `j` of the padded, narrowed product is the sum over the 512 channels of
    the map's entry at (channel, X, Y) times the weight's entry at (256 + channel, j). -/
theorem fp1_apply (t : Fin 896) (j : Fin 128) (X Y : Fin 28) (h : t.val = X.val * 28 + Y.val) :
    (show FVec Ideal S896x128 .bf16 from W11 (F := Ideal) m ρ c (Proc.devRef .tc main_v230)) (ix2 t j)
      = ∑ ch : Fin 512, (show FVec Ideal S1x512x28x28 .f32 from W0 (F := Ideal) m ρ c (Proc.devRef .tc main_arg1)) (ix4 (0 : Fin 1) ch X Y)
          * (show FVec Ideal S3840x128 .f32 from W0 (F := Ideal) m ρ c (Proc.devRef .tc main_arg7)) (ix2 (⟨256 + ch.val, by have := ch.isLt; omega⟩ : Fin 3840) j) := by
  have ht : t.val < 784 := by have hX := X.isLt; have hY := Y.isLt; rw [h]; nlinarith
  rw [rdC1 m ρ c t j, rdB1 m ρ c t j ht, rdA1 m ρ c ⟨t.val, ht⟩ j X Y h]
  refine Finset.sum_congr rfl fun ch _ => ?_
  rw [show W8 (F := Ideal) m ρ c (Proc.devRef .tc main_v2) = W1 (F := Ideal) m ρ c (Proc.devRef .tc main_v2) from vs_at8 m ρ c 1,
    show W8 (F := Ideal) m ρ c (Proc.devRef .tc main_arg7) = W0 (F := Ideal) m ρ c (Proc.devRef .tc main_arg7) from args_at8 m ρ c 7,
    rd_v2 m ρ c ch X Y]

/-! ## Map 2: 1024 channels on a 14 × 14 grid -/

set_option maxHeartbeats 1000000 in
/-- The reshape drops the leading unit axis. -/
theorem rd_v3 (ch : Fin 1024) (X Y : Fin 14) :
    (show FVec Ideal S1024x14x14 .f32 from W1 (F := Ideal) m ρ c (Proc.devRef .tc main_v3)) (ix3 ch X Y)
      = (show FVec Ideal S1x1024x14x14 .f32 from W0 (F := Ideal) m ρ c (Proc.devRef .tc main_arg2)) (ix4 (0 : Fin 1) ch X Y) := by
  show (StableHlo.after (hostOps0 (F := Ideal)) (W0 (F := Ideal) m ρ c) (Proc.devRef .tc main_v3) : FVec Ideal S1024x14x14 .f32) (ix3 ch X Y) = _
  generalize W0 (F := Ideal) m ρ c = W
  after_results
  show shapeCast S1024x14x14 (show FVec Ideal S1x1024x14x14 .f32 from W (Proc.devRef .tc main_arg2)) shapeCasts_S1x1024x14x14_S1024x14x14 (ix3 ch X Y) = _
  exact shapeCast_apply _ _ (ix3 ch X Y) (ix4 (0 : Fin 1) ch X Y) (by
    rw [Shape.rowMajor_val_four, Shape.rowMajor_val_three]
    show ((0 * 1024 + ch.val) * 14 + X.val) * 14 + Y.val = (ch.val * 14 + X.val) * 14 + Y.val
    omega)

set_option maxHeartbeats 4000000 in
/-- The product stretch at an entry: row `X·14 + Y` of the flattened, transposed map times the weight rows. -/
theorem rdA2 (t : Fin 196) (j : Fin 128) (X Y : Fin 14) (h : t.val = X.val * 14 + Y.val) :
    (show FVec Ideal S196x128 .f32 from W13 (F := Ideal) m ρ c (Proc.devRef .tc main_v244)) (ix2 t j)
      = ∑ ch : Fin 1024, (show FVec Ideal S1024x14x14 .f32 from W12 (F := Ideal) m ρ c (Proc.devRef .tc main_v3)) (ix3 ch X Y)
          * (show FVec Ideal S3840x128 .f32 from W12 (F := Ideal) m ρ c (Proc.devRef .tc main_arg7)) (ix2 (⟨768 + ch.val, by have := ch.isLt; omega⟩ : Fin 3840) j) := by
  show (StableHlo.after (hostOps2 (F := Ideal)) (W12 (F := Ideal) m ρ c) (Proc.devRef .tc main_v244) : FVec Ideal S196x128 .f32) (ix2 t j) = _
  generalize W12 (F := Ideal) m ρ c = W
  after_results
  show Host.dotGeneral (DotDims.plain 196 1024 128) none _ _ (ix2 t j) = _
  rw [StackMember.dotGeneral_plain_apply]
  refine Finset.sum_congr rfl fun ch _ => ?_
  congr 1
  · rw [transpose_apply [1, 0] _ transposes_S1024x196_S196x1024_1_0 (ix2 t ch) (ix2 ch t) (fun b => by
      match b with
      | ⟨0, _⟩ => rfl
      | ⟨1, _⟩ => rfl)]
    show shapeCast S1024x196 (show FVec Ideal S1024x14x14 .f32 from W (Proc.devRef .tc main_v3)) shapeCasts_S1024x14x14_S1024x196 (ix2 ch t) = _
    exact shapeCast_apply _ _ (ix2 ch t) (ix3 ch X Y) (by
      rw [Shape.rowMajor_val_three, Shape.rowMajor_val_two]
      show (ch.val * 14 + X.val) * 14 + Y.val = ch.val * 196 + t.val
      omega)
  · exact extractStridedSlice_apply _ _ slices_S3840x128_S1024x128_768_0 (ix2 ch j) (ix2 (⟨768 + ch.val, by have := ch.isLt; omega⟩ : Fin 3840) j) (fun a => by
      match a with
      | ⟨0, _⟩ => rfl
      | ⟨1, _⟩ => show j.val = 0 + j.val; omega)

set_option maxHeartbeats 1000000 in
/-- The padding stretch leaves the first 196 rows as they were. -/
theorem rdB2 (t : Fin 256) (j : Fin 128) (ht : t.val < 196) :
    (show FVec Ideal S256x128 .f32 from W14 (F := Ideal) m ρ c (Proc.devRef .tc main_v245)) (ix2 t j)
      = (show FVec Ideal S196x128 .f32 from W13 (F := Ideal) m ρ c (Proc.devRef .tc main_v244)) (ix2 (⟨t.val, ht⟩ : Fin 196) j) := by
  show (StableHlo.after (hostOps2_1 (F := Ideal)) (W13 (F := Ideal) m ρ c) (Proc.devRef .tc main_v245) : FVec Ideal S256x128 .f32) (ix2 t j) = _
  generalize W13 (F := Ideal) m ρ c = W
  after_results
  show pad S256x128 ![0, 0] ![60, 0] ![0, 0] (show FVec Ideal S196x128 .f32 from W (Proc.devRef .tc main_v244)) _ pads_S196x128_S256x128_0600_000 h_S_ (ix2 t j) = _
  exact pad_apply_of_inside _ _ _ _ _ pads_S196x128_S256x128_0600_000 h_S_ (ix2 t j) (ix2 (⟨t.val, ht⟩ : Fin 196) j) (fun a => by
    match a with
    | ⟨0, _⟩ => show t.val = 0 + t.val * (0 + 1); omega
    | ⟨1, _⟩ => show j.val = 0 + j.val * (0 + 1); omega)

set_option maxHeartbeats 1000000 in
/-- The change of float format is the identity on extended reals. -/
theorem rdC2 (t : Fin 256) (j : Fin 128) :
    (show FVec Ideal S256x128 .bf16 from W15 (F := Ideal) m ρ c (Proc.devRef .tc main_v246)) (ix2 t j)
      = (show FVec Ideal S256x128 .f32 from W14 (F := Ideal) m ρ c (Proc.devRef .tc main_v245)) (ix2 t j) := by
  show (StableHlo.after (hostOps2_2 (F := Ideal)) (W14 (F := Ideal) m ρ c) (Proc.devRef .tc main_v246) : FVec Ideal S256x128 .bf16) (ix2 t j) = _
  generalize W14 (F := Ideal) m ρ c = W
  after_results
  rfl

/-- MAP 2, PROJECTED: row `X·14 + Y`, column `j` of the padded, narrowed product is the sum over the 1024 channels of
    the map's entry at (channel, X, Y) times the weight's entry at (768 + channel, j). -/
theorem fp2_apply (t : Fin 256) (j : Fin 128) (X Y : Fin 14) (h : t.val = X.val * 14 + Y.val) :
    (show FVec Ideal S256x128 .bf16 from W15 (F := Ideal) m ρ c (Proc.devRef .tc main_v246)) (ix2 t j)
      = ∑ ch : Fin 1024, (show FVec Ideal S1x1024x14x14 .f32 from W0 (F := Ideal) m ρ c (Proc.devRef .tc main_arg2)) (ix4 (0 : Fin 1) ch X Y)
          * (show FVec Ideal S3840x128 .f32 from W0 (F := Ideal) m ρ c (Proc.devRef .tc main_arg7)) (ix2 (⟨768 + ch.val, by have := ch.isLt; omega⟩ : Fin 3840) j) := by
  have ht : t.val < 196 := by have hX := X.isLt; have hY := Y.isLt; rw [h]; nlinarith
  rw [rdC2 m ρ c t j, rdB2 m ρ c t j ht, rdA2 m ρ c ⟨t.val, ht⟩ j X Y h]
  refine Finset.sum_congr rfl fun ch _ => ?_
  rw [show W12 (F := Ideal) m ρ c (Proc.devRef .tc main_v3) = W1 (F := Ideal) m ρ c (Proc.devRef .tc main_v3) from vs_at12 m ρ c 2,
    show W12 (F := Ideal) m ρ c (Proc.devRef .tc main_arg7) = W0 (F := Ideal) m ρ c (Proc.devRef .tc main_arg7) from args_at12 m ρ c 7,
    rd_v3 m ρ c ch X Y]

/-! ## Map 3: 2048 channels on a 7 × 7 grid -/

set_option maxHeartbeats 1000000 in
/-- The reshape drops the leading unit axis. -/
theorem rd_v4 (ch : Fin 2048) (X Y : Fin 7) :
    (show FVec Ideal S2048x7x7 .f32 from W1 (F := Ideal) m ρ c (Proc.devRef .tc main_v4)) (ix3 ch X Y)
      = (show FVec Ideal S1x2048x7x7 .f32 from W0 (F := Ideal) m ρ c (Proc.devRef .tc main_arg3)) (ix4 (0 : Fin 1) ch X Y) := by
  show (StableHlo.after (hostOps0 (F := Ideal)) (W0 (F := Ideal) m ρ c) (Proc.devRef .tc main_v4) : FVec Ideal S2048x7x7 .f32) (ix3 ch X Y) = _
  generalize W0 (F := Ideal) m ρ c = W
  after_results
  show shapeCast S2048x7x7 (show FVec Ideal S1x2048x7x7 .f32 from W (Proc.devRef .tc main_arg3)) shapeCasts_S1x2048x7x7_S2048x7x7 (ix3 ch X Y) = _
  exact shapeCast_apply _ _ (ix3 ch X Y) (ix4 (0 : Fin 1) ch X Y) (by
    rw [Shape.rowMajor_val_four, Shape.rowMajor_val_three]
    show ((0 * 2048 + ch.val) * 7 + X.val) * 7 + Y.val = (ch.val * 7 + X.val) * 7 + Y.val
    omega)

set_option maxHeartbeats 4000000 in
/-- The product stretch at an entry: row `X·7 + Y` of the flattened, transposed map times the weight rows. -/
theorem rdA3 (t : Fin 49) (j : Fin 128) (X Y : Fin 7) (h : t.val = X.val * 7 + Y.val) :
    (show FVec Ideal S49x128 .f32 from W17 (F := Ideal) m ρ c (Proc.devRef .tc main_v260)) (ix2 t j)
      = ∑ ch : Fin 2048, (show FVec Ideal S2048x7x7 .f32 from W16 (F := Ideal) m ρ c (Proc.devRef .tc main_v4)) (ix3 ch X Y)
          * (show FVec Ideal S3840x128 .f32 from W16 (F := Ideal) m ρ c (Proc.devRef .tc main_arg7)) (ix2 (⟨1792 + ch.val, by have := ch.isLt; omega⟩ : Fin 3840) j) := by
  show (StableHlo.after (hostOps3 (F := Ideal)) (W16 (F := Ideal) m ρ c) (Proc.devRef .tc main_v260) : FVec Ideal S49x128 .f32) (ix2 t j) = _
  generalize W16 (F := Ideal) m ρ c = W
  after_results
  show Host.dotGeneral (DotDims.plain 49 2048 128) none _ _ (ix2 t j) = _
  rw [StackMember.dotGeneral_plain_apply]
  refine Finset.sum_congr rfl fun ch _ => ?_
  congr 1
  · rw [transpose_apply [1, 0] _ transposes_S2048x49_S49x2048_1_0 (ix2 t ch) (ix2 ch t) (fun b => by
      match b with
      | ⟨0, _⟩ => rfl
      | ⟨1, _⟩ => rfl)]
    show shapeCast S2048x49 (show FVec Ideal S2048x7x7 .f32 from W (Proc.devRef .tc main_v4)) shapeCasts_S2048x7x7_S2048x49 (ix2 ch t) = _
    exact shapeCast_apply _ _ (ix2 ch t) (ix3 ch X Y) (by
      rw [Shape.rowMajor_val_three, Shape.rowMajor_val_two]
      show (ch.val * 7 + X.val) * 7 + Y.val = ch.val * 49 + t.val
      omega)
  · exact extractStridedSlice_apply _ _ slices_S3840x128_S2048x128_1792_0 (ix2 ch j) (ix2 (⟨1792 + ch.val, by have := ch.isLt; omega⟩ : Fin 3840) j) (fun a => by
      match a with
      | ⟨0, _⟩ => rfl
      | ⟨1, _⟩ => show j.val = 0 + j.val; omega)

set_option maxHeartbeats 1000000 in
/-- The padding stretch leaves the first 49 rows as they were. -/
theorem rdB3 (t : Fin 128) (j : Fin 128) (ht : t.val < 49) :
    (show FVec Ideal S128x128 .f32 from W18 (F := Ideal) m ρ c (Proc.devRef .tc main_v261)) (ix2 t j)
      = (show FVec Ideal S49x128 .f32 from W17 (F := Ideal) m ρ c (Proc.devRef .tc main_v260)) (ix2 (⟨t.val, ht⟩ : Fin 49) j) := by
  show (StableHlo.after (hostOps3_1 (F := Ideal)) (W17 (F := Ideal) m ρ c) (Proc.devRef .tc main_v261) : FVec Ideal S128x128 .f32) (ix2 t j) = _
  generalize W17 (F := Ideal) m ρ c = W
  after_results
  show pad S128x128 ![0, 0] ![79, 0] ![0, 0] (show FVec Ideal S49x128 .f32 from W (Proc.devRef .tc main_v260)) _ pads_S49x128_S128x128_0790_000 h_S_ (ix2 t j) = _
  exact pad_apply_of_inside _ _ _ _ _ pads_S49x128_S128x128_0790_000 h_S_ (ix2 t j) (ix2 (⟨t.val, ht⟩ : Fin 49) j) (fun a => by
    match a with
    | ⟨0, _⟩ => show t.val = 0 + t.val * (0 + 1); omega
    | ⟨1, _⟩ => show j.val = 0 + j.val * (0 + 1); omega)

set_option maxHeartbeats 1000000 in
/-- The change of float format is the identity on extended reals. -/
theorem rdC3 (t : Fin 128) (j : Fin 128) :
    (show FVec Ideal S128x128 .bf16 from W19 (F := Ideal) m ρ c (Proc.devRef .tc main_v262)) (ix2 t j)
      = (show FVec Ideal S128x128 .f32 from W18 (F := Ideal) m ρ c (Proc.devRef .tc main_v261)) (ix2 t j) := by
  show (StableHlo.after (hostOps3_2 (F := Ideal)) (W18 (F := Ideal) m ρ c) (Proc.devRef .tc main_v262) : FVec Ideal S128x128 .bf16) (ix2 t j) = _
  generalize W18 (F := Ideal) m ρ c = W
  after_results
  rfl

/-- MAP 3, PROJECTED: row `X·7 + Y`, column `j` of the padded, narrowed product is the sum over the 2048 channels of
    the map's entry at (channel, X, Y) times the weight's entry at (1792 + channel, j). -/
theorem fp3_apply (t : Fin 128) (j : Fin 128) (X Y : Fin 7) (h : t.val = X.val * 7 + Y.val) :
    (show FVec Ideal S128x128 .bf16 from W19 (F := Ideal) m ρ c (Proc.devRef .tc main_v262)) (ix2 t j)
      = ∑ ch : Fin 2048, (show FVec Ideal S1x2048x7x7 .f32 from W0 (F := Ideal) m ρ c (Proc.devRef .tc main_arg3)) (ix4 (0 : Fin 1) ch X Y)
          * (show FVec Ideal S3840x128 .f32 from W0 (F := Ideal) m ρ c (Proc.devRef .tc main_arg7)) (ix2 (⟨1792 + ch.val, by have := ch.isLt; omega⟩ : Fin 3840) j) := by
  have ht : t.val < 49 := by have hX := X.isLt; have hY := Y.isLt; rw [h]; nlinarith
  rw [rdC3 m ρ c t j, rdB3 m ρ c t j ht, rdA3 m ρ c ⟨t.val, ht⟩ j X Y h]
  refine Finset.sum_congr rfl fun ch _ => ?_
  rw [show W16 (F := Ideal) m ρ c (Proc.devRef .tc main_v4) = W1 (F := Ideal) m ρ c (Proc.devRef .tc main_v4) from vs_at16 m ρ c 3,
    show W16 (F := Ideal) m ρ c (Proc.devRef .tc main_arg7) = W0 (F := Ideal) m ρ c (Proc.devRef .tc main_arg7) from args_at16 m ρ c 7,
    rd_v4 m ρ c ch X Y]

end Cert.KernelIdeal.Hand

end
-- ==== Proof.LibSelectAssemble.lean ====
/-
  Bilinear sampling of a stack of square maps through a one-hot selection row.

  A stack of `C` maps of side `s` is sampled at four corners `(X1,Y1), (X2,Y1), (X1,Y2), (X2,Y2)` with weights
  `a11, a21, a12, a22` and the `C` sampled channels are then combined with channel weights `L`.  Projecting every
  position of the maps first, `g t = Σ_ch F ch (t / s) (t % s) · L ch` for a flat position `t < s²` and `g t = 0` on
  the padding `s² ≤ t < n`, and multiplying by the selection row whose entry at `t` adds the weights of the corners
  whose flat index `X · s + Y` is `t`, gives the same number: the row picks `g` at the four flat indices, and a sum
  of products distributes.  All entries are finite extended reals, where the operations are the real ones.
-/
import Mathlib.Data.EReal.Inv
import Mathlib.Algebra.BigOperators.Group.Finset.Basic
import Mathlib.Algebra.BigOperators.Ring.Finset
import Mathlib.Algebra.BigOperators.Fin
import Mathlib.Tactic

namespace Cert.LibSelectAssemble

open Finset

/-- The coercion of the reals into the extended reals goes through finite sums. -/
theorem coe_sum {α : Type} (s : Finset α) (g : α → ℝ) : ((∑ a ∈ s, g a : ℝ) : EReal) = ∑ a ∈ s, (g a : EReal) := by
  classical
  induction s using Finset.induction_on with
  | empty => simp
  | insert a s ha ih => rw [Finset.sum_insert ha, Finset.sum_insert ha, EReal.coe_add, ih]

/-- A finite extended real is a real. -/
theorem exists_real {x : EReal} (h : x ≠ ⊤ ∧ x ≠ ⊥) : ∃ r : ℝ, x = (r : EReal) :=
  ⟨x.toReal, (EReal.coe_toReal h.1 h.2).symm⟩

/-- Over the reals: a row that is the sum of four weighted unit rows picks the four entries. -/
theorem row_pick_real {n : ℕ} (g : Fin n → ℝ) (a11 a12 a21 a22 : ℝ) (p11 p12 p21 p22 : Fin n) :
    ∑ t : Fin n, ((((if t = p11 then (1 : ℝ) else 0) * a11 + (if t = p12 then (1 : ℝ) else 0) * a12)
        + (if t = p21 then (1 : ℝ) else 0) * a21) + (if t = p22 then (1 : ℝ) else 0) * a22) * g t
      = ((a11 * g p11 + a21 * g p21) + a12 * g p12) + a22 * g p22 := by
  have h : ∀ (p : Fin n) (a : ℝ), ∑ t : Fin n, ((if t = p then (1 : ℝ) else 0) * a) * g t = a * g p := by
    intro p a
    rw [Finset.sum_eq_single p]
    · simp
    · intro b _ hb; simp [hb]
    · intro hp; exact absurd (Finset.mem_univ p) hp
  simp only [add_mul, Finset.sum_add_distrib, h]
  ring

/-- THE ASSEMBLY, over finite extended reals. `I11 … I22` are the 32-bit words of the four flat indices. -/
theorem sel_assemble {C s n : ℕ} (hn : s * s ≤ n) (hn32 : n < 4294967296)
    (F : Fin C → Fin s → Fin s → EReal) (hF : ∀ ch a b, F ch a b ≠ ⊤ ∧ F ch a b ≠ ⊥)
    (L : Fin C → EReal) (hL : ∀ ch, L ch ≠ ⊤ ∧ L ch ≠ ⊥)
    (a11 a12 a21 a22 : EReal) (h11 : a11 ≠ ⊤ ∧ a11 ≠ ⊥) (h12 : a12 ≠ ⊤ ∧ a12 ≠ ⊥) (h21 : a21 ≠ ⊤ ∧ a21 ≠ ⊥) (h22 : a22 ≠ ⊤ ∧ a22 ≠ ⊥)
    (X1 X2 Y1 Y2 : Fin s)
    (I11 I12 I21 I22 : BitVec 32)
    (e11 : I11.toNat = X1.val * s + Y1.val) (e12 : I12.toNat = X1.val * s + Y2.val)
    (e21 : I21.toNat = X2.val * s + Y1.val) (e22 : I22.toNat = X2.val * s + Y2.val)
    (fp : Fin n → EReal)
    (hfp : ∀ (t : Fin n) (X Y : Fin s), t.val = X.val * s + Y.val → fp t = ∑ ch, F ch X Y * L ch) :
    ∑ t : Fin n, ((((if BitVec.ofNat 32 t.val = I11 then (1 : EReal) else 0) * a11
          + (if BitVec.ofNat 32 t.val = I12 then (1 : EReal) else 0) * a12)
          + (if BitVec.ofNat 32 t.val = I21 then (1 : EReal) else 0) * a21)
          + (if BitVec.ofNat 32 t.val = I22 then (1 : EReal) else 0) * a22) * fp t
      = ∑ ch, (((a11 * F ch X1 Y1 + a21 * F ch X2 Y1) + a12 * F ch X1 Y2) + a22 * F ch X2 Y2) * L ch := by
  classical
  -- the flat indices as positions of the padded map
  have hs : ∀ (X Y : Fin s), X.val * s + Y.val < n := by
    intro X Y
    have hX := X.isLt; have hY := Y.isLt
    have : X.val * s + s ≤ s * s := by
      have : (X.val + 1) * s ≤ s * s := Nat.mul_le_mul_right s (by omega)
      rw [Nat.add_mul, Nat.one_mul] at this; exact this
    omega
  set p11 : Fin n := ⟨X1.val * s + Y1.val, hs X1 Y1⟩ with hp11
  set p12 : Fin n := ⟨X1.val * s + Y2.val, hs X1 Y2⟩ with hp12
  set p21 : Fin n := ⟨X2.val * s + Y1.val, hs X2 Y1⟩ with hp21
  set p22 : Fin n := ⟨X2.val * s + Y2.val, hs X2 Y2⟩ with hp22
  have hw : ∀ (I : BitVec 32) (p : Fin n), I.toNat = p.val → ∀ t : Fin n, (BitVec.ofNat 32 t.val = I) ↔ t = p := by
    intro I p hI t
    constructor
    · intro h
      apply Fin.ext
      rw [← hI, ← h, BitVec.toNat_ofNat]
      exact (Nat.mod_eq_of_lt (by have := t.isLt; omega)).symm
    · intro h
      rw [h, ← hI]
      apply BitVec.eq_of_toNat_eq
      rw [BitVec.toNat_ofNat]
      exact Nat.mod_eq_of_lt I.isLt
  have hspos : 0 < s := Nat.pos_of_ne_zero (fun h => by subst h; exact X1.elim0)
  have hdiv : ∀ t : ℕ, t < s * s → t / s < s := fun t ht => Nat.div_lt_of_lt_mul ht
  have hmod : ∀ t : ℕ, t % s < s := fun t => Nat.mod_lt _ hspos
  have hss : ∀ (X Y : Fin s), X.val * s + Y.val < s * s := by
    intro X Y
    have hX := X.isLt; have hY := Y.isLt
    have : (X.val + 1) * s ≤ s * s := Nat.mul_le_mul_right s (by omega)
    rw [Nat.add_mul, Nat.one_mul] at this; omega
  -- real witnesses
  choose Fr hFr using fun ch a b => exists_real (hF ch a b)
  choose Lr hLr using fun ch => exists_real (hL ch)
  obtain ⟨r11, rfl⟩ := exists_real h11
  obtain ⟨r12, rfl⟩ := exists_real h12
  obtain ⟨r21, rfl⟩ := exists_real h21
  obtain ⟨r22, rfl⟩ := exists_real h22
  -- the projected map as a real function of the position, zero on the padding
  let g : Fin n → ℝ := fun t =>
    if h : t.val < s * s then ∑ ch, Fr ch ⟨t.val / s, hdiv _ h⟩ ⟨t.val % s, hmod _⟩ * Lr ch else 0
  have hg : ∀ (X Y : Fin s) (p : Fin n), p.val = X.val * s + Y.val → g p = ∑ ch, Fr ch X Y * Lr ch := by
    intro X Y p hp
    have hlt : p.val < s * s := by rw [hp]; exact hss X Y
    have hq : p.val / s = X.val := by
      rw [hp, Nat.mul_comm, Nat.mul_add_div hspos, Nat.div_eq_of_lt Y.isLt, Nat.add_zero]
    have hr : p.val % s = Y.val := by
      rw [hp, Nat.mul_comm, Nat.mul_add_mod, Nat.mod_eq_of_lt Y.isLt]
    show (if h : p.val < s * s then ∑ ch, Fr ch ⟨p.val / s, hdiv _ h⟩ ⟨p.val % s, hmod _⟩ * Lr ch else 0) = _
    rw [dif_pos hlt]
    refine Finset.sum_congr rfl fun ch _ => ?_
    rw [show (⟨p.val / s, hdiv _ hlt⟩ : Fin s) = X from Fin.ext hq, show (⟨p.val % s, hmod _⟩ : Fin s) = Y from Fin.ext hr]
  have hfpg : ∀ t : Fin n, t.val < s * s → fp t = (g t : EReal) := by
    intro t ht
    rw [hfp t ⟨t.val / s, hdiv _ ht⟩ ⟨t.val % s, hmod _⟩ (Nat.div_add_mod' t.val s).symm,
      hg ⟨t.val / s, hdiv _ ht⟩ ⟨t.val % s, hmod _⟩ t (Nat.div_add_mod' t.val s).symm, coe_sum]
    refine Finset.sum_congr rfl fun ch _ => ?_
    rw [hFr, hLr, EReal.coe_mul]
  have hone : ∀ (c : Prop) [Decidable c], (if c then (1 : EReal) else 0) = (((if c then (1 : ℝ) else 0) : ℝ) : EReal) := by
    intro c _; split_ifs <;> simp
  have key : ∀ t : Fin n,
      ((((if BitVec.ofNat 32 t.val = I11 then (1 : EReal) else 0) * (r11 : EReal)
          + (if BitVec.ofNat 32 t.val = I12 then (1 : EReal) else 0) * (r12 : EReal))
          + (if BitVec.ofNat 32 t.val = I21 then (1 : EReal) else 0) * (r21 : EReal))
          + (if BitVec.ofNat 32 t.val = I22 then (1 : EReal) else 0) * (r22 : EReal)) * fp t
        = ((((((if t = p11 then (1 : ℝ) else 0) * r11 + (if t = p12 then (1 : ℝ) else 0) * r12)
          + (if t = p21 then (1 : ℝ) else 0) * r21) + (if t = p22 then (1 : ℝ) else 0) * r22) * g t : ℝ) : EReal) := by
    intro t
    have c11 := hw I11 p11 e11 t
    have c12 := hw I12 p12 e12 t
    have c21 := hw I21 p21 e21 t
    have c22 := hw I22 p22 e22 t
    simp only [c11, c12, c21, c22]
    by_cases ht : t.val < s * s
    · rw [hfpg t ht]
      simp only [hone, ← EReal.coe_mul, ← EReal.coe_add]
    · have n11 : t ≠ p11 := fun h => ht (by rw [h]; exact hss X1 Y1)
      have n12 : t ≠ p12 := fun h => ht (by rw [h]; exact hss X1 Y2)
      have n21 : t ≠ p21 := fun h => ht (by rw [h]; exact hss X2 Y1)
      have n22 : t ≠ p22 := fun h => ht (by rw [h]; exact hss X2 Y2)
      simp only [if_neg n11, if_neg n12, if_neg n21, if_neg n22, zero_mul, add_zero, EReal.coe_zero]
  rw [Finset.sum_congr rfl fun t _ => key t, ← coe_sum, row_pick_real g r11 r12 r21 r22 p11 p12 p21 p22,
    hg X1 Y1 p11 rfl, hg X2 Y1 p21 rfl, hg X1 Y2 p12 rfl, hg X2 Y2 p22 rfl]
  have hR : ∀ ch, (((( r11 : EReal) * F ch X1 Y1 + (r21 : EReal) * F ch X2 Y1) + (r12 : EReal) * F ch X1 Y2) + (r22 : EReal) * F ch X2 Y2) * L ch
      = (((((r11 * Fr ch X1 Y1 + r21 * Fr ch X2 Y1) + r12 * Fr ch X1 Y2) + r22 * Fr ch X2 Y2) * Lr ch : ℝ) : EReal) := by
    intro ch
    rw [hFr, hFr, hFr, hFr, hLr]
    simp only [← EReal.coe_mul, ← EReal.coe_add]
  rw [Finset.sum_congr rfl fun ch _ => hR ch, ← coe_sum]
  congr 1
  simp only [Finset.mul_sum, ← Finset.sum_add_distrib]
  refine Finset.sum_congr rfl fun ch _ => ?_
  ring

end Cert.LibSelectAssemble
-- ==== Proof.PrefixContrib.lean ====
/-
  One map's contribution to the projected features, from the kernel's side.

  For one vertex with clipped image coordinates `x`, `y` (real numbers in `[0, 223]`) and one feature map of side
  `s` and cell size `c`, the selection row built from the four flat indices and the four weights, multiplied with
  the projected and padded map, equals the four-corner weighted sample of the map's channels combined with the
  channel weights.  The corners are the cells `lo`/`hi` of `x` and of `y`, which lie inside the map.
-/
import proofs.«120270_j2259152797813_2_alg».proof.Proof.PrefixChain
import proofs.«120270_j2259152797813_2_alg».proof.Proof.LibSelectAssemble

noncomputable section

namespace Cert.Proof.Chain

open Idealize.ShloMosaic

/-- A signed word as a cell of a map of side `s`, cut into the map. -/
def cell (s : ℕ) (hs : 0 < s) (w : BitVec 32) : Fin s := ⟨min w.toInt.toNat (s - 1), by omega⟩

theorem cell_val (s : ℕ) (hs : 0 < s) (w : BitVec 32) (h : 0 ≤ w.toInt ∧ w.toInt < s) : (cell s hs w).val = w.toInt.toNat := by
  show min w.toInt.toNat (s - 1) = _
  apply min_eq_left
  omega

/-- The coordinate rounded down lies inside the map: the largest clipped coordinate, 223, falls in the last cell. -/
theorem lo_in_map (cb : BitVec 32) (c : ℝ) (s : ℕ) (hc : (FloatOps.ofBits (F := Ideal) .f32 cb : EReal) = (c : EReal)) (hcpos : 0 < c)
    (hs : (223 : ℝ) / c < (s : ℝ)) (hbig : (223 : ℝ) / c < 2147483646) (r : ℝ) (h0 : 0 ≤ r) (h1 : r ≤ 223) :
    0 ≤ (lo cb (r : EReal)).toInt ∧ (lo cb (r : EReal)).toInt < s := by
  have hq0 : 0 ≤ r / c := div_nonneg h0 hcpos.le
  have hq1 : r / c ≤ 223 / c := div_le_div_of_nonneg_right h1 hcpos.le
  have e : (lo cb (r : EReal)).toInt = ⌊r / c⌋ := by
    unfold lo
    rw [q_coe cb c hc hcpos.ne' r]
    exact LibGridCoordinate.fptosi_floor (r / c) hq0 (by linarith)
  rw [e]
  have hlt : ⌊r / c⌋ < (s : ℤ) := Int.floor_lt.mpr (by push_cast; linarith)
  have hnn : 0 ≤ ⌊r / c⌋ := Int.floor_nonneg.mpr hq0
  exact ⟨hnn, hlt⟩

/-- One map's term of the projected features at one vertex and one output column: the four-corner weighted sample of
    the map's channels at the vertex's cells, combined with the channel weights. -/
def mapTerm {C s : ℕ} (hs : 0 < s) (cb smax : BitVec 32) (F : Fin C → Fin s → Fin s → EReal) (L : Fin C → EReal) (x y : EReal) : EReal :=
  ∑ ch, (((w11 cb smax x y * F ch (cell s hs (lo cb x)) (cell s hs (lo cb y))
        + w21 cb smax x y * F ch (cell s hs (hi cb smax x)) (cell s hs (lo cb y)))
        + w12 cb smax x y * F ch (cell s hs (lo cb x)) (cell s hs (hi cb smax y)))
        + w22 cb smax x y * F ch (cell s hs (hi cb smax x)) (cell s hs (hi cb smax y))) * L ch

/-- THE CONTRIBUTION of one map at one vertex and one output column. -/
theorem chain_contrib {C s n : ℕ} (hs : 0 < s) (hn : s * s ≤ n) (hn32 : n < 4294967296) (hss : s * s < 2147483648)
    (cb smax sW : BitVec 32) (cval : ℝ) (hc : (FloatOps.ofBits (F := Ideal) .f32 cb : EReal) = (cval : EReal)) (hcpos : 0 < cval)
    (hsr : (223 : ℝ) / cval < (s : ℝ)) (hbig : (223 : ℝ) / cval < 2147483646)
    (hsmax : smax.toInt = (s : ℤ) - 1) (hsW : sW = BitVec.ofNat 32 s)
    (F : Fin C → Fin s → Fin s → EReal) (hF : ∀ ch a b, F ch a b ≠ ⊤ ∧ F ch a b ≠ ⊥)
    (L : Fin C → EReal) (hL : ∀ ch, L ch ≠ ⊤ ∧ L ch ≠ ⊥)
    (x y : EReal) (hx : ∃ r : ℝ, x = (r : EReal) ∧ 0 ≤ r ∧ r ≤ 223) (hy : ∃ r : ℝ, y = (r : EReal) ∧ 0 ≤ r ∧ r ≤ 223)
    (fp : Fin n → EReal)
    (hfp : ∀ (t : Fin n) (X Y : Fin s), t.val = X.val * s + Y.val → fp t = ∑ ch, F ch X Y * L ch) :
    ∑ t : Fin n, ((((if BitVec.ofNat 32 t.val = i11 cb sW x y then (1 : EReal) else 0) * w11 cb smax x y
          + (if BitVec.ofNat 32 t.val = i12 cb smax sW x y then (1 : EReal) else 0) * w12 cb smax x y)
          + (if BitVec.ofNat 32 t.val = i21 cb smax sW x y then (1 : EReal) else 0) * w21 cb smax x y)
          + (if BitVec.ofNat 32 t.val = i22 cb smax sW x y then (1 : EReal) else 0) * w22 cb smax x y) * fp t
      = mapTerm hs cb smax F L x y := by
  unfold mapTerm
  obtain ⟨rx, rfl, hx0, hx1⟩ := hx
  obtain ⟨ry, rfl, hy0, hy1⟩ := hy
  have hs1 : 1 ≤ s := hs
  have lx := lo_in_map cb cval s hc hcpos hsr hbig rx hx0 hx1
  have ly := lo_in_map cb cval s hc hcpos hsr hbig ry hy0 hy1
  have ux := hi_range cb smax cval s hc hcpos hsmax hs1 hbig rx hx0 hx1
  have uy := hi_range cb smax cval s hc hcpos hsmax hs1 hbig ry hy0 hy1
  refine LibSelectAssemble.sel_assemble hn hn32 F hF L hL _ _ _ _ (w11_finite ..) (w12_finite ..) (w21_finite ..) (w22_finite ..)
    (cell s hs (lo cb rx)) (cell s hs (hi cb smax rx)) (cell s hs (lo cb ry)) (cell s hs (hi cb smax ry)) _ _ _ _ ?_ ?_ ?_ ?_ fp hfp
  · rw [cell_val s hs _ lx, cell_val s hs _ ly]; exact flat_toNat _ _ sW s hsW hss lx ly
  · rw [cell_val s hs _ lx, cell_val s hs _ uy]; exact flat_toNat _ _ sW s hsW hss lx uy
  · rw [cell_val s hs _ ux, cell_val s hs _ ly]; exact flat_toNat _ _ sW s hsW hss ux ly
  · rw [cell_val s hs _ ux, cell_val s hs _ uy]; exact flat_toNat _ _ sW s hsW hss ux uy

end Cert.Proof.Chain

end
-- ==== Proof.KI.Contrib0.lean ====
import proofs.«120270_j2259152797813_2_alg».proof.Proof.KI.ColsB0
import proofs.«120270_j2259152797813_2_alg».proof.Proof.KI.R0SelFinal
import proofs.«120270_j2259152797813_2_alg».proof.Proof.PrefixFp
import proofs.«120270_j2259152797813_2_alg».proof.Proof.PrefixContrib
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Cert.Proof

variable (m : (ℓ : Loc nD τ sig) → Buf (Elt Ideal) ℓ) (ρ : Dev nD → PrngReg)

/-! # Map 0's contribution to the projected features, vertex by vertex

Region 0's result at vertex `v` and output column `j` is the four-corner weighted sample of the map's channels
at the vertex's cells, combined with the rows 0 … of the linear layer. -/

set_option maxHeartbeats 4000000 in
theorem contrib0 (c : Dev nD) (v : Fin 8192) (j : Fin 128)
    (hF : ∀ i, (show S1x256x56x56.Idx → EReal from W0 m ρ c (Proc.devRef .tc main_arg0)) i ≠ ⊤ ∧ (show S1x256x56x56.Idx → EReal from W0 m ρ c (Proc.devRef .tc main_arg0)) i ≠ ⊥)
    (hL : ∀ i, (show S3840x128.Idx → EReal from W0 m ρ c (Proc.devRef .tc main_arg7)) i ≠ ⊤ ∧ (show S3840x128.Idx → EReal from W0 m ρ c (Proc.devRef .tc main_arg7)) i ≠ ⊥)
    (x y : EReal) (ex : x = (show S8192.Idx → EReal from W4 m ρ c (Proc.devRef .tc main_v23)) (ix1 v)) (ey : y = (show S8192.Idx → EReal from W4 m ρ c (Proc.devRef .tc main_v14)) (ix1 v))
    (hx : ∃ r : ℝ, x = (r : EReal) ∧ 0 ≤ r ∧ r ≤ 223) (hy : ∃ r : ℝ, y = (r : EReal) ∧ 0 ≤ r ∧ r ≤ 223) :
    (show S8192x128.Idx → EReal from W8 m ρ c (Proc.devRef .tc main_v223)) (ix2 v j)
      = Chain.mapTerm (C := 256) (s := 56) (by decide) 0x40800000#32 55#32
          (fun (ch : Fin 256) (X Y : Fin 56) => (show S1x256x56x56.Idx → EReal from W0 m ρ c (Proc.devRef .tc main_arg0)) (ix4 (0 : Fin 1) ch X Y))
          (fun (ch : Fin 256) => (show S3840x128.Idx → EReal from W0 m ρ c (Proc.devRef .tc main_arg7)) (ix2 (⟨0 + ch.val, by have := ch.isLt; omega⟩ : Fin 3840) j)) x y := by
  have hW : (show S8192x128.Idx → EReal from W8 m ρ c (Proc.devRef .tc main_v223)) = (dat0 (V7 m ρ) c).arrAt 9 cfg0.N :=
    W8_arr m ρ c 9
  rw [hW, final9_0 (V7 m ρ) c]
  show (∑ t : Fin 3200, (((((if BitVec.ofNat 32 t.val = (show S8192x1.Idx → BitVec 32 from W7 m ρ c (Proc.devRef .tc main_v215)) (ix2 v 0) then (1 : EReal) else 0) * (show S8192x1.Idx → EReal from W7 m ρ c (Proc.devRef .tc main_v219)) (ix2 v 0)
        + (if BitVec.ofNat 32 t.val = (show S8192x1.Idx → BitVec 32 from W7 m ρ c (Proc.devRef .tc main_v216)) (ix2 v 0) then (1 : EReal) else 0) * (show S8192x1.Idx → EReal from W7 m ρ c (Proc.devRef .tc main_v220)) (ix2 v 0))
        + (if BitVec.ofNat 32 t.val = (show S8192x1.Idx → BitVec 32 from W7 m ρ c (Proc.devRef .tc main_v217)) (ix2 v 0) then (1 : EReal) else 0) * (show S8192x1.Idx → EReal from W7 m ρ c (Proc.devRef .tc main_v221)) (ix2 v 0))
        + (if BitVec.ofNat 32 t.val = (show S8192x1.Idx → BitVec 32 from W7 m ρ c (Proc.devRef .tc main_v218)) (ix2 v 0) then (1 : EReal) else 0) * (show S8192x1.Idx → EReal from W7 m ρ c (Proc.devRef .tc main_v222)) (ix2 v 0))
      * (show S3200x128.Idx → EReal from W7 m ρ c (Proc.devRef .tc main_v214)) (ix2 t j))) = _
  have c1 : (show S8192x1.Idx → BitVec 32 from W7 m ρ c (Proc.devRef .tc main_v215)) (ix2 v 0) = Chain.i11 0x40800000#32 56#32 x y := by rw [ex, ey]; exact col0_i11 m ρ c v
  have c2 : (show S8192x1.Idx → BitVec 32 from W7 m ρ c (Proc.devRef .tc main_v216)) (ix2 v 0) = Chain.i12 0x40800000#32 55#32 56#32 x y := by rw [ex, ey]; exact col0_i12 m ρ c v
  have c3 : (show S8192x1.Idx → BitVec 32 from W7 m ρ c (Proc.devRef .tc main_v217)) (ix2 v 0) = Chain.i21 0x40800000#32 55#32 56#32 x y := by rw [ex, ey]; exact col0_i21 m ρ c v
  have c4 : (show S8192x1.Idx → BitVec 32 from W7 m ρ c (Proc.devRef .tc main_v218)) (ix2 v 0) = Chain.i22 0x40800000#32 55#32 56#32 x y := by rw [ex, ey]; exact col0_i22 m ρ c v
  have c5 : (show S8192x1.Idx → EReal from W7 m ρ c (Proc.devRef .tc main_v219)) (ix2 v 0) = Chain.w11 0x40800000#32 55#32 x y := by rw [ex, ey]; exact col0_w11 m ρ c v
  have c6 : (show S8192x1.Idx → EReal from W7 m ρ c (Proc.devRef .tc main_v220)) (ix2 v 0) = Chain.w12 0x40800000#32 55#32 x y := by rw [ex, ey]; exact col0_w12 m ρ c v
  have c7 : (show S8192x1.Idx → EReal from W7 m ρ c (Proc.devRef .tc main_v221)) (ix2 v 0) = Chain.w21 0x40800000#32 55#32 x y := by rw [ex, ey]; exact col0_w21 m ρ c v
  have c8 : (show S8192x1.Idx → EReal from W7 m ρ c (Proc.devRef .tc main_v222)) (ix2 v 0) = Chain.w22 0x40800000#32 55#32 x y := by rw [ex, ey]; exact col0_w22 m ρ c v
  rw [c1, c2, c3, c4, c5, c6, c7, c8]
  exact Chain.chain_contrib (C := 256) (s := 56) (n := 3200) (by decide) (by decide) (by decide) (by decide)
    0x40800000#32 55#32 56#32 4 Chain.ofBits_four (by norm_num) (by norm_num) (by norm_num) (by decide) (by decide)
    (fun (ch : Fin 256) (X Y : Fin 56) => (show S1x256x56x56.Idx → EReal from W0 m ρ c (Proc.devRef .tc main_arg0)) (ix4 (0 : Fin 1) ch X Y)) (fun ch a b => hF _) (fun (ch : Fin 256) => (show S3840x128.Idx → EReal from W0 m ρ c (Proc.devRef .tc main_arg7)) (ix2 (⟨0 + ch.val, by have := ch.isLt; omega⟩ : Fin 3840) j)) (fun ch => hL _) x y hx hy
    (fun t => (show S3200x128.Idx → EReal from W7 m ρ c (Proc.devRef .tc main_v214)) (ix2 t j))
    (fun t X Y h => fp0_apply m ρ c t j X Y h)

end Cert.KernelIdeal.Hand

end
-- ==== Proof.KI.ColsA1.lean ====
import proofs.«120270_j2259152797813_2_alg».proof.Proof.KI.Run
import proofs.«120270_j2259152797813_2_alg».proof.Proof.PrefixChain
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Cert.Proof

variable (m : (ℓ : Loc nD τ sig) → Buf (Elt Ideal) ℓ) (ρ : Dev nD → PrngReg)

/-! # Map 1: the flat indices and weights after the long host stretch, as the chain functions of the two clipped
coordinates, vertex by vertex -/

set_option maxHeartbeats 4000000 in
/-- The vector `i11` of map 1: at every vertex the chain function of the vertex's two clipped coordinates. -/
theorem W5_main_v106 (c : Dev nD) : (W5 m ρ c (Proc.devRef .tc main_v106) : S8192.Idx → BitVec 32)
    = fun i => Chain.i11 0x41000000#32 28#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v106) = _
  generalize W4 m ρ c = V
  after_results_simp
  rfl

set_option maxHeartbeats 4000000 in
/-- The vector `i12` of map 1: at every vertex the chain function of the vertex's two clipped coordinates. -/
theorem W5_main_v109 (c : Dev nD) : (W5 m ρ c (Proc.devRef .tc main_v109) : S8192.Idx → BitVec 32)
    = fun i => Chain.i12 0x41000000#32 27#32 28#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v109) = _
  generalize W4 m ρ c = V
  after_results_simp
  rfl

set_option maxHeartbeats 4000000 in
/-- The vector `i21` of map 1: at every vertex the chain function of the vertex's two clipped coordinates. -/
theorem W5_main_v112 (c : Dev nD) : (W5 m ρ c (Proc.devRef .tc main_v112) : S8192.Idx → BitVec 32)
    = fun i => Chain.i21 0x41000000#32 27#32 28#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v112) = _
  generalize W4 m ρ c = V
  after_results_simp
  rfl

set_option maxHeartbeats 4000000 in
/-- The vector `i22` of map 1: at every vertex the chain function of the vertex's two clipped coordinates. -/
theorem W5_main_v115 (c : Dev nD) : (W5 m ρ c (Proc.devRef .tc main_v115) : S8192.Idx → BitVec 32)
    = fun i => Chain.i22 0x41000000#32 27#32 28#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v115) = _
  generalize W4 m ρ c = V
  after_results_simp
  rfl

set_option maxHeartbeats 4000000 in
/-- The vector `w11` of map 1: at every vertex the chain function of the vertex's two clipped coordinates. -/
theorem W5_main_v91 (c : Dev nD) : (W5 m ρ c (Proc.devRef .tc main_v91) : S8192.Idx → EReal)
    = fun i => Chain.w11 0x41000000#32 27#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v91) = _
  generalize W4 m ρ c = V
  after_results_simp
  rfl

set_option maxHeartbeats 4000000 in
/-- The vector `w12` of map 1: at every vertex the chain function of the vertex's two clipped coordinates. -/
theorem W5_main_v95 (c : Dev nD) : (W5 m ρ c (Proc.devRef .tc main_v95) : S8192.Idx → EReal)
    = fun i => Chain.w12 0x41000000#32 27#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v95) = _
  generalize W4 m ρ c = V
  after_results_simp
  rfl

set_option maxHeartbeats 4000000 in
/-- The vector `w21` of map 1: at every vertex the chain function of the vertex's two clipped coordinates. -/
theorem W5_main_v99 (c : Dev nD) : (W5 m ρ c (Proc.devRef .tc main_v99) : S8192.Idx → EReal)
    = fun i => Chain.w21 0x41000000#32 27#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v99) = _
  generalize W4 m ρ c = V
  after_results_simp
  rfl

set_option maxHeartbeats 4000000 in
/-- The vector `w22` of map 1: at every vertex the chain function of the vertex's two clipped coordinates. -/
theorem W5_main_v103 (c : Dev nD) : (W5 m ρ c (Proc.devRef .tc main_v103) : S8192.Idx → EReal)
    = fun i => Chain.w22 0x41000000#32 27#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v103) = _
  generalize W4 m ρ c = V
  after_results_simp
  rfl

end Cert.KernelIdeal.Hand

end
-- ==== Proof.KI.ColsB1.lean ====
import proofs.«120270_j2259152797813_2_alg».proof.Proof.KI.ColsA1
import proofs.«120270_j2259152797813_2_alg».proof.Proof.LibColumnCast
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Cert.Proof

variable (m : (ℓ : Loc nD τ sig) → Buf (Elt Ideal) ℓ) (ρ : Dev nD → PrngReg)
open Cert.LibColumnCast

/-! # Map 1: the eight index and weight columns as region 1 finds them, vertex by vertex -/

set_option maxHeartbeats 2000000 in
/-- Column `i11` of map 1 at vertex `v`: the chain function of the vertex's two clipped coordinates. -/
theorem col1_i11 (c : Dev nD) (v : Fin 8192) :
    (W11 m ρ c (Proc.devRef .tc main_v231) : S8192x1.Idx → BitVec 32) (ix2 v 0)
      = Chain.i11 0x41000000#32 28#32 ((W4 m ρ c (Proc.devRef .tc main_v23) : S8192.Idx → EReal) (ix1 v)) ((W4 m ρ c (Proc.devRef .tc main_v14) : S8192.Idx → EReal) (ix1 v)) := by
  have e1 : (W11 m ρ c (Proc.devRef .tc main_v231) : S8192x1.Idx → BitVec 32)
      = shapeCast S8192x1 (W8 m ρ c (Proc.devRef .tc main_v106) : S8192.Idx → BitVec 32) shapeCasts_S8192_S8192x1 := by
    show StableHlo.after hostOps1_2 (StableHlo.after hostOps1_1 (StableHlo.after hostOps1 (W8 m ρ c))) (Proc.devRef .tc main_v231) = _
    generalize W8 m ρ c = V
    after_results_simp
    try rfl
  have k7 : W7 m ρ c (Proc.devRef .tc main_v106) = W5 m ρ c (Proc.devRef .tc main_v106) := by
    show StableHlo.after hostOps0_6 (StableHlo.after hostOps0_5 (W5 m ρ c)) (Proc.devRef .tc main_v106) = _
    generalize W5 m ρ c = V
    after_results_simp
  have k8 : W8 m ρ c (Proc.devRef .tc main_v106) = W7 m ρ c (Proc.devRef .tc main_v106) := W8_of_ne m ρ c main_v106 (by decide)
  rw [e1, shapeCast_a_a1_apply, k8, k7, W5_main_v106]

set_option maxHeartbeats 2000000 in
/-- Column `i12` of map 1 at vertex `v`: the chain function of the vertex's two clipped coordinates. -/
theorem col1_i12 (c : Dev nD) (v : Fin 8192) :
    (W11 m ρ c (Proc.devRef .tc main_v232) : S8192x1.Idx → BitVec 32) (ix2 v 0)
      = Chain.i12 0x41000000#32 27#32 28#32 ((W4 m ρ c (Proc.devRef .tc main_v23) : S8192.Idx → EReal) (ix1 v)) ((W4 m ρ c (Proc.devRef .tc main_v14) : S8192.Idx → EReal) (ix1 v)) := by
  have e1 : (W11 m ρ c (Proc.devRef .tc main_v232) : S8192x1.Idx → BitVec 32)
      = shapeCast S8192x1 (W8 m ρ c (Proc.devRef .tc main_v109) : S8192.Idx → BitVec 32) shapeCasts_S8192_S8192x1 := by
    show StableHlo.after hostOps1_2 (StableHlo.after hostOps1_1 (StableHlo.after hostOps1 (W8 m ρ c))) (Proc.devRef .tc main_v232) = _
    generalize W8 m ρ c = V
    after_results_simp
    try rfl
  have k7 : W7 m ρ c (Proc.devRef .tc main_v109) = W5 m ρ c (Proc.devRef .tc main_v109) := by
    show StableHlo.after hostOps0_6 (StableHlo.after hostOps0_5 (W5 m ρ c)) (Proc.devRef .tc main_v109) = _
    generalize W5 m ρ c = V
    after_results_simp
  have k8 : W8 m ρ c (Proc.devRef .tc main_v109) = W7 m ρ c (Proc.devRef .tc main_v109) := W8_of_ne m ρ c main_v109 (by decide)
  rw [e1, shapeCast_a_a1_apply, k8, k7, W5_main_v109]

set_option maxHeartbeats 2000000 in
/-- Column `i21` of map 1 at vertex `v`: the chain function of the vertex's two clipped coordinates. -/
theorem col1_i21 (c : Dev nD) (v : Fin 8192) :
    (W11 m ρ c (Proc.devRef .tc main_v233) : S8192x1.Idx → BitVec 32) (ix2 v 0)
      = Chain.i21 0x41000000#32 27#32 28#32 ((W4 m ρ c (Proc.devRef .tc main_v23) : S8192.Idx → EReal) (ix1 v)) ((W4 m ρ c (Proc.devRef .tc main_v14) : S8192.Idx → EReal) (ix1 v)) := by
  have e1 : (W11 m ρ c (Proc.devRef .tc main_v233) : S8192x1.Idx → BitVec 32)
      = shapeCast S8192x1 (W8 m ρ c (Proc.devRef .tc main_v112) : S8192.Idx → BitVec 32) shapeCasts_S8192_S8192x1 := by
    show StableHlo.after hostOps1_2 (StableHlo.after hostOps1_1 (StableHlo.after hostOps1 (W8 m ρ c))) (Proc.devRef .tc main_v233) = _
    generalize W8 m ρ c = V
    after_results_simp
    try rfl
  have k7 : W7 m ρ c (Proc.devRef .tc main_v112) = W5 m ρ c (Proc.devRef .tc main_v112) := by
    show StableHlo.after hostOps0_6 (StableHlo.after hostOps0_5 (W5 m ρ c)) (Proc.devRef .tc main_v112) = _
    generalize W5 m ρ c = V
    after_results_simp
  have k8 : W8 m ρ c (Proc.devRef .tc main_v112) = W7 m ρ c (Proc.devRef .tc main_v112) := W8_of_ne m ρ c main_v112 (by decide)
  rw [e1, shapeCast_a_a1_apply, k8, k7, W5_main_v112]

set_option maxHeartbeats 2000000 in
/-- Column `i22` of map 1 at vertex `v`: the chain function of the vertex's two clipped coordinates. -/
theorem col1_i22 (c : Dev nD) (v : Fin 8192) :
    (W11 m ρ c (Proc.devRef .tc main_v234) : S8192x1.Idx → BitVec 32) (ix2 v 0)
      = Chain.i22 0x41000000#32 27#32 28#32 ((W4 m ρ c (Proc.devRef .tc main_v23) : S8192.Idx → EReal) (ix1 v)) ((W4 m ρ c (Proc.devRef .tc main_v14) : S8192.Idx → EReal) (ix1 v)) := by
  have e1 : (W11 m ρ c (Proc.devRef .tc main_v234) : S8192x1.Idx → BitVec 32)
      = shapeCast S8192x1 (W8 m ρ c (Proc.devRef .tc main_v115) : S8192.Idx → BitVec 32) shapeCasts_S8192_S8192x1 := by
    show StableHlo.after hostOps1_2 (StableHlo.after hostOps1_1 (StableHlo.after hostOps1 (W8 m ρ c))) (Proc.devRef .tc main_v234) = _
    generalize W8 m ρ c = V
    after_results_simp
    try rfl
  have k7 : W7 m ρ c (Proc.devRef .tc main_v115) = W5 m ρ c (Proc.devRef .tc main_v115) := by
    show StableHlo.after hostOps0_6 (StableHlo.after hostOps0_5 (W5 m ρ c)) (Proc.devRef .tc main_v115) = _
    generalize W5 m ρ c = V
    after_results_simp
  have k8 : W8 m ρ c (Proc.devRef .tc main_v115) = W7 m ρ c (Proc.devRef .tc main_v115) := W8_of_ne m ρ c main_v115 (by decide)
  rw [e1, shapeCast_a_a1_apply, k8, k7, W5_main_v115]

set_option maxHeartbeats 2000000 in
/-- Column `w11` of map 1 at vertex `v`: the chain function of the vertex's two clipped coordinates. -/
theorem col1_w11 (c : Dev nD) (v : Fin 8192) :
    (W11 m ρ c (Proc.devRef .tc main_v235) : S8192x1.Idx → EReal) (ix2 v 0)
      = Chain.w11 0x41000000#32 27#32 ((W4 m ρ c (Proc.devRef .tc main_v23) : S8192.Idx → EReal) (ix1 v)) ((W4 m ρ c (Proc.devRef .tc main_v14) : S8192.Idx → EReal) (ix1 v)) := by
  have e1 : (W11 m ρ c (Proc.devRef .tc main_v235) : S8192x1.Idx → EReal)
      = shapeCast S8192x1 (W8 m ρ c (Proc.devRef .tc main_v91) : S8192.Idx → EReal) shapeCasts_S8192_S8192x1 := by
    show StableHlo.after hostOps1_2 (StableHlo.after hostOps1_1 (StableHlo.after hostOps1 (W8 m ρ c))) (Proc.devRef .tc main_v235) = _
    generalize W8 m ρ c = V
    after_results_simp
    try rfl
  have k7 : W7 m ρ c (Proc.devRef .tc main_v91) = W5 m ρ c (Proc.devRef .tc main_v91) := by
    show StableHlo.after hostOps0_6 (StableHlo.after hostOps0_5 (W5 m ρ c)) (Proc.devRef .tc main_v91) = _
    generalize W5 m ρ c = V
    after_results_simp
  have k8 : W8 m ρ c (Proc.devRef .tc main_v91) = W7 m ρ c (Proc.devRef .tc main_v91) := W8_of_ne m ρ c main_v91 (by decide)
  rw [e1, shapeCast_a_a1_apply, k8, k7, W5_main_v91]

set_option maxHeartbeats 2000000 in
/-- Column `w12` of map 1 at vertex `v`: the chain function of the vertex's two clipped coordinates. -/
theorem col1_w12 (c : Dev nD) (v : Fin 8192) :
    (W11 m ρ c (Proc.devRef .tc main_v236) : S8192x1.Idx → EReal) (ix2 v 0)
      = Chain.w12 0x41000000#32 27#32 ((W4 m ρ c (Proc.devRef .tc main_v23) : S8192.Idx → EReal) (ix1 v)) ((W4 m ρ c (Proc.devRef .tc main_v14) : S8192.Idx → EReal) (ix1 v)) := by
  have e1 : (W11 m ρ c (Proc.devRef .tc main_v236) : S8192x1.Idx → EReal)
      = shapeCast S8192x1 (W8 m ρ c (Proc.devRef .tc main_v95) : S8192.Idx → EReal) shapeCasts_S8192_S8192x1 := by
    show StableHlo.after hostOps1_2 (StableHlo.after hostOps1_1 (StableHlo.after hostOps1 (W8 m ρ c))) (Proc.devRef .tc main_v236) = _
    generalize W8 m ρ c = V
    after_results_simp
    try rfl
  have k7 : W7 m ρ c (Proc.devRef .tc main_v95) = W5 m ρ c (Proc.devRef .tc main_v95) := by
    show StableHlo.after hostOps0_6 (StableHlo.after hostOps0_5 (W5 m ρ c)) (Proc.devRef .tc main_v95) = _
    generalize W5 m ρ c = V
    after_results_simp
  have k8 : W8 m ρ c (Proc.devRef .tc main_v95) = W7 m ρ c (Proc.devRef .tc main_v95) := W8_of_ne m ρ c main_v95 (by decide)
  rw [e1, shapeCast_a_a1_apply, k8, k7, W5_main_v95]

set_option maxHeartbeats 2000000 in
/-- Column `w21` of map 1 at vertex `v`: the chain function of the vertex's two clipped coordinates. -/
theorem col1_w21 (c : Dev nD) (v : Fin 8192) :
    (W11 m ρ c (Proc.devRef .tc main_v237) : S8192x1.Idx → EReal) (ix2 v 0)
      = Chain.w21 0x41000000#32 27#32 ((W4 m ρ c (Proc.devRef .tc main_v23) : S8192.Idx → EReal) (ix1 v)) ((W4 m ρ c (Proc.devRef .tc main_v14) : S8192.Idx → EReal) (ix1 v)) := by
  have e1 : (W11 m ρ c (Proc.devRef .tc main_v237) : S8192x1.Idx → EReal)
      = shapeCast S8192x1 (W8 m ρ c (Proc.devRef .tc main_v99) : S8192.Idx → EReal) shapeCasts_S8192_S8192x1 := by
    show StableHlo.after hostOps1_2 (StableHlo.after hostOps1_1 (StableHlo.after hostOps1 (W8 m ρ c))) (Proc.devRef .tc main_v237) = _
    generalize W8 m ρ c = V
    after_results_simp
    try rfl
  have k7 : W7 m ρ c (Proc.devRef .tc main_v99) = W5 m ρ c (Proc.devRef .tc main_v99) := by
    show StableHlo.after hostOps0_6 (StableHlo.after hostOps0_5 (W5 m ρ c)) (Proc.devRef .tc main_v99) = _
    generalize W5 m ρ c = V
    after_results_simp
  have k8 : W8 m ρ c (Proc.devRef .tc main_v99) = W7 m ρ c (Proc.devRef .tc main_v99) := W8_of_ne m ρ c main_v99 (by decide)
  rw [e1, shapeCast_a_a1_apply, k8, k7, W5_main_v99]

set_option maxHeartbeats 2000000 in
/-- Column `w22` of map 1 at vertex `v`: the chain function of the vertex's two clipped coordinates. -/
theorem col1_w22 (c : Dev nD) (v : Fin 8192) :
    (W11 m ρ c (Proc.devRef .tc main_v238) : S8192x1.Idx → EReal) (ix2 v 0)
      = Chain.w22 0x41000000#32 27#32 ((W4 m ρ c (Proc.devRef .tc main_v23) : S8192.Idx → EReal) (ix1 v)) ((W4 m ρ c (Proc.devRef .tc main_v14) : S8192.Idx → EReal) (ix1 v)) := by
  have e1 : (W11 m ρ c (Proc.devRef .tc main_v238) : S8192x1.Idx → EReal)
      = shapeCast S8192x1 (W8 m ρ c (Proc.devRef .tc main_v103) : S8192.Idx → EReal) shapeCasts_S8192_S8192x1 := by
    show StableHlo.after hostOps1_2 (StableHlo.after hostOps1_1 (StableHlo.after hostOps1 (W8 m ρ c))) (Proc.devRef .tc main_v238) = _
    generalize W8 m ρ c = V
    after_results_simp
    try rfl
  have k7 : W7 m ρ c (Proc.devRef .tc main_v103) = W5 m ρ c (Proc.devRef .tc main_v103) := by
    show StableHlo.after hostOps0_6 (StableHlo.after hostOps0_5 (W5 m ρ c)) (Proc.devRef .tc main_v103) = _
    generalize W5 m ρ c = V
    after_results_simp
  have k8 : W8 m ρ c (Proc.devRef .tc main_v103) = W7 m ρ c (Proc.devRef .tc main_v103) := W8_of_ne m ρ c main_v103 (by decide)
  rw [e1, shapeCast_a_a1_apply, k8, k7, W5_main_v103]

end Cert.KernelIdeal.Hand

end
-- ==== Proof.KI.R1Sel.lean ====
import proofs.«120270_j2259152797813_2_alg».proof.Proof.Gen.KernelIdeal.Skeleton
import Idealize.ShloMosaic.Lib.ValueIdx
import Idealize.ShloMosaic.Lib.Pipeline.Value
import Idealize.ShloMosaic.PureOps.Ideal.Laws
import proofs.«120270_j2259152797813_2_alg».proof.Proof.LibOneHotMask

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! # Region 1: its payloads read at an entry, over the extended reals -/

/-- The block product at an entry: the sum over the 896 contracted positions of the entries' products. -/
theorem mm1_apply (A : FVec Ideal S256x896 .bf16) (B : FVec Ideal S896x128 .bf16) (a : Fin 256) (b : Fin 128) :
    FloatOps.matmul dot_S256x896_S896x128_S256x128_1_0_0_1_n_n none A B (constant (F := Ideal) S256x128 .f32 0x00000000#32) (ix2 a b)
      = ∑ k : Fin 896, A (ix2 a k) * B (ix2 k b) := by
  rw [Ideal.matmul_constant_zero_apply, ← Equiv.sum_comp (contrEquiv1 dot_S256x896_S896x128_S256x128_1_0_0_1_n_n 896 rfl rfl).symm]
  refine Finset.sum_congr rfl fun k _ => ?_
  have c2 := contrEquiv1_symm_val dot_S256x896_S896x128_S256x128_1_0_0_1_n_n 896 rfl rfl k
  have l2 : dot_S256x896_S896x128_S256x128_1_0_0_1_n_n.lhsIdx (ix2 a b) ((contrEquiv1 _ 896 rfl rfl).symm k) = ix2 a k := by
    funext ax; apply Fin.ext
    match ax with
    | ⟨0, _⟩ => simp [DotDims.lhsIdx, dot_S256x896_S896x128_S256x128_1_0_0_1_n_n]; rfl
    | ⟨1, _⟩ => simp [DotDims.lhsIdx, dot_S256x896_S896x128_S256x128_1_0_0_1_n_n]; exact c2
  have r2 : dot_S256x896_S896x128_S256x128_1_0_0_1_n_n.rhsIdx (ix2 a b) ((contrEquiv1 _ 896 rfl rfl).symm k) = ix2 k b := by
    funext ax; apply Fin.ext
    match ax with
    | ⟨0, _⟩ => simp [DotDims.rhsIdx, dot_S256x896_S896x128_S256x128_1_0_0_1_n_n]; exact c2
    | ⟨1, _⟩ => simp [DotDims.rhsIdx, dot_S256x896_S896x128_S256x128_1_0_0_1_n_n]; rfl
  rw [l2, r2]

/-- A column of 256 entries broadcast over 896 positions: the entry at row `r`, position `t` is the column's entry
    at row `r`. -/
theorem bcast1_apply {α : Type} (v : S256x1.Idx → α) (r : Fin 256) (t : Fin 896) :
    broadcastTo S256x896 v broadcasts_S256x1_S256x896 (ix2 r t) = v (ix2 r (0 : Fin 1)) := by
  refine broadcastTo_apply v broadcasts_S256x1_S256x896 (ix2 r t) (ix2 r (0 : Fin 1)) fun ax => ?_
  match ax with
  | ⟨0, _⟩ => rfl
  | ⟨1, _⟩ => rfl

/-- One corner's term of the selection matrix at row `r`, position `t`: the corner's weight at that row where the
    position is the corner's index, zero elsewhere. -/
theorem term1_apply (x : Vec Ideal S256x1 .i32) (w : Vec Ideal S256x1 .f32) (r : Fin 256) (t : Fin 896) :
    (mulf (sitofp .f32 (extui 32 (cmpi .eq (iota .tc S256x896 32 [1] iota_S256x896_d1_w32)
        (broadcastTo S256x896 (shapeCast S256x1 x shapeCasts_S256x1_S256x1) broadcasts_S256x1_S256x896)) natLt_1_32))
      (broadcastTo S256x896 (shapeCast S256x1 w shapeCasts_S256x1_S256x1) broadcasts_S256x1_S256x896) : FVec Ideal S256x896 .f32) (ix2 r t)
      = (if BitVec.ofNat 32 t.val = x (ix2 r (0 : Fin 1)) then (1 : EReal) else 0) * w (ix2 r (0 : Fin 1)) := by
  rw [mulf_apply, sitofp_apply, extui_apply]
  show FloatOps.sitofp (F := Ideal) .f32 ((IntOp.cmpi .eq (iota .tc S256x896 32 [1] iota_S256x896_d1_w32 (ix2 r t))
      (broadcastTo S256x896 (shapeCast S256x1 x shapeCasts_S256x1_S256x1) broadcasts_S256x1_S256x896 (ix2 r t))).setWidth 32)
    * broadcastTo S256x896 (shapeCast S256x1 w shapeCasts_S256x1_S256x1) broadcasts_S256x1_S256x896 (ix2 r t) = _
  rw [iota_single_apply, bcast1_apply, bcast1_apply, shapeCast_self, shapeCast_self, Cert.LibOneHotMask.mask_eq']

/-- The first three corners' terms of the selection matrix at an entry. -/
theorem pay2_1_apply (x0 : Vec Ideal S256x1 .i32) (x4 : Vec Ideal S256x1 .f32) (x1 : Vec Ideal S256x1 .i32) (x5 : Vec Ideal S256x1 .f32)
    (x2 : Vec Ideal S256x1 .i32) (x6 : Vec Ideal S256x1 .f32) (r : Fin 256) (t : Fin 896) :
    k1_pay2 (F := Ideal) x0 x4 x1 x5 x2 x6 (ix2 r t)
      = ((if BitVec.ofNat 32 t.val = x0 (ix2 r (0 : Fin 1)) then (1 : EReal) else 0) * x4 (ix2 r (0 : Fin 1))
          + (if BitVec.ofNat 32 t.val = x1 (ix2 r (0 : Fin 1)) then (1 : EReal) else 0) * x5 (ix2 r (0 : Fin 1)))
        + (if BitVec.ofNat 32 t.val = x2 (ix2 r (0 : Fin 1)) then (1 : EReal) else 0) * x6 (ix2 r (0 : Fin 1)) := by
  unfold k1_pay2
  dsimp only
  rw [addf_apply, addf_apply, term1_apply, term1_apply, term1_apply]

/-- The fourth corner's term of the selection matrix at an entry. -/
theorem pay3_1_apply (x3 : Vec Ideal S256x1 .i32) (x7 : Vec Ideal S256x1 .f32) (r : Fin 256) (t : Fin 896) :
    k1_pay3 (F := Ideal) x3 x7 (ix2 r t)
      = (if BitVec.ofNat 32 t.val = x3 (ix2 r (0 : Fin 1)) then (1 : EReal) else 0) * x7 (ix2 r (0 : Fin 1)) := by
  unfold k1_pay3
  dsimp only
  rw [term1_apply]

/-- The stored block at an entry: row `r` of the selection matrix (the four corners' terms added in the body's
    order) times column `b` of the projected map. -/
theorem pay1_apply (x0 x1 x2 x3 : Vec Ideal S256x1 .i32) (x4 x5 x6 x7 : Vec Ideal S256x1 .f32) (x8 : Vec Ideal S896x128 .bf16)
    (r : Fin 256) (b : Fin 128) :
    k1_pay1 (F := Ideal) (k1_pay2 x0 x4 x1 x5 x2 x6) (k1_pay3 x3 x7) x8 (ix2 r b)
      = ∑ t : Fin 896, ((((if BitVec.ofNat 32 t.val = x0 (ix2 r (0 : Fin 1)) then (1 : EReal) else 0) * x4 (ix2 r (0 : Fin 1))
          + (if BitVec.ofNat 32 t.val = x1 (ix2 r (0 : Fin 1)) then (1 : EReal) else 0) * x5 (ix2 r (0 : Fin 1)))
        + (if BitVec.ofNat 32 t.val = x2 (ix2 r (0 : Fin 1)) then (1 : EReal) else 0) * x6 (ix2 r (0 : Fin 1)))
        + (if BitVec.ofNat 32 t.val = x3 (ix2 r (0 : Fin 1)) then (1 : EReal) else 0) * x7 (ix2 r (0 : Fin 1))) * x8 (ix2 t b) := by
  unfold k1_pay1
  simp only [shapeCast_self]
  refine (mm1_apply _ _ r b).trans ?_
  refine Finset.sum_congr rfl fun t _ => ?_
  rw [truncf_apply, addf_apply, pay2_1_apply, pay3_1_apply]

/-- The result, entry by entry: at vertex row `p`, column `q`, the sum over the 896 map positions of the row's
    selection weight at the position (each corner's weight where the position is that corner's flat index, added in the
    body's order) times the projected map's entry at the position and column `q`. -/
def Sel1 (I0 I1 I2 I3 : S8192x1.Idx → BitVec 32) (A4 A5 A6 A7 : S8192x1.Idx → EReal) (P : S896x128.Idx → EReal) : S8192x128.Idx → EReal :=
  fun i => ∑ t : Fin 896, ((((if BitVec.ofNat 32 t.val = I0 (ix2 (i 0) 0) then (1 : EReal) else 0) * A4 (ix2 (i 0) 0) + (if BitVec.ofNat 32 t.val = I1 (ix2 (i 0) 0) then (1 : EReal) else 0) * A5 (ix2 (i 0) 0)) + (if BitVec.ofNat 32 t.val = I2 (ix2 (i 0) 0) then (1 : EReal) else 0) * A6 (ix2 (i 0) 0)) + (if BitVec.ofNat 32 t.val = I3 (ix2 (i 0) 0) then (1 : EReal) else 0) * A7 (ix2 (i 0) 0)) * P (ix2 t (i 1))

/-- ONE ENTRY of what a point writes back. When the nine blocks are the cuts of the arrays at vertex row `p` (the
    eight columns) and the whole projected map, the stored block's entry (r, b) is the entry (p, b) of `Sel1`. -/
theorem join1 (I0 I1 I2 I3 : S8192x1.Idx → BitVec 32) (A4 A5 A6 A7 : S8192x1.Idx → EReal) (P : S896x128.Idx → EReal)
    (x0 x1 x2 x3 : Vec Ideal S256x1 .i32) (x4 x5 x6 x7 : Vec Ideal S256x1 .f32) (x8 : Vec Ideal S896x128 .bf16)
    (r : Fin 256) (b : Fin 128) (p : Fin 8192)
    (h0 : x0 (ix2 r (0 : Fin 1)) = I0 (ix2 p 0)) (h1 : x1 (ix2 r (0 : Fin 1)) = I1 (ix2 p 0))
    (h2 : x2 (ix2 r (0 : Fin 1)) = I2 (ix2 p 0)) (h3 : x3 (ix2 r (0 : Fin 1)) = I3 (ix2 p 0))
    (h4 : x4 (ix2 r (0 : Fin 1)) = A4 (ix2 p 0)) (h5 : x5 (ix2 r (0 : Fin 1)) = A5 (ix2 p 0))
    (h6 : x6 (ix2 r (0 : Fin 1)) = A6 (ix2 p 0)) (h7 : x7 (ix2 r (0 : Fin 1)) = A7 (ix2 p 0))
    (h8 : ∀ t : Fin 896, x8 (ix2 t b) = P (ix2 t b)) :
    k1_pay1 (F := Ideal) (k1_pay2 x0 x4 x1 x5 x2 x6) (k1_pay3 x3 x7) x8 (ix2 r b) = Sel1 I0 I1 I2 I3 A4 A5 A6 A7 P (ix2 p b) := by
  rw [pay1_apply, h0, h1, h2, h3, h4, h5, h6, h7]
  show _ = ∑ t : Fin 896, _
  exact Finset.sum_congr rfl fun t _ => by rw [h8 t]

end Cert.KernelIdeal.Hand

end
-- ==== Proof.KI.R1SelFinal.lean ====
import proofs.«120270_j2259152797813_2_alg».proof.Proof.KI.R1
import proofs.«120270_j2259152797813_2_alg».proof.Proof.KI.R1Sel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.ValueIdx
open scoped BigOperators

variable (V : (c : Dev nD) → (b : Ref sig .tc) → Buf (Elt Ideal) ((c : Thread nD τ).loc b))

/-! # Region 1: its result array after the region, as one function of the nine input arrays -/

theorem hz1s : (![0, 0] : Fin 2 → Nat) = fun _ => 0 := funext fun a => by fin_cases a <;> rfl

/-- Window 0's block index at point `t`: row block `t`. Decided over the grid. -/
theorem idx1_0 : ∀ t : Fin cfg1.N, win1_0.index t (0 : Fin 2) = t.val ∧ win1_0.index t (1 : Fin 2) = 0 :=
  (by decide +kernel : ∀ t : Fin grid1.N, _)
/-- Window 1's block index at point `t`: row block `t`. Decided over the grid. -/
theorem idx1_1 : ∀ t : Fin cfg1.N, win1_1.index t (0 : Fin 2) = t.val ∧ win1_1.index t (1 : Fin 2) = 0 :=
  (by decide +kernel : ∀ t : Fin grid1.N, _)
/-- Window 2's block index at point `t`: row block `t`. Decided over the grid. -/
theorem idx1_2 : ∀ t : Fin cfg1.N, win1_2.index t (0 : Fin 2) = t.val ∧ win1_2.index t (1 : Fin 2) = 0 :=
  (by decide +kernel : ∀ t : Fin grid1.N, _)
/-- Window 3's block index at point `t`: row block `t`. Decided over the grid. -/
theorem idx1_3 : ∀ t : Fin cfg1.N, win1_3.index t (0 : Fin 2) = t.val ∧ win1_3.index t (1 : Fin 2) = 0 :=
  (by decide +kernel : ∀ t : Fin grid1.N, _)
/-- Window 4's block index at point `t`: row block `t`. Decided over the grid. -/
theorem idx1_4 : ∀ t : Fin cfg1.N, win1_4.index t (0 : Fin 2) = t.val ∧ win1_4.index t (1 : Fin 2) = 0 :=
  (by decide +kernel : ∀ t : Fin grid1.N, _)
/-- Window 5's block index at point `t`: row block `t`. Decided over the grid. -/
theorem idx1_5 : ∀ t : Fin cfg1.N, win1_5.index t (0 : Fin 2) = t.val ∧ win1_5.index t (1 : Fin 2) = 0 :=
  (by decide +kernel : ∀ t : Fin grid1.N, _)
/-- Window 6's block index at point `t`: row block `t`. Decided over the grid. -/
theorem idx1_6 : ∀ t : Fin cfg1.N, win1_6.index t (0 : Fin 2) = t.val ∧ win1_6.index t (1 : Fin 2) = 0 :=
  (by decide +kernel : ∀ t : Fin grid1.N, _)
/-- Window 7's block index at point `t`: row block `t`. Decided over the grid. -/
theorem idx1_7 : ∀ t : Fin cfg1.N, win1_7.index t (0 : Fin 2) = t.val ∧ win1_7.index t (1 : Fin 2) = 0 :=
  (by decide +kernel : ∀ t : Fin grid1.N, _)
/-- Window 8's block index at point `t`: the one block, at every point. Decided over the grid. -/
theorem idx1_8 : ∀ t : Fin cfg1.N, win1_8.index t (0 : Fin 2) = 0 ∧ win1_8.index t (1 : Fin 2) = 0 :=
  (by decide +kernel : ∀ t : Fin grid1.N, _)
/-- Window 9's block index at point `t`: row block `t`. Decided over the grid. -/
theorem idx1_9 : ∀ t : Fin cfg1.N, win1_9.index t (0 : Fin 2) = t.val ∧ win1_9.index t (1 : Fin 2) = 0 :=
  (by decide +kernel : ∀ t : Fin grid1.N, _)

/-- An entry of window 0's block is the entry of its column at vertex row `256·t + r`. -/
theorem iblk1_0_apply (c : Dev nD) (t : Fin cfg1.N) (r : Fin 256) (p : Fin 8192) (hp : p.val = 256 * t.val + r.val) :
    (iblk1 V c 0 t : Vec Ideal S256x1 .i32) (ix2 r (0 : Fin 1)) = (V c (Pipeline.arrRef spec1 0) : S8192x1.Idx → BitVec 32) (ix2 p (0 : Fin 1)) := by
  obtain ⟨e0, e1⟩ := idx1_0 t
  show V c (Pipeline.arrRef spec1 0) (((cfg1.win 0).blk t).view.emb (ix2 r (0 : Fin 1))) = _
  congr 1
  funext a; apply Fin.ext
  match a with
  | ⟨0, _⟩ => show win1_0.index t (0 : Fin 2) * 256 + 1 * r.val = p.val; rw [e0, hp]; omega
  | ⟨1, _⟩ => show win1_0.index t (1 : Fin 2) * 1 + 1 * 0 = 0; rw [e1]

/-- An entry of window 1's block is the entry of its column at vertex row `256·t + r`. -/
theorem iblk1_1_apply (c : Dev nD) (t : Fin cfg1.N) (r : Fin 256) (p : Fin 8192) (hp : p.val = 256 * t.val + r.val) :
    (iblk1 V c 1 t : Vec Ideal S256x1 .i32) (ix2 r (0 : Fin 1)) = (V c (Pipeline.arrRef spec1 1) : S8192x1.Idx → BitVec 32) (ix2 p (0 : Fin 1)) := by
  obtain ⟨e0, e1⟩ := idx1_1 t
  show V c (Pipeline.arrRef spec1 1) (((cfg1.win 1).blk t).view.emb (ix2 r (0 : Fin 1))) = _
  congr 1
  funext a; apply Fin.ext
  match a with
  | ⟨0, _⟩ => show win1_1.index t (0 : Fin 2) * 256 + 1 * r.val = p.val; rw [e0, hp]; omega
  | ⟨1, _⟩ => show win1_1.index t (1 : Fin 2) * 1 + 1 * 0 = 0; rw [e1]

/-- An entry of window 2's block is the entry of its column at vertex row `256·t + r`. -/
theorem iblk1_2_apply (c : Dev nD) (t : Fin cfg1.N) (r : Fin 256) (p : Fin 8192) (hp : p.val = 256 * t.val + r.val) :
    (iblk1 V c 2 t : Vec Ideal S256x1 .i32) (ix2 r (0 : Fin 1)) = (V c (Pipeline.arrRef spec1 2) : S8192x1.Idx → BitVec 32) (ix2 p (0 : Fin 1)) := by
  obtain ⟨e0, e1⟩ := idx1_2 t
  show V c (Pipeline.arrRef spec1 2) (((cfg1.win 2).blk t).view.emb (ix2 r (0 : Fin 1))) = _
  congr 1
  funext a; apply Fin.ext
  match a with
  | ⟨0, _⟩ => show win1_2.index t (0 : Fin 2) * 256 + 1 * r.val = p.val; rw [e0, hp]; omega
  | ⟨1, _⟩ => show win1_2.index t (1 : Fin 2) * 1 + 1 * 0 = 0; rw [e1]

/-- An entry of window 3's block is the entry of its column at vertex row `256·t + r`. -/
theorem iblk1_3_apply (c : Dev nD) (t : Fin cfg1.N) (r : Fin 256) (p : Fin 8192) (hp : p.val = 256 * t.val + r.val) :
    (iblk1 V c 3 t : Vec Ideal S256x1 .i32) (ix2 r (0 : Fin 1)) = (V c (Pipeline.arrRef spec1 3) : S8192x1.Idx → BitVec 32) (ix2 p (0 : Fin 1)) := by
  obtain ⟨e0, e1⟩ := idx1_3 t
  show V c (Pipeline.arrRef spec1 3) (((cfg1.win 3).blk t).view.emb (ix2 r (0 : Fin 1))) = _
  congr 1
  funext a; apply Fin.ext
  match a with
  | ⟨0, _⟩ => show win1_3.index t (0 : Fin 2) * 256 + 1 * r.val = p.val; rw [e0, hp]; omega
  | ⟨1, _⟩ => show win1_3.index t (1 : Fin 2) * 1 + 1 * 0 = 0; rw [e1]

/-- An entry of window 4's block is the entry of its column at vertex row `256·t + r`. -/
theorem iblk1_4_apply (c : Dev nD) (t : Fin cfg1.N) (r : Fin 256) (p : Fin 8192) (hp : p.val = 256 * t.val + r.val) :
    (iblk1 V c 4 t : Vec Ideal S256x1 .f32) (ix2 r (0 : Fin 1)) = (V c (Pipeline.arrRef spec1 4) : S8192x1.Idx → EReal) (ix2 p (0 : Fin 1)) := by
  obtain ⟨e0, e1⟩ := idx1_4 t
  show V c (Pipeline.arrRef spec1 4) (((cfg1.win 4).blk t).view.emb (ix2 r (0 : Fin 1))) = _
  congr 1
  funext a; apply Fin.ext
  match a with
  | ⟨0, _⟩ => show win1_4.index t (0 : Fin 2) * 256 + 1 * r.val = p.val; rw [e0, hp]; omega
  | ⟨1, _⟩ => show win1_4.index t (1 : Fin 2) * 1 + 1 * 0 = 0; rw [e1]

/-- An entry of window 5's block is the entry of its column at vertex row `256·t + r`. -/
theorem iblk1_5_apply (c : Dev nD) (t : Fin cfg1.N) (r : Fin 256) (p : Fin 8192) (hp : p.val = 256 * t.val + r.val) :
    (iblk1 V c 5 t : Vec Ideal S256x1 .f32) (ix2 r (0 : Fin 1)) = (V c (Pipeline.arrRef spec1 5) : S8192x1.Idx → EReal) (ix2 p (0 : Fin 1)) := by
  obtain ⟨e0, e1⟩ := idx1_5 t
  show V c (Pipeline.arrRef spec1 5) (((cfg1.win 5).blk t).view.emb (ix2 r (0 : Fin 1))) = _
  congr 1
  funext a; apply Fin.ext
  match a with
  | ⟨0, _⟩ => show win1_5.index t (0 : Fin 2) * 256 + 1 * r.val = p.val; rw [e0, hp]; omega
  | ⟨1, _⟩ => show win1_5.index t (1 : Fin 2) * 1 + 1 * 0 = 0; rw [e1]

/-- An entry of window 6's block is the entry of its column at vertex row `256·t + r`. -/
theorem iblk1_6_apply (c : Dev nD) (t : Fin cfg1.N) (r : Fin 256) (p : Fin 8192) (hp : p.val = 256 * t.val + r.val) :
    (iblk1 V c 6 t : Vec Ideal S256x1 .f32) (ix2 r (0 : Fin 1)) = (V c (Pipeline.arrRef spec1 6) : S8192x1.Idx → EReal) (ix2 p (0 : Fin 1)) := by
  obtain ⟨e0, e1⟩ := idx1_6 t
  show V c (Pipeline.arrRef spec1 6) (((cfg1.win 6).blk t).view.emb (ix2 r (0 : Fin 1))) = _
  congr 1
  funext a; apply Fin.ext
  match a with
  | ⟨0, _⟩ => show win1_6.index t (0 : Fin 2) * 256 + 1 * r.val = p.val; rw [e0, hp]; omega
  | ⟨1, _⟩ => show win1_6.index t (1 : Fin 2) * 1 + 1 * 0 = 0; rw [e1]

/-- An entry of window 7's block is the entry of its column at vertex row `256·t + r`. -/
theorem iblk1_7_apply (c : Dev nD) (t : Fin cfg1.N) (r : Fin 256) (p : Fin 8192) (hp : p.val = 256 * t.val + r.val) :
    (iblk1 V c 7 t : Vec Ideal S256x1 .f32) (ix2 r (0 : Fin 1)) = (V c (Pipeline.arrRef spec1 7) : S8192x1.Idx → EReal) (ix2 p (0 : Fin 1)) := by
  obtain ⟨e0, e1⟩ := idx1_7 t
  show V c (Pipeline.arrRef spec1 7) (((cfg1.win 7).blk t).view.emb (ix2 r (0 : Fin 1))) = _
  congr 1
  funext a; apply Fin.ext
  match a with
  | ⟨0, _⟩ => show win1_7.index t (0 : Fin 2) * 256 + 1 * r.val = p.val; rw [e0, hp]; omega
  | ⟨1, _⟩ => show win1_7.index t (1 : Fin 2) * 1 + 1 * 0 = 0; rw [e1]

/-- Window 8's block is its whole array, at every point. -/
theorem iblk1_8_apply (c : Dev nD) (t : Fin cfg1.N) (k : Fin 896) (b : Fin 128) :
    (iblk1 V c 8 t : Vec Ideal S896x128 .bf16) (ix2 k b) = (V c (Pipeline.arrRef spec1 8) : S896x128.Idx → EReal) (ix2 k b) := by
  obtain ⟨e0, e1⟩ := idx1_8 t
  show V c (Pipeline.arrRef spec1 8) (((cfg1.win 8).blk t).view.emb (ix2 k b)) = _
  congr 1
  funext a; apply Fin.ext
  match a with
  | ⟨0, _⟩ => show win1_8.index t (0 : Fin 2) * 896 + 1 * k.val = k.val; rw [e0]; omega
  | ⟨1, _⟩ => show win1_8.index t (1 : Fin 2) * 128 + 1 * b.val = b.val; rw [e1]; omega

/-- The vertex row of the array that row `r` of point `t`'s block is. -/
theorem row_lt1s (t : Fin cfg1.N) (r : Fin 256) : 256 * t.val + r.val < 8192 := by
  have hN : t.val < 32 := lt_of_lt_of_eq t.isLt (show cfg1.N = 32 from N_1)
  have hr := r.isLt; omega

set_option maxHeartbeats 1000000 in
/-- WHAT A POINT WRITES BACK is its block of `Sel1` of the nine arrays as the region finds them. -/
theorem flushed1_eq (c : Dev nD) (t : Fin cfg1.N) (hf : (cfg1.win 9).flush t = true) :
    (dat1 V c).flushed 9 t
      = ((cfg1.win 9).blk t).view.read (Elt Ideal)
          (Sel1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8))) := by
  obtain ⟨e0, e1⟩ := idx1_9 t
  show (cfg1.win 9).cut (grid1.coords t) ((dat1 V c).after 9 t) = _
  rw [after1_9]
  unfold out1_9
  rw [View.canon_unit_zero (S := S256x128) hz1s]
  simp only [View.ld_unit_zero (S := S256x1) hz1s, View.ld_unit_zero (S := S896x128) hz1s]
  funext j
  obtain ⟨r, b, rfl⟩ : ∃ (r : Fin 256) (b : Fin 128), j = ix2 r b := ⟨j 0, j 1, eq_ix2 j⟩
  have hemb : ((cfg1.win 9).blk t).view.emb (ix2 r b) = ix2 (⟨256 * t.val + r.val, row_lt1s t r⟩ : Fin 8192) b := by
    funext a; apply Fin.ext
    match a with
    | ⟨0, _⟩ => show win1_9.index t (0 : Fin 2) * 256 + 1 * r.val = 256 * t.val + r.val; rw [e0]; omega
    | ⟨1, _⟩ => show win1_9.index t (1 : Fin 2) * 128 + 1 * b.val = b.val; rw [e1]; omega
  show k1_pay1 (F := Ideal) (k1_pay2 (iblk1 V c 0 t) (iblk1 V c 4 t) (iblk1 V c 1 t) (iblk1 V c 5 t) (iblk1 V c 2 t) (iblk1 V c 6 t))
      (k1_pay3 (iblk1 V c 3 t) (iblk1 V c 7 t)) (iblk1 V c 8 t) (ix2 r b)
    = Sel1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (((cfg1.win 9).blk t).view.emb (ix2 r b))
  rw [hemb]
  exact join1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8))
    (iblk1 V c 0 t) (iblk1 V c 1 t) (iblk1 V c 2 t) (iblk1 V c 3 t) (iblk1 V c 4 t) (iblk1 V c 5 t) (iblk1 V c 6 t) (iblk1 V c 7 t) (iblk1 V c 8 t) r b
    ⟨256 * t.val + r.val, row_lt1s t r⟩
    (iblk1_0_apply V c t r _ rfl) (iblk1_1_apply V c t r _ rfl) (iblk1_2_apply V c t r _ rfl) (iblk1_3_apply V c t r _ rfl)
    (iblk1_4_apply V c t r _ rfl) (iblk1_5_apply V c t r _ rfl) (iblk1_6_apply V c t r _ rfl) (iblk1_7_apply V c t r _ rfl)
    (fun k => iblk1_8_apply V c t k b)

/-- An index of the result array is in point `t`'s block iff each coordinate is in the block's range on its axis. -/
theorem mem_blk1 (t : Fin cfg1.N) (i : S8192x128.Idx) :
    i ∈ ((cfg1.win 9).blk t).view.set ↔ ∀ a : Fin 2, win1_9.index t a * S256x128.size a ≤ (i a).val ∧ (i a).val < win1_9.index t a * S256x128.size a + S256x128.size a := by
  show i ∈ ((View.whole (Pipeline.arrRef spec1 9)).slice (win1_9.rect t)).set ↔ _
  rw [View.set_slice_whole, Rect.mem_set_unit]
  exact Iff.rfl

/-- Every entry of the result array is in the block some point writes back: vertex row `p` at point `p / 256`. -/
theorem cover1s (i : S8192x128.Idx) : ∃ t : Fin cfg1.N, (cfg1.win 9).flush t = true ∧ i ∈ ((cfg1.win 9).blk t).view.set := by
  have hi0 : (i 0).val < 8192 := idx2_lt0 i
  have hi1 : (i 1).val < 128 := idx2_lt1 i
  have hlt : (i 0).val / 256 < cfg1.N := by rw [show cfg1.N = 32 from N_1]; omega
  refine ⟨⟨(i 0).val / 256, hlt⟩, flush1_9 _, ?_⟩
  obtain ⟨e0, e1⟩ := idx1_9 ⟨(i 0).val / 256, hlt⟩
  have e0' : win1_9.index ⟨(i 0).val / 256, hlt⟩ (0 : Fin 2) = (i 0).val / 256 := e0
  rw [mem_blk1]
  intro a
  match a with
  | ⟨0, _⟩ => show win1_9.index _ (0 : Fin 2) * 256 ≤ (i 0).val ∧ (i 0).val < win1_9.index _ (0 : Fin 2) * 256 + 256; rw [e0']; omega
  | ⟨1, _⟩ => show win1_9.index _ (1 : Fin 2) * 128 ≤ (i 1).val ∧ (i 1).val < win1_9.index _ (1 : Fin 2) * 128 + 128; rw [e1]; omega

/-- THE RESULT ARRAY after the region: `Sel1` of the nine input arrays as the region finds them. -/
theorem final9_1 (c : Dev nD) :
    (dat1 V c).arrAt 9 cfg1.N = Sel1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) :=
  (dat1 V c).arrAt_eq_of_cover 9 _ (fun t hf => flushed1_eq V c t hf) cover1s

end Cert.KernelIdeal.Hand

end
-- ==== Proof.KI.Contrib1.lean ====
import proofs.«120270_j2259152797813_2_alg».proof.Proof.KI.ColsB1
import proofs.«120270_j2259152797813_2_alg».proof.Proof.KI.R1SelFinal
import proofs.«120270_j2259152797813_2_alg».proof.Proof.PrefixFp
import proofs.«120270_j2259152797813_2_alg».proof.Proof.PrefixContrib
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Cert.Proof

variable (m : (ℓ : Loc nD τ sig) → Buf (Elt Ideal) ℓ) (ρ : Dev nD → PrngReg)

/-! # Map 1's contribution to the projected features, vertex by vertex

Region 1's result at vertex `v` and output column `j` is the four-corner weighted sample of the map's channels
at the vertex's cells, combined with the rows 256 … of the linear layer. -/

set_option maxHeartbeats 4000000 in
theorem contrib1 (c : Dev nD) (v : Fin 8192) (j : Fin 128)
    (hF : ∀ i, (show S1x512x28x28.Idx → EReal from W0 m ρ c (Proc.devRef .tc main_arg1)) i ≠ ⊤ ∧ (show S1x512x28x28.Idx → EReal from W0 m ρ c (Proc.devRef .tc main_arg1)) i ≠ ⊥)
    (hL : ∀ i, (show S3840x128.Idx → EReal from W0 m ρ c (Proc.devRef .tc main_arg7)) i ≠ ⊤ ∧ (show S3840x128.Idx → EReal from W0 m ρ c (Proc.devRef .tc main_arg7)) i ≠ ⊥)
    (x y : EReal) (ex : x = (show S8192.Idx → EReal from W4 m ρ c (Proc.devRef .tc main_v23)) (ix1 v)) (ey : y = (show S8192.Idx → EReal from W4 m ρ c (Proc.devRef .tc main_v14)) (ix1 v))
    (hx : ∃ r : ℝ, x = (r : EReal) ∧ 0 ≤ r ∧ r ≤ 223) (hy : ∃ r : ℝ, y = (r : EReal) ∧ 0 ≤ r ∧ r ≤ 223) :
    (show S8192x128.Idx → EReal from W12 m ρ c (Proc.devRef .tc main_v239)) (ix2 v j)
      = Chain.mapTerm (C := 512) (s := 28) (by decide) 0x41000000#32 27#32
          (fun (ch : Fin 512) (X Y : Fin 28) => (show S1x512x28x28.Idx → EReal from W0 m ρ c (Proc.devRef .tc main_arg1)) (ix4 (0 : Fin 1) ch X Y))
          (fun (ch : Fin 512) => (show S3840x128.Idx → EReal from W0 m ρ c (Proc.devRef .tc main_arg7)) (ix2 (⟨256 + ch.val, by have := ch.isLt; omega⟩ : Fin 3840) j)) x y := by
  have hW : (show S8192x128.Idx → EReal from W12 m ρ c (Proc.devRef .tc main_v239)) = (dat1 (V11 m ρ) c).arrAt 9 cfg1.N :=
    W12_arr m ρ c 9
  rw [hW, final9_1 (V11 m ρ) c]
  show (∑ t : Fin 896, (((((if BitVec.ofNat 32 t.val = (show S8192x1.Idx → BitVec 32 from W11 m ρ c (Proc.devRef .tc main_v231)) (ix2 v 0) then (1 : EReal) else 0) * (show S8192x1.Idx → EReal from W11 m ρ c (Proc.devRef .tc main_v235)) (ix2 v 0)
        + (if BitVec.ofNat 32 t.val = (show S8192x1.Idx → BitVec 32 from W11 m ρ c (Proc.devRef .tc main_v232)) (ix2 v 0) then (1 : EReal) else 0) * (show S8192x1.Idx → EReal from W11 m ρ c (Proc.devRef .tc main_v236)) (ix2 v 0))
        + (if BitVec.ofNat 32 t.val = (show S8192x1.Idx → BitVec 32 from W11 m ρ c (Proc.devRef .tc main_v233)) (ix2 v 0) then (1 : EReal) else 0) * (show S8192x1.Idx → EReal from W11 m ρ c (Proc.devRef .tc main_v237)) (ix2 v 0))
        + (if BitVec.ofNat 32 t.val = (show S8192x1.Idx → BitVec 32 from W11 m ρ c (Proc.devRef .tc main_v234)) (ix2 v 0) then (1 : EReal) else 0) * (show S8192x1.Idx → EReal from W11 m ρ c (Proc.devRef .tc main_v238)) (ix2 v 0))
      * (show S896x128.Idx → EReal from W11 m ρ c (Proc.devRef .tc main_v230)) (ix2 t j))) = _
  have c1 : (show S8192x1.Idx → BitVec 32 from W11 m ρ c (Proc.devRef .tc main_v231)) (ix2 v 0) = Chain.i11 0x41000000#32 28#32 x y := by rw [ex, ey]; exact col1_i11 m ρ c v
  have c2 : (show S8192x1.Idx → BitVec 32 from W11 m ρ c (Proc.devRef .tc main_v232)) (ix2 v 0) = Chain.i12 0x41000000#32 27#32 28#32 x y := by rw [ex, ey]; exact col1_i12 m ρ c v
  have c3 : (show S8192x1.Idx → BitVec 32 from W11 m ρ c (Proc.devRef .tc main_v233)) (ix2 v 0) = Chain.i21 0x41000000#32 27#32 28#32 x y := by rw [ex, ey]; exact col1_i21 m ρ c v
  have c4 : (show S8192x1.Idx → BitVec 32 from W11 m ρ c (Proc.devRef .tc main_v234)) (ix2 v 0) = Chain.i22 0x41000000#32 27#32 28#32 x y := by rw [ex, ey]; exact col1_i22 m ρ c v
  have c5 : (show S8192x1.Idx → EReal from W11 m ρ c (Proc.devRef .tc main_v235)) (ix2 v 0) = Chain.w11 0x41000000#32 27#32 x y := by rw [ex, ey]; exact col1_w11 m ρ c v
  have c6 : (show S8192x1.Idx → EReal from W11 m ρ c (Proc.devRef .tc main_v236)) (ix2 v 0) = Chain.w12 0x41000000#32 27#32 x y := by rw [ex, ey]; exact col1_w12 m ρ c v
  have c7 : (show S8192x1.Idx → EReal from W11 m ρ c (Proc.devRef .tc main_v237)) (ix2 v 0) = Chain.w21 0x41000000#32 27#32 x y := by rw [ex, ey]; exact col1_w21 m ρ c v
  have c8 : (show S8192x1.Idx → EReal from W11 m ρ c (Proc.devRef .tc main_v238)) (ix2 v 0) = Chain.w22 0x41000000#32 27#32 x y := by rw [ex, ey]; exact col1_w22 m ρ c v
  rw [c1, c2, c3, c4, c5, c6, c7, c8]
  exact Chain.chain_contrib (C := 512) (s := 28) (n := 896) (by decide) (by decide) (by decide) (by decide)
    0x41000000#32 27#32 28#32 8 Chain.ofBits_eight (by norm_num) (by norm_num) (by norm_num) (by decide) (by decide)
    (fun (ch : Fin 512) (X Y : Fin 28) => (show S1x512x28x28.Idx → EReal from W0 m ρ c (Proc.devRef .tc main_arg1)) (ix4 (0 : Fin 1) ch X Y)) (fun ch a b => hF _) (fun (ch : Fin 512) => (show S3840x128.Idx → EReal from W0 m ρ c (Proc.devRef .tc main_arg7)) (ix2 (⟨256 + ch.val, by have := ch.isLt; omega⟩ : Fin 3840) j)) (fun ch => hL _) x y hx hy
    (fun t => (show S896x128.Idx → EReal from W11 m ρ c (Proc.devRef .tc main_v230)) (ix2 t j))
    (fun t X Y h => fp1_apply m ρ c t j X Y h)

end Cert.KernelIdeal.Hand

end
-- ==== Proof.KI.ColsA2.lean ====
import proofs.«120270_j2259152797813_2_alg».proof.Proof.KI.Run
import proofs.«120270_j2259152797813_2_alg».proof.Proof.PrefixChain
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Cert.Proof

variable (m : (ℓ : Loc nD τ sig) → Buf (Elt Ideal) ℓ) (ρ : Dev nD → PrngReg)

/-! # Map 2: the flat indices and weights after the long host stretch, as the chain functions of the two clipped
coordinates, vertex by vertex -/

set_option maxHeartbeats 4000000 in
/-- The vector `i11` of map 2: at every vertex the chain function of the vertex's two clipped coordinates. -/
theorem W5_main_v152 (c : Dev nD) : (W5 m ρ c (Proc.devRef .tc main_v152) : S8192.Idx → BitVec 32)
    = fun i => Chain.i11 0x41800000#32 14#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v152) = _
  generalize W4 m ρ c = V
  after_results_simp
  rfl

set_option maxHeartbeats 4000000 in
/-- The vector `i12` of map 2: at every vertex the chain function of the vertex's two clipped coordinates. -/
theorem W5_main_v155 (c : Dev nD) : (W5 m ρ c (Proc.devRef .tc main_v155) : S8192.Idx → BitVec 32)
    = fun i => Chain.i12 0x41800000#32 13#32 14#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v155) = _
  generalize W4 m ρ c = V
  after_results_simp
  rfl

set_option maxHeartbeats 4000000 in
/-- The vector `i21` of map 2: at every vertex the chain function of the vertex's two clipped coordinates. -/
theorem W5_main_v158 (c : Dev nD) : (W5 m ρ c (Proc.devRef .tc main_v158) : S8192.Idx → BitVec 32)
    = fun i => Chain.i21 0x41800000#32 13#32 14#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v158) = _
  generalize W4 m ρ c = V
  after_results_simp
  rfl

set_option maxHeartbeats 4000000 in
/-- The vector `i22` of map 2: at every vertex the chain function of the vertex's two clipped coordinates. -/
theorem W5_main_v161 (c : Dev nD) : (W5 m ρ c (Proc.devRef .tc main_v161) : S8192.Idx → BitVec 32)
    = fun i => Chain.i22 0x41800000#32 13#32 14#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v161) = _
  generalize W4 m ρ c = V
  after_results_simp
  rfl

set_option maxHeartbeats 4000000 in
/-- The vector `w11` of map 2: at every vertex the chain function of the vertex's two clipped coordinates. -/
theorem W5_main_v137 (c : Dev nD) : (W5 m ρ c (Proc.devRef .tc main_v137) : S8192.Idx → EReal)
    = fun i => Chain.w11 0x41800000#32 13#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v137) = _
  generalize W4 m ρ c = V
  after_results_simp
  rfl

set_option maxHeartbeats 4000000 in
/-- The vector `w12` of map 2: at every vertex the chain function of the vertex's two clipped coordinates. -/
theorem W5_main_v141 (c : Dev nD) : (W5 m ρ c (Proc.devRef .tc main_v141) : S8192.Idx → EReal)
    = fun i => Chain.w12 0x41800000#32 13#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v141) = _
  generalize W4 m ρ c = V
  after_results_simp
  rfl

set_option maxHeartbeats 4000000 in
/-- The vector `w21` of map 2: at every vertex the chain function of the vertex's two clipped coordinates. -/
theorem W5_main_v145 (c : Dev nD) : (W5 m ρ c (Proc.devRef .tc main_v145) : S8192.Idx → EReal)
    = fun i => Chain.w21 0x41800000#32 13#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v145) = _
  generalize W4 m ρ c = V
  after_results_simp
  rfl

set_option maxHeartbeats 4000000 in
/-- The vector `w22` of map 2: at every vertex the chain function of the vertex's two clipped coordinates. -/
theorem W5_main_v149 (c : Dev nD) : (W5 m ρ c (Proc.devRef .tc main_v149) : S8192.Idx → EReal)
    = fun i => Chain.w22 0x41800000#32 13#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v149) = _
  generalize W4 m ρ c = V
  after_results_simp
  rfl

end Cert.KernelIdeal.Hand

end
-- ==== Proof.KI.ColsB2.lean ====
import proofs.«120270_j2259152797813_2_alg».proof.Proof.KI.ColsA2
import proofs.«120270_j2259152797813_2_alg».proof.Proof.LibColumnCast
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Cert.Proof

variable (m : (ℓ : Loc nD τ sig) → Buf (Elt Ideal) ℓ) (ρ : Dev nD → PrngReg)
open Cert.LibColumnCast

/-! # Map 2: the eight index and weight columns as region 2 finds them, vertex by vertex -/

set_option maxHeartbeats 2000000 in
/-- Column `i11` of map 2 at vertex `v`: the chain function of the vertex's two clipped coordinates. -/
theorem col2_i11 (c : Dev nD) (v : Fin 8192) :
    (W15 m ρ c (Proc.devRef .tc main_v247) : S8192x1.Idx → BitVec 32) (ix2 v 0)
      = Chain.i11 0x41800000#32 14#32 ((W4 m ρ c (Proc.devRef .tc main_v23) : S8192.Idx → EReal) (ix1 v)) ((W4 m ρ c (Proc.devRef .tc main_v14) : S8192.Idx → EReal) (ix1 v)) := by
  have e1 : (W15 m ρ c (Proc.devRef .tc main_v247) : S8192x1.Idx → BitVec 32)
      = shapeCast S8192x1 (W12 m ρ c (Proc.devRef .tc main_v152) : S8192.Idx → BitVec 32) shapeCasts_S8192_S8192x1 := by
    show StableHlo.after hostOps2_2 (StableHlo.after hostOps2_1 (StableHlo.after hostOps2 (W12 m ρ c))) (Proc.devRef .tc main_v247) = _
    generalize W12 m ρ c = V
    after_results_simp
    try rfl
  have k7 : W7 m ρ c (Proc.devRef .tc main_v152) = W5 m ρ c (Proc.devRef .tc main_v152) := by
    show StableHlo.after hostOps0_6 (StableHlo.after hostOps0_5 (W5 m ρ c)) (Proc.devRef .tc main_v152) = _
    generalize W5 m ρ c = V
    after_results_simp
  have k8 : W8 m ρ c (Proc.devRef .tc main_v152) = W7 m ρ c (Proc.devRef .tc main_v152) := W8_of_ne m ρ c main_v152 (by decide)
  have k11 : W11 m ρ c (Proc.devRef .tc main_v152) = W8 m ρ c (Proc.devRef .tc main_v152) := by
    show StableHlo.after hostOps1_2 (StableHlo.after hostOps1_1 (StableHlo.after hostOps1 (W8 m ρ c))) (Proc.devRef .tc main_v152) = _
    generalize W8 m ρ c = V
    after_results_simp
  have k12 : W12 m ρ c (Proc.devRef .tc main_v152) = W11 m ρ c (Proc.devRef .tc main_v152) := W12_of_ne m ρ c main_v152 (by decide)
  rw [e1, shapeCast_a_a1_apply, k12, k11, k8, k7, W5_main_v152]

set_option maxHeartbeats 2000000 in
/-- Column `i12` of map 2 at vertex `v`: the chain function of the vertex's two clipped coordinates. -/
theorem col2_i12 (c : Dev nD) (v : Fin 8192) :
    (W15 m ρ c (Proc.devRef .tc main_v248) : S8192x1.Idx → BitVec 32) (ix2 v 0)
      = Chain.i12 0x41800000#32 13#32 14#32 ((W4 m ρ c (Proc.devRef .tc main_v23) : S8192.Idx → EReal) (ix1 v)) ((W4 m ρ c (Proc.devRef .tc main_v14) : S8192.Idx → EReal) (ix1 v)) := by
  have e1 : (W15 m ρ c (Proc.devRef .tc main_v248) : S8192x1.Idx → BitVec 32)
      = shapeCast S8192x1 (W12 m ρ c (Proc.devRef .tc main_v155) : S8192.Idx → BitVec 32) shapeCasts_S8192_S8192x1 := by
    show StableHlo.after hostOps2_2 (StableHlo.after hostOps2_1 (StableHlo.after hostOps2 (W12 m ρ c))) (Proc.devRef .tc main_v248) = _
    generalize W12 m ρ c = V
    after_results_simp
    try rfl
  have k7 : W7 m ρ c (Proc.devRef .tc main_v155) = W5 m ρ c (Proc.devRef .tc main_v155) := by
    show StableHlo.after hostOps0_6 (StableHlo.after hostOps0_5 (W5 m ρ c)) (Proc.devRef .tc main_v155) = _
    generalize W5 m ρ c = V
    after_results_simp
  have k8 : W8 m ρ c (Proc.devRef .tc main_v155) = W7 m ρ c (Proc.devRef .tc main_v155) := W8_of_ne m ρ c main_v155 (by decide)
  have k11 : W11 m ρ c (Proc.devRef .tc main_v155) = W8 m ρ c (Proc.devRef .tc main_v155) := by
    show StableHlo.after hostOps1_2 (StableHlo.after hostOps1_1 (StableHlo.after hostOps1 (W8 m ρ c))) (Proc.devRef .tc main_v155) = _
    generalize W8 m ρ c = V
    after_results_simp
  have k12 : W12 m ρ c (Proc.devRef .tc main_v155) = W11 m ρ c (Proc.devRef .tc main_v155) := W12_of_ne m ρ c main_v155 (by decide)
  rw [e1, shapeCast_a_a1_apply, k12, k11, k8, k7, W5_main_v155]

set_option maxHeartbeats 2000000 in
/-- Column `i21` of map 2 at vertex `v`: the chain function of the vertex's two clipped coordinates. -/
theorem col2_i21 (c : Dev nD) (v : Fin 8192) :
    (W15 m ρ c (Proc.devRef .tc main_v249) : S8192x1.Idx → BitVec 32) (ix2 v 0)
      = Chain.i21 0x41800000#32 13#32 14#32 ((W4 m ρ c (Proc.devRef .tc main_v23) : S8192.Idx → EReal) (ix1 v)) ((W4 m ρ c (Proc.devRef .tc main_v14) : S8192.Idx → EReal) (ix1 v)) := by
  have e1 : (W15 m ρ c (Proc.devRef .tc main_v249) : S8192x1.Idx → BitVec 32)
      = shapeCast S8192x1 (W12 m ρ c (Proc.devRef .tc main_v158) : S8192.Idx → BitVec 32) shapeCasts_S8192_S8192x1 := by
    show StableHlo.after hostOps2_2 (StableHlo.after hostOps2_1 (StableHlo.after hostOps2 (W12 m ρ c))) (Proc.devRef .tc main_v249) = _
    generalize W12 m ρ c = V
    after_results_simp
    try rfl
  have k7 : W7 m ρ c (Proc.devRef .tc main_v158) = W5 m ρ c (Proc.devRef .tc main_v158) := by
    show StableHlo.after hostOps0_6 (StableHlo.after hostOps0_5 (W5 m ρ c)) (Proc.devRef .tc main_v158) = _
    generalize W5 m ρ c = V
    after_results_simp
  have k8 : W8 m ρ c (Proc.devRef .tc main_v158) = W7 m ρ c (Proc.devRef .tc main_v158) := W8_of_ne m ρ c main_v158 (by decide)
  have k11 : W11 m ρ c (Proc.devRef .tc main_v158) = W8 m ρ c (Proc.devRef .tc main_v158) := by
    show StableHlo.after hostOps1_2 (StableHlo.after hostOps1_1 (StableHlo.after hostOps1 (W8 m ρ c))) (Proc.devRef .tc main_v158) = _
    generalize W8 m ρ c = V
    after_results_simp
  have k12 : W12 m ρ c (Proc.devRef .tc main_v158) = W11 m ρ c (Proc.devRef .tc main_v158) := W12_of_ne m ρ c main_v158 (by decide)
  rw [e1, shapeCast_a_a1_apply, k12, k11, k8, k7, W5_main_v158]

set_option maxHeartbeats 2000000 in
/-- Column `i22` of map 2 at vertex `v`: the chain function of the vertex's two clipped coordinates. -/
theorem col2_i22 (c : Dev nD) (v : Fin 8192) :
    (W15 m ρ c (Proc.devRef .tc main_v250) : S8192x1.Idx → BitVec 32) (ix2 v 0)
      = Chain.i22 0x41800000#32 13#32 14#32 ((W4 m ρ c (Proc.devRef .tc main_v23) : S8192.Idx → EReal) (ix1 v)) ((W4 m ρ c (Proc.devRef .tc main_v14) : S8192.Idx → EReal) (ix1 v)) := by
  have e1 : (W15 m ρ c (Proc.devRef .tc main_v250) : S8192x1.Idx → BitVec 32)
      = shapeCast S8192x1 (W12 m ρ c (Proc.devRef .tc main_v161) : S8192.Idx → BitVec 32) shapeCasts_S8192_S8192x1 := by
    show StableHlo.after hostOps2_2 (StableHlo.after hostOps2_1 (StableHlo.after hostOps2 (W12 m ρ c))) (Proc.devRef .tc main_v250) = _
    generalize W12 m ρ c = V
    after_results_simp
    try rfl
  have k7 : W7 m ρ c (Proc.devRef .tc main_v161) = W5 m ρ c (Proc.devRef .tc main_v161) := by
    show StableHlo.after hostOps0_6 (StableHlo.after hostOps0_5 (W5 m ρ c)) (Proc.devRef .tc main_v161) = _
    generalize W5 m ρ c = V
    after_results_simp
  have k8 : W8 m ρ c (Proc.devRef .tc main_v161) = W7 m ρ c (Proc.devRef .tc main_v161) := W8_of_ne m ρ c main_v161 (by decide)
  have k11 : W11 m ρ c (Proc.devRef .tc main_v161) = W8 m ρ c (Proc.devRef .tc main_v161) := by
    show StableHlo.after hostOps1_2 (StableHlo.after hostOps1_1 (StableHlo.after hostOps1 (W8 m ρ c))) (Proc.devRef .tc main_v161) = _
    generalize W8 m ρ c = V
    after_results_simp
  have k12 : W12 m ρ c (Proc.devRef .tc main_v161) = W11 m ρ c (Proc.devRef .tc main_v161) := W12_of_ne m ρ c main_v161 (by decide)
  rw [e1, shapeCast_a_a1_apply, k12, k11, k8, k7, W5_main_v161]

set_option maxHeartbeats 2000000 in
/-- Column `w11` of map 2 at vertex `v`: the chain function of the vertex's two clipped coordinates. -/
theorem col2_w11 (c : Dev nD) (v : Fin 8192) :
    (W15 m ρ c (Proc.devRef .tc main_v251) : S8192x1.Idx → EReal) (ix2 v 0)
      = Chain.w11 0x41800000#32 13#32 ((W4 m ρ c (Proc.devRef .tc main_v23) : S8192.Idx → EReal) (ix1 v)) ((W4 m ρ c (Proc.devRef .tc main_v14) : S8192.Idx → EReal) (ix1 v)) := by
  have e1 : (W15 m ρ c (Proc.devRef .tc main_v251) : S8192x1.Idx → EReal)
      = shapeCast S8192x1 (W12 m ρ c (Proc.devRef .tc main_v137) : S8192.Idx → EReal) shapeCasts_S8192_S8192x1 := by
    show StableHlo.after hostOps2_2 (StableHlo.after hostOps2_1 (StableHlo.after hostOps2 (W12 m ρ c))) (Proc.devRef .tc main_v251) = _
    generalize W12 m ρ c = V
    after_results_simp
    try rfl
  have k7 : W7 m ρ c (Proc.devRef .tc main_v137) = W5 m ρ c (Proc.devRef .tc main_v137) := by
    show StableHlo.after hostOps0_6 (StableHlo.after hostOps0_5 (W5 m ρ c)) (Proc.devRef .tc main_v137) = _
    generalize W5 m ρ c = V
    after_results_simp
  have k8 : W8 m ρ c (Proc.devRef .tc main_v137) = W7 m ρ c (Proc.devRef .tc main_v137) := W8_of_ne m ρ c main_v137 (by decide)
  have k11 : W11 m ρ c (Proc.devRef .tc main_v137) = W8 m ρ c (Proc.devRef .tc main_v137) := by
    show StableHlo.after hostOps1_2 (StableHlo.after hostOps1_1 (StableHlo.after hostOps1 (W8 m ρ c))) (Proc.devRef .tc main_v137) = _
    generalize W8 m ρ c = V
    after_results_simp
  have k12 : W12 m ρ c (Proc.devRef .tc main_v137) = W11 m ρ c (Proc.devRef .tc main_v137) := W12_of_ne m ρ c main_v137 (by decide)
  rw [e1, shapeCast_a_a1_apply, k12, k11, k8, k7, W5_main_v137]

set_option maxHeartbeats 2000000 in
/-- Column `w12` of map 2 at vertex `v`: the chain function of the vertex's two clipped coordinates. -/
theorem col2_w12 (c : Dev nD) (v : Fin 8192) :
    (W15 m ρ c (Proc.devRef .tc main_v252) : S8192x1.Idx → EReal) (ix2 v 0)
      = Chain.w12 0x41800000#32 13#32 ((W4 m ρ c (Proc.devRef .tc main_v23) : S8192.Idx → EReal) (ix1 v)) ((W4 m ρ c (Proc.devRef .tc main_v14) : S8192.Idx → EReal) (ix1 v)) := by
  have e1 : (W15 m ρ c (Proc.devRef .tc main_v252) : S8192x1.Idx → EReal)
      = shapeCast S8192x1 (W12 m ρ c (Proc.devRef .tc main_v141) : S8192.Idx → EReal) shapeCasts_S8192_S8192x1 := by
    show StableHlo.after hostOps2_2 (StableHlo.after hostOps2_1 (StableHlo.after hostOps2 (W12 m ρ c))) (Proc.devRef .tc main_v252) = _
    generalize W12 m ρ c = V
    after_results_simp
    try rfl
  have k7 : W7 m ρ c (Proc.devRef .tc main_v141) = W5 m ρ c (Proc.devRef .tc main_v141) := by
    show StableHlo.after hostOps0_6 (StableHlo.after hostOps0_5 (W5 m ρ c)) (Proc.devRef .tc main_v141) = _
    generalize W5 m ρ c = V
    after_results_simp
  have k8 : W8 m ρ c (Proc.devRef .tc main_v141) = W7 m ρ c (Proc.devRef .tc main_v141) := W8_of_ne m ρ c main_v141 (by decide)
  have k11 : W11 m ρ c (Proc.devRef .tc main_v141) = W8 m ρ c (Proc.devRef .tc main_v141) := by
    show StableHlo.after hostOps1_2 (StableHlo.after hostOps1_1 (StableHlo.after hostOps1 (W8 m ρ c))) (Proc.devRef .tc main_v141) = _
    generalize W8 m ρ c = V
    after_results_simp
  have k12 : W12 m ρ c (Proc.devRef .tc main_v141) = W11 m ρ c (Proc.devRef .tc main_v141) := W12_of_ne m ρ c main_v141 (by decide)
  rw [e1, shapeCast_a_a1_apply, k12, k11, k8, k7, W5_main_v141]

set_option maxHeartbeats 2000000 in
/-- Column `w21` of map 2 at vertex `v`: the chain function of the vertex's two clipped coordinates. -/
theorem col2_w21 (c : Dev nD) (v : Fin 8192) :
    (W15 m ρ c (Proc.devRef .tc main_v253) : S8192x1.Idx → EReal) (ix2 v 0)
      = Chain.w21 0x41800000#32 13#32 ((W4 m ρ c (Proc.devRef .tc main_v23) : S8192.Idx → EReal) (ix1 v)) ((W4 m ρ c (Proc.devRef .tc main_v14) : S8192.Idx → EReal) (ix1 v)) := by
  have e1 : (W15 m ρ c (Proc.devRef .tc main_v253) : S8192x1.Idx → EReal)
      = shapeCast S8192x1 (W12 m ρ c (Proc.devRef .tc main_v145) : S8192.Idx → EReal) shapeCasts_S8192_S8192x1 := by
    show StableHlo.after hostOps2_2 (StableHlo.after hostOps2_1 (StableHlo.after hostOps2 (W12 m ρ c))) (Proc.devRef .tc main_v253) = _
    generalize W12 m ρ c = V
    after_results_simp
    try rfl
  have k7 : W7 m ρ c (Proc.devRef .tc main_v145) = W5 m ρ c (Proc.devRef .tc main_v145) := by
    show StableHlo.after hostOps0_6 (StableHlo.after hostOps0_5 (W5 m ρ c)) (Proc.devRef .tc main_v145) = _
    generalize W5 m ρ c = V
    after_results_simp
  have k8 : W8 m ρ c (Proc.devRef .tc main_v145) = W7 m ρ c (Proc.devRef .tc main_v145) := W8_of_ne m ρ c main_v145 (by decide)
  have k11 : W11 m ρ c (Proc.devRef .tc main_v145) = W8 m ρ c (Proc.devRef .tc main_v145) := by
    show StableHlo.after hostOps1_2 (StableHlo.after hostOps1_1 (StableHlo.after hostOps1 (W8 m ρ c))) (Proc.devRef .tc main_v145) = _
    generalize W8 m ρ c = V
    after_results_simp
  have k12 : W12 m ρ c (Proc.devRef .tc main_v145) = W11 m ρ c (Proc.devRef .tc main_v145) := W12_of_ne m ρ c main_v145 (by decide)
  rw [e1, shapeCast_a_a1_apply, k12, k11, k8, k7, W5_main_v145]

set_option maxHeartbeats 2000000 in
/-- Column `w22` of map 2 at vertex `v`: the chain function of the vertex's two clipped coordinates. -/
theorem col2_w22 (c : Dev nD) (v : Fin 8192) :
    (W15 m ρ c (Proc.devRef .tc main_v254) : S8192x1.Idx → EReal) (ix2 v 0)
      = Chain.w22 0x41800000#32 13#32 ((W4 m ρ c (Proc.devRef .tc main_v23) : S8192.Idx → EReal) (ix1 v)) ((W4 m ρ c (Proc.devRef .tc main_v14) : S8192.Idx → EReal) (ix1 v)) := by
  have e1 : (W15 m ρ c (Proc.devRef .tc main_v254) : S8192x1.Idx → EReal)
      = shapeCast S8192x1 (W12 m ρ c (Proc.devRef .tc main_v149) : S8192.Idx → EReal) shapeCasts_S8192_S8192x1 := by
    show StableHlo.after hostOps2_2 (StableHlo.after hostOps2_1 (StableHlo.after hostOps2 (W12 m ρ c))) (Proc.devRef .tc main_v254) = _
    generalize W12 m ρ c = V
    after_results_simp
    try rfl
  have k7 : W7 m ρ c (Proc.devRef .tc main_v149) = W5 m ρ c (Proc.devRef .tc main_v149) := by
    show StableHlo.after hostOps0_6 (StableHlo.after hostOps0_5 (W5 m ρ c)) (Proc.devRef .tc main_v149) = _
    generalize W5 m ρ c = V
    after_results_simp
  have k8 : W8 m ρ c (Proc.devRef .tc main_v149) = W7 m ρ c (Proc.devRef .tc main_v149) := W8_of_ne m ρ c main_v149 (by decide)
  have k11 : W11 m ρ c (Proc.devRef .tc main_v149) = W8 m ρ c (Proc.devRef .tc main_v149) := by
    show StableHlo.after hostOps1_2 (StableHlo.after hostOps1_1 (StableHlo.after hostOps1 (W8 m ρ c))) (Proc.devRef .tc main_v149) = _
    generalize W8 m ρ c = V
    after_results_simp
  have k12 : W12 m ρ c (Proc.devRef .tc main_v149) = W11 m ρ c (Proc.devRef .tc main_v149) := W12_of_ne m ρ c main_v149 (by decide)
  rw [e1, shapeCast_a_a1_apply, k12, k11, k8, k7, W5_main_v149]

end Cert.KernelIdeal.Hand

end
-- ==== Proof.KI.R2Sel.lean ====
import proofs.«120270_j2259152797813_2_alg».proof.Proof.Gen.KernelIdeal.Skeleton
import Idealize.ShloMosaic.Lib.ValueIdx
import Idealize.ShloMosaic.Lib.Pipeline.Value
import Idealize.ShloMosaic.PureOps.Ideal.Laws
import proofs.«120270_j2259152797813_2_alg».proof.Proof.LibOneHotMask

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! # Region 2: its payloads read at an entry, over the extended reals -/

/-- The block product at an entry: the sum over the 256 contracted positions of the entries' products. -/
theorem mm2_apply (A : FVec Ideal S256x256 .bf16) (B : FVec Ideal S256x128 .bf16) (a : Fin 256) (b : Fin 128) :
    FloatOps.matmul dot_S256x256_S256x128_S256x128_1_0_0_1_n_n none A B (constant (F := Ideal) S256x128 .f32 0x00000000#32) (ix2 a b)
      = ∑ k : Fin 256, A (ix2 a k) * B (ix2 k b) := by
  rw [Ideal.matmul_constant_zero_apply, ← Equiv.sum_comp (contrEquiv1 dot_S256x256_S256x128_S256x128_1_0_0_1_n_n 256 rfl rfl).symm]
  refine Finset.sum_congr rfl fun k _ => ?_
  have c2 := contrEquiv1_symm_val dot_S256x256_S256x128_S256x128_1_0_0_1_n_n 256 rfl rfl k
  have l2 : dot_S256x256_S256x128_S256x128_1_0_0_1_n_n.lhsIdx (ix2 a b) ((contrEquiv1 _ 256 rfl rfl).symm k) = ix2 a k := by
    funext ax; apply Fin.ext
    match ax with
    | ⟨0, _⟩ => simp [DotDims.lhsIdx, dot_S256x256_S256x128_S256x128_1_0_0_1_n_n]; rfl
    | ⟨1, _⟩ => simp [DotDims.lhsIdx, dot_S256x256_S256x128_S256x128_1_0_0_1_n_n]; exact c2
  have r2 : dot_S256x256_S256x128_S256x128_1_0_0_1_n_n.rhsIdx (ix2 a b) ((contrEquiv1 _ 256 rfl rfl).symm k) = ix2 k b := by
    funext ax; apply Fin.ext
    match ax with
    | ⟨0, _⟩ => simp [DotDims.rhsIdx, dot_S256x256_S256x128_S256x128_1_0_0_1_n_n]; exact c2
    | ⟨1, _⟩ => simp [DotDims.rhsIdx, dot_S256x256_S256x128_S256x128_1_0_0_1_n_n]; rfl
  rw [l2, r2]

/-- A column of 256 entries broadcast over 256 positions: the entry at row `r`, position `t` is the column's entry
    at row `r`. -/
theorem bcast2_apply {α : Type} (v : S256x1.Idx → α) (r : Fin 256) (t : Fin 256) :
    broadcastTo S256x256 v broadcasts_S256x1_S256x256 (ix2 r t) = v (ix2 r (0 : Fin 1)) := by
  refine broadcastTo_apply v broadcasts_S256x1_S256x256 (ix2 r t) (ix2 r (0 : Fin 1)) fun ax => ?_
  match ax with
  | ⟨0, _⟩ => rfl
  | ⟨1, _⟩ => rfl

/-- One corner's term of the selection matrix at row `r`, position `t`: the corner's weight at that row where the
    position is the corner's index, zero elsewhere. -/
theorem term2_apply (x : Vec Ideal S256x1 .i32) (w : Vec Ideal S256x1 .f32) (r : Fin 256) (t : Fin 256) :
    (mulf (sitofp .f32 (extui 32 (cmpi .eq (iota .tc S256x256 32 [1] iota_S256x256_d1_w32)
        (broadcastTo S256x256 (shapeCast S256x1 x shapeCasts_S256x1_S256x1) broadcasts_S256x1_S256x256)) natLt_1_32))
      (broadcastTo S256x256 (shapeCast S256x1 w shapeCasts_S256x1_S256x1) broadcasts_S256x1_S256x256) : FVec Ideal S256x256 .f32) (ix2 r t)
      = (if BitVec.ofNat 32 t.val = x (ix2 r (0 : Fin 1)) then (1 : EReal) else 0) * w (ix2 r (0 : Fin 1)) := by
  rw [mulf_apply, sitofp_apply, extui_apply]
  show FloatOps.sitofp (F := Ideal) .f32 ((IntOp.cmpi .eq (iota .tc S256x256 32 [1] iota_S256x256_d1_w32 (ix2 r t))
      (broadcastTo S256x256 (shapeCast S256x1 x shapeCasts_S256x1_S256x1) broadcasts_S256x1_S256x256 (ix2 r t))).setWidth 32)
    * broadcastTo S256x256 (shapeCast S256x1 w shapeCasts_S256x1_S256x1) broadcasts_S256x1_S256x256 (ix2 r t) = _
  rw [iota_single_apply, bcast2_apply, bcast2_apply, shapeCast_self, shapeCast_self, Cert.LibOneHotMask.mask_eq']

/-- The first three corners' terms of the selection matrix at an entry. -/
theorem pay2_2_apply (x0 : Vec Ideal S256x1 .i32) (x4 : Vec Ideal S256x1 .f32) (x1 : Vec Ideal S256x1 .i32) (x5 : Vec Ideal S256x1 .f32)
    (x2 : Vec Ideal S256x1 .i32) (x6 : Vec Ideal S256x1 .f32) (r : Fin 256) (t : Fin 256) :
    k2_pay2 (F := Ideal) x0 x4 x1 x5 x2 x6 (ix2 r t)
      = ((if BitVec.ofNat 32 t.val = x0 (ix2 r (0 : Fin 1)) then (1 : EReal) else 0) * x4 (ix2 r (0 : Fin 1))
          + (if BitVec.ofNat 32 t.val = x1 (ix2 r (0 : Fin 1)) then (1 : EReal) else 0) * x5 (ix2 r (0 : Fin 1)))
        + (if BitVec.ofNat 32 t.val = x2 (ix2 r (0 : Fin 1)) then (1 : EReal) else 0) * x6 (ix2 r (0 : Fin 1)) := by
  unfold k2_pay2
  dsimp only
  rw [addf_apply, addf_apply, term2_apply, term2_apply, term2_apply]

/-- The fourth corner's term of the selection matrix at an entry. -/
theorem pay3_2_apply (x3 : Vec Ideal S256x1 .i32) (x7 : Vec Ideal S256x1 .f32) (r : Fin 256) (t : Fin 256) :
    k2_pay3 (F := Ideal) x3 x7 (ix2 r t)
      = (if BitVec.ofNat 32 t.val = x3 (ix2 r (0 : Fin 1)) then (1 : EReal) else 0) * x7 (ix2 r (0 : Fin 1)) := by
  unfold k2_pay3
  dsimp only
  rw [term2_apply]

/-- The stored block at an entry: row `r` of the selection matrix (the four corners' terms added in the body's
    order) times column `b` of the projected map. -/
theorem pay2_apply (x0 x1 x2 x3 : Vec Ideal S256x1 .i32) (x4 x5 x6 x7 : Vec Ideal S256x1 .f32) (x8 : Vec Ideal S256x128 .bf16)
    (r : Fin 256) (b : Fin 128) :
    k2_pay1 (F := Ideal) (k2_pay2 x0 x4 x1 x5 x2 x6) (k2_pay3 x3 x7) x8 (ix2 r b)
      = ∑ t : Fin 256, ((((if BitVec.ofNat 32 t.val = x0 (ix2 r (0 : Fin 1)) then (1 : EReal) else 0) * x4 (ix2 r (0 : Fin 1))
          + (if BitVec.ofNat 32 t.val = x1 (ix2 r (0 : Fin 1)) then (1 : EReal) else 0) * x5 (ix2 r (0 : Fin 1)))
        + (if BitVec.ofNat 32 t.val = x2 (ix2 r (0 : Fin 1)) then (1 : EReal) else 0) * x6 (ix2 r (0 : Fin 1)))
        + (if BitVec.ofNat 32 t.val = x3 (ix2 r (0 : Fin 1)) then (1 : EReal) else 0) * x7 (ix2 r (0 : Fin 1))) * x8 (ix2 t b) := by
  unfold k2_pay1
  simp only [shapeCast_self]
  refine (mm2_apply _ _ r b).trans ?_
  refine Finset.sum_congr rfl fun t _ => ?_
  rw [truncf_apply, addf_apply, pay2_2_apply, pay3_2_apply]

/-- The result, entry by entry: at vertex row `p`, column `q`, the sum over the 256 map positions of the row's
    selection weight at the position (each corner's weight where the position is that corner's flat index, added in the
    body's order) times the projected map's entry at the position and column `q`. -/
def Sel2 (I0 I1 I2 I3 : S8192x1.Idx → BitVec 32) (A4 A5 A6 A7 : S8192x1.Idx → EReal) (P : S256x128.Idx → EReal) : S8192x128.Idx → EReal :=
  fun i => ∑ t : Fin 256, ((((if BitVec.ofNat 32 t.val = I0 (ix2 (i 0) 0) then (1 : EReal) else 0) * A4 (ix2 (i 0) 0) + (if BitVec.ofNat 32 t.val = I1 (ix2 (i 0) 0) then (1 : EReal) else 0) * A5 (ix2 (i 0) 0)) + (if BitVec.ofNat 32 t.val = I2 (ix2 (i 0) 0) then (1 : EReal) else 0) * A6 (ix2 (i 0) 0)) + (if BitVec.ofNat 32 t.val = I3 (ix2 (i 0) 0) then (1 : EReal) else 0) * A7 (ix2 (i 0) 0)) * P (ix2 t (i 1))

/-- ONE ENTRY of what a point writes back. When the nine blocks are the cuts of the arrays at vertex row `p` (the
    eight columns) and the whole projected map, the stored block's entry (r, b) is the entry (p, b) of `Sel2`. -/
theorem join2 (I0 I1 I2 I3 : S8192x1.Idx → BitVec 32) (A4 A5 A6 A7 : S8192x1.Idx → EReal) (P : S256x128.Idx → EReal)
    (x0 x1 x2 x3 : Vec Ideal S256x1 .i32) (x4 x5 x6 x7 : Vec Ideal S256x1 .f32) (x8 : Vec Ideal S256x128 .bf16)
    (r : Fin 256) (b : Fin 128) (p : Fin 8192)
    (h0 : x0 (ix2 r (0 : Fin 1)) = I0 (ix2 p 0)) (h1 : x1 (ix2 r (0 : Fin 1)) = I1 (ix2 p 0))
    (h2 : x2 (ix2 r (0 : Fin 1)) = I2 (ix2 p 0)) (h3 : x3 (ix2 r (0 : Fin 1)) = I3 (ix2 p 0))
    (h4 : x4 (ix2 r (0 : Fin 1)) = A4 (ix2 p 0)) (h5 : x5 (ix2 r (0 : Fin 1)) = A5 (ix2 p 0))
    (h6 : x6 (ix2 r (0 : Fin 1)) = A6 (ix2 p 0)) (h7 : x7 (ix2 r (0 : Fin 1)) = A7 (ix2 p 0))
    (h8 : ∀ t : Fin 256, x8 (ix2 t b) = P (ix2 t b)) :
    k2_pay1 (F := Ideal) (k2_pay2 x0 x4 x1 x5 x2 x6) (k2_pay3 x3 x7) x8 (ix2 r b) = Sel2 I0 I1 I2 I3 A4 A5 A6 A7 P (ix2 p b) := by
  rw [pay2_apply, h0, h1, h2, h3, h4, h5, h6, h7]
  show _ = ∑ t : Fin 256, _
  exact Finset.sum_congr rfl fun t _ => by rw [h8 t]

end Cert.KernelIdeal.Hand

end
-- ==== Proof.KI.R2SelFinal.lean ====
import proofs.«120270_j2259152797813_2_alg».proof.Proof.KI.R2
import proofs.«120270_j2259152797813_2_alg».proof.Proof.KI.R2Sel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.ValueIdx
open scoped BigOperators

variable (V : (c : Dev nD) → (b : Ref sig .tc) → Buf (Elt Ideal) ((c : Thread nD τ).loc b))

/-! # Region 2: its result array after the region, as one function of the nine input arrays -/

theorem hz2s : (![0, 0] : Fin 2 → Nat) = fun _ => 0 := funext fun a => by fin_cases a <;> rfl

/-- Window 0's block index at point `t`: row block `t`. Decided over the grid. -/
theorem idx2_0 : ∀ t : Fin cfg2.N, win2_0.index t (0 : Fin 2) = t.val ∧ win2_0.index t (1 : Fin 2) = 0 :=
  (by decide +kernel : ∀ t : Fin grid2.N, _)
/-- Window 1's block index at point `t`: row block `t`. Decided over the grid. -/
theorem idx2_1 : ∀ t : Fin cfg2.N, win2_1.index t (0 : Fin 2) = t.val ∧ win2_1.index t (1 : Fin 2) = 0 :=
  (by decide +kernel : ∀ t : Fin grid2.N, _)
/-- Window 2's block index at point `t`: row block `t`. Decided over the grid. -/
theorem idx2_2 : ∀ t : Fin cfg2.N, win2_2.index t (0 : Fin 2) = t.val ∧ win2_2.index t (1 : Fin 2) = 0 :=
  (by decide +kernel : ∀ t : Fin grid2.N, _)
/-- Window 3's block index at point `t`: row block `t`. Decided over the grid. -/
theorem idx2_3 : ∀ t : Fin cfg2.N, win2_3.index t (0 : Fin 2) = t.val ∧ win2_3.index t (1 : Fin 2) = 0 :=
  (by decide +kernel : ∀ t : Fin grid2.N, _)
/-- Window 4's block index at point `t`: row block `t`. Decided over the grid. -/
theorem idx2_4 : ∀ t : Fin cfg2.N, win2_4.index t (0 : Fin 2) = t.val ∧ win2_4.index t (1 : Fin 2) = 0 :=
  (by decide +kernel : ∀ t : Fin grid2.N, _)
/-- Window 5's block index at point `t`: row block `t`. Decided over the grid. -/
theorem idx2_5 : ∀ t : Fin cfg2.N, win2_5.index t (0 : Fin 2) = t.val ∧ win2_5.index t (1 : Fin 2) = 0 :=
  (by decide +kernel : ∀ t : Fin grid2.N, _)
/-- Window 6's block index at point `t`: row block `t`. Decided over the grid. -/
theorem idx2_6 : ∀ t : Fin cfg2.N, win2_6.index t (0 : Fin 2) = t.val ∧ win2_6.index t (1 : Fin 2) = 0 :=
  (by decide +kernel : ∀ t : Fin grid2.N, _)
/-- Window 7's block index at point `t`: row block `t`. Decided over the grid. -/
theorem idx2_7 : ∀ t : Fin cfg2.N, win2_7.index t (0 : Fin 2) = t.val ∧ win2_7.index t (1 : Fin 2) = 0 :=
  (by decide +kernel : ∀ t : Fin grid2.N, _)
/-- Window 8's block index at point `t`: the one block, at every point. Decided over the grid. -/
theorem idx2_8 : ∀ t : Fin cfg2.N, win2_8.index t (0 : Fin 2) = 0 ∧ win2_8.index t (1 : Fin 2) = 0 :=
  (by decide +kernel : ∀ t : Fin grid2.N, _)
/-- Window 9's block index at point `t`: row block `t`. Decided over the grid. -/
theorem idx2_9 : ∀ t : Fin cfg2.N, win2_9.index t (0 : Fin 2) = t.val ∧ win2_9.index t (1 : Fin 2) = 0 :=
  (by decide +kernel : ∀ t : Fin grid2.N, _)

/-- An entry of window 0's block is the entry of its column at vertex row `256·t + r`. -/
theorem iblk2_0_apply (c : Dev nD) (t : Fin cfg2.N) (r : Fin 256) (p : Fin 8192) (hp : p.val = 256 * t.val + r.val) :
    (iblk2 V c 0 t : Vec Ideal S256x1 .i32) (ix2 r (0 : Fin 1)) = (V c (Pipeline.arrRef spec2 0) : S8192x1.Idx → BitVec 32) (ix2 p (0 : Fin 1)) := by
  obtain ⟨e0, e1⟩ := idx2_0 t
  show V c (Pipeline.arrRef spec2 0) (((cfg2.win 0).blk t).view.emb (ix2 r (0 : Fin 1))) = _
  congr 1
  funext a; apply Fin.ext
  match a with
  | ⟨0, _⟩ => show win2_0.index t (0 : Fin 2) * 256 + 1 * r.val = p.val; rw [e0, hp]; omega
  | ⟨1, _⟩ => show win2_0.index t (1 : Fin 2) * 1 + 1 * 0 = 0; rw [e1]

/-- An entry of window 1's block is the entry of its column at vertex row `256·t + r`. -/
theorem iblk2_1_apply (c : Dev nD) (t : Fin cfg2.N) (r : Fin 256) (p : Fin 8192) (hp : p.val = 256 * t.val + r.val) :
    (iblk2 V c 1 t : Vec Ideal S256x1 .i32) (ix2 r (0 : Fin 1)) = (V c (Pipeline.arrRef spec2 1) : S8192x1.Idx → BitVec 32) (ix2 p (0 : Fin 1)) := by
  obtain ⟨e0, e1⟩ := idx2_1 t
  show V c (Pipeline.arrRef spec2 1) (((cfg2.win 1).blk t).view.emb (ix2 r (0 : Fin 1))) = _
  congr 1
  funext a; apply Fin.ext
  match a with
  | ⟨0, _⟩ => show win2_1.index t (0 : Fin 2) * 256 + 1 * r.val = p.val; rw [e0, hp]; omega
  | ⟨1, _⟩ => show win2_1.index t (1 : Fin 2) * 1 + 1 * 0 = 0; rw [e1]

/-- An entry of window 2's block is the entry of its column at vertex row `256·t + r`. -/
theorem iblk2_2_apply (c : Dev nD) (t : Fin cfg2.N) (r : Fin 256) (p : Fin 8192) (hp : p.val = 256 * t.val + r.val) :
    (iblk2 V c 2 t : Vec Ideal S256x1 .i32) (ix2 r (0 : Fin 1)) = (V c (Pipeline.arrRef spec2 2) : S8192x1.Idx → BitVec 32) (ix2 p (0 : Fin 1)) := by
  obtain ⟨e0, e1⟩ := idx2_2 t
  show V c (Pipeline.arrRef spec2 2) (((cfg2.win 2).blk t).view.emb (ix2 r (0 : Fin 1))) = _
  congr 1
  funext a; apply Fin.ext
  match a with
  | ⟨0, _⟩ => show win2_2.index t (0 : Fin 2) * 256 + 1 * r.val = p.val; rw [e0, hp]; omega
  | ⟨1, _⟩ => show win2_2.index t (1 : Fin 2) * 1 + 1 * 0 = 0; rw [e1]

/-- An entry of window 3's block is the entry of its column at vertex row `256·t + r`. -/
theorem iblk2_3_apply (c : Dev nD) (t : Fin cfg2.N) (r : Fin 256) (p : Fin 8192) (hp : p.val = 256 * t.val + r.val) :
    (iblk2 V c 3 t : Vec Ideal S256x1 .i32) (ix2 r (0 : Fin 1)) = (V c (Pipeline.arrRef spec2 3) : S8192x1.Idx → BitVec 32) (ix2 p (0 : Fin 1)) := by
  obtain ⟨e0, e1⟩ := idx2_3 t
  show V c (Pipeline.arrRef spec2 3) (((cfg2.win 3).blk t).view.emb (ix2 r (0 : Fin 1))) = _
  congr 1
  funext a; apply Fin.ext
  match a with
  | ⟨0, _⟩ => show win2_3.index t (0 : Fin 2) * 256 + 1 * r.val = p.val; rw [e0, hp]; omega
  | ⟨1, _⟩ => show win2_3.index t (1 : Fin 2) * 1 + 1 * 0 = 0; rw [e1]

/-- An entry of window 4's block is the entry of its column at vertex row `256·t + r`. -/
theorem iblk2_4_apply (c : Dev nD) (t : Fin cfg2.N) (r : Fin 256) (p : Fin 8192) (hp : p.val = 256 * t.val + r.val) :
    (iblk2 V c 4 t : Vec Ideal S256x1 .f32) (ix2 r (0 : Fin 1)) = (V c (Pipeline.arrRef spec2 4) : S8192x1.Idx → EReal) (ix2 p (0 : Fin 1)) := by
  obtain ⟨e0, e1⟩ := idx2_4 t
  show V c (Pipeline.arrRef spec2 4) (((cfg2.win 4).blk t).view.emb (ix2 r (0 : Fin 1))) = _
  congr 1
  funext a; apply Fin.ext
  match a with
  | ⟨0, _⟩ => show win2_4.index t (0 : Fin 2) * 256 + 1 * r.val = p.val; rw [e0, hp]; omega
  | ⟨1, _⟩ => show win2_4.index t (1 : Fin 2) * 1 + 1 * 0 = 0; rw [e1]

/-- An entry of window 5's block is the entry of its column at vertex row `256·t + r`. -/
theorem iblk2_5_apply (c : Dev nD) (t : Fin cfg2.N) (r : Fin 256) (p : Fin 8192) (hp : p.val = 256 * t.val + r.val) :
    (iblk2 V c 5 t : Vec Ideal S256x1 .f32) (ix2 r (0 : Fin 1)) = (V c (Pipeline.arrRef spec2 5) : S8192x1.Idx → EReal) (ix2 p (0 : Fin 1)) := by
  obtain ⟨e0, e1⟩ := idx2_5 t
  show V c (Pipeline.arrRef spec2 5) (((cfg2.win 5).blk t).view.emb (ix2 r (0 : Fin 1))) = _
  congr 1
  funext a; apply Fin.ext
  match a with
  | ⟨0, _⟩ => show win2_5.index t (0 : Fin 2) * 256 + 1 * r.val = p.val; rw [e0, hp]; omega
  | ⟨1, _⟩ => show win2_5.index t (1 : Fin 2) * 1 + 1 * 0 = 0; rw [e1]

/-- An entry of window 6's block is the entry of its column at vertex row `256·t + r`. -/
theorem iblk2_6_apply (c : Dev nD) (t : Fin cfg2.N) (r : Fin 256) (p : Fin 8192) (hp : p.val = 256 * t.val + r.val) :
    (iblk2 V c 6 t : Vec Ideal S256x1 .f32) (ix2 r (0 : Fin 1)) = (V c (Pipeline.arrRef spec2 6) : S8192x1.Idx → EReal) (ix2 p (0 : Fin 1)) := by
  obtain ⟨e0, e1⟩ := idx2_6 t
  show V c (Pipeline.arrRef spec2 6) (((cfg2.win 6).blk t).view.emb (ix2 r (0 : Fin 1))) = _
  congr 1
  funext a; apply Fin.ext
  match a with
  | ⟨0, _⟩ => show win2_6.index t (0 : Fin 2) * 256 + 1 * r.val = p.val; rw [e0, hp]; omega
  | ⟨1, _⟩ => show win2_6.index t (1 : Fin 2) * 1 + 1 * 0 = 0; rw [e1]

/-- An entry of window 7's block is the entry of its column at vertex row `256·t + r`. -/
theorem iblk2_7_apply (c : Dev nD) (t : Fin cfg2.N) (r : Fin 256) (p : Fin 8192) (hp : p.val = 256 * t.val + r.val) :
    (iblk2 V c 7 t : Vec Ideal S256x1 .f32) (ix2 r (0 : Fin 1)) = (V c (Pipeline.arrRef spec2 7) : S8192x1.Idx → EReal) (ix2 p (0 : Fin 1)) := by
  obtain ⟨e0, e1⟩ := idx2_7 t
  show V c (Pipeline.arrRef spec2 7) (((cfg2.win 7).blk t).view.emb (ix2 r (0 : Fin 1))) = _
  congr 1
  funext a; apply Fin.ext
  match a with
  | ⟨0, _⟩ => show win2_7.index t (0 : Fin 2) * 256 + 1 * r.val = p.val; rw [e0, hp]; omega
  | ⟨1, _⟩ => show win2_7.index t (1 : Fin 2) * 1 + 1 * 0 = 0; rw [e1]

/-- Window 8's block is its whole array, at every point. -/
theorem iblk2_8_apply (c : Dev nD) (t : Fin cfg2.N) (k : Fin 256) (b : Fin 128) :
    (iblk2 V c 8 t : Vec Ideal S256x128 .bf16) (ix2 k b) = (V c (Pipeline.arrRef spec2 8) : S256x128.Idx → EReal) (ix2 k b) := by
  obtain ⟨e0, e1⟩ := idx2_8 t
  show V c (Pipeline.arrRef spec2 8) (((cfg2.win 8).blk t).view.emb (ix2 k b)) = _
  congr 1
  funext a; apply Fin.ext
  match a with
  | ⟨0, _⟩ => show win2_8.index t (0 : Fin 2) * 256 + 1 * k.val = k.val; rw [e0]; omega
  | ⟨1, _⟩ => show win2_8.index t (1 : Fin 2) * 128 + 1 * b.val = b.val; rw [e1]; omega

/-- The vertex row of the array that row `r` of point `t`'s block is. -/
theorem row_lt2s (t : Fin cfg2.N) (r : Fin 256) : 256 * t.val + r.val < 8192 := by
  have hN : t.val < 32 := lt_of_lt_of_eq t.isLt (show cfg2.N = 32 from N_2)
  have hr := r.isLt; omega

set_option maxHeartbeats 1000000 in
/-- WHAT A POINT WRITES BACK is its block of `Sel2` of the nine arrays as the region finds them. -/
theorem flushed2_eq (c : Dev nD) (t : Fin cfg2.N) (hf : (cfg2.win 9).flush t = true) :
    (dat2 V c).flushed 9 t
      = ((cfg2.win 9).blk t).view.read (Elt Ideal)
          (Sel2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))) := by
  obtain ⟨e0, e1⟩ := idx2_9 t
  show (cfg2.win 9).cut (grid2.coords t) ((dat2 V c).after 9 t) = _
  rw [after2_9]
  unfold out2_9
  rw [View.canon_unit_zero (S := S256x128) hz2s]
  simp only [View.ld_unit_zero (S := S256x1) hz2s, View.ld_unit_zero (S := S256x128) hz2s]
  funext j
  obtain ⟨r, b, rfl⟩ : ∃ (r : Fin 256) (b : Fin 128), j = ix2 r b := ⟨j 0, j 1, eq_ix2 j⟩
  have hemb : ((cfg2.win 9).blk t).view.emb (ix2 r b) = ix2 (⟨256 * t.val + r.val, row_lt2s t r⟩ : Fin 8192) b := by
    funext a; apply Fin.ext
    match a with
    | ⟨0, _⟩ => show win2_9.index t (0 : Fin 2) * 256 + 1 * r.val = 256 * t.val + r.val; rw [e0]; omega
    | ⟨1, _⟩ => show win2_9.index t (1 : Fin 2) * 128 + 1 * b.val = b.val; rw [e1]; omega
  show k2_pay1 (F := Ideal) (k2_pay2 (iblk2 V c 0 t) (iblk2 V c 4 t) (iblk2 V c 1 t) (iblk2 V c 5 t) (iblk2 V c 2 t) (iblk2 V c 6 t))
      (k2_pay3 (iblk2 V c 3 t) (iblk2 V c 7 t)) (iblk2 V c 8 t) (ix2 r b)
    = Sel2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (((cfg2.win 9).blk t).view.emb (ix2 r b))
  rw [hemb]
  exact join2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))
    (iblk2 V c 0 t) (iblk2 V c 1 t) (iblk2 V c 2 t) (iblk2 V c 3 t) (iblk2 V c 4 t) (iblk2 V c 5 t) (iblk2 V c 6 t) (iblk2 V c 7 t) (iblk2 V c 8 t) r b
    ⟨256 * t.val + r.val, row_lt2s t r⟩
    (iblk2_0_apply V c t r _ rfl) (iblk2_1_apply V c t r _ rfl) (iblk2_2_apply V c t r _ rfl) (iblk2_3_apply V c t r _ rfl)
    (iblk2_4_apply V c t r _ rfl) (iblk2_5_apply V c t r _ rfl) (iblk2_6_apply V c t r _ rfl) (iblk2_7_apply V c t r _ rfl)
    (fun k => iblk2_8_apply V c t k b)

/-- An index of the result array is in point `t`'s block iff each coordinate is in the block's range on its axis. -/
theorem mem_blk2 (t : Fin cfg2.N) (i : S8192x128.Idx) :
    i ∈ ((cfg2.win 9).blk t).view.set ↔ ∀ a : Fin 2, win2_9.index t a * S256x128.size a ≤ (i a).val ∧ (i a).val < win2_9.index t a * S256x128.size a + S256x128.size a := by
  show i ∈ ((View.whole (Pipeline.arrRef spec2 9)).slice (win2_9.rect t)).set ↔ _
  rw [View.set_slice_whole, Rect.mem_set_unit]
  exact Iff.rfl

/-- Every entry of the result array is in the block some point writes back: vertex row `p` at point `p / 256`. -/
theorem cover2s (i : S8192x128.Idx) : ∃ t : Fin cfg2.N, (cfg2.win 9).flush t = true ∧ i ∈ ((cfg2.win 9).blk t).view.set := by
  have hi0 : (i 0).val < 8192 := idx2_lt0 i
  have hi1 : (i 1).val < 128 := idx2_lt1 i
  have hlt : (i 0).val / 256 < cfg2.N := by rw [show cfg2.N = 32 from N_2]; omega
  refine ⟨⟨(i 0).val / 256, hlt⟩, flush2_9 _, ?_⟩
  obtain ⟨e0, e1⟩ := idx2_9 ⟨(i 0).val / 256, hlt⟩
  have e0' : win2_9.index ⟨(i 0).val / 256, hlt⟩ (0 : Fin 2) = (i 0).val / 256 := e0
  rw [mem_blk2]
  intro a
  match a with
  | ⟨0, _⟩ => show win2_9.index _ (0 : Fin 2) * 256 ≤ (i 0).val ∧ (i 0).val < win2_9.index _ (0 : Fin 2) * 256 + 256; rw [e0']; omega
  | ⟨1, _⟩ => show win2_9.index _ (1 : Fin 2) * 128 ≤ (i 1).val ∧ (i 1).val < win2_9.index _ (1 : Fin 2) * 128 + 128; rw [e1]; omega

/-- THE RESULT ARRAY after the region: `Sel2` of the nine input arrays as the region finds them. -/
theorem final9_2 (c : Dev nD) :
    (dat2 V c).arrAt 9 cfg2.N = Sel2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) :=
  (dat2 V c).arrAt_eq_of_cover 9 _ (fun t hf => flushed2_eq V c t hf) cover2s

end Cert.KernelIdeal.Hand

end
-- ==== Proof.KI.Contrib2.lean ====
import proofs.«120270_j2259152797813_2_alg».proof.Proof.KI.ColsB2
import proofs.«120270_j2259152797813_2_alg».proof.Proof.KI.R2SelFinal
import proofs.«120270_j2259152797813_2_alg».proof.Proof.PrefixFp
import proofs.«120270_j2259152797813_2_alg».proof.Proof.PrefixContrib
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Cert.Proof

variable (m : (ℓ : Loc nD τ sig) → Buf (Elt Ideal) ℓ) (ρ : Dev nD → PrngReg)

/-! # Map 2's contribution to the projected features, vertex by vertex

Region 2's result at vertex `v` and output column `j` is the four-corner weighted sample of the map's channels
at the vertex's cells, combined with the rows 768 … of the linear layer. -/

set_option maxHeartbeats 4000000 in
theorem contrib2 (c : Dev nD) (v : Fin 8192) (j : Fin 128)
    (hF : ∀ i, (show S1x1024x14x14.Idx → EReal from W0 m ρ c (Proc.devRef .tc main_arg2)) i ≠ ⊤ ∧ (show S1x1024x14x14.Idx → EReal from W0 m ρ c (Proc.devRef .tc main_arg2)) i ≠ ⊥)
    (hL : ∀ i, (show S3840x128.Idx → EReal from W0 m ρ c (Proc.devRef .tc main_arg7)) i ≠ ⊤ ∧ (show S3840x128.Idx → EReal from W0 m ρ c (Proc.devRef .tc main_arg7)) i ≠ ⊥)
    (x y : EReal) (ex : x = (show S8192.Idx → EReal from W4 m ρ c (Proc.devRef .tc main_v23)) (ix1 v)) (ey : y = (show S8192.Idx → EReal from W4 m ρ c (Proc.devRef .tc main_v14)) (ix1 v))
    (hx : ∃ r : ℝ, x = (r : EReal) ∧ 0 ≤ r ∧ r ≤ 223) (hy : ∃ r : ℝ, y = (r : EReal) ∧ 0 ≤ r ∧ r ≤ 223) :
    (show S8192x128.Idx → EReal from W16 m ρ c (Proc.devRef .tc main_v255)) (ix2 v j)
      = Chain.mapTerm (C := 1024) (s := 14) (by decide) 0x41800000#32 13#32
          (fun (ch : Fin 1024) (X Y : Fin 14) => (show S1x1024x14x14.Idx → EReal from W0 m ρ c (Proc.devRef .tc main_arg2)) (ix4 (0 : Fin 1) ch X Y))
          (fun (ch : Fin 1024) => (show S3840x128.Idx → EReal from W0 m ρ c (Proc.devRef .tc main_arg7)) (ix2 (⟨768 + ch.val, by have := ch.isLt; omega⟩ : Fin 3840) j)) x y := by
  have hW : (show S8192x128.Idx → EReal from W16 m ρ c (Proc.devRef .tc main_v255)) = (dat2 (V15 m ρ) c).arrAt 9 cfg2.N :=
    W16_arr m ρ c 9
  rw [hW, final9_2 (V15 m ρ) c]
  show (∑ t : Fin 256, (((((if BitVec.ofNat 32 t.val = (show S8192x1.Idx → BitVec 32 from W15 m ρ c (Proc.devRef .tc main_v247)) (ix2 v 0) then (1 : EReal) else 0) * (show S8192x1.Idx → EReal from W15 m ρ c (Proc.devRef .tc main_v251)) (ix2 v 0)
        + (if BitVec.ofNat 32 t.val = (show S8192x1.Idx → BitVec 32 from W15 m ρ c (Proc.devRef .tc main_v248)) (ix2 v 0) then (1 : EReal) else 0) * (show S8192x1.Idx → EReal from W15 m ρ c (Proc.devRef .tc main_v252)) (ix2 v 0))
        + (if BitVec.ofNat 32 t.val = (show S8192x1.Idx → BitVec 32 from W15 m ρ c (Proc.devRef .tc main_v249)) (ix2 v 0) then (1 : EReal) else 0) * (show S8192x1.Idx → EReal from W15 m ρ c (Proc.devRef .tc main_v253)) (ix2 v 0))
        + (if BitVec.ofNat 32 t.val = (show S8192x1.Idx → BitVec 32 from W15 m ρ c (Proc.devRef .tc main_v250)) (ix2 v 0) then (1 : EReal) else 0) * (show S8192x1.Idx → EReal from W15 m ρ c (Proc.devRef .tc main_v254)) (ix2 v 0))
      * (show S256x128.Idx → EReal from W15 m ρ c (Proc.devRef .tc main_v246)) (ix2 t j))) = _
  have c1 : (show S8192x1.Idx → BitVec 32 from W15 m ρ c (Proc.devRef .tc main_v247)) (ix2 v 0) = Chain.i11 0x41800000#32 14#32 x y := by rw [ex, ey]; exact col2_i11 m ρ c v
  have c2 : (show S8192x1.Idx → BitVec 32 from W15 m ρ c (Proc.devRef .tc main_v248)) (ix2 v 0) = Chain.i12 0x41800000#32 13#32 14#32 x y := by rw [ex, ey]; exact col2_i12 m ρ c v
  have c3 : (show S8192x1.Idx → BitVec 32 from W15 m ρ c (Proc.devRef .tc main_v249)) (ix2 v 0) = Chain.i21 0x41800000#32 13#32 14#32 x y := by rw [ex, ey]; exact col2_i21 m ρ c v
  have c4 : (show S8192x1.Idx → BitVec 32 from W15 m ρ c (Proc.devRef .tc main_v250)) (ix2 v 0) = Chain.i22 0x41800000#32 13#32 14#32 x y := by rw [ex, ey]; exact col2_i22 m ρ c v
  have c5 : (show S8192x1.Idx → EReal from W15 m ρ c (Proc.devRef .tc main_v251)) (ix2 v 0) = Chain.w11 0x41800000#32 13#32 x y := by rw [ex, ey]; exact col2_w11 m ρ c v
  have c6 : (show S8192x1.Idx → EReal from W15 m ρ c (Proc.devRef .tc main_v252)) (ix2 v 0) = Chain.w12 0x41800000#32 13#32 x y := by rw [ex, ey]; exact col2_w12 m ρ c v
  have c7 : (show S8192x1.Idx → EReal from W15 m ρ c (Proc.devRef .tc main_v253)) (ix2 v 0) = Chain.w21 0x41800000#32 13#32 x y := by rw [ex, ey]; exact col2_w21 m ρ c v
  have c8 : (show S8192x1.Idx → EReal from W15 m ρ c (Proc.devRef .tc main_v254)) (ix2 v 0) = Chain.w22 0x41800000#32 13#32 x y := by rw [ex, ey]; exact col2_w22 m ρ c v
  rw [c1, c2, c3, c4, c5, c6, c7, c8]
  exact Chain.chain_contrib (C := 1024) (s := 14) (n := 256) (by decide) (by decide) (by decide) (by decide)
    0x41800000#32 13#32 14#32 16 Chain.ofBits_sixteen (by norm_num) (by norm_num) (by norm_num) (by decide) (by decide)
    (fun (ch : Fin 1024) (X Y : Fin 14) => (show S1x1024x14x14.Idx → EReal from W0 m ρ c (Proc.devRef .tc main_arg2)) (ix4 (0 : Fin 1) ch X Y)) (fun ch a b => hF _) (fun (ch : Fin 1024) => (show S3840x128.Idx → EReal from W0 m ρ c (Proc.devRef .tc main_arg7)) (ix2 (⟨768 + ch.val, by have := ch.isLt; omega⟩ : Fin 3840) j)) (fun ch => hL _) x y hx hy
    (fun t => (show S256x128.Idx → EReal from W15 m ρ c (Proc.devRef .tc main_v246)) (ix2 t j))
    (fun t X Y h => fp2_apply m ρ c t j X Y h)

end Cert.KernelIdeal.Hand

end
-- ==== Proof.KI.ColsA3.lean ====
import proofs.«120270_j2259152797813_2_alg».proof.Proof.KI.Run
import proofs.«120270_j2259152797813_2_alg».proof.Proof.PrefixChain
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Cert.Proof

variable (m : (ℓ : Loc nD τ sig) → Buf (Elt Ideal) ℓ) (ρ : Dev nD → PrngReg)

/-! # Map 3: the flat indices and weights after the long host stretch, as the chain functions of the two clipped
coordinates, vertex by vertex -/

set_option maxHeartbeats 4000000 in
/-- The vector `i11` of map 3: at every vertex the chain function of the vertex's two clipped coordinates. -/
theorem W5_main_v198 (c : Dev nD) : (W5 m ρ c (Proc.devRef .tc main_v198) : S8192.Idx → BitVec 32)
    = fun i => Chain.i11 0x42000000#32 7#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v198) = _
  generalize W4 m ρ c = V
  after_results_simp
  rfl

set_option maxHeartbeats 4000000 in
/-- The vector `i12` of map 3: at every vertex the chain function of the vertex's two clipped coordinates. -/
theorem W5_main_v201 (c : Dev nD) : (W5 m ρ c (Proc.devRef .tc main_v201) : S8192.Idx → BitVec 32)
    = fun i => Chain.i12 0x42000000#32 6#32 7#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v201) = _
  generalize W4 m ρ c = V
  after_results_simp
  rfl

set_option maxHeartbeats 4000000 in
/-- The vector `i21` of map 3: at every vertex the chain function of the vertex's two clipped coordinates. -/
theorem W5_main_v204 (c : Dev nD) : (W5 m ρ c (Proc.devRef .tc main_v204) : S8192.Idx → BitVec 32)
    = fun i => Chain.i21 0x42000000#32 6#32 7#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v204) = _
  generalize W4 m ρ c = V
  after_results_simp
  rfl

set_option maxHeartbeats 4000000 in
/-- The vector `i22` of map 3: at every vertex the chain function of the vertex's two clipped coordinates. -/
theorem W5_main_v207 (c : Dev nD) : (W5 m ρ c (Proc.devRef .tc main_v207) : S8192.Idx → BitVec 32)
    = fun i => Chain.i22 0x42000000#32 6#32 7#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v207) = _
  generalize W4 m ρ c = V
  after_results_simp
  rfl

set_option maxHeartbeats 4000000 in
/-- The vector `w11` of map 3: at every vertex the chain function of the vertex's two clipped coordinates. -/
theorem W5_main_v183 (c : Dev nD) : (W5 m ρ c (Proc.devRef .tc main_v183) : S8192.Idx → EReal)
    = fun i => Chain.w11 0x42000000#32 6#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v183) = _
  generalize W4 m ρ c = V
  after_results_simp
  rfl

set_option maxHeartbeats 4000000 in
/-- The vector `w12` of map 3: at every vertex the chain function of the vertex's two clipped coordinates. -/
theorem W5_main_v187 (c : Dev nD) : (W5 m ρ c (Proc.devRef .tc main_v187) : S8192.Idx → EReal)
    = fun i => Chain.w12 0x42000000#32 6#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v187) = _
  generalize W4 m ρ c = V
  after_results_simp
  rfl

set_option maxHeartbeats 4000000 in
/-- The vector `w21` of map 3: at every vertex the chain function of the vertex's two clipped coordinates. -/
theorem W5_main_v191 (c : Dev nD) : (W5 m ρ c (Proc.devRef .tc main_v191) : S8192.Idx → EReal)
    = fun i => Chain.w21 0x42000000#32 6#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v191) = _
  generalize W4 m ρ c = V
  after_results_simp
  rfl

set_option maxHeartbeats 4000000 in
/-- The vector `w22` of map 3: at every vertex the chain function of the vertex's two clipped coordinates. -/
theorem W5_main_v195 (c : Dev nD) : (W5 m ρ c (Proc.devRef .tc main_v195) : S8192.Idx → EReal)
    = fun i => Chain.w22 0x42000000#32 6#32 ((W4 m ρ c (Proc.devRef .tc main_v23) : S8192.Idx → EReal) i) ((W4 m ρ c (Proc.devRef .tc main_v14) : S8192.Idx → EReal) i) := by
  show StableHlo.after hostOps0_4 (W4 m ρ c) (Proc.devRef .tc main_v195) = _
  generalize W4 m ρ c = V
  after_results_simp
  rfl

end Cert.KernelIdeal.Hand

end
-- ==== Proof.KI.ColsB3.lean ====
import proofs.«120270_j2259152797813_2_alg».proof.Proof.KI.ColsA3
import proofs.«120270_j2259152797813_2_alg».proof.Proof.LibColumnCast
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Cert.Proof

variable (m : (ℓ : Loc nD τ sig) → Buf (Elt Ideal) ℓ) (ρ : Dev nD → PrngReg)
open Cert.LibColumnCast

/-! # Map 3: the eight index and weight columns as region 3 finds them, vertex by vertex -/

set_option maxHeartbeats 2000000 in
/-- Column `i11` of map 3 at vertex `v`: the chain function of the vertex's two clipped coordinates. -/
theorem col3_i11 (c : Dev nD) (v : Fin 8192) :
    (W19 m ρ c (Proc.devRef .tc main_v263) : S8192x1.Idx → BitVec 32) (ix2 v 0)
      = Chain.i11 0x42000000#32 7#32 ((W4 m ρ c (Proc.devRef .tc main_v23) : S8192.Idx → EReal) (ix1 v)) ((W4 m ρ c (Proc.devRef .tc main_v14) : S8192.Idx → EReal) (ix1 v)) := by
  have e1 : (W19 m ρ c (Proc.devRef .tc main_v263) : S8192x1.Idx → BitVec 32)
      = shapeCast S8192x1 (W16 m ρ c (Proc.devRef .tc main_v198) : S8192.Idx → BitVec 32) shapeCasts_S8192_S8192x1 := by
    show StableHlo.after hostOps3_2 (StableHlo.after hostOps3_1 (StableHlo.after hostOps3 (W16 m ρ c))) (Proc.devRef .tc main_v263) = _
    generalize W16 m ρ c = V
    after_results_simp
    try rfl
  have k7 : W7 m ρ c (Proc.devRef .tc main_v198) = W5 m ρ c (Proc.devRef .tc main_v198) := by
    show StableHlo.after hostOps0_6 (StableHlo.after hostOps0_5 (W5 m ρ c)) (Proc.devRef .tc main_v198) = _
    generalize W5 m ρ c = V
    after_results_simp
  have k8 : W8 m ρ c (Proc.devRef .tc main_v198) = W7 m ρ c (Proc.devRef .tc main_v198) := W8_of_ne m ρ c main_v198 (by decide)
  have k11 : W11 m ρ c (Proc.devRef .tc main_v198) = W8 m ρ c (Proc.devRef .tc main_v198) := by
    show StableHlo.after hostOps1_2 (StableHlo.after hostOps1_1 (StableHlo.after hostOps1 (W8 m ρ c))) (Proc.devRef .tc main_v198) = _
    generalize W8 m ρ c = V
    after_results_simp
  have k12 : W12 m ρ c (Proc.devRef .tc main_v198) = W11 m ρ c (Proc.devRef .tc main_v198) := W12_of_ne m ρ c main_v198 (by decide)
  have k15 : W15 m ρ c (Proc.devRef .tc main_v198) = W12 m ρ c (Proc.devRef .tc main_v198) := by
    show StableHlo.after hostOps2_2 (StableHlo.after hostOps2_1 (StableHlo.after hostOps2 (W12 m ρ c))) (Proc.devRef .tc main_v198) = _
    generalize W12 m ρ c = V
    after_results_simp
  have k16 : W16 m ρ c (Proc.devRef .tc main_v198) = W15 m ρ c (Proc.devRef .tc main_v198) := W16_of_ne m ρ c main_v198 (by decide)
  rw [e1, shapeCast_a_a1_apply, k16, k15, k12, k11, k8, k7, W5_main_v198]

set_option maxHeartbeats 2000000 in
/-- Column `i12` of map 3 at vertex `v`: the chain function of the vertex's two clipped coordinates. -/
theorem col3_i12 (c : Dev nD) (v : Fin 8192) :
    (W19 m ρ c (Proc.devRef .tc main_v264) : S8192x1.Idx → BitVec 32) (ix2 v 0)
      = Chain.i12 0x42000000#32 6#32 7#32 ((W4 m ρ c (Proc.devRef .tc main_v23) : S8192.Idx → EReal) (ix1 v)) ((W4 m ρ c (Proc.devRef .tc main_v14) : S8192.Idx → EReal) (ix1 v)) := by
  have e1 : (W19 m ρ c (Proc.devRef .tc main_v264) : S8192x1.Idx → BitVec 32)
      = shapeCast S8192x1 (W16 m ρ c (Proc.devRef .tc main_v201) : S8192.Idx → BitVec 32) shapeCasts_S8192_S8192x1 := by
    show StableHlo.after hostOps3_2 (StableHlo.after hostOps3_1 (StableHlo.after hostOps3 (W16 m ρ c))) (Proc.devRef .tc main_v264) = _
    generalize W16 m ρ c = V
    after_results_simp
    try rfl
  have k7 : W7 m ρ c (Proc.devRef .tc main_v201) = W5 m ρ c (Proc.devRef .tc main_v201) := by
    show StableHlo.after hostOps0_6 (StableHlo.after hostOps0_5 (W5 m ρ c)) (Proc.devRef .tc main_v201) = _
    generalize W5 m ρ c = V
    after_results_simp
  have k8 : W8 m ρ c (Proc.devRef .tc main_v201) = W7 m ρ c (Proc.devRef .tc main_v201) := W8_of_ne m ρ c main_v201 (by decide)
  have k11 : W11 m ρ c (Proc.devRef .tc main_v201) = W8 m ρ c (Proc.devRef .tc main_v201) := by
    show StableHlo.after hostOps1_2 (StableHlo.after hostOps1_1 (StableHlo.after hostOps1 (W8 m ρ c))) (Proc.devRef .tc main_v201) = _
    generalize W8 m ρ c = V
    after_results_simp
  have k12 : W12 m ρ c (Proc.devRef .tc main_v201) = W11 m ρ c (Proc.devRef .tc main_v201) := W12_of_ne m ρ c main_v201 (by decide)
  have k15 : W15 m ρ c (Proc.devRef .tc main_v201) = W12 m ρ c (Proc.devRef .tc main_v201) := by
    show StableHlo.after hostOps2_2 (StableHlo.after hostOps2_1 (StableHlo.after hostOps2 (W12 m ρ c))) (Proc.devRef .tc main_v201) = _
    generalize W12 m ρ c = V
    after_results_simp
  have k16 : W16 m ρ c (Proc.devRef .tc main_v201) = W15 m ρ c (Proc.devRef .tc main_v201) := W16_of_ne m ρ c main_v201 (by decide)
  rw [e1, shapeCast_a_a1_apply, k16, k15, k12, k11, k8, k7, W5_main_v201]

set_option maxHeartbeats 2000000 in
/-- Column `i21` of map 3 at vertex `v`: the chain function of the vertex's two clipped coordinates. -/
theorem col3_i21 (c : Dev nD) (v : Fin 8192) :
    (W19 m ρ c (Proc.devRef .tc main_v265) : S8192x1.Idx → BitVec 32) (ix2 v 0)
      = Chain.i21 0x42000000#32 6#32 7#32 ((W4 m ρ c (Proc.devRef .tc main_v23) : S8192.Idx → EReal) (ix1 v)) ((W4 m ρ c (Proc.devRef .tc main_v14) : S8192.Idx → EReal) (ix1 v)) := by
  have e1 : (W19 m ρ c (Proc.devRef .tc main_v265) : S8192x1.Idx → BitVec 32)
      = shapeCast S8192x1 (W16 m ρ c (Proc.devRef .tc main_v204) : S8192.Idx → BitVec 32) shapeCasts_S8192_S8192x1 := by
    show StableHlo.after hostOps3_2 (StableHlo.after hostOps3_1 (StableHlo.after hostOps3 (W16 m ρ c))) (Proc.devRef .tc main_v265) = _
    generalize W16 m ρ c = V
    after_results_simp
    try rfl
  have k7 : W7 m ρ c (Proc.devRef .tc main_v204) = W5 m ρ c (Proc.devRef .tc main_v204) := by
    show StableHlo.after hostOps0_6 (StableHlo.after hostOps0_5 (W5 m ρ c)) (Proc.devRef .tc main_v204) = _
    generalize W5 m ρ c = V
    after_results_simp
  have k8 : W8 m ρ c (Proc.devRef .tc main_v204) = W7 m ρ c (Proc.devRef .tc main_v204) := W8_of_ne m ρ c main_v204 (by decide)
  have k11 : W11 m ρ c (Proc.devRef .tc main_v204) = W8 m ρ c (Proc.devRef .tc main_v204) := by
    show StableHlo.after hostOps1_2 (StableHlo.after hostOps1_1 (StableHlo.after hostOps1 (W8 m ρ c))) (Proc.devRef .tc main_v204) = _
    generalize W8 m ρ c = V
    after_results_simp
  have k12 : W12 m ρ c (Proc.devRef .tc main_v204) = W11 m ρ c (Proc.devRef .tc main_v204) := W12_of_ne m ρ c main_v204 (by decide)
  have k15 : W15 m ρ c (Proc.devRef .tc main_v204) = W12 m ρ c (Proc.devRef .tc main_v204) := by
    show StableHlo.after hostOps2_2 (StableHlo.after hostOps2_1 (StableHlo.after hostOps2 (W12 m ρ c))) (Proc.devRef .tc main_v204) = _
    generalize W12 m ρ c = V
    after_results_simp
  have k16 : W16 m ρ c (Proc.devRef .tc main_v204) = W15 m ρ c (Proc.devRef .tc main_v204) := W16_of_ne m ρ c main_v204 (by decide)
  rw [e1, shapeCast_a_a1_apply, k16, k15, k12, k11, k8, k7, W5_main_v204]

set_option maxHeartbeats 2000000 in
/-- Column `i22` of map 3 at vertex `v`: the chain function of the vertex's two clipped coordinates. -/
theorem col3_i22 (c : Dev nD) (v : Fin 8192) :
    (W19 m ρ c (Proc.devRef .tc main_v266) : S8192x1.Idx → BitVec 32) (ix2 v 0)
      = Chain.i22 0x42000000#32 6#32 7#32 ((W4 m ρ c (Proc.devRef .tc main_v23) : S8192.Idx → EReal) (ix1 v)) ((W4 m ρ c (Proc.devRef .tc main_v14) : S8192.Idx → EReal) (ix1 v)) := by
  have e1 : (W19 m ρ c (Proc.devRef .tc main_v266) : S8192x1.Idx → BitVec 32)
      = shapeCast S8192x1 (W16 m ρ c (Proc.devRef .tc main_v207) : S8192.Idx → BitVec 32) shapeCasts_S8192_S8192x1 := by
    show StableHlo.after hostOps3_2 (StableHlo.after hostOps3_1 (StableHlo.after hostOps3 (W16 m ρ c))) (Proc.devRef .tc main_v266) = _
    generalize W16 m ρ c = V
    after_results_simp
    try rfl
  have k7 : W7 m ρ c (Proc.devRef .tc main_v207) = W5 m ρ c (Proc.devRef .tc main_v207) := by
    show StableHlo.after hostOps0_6 (StableHlo.after hostOps0_5 (W5 m ρ c)) (Proc.devRef .tc main_v207) = _
    generalize W5 m ρ c = V
    after_results_simp
  have k8 : W8 m ρ c (Proc.devRef .tc main_v207) = W7 m ρ c (Proc.devRef .tc main_v207) := W8_of_ne m ρ c main_v207 (by decide)
  have k11 : W11 m ρ c (Proc.devRef .tc main_v207) = W8 m ρ c (Proc.devRef .tc main_v207) := by
    show StableHlo.after hostOps1_2 (StableHlo.after hostOps1_1 (StableHlo.after hostOps1 (W8 m ρ c))) (Proc.devRef .tc main_v207) = _
    generalize W8 m ρ c = V
    after_results_simp
  have k12 : W12 m ρ c (Proc.devRef .tc main_v207) = W11 m ρ c (Proc.devRef .tc main_v207) := W12_of_ne m ρ c main_v207 (by decide)
  have k15 : W15 m ρ c (Proc.devRef .tc main_v207) = W12 m ρ c (Proc.devRef .tc main_v207) := by
    show StableHlo.after hostOps2_2 (StableHlo.after hostOps2_1 (StableHlo.after hostOps2 (W12 m ρ c))) (Proc.devRef .tc main_v207) = _
    generalize W12 m ρ c = V
    after_results_simp
  have k16 : W16 m ρ c (Proc.devRef .tc main_v207) = W15 m ρ c (Proc.devRef .tc main_v207) := W16_of_ne m ρ c main_v207 (by decide)
  rw [e1, shapeCast_a_a1_apply, k16, k15, k12, k11, k8, k7, W5_main_v207]

set_option maxHeartbeats 2000000 in
/-- Column `w11` of map 3 at vertex `v`: the chain function of the vertex's two clipped coordinates. -/
theorem col3_w11 (c : Dev nD) (v : Fin 8192) :
    (W19 m ρ c (Proc.devRef .tc main_v267) : S8192x1.Idx → EReal) (ix2 v 0)
      = Chain.w11 0x42000000#32 6#32 ((W4 m ρ c (Proc.devRef .tc main_v23) : S8192.Idx → EReal) (ix1 v)) ((W4 m ρ c (Proc.devRef .tc main_v14) : S8192.Idx → EReal) (ix1 v)) := by
  have e1 : (W19 m ρ c (Proc.devRef .tc main_v267) : S8192x1.Idx → EReal)
      = shapeCast S8192x1 (W16 m ρ c (Proc.devRef .tc main_v183) : S8192.Idx → EReal) shapeCasts_S8192_S8192x1 := by
    show StableHlo.after hostOps3_2 (StableHlo.after hostOps3_1 (StableHlo.after hostOps3 (W16 m ρ c))) (Proc.devRef .tc main_v267) = _
    generalize W16 m ρ c = V
    after_results_simp
    try rfl
  have k7 : W7 m ρ c (Proc.devRef .tc main_v183) = W5 m ρ c (Proc.devRef .tc main_v183) := by
    show StableHlo.after hostOps0_6 (StableHlo.after hostOps0_5 (W5 m ρ c)) (Proc.devRef .tc main_v183) = _
    generalize W5 m ρ c = V
    after_results_simp
  have k8 : W8 m ρ c (Proc.devRef .tc main_v183) = W7 m ρ c (Proc.devRef .tc main_v183) := W8_of_ne m ρ c main_v183 (by decide)
  have k11 : W11 m ρ c (Proc.devRef .tc main_v183) = W8 m ρ c (Proc.devRef .tc main_v183) := by
    show StableHlo.after hostOps1_2 (StableHlo.after hostOps1_1 (StableHlo.after hostOps1 (W8 m ρ c))) (Proc.devRef .tc main_v183) = _
    generalize W8 m ρ c = V
    after_results_simp
  have k12 : W12 m ρ c (Proc.devRef .tc main_v183) = W11 m ρ c (Proc.devRef .tc main_v183) := W12_of_ne m ρ c main_v183 (by decide)
  have k15 : W15 m ρ c (Proc.devRef .tc main_v183) = W12 m ρ c (Proc.devRef .tc main_v183) := by
    show StableHlo.after hostOps2_2 (StableHlo.after hostOps2_1 (StableHlo.after hostOps2 (W12 m ρ c))) (Proc.devRef .tc main_v183) = _
    generalize W12 m ρ c = V
    after_results_simp
  have k16 : W16 m ρ c (Proc.devRef .tc main_v183) = W15 m ρ c (Proc.devRef .tc main_v183) := W16_of_ne m ρ c main_v183 (by decide)
  rw [e1, shapeCast_a_a1_apply, k16, k15, k12, k11, k8, k7, W5_main_v183]

set_option maxHeartbeats 2000000 in
/-- Column `w12` of map 3 at vertex `v`: the chain function of the vertex's two clipped coordinates. -/
theorem col3_w12 (c : Dev nD) (v : Fin 8192) :
    (W19 m ρ c (Proc.devRef .tc main_v268) : S8192x1.Idx → EReal) (ix2 v 0)
      = Chain.w12 0x42000000#32 6#32 ((W4 m ρ c (Proc.devRef .tc main_v23) : S8192.Idx → EReal) (ix1 v)) ((W4 m ρ c (Proc.devRef .tc main_v14) : S8192.Idx → EReal) (ix1 v)) := by
  have e1 : (W19 m ρ c (Proc.devRef .tc main_v268) : S8192x1.Idx → EReal)
      = shapeCast S8192x1 (W16 m ρ c (Proc.devRef .tc main_v187) : S8192.Idx → EReal) shapeCasts_S8192_S8192x1 := by
    show StableHlo.after hostOps3_2 (StableHlo.after hostOps3_1 (StableHlo.after hostOps3 (W16 m ρ c))) (Proc.devRef .tc main_v268) = _
    generalize W16 m ρ c = V
    after_results_simp
    try rfl
  have k7 : W7 m ρ c (Proc.devRef .tc main_v187) = W5 m ρ c (Proc.devRef .tc main_v187) := by
    show StableHlo.after hostOps0_6 (StableHlo.after hostOps0_5 (W5 m ρ c)) (Proc.devRef .tc main_v187) = _
    generalize W5 m ρ c = V
    after_results_simp
  have k8 : W8 m ρ c (Proc.devRef .tc main_v187) = W7 m ρ c (Proc.devRef .tc main_v187) := W8_of_ne m ρ c main_v187 (by decide)
  have k11 : W11 m ρ c (Proc.devRef .tc main_v187) = W8 m ρ c (Proc.devRef .tc main_v187) := by
    show StableHlo.after hostOps1_2 (StableHlo.after hostOps1_1 (StableHlo.after hostOps1 (W8 m ρ c))) (Proc.devRef .tc main_v187) = _
    generalize W8 m ρ c = V
    after_results_simp
  have k12 : W12 m ρ c (Proc.devRef .tc main_v187) = W11 m ρ c (Proc.devRef .tc main_v187) := W12_of_ne m ρ c main_v187 (by decide)
  have k15 : W15 m ρ c (Proc.devRef .tc main_v187) = W12 m ρ c (Proc.devRef .tc main_v187) := by
    show StableHlo.after hostOps2_2 (StableHlo.after hostOps2_1 (StableHlo.after hostOps2 (W12 m ρ c))) (Proc.devRef .tc main_v187) = _
    generalize W12 m ρ c = V
    after_results_simp
  have k16 : W16 m ρ c (Proc.devRef .tc main_v187) = W15 m ρ c (Proc.devRef .tc main_v187) := W16_of_ne m ρ c main_v187 (by decide)
  rw [e1, shapeCast_a_a1_apply, k16, k15, k12, k11, k8, k7, W5_main_v187]

set_option maxHeartbeats 2000000 in
/-- Column `w21` of map 3 at vertex `v`: the chain function of the vertex's two clipped coordinates. -/
theorem col3_w21 (c : Dev nD) (v : Fin 8192) :
    (W19 m ρ c (Proc.devRef .tc main_v269) : S8192x1.Idx → EReal) (ix2 v 0)
      = Chain.w21 0x42000000#32 6#32 ((W4 m ρ c (Proc.devRef .tc main_v23) : S8192.Idx → EReal) (ix1 v)) ((W4 m ρ c (Proc.devRef .tc main_v14) : S8192.Idx → EReal) (ix1 v)) := by
  have e1 : (W19 m ρ c (Proc.devRef .tc main_v269) : S8192x1.Idx → EReal)
      = shapeCast S8192x1 (W16 m ρ c (Proc.devRef .tc main_v191) : S8192.Idx → EReal) shapeCasts_S8192_S8192x1 := by
    show StableHlo.after hostOps3_2 (StableHlo.after hostOps3_1 (StableHlo.after hostOps3 (W16 m ρ c))) (Proc.devRef .tc main_v269) = _
    generalize W16 m ρ c = V
    after_results_simp
    try rfl
  have k7 : W7 m ρ c (Proc.devRef .tc main_v191) = W5 m ρ c (Proc.devRef .tc main_v191) := by
    show StableHlo.after hostOps0_6 (StableHlo.after hostOps0_5 (W5 m ρ c)) (Proc.devRef .tc main_v191) = _
    generalize W5 m ρ c = V
    after_results_simp
  have k8 : W8 m ρ c (Proc.devRef .tc main_v191) = W7 m ρ c (Proc.devRef .tc main_v191) := W8_of_ne m ρ c main_v191 (by decide)
  have k11 : W11 m ρ c (Proc.devRef .tc main_v191) = W8 m ρ c (Proc.devRef .tc main_v191) := by
    show StableHlo.after hostOps1_2 (StableHlo.after hostOps1_1 (StableHlo.after hostOps1 (W8 m ρ c))) (Proc.devRef .tc main_v191) = _
    generalize W8 m ρ c = V
    after_results_simp
  have k12 : W12 m ρ c (Proc.devRef .tc main_v191) = W11 m ρ c (Proc.devRef .tc main_v191) := W12_of_ne m ρ c main_v191 (by decide)
  have k15 : W15 m ρ c (Proc.devRef .tc main_v191) = W12 m ρ c (Proc.devRef .tc main_v191) := by
    show StableHlo.after hostOps2_2 (StableHlo.after hostOps2_1 (StableHlo.after hostOps2 (W12 m ρ c))) (Proc.devRef .tc main_v191) = _
    generalize W12 m ρ c = V
    after_results_simp
  have k16 : W16 m ρ c (Proc.devRef .tc main_v191) = W15 m ρ c (Proc.devRef .tc main_v191) := W16_of_ne m ρ c main_v191 (by decide)
  rw [e1, shapeCast_a_a1_apply, k16, k15, k12, k11, k8, k7, W5_main_v191]

set_option maxHeartbeats 2000000 in
/-- Column `w22` of map 3 at vertex `v`: the chain function of the vertex's two clipped coordinates. -/
theorem col3_w22 (c : Dev nD) (v : Fin 8192) :
    (W19 m ρ c (Proc.devRef .tc main_v270) : S8192x1.Idx → EReal) (ix2 v 0)
      = Chain.w22 0x42000000#32 6#32 ((W4 m ρ c (Proc.devRef .tc main_v23) : S8192.Idx → EReal) (ix1 v)) ((W4 m ρ c (Proc.devRef .tc main_v14) : S8192.Idx → EReal) (ix1 v)) := by
  have e1 : (W19 m ρ c (Proc.devRef .tc main_v270) : S8192x1.Idx → EReal)
      = shapeCast S8192x1 (W16 m ρ c (Proc.devRef .tc main_v195) : S8192.Idx → EReal) shapeCasts_S8192_S8192x1 := by
    show StableHlo.after hostOps3_2 (StableHlo.after hostOps3_1 (StableHlo.after hostOps3 (W16 m ρ c))) (Proc.devRef .tc main_v270) = _
    generalize W16 m ρ c = V
    after_results_simp
    try rfl
  have k7 : W7 m ρ c (Proc.devRef .tc main_v195) = W5 m ρ c (Proc.devRef .tc main_v195) := by
    show StableHlo.after hostOps0_6 (StableHlo.after hostOps0_5 (W5 m ρ c)) (Proc.devRef .tc main_v195) = _
    generalize W5 m ρ c = V
    after_results_simp
  have k8 : W8 m ρ c (Proc.devRef .tc main_v195) = W7 m ρ c (Proc.devRef .tc main_v195) := W8_of_ne m ρ c main_v195 (by decide)
  have k11 : W11 m ρ c (Proc.devRef .tc main_v195) = W8 m ρ c (Proc.devRef .tc main_v195) := by
    show StableHlo.after hostOps1_2 (StableHlo.after hostOps1_1 (StableHlo.after hostOps1 (W8 m ρ c))) (Proc.devRef .tc main_v195) = _
    generalize W8 m ρ c = V
    after_results_simp
  have k12 : W12 m ρ c (Proc.devRef .tc main_v195) = W11 m ρ c (Proc.devRef .tc main_v195) := W12_of_ne m ρ c main_v195 (by decide)
  have k15 : W15 m ρ c (Proc.devRef .tc main_v195) = W12 m ρ c (Proc.devRef .tc main_v195) := by
    show StableHlo.after hostOps2_2 (StableHlo.after hostOps2_1 (StableHlo.after hostOps2 (W12 m ρ c))) (Proc.devRef .tc main_v195) = _
    generalize W12 m ρ c = V
    after_results_simp
  have k16 : W16 m ρ c (Proc.devRef .tc main_v195) = W15 m ρ c (Proc.devRef .tc main_v195) := W16_of_ne m ρ c main_v195 (by decide)
  rw [e1, shapeCast_a_a1_apply, k16, k15, k12, k11, k8, k7, W5_main_v195]

end Cert.KernelIdeal.Hand

end
-- ==== Proof.KI.R3Sel.lean ====
import proofs.«120270_j2259152797813_2_alg».proof.Proof.Gen.KernelIdeal.Skeleton
import Idealize.ShloMosaic.Lib.ValueIdx
import Idealize.ShloMosaic.Lib.Pipeline.Value
import Idealize.ShloMosaic.PureOps.Ideal.Laws
import proofs.«120270_j2259152797813_2_alg».proof.Proof.LibOneHotMask

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! # Region 3: its payloads read at an entry, over the extended reals -/

/-- The block product at an entry: the sum over the 128 contracted positions of the entries' products. -/
theorem mm3_apply (A : FVec Ideal S256x128 .bf16) (B : FVec Ideal S128x128 .bf16) (a : Fin 256) (b : Fin 128) :
    FloatOps.matmul dot_S256x128_S128x128_S256x128_1_0_0_1_n_n none A B (constant (F := Ideal) S256x128 .f32 0x00000000#32) (ix2 a b)
      = ∑ k : Fin 128, A (ix2 a k) * B (ix2 k b) := by
  rw [Ideal.matmul_constant_zero_apply, ← Equiv.sum_comp (contrEquiv1 dot_S256x128_S128x128_S256x128_1_0_0_1_n_n 128 rfl rfl).symm]
  refine Finset.sum_congr rfl fun k _ => ?_
  have c2 := contrEquiv1_symm_val dot_S256x128_S128x128_S256x128_1_0_0_1_n_n 128 rfl rfl k
  have l2 : dot_S256x128_S128x128_S256x128_1_0_0_1_n_n.lhsIdx (ix2 a b) ((contrEquiv1 _ 128 rfl rfl).symm k) = ix2 a k := by
    funext ax; apply Fin.ext
    match ax with
    | ⟨0, _⟩ => simp [DotDims.lhsIdx, dot_S256x128_S128x128_S256x128_1_0_0_1_n_n]; rfl
    | ⟨1, _⟩ => simp [DotDims.lhsIdx, dot_S256x128_S128x128_S256x128_1_0_0_1_n_n]; exact c2
  have r2 : dot_S256x128_S128x128_S256x128_1_0_0_1_n_n.rhsIdx (ix2 a b) ((contrEquiv1 _ 128 rfl rfl).symm k) = ix2 k b := by
    funext ax; apply Fin.ext
    match ax with
    | ⟨0, _⟩ => simp [DotDims.rhsIdx, dot_S256x128_S128x128_S256x128_1_0_0_1_n_n]; exact c2
    | ⟨1, _⟩ => simp [DotDims.rhsIdx, dot_S256x128_S128x128_S256x128_1_0_0_1_n_n]; rfl
  rw [l2, r2]

/-- A column of 256 entries broadcast over 128 positions: the entry at row `r`, position `t` is the column's entry
    at row `r`. -/
theorem bcast3_apply {α : Type} (v : S256x1.Idx → α) (r : Fin 256) (t : Fin 128) :
    broadcastTo S256x128 v broadcasts_S256x1_S256x128 (ix2 r t) = v (ix2 r (0 : Fin 1)) := by
  refine broadcastTo_apply v broadcasts_S256x1_S256x128 (ix2 r t) (ix2 r (0 : Fin 1)) fun ax => ?_
  match ax with
  | ⟨0, _⟩ => rfl
  | ⟨1, _⟩ => rfl

/-- One corner's term of the selection matrix at row `r`, position `t`: the corner's weight at that row where the
    position is the corner's index, zero elsewhere. -/
theorem term3_apply (x : Vec Ideal S256x1 .i32) (w : Vec Ideal S256x1 .f32) (r : Fin 256) (t : Fin 128) :
    (mulf (sitofp .f32 (extui 32 (cmpi .eq (iota .tc S256x128 32 [1] iota_S256x128_d1_w32)
        (broadcastTo S256x128 (shapeCast S256x1 x shapeCasts_S256x1_S256x1) broadcasts_S256x1_S256x128)) natLt_1_32))
      (broadcastTo S256x128 (shapeCast S256x1 w shapeCasts_S256x1_S256x1) broadcasts_S256x1_S256x128) : FVec Ideal S256x128 .f32) (ix2 r t)
      = (if BitVec.ofNat 32 t.val = x (ix2 r (0 : Fin 1)) then (1 : EReal) else 0) * w (ix2 r (0 : Fin 1)) := by
  rw [mulf_apply, sitofp_apply, extui_apply]
  show FloatOps.sitofp (F := Ideal) .f32 ((IntOp.cmpi .eq (iota .tc S256x128 32 [1] iota_S256x128_d1_w32 (ix2 r t))
      (broadcastTo S256x128 (shapeCast S256x1 x shapeCasts_S256x1_S256x1) broadcasts_S256x1_S256x128 (ix2 r t))).setWidth 32)
    * broadcastTo S256x128 (shapeCast S256x1 w shapeCasts_S256x1_S256x1) broadcasts_S256x1_S256x128 (ix2 r t) = _
  rw [iota_single_apply, bcast3_apply, bcast3_apply, shapeCast_self, shapeCast_self, Cert.LibOneHotMask.mask_eq']

/-- The first three corners' terms of the selection matrix at an entry. -/
theorem pay2_3_apply (x0 : Vec Ideal S256x1 .i32) (x4 : Vec Ideal S256x1 .f32) (x1 : Vec Ideal S256x1 .i32) (x5 : Vec Ideal S256x1 .f32)
    (x2 : Vec Ideal S256x1 .i32) (x6 : Vec Ideal S256x1 .f32) (r : Fin 256) (t : Fin 128) :
    k3_pay2 (F := Ideal) x0 x4 x1 x5 x2 x6 (ix2 r t)
      = ((if BitVec.ofNat 32 t.val = x0 (ix2 r (0 : Fin 1)) then (1 : EReal) else 0) * x4 (ix2 r (0 : Fin 1))
          + (if BitVec.ofNat 32 t.val = x1 (ix2 r (0 : Fin 1)) then (1 : EReal) else 0) * x5 (ix2 r (0 : Fin 1)))
        + (if BitVec.ofNat 32 t.val = x2 (ix2 r (0 : Fin 1)) then (1 : EReal) else 0) * x6 (ix2 r (0 : Fin 1)) := by
  unfold k3_pay2
  dsimp only
  rw [addf_apply, addf_apply, term3_apply, term3_apply, term3_apply]

/-- The fourth corner's term of the selection matrix at an entry. -/
theorem pay3_3_apply (x3 : Vec Ideal S256x1 .i32) (x7 : Vec Ideal S256x1 .f32) (r : Fin 256) (t : Fin 128) :
    k3_pay3 (F := Ideal) x3 x7 (ix2 r t)
      = (if BitVec.ofNat 32 t.val = x3 (ix2 r (0 : Fin 1)) then (1 : EReal) else 0) * x7 (ix2 r (0 : Fin 1)) := by
  unfold k3_pay3
  dsimp only
  rw [term3_apply]

/-- The stored block at an entry: row `r` of the selection matrix (the four corners' terms added in the body's
    order) times column `b` of the projected map. -/
theorem pay3_apply (x0 x1 x2 x3 : Vec Ideal S256x1 .i32) (x4 x5 x6 x7 : Vec Ideal S256x1 .f32) (x8 : Vec Ideal S128x128 .bf16)
    (r : Fin 256) (b : Fin 128) :
    k3_pay1 (F := Ideal) (k3_pay2 x0 x4 x1 x5 x2 x6) (k3_pay3 x3 x7) x8 (ix2 r b)
      = ∑ t : Fin 128, ((((if BitVec.ofNat 32 t.val = x0 (ix2 r (0 : Fin 1)) then (1 : EReal) else 0) * x4 (ix2 r (0 : Fin 1))
          + (if BitVec.ofNat 32 t.val = x1 (ix2 r (0 : Fin 1)) then (1 : EReal) else 0) * x5 (ix2 r (0 : Fin 1)))
        + (if BitVec.ofNat 32 t.val = x2 (ix2 r (0 : Fin 1)) then (1 : EReal) else 0) * x6 (ix2 r (0 : Fin 1)))
        + (if BitVec.ofNat 32 t.val = x3 (ix2 r (0 : Fin 1)) then (1 : EReal) else 0) * x7 (ix2 r (0 : Fin 1))) * x8 (ix2 t b) := by
  unfold k3_pay1
  simp only [shapeCast_self]
  refine (mm3_apply _ _ r b).trans ?_
  refine Finset.sum_congr rfl fun t _ => ?_
  rw [truncf_apply, addf_apply, pay2_3_apply, pay3_3_apply]

/-- The result, entry by entry: at vertex row `p`, column `q`, the sum over the 128 map positions of the row's
    selection weight at the position (each corner's weight where the position is that corner's flat index, added in the
    body's order) times the projected map's entry at the position and column `q`. -/
def Sel3 (I0 I1 I2 I3 : S8192x1.Idx → BitVec 32) (A4 A5 A6 A7 : S8192x1.Idx → EReal) (P : S128x128.Idx → EReal) : S8192x128.Idx → EReal :=
  fun i => ∑ t : Fin 128, ((((if BitVec.ofNat 32 t.val = I0 (ix2 (i 0) 0) then (1 : EReal) else 0) * A4 (ix2 (i 0) 0) + (if BitVec.ofNat 32 t.val = I1 (ix2 (i 0) 0) then (1 : EReal) else 0) * A5 (ix2 (i 0) 0)) + (if BitVec.ofNat 32 t.val = I2 (ix2 (i 0) 0) then (1 : EReal) else 0) * A6 (ix2 (i 0) 0)) + (if BitVec.ofNat 32 t.val = I3 (ix2 (i 0) 0) then (1 : EReal) else 0) * A7 (ix2 (i 0) 0)) * P (ix2 t (i 1))

/-- ONE ENTRY of what a point writes back. When the nine blocks are the cuts of the arrays at vertex row `p` (the
    eight columns) and the whole projected map, the stored block's entry (r, b) is the entry (p, b) of `Sel3`. -/
theorem join3 (I0 I1 I2 I3 : S8192x1.Idx → BitVec 32) (A4 A5 A6 A7 : S8192x1.Idx → EReal) (P : S128x128.Idx → EReal)
    (x0 x1 x2 x3 : Vec Ideal S256x1 .i32) (x4 x5 x6 x7 : Vec Ideal S256x1 .f32) (x8 : Vec Ideal S128x128 .bf16)
    (r : Fin 256) (b : Fin 128) (p : Fin 8192)
    (h0 : x0 (ix2 r (0 : Fin 1)) = I0 (ix2 p 0)) (h1 : x1 (ix2 r (0 : Fin 1)) = I1 (ix2 p 0))
    (h2 : x2 (ix2 r (0 : Fin 1)) = I2 (ix2 p 0)) (h3 : x3 (ix2 r (0 : Fin 1)) = I3 (ix2 p 0))
    (h4 : x4 (ix2 r (0 : Fin 1)) = A4 (ix2 p 0)) (h5 : x5 (ix2 r (0 : Fin 1)) = A5 (ix2 p 0))
    (h6 : x6 (ix2 r (0 : Fin 1)) = A6 (ix2 p 0)) (h7 : x7 (ix2 r (0 : Fin 1)) = A7 (ix2 p 0))
    (h8 : ∀ t : Fin 128, x8 (ix2 t b) = P (ix2 t b)) :
    k3_pay1 (F := Ideal) (k3_pay2 x0 x4 x1 x5 x2 x6) (k3_pay3 x3 x7) x8 (ix2 r b) = Sel3 I0 I1 I2 I3 A4 A5 A6 A7 P (ix2 p b) := by
  rw [pay3_apply, h0, h1, h2, h3, h4, h5, h6, h7]
  show _ = ∑ t : Fin 128, _
  exact Finset.sum_congr rfl fun t _ => by rw [h8 t]

end Cert.KernelIdeal.Hand

end
-- ==== Proof.KI.R3SelFinal.lean ====
import proofs.«120270_j2259152797813_2_alg».proof.Proof.KI.R3
import proofs.«120270_j2259152797813_2_alg».proof.Proof.KI.R3Sel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.ValueIdx
open scoped BigOperators

variable (V : (c : Dev nD) → (b : Ref sig .tc) → Buf (Elt Ideal) ((c : Thread nD τ).loc b))

/-! # Region 3: its result array after the region, as one function of the nine input arrays -/

theorem hz3s : (![0, 0] : Fin 2 → Nat) = fun _ => 0 := funext fun a => by fin_cases a <;> rfl

/-- Window 0's block index at point `t`: row block `t`. Decided over the grid. -/
theorem idx3_0 : ∀ t : Fin cfg3.N, win3_0.index t (0 : Fin 2) = t.val ∧ win3_0.index t (1 : Fin 2) = 0 :=
  (by decide +kernel : ∀ t : Fin grid3.N, _)
/-- Window 1's block index at point `t`: row block `t`. Decided over the grid. -/
theorem idx3_1 : ∀ t : Fin cfg3.N, win3_1.index t (0 : Fin 2) = t.val ∧ win3_1.index t (1 : Fin 2) = 0 :=
  (by decide +kernel : ∀ t : Fin grid3.N, _)
/-- Window 2's block index at point `t`: row block `t`. Decided over the grid. -/
theorem idx3_2 : ∀ t : Fin cfg3.N, win3_2.index t (0 : Fin 2) = t.val ∧ win3_2.index t (1 : Fin 2) = 0 :=
  (by decide +kernel : ∀ t : Fin grid3.N, _)
/-- Window 3's block index at point `t`: row block `t`. Decided over the grid. -/
theorem idx3_3 : ∀ t : Fin cfg3.N, win3_3.index t (0 : Fin 2) = t.val ∧ win3_3.index t (1 : Fin 2) = 0 :=
  (by decide +kernel : ∀ t : Fin grid3.N, _)
/-- Window 4's block index at point `t`: row block `t`. Decided over the grid. -/
theorem idx3_4 : ∀ t : Fin cfg3.N, win3_4.index t (0 : Fin 2) = t.val ∧ win3_4.index t (1 : Fin 2) = 0 :=
  (by decide +kernel : ∀ t : Fin grid3.N, _)
/-- Window 5's block index at point `t`: row block `t`. Decided over the grid. -/
theorem idx3_5 : ∀ t : Fin cfg3.N, win3_5.index t (0 : Fin 2) = t.val ∧ win3_5.index t (1 : Fin 2) = 0 :=
  (by decide +kernel : ∀ t : Fin grid3.N, _)
/-- Window 6's block index at point `t`: row block `t`. Decided over the grid. -/
theorem idx3_6 : ∀ t : Fin cfg3.N, win3_6.index t (0 : Fin 2) = t.val ∧ win3_6.index t (1 : Fin 2) = 0 :=
  (by decide +kernel : ∀ t : Fin grid3.N, _)
/-- Window 7's block index at point `t`: row block `t`. Decided over the grid. -/
theorem idx3_7 : ∀ t : Fin cfg3.N, win3_7.index t (0 : Fin 2) = t.val ∧ win3_7.index t (1 : Fin 2) = 0 :=
  (by decide +kernel : ∀ t : Fin grid3.N, _)
/-- Window 8's block index at point `t`: the one block, at every point. Decided over the grid. -/
theorem idx3_8 : ∀ t : Fin cfg3.N, win3_8.index t (0 : Fin 2) = 0 ∧ win3_8.index t (1 : Fin 2) = 0 :=
  (by decide +kernel : ∀ t : Fin grid3.N, _)
/-- Window 9's block index at point `t`: row block `t`. Decided over the grid. -/
theorem idx3_9 : ∀ t : Fin cfg3.N, win3_9.index t (0 : Fin 2) = t.val ∧ win3_9.index t (1 : Fin 2) = 0 :=
  (by decide +kernel : ∀ t : Fin grid3.N, _)

/-- An entry of window 0's block is the entry of its column at vertex row `256·t + r`. -/
theorem iblk3_0_apply (c : Dev nD) (t : Fin cfg3.N) (r : Fin 256) (p : Fin 8192) (hp : p.val = 256 * t.val + r.val) :
    (iblk3 V c 0 t : Vec Ideal S256x1 .i32) (ix2 r (0 : Fin 1)) = (V c (Pipeline.arrRef spec3 0) : S8192x1.Idx → BitVec 32) (ix2 p (0 : Fin 1)) := by
  obtain ⟨e0, e1⟩ := idx3_0 t
  show V c (Pipeline.arrRef spec3 0) (((cfg3.win 0).blk t).view.emb (ix2 r (0 : Fin 1))) = _
  congr 1
  funext a; apply Fin.ext
  match a with
  | ⟨0, _⟩ => show win3_0.index t (0 : Fin 2) * 256 + 1 * r.val = p.val; rw [e0, hp]; omega
  | ⟨1, _⟩ => show win3_0.index t (1 : Fin 2) * 1 + 1 * 0 = 0; rw [e1]

/-- An entry of window 1's block is the entry of its column at vertex row `256·t + r`. -/
theorem iblk3_1_apply (c : Dev nD) (t : Fin cfg3.N) (r : Fin 256) (p : Fin 8192) (hp : p.val = 256 * t.val + r.val) :
    (iblk3 V c 1 t : Vec Ideal S256x1 .i32) (ix2 r (0 : Fin 1)) = (V c (Pipeline.arrRef spec3 1) : S8192x1.Idx → BitVec 32) (ix2 p (0 : Fin 1)) := by
  obtain ⟨e0, e1⟩ := idx3_1 t
  show V c (Pipeline.arrRef spec3 1) (((cfg3.win 1).blk t).view.emb (ix2 r (0 : Fin 1))) = _
  congr 1
  funext a; apply Fin.ext
  match a with
  | ⟨0, _⟩ => show win3_1.index t (0 : Fin 2) * 256 + 1 * r.val = p.val; rw [e0, hp]; omega
  | ⟨1, _⟩ => show win3_1.index t (1 : Fin 2) * 1 + 1 * 0 = 0; rw [e1]

/-- An entry of window 2's block is the entry of its column at vertex row `256·t + r`. -/
theorem iblk3_2_apply (c : Dev nD) (t : Fin cfg3.N) (r : Fin 256) (p : Fin 8192) (hp : p.val = 256 * t.val + r.val) :
    (iblk3 V c 2 t : Vec Ideal S256x1 .i32) (ix2 r (0 : Fin 1)) = (V c (Pipeline.arrRef spec3 2) : S8192x1.Idx → BitVec 32) (ix2 p (0 : Fin 1)) := by
  obtain ⟨e0, e1⟩ := idx3_2 t
  show V c (Pipeline.arrRef spec3 2) (((cfg3.win 2).blk t).view.emb (ix2 r (0 : Fin 1))) = _
  congr 1
  funext a; apply Fin.ext
  match a with
  | ⟨0, _⟩ => show win3_2.index t (0 : Fin 2) * 256 + 1 * r.val = p.val; rw [e0, hp]; omega
  | ⟨1, _⟩ => show win3_2.index t (1 : Fin 2) * 1 + 1 * 0 = 0; rw [e1]

/-- An entry of window 3's block is the entry of its column at vertex row `256·t + r`. -/
theorem iblk3_3_apply (c : Dev nD) (t : Fin cfg3.N) (r : Fin 256) (p : Fin 8192) (hp : p.val = 256 * t.val + r.val) :
    (iblk3 V c 3 t : Vec Ideal S256x1 .i32) (ix2 r (0 : Fin 1)) = (V c (Pipeline.arrRef spec3 3) : S8192x1.Idx → BitVec 32) (ix2 p (0 : Fin 1)) := by
  obtain ⟨e0, e1⟩ := idx3_3 t
  show V c (Pipeline.arrRef spec3 3) (((cfg3.win 3).blk t).view.emb (ix2 r (0 : Fin 1))) = _
  congr 1
  funext a; apply Fin.ext
  match a with
  | ⟨0, _⟩ => show win3_3.index t (0 : Fin 2) * 256 + 1 * r.val = p.val; rw [e0, hp]; omega
  | ⟨1, _⟩ => show win3_3.index t (1 : Fin 2) * 1 + 1 * 0 = 0; rw [e1]

/-- An entry of window 4's block is the entry of its column at vertex row `256·t + r`. -/
theorem iblk3_4_apply (c : Dev nD) (t : Fin cfg3.N) (r : Fin 256) (p : Fin 8192) (hp : p.val = 256 * t.val + r.val) :
    (iblk3 V c 4 t : Vec Ideal S256x1 .f32) (ix2 r (0 : Fin 1)) = (V c (Pipeline.arrRef spec3 4) : S8192x1.Idx → EReal) (ix2 p (0 : Fin 1)) := by
  obtain ⟨e0, e1⟩ := idx3_4 t
  show V c (Pipeline.arrRef spec3 4) (((cfg3.win 4).blk t).view.emb (ix2 r (0 : Fin 1))) = _
  congr 1
  funext a; apply Fin.ext
  match a with
  | ⟨0, _⟩ => show win3_4.index t (0 : Fin 2) * 256 + 1 * r.val = p.val; rw [e0, hp]; omega
  | ⟨1, _⟩ => show win3_4.index t (1 : Fin 2) * 1 + 1 * 0 = 0; rw [e1]

/-- An entry of window 5's block is the entry of its column at vertex row `256·t + r`. -/
theorem iblk3_5_apply (c : Dev nD) (t : Fin cfg3.N) (r : Fin 256) (p : Fin 8192) (hp : p.val = 256 * t.val + r.val) :
    (iblk3 V c 5 t : Vec Ideal S256x1 .f32) (ix2 r (0 : Fin 1)) = (V c (Pipeline.arrRef spec3 5) : S8192x1.Idx → EReal) (ix2 p (0 : Fin 1)) := by
  obtain ⟨e0, e1⟩ := idx3_5 t
  show V c (Pipeline.arrRef spec3 5) (((cfg3.win 5).blk t).view.emb (ix2 r (0 : Fin 1))) = _
  congr 1
  funext a; apply Fin.ext
  match a with
  | ⟨0, _⟩ => show win3_5.index t (0 : Fin 2) * 256 + 1 * r.val = p.val; rw [e0, hp]; omega
  | ⟨1, _⟩ => show win3_5.index t (1 : Fin 2) * 1 + 1 * 0 = 0; rw [e1]

/-- An entry of window 6's block is the entry of its column at vertex row `256·t + r`. -/
theorem iblk3_6_apply (c : Dev nD) (t : Fin cfg3.N) (r : Fin 256) (p : Fin 8192) (hp : p.val = 256 * t.val + r.val) :
    (iblk3 V c 6 t : Vec Ideal S256x1 .f32) (ix2 r (0 : Fin 1)) = (V c (Pipeline.arrRef spec3 6) : S8192x1.Idx → EReal) (ix2 p (0 : Fin 1)) := by
  obtain ⟨e0, e1⟩ := idx3_6 t
  show V c (Pipeline.arrRef spec3 6) (((cfg3.win 6).blk t).view.emb (ix2 r (0 : Fin 1))) = _
  congr 1
  funext a; apply Fin.ext
  match a with
  | ⟨0, _⟩ => show win3_6.index t (0 : Fin 2) * 256 + 1 * r.val = p.val; rw [e0, hp]; omega
  | ⟨1, _⟩ => show win3_6.index t (1 : Fin 2) * 1 + 1 * 0 = 0; rw [e1]

/-- An entry of window 7's block is the entry of its column at vertex row `256·t + r`. -/
theorem iblk3_7_apply (c : Dev nD) (t : Fin cfg3.N) (r : Fin 256) (p : Fin 8192) (hp : p.val = 256 * t.val + r.val) :
    (iblk3 V c 7 t : Vec Ideal S256x1 .f32) (ix2 r (0 : Fin 1)) = (V c (Pipeline.arrRef spec3 7) : S8192x1.Idx → EReal) (ix2 p (0 : Fin 1)) := by
  obtain ⟨e0, e1⟩ := idx3_7 t
  show V c (Pipeline.arrRef spec3 7) (((cfg3.win 7).blk t).view.emb (ix2 r (0 : Fin 1))) = _
  congr 1
  funext a; apply Fin.ext
  match a with
  | ⟨0, _⟩ => show win3_7.index t (0 : Fin 2) * 256 + 1 * r.val = p.val; rw [e0, hp]; omega
  | ⟨1, _⟩ => show win3_7.index t (1 : Fin 2) * 1 + 1 * 0 = 0; rw [e1]

/-- Window 8's block is its whole array, at every point. -/
theorem iblk3_8_apply (c : Dev nD) (t : Fin cfg3.N) (k : Fin 128) (b : Fin 128) :
    (iblk3 V c 8 t : Vec Ideal S128x128 .bf16) (ix2 k b) = (V c (Pipeline.arrRef spec3 8) : S128x128.Idx → EReal) (ix2 k b) := by
  obtain ⟨e0, e1⟩ := idx3_8 t
  show V c (Pipeline.arrRef spec3 8) (((cfg3.win 8).blk t).view.emb (ix2 k b)) = _
  congr 1
  funext a; apply Fin.ext
  match a with
  | ⟨0, _⟩ => show win3_8.index t (0 : Fin 2) * 128 + 1 * k.val = k.val; rw [e0]; omega
  | ⟨1, _⟩ => show win3_8.index t (1 : Fin 2) * 128 + 1 * b.val = b.val; rw [e1]; omega

/-- The vertex row of the array that row `r` of point `t`'s block is. -/
theorem row_lt3s (t : Fin cfg3.N) (r : Fin 256) : 256 * t.val + r.val < 8192 := by
  have hN : t.val < 32 := lt_of_lt_of_eq t.isLt (show cfg3.N = 32 from N_3)
  have hr := r.isLt; omega

set_option maxHeartbeats 1000000 in
/-- WHAT A POINT WRITES BACK is its block of `Sel3` of the nine arrays as the region finds them. -/
theorem flushed3_eq (c : Dev nD) (t : Fin cfg3.N) (hf : (cfg3.win 9).flush t = true) :
    (dat3 V c).flushed 9 t
      = ((cfg3.win 9).blk t).view.read (Elt Ideal)
          (Sel3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))) := by
  obtain ⟨e0, e1⟩ := idx3_9 t
  show (cfg3.win 9).cut (grid3.coords t) ((dat3 V c).after 9 t) = _
  rw [after3_9]
  unfold out3_9
  rw [View.canon_unit_zero (S := S256x128) hz3s]
  simp only [View.ld_unit_zero (S := S256x1) hz3s, View.ld_unit_zero (S := S128x128) hz3s]
  funext j
  obtain ⟨r, b, rfl⟩ : ∃ (r : Fin 256) (b : Fin 128), j = ix2 r b := ⟨j 0, j 1, eq_ix2 j⟩
  have hemb : ((cfg3.win 9).blk t).view.emb (ix2 r b) = ix2 (⟨256 * t.val + r.val, row_lt3s t r⟩ : Fin 8192) b := by
    funext a; apply Fin.ext
    match a with
    | ⟨0, _⟩ => show win3_9.index t (0 : Fin 2) * 256 + 1 * r.val = 256 * t.val + r.val; rw [e0]; omega
    | ⟨1, _⟩ => show win3_9.index t (1 : Fin 2) * 128 + 1 * b.val = b.val; rw [e1]; omega
  show k3_pay1 (F := Ideal) (k3_pay2 (iblk3 V c 0 t) (iblk3 V c 4 t) (iblk3 V c 1 t) (iblk3 V c 5 t) (iblk3 V c 2 t) (iblk3 V c 6 t))
      (k3_pay3 (iblk3 V c 3 t) (iblk3 V c 7 t)) (iblk3 V c 8 t) (ix2 r b)
    = Sel3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (((cfg3.win 9).blk t).view.emb (ix2 r b))
  rw [hemb]
  exact join3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))
    (iblk3 V c 0 t) (iblk3 V c 1 t) (iblk3 V c 2 t) (iblk3 V c 3 t) (iblk3 V c 4 t) (iblk3 V c 5 t) (iblk3 V c 6 t) (iblk3 V c 7 t) (iblk3 V c 8 t) r b
    ⟨256 * t.val + r.val, row_lt3s t r⟩
    (iblk3_0_apply V c t r _ rfl) (iblk3_1_apply V c t r _ rfl) (iblk3_2_apply V c t r _ rfl) (iblk3_3_apply V c t r _ rfl)
    (iblk3_4_apply V c t r _ rfl) (iblk3_5_apply V c t r _ rfl) (iblk3_6_apply V c t r _ rfl) (iblk3_7_apply V c t r _ rfl)
    (fun k => iblk3_8_apply V c t k b)

/-- An index of the result array is in point `t`'s block iff each coordinate is in the block's range on its axis. -/
theorem mem_blk3 (t : Fin cfg3.N) (i : S8192x128.Idx) :
    i ∈ ((cfg3.win 9).blk t).view.set ↔ ∀ a : Fin 2, win3_9.index t a * S256x128.size a ≤ (i a).val ∧ (i a).val < win3_9.index t a * S256x128.size a + S256x128.size a := by
  show i ∈ ((View.whole (Pipeline.arrRef spec3 9)).slice (win3_9.rect t)).set ↔ _
  rw [View.set_slice_whole, Rect.mem_set_unit]
  exact Iff.rfl

/-- Every entry of the result array is in the block some point writes back: vertex row `p` at point `p / 256`. -/
theorem cover3s (i : S8192x128.Idx) : ∃ t : Fin cfg3.N, (cfg3.win 9).flush t = true ∧ i ∈ ((cfg3.win 9).blk t).view.set := by
  have hi0 : (i 0).val < 8192 := idx2_lt0 i
  have hi1 : (i 1).val < 128 := idx2_lt1 i
  have hlt : (i 0).val / 256 < cfg3.N := by rw [show cfg3.N = 32 from N_3]; omega
  refine ⟨⟨(i 0).val / 256, hlt⟩, flush3_9 _, ?_⟩
  obtain ⟨e0, e1⟩ := idx3_9 ⟨(i 0).val / 256, hlt⟩
  have e0' : win3_9.index ⟨(i 0).val / 256, hlt⟩ (0 : Fin 2) = (i 0).val / 256 := e0
  rw [mem_blk3]
  intro a
  match a with
  | ⟨0, _⟩ => show win3_9.index _ (0 : Fin 2) * 256 ≤ (i 0).val ∧ (i 0).val < win3_9.index _ (0 : Fin 2) * 256 + 256; rw [e0']; omega
  | ⟨1, _⟩ => show win3_9.index _ (1 : Fin 2) * 128 ≤ (i 1).val ∧ (i 1).val < win3_9.index _ (1 : Fin 2) * 128 + 128; rw [e1]; omega

/-- THE RESULT ARRAY after the region: `Sel3` of the nine input arrays as the region finds them. -/
theorem final9_3 (c : Dev nD) :
    (dat3 V c).arrAt 9 cfg3.N = Sel3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) :=
  (dat3 V c).arrAt_eq_of_cover 9 _ (fun t hf => flushed3_eq V c t hf) cover3s

end Cert.KernelIdeal.Hand

end
-- ==== Proof.KI.Contrib3.lean ====
import proofs.«120270_j2259152797813_2_alg».proof.Proof.KI.ColsB3
import proofs.«120270_j2259152797813_2_alg».proof.Proof.KI.R3SelFinal
import proofs.«120270_j2259152797813_2_alg».proof.Proof.PrefixFp
import proofs.«120270_j2259152797813_2_alg».proof.Proof.PrefixContrib
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Cert.Proof

variable (m : (ℓ : Loc nD τ sig) → Buf (Elt Ideal) ℓ) (ρ : Dev nD → PrngReg)

/-! # Map 3's contribution to the projected features, vertex by vertex

Region 3's result at vertex `v` and output column `j` is the four-corner weighted sample of the map's channels
at the vertex's cells, combined with the rows 1792 … of the linear layer. -/

set_option maxHeartbeats 4000000 in
theorem contrib3 (c : Dev nD) (v : Fin 8192) (j : Fin 128)
    (hF : ∀ i, (show S1x2048x7x7.Idx → EReal from W0 m ρ c (Proc.devRef .tc main_arg3)) i ≠ ⊤ ∧ (show S1x2048x7x7.Idx → EReal from W0 m ρ c (Proc.devRef .tc main_arg3)) i ≠ ⊥)
    (hL : ∀ i, (show S3840x128.Idx → EReal from W0 m ρ c (Proc.devRef .tc main_arg7)) i ≠ ⊤ ∧ (show S3840x128.Idx → EReal from W0 m ρ c (Proc.devRef .tc main_arg7)) i ≠ ⊥)
    (x y : EReal) (ex : x = (show S8192.Idx → EReal from W4 m ρ c (Proc.devRef .tc main_v23)) (ix1 v)) (ey : y = (show S8192.Idx → EReal from W4 m ρ c (Proc.devRef .tc main_v14)) (ix1 v))
    (hx : ∃ r : ℝ, x = (r : EReal) ∧ 0 ≤ r ∧ r ≤ 223) (hy : ∃ r : ℝ, y = (r : EReal) ∧ 0 ≤ r ∧ r ≤ 223) :
    (show S8192x128.Idx → EReal from W20 m ρ c (Proc.devRef .tc main_v271)) (ix2 v j)
      = Chain.mapTerm (C := 2048) (s := 7) (by decide) 0x42000000#32 6#32
          (fun (ch : Fin 2048) (X Y : Fin 7) => (show S1x2048x7x7.Idx → EReal from W0 m ρ c (Proc.devRef .tc main_arg3)) (ix4 (0 : Fin 1) ch X Y))
          (fun (ch : Fin 2048) => (show S3840x128.Idx → EReal from W0 m ρ c (Proc.devRef .tc main_arg7)) (ix2 (⟨1792 + ch.val, by have := ch.isLt; omega⟩ : Fin 3840) j)) x y := by
  have hW : (show S8192x128.Idx → EReal from W20 m ρ c (Proc.devRef .tc main_v271)) = (dat3 (V19 m ρ) c).arrAt 9 cfg3.N :=
    W20_arr m ρ c 9
  rw [hW, final9_3 (V19 m ρ) c]
  show (∑ t : Fin 128, (((((if BitVec.ofNat 32 t.val = (show S8192x1.Idx → BitVec 32 from W19 m ρ c (Proc.devRef .tc main_v263)) (ix2 v 0) then (1 : EReal) else 0) * (show S8192x1.Idx → EReal from W19 m ρ c (Proc.devRef .tc main_v267)) (ix2 v 0)
        + (if BitVec.ofNat 32 t.val = (show S8192x1.Idx → BitVec 32 from W19 m ρ c (Proc.devRef .tc main_v264)) (ix2 v 0) then (1 : EReal) else 0) * (show S8192x1.Idx → EReal from W19 m ρ c (Proc.devRef .tc main_v268)) (ix2 v 0))
        + (if BitVec.ofNat 32 t.val = (show S8192x1.Idx → BitVec 32 from W19 m ρ c (Proc.devRef .tc main_v265)) (ix2 v 0) then (1 : EReal) else 0) * (show S8192x1.Idx → EReal from W19 m ρ c (Proc.devRef .tc main_v269)) (ix2 v 0))
        + (if BitVec.ofNat 32 t.val = (show S8192x1.Idx → BitVec 32 from W19 m ρ c (Proc.devRef .tc main_v266)) (ix2 v 0) then (1 : EReal) else 0) * (show S8192x1.Idx → EReal from W19 m ρ c (Proc.devRef .tc main_v270)) (ix2 v 0))
      * (show S128x128.Idx → EReal from W19 m ρ c (Proc.devRef .tc main_v262)) (ix2 t j))) = _
  have c1 : (show S8192x1.Idx → BitVec 32 from W19 m ρ c (Proc.devRef .tc main_v263)) (ix2 v 0) = Chain.i11 0x42000000#32 7#32 x y := by rw [ex, ey]; exact col3_i11 m ρ c v
  have c2 : (show S8192x1.Idx → BitVec 32 from W19 m ρ c (Proc.devRef .tc main_v264)) (ix2 v 0) = Chain.i12 0x42000000#32 6#32 7#32 x y := by rw [ex, ey]; exact col3_i12 m ρ c v
  have c3 : (show S8192x1.Idx → BitVec 32 from W19 m ρ c (Proc.devRef .tc main_v265)) (ix2 v 0) = Chain.i21 0x42000000#32 6#32 7#32 x y := by rw [ex, ey]; exact col3_i21 m ρ c v
  have c4 : (show S8192x1.Idx → BitVec 32 from W19 m ρ c (Proc.devRef .tc main_v266)) (ix2 v 0) = Chain.i22 0x42000000#32 6#32 7#32 x y := by rw [ex, ey]; exact col3_i22 m ρ c v
  have c5 : (show S8192x1.Idx → EReal from W19 m ρ c (Proc.devRef .tc main_v267)) (ix2 v 0) = Chain.w11 0x42000000#32 6#32 x y := by rw [ex, ey]; exact col3_w11 m ρ c v
  have c6 : (show S8192x1.Idx → EReal from W19 m ρ c (Proc.devRef .tc main_v268)) (ix2 v 0) = Chain.w12 0x42000000#32 6#32 x y := by rw [ex, ey]; exact col3_w12 m ρ c v
  have c7 : (show S8192x1.Idx → EReal from W19 m ρ c (Proc.devRef .tc main_v269)) (ix2 v 0) = Chain.w21 0x42000000#32 6#32 x y := by rw [ex, ey]; exact col3_w21 m ρ c v
  have c8 : (show S8192x1.Idx → EReal from W19 m ρ c (Proc.devRef .tc main_v270)) (ix2 v 0) = Chain.w22 0x42000000#32 6#32 x y := by rw [ex, ey]; exact col3_w22 m ρ c v
  rw [c1, c2, c3, c4, c5, c6, c7, c8]
  exact Chain.chain_contrib (C := 2048) (s := 7) (n := 128) (by decide) (by decide) (by decide) (by decide)
    0x42000000#32 6#32 7#32 32 Chain.ofBits_thirtytwo (by norm_num) (by norm_num) (by norm_num) (by decide) (by decide)
    (fun (ch : Fin 2048) (X Y : Fin 7) => (show S1x2048x7x7.Idx → EReal from W0 m ρ c (Proc.devRef .tc main_arg3)) (ix4 (0 : Fin 1) ch X Y)) (fun ch a b => hF _) (fun (ch : Fin 2048) => (show S3840x128.Idx → EReal from W0 m ρ c (Proc.devRef .tc main_arg7)) (ix2 (⟨1792 + ch.val, by have := ch.isLt; omega⟩ : Fin 3840) j)) (fun ch => hL _) x y hx hy
    (fun t => (show S128x128.Idx → EReal from W19 m ρ c (Proc.devRef .tc main_v262)) (ix2 t j))
    (fun t X Y h => fp3_apply m ρ c t j X Y h)

end Cert.KernelIdeal.Hand

end
-- ==== Proof.KI.Total.lean ====
import proofs.«120270_j2259152797813_2_alg».proof.Proof.KI.Acc
import proofs.«120270_j2259152797813_2_alg».proof.Proof.KI.Contrib0
import proofs.«120270_j2259152797813_2_alg».proof.Proof.KI.Contrib1
import proofs.«120270_j2259152797813_2_alg».proof.Proof.KI.Contrib2
import proofs.«120270_j2259152797813_2_alg».proof.Proof.KI.Contrib3
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Cert.Proof

variable (m : (ℓ : Loc nD τ sig) → Buf (Elt Ideal) ℓ) (ρ : Dev nD → PrngReg)

/-! # The kernel program's projected features, vertex by vertex: the sum of the four maps' terms -/

set_option maxHeartbeats 4000000 in
theorem kernel_total (c : Dev nD) (v : Fin 8192) (j : Fin 128)
    (hF0 : ∀ i, (show S1x256x56x56.Idx → EReal from W0 m ρ c (Proc.devRef .tc main_arg0)) i ≠ ⊤ ∧ (show S1x256x56x56.Idx → EReal from W0 m ρ c (Proc.devRef .tc main_arg0)) i ≠ ⊥)
    (hF1 : ∀ i, (show S1x512x28x28.Idx → EReal from W0 m ρ c (Proc.devRef .tc main_arg1)) i ≠ ⊤ ∧ (show S1x512x28x28.Idx → EReal from W0 m ρ c (Proc.devRef .tc main_arg1)) i ≠ ⊥)
    (hF2 : ∀ i, (show S1x1024x14x14.Idx → EReal from W0 m ρ c (Proc.devRef .tc main_arg2)) i ≠ ⊤ ∧ (show S1x1024x14x14.Idx → EReal from W0 m ρ c (Proc.devRef .tc main_arg2)) i ≠ ⊥)
    (hF3 : ∀ i, (show S1x2048x7x7.Idx → EReal from W0 m ρ c (Proc.devRef .tc main_arg3)) i ≠ ⊤ ∧ (show S1x2048x7x7.Idx → EReal from W0 m ρ c (Proc.devRef .tc main_arg3)) i ≠ ⊥)
    (hL : ∀ i, (show S3840x128.Idx → EReal from W0 m ρ c (Proc.devRef .tc main_arg7)) i ≠ ⊤ ∧ (show S3840x128.Idx → EReal from W0 m ρ c (Proc.devRef .tc main_arg7)) i ≠ ⊥)
    (x y : EReal) (ex : x = (show S8192.Idx → EReal from W4 m ρ c (Proc.devRef .tc main_v23)) (ix1 v)) (ey : y = (show S8192.Idx → EReal from W4 m ρ c (Proc.devRef .tc main_v14)) (ix1 v))
    (hx : ∃ r : ℝ, x = (r : EReal) ∧ 0 ≤ r ∧ r ≤ 223) (hy : ∃ r : ℝ, y = (r : EReal) ∧ 0 ≤ r ∧ r ≤ 223) :
    (show S8192x128.Idx → EReal from W21 m ρ c (Proc.devRef .tc main_v272)) (ix2 v j)
      = (((Chain.mapTerm (C := 256) (s := 56) (by decide) 0x40800000#32 55#32
          (fun (ch : Fin 256) (X Y : Fin 56) => (show S1x256x56x56.Idx → EReal from W0 m ρ c (Proc.devRef .tc main_arg0)) (ix4 (0 : Fin 1) ch X Y))
          (fun (ch : Fin 256) => (show S3840x128.Idx → EReal from W0 m ρ c (Proc.devRef .tc main_arg7)) (ix2 (⟨0 + ch.val, by have := ch.isLt; omega⟩ : Fin 3840) j)) x y)
        + (Chain.mapTerm (C := 512) (s := 28) (by decide) 0x41000000#32 27#32
          (fun (ch : Fin 512) (X Y : Fin 28) => (show S1x512x28x28.Idx → EReal from W0 m ρ c (Proc.devRef .tc main_arg1)) (ix4 (0 : Fin 1) ch X Y))
          (fun (ch : Fin 512) => (show S3840x128.Idx → EReal from W0 m ρ c (Proc.devRef .tc main_arg7)) (ix2 (⟨256 + ch.val, by have := ch.isLt; omega⟩ : Fin 3840) j)) x y))
        + (Chain.mapTerm (C := 1024) (s := 14) (by decide) 0x41800000#32 13#32
          (fun (ch : Fin 1024) (X Y : Fin 14) => (show S1x1024x14x14.Idx → EReal from W0 m ρ c (Proc.devRef .tc main_arg2)) (ix4 (0 : Fin 1) ch X Y))
          (fun (ch : Fin 1024) => (show S3840x128.Idx → EReal from W0 m ρ c (Proc.devRef .tc main_arg7)) (ix2 (⟨768 + ch.val, by have := ch.isLt; omega⟩ : Fin 3840) j)) x y))
        + (Chain.mapTerm (C := 2048) (s := 7) (by decide) 0x42000000#32 6#32
          (fun (ch : Fin 2048) (X Y : Fin 7) => (show S1x2048x7x7.Idx → EReal from W0 m ρ c (Proc.devRef .tc main_arg3)) (ix4 (0 : Fin 1) ch X Y))
          (fun (ch : Fin 2048) => (show S3840x128.Idx → EReal from W0 m ρ c (Proc.devRef .tc main_arg7)) (ix2 (⟨1792 + ch.val, by have := ch.isLt; omega⟩ : Fin 3840) j)) x y) := by
  refine (congrFun (projected_sum m ρ c) (ix2 v j)).trans ?_
  show ((((show EReal from (show S8192x128.Idx → EReal from W5 m ρ c (Proc.devRef .tc main_v208)) (ix2 v j)) + (show S8192x128.Idx → EReal from W8 m ρ c (Proc.devRef .tc main_v223)) (ix2 v j)) + (show S8192x128.Idx → EReal from W12 m ρ c (Proc.devRef .tc main_v239)) (ix2 v j)) + (show S8192x128.Idx → EReal from W16 m ρ c (Proc.devRef .tc main_v255)) (ix2 v j)) + (show S8192x128.Idx → EReal from W20 m ρ c (Proc.devRef .tc main_v271)) (ix2 v j) = _
  rw [contrib0 m ρ c v j hF0 hL x y ex ey hx hy, contrib1 m ρ c v j hF1 hL x y ex ey hx hy,
    contrib2 m ρ c v j hF2 hL x y ex ey hx hy, contrib3 m ρ c v j hF3 hL x y ex ey hx hy]
  have hz : (show EReal from (show S8192x128.Idx → EReal from W5 m ρ c (Proc.devRef .tc main_v208)) (ix2 v j)) = 0 := by
    rw [W5_zeros m ρ c]
    exact Ideal.ofBits_zero_f32
  rw [hz, zero_add]

end Cert.KernelIdeal.Hand

end
-- ==== Proof.Ref.Frame.lean ====
/-
  The reference program's buffer contents, window by window.

  The reference is a straight line of 615 host operations cut into ten windows.  `Wk` is the device's buffer
  contents before window `k` (`W10`: after the last window), starting from the launch contents; `R b` is buffer
  `b` at the end of the whole line.  A buffer that windows `k … 9` do not write has at the end the contents it
  had before window `k` (`R_W0` … `R_W9`): every buffer of the program is written once, so this moves a buffer's
  contents from the window that computes it to the end, and an operand's contents from the end back to the window
  that reads it.
-/
import proofs.«120270_j2259152797813_2_alg».proof.Proof.RefRunPatched
import Idealize.ShloMosaic.Lib.StableHlo.Run
import Idealize.ShloMosaic.Lib.Pipeline.Frame
import Idealize.ShloMosaic.Lib.ValueIdx
import Idealize.ShloMosaic.PureOps.Ideal

set_option maxRecDepth 8192

noncomputable section

namespace Cert.ReferenceIdeal.HandRead

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open scoped BigOperators

variable (m' : (ℓ : Loc nD τ sig) → Buf (Elt Ideal) ℓ) (c : Dev nD)

/-- The contents before window 0: the launch contents. -/
def W0 : Valuation τ sig (Elt Ideal) := launchContents m' c
/-- The contents before window 1. -/
def W1 : Valuation τ sig (Elt Ideal) := after ops_part0 (W0 m' c)
/-- The contents before window 2. -/
def W2 : Valuation τ sig (Elt Ideal) := after ops_part1 (W1 m' c)
/-- The contents before window 3. -/
def W3 : Valuation τ sig (Elt Ideal) := after ops_part2 (W2 m' c)
/-- The contents before window 4. -/
def W4 : Valuation τ sig (Elt Ideal) := after ops_part3 (W3 m' c)
/-- The contents before window 5. -/
def W5 : Valuation τ sig (Elt Ideal) := after ops_part4 (W4 m' c)
/-- The contents before window 6. -/
def W6 : Valuation τ sig (Elt Ideal) := after ops_part5 (W5 m' c)
/-- The contents before window 7. -/
def W7 : Valuation τ sig (Elt Ideal) := after ops_part6 (W6 m' c)
/-- The contents before window 8. -/
def W8 : Valuation τ sig (Elt Ideal) := after ops_part7 (W7 m' c)
/-- The contents before window 9. -/
def W9 : Valuation τ sig (Elt Ideal) := after ops_part8 (W8 m' c)
/-- The contents before window 10 (after the last window). -/
def W10 : Valuation τ sig (Elt Ideal) := after ops_part9 (W9 m' c)

/-- Buffer `b` at the end of the reference's line of operations. -/
abbrev R (b : Ref sig .tc) : b.ty.Contents (Elt Ideal) :=
  after (ops (F := Ideal)) (launchContents m' c) (Proc.devRef .tc b)

/-- The end of the line is the end of the last window. -/
theorem R_W10 (b : Ref sig .tc) : R m' c b = W10 m' c (Proc.devRef .tc b) := by
  show after (ops (F := Ideal)) (launchContents m' c) (Proc.devRef .tc b) = _
  simp only [ops, after_append]; rfl

/-- Window 0 keeps a buffer it does not write. -/
theorem W1_keep (r : Ref sig .tc) (h : r ∉ ops_part0_W) : W1 m' c (Proc.devRef .tc r) = W0 m' c (Proc.devRef .tc r) :=
  ops_part0_keep _ r h
/-- Window 1 keeps a buffer it does not write. -/
theorem W2_keep (r : Ref sig .tc) (h : r ∉ ops_part1_W) : W2 m' c (Proc.devRef .tc r) = W1 m' c (Proc.devRef .tc r) :=
  ops_part1_keep _ r h
/-- Window 2 keeps a buffer it does not write. -/
theorem W3_keep (r : Ref sig .tc) (h : r ∉ ops_part2_W) : W3 m' c (Proc.devRef .tc r) = W2 m' c (Proc.devRef .tc r) :=
  ops_part2_keep _ r h
/-- Window 3 keeps a buffer it does not write. -/
theorem W4_keep (r : Ref sig .tc) (h : r ∉ ops_part3_W) : W4 m' c (Proc.devRef .tc r) = W3 m' c (Proc.devRef .tc r) :=
  ops_part3_keep _ r h
/-- Window 4 keeps a buffer it does not write. -/
theorem W5_keep (r : Ref sig .tc) (h : r ∉ ops_part4_W) : W5 m' c (Proc.devRef .tc r) = W4 m' c (Proc.devRef .tc r) :=
  ops_part4_keep _ r h
/-- Window 5 keeps a buffer it does not write. -/
theorem W6_keep (r : Ref sig .tc) (h : r ∉ ops_part5_W) : W6 m' c (Proc.devRef .tc r) = W5 m' c (Proc.devRef .tc r) :=
  ops_part5_keep _ r h
/-- Window 6 keeps a buffer it does not write. -/
theorem W7_keep (r : Ref sig .tc) (h : r ∉ ops_part6_W) : W7 m' c (Proc.devRef .tc r) = W6 m' c (Proc.devRef .tc r) :=
  ops_part6_keep _ r h
/-- Window 7 keeps a buffer it does not write. -/
theorem W8_keep (r : Ref sig .tc) (h : r ∉ ops_part7_W) : W8 m' c (Proc.devRef .tc r) = W7 m' c (Proc.devRef .tc r) :=
  ops_part7_keep _ r h
/-- Window 8 keeps a buffer it does not write. -/
theorem W9_keep (r : Ref sig .tc) (h : r ∉ ops_part8_W) : W9 m' c (Proc.devRef .tc r) = W8 m' c (Proc.devRef .tc r) :=
  ops_part8_keep _ r h
/-- Window 9 keeps a buffer it does not write. -/
theorem W10_keep (r : Ref sig .tc) (h : r ∉ ops_part9_W) : W10 m' c (Proc.devRef .tc r) = W9 m' c (Proc.devRef .tc r) :=
  ops_part9_keep _ r h

/-- A buffer that windows 9 … 9 do not write ends with the contents it had before window 9. -/
theorem R_W9 (r : Ref sig .tc) (h9 : r ∉ ops_part9_W) :
    R m' c r = W9 m' c (Proc.devRef .tc r) :=
  (R_W10 m' c r).trans (W10_keep m' c r h9)
/-- A buffer that windows 8 … 9 do not write ends with the contents it had before window 8. -/
theorem R_W8 (r : Ref sig .tc) (h8 : r ∉ ops_part8_W) (h9 : r ∉ ops_part9_W) :
    R m' c r = W8 m' c (Proc.devRef .tc r) :=
  (R_W9 m' c r h9).trans (W9_keep m' c r h8)
/-- A buffer that windows 7 … 9 do not write ends with the contents it had before window 7. -/
theorem R_W7 (r : Ref sig .tc) (h7 : r ∉ ops_part7_W) (h8 : r ∉ ops_part8_W) (h9 : r ∉ ops_part9_W) :
    R m' c r = W7 m' c (Proc.devRef .tc r) :=
  (R_W8 m' c r h8 h9).trans (W8_keep m' c r h7)
/-- A buffer that windows 6 … 9 do not write ends with the contents it had before window 6. -/
theorem R_W6 (r : Ref sig .tc) (h6 : r ∉ ops_part6_W) (h7 : r ∉ ops_part7_W) (h8 : r ∉ ops_part8_W) (h9 : r ∉ ops_part9_W) :
    R m' c r = W6 m' c (Proc.devRef .tc r) :=
  (R_W7 m' c r h7 h8 h9).trans (W7_keep m' c r h6)
/-- A buffer that windows 5 … 9 do not write ends with the contents it had before window 5. -/
theorem R_W5 (r : Ref sig .tc) (h5 : r ∉ ops_part5_W) (h6 : r ∉ ops_part6_W) (h7 : r ∉ ops_part7_W) (h8 : r ∉ ops_part8_W) (h9 : r ∉ ops_part9_W) :
    R m' c r = W5 m' c (Proc.devRef .tc r) :=
  (R_W6 m' c r h6 h7 h8 h9).trans (W6_keep m' c r h5)
/-- A buffer that windows 4 … 9 do not write ends with the contents it had before window 4. -/
theorem R_W4 (r : Ref sig .tc) (h4 : r ∉ ops_part4_W) (h5 : r ∉ ops_part5_W) (h6 : r ∉ ops_part6_W) (h7 : r ∉ ops_part7_W) (h8 : r ∉ ops_part8_W) (h9 : r ∉ ops_part9_W) :
    R m' c r = W4 m' c (Proc.devRef .tc r) :=
  (R_W5 m' c r h5 h6 h7 h8 h9).trans (W5_keep m' c r h4)
/-- A buffer that windows 3 … 9 do not write ends with the contents it had before window 3. -/
theorem R_W3 (r : Ref sig .tc) (h3 : r ∉ ops_part3_W) (h4 : r ∉ ops_part4_W) (h5 : r ∉ ops_part5_W) (h6 : r ∉ ops_part6_W) (h7 : r ∉ ops_part7_W) (h8 : r ∉ ops_part8_W) (h9 : r ∉ ops_part9_W) :
    R m' c r = W3 m' c (Proc.devRef .tc r) :=
  (R_W4 m' c r h4 h5 h6 h7 h8 h9).trans (W4_keep m' c r h3)
/-- A buffer that windows 2 … 9 do not write ends with the contents it had before window 2. -/
theorem R_W2 (r : Ref sig .tc) (h2 : r ∉ ops_part2_W) (h3 : r ∉ ops_part3_W) (h4 : r ∉ ops_part4_W) (h5 : r ∉ ops_part5_W) (h6 : r ∉ ops_part6_W) (h7 : r ∉ ops_part7_W) (h8 : r ∉ ops_part8_W) (h9 : r ∉ ops_part9_W) :
    R m' c r = W2 m' c (Proc.devRef .tc r) :=
  (R_W3 m' c r h3 h4 h5 h6 h7 h8 h9).trans (W3_keep m' c r h2)
/-- A buffer that windows 1 … 9 do not write ends with the contents it had before window 1. -/
theorem R_W1 (r : Ref sig .tc) (h1 : r ∉ ops_part1_W) (h2 : r ∉ ops_part2_W) (h3 : r ∉ ops_part3_W) (h4 : r ∉ ops_part4_W) (h5 : r ∉ ops_part5_W) (h6 : r ∉ ops_part6_W) (h7 : r ∉ ops_part7_W) (h8 : r ∉ ops_part8_W) (h9 : r ∉ ops_part9_W) :
    R m' c r = W1 m' c (Proc.devRef .tc r) :=
  (R_W2 m' c r h2 h3 h4 h5 h6 h7 h8 h9).trans (W2_keep m' c r h1)
/-- A buffer that windows 0 … 9 do not write ends with the contents it had before window 0. -/
theorem R_W0 (r : Ref sig .tc) (h0 : r ∉ ops_part0_W) (h1 : r ∉ ops_part1_W) (h2 : r ∉ ops_part2_W) (h3 : r ∉ ops_part3_W) (h4 : r ∉ ops_part4_W) (h5 : r ∉ ops_part5_W) (h6 : r ∉ ops_part6_W) (h7 : r ∉ ops_part7_W) (h8 : r ∉ ops_part8_W) (h9 : r ∉ ops_part9_W) :
    R m' c r = W0 m' c (Proc.devRef .tc r) :=
  (R_W1 m' c r h1 h2 h3 h4 h5 h6 h7 h8 h9).trans (W1_keep m' c r h0)

/-- An argument array is never written: at the end it is as launched. -/
theorem R_arg (r : Ref sig .tc) (h0 : r ∉ ops_part0_W) (h1 : r ∉ ops_part1_W) (h2 : r ∉ ops_part2_W) (h3 : r ∉ ops_part3_W) (h4 : r ∉ ops_part4_W) (h5 : r ∉ ops_part5_W) (h6 : r ∉ ops_part6_W) (h7 : r ∉ ops_part7_W) (h8 : r ∉ ops_part8_W) (h9 : r ∉ ops_part9_W) :
    R m' c r = m' ((c.tc : Thread nD τ).loc r) :=
  R_W0 m' c r h0 h1 h2 h3 h4 h5 h6 h7 h8 h9

end Cert.ReferenceIdeal.HandRead

end
-- ==== Proof.Ref.ProjRun.lean ====
/-
  The reference's last window: the projected features as the product of the aligned features with the weight, and
  the aligned features as the four maps' aligned blocks side by side, each stated over the buffers as the window
  finds or leaves them.
-/
import proofs.«120270_j2259152797813_2_alg».proof.Proof.Ref.Frame

set_option maxRecDepth 8192

noncomputable section

namespace Cert.ReferenceIdeal.HandRead

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open scoped BigOperators

variable (m' : (ℓ : Loc nD τ sig) → Buf (Elt Ideal) ℓ) (c : Dev nD)

set_option maxHeartbeats 1000000 in
/-- The last window computes the projected features as the host product of the aligned features, as that window
    leaves them, with the weight argument. -/
theorem W10_v460 : (W10 m' c (Proc.devRef .tc main_v460) : (⟨S8192x128, .f32⟩ : BufTy).Contents (Elt Ideal))
    = Host.dotGeneral (F := Ideal) (φ₁ := .f32) (φ₂ := .f32) dot_S8192x3840_S3840x128_S8192x128_1_0_0_1_n_n none
        (W10 m' c (Proc.devRef .tc main_v459) : (⟨S8192x3840, .f32⟩ : BufTy).Contents (Elt Ideal))
        (W9 m' c (Proc.devRef .tc main_arg7) : (⟨S3840x128, .f32⟩ : BufTy).Contents (Elt Ideal)) := by
  show after ops_part9 (W9 m' c) (Proc.devRef .tc main_v460)
    = Host.dotGeneral (F := Ideal) (φ₁ := .f32) (φ₂ := .f32) dot_S8192x3840_S3840x128_S8192x128_1_0_0_1_n_n none
        (after ops_part9 (W9 m' c) (Proc.devRef .tc main_v459) : (⟨S8192x3840, .f32⟩ : BufTy).Contents (Elt Ideal)) _
  generalize W9 m' c = X
  after_results_simp <;> rfl

set_option maxHeartbeats 1000000 in
/-- The last window lays the four aligned blocks side by side. -/
theorem W10_v459 : (W10 m' c (Proc.devRef .tc main_v459) : (⟨S8192x3840, .f32⟩ : BufTy).Contents (Elt Ideal))
    = concatenate (α := Ideal .f32) S8192x3840 1
        [⟨S8192x256, (W9 m' c (Proc.devRef .tc main_v131) : (⟨S8192x256, .f32⟩ : BufTy).Contents (Elt Ideal))⟩,
         ⟨S8192x512, (W9 m' c (Proc.devRef .tc main_v240) : (⟨S8192x512, .f32⟩ : BufTy).Contents (Elt Ideal))⟩,
         ⟨S8192x1024, (W9 m' c (Proc.devRef .tc main_v349) : (⟨S8192x1024, .f32⟩ : BufTy).Contents (Elt Ideal))⟩,
         ⟨S8192x2048, (W10 m' c (Proc.devRef .tc main_v458) : (⟨S8192x2048, .f32⟩ : BufTy).Contents (Elt Ideal))⟩]
        concatenates_S8192x256_S8192x512_S8192x1024_S8192x2048_S8192x3840_d1 := by
  show after ops_part9 (W9 m' c) (Proc.devRef .tc main_v459)
    = concatenate (α := Ideal .f32) S8192x3840 1
        [⟨S8192x256, (W9 m' c (Proc.devRef .tc main_v131) : (⟨S8192x256, .f32⟩ : BufTy).Contents (Elt Ideal))⟩,
         ⟨S8192x512, (W9 m' c (Proc.devRef .tc main_v240) : (⟨S8192x512, .f32⟩ : BufTy).Contents (Elt Ideal))⟩,
         ⟨S8192x1024, (W9 m' c (Proc.devRef .tc main_v349) : (⟨S8192x1024, .f32⟩ : BufTy).Contents (Elt Ideal))⟩,
         ⟨S8192x2048, (after ops_part9 (W9 m' c) (Proc.devRef .tc main_v458) : (⟨S8192x2048, .f32⟩ : BufTy).Contents (Elt Ideal))⟩]
        concatenates_S8192x256_S8192x512_S8192x1024_S8192x2048_S8192x3840_d1
  generalize W9 m' c = X
  after_results_simp <;> rfl

end Cert.ReferenceIdeal.HandRead

end
-- ==== Proof.Ref.Proj.lean ====
/-
  The reference's projected features, read entry by entry.

  The projected features are the product of the aligned features `[8192, 3840]` with the linear layer's weight
  `[3840, 128]`: an entry is the sum over the 3840 channels of the products.  The aligned features are the four
  feature maps' aligned blocks laid side by side along the channel axis, of widths 256, 512, 1024 and 2048: a
  channel below 256 reads the first block, one in `[256, 768)` the second at the channel less 256, one in
  `[768, 1792)` the third at the channel less 768, and one from 1792 on the fourth at the channel less 1792.
-/
import proofs.«120270_j2259152797813_2_alg».proof.Proof.Ref.ProjRun
import proofs.«120270_j2259152797813_2_alg».proof.Proof.LibPlainMatmul
import Idealize.ShloMosaic.Lib.Pipeline.Value

set_option maxRecDepth 8192

noncomputable section

namespace Cert.ReferenceIdeal.HandRead

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open scoped BigOperators

variable (m' : (ℓ : Loc nD τ sig) → Buf (Elt Ideal) ℓ) (c : Dev nD)

/-- A float buffer's contents read as a function to the extended reals (the identity: it fixes the type). -/
abbrev fl (s : Shape) (x : s.Idx → EReal) : s.Idx → EReal := x
/-- A 32-bit integer buffer's contents read as a function to words (the identity: it fixes the type). -/
abbrev wd (s : Shape) (x : s.Idx → BitVec 32) : s.Idx → BitVec 32 := x

/-- An entry of the projected features: the sum over the channels of aligned feature times weight. -/
theorem proj_apply (v : Fin 8192) (j : Fin 128) :
    fl S8192x128 (R m' c main_v460) (ix2 v j)
      = ∑ k : Fin 3840, fl S8192x3840 (R m' c main_v459) (ix2 v k)
          * fl S3840x128 (m' ((c.tc : Thread nD τ).loc main_arg7)) (ix2 k j) := by
  have e7 : W9 m' c (Proc.devRef .tc main_arg7) = m' ((c.tc : Thread nD τ).loc main_arg7) :=
    (R_W9 m' c main_arg7 (by decide)).symm.trans
      (R_arg m' c main_arg7 (by decide) (by decide) (by decide) (by decide) (by decide) (by decide) (by decide) (by decide) (by decide) (by decide))
  dsimp only [fl]
  rw [R_W10 m' c main_v460, W10_v460, ← R_W10 m' c main_v459, e7]
  exact Cert.LibPlainMatmul.dotGeneral_apply 8192 3840 128 none _ _ v j

/-- A channel below 256 reads the first block. -/
theorem aligned_apply0 (v : Fin 8192) (k : Fin 3840) (hk : k.val < 256) :
    fl S8192x3840 (R m' c main_v459) (ix2 v k)
      = fl S8192x256 (R m' c main_v131) (ix2 v ⟨k.val, hk⟩) := by
  dsimp only [fl]
  rw [R_W10 m' c main_v459, W10_v459, R_W9 m' c main_v131 (by decide)]
  refine concatenate_apply_piece (1 : Fin 2) _ _ (ix2 v k) 0 ?hk S8192x256 _ ?hxk rfl 0 ?hpre
    (ix2 v ⟨k.val, hk⟩) (fun b hb => ?_) ?_
  case hk => show (0 : ℕ) < 4; omega
  case hxk => rfl
  case hpre => rfl
  · match b with
    | ⟨0, _⟩ => rfl
    | ⟨1, _⟩ => exact absurd rfl hb
  · show 0 + k.val = k.val
    omega

/-- A channel in `[256, 768)` reads the second block at the channel less 256. -/
theorem aligned_apply1 (v : Fin 8192) (k : Fin 3840) (hlo : 256 ≤ k.val) (hhi : k.val < 768) :
    fl S8192x3840 (R m' c main_v459) (ix2 v k)
      = fl S8192x512 (R m' c main_v240) (ix2 v ⟨k.val - 256, by omega⟩) := by
  dsimp only [fl]
  rw [R_W10 m' c main_v459, W10_v459, R_W9 m' c main_v240 (by decide)]
  refine concatenate_apply_piece (1 : Fin 2) _ _ (ix2 v k) 1 ?hk S8192x512 _ ?hxk rfl 256 ?hpre
    (ix2 v ⟨k.val - 256, by omega⟩) (fun b hb => ?_) ?_
  case hk => show (1 : ℕ) < 4; omega
  case hxk => rfl
  case hpre => rfl
  · match b with
    | ⟨0, _⟩ => rfl
    | ⟨1, _⟩ => exact absurd rfl hb
  · show 256 + (k.val - 256) = k.val
    omega

/-- A channel in `[768, 1792)` reads the third block at the channel less 768. -/
theorem aligned_apply2 (v : Fin 8192) (k : Fin 3840) (hlo : 768 ≤ k.val) (hhi : k.val < 1792) :
    fl S8192x3840 (R m' c main_v459) (ix2 v k)
      = fl S8192x1024 (R m' c main_v349) (ix2 v ⟨k.val - 768, by omega⟩) := by
  dsimp only [fl]
  rw [R_W10 m' c main_v459, W10_v459, R_W9 m' c main_v349 (by decide)]
  refine concatenate_apply_piece (1 : Fin 2) _ _ (ix2 v k) 2 ?hk S8192x1024 _ ?hxk rfl 768 ?hpre
    (ix2 v ⟨k.val - 768, by omega⟩) (fun b hb => ?_) ?_
  case hk => show (2 : ℕ) < 4; omega
  case hxk => rfl
  case hpre => rfl
  · match b with
    | ⟨0, _⟩ => rfl
    | ⟨1, _⟩ => exact absurd rfl hb
  · show 768 + (k.val - 768) = k.val
    omega

/-- A channel from 1792 on reads the fourth block at the channel less 1792. -/
theorem aligned_apply3 (v : Fin 8192) (k : Fin 3840) (hlo : 1792 ≤ k.val) :
    fl S8192x3840 (R m' c main_v459) (ix2 v k)
      = fl S8192x2048 (R m' c main_v458) (ix2 v ⟨k.val - 1792, by have := k.isLt; omega⟩) := by
  dsimp only [fl]
  rw [R_W10 m' c main_v459, W10_v459, R_W10 m' c main_v458]
  refine concatenate_apply_piece (1 : Fin 2) _ _ (ix2 v k) 3 ?hk S8192x2048 _ ?hxk rfl 1792 ?hpre
    (ix2 v ⟨k.val - 1792, by have := k.isLt; omega⟩) (fun b hb => ?_) ?_
  case hk => show (3 : ℕ) < 4; omega
  case hxk => rfl
  case hpre => rfl
  · match b with
    | ⟨0, _⟩ => rfl
    | ⟨1, _⟩ => exact absurd rfl hb
  · show 1792 + (k.val - 1792) = k.val
    omega

end Cert.ReferenceIdeal.HandRead

end
-- ==== Proof.LibSumPieces.lean ====
/-
  A sum over 3840 channels as the sum of its four consecutive pieces of 256, 512, 1024 and 2048 channels.
-/
import Mathlib.Data.EReal.Inv
import Mathlib.Algebra.BigOperators.Fin

namespace Cert.LibSumPieces

open Finset

/-- The four pieces, in order. -/
theorem sum_four_pieces (g : Fin 3840 → EReal) :
    ∑ k : Fin 3840, g k
      = ((∑ k : Fin 256, g ⟨0 + k.val, by have := k.isLt; omega⟩ + ∑ k : Fin 512, g ⟨256 + k.val, by have := k.isLt; omega⟩)
          + ∑ k : Fin 1024, g ⟨768 + k.val, by have := k.isLt; omega⟩)
          + ∑ k : Fin 2048, g ⟨1792 + k.val, by have := k.isLt; omega⟩ := by
  have h1 := Fin.sum_univ_add (M := EReal) (a := 1792) (b := 2048) g
  have h2 := Fin.sum_univ_add (M := EReal) (a := 768) (b := 1024) (fun k => g (Fin.castAdd 2048 k))
  have h3 := Fin.sum_univ_add (M := EReal) (a := 256) (b := 512) (fun k => g (Fin.castAdd 2048 (Fin.castAdd 1024 k)))
  rw [h1, h2, h3]
  refine congrArg₂ (· + ·) (congrArg₂ (· + ·) (congrArg₂ (· + ·) ?_ ?_) ?_) ?_
  · exact Finset.sum_congr rfl fun k _ => congrArg g (Fin.ext (by simp))
  · exact Finset.sum_congr rfl fun k _ => congrArg g (Fin.ext (by simp))
  · exact Finset.sum_congr rfl fun k _ => congrArg g (Fin.ext (by simp))
  · exact Finset.sum_congr rfl fun k _ => congrArg g (Fin.ext (by simp))

end Cert.LibSumPieces
-- ==== Proof.Ref.TotalOf.lean ====
/-
  The reference's projected features at one vertex and one output column, as the sum of the four maps' terms.

  An entry of the projected features is the sum over the 3840 channels of aligned feature times weight.  The channels
  are the four maps' blocks of 256, 512, 1024 and 2048 channels laid side by side, so the sum is the sum of four
  pieces.  In a piece, a channel's aligned feature is the four-corner weighted sample of the map's channel at the
  vertex's cells; the corner coordinates and the weights are the chain's functions of the vertex's two clipped image
  coordinates, and the corner coordinates lie inside the map.  So each piece is the map's term.
-/
import proofs.«120270_j2259152797813_2_alg».proof.Proof.Ref.Proj
import proofs.«120270_j2259152797813_2_alg».proof.Proof.PrefixContrib
import proofs.«120270_j2259152797813_2_alg».proof.Proof.LibSumPieces

set_option maxRecDepth 8192

noncomputable section

namespace Cert.ReferenceIdeal.HandRead

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open scoped BigOperators

/-- A word inside the map, read signed, is its cell's position. -/
theorem cell_toInt (s : ℕ) (hs : 0 < s) (w : BitVec 32) (h : 0 ≤ w.toInt ∧ w.toInt < s) :
    w.toInt = ((Cert.Proof.Chain.cell s hs w).val : ℤ) := by
  rw [Cert.Proof.Chain.cell_val s hs w h]
  exact (Int.toNat_of_nonneg h.1).symm

/-- ONE MAP'S PIECE of the channel sum is the map's term: when the corner coordinates and the weights are the chain's
    functions of the two clipped coordinates, and a channel's aligned feature is the four-corner weighted sample at any
    cells the corner coordinates name. -/
theorem piece_mapTerm {C s : ℕ} (hs : 0 < s) (cb smax : BitVec 32) (cval : ℝ)
    (hc : (FloatOps.ofBits (F := Ideal) .f32 cb : EReal) = (cval : EReal)) (hcpos : 0 < cval)
    (hsr : (223 : ℝ) / cval < (s : ℝ)) (hbig : (223 : ℝ) / cval < 2147483646) (hsmax : smax.toInt = (s : ℤ) - 1)
    (F : Fin C → Fin s → Fin s → EReal) (L : Fin C → EReal) (x y : EReal)
    (hx : ∃ r : ℝ, x = (r : EReal) ∧ 0 ≤ r ∧ r ≤ 223) (hy : ∃ r : ℝ, y = (r : EReal) ∧ 0 ≤ r ∧ r ≤ 223)
    (al : Fin C → EReal) (x1 x2 y1 y2 : BitVec 32) (a11 a12 a21 a22 : EReal)
    (ex1 : x1 = Cert.Proof.Chain.lo cb x) (ex2 : x2 = Cert.Proof.Chain.hi cb smax x)
    (ey1 : y1 = Cert.Proof.Chain.lo cb y) (ey2 : y2 = Cert.Proof.Chain.hi cb smax y)
    (e11 : a11 = Cert.Proof.Chain.w11 cb smax x y) (e12 : a12 = Cert.Proof.Chain.w12 cb smax x y)
    (e21 : a21 = Cert.Proof.Chain.w21 cb smax x y) (e22 : a22 = Cert.Proof.Chain.w22 cb smax x y)
    (hal : ∀ (ch : Fin C) (X1 X2 Y1 Y2 : Fin s), x1.toInt = X1.val → x2.toInt = X2.val → y1.toInt = Y1.val → y2.toInt = Y2.val →
      al ch = ((a11 * F ch X1 Y1 + a21 * F ch X2 Y1) + a12 * F ch X1 Y2) + a22 * F ch X2 Y2) :
    ∑ ch : Fin C, al ch * L ch = Cert.Proof.Chain.mapTerm hs cb smax F L x y := by
  subst ex1 ex2 ey1 ey2 e11 e12 e21 e22
  obtain ⟨rx, rfl, hx0, hx1⟩ := hx
  obtain ⟨ry, rfl, hy0, hy1⟩ := hy
  have lx := Cert.Proof.Chain.lo_in_map cb cval s hc hcpos hsr hbig rx hx0 hx1
  have ly := Cert.Proof.Chain.lo_in_map cb cval s hc hcpos hsr hbig ry hy0 hy1
  have ux := Cert.Proof.Chain.hi_range cb smax cval s hc hcpos hsmax hs hbig rx hx0 hx1
  have uy := Cert.Proof.Chain.hi_range cb smax cval s hc hcpos hsmax hs hbig ry hy0 hy1
  unfold Cert.Proof.Chain.mapTerm
  refine Finset.sum_congr rfl fun ch _ => ?_
  rw [hal ch _ _ _ _ (cell_toInt s hs _ lx) (cell_toInt s hs _ ux) (cell_toInt s hs _ ly) (cell_toInt s hs _ uy)]

variable (m' : (ℓ : Loc nD τ sig) → Buf (Elt Ideal) ℓ) (c : Dev nD)

/-- Channel `0 + ch` of the aligned features is channel `ch` of map 0's aligned block. -/
theorem aligned_at0 (v : Fin 8192) (ch : Fin 256) :
    fl S8192x3840 (R m' c main_v459) (ix2 v (⟨0 + ch.val, by have := ch.isLt; omega⟩ : Fin 3840))
      = fl S8192x256 (R m' c main_v131) (ix2 v ch) := by
  refine (aligned_apply0 m' c v ⟨0 + ch.val, by have := ch.isLt; omega⟩ (by show 0 + ch.val < 256; have := ch.isLt; omega)).trans ?_
  refine congrArg (fun q : Fin 256 => fl S8192x256 (R m' c main_v131) (ix2 v q)) (Fin.ext ?_)
  show 0 + ch.val = ch.val
  omega

/-- Channel `256 + ch` of the aligned features is channel `ch` of map 1's aligned block. -/
theorem aligned_at1 (v : Fin 8192) (ch : Fin 512) :
    fl S8192x3840 (R m' c main_v459) (ix2 v (⟨256 + ch.val, by have := ch.isLt; omega⟩ : Fin 3840))
      = fl S8192x512 (R m' c main_v240) (ix2 v ch) := by
  refine (aligned_apply1 m' c v ⟨256 + ch.val, by have := ch.isLt; omega⟩ (by show 256 ≤ 256 + ch.val; omega) (by show 256 + ch.val < 768; have := ch.isLt; omega)).trans ?_
  refine congrArg (fun q : Fin 512 => fl S8192x512 (R m' c main_v240) (ix2 v q)) (Fin.ext ?_)
  show 256 + ch.val - 256 = ch.val
  omega

/-- Channel `768 + ch` of the aligned features is channel `ch` of map 2's aligned block. -/
theorem aligned_at2 (v : Fin 8192) (ch : Fin 1024) :
    fl S8192x3840 (R m' c main_v459) (ix2 v (⟨768 + ch.val, by have := ch.isLt; omega⟩ : Fin 3840))
      = fl S8192x1024 (R m' c main_v349) (ix2 v ch) := by
  refine (aligned_apply2 m' c v ⟨768 + ch.val, by have := ch.isLt; omega⟩ (by show 768 ≤ 768 + ch.val; omega) (by show 768 + ch.val < 1792; have := ch.isLt; omega)).trans ?_
  refine congrArg (fun q : Fin 1024 => fl S8192x1024 (R m' c main_v349) (ix2 v q)) (Fin.ext ?_)
  show 768 + ch.val - 768 = ch.val
  omega

/-- Channel `1792 + ch` of the aligned features is channel `ch` of map 3's aligned block. -/
theorem aligned_at3 (v : Fin 8192) (ch : Fin 2048) :
    fl S8192x3840 (R m' c main_v459) (ix2 v (⟨1792 + ch.val, by have := ch.isLt; omega⟩ : Fin 3840))
      = fl S8192x2048 (R m' c main_v458) (ix2 v ch) := by
  refine (aligned_apply3 m' c v ⟨1792 + ch.val, by have := ch.isLt; omega⟩ (by show 1792 ≤ 1792 + ch.val; omega)).trans ?_
  refine congrArg (fun q : Fin 2048 => fl S8192x2048 (R m' c main_v458) (ix2 v q)) (Fin.ext ?_)
  show 1792 + ch.val - 1792 = ch.val
  omega

set_option maxHeartbeats 1000000 in
/-- THE TOTAL from the two families of facts about each map at the vertex: the chain's reading of the corner
    coordinates and weights (`c…`), and the aligned block's entry as the four-corner sample (`a…`). -/
theorem ref_total_of (v : Fin 8192) (j : Fin 128) (x y : EReal)
    (hx : ∃ r : ℝ, x = (r : EReal) ∧ 0 ≤ r ∧ r ≤ 223) (hy : ∃ r : ℝ, y = (r : EReal) ∧ 0 ≤ r ∧ r ≤ 223)
    (c0x1 : wd S8192 (R m' c main_v28) (ix1 v) = Cert.Proof.Chain.lo 0x40800000#32 x) (c0x2 : wd S8192 (R m' c main_v32) (ix1 v) = Cert.Proof.Chain.hi 0x40800000#32 55#32 x)
    (c0y1 : wd S8192 (R m' c main_v34) (ix1 v) = Cert.Proof.Chain.lo 0x40800000#32 y) (c0y2 : wd S8192 (R m' c main_v38) (ix1 v) = Cert.Proof.Chain.hi 0x40800000#32 55#32 y)
    (c0w11 : fl S8192 (R m' c main_v44) (ix1 v) = Cert.Proof.Chain.w11 0x40800000#32 55#32 x y) (c0w12 : fl S8192 (R m' c main_v49) (ix1 v) = Cert.Proof.Chain.w12 0x40800000#32 55#32 x y)
    (c0w21 : fl S8192 (R m' c main_v54) (ix1 v) = Cert.Proof.Chain.w21 0x40800000#32 55#32 x y) (c0w22 : fl S8192 (R m' c main_v59) (ix1 v) = Cert.Proof.Chain.w22 0x40800000#32 55#32 x y)
    (a0 : ∀ (ch : Fin 256) (X1 X2 Y1 Y2 : Fin 56), (wd S8192 (R m' c main_v28) (ix1 v)).toInt = X1.val → (wd S8192 (R m' c main_v32) (ix1 v)).toInt = X2.val
        → (wd S8192 (R m' c main_v34) (ix1 v)).toInt = Y1.val → (wd S8192 (R m' c main_v38) (ix1 v)).toInt = Y2.val →
        fl S8192x256 (R m' c main_v131) (ix2 v ch)
          = ((fl S8192 (R m' c main_v44) (ix1 v) * fl S1x256x56x56 (m' ((c.tc : Thread nD τ).loc main_arg0)) (ix4 0 ch X1 Y1) + fl S8192 (R m' c main_v54) (ix1 v) * fl S1x256x56x56 (m' ((c.tc : Thread nD τ).loc main_arg0)) (ix4 0 ch X2 Y1))
              + fl S8192 (R m' c main_v49) (ix1 v) * fl S1x256x56x56 (m' ((c.tc : Thread nD τ).loc main_arg0)) (ix4 0 ch X1 Y2)) + fl S8192 (R m' c main_v59) (ix1 v) * fl S1x256x56x56 (m' ((c.tc : Thread nD τ).loc main_arg0)) (ix4 0 ch X2 Y2))
    (c1x1 : wd S8192 (R m' c main_v137) (ix1 v) = Cert.Proof.Chain.lo 0x41000000#32 x) (c1x2 : wd S8192 (R m' c main_v141) (ix1 v) = Cert.Proof.Chain.hi 0x41000000#32 27#32 x)
    (c1y1 : wd S8192 (R m' c main_v143) (ix1 v) = Cert.Proof.Chain.lo 0x41000000#32 y) (c1y2 : wd S8192 (R m' c main_v147) (ix1 v) = Cert.Proof.Chain.hi 0x41000000#32 27#32 y)
    (c1w11 : fl S8192 (R m' c main_v153) (ix1 v) = Cert.Proof.Chain.w11 0x41000000#32 27#32 x y) (c1w12 : fl S8192 (R m' c main_v158) (ix1 v) = Cert.Proof.Chain.w12 0x41000000#32 27#32 x y)
    (c1w21 : fl S8192 (R m' c main_v163) (ix1 v) = Cert.Proof.Chain.w21 0x41000000#32 27#32 x y) (c1w22 : fl S8192 (R m' c main_v168) (ix1 v) = Cert.Proof.Chain.w22 0x41000000#32 27#32 x y)
    (a1 : ∀ (ch : Fin 512) (X1 X2 Y1 Y2 : Fin 28), (wd S8192 (R m' c main_v137) (ix1 v)).toInt = X1.val → (wd S8192 (R m' c main_v141) (ix1 v)).toInt = X2.val
        → (wd S8192 (R m' c main_v143) (ix1 v)).toInt = Y1.val → (wd S8192 (R m' c main_v147) (ix1 v)).toInt = Y2.val →
        fl S8192x512 (R m' c main_v240) (ix2 v ch)
          = ((fl S8192 (R m' c main_v153) (ix1 v) * fl S1x512x28x28 (m' ((c.tc : Thread nD τ).loc main_arg1)) (ix4 0 ch X1 Y1) + fl S8192 (R m' c main_v163) (ix1 v) * fl S1x512x28x28 (m' ((c.tc : Thread nD τ).loc main_arg1)) (ix4 0 ch X2 Y1))
              + fl S8192 (R m' c main_v158) (ix1 v) * fl S1x512x28x28 (m' ((c.tc : Thread nD τ).loc main_arg1)) (ix4 0 ch X1 Y2)) + fl S8192 (R m' c main_v168) (ix1 v) * fl S1x512x28x28 (m' ((c.tc : Thread nD τ).loc main_arg1)) (ix4 0 ch X2 Y2))
    (c2x1 : wd S8192 (R m' c main_v246) (ix1 v) = Cert.Proof.Chain.lo 0x41800000#32 x) (c2x2 : wd S8192 (R m' c main_v250) (ix1 v) = Cert.Proof.Chain.hi 0x41800000#32 13#32 x)
    (c2y1 : wd S8192 (R m' c main_v252) (ix1 v) = Cert.Proof.Chain.lo 0x41800000#32 y) (c2y2 : wd S8192 (R m' c main_v256) (ix1 v) = Cert.Proof.Chain.hi 0x41800000#32 13#32 y)
    (c2w11 : fl S8192 (R m' c main_v262) (ix1 v) = Cert.Proof.Chain.w11 0x41800000#32 13#32 x y) (c2w12 : fl S8192 (R m' c main_v267) (ix1 v) = Cert.Proof.Chain.w12 0x41800000#32 13#32 x y)
    (c2w21 : fl S8192 (R m' c main_v272) (ix1 v) = Cert.Proof.Chain.w21 0x41800000#32 13#32 x y) (c2w22 : fl S8192 (R m' c main_v277) (ix1 v) = Cert.Proof.Chain.w22 0x41800000#32 13#32 x y)
    (a2 : ∀ (ch : Fin 1024) (X1 X2 Y1 Y2 : Fin 14), (wd S8192 (R m' c main_v246) (ix1 v)).toInt = X1.val → (wd S8192 (R m' c main_v250) (ix1 v)).toInt = X2.val
        → (wd S8192 (R m' c main_v252) (ix1 v)).toInt = Y1.val → (wd S8192 (R m' c main_v256) (ix1 v)).toInt = Y2.val →
        fl S8192x1024 (R m' c main_v349) (ix2 v ch)
          = ((fl S8192 (R m' c main_v262) (ix1 v) * fl S1x1024x14x14 (m' ((c.tc : Thread nD τ).loc main_arg2)) (ix4 0 ch X1 Y1) + fl S8192 (R m' c main_v272) (ix1 v) * fl S1x1024x14x14 (m' ((c.tc : Thread nD τ).loc main_arg2)) (ix4 0 ch X2 Y1))
              + fl S8192 (R m' c main_v267) (ix1 v) * fl S1x1024x14x14 (m' ((c.tc : Thread nD τ).loc main_arg2)) (ix4 0 ch X1 Y2)) + fl S8192 (R m' c main_v277) (ix1 v) * fl S1x1024x14x14 (m' ((c.tc : Thread nD τ).loc main_arg2)) (ix4 0 ch X2 Y2))
    (c3x1 : wd S8192 (R m' c main_v355) (ix1 v) = Cert.Proof.Chain.lo 0x42000000#32 x) (c3x2 : wd S8192 (R m' c main_v359) (ix1 v) = Cert.Proof.Chain.hi 0x42000000#32 6#32 x)
    (c3y1 : wd S8192 (R m' c main_v361) (ix1 v) = Cert.Proof.Chain.lo 0x42000000#32 y) (c3y2 : wd S8192 (R m' c main_v365) (ix1 v) = Cert.Proof.Chain.hi 0x42000000#32 6#32 y)
    (c3w11 : fl S8192 (R m' c main_v371) (ix1 v) = Cert.Proof.Chain.w11 0x42000000#32 6#32 x y) (c3w12 : fl S8192 (R m' c main_v376) (ix1 v) = Cert.Proof.Chain.w12 0x42000000#32 6#32 x y)
    (c3w21 : fl S8192 (R m' c main_v381) (ix1 v) = Cert.Proof.Chain.w21 0x42000000#32 6#32 x y) (c3w22 : fl S8192 (R m' c main_v386) (ix1 v) = Cert.Proof.Chain.w22 0x42000000#32 6#32 x y)
    (a3 : ∀ (ch : Fin 2048) (X1 X2 Y1 Y2 : Fin 7), (wd S8192 (R m' c main_v355) (ix1 v)).toInt = X1.val → (wd S8192 (R m' c main_v359) (ix1 v)).toInt = X2.val
        → (wd S8192 (R m' c main_v361) (ix1 v)).toInt = Y1.val → (wd S8192 (R m' c main_v365) (ix1 v)).toInt = Y2.val →
        fl S8192x2048 (R m' c main_v458) (ix2 v ch)
          = ((fl S8192 (R m' c main_v371) (ix1 v) * fl S1x2048x7x7 (m' ((c.tc : Thread nD τ).loc main_arg3)) (ix4 0 ch X1 Y1) + fl S8192 (R m' c main_v381) (ix1 v) * fl S1x2048x7x7 (m' ((c.tc : Thread nD τ).loc main_arg3)) (ix4 0 ch X2 Y1))
              + fl S8192 (R m' c main_v376) (ix1 v) * fl S1x2048x7x7 (m' ((c.tc : Thread nD τ).loc main_arg3)) (ix4 0 ch X1 Y2)) + fl S8192 (R m' c main_v386) (ix1 v) * fl S1x2048x7x7 (m' ((c.tc : Thread nD τ).loc main_arg3)) (ix4 0 ch X2 Y2)) :
    (show S8192x128.Idx → EReal from R m' c main_v460) (ix2 v j)
      = ((Cert.Proof.Chain.mapTerm (C := 256) (s := 56) (by decide) 0x40800000#32 55#32
        (fun (ch : Fin 256) (X Y : Fin 56) => (show S1x256x56x56.Idx → EReal from m' ((c.tc : Thread nD τ).loc main_arg0)) (ix4 (0 : Fin 1) ch X Y))
        (fun (ch : Fin 256) => (show S3840x128.Idx → EReal from m' ((c.tc : Thread nD τ).loc main_arg7)) (ix2 (⟨0 + ch.val, by have := ch.isLt; omega⟩ : Fin 3840) j)) x y
        + Cert.Proof.Chain.mapTerm (C := 512) (s := 28) (by decide) 0x41000000#32 27#32
        (fun (ch : Fin 512) (X Y : Fin 28) => (show S1x512x28x28.Idx → EReal from m' ((c.tc : Thread nD τ).loc main_arg1)) (ix4 (0 : Fin 1) ch X Y))
        (fun (ch : Fin 512) => (show S3840x128.Idx → EReal from m' ((c.tc : Thread nD τ).loc main_arg7)) (ix2 (⟨256 + ch.val, by have := ch.isLt; omega⟩ : Fin 3840) j)) x y)
        + Cert.Proof.Chain.mapTerm (C := 1024) (s := 14) (by decide) 0x41800000#32 13#32
        (fun (ch : Fin 1024) (X Y : Fin 14) => (show S1x1024x14x14.Idx → EReal from m' ((c.tc : Thread nD τ).loc main_arg2)) (ix4 (0 : Fin 1) ch X Y))
        (fun (ch : Fin 1024) => (show S3840x128.Idx → EReal from m' ((c.tc : Thread nD τ).loc main_arg7)) (ix2 (⟨768 + ch.val, by have := ch.isLt; omega⟩ : Fin 3840) j)) x y)
        + Cert.Proof.Chain.mapTerm (C := 2048) (s := 7) (by decide) 0x42000000#32 6#32
        (fun (ch : Fin 2048) (X Y : Fin 7) => (show S1x2048x7x7.Idx → EReal from m' ((c.tc : Thread nD τ).loc main_arg3)) (ix4 (0 : Fin 1) ch X Y))
        (fun (ch : Fin 2048) => (show S3840x128.Idx → EReal from m' ((c.tc : Thread nD τ).loc main_arg7)) (ix2 (⟨1792 + ch.val, by have := ch.isLt; omega⟩ : Fin 3840) j)) x y := by
  refine (proj_apply m' c v j).trans ?_
  rw [Cert.LibSumPieces.sum_four_pieces]
  refine congrArg₂ (· + ·) (congrArg₂ (· + ·) (congrArg₂ (· + ·) ?_ ?_) ?_) ?_
  · refine (Finset.sum_congr rfl fun ch _ => congrArg (· * _) (aligned_at0 m' c v ch)).trans ?_
    exact piece_mapTerm (by decide) 0x40800000#32 55#32 4 Cert.Proof.Chain.ofBits_four (by norm_num) (by norm_num) (by norm_num) (by decide)
      (fun (ch : Fin 256) (X Y : Fin 56) => (show S1x256x56x56.Idx → EReal from m' ((c.tc : Thread nD τ).loc main_arg0)) (ix4 (0 : Fin 1) ch X Y))
      (fun (ch : Fin 256) => (show S3840x128.Idx → EReal from m' ((c.tc : Thread nD τ).loc main_arg7)) (ix2 (⟨0 + ch.val, by have := ch.isLt; omega⟩ : Fin 3840) j)) x y hx hy
      (fun ch => fl S8192x256 (R m' c main_v131) (ix2 v ch)) _ _ _ _ _ _ _ _ c0x1 c0x2 c0y1 c0y2 c0w11 c0w12 c0w21 c0w22 a0
  · refine (Finset.sum_congr rfl fun ch _ => congrArg (· * _) (aligned_at1 m' c v ch)).trans ?_
    exact piece_mapTerm (by decide) 0x41000000#32 27#32 8 Cert.Proof.Chain.ofBits_eight (by norm_num) (by norm_num) (by norm_num) (by decide)
      (fun (ch : Fin 512) (X Y : Fin 28) => (show S1x512x28x28.Idx → EReal from m' ((c.tc : Thread nD τ).loc main_arg1)) (ix4 (0 : Fin 1) ch X Y))
      (fun (ch : Fin 512) => (show S3840x128.Idx → EReal from m' ((c.tc : Thread nD τ).loc main_arg7)) (ix2 (⟨256 + ch.val, by have := ch.isLt; omega⟩ : Fin 3840) j)) x y hx hy
      (fun ch => fl S8192x512 (R m' c main_v240) (ix2 v ch)) _ _ _ _ _ _ _ _ c1x1 c1x2 c1y1 c1y2 c1w11 c1w12 c1w21 c1w22 a1
  · refine (Finset.sum_congr rfl fun ch _ => congrArg (· * _) (aligned_at2 m' c v ch)).trans ?_
    exact piece_mapTerm (by decide) 0x41800000#32 13#32 16 Cert.Proof.Chain.ofBits_sixteen (by norm_num) (by norm_num) (by norm_num) (by decide)
      (fun (ch : Fin 1024) (X Y : Fin 14) => (show S1x1024x14x14.Idx → EReal from m' ((c.tc : Thread nD τ).loc main_arg2)) (ix4 (0 : Fin 1) ch X Y))
      (fun (ch : Fin 1024) => (show S3840x128.Idx → EReal from m' ((c.tc : Thread nD τ).loc main_arg7)) (ix2 (⟨768 + ch.val, by have := ch.isLt; omega⟩ : Fin 3840) j)) x y hx hy
      (fun ch => fl S8192x1024 (R m' c main_v349) (ix2 v ch)) _ _ _ _ _ _ _ _ c2x1 c2x2 c2y1 c2y2 c2w11 c2w12 c2w21 c2w22 a2
  · refine (Finset.sum_congr rfl fun ch _ => congrArg (· * _) (aligned_at3 m' c v ch)).trans ?_
    exact piece_mapTerm (by decide) 0x42000000#32 6#32 32 Cert.Proof.Chain.ofBits_thirtytwo (by norm_num) (by norm_num) (by norm_num) (by decide)
      (fun (ch : Fin 2048) (X Y : Fin 7) => (show S1x2048x7x7.Idx → EReal from m' ((c.tc : Thread nD τ).loc main_arg3)) (ix4 (0 : Fin 1) ch X Y))
      (fun (ch : Fin 2048) => (show S3840x128.Idx → EReal from m' ((c.tc : Thread nD τ).loc main_arg7)) (ix2 (⟨1792 + ch.val, by have := ch.isLt; omega⟩ : Fin 3840) j)) x y hx hy
      (fun ch => fl S8192x2048 (R m' c main_v458) (ix2 v ch)) _ _ _ _ _ _ _ _ c3x1 c3x2 c3y1 c3y2 c3w11 c3w12 c3w21 c3w22 a3

end Cert.ReferenceIdeal.HandRead

end
-- ==== Proof.LibGatherPoints.lean ====
/-
  A point gather from a stack of two-dimensional maps, read at a result index.

  `A[:, a, b]` for integer arrays `a`, `b` of one length `N` over a stack `A : [C, H, W]` lowers to one gather of the
  operand `[C, H, W]` at start indices `[N, 2]` (row `v` holds the pair `(a v, b v)`) with the channel axis an offset
  axis, the two map axes collapsed and named by the start index map, and slices `[C, 1, 1]`; the result is `[C, N]`.
  Result element `(ch, v)` is the operand at channel `ch` and at the point `(a v, b v)`, each coordinate read as a
  signed integer and clamped into its axis — so for a point inside the map it is `A ch (a v) (b v)`.
-/
import Idealize.ShloMosaic.Lib.ValueIdx

namespace Cert.LibGatherPoints

open Idealize.ShloMosaic Idealize.ShloMosaic.ValueIdx

variable {α : Type}

/-- The dimension numbers of the point gather, for an operand `[C, H, W]`, start indices `[N, 2]` and result
    `[C, N]`; their conditions `wf` are decided on a program's literal shapes. -/
abbrev pointDims (C H W N : Nat)
    (wf : GatherDims.WF ⟨3, ![C, H, W]⟩ ⟨2, ![N, 2]⟩ ⟨2, ![C, N]⟩ [0] [1, 2] [] [1, 2] [] 1 ![C, 1, 1]) :
    GatherDims ⟨3, ![C, H, W]⟩ ⟨2, ![N, 2]⟩ ⟨2, ![C, N]⟩ where
  offsetDims := [0]
  collapsedSliceDims := [1, 2]
  operandBatchingDims := []
  startIndicesBatchingDims := []
  startIndexMap := [1, 2]
  indexVectorDim := 1
  sliceSizes := ![C, 1, 1]
  wf := wf

/-- The start-indices index `[v, k]` holding component `k` of point `v`. -/
abbrev pointIdx {C N : Nat} (y : (⟨2, ![C, N]⟩ : Shape).Idx) (k : Fin 2) : (⟨2, ![N, 2]⟩ : Shape).Idx :=
  ix2 ⟨(y 1).val, idx2_lt1 y⟩ k

/-- THE GATHER READ AT `(ch, v)`: the operand at channel `ch` and at point `v`'s two coordinates, each read signed
    and clamped into its axis. -/
theorem gather_points_apply {C H W N w : Nat} (hH : 0 < H) (hW : 0 < W)
    (wf : GatherDims.WF ⟨3, ![C, H, W]⟩ ⟨2, ![N, 2]⟩ ⟨2, ![C, N]⟩ [0] [1, 2] [] [1, 2] [] 1 ![C, 1, 1])
    (x : (⟨3, ![C, H, W]⟩ : Shape).Idx → α) (idx : IVec ⟨2, ![N, 2]⟩ w) (y : (⟨2, ![C, N]⟩ : Shape).Idx) :
    Host.gather (pointDims C H W N wf) x idx y
      = x (ix3 ⟨(y 0).val, idx2_lt0 y⟩
            ⟨min (idx (pointIdx y 0)).toInt.toNat (H - 1), by omega⟩
            ⟨min (idx (pointIdx y 1)).toInt.toNat (W - 1), by omega⟩) := by
  unfold Host.gather
  congr 1
  funext a
  refine Fin.ext ?_
  show (pointDims C H W N wf).start y idx a + (pointDims C H W N wf).batchCoord y a + (pointDims C H W N wf).offCoord y a = _
  rw [GatherDims.batchCoord_eq_zero _ _ _ List.not_mem_nil]
  have m0 : (0 : Fin 3) ∉ ([1, 2] : List (Fin 3)) := by decide
  have m1 : (1 : Fin 3) ∈ ([1, 2] : List (Fin 3)) := by decide
  have m2 : (2 : Fin 3) ∈ ([1, 2] : List (Fin 3)) := by decide
  match a with
  | ⟨0, _⟩ =>
    show (pointDims C H W N wf).start y idx (0 : Fin 3) + 0 + (pointDims C H W N wf).offCoord y (0 : Fin 3) = (y 0).val
    have hs : (pointDims C H W N wf).start y idx (0 : Fin 3) = 0 := by
      unfold GatherDims.start
      rw [dif_neg m0]
    rw [hs]
    unfold GatherDims.offCoord
    rw [dif_pos (show (0 : Fin 3) ∈ (pointDims C H W N wf).sKept from
      (GatherDims.mem_sKept _ _).mpr ⟨m0, List.not_mem_nil⟩)]
    simp only [Nat.zero_add]
    rfl
  | ⟨1, _⟩ =>
    show (pointDims C H W N wf).start y idx (1 : Fin 3) + 0 + (pointDims C H W N wf).offCoord y (1 : Fin 3)
      = min (idx (pointIdx y 0)).toInt.toNat (H - 1)
    rw [GatherDims.offCoord_eq_zero _ _ _ (fun h => ((GatherDims.mem_sKept _ _).mp h).1 m1)]
    simp only [Nat.add_zero]
    unfold GatherDims.start
    rw [dif_pos (show (1 : Fin 3) ∈ (pointDims C H W N wf).startIndexMap from m1)]
    have hsi : (pointDims C H W N wf).siIdx y ⟨List.idxOf (1 : Fin 3) (pointDims C H W N wf).startIndexMap,
        List.idxOf_lt_length_iff.2 m1⟩ = pointIdx y 0 := by
      funext b; refine Fin.ext ?_
      match b with
      | ⟨0, _⟩ => rfl
      | ⟨1, _⟩ => rfl
    rw [hsi]
    rfl
  | ⟨2, _⟩ =>
    show (pointDims C H W N wf).start y idx (2 : Fin 3) + 0 + (pointDims C H W N wf).offCoord y (2 : Fin 3)
      = min (idx (pointIdx y 1)).toInt.toNat (W - 1)
    rw [GatherDims.offCoord_eq_zero _ _ _ (fun h => ((GatherDims.mem_sKept _ _).mp h).1 m2)]
    simp only [Nat.add_zero]
    unfold GatherDims.start
    rw [dif_pos (show (2 : Fin 3) ∈ (pointDims C H W N wf).startIndexMap from m2)]
    have hsi : (pointDims C H W N wf).siIdx y ⟨List.idxOf (2 : Fin 3) (pointDims C H W N wf).startIndexMap,
        List.idxOf_lt_length_iff.2 m2⟩ = pointIdx y 1 := by
      funext b; refine Fin.ext ?_
      match b with
      | ⟨0, _⟩ => rfl
      | ⟨1, _⟩ => rfl
    rw [hsi]
    rfl

end Cert.LibGatherPoints
-- ==== Proof.Ref.Corner.lean ====
/-
  One corner of a bilinear lookup, read at a vertex and a channel.

  The reference reads a feature map `A : [C, s, s]` at the integer point `(x v, y v)` of every vertex `v`: each
  coordinate vector first goes through the negative-index wrap `if x < 0 then x + s else x`, the two wrapped vectors
  are made columns and laid side by side as an `[N, 2]` array of points, the map is gathered at those points
  (`[C, N]`) and the result transposed (`[N, C]`).  For a coordinate that is not negative the wrap is the identity,
  and for a point inside the map the gather's clamp is the identity: the result at `(v, ch)` is `A ch (x v) (y v)`.
-/
import proofs.«120270_j2259152797813_2_alg».proof.Proof.LibGatherPoints
import Idealize.ShloMosaic.Lib.ValueIdx
import Idealize.ShloMosaic.Lib.Pipeline.Value
import Idealize.ShloMosaic.Lib.IdealHost

noncomputable section

namespace Cert.ReferenceIdeal.HandRead

open Idealize.ShloMosaic Idealize.ShloMosaic.ValueIdx Cert.LibGatherPoints

/-- The negative-index wrap at a coordinate that is not negative is the coordinate: `zv` is the vector it is
    compared with, zero at the index. -/
theorem wrap_apply {S : Shape} (xa zv sv : IVec S 32) (i : S.Idx) (hz : zv i = 0#32) (h : 0 ≤ (xa i).toInt) :
    select (cmpi .slt xa zv) (addi xa sv) xa i = xa i := by
  rw [select_apply]
  have hc : cmpi .slt xa zv i = 0#1 := by
    show IntOp.cmpi .slt (xa i) (zv i) = 0#1
    rw [hz]
    have : (xa i).slt 0#32 = false := by
      simp only [BitVec.slt, BitVec.toInt_zero, decide_eq_false_iff_not, not_lt]
      exact h
    simp only [IntOp.cmpi, this]
    rfl
  rw [hc]
  exact select_zero _ _

/-- A scalar word broadcast to a vector reads the word. -/
theorem splat_apply {T : Shape} (h : (⟨0, ![]⟩ : Shape).BroadcastsInDim T ![]) (b : BitVec 32) (i : T.Idx) :
    broadcastInDim T ![] h (constantI ⟨0, ![]⟩ 32 b) i = b :=
  broadcastInDim_scalar_apply h _ i

/-- A vector made a column reads the vector. -/
theorem column_apply {α : Type} {N : Nat} (hb : (⟨1, ![N]⟩ : Shape).BroadcastsInDim ⟨2, ![N, 1]⟩ ![0])
    (x : (⟨1, ![N]⟩ : Shape).Idx → α) (v : Fin N) (z : Fin 1) :
    broadcastInDim ⟨2, ![N, 1]⟩ ![0] hb x (ix2 v z) = x (ix1 v) :=
  broadcastInDim_apply ![0] hb x (ix2 v z) (ix1 v) (fun a => by
    match a with
    | ⟨0, _⟩ =>
      show v.val = if N = 1 then 0 else v.val
      split
      · have := v.isLt; omega
      · rfl)

/-- A column broadcast along the channels reads the column. -/
theorem column_bcast_apply {α : Type} {N C : Nat} (hC : C ≠ 1) (hb : (⟨2, ![N, 1]⟩ : Shape).BroadcastsInDim ⟨2, ![N, C]⟩ ![0, 1])
    (x : (⟨2, ![N, 1]⟩ : Shape).Idx → α) (v : Fin N) (ch : Fin C) :
    broadcastInDim ⟨2, ![N, C]⟩ ![0, 1] hb x (ix2 v ch) = x (ix2 v 0) :=
  broadcastInDim_apply ![0, 1] hb x (ix2 v ch) (ix2 v 0) (fun a => by
    match a with
    | ⟨0, _⟩ =>
      show v.val = if N = 1 then 0 else v.val
      split
      · have := v.isLt; omega
      · rfl
    | ⟨1, _⟩ => rfl)

/-- THE CORNER: the map gathered at the points `(xw v, yw v)` and transposed, read at vertex `v` and channel `ch`,
    for a point inside the map (`a`, `b` its coordinates). -/
theorem gathered_apply {α : Type} {C s N : Nat} (hs : 0 < s)
    (wf : GatherDims.WF ⟨3, ![C, s, s]⟩ ⟨2, ![N, 2]⟩ ⟨2, ![C, N]⟩ [0] [1, 2] [] [1, 2] [] 1 ![C, 1, 1])
    (hT : (⟨2, ![C, N]⟩ : Shape).Transposes [1, 0] ⟨2, ![N, C]⟩)
    (hcat : Shape.Concatenates [(⟨2, ![N, 1]⟩ : Shape), ⟨2, ![N, 1]⟩] ⟨2, ![N, 2]⟩ 1)
    (hb : (⟨1, ![N]⟩ : Shape).BroadcastsInDim ⟨2, ![N, 1]⟩ ![0])
    (A : (⟨3, ![C, s, s]⟩ : Shape).Idx → α) (xw yw : IVec ⟨1, ![N]⟩ 32) (v : Fin N) (ch : Fin C) (a b : Fin s)
    (ha : (xw (ix1 v)).toInt = a.val) (hb' : (yw (ix1 v)).toInt = b.val) :
    transpose ⟨2, ![N, C]⟩ [1, 0]
      (Host.gather (pointDims C s s N wf) A
        (concatenate ⟨2, ![N, 2]⟩ 1
          [⟨⟨2, ![N, 1]⟩, broadcastInDim ⟨2, ![N, 1]⟩ ![0] hb xw⟩, ⟨⟨2, ![N, 1]⟩, broadcastInDim ⟨2, ![N, 1]⟩ ![0] hb yw⟩] hcat))
      hT (ix2 v ch) = A (ix3 ch a b) := by
  rw [transpose_apply [1, 0] _ hT (ix2 v ch) (ix2 ch v) (fun d => by
    match d with
    | ⟨0, _⟩ => rfl
    | ⟨1, _⟩ => rfl)]
  rw [gather_points_apply hs hs wf]
  have e0 : concatenate ⟨2, ![N, 2]⟩ 1
      [⟨⟨2, ![N, 1]⟩, broadcastInDim ⟨2, ![N, 1]⟩ ![0] hb xw⟩, ⟨⟨2, ![N, 1]⟩, broadcastInDim ⟨2, ![N, 1]⟩ ![0] hb yw⟩] hcat
      (pointIdx (ix2 ch v) 0) = xw (ix1 v) := by
    rw [concatenate_pair_apply_left (t := ⟨2, ![N, 2]⟩) (s₁ := ⟨2, ![N, 1]⟩) (s₂ := ⟨2, ![N, 1]⟩) (1 : Fin 2) _ _ hcat (pointIdx (ix2 ch v) 0) rfl (ix2 v 0) (fun d => by
      match d with
      | ⟨0, _⟩ => rfl
      | ⟨1, _⟩ => rfl)]
    exact column_apply hb xw v 0
  have e1 : concatenate ⟨2, ![N, 2]⟩ 1
      [⟨⟨2, ![N, 1]⟩, broadcastInDim ⟨2, ![N, 1]⟩ ![0] hb xw⟩, ⟨⟨2, ![N, 1]⟩, broadcastInDim ⟨2, ![N, 1]⟩ ![0] hb yw⟩] hcat
      (pointIdx (ix2 ch v) 1) = yw (ix1 v) := by
    rw [concatenate_pair_apply_right (t := ⟨2, ![N, 2]⟩) (s₁ := ⟨2, ![N, 1]⟩) (s₂ := ⟨2, ![N, 1]⟩) (1 : Fin 2) _ _ hcat (pointIdx (ix2 ch v) 1) rfl rfl (ix2 v 0) (fun d hd => by
      match d with
      | ⟨0, _⟩ => rfl
      | ⟨1, _⟩ => exact absurd rfl hd) rfl]
    exact column_apply hb yw v 0
  congr 1
  funext d
  match d with
  | ⟨0, _⟩ => rfl
  | ⟨1, _⟩ =>
    refine Fin.ext ?_
    show min _ (s - 1) = a.val
    rw [e0, ha]
    have := a.isLt
    simp only [Int.toNat_natCast]
    omega
  | ⟨2, _⟩ =>
    refine Fin.ext ?_
    show min _ (s - 1) = b.val
    rw [e1, hb']
    have := b.isLt
    simp only [Int.toNat_natCast]
    omega

end Cert.ReferenceIdeal.HandRead

end
-- ==== Proof.Ref.Map0.lean ====
/-
  One feature map's aligned block, read at a vertex and a channel.

  For each of the four corners `(x1, y1)`, `(x1, y2)`, `(x2, y1)`, `(x2, y2)` the reference looks the map up at the
  vertex's corner point (the coordinates through the negative-index wrap, the points gathered, the result
  transposed), scales the lookup by the corner's weight broadcast along the channels, and adds the four products.
  With the corner coordinates inside the map, the block at `(v, ch)` is the weighted sum of the map's values at
  channel `ch` and the four corner points.
-/
import proofs.«120270_j2259152797813_2_alg».proof.Proof.Ref.Proj
import proofs.«120270_j2259152797813_2_alg».proof.Proof.Ref.Corner

set_option maxRecDepth 8192

noncomputable section

namespace Cert.ReferenceIdeal.HandRead

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open scoped BigOperators

variable (m' : (ℓ : Loc nD τ sig) → Buf (Elt Ideal) ℓ) (c : Dev nD)

/-- A map `[1, C, s, s]` viewed `[C, s, s]` reads `(ch, a, b)` at `(0, ch, a, b)`. -/
private theorem dropUnit_apply {α : Type} {C s : Nat} (A : (⟨4, ![1, C, s, s]⟩ : Shape).Idx → α)
    (h : (⟨4, ![1, C, s, s]⟩ : Shape).ShapeCasts ⟨3, ![C, s, s]⟩) (ch : Fin C) (a b : Fin s) :
    shapeCast ⟨3, ![C, s, s]⟩ A h (ix3 ch a b) = A (ix4 0 ch a b) :=
  shapeCast_apply A h (ix3 ch a b) (ix4 0 ch a b) (by
    rw [Shape.rowMajor_val_four, Shape.rowMajor_val_three]
    show ((0 * C + ch.val) * s + a.val) * s + b.val = (ch.val * s + a.val) * s + b.val
    simp)

set_option maxHeartbeats 1000000 in
/-- The feature map with its leading unit axis dropped. -/
theorem R_map0 : (R m' c main_v0 : (⟨S256x56x56, .f32⟩ : BufTy).Contents (Elt Ideal))
    = (shapeCast S256x56x56 (R m' c main_arg0 : (⟨S1x256x56x56, .f32⟩ : BufTy).Contents (Elt Ideal)) shapeCasts_S1x256x56x56_S256x56x56 : (⟨S256x56x56, .f32⟩ : BufTy).Contents (Elt Ideal)) := by
  rw [R_W1 m' c main_v0 (by decide) (by decide) (by decide) (by decide) (by decide) (by decide) (by decide) (by decide) (by decide),
    R_W0 m' c main_arg0 (by decide) (by decide) (by decide) (by decide) (by decide) (by decide) (by decide) (by decide) (by decide) (by decide)]
  show (after ops_part0 (W0 m' c) (Proc.devRef .tc main_v0) : (⟨S256x56x56, .f32⟩ : BufTy).Contents (Elt Ideal))
    = (shapeCast S256x56x56 (W0 m' c (Proc.devRef .tc main_arg0) : (⟨S1x256x56x56, .f32⟩ : BufTy).Contents (Elt Ideal)) shapeCasts_S1x256x56x56_S256x56x56 : (⟨S256x56x56, .f32⟩ : BufTy).Contents (Elt Ideal))
  generalize W0 m' c = X
  after_results_simp <;> rfl

set_option maxHeartbeats 1000000 in
/-- The weight vector made a column. -/
theorem R_col_v45 : (R m' c main_v45 : (⟨S8192x1, .f32⟩ : BufTy).Contents (Elt Ideal))
    = (broadcastInDim S8192x1 ![0] bcast_S8192_S8192x1_0 (R m' c main_v44 : (⟨S8192, .f32⟩ : BufTy).Contents (Elt Ideal)) : (⟨S8192x1, .f32⟩ : BufTy).Contents (Elt Ideal)) := by
  rw [R_W1 m' c main_v45 (by decide) (by decide) (by decide) (by decide) (by decide) (by decide) (by decide) (by decide) (by decide),
    R_W1 m' c main_v44 (by decide) (by decide) (by decide) (by decide) (by decide) (by decide) (by decide) (by decide) (by decide)]
  show (after ops_part0 (W0 m' c) (Proc.devRef .tc main_v45) : (⟨S8192x1, .f32⟩ : BufTy).Contents (Elt Ideal))
    = (broadcastInDim S8192x1 ![0] bcast_S8192_S8192x1_0 (after ops_part0 (W0 m' c) (Proc.devRef .tc main_v44) : (⟨S8192, .f32⟩ : BufTy).Contents (Elt Ideal)) : (⟨S8192x1, .f32⟩ : BufTy).Contents (Elt Ideal))
  generalize W0 m' c = X
  after_results_simp <;> rfl

set_option maxHeartbeats 1000000 in
/-- The weight vector made a column. -/
theorem R_col_v50 : (R m' c main_v50 : (⟨S8192x1, .f32⟩ : BufTy).Contents (Elt Ideal))
    = (broadcastInDim S8192x1 ![0] bcast_S8192_S8192x1_0 (R m' c main_v49 : (⟨S8192, .f32⟩ : BufTy).Contents (Elt Ideal)) : (⟨S8192x1, .f32⟩ : BufTy).Contents (Elt Ideal)) := by
  rw [R_W2 m' c main_v50 (by decide) (by decide) (by decide) (by decide) (by decide) (by decide) (by decide) (by decide),
    R_W2 m' c main_v49 (by decide) (by decide) (by decide) (by decide) (by decide) (by decide) (by decide) (by decide)]
  show (after ops_part1 (W1 m' c) (Proc.devRef .tc main_v50) : (⟨S8192x1, .f32⟩ : BufTy).Contents (Elt Ideal))
    = (broadcastInDim S8192x1 ![0] bcast_S8192_S8192x1_0 (after ops_part1 (W1 m' c) (Proc.devRef .tc main_v49) : (⟨S8192, .f32⟩ : BufTy).Contents (Elt Ideal)) : (⟨S8192x1, .f32⟩ : BufTy).Contents (Elt Ideal))
  generalize W1 m' c = X
  after_results_simp <;> rfl

set_option maxHeartbeats 1000000 in
/-- The weight vector made a column. -/
theorem R_col_v55 : (R m' c main_v55 : (⟨S8192x1, .f32⟩ : BufTy).Contents (Elt Ideal))
    = (broadcastInDim S8192x1 ![0] bcast_S8192_S8192x1_0 (R m' c main_v54 : (⟨S8192, .f32⟩ : BufTy).Contents (Elt Ideal)) : (⟨S8192x1, .f32⟩ : BufTy).Contents (Elt Ideal)) := by
  rw [R_W2 m' c main_v55 (by decide) (by decide) (by decide) (by decide) (by decide) (by decide) (by decide) (by decide),
    R_W2 m' c main_v54 (by decide) (by decide) (by decide) (by decide) (by decide) (by decide) (by decide) (by decide)]
  show (after ops_part1 (W1 m' c) (Proc.devRef .tc main_v55) : (⟨S8192x1, .f32⟩ : BufTy).Contents (Elt Ideal))
    = (broadcastInDim S8192x1 ![0] bcast_S8192_S8192x1_0 (after ops_part1 (W1 m' c) (Proc.devRef .tc main_v54) : (⟨S8192, .f32⟩ : BufTy).Contents (Elt Ideal)) : (⟨S8192x1, .f32⟩ : BufTy).Contents (Elt Ideal))
  generalize W1 m' c = X
  after_results_simp <;> rfl

set_option maxHeartbeats 1000000 in
/-- The weight vector made a column. -/
theorem R_col_v60 : (R m' c main_v60 : (⟨S8192x1, .f32⟩ : BufTy).Contents (Elt Ideal))
    = (broadcastInDim S8192x1 ![0] bcast_S8192_S8192x1_0 (R m' c main_v59 : (⟨S8192, .f32⟩ : BufTy).Contents (Elt Ideal)) : (⟨S8192x1, .f32⟩ : BufTy).Contents (Elt Ideal)) := by
  rw [R_W2 m' c main_v60 (by decide) (by decide) (by decide) (by decide) (by decide) (by decide) (by decide) (by decide),
    R_W2 m' c main_v59 (by decide) (by decide) (by decide) (by decide) (by decide) (by decide) (by decide) (by decide)]
  show (after ops_part1 (W1 m' c) (Proc.devRef .tc main_v60) : (⟨S8192x1, .f32⟩ : BufTy).Contents (Elt Ideal))
    = (broadcastInDim S8192x1 ![0] bcast_S8192_S8192x1_0 (after ops_part1 (W1 m' c) (Proc.devRef .tc main_v59) : (⟨S8192, .f32⟩ : BufTy).Contents (Elt Ideal)) : (⟨S8192x1, .f32⟩ : BufTy).Contents (Elt Ideal))
  generalize W1 m' c = X
  after_results_simp <;> rfl

set_option maxHeartbeats 1000000 in
/-- The coordinate after the negative-index wrap. -/
theorem R_sel_v65 : (R m' c main_v65 : (⟨S8192, .i32⟩ : BufTy).Contents (Elt Ideal))
    = (select (cmpi .slt (R m' c main_v28 : (⟨S8192, .i32⟩ : BufTy).Contents (Elt Ideal)) (broadcastInDim S8192 ![] bcast_S_S8192 (constantI S_ 32 0#32) : (⟨S8192, .i32⟩ : BufTy).Contents (Elt Ideal))) (addi (R m' c main_v28 : (⟨S8192, .i32⟩ : BufTy).Contents (Elt Ideal)) (broadcastInDim S8192 ![] bcast_S_S8192 (constantI S_ 32 56#32) : (⟨S8192, .i32⟩ : BufTy).Contents (Elt Ideal))) (R m' c main_v28 : (⟨S8192, .i32⟩ : BufTy).Contents (Elt Ideal)) : (⟨S8192, .i32⟩ : BufTy).Contents (Elt Ideal)) := by
  rw [R_W2 m' c main_v65 (by decide) (by decide) (by decide) (by decide) (by decide) (by decide) (by decide) (by decide),
    R_W1 m' c main_v28 (by decide) (by decide) (by decide) (by decide) (by decide) (by decide) (by decide) (by decide) (by decide)]
  show (after ops_part1 (W1 m' c) (Proc.devRef .tc main_v65) : (⟨S8192, .i32⟩ : BufTy).Contents (Elt Ideal))
    = (select (cmpi .slt (W1 m' c (Proc.devRef .tc main_v28) : (⟨S8192, .i32⟩ : BufTy).Contents (Elt Ideal)) (broadcastInDim S8192 ![] bcast_S_S8192 (constantI S_ 32 0#32) : (⟨S8192, .i32⟩ : BufTy).Contents (Elt Ideal))) (addi (W1 m' c (Proc.devRef .tc main_v28) : (⟨S8192, .i32⟩ : BufTy).Contents (Elt Ideal)) (broadcastInDim S8192 ![] bcast_S_S8192 (constantI S_ 32 56#32) : (⟨S8192, .i32⟩ : BufTy).Contents (Elt Ideal))) (W1 m' c (Proc.devRef .tc main_v28) : (⟨S8192, .i32⟩ : BufTy).Contents (Elt Ideal)) : (⟨S8192, .i32⟩ : BufTy).Contents (Elt Ideal))
  generalize W1 m' c = X
  after_results_simp <;> rfl

set_option maxHeartbeats 1000000 in
/-- The coordinate after the negative-index wrap. -/
theorem R_sel_v70 : (R m' c main_v70 : (⟨S8192, .i32⟩ : BufTy).Contents (Elt Ideal))
    = (select (cmpi .slt (R m' c main_v34 : (⟨S8192, .i32⟩ : BufTy).Contents (Elt Ideal)) (broadcastInDim S8192 ![] bcast_S_S8192 (constantI S_ 32 0#32) : (⟨S8192, .i32⟩ : BufTy).Contents (Elt Ideal))) (addi (R m' c main_v34 : (⟨S8192, .i32⟩ : BufTy).Contents (Elt Ideal)) (broadcastInDim S8192 ![] bcast_S_S8192 (constantI S_ 32 56#32) : (⟨S8192, .i32⟩ : BufTy).Contents (Elt Ideal))) (R m' c main_v34 : (⟨S8192, .i32⟩ : BufTy).Contents (Elt Ideal)) : (⟨S8192, .i32⟩ : BufTy).Contents (Elt Ideal)) := by
  rw [R_W2 m' c main_v70 (by decide) (by decide) (by decide) (by decide) (by decide) (by decide) (by decide) (by decide),
    R_W1 m' c main_v34 (by decide) (by decide) (by decide) (by decide) (by decide) (by decide) (by decide) (by decide) (by decide)]
  show (after ops_part1 (W1 m' c) (Proc.devRef .tc main_v70) : (⟨S8192, .i32⟩ : BufTy).Contents (Elt Ideal))
    = (select (cmpi .slt (W1 m' c (Proc.devRef .tc main_v34) : (⟨S8192, .i32⟩ : BufTy).Contents (Elt Ideal)) (broadcastInDim S8192 ![] bcast_S_S8192 (constantI S_ 32 0#32) : (⟨S8192, .i32⟩ : BufTy).Contents (Elt Ideal))) (addi (W1 m' c (Proc.devRef .tc main_v34) : (⟨S8192, .i32⟩ : BufTy).Contents (Elt Ideal)) (broadcastInDim S8192 ![] bcast_S_S8192 (constantI S_ 32 56#32) : (⟨S8192, .i32⟩ : BufTy).Contents (Elt Ideal))) (W1 m' c (Proc.devRef .tc main_v34) : (⟨S8192, .i32⟩ : BufTy).Contents (Elt Ideal)) : (⟨S8192, .i32⟩ : BufTy).Contents (Elt Ideal))
  generalize W1 m' c = X
  after_results_simp <;> rfl

set_option maxHeartbeats 1000000 in
/-- One corner's lookup: the map gathered at the wrapped points and transposed. -/
theorem R_tr_v75 : (R m' c main_v75 : (⟨S8192x256, .f32⟩ : BufTy).Contents (Elt Ideal))
    = (transpose S8192x256 [1, 0] (Host.gather gather_S256x56x56_S8192x2_S256x8192_0_12_n_n_12_1_25611 (R m' c main_v0 : (⟨S256x56x56, .f32⟩ : BufTy).Contents (Elt Ideal)) (concatenate S8192x2 1 [⟨S8192x1, broadcastInDim S8192x1 ![0] bcast_S8192_S8192x1_0 (R m' c main_v65 : (⟨S8192, .i32⟩ : BufTy).Contents (Elt Ideal))⟩, ⟨S8192x1, broadcastInDim S8192x1 ![0] bcast_S8192_S8192x1_0 (R m' c main_v70 : (⟨S8192, .i32⟩ : BufTy).Contents (Elt Ideal))⟩] concatenates_S8192x1_S8192x1_S8192x2_d1)) transposes_S256x8192_S8192x256_1_0 : (⟨S8192x256, .f32⟩ : BufTy).Contents (Elt Ideal)) := by
  rw [R_W2 m' c main_v75 (by decide) (by decide) (by decide) (by decide) (by decide) (by decide) (by decide) (by decide),
    R_W1 m' c main_v0 (by decide) (by decide) (by decide) (by decide) (by decide) (by decide) (by decide) (by decide) (by decide),
    R_W2 m' c main_v65 (by decide) (by decide) (by decide) (by decide) (by decide) (by decide) (by decide) (by decide),
    R_W2 m' c main_v70 (by decide) (by decide) (by decide) (by decide) (by decide) (by decide) (by decide) (by decide)]
  show (after ops_part1 (W1 m' c) (Proc.devRef .tc main_v75) : (⟨S8192x256, .f32⟩ : BufTy).Contents (Elt Ideal))
    = (transpose S8192x256 [1, 0] (Host.gather gather_S256x56x56_S8192x2_S256x8192_0_12_n_n_12_1_25611 (W1 m' c (Proc.devRef .tc main_v0) : (⟨S256x56x56, .f32⟩ : BufTy).Contents (Elt Ideal)) (concatenate S8192x2 1 [⟨S8192x1, broadcastInDim S8192x1 ![0] bcast_S8192_S8192x1_0 (after ops_part1 (W1 m' c) (Proc.devRef .tc main_v65) : (⟨S8192, .i32⟩ : BufTy).Contents (Elt Ideal))⟩, ⟨S8192x1, broadcastInDim S8192x1 ![0] bcast_S8192_S8192x1_0 (after ops_part1 (W1 m' c) (Proc.devRef .tc main_v70) : (⟨S8192, .i32⟩ : BufTy).Contents (Elt Ideal))⟩] concatenates_S8192x1_S8192x1_S8192x2_d1)) transposes_S256x8192_S8192x256_1_0 : (⟨S8192x256, .f32⟩ : BufTy).Contents (Elt Ideal))
  generalize W1 m' c = X
  after_results_simp <;> rfl

set_option maxHeartbeats 1000000 in
/-- The coordinate after the negative-index wrap. -/
theorem R_sel_v80 : (R m' c main_v80 : (⟨S8192, .i32⟩ : BufTy).Contents (Elt Ideal))
    = (select (cmpi .slt (R m' c main_v28 : (⟨S8192, .i32⟩ : BufTy).Contents (Elt Ideal)) (broadcastInDim S8192 ![] bcast_S_S8192 (constantI S_ 32 0#32) : (⟨S8192, .i32⟩ : BufTy).Contents (Elt Ideal))) (addi (R m' c main_v28 : (⟨S8192, .i32⟩ : BufTy).Contents (Elt Ideal)) (broadcastInDim S8192 ![] bcast_S_S8192 (constantI S_ 32 56#32) : (⟨S8192, .i32⟩ : BufTy).Contents (Elt Ideal))) (R m' c main_v28 : (⟨S8192, .i32⟩ : BufTy).Contents (Elt Ideal)) : (⟨S8192, .i32⟩ : BufTy).Contents (Elt Ideal)) := by
  rw [R_W2 m' c main_v80 (by decide) (by decide) (by decide) (by decide) (by decide) (by decide) (by decide) (by decide),
    R_W1 m' c main_v28 (by decide) (by decide) (by decide) (by decide) (by decide) (by decide) (by decide) (by decide) (by decide)]
  show (after ops_part1 (W1 m' c) (Proc.devRef .tc main_v80) : (⟨S8192, .i32⟩ : BufTy).Contents (Elt Ideal))
    = (select (cmpi .slt (W1 m' c (Proc.devRef .tc main_v28) : (⟨S8192, .i32⟩ : BufTy).Contents (Elt Ideal)) (broadcastInDim S8192 ![] bcast_S_S8192 (constantI S_ 32 0#32) : (⟨S8192, .i32⟩ : BufTy).Contents (Elt Ideal))) (addi (W1 m' c (Proc.devRef .tc main_v28) : (⟨S8192, .i32⟩ : BufTy).Contents (Elt Ideal)) (broadcastInDim S8192 ![] bcast_S_S8192 (constantI S_ 32 56#32) : (⟨S8192, .i32⟩ : BufTy).Contents (Elt Ideal))) (W1 m' c (Proc.devRef .tc main_v28) : (⟨S8192, .i32⟩ : BufTy).Contents (Elt Ideal)) : (⟨S8192, .i32⟩ : BufTy).Contents (Elt Ideal))
  generalize W1 m' c = X
  after_results_simp <;> rfl

set_option maxHeartbeats 1000000 in
/-- The coordinate after the negative-index wrap. -/
theorem R_sel_v85 : (R m' c main_v85 : (⟨S8192, .i32⟩ : BufTy).Contents (Elt Ideal))
    = (select (cmpi .slt (R m' c main_v38 : (⟨S8192, .i32⟩ : BufTy).Contents (Elt Ideal)) (broadcastInDim S8192 ![] bcast_S_S8192 (constantI S_ 32 0#32) : (⟨S8192, .i32⟩ : BufTy).Contents (Elt Ideal))) (addi (R m' c main_v38 : (⟨S8192, .i32⟩ : BufTy).Contents (Elt Ideal)) (broadcastInDim S8192 ![] bcast_S_S8192 (constantI S_ 32 56#32) : (⟨S8192, .i32⟩ : BufTy).Contents (Elt Ideal))) (R m' c main_v38 : (⟨S8192, .i32⟩ : BufTy).Contents (Elt Ideal)) : (⟨S8192, .i32⟩ : BufTy).Contents (Elt Ideal)) := by
  rw [R_W2 m' c main_v85 (by decide) (by decide) (by decide) (by decide) (by decide) (by decide) (by decide) (by decide),
    R_W1 m' c main_v38 (by decide) (by decide) (by decide) (by decide) (by decide) (by decide) (by decide) (by decide) (by decide)]
  show (after ops_part1 (W1 m' c) (Proc.devRef .tc main_v85) : (⟨S8192, .i32⟩ : BufTy).Contents (Elt Ideal))
    = (select (cmpi .slt (W1 m' c (Proc.devRef .tc main_v38) : (⟨S8192, .i32⟩ : BufTy).Contents (Elt Ideal)) (broadcastInDim S8192 ![] bcast_S_S8192 (constantI S_ 32 0#32) : (⟨S8192, .i32⟩ : BufTy).Contents (Elt Ideal))) (addi (W1 m' c (Proc.devRef .tc main_v38) : (⟨S8192, .i32⟩ : BufTy).Contents (Elt Ideal)) (broadcastInDim S8192 ![] bcast_S_S8192 (constantI S_ 32 56#32) : (⟨S8192, .i32⟩ : BufTy).Contents (Elt Ideal))) (W1 m' c (Proc.devRef .tc main_v38) : (⟨S8192, .i32⟩ : BufTy).Contents (Elt Ideal)) : (⟨S8192, .i32⟩ : BufTy).Contents (Elt Ideal))
  generalize W1 m' c = X
  after_results_simp <;> rfl

set_option maxHeartbeats 1000000 in
/-- One corner's lookup: the map gathered at the wrapped points and transposed. -/
theorem R_tr_v90 : (R m' c main_v90 : (⟨S8192x256, .f32⟩ : BufTy).Contents (Elt Ideal))
    = (transpose S8192x256 [1, 0] (Host.gather gather_S256x56x56_S8192x2_S256x8192_0_12_n_n_12_1_25611 (R m' c main_v0 : (⟨S256x56x56, .f32⟩ : BufTy).Contents (Elt Ideal)) (concatenate S8192x2 1 [⟨S8192x1, broadcastInDim S8192x1 ![0] bcast_S8192_S8192x1_0 (R m' c main_v80 : (⟨S8192, .i32⟩ : BufTy).Contents (Elt Ideal))⟩, ⟨S8192x1, broadcastInDim S8192x1 ![0] bcast_S8192_S8192x1_0 (R m' c main_v85 : (⟨S8192, .i32⟩ : BufTy).Contents (Elt Ideal))⟩] concatenates_S8192x1_S8192x1_S8192x2_d1)) transposes_S256x8192_S8192x256_1_0 : (⟨S8192x256, .f32⟩ : BufTy).Contents (Elt Ideal)) := by
  rw [R_W2 m' c main_v90 (by decide) (by decide) (by decide) (by decide) (by decide) (by decide) (by decide) (by decide),
    R_W1 m' c main_v0 (by decide) (by decide) (by decide) (by decide) (by decide) (by decide) (by decide) (by decide) (by decide),
    R_W2 m' c main_v80 (by decide) (by decide) (by decide) (by decide) (by decide) (by decide) (by decide) (by decide),
    R_W2 m' c main_v85 (by decide) (by decide) (by decide) (by decide) (by decide) (by decide) (by decide) (by decide)]
  show (after ops_part1 (W1 m' c) (Proc.devRef .tc main_v90) : (⟨S8192x256, .f32⟩ : BufTy).Contents (Elt Ideal))
    = (transpose S8192x256 [1, 0] (Host.gather gather_S256x56x56_S8192x2_S256x8192_0_12_n_n_12_1_25611 (W1 m' c (Proc.devRef .tc main_v0) : (⟨S256x56x56, .f32⟩ : BufTy).Contents (Elt Ideal)) (concatenate S8192x2 1 [⟨S8192x1, broadcastInDim S8192x1 ![0] bcast_S8192_S8192x1_0 (after ops_part1 (W1 m' c) (Proc.devRef .tc main_v80) : (⟨S8192, .i32⟩ : BufTy).Contents (Elt Ideal))⟩, ⟨S8192x1, broadcastInDim S8192x1 ![0] bcast_S8192_S8192x1_0 (after ops_part1 (W1 m' c) (Proc.devRef .tc main_v85) : (⟨S8192, .i32⟩ : BufTy).Contents (Elt Ideal))⟩] concatenates_S8192x1_S8192x1_S8192x2_d1)) transposes_S256x8192_S8192x256_1_0 : (⟨S8192x256, .f32⟩ : BufTy).Contents (Elt Ideal))
  generalize W1 m' c = X
  after_results_simp <;> rfl

set_option maxHeartbeats 1000000 in
/-- The coordinate after the negative-index wrap. -/
theorem R_sel_v95 : (R m' c main_v95 : (⟨S8192, .i32⟩ : BufTy).Contents (Elt Ideal))
    = (select (cmpi .slt (R m' c main_v32 : (⟨S8192, .i32⟩ : BufTy).Contents (Elt Ideal)) (broadcastInDim S8192 ![] bcast_S_S8192 (constantI S_ 32 0#32) : (⟨S8192, .i32⟩ : BufTy).Contents (Elt Ideal))) (addi (R m' c main_v32 : (⟨S8192, .i32⟩ : BufTy).Contents (Elt Ideal)) (broadcastInDim S8192 ![] bcast_S_S8192 (constantI S_ 32 56#32) : (⟨S8192, .i32⟩ : BufTy).Contents (Elt Ideal))) (R m' c main_v32 : (⟨S8192, .i32⟩ : BufTy).Contents (Elt Ideal)) : (⟨S8192, .i32⟩ : BufTy).Contents (Elt Ideal)) := by
  rw [R_W2 m' c main_v95 (by decide) (by decide) (by decide) (by decide) (by decide) (by decide) (by decide) (by decide),
    R_W1 m' c main_v32 (by decide) (by decide) (by decide) (by decide) (by decide) (by decide) (by decide) (by decide) (by decide)]
  show (after ops_part1 (W1 m' c) (Proc.devRef .tc main_v95) : (⟨S8192, .i32⟩ : BufTy).Contents (Elt Ideal))
    = (select (cmpi .slt (W1 m' c (Proc.devRef .tc main_v32) : (⟨S8192, .i32⟩ : BufTy).Contents (Elt Ideal)) (broadcastInDim S8192 ![] bcast_S_S8192 (constantI S_ 32 0#32) : (⟨S8192, .i32⟩ : BufTy).Contents (Elt Ideal))) (addi (W1 m' c (Proc.devRef .tc main_v32) : (⟨S8192, .i32⟩ : BufTy).Contents (Elt Ideal)) (broadcastInDim S8192 ![] bcast_S_S8192 (constantI S_ 32 56#32) : (⟨S8192, .i32⟩ : BufTy).Contents (Elt Ideal))) (W1 m' c (Proc.devRef .tc main_v32) : (⟨S8192, .i32⟩ : BufTy).Contents (Elt Ideal)) : (⟨S8192, .i32⟩ : BufTy).Contents (Elt Ideal))
  generalize W1 m' c = X
  after_results_simp <;> rfl

set_option maxHeartbeats 1000000 in
/-- The zero word broadcast to a vector. -/
theorem R_zero_v96 : (R m' c main_v96 : (⟨S8192, .i32⟩ : BufTy).Contents (Elt Ideal))
    = ((broadcastInDim S8192 ![] bcast_S_S8192 (constantI S_ 32 0#32) : (⟨S8192, .i32⟩ : BufTy).Contents (Elt Ideal)) : (⟨S8192, .i32⟩ : BufTy).Contents (Elt Ideal)) := by
  rw [R_W2 m' c main_v96 (by decide) (by decide) (by decide) (by decide) (by decide) (by decide) (by decide) (by decide)]
  show (after ops_part1 (W1 m' c) (Proc.devRef .tc main_v96) : (⟨S8192, .i32⟩ : BufTy).Contents (Elt Ideal))
    = ((broadcastInDim S8192 ![] bcast_S_S8192 (constantI S_ 32 0#32) : (⟨S8192, .i32⟩ : BufTy).Contents (Elt Ideal)) : (⟨S8192, .i32⟩ : BufTy).Contents (Elt Ideal))
  generalize W1 m' c = X
  after_results_simp <;> rfl

set_option maxHeartbeats 1000000 in
/-- The coordinate after the negative-index wrap. -/
theorem R_sel_v100 : (R m' c main_v100 : (⟨S8192, .i32⟩ : BufTy).Contents (Elt Ideal))
    = (select (cmpi .slt (R m' c main_v34 : (⟨S8192, .i32⟩ : BufTy).Contents (Elt Ideal)) (R m' c main_v96 : (⟨S8192, .i32⟩ : BufTy).Contents (Elt Ideal))) (addi (R m' c main_v34 : (⟨S8192, .i32⟩ : BufTy).Contents (Elt Ideal)) (broadcastInDim S8192 ![] bcast_S_S8192 (constantI S_ 32 56#32) : (⟨S8192, .i32⟩ : BufTy).Contents (Elt Ideal))) (R m' c main_v34 : (⟨S8192, .i32⟩ : BufTy).Contents (Elt Ideal)) : (⟨S8192, .i32⟩ : BufTy).Contents (Elt Ideal)) := by
  rw [R_W3 m' c main_v100 (by decide) (by decide) (by decide) (by decide) (by decide) (by decide) (by decide),
    R_W2 m' c main_v34 (by decide) (by decide) (by decide) (by decide) (by decide) (by decide) (by decide) (by decide),
    R_W2 m' c main_v96 (by decide) (by decide) (by decide) (by decide) (by decide) (by decide) (by decide) (by decide)]
  show (after ops_part2 (W2 m' c) (Proc.devRef .tc main_v100) : (⟨S8192, .i32⟩ : BufTy).Contents (Elt Ideal))
    = (select (cmpi .slt (W2 m' c (Proc.devRef .tc main_v34) : (⟨S8192, .i32⟩ : BufTy).Contents (Elt Ideal)) (W2 m' c (Proc.devRef .tc main_v96) : (⟨S8192, .i32⟩ : BufTy).Contents (Elt Ideal))) (addi (W2 m' c (Proc.devRef .tc main_v34) : (⟨S8192, .i32⟩ : BufTy).Contents (Elt Ideal)) (broadcastInDim S8192 ![] bcast_S_S8192 (constantI S_ 32 56#32) : (⟨S8192, .i32⟩ : BufTy).Contents (Elt Ideal))) (W2 m' c (Proc.devRef .tc main_v34) : (⟨S8192, .i32⟩ : BufTy).Contents (Elt Ideal)) : (⟨S8192, .i32⟩ : BufTy).Contents (Elt Ideal))
  generalize W2 m' c = X
  after_results_simp <;> rfl

set_option maxHeartbeats 1000000 in
/-- One corner's lookup: the map gathered at the wrapped points and transposed. -/
theorem R_tr_v105 : (R m' c main_v105 : (⟨S8192x256, .f32⟩ : BufTy).Contents (Elt Ideal))
    = (transpose S8192x256 [1, 0] (Host.gather gather_S256x56x56_S8192x2_S256x8192_0_12_n_n_12_1_25611 (R m' c main_v0 : (⟨S256x56x56, .f32⟩ : BufTy).Contents (Elt Ideal)) (concatenate S8192x2 1 [⟨S8192x1, broadcastInDim S8192x1 ![0] bcast_S8192_S8192x1_0 (R m' c main_v95 : (⟨S8192, .i32⟩ : BufTy).Contents (Elt Ideal))⟩, ⟨S8192x1, broadcastInDim S8192x1 ![0] bcast_S8192_S8192x1_0 (R m' c main_v100 : (⟨S8192, .i32⟩ : BufTy).Contents (Elt Ideal))⟩] concatenates_S8192x1_S8192x1_S8192x2_d1)) transposes_S256x8192_S8192x256_1_0 : (⟨S8192x256, .f32⟩ : BufTy).Contents (Elt Ideal)) := by
  rw [R_W3 m' c main_v105 (by decide) (by decide) (by decide) (by decide) (by decide) (by decide) (by decide),
    R_W2 m' c main_v0 (by decide) (by decide) (by decide) (by decide) (by decide) (by decide) (by decide) (by decide),
    R_W2 m' c main_v95 (by decide) (by decide) (by decide) (by decide) (by decide) (by decide) (by decide) (by decide),
    R_W3 m' c main_v100 (by decide) (by decide) (by decide) (by decide) (by decide) (by decide) (by decide)]
  show (after ops_part2 (W2 m' c) (Proc.devRef .tc main_v105) : (⟨S8192x256, .f32⟩ : BufTy).Contents (Elt Ideal))
    = (transpose S8192x256 [1, 0] (Host.gather gather_S256x56x56_S8192x2_S256x8192_0_12_n_n_12_1_25611 (W2 m' c (Proc.devRef .tc main_v0) : (⟨S256x56x56, .f32⟩ : BufTy).Contents (Elt Ideal)) (concatenate S8192x2 1 [⟨S8192x1, broadcastInDim S8192x1 ![0] bcast_S8192_S8192x1_0 (W2 m' c (Proc.devRef .tc main_v95) : (⟨S8192, .i32⟩ : BufTy).Contents (Elt Ideal))⟩, ⟨S8192x1, broadcastInDim S8192x1 ![0] bcast_S8192_S8192x1_0 (after ops_part2 (W2 m' c) (Proc.devRef .tc main_v100) : (⟨S8192, .i32⟩ : BufTy).Contents (Elt Ideal))⟩] concatenates_S8192x1_S8192x1_S8192x2_d1)) transposes_S256x8192_S8192x256_1_0 : (⟨S8192x256, .f32⟩ : BufTy).Contents (Elt Ideal))
  generalize W2 m' c = X
  after_results_simp <;> rfl

set_option maxHeartbeats 1000000 in
/-- The coordinate after the negative-index wrap. -/
theorem R_sel_v110 : (R m' c main_v110 : (⟨S8192, .i32⟩ : BufTy).Contents (Elt Ideal))
    = (select (cmpi .slt (R m' c main_v32 : (⟨S8192, .i32⟩ : BufTy).Contents (Elt Ideal)) (broadcastInDim S8192 ![] bcast_S_S8192 (constantI S_ 32 0#32) : (⟨S8192, .i32⟩ : BufTy).Contents (Elt Ideal))) (addi (R m' c main_v32 : (⟨S8192, .i32⟩ : BufTy).Contents (Elt Ideal)) (broadcastInDim S8192 ![] bcast_S_S8192 (constantI S_ 32 56#32) : (⟨S8192, .i32⟩ : BufTy).Contents (Elt Ideal))) (R m' c main_v32 : (⟨S8192, .i32⟩ : BufTy).Contents (Elt Ideal)) : (⟨S8192, .i32⟩ : BufTy).Contents (Elt Ideal)) := by
  rw [R_W3 m' c main_v110 (by decide) (by decide) (by decide) (by decide) (by decide) (by decide) (by decide),
    R_W2 m' c main_v32 (by decide) (by decide) (by decide) (by decide) (by decide) (by decide) (by decide) (by decide)]
  show (after ops_part2 (W2 m' c) (Proc.devRef .tc main_v110) : (⟨S8192, .i32⟩ : BufTy).Contents (Elt Ideal))
    = (select (cmpi .slt (W2 m' c (Proc.devRef .tc main_v32) : (⟨S8192, .i32⟩ : BufTy).Contents (Elt Ideal)) (broadcastInDim S8192 ![] bcast_S_S8192 (constantI S_ 32 0#32) : (⟨S8192, .i32⟩ : BufTy).Contents (Elt Ideal))) (addi (W2 m' c (Proc.devRef .tc main_v32) : (⟨S8192, .i32⟩ : BufTy).Contents (Elt Ideal)) (broadcastInDim S8192 ![] bcast_S_S8192 (constantI S_ 32 56#32) : (⟨S8192, .i32⟩ : BufTy).Contents (Elt Ideal))) (W2 m' c (Proc.devRef .tc main_v32) : (⟨S8192, .i32⟩ : BufTy).Contents (Elt Ideal)) : (⟨S8192, .i32⟩ : BufTy).Contents (Elt Ideal))
  generalize W2 m' c = X
  after_results_simp <;> rfl

set_option maxHeartbeats 1000000 in
/-- The coordinate after the negative-index wrap. -/
theorem R_sel_v115 : (R m' c main_v115 : (⟨S8192, .i32⟩ : BufTy).Contents (Elt Ideal))
    = (select (cmpi .slt (R m' c main_v38 : (⟨S8192, .i32⟩ : BufTy).Contents (Elt Ideal)) (broadcastInDim S8192 ![] bcast_S_S8192 (constantI S_ 32 0#32) : (⟨S8192, .i32⟩ : BufTy).Contents (Elt Ideal))) (addi (R m' c main_v38 : (⟨S8192, .i32⟩ : BufTy).Contents (Elt Ideal)) (broadcastInDim S8192 ![] bcast_S_S8192 (constantI S_ 32 56#32) : (⟨S8192, .i32⟩ : BufTy).Contents (Elt Ideal))) (R m' c main_v38 : (⟨S8192, .i32⟩ : BufTy).Contents (Elt Ideal)) : (⟨S8192, .i32⟩ : BufTy).Contents (Elt Ideal)) := by
  rw [R_W3 m' c main_v115 (by decide) (by decide) (by decide) (by decide) (by decide) (by decide) (by decide),
    R_W2 m' c main_v38 (by decide) (by decide) (by decide) (by decide) (by decide) (by decide) (by decide) (by decide)]
  show (after ops_part2 (W2 m' c) (Proc.devRef .tc main_v115) : (⟨S8192, .i32⟩ : BufTy).Contents (Elt Ideal))
    = (select (cmpi .slt (W2 m' c (Proc.devRef .tc main_v38) : (⟨S8192, .i32⟩ : BufTy).Contents (Elt Ideal)) (broadcastInDim S8192 ![] bcast_S_S8192 (constantI S_ 32 0#32) : (⟨S8192, .i32⟩ : BufTy).Contents (Elt Ideal))) (addi (W2 m' c (Proc.devRef .tc main_v38) : (⟨S8192, .i32⟩ : BufTy).Contents (Elt Ideal)) (broadcastInDim S8192 ![] bcast_S_S8192 (constantI S_ 32 56#32) : (⟨S8192, .i32⟩ : BufTy).Contents (Elt Ideal))) (W2 m' c (Proc.devRef .tc main_v38) : (⟨S8192, .i32⟩ : BufTy).Contents (Elt Ideal)) : (⟨S8192, .i32⟩ : BufTy).Contents (Elt Ideal))
  generalize W2 m' c = X
  after_results_simp <;> rfl

set_option maxHeartbeats 1000000 in
/-- One corner's lookup: the map gathered at the wrapped points and transposed. -/
theorem R_tr_v120 : (R m' c main_v120 : (⟨S8192x256, .f32⟩ : BufTy).Contents (Elt Ideal))
    = (transpose S8192x256 [1, 0] (Host.gather gather_S256x56x56_S8192x2_S256x8192_0_12_n_n_12_1_25611 (R m' c main_v0 : (⟨S256x56x56, .f32⟩ : BufTy).Contents (Elt Ideal)) (concatenate S8192x2 1 [⟨S8192x1, broadcastInDim S8192x1 ![0] bcast_S8192_S8192x1_0 (R m' c main_v110 : (⟨S8192, .i32⟩ : BufTy).Contents (Elt Ideal))⟩, ⟨S8192x1, broadcastInDim S8192x1 ![0] bcast_S8192_S8192x1_0 (R m' c main_v115 : (⟨S8192, .i32⟩ : BufTy).Contents (Elt Ideal))⟩] concatenates_S8192x1_S8192x1_S8192x2_d1)) transposes_S256x8192_S8192x256_1_0 : (⟨S8192x256, .f32⟩ : BufTy).Contents (Elt Ideal)) := by
  rw [R_W3 m' c main_v120 (by decide) (by decide) (by decide) (by decide) (by decide) (by decide) (by decide),
    R_W2 m' c main_v0 (by decide) (by decide) (by decide) (by decide) (by decide) (by decide) (by decide) (by decide),
    R_W3 m' c main_v110 (by decide) (by decide) (by decide) (by decide) (by decide) (by decide) (by decide),
    R_W3 m' c main_v115 (by decide) (by decide) (by decide) (by decide) (by decide) (by decide) (by decide)]
  show (after ops_part2 (W2 m' c) (Proc.devRef .tc main_v120) : (⟨S8192x256, .f32⟩ : BufTy).Contents (Elt Ideal))
    = (transpose S8192x256 [1, 0] (Host.gather gather_S256x56x56_S8192x2_S256x8192_0_12_n_n_12_1_25611 (W2 m' c (Proc.devRef .tc main_v0) : (⟨S256x56x56, .f32⟩ : BufTy).Contents (Elt Ideal)) (concatenate S8192x2 1 [⟨S8192x1, broadcastInDim S8192x1 ![0] bcast_S8192_S8192x1_0 (after ops_part2 (W2 m' c) (Proc.devRef .tc main_v110) : (⟨S8192, .i32⟩ : BufTy).Contents (Elt Ideal))⟩, ⟨S8192x1, broadcastInDim S8192x1 ![0] bcast_S8192_S8192x1_0 (after ops_part2 (W2 m' c) (Proc.devRef .tc main_v115) : (⟨S8192, .i32⟩ : BufTy).Contents (Elt Ideal))⟩] concatenates_S8192x1_S8192x1_S8192x2_d1)) transposes_S256x8192_S8192x256_1_0 : (⟨S8192x256, .f32⟩ : BufTy).Contents (Elt Ideal))
  generalize W2 m' c = X
  after_results_simp <;> rfl

/-- The corner `(x1, y1)`'s lookup at vertex `v` and channel `ch`: the map at the corner point `(a, b)`. -/
theorem Q11_0_apply (v : Fin 8192) (ch : Fin 256) (a b : Fin 56)
    (ha : (wd S8192 (R m' c main_v28) (ix1 v)).toInt = a.val) (hb : (wd S8192 (R m' c main_v34) (ix1 v)).toInt = b.val) :
    fl S8192x256 (R m' c main_v75) (ix2 v ch) = fl S1x256x56x56 (m' ((c.tc : Thread nD τ).loc main_arg0)) (ix4 0 ch a b) := by
  dsimp only [fl, wd] at ha hb ⊢
  have hsx : ((R m' c main_v65 : (⟨S8192, .i32⟩ : BufTy).Contents (Elt Ideal)) (ix1 v)).toInt = a.val := by
    rw [R_sel_v65]
    have h0 : 0 ≤ ((R m' c main_v28 : (⟨S8192, .i32⟩ : BufTy).Contents (Elt Ideal)) (ix1 v)).toInt := by rw [ha]; exact Int.natCast_nonneg _
    rw [wrap_apply (R m' c main_v28 : (⟨S8192, .i32⟩ : BufTy).Contents (Elt Ideal)) _ _ (ix1 v) (splat_apply _ _ _) h0]
    exact ha
  have hsy : ((R m' c main_v70 : (⟨S8192, .i32⟩ : BufTy).Contents (Elt Ideal)) (ix1 v)).toInt = b.val := by
    rw [R_sel_v70]
    have h0 : 0 ≤ ((R m' c main_v34 : (⟨S8192, .i32⟩ : BufTy).Contents (Elt Ideal)) (ix1 v)).toInt := by rw [hb]; exact Int.natCast_nonneg _
    rw [wrap_apply (R m' c main_v34 : (⟨S8192, .i32⟩ : BufTy).Contents (Elt Ideal)) _ _ (ix1 v) (splat_apply _ _ _) h0]
    exact hb
  rw [R_tr_v75, R_map0, R_arg m' c main_arg0 (by decide) (by decide) (by decide) (by decide) (by decide) (by decide) (by decide) (by decide) (by decide) (by decide)]
  refine (gathered_apply (α := EReal) (C := 256) (s := 56) (N := 8192) (by decide) _ _ _ _ _ _ _ v ch a b hsx hsy).trans ?_
  exact dropUnit_apply _ _ ch a b

/-- The corner `(x1, y2)`'s lookup at vertex `v` and channel `ch`: the map at the corner point `(a, b)`. -/
theorem Q12_0_apply (v : Fin 8192) (ch : Fin 256) (a b : Fin 56)
    (ha : (wd S8192 (R m' c main_v28) (ix1 v)).toInt = a.val) (hb : (wd S8192 (R m' c main_v38) (ix1 v)).toInt = b.val) :
    fl S8192x256 (R m' c main_v90) (ix2 v ch) = fl S1x256x56x56 (m' ((c.tc : Thread nD τ).loc main_arg0)) (ix4 0 ch a b) := by
  dsimp only [fl, wd] at ha hb ⊢
  have hsx : ((R m' c main_v80 : (⟨S8192, .i32⟩ : BufTy).Contents (Elt Ideal)) (ix1 v)).toInt = a.val := by
    rw [R_sel_v80]
    have h0 : 0 ≤ ((R m' c main_v28 : (⟨S8192, .i32⟩ : BufTy).Contents (Elt Ideal)) (ix1 v)).toInt := by rw [ha]; exact Int.natCast_nonneg _
    rw [wrap_apply (R m' c main_v28 : (⟨S8192, .i32⟩ : BufTy).Contents (Elt Ideal)) _ _ (ix1 v) (splat_apply _ _ _) h0]
    exact ha
  have hsy : ((R m' c main_v85 : (⟨S8192, .i32⟩ : BufTy).Contents (Elt Ideal)) (ix1 v)).toInt = b.val := by
    rw [R_sel_v85]
    have h0 : 0 ≤ ((R m' c main_v38 : (⟨S8192, .i32⟩ : BufTy).Contents (Elt Ideal)) (ix1 v)).toInt := by rw [hb]; exact Int.natCast_nonneg _
    rw [wrap_apply (R m' c main_v38 : (⟨S8192, .i32⟩ : BufTy).Contents (Elt Ideal)) _ _ (ix1 v) (splat_apply _ _ _) h0]
    exact hb
  rw [R_tr_v90, R_map0, R_arg m' c main_arg0 (by decide) (by decide) (by decide) (by decide) (by decide) (by decide) (by decide) (by decide) (by decide) (by decide)]
  refine (gathered_apply (α := EReal) (C := 256) (s := 56) (N := 8192) (by decide) _ _ _ _ _ _ _ v ch a b hsx hsy).trans ?_
  exact dropUnit_apply _ _ ch a b

/-- The corner `(x2, y1)`'s lookup at vertex `v` and channel `ch`: the map at the corner point `(a, b)`. -/
theorem Q21_0_apply (v : Fin 8192) (ch : Fin 256) (a b : Fin 56)
    (ha : (wd S8192 (R m' c main_v32) (ix1 v)).toInt = a.val) (hb : (wd S8192 (R m' c main_v34) (ix1 v)).toInt = b.val) :
    fl S8192x256 (R m' c main_v105) (ix2 v ch) = fl S1x256x56x56 (m' ((c.tc : Thread nD τ).loc main_arg0)) (ix4 0 ch a b) := by
  dsimp only [fl, wd] at ha hb ⊢
  have hsx : ((R m' c main_v95 : (⟨S8192, .i32⟩ : BufTy).Contents (Elt Ideal)) (ix1 v)).toInt = a.val := by
    rw [R_sel_v95]
    have h0 : 0 ≤ ((R m' c main_v32 : (⟨S8192, .i32⟩ : BufTy).Contents (Elt Ideal)) (ix1 v)).toInt := by rw [ha]; exact Int.natCast_nonneg _
    rw [wrap_apply (R m' c main_v32 : (⟨S8192, .i32⟩ : BufTy).Contents (Elt Ideal)) _ _ (ix1 v) (splat_apply _ _ _) h0]
    exact ha
  have hsy : ((R m' c main_v100 : (⟨S8192, .i32⟩ : BufTy).Contents (Elt Ideal)) (ix1 v)).toInt = b.val := by
    rw [R_sel_v100, R_zero_v96]
    have h0 : 0 ≤ ((R m' c main_v34 : (⟨S8192, .i32⟩ : BufTy).Contents (Elt Ideal)) (ix1 v)).toInt := by rw [hb]; exact Int.natCast_nonneg _
    rw [wrap_apply (R m' c main_v34 : (⟨S8192, .i32⟩ : BufTy).Contents (Elt Ideal)) _ _ (ix1 v) (splat_apply _ _ _) h0]
    exact hb
  rw [R_tr_v105, R_map0, R_arg m' c main_arg0 (by decide) (by decide) (by decide) (by decide) (by decide) (by decide) (by decide) (by decide) (by decide) (by decide)]
  refine (gathered_apply (α := EReal) (C := 256) (s := 56) (N := 8192) (by decide) _ _ _ _ _ _ _ v ch a b hsx hsy).trans ?_
  exact dropUnit_apply _ _ ch a b

/-- The corner `(x2, y2)`'s lookup at vertex `v` and channel `ch`: the map at the corner point `(a, b)`. -/
theorem Q22_0_apply (v : Fin 8192) (ch : Fin 256) (a b : Fin 56)
    (ha : (wd S8192 (R m' c main_v32) (ix1 v)).toInt = a.val) (hb : (wd S8192 (R m' c main_v38) (ix1 v)).toInt = b.val) :
    fl S8192x256 (R m' c main_v120) (ix2 v ch) = fl S1x256x56x56 (m' ((c.tc : Thread nD τ).loc main_arg0)) (ix4 0 ch a b) := by
  dsimp only [fl, wd] at ha hb ⊢
  have hsx : ((R m' c main_v110 : (⟨S8192, .i32⟩ : BufTy).Contents (Elt Ideal)) (ix1 v)).toInt = a.val := by
    rw [R_sel_v110]
    have h0 : 0 ≤ ((R m' c main_v32 : (⟨S8192, .i32⟩ : BufTy).Contents (Elt Ideal)) (ix1 v)).toInt := by rw [ha]; exact Int.natCast_nonneg _
    rw [wrap_apply (R m' c main_v32 : (⟨S8192, .i32⟩ : BufTy).Contents (Elt Ideal)) _ _ (ix1 v) (splat_apply _ _ _) h0]
    exact ha
  have hsy : ((R m' c main_v115 : (⟨S8192, .i32⟩ : BufTy).Contents (Elt Ideal)) (ix1 v)).toInt = b.val := by
    rw [R_sel_v115]
    have h0 : 0 ≤ ((R m' c main_v38 : (⟨S8192, .i32⟩ : BufTy).Contents (Elt Ideal)) (ix1 v)).toInt := by rw [hb]; exact Int.natCast_nonneg _
    rw [wrap_apply (R m' c main_v38 : (⟨S8192, .i32⟩ : BufTy).Contents (Elt Ideal)) _ _ (ix1 v) (splat_apply _ _ _) h0]
    exact hb
  rw [R_tr_v120, R_map0, R_arg m' c main_arg0 (by decide) (by decide) (by decide) (by decide) (by decide) (by decide) (by decide) (by decide) (by decide) (by decide)]
  refine (gathered_apply (α := EReal) (C := 256) (s := 56) (N := 8192) (by decide) _ _ _ _ _ _ _ v ch a b hsx hsy).trans ?_
  exact dropUnit_apply _ _ ch a b

set_option maxHeartbeats 1000000 in
/-- The aligned block: the four weighted lookups added, in the order the program adds them. -/
theorem R_sum0 : (R m' c main_v131 : (⟨S8192x256, .f32⟩ : BufTy).Contents (Elt Ideal))
    = (addf (F := Ideal) (s := S8192x256) (φ := .f32) (addf (F := Ideal) (s := S8192x256) (φ := .f32) (addf (F := Ideal) (s := S8192x256) (φ := .f32) (mulf (F := Ideal) (s := S8192x256) (φ := .f32) (broadcastInDim S8192x256 ![0, 1] bcast_S8192x1_S8192x256_0_1 (R m' c main_v45 : (⟨S8192x1, .f32⟩ : BufTy).Contents (Elt Ideal)) : (⟨S8192x256, .f32⟩ : BufTy).Contents (Elt Ideal)) (R m' c main_v75 : (⟨S8192x256, .f32⟩ : BufTy).Contents (Elt Ideal))) (mulf (F := Ideal) (s := S8192x256) (φ := .f32) (broadcastInDim S8192x256 ![0, 1] bcast_S8192x1_S8192x256_0_1 (R m' c main_v55 : (⟨S8192x1, .f32⟩ : BufTy).Contents (Elt Ideal)) : (⟨S8192x256, .f32⟩ : BufTy).Contents (Elt Ideal)) (R m' c main_v105 : (⟨S8192x256, .f32⟩ : BufTy).Contents (Elt Ideal)))) (mulf (F := Ideal) (s := S8192x256) (φ := .f32) (broadcastInDim S8192x256 ![0, 1] bcast_S8192x1_S8192x256_0_1 (R m' c main_v50 : (⟨S8192x1, .f32⟩ : BufTy).Contents (Elt Ideal)) : (⟨S8192x256, .f32⟩ : BufTy).Contents (Elt Ideal)) (R m' c main_v90 : (⟨S8192x256, .f32⟩ : BufTy).Contents (Elt Ideal)))) (mulf (F := Ideal) (s := S8192x256) (φ := .f32) (broadcastInDim S8192x256 ![0, 1] bcast_S8192x1_S8192x256_0_1 (R m' c main_v60 : (⟨S8192x1, .f32⟩ : BufTy).Contents (Elt Ideal)) : (⟨S8192x256, .f32⟩ : BufTy).Contents (Elt Ideal)) (R m' c main_v120 : (⟨S8192x256, .f32⟩ : BufTy).Contents (Elt Ideal))) : (⟨S8192x256, .f32⟩ : BufTy).Contents (Elt Ideal)) := by
  rw [R_W3 m' c main_v131 (by decide) (by decide) (by decide) (by decide) (by decide) (by decide) (by decide),
    R_W2 m' c main_v45 (by decide) (by decide) (by decide) (by decide) (by decide) (by decide) (by decide) (by decide),
    R_W2 m' c main_v75 (by decide) (by decide) (by decide) (by decide) (by decide) (by decide) (by decide) (by decide),
    R_W2 m' c main_v55 (by decide) (by decide) (by decide) (by decide) (by decide) (by decide) (by decide) (by decide),
    R_W3 m' c main_v105 (by decide) (by decide) (by decide) (by decide) (by decide) (by decide) (by decide),
    R_W2 m' c main_v50 (by decide) (by decide) (by decide) (by decide) (by decide) (by decide) (by decide) (by decide),
    R_W2 m' c main_v90 (by decide) (by decide) (by decide) (by decide) (by decide) (by decide) (by decide) (by decide),
    R_W2 m' c main_v60 (by decide) (by decide) (by decide) (by decide) (by decide) (by decide) (by decide) (by decide),
    R_W3 m' c main_v120 (by decide) (by decide) (by decide) (by decide) (by decide) (by decide) (by decide)]
  show (after ops_part2 (W2 m' c) (Proc.devRef .tc main_v131) : (⟨S8192x256, .f32⟩ : BufTy).Contents (Elt Ideal))
    = (addf (F := Ideal) (s := S8192x256) (φ := .f32) (addf (F := Ideal) (s := S8192x256) (φ := .f32) (addf (F := Ideal) (s := S8192x256) (φ := .f32) (mulf (F := Ideal) (s := S8192x256) (φ := .f32) (broadcastInDim S8192x256 ![0, 1] bcast_S8192x1_S8192x256_0_1 (W2 m' c (Proc.devRef .tc main_v45) : (⟨S8192x1, .f32⟩ : BufTy).Contents (Elt Ideal)) : (⟨S8192x256, .f32⟩ : BufTy).Contents (Elt Ideal)) (W2 m' c (Proc.devRef .tc main_v75) : (⟨S8192x256, .f32⟩ : BufTy).Contents (Elt Ideal))) (mulf (F := Ideal) (s := S8192x256) (φ := .f32) (broadcastInDim S8192x256 ![0, 1] bcast_S8192x1_S8192x256_0_1 (W2 m' c (Proc.devRef .tc main_v55) : (⟨S8192x1, .f32⟩ : BufTy).Contents (Elt Ideal)) : (⟨S8192x256, .f32⟩ : BufTy).Contents (Elt Ideal)) (after ops_part2 (W2 m' c) (Proc.devRef .tc main_v105) : (⟨S8192x256, .f32⟩ : BufTy).Contents (Elt Ideal)))) (mulf (F := Ideal) (s := S8192x256) (φ := .f32) (broadcastInDim S8192x256 ![0, 1] bcast_S8192x1_S8192x256_0_1 (W2 m' c (Proc.devRef .tc main_v50) : (⟨S8192x1, .f32⟩ : BufTy).Contents (Elt Ideal)) : (⟨S8192x256, .f32⟩ : BufTy).Contents (Elt Ideal)) (W2 m' c (Proc.devRef .tc main_v90) : (⟨S8192x256, .f32⟩ : BufTy).Contents (Elt Ideal)))) (mulf (F := Ideal) (s := S8192x256) (φ := .f32) (broadcastInDim S8192x256 ![0, 1] bcast_S8192x1_S8192x256_0_1 (W2 m' c (Proc.devRef .tc main_v60) : (⟨S8192x1, .f32⟩ : BufTy).Contents (Elt Ideal)) : (⟨S8192x256, .f32⟩ : BufTy).Contents (Elt Ideal)) (after ops_part2 (W2 m' c) (Proc.devRef .tc main_v120) : (⟨S8192x256, .f32⟩ : BufTy).Contents (Elt Ideal))) : (⟨S8192x256, .f32⟩ : BufTy).Contents (Elt Ideal))
  generalize W2 m' c = X
  after_results_simp <;> rfl

/-- The aligned block at vertex `v` and channel `ch`: the four weights times the four lookups. -/
theorem sum0_apply (v : Fin 8192) (ch : Fin 256) :
    fl S8192x256 (R m' c main_v131) (ix2 v ch)
      = ((fl S8192 (R m' c main_v44) (ix1 v) * fl S8192x256 (R m' c main_v75) (ix2 v ch) + fl S8192 (R m' c main_v54) (ix1 v) * fl S8192x256 (R m' c main_v105) (ix2 v ch))
          + fl S8192 (R m' c main_v49) (ix1 v) * fl S8192x256 (R m' c main_v90) (ix2 v ch)) + fl S8192 (R m' c main_v59) (ix1 v) * fl S8192x256 (R m' c main_v120) (ix2 v ch) := by
  dsimp only [fl]
  rw [R_sum0]
  rw [addf_apply, addf_apply, addf_apply, mulf_apply, mulf_apply, mulf_apply, mulf_apply]
  rw [column_bcast_apply (N := 8192) (C := 256) (by decide), column_bcast_apply (N := 8192) (C := 256) (by decide),
    column_bcast_apply (N := 8192) (C := 256) (by decide), column_bcast_apply (N := 8192) (C := 256) (by decide)]
  rw [R_col_v45, R_col_v55, R_col_v50, R_col_v60]
  rw [column_apply, column_apply, column_apply, column_apply]

/-- The aligned block of map 0 at `(v, ch)`, the corner coordinates given as cells of the map. -/
theorem aligned0_cells (v : Fin 8192) (ch : Fin 256) (X1 X2 Y1 Y2 : Fin 56)
    (e1 : (wd S8192 (R m' c main_v28) (ix1 v)).toInt = X1.val) (e2 : (wd S8192 (R m' c main_v32) (ix1 v)).toInt = X2.val)
    (e3 : (wd S8192 (R m' c main_v34) (ix1 v)).toInt = Y1.val) (e4 : (wd S8192 (R m' c main_v38) (ix1 v)).toInt = Y2.val) :
    fl S8192x256 (R m' c main_v131) (ix2 v ch)
      = ((fl S8192 (R m' c main_v44) (ix1 v) * fl S1x256x56x56 (m' ((c.tc : Thread nD τ).loc main_arg0)) (ix4 0 ch X1 Y1)
          + fl S8192 (R m' c main_v54) (ix1 v) * fl S1x256x56x56 (m' ((c.tc : Thread nD τ).loc main_arg0)) (ix4 0 ch X2 Y1))
          + fl S8192 (R m' c main_v49) (ix1 v) * fl S1x256x56x56 (m' ((c.tc : Thread nD τ).loc main_arg0)) (ix4 0 ch X1 Y2))
          + fl S8192 (R m' c main_v59) (ix1 v) * fl S1x256x56x56 (m' ((c.tc : Thread nD τ).loc main_arg0)) (ix4 0 ch X2 Y2) := by
  rw [sum0_apply, Q11_0_apply m' c v ch X1 Y1 e1 e3, Q21_0_apply m' c v ch X2 Y1 e2 e3,
    Q12_0_apply m' c v ch X1 Y2 e1 e4, Q22_0_apply m' c v ch X2 Y2 e2 e4]

set_option maxHeartbeats 1000000 in
/-- The same with the cells read off the coordinate buffers, each coordinate inside the map. -/
theorem aligned0_apply (v : Fin 8192) (ch : Fin 256)
    (hx1 : 0 ≤ (wd S8192 (R m' c main_v28) (ix1 v)).toInt ∧ (wd S8192 (R m' c main_v28) (ix1 v)).toInt < 56)
    (hx2 : 0 ≤ (wd S8192 (R m' c main_v32) (ix1 v)).toInt ∧ (wd S8192 (R m' c main_v32) (ix1 v)).toInt < 56)
    (hy1 : 0 ≤ (wd S8192 (R m' c main_v34) (ix1 v)).toInt ∧ (wd S8192 (R m' c main_v34) (ix1 v)).toInt < 56)
    (hy2 : 0 ≤ (wd S8192 (R m' c main_v38) (ix1 v)).toInt ∧ (wd S8192 (R m' c main_v38) (ix1 v)).toInt < 56) :
    fl S8192x256 (R m' c main_v131) (ix2 v ch)
      = ((fl S8192 (R m' c main_v44) (ix1 v) * fl S1x256x56x56 (m' ((c.tc : Thread nD τ).loc main_arg0)) (ix4 0 ch ⟨(wd S8192 (R m' c main_v28) (ix1 v)).toInt.toNat, by omega⟩ ⟨(wd S8192 (R m' c main_v34) (ix1 v)).toInt.toNat, by omega⟩)
          + fl S8192 (R m' c main_v54) (ix1 v) * fl S1x256x56x56 (m' ((c.tc : Thread nD τ).loc main_arg0)) (ix4 0 ch ⟨(wd S8192 (R m' c main_v32) (ix1 v)).toInt.toNat, by omega⟩ ⟨(wd S8192 (R m' c main_v34) (ix1 v)).toInt.toNat, by omega⟩))
          + fl S8192 (R m' c main_v49) (ix1 v) * fl S1x256x56x56 (m' ((c.tc : Thread nD τ).loc main_arg0)) (ix4 0 ch ⟨(wd S8192 (R m' c main_v28) (ix1 v)).toInt.toNat, by omega⟩ ⟨(wd S8192 (R m' c main_v38) (ix1 v)).toInt.toNat, by omega⟩))
          + fl S8192 (R m' c main_v59) (ix1 v) * fl S1x256x56x56 (m' ((c.tc : Thread nD τ).loc main_arg0)) (ix4 0 ch ⟨(wd S8192 (R m' c main_v32) (ix1 v)).toInt.toNat, by omega⟩ ⟨(wd S8192 (R m' c main_v38) (ix1 v)).toInt.toNat, by omega⟩) :=
  aligned0_cells m' c v ch ⟨(wd S8192 (R m' c main_v28) (ix1 v)).toInt.toNat, by omega⟩ ⟨(wd S8192 (R m' c main_v32) (ix1 v)).toInt.toNat, by omega⟩
    ⟨(wd S8192 (R m' c main_v34) (ix1 v)).toInt.toNat, by omega⟩ ⟨(wd S8192 (R m' c main_v38) (ix1 v)).toInt.toNat, by omega⟩ (Int.toNat_of_nonneg hx1.1).symm (Int.toNat_of_nonneg hx2.1).symm
    (Int.toNat_of_nonneg hy1.1).symm (Int.toNat_of_nonneg hy2.1).symm

end Cert.ReferenceIdeal.HandRead

end
-- ==== Proof.Ref.Map1.lean ====
/-
  One feature map's aligned block, read at a vertex and a channel.

  For each of the four corners `(x1, y1)`, `(x1, y2)`, `(x2, y1)`, `(x2, y2)` the reference looks the map up at the
  vertex's corner point (the coordinates through the negative-index wrap, the points gathered, the result
  transposed), scales the lookup by the corner's weight broadcast along the channels, and adds the four products.
  With the corner coordinates inside the map, the block at `(v, ch)` is the weighted sum of the map's values at
  channel `ch` and the four corner points.
-/
import proofs.«120270_j2259152797813_2_alg».proof.Proof.Ref.Proj
import proofs.«120270_j2259152797813_2_alg».proof.Proof.Ref.Corner

set_option maxRecDepth 8192

noncomputable section

namespace Cert.ReferenceIdeal.HandRead

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open scoped BigOperators

variable (m' : (ℓ : Loc nD τ sig) → Buf (Elt Ideal) ℓ) (c : Dev nD)

/-- A map `[1, C, s, s]` viewed `[C, s, s]` reads `(ch, a, b)` at `(0, ch, a, b)`. -/
private theorem dropUnit_apply {α : Type} {C s : Nat} (A : (⟨4, ![1, C, s, s]⟩ : Shape).Idx → α)
    (h : (⟨4, ![1, C, s, s]⟩ : Shape).ShapeCasts ⟨3, ![C, s, s]⟩) (ch : Fin C) (a b : Fin s) :
    shapeCast ⟨3, ![C, s, s]⟩ A h (ix3 ch a b) = A (ix4 0 ch a b) :=
  shapeCast_apply A h (ix3 ch a b) (ix4 0 ch a b) (by
    rw [Shape.rowMajor_val_four, Shape.rowMajor_val_three]
    show ((0 * C + ch.val) * s + a.val) * s + b.val = (ch.val * s + a.val) * s + b.val
    simp)

set_option maxHeartbeats 1000000 in
/-- The feature map with its leading unit axis dropped. -/
theorem R_map1 : (R m' c main_v1 : (⟨S512x28x28, .f32⟩ : BufTy).Contents (Elt Ideal))
    = (shapeCast S512x28x28 (R m' c main_arg1 : (⟨S1x512x28x28, .f32⟩ : BufTy).Contents (Elt Ideal)) shapeCasts_S1x512x28x28_S512x28x28 : (⟨S512x28x28, .f32⟩ : BufTy).Contents (Elt Ideal)) := by
  rw [R_W1 m' c main_v1 (by decide) (by decide) (by decide) (by decide) (by decide) (by decide) (by decide) (by decide) (by decide),
    R_W0 m' c main_arg1 (by decide) (by decide) (by decide) (by decide) (by decide) (by decide) (by decide) (by decide) (by decide) (by decide)]
  show (after ops_part0 (W0 m' c) (Proc.devRef .tc main_v1) : (⟨S512x28x28, .f32⟩ : BufTy).Contents (Elt Ideal))
    = (shapeCast S512x28x28 (W0 m' c (Proc.devRef .tc main_arg1) : (⟨S1x512x28x28, .f32⟩ : BufTy).Contents (Elt Ideal)) shapeCasts_S1x512x28x28_S512x28x28 : (⟨S512x28x28, .f32⟩ : BufTy).Contents (Elt Ideal))
  generalize W0 m' c = X
  after_results_simp <;> rfl

set_option maxHeartbeats 1000000 in
/-- The weight vector made a column. -/
theorem R_col_v154 : (R m' c main_v154 : (⟨S8192x1, .f32⟩ : BufTy).Contents (Elt Ideal))
    = (broadcastInDim S8192x1 ![0] bcast_S8192_S8192x1_0 (R m' c main_v153 : (⟨S8192, .f32⟩ : BufTy).Contents (Elt Ideal)) : (⟨S8192x1, .f32⟩ : BufTy).Contents (Elt Ideal)) := by
  rw [R_W4 m' c main_v154 (by decide) (by decide) (by decide) (by decide) (by decide) (by decide),
    R_W4 m' c main_v153 (by decide) (by decide) (by decide) (by decide) (by decide) (by decide)]
  show (after ops_part3 (W3 m' c) (Proc.devRef .tc main_v154) : (⟨S8192x1, .f32⟩ : BufTy).Contents (Elt Ideal))
    = (broadcastInDim S8192x1 ![0] bcast_S8192_S8192x1_0 (after ops_part3 (W3 m' c) (Proc.devRef .tc main_v153) : (⟨S8192, .f32⟩ : BufTy).Contents (Elt Ideal)) : (⟨S8192x1, .f32⟩ : BufTy).Contents (Elt Ideal))
  generalize W3 m' c = X
  after_results_simp <;> rfl

set_option maxHeartbeats 1000000 in
/-- The weight vector made a column. -/
theorem R_col_v159 : (R m' c main_v159 : (⟨S8192x1, .f32⟩ : BufTy).Contents (Elt Ideal))
    = (broadcastInDim S8192x1 ![0] bcast_S8192_S8192x1_0 (R m' c main_v158 : (⟨S8192, .f32⟩ : BufTy).Contents (Elt Ideal)) : (⟨S8192x1, .f32⟩ : BufTy).Contents (Elt Ideal)) := by
  rw [R_W4 m' c main_v159 (by decide) (by decide) (by decide) (by decide) (by decide) (by decide),
    R_W4 m' c main_v158 (by decide) (by decide) (by decide) (by decide) (by decide) (by decide)]
  show (after ops_part3 (W3 m' c) (Proc.devRef .tc main_v159) : (⟨S8192x1, .f32⟩ : BufTy).Contents (Elt Ideal))
    = (broadcastInDim S8192x1 ![0] bcast_S8192_S8192x1_0 (after ops_part3 (W3 m' c) (Proc.devRef .tc main_v158) : (⟨S8192, .f32⟩ : BufTy).Contents (Elt Ideal)) : (⟨S8192x1, .f32⟩ : BufTy).Contents (Elt Ideal))
  generalize W3 m' c = X
  after_results_simp <;> rfl

set_option maxHeartbeats 1000000 in
/-- The weight vector made a column. -/
theorem R_col_v164 : (R m' c main_v164 : (⟨S8192x1, .f32⟩ : BufTy).Contents (Elt Ideal))
    = (broadcastInDim S8192x1 ![0] bcast_S8192_S8192x1_0 (R m' c main_v163 : (⟨S8192, .f32⟩ : BufTy).Contents (Elt Ideal)) : (⟨S8192x1, .f32⟩ : BufTy).Contents (Elt Ideal)) := by
  rw [R_W4 m' c main_v164 (by decide) (by decide) (by decide) (by decide) (by decide) (by decide),
    R_W4 m' c main_v163 (by decide) (by decide) (by decide) (by decide) (by decide) (by decide)]
  show (after ops_part3 (W3 m' c) (Proc.devRef .tc main_v164) : (⟨S8192x1, .f32⟩ : BufTy).Contents (Elt Ideal))
    = (broadcastInDim S8192x1 ![0] bcast_S8192_S8192x1_0 (after ops_part3 (W3 m' c) (Proc.devRef .tc main_v163) : (⟨S8192, .f32⟩ : BufTy).Contents (Elt Ideal)) : (⟨S8192x1, .f32⟩ : BufTy).Contents (Elt Ideal))
  generalize W3 m' c = X
  after_results_simp <;> rfl

set_option maxHeartbeats 1000000 in
/-- The weight vector made a column. -/
theorem R_col_v169 : (R m' c main_v169 : (⟨S8192x1, .f32⟩ : BufTy).Contents (Elt Ideal))
    = (broadcastInDim S8192x1 ![0] bcast_S8192_S8192x1_0 (R m' c main_v168 : (⟨S8192, .f32⟩ : BufTy).Contents (Elt Ideal)) : (⟨S8192x1, .f32⟩ : BufTy).Contents (Elt Ideal)) := by
  rw [R_W4 m' c main_v169 (by decide) (by decide) (by decide) (by decide) (by decide) (by decide),
    R_W4 m' c main_v168 (by decide) (by decide) (by decide) (by decide) (by decide) (by decide)]
  show (after ops_part3 (W3 m' c) (Proc.devRef .tc main_v169) : (⟨S8192x1, .f32⟩ : BufTy).Contents (Elt Ideal))
    = (broadcastInDim S8192x1 ![0] bcast_S8192_S8192x1_0 (after ops_part3 (W3 m' c) (Proc.devRef .tc main_v168) : (⟨S8192, .f32⟩ : BufTy).Contents (Elt Ideal)) : (⟨S8192x1, .f32⟩ : BufTy).Contents (Elt Ideal))
  generalize W3 m' c = X
  after_results_simp <;> rfl

set_option maxHeartbeats 1000000 in
/-- The coordinate after the negative-index wrap. -/
theorem R_sel_v174 : (R m' c main_v174 : (⟨S8192, .i32⟩ : BufTy).Contents (Elt Ideal))
    = (select (cmpi .slt (R m' c main_v137 : (⟨S8192, .i32⟩ : BufTy).Contents (Elt Ideal)) (broadcastInDim S8192 ![] bcast_S_S8192 (constantI S_ 32 0#32) : (⟨S8192, .i32⟩ : BufTy).Contents (Elt Ideal))) (addi (R m' c main_v137 : (⟨S8192, .i32⟩ : BufTy).Contents (Elt Ideal)) (broadcastInDim S8192 ![] bcast_S_S8192 (constantI S_ 32 28#32) : (⟨S8192, .i32⟩ : BufTy).Contents (Elt Ideal))) (R m' c main_v137 : (⟨S8192, .i32⟩ : BufTy).Contents (Elt Ideal)) : (⟨S8192, .i32⟩ : BufTy).Contents (Elt Ideal)) := by
  rw [R_W4 m' c main_v174 (by decide) (by decide) (by decide) (by decide) (by decide) (by decide),
    R_W3 m' c main_v137 (by decide) (by decide) (by decide) (by decide) (by decide) (by decide) (by decide)]
  show (after ops_part3 (W3 m' c) (Proc.devRef .tc main_v174) : (⟨S8192, .i32⟩ : BufTy).Contents (Elt Ideal))
    = (select (cmpi .slt (W3 m' c (Proc.devRef .tc main_v137) : (⟨S8192, .i32⟩ : BufTy).Contents (Elt Ideal)) (broadcastInDim S8192 ![] bcast_S_S8192 (constantI S_ 32 0#32) : (⟨S8192, .i32⟩ : BufTy).Contents (Elt Ideal))) (addi (W3 m' c (Proc.devRef .tc main_v137) : (⟨S8192, .i32⟩ : BufTy).Contents (Elt Ideal)) (broadcastInDim S8192 ![] bcast_S_S8192 (constantI S_ 32 28#32) : (⟨S8192, .i32⟩ : BufTy).Contents (Elt Ideal))) (W3 m' c (Proc.devRef .tc main_v137) : (⟨S8192, .i32⟩ : BufTy).Contents (Elt Ideal)) : (⟨S8192, .i32⟩ : BufTy).Contents (Elt Ideal))
  generalize W3 m' c = X
  after_results_simp <;> rfl

set_option maxHeartbeats 1000000 in
/-- The coordinate after the negative-index wrap. -/
theorem R_sel_v179 : (R m' c main_v179 : (⟨S8192, .i32⟩ : BufTy).Contents (Elt Ideal))
    = (select (cmpi .slt (R m' c main_v143 : (⟨S8192, .i32⟩ : BufTy).Contents (Elt Ideal)) (broadcastInDim S8192 ![] bcast_S_S8192 (constantI S_ 32 0#32) : (⟨S8192, .i32⟩ : BufTy).Contents (Elt Ideal))) (addi (R m' c main_v143 : (⟨S8192, .i32⟩ : BufTy).Contents (Elt Ideal)) (broadcastInDim S8192 ![] bcast_S_S8192 (constantI S_ 32 28#32) : (⟨S8192, .i32⟩ : BufTy).Contents (Elt Ideal))) (R m' c main_v143 : (⟨S8192, .i32⟩ : BufTy).Contents (Elt Ideal)) : (⟨S8192, .i32⟩ : BufTy).Contents (Elt Ideal)) := by
  rw [R_W4 m' c main_v179 (by decide) (by decide) (by decide) (by decide) (by decide) (by decide),
    R_W3 m' c main_v143 (by decide) (by decide) (by decide) (by decide) (by decide) (by decide) (by decide)]
  show (after ops_part3 (W3 m' c) (Proc.devRef .tc main_v179) : (⟨S8192, .i32⟩ : BufTy).Contents (Elt Ideal))
    = (select (cmpi .slt (W3 m' c (Proc.devRef .tc main_v143) : (⟨S8192, .i32⟩ : BufTy).Contents (Elt Ideal)) (broadcastInDim S8192 ![] bcast_S_S8192 (constantI S_ 32 0#32) : (⟨S8192, .i32⟩ : BufTy).Contents (Elt Ideal))) (addi (W3 m' c (Proc.devRef .tc main_v143) : (⟨S8192, .i32⟩ : BufTy).Contents (Elt Ideal)) (broadcastInDim S8192 ![] bcast_S_S8192 (constantI S_ 32 28#32) : (⟨S8192, .i32⟩ : BufTy).Contents (Elt Ideal))) (W3 m' c (Proc.devRef .tc main_v143) : (⟨S8192, .i32⟩ : BufTy).Contents (Elt Ideal)) : (⟨S8192, .i32⟩ : BufTy).Contents (Elt Ideal))
  generalize W3 m' c = X
  after_results_simp <;> rfl

set_option maxHeartbeats 1000000 in
/-- One corner's lookup: the map gathered at the wrapped points and transposed. -/
theorem R_tr_v184 : (R m' c main_v184 : (⟨S8192x512, .f32⟩ : BufTy).Contents (Elt Ideal))
    = (transpose S8192x512 [1, 0] (Host.gather gather_S512x28x28_S8192x2_S512x8192_0_12_n_n_12_1_51211 (R m' c main_v1 : (⟨S512x28x28, .f32⟩ : BufTy).Contents (Elt Ideal)) (concatenate S8192x2 1 [⟨S8192x1, broadcastInDim S8192x1 ![0] bcast_S8192_S8192x1_0 (R m' c main_v174 : (⟨S8192, .i32⟩ : BufTy).Contents (Elt Ideal))⟩, ⟨S8192x1, broadcastInDim S8192x1 ![0] bcast_S8192_S8192x1_0 (R m' c main_v179 : (⟨S8192, .i32⟩ : BufTy).Contents (Elt Ideal))⟩] concatenates_S8192x1_S8192x1_S8192x2_d1)) transposes_S512x8192_S8192x512_1_0 : (⟨S8192x512, .f32⟩ : BufTy).Contents (Elt Ideal)) := by
  rw [R_W4 m' c main_v184 (by decide) (by decide) (by decide) (by decide) (by decide) (by decide),
    R_W3 m' c main_v1 (by decide) (by decide) (by decide) (by decide) (by decide) (by decide) (by decide),
    R_W4 m' c main_v174 (by decide) (by decide) (by decide) (by decide) (by decide) (by decide),
    R_W4 m' c main_v179 (by decide) (by decide) (by decide) (by decide) (by decide) (by decide)]
  show (after ops_part3 (W3 m' c) (Proc.devRef .tc main_v184) : (⟨S8192x512, .f32⟩ : BufTy).Contents (Elt Ideal))
    = (transpose S8192x512 [1, 0] (Host.gather gather_S512x28x28_S8192x2_S512x8192_0_12_n_n_12_1_51211 (W3 m' c (Proc.devRef .tc main_v1) : (⟨S512x28x28, .f32⟩ : BufTy).Contents (Elt Ideal)) (concatenate S8192x2 1 [⟨S8192x1, broadcastInDim S8192x1 ![0] bcast_S8192_S8192x1_0 (after ops_part3 (W3 m' c) (Proc.devRef .tc main_v174) : (⟨S8192, .i32⟩ : BufTy).Contents (Elt Ideal))⟩, ⟨S8192x1, broadcastInDim S8192x1 ![0] bcast_S8192_S8192x1_0 (after ops_part3 (W3 m' c) (Proc.devRef .tc main_v179) : (⟨S8192, .i32⟩ : BufTy).Contents (Elt Ideal))⟩] concatenates_S8192x1_S8192x1_S8192x2_d1)) transposes_S512x8192_S8192x512_1_0 : (⟨S8192x512, .f32⟩ : BufTy).Contents (Elt Ideal))
  generalize W3 m' c = X
  after_results_simp <;> rfl

set_option maxHeartbeats 1000000 in
/-- The coordinate after the negative-index wrap. -/
theorem R_sel_v189 : (R m' c main_v189 : (⟨S8192, .i32⟩ : BufTy).Contents (Elt Ideal))
    = (select (cmpi .slt (R m' c main_v137 : (⟨S8192, .i32⟩ : BufTy).Contents (Elt Ideal)) (broadcastInDim S8192 ![] bcast_S_S8192 (constantI S_ 32 0#32) : (⟨S8192, .i32⟩ : BufTy).Contents (Elt Ideal))) (addi (R m' c main_v137 : (⟨S8192, .i32⟩ : BufTy).Contents (Elt Ideal)) (broadcastInDim S8192 ![] bcast_S_S8192 (constantI S_ 32 28#32) : (⟨S8192, .i32⟩ : BufTy).Contents (Elt Ideal))) (R m' c main_v137 : (⟨S8192, .i32⟩ : BufTy).Contents (Elt Ideal)) : (⟨S8192, .i32⟩ : BufTy).Contents (Elt Ideal)) := by
  rw [R_W4 m' c main_v189 (by decide) (by decide) (by decide) (by decide) (by decide) (by decide),
    R_W3 m' c main_v137 (by decide) (by decide) (by decide) (by decide) (by decide) (by decide) (by decide)]
  show (after ops_part3 (W3 m' c) (Proc.devRef .tc main_v189) : (⟨S8192, .i32⟩ : BufTy).Contents (Elt Ideal))
    = (select (cmpi .slt (W3 m' c (Proc.devRef .tc main_v137) : (⟨S8192, .i32⟩ : BufTy).Contents (Elt Ideal)) (broadcastInDim S8192 ![] bcast_S_S8192 (constantI S_ 32 0#32) : (⟨S8192, .i32⟩ : BufTy).Contents (Elt Ideal))) (addi (W3 m' c (Proc.devRef .tc main_v137) : (⟨S8192, .i32⟩ : BufTy).Contents (Elt Ideal)) (broadcastInDim S8192 ![] bcast_S_S8192 (constantI S_ 32 28#32) : (⟨S8192, .i32⟩ : BufTy).Contents (Elt Ideal))) (W3 m' c (Proc.devRef .tc main_v137) : (⟨S8192, .i32⟩ : BufTy).Contents (Elt Ideal)) : (⟨S8192, .i32⟩ : BufTy).Contents (Elt Ideal))
  generalize W3 m' c = X
  after_results_simp <;> rfl

set_option maxHeartbeats 1000000 in
/-- The coordinate after the negative-index wrap. -/
theorem R_sel_v194 : (R m' c main_v194 : (⟨S8192, .i32⟩ : BufTy).Contents (Elt Ideal))
    = (select (cmpi .slt (R m' c main_v147 : (⟨S8192, .i32⟩ : BufTy).Contents (Elt Ideal)) (broadcastInDim S8192 ![] bcast_S_S8192 (constantI S_ 32 0#32) : (⟨S8192, .i32⟩ : BufTy).Contents (Elt Ideal))) (addi (R m' c main_v147 : (⟨S8192, .i32⟩ : BufTy).Contents (Elt Ideal)) (broadcastInDim S8192 ![] bcast_S_S8192 (constantI S_ 32 28#32) : (⟨S8192, .i32⟩ : BufTy).Contents (Elt Ideal))) (R m' c main_v147 : (⟨S8192, .i32⟩ : BufTy).Contents (Elt Ideal)) : (⟨S8192, .i32⟩ : BufTy).Contents (Elt Ideal)) := by
  rw [R_W4 m' c main_v194 (by decide) (by decide) (by decide) (by decide) (by decide) (by decide),
    R_W3 m' c main_v147 (by decide) (by decide) (by decide) (by decide) (by decide) (by decide) (by decide)]
  show (after ops_part3 (W3 m' c) (Proc.devRef .tc main_v194) : (⟨S8192, .i32⟩ : BufTy).Contents (Elt Ideal))
    = (select (cmpi .slt (W3 m' c (Proc.devRef .tc main_v147) : (⟨S8192, .i32⟩ : BufTy).Contents (Elt Ideal)) (broadcastInDim S8192 ![] bcast_S_S8192 (constantI S_ 32 0#32) : (⟨S8192, .i32⟩ : BufTy).Contents (Elt Ideal))) (addi (W3 m' c (Proc.devRef .tc main_v147) : (⟨S8192, .i32⟩ : BufTy).Contents (Elt Ideal)) (broadcastInDim S8192 ![] bcast_S_S8192 (constantI S_ 32 28#32) : (⟨S8192, .i32⟩ : BufTy).Contents (Elt Ideal))) (W3 m' c (Proc.devRef .tc main_v147) : (⟨S8192, .i32⟩ : BufTy).Contents (Elt Ideal)) : (⟨S8192, .i32⟩ : BufTy).Contents (Elt Ideal))
  generalize W3 m' c = X
  after_results_simp <;> rfl

set_option maxHeartbeats 1000000 in
/-- One corner's lookup: the map gathered at the wrapped points and transposed. -/
theorem R_tr_v199 : (R m' c main_v199 : (⟨S8192x512, .f32⟩ : BufTy).Contents (Elt Ideal))
    = (transpose S8192x512 [1, 0] (Host.gather gather_S512x28x28_S8192x2_S512x8192_0_12_n_n_12_1_51211 (R m' c main_v1 : (⟨S512x28x28, .f32⟩ : BufTy).Contents (Elt Ideal)) (concatenate S8192x2 1 [⟨S8192x1, broadcastInDim S8192x1 ![0] bcast_S8192_S8192x1_0 (R m' c main_v189 : (⟨S8192, .i32⟩ : BufTy).Contents (Elt Ideal))⟩, ⟨S8192x1, broadcastInDim S8192x1 ![0] bcast_S8192_S8192x1_0 (R m' c main_v194 : (⟨S8192, .i32⟩ : BufTy).Contents (Elt Ideal))⟩] concatenates_S8192x1_S8192x1_S8192x2_d1)) transposes_S512x8192_S8192x512_1_0 : (⟨S8192x512, .f32⟩ : BufTy).Contents (Elt Ideal)) := by
  rw [R_W4 m' c main_v199 (by decide) (by decide) (by decide) (by decide) (by decide) (by decide),
    R_W3 m' c main_v1 (by decide) (by decide) (by decide) (by decide) (by decide) (by decide) (by decide),
    R_W4 m' c main_v189 (by decide) (by decide) (by decide) (by decide) (by decide) (by decide),
    R_W4 m' c main_v194 (by decide) (by decide) (by decide) (by decide) (by decide) (by decide)]
  show (after ops_part3 (W3 m' c) (Proc.devRef .tc main_v199) : (⟨S8192x512, .f32⟩ : BufTy).Contents (Elt Ideal))
    = (transpose S8192x512 [1, 0] (Host.gather gather_S512x28x28_S8192x2_S512x8192_0_12_n_n_12_1_51211 (W3 m' c (Proc.devRef .tc main_v1) : (⟨S512x28x28, .f32⟩ : BufTy).Contents (Elt Ideal)) (concatenate S8192x2 1 [⟨S8192x1, broadcastInDim S8192x1 ![0] bcast_S8192_S8192x1_0 (after ops_part3 (W3 m' c) (Proc.devRef .tc main_v189) : (⟨S8192, .i32⟩ : BufTy).Contents (Elt Ideal))⟩, ⟨S8192x1, broadcastInDim S8192x1 ![0] bcast_S8192_S8192x1_0 (after ops_part3 (W3 m' c) (Proc.devRef .tc main_v194) : (⟨S8192, .i32⟩ : BufTy).Contents (Elt Ideal))⟩] concatenates_S8192x1_S8192x1_S8192x2_d1)) transposes_S512x8192_S8192x512_1_0 : (⟨S8192x512, .f32⟩ : BufTy).Contents (Elt Ideal))
  generalize W3 m' c = X
  after_results_simp <;> rfl

set_option maxHeartbeats 1000000 in
/-- The coordinate after the negative-index wrap. -/
theorem R_sel_v204 : (R m' c main_v204 : (⟨S8192, .i32⟩ : BufTy).Contents (Elt Ideal))
    = (select (cmpi .slt (R m' c main_v141 : (⟨S8192, .i32⟩ : BufTy).Contents (Elt Ideal)) (broadcastInDim S8192 ![] bcast_S_S8192 (constantI S_ 32 0#32) : (⟨S8192, .i32⟩ : BufTy).Contents (Elt Ideal))) (addi (R m' c main_v141 : (⟨S8192, .i32⟩ : BufTy).Contents (Elt Ideal)) (broadcastInDim S8192 ![] bcast_S_S8192 (constantI S_ 32 28#32) : (⟨S8192, .i32⟩ : BufTy).Contents (Elt Ideal))) (R m' c main_v141 : (⟨S8192, .i32⟩ : BufTy).Contents (Elt Ideal)) : (⟨S8192, .i32⟩ : BufTy).Contents (Elt Ideal)) := by
  rw [R_W5 m' c main_v204 (by decide) (by decide) (by decide) (by decide) (by decide),
    R_W4 m' c main_v141 (by decide) (by decide) (by decide) (by decide) (by decide) (by decide)]
  show (after ops_part4 (W4 m' c) (Proc.devRef .tc main_v204) : (⟨S8192, .i32⟩ : BufTy).Contents (Elt Ideal))
    = (select (cmpi .slt (W4 m' c (Proc.devRef .tc main_v141) : (⟨S8192, .i32⟩ : BufTy).Contents (Elt Ideal)) (broadcastInDim S8192 ![] bcast_S_S8192 (constantI S_ 32 0#32) : (⟨S8192, .i32⟩ : BufTy).Contents (Elt Ideal))) (addi (W4 m' c (Proc.devRef .tc main_v141) : (⟨S8192, .i32⟩ : BufTy).Contents (Elt Ideal)) (broadcastInDim S8192 ![] bcast_S_S8192 (constantI S_ 32 28#32) : (⟨S8192, .i32⟩ : BufTy).Contents (Elt Ideal))) (W4 m' c (Proc.devRef .tc main_v141) : (⟨S8192, .i32⟩ : BufTy).Contents (Elt Ideal)) : (⟨S8192, .i32⟩ : BufTy).Contents (Elt Ideal))
  generalize W4 m' c = X
  after_results_simp <;> rfl

set_option maxHeartbeats 1000000 in
/-- The coordinate after the negative-index wrap. -/
theorem R_sel_v209 : (R m' c main_v209 : (⟨S8192, .i32⟩ : BufTy).Contents (Elt Ideal))
    = (select (cmpi .slt (R m' c main_v143 : (⟨S8192, .i32⟩ : BufTy).Contents (Elt Ideal)) (broadcastInDim S8192 ![] bcast_S_S8192 (constantI S_ 32 0#32) : (⟨S8192, .i32⟩ : BufTy).Contents (Elt Ideal))) (addi (R m' c main_v143 : (⟨S8192, .i32⟩ : BufTy).Contents (Elt Ideal)) (broadcastInDim S8192 ![] bcast_S_S8192 (constantI S_ 32 28#32) : (⟨S8192, .i32⟩ : BufTy).Contents (Elt Ideal))) (R m' c main_v143 : (⟨S8192, .i32⟩ : BufTy).Contents (Elt Ideal)) : (⟨S8192, .i32⟩ : BufTy).Contents (Elt Ideal)) := by
  rw [R_W5 m' c main_v209 (by decide) (by decide) (by decide) (by decide) (by decide),
    R_W4 m' c main_v143 (by decide) (by decide) (by decide) (by decide) (by decide) (by decide)]
  show (after ops_part4 (W4 m' c) (Proc.devRef .tc main_v209) : (⟨S8192, .i32⟩ : BufTy).Contents (Elt Ideal))
    = (select (cmpi .slt (W4 m' c (Proc.devRef .tc main_v143) : (⟨S8192, .i32⟩ : BufTy).Contents (Elt Ideal)) (broadcastInDim S8192 ![] bcast_S_S8192 (constantI S_ 32 0#32) : (⟨S8192, .i32⟩ : BufTy).Contents (Elt Ideal))) (addi (W4 m' c (Proc.devRef .tc main_v143) : (⟨S8192, .i32⟩ : BufTy).Contents (Elt Ideal)) (broadcastInDim S8192 ![] bcast_S_S8192 (constantI S_ 32 28#32) : (⟨S8192, .i32⟩ : BufTy).Contents (Elt Ideal))) (W4 m' c (Proc.devRef .tc main_v143) : (⟨S8192, .i32⟩ : BufTy).Contents (Elt Ideal)) : (⟨S8192, .i32⟩ : BufTy).Contents (Elt Ideal))
  generalize W4 m' c = X
  after_results_simp <;> rfl

set_option maxHeartbeats 1000000 in
/-- One corner's lookup: the map gathered at the wrapped points and transposed. -/
theorem R_tr_v214 : (R m' c main_v214 : (⟨S8192x512, .f32⟩ : BufTy).Contents (Elt Ideal))
    = (transpose S8192x512 [1, 0] (Host.gather gather_S512x28x28_S8192x2_S512x8192_0_12_n_n_12_1_51211 (R m' c main_v1 : (⟨S512x28x28, .f32⟩ : BufTy).Contents (Elt Ideal)) (concatenate S8192x2 1 [⟨S8192x1, broadcastInDim S8192x1 ![0] bcast_S8192_S8192x1_0 (R m' c main_v204 : (⟨S8192, .i32⟩ : BufTy).Contents (Elt Ideal))⟩, ⟨S8192x1, broadcastInDim S8192x1 ![0] bcast_S8192_S8192x1_0 (R m' c main_v209 : (⟨S8192, .i32⟩ : BufTy).Contents (Elt Ideal))⟩] concatenates_S8192x1_S8192x1_S8192x2_d1)) transposes_S512x8192_S8192x512_1_0 : (⟨S8192x512, .f32⟩ : BufTy).Contents (Elt Ideal)) := by
  rw [R_W5 m' c main_v214 (by decide) (by decide) (by decide) (by decide) (by decide),
    R_W4 m' c main_v1 (by decide) (by decide) (by decide) (by decide) (by decide) (by decide),
    R_W5 m' c main_v204 (by decide) (by decide) (by decide) (by decide) (by decide),
    R_W5 m' c main_v209 (by decide) (by decide) (by decide) (by decide) (by decide)]
  show (after ops_part4 (W4 m' c) (Proc.devRef .tc main_v214) : (⟨S8192x512, .f32⟩ : BufTy).Contents (Elt Ideal))
    = (transpose S8192x512 [1, 0] (Host.gather gather_S512x28x28_S8192x2_S512x8192_0_12_n_n_12_1_51211 (W4 m' c (Proc.devRef .tc main_v1) : (⟨S512x28x28, .f32⟩ : BufTy).Contents (Elt Ideal)) (concatenate S8192x2 1 [⟨S8192x1, broadcastInDim S8192x1 ![0] bcast_S8192_S8192x1_0 (after ops_part4 (W4 m' c) (Proc.devRef .tc main_v204) : (⟨S8192, .i32⟩ : BufTy).Contents (Elt Ideal))⟩, ⟨S8192x1, broadcastInDim S8192x1 ![0] bcast_S8192_S8192x1_0 (after ops_part4 (W4 m' c) (Proc.devRef .tc main_v209) : (⟨S8192, .i32⟩ : BufTy).Contents (Elt Ideal))⟩] concatenates_S8192x1_S8192x1_S8192x2_d1)) transposes_S512x8192_S8192x512_1_0 : (⟨S8192x512, .f32⟩ : BufTy).Contents (Elt Ideal))
  generalize W4 m' c = X
  after_results_simp <;> rfl

set_option maxHeartbeats 1000000 in
/-- The coordinate after the negative-index wrap. -/
theorem R_sel_v219 : (R m' c main_v219 : (⟨S8192, .i32⟩ : BufTy).Contents (Elt Ideal))
    = (select (cmpi .slt (R m' c main_v141 : (⟨S8192, .i32⟩ : BufTy).Contents (Elt Ideal)) (broadcastInDim S8192 ![] bcast_S_S8192 (constantI S_ 32 0#32) : (⟨S8192, .i32⟩ : BufTy).Contents (Elt Ideal))) (addi (R m' c main_v141 : (⟨S8192, .i32⟩ : BufTy).Contents (Elt Ideal)) (broadcastInDim S8192 ![] bcast_S_S8192 (constantI S_ 32 28#32) : (⟨S8192, .i32⟩ : BufTy).Contents (Elt Ideal))) (R m' c main_v141 : (⟨S8192, .i32⟩ : BufTy).Contents (Elt Ideal)) : (⟨S8192, .i32⟩ : BufTy).Contents (Elt Ideal)) := by
  rw [R_W5 m' c main_v219 (by decide) (by decide) (by decide) (by decide) (by decide),
    R_W4 m' c main_v141 (by decide) (by decide) (by decide) (by decide) (by decide) (by decide)]
  show (after ops_part4 (W4 m' c) (Proc.devRef .tc main_v219) : (⟨S8192, .i32⟩ : BufTy).Contents (Elt Ideal))
    = (select (cmpi .slt (W4 m' c (Proc.devRef .tc main_v141) : (⟨S8192, .i32⟩ : BufTy).Contents (Elt Ideal)) (broadcastInDim S8192 ![] bcast_S_S8192 (constantI S_ 32 0#32) : (⟨S8192, .i32⟩ : BufTy).Contents (Elt Ideal))) (addi (W4 m' c (Proc.devRef .tc main_v141) : (⟨S8192, .i32⟩ : BufTy).Contents (Elt Ideal)) (broadcastInDim S8192 ![] bcast_S_S8192 (constantI S_ 32 28#32) : (⟨S8192, .i32⟩ : BufTy).Contents (Elt Ideal))) (W4 m' c (Proc.devRef .tc main_v141) : (⟨S8192, .i32⟩ : BufTy).Contents (Elt Ideal)) : (⟨S8192, .i32⟩ : BufTy).Contents (Elt Ideal))
  generalize W4 m' c = X
  after_results_simp <;> rfl

set_option maxHeartbeats 1000000 in
/-- The coordinate after the negative-index wrap. -/
theorem R_sel_v224 : (R m' c main_v224 : (⟨S8192, .i32⟩ : BufTy).Contents (Elt Ideal))
    = (select (cmpi .slt (R m' c main_v147 : (⟨S8192, .i32⟩ : BufTy).Contents (Elt Ideal)) (broadcastInDim S8192 ![] bcast_S_S8192 (constantI S_ 32 0#32) : (⟨S8192, .i32⟩ : BufTy).Contents (Elt Ideal))) (addi (R m' c main_v147 : (⟨S8192, .i32⟩ : BufTy).Contents (Elt Ideal)) (broadcastInDim S8192 ![] bcast_S_S8192 (constantI S_ 32 28#32) : (⟨S8192, .i32⟩ : BufTy).Contents (Elt Ideal))) (R m' c main_v147 : (⟨S8192, .i32⟩ : BufTy).Contents (Elt Ideal)) : (⟨S8192, .i32⟩ : BufTy).Contents (Elt Ideal)) := by
  rw [R_W5 m' c main_v224 (by decide) (by decide) (by decide) (by decide) (by decide),
    R_W4 m' c main_v147 (by decide) (by decide) (by decide) (by decide) (by decide) (by decide)]
  show (after ops_part4 (W4 m' c) (Proc.devRef .tc main_v224) : (⟨S8192, .i32⟩ : BufTy).Contents (Elt Ideal))
    = (select (cmpi .slt (W4 m' c (Proc.devRef .tc main_v147) : (⟨S8192, .i32⟩ : BufTy).Contents (Elt Ideal)) (broadcastInDim S8192 ![] bcast_S_S8192 (constantI S_ 32 0#32) : (⟨S8192, .i32⟩ : BufTy).Contents (Elt Ideal))) (addi (W4 m' c (Proc.devRef .tc main_v147) : (⟨S8192, .i32⟩ : BufTy).Contents (Elt Ideal)) (broadcastInDim S8192 ![] bcast_S_S8192 (constantI S_ 32 28#32) : (⟨S8192, .i32⟩ : BufTy).Contents (Elt Ideal))) (W4 m' c (Proc.devRef .tc main_v147) : (⟨S8192, .i32⟩ : BufTy).Contents (Elt Ideal)) : (⟨S8192, .i32⟩ : BufTy).Contents (Elt Ideal))
  generalize W4 m' c = X
  after_results_simp <;> rfl

set_option maxHeartbeats 1000000 in
/-- One corner's lookup: the map gathered at the wrapped points and transposed. -/
theorem R_tr_v229 : (R m' c main_v229 : (⟨S8192x512, .f32⟩ : BufTy).Contents (Elt Ideal))
    = (transpose S8192x512 [1, 0] (Host.gather gather_S512x28x28_S8192x2_S512x8192_0_12_n_n_12_1_51211 (R m' c main_v1 : (⟨S512x28x28, .f32⟩ : BufTy).Contents (Elt Ideal)) (concatenate S8192x2 1 [⟨S8192x1, broadcastInDim S8192x1 ![0] bcast_S8192_S8192x1_0 (R m' c main_v219 : (⟨S8192, .i32⟩ : BufTy).Contents (Elt Ideal))⟩, ⟨S8192x1, broadcastInDim S8192x1 ![0] bcast_S8192_S8192x1_0 (R m' c main_v224 : (⟨S8192, .i32⟩ : BufTy).Contents (Elt Ideal))⟩] concatenates_S8192x1_S8192x1_S8192x2_d1)) transposes_S512x8192_S8192x512_1_0 : (⟨S8192x512, .f32⟩ : BufTy).Contents (Elt Ideal)) := by
  rw [R_W5 m' c main_v229 (by decide) (by decide) (by decide) (by decide) (by decide),
    R_W4 m' c main_v1 (by decide) (by decide) (by decide) (by decide) (by decide) (by decide),
    R_W5 m' c main_v219 (by decide) (by decide) (by decide) (by decide) (by decide),
    R_W5 m' c main_v224 (by decide) (by decide) (by decide) (by decide) (by decide)]
  show (after ops_part4 (W4 m' c) (Proc.devRef .tc main_v229) : (⟨S8192x512, .f32⟩ : BufTy).Contents (Elt Ideal))
    = (transpose S8192x512 [1, 0] (Host.gather gather_S512x28x28_S8192x2_S512x8192_0_12_n_n_12_1_51211 (W4 m' c (Proc.devRef .tc main_v1) : (⟨S512x28x28, .f32⟩ : BufTy).Contents (Elt Ideal)) (concatenate S8192x2 1 [⟨S8192x1, broadcastInDim S8192x1 ![0] bcast_S8192_S8192x1_0 (after ops_part4 (W4 m' c) (Proc.devRef .tc main_v219) : (⟨S8192, .i32⟩ : BufTy).Contents (Elt Ideal))⟩, ⟨S8192x1, broadcastInDim S8192x1 ![0] bcast_S8192_S8192x1_0 (after ops_part4 (W4 m' c) (Proc.devRef .tc main_v224) : (⟨S8192, .i32⟩ : BufTy).Contents (Elt Ideal))⟩] concatenates_S8192x1_S8192x1_S8192x2_d1)) transposes_S512x8192_S8192x512_1_0 : (⟨S8192x512, .f32⟩ : BufTy).Contents (Elt Ideal))
  generalize W4 m' c = X
  after_results_simp <;> rfl

/-- The corner `(x1, y1)`'s lookup at vertex `v` and channel `ch`: the map at the corner point `(a, b)`. -/
theorem Q11_1_apply (v : Fin 8192) (ch : Fin 512) (a b : Fin 28)
    (ha : (wd S8192 (R m' c main_v137) (ix1 v)).toInt = a.val) (hb : (wd S8192 (R m' c main_v143) (ix1 v)).toInt = b.val) :
    fl S8192x512 (R m' c main_v184) (ix2 v ch) = fl S1x512x28x28 (m' ((c.tc : Thread nD τ).loc main_arg1)) (ix4 0 ch a b) := by
  dsimp only [fl, wd] at ha hb ⊢
  have hsx : ((R m' c main_v174 : (⟨S8192, .i32⟩ : BufTy).Contents (Elt Ideal)) (ix1 v)).toInt = a.val := by
    rw [R_sel_v174]
    have h0 : 0 ≤ ((R m' c main_v137 : (⟨S8192, .i32⟩ : BufTy).Contents (Elt Ideal)) (ix1 v)).toInt := by rw [ha]; exact Int.natCast_nonneg _
    rw [wrap_apply (R m' c main_v137 : (⟨S8192, .i32⟩ : BufTy).Contents (Elt Ideal)) _ _ (ix1 v) (splat_apply _ _ _) h0]
    exact ha
  have hsy : ((R m' c main_v179 : (⟨S8192, .i32⟩ : BufTy).Contents (Elt Ideal)) (ix1 v)).toInt = b.val := by
    rw [R_sel_v179]
    have h0 : 0 ≤ ((R m' c main_v143 : (⟨S8192, .i32⟩ : BufTy).Contents (Elt Ideal)) (ix1 v)).toInt := by rw [hb]; exact Int.natCast_nonneg _
    rw [wrap_apply (R m' c main_v143 : (⟨S8192, .i32⟩ : BufTy).Contents (Elt Ideal)) _ _ (ix1 v) (splat_apply _ _ _) h0]
    exact hb
  rw [R_tr_v184, R_map1, R_arg m' c main_arg1 (by decide) (by decide) (by decide) (by decide) (by decide) (by decide) (by decide) (by decide) (by decide) (by decide)]
  refine (gathered_apply (α := EReal) (C := 512) (s := 28) (N := 8192) (by decide) _ _ _ _ _ _ _ v ch a b hsx hsy).trans ?_
  exact dropUnit_apply _ _ ch a b

/-- The corner `(x1, y2)`'s lookup at vertex `v` and channel `ch`: the map at the corner point `(a, b)`. -/
theorem Q12_1_apply (v : Fin 8192) (ch : Fin 512) (a b : Fin 28)
    (ha : (wd S8192 (R m' c main_v137) (ix1 v)).toInt = a.val) (hb : (wd S8192 (R m' c main_v147) (ix1 v)).toInt = b.val) :
    fl S8192x512 (R m' c main_v199) (ix2 v ch) = fl S1x512x28x28 (m' ((c.tc : Thread nD τ).loc main_arg1)) (ix4 0 ch a b) := by
  dsimp only [fl, wd] at ha hb ⊢
  have hsx : ((R m' c main_v189 : (⟨S8192, .i32⟩ : BufTy).Contents (Elt Ideal)) (ix1 v)).toInt = a.val := by
    rw [R_sel_v189]
    have h0 : 0 ≤ ((R m' c main_v137 : (⟨S8192, .i32⟩ : BufTy).Contents (Elt Ideal)) (ix1 v)).toInt := by rw [ha]; exact Int.natCast_nonneg _
    rw [wrap_apply (R m' c main_v137 : (⟨S8192, .i32⟩ : BufTy).Contents (Elt Ideal)) _ _ (ix1 v) (splat_apply _ _ _) h0]
    exact ha
  have hsy : ((R m' c main_v194 : (⟨S8192, .i32⟩ : BufTy).Contents (Elt Ideal)) (ix1 v)).toInt = b.val := by
    rw [R_sel_v194]
    have h0 : 0 ≤ ((R m' c main_v147 : (⟨S8192, .i32⟩ : BufTy).Contents (Elt Ideal)) (ix1 v)).toInt := by rw [hb]; exact Int.natCast_nonneg _
    rw [wrap_apply (R m' c main_v147 : (⟨S8192, .i32⟩ : BufTy).Contents (Elt Ideal)) _ _ (ix1 v) (splat_apply _ _ _) h0]
    exact hb
  rw [R_tr_v199, R_map1, R_arg m' c main_arg1 (by decide) (by decide) (by decide) (by decide) (by decide) (by decide) (by decide) (by decide) (by decide) (by decide)]
  refine (gathered_apply (α := EReal) (C := 512) (s := 28) (N := 8192) (by decide) _ _ _ _ _ _ _ v ch a b hsx hsy).trans ?_
  exact dropUnit_apply _ _ ch a b

/-- The corner `(x2, y1)`'s lookup at vertex `v` and channel `ch`: the map at the corner point `(a, b)`. -/
theorem Q21_1_apply (v : Fin 8192) (ch : Fin 512) (a b : Fin 28)
    (ha : (wd S8192 (R m' c main_v141) (ix1 v)).toInt = a.val) (hb : (wd S8192 (R m' c main_v143) (ix1 v)).toInt = b.val) :
    fl S8192x512 (R m' c main_v214) (ix2 v ch) = fl S1x512x28x28 (m' ((c.tc : Thread nD τ).loc main_arg1)) (ix4 0 ch a b) := by
  dsimp only [fl, wd] at ha hb ⊢
  have hsx : ((R m' c main_v204 : (⟨S8192, .i32⟩ : BufTy).Contents (Elt Ideal)) (ix1 v)).toInt = a.val := by
    rw [R_sel_v204]
    have h0 : 0 ≤ ((R m' c main_v141 : (⟨S8192, .i32⟩ : BufTy).Contents (Elt Ideal)) (ix1 v)).toInt := by rw [ha]; exact Int.natCast_nonneg _
    rw [wrap_apply (R m' c main_v141 : (⟨S8192, .i32⟩ : BufTy).Contents (Elt Ideal)) _ _ (ix1 v) (splat_apply _ _ _) h0]
    exact ha
  have hsy : ((R m' c main_v209 : (⟨S8192, .i32⟩ : BufTy).Contents (Elt Ideal)) (ix1 v)).toInt = b.val := by
    rw [R_sel_v209]
    have h0 : 0 ≤ ((R m' c main_v143 : (⟨S8192, .i32⟩ : BufTy).Contents (Elt Ideal)) (ix1 v)).toInt := by rw [hb]; exact Int.natCast_nonneg _
    rw [wrap_apply (R m' c main_v143 : (⟨S8192, .i32⟩ : BufTy).Contents (Elt Ideal)) _ _ (ix1 v) (splat_apply _ _ _) h0]
    exact hb
  rw [R_tr_v214, R_map1, R_arg m' c main_arg1 (by decide) (by decide) (by decide) (by decide) (by decide) (by decide) (by decide) (by decide) (by decide) (by decide)]
  refine (gathered_apply (α := EReal) (C := 512) (s := 28) (N := 8192) (by decide) _ _ _ _ _ _ _ v ch a b hsx hsy).trans ?_
  exact dropUnit_apply _ _ ch a b

/-- The corner `(x2, y2)`'s lookup at vertex `v` and channel `ch`: the map at the corner point `(a, b)`. -/
theorem Q22_1_apply (v : Fin 8192) (ch : Fin 512) (a b : Fin 28)
    (ha : (wd S8192 (R m' c main_v141) (ix1 v)).toInt = a.val) (hb : (wd S8192 (R m' c main_v147) (ix1 v)).toInt = b.val) :
    fl S8192x512 (R m' c main_v229) (ix2 v ch) = fl S1x512x28x28 (m' ((c.tc : Thread nD τ).loc main_arg1)) (ix4 0 ch a b) := by
  dsimp only [fl, wd] at ha hb ⊢
  have hsx : ((R m' c main_v219 : (⟨S8192, .i32⟩ : BufTy).Contents (Elt Ideal)) (ix1 v)).toInt = a.val := by
    rw [R_sel_v219]
    have h0 : 0 ≤ ((R m' c main_v141 : (⟨S8192, .i32⟩ : BufTy).Contents (Elt Ideal)) (ix1 v)).toInt := by rw [ha]; exact Int.natCast_nonneg _
    rw [wrap_apply (R m' c main_v141 : (⟨S8192, .i32⟩ : BufTy).Contents (Elt Ideal)) _ _ (ix1 v) (splat_apply _ _ _) h0]
    exact ha
  have hsy : ((R m' c main_v224 : (⟨S8192, .i32⟩ : BufTy).Contents (Elt Ideal)) (ix1 v)).toInt = b.val := by
    rw [R_sel_v224]
    have h0 : 0 ≤ ((R m' c main_v147 : (⟨S8192, .i32⟩ : BufTy).Contents (Elt Ideal)) (ix1 v)).toInt := by rw [hb]; exact Int.natCast_nonneg _
    rw [wrap_apply (R m' c main_v147 : (⟨S8192, .i32⟩ : BufTy).Contents (Elt Ideal)) _ _ (ix1 v) (splat_apply _ _ _) h0]
    exact hb
  rw [R_tr_v229, R_map1, R_arg m' c main_arg1 (by decide) (by decide) (by decide) (by decide) (by decide) (by decide) (by decide) (by decide) (by decide) (by decide)]
  refine (gathered_apply (α := EReal) (C := 512) (s := 28) (N := 8192) (by decide) _ _ _ _ _ _ _ v ch a b hsx hsy).trans ?_
  exact dropUnit_apply _ _ ch a b

set_option maxHeartbeats 1000000 in
/-- The aligned block: the four weighted lookups added, in the order the program adds them. -/
theorem R_sum1 : (R m' c main_v240 : (⟨S8192x512, .f32⟩ : BufTy).Contents (Elt Ideal))
    = (addf (F := Ideal) (s := S8192x512) (φ := .f32) (addf (F := Ideal) (s := S8192x512) (φ := .f32) (addf (F := Ideal) (s := S8192x512) (φ := .f32) (mulf (F := Ideal) (s := S8192x512) (φ := .f32) (broadcastInDim S8192x512 ![0, 1] bcast_S8192x1_S8192x512_0_1 (R m' c main_v154 : (⟨S8192x1, .f32⟩ : BufTy).Contents (Elt Ideal)) : (⟨S8192x512, .f32⟩ : BufTy).Contents (Elt Ideal)) (R m' c main_v184 : (⟨S8192x512, .f32⟩ : BufTy).Contents (Elt Ideal))) (mulf (F := Ideal) (s := S8192x512) (φ := .f32) (broadcastInDim S8192x512 ![0, 1] bcast_S8192x1_S8192x512_0_1 (R m' c main_v164 : (⟨S8192x1, .f32⟩ : BufTy).Contents (Elt Ideal)) : (⟨S8192x512, .f32⟩ : BufTy).Contents (Elt Ideal)) (R m' c main_v214 : (⟨S8192x512, .f32⟩ : BufTy).Contents (Elt Ideal)))) (mulf (F := Ideal) (s := S8192x512) (φ := .f32) (broadcastInDim S8192x512 ![0, 1] bcast_S8192x1_S8192x512_0_1 (R m' c main_v159 : (⟨S8192x1, .f32⟩ : BufTy).Contents (Elt Ideal)) : (⟨S8192x512, .f32⟩ : BufTy).Contents (Elt Ideal)) (R m' c main_v199 : (⟨S8192x512, .f32⟩ : BufTy).Contents (Elt Ideal)))) (mulf (F := Ideal) (s := S8192x512) (φ := .f32) (broadcastInDim S8192x512 ![0, 1] bcast_S8192x1_S8192x512_0_1 (R m' c main_v169 : (⟨S8192x1, .f32⟩ : BufTy).Contents (Elt Ideal)) : (⟨S8192x512, .f32⟩ : BufTy).Contents (Elt Ideal)) (R m' c main_v229 : (⟨S8192x512, .f32⟩ : BufTy).Contents (Elt Ideal))) : (⟨S8192x512, .f32⟩ : BufTy).Contents (Elt Ideal)) := by
  rw [R_W5 m' c main_v240 (by decide) (by decide) (by decide) (by decide) (by decide),
    R_W4 m' c main_v154 (by decide) (by decide) (by decide) (by decide) (by decide) (by decide),
    R_W4 m' c main_v184 (by decide) (by decide) (by decide) (by decide) (by decide) (by decide),
    R_W4 m' c main_v164 (by decide) (by decide) (by decide) (by decide) (by decide) (by decide),
    R_W5 m' c main_v214 (by decide) (by decide) (by decide) (by decide) (by decide),
    R_W4 m' c main_v159 (by decide) (by decide) (by decide) (by decide) (by decide) (by decide),
    R_W4 m' c main_v199 (by decide) (by decide) (by decide) (by decide) (by decide) (by decide),
    R_W4 m' c main_v169 (by decide) (by decide) (by decide) (by decide) (by decide) (by decide),
    R_W5 m' c main_v229 (by decide) (by decide) (by decide) (by decide) (by decide)]
  show (after ops_part4 (W4 m' c) (Proc.devRef .tc main_v240) : (⟨S8192x512, .f32⟩ : BufTy).Contents (Elt Ideal))
    = (addf (F := Ideal) (s := S8192x512) (φ := .f32) (addf (F := Ideal) (s := S8192x512) (φ := .f32) (addf (F := Ideal) (s := S8192x512) (φ := .f32) (mulf (F := Ideal) (s := S8192x512) (φ := .f32) (broadcastInDim S8192x512 ![0, 1] bcast_S8192x1_S8192x512_0_1 (W4 m' c (Proc.devRef .tc main_v154) : (⟨S8192x1, .f32⟩ : BufTy).Contents (Elt Ideal)) : (⟨S8192x512, .f32⟩ : BufTy).Contents (Elt Ideal)) (W4 m' c (Proc.devRef .tc main_v184) : (⟨S8192x512, .f32⟩ : BufTy).Contents (Elt Ideal))) (mulf (F := Ideal) (s := S8192x512) (φ := .f32) (broadcastInDim S8192x512 ![0, 1] bcast_S8192x1_S8192x512_0_1 (W4 m' c (Proc.devRef .tc main_v164) : (⟨S8192x1, .f32⟩ : BufTy).Contents (Elt Ideal)) : (⟨S8192x512, .f32⟩ : BufTy).Contents (Elt Ideal)) (after ops_part4 (W4 m' c) (Proc.devRef .tc main_v214) : (⟨S8192x512, .f32⟩ : BufTy).Contents (Elt Ideal)))) (mulf (F := Ideal) (s := S8192x512) (φ := .f32) (broadcastInDim S8192x512 ![0, 1] bcast_S8192x1_S8192x512_0_1 (W4 m' c (Proc.devRef .tc main_v159) : (⟨S8192x1, .f32⟩ : BufTy).Contents (Elt Ideal)) : (⟨S8192x512, .f32⟩ : BufTy).Contents (Elt Ideal)) (W4 m' c (Proc.devRef .tc main_v199) : (⟨S8192x512, .f32⟩ : BufTy).Contents (Elt Ideal)))) (mulf (F := Ideal) (s := S8192x512) (φ := .f32) (broadcastInDim S8192x512 ![0, 1] bcast_S8192x1_S8192x512_0_1 (W4 m' c (Proc.devRef .tc main_v169) : (⟨S8192x1, .f32⟩ : BufTy).Contents (Elt Ideal)) : (⟨S8192x512, .f32⟩ : BufTy).Contents (Elt Ideal)) (after ops_part4 (W4 m' c) (Proc.devRef .tc main_v229) : (⟨S8192x512, .f32⟩ : BufTy).Contents (Elt Ideal))) : (⟨S8192x512, .f32⟩ : BufTy).Contents (Elt Ideal))
  generalize W4 m' c = X
  after_results_simp <;> rfl

/-- The aligned block at vertex `v` and channel `ch`: the four weights times the four lookups. -/
theorem sum1_apply (v : Fin 8192) (ch : Fin 512) :
    fl S8192x512 (R m' c main_v240) (ix2 v ch)
      = ((fl S8192 (R m' c main_v153) (ix1 v) * fl S8192x512 (R m' c main_v184) (ix2 v ch) + fl S8192 (R m' c main_v163) (ix1 v) * fl S8192x512 (R m' c main_v214) (ix2 v ch))
          + fl S8192 (R m' c main_v158) (ix1 v) * fl S8192x512 (R m' c main_v199) (ix2 v ch)) + fl S8192 (R m' c main_v168) (ix1 v) * fl S8192x512 (R m' c main_v229) (ix2 v ch) := by
  dsimp only [fl]
  rw [R_sum1]
  rw [addf_apply, addf_apply, addf_apply, mulf_apply, mulf_apply, mulf_apply, mulf_apply]
  rw [column_bcast_apply (N := 8192) (C := 512) (by decide), column_bcast_apply (N := 8192) (C := 512) (by decide),
    column_bcast_apply (N := 8192) (C := 512) (by decide), column_bcast_apply (N := 8192) (C := 512) (by decide)]
  rw [R_col_v154, R_col_v164, R_col_v159, R_col_v169]
  rw [column_apply, column_apply, column_apply, column_apply]

/-- The aligned block of map 1 at `(v, ch)`, the corner coordinates given as cells of the map. -/
theorem aligned1_cells (v : Fin 8192) (ch : Fin 512) (X1 X2 Y1 Y2 : Fin 28)
    (e1 : (wd S8192 (R m' c main_v137) (ix1 v)).toInt = X1.val) (e2 : (wd S8192 (R m' c main_v141) (ix1 v)).toInt = X2.val)
    (e3 : (wd S8192 (R m' c main_v143) (ix1 v)).toInt = Y1.val) (e4 : (wd S8192 (R m' c main_v147) (ix1 v)).toInt = Y2.val) :
    fl S8192x512 (R m' c main_v240) (ix2 v ch)
      = ((fl S8192 (R m' c main_v153) (ix1 v) * fl S1x512x28x28 (m' ((c.tc : Thread nD τ).loc main_arg1)) (ix4 0 ch X1 Y1)
          + fl S8192 (R m' c main_v163) (ix1 v) * fl S1x512x28x28 (m' ((c.tc : Thread nD τ).loc main_arg1)) (ix4 0 ch X2 Y1))
          + fl S8192 (R m' c main_v158) (ix1 v) * fl S1x512x28x28 (m' ((c.tc : Thread nD τ).loc main_arg1)) (ix4 0 ch X1 Y2))
          + fl S8192 (R m' c main_v168) (ix1 v) * fl S1x512x28x28 (m' ((c.tc : Thread nD τ).loc main_arg1)) (ix4 0 ch X2 Y2) := by
  rw [sum1_apply, Q11_1_apply m' c v ch X1 Y1 e1 e3, Q21_1_apply m' c v ch X2 Y1 e2 e3,
    Q12_1_apply m' c v ch X1 Y2 e1 e4, Q22_1_apply m' c v ch X2 Y2 e2 e4]

set_option maxHeartbeats 1000000 in
/-- The same with the cells read off the coordinate buffers, each coordinate inside the map. -/
theorem aligned1_apply (v : Fin 8192) (ch : Fin 512)
    (hx1 : 0 ≤ (wd S8192 (R m' c main_v137) (ix1 v)).toInt ∧ (wd S8192 (R m' c main_v137) (ix1 v)).toInt < 28)
    (hx2 : 0 ≤ (wd S8192 (R m' c main_v141) (ix1 v)).toInt ∧ (wd S8192 (R m' c main_v141) (ix1 v)).toInt < 28)
    (hy1 : 0 ≤ (wd S8192 (R m' c main_v143) (ix1 v)).toInt ∧ (wd S8192 (R m' c main_v143) (ix1 v)).toInt < 28)
    (hy2 : 0 ≤ (wd S8192 (R m' c main_v147) (ix1 v)).toInt ∧ (wd S8192 (R m' c main_v147) (ix1 v)).toInt < 28) :
    fl S8192x512 (R m' c main_v240) (ix2 v ch)
      = ((fl S8192 (R m' c main_v153) (ix1 v) * fl S1x512x28x28 (m' ((c.tc : Thread nD τ).loc main_arg1)) (ix4 0 ch ⟨(wd S8192 (R m' c main_v137) (ix1 v)).toInt.toNat, by omega⟩ ⟨(wd S8192 (R m' c main_v143) (ix1 v)).toInt.toNat, by omega⟩)
          + fl S8192 (R m' c main_v163) (ix1 v) * fl S1x512x28x28 (m' ((c.tc : Thread nD τ).loc main_arg1)) (ix4 0 ch ⟨(wd S8192 (R m' c main_v141) (ix1 v)).toInt.toNat, by omega⟩ ⟨(wd S8192 (R m' c main_v143) (ix1 v)).toInt.toNat, by omega⟩))
          + fl S8192 (R m' c main_v158) (ix1 v) * fl S1x512x28x28 (m' ((c.tc : Thread nD τ).loc main_arg1)) (ix4 0 ch ⟨(wd S8192 (R m' c main_v137) (ix1 v)).toInt.toNat, by omega⟩ ⟨(wd S8192 (R m' c main_v147) (ix1 v)).toInt.toNat, by omega⟩))
          + fl S8192 (R m' c main_v168) (ix1 v) * fl S1x512x28x28 (m' ((c.tc : Thread nD τ).loc main_arg1)) (ix4 0 ch ⟨(wd S8192 (R m' c main_v141) (ix1 v)).toInt.toNat, by omega⟩ ⟨(wd S8192 (R m' c main_v147) (ix1 v)).toInt.toNat, by omega⟩) :=
  aligned1_cells m' c v ch ⟨(wd S8192 (R m' c main_v137) (ix1 v)).toInt.toNat, by omega⟩ ⟨(wd S8192 (R m' c main_v141) (ix1 v)).toInt.toNat, by omega⟩
    ⟨(wd S8192 (R m' c main_v143) (ix1 v)).toInt.toNat, by omega⟩ ⟨(wd S8192 (R m' c main_v147) (ix1 v)).toInt.toNat, by omega⟩ (Int.toNat_of_nonneg hx1.1).symm (Int.toNat_of_nonneg hx2.1).symm
    (Int.toNat_of_nonneg hy1.1).symm (Int.toNat_of_nonneg hy2.1).symm

end Cert.ReferenceIdeal.HandRead

end
-- ==== Proof.Ref.Map2.lean ====
/-
  One feature map's aligned block, read at a vertex and a channel.

  For each of the four corners `(x1, y1)`, `(x1, y2)`, `(x2, y1)`, `(x2, y2)` the reference looks the map up at the
  vertex's corner point (the coordinates through the negative-index wrap, the points gathered, the result
  transposed), scales the lookup by the corner's weight broadcast along the channels, and adds the four products.
  With the corner coordinates inside the map, the block at `(v, ch)` is the weighted sum of the map's values at
  channel `ch` and the four corner points.
-/
import proofs.«120270_j2259152797813_2_alg».proof.Proof.Ref.Proj
import proofs.«120270_j2259152797813_2_alg».proof.Proof.Ref.Corner

set_option maxRecDepth 8192

noncomputable section

namespace Cert.ReferenceIdeal.HandRead

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open scoped BigOperators

variable (m' : (ℓ : Loc nD τ sig) → Buf (Elt Ideal) ℓ) (c : Dev nD)

/-- A map `[1, C, s, s]` viewed `[C, s, s]` reads `(ch, a, b)` at `(0, ch, a, b)`. -/
private theorem dropUnit_apply {α : Type} {C s : Nat} (A : (⟨4, ![1, C, s, s]⟩ : Shape).Idx → α)
    (h : (⟨4, ![1, C, s, s]⟩ : Shape).ShapeCasts ⟨3, ![C, s, s]⟩) (ch : Fin C) (a b : Fin s) :
    shapeCast ⟨3, ![C, s, s]⟩ A h (ix3 ch a b) = A (ix4 0 ch a b) :=
  shapeCast_apply A h (ix3 ch a b) (ix4 0 ch a b) (by
    rw [Shape.rowMajor_val_four, Shape.rowMajor_val_three]
    show ((0 * C + ch.val) * s + a.val) * s + b.val = (ch.val * s + a.val) * s + b.val
    simp)

set_option maxHeartbeats 1000000 in
/-- The feature map with its leading unit axis dropped. -/
theorem R_map2 : (R m' c main_v2 : (⟨S1024x14x14, .f32⟩ : BufTy).Contents (Elt Ideal))
    = (shapeCast S1024x14x14 (R m' c main_arg2 : (⟨S1x1024x14x14, .f32⟩ : BufTy).Contents (Elt Ideal)) shapeCasts_S1x1024x14x14_S1024x14x14 : (⟨S1024x14x14, .f32⟩ : BufTy).Contents (Elt Ideal)) := by
  rw [R_W1 m' c main_v2 (by decide) (by decide) (by decide) (by decide) (by decide) (by decide) (by decide) (by decide) (by decide),
    R_W0 m' c main_arg2 (by decide) (by decide) (by decide) (by decide) (by decide) (by decide) (by decide) (by decide) (by decide) (by decide)]
  show (after ops_part0 (W0 m' c) (Proc.devRef .tc main_v2) : (⟨S1024x14x14, .f32⟩ : BufTy).Contents (Elt Ideal))
    = (shapeCast S1024x14x14 (W0 m' c (Proc.devRef .tc main_arg2) : (⟨S1x1024x14x14, .f32⟩ : BufTy).Contents (Elt Ideal)) shapeCasts_S1x1024x14x14_S1024x14x14 : (⟨S1024x14x14, .f32⟩ : BufTy).Contents (Elt Ideal))
  generalize W0 m' c = X
  after_results_simp <;> rfl

set_option maxHeartbeats 1000000 in
/-- The weight vector made a column. -/
theorem R_col_v263 : (R m' c main_v263 : (⟨S8192x1, .f32⟩ : BufTy).Contents (Elt Ideal))
    = (broadcastInDim S8192x1 ![0] bcast_S8192_S8192x1_0 (R m' c main_v262 : (⟨S8192, .f32⟩ : BufTy).Contents (Elt Ideal)) : (⟨S8192x1, .f32⟩ : BufTy).Contents (Elt Ideal)) := by
  rw [R_W6 m' c main_v263 (by decide) (by decide) (by decide) (by decide),
    R_W6 m' c main_v262 (by decide) (by decide) (by decide) (by decide)]
  show (after ops_part5 (W5 m' c) (Proc.devRef .tc main_v263) : (⟨S8192x1, .f32⟩ : BufTy).Contents (Elt Ideal))
    = (broadcastInDim S8192x1 ![0] bcast_S8192_S8192x1_0 (after ops_part5 (W5 m' c) (Proc.devRef .tc main_v262) : (⟨S8192, .f32⟩ : BufTy).Contents (Elt Ideal)) : (⟨S8192x1, .f32⟩ : BufTy).Contents (Elt Ideal))
  generalize W5 m' c = X
  after_results_simp <;> rfl

set_option maxHeartbeats 1000000 in
/-- The weight vector made a column. -/
theorem R_col_v268 : (R m' c main_v268 : (⟨S8192x1, .f32⟩ : BufTy).Contents (Elt Ideal))
    = (broadcastInDim S8192x1 ![0] bcast_S8192_S8192x1_0 (R m' c main_v267 : (⟨S8192, .f32⟩ : BufTy).Contents (Elt Ideal)) : (⟨S8192x1, .f32⟩ : BufTy).Contents (Elt Ideal)) := by
  rw [R_W6 m' c main_v268 (by decide) (by decide) (by decide) (by decide),
    R_W6 m' c main_v267 (by decide) (by decide) (by decide) (by decide)]
  show (after ops_part5 (W5 m' c) (Proc.devRef .tc main_v268) : (⟨S8192x1, .f32⟩ : BufTy).Contents (Elt Ideal))
    = (broadcastInDim S8192x1 ![0] bcast_S8192_S8192x1_0 (after ops_part5 (W5 m' c) (Proc.devRef .tc main_v267) : (⟨S8192, .f32⟩ : BufTy).Contents (Elt Ideal)) : (⟨S8192x1, .f32⟩ : BufTy).Contents (Elt Ideal))
  generalize W5 m' c = X
  after_results_simp <;> rfl

set_option maxHeartbeats 1000000 in
/-- The weight vector made a column. -/
theorem R_col_v273 : (R m' c main_v273 : (⟨S8192x1, .f32⟩ : BufTy).Contents (Elt Ideal))
    = (broadcastInDim S8192x1 ![0] bcast_S8192_S8192x1_0 (R m' c main_v272 : (⟨S8192, .f32⟩ : BufTy).Contents (Elt Ideal)) : (⟨S8192x1, .f32⟩ : BufTy).Contents (Elt Ideal)) := by
  rw [R_W6 m' c main_v273 (by decide) (by decide) (by decide) (by decide),
    R_W6 m' c main_v272 (by decide) (by decide) (by decide) (by decide)]
  show (after ops_part5 (W5 m' c) (Proc.devRef .tc main_v273) : (⟨S8192x1, .f32⟩ : BufTy).Contents (Elt Ideal))
    = (broadcastInDim S8192x1 ![0] bcast_S8192_S8192x1_0 (after ops_part5 (W5 m' c) (Proc.devRef .tc main_v272) : (⟨S8192, .f32⟩ : BufTy).Contents (Elt Ideal)) : (⟨S8192x1, .f32⟩ : BufTy).Contents (Elt Ideal))
  generalize W5 m' c = X
  after_results_simp <;> rfl

set_option maxHeartbeats 1000000 in
/-- The weight vector made a column. -/
theorem R_col_v278 : (R m' c main_v278 : (⟨S8192x1, .f32⟩ : BufTy).Contents (Elt Ideal))
    = (broadcastInDim S8192x1 ![0] bcast_S8192_S8192x1_0 (R m' c main_v277 : (⟨S8192, .f32⟩ : BufTy).Contents (Elt Ideal)) : (⟨S8192x1, .f32⟩ : BufTy).Contents (Elt Ideal)) := by
  rw [R_W6 m' c main_v278 (by decide) (by decide) (by decide) (by decide),
    R_W6 m' c main_v277 (by decide) (by decide) (by decide) (by decide)]
  show (after ops_part5 (W5 m' c) (Proc.devRef .tc main_v278) : (⟨S8192x1, .f32⟩ : BufTy).Contents (Elt Ideal))
    = (broadcastInDim S8192x1 ![0] bcast_S8192_S8192x1_0 (after ops_part5 (W5 m' c) (Proc.devRef .tc main_v277) : (⟨S8192, .f32⟩ : BufTy).Contents (Elt Ideal)) : (⟨S8192x1, .f32⟩ : BufTy).Contents (Elt Ideal))
  generalize W5 m' c = X
  after_results_simp <;> rfl

set_option maxHeartbeats 1000000 in
/-- The coordinate after the negative-index wrap. -/
theorem R_sel_v283 : (R m' c main_v283 : (⟨S8192, .i32⟩ : BufTy).Contents (Elt Ideal))
    = (select (cmpi .slt (R m' c main_v246 : (⟨S8192, .i32⟩ : BufTy).Contents (Elt Ideal)) (broadcastInDim S8192 ![] bcast_S_S8192 (constantI S_ 32 0#32) : (⟨S8192, .i32⟩ : BufTy).Contents (Elt Ideal))) (addi (R m' c main_v246 : (⟨S8192, .i32⟩ : BufTy).Contents (Elt Ideal)) (broadcastInDim S8192 ![] bcast_S_S8192 (constantI S_ 32 14#32) : (⟨S8192, .i32⟩ : BufTy).Contents (Elt Ideal))) (R m' c main_v246 : (⟨S8192, .i32⟩ : BufTy).Contents (Elt Ideal)) : (⟨S8192, .i32⟩ : BufTy).Contents (Elt Ideal)) := by
  rw [R_W6 m' c main_v283 (by decide) (by decide) (by decide) (by decide),
    R_W5 m' c main_v246 (by decide) (by decide) (by decide) (by decide) (by decide)]
  show (after ops_part5 (W5 m' c) (Proc.devRef .tc main_v283) : (⟨S8192, .i32⟩ : BufTy).Contents (Elt Ideal))
    = (select (cmpi .slt (W5 m' c (Proc.devRef .tc main_v246) : (⟨S8192, .i32⟩ : BufTy).Contents (Elt Ideal)) (broadcastInDim S8192 ![] bcast_S_S8192 (constantI S_ 32 0#32) : (⟨S8192, .i32⟩ : BufTy).Contents (Elt Ideal))) (addi (W5 m' c (Proc.devRef .tc main_v246) : (⟨S8192, .i32⟩ : BufTy).Contents (Elt Ideal)) (broadcastInDim S8192 ![] bcast_S_S8192 (constantI S_ 32 14#32) : (⟨S8192, .i32⟩ : BufTy).Contents (Elt Ideal))) (W5 m' c (Proc.devRef .tc main_v246) : (⟨S8192, .i32⟩ : BufTy).Contents (Elt Ideal)) : (⟨S8192, .i32⟩ : BufTy).Contents (Elt Ideal))
  generalize W5 m' c = X
  after_results_simp <;> rfl

set_option maxHeartbeats 1000000 in
/-- The coordinate after the negative-index wrap. -/
theorem R_sel_v288 : (R m' c main_v288 : (⟨S8192, .i32⟩ : BufTy).Contents (Elt Ideal))
    = (select (cmpi .slt (R m' c main_v252 : (⟨S8192, .i32⟩ : BufTy).Contents (Elt Ideal)) (broadcastInDim S8192 ![] bcast_S_S8192 (constantI S_ 32 0#32) : (⟨S8192, .i32⟩ : BufTy).Contents (Elt Ideal))) (addi (R m' c main_v252 : (⟨S8192, .i32⟩ : BufTy).Contents (Elt Ideal)) (broadcastInDim S8192 ![] bcast_S_S8192 (constantI S_ 32 14#32) : (⟨S8192, .i32⟩ : BufTy).Contents (Elt Ideal))) (R m' c main_v252 : (⟨S8192, .i32⟩ : BufTy).Contents (Elt Ideal)) : (⟨S8192, .i32⟩ : BufTy).Contents (Elt Ideal)) := by
  rw [R_W6 m' c main_v288 (by decide) (by decide) (by decide) (by decide),
    R_W6 m' c main_v252 (by decide) (by decide) (by decide) (by decide)]
  show (after ops_part5 (W5 m' c) (Proc.devRef .tc main_v288) : (⟨S8192, .i32⟩ : BufTy).Contents (Elt Ideal))
    = (select (cmpi .slt (after ops_part5 (W5 m' c) (Proc.devRef .tc main_v252) : (⟨S8192, .i32⟩ : BufTy).Contents (Elt Ideal)) (broadcastInDim S8192 ![] bcast_S_S8192 (constantI S_ 32 0#32) : (⟨S8192, .i32⟩ : BufTy).Contents (Elt Ideal))) (addi (after ops_part5 (W5 m' c) (Proc.devRef .tc main_v252) : (⟨S8192, .i32⟩ : BufTy).Contents (Elt Ideal)) (broadcastInDim S8192 ![] bcast_S_S8192 (constantI S_ 32 14#32) : (⟨S8192, .i32⟩ : BufTy).Contents (Elt Ideal))) (after ops_part5 (W5 m' c) (Proc.devRef .tc main_v252) : (⟨S8192, .i32⟩ : BufTy).Contents (Elt Ideal)) : (⟨S8192, .i32⟩ : BufTy).Contents (Elt Ideal))
  generalize W5 m' c = X
  after_results_simp <;> rfl

set_option maxHeartbeats 1000000 in
/-- One corner's lookup: the map gathered at the wrapped points and transposed. -/
theorem R_tr_v293 : (R m' c main_v293 : (⟨S8192x1024, .f32⟩ : BufTy).Contents (Elt Ideal))
    = (transpose S8192x1024 [1, 0] (Host.gather gather_S1024x14x14_S8192x2_S1024x8192_0_12_n_n_12_1_102411 (R m' c main_v2 : (⟨S1024x14x14, .f32⟩ : BufTy).Contents (Elt Ideal)) (concatenate S8192x2 1 [⟨S8192x1, broadcastInDim S8192x1 ![0] bcast_S8192_S8192x1_0 (R m' c main_v283 : (⟨S8192, .i32⟩ : BufTy).Contents (Elt Ideal))⟩, ⟨S8192x1, broadcastInDim S8192x1 ![0] bcast_S8192_S8192x1_0 (R m' c main_v288 : (⟨S8192, .i32⟩ : BufTy).Contents (Elt Ideal))⟩] concatenates_S8192x1_S8192x1_S8192x2_d1)) transposes_S1024x8192_S8192x1024_1_0 : (⟨S8192x1024, .f32⟩ : BufTy).Contents (Elt Ideal)) := by
  rw [R_W6 m' c main_v293 (by decide) (by decide) (by decide) (by decide),
    R_W5 m' c main_v2 (by decide) (by decide) (by decide) (by decide) (by decide),
    R_W6 m' c main_v283 (by decide) (by decide) (by decide) (by decide),
    R_W6 m' c main_v288 (by decide) (by decide) (by decide) (by decide)]
  show (after ops_part5 (W5 m' c) (Proc.devRef .tc main_v293) : (⟨S8192x1024, .f32⟩ : BufTy).Contents (Elt Ideal))
    = (transpose S8192x1024 [1, 0] (Host.gather gather_S1024x14x14_S8192x2_S1024x8192_0_12_n_n_12_1_102411 (W5 m' c (Proc.devRef .tc main_v2) : (⟨S1024x14x14, .f32⟩ : BufTy).Contents (Elt Ideal)) (concatenate S8192x2 1 [⟨S8192x1, broadcastInDim S8192x1 ![0] bcast_S8192_S8192x1_0 (after ops_part5 (W5 m' c) (Proc.devRef .tc main_v283) : (⟨S8192, .i32⟩ : BufTy).Contents (Elt Ideal))⟩, ⟨S8192x1, broadcastInDim S8192x1 ![0] bcast_S8192_S8192x1_0 (after ops_part5 (W5 m' c) (Proc.devRef .tc main_v288) : (⟨S8192, .i32⟩ : BufTy).Contents (Elt Ideal))⟩] concatenates_S8192x1_S8192x1_S8192x2_d1)) transposes_S1024x8192_S8192x1024_1_0 : (⟨S8192x1024, .f32⟩ : BufTy).Contents (Elt Ideal))
  generalize W5 m' c = X
  after_results_simp <;> rfl

set_option maxHeartbeats 1000000 in
/-- The coordinate after the negative-index wrap. -/
theorem R_sel_v298 : (R m' c main_v298 : (⟨S8192, .i32⟩ : BufTy).Contents (Elt Ideal))
    = (select (cmpi .slt (R m' c main_v246 : (⟨S8192, .i32⟩ : BufTy).Contents (Elt Ideal)) (broadcastInDim S8192 ![] bcast_S_S8192 (constantI S_ 32 0#32) : (⟨S8192, .i32⟩ : BufTy).Contents (Elt Ideal))) (addi (R m' c main_v246 : (⟨S8192, .i32⟩ : BufTy).Contents (Elt Ideal)) (broadcastInDim S8192 ![] bcast_S_S8192 (constantI S_ 32 14#32) : (⟨S8192, .i32⟩ : BufTy).Contents (Elt Ideal))) (R m' c main_v246 : (⟨S8192, .i32⟩ : BufTy).Contents (Elt Ideal)) : (⟨S8192, .i32⟩ : BufTy).Contents (Elt Ideal)) := by
  rw [R_W6 m' c main_v298 (by decide) (by decide) (by decide) (by decide),
    R_W5 m' c main_v246 (by decide) (by decide) (by decide) (by decide) (by decide)]
  show (after ops_part5 (W5 m' c) (Proc.devRef .tc main_v298) : (⟨S8192, .i32⟩ : BufTy).Contents (Elt Ideal))
    = (select (cmpi .slt (W5 m' c (Proc.devRef .tc main_v246) : (⟨S8192, .i32⟩ : BufTy).Contents (Elt Ideal)) (broadcastInDim S8192 ![] bcast_S_S8192 (constantI S_ 32 0#32) : (⟨S8192, .i32⟩ : BufTy).Contents (Elt Ideal))) (addi (W5 m' c (Proc.devRef .tc main_v246) : (⟨S8192, .i32⟩ : BufTy).Contents (Elt Ideal)) (broadcastInDim S8192 ![] bcast_S_S8192 (constantI S_ 32 14#32) : (⟨S8192, .i32⟩ : BufTy).Contents (Elt Ideal))) (W5 m' c (Proc.devRef .tc main_v246) : (⟨S8192, .i32⟩ : BufTy).Contents (Elt Ideal)) : (⟨S8192, .i32⟩ : BufTy).Contents (Elt Ideal))
  generalize W5 m' c = X
  after_results_simp <;> rfl

set_option maxHeartbeats 1000000 in
/-- The comparison of the coordinate with zero. -/
theorem R_cmp_v300 : (R m' c main_v300 : (⟨S8192, .i1⟩ : BufTy).Contents (Elt Ideal))
    = (cmpi .slt (R m' c main_v256 : (⟨S8192, .i32⟩ : BufTy).Contents (Elt Ideal)) (broadcastInDim S8192 ![] bcast_S_S8192 (constantI S_ 32 0#32) : (⟨S8192, .i32⟩ : BufTy).Contents (Elt Ideal)) : (⟨S8192, .i1⟩ : BufTy).Contents (Elt Ideal)) := by
  rw [R_W6 m' c main_v300 (by decide) (by decide) (by decide) (by decide),
    R_W6 m' c main_v256 (by decide) (by decide) (by decide) (by decide)]
  show (after ops_part5 (W5 m' c) (Proc.devRef .tc main_v300) : (⟨S8192, .i1⟩ : BufTy).Contents (Elt Ideal))
    = (cmpi .slt (after ops_part5 (W5 m' c) (Proc.devRef .tc main_v256) : (⟨S8192, .i32⟩ : BufTy).Contents (Elt Ideal)) (broadcastInDim S8192 ![] bcast_S_S8192 (constantI S_ 32 0#32) : (⟨S8192, .i32⟩ : BufTy).Contents (Elt Ideal)) : (⟨S8192, .i1⟩ : BufTy).Contents (Elt Ideal))
  generalize W5 m' c = X
  after_results_simp <;> rfl

set_option maxHeartbeats 1000000 in
/-- The coordinate after the negative-index wrap. -/
theorem R_sel_v303 : (R m' c main_v303 : (⟨S8192, .i32⟩ : BufTy).Contents (Elt Ideal))
    = (select ((R m' c main_v300 : (⟨S8192, .i1⟩ : BufTy).Contents (Elt Ideal))) (addi (R m' c main_v256 : (⟨S8192, .i32⟩ : BufTy).Contents (Elt Ideal)) (broadcastInDim S8192 ![] bcast_S_S8192 (constantI S_ 32 14#32) : (⟨S8192, .i32⟩ : BufTy).Contents (Elt Ideal))) (R m' c main_v256 : (⟨S8192, .i32⟩ : BufTy).Contents (Elt Ideal)) : (⟨S8192, .i32⟩ : BufTy).Contents (Elt Ideal)) := by
  rw [R_W7 m' c main_v303 (by decide) (by decide) (by decide),
    R_W6 m' c main_v256 (by decide) (by decide) (by decide) (by decide),
    R_W6 m' c main_v300 (by decide) (by decide) (by decide) (by decide)]
  show (after ops_part6 (W6 m' c) (Proc.devRef .tc main_v303) : (⟨S8192, .i32⟩ : BufTy).Contents (Elt Ideal))
    = (select ((W6 m' c (Proc.devRef .tc main_v300) : (⟨S8192, .i1⟩ : BufTy).Contents (Elt Ideal))) (addi (W6 m' c (Proc.devRef .tc main_v256) : (⟨S8192, .i32⟩ : BufTy).Contents (Elt Ideal)) (broadcastInDim S8192 ![] bcast_S_S8192 (constantI S_ 32 14#32) : (⟨S8192, .i32⟩ : BufTy).Contents (Elt Ideal))) (W6 m' c (Proc.devRef .tc main_v256) : (⟨S8192, .i32⟩ : BufTy).Contents (Elt Ideal)) : (⟨S8192, .i32⟩ : BufTy).Contents (Elt Ideal))
  generalize W6 m' c = X
  after_results_simp <;> rfl

set_option maxHeartbeats 1000000 in
/-- One corner's lookup: the map gathered at the wrapped points and transposed. -/
theorem R_tr_v308 : (R m' c main_v308 : (⟨S8192x1024, .f32⟩ : BufTy).Contents (Elt Ideal))
    = (transpose S8192x1024 [1, 0] (Host.gather gather_S1024x14x14_S8192x2_S1024x8192_0_12_n_n_12_1_102411 (R m' c main_v2 : (⟨S1024x14x14, .f32⟩ : BufTy).Contents (Elt Ideal)) (concatenate S8192x2 1 [⟨S8192x1, broadcastInDim S8192x1 ![0] bcast_S8192_S8192x1_0 (R m' c main_v298 : (⟨S8192, .i32⟩ : BufTy).Contents (Elt Ideal))⟩, ⟨S8192x1, broadcastInDim S8192x1 ![0] bcast_S8192_S8192x1_0 (R m' c main_v303 : (⟨S8192, .i32⟩ : BufTy).Contents (Elt Ideal))⟩] concatenates_S8192x1_S8192x1_S8192x2_d1)) transposes_S1024x8192_S8192x1024_1_0 : (⟨S8192x1024, .f32⟩ : BufTy).Contents (Elt Ideal)) := by
  rw [R_W7 m' c main_v308 (by decide) (by decide) (by decide),
    R_W6 m' c main_v2 (by decide) (by decide) (by decide) (by decide),
    R_W6 m' c main_v298 (by decide) (by decide) (by decide) (by decide),
    R_W7 m' c main_v303 (by decide) (by decide) (by decide)]
  show (after ops_part6 (W6 m' c) (Proc.devRef .tc main_v308) : (⟨S8192x1024, .f32⟩ : BufTy).Contents (Elt Ideal))
    = (transpose S8192x1024 [1, 0] (Host.gather gather_S1024x14x14_S8192x2_S1024x8192_0_12_n_n_12_1_102411 (W6 m' c (Proc.devRef .tc main_v2) : (⟨S1024x14x14, .f32⟩ : BufTy).Contents (Elt Ideal)) (concatenate S8192x2 1 [⟨S8192x1, broadcastInDim S8192x1 ![0] bcast_S8192_S8192x1_0 (W6 m' c (Proc.devRef .tc main_v298) : (⟨S8192, .i32⟩ : BufTy).Contents (Elt Ideal))⟩, ⟨S8192x1, broadcastInDim S8192x1 ![0] bcast_S8192_S8192x1_0 (after ops_part6 (W6 m' c) (Proc.devRef .tc main_v303) : (⟨S8192, .i32⟩ : BufTy).Contents (Elt Ideal))⟩] concatenates_S8192x1_S8192x1_S8192x2_d1)) transposes_S1024x8192_S8192x1024_1_0 : (⟨S8192x1024, .f32⟩ : BufTy).Contents (Elt Ideal))
  generalize W6 m' c = X
  after_results_simp <;> rfl

set_option maxHeartbeats 1000000 in
/-- The coordinate after the negative-index wrap. -/
theorem R_sel_v313 : (R m' c main_v313 : (⟨S8192, .i32⟩ : BufTy).Contents (Elt Ideal))
    = (select (cmpi .slt (R m' c main_v250 : (⟨S8192, .i32⟩ : BufTy).Contents (Elt Ideal)) (broadcastInDim S8192 ![] bcast_S_S8192 (constantI S_ 32 0#32) : (⟨S8192, .i32⟩ : BufTy).Contents (Elt Ideal))) (addi (R m' c main_v250 : (⟨S8192, .i32⟩ : BufTy).Contents (Elt Ideal)) (broadcastInDim S8192 ![] bcast_S_S8192 (constantI S_ 32 14#32) : (⟨S8192, .i32⟩ : BufTy).Contents (Elt Ideal))) (R m' c main_v250 : (⟨S8192, .i32⟩ : BufTy).Contents (Elt Ideal)) : (⟨S8192, .i32⟩ : BufTy).Contents (Elt Ideal)) := by
  rw [R_W7 m' c main_v313 (by decide) (by decide) (by decide),
    R_W6 m' c main_v250 (by decide) (by decide) (by decide) (by decide)]
  show (after ops_part6 (W6 m' c) (Proc.devRef .tc main_v313) : (⟨S8192, .i32⟩ : BufTy).Contents (Elt Ideal))
    = (select (cmpi .slt (W6 m' c (Proc.devRef .tc main_v250) : (⟨S8192, .i32⟩ : BufTy).Contents (Elt Ideal)) (broadcastInDim S8192 ![] bcast_S_S8192 (constantI S_ 32 0#32) : (⟨S8192, .i32⟩ : BufTy).Contents (Elt Ideal))) (addi (W6 m' c (Proc.devRef .tc main_v250) : (⟨S8192, .i32⟩ : BufTy).Contents (Elt Ideal)) (broadcastInDim S8192 ![] bcast_S_S8192 (constantI S_ 32 14#32) : (⟨S8192, .i32⟩ : BufTy).Contents (Elt Ideal))) (W6 m' c (Proc.devRef .tc main_v250) : (⟨S8192, .i32⟩ : BufTy).Contents (Elt Ideal)) : (⟨S8192, .i32⟩ : BufTy).Contents (Elt Ideal))
  generalize W6 m' c = X
  after_results_simp <;> rfl

set_option maxHeartbeats 1000000 in
/-- The coordinate after the negative-index wrap. -/
theorem R_sel_v318 : (R m' c main_v318 : (⟨S8192, .i32⟩ : BufTy).Contents (Elt Ideal))
    = (select (cmpi .slt (R m' c main_v252 : (⟨S8192, .i32⟩ : BufTy).Contents (Elt Ideal)) (broadcastInDim S8192 ![] bcast_S_S8192 (constantI S_ 32 0#32) : (⟨S8192, .i32⟩ : BufTy).Contents (Elt Ideal))) (addi (R m' c main_v252 : (⟨S8192, .i32⟩ : BufTy).Contents (Elt Ideal)) (broadcastInDim S8192 ![] bcast_S_S8192 (constantI S_ 32 14#32) : (⟨S8192, .i32⟩ : BufTy).Contents (Elt Ideal))) (R m' c main_v252 : (⟨S8192, .i32⟩ : BufTy).Contents (Elt Ideal)) : (⟨S8192, .i32⟩ : BufTy).Contents (Elt Ideal)) := by
  rw [R_W7 m' c main_v318 (by decide) (by decide) (by decide),
    R_W6 m' c main_v252 (by decide) (by decide) (by decide) (by decide)]
  show (after ops_part6 (W6 m' c) (Proc.devRef .tc main_v318) : (⟨S8192, .i32⟩ : BufTy).Contents (Elt Ideal))
    = (select (cmpi .slt (W6 m' c (Proc.devRef .tc main_v252) : (⟨S8192, .i32⟩ : BufTy).Contents (Elt Ideal)) (broadcastInDim S8192 ![] bcast_S_S8192 (constantI S_ 32 0#32) : (⟨S8192, .i32⟩ : BufTy).Contents (Elt Ideal))) (addi (W6 m' c (Proc.devRef .tc main_v252) : (⟨S8192, .i32⟩ : BufTy).Contents (Elt Ideal)) (broadcastInDim S8192 ![] bcast_S_S8192 (constantI S_ 32 14#32) : (⟨S8192, .i32⟩ : BufTy).Contents (Elt Ideal))) (W6 m' c (Proc.devRef .tc main_v252) : (⟨S8192, .i32⟩ : BufTy).Contents (Elt Ideal)) : (⟨S8192, .i32⟩ : BufTy).Contents (Elt Ideal))
  generalize W6 m' c = X
  after_results_simp <;> rfl

set_option maxHeartbeats 1000000 in
/-- One corner's lookup: the map gathered at the wrapped points and transposed. -/
theorem R_tr_v323 : (R m' c main_v323 : (⟨S8192x1024, .f32⟩ : BufTy).Contents (Elt Ideal))
    = (transpose S8192x1024 [1, 0] (Host.gather gather_S1024x14x14_S8192x2_S1024x8192_0_12_n_n_12_1_102411 (R m' c main_v2 : (⟨S1024x14x14, .f32⟩ : BufTy).Contents (Elt Ideal)) (concatenate S8192x2 1 [⟨S8192x1, broadcastInDim S8192x1 ![0] bcast_S8192_S8192x1_0 (R m' c main_v313 : (⟨S8192, .i32⟩ : BufTy).Contents (Elt Ideal))⟩, ⟨S8192x1, broadcastInDim S8192x1 ![0] bcast_S8192_S8192x1_0 (R m' c main_v318 : (⟨S8192, .i32⟩ : BufTy).Contents (Elt Ideal))⟩] concatenates_S8192x1_S8192x1_S8192x2_d1)) transposes_S1024x8192_S8192x1024_1_0 : (⟨S8192x1024, .f32⟩ : BufTy).Contents (Elt Ideal)) := by
  rw [R_W7 m' c main_v323 (by decide) (by decide) (by decide),
    R_W6 m' c main_v2 (by decide) (by decide) (by decide) (by decide),
    R_W7 m' c main_v313 (by decide) (by decide) (by decide),
    R_W7 m' c main_v318 (by decide) (by decide) (by decide)]
  show (after ops_part6 (W6 m' c) (Proc.devRef .tc main_v323) : (⟨S8192x1024, .f32⟩ : BufTy).Contents (Elt Ideal))
    = (transpose S8192x1024 [1, 0] (Host.gather gather_S1024x14x14_S8192x2_S1024x8192_0_12_n_n_12_1_102411 (W6 m' c (Proc.devRef .tc main_v2) : (⟨S1024x14x14, .f32⟩ : BufTy).Contents (Elt Ideal)) (concatenate S8192x2 1 [⟨S8192x1, broadcastInDim S8192x1 ![0] bcast_S8192_S8192x1_0 (after ops_part6 (W6 m' c) (Proc.devRef .tc main_v313) : (⟨S8192, .i32⟩ : BufTy).Contents (Elt Ideal))⟩, ⟨S8192x1, broadcastInDim S8192x1 ![0] bcast_S8192_S8192x1_0 (after ops_part6 (W6 m' c) (Proc.devRef .tc main_v318) : (⟨S8192, .i32⟩ : BufTy).Contents (Elt Ideal))⟩] concatenates_S8192x1_S8192x1_S8192x2_d1)) transposes_S1024x8192_S8192x1024_1_0 : (⟨S8192x1024, .f32⟩ : BufTy).Contents (Elt Ideal))
  generalize W6 m' c = X
  after_results_simp <;> rfl

set_option maxHeartbeats 1000000 in
/-- The coordinate after the negative-index wrap. -/
theorem R_sel_v328 : (R m' c main_v328 : (⟨S8192, .i32⟩ : BufTy).Contents (Elt Ideal))
    = (select (cmpi .slt (R m' c main_v250 : (⟨S8192, .i32⟩ : BufTy).Contents (Elt Ideal)) (broadcastInDim S8192 ![] bcast_S_S8192 (constantI S_ 32 0#32) : (⟨S8192, .i32⟩ : BufTy).Contents (Elt Ideal))) (addi (R m' c main_v250 : (⟨S8192, .i32⟩ : BufTy).Contents (Elt Ideal)) (broadcastInDim S8192 ![] bcast_S_S8192 (constantI S_ 32 14#32) : (⟨S8192, .i32⟩ : BufTy).Contents (Elt Ideal))) (R m' c main_v250 : (⟨S8192, .i32⟩ : BufTy).Contents (Elt Ideal)) : (⟨S8192, .i32⟩ : BufTy).Contents (Elt Ideal)) := by
  rw [R_W7 m' c main_v328 (by decide) (by decide) (by decide),
    R_W6 m' c main_v250 (by decide) (by decide) (by decide) (by decide)]
  show (after ops_part6 (W6 m' c) (Proc.devRef .tc main_v328) : (⟨S8192, .i32⟩ : BufTy).Contents (Elt Ideal))
    = (select (cmpi .slt (W6 m' c (Proc.devRef .tc main_v250) : (⟨S8192, .i32⟩ : BufTy).Contents (Elt Ideal)) (broadcastInDim S8192 ![] bcast_S_S8192 (constantI S_ 32 0#32) : (⟨S8192, .i32⟩ : BufTy).Contents (Elt Ideal))) (addi (W6 m' c (Proc.devRef .tc main_v250) : (⟨S8192, .i32⟩ : BufTy).Contents (Elt Ideal)) (broadcastInDim S8192 ![] bcast_S_S8192 (constantI S_ 32 14#32) : (⟨S8192, .i32⟩ : BufTy).Contents (Elt Ideal))) (W6 m' c (Proc.devRef .tc main_v250) : (⟨S8192, .i32⟩ : BufTy).Contents (Elt Ideal)) : (⟨S8192, .i32⟩ : BufTy).Contents (Elt Ideal))
  generalize W6 m' c = X
  after_results_simp <;> rfl

set_option maxHeartbeats 1000000 in
/-- The coordinate after the negative-index wrap. -/
theorem R_sel_v333 : (R m' c main_v333 : (⟨S8192, .i32⟩ : BufTy).Contents (Elt Ideal))
    = (select (cmpi .slt (R m' c main_v256 : (⟨S8192, .i32⟩ : BufTy).Contents (Elt Ideal)) (broadcastInDim S8192 ![] bcast_S_S8192 (constantI S_ 32 0#32) : (⟨S8192, .i32⟩ : BufTy).Contents (Elt Ideal))) (addi (R m' c main_v256 : (⟨S8192, .i32⟩ : BufTy).Contents (Elt Ideal)) (broadcastInDim S8192 ![] bcast_S_S8192 (constantI S_ 32 14#32) : (⟨S8192, .i32⟩ : BufTy).Contents (Elt Ideal))) (R m' c main_v256 : (⟨S8192, .i32⟩ : BufTy).Contents (Elt Ideal)) : (⟨S8192, .i32⟩ : BufTy).Contents (Elt Ideal)) := by
  rw [R_W7 m' c main_v333 (by decide) (by decide) (by decide),
    R_W6 m' c main_v256 (by decide) (by decide) (by decide) (by decide)]
  show (after ops_part6 (W6 m' c) (Proc.devRef .tc main_v333) : (⟨S8192, .i32⟩ : BufTy).Contents (Elt Ideal))
    = (select (cmpi .slt (W6 m' c (Proc.devRef .tc main_v256) : (⟨S8192, .i32⟩ : BufTy).Contents (Elt Ideal)) (broadcastInDim S8192 ![] bcast_S_S8192 (constantI S_ 32 0#32) : (⟨S8192, .i32⟩ : BufTy).Contents (Elt Ideal))) (addi (W6 m' c (Proc.devRef .tc main_v256) : (⟨S8192, .i32⟩ : BufTy).Contents (Elt Ideal)) (broadcastInDim S8192 ![] bcast_S_S8192 (constantI S_ 32 14#32) : (⟨S8192, .i32⟩ : BufTy).Contents (Elt Ideal))) (W6 m' c (Proc.devRef .tc main_v256) : (⟨S8192, .i32⟩ : BufTy).Contents (Elt Ideal)) : (⟨S8192, .i32⟩ : BufTy).Contents (Elt Ideal))
  generalize W6 m' c = X
  after_results_simp <;> rfl

set_option maxHeartbeats 1000000 in
/-- One corner's lookup: the map gathered at the wrapped points and transposed. -/
theorem R_tr_v338 : (R m' c main_v338 : (⟨S8192x1024, .f32⟩ : BufTy).Contents (Elt Ideal))
    = (transpose S8192x1024 [1, 0] (Host.gather gather_S1024x14x14_S8192x2_S1024x8192_0_12_n_n_12_1_102411 (R m' c main_v2 : (⟨S1024x14x14, .f32⟩ : BufTy).Contents (Elt Ideal)) (concatenate S8192x2 1 [⟨S8192x1, broadcastInDim S8192x1 ![0] bcast_S8192_S8192x1_0 (R m' c main_v328 : (⟨S8192, .i32⟩ : BufTy).Contents (Elt Ideal))⟩, ⟨S8192x1, broadcastInDim S8192x1 ![0] bcast_S8192_S8192x1_0 (R m' c main_v333 : (⟨S8192, .i32⟩ : BufTy).Contents (Elt Ideal))⟩] concatenates_S8192x1_S8192x1_S8192x2_d1)) transposes_S1024x8192_S8192x1024_1_0 : (⟨S8192x1024, .f32⟩ : BufTy).Contents (Elt Ideal)) := by
  rw [R_W7 m' c main_v338 (by decide) (by decide) (by decide),
    R_W6 m' c main_v2 (by decide) (by decide) (by decide) (by decide),
    R_W7 m' c main_v328 (by decide) (by decide) (by decide),
    R_W7 m' c main_v333 (by decide) (by decide) (by decide)]
  show (after ops_part6 (W6 m' c) (Proc.devRef .tc main_v338) : (⟨S8192x1024, .f32⟩ : BufTy).Contents (Elt Ideal))
    = (transpose S8192x1024 [1, 0] (Host.gather gather_S1024x14x14_S8192x2_S1024x8192_0_12_n_n_12_1_102411 (W6 m' c (Proc.devRef .tc main_v2) : (⟨S1024x14x14, .f32⟩ : BufTy).Contents (Elt Ideal)) (concatenate S8192x2 1 [⟨S8192x1, broadcastInDim S8192x1 ![0] bcast_S8192_S8192x1_0 (after ops_part6 (W6 m' c) (Proc.devRef .tc main_v328) : (⟨S8192, .i32⟩ : BufTy).Contents (Elt Ideal))⟩, ⟨S8192x1, broadcastInDim S8192x1 ![0] bcast_S8192_S8192x1_0 (after ops_part6 (W6 m' c) (Proc.devRef .tc main_v333) : (⟨S8192, .i32⟩ : BufTy).Contents (Elt Ideal))⟩] concatenates_S8192x1_S8192x1_S8192x2_d1)) transposes_S1024x8192_S8192x1024_1_0 : (⟨S8192x1024, .f32⟩ : BufTy).Contents (Elt Ideal))
  generalize W6 m' c = X
  after_results_simp <;> rfl

/-- The corner `(x1, y1)`'s lookup at vertex `v` and channel `ch`: the map at the corner point `(a, b)`. -/
theorem Q11_2_apply (v : Fin 8192) (ch : Fin 1024) (a b : Fin 14)
    (ha : (wd S8192 (R m' c main_v246) (ix1 v)).toInt = a.val) (hb : (wd S8192 (R m' c main_v252) (ix1 v)).toInt = b.val) :
    fl S8192x1024 (R m' c main_v293) (ix2 v ch) = fl S1x1024x14x14 (m' ((c.tc : Thread nD τ).loc main_arg2)) (ix4 0 ch a b) := by
  dsimp only [fl, wd] at ha hb ⊢
  have hsx : ((R m' c main_v283 : (⟨S8192, .i32⟩ : BufTy).Contents (Elt Ideal)) (ix1 v)).toInt = a.val := by
    rw [R_sel_v283]
    have h0 : 0 ≤ ((R m' c main_v246 : (⟨S8192, .i32⟩ : BufTy).Contents (Elt Ideal)) (ix1 v)).toInt := by rw [ha]; exact Int.natCast_nonneg _
    rw [wrap_apply (R m' c main_v246 : (⟨S8192, .i32⟩ : BufTy).Contents (Elt Ideal)) _ _ (ix1 v) (splat_apply _ _ _) h0]
    exact ha
  have hsy : ((R m' c main_v288 : (⟨S8192, .i32⟩ : BufTy).Contents (Elt Ideal)) (ix1 v)).toInt = b.val := by
    rw [R_sel_v288]
    have h0 : 0 ≤ ((R m' c main_v252 : (⟨S8192, .i32⟩ : BufTy).Contents (Elt Ideal)) (ix1 v)).toInt := by rw [hb]; exact Int.natCast_nonneg _
    rw [wrap_apply (R m' c main_v252 : (⟨S8192, .i32⟩ : BufTy).Contents (Elt Ideal)) _ _ (ix1 v) (splat_apply _ _ _) h0]
    exact hb
  rw [R_tr_v293, R_map2, R_arg m' c main_arg2 (by decide) (by decide) (by decide) (by decide) (by decide) (by decide) (by decide) (by decide) (by decide) (by decide)]
  refine (gathered_apply (α := EReal) (C := 1024) (s := 14) (N := 8192) (by decide) _ _ _ _ _ _ _ v ch a b hsx hsy).trans ?_
  exact dropUnit_apply _ _ ch a b

/-- The corner `(x1, y2)`'s lookup at vertex `v` and channel `ch`: the map at the corner point `(a, b)`. -/
theorem Q12_2_apply (v : Fin 8192) (ch : Fin 1024) (a b : Fin 14)
    (ha : (wd S8192 (R m' c main_v246) (ix1 v)).toInt = a.val) (hb : (wd S8192 (R m' c main_v256) (ix1 v)).toInt = b.val) :
    fl S8192x1024 (R m' c main_v308) (ix2 v ch) = fl S1x1024x14x14 (m' ((c.tc : Thread nD τ).loc main_arg2)) (ix4 0 ch a b) := by
  dsimp only [fl, wd] at ha hb ⊢
  have hsx : ((R m' c main_v298 : (⟨S8192, .i32⟩ : BufTy).Contents (Elt Ideal)) (ix1 v)).toInt = a.val := by
    rw [R_sel_v298]
    have h0 : 0 ≤ ((R m' c main_v246 : (⟨S8192, .i32⟩ : BufTy).Contents (Elt Ideal)) (ix1 v)).toInt := by rw [ha]; exact Int.natCast_nonneg _
    rw [wrap_apply (R m' c main_v246 : (⟨S8192, .i32⟩ : BufTy).Contents (Elt Ideal)) _ _ (ix1 v) (splat_apply _ _ _) h0]
    exact ha
  have hsy : ((R m' c main_v303 : (⟨S8192, .i32⟩ : BufTy).Contents (Elt Ideal)) (ix1 v)).toInt = b.val := by
    rw [R_sel_v303, R_cmp_v300]
    have h0 : 0 ≤ ((R m' c main_v256 : (⟨S8192, .i32⟩ : BufTy).Contents (Elt Ideal)) (ix1 v)).toInt := by rw [hb]; exact Int.natCast_nonneg _
    rw [wrap_apply (R m' c main_v256 : (⟨S8192, .i32⟩ : BufTy).Contents (Elt Ideal)) _ _ (ix1 v) (splat_apply _ _ _) h0]
    exact hb
  rw [R_tr_v308, R_map2, R_arg m' c main_arg2 (by decide) (by decide) (by decide) (by decide) (by decide) (by decide) (by decide) (by decide) (by decide) (by decide)]
  refine (gathered_apply (α := EReal) (C := 1024) (s := 14) (N := 8192) (by decide) _ _ _ _ _ _ _ v ch a b hsx hsy).trans ?_
  exact dropUnit_apply _ _ ch a b

/-- The corner `(x2, y1)`'s lookup at vertex `v` and channel `ch`: the map at the corner point `(a, b)`. -/
theorem Q21_2_apply (v : Fin 8192) (ch : Fin 1024) (a b : Fin 14)
    (ha : (wd S8192 (R m' c main_v250) (ix1 v)).toInt = a.val) (hb : (wd S8192 (R m' c main_v252) (ix1 v)).toInt = b.val) :
    fl S8192x1024 (R m' c main_v323) (ix2 v ch) = fl S1x1024x14x14 (m' ((c.tc : Thread nD τ).loc main_arg2)) (ix4 0 ch a b) := by
  dsimp only [fl, wd] at ha hb ⊢
  have hsx : ((R m' c main_v313 : (⟨S8192, .i32⟩ : BufTy).Contents (Elt Ideal)) (ix1 v)).toInt = a.val := by
    rw [R_sel_v313]
    have h0 : 0 ≤ ((R m' c main_v250 : (⟨S8192, .i32⟩ : BufTy).Contents (Elt Ideal)) (ix1 v)).toInt := by rw [ha]; exact Int.natCast_nonneg _
    rw [wrap_apply (R m' c main_v250 : (⟨S8192, .i32⟩ : BufTy).Contents (Elt Ideal)) _ _ (ix1 v) (splat_apply _ _ _) h0]
    exact ha
  have hsy : ((R m' c main_v318 : (⟨S8192, .i32⟩ : BufTy).Contents (Elt Ideal)) (ix1 v)).toInt = b.val := by
    rw [R_sel_v318]
    have h0 : 0 ≤ ((R m' c main_v252 : (⟨S8192, .i32⟩ : BufTy).Contents (Elt Ideal)) (ix1 v)).toInt := by rw [hb]; exact Int.natCast_nonneg _
    rw [wrap_apply (R m' c main_v252 : (⟨S8192, .i32⟩ : BufTy).Contents (Elt Ideal)) _ _ (ix1 v) (splat_apply _ _ _) h0]
    exact hb
  rw [R_tr_v323, R_map2, R_arg m' c main_arg2 (by decide) (by decide) (by decide) (by decide) (by decide) (by decide) (by decide) (by decide) (by decide) (by decide)]
  refine (gathered_apply (α := EReal) (C := 1024) (s := 14) (N := 8192) (by decide) _ _ _ _ _ _ _ v ch a b hsx hsy).trans ?_
  exact dropUnit_apply _ _ ch a b

/-- The corner `(x2, y2)`'s lookup at vertex `v` and channel `ch`: the map at the corner point `(a, b)`. -/
theorem Q22_2_apply (v : Fin 8192) (ch : Fin 1024) (a b : Fin 14)
    (ha : (wd S8192 (R m' c main_v250) (ix1 v)).toInt = a.val) (hb : (wd S8192 (R m' c main_v256) (ix1 v)).toInt = b.val) :
    fl S8192x1024 (R m' c main_v338) (ix2 v ch) = fl S1x1024x14x14 (m' ((c.tc : Thread nD τ).loc main_arg2)) (ix4 0 ch a b) := by
  dsimp only [fl, wd] at ha hb ⊢
  have hsx : ((R m' c main_v328 : (⟨S8192, .i32⟩ : BufTy).Contents (Elt Ideal)) (ix1 v)).toInt = a.val := by
    rw [R_sel_v328]
    have h0 : 0 ≤ ((R m' c main_v250 : (⟨S8192, .i32⟩ : BufTy).Contents (Elt Ideal)) (ix1 v)).toInt := by rw [ha]; exact Int.natCast_nonneg _
    rw [wrap_apply (R m' c main_v250 : (⟨S8192, .i32⟩ : BufTy).Contents (Elt Ideal)) _ _ (ix1 v) (splat_apply _ _ _) h0]
    exact ha
  have hsy : ((R m' c main_v333 : (⟨S8192, .i32⟩ : BufTy).Contents (Elt Ideal)) (ix1 v)).toInt = b.val := by
    rw [R_sel_v333]
    have h0 : 0 ≤ ((R m' c main_v256 : (⟨S8192, .i32⟩ : BufTy).Contents (Elt Ideal)) (ix1 v)).toInt := by rw [hb]; exact Int.natCast_nonneg _
    rw [wrap_apply (R m' c main_v256 : (⟨S8192, .i32⟩ : BufTy).Contents (Elt Ideal)) _ _ (ix1 v) (splat_apply _ _ _) h0]
    exact hb
  rw [R_tr_v338, R_map2, R_arg m' c main_arg2 (by decide) (by decide) (by decide) (by decide) (by decide) (by decide) (by decide) (by decide) (by decide) (by decide)]
  refine (gathered_apply (α := EReal) (C := 1024) (s := 14) (N := 8192) (by decide) _ _ _ _ _ _ _ v ch a b hsx hsy).trans ?_
  exact dropUnit_apply _ _ ch a b

set_option maxHeartbeats 1000000 in
/-- The aligned block: the four weighted lookups added, in the order the program adds them. -/
theorem R_sum2 : (R m' c main_v349 : (⟨S8192x1024, .f32⟩ : BufTy).Contents (Elt Ideal))
    = (addf (F := Ideal) (s := S8192x1024) (φ := .f32) (addf (F := Ideal) (s := S8192x1024) (φ := .f32) (addf (F := Ideal) (s := S8192x1024) (φ := .f32) (mulf (F := Ideal) (s := S8192x1024) (φ := .f32) (broadcastInDim S8192x1024 ![0, 1] bcast_S8192x1_S8192x1024_0_1 (R m' c main_v263 : (⟨S8192x1, .f32⟩ : BufTy).Contents (Elt Ideal)) : (⟨S8192x1024, .f32⟩ : BufTy).Contents (Elt Ideal)) (R m' c main_v293 : (⟨S8192x1024, .f32⟩ : BufTy).Contents (Elt Ideal))) (mulf (F := Ideal) (s := S8192x1024) (φ := .f32) (broadcastInDim S8192x1024 ![0, 1] bcast_S8192x1_S8192x1024_0_1 (R m' c main_v273 : (⟨S8192x1, .f32⟩ : BufTy).Contents (Elt Ideal)) : (⟨S8192x1024, .f32⟩ : BufTy).Contents (Elt Ideal)) (R m' c main_v323 : (⟨S8192x1024, .f32⟩ : BufTy).Contents (Elt Ideal)))) (mulf (F := Ideal) (s := S8192x1024) (φ := .f32) (broadcastInDim S8192x1024 ![0, 1] bcast_S8192x1_S8192x1024_0_1 (R m' c main_v268 : (⟨S8192x1, .f32⟩ : BufTy).Contents (Elt Ideal)) : (⟨S8192x1024, .f32⟩ : BufTy).Contents (Elt Ideal)) (R m' c main_v308 : (⟨S8192x1024, .f32⟩ : BufTy).Contents (Elt Ideal)))) (mulf (F := Ideal) (s := S8192x1024) (φ := .f32) (broadcastInDim S8192x1024 ![0, 1] bcast_S8192x1_S8192x1024_0_1 (R m' c main_v278 : (⟨S8192x1, .f32⟩ : BufTy).Contents (Elt Ideal)) : (⟨S8192x1024, .f32⟩ : BufTy).Contents (Elt Ideal)) (R m' c main_v338 : (⟨S8192x1024, .f32⟩ : BufTy).Contents (Elt Ideal))) : (⟨S8192x1024, .f32⟩ : BufTy).Contents (Elt Ideal)) := by
  rw [R_W7 m' c main_v349 (by decide) (by decide) (by decide),
    R_W6 m' c main_v263 (by decide) (by decide) (by decide) (by decide),
    R_W6 m' c main_v293 (by decide) (by decide) (by decide) (by decide),
    R_W6 m' c main_v273 (by decide) (by decide) (by decide) (by decide),
    R_W7 m' c main_v323 (by decide) (by decide) (by decide),
    R_W6 m' c main_v268 (by decide) (by decide) (by decide) (by decide),
    R_W7 m' c main_v308 (by decide) (by decide) (by decide),
    R_W6 m' c main_v278 (by decide) (by decide) (by decide) (by decide),
    R_W7 m' c main_v338 (by decide) (by decide) (by decide)]
  show (after ops_part6 (W6 m' c) (Proc.devRef .tc main_v349) : (⟨S8192x1024, .f32⟩ : BufTy).Contents (Elt Ideal))
    = (addf (F := Ideal) (s := S8192x1024) (φ := .f32) (addf (F := Ideal) (s := S8192x1024) (φ := .f32) (addf (F := Ideal) (s := S8192x1024) (φ := .f32) (mulf (F := Ideal) (s := S8192x1024) (φ := .f32) (broadcastInDim S8192x1024 ![0, 1] bcast_S8192x1_S8192x1024_0_1 (W6 m' c (Proc.devRef .tc main_v263) : (⟨S8192x1, .f32⟩ : BufTy).Contents (Elt Ideal)) : (⟨S8192x1024, .f32⟩ : BufTy).Contents (Elt Ideal)) (W6 m' c (Proc.devRef .tc main_v293) : (⟨S8192x1024, .f32⟩ : BufTy).Contents (Elt Ideal))) (mulf (F := Ideal) (s := S8192x1024) (φ := .f32) (broadcastInDim S8192x1024 ![0, 1] bcast_S8192x1_S8192x1024_0_1 (W6 m' c (Proc.devRef .tc main_v273) : (⟨S8192x1, .f32⟩ : BufTy).Contents (Elt Ideal)) : (⟨S8192x1024, .f32⟩ : BufTy).Contents (Elt Ideal)) (after ops_part6 (W6 m' c) (Proc.devRef .tc main_v323) : (⟨S8192x1024, .f32⟩ : BufTy).Contents (Elt Ideal)))) (mulf (F := Ideal) (s := S8192x1024) (φ := .f32) (broadcastInDim S8192x1024 ![0, 1] bcast_S8192x1_S8192x1024_0_1 (W6 m' c (Proc.devRef .tc main_v268) : (⟨S8192x1, .f32⟩ : BufTy).Contents (Elt Ideal)) : (⟨S8192x1024, .f32⟩ : BufTy).Contents (Elt Ideal)) (after ops_part6 (W6 m' c) (Proc.devRef .tc main_v308) : (⟨S8192x1024, .f32⟩ : BufTy).Contents (Elt Ideal)))) (mulf (F := Ideal) (s := S8192x1024) (φ := .f32) (broadcastInDim S8192x1024 ![0, 1] bcast_S8192x1_S8192x1024_0_1 (W6 m' c (Proc.devRef .tc main_v278) : (⟨S8192x1, .f32⟩ : BufTy).Contents (Elt Ideal)) : (⟨S8192x1024, .f32⟩ : BufTy).Contents (Elt Ideal)) (after ops_part6 (W6 m' c) (Proc.devRef .tc main_v338) : (⟨S8192x1024, .f32⟩ : BufTy).Contents (Elt Ideal))) : (⟨S8192x1024, .f32⟩ : BufTy).Contents (Elt Ideal))
  generalize W6 m' c = X
  after_results_simp <;> rfl

/-- The aligned block at vertex `v` and channel `ch`: the four weights times the four lookups. -/
theorem sum2_apply (v : Fin 8192) (ch : Fin 1024) :
    fl S8192x1024 (R m' c main_v349) (ix2 v ch)
      = ((fl S8192 (R m' c main_v262) (ix1 v) * fl S8192x1024 (R m' c main_v293) (ix2 v ch) + fl S8192 (R m' c main_v272) (ix1 v) * fl S8192x1024 (R m' c main_v323) (ix2 v ch))
          + fl S8192 (R m' c main_v267) (ix1 v) * fl S8192x1024 (R m' c main_v308) (ix2 v ch)) + fl S8192 (R m' c main_v277) (ix1 v) * fl S8192x1024 (R m' c main_v338) (ix2 v ch) := by
  dsimp only [fl]
  rw [R_sum2]
  rw [addf_apply, addf_apply, addf_apply, mulf_apply, mulf_apply, mulf_apply, mulf_apply]
  rw [column_bcast_apply (N := 8192) (C := 1024) (by decide), column_bcast_apply (N := 8192) (C := 1024) (by decide),
    column_bcast_apply (N := 8192) (C := 1024) (by decide), column_bcast_apply (N := 8192) (C := 1024) (by decide)]
  rw [R_col_v263, R_col_v273, R_col_v268, R_col_v278]
  rw [column_apply, column_apply, column_apply, column_apply]

/-- The aligned block of map 2 at `(v, ch)`, the corner coordinates given as cells of the map. -/
theorem aligned2_cells (v : Fin 8192) (ch : Fin 1024) (X1 X2 Y1 Y2 : Fin 14)
    (e1 : (wd S8192 (R m' c main_v246) (ix1 v)).toInt = X1.val) (e2 : (wd S8192 (R m' c main_v250) (ix1 v)).toInt = X2.val)
    (e3 : (wd S8192 (R m' c main_v252) (ix1 v)).toInt = Y1.val) (e4 : (wd S8192 (R m' c main_v256) (ix1 v)).toInt = Y2.val) :
    fl S8192x1024 (R m' c main_v349) (ix2 v ch)
      = ((fl S8192 (R m' c main_v262) (ix1 v) * fl S1x1024x14x14 (m' ((c.tc : Thread nD τ).loc main_arg2)) (ix4 0 ch X1 Y1)
          + fl S8192 (R m' c main_v272) (ix1 v) * fl S1x1024x14x14 (m' ((c.tc : Thread nD τ).loc main_arg2)) (ix4 0 ch X2 Y1))
          + fl S8192 (R m' c main_v267) (ix1 v) * fl S1x1024x14x14 (m' ((c.tc : Thread nD τ).loc main_arg2)) (ix4 0 ch X1 Y2))
          + fl S8192 (R m' c main_v277) (ix1 v) * fl S1x1024x14x14 (m' ((c.tc : Thread nD τ).loc main_arg2)) (ix4 0 ch X2 Y2) := by
  rw [sum2_apply, Q11_2_apply m' c v ch X1 Y1 e1 e3, Q21_2_apply m' c v ch X2 Y1 e2 e3,
    Q12_2_apply m' c v ch X1 Y2 e1 e4, Q22_2_apply m' c v ch X2 Y2 e2 e4]

set_option maxHeartbeats 1000000 in
/-- The same with the cells read off the coordinate buffers, each coordinate inside the map. -/
theorem aligned2_apply (v : Fin 8192) (ch : Fin 1024)
    (hx1 : 0 ≤ (wd S8192 (R m' c main_v246) (ix1 v)).toInt ∧ (wd S8192 (R m' c main_v246) (ix1 v)).toInt < 14)
    (hx2 : 0 ≤ (wd S8192 (R m' c main_v250) (ix1 v)).toInt ∧ (wd S8192 (R m' c main_v250) (ix1 v)).toInt < 14)
    (hy1 : 0 ≤ (wd S8192 (R m' c main_v252) (ix1 v)).toInt ∧ (wd S8192 (R m' c main_v252) (ix1 v)).toInt < 14)
    (hy2 : 0 ≤ (wd S8192 (R m' c main_v256) (ix1 v)).toInt ∧ (wd S8192 (R m' c main_v256) (ix1 v)).toInt < 14) :
    fl S8192x1024 (R m' c main_v349) (ix2 v ch)
      = ((fl S8192 (R m' c main_v262) (ix1 v) * fl S1x1024x14x14 (m' ((c.tc : Thread nD τ).loc main_arg2)) (ix4 0 ch ⟨(wd S8192 (R m' c main_v246) (ix1 v)).toInt.toNat, by omega⟩ ⟨(wd S8192 (R m' c main_v252) (ix1 v)).toInt.toNat, by omega⟩)
          + fl S8192 (R m' c main_v272) (ix1 v) * fl S1x1024x14x14 (m' ((c.tc : Thread nD τ).loc main_arg2)) (ix4 0 ch ⟨(wd S8192 (R m' c main_v250) (ix1 v)).toInt.toNat, by omega⟩ ⟨(wd S8192 (R m' c main_v252) (ix1 v)).toInt.toNat, by omega⟩))
          + fl S8192 (R m' c main_v267) (ix1 v) * fl S1x1024x14x14 (m' ((c.tc : Thread nD τ).loc main_arg2)) (ix4 0 ch ⟨(wd S8192 (R m' c main_v246) (ix1 v)).toInt.toNat, by omega⟩ ⟨(wd S8192 (R m' c main_v256) (ix1 v)).toInt.toNat, by omega⟩))
          + fl S8192 (R m' c main_v277) (ix1 v) * fl S1x1024x14x14 (m' ((c.tc : Thread nD τ).loc main_arg2)) (ix4 0 ch ⟨(wd S8192 (R m' c main_v250) (ix1 v)).toInt.toNat, by omega⟩ ⟨(wd S8192 (R m' c main_v256) (ix1 v)).toInt.toNat, by omega⟩) :=
  aligned2_cells m' c v ch ⟨(wd S8192 (R m' c main_v246) (ix1 v)).toInt.toNat, by omega⟩ ⟨(wd S8192 (R m' c main_v250) (ix1 v)).toInt.toNat, by omega⟩
    ⟨(wd S8192 (R m' c main_v252) (ix1 v)).toInt.toNat, by omega⟩ ⟨(wd S8192 (R m' c main_v256) (ix1 v)).toInt.toNat, by omega⟩ (Int.toNat_of_nonneg hx1.1).symm (Int.toNat_of_nonneg hx2.1).symm
    (Int.toNat_of_nonneg hy1.1).symm (Int.toNat_of_nonneg hy2.1).symm

end Cert.ReferenceIdeal.HandRead

end
-- ==== Proof.Ref.Map3.lean ====
/-
  One feature map's aligned block, read at a vertex and a channel.

  For each of the four corners `(x1, y1)`, `(x1, y2)`, `(x2, y1)`, `(x2, y2)` the reference looks the map up at the
  vertex's corner point (the coordinates through the negative-index wrap, the points gathered, the result
  transposed), scales the lookup by the corner's weight broadcast along the channels, and adds the four products.
  With the corner coordinates inside the map, the block at `(v, ch)` is the weighted sum of the map's values at
  channel `ch` and the four corner points.
-/
import proofs.«120270_j2259152797813_2_alg».proof.Proof.Ref.Proj
import proofs.«120270_j2259152797813_2_alg».proof.Proof.Ref.Corner

set_option maxRecDepth 8192

noncomputable section

namespace Cert.ReferenceIdeal.HandRead

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open scoped BigOperators

variable (m' : (ℓ : Loc nD τ sig) → Buf (Elt Ideal) ℓ) (c : Dev nD)

/-- A map `[1, C, s, s]` viewed `[C, s, s]` reads `(ch, a, b)` at `(0, ch, a, b)`. -/
private theorem dropUnit_apply {α : Type} {C s : Nat} (A : (⟨4, ![1, C, s, s]⟩ : Shape).Idx → α)
    (h : (⟨4, ![1, C, s, s]⟩ : Shape).ShapeCasts ⟨3, ![C, s, s]⟩) (ch : Fin C) (a b : Fin s) :
    shapeCast ⟨3, ![C, s, s]⟩ A h (ix3 ch a b) = A (ix4 0 ch a b) :=
  shapeCast_apply A h (ix3 ch a b) (ix4 0 ch a b) (by
    rw [Shape.rowMajor_val_four, Shape.rowMajor_val_three]
    show ((0 * C + ch.val) * s + a.val) * s + b.val = (ch.val * s + a.val) * s + b.val
    simp)

set_option maxHeartbeats 1000000 in
/-- The feature map with its leading unit axis dropped. -/
theorem R_map3 : (R m' c main_v3 : (⟨S2048x7x7, .f32⟩ : BufTy).Contents (Elt Ideal))
    = (shapeCast S2048x7x7 (R m' c main_arg3 : (⟨S1x2048x7x7, .f32⟩ : BufTy).Contents (Elt Ideal)) shapeCasts_S1x2048x7x7_S2048x7x7 : (⟨S2048x7x7, .f32⟩ : BufTy).Contents (Elt Ideal)) := by
  rw [R_W1 m' c main_v3 (by decide) (by decide) (by decide) (by decide) (by decide) (by decide) (by decide) (by decide) (by decide),
    R_W0 m' c main_arg3 (by decide) (by decide) (by decide) (by decide) (by decide) (by decide) (by decide) (by decide) (by decide) (by decide)]
  show (after ops_part0 (W0 m' c) (Proc.devRef .tc main_v3) : (⟨S2048x7x7, .f32⟩ : BufTy).Contents (Elt Ideal))
    = (shapeCast S2048x7x7 (W0 m' c (Proc.devRef .tc main_arg3) : (⟨S1x2048x7x7, .f32⟩ : BufTy).Contents (Elt Ideal)) shapeCasts_S1x2048x7x7_S2048x7x7 : (⟨S2048x7x7, .f32⟩ : BufTy).Contents (Elt Ideal))
  generalize W0 m' c = X
  after_results_simp <;> rfl

set_option maxHeartbeats 1000000 in
/-- The weight vector made a column. -/
theorem R_col_v372 : (R m' c main_v372 : (⟨S8192x1, .f32⟩ : BufTy).Contents (Elt Ideal))
    = (broadcastInDim S8192x1 ![0] bcast_S8192_S8192x1_0 (R m' c main_v371 : (⟨S8192, .f32⟩ : BufTy).Contents (Elt Ideal)) : (⟨S8192x1, .f32⟩ : BufTy).Contents (Elt Ideal)) := by
  rw [R_W8 m' c main_v372 (by decide) (by decide),
    R_W8 m' c main_v371 (by decide) (by decide)]
  show (after ops_part7 (W7 m' c) (Proc.devRef .tc main_v372) : (⟨S8192x1, .f32⟩ : BufTy).Contents (Elt Ideal))
    = (broadcastInDim S8192x1 ![0] bcast_S8192_S8192x1_0 (after ops_part7 (W7 m' c) (Proc.devRef .tc main_v371) : (⟨S8192, .f32⟩ : BufTy).Contents (Elt Ideal)) : (⟨S8192x1, .f32⟩ : BufTy).Contents (Elt Ideal))
  generalize W7 m' c = X
  after_results_simp <;> rfl

set_option maxHeartbeats 1000000 in
/-- The weight vector made a column. -/
theorem R_col_v377 : (R m' c main_v377 : (⟨S8192x1, .f32⟩ : BufTy).Contents (Elt Ideal))
    = (broadcastInDim S8192x1 ![0] bcast_S8192_S8192x1_0 (R m' c main_v376 : (⟨S8192, .f32⟩ : BufTy).Contents (Elt Ideal)) : (⟨S8192x1, .f32⟩ : BufTy).Contents (Elt Ideal)) := by
  rw [R_W8 m' c main_v377 (by decide) (by decide),
    R_W8 m' c main_v376 (by decide) (by decide)]
  show (after ops_part7 (W7 m' c) (Proc.devRef .tc main_v377) : (⟨S8192x1, .f32⟩ : BufTy).Contents (Elt Ideal))
    = (broadcastInDim S8192x1 ![0] bcast_S8192_S8192x1_0 (after ops_part7 (W7 m' c) (Proc.devRef .tc main_v376) : (⟨S8192, .f32⟩ : BufTy).Contents (Elt Ideal)) : (⟨S8192x1, .f32⟩ : BufTy).Contents (Elt Ideal))
  generalize W7 m' c = X
  after_results_simp <;> rfl

set_option maxHeartbeats 1000000 in
/-- The weight vector made a column. -/
theorem R_col_v382 : (R m' c main_v382 : (⟨S8192x1, .f32⟩ : BufTy).Contents (Elt Ideal))
    = (broadcastInDim S8192x1 ![0] bcast_S8192_S8192x1_0 (R m' c main_v381 : (⟨S8192, .f32⟩ : BufTy).Contents (Elt Ideal)) : (⟨S8192x1, .f32⟩ : BufTy).Contents (Elt Ideal)) := by
  rw [R_W8 m' c main_v382 (by decide) (by decide),
    R_W8 m' c main_v381 (by decide) (by decide)]
  show (after ops_part7 (W7 m' c) (Proc.devRef .tc main_v382) : (⟨S8192x1, .f32⟩ : BufTy).Contents (Elt Ideal))
    = (broadcastInDim S8192x1 ![0] bcast_S8192_S8192x1_0 (after ops_part7 (W7 m' c) (Proc.devRef .tc main_v381) : (⟨S8192, .f32⟩ : BufTy).Contents (Elt Ideal)) : (⟨S8192x1, .f32⟩ : BufTy).Contents (Elt Ideal))
  generalize W7 m' c = X
  after_results_simp <;> rfl

set_option maxHeartbeats 1000000 in
/-- The weight vector made a column. -/
theorem R_col_v387 : (R m' c main_v387 : (⟨S8192x1, .f32⟩ : BufTy).Contents (Elt Ideal))
    = (broadcastInDim S8192x1 ![0] bcast_S8192_S8192x1_0 (R m' c main_v386 : (⟨S8192, .f32⟩ : BufTy).Contents (Elt Ideal)) : (⟨S8192x1, .f32⟩ : BufTy).Contents (Elt Ideal)) := by
  rw [R_W8 m' c main_v387 (by decide) (by decide),
    R_W8 m' c main_v386 (by decide) (by decide)]
  show (after ops_part7 (W7 m' c) (Proc.devRef .tc main_v387) : (⟨S8192x1, .f32⟩ : BufTy).Contents (Elt Ideal))
    = (broadcastInDim S8192x1 ![0] bcast_S8192_S8192x1_0 (after ops_part7 (W7 m' c) (Proc.devRef .tc main_v386) : (⟨S8192, .f32⟩ : BufTy).Contents (Elt Ideal)) : (⟨S8192x1, .f32⟩ : BufTy).Contents (Elt Ideal))
  generalize W7 m' c = X
  after_results_simp <;> rfl

set_option maxHeartbeats 1000000 in
/-- The coordinate after the negative-index wrap. -/
theorem R_sel_v392 : (R m' c main_v392 : (⟨S8192, .i32⟩ : BufTy).Contents (Elt Ideal))
    = (select (cmpi .slt (R m' c main_v355 : (⟨S8192, .i32⟩ : BufTy).Contents (Elt Ideal)) (broadcastInDim S8192 ![] bcast_S_S8192 (constantI S_ 32 0#32) : (⟨S8192, .i32⟩ : BufTy).Contents (Elt Ideal))) (addi (R m' c main_v355 : (⟨S8192, .i32⟩ : BufTy).Contents (Elt Ideal)) (broadcastInDim S8192 ![] bcast_S_S8192 (constantI S_ 32 7#32) : (⟨S8192, .i32⟩ : BufTy).Contents (Elt Ideal))) (R m' c main_v355 : (⟨S8192, .i32⟩ : BufTy).Contents (Elt Ideal)) : (⟨S8192, .i32⟩ : BufTy).Contents (Elt Ideal)) := by
  rw [R_W8 m' c main_v392 (by decide) (by decide),
    R_W8 m' c main_v355 (by decide) (by decide)]
  show (after ops_part7 (W7 m' c) (Proc.devRef .tc main_v392) : (⟨S8192, .i32⟩ : BufTy).Contents (Elt Ideal))
    = (select (cmpi .slt (after ops_part7 (W7 m' c) (Proc.devRef .tc main_v355) : (⟨S8192, .i32⟩ : BufTy).Contents (Elt Ideal)) (broadcastInDim S8192 ![] bcast_S_S8192 (constantI S_ 32 0#32) : (⟨S8192, .i32⟩ : BufTy).Contents (Elt Ideal))) (addi (after ops_part7 (W7 m' c) (Proc.devRef .tc main_v355) : (⟨S8192, .i32⟩ : BufTy).Contents (Elt Ideal)) (broadcastInDim S8192 ![] bcast_S_S8192 (constantI S_ 32 7#32) : (⟨S8192, .i32⟩ : BufTy).Contents (Elt Ideal))) (after ops_part7 (W7 m' c) (Proc.devRef .tc main_v355) : (⟨S8192, .i32⟩ : BufTy).Contents (Elt Ideal)) : (⟨S8192, .i32⟩ : BufTy).Contents (Elt Ideal))
  generalize W7 m' c = X
  after_results_simp <;> rfl

set_option maxHeartbeats 1000000 in
/-- The coordinate after the negative-index wrap. -/
theorem R_sel_v397 : (R m' c main_v397 : (⟨S8192, .i32⟩ : BufTy).Contents (Elt Ideal))
    = (select (cmpi .slt (R m' c main_v361 : (⟨S8192, .i32⟩ : BufTy).Contents (Elt Ideal)) (broadcastInDim S8192 ![] bcast_S_S8192 (constantI S_ 32 0#32) : (⟨S8192, .i32⟩ : BufTy).Contents (Elt Ideal))) (addi (R m' c main_v361 : (⟨S8192, .i32⟩ : BufTy).Contents (Elt Ideal)) (broadcastInDim S8192 ![] bcast_S_S8192 (constantI S_ 32 7#32) : (⟨S8192, .i32⟩ : BufTy).Contents (Elt Ideal))) (R m' c main_v361 : (⟨S8192, .i32⟩ : BufTy).Contents (Elt Ideal)) : (⟨S8192, .i32⟩ : BufTy).Contents (Elt Ideal)) := by
  rw [R_W8 m' c main_v397 (by decide) (by decide),
    R_W8 m' c main_v361 (by decide) (by decide)]
  show (after ops_part7 (W7 m' c) (Proc.devRef .tc main_v397) : (⟨S8192, .i32⟩ : BufTy).Contents (Elt Ideal))
    = (select (cmpi .slt (after ops_part7 (W7 m' c) (Proc.devRef .tc main_v361) : (⟨S8192, .i32⟩ : BufTy).Contents (Elt Ideal)) (broadcastInDim S8192 ![] bcast_S_S8192 (constantI S_ 32 0#32) : (⟨S8192, .i32⟩ : BufTy).Contents (Elt Ideal))) (addi (after ops_part7 (W7 m' c) (Proc.devRef .tc main_v361) : (⟨S8192, .i32⟩ : BufTy).Contents (Elt Ideal)) (broadcastInDim S8192 ![] bcast_S_S8192 (constantI S_ 32 7#32) : (⟨S8192, .i32⟩ : BufTy).Contents (Elt Ideal))) (after ops_part7 (W7 m' c) (Proc.devRef .tc main_v361) : (⟨S8192, .i32⟩ : BufTy).Contents (Elt Ideal)) : (⟨S8192, .i32⟩ : BufTy).Contents (Elt Ideal))
  generalize W7 m' c = X
  after_results_simp <;> rfl

set_option maxHeartbeats 1000000 in
/-- One corner's lookup: the map gathered at the wrapped points and transposed. -/
theorem R_tr_v402 : (R m' c main_v402 : (⟨S8192x2048, .f32⟩ : BufTy).Contents (Elt Ideal))
    = (transpose S8192x2048 [1, 0] (Host.gather gather_S2048x7x7_S8192x2_S2048x8192_0_12_n_n_12_1_204811 (R m' c main_v3 : (⟨S2048x7x7, .f32⟩ : BufTy).Contents (Elt Ideal)) (concatenate S8192x2 1 [⟨S8192x1, broadcastInDim S8192x1 ![0] bcast_S8192_S8192x1_0 (R m' c main_v392 : (⟨S8192, .i32⟩ : BufTy).Contents (Elt Ideal))⟩, ⟨S8192x1, broadcastInDim S8192x1 ![0] bcast_S8192_S8192x1_0 (R m' c main_v397 : (⟨S8192, .i32⟩ : BufTy).Contents (Elt Ideal))⟩] concatenates_S8192x1_S8192x1_S8192x2_d1)) transposes_S2048x8192_S8192x2048_1_0 : (⟨S8192x2048, .f32⟩ : BufTy).Contents (Elt Ideal)) := by
  rw [R_W8 m' c main_v402 (by decide) (by decide),
    R_W7 m' c main_v3 (by decide) (by decide) (by decide),
    R_W8 m' c main_v392 (by decide) (by decide),
    R_W8 m' c main_v397 (by decide) (by decide)]
  show (after ops_part7 (W7 m' c) (Proc.devRef .tc main_v402) : (⟨S8192x2048, .f32⟩ : BufTy).Contents (Elt Ideal))
    = (transpose S8192x2048 [1, 0] (Host.gather gather_S2048x7x7_S8192x2_S2048x8192_0_12_n_n_12_1_204811 (W7 m' c (Proc.devRef .tc main_v3) : (⟨S2048x7x7, .f32⟩ : BufTy).Contents (Elt Ideal)) (concatenate S8192x2 1 [⟨S8192x1, broadcastInDim S8192x1 ![0] bcast_S8192_S8192x1_0 (after ops_part7 (W7 m' c) (Proc.devRef .tc main_v392) : (⟨S8192, .i32⟩ : BufTy).Contents (Elt Ideal))⟩, ⟨S8192x1, broadcastInDim S8192x1 ![0] bcast_S8192_S8192x1_0 (after ops_part7 (W7 m' c) (Proc.devRef .tc main_v397) : (⟨S8192, .i32⟩ : BufTy).Contents (Elt Ideal))⟩] concatenates_S8192x1_S8192x1_S8192x2_d1)) transposes_S2048x8192_S8192x2048_1_0 : (⟨S8192x2048, .f32⟩ : BufTy).Contents (Elt Ideal))
  generalize W7 m' c = X
  after_results_simp <;> rfl

set_option maxHeartbeats 1000000 in
/-- The zero word. -/
theorem R_word_c_74 : (R m' c main_c_74 : (⟨S_, .i32⟩ : BufTy).Contents (Elt Ideal))
    = ((constantI S_ 32 0#32 : (⟨S_, .i32⟩ : BufTy).Contents (Elt Ideal)) : (⟨S_, .i32⟩ : BufTy).Contents (Elt Ideal)) := by
  rw [R_W8 m' c main_c_74 (by decide) (by decide)]
  show (after ops_part7 (W7 m' c) (Proc.devRef .tc main_c_74) : (⟨S_, .i32⟩ : BufTy).Contents (Elt Ideal))
    = ((constantI S_ 32 0#32 : (⟨S_, .i32⟩ : BufTy).Contents (Elt Ideal)) : (⟨S_, .i32⟩ : BufTy).Contents (Elt Ideal))
  generalize W7 m' c = X
  after_results_simp <;> rfl

set_option maxHeartbeats 1000000 in
/-- The coordinate after the negative-index wrap. -/
theorem R_sel_v407 : (R m' c main_v407 : (⟨S8192, .i32⟩ : BufTy).Contents (Elt Ideal))
    = (select (cmpi .slt (R m' c main_v355 : (⟨S8192, .i32⟩ : BufTy).Contents (Elt Ideal)) (broadcastInDim S8192 ![] bcast_S_S8192 (R m' c main_c_74 : (⟨S_, .i32⟩ : BufTy).Contents (Elt Ideal)) : (⟨S8192, .i32⟩ : BufTy).Contents (Elt Ideal))) (addi (R m' c main_v355 : (⟨S8192, .i32⟩ : BufTy).Contents (Elt Ideal)) (broadcastInDim S8192 ![] bcast_S_S8192 (constantI S_ 32 7#32) : (⟨S8192, .i32⟩ : BufTy).Contents (Elt Ideal))) (R m' c main_v355 : (⟨S8192, .i32⟩ : BufTy).Contents (Elt Ideal)) : (⟨S8192, .i32⟩ : BufTy).Contents (Elt Ideal)) := by
  rw [R_W9 m' c main_v407 (by decide),
    R_W8 m' c main_v355 (by decide) (by decide),
    R_W8 m' c main_c_74 (by decide) (by decide)]
  show (after ops_part8 (W8 m' c) (Proc.devRef .tc main_v407) : (⟨S8192, .i32⟩ : BufTy).Contents (Elt Ideal))
    = (select (cmpi .slt (W8 m' c (Proc.devRef .tc main_v355) : (⟨S8192, .i32⟩ : BufTy).Contents (Elt Ideal)) (broadcastInDim S8192 ![] bcast_S_S8192 (W8 m' c (Proc.devRef .tc main_c_74) : (⟨S_, .i32⟩ : BufTy).Contents (Elt Ideal)) : (⟨S8192, .i32⟩ : BufTy).Contents (Elt Ideal))) (addi (W8 m' c (Proc.devRef .tc main_v355) : (⟨S8192, .i32⟩ : BufTy).Contents (Elt Ideal)) (broadcastInDim S8192 ![] bcast_S_S8192 (constantI S_ 32 7#32) : (⟨S8192, .i32⟩ : BufTy).Contents (Elt Ideal))) (W8 m' c (Proc.devRef .tc main_v355) : (⟨S8192, .i32⟩ : BufTy).Contents (Elt Ideal)) : (⟨S8192, .i32⟩ : BufTy).Contents (Elt Ideal))
  generalize W8 m' c = X
  after_results_simp <;> rfl

set_option maxHeartbeats 1000000 in
/-- The coordinate after the negative-index wrap. -/
theorem R_sel_v412 : (R m' c main_v412 : (⟨S8192, .i32⟩ : BufTy).Contents (Elt Ideal))
    = (select (cmpi .slt (R m' c main_v365 : (⟨S8192, .i32⟩ : BufTy).Contents (Elt Ideal)) (broadcastInDim S8192 ![] bcast_S_S8192 (constantI S_ 32 0#32) : (⟨S8192, .i32⟩ : BufTy).Contents (Elt Ideal))) (addi (R m' c main_v365 : (⟨S8192, .i32⟩ : BufTy).Contents (Elt Ideal)) (broadcastInDim S8192 ![] bcast_S_S8192 (constantI S_ 32 7#32) : (⟨S8192, .i32⟩ : BufTy).Contents (Elt Ideal))) (R m' c main_v365 : (⟨S8192, .i32⟩ : BufTy).Contents (Elt Ideal)) : (⟨S8192, .i32⟩ : BufTy).Contents (Elt Ideal)) := by
  rw [R_W9 m' c main_v412 (by decide),
    R_W8 m' c main_v365 (by decide) (by decide)]
  show (after ops_part8 (W8 m' c) (Proc.devRef .tc main_v412) : (⟨S8192, .i32⟩ : BufTy).Contents (Elt Ideal))
    = (select (cmpi .slt (W8 m' c (Proc.devRef .tc main_v365) : (⟨S8192, .i32⟩ : BufTy).Contents (Elt Ideal)) (broadcastInDim S8192 ![] bcast_S_S8192 (constantI S_ 32 0#32) : (⟨S8192, .i32⟩ : BufTy).Contents (Elt Ideal))) (addi (W8 m' c (Proc.devRef .tc main_v365) : (⟨S8192, .i32⟩ : BufTy).Contents (Elt Ideal)) (broadcastInDim S8192 ![] bcast_S_S8192 (constantI S_ 32 7#32) : (⟨S8192, .i32⟩ : BufTy).Contents (Elt Ideal))) (W8 m' c (Proc.devRef .tc main_v365) : (⟨S8192, .i32⟩ : BufTy).Contents (Elt Ideal)) : (⟨S8192, .i32⟩ : BufTy).Contents (Elt Ideal))
  generalize W8 m' c = X
  after_results_simp <;> rfl

set_option maxHeartbeats 1000000 in
/-- One corner's lookup: the map gathered at the wrapped points and transposed. -/
theorem R_tr_v417 : (R m' c main_v417 : (⟨S8192x2048, .f32⟩ : BufTy).Contents (Elt Ideal))
    = (transpose S8192x2048 [1, 0] (Host.gather gather_S2048x7x7_S8192x2_S2048x8192_0_12_n_n_12_1_204811 (R m' c main_v3 : (⟨S2048x7x7, .f32⟩ : BufTy).Contents (Elt Ideal)) (concatenate S8192x2 1 [⟨S8192x1, broadcastInDim S8192x1 ![0] bcast_S8192_S8192x1_0 (R m' c main_v407 : (⟨S8192, .i32⟩ : BufTy).Contents (Elt Ideal))⟩, ⟨S8192x1, broadcastInDim S8192x1 ![0] bcast_S8192_S8192x1_0 (R m' c main_v412 : (⟨S8192, .i32⟩ : BufTy).Contents (Elt Ideal))⟩] concatenates_S8192x1_S8192x1_S8192x2_d1)) transposes_S2048x8192_S8192x2048_1_0 : (⟨S8192x2048, .f32⟩ : BufTy).Contents (Elt Ideal)) := by
  rw [R_W9 m' c main_v417 (by decide),
    R_W8 m' c main_v3 (by decide) (by decide),
    R_W9 m' c main_v407 (by decide),
    R_W9 m' c main_v412 (by decide)]
  show (after ops_part8 (W8 m' c) (Proc.devRef .tc main_v417) : (⟨S8192x2048, .f32⟩ : BufTy).Contents (Elt Ideal))
    = (transpose S8192x2048 [1, 0] (Host.gather gather_S2048x7x7_S8192x2_S2048x8192_0_12_n_n_12_1_204811 (W8 m' c (Proc.devRef .tc main_v3) : (⟨S2048x7x7, .f32⟩ : BufTy).Contents (Elt Ideal)) (concatenate S8192x2 1 [⟨S8192x1, broadcastInDim S8192x1 ![0] bcast_S8192_S8192x1_0 (after ops_part8 (W8 m' c) (Proc.devRef .tc main_v407) : (⟨S8192, .i32⟩ : BufTy).Contents (Elt Ideal))⟩, ⟨S8192x1, broadcastInDim S8192x1 ![0] bcast_S8192_S8192x1_0 (after ops_part8 (W8 m' c) (Proc.devRef .tc main_v412) : (⟨S8192, .i32⟩ : BufTy).Contents (Elt Ideal))⟩] concatenates_S8192x1_S8192x1_S8192x2_d1)) transposes_S2048x8192_S8192x2048_1_0 : (⟨S8192x2048, .f32⟩ : BufTy).Contents (Elt Ideal))
  generalize W8 m' c = X
  after_results_simp <;> rfl

set_option maxHeartbeats 1000000 in
/-- The coordinate after the negative-index wrap. -/
theorem R_sel_v422 : (R m' c main_v422 : (⟨S8192, .i32⟩ : BufTy).Contents (Elt Ideal))
    = (select (cmpi .slt (R m' c main_v359 : (⟨S8192, .i32⟩ : BufTy).Contents (Elt Ideal)) (broadcastInDim S8192 ![] bcast_S_S8192 (constantI S_ 32 0#32) : (⟨S8192, .i32⟩ : BufTy).Contents (Elt Ideal))) (addi (R m' c main_v359 : (⟨S8192, .i32⟩ : BufTy).Contents (Elt Ideal)) (broadcastInDim S8192 ![] bcast_S_S8192 (constantI S_ 32 7#32) : (⟨S8192, .i32⟩ : BufTy).Contents (Elt Ideal))) (R m' c main_v359 : (⟨S8192, .i32⟩ : BufTy).Contents (Elt Ideal)) : (⟨S8192, .i32⟩ : BufTy).Contents (Elt Ideal)) := by
  rw [R_W9 m' c main_v422 (by decide),
    R_W8 m' c main_v359 (by decide) (by decide)]
  show (after ops_part8 (W8 m' c) (Proc.devRef .tc main_v422) : (⟨S8192, .i32⟩ : BufTy).Contents (Elt Ideal))
    = (select (cmpi .slt (W8 m' c (Proc.devRef .tc main_v359) : (⟨S8192, .i32⟩ : BufTy).Contents (Elt Ideal)) (broadcastInDim S8192 ![] bcast_S_S8192 (constantI S_ 32 0#32) : (⟨S8192, .i32⟩ : BufTy).Contents (Elt Ideal))) (addi (W8 m' c (Proc.devRef .tc main_v359) : (⟨S8192, .i32⟩ : BufTy).Contents (Elt Ideal)) (broadcastInDim S8192 ![] bcast_S_S8192 (constantI S_ 32 7#32) : (⟨S8192, .i32⟩ : BufTy).Contents (Elt Ideal))) (W8 m' c (Proc.devRef .tc main_v359) : (⟨S8192, .i32⟩ : BufTy).Contents (Elt Ideal)) : (⟨S8192, .i32⟩ : BufTy).Contents (Elt Ideal))
  generalize W8 m' c = X
  after_results_simp <;> rfl

set_option maxHeartbeats 1000000 in
/-- The coordinate after the negative-index wrap. -/
theorem R_sel_v427 : (R m' c main_v427 : (⟨S8192, .i32⟩ : BufTy).Contents (Elt Ideal))
    = (select (cmpi .slt (R m' c main_v361 : (⟨S8192, .i32⟩ : BufTy).Contents (Elt Ideal)) (broadcastInDim S8192 ![] bcast_S_S8192 (constantI S_ 32 0#32) : (⟨S8192, .i32⟩ : BufTy).Contents (Elt Ideal))) (addi (R m' c main_v361 : (⟨S8192, .i32⟩ : BufTy).Contents (Elt Ideal)) (broadcastInDim S8192 ![] bcast_S_S8192 (constantI S_ 32 7#32) : (⟨S8192, .i32⟩ : BufTy).Contents (Elt Ideal))) (R m' c main_v361 : (⟨S8192, .i32⟩ : BufTy).Contents (Elt Ideal)) : (⟨S8192, .i32⟩ : BufTy).Contents (Elt Ideal)) := by
  rw [R_W9 m' c main_v427 (by decide),
    R_W8 m' c main_v361 (by decide) (by decide)]
  show (after ops_part8 (W8 m' c) (Proc.devRef .tc main_v427) : (⟨S8192, .i32⟩ : BufTy).Contents (Elt Ideal))
    = (select (cmpi .slt (W8 m' c (Proc.devRef .tc main_v361) : (⟨S8192, .i32⟩ : BufTy).Contents (Elt Ideal)) (broadcastInDim S8192 ![] bcast_S_S8192 (constantI S_ 32 0#32) : (⟨S8192, .i32⟩ : BufTy).Contents (Elt Ideal))) (addi (W8 m' c (Proc.devRef .tc main_v361) : (⟨S8192, .i32⟩ : BufTy).Contents (Elt Ideal)) (broadcastInDim S8192 ![] bcast_S_S8192 (constantI S_ 32 7#32) : (⟨S8192, .i32⟩ : BufTy).Contents (Elt Ideal))) (W8 m' c (Proc.devRef .tc main_v361) : (⟨S8192, .i32⟩ : BufTy).Contents (Elt Ideal)) : (⟨S8192, .i32⟩ : BufTy).Contents (Elt Ideal))
  generalize W8 m' c = X
  after_results_simp <;> rfl

set_option maxHeartbeats 1000000 in
/-- One corner's lookup: the map gathered at the wrapped points and transposed. -/
theorem R_tr_v432 : (R m' c main_v432 : (⟨S8192x2048, .f32⟩ : BufTy).Contents (Elt Ideal))
    = (transpose S8192x2048 [1, 0] (Host.gather gather_S2048x7x7_S8192x2_S2048x8192_0_12_n_n_12_1_204811 (R m' c main_v3 : (⟨S2048x7x7, .f32⟩ : BufTy).Contents (Elt Ideal)) (concatenate S8192x2 1 [⟨S8192x1, broadcastInDim S8192x1 ![0] bcast_S8192_S8192x1_0 (R m' c main_v422 : (⟨S8192, .i32⟩ : BufTy).Contents (Elt Ideal))⟩, ⟨S8192x1, broadcastInDim S8192x1 ![0] bcast_S8192_S8192x1_0 (R m' c main_v427 : (⟨S8192, .i32⟩ : BufTy).Contents (Elt Ideal))⟩] concatenates_S8192x1_S8192x1_S8192x2_d1)) transposes_S2048x8192_S8192x2048_1_0 : (⟨S8192x2048, .f32⟩ : BufTy).Contents (Elt Ideal)) := by
  rw [R_W9 m' c main_v432 (by decide),
    R_W8 m' c main_v3 (by decide) (by decide),
    R_W9 m' c main_v422 (by decide),
    R_W9 m' c main_v427 (by decide)]
  show (after ops_part8 (W8 m' c) (Proc.devRef .tc main_v432) : (⟨S8192x2048, .f32⟩ : BufTy).Contents (Elt Ideal))
    = (transpose S8192x2048 [1, 0] (Host.gather gather_S2048x7x7_S8192x2_S2048x8192_0_12_n_n_12_1_204811 (W8 m' c (Proc.devRef .tc main_v3) : (⟨S2048x7x7, .f32⟩ : BufTy).Contents (Elt Ideal)) (concatenate S8192x2 1 [⟨S8192x1, broadcastInDim S8192x1 ![0] bcast_S8192_S8192x1_0 (after ops_part8 (W8 m' c) (Proc.devRef .tc main_v422) : (⟨S8192, .i32⟩ : BufTy).Contents (Elt Ideal))⟩, ⟨S8192x1, broadcastInDim S8192x1 ![0] bcast_S8192_S8192x1_0 (after ops_part8 (W8 m' c) (Proc.devRef .tc main_v427) : (⟨S8192, .i32⟩ : BufTy).Contents (Elt Ideal))⟩] concatenates_S8192x1_S8192x1_S8192x2_d1)) transposes_S2048x8192_S8192x2048_1_0 : (⟨S8192x2048, .f32⟩ : BufTy).Contents (Elt Ideal))
  generalize W8 m' c = X
  after_results_simp <;> rfl

set_option maxHeartbeats 1000000 in
/-- The coordinate after the negative-index wrap. -/
theorem R_sel_v437 : (R m' c main_v437 : (⟨S8192, .i32⟩ : BufTy).Contents (Elt Ideal))
    = (select (cmpi .slt (R m' c main_v359 : (⟨S8192, .i32⟩ : BufTy).Contents (Elt Ideal)) (broadcastInDim S8192 ![] bcast_S_S8192 (constantI S_ 32 0#32) : (⟨S8192, .i32⟩ : BufTy).Contents (Elt Ideal))) (addi (R m' c main_v359 : (⟨S8192, .i32⟩ : BufTy).Contents (Elt Ideal)) (broadcastInDim S8192 ![] bcast_S_S8192 (constantI S_ 32 7#32) : (⟨S8192, .i32⟩ : BufTy).Contents (Elt Ideal))) (R m' c main_v359 : (⟨S8192, .i32⟩ : BufTy).Contents (Elt Ideal)) : (⟨S8192, .i32⟩ : BufTy).Contents (Elt Ideal)) := by
  rw [R_W9 m' c main_v437 (by decide),
    R_W8 m' c main_v359 (by decide) (by decide)]
  show (after ops_part8 (W8 m' c) (Proc.devRef .tc main_v437) : (⟨S8192, .i32⟩ : BufTy).Contents (Elt Ideal))
    = (select (cmpi .slt (W8 m' c (Proc.devRef .tc main_v359) : (⟨S8192, .i32⟩ : BufTy).Contents (Elt Ideal)) (broadcastInDim S8192 ![] bcast_S_S8192 (constantI S_ 32 0#32) : (⟨S8192, .i32⟩ : BufTy).Contents (Elt Ideal))) (addi (W8 m' c (Proc.devRef .tc main_v359) : (⟨S8192, .i32⟩ : BufTy).Contents (Elt Ideal)) (broadcastInDim S8192 ![] bcast_S_S8192 (constantI S_ 32 7#32) : (⟨S8192, .i32⟩ : BufTy).Contents (Elt Ideal))) (W8 m' c (Proc.devRef .tc main_v359) : (⟨S8192, .i32⟩ : BufTy).Contents (Elt Ideal)) : (⟨S8192, .i32⟩ : BufTy).Contents (Elt Ideal))
  generalize W8 m' c = X
  after_results_simp <;> rfl

set_option maxHeartbeats 1000000 in
/-- The coordinate after the negative-index wrap. -/
theorem R_sel_v442 : (R m' c main_v442 : (⟨S8192, .i32⟩ : BufTy).Contents (Elt Ideal))
    = (select (cmpi .slt (R m' c main_v365 : (⟨S8192, .i32⟩ : BufTy).Contents (Elt Ideal)) (broadcastInDim S8192 ![] bcast_S_S8192 (constantI S_ 32 0#32) : (⟨S8192, .i32⟩ : BufTy).Contents (Elt Ideal))) (addi (R m' c main_v365 : (⟨S8192, .i32⟩ : BufTy).Contents (Elt Ideal)) (broadcastInDim S8192 ![] bcast_S_S8192 (constantI S_ 32 7#32) : (⟨S8192, .i32⟩ : BufTy).Contents (Elt Ideal))) (R m' c main_v365 : (⟨S8192, .i32⟩ : BufTy).Contents (Elt Ideal)) : (⟨S8192, .i32⟩ : BufTy).Contents (Elt Ideal)) := by
  rw [R_W9 m' c main_v442 (by decide),
    R_W8 m' c main_v365 (by decide) (by decide)]
  show (after ops_part8 (W8 m' c) (Proc.devRef .tc main_v442) : (⟨S8192, .i32⟩ : BufTy).Contents (Elt Ideal))
    = (select (cmpi .slt (W8 m' c (Proc.devRef .tc main_v365) : (⟨S8192, .i32⟩ : BufTy).Contents (Elt Ideal)) (broadcastInDim S8192 ![] bcast_S_S8192 (constantI S_ 32 0#32) : (⟨S8192, .i32⟩ : BufTy).Contents (Elt Ideal))) (addi (W8 m' c (Proc.devRef .tc main_v365) : (⟨S8192, .i32⟩ : BufTy).Contents (Elt Ideal)) (broadcastInDim S8192 ![] bcast_S_S8192 (constantI S_ 32 7#32) : (⟨S8192, .i32⟩ : BufTy).Contents (Elt Ideal))) (W8 m' c (Proc.devRef .tc main_v365) : (⟨S8192, .i32⟩ : BufTy).Contents (Elt Ideal)) : (⟨S8192, .i32⟩ : BufTy).Contents (Elt Ideal))
  generalize W8 m' c = X
  after_results_simp <;> rfl

set_option maxHeartbeats 1000000 in
/-- One corner's lookup: the map gathered at the wrapped points and transposed. -/
theorem R_tr_v447 : (R m' c main_v447 : (⟨S8192x2048, .f32⟩ : BufTy).Contents (Elt Ideal))
    = (transpose S8192x2048 [1, 0] (Host.gather gather_S2048x7x7_S8192x2_S2048x8192_0_12_n_n_12_1_204811 (R m' c main_v3 : (⟨S2048x7x7, .f32⟩ : BufTy).Contents (Elt Ideal)) (concatenate S8192x2 1 [⟨S8192x1, broadcastInDim S8192x1 ![0] bcast_S8192_S8192x1_0 (R m' c main_v437 : (⟨S8192, .i32⟩ : BufTy).Contents (Elt Ideal))⟩, ⟨S8192x1, broadcastInDim S8192x1 ![0] bcast_S8192_S8192x1_0 (R m' c main_v442 : (⟨S8192, .i32⟩ : BufTy).Contents (Elt Ideal))⟩] concatenates_S8192x1_S8192x1_S8192x2_d1)) transposes_S2048x8192_S8192x2048_1_0 : (⟨S8192x2048, .f32⟩ : BufTy).Contents (Elt Ideal)) := by
  rw [R_W9 m' c main_v447 (by decide),
    R_W8 m' c main_v3 (by decide) (by decide),
    R_W9 m' c main_v437 (by decide),
    R_W9 m' c main_v442 (by decide)]
  show (after ops_part8 (W8 m' c) (Proc.devRef .tc main_v447) : (⟨S8192x2048, .f32⟩ : BufTy).Contents (Elt Ideal))
    = (transpose S8192x2048 [1, 0] (Host.gather gather_S2048x7x7_S8192x2_S2048x8192_0_12_n_n_12_1_204811 (W8 m' c (Proc.devRef .tc main_v3) : (⟨S2048x7x7, .f32⟩ : BufTy).Contents (Elt Ideal)) (concatenate S8192x2 1 [⟨S8192x1, broadcastInDim S8192x1 ![0] bcast_S8192_S8192x1_0 (after ops_part8 (W8 m' c) (Proc.devRef .tc main_v437) : (⟨S8192, .i32⟩ : BufTy).Contents (Elt Ideal))⟩, ⟨S8192x1, broadcastInDim S8192x1 ![0] bcast_S8192_S8192x1_0 (after ops_part8 (W8 m' c) (Proc.devRef .tc main_v442) : (⟨S8192, .i32⟩ : BufTy).Contents (Elt Ideal))⟩] concatenates_S8192x1_S8192x1_S8192x2_d1)) transposes_S2048x8192_S8192x2048_1_0 : (⟨S8192x2048, .f32⟩ : BufTy).Contents (Elt Ideal))
  generalize W8 m' c = X
  after_results_simp <;> rfl

/-- The corner `(x1, y1)`'s lookup at vertex `v` and channel `ch`: the map at the corner point `(a, b)`. -/
theorem Q11_3_apply (v : Fin 8192) (ch : Fin 2048) (a b : Fin 7)
    (ha : (wd S8192 (R m' c main_v355) (ix1 v)).toInt = a.val) (hb : (wd S8192 (R m' c main_v361) (ix1 v)).toInt = b.val) :
    fl S8192x2048 (R m' c main_v402) (ix2 v ch) = fl S1x2048x7x7 (m' ((c.tc : Thread nD τ).loc main_arg3)) (ix4 0 ch a b) := by
  dsimp only [fl, wd] at ha hb ⊢
  have hsx : ((R m' c main_v392 : (⟨S8192, .i32⟩ : BufTy).Contents (Elt Ideal)) (ix1 v)).toInt = a.val := by
    rw [R_sel_v392]
    have h0 : 0 ≤ ((R m' c main_v355 : (⟨S8192, .i32⟩ : BufTy).Contents (Elt Ideal)) (ix1 v)).toInt := by rw [ha]; exact Int.natCast_nonneg _
    rw [wrap_apply (R m' c main_v355 : (⟨S8192, .i32⟩ : BufTy).Contents (Elt Ideal)) _ _ (ix1 v) (splat_apply _ _ _) h0]
    exact ha
  have hsy : ((R m' c main_v397 : (⟨S8192, .i32⟩ : BufTy).Contents (Elt Ideal)) (ix1 v)).toInt = b.val := by
    rw [R_sel_v397]
    have h0 : 0 ≤ ((R m' c main_v361 : (⟨S8192, .i32⟩ : BufTy).Contents (Elt Ideal)) (ix1 v)).toInt := by rw [hb]; exact Int.natCast_nonneg _
    rw [wrap_apply (R m' c main_v361 : (⟨S8192, .i32⟩ : BufTy).Contents (Elt Ideal)) _ _ (ix1 v) (splat_apply _ _ _) h0]
    exact hb
  rw [R_tr_v402, R_map3, R_arg m' c main_arg3 (by decide) (by decide) (by decide) (by decide) (by decide) (by decide) (by decide) (by decide) (by decide) (by decide)]
  refine (gathered_apply (α := EReal) (C := 2048) (s := 7) (N := 8192) (by decide) _ _ _ _ _ _ _ v ch a b hsx hsy).trans ?_
  exact dropUnit_apply _ _ ch a b

/-- The corner `(x1, y2)`'s lookup at vertex `v` and channel `ch`: the map at the corner point `(a, b)`. -/
theorem Q12_3_apply (v : Fin 8192) (ch : Fin 2048) (a b : Fin 7)
    (ha : (wd S8192 (R m' c main_v355) (ix1 v)).toInt = a.val) (hb : (wd S8192 (R m' c main_v365) (ix1 v)).toInt = b.val) :
    fl S8192x2048 (R m' c main_v417) (ix2 v ch) = fl S1x2048x7x7 (m' ((c.tc : Thread nD τ).loc main_arg3)) (ix4 0 ch a b) := by
  dsimp only [fl, wd] at ha hb ⊢
  have hsx : ((R m' c main_v407 : (⟨S8192, .i32⟩ : BufTy).Contents (Elt Ideal)) (ix1 v)).toInt = a.val := by
    rw [R_sel_v407, R_word_c_74]
    have h0 : 0 ≤ ((R m' c main_v355 : (⟨S8192, .i32⟩ : BufTy).Contents (Elt Ideal)) (ix1 v)).toInt := by rw [ha]; exact Int.natCast_nonneg _
    rw [wrap_apply (R m' c main_v355 : (⟨S8192, .i32⟩ : BufTy).Contents (Elt Ideal)) _ _ (ix1 v) (splat_apply _ _ _) h0]
    exact ha
  have hsy : ((R m' c main_v412 : (⟨S8192, .i32⟩ : BufTy).Contents (Elt Ideal)) (ix1 v)).toInt = b.val := by
    rw [R_sel_v412]
    have h0 : 0 ≤ ((R m' c main_v365 : (⟨S8192, .i32⟩ : BufTy).Contents (Elt Ideal)) (ix1 v)).toInt := by rw [hb]; exact Int.natCast_nonneg _
    rw [wrap_apply (R m' c main_v365 : (⟨S8192, .i32⟩ : BufTy).Contents (Elt Ideal)) _ _ (ix1 v) (splat_apply _ _ _) h0]
    exact hb
  rw [R_tr_v417, R_map3, R_arg m' c main_arg3 (by decide) (by decide) (by decide) (by decide) (by decide) (by decide) (by decide) (by decide) (by decide) (by decide)]
  refine (gathered_apply (α := EReal) (C := 2048) (s := 7) (N := 8192) (by decide) _ _ _ _ _ _ _ v ch a b hsx hsy).trans ?_
  exact dropUnit_apply _ _ ch a b

/-- The corner `(x2, y1)`'s lookup at vertex `v` and channel `ch`: the map at the corner point `(a, b)`. -/
theorem Q21_3_apply (v : Fin 8192) (ch : Fin 2048) (a b : Fin 7)
    (ha : (wd S8192 (R m' c main_v359) (ix1 v)).toInt = a.val) (hb : (wd S8192 (R m' c main_v361) (ix1 v)).toInt = b.val) :
    fl S8192x2048 (R m' c main_v432) (ix2 v ch) = fl S1x2048x7x7 (m' ((c.tc : Thread nD τ).loc main_arg3)) (ix4 0 ch a b) := by
  dsimp only [fl, wd] at ha hb ⊢
  have hsx : ((R m' c main_v422 : (⟨S8192, .i32⟩ : BufTy).Contents (Elt Ideal)) (ix1 v)).toInt = a.val := by
    rw [R_sel_v422]
    have h0 : 0 ≤ ((R m' c main_v359 : (⟨S8192, .i32⟩ : BufTy).Contents (Elt Ideal)) (ix1 v)).toInt := by rw [ha]; exact Int.natCast_nonneg _
    rw [wrap_apply (R m' c main_v359 : (⟨S8192, .i32⟩ : BufTy).Contents (Elt Ideal)) _ _ (ix1 v) (splat_apply _ _ _) h0]
    exact ha
  have hsy : ((R m' c main_v427 : (⟨S8192, .i32⟩ : BufTy).Contents (Elt Ideal)) (ix1 v)).toInt = b.val := by
    rw [R_sel_v427]
    have h0 : 0 ≤ ((R m' c main_v361 : (⟨S8192, .i32⟩ : BufTy).Contents (Elt Ideal)) (ix1 v)).toInt := by rw [hb]; exact Int.natCast_nonneg _
    rw [wrap_apply (R m' c main_v361 : (⟨S8192, .i32⟩ : BufTy).Contents (Elt Ideal)) _ _ (ix1 v) (splat_apply _ _ _) h0]
    exact hb
  rw [R_tr_v432, R_map3, R_arg m' c main_arg3 (by decide) (by decide) (by decide) (by decide) (by decide) (by decide) (by decide) (by decide) (by decide) (by decide)]
  refine (gathered_apply (α := EReal) (C := 2048) (s := 7) (N := 8192) (by decide) _ _ _ _ _ _ _ v ch a b hsx hsy).trans ?_
  exact dropUnit_apply _ _ ch a b

/-- The corner `(x2, y2)`'s lookup at vertex `v` and channel `ch`: the map at the corner point `(a, b)`. -/
theorem Q22_3_apply (v : Fin 8192) (ch : Fin 2048) (a b : Fin 7)
    (ha : (wd S8192 (R m' c main_v359) (ix1 v)).toInt = a.val) (hb : (wd S8192 (R m' c main_v365) (ix1 v)).toInt = b.val) :
    fl S8192x2048 (R m' c main_v447) (ix2 v ch) = fl S1x2048x7x7 (m' ((c.tc : Thread nD τ).loc main_arg3)) (ix4 0 ch a b) := by
  dsimp only [fl, wd] at ha hb ⊢
  have hsx : ((R m' c main_v437 : (⟨S8192, .i32⟩ : BufTy).Contents (Elt Ideal)) (ix1 v)).toInt = a.val := by
    rw [R_sel_v437]
    have h0 : 0 ≤ ((R m' c main_v359 : (⟨S8192, .i32⟩ : BufTy).Contents (Elt Ideal)) (ix1 v)).toInt := by rw [ha]; exact Int.natCast_nonneg _
    rw [wrap_apply (R m' c main_v359 : (⟨S8192, .i32⟩ : BufTy).Contents (Elt Ideal)) _ _ (ix1 v) (splat_apply _ _ _) h0]
    exact ha
  have hsy : ((R m' c main_v442 : (⟨S8192, .i32⟩ : BufTy).Contents (Elt Ideal)) (ix1 v)).toInt = b.val := by
    rw [R_sel_v442]
    have h0 : 0 ≤ ((R m' c main_v365 : (⟨S8192, .i32⟩ : BufTy).Contents (Elt Ideal)) (ix1 v)).toInt := by rw [hb]; exact Int.natCast_nonneg _
    rw [wrap_apply (R m' c main_v365 : (⟨S8192, .i32⟩ : BufTy).Contents (Elt Ideal)) _ _ (ix1 v) (splat_apply _ _ _) h0]
    exact hb
  rw [R_tr_v447, R_map3, R_arg m' c main_arg3 (by decide) (by decide) (by decide) (by decide) (by decide) (by decide) (by decide) (by decide) (by decide) (by decide)]
  refine (gathered_apply (α := EReal) (C := 2048) (s := 7) (N := 8192) (by decide) _ _ _ _ _ _ _ v ch a b hsx hsy).trans ?_
  exact dropUnit_apply _ _ ch a b

set_option maxHeartbeats 1000000 in
/-- The first corner's lookup scaled by its weight. -/
theorem R_prod_v449 : (R m' c main_v449 : (⟨S8192x2048, .f32⟩ : BufTy).Contents (Elt Ideal))
    = (mulf (F := Ideal) (s := S8192x2048) (φ := .f32) (broadcastInDim S8192x2048 ![0, 1] bcast_S8192x1_S8192x2048_0_1 (R m' c main_v372 : (⟨S8192x1, .f32⟩ : BufTy).Contents (Elt Ideal)) : (⟨S8192x2048, .f32⟩ : BufTy).Contents (Elt Ideal)) (R m' c main_v402 : (⟨S8192x2048, .f32⟩ : BufTy).Contents (Elt Ideal)) : (⟨S8192x2048, .f32⟩ : BufTy).Contents (Elt Ideal)) := by
  rw [R_W9 m' c main_v449 (by decide),
    R_W8 m' c main_v372 (by decide) (by decide),
    R_W8 m' c main_v402 (by decide) (by decide)]
  show (after ops_part8 (W8 m' c) (Proc.devRef .tc main_v449) : (⟨S8192x2048, .f32⟩ : BufTy).Contents (Elt Ideal))
    = (mulf (F := Ideal) (s := S8192x2048) (φ := .f32) (broadcastInDim S8192x2048 ![0, 1] bcast_S8192x1_S8192x2048_0_1 (W8 m' c (Proc.devRef .tc main_v372) : (⟨S8192x1, .f32⟩ : BufTy).Contents (Elt Ideal)) : (⟨S8192x2048, .f32⟩ : BufTy).Contents (Elt Ideal)) (W8 m' c (Proc.devRef .tc main_v402) : (⟨S8192x2048, .f32⟩ : BufTy).Contents (Elt Ideal)) : (⟨S8192x2048, .f32⟩ : BufTy).Contents (Elt Ideal))
  generalize W8 m' c = X
  after_results_simp <;> rfl

set_option maxHeartbeats 1000000 in
/-- The third corner's lookup scaled by its weight. -/
theorem R_prod_v451 : (R m' c main_v451 : (⟨S8192x2048, .f32⟩ : BufTy).Contents (Elt Ideal))
    = (mulf (F := Ideal) (s := S8192x2048) (φ := .f32) (broadcastInDim S8192x2048 ![0, 1] bcast_S8192x1_S8192x2048_0_1 (R m' c main_v382 : (⟨S8192x1, .f32⟩ : BufTy).Contents (Elt Ideal)) : (⟨S8192x2048, .f32⟩ : BufTy).Contents (Elt Ideal)) (R m' c main_v432 : (⟨S8192x2048, .f32⟩ : BufTy).Contents (Elt Ideal)) : (⟨S8192x2048, .f32⟩ : BufTy).Contents (Elt Ideal)) := by
  rw [R_W9 m' c main_v451 (by decide),
    R_W8 m' c main_v382 (by decide) (by decide),
    R_W9 m' c main_v432 (by decide)]
  show (after ops_part8 (W8 m' c) (Proc.devRef .tc main_v451) : (⟨S8192x2048, .f32⟩ : BufTy).Contents (Elt Ideal))
    = (mulf (F := Ideal) (s := S8192x2048) (φ := .f32) (broadcastInDim S8192x2048 ![0, 1] bcast_S8192x1_S8192x2048_0_1 (W8 m' c (Proc.devRef .tc main_v382) : (⟨S8192x1, .f32⟩ : BufTy).Contents (Elt Ideal)) : (⟨S8192x2048, .f32⟩ : BufTy).Contents (Elt Ideal)) (after ops_part8 (W8 m' c) (Proc.devRef .tc main_v432) : (⟨S8192x2048, .f32⟩ : BufTy).Contents (Elt Ideal)) : (⟨S8192x2048, .f32⟩ : BufTy).Contents (Elt Ideal))
  generalize W8 m' c = X
  after_results_simp <;> rfl

set_option maxHeartbeats 1000000 in
/-- The aligned block: the four weighted lookups added, in the order the program adds them. -/
theorem R_sum3 : (R m' c main_v458 : (⟨S8192x2048, .f32⟩ : BufTy).Contents (Elt Ideal))
    = (addf (F := Ideal) (s := S8192x2048) (φ := .f32) (addf (F := Ideal) (s := S8192x2048) (φ := .f32) (addf (F := Ideal) (s := S8192x2048) (φ := .f32) (R m' c main_v449 : (⟨S8192x2048, .f32⟩ : BufTy).Contents (Elt Ideal)) (R m' c main_v451 : (⟨S8192x2048, .f32⟩ : BufTy).Contents (Elt Ideal))) (mulf (F := Ideal) (s := S8192x2048) (φ := .f32) (broadcastInDim S8192x2048 ![0, 1] bcast_S8192x1_S8192x2048_0_1 (R m' c main_v377 : (⟨S8192x1, .f32⟩ : BufTy).Contents (Elt Ideal)) : (⟨S8192x2048, .f32⟩ : BufTy).Contents (Elt Ideal)) (R m' c main_v417 : (⟨S8192x2048, .f32⟩ : BufTy).Contents (Elt Ideal)))) (mulf (F := Ideal) (s := S8192x2048) (φ := .f32) (broadcastInDim S8192x2048 ![0, 1] bcast_S8192x1_S8192x2048_0_1 (R m' c main_v387 : (⟨S8192x1, .f32⟩ : BufTy).Contents (Elt Ideal)) : (⟨S8192x2048, .f32⟩ : BufTy).Contents (Elt Ideal)) (R m' c main_v447 : (⟨S8192x2048, .f32⟩ : BufTy).Contents (Elt Ideal))) : (⟨S8192x2048, .f32⟩ : BufTy).Contents (Elt Ideal)) := by
  rw [R_W10 m' c main_v458,
    R_W9 m' c main_v449 (by decide),
    R_W9 m' c main_v451 (by decide),
    R_W9 m' c main_v377 (by decide),
    R_W9 m' c main_v417 (by decide),
    R_W9 m' c main_v387 (by decide),
    R_W9 m' c main_v447 (by decide)]
  show (after ops_part9 (W9 m' c) (Proc.devRef .tc main_v458) : (⟨S8192x2048, .f32⟩ : BufTy).Contents (Elt Ideal))
    = (addf (F := Ideal) (s := S8192x2048) (φ := .f32) (addf (F := Ideal) (s := S8192x2048) (φ := .f32) (addf (F := Ideal) (s := S8192x2048) (φ := .f32) (W9 m' c (Proc.devRef .tc main_v449) : (⟨S8192x2048, .f32⟩ : BufTy).Contents (Elt Ideal)) (W9 m' c (Proc.devRef .tc main_v451) : (⟨S8192x2048, .f32⟩ : BufTy).Contents (Elt Ideal))) (mulf (F := Ideal) (s := S8192x2048) (φ := .f32) (broadcastInDim S8192x2048 ![0, 1] bcast_S8192x1_S8192x2048_0_1 (W9 m' c (Proc.devRef .tc main_v377) : (⟨S8192x1, .f32⟩ : BufTy).Contents (Elt Ideal)) : (⟨S8192x2048, .f32⟩ : BufTy).Contents (Elt Ideal)) (W9 m' c (Proc.devRef .tc main_v417) : (⟨S8192x2048, .f32⟩ : BufTy).Contents (Elt Ideal)))) (mulf (F := Ideal) (s := S8192x2048) (φ := .f32) (broadcastInDim S8192x2048 ![0, 1] bcast_S8192x1_S8192x2048_0_1 (W9 m' c (Proc.devRef .tc main_v387) : (⟨S8192x1, .f32⟩ : BufTy).Contents (Elt Ideal)) : (⟨S8192x2048, .f32⟩ : BufTy).Contents (Elt Ideal)) (W9 m' c (Proc.devRef .tc main_v447) : (⟨S8192x2048, .f32⟩ : BufTy).Contents (Elt Ideal))) : (⟨S8192x2048, .f32⟩ : BufTy).Contents (Elt Ideal))
  generalize W9 m' c = X
  after_results_simp <;> rfl

/-- The aligned block at vertex `v` and channel `ch`: the four weights times the four lookups. -/
theorem sum3_apply (v : Fin 8192) (ch : Fin 2048) :
    fl S8192x2048 (R m' c main_v458) (ix2 v ch)
      = ((fl S8192 (R m' c main_v371) (ix1 v) * fl S8192x2048 (R m' c main_v402) (ix2 v ch) + fl S8192 (R m' c main_v381) (ix1 v) * fl S8192x2048 (R m' c main_v432) (ix2 v ch))
          + fl S8192 (R m' c main_v376) (ix1 v) * fl S8192x2048 (R m' c main_v417) (ix2 v ch)) + fl S8192 (R m' c main_v386) (ix1 v) * fl S8192x2048 (R m' c main_v447) (ix2 v ch) := by
  dsimp only [fl]
  rw [R_sum3, R_prod_v449, R_prod_v451]
  rw [addf_apply, addf_apply, addf_apply, mulf_apply, mulf_apply, mulf_apply, mulf_apply]
  rw [column_bcast_apply (N := 8192) (C := 2048) (by decide), column_bcast_apply (N := 8192) (C := 2048) (by decide),
    column_bcast_apply (N := 8192) (C := 2048) (by decide), column_bcast_apply (N := 8192) (C := 2048) (by decide)]
  rw [R_col_v372, R_col_v382, R_col_v377, R_col_v387]
  rw [column_apply, column_apply, column_apply, column_apply]

/-- The aligned block of map 3 at `(v, ch)`, the corner coordinates given as cells of the map. -/
theorem aligned3_cells (v : Fin 8192) (ch : Fin 2048) (X1 X2 Y1 Y2 : Fin 7)
    (e1 : (wd S8192 (R m' c main_v355) (ix1 v)).toInt = X1.val) (e2 : (wd S8192 (R m' c main_v359) (ix1 v)).toInt = X2.val)
    (e3 : (wd S8192 (R m' c main_v361) (ix1 v)).toInt = Y1.val) (e4 : (wd S8192 (R m' c main_v365) (ix1 v)).toInt = Y2.val) :
    fl S8192x2048 (R m' c main_v458) (ix2 v ch)
      = ((fl S8192 (R m' c main_v371) (ix1 v) * fl S1x2048x7x7 (m' ((c.tc : Thread nD τ).loc main_arg3)) (ix4 0 ch X1 Y1)
          + fl S8192 (R m' c main_v381) (ix1 v) * fl S1x2048x7x7 (m' ((c.tc : Thread nD τ).loc main_arg3)) (ix4 0 ch X2 Y1))
          + fl S8192 (R m' c main_v376) (ix1 v) * fl S1x2048x7x7 (m' ((c.tc : Thread nD τ).loc main_arg3)) (ix4 0 ch X1 Y2))
          + fl S8192 (R m' c main_v386) (ix1 v) * fl S1x2048x7x7 (m' ((c.tc : Thread nD τ).loc main_arg3)) (ix4 0 ch X2 Y2) := by
  rw [sum3_apply, Q11_3_apply m' c v ch X1 Y1 e1 e3, Q21_3_apply m' c v ch X2 Y1 e2 e3,
    Q12_3_apply m' c v ch X1 Y2 e1 e4, Q22_3_apply m' c v ch X2 Y2 e2 e4]

set_option maxHeartbeats 1000000 in
/-- The same with the cells read off the coordinate buffers, each coordinate inside the map. -/
theorem aligned3_apply (v : Fin 8192) (ch : Fin 2048)
    (hx1 : 0 ≤ (wd S8192 (R m' c main_v355) (ix1 v)).toInt ∧ (wd S8192 (R m' c main_v355) (ix1 v)).toInt < 7)
    (hx2 : 0 ≤ (wd S8192 (R m' c main_v359) (ix1 v)).toInt ∧ (wd S8192 (R m' c main_v359) (ix1 v)).toInt < 7)
    (hy1 : 0 ≤ (wd S8192 (R m' c main_v361) (ix1 v)).toInt ∧ (wd S8192 (R m' c main_v361) (ix1 v)).toInt < 7)
    (hy2 : 0 ≤ (wd S8192 (R m' c main_v365) (ix1 v)).toInt ∧ (wd S8192 (R m' c main_v365) (ix1 v)).toInt < 7) :
    fl S8192x2048 (R m' c main_v458) (ix2 v ch)
      = ((fl S8192 (R m' c main_v371) (ix1 v) * fl S1x2048x7x7 (m' ((c.tc : Thread nD τ).loc main_arg3)) (ix4 0 ch ⟨(wd S8192 (R m' c main_v355) (ix1 v)).toInt.toNat, by omega⟩ ⟨(wd S8192 (R m' c main_v361) (ix1 v)).toInt.toNat, by omega⟩)
          + fl S8192 (R m' c main_v381) (ix1 v) * fl S1x2048x7x7 (m' ((c.tc : Thread nD τ).loc main_arg3)) (ix4 0 ch ⟨(wd S8192 (R m' c main_v359) (ix1 v)).toInt.toNat, by omega⟩ ⟨(wd S8192 (R m' c main_v361) (ix1 v)).toInt.toNat, by omega⟩))
          + fl S8192 (R m' c main_v376) (ix1 v) * fl S1x2048x7x7 (m' ((c.tc : Thread nD τ).loc main_arg3)) (ix4 0 ch ⟨(wd S8192 (R m' c main_v355) (ix1 v)).toInt.toNat, by omega⟩ ⟨(wd S8192 (R m' c main_v365) (ix1 v)).toInt.toNat, by omega⟩))
          + fl S8192 (R m' c main_v386) (ix1 v) * fl S1x2048x7x7 (m' ((c.tc : Thread nD τ).loc main_arg3)) (ix4 0 ch ⟨(wd S8192 (R m' c main_v359) (ix1 v)).toInt.toNat, by omega⟩ ⟨(wd S8192 (R m' c main_v365) (ix1 v)).toInt.toNat, by omega⟩) :=
  aligned3_cells m' c v ch ⟨(wd S8192 (R m' c main_v355) (ix1 v)).toInt.toNat, by omega⟩ ⟨(wd S8192 (R m' c main_v359) (ix1 v)).toInt.toNat, by omega⟩
    ⟨(wd S8192 (R m' c main_v361) (ix1 v)).toInt.toNat, by omega⟩ ⟨(wd S8192 (R m' c main_v365) (ix1 v)).toInt.toNat, by omega⟩ (Int.toNat_of_nonneg hx1.1).symm (Int.toNat_of_nonneg hx2.1).symm
    (Int.toNat_of_nonneg hy1.1).symm (Int.toNat_of_nonneg hy2.1).symm

end Cert.ReferenceIdeal.HandRead

end
-- ==== Proof.Ref.ChainP0.lean ====
import proofs.«120270_j2259152797813_2_alg».proof.Proof.Ref.Frame
import proofs.«120270_j2259152797813_2_alg».proof.Proof.PrefixChain

set_option maxRecDepth 16384

noncomputable section

namespace Cert.Proof.RefChainP0

open Idealize.ShloMosaic Idealize.ShloMosaic.TcCoe Idealize.SL.Sem Idealize.ShloMosaic.StableHlo
open Cert.ReferenceIdeal Cert.ReferenceIdeal.Gen Cert.ReferenceIdeal.ValueP

variable (m' : (ℓ : Loc Cert.ReferenceIdeal.nD Cert.ReferenceIdeal.τ Cert.ReferenceIdeal.sig) → Buf (Elt Ideal) ℓ) (c : Dev Cert.ReferenceIdeal.nD)

/-! # Map 0: the reference's corner coordinates and weights are the chain functions of the two clipped image
coordinates, vertex by vertex -/

set_option maxHeartbeats 8000000 in
theorem x1_chain : (Cert.ReferenceIdeal.HandRead.R m' c Cert.ReferenceIdeal.main_v28 : (⟨Cert.ReferenceIdeal.S8192, .i32⟩ : BufTy).Contents (Elt Ideal)) = fun i => Cert.Proof.Chain.lo 0x40800000#32 ((Cert.ReferenceIdeal.HandRead.R m' c Cert.ReferenceIdeal.main_v22 : (⟨Cert.ReferenceIdeal.S8192, .f32⟩ : BufTy).Contents (Elt Ideal)) i) := by
  rw [Cert.ReferenceIdeal.HandRead.R_W1 m' c Cert.ReferenceIdeal.main_v28 (by decide) (by decide) (by decide) (by decide) (by decide) (by decide) (by decide) (by decide) (by decide), Cert.ReferenceIdeal.HandRead.R_W1 m' c Cert.ReferenceIdeal.main_v22 (by decide) (by decide) (by decide) (by decide) (by decide) (by decide) (by decide) (by decide) (by decide)]
  show (StableHlo.after Cert.ReferenceIdeal.ValueP.ops_part0 (Cert.ReferenceIdeal.HandRead.W0 m' c) (Proc.devRef .tc Cert.ReferenceIdeal.main_v28) : (⟨Cert.ReferenceIdeal.S8192, .i32⟩ : BufTy).Contents (Elt Ideal)) = fun i => Cert.Proof.Chain.lo 0x40800000#32 ((StableHlo.after Cert.ReferenceIdeal.ValueP.ops_part0 (Cert.ReferenceIdeal.HandRead.W0 m' c) (Proc.devRef .tc Cert.ReferenceIdeal.main_v22) : (⟨Cert.ReferenceIdeal.S8192, .f32⟩ : BufTy).Contents (Elt Ideal)) i)
  generalize Cert.ReferenceIdeal.HandRead.W0 m' c = X
  after_results_simp
  rfl

set_option maxHeartbeats 8000000 in
theorem x2_chain : (Cert.ReferenceIdeal.HandRead.R m' c Cert.ReferenceIdeal.main_v32 : (⟨Cert.ReferenceIdeal.S8192, .i32⟩ : BufTy).Contents (Elt Ideal)) = fun i => Cert.Proof.Chain.hi 0x40800000#32 55#32 ((Cert.ReferenceIdeal.HandRead.R m' c Cert.ReferenceIdeal.main_v22 : (⟨Cert.ReferenceIdeal.S8192, .f32⟩ : BufTy).Contents (Elt Ideal)) i) := by
  rw [Cert.ReferenceIdeal.HandRead.R_W1 m' c Cert.ReferenceIdeal.main_v32 (by decide) (by decide) (by decide) (by decide) (by decide) (by decide) (by decide) (by decide) (by decide), Cert.ReferenceIdeal.HandRead.R_W1 m' c Cert.ReferenceIdeal.main_v22 (by decide) (by decide) (by decide) (by decide) (by decide) (by decide) (by decide) (by decide) (by decide)]
  show (StableHlo.after Cert.ReferenceIdeal.ValueP.ops_part0 (Cert.ReferenceIdeal.HandRead.W0 m' c) (Proc.devRef .tc Cert.ReferenceIdeal.main_v32) : (⟨Cert.ReferenceIdeal.S8192, .i32⟩ : BufTy).Contents (Elt Ideal)) = fun i => Cert.Proof.Chain.hi 0x40800000#32 55#32 ((StableHlo.after Cert.ReferenceIdeal.ValueP.ops_part0 (Cert.ReferenceIdeal.HandRead.W0 m' c) (Proc.devRef .tc Cert.ReferenceIdeal.main_v22) : (⟨Cert.ReferenceIdeal.S8192, .f32⟩ : BufTy).Contents (Elt Ideal)) i)
  generalize Cert.ReferenceIdeal.HandRead.W0 m' c = X
  after_results_simp
  rfl

set_option maxHeartbeats 8000000 in
theorem y1_chain : (Cert.ReferenceIdeal.HandRead.R m' c Cert.ReferenceIdeal.main_v34 : (⟨Cert.ReferenceIdeal.S8192, .i32⟩ : BufTy).Contents (Elt Ideal)) = fun i => Cert.Proof.Chain.lo 0x40800000#32 ((Cert.ReferenceIdeal.HandRead.R m' c Cert.ReferenceIdeal.main_v13 : (⟨Cert.ReferenceIdeal.S8192, .f32⟩ : BufTy).Contents (Elt Ideal)) i) := by
  rw [Cert.ReferenceIdeal.HandRead.R_W1 m' c Cert.ReferenceIdeal.main_v34 (by decide) (by decide) (by decide) (by decide) (by decide) (by decide) (by decide) (by decide) (by decide), Cert.ReferenceIdeal.HandRead.R_W1 m' c Cert.ReferenceIdeal.main_v13 (by decide) (by decide) (by decide) (by decide) (by decide) (by decide) (by decide) (by decide) (by decide)]
  show (StableHlo.after Cert.ReferenceIdeal.ValueP.ops_part0 (Cert.ReferenceIdeal.HandRead.W0 m' c) (Proc.devRef .tc Cert.ReferenceIdeal.main_v34) : (⟨Cert.ReferenceIdeal.S8192, .i32⟩ : BufTy).Contents (Elt Ideal)) = fun i => Cert.Proof.Chain.lo 0x40800000#32 ((StableHlo.after Cert.ReferenceIdeal.ValueP.ops_part0 (Cert.ReferenceIdeal.HandRead.W0 m' c) (Proc.devRef .tc Cert.ReferenceIdeal.main_v13) : (⟨Cert.ReferenceIdeal.S8192, .f32⟩ : BufTy).Contents (Elt Ideal)) i)
  generalize Cert.ReferenceIdeal.HandRead.W0 m' c = X
  after_results_simp
  rfl

set_option maxHeartbeats 8000000 in
theorem y2_chain : (Cert.ReferenceIdeal.HandRead.R m' c Cert.ReferenceIdeal.main_v38 : (⟨Cert.ReferenceIdeal.S8192, .i32⟩ : BufTy).Contents (Elt Ideal)) = fun i => Cert.Proof.Chain.hi 0x40800000#32 55#32 ((Cert.ReferenceIdeal.HandRead.R m' c Cert.ReferenceIdeal.main_v13 : (⟨Cert.ReferenceIdeal.S8192, .f32⟩ : BufTy).Contents (Elt Ideal)) i) := by
  rw [Cert.ReferenceIdeal.HandRead.R_W1 m' c Cert.ReferenceIdeal.main_v38 (by decide) (by decide) (by decide) (by decide) (by decide) (by decide) (by decide) (by decide) (by decide), Cert.ReferenceIdeal.HandRead.R_W1 m' c Cert.ReferenceIdeal.main_v13 (by decide) (by decide) (by decide) (by decide) (by decide) (by decide) (by decide) (by decide) (by decide)]
  show (StableHlo.after Cert.ReferenceIdeal.ValueP.ops_part0 (Cert.ReferenceIdeal.HandRead.W0 m' c) (Proc.devRef .tc Cert.ReferenceIdeal.main_v38) : (⟨Cert.ReferenceIdeal.S8192, .i32⟩ : BufTy).Contents (Elt Ideal)) = fun i => Cert.Proof.Chain.hi 0x40800000#32 55#32 ((StableHlo.after Cert.ReferenceIdeal.ValueP.ops_part0 (Cert.ReferenceIdeal.HandRead.W0 m' c) (Proc.devRef .tc Cert.ReferenceIdeal.main_v13) : (⟨Cert.ReferenceIdeal.S8192, .f32⟩ : BufTy).Contents (Elt Ideal)) i)
  generalize Cert.ReferenceIdeal.HandRead.W0 m' c = X
  after_results_simp
  rfl

set_option maxHeartbeats 8000000 in
theorem w11_chain : (Cert.ReferenceIdeal.HandRead.R m' c Cert.ReferenceIdeal.main_v44 : (⟨Cert.ReferenceIdeal.S8192, .f32⟩ : BufTy).Contents (Elt Ideal)) = fun i => Cert.Proof.Chain.w11 0x40800000#32 55#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W1 m' c Cert.ReferenceIdeal.main_v44 (by decide) (by decide) (by decide) (by decide) (by decide) (by decide) (by decide) (by decide) (by decide), Cert.ReferenceIdeal.HandRead.R_W1 m' c Cert.ReferenceIdeal.main_v22 (by decide) (by decide) (by decide) (by decide) (by decide) (by decide) (by decide) (by decide) (by decide), Cert.ReferenceIdeal.HandRead.R_W1 m' c Cert.ReferenceIdeal.main_v13 (by decide) (by decide) (by decide) (by decide) (by decide) (by decide) (by decide) (by decide) (by decide)]
  show (StableHlo.after Cert.ReferenceIdeal.ValueP.ops_part0 (Cert.ReferenceIdeal.HandRead.W0 m' c) (Proc.devRef .tc Cert.ReferenceIdeal.main_v44) : (⟨Cert.ReferenceIdeal.S8192, .f32⟩ : BufTy).Contents (Elt Ideal)) = fun i => Cert.Proof.Chain.w11 0x40800000#32 55#32 ((StableHlo.after Cert.ReferenceIdeal.ValueP.ops_part0 (Cert.ReferenceIdeal.HandRead.W0 m' c) (Proc.devRef .tc Cert.ReferenceIdeal.main_v22) : (⟨Cert.ReferenceIdeal.S8192, .f32⟩ : BufTy).Contents (Elt Ideal)) i) ((StableHlo.after Cert.ReferenceIdeal.ValueP.ops_part0 (Cert.ReferenceIdeal.HandRead.W0 m' c) (Proc.devRef .tc Cert.ReferenceIdeal.main_v13) : (⟨Cert.ReferenceIdeal.S8192, .f32⟩ : BufTy).Contents (Elt Ideal)) i)
  generalize Cert.ReferenceIdeal.HandRead.W0 m' c = X
  after_results_simp
  rfl

set_option maxHeartbeats 8000000 in
theorem w12_chain : (Cert.ReferenceIdeal.HandRead.R m' c Cert.ReferenceIdeal.main_v49 : (⟨Cert.ReferenceIdeal.S8192, .f32⟩ : BufTy).Contents (Elt Ideal)) = fun i => Cert.Proof.Chain.w12 0x40800000#32 55#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W2 m' c Cert.ReferenceIdeal.main_v49 (by decide) (by decide) (by decide) (by decide) (by decide) (by decide) (by decide) (by decide), Cert.ReferenceIdeal.HandRead.R_W1 m' c Cert.ReferenceIdeal.main_v22 (by decide) (by decide) (by decide) (by decide) (by decide) (by decide) (by decide) (by decide) (by decide), Cert.ReferenceIdeal.HandRead.R_W1 m' c Cert.ReferenceIdeal.main_v13 (by decide) (by decide) (by decide) (by decide) (by decide) (by decide) (by decide) (by decide) (by decide)]
  show (StableHlo.after Cert.ReferenceIdeal.ValueP.ops_part1 (StableHlo.after Cert.ReferenceIdeal.ValueP.ops_part0 (Cert.ReferenceIdeal.HandRead.W0 m' c)) (Proc.devRef .tc Cert.ReferenceIdeal.main_v49) : (⟨Cert.ReferenceIdeal.S8192, .f32⟩ : BufTy).Contents (Elt Ideal)) = fun i => Cert.Proof.Chain.w12 0x40800000#32 55#32 ((StableHlo.after Cert.ReferenceIdeal.ValueP.ops_part0 (Cert.ReferenceIdeal.HandRead.W0 m' c) (Proc.devRef .tc Cert.ReferenceIdeal.main_v22) : (⟨Cert.ReferenceIdeal.S8192, .f32⟩ : BufTy).Contents (Elt Ideal)) i) ((StableHlo.after Cert.ReferenceIdeal.ValueP.ops_part0 (Cert.ReferenceIdeal.HandRead.W0 m' c) (Proc.devRef .tc Cert.ReferenceIdeal.main_v13) : (⟨Cert.ReferenceIdeal.S8192, .f32⟩ : BufTy).Contents (Elt Ideal)) i)
  generalize Cert.ReferenceIdeal.HandRead.W0 m' c = X
  after_results_simp
  rfl

set_option maxHeartbeats 8000000 in
theorem w21_chain : (Cert.ReferenceIdeal.HandRead.R m' c Cert.ReferenceIdeal.main_v54 : (⟨Cert.ReferenceIdeal.S8192, .f32⟩ : BufTy).Contents (Elt Ideal)) = fun i => Cert.Proof.Chain.w21 0x40800000#32 55#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W2 m' c Cert.ReferenceIdeal.main_v54 (by decide) (by decide) (by decide) (by decide) (by decide) (by decide) (by decide) (by decide), Cert.ReferenceIdeal.HandRead.R_W1 m' c Cert.ReferenceIdeal.main_v22 (by decide) (by decide) (by decide) (by decide) (by decide) (by decide) (by decide) (by decide) (by decide), Cert.ReferenceIdeal.HandRead.R_W1 m' c Cert.ReferenceIdeal.main_v13 (by decide) (by decide) (by decide) (by decide) (by decide) (by decide) (by decide) (by decide) (by decide)]
  show (StableHlo.after Cert.ReferenceIdeal.ValueP.ops_part1 (StableHlo.after Cert.ReferenceIdeal.ValueP.ops_part0 (Cert.ReferenceIdeal.HandRead.W0 m' c)) (Proc.devRef .tc Cert.ReferenceIdeal.main_v54) : (⟨Cert.ReferenceIdeal.S8192, .f32⟩ : BufTy).Contents (Elt Ideal)) = fun i => Cert.Proof.Chain.w21 0x40800000#32 55#32 ((StableHlo.after Cert.ReferenceIdeal.ValueP.ops_part0 (Cert.ReferenceIdeal.HandRead.W0 m' c) (Proc.devRef .tc Cert.ReferenceIdeal.main_v22) : (⟨Cert.ReferenceIdeal.S8192, .f32⟩ : BufTy).Contents (Elt Ideal)) i) ((StableHlo.after Cert.ReferenceIdeal.ValueP.ops_part0 (Cert.ReferenceIdeal.HandRead.W0 m' c) (Proc.devRef .tc Cert.ReferenceIdeal.main_v13) : (⟨Cert.ReferenceIdeal.S8192, .f32⟩ : BufTy).Contents (Elt Ideal)) i)
  generalize Cert.ReferenceIdeal.HandRead.W0 m' c = X
  after_results_simp
  rfl

set_option maxHeartbeats 8000000 in
theorem w22_chain : (Cert.ReferenceIdeal.HandRead.R m' c Cert.ReferenceIdeal.main_v59 : (⟨Cert.ReferenceIdeal.S8192, .f32⟩ : BufTy).Contents (Elt Ideal)) = fun i => Cert.Proof.Chain.w22 0x40800000#32 55#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W2 m' c Cert.ReferenceIdeal.main_v59 (by decide) (by decide) (by decide) (by decide) (by decide) (by decide) (by decide) (by decide), Cert.ReferenceIdeal.HandRead.R_W1 m' c Cert.ReferenceIdeal.main_v22 (by decide) (by decide) (by decide) (by decide) (by decide) (by decide) (by decide) (by decide) (by decide), Cert.ReferenceIdeal.HandRead.R_W1 m' c Cert.ReferenceIdeal.main_v13 (by decide) (by decide) (by decide) (by decide) (by decide) (by decide) (by decide) (by decide) (by decide)]
  show (StableHlo.after Cert.ReferenceIdeal.ValueP.ops_part1 (StableHlo.after Cert.ReferenceIdeal.ValueP.ops_part0 (Cert.ReferenceIdeal.HandRead.W0 m' c)) (Proc.devRef .tc Cert.ReferenceIdeal.main_v59) : (⟨Cert.ReferenceIdeal.S8192, .f32⟩ : BufTy).Contents (Elt Ideal)) = fun i => Cert.Proof.Chain.w22 0x40800000#32 55#32 ((StableHlo.after Cert.ReferenceIdeal.ValueP.ops_part0 (Cert.ReferenceIdeal.HandRead.W0 m' c) (Proc.devRef .tc Cert.ReferenceIdeal.main_v22) : (⟨Cert.ReferenceIdeal.S8192, .f32⟩ : BufTy).Contents (Elt Ideal)) i) ((StableHlo.after Cert.ReferenceIdeal.ValueP.ops_part0 (Cert.ReferenceIdeal.HandRead.W0 m' c) (Proc.devRef .tc Cert.ReferenceIdeal.main_v13) : (⟨Cert.ReferenceIdeal.S8192, .f32⟩ : BufTy).Contents (Elt Ideal)) i)
  generalize Cert.ReferenceIdeal.HandRead.W0 m' c = X
  after_results_simp
  rfl

end Cert.Proof.RefChainP0

end
-- ==== Proof.Ref.ChainP1.lean ====
import proofs.«120270_j2259152797813_2_alg».proof.Proof.Ref.Frame
import proofs.«120270_j2259152797813_2_alg».proof.Proof.PrefixChain

set_option maxRecDepth 16384

noncomputable section

namespace Cert.Proof.RefChainP1

open Idealize.ShloMosaic Idealize.ShloMosaic.TcCoe Idealize.SL.Sem Idealize.ShloMosaic.StableHlo
open Cert.ReferenceIdeal Cert.ReferenceIdeal.Gen Cert.ReferenceIdeal.ValueP

variable (m' : (ℓ : Loc Cert.ReferenceIdeal.nD Cert.ReferenceIdeal.τ Cert.ReferenceIdeal.sig) → Buf (Elt Ideal) ℓ) (c : Dev Cert.ReferenceIdeal.nD)

/-! # Map 1: the reference's corner coordinates and weights are the chain functions of the two clipped image
coordinates, vertex by vertex -/

set_option maxHeartbeats 8000000 in
theorem x1_chain : (Cert.ReferenceIdeal.HandRead.R m' c Cert.ReferenceIdeal.main_v137 : (⟨Cert.ReferenceIdeal.S8192, .i32⟩ : BufTy).Contents (Elt Ideal)) = fun i => Cert.Proof.Chain.lo 0x41000000#32 ((Cert.ReferenceIdeal.HandRead.R m' c Cert.ReferenceIdeal.main_v22 : (⟨Cert.ReferenceIdeal.S8192, .f32⟩ : BufTy).Contents (Elt Ideal)) i) := by
  rw [Cert.ReferenceIdeal.HandRead.R_W3 m' c Cert.ReferenceIdeal.main_v137 (by decide) (by decide) (by decide) (by decide) (by decide) (by decide) (by decide), Cert.ReferenceIdeal.HandRead.R_W2 m' c Cert.ReferenceIdeal.main_v22 (by decide) (by decide) (by decide) (by decide) (by decide) (by decide) (by decide) (by decide)]
  show (StableHlo.after Cert.ReferenceIdeal.ValueP.ops_part2 (Cert.ReferenceIdeal.HandRead.W2 m' c) (Proc.devRef .tc Cert.ReferenceIdeal.main_v137) : (⟨Cert.ReferenceIdeal.S8192, .i32⟩ : BufTy).Contents (Elt Ideal)) = fun i => Cert.Proof.Chain.lo 0x41000000#32 ((Cert.ReferenceIdeal.HandRead.W2 m' c (Proc.devRef .tc Cert.ReferenceIdeal.main_v22) : (⟨Cert.ReferenceIdeal.S8192, .f32⟩ : BufTy).Contents (Elt Ideal)) i)
  generalize Cert.ReferenceIdeal.HandRead.W2 m' c = X
  after_results_simp
  rfl

set_option maxHeartbeats 8000000 in
theorem x2_chain : (Cert.ReferenceIdeal.HandRead.R m' c Cert.ReferenceIdeal.main_v141 : (⟨Cert.ReferenceIdeal.S8192, .i32⟩ : BufTy).Contents (Elt Ideal)) = fun i => Cert.Proof.Chain.hi 0x41000000#32 27#32 ((Cert.ReferenceIdeal.HandRead.R m' c Cert.ReferenceIdeal.main_v22 : (⟨Cert.ReferenceIdeal.S8192, .f32⟩ : BufTy).Contents (Elt Ideal)) i) := by
  rw [Cert.ReferenceIdeal.HandRead.R_W3 m' c Cert.ReferenceIdeal.main_v141 (by decide) (by decide) (by decide) (by decide) (by decide) (by decide) (by decide), Cert.ReferenceIdeal.HandRead.R_W2 m' c Cert.ReferenceIdeal.main_v22 (by decide) (by decide) (by decide) (by decide) (by decide) (by decide) (by decide) (by decide)]
  show (StableHlo.after Cert.ReferenceIdeal.ValueP.ops_part2 (Cert.ReferenceIdeal.HandRead.W2 m' c) (Proc.devRef .tc Cert.ReferenceIdeal.main_v141) : (⟨Cert.ReferenceIdeal.S8192, .i32⟩ : BufTy).Contents (Elt Ideal)) = fun i => Cert.Proof.Chain.hi 0x41000000#32 27#32 ((Cert.ReferenceIdeal.HandRead.W2 m' c (Proc.devRef .tc Cert.ReferenceIdeal.main_v22) : (⟨Cert.ReferenceIdeal.S8192, .f32⟩ : BufTy).Contents (Elt Ideal)) i)
  generalize Cert.ReferenceIdeal.HandRead.W2 m' c = X
  after_results_simp
  rfl

set_option maxHeartbeats 8000000 in
theorem y1_chain : (Cert.ReferenceIdeal.HandRead.R m' c Cert.ReferenceIdeal.main_v143 : (⟨Cert.ReferenceIdeal.S8192, .i32⟩ : BufTy).Contents (Elt Ideal)) = fun i => Cert.Proof.Chain.lo 0x41000000#32 ((Cert.ReferenceIdeal.HandRead.R m' c Cert.ReferenceIdeal.main_v13 : (⟨Cert.ReferenceIdeal.S8192, .f32⟩ : BufTy).Contents (Elt Ideal)) i) := by
  rw [Cert.ReferenceIdeal.HandRead.R_W3 m' c Cert.ReferenceIdeal.main_v143 (by decide) (by decide) (by decide) (by decide) (by decide) (by decide) (by decide), Cert.ReferenceIdeal.HandRead.R_W2 m' c Cert.ReferenceIdeal.main_v13 (by decide) (by decide) (by decide) (by decide) (by decide) (by decide) (by decide) (by decide)]
  show (StableHlo.after Cert.ReferenceIdeal.ValueP.ops_part2 (Cert.ReferenceIdeal.HandRead.W2 m' c) (Proc.devRef .tc Cert.ReferenceIdeal.main_v143) : (⟨Cert.ReferenceIdeal.S8192, .i32⟩ : BufTy).Contents (Elt Ideal)) = fun i => Cert.Proof.Chain.lo 0x41000000#32 ((Cert.ReferenceIdeal.HandRead.W2 m' c (Proc.devRef .tc Cert.ReferenceIdeal.main_v13) : (⟨Cert.ReferenceIdeal.S8192, .f32⟩ : BufTy).Contents (Elt Ideal)) i)
  generalize Cert.ReferenceIdeal.HandRead.W2 m' c = X
  after_results_simp
  rfl

set_option maxHeartbeats 8000000 in
theorem y2_chain : (Cert.ReferenceIdeal.HandRead.R m' c Cert.ReferenceIdeal.main_v147 : (⟨Cert.ReferenceIdeal.S8192, .i32⟩ : BufTy).Contents (Elt Ideal)) = fun i => Cert.Proof.Chain.hi 0x41000000#32 27#32 ((Cert.ReferenceIdeal.HandRead.R m' c Cert.ReferenceIdeal.main_v13 : (⟨Cert.ReferenceIdeal.S8192, .f32⟩ : BufTy).Contents (Elt Ideal)) i) := by
  rw [Cert.ReferenceIdeal.HandRead.R_W3 m' c Cert.ReferenceIdeal.main_v147 (by decide) (by decide) (by decide) (by decide) (by decide) (by decide) (by decide), Cert.ReferenceIdeal.HandRead.R_W2 m' c Cert.ReferenceIdeal.main_v13 (by decide) (by decide) (by decide) (by decide) (by decide) (by decide) (by decide) (by decide)]
  show (StableHlo.after Cert.ReferenceIdeal.ValueP.ops_part2 (Cert.ReferenceIdeal.HandRead.W2 m' c) (Proc.devRef .tc Cert.ReferenceIdeal.main_v147) : (⟨Cert.ReferenceIdeal.S8192, .i32⟩ : BufTy).Contents (Elt Ideal)) = fun i => Cert.Proof.Chain.hi 0x41000000#32 27#32 ((Cert.ReferenceIdeal.HandRead.W2 m' c (Proc.devRef .tc Cert.ReferenceIdeal.main_v13) : (⟨Cert.ReferenceIdeal.S8192, .f32⟩ : BufTy).Contents (Elt Ideal)) i)
  generalize Cert.ReferenceIdeal.HandRead.W2 m' c = X
  after_results_simp
  rfl

set_option maxHeartbeats 8000000 in
theorem w11_chain : (Cert.ReferenceIdeal.HandRead.R m' c Cert.ReferenceIdeal.main_v153 : (⟨Cert.ReferenceIdeal.S8192, .f32⟩ : BufTy).Contents (Elt Ideal)) = fun i => Cert.Proof.Chain.w11 0x41000000#32 27#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W4 m' c Cert.ReferenceIdeal.main_v153 (by decide) (by decide) (by decide) (by decide) (by decide) (by decide), Cert.ReferenceIdeal.HandRead.R_W2 m' c Cert.ReferenceIdeal.main_v22 (by decide) (by decide) (by decide) (by decide) (by decide) (by decide) (by decide) (by decide), Cert.ReferenceIdeal.HandRead.R_W2 m' c Cert.ReferenceIdeal.main_v13 (by decide) (by decide) (by decide) (by decide) (by decide) (by decide) (by decide) (by decide)]
  show (StableHlo.after Cert.ReferenceIdeal.ValueP.ops_part3 (StableHlo.after Cert.ReferenceIdeal.ValueP.ops_part2 (Cert.ReferenceIdeal.HandRead.W2 m' c)) (Proc.devRef .tc Cert.ReferenceIdeal.main_v153) : (⟨Cert.ReferenceIdeal.S8192, .f32⟩ : BufTy).Contents (Elt Ideal)) = fun i => Cert.Proof.Chain.w11 0x41000000#32 27#32 ((Cert.ReferenceIdeal.HandRead.W2 m' c (Proc.devRef .tc Cert.ReferenceIdeal.main_v22) : (⟨Cert.ReferenceIdeal.S8192, .f32⟩ : BufTy).Contents (Elt Ideal)) i) ((Cert.ReferenceIdeal.HandRead.W2 m' c (Proc.devRef .tc Cert.ReferenceIdeal.main_v13) : (⟨Cert.ReferenceIdeal.S8192, .f32⟩ : BufTy).Contents (Elt Ideal)) i)
  generalize Cert.ReferenceIdeal.HandRead.W2 m' c = X
  after_results_simp
  rfl

set_option maxHeartbeats 8000000 in
theorem w12_chain : (Cert.ReferenceIdeal.HandRead.R m' c Cert.ReferenceIdeal.main_v158 : (⟨Cert.ReferenceIdeal.S8192, .f32⟩ : BufTy).Contents (Elt Ideal)) = fun i => Cert.Proof.Chain.w12 0x41000000#32 27#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W4 m' c Cert.ReferenceIdeal.main_v158 (by decide) (by decide) (by decide) (by decide) (by decide) (by decide), Cert.ReferenceIdeal.HandRead.R_W2 m' c Cert.ReferenceIdeal.main_v22 (by decide) (by decide) (by decide) (by decide) (by decide) (by decide) (by decide) (by decide), Cert.ReferenceIdeal.HandRead.R_W2 m' c Cert.ReferenceIdeal.main_v13 (by decide) (by decide) (by decide) (by decide) (by decide) (by decide) (by decide) (by decide)]
  show (StableHlo.after Cert.ReferenceIdeal.ValueP.ops_part3 (StableHlo.after Cert.ReferenceIdeal.ValueP.ops_part2 (Cert.ReferenceIdeal.HandRead.W2 m' c)) (Proc.devRef .tc Cert.ReferenceIdeal.main_v158) : (⟨Cert.ReferenceIdeal.S8192, .f32⟩ : BufTy).Contents (Elt Ideal)) = fun i => Cert.Proof.Chain.w12 0x41000000#32 27#32 ((Cert.ReferenceIdeal.HandRead.W2 m' c (Proc.devRef .tc Cert.ReferenceIdeal.main_v22) : (⟨Cert.ReferenceIdeal.S8192, .f32⟩ : BufTy).Contents (Elt Ideal)) i) ((Cert.ReferenceIdeal.HandRead.W2 m' c (Proc.devRef .tc Cert.ReferenceIdeal.main_v13) : (⟨Cert.ReferenceIdeal.S8192, .f32⟩ : BufTy).Contents (Elt Ideal)) i)
  generalize Cert.ReferenceIdeal.HandRead.W2 m' c = X
  after_results_simp
  rfl

set_option maxHeartbeats 8000000 in
theorem w21_chain : (Cert.ReferenceIdeal.HandRead.R m' c Cert.ReferenceIdeal.main_v163 : (⟨Cert.ReferenceIdeal.S8192, .f32⟩ : BufTy).Contents (Elt Ideal)) = fun i => Cert.Proof.Chain.w21 0x41000000#32 27#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W4 m' c Cert.ReferenceIdeal.main_v163 (by decide) (by decide) (by decide) (by decide) (by decide) (by decide), Cert.ReferenceIdeal.HandRead.R_W2 m' c Cert.ReferenceIdeal.main_v22 (by decide) (by decide) (by decide) (by decide) (by decide) (by decide) (by decide) (by decide), Cert.ReferenceIdeal.HandRead.R_W2 m' c Cert.ReferenceIdeal.main_v13 (by decide) (by decide) (by decide) (by decide) (by decide) (by decide) (by decide) (by decide)]
  show (StableHlo.after Cert.ReferenceIdeal.ValueP.ops_part3 (StableHlo.after Cert.ReferenceIdeal.ValueP.ops_part2 (Cert.ReferenceIdeal.HandRead.W2 m' c)) (Proc.devRef .tc Cert.ReferenceIdeal.main_v163) : (⟨Cert.ReferenceIdeal.S8192, .f32⟩ : BufTy).Contents (Elt Ideal)) = fun i => Cert.Proof.Chain.w21 0x41000000#32 27#32 ((Cert.ReferenceIdeal.HandRead.W2 m' c (Proc.devRef .tc Cert.ReferenceIdeal.main_v22) : (⟨Cert.ReferenceIdeal.S8192, .f32⟩ : BufTy).Contents (Elt Ideal)) i) ((Cert.ReferenceIdeal.HandRead.W2 m' c (Proc.devRef .tc Cert.ReferenceIdeal.main_v13) : (⟨Cert.ReferenceIdeal.S8192, .f32⟩ : BufTy).Contents (Elt Ideal)) i)
  generalize Cert.ReferenceIdeal.HandRead.W2 m' c = X
  after_results_simp
  rfl

set_option maxHeartbeats 8000000 in
theorem w22_chain : (Cert.ReferenceIdeal.HandRead.R m' c Cert.ReferenceIdeal.main_v168 : (⟨Cert.ReferenceIdeal.S8192, .f32⟩ : BufTy).Contents (Elt Ideal)) = fun i => Cert.Proof.Chain.w22 0x41000000#32 27#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W4 m' c Cert.ReferenceIdeal.main_v168 (by decide) (by decide) (by decide) (by decide) (by decide) (by decide), Cert.ReferenceIdeal.HandRead.R_W2 m' c Cert.ReferenceIdeal.main_v22 (by decide) (by decide) (by decide) (by decide) (by decide) (by decide) (by decide) (by decide), Cert.ReferenceIdeal.HandRead.R_W2 m' c Cert.ReferenceIdeal.main_v13 (by decide) (by decide) (by decide) (by decide) (by decide) (by decide) (by decide) (by decide)]
  show (StableHlo.after Cert.ReferenceIdeal.ValueP.ops_part3 (StableHlo.after Cert.ReferenceIdeal.ValueP.ops_part2 (Cert.ReferenceIdeal.HandRead.W2 m' c)) (Proc.devRef .tc Cert.ReferenceIdeal.main_v168) : (⟨Cert.ReferenceIdeal.S8192, .f32⟩ : BufTy).Contents (Elt Ideal)) = fun i => Cert.Proof.Chain.w22 0x41000000#32 27#32 ((Cert.ReferenceIdeal.HandRead.W2 m' c (Proc.devRef .tc Cert.ReferenceIdeal.main_v22) : (⟨Cert.ReferenceIdeal.S8192, .f32⟩ : BufTy).Contents (Elt Ideal)) i) ((Cert.ReferenceIdeal.HandRead.W2 m' c (Proc.devRef .tc Cert.ReferenceIdeal.main_v13) : (⟨Cert.ReferenceIdeal.S8192, .f32⟩ : BufTy).Contents (Elt Ideal)) i)
  generalize Cert.ReferenceIdeal.HandRead.W2 m' c = X
  after_results_simp
  rfl

end Cert.Proof.RefChainP1

end
-- ==== Proof.Ref.ChainP2.lean ====
import proofs.«120270_j2259152797813_2_alg».proof.Proof.Ref.Frame
import proofs.«120270_j2259152797813_2_alg».proof.Proof.PrefixChain

set_option maxRecDepth 16384

noncomputable section

namespace Cert.Proof.RefChainP2

open Idealize.ShloMosaic Idealize.ShloMosaic.TcCoe Idealize.SL.Sem Idealize.ShloMosaic.StableHlo
open Cert.ReferenceIdeal Cert.ReferenceIdeal.Gen Cert.ReferenceIdeal.ValueP

variable (m' : (ℓ : Loc Cert.ReferenceIdeal.nD Cert.ReferenceIdeal.τ Cert.ReferenceIdeal.sig) → Buf (Elt Ideal) ℓ) (c : Dev Cert.ReferenceIdeal.nD)

/-! # Map 2: the reference's corner coordinates and weights are the chain functions of the two clipped image
coordinates, vertex by vertex -/

set_option maxHeartbeats 8000000 in
theorem x1_chain : (Cert.ReferenceIdeal.HandRead.R m' c Cert.ReferenceIdeal.main_v246 : (⟨Cert.ReferenceIdeal.S8192, .i32⟩ : BufTy).Contents (Elt Ideal)) = fun i => Cert.Proof.Chain.lo 0x41800000#32 ((Cert.ReferenceIdeal.HandRead.R m' c Cert.ReferenceIdeal.main_v22 : (⟨Cert.ReferenceIdeal.S8192, .f32⟩ : BufTy).Contents (Elt Ideal)) i) := by
  rw [Cert.ReferenceIdeal.HandRead.R_W5 m' c Cert.ReferenceIdeal.main_v246 (by decide) (by decide) (by decide) (by decide) (by decide), Cert.ReferenceIdeal.HandRead.R_W4 m' c Cert.ReferenceIdeal.main_v22 (by decide) (by decide) (by decide) (by decide) (by decide) (by decide)]
  show (StableHlo.after Cert.ReferenceIdeal.ValueP.ops_part4 (Cert.ReferenceIdeal.HandRead.W4 m' c) (Proc.devRef .tc Cert.ReferenceIdeal.main_v246) : (⟨Cert.ReferenceIdeal.S8192, .i32⟩ : BufTy).Contents (Elt Ideal)) = fun i => Cert.Proof.Chain.lo 0x41800000#32 ((Cert.ReferenceIdeal.HandRead.W4 m' c (Proc.devRef .tc Cert.ReferenceIdeal.main_v22) : (⟨Cert.ReferenceIdeal.S8192, .f32⟩ : BufTy).Contents (Elt Ideal)) i)
  generalize Cert.ReferenceIdeal.HandRead.W4 m' c = X
  after_results_simp
  rfl

set_option maxHeartbeats 8000000 in
theorem x2_chain : (Cert.ReferenceIdeal.HandRead.R m' c Cert.ReferenceIdeal.main_v250 : (⟨Cert.ReferenceIdeal.S8192, .i32⟩ : BufTy).Contents (Elt Ideal)) = fun i => Cert.Proof.Chain.hi 0x41800000#32 13#32 ((Cert.ReferenceIdeal.HandRead.R m' c Cert.ReferenceIdeal.main_v22 : (⟨Cert.ReferenceIdeal.S8192, .f32⟩ : BufTy).Contents (Elt Ideal)) i) := by
  rw [Cert.ReferenceIdeal.HandRead.R_W6 m' c Cert.ReferenceIdeal.main_v250 (by decide) (by decide) (by decide) (by decide), Cert.ReferenceIdeal.HandRead.R_W4 m' c Cert.ReferenceIdeal.main_v22 (by decide) (by decide) (by decide) (by decide) (by decide) (by decide)]
  show (StableHlo.after Cert.ReferenceIdeal.ValueP.ops_part5 (StableHlo.after Cert.ReferenceIdeal.ValueP.ops_part4 (Cert.ReferenceIdeal.HandRead.W4 m' c)) (Proc.devRef .tc Cert.ReferenceIdeal.main_v250) : (⟨Cert.ReferenceIdeal.S8192, .i32⟩ : BufTy).Contents (Elt Ideal)) = fun i => Cert.Proof.Chain.hi 0x41800000#32 13#32 ((Cert.ReferenceIdeal.HandRead.W4 m' c (Proc.devRef .tc Cert.ReferenceIdeal.main_v22) : (⟨Cert.ReferenceIdeal.S8192, .f32⟩ : BufTy).Contents (Elt Ideal)) i)
  generalize Cert.ReferenceIdeal.HandRead.W4 m' c = X
  after_results_simp
  rfl

set_option maxHeartbeats 8000000 in
theorem y1_chain : (Cert.ReferenceIdeal.HandRead.R m' c Cert.ReferenceIdeal.main_v252 : (⟨Cert.ReferenceIdeal.S8192, .i32⟩ : BufTy).Contents (Elt Ideal)) = fun i => Cert.Proof.Chain.lo 0x41800000#32 ((Cert.ReferenceIdeal.HandRead.R m' c Cert.ReferenceIdeal.main_v13 : (⟨Cert.ReferenceIdeal.S8192, .f32⟩ : BufTy).Contents (Elt Ideal)) i) := by
  rw [Cert.ReferenceIdeal.HandRead.R_W6 m' c Cert.ReferenceIdeal.main_v252 (by decide) (by decide) (by decide) (by decide), Cert.ReferenceIdeal.HandRead.R_W4 m' c Cert.ReferenceIdeal.main_v13 (by decide) (by decide) (by decide) (by decide) (by decide) (by decide)]
  show (StableHlo.after Cert.ReferenceIdeal.ValueP.ops_part5 (StableHlo.after Cert.ReferenceIdeal.ValueP.ops_part4 (Cert.ReferenceIdeal.HandRead.W4 m' c)) (Proc.devRef .tc Cert.ReferenceIdeal.main_v252) : (⟨Cert.ReferenceIdeal.S8192, .i32⟩ : BufTy).Contents (Elt Ideal)) = fun i => Cert.Proof.Chain.lo 0x41800000#32 ((Cert.ReferenceIdeal.HandRead.W4 m' c (Proc.devRef .tc Cert.ReferenceIdeal.main_v13) : (⟨Cert.ReferenceIdeal.S8192, .f32⟩ : BufTy).Contents (Elt Ideal)) i)
  generalize Cert.ReferenceIdeal.HandRead.W4 m' c = X
  after_results_simp
  rfl

set_option maxHeartbeats 8000000 in
theorem y2_chain : (Cert.ReferenceIdeal.HandRead.R m' c Cert.ReferenceIdeal.main_v256 : (⟨Cert.ReferenceIdeal.S8192, .i32⟩ : BufTy).Contents (Elt Ideal)) = fun i => Cert.Proof.Chain.hi 0x41800000#32 13#32 ((Cert.ReferenceIdeal.HandRead.R m' c Cert.ReferenceIdeal.main_v13 : (⟨Cert.ReferenceIdeal.S8192, .f32⟩ : BufTy).Contents (Elt Ideal)) i) := by
  rw [Cert.ReferenceIdeal.HandRead.R_W6 m' c Cert.ReferenceIdeal.main_v256 (by decide) (by decide) (by decide) (by decide), Cert.ReferenceIdeal.HandRead.R_W4 m' c Cert.ReferenceIdeal.main_v13 (by decide) (by decide) (by decide) (by decide) (by decide) (by decide)]
  show (StableHlo.after Cert.ReferenceIdeal.ValueP.ops_part5 (StableHlo.after Cert.ReferenceIdeal.ValueP.ops_part4 (Cert.ReferenceIdeal.HandRead.W4 m' c)) (Proc.devRef .tc Cert.ReferenceIdeal.main_v256) : (⟨Cert.ReferenceIdeal.S8192, .i32⟩ : BufTy).Contents (Elt Ideal)) = fun i => Cert.Proof.Chain.hi 0x41800000#32 13#32 ((Cert.ReferenceIdeal.HandRead.W4 m' c (Proc.devRef .tc Cert.ReferenceIdeal.main_v13) : (⟨Cert.ReferenceIdeal.S8192, .f32⟩ : BufTy).Contents (Elt Ideal)) i)
  generalize Cert.ReferenceIdeal.HandRead.W4 m' c = X
  after_results_simp
  rfl

set_option maxHeartbeats 8000000 in
theorem w11_chain : (Cert.ReferenceIdeal.HandRead.R m' c Cert.ReferenceIdeal.main_v262 : (⟨Cert.ReferenceIdeal.S8192, .f32⟩ : BufTy).Contents (Elt Ideal)) = fun i => Cert.Proof.Chain.w11 0x41800000#32 13#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W6 m' c Cert.ReferenceIdeal.main_v262 (by decide) (by decide) (by decide) (by decide), Cert.ReferenceIdeal.HandRead.R_W4 m' c Cert.ReferenceIdeal.main_v22 (by decide) (by decide) (by decide) (by decide) (by decide) (by decide), Cert.ReferenceIdeal.HandRead.R_W4 m' c Cert.ReferenceIdeal.main_v13 (by decide) (by decide) (by decide) (by decide) (by decide) (by decide)]
  show (StableHlo.after Cert.ReferenceIdeal.ValueP.ops_part5 (StableHlo.after Cert.ReferenceIdeal.ValueP.ops_part4 (Cert.ReferenceIdeal.HandRead.W4 m' c)) (Proc.devRef .tc Cert.ReferenceIdeal.main_v262) : (⟨Cert.ReferenceIdeal.S8192, .f32⟩ : BufTy).Contents (Elt Ideal)) = fun i => Cert.Proof.Chain.w11 0x41800000#32 13#32 ((Cert.ReferenceIdeal.HandRead.W4 m' c (Proc.devRef .tc Cert.ReferenceIdeal.main_v22) : (⟨Cert.ReferenceIdeal.S8192, .f32⟩ : BufTy).Contents (Elt Ideal)) i) ((Cert.ReferenceIdeal.HandRead.W4 m' c (Proc.devRef .tc Cert.ReferenceIdeal.main_v13) : (⟨Cert.ReferenceIdeal.S8192, .f32⟩ : BufTy).Contents (Elt Ideal)) i)
  generalize Cert.ReferenceIdeal.HandRead.W4 m' c = X
  after_results_simp
  rfl

set_option maxHeartbeats 8000000 in
theorem w12_chain : (Cert.ReferenceIdeal.HandRead.R m' c Cert.ReferenceIdeal.main_v267 : (⟨Cert.ReferenceIdeal.S8192, .f32⟩ : BufTy).Contents (Elt Ideal)) = fun i => Cert.Proof.Chain.w12 0x41800000#32 13#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W6 m' c Cert.ReferenceIdeal.main_v267 (by decide) (by decide) (by decide) (by decide), Cert.ReferenceIdeal.HandRead.R_W4 m' c Cert.ReferenceIdeal.main_v22 (by decide) (by decide) (by decide) (by decide) (by decide) (by decide), Cert.ReferenceIdeal.HandRead.R_W4 m' c Cert.ReferenceIdeal.main_v13 (by decide) (by decide) (by decide) (by decide) (by decide) (by decide)]
  show (StableHlo.after Cert.ReferenceIdeal.ValueP.ops_part5 (StableHlo.after Cert.ReferenceIdeal.ValueP.ops_part4 (Cert.ReferenceIdeal.HandRead.W4 m' c)) (Proc.devRef .tc Cert.ReferenceIdeal.main_v267) : (⟨Cert.ReferenceIdeal.S8192, .f32⟩ : BufTy).Contents (Elt Ideal)) = fun i => Cert.Proof.Chain.w12 0x41800000#32 13#32 ((Cert.ReferenceIdeal.HandRead.W4 m' c (Proc.devRef .tc Cert.ReferenceIdeal.main_v22) : (⟨Cert.ReferenceIdeal.S8192, .f32⟩ : BufTy).Contents (Elt Ideal)) i) ((Cert.ReferenceIdeal.HandRead.W4 m' c (Proc.devRef .tc Cert.ReferenceIdeal.main_v13) : (⟨Cert.ReferenceIdeal.S8192, .f32⟩ : BufTy).Contents (Elt Ideal)) i)
  generalize Cert.ReferenceIdeal.HandRead.W4 m' c = X
  after_results_simp
  rfl

set_option maxHeartbeats 8000000 in
theorem w21_chain : (Cert.ReferenceIdeal.HandRead.R m' c Cert.ReferenceIdeal.main_v272 : (⟨Cert.ReferenceIdeal.S8192, .f32⟩ : BufTy).Contents (Elt Ideal)) = fun i => Cert.Proof.Chain.w21 0x41800000#32 13#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W6 m' c Cert.ReferenceIdeal.main_v272 (by decide) (by decide) (by decide) (by decide), Cert.ReferenceIdeal.HandRead.R_W4 m' c Cert.ReferenceIdeal.main_v22 (by decide) (by decide) (by decide) (by decide) (by decide) (by decide), Cert.ReferenceIdeal.HandRead.R_W4 m' c Cert.ReferenceIdeal.main_v13 (by decide) (by decide) (by decide) (by decide) (by decide) (by decide)]
  show (StableHlo.after Cert.ReferenceIdeal.ValueP.ops_part5 (StableHlo.after Cert.ReferenceIdeal.ValueP.ops_part4 (Cert.ReferenceIdeal.HandRead.W4 m' c)) (Proc.devRef .tc Cert.ReferenceIdeal.main_v272) : (⟨Cert.ReferenceIdeal.S8192, .f32⟩ : BufTy).Contents (Elt Ideal)) = fun i => Cert.Proof.Chain.w21 0x41800000#32 13#32 ((Cert.ReferenceIdeal.HandRead.W4 m' c (Proc.devRef .tc Cert.ReferenceIdeal.main_v22) : (⟨Cert.ReferenceIdeal.S8192, .f32⟩ : BufTy).Contents (Elt Ideal)) i) ((Cert.ReferenceIdeal.HandRead.W4 m' c (Proc.devRef .tc Cert.ReferenceIdeal.main_v13) : (⟨Cert.ReferenceIdeal.S8192, .f32⟩ : BufTy).Contents (Elt Ideal)) i)
  generalize Cert.ReferenceIdeal.HandRead.W4 m' c = X
  after_results_simp
  rfl

set_option maxHeartbeats 8000000 in
theorem w22_chain : (Cert.ReferenceIdeal.HandRead.R m' c Cert.ReferenceIdeal.main_v277 : (⟨Cert.ReferenceIdeal.S8192, .f32⟩ : BufTy).Contents (Elt Ideal)) = fun i => Cert.Proof.Chain.w22 0x41800000#32 13#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W6 m' c Cert.ReferenceIdeal.main_v277 (by decide) (by decide) (by decide) (by decide), Cert.ReferenceIdeal.HandRead.R_W4 m' c Cert.ReferenceIdeal.main_v22 (by decide) (by decide) (by decide) (by decide) (by decide) (by decide), Cert.ReferenceIdeal.HandRead.R_W4 m' c Cert.ReferenceIdeal.main_v13 (by decide) (by decide) (by decide) (by decide) (by decide) (by decide)]
  show (StableHlo.after Cert.ReferenceIdeal.ValueP.ops_part5 (StableHlo.after Cert.ReferenceIdeal.ValueP.ops_part4 (Cert.ReferenceIdeal.HandRead.W4 m' c)) (Proc.devRef .tc Cert.ReferenceIdeal.main_v277) : (⟨Cert.ReferenceIdeal.S8192, .f32⟩ : BufTy).Contents (Elt Ideal)) = fun i => Cert.Proof.Chain.w22 0x41800000#32 13#32 ((Cert.ReferenceIdeal.HandRead.W4 m' c (Proc.devRef .tc Cert.ReferenceIdeal.main_v22) : (⟨Cert.ReferenceIdeal.S8192, .f32⟩ : BufTy).Contents (Elt Ideal)) i) ((Cert.ReferenceIdeal.HandRead.W4 m' c (Proc.devRef .tc Cert.ReferenceIdeal.main_v13) : (⟨Cert.ReferenceIdeal.S8192, .f32⟩ : BufTy).Contents (Elt Ideal)) i)
  generalize Cert.ReferenceIdeal.HandRead.W4 m' c = X
  after_results_simp
  rfl

end Cert.Proof.RefChainP2

end
-- ==== Proof.Ref.ChainP3.lean ====
import proofs.«120270_j2259152797813_2_alg».proof.Proof.Ref.Frame
import proofs.«120270_j2259152797813_2_alg».proof.Proof.PrefixChain

set_option maxRecDepth 16384

noncomputable section

namespace Cert.Proof.RefChainP3

open Idealize.ShloMosaic Idealize.ShloMosaic.TcCoe Idealize.SL.Sem Idealize.ShloMosaic.StableHlo
open Cert.ReferenceIdeal Cert.ReferenceIdeal.Gen Cert.ReferenceIdeal.ValueP

variable (m' : (ℓ : Loc Cert.ReferenceIdeal.nD Cert.ReferenceIdeal.τ Cert.ReferenceIdeal.sig) → Buf (Elt Ideal) ℓ) (c : Dev Cert.ReferenceIdeal.nD)

/-! # Map 3: the reference's corner coordinates and weights are the chain functions of the two clipped image
coordinates, vertex by vertex -/

set_option maxHeartbeats 8000000 in
theorem x1_chain : (Cert.ReferenceIdeal.HandRead.R m' c Cert.ReferenceIdeal.main_v355 : (⟨Cert.ReferenceIdeal.S8192, .i32⟩ : BufTy).Contents (Elt Ideal)) = fun i => Cert.Proof.Chain.lo 0x42000000#32 ((Cert.ReferenceIdeal.HandRead.R m' c Cert.ReferenceIdeal.main_v22 : (⟨Cert.ReferenceIdeal.S8192, .f32⟩ : BufTy).Contents (Elt Ideal)) i) := by
  rw [Cert.ReferenceIdeal.HandRead.R_W8 m' c Cert.ReferenceIdeal.main_v355 (by decide) (by decide), Cert.ReferenceIdeal.HandRead.R_W6 m' c Cert.ReferenceIdeal.main_v22 (by decide) (by decide) (by decide) (by decide)]
  show (StableHlo.after Cert.ReferenceIdeal.ValueP.ops_part7 (StableHlo.after Cert.ReferenceIdeal.ValueP.ops_part6 (Cert.ReferenceIdeal.HandRead.W6 m' c)) (Proc.devRef .tc Cert.ReferenceIdeal.main_v355) : (⟨Cert.ReferenceIdeal.S8192, .i32⟩ : BufTy).Contents (Elt Ideal)) = fun i => Cert.Proof.Chain.lo 0x42000000#32 ((Cert.ReferenceIdeal.HandRead.W6 m' c (Proc.devRef .tc Cert.ReferenceIdeal.main_v22) : (⟨Cert.ReferenceIdeal.S8192, .f32⟩ : BufTy).Contents (Elt Ideal)) i)
  generalize Cert.ReferenceIdeal.HandRead.W6 m' c = X
  after_results_simp
  rfl

set_option maxHeartbeats 8000000 in
theorem x2_chain : (Cert.ReferenceIdeal.HandRead.R m' c Cert.ReferenceIdeal.main_v359 : (⟨Cert.ReferenceIdeal.S8192, .i32⟩ : BufTy).Contents (Elt Ideal)) = fun i => Cert.Proof.Chain.hi 0x42000000#32 6#32 ((Cert.ReferenceIdeal.HandRead.R m' c Cert.ReferenceIdeal.main_v22 : (⟨Cert.ReferenceIdeal.S8192, .f32⟩ : BufTy).Contents (Elt Ideal)) i) := by
  rw [Cert.ReferenceIdeal.HandRead.R_W8 m' c Cert.ReferenceIdeal.main_v359 (by decide) (by decide), Cert.ReferenceIdeal.HandRead.R_W6 m' c Cert.ReferenceIdeal.main_v22 (by decide) (by decide) (by decide) (by decide)]
  show (StableHlo.after Cert.ReferenceIdeal.ValueP.ops_part7 (StableHlo.after Cert.ReferenceIdeal.ValueP.ops_part6 (Cert.ReferenceIdeal.HandRead.W6 m' c)) (Proc.devRef .tc Cert.ReferenceIdeal.main_v359) : (⟨Cert.ReferenceIdeal.S8192, .i32⟩ : BufTy).Contents (Elt Ideal)) = fun i => Cert.Proof.Chain.hi 0x42000000#32 6#32 ((Cert.ReferenceIdeal.HandRead.W6 m' c (Proc.devRef .tc Cert.ReferenceIdeal.main_v22) : (⟨Cert.ReferenceIdeal.S8192, .f32⟩ : BufTy).Contents (Elt Ideal)) i)
  generalize Cert.ReferenceIdeal.HandRead.W6 m' c = X
  after_results_simp
  rfl

set_option maxHeartbeats 8000000 in
theorem y1_chain : (Cert.ReferenceIdeal.HandRead.R m' c Cert.ReferenceIdeal.main_v361 : (⟨Cert.ReferenceIdeal.S8192, .i32⟩ : BufTy).Contents (Elt Ideal)) = fun i => Cert.Proof.Chain.lo 0x42000000#32 ((Cert.ReferenceIdeal.HandRead.R m' c Cert.ReferenceIdeal.main_v13 : (⟨Cert.ReferenceIdeal.S8192, .f32⟩ : BufTy).Contents (Elt Ideal)) i) := by
  rw [Cert.ReferenceIdeal.HandRead.R_W8 m' c Cert.ReferenceIdeal.main_v361 (by decide) (by decide), Cert.ReferenceIdeal.HandRead.R_W7 m' c Cert.ReferenceIdeal.main_v13 (by decide) (by decide) (by decide)]
  show (StableHlo.after Cert.ReferenceIdeal.ValueP.ops_part7 (Cert.ReferenceIdeal.HandRead.W7 m' c) (Proc.devRef .tc Cert.ReferenceIdeal.main_v361) : (⟨Cert.ReferenceIdeal.S8192, .i32⟩ : BufTy).Contents (Elt Ideal)) = fun i => Cert.Proof.Chain.lo 0x42000000#32 ((Cert.ReferenceIdeal.HandRead.W7 m' c (Proc.devRef .tc Cert.ReferenceIdeal.main_v13) : (⟨Cert.ReferenceIdeal.S8192, .f32⟩ : BufTy).Contents (Elt Ideal)) i)
  generalize Cert.ReferenceIdeal.HandRead.W7 m' c = X
  after_results_simp
  rfl

set_option maxHeartbeats 8000000 in
theorem y2_chain : (Cert.ReferenceIdeal.HandRead.R m' c Cert.ReferenceIdeal.main_v365 : (⟨Cert.ReferenceIdeal.S8192, .i32⟩ : BufTy).Contents (Elt Ideal)) = fun i => Cert.Proof.Chain.hi 0x42000000#32 6#32 ((Cert.ReferenceIdeal.HandRead.R m' c Cert.ReferenceIdeal.main_v13 : (⟨Cert.ReferenceIdeal.S8192, .f32⟩ : BufTy).Contents (Elt Ideal)) i) := by
  rw [Cert.ReferenceIdeal.HandRead.R_W8 m' c Cert.ReferenceIdeal.main_v365 (by decide) (by decide), Cert.ReferenceIdeal.HandRead.R_W7 m' c Cert.ReferenceIdeal.main_v13 (by decide) (by decide) (by decide)]
  show (StableHlo.after Cert.ReferenceIdeal.ValueP.ops_part7 (Cert.ReferenceIdeal.HandRead.W7 m' c) (Proc.devRef .tc Cert.ReferenceIdeal.main_v365) : (⟨Cert.ReferenceIdeal.S8192, .i32⟩ : BufTy).Contents (Elt Ideal)) = fun i => Cert.Proof.Chain.hi 0x42000000#32 6#32 ((Cert.ReferenceIdeal.HandRead.W7 m' c (Proc.devRef .tc Cert.ReferenceIdeal.main_v13) : (⟨Cert.ReferenceIdeal.S8192, .f32⟩ : BufTy).Contents (Elt Ideal)) i)
  generalize Cert.ReferenceIdeal.HandRead.W7 m' c = X
  after_results_simp
  rfl

set_option maxHeartbeats 8000000 in
theorem w11_chain : (Cert.ReferenceIdeal.HandRead.R m' c Cert.ReferenceIdeal.main_v371 : (⟨Cert.ReferenceIdeal.S8192, .f32⟩ : BufTy).Contents (Elt Ideal)) = fun i => Cert.Proof.Chain.w11 0x42000000#32 6#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W8 m' c Cert.ReferenceIdeal.main_v371 (by decide) (by decide), Cert.ReferenceIdeal.HandRead.R_W6 m' c Cert.ReferenceIdeal.main_v22 (by decide) (by decide) (by decide) (by decide), Cert.ReferenceIdeal.HandRead.R_W6 m' c Cert.ReferenceIdeal.main_v13 (by decide) (by decide) (by decide) (by decide)]
  show (StableHlo.after Cert.ReferenceIdeal.ValueP.ops_part7 (StableHlo.after Cert.ReferenceIdeal.ValueP.ops_part6 (Cert.ReferenceIdeal.HandRead.W6 m' c)) (Proc.devRef .tc Cert.ReferenceIdeal.main_v371) : (⟨Cert.ReferenceIdeal.S8192, .f32⟩ : BufTy).Contents (Elt Ideal)) = fun i => Cert.Proof.Chain.w11 0x42000000#32 6#32 ((Cert.ReferenceIdeal.HandRead.W6 m' c (Proc.devRef .tc Cert.ReferenceIdeal.main_v22) : (⟨Cert.ReferenceIdeal.S8192, .f32⟩ : BufTy).Contents (Elt Ideal)) i) ((Cert.ReferenceIdeal.HandRead.W6 m' c (Proc.devRef .tc Cert.ReferenceIdeal.main_v13) : (⟨Cert.ReferenceIdeal.S8192, .f32⟩ : BufTy).Contents (Elt Ideal)) i)
  generalize Cert.ReferenceIdeal.HandRead.W6 m' c = X
  after_results_simp
  rfl

set_option maxHeartbeats 8000000 in
theorem w12_chain : (Cert.ReferenceIdeal.HandRead.R m' c Cert.ReferenceIdeal.main_v376 : (⟨Cert.ReferenceIdeal.S8192, .f32⟩ : BufTy).Contents (Elt Ideal)) = fun i => Cert.Proof.Chain.w12 0x42000000#32 6#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W8 m' c Cert.ReferenceIdeal.main_v376 (by decide) (by decide), Cert.ReferenceIdeal.HandRead.R_W6 m' c Cert.ReferenceIdeal.main_v22 (by decide) (by decide) (by decide) (by decide), Cert.ReferenceIdeal.HandRead.R_W6 m' c Cert.ReferenceIdeal.main_v13 (by decide) (by decide) (by decide) (by decide)]
  show (StableHlo.after Cert.ReferenceIdeal.ValueP.ops_part7 (StableHlo.after Cert.ReferenceIdeal.ValueP.ops_part6 (Cert.ReferenceIdeal.HandRead.W6 m' c)) (Proc.devRef .tc Cert.ReferenceIdeal.main_v376) : (⟨Cert.ReferenceIdeal.S8192, .f32⟩ : BufTy).Contents (Elt Ideal)) = fun i => Cert.Proof.Chain.w12 0x42000000#32 6#32 ((Cert.ReferenceIdeal.HandRead.W6 m' c (Proc.devRef .tc Cert.ReferenceIdeal.main_v22) : (⟨Cert.ReferenceIdeal.S8192, .f32⟩ : BufTy).Contents (Elt Ideal)) i) ((Cert.ReferenceIdeal.HandRead.W6 m' c (Proc.devRef .tc Cert.ReferenceIdeal.main_v13) : (⟨Cert.ReferenceIdeal.S8192, .f32⟩ : BufTy).Contents (Elt Ideal)) i)
  generalize Cert.ReferenceIdeal.HandRead.W6 m' c = X
  after_results_simp
  rfl

set_option maxHeartbeats 8000000 in
theorem w21_chain : (Cert.ReferenceIdeal.HandRead.R m' c Cert.ReferenceIdeal.main_v381 : (⟨Cert.ReferenceIdeal.S8192, .f32⟩ : BufTy).Contents (Elt Ideal)) = fun i => Cert.Proof.Chain.w21 0x42000000#32 6#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W8 m' c Cert.ReferenceIdeal.main_v381 (by decide) (by decide), Cert.ReferenceIdeal.HandRead.R_W6 m' c Cert.ReferenceIdeal.main_v22 (by decide) (by decide) (by decide) (by decide), Cert.ReferenceIdeal.HandRead.R_W6 m' c Cert.ReferenceIdeal.main_v13 (by decide) (by decide) (by decide) (by decide)]
  show (StableHlo.after Cert.ReferenceIdeal.ValueP.ops_part7 (StableHlo.after Cert.ReferenceIdeal.ValueP.ops_part6 (Cert.ReferenceIdeal.HandRead.W6 m' c)) (Proc.devRef .tc Cert.ReferenceIdeal.main_v381) : (⟨Cert.ReferenceIdeal.S8192, .f32⟩ : BufTy).Contents (Elt Ideal)) = fun i => Cert.Proof.Chain.w21 0x42000000#32 6#32 ((Cert.ReferenceIdeal.HandRead.W6 m' c (Proc.devRef .tc Cert.ReferenceIdeal.main_v22) : (⟨Cert.ReferenceIdeal.S8192, .f32⟩ : BufTy).Contents (Elt Ideal)) i) ((Cert.ReferenceIdeal.HandRead.W6 m' c (Proc.devRef .tc Cert.ReferenceIdeal.main_v13) : (⟨Cert.ReferenceIdeal.S8192, .f32⟩ : BufTy).Contents (Elt Ideal)) i)
  generalize Cert.ReferenceIdeal.HandRead.W6 m' c = X
  after_results_simp
  rfl

set_option maxHeartbeats 8000000 in
theorem w22_chain : (Cert.ReferenceIdeal.HandRead.R m' c Cert.ReferenceIdeal.main_v386 : (⟨Cert.ReferenceIdeal.S8192, .f32⟩ : BufTy).Contents (Elt Ideal)) = fun i => Cert.Proof.Chain.w22 0x42000000#32 6#32 ((Cert.ReferenceIdeal.HandRead.R m' c Cert.ReferenceIdeal.main_v22 : (⟨Cert.ReferenceIdeal.S8192, .f32⟩ : BufTy).Contents (Elt Ideal)) i) ((Cert.ReferenceIdeal.HandRead.R m' c Cert.ReferenceIdeal.main_v13 : (⟨Cert.ReferenceIdeal.S8192, .f32⟩ : BufTy).Contents (Elt Ideal)) i) := by
  rw [Cert.ReferenceIdeal.HandRead.R_W8 m' c Cert.ReferenceIdeal.main_v386 (by decide) (by decide), Cert.ReferenceIdeal.HandRead.R_W6 m' c Cert.ReferenceIdeal.main_v22 (by decide) (by decide) (by decide) (by decide), Cert.ReferenceIdeal.HandRead.R_W6 m' c Cert.ReferenceIdeal.main_v13 (by decide) (by decide) (by decide) (by decide)]
  show (StableHlo.after Cert.ReferenceIdeal.ValueP.ops_part7 (StableHlo.after Cert.ReferenceIdeal.ValueP.ops_part6 (Cert.ReferenceIdeal.HandRead.W6 m' c)) (Proc.devRef .tc Cert.ReferenceIdeal.main_v386) : (⟨Cert.ReferenceIdeal.S8192, .f32⟩ : BufTy).Contents (Elt Ideal)) = fun i => Cert.Proof.Chain.w22 0x42000000#32 6#32 ((Cert.ReferenceIdeal.HandRead.W6 m' c (Proc.devRef .tc Cert.ReferenceIdeal.main_v22) : (⟨Cert.ReferenceIdeal.S8192, .f32⟩ : BufTy).Contents (Elt Ideal)) i) ((Cert.ReferenceIdeal.HandRead.W6 m' c (Proc.devRef .tc Cert.ReferenceIdeal.main_v13) : (⟨Cert.ReferenceIdeal.S8192, .f32⟩ : BufTy).Contents (Elt Ideal)) i)
  generalize Cert.ReferenceIdeal.HandRead.W6 m' c = X
  after_results_simp
  rfl

end Cert.Proof.RefChainP3

end
-- ==== Proof.Ref.Total.lean ====
/-
  The reference's projected features at one vertex and one output column, as the sum of the four maps' terms of the
  vertex's two clipped image coordinates.
-/
import proofs.«120270_j2259152797813_2_alg».proof.Proof.Ref.TotalOf
import proofs.«120270_j2259152797813_2_alg».proof.Proof.Ref.Map0
import proofs.«120270_j2259152797813_2_alg».proof.Proof.Ref.Map1
import proofs.«120270_j2259152797813_2_alg».proof.Proof.Ref.Map2
import proofs.«120270_j2259152797813_2_alg».proof.Proof.Ref.Map3
import proofs.«120270_j2259152797813_2_alg».proof.Proof.Ref.ChainP0
import proofs.«120270_j2259152797813_2_alg».proof.Proof.Ref.ChainP1
import proofs.«120270_j2259152797813_2_alg».proof.Proof.Ref.ChainP2
import proofs.«120270_j2259152797813_2_alg».proof.Proof.Ref.ChainP3

set_option maxRecDepth 8192

noncomputable section

namespace Cert.ReferenceIdeal.HandRead

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open scoped BigOperators

variable (m' : (ℓ : Loc nD τ sig) → Buf (Elt Ideal) ℓ) (c : Dev nD)

set_option maxHeartbeats 1000000 in
/-- THE TOTAL: the projected features' entry at vertex `v`, column `j` is the sum of the four maps' terms of the
    vertex's clipped coordinates `x`, `y`, which are real numbers between 0 and 223. -/
theorem ref_total (v : Fin 8192) (j : Fin 128) (x y : EReal)
    (ex : x = (show S8192.Idx → EReal from R m' c main_v22) (ix1 v)) (ey : y = (show S8192.Idx → EReal from R m' c main_v13) (ix1 v))
    (hx : ∃ r : ℝ, x = (r : EReal) ∧ 0 ≤ r ∧ r ≤ 223) (hy : ∃ r : ℝ, y = (r : EReal) ∧ 0 ≤ r ∧ r ≤ 223) :
    (show S8192x128.Idx → EReal from R m' c main_v460) (ix2 v j)
      = ((Cert.Proof.Chain.mapTerm (C := 256) (s := 56) (by decide) 0x40800000#32 55#32
        (fun (ch : Fin 256) (X Y : Fin 56) => (show S1x256x56x56.Idx → EReal from m' ((c.tc : Thread nD τ).loc main_arg0)) (ix4 (0 : Fin 1) ch X Y))
        (fun (ch : Fin 256) => (show S3840x128.Idx → EReal from m' ((c.tc : Thread nD τ).loc main_arg7)) (ix2 (⟨0 + ch.val, by have := ch.isLt; omega⟩ : Fin 3840) j)) x y
        + Cert.Proof.Chain.mapTerm (C := 512) (s := 28) (by decide) 0x41000000#32 27#32
        (fun (ch : Fin 512) (X Y : Fin 28) => (show S1x512x28x28.Idx → EReal from m' ((c.tc : Thread nD τ).loc main_arg1)) (ix4 (0 : Fin 1) ch X Y))
        (fun (ch : Fin 512) => (show S3840x128.Idx → EReal from m' ((c.tc : Thread nD τ).loc main_arg7)) (ix2 (⟨256 + ch.val, by have := ch.isLt; omega⟩ : Fin 3840) j)) x y)
        + Cert.Proof.Chain.mapTerm (C := 1024) (s := 14) (by decide) 0x41800000#32 13#32
        (fun (ch : Fin 1024) (X Y : Fin 14) => (show S1x1024x14x14.Idx → EReal from m' ((c.tc : Thread nD τ).loc main_arg2)) (ix4 (0 : Fin 1) ch X Y))
        (fun (ch : Fin 1024) => (show S3840x128.Idx → EReal from m' ((c.tc : Thread nD τ).loc main_arg7)) (ix2 (⟨768 + ch.val, by have := ch.isLt; omega⟩ : Fin 3840) j)) x y)
        + Cert.Proof.Chain.mapTerm (C := 2048) (s := 7) (by decide) 0x42000000#32 6#32
        (fun (ch : Fin 2048) (X Y : Fin 7) => (show S1x2048x7x7.Idx → EReal from m' ((c.tc : Thread nD τ).loc main_arg3)) (ix4 (0 : Fin 1) ch X Y))
        (fun (ch : Fin 2048) => (show S3840x128.Idx → EReal from m' ((c.tc : Thread nD τ).loc main_arg7)) (ix2 (⟨1792 + ch.val, by have := ch.isLt; omega⟩ : Fin 3840) j)) x y := by
  subst ex ey
  exact ref_total_of m' c v j _ _ hx hy
    (congrFun (Cert.Proof.RefChainP0.x1_chain m' c) (ix1 v)) (congrFun (Cert.Proof.RefChainP0.x2_chain m' c) (ix1 v)) (congrFun (Cert.Proof.RefChainP0.y1_chain m' c) (ix1 v)) (congrFun (Cert.Proof.RefChainP0.y2_chain m' c) (ix1 v)) (congrFun (Cert.Proof.RefChainP0.w11_chain m' c) (ix1 v)) (congrFun (Cert.Proof.RefChainP0.w12_chain m' c) (ix1 v)) (congrFun (Cert.Proof.RefChainP0.w21_chain m' c) (ix1 v)) (congrFun (Cert.Proof.RefChainP0.w22_chain m' c) (ix1 v))
    (aligned0_cells m' c v)
    (congrFun (Cert.Proof.RefChainP1.x1_chain m' c) (ix1 v)) (congrFun (Cert.Proof.RefChainP1.x2_chain m' c) (ix1 v)) (congrFun (Cert.Proof.RefChainP1.y1_chain m' c) (ix1 v)) (congrFun (Cert.Proof.RefChainP1.y2_chain m' c) (ix1 v)) (congrFun (Cert.Proof.RefChainP1.w11_chain m' c) (ix1 v)) (congrFun (Cert.Proof.RefChainP1.w12_chain m' c) (ix1 v)) (congrFun (Cert.Proof.RefChainP1.w21_chain m' c) (ix1 v)) (congrFun (Cert.Proof.RefChainP1.w22_chain m' c) (ix1 v))
    (aligned1_cells m' c v)
    (congrFun (Cert.Proof.RefChainP2.x1_chain m' c) (ix1 v)) (congrFun (Cert.Proof.RefChainP2.x2_chain m' c) (ix1 v)) (congrFun (Cert.Proof.RefChainP2.y1_chain m' c) (ix1 v)) (congrFun (Cert.Proof.RefChainP2.y2_chain m' c) (ix1 v)) (congrFun (Cert.Proof.RefChainP2.w11_chain m' c) (ix1 v)) (congrFun (Cert.Proof.RefChainP2.w12_chain m' c) (ix1 v)) (congrFun (Cert.Proof.RefChainP2.w21_chain m' c) (ix1 v)) (congrFun (Cert.Proof.RefChainP2.w22_chain m' c) (ix1 v))
    (aligned2_cells m' c v)
    (congrFun (Cert.Proof.RefChainP3.x1_chain m' c) (ix1 v)) (congrFun (Cert.Proof.RefChainP3.x2_chain m' c) (ix1 v)) (congrFun (Cert.Proof.RefChainP3.y1_chain m' c) (ix1 v)) (congrFun (Cert.Proof.RefChainP3.y2_chain m' c) (ix1 v)) (congrFun (Cert.Proof.RefChainP3.w11_chain m' c) (ix1 v)) (congrFun (Cert.Proof.RefChainP3.w12_chain m' c) (ix1 v)) (congrFun (Cert.Proof.RefChainP3.w21_chain m' c) (ix1 v)) (congrFun (Cert.Proof.RefChainP3.w22_chain m' c) (ix1 v))
    (aligned3_cells m' c v)

end Cert.ReferenceIdeal.HandRead

end
-- ==== Proof.PrefixPre.lean ====
/-
  The two clipped image coordinates.  A vertex at position (p0, p1, z) projects to the image row
  248 · (p1 / z) + 111.5 and the image column 248 · (p0 / (−z)) + 111.5, each clipped to [0, 223].  Both programs
  compute them by the same host operations from the vertex positions.
-/
import proofs.«120270_j2259152797813_2_alg».proof.Proof.KI.Run
import proofs.«120270_j2259152797813_2_alg».proof.Proof.Ref.Frame
import proofs.«120270_j2259152797813_2_alg».proof.Proof.PrefixChain

set_option maxRecDepth 16384
set_option maxHeartbeats 4000000

noncomputable section

namespace Cert.Proof.Pre

open Idealize.ShloMosaic Idealize.ShloMosaic.TcCoe Idealize.SL.Sem
open Cert.ReferenceIdeal Cert.ReferenceIdeal.Facts₀

/-- The depth coordinate of every vertex. -/
def zc (a5 : FVec Ideal S8192x3 .f32) : FVec Ideal S8192 .f32 :=
  shapeCast S8192 (extractStridedSlice S8192x1 ![0, 2] a5 slices_S8192x3_S8192x1_0_2) shapeCasts_S8192x1_S8192
/-- The image row before clipping. -/
def hpre (a5 : FVec Ideal S8192x3 .f32) : FVec Ideal S8192 .f32 :=
  addf (mulf (broadcastInDim S8192 ![] bcast_S_S8192 (constant S_ .f32 0x43780000#32))
      (Host.divf (shapeCast S8192 (extractStridedSlice S8192x1 ![0, 1] a5 slices_S8192x3_S8192x1_0_1) shapeCasts_S8192x1_S8192) (zc a5)))
    (broadcastInDim S8192 ![] bcast_S_S8192 (constant S_ .f32 0x42DF0000#32))
/-- The image column before clipping. -/
def wpre (a5 : FVec Ideal S8192x3 .f32) : FVec Ideal S8192 .f32 :=
  addf (mulf (broadcastInDim S8192 ![] bcast_S_S8192 (constant S_ .f32 0x43780000#32))
      (Host.divf (shapeCast S8192 (extractStridedSlice S8192x1 ![0, 0] a5 slices_S8192x3_S8192x1_0_0) shapeCasts_S8192x1_S8192) (Host.negf (zc a5))))
    (broadcastInDim S8192 ![] bcast_S_S8192 (constant S_ .f32 0x42DF0000#32))

section Kernel
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

theorem kW2_v14 : (show FVec Ideal Cert.KernelIdeal.S8192 .f32 from Cert.KernelIdeal.Hand.W2 (F := Ideal) m ρ c (Proc.devRef .tc Cert.KernelIdeal.main_v14))
    = fun i => Cert.Proof.Chain.clip (hpre (show FVec Ideal Cert.KernelIdeal.S8192x3 .f32 from Cert.KernelIdeal.Hand.W0 (F := Ideal) m ρ c (Proc.devRef .tc Cert.KernelIdeal.main_arg5)) i) := by
  show StableHlo.after (Cert.KernelIdeal.Gen.hostOps0_1 (F := Ideal)) (StableHlo.after (Cert.KernelIdeal.Gen.hostOps0 (F := Ideal)) (Cert.KernelIdeal.Hand.W0 (F := Ideal) m ρ c)) (Proc.devRef .tc Cert.KernelIdeal.main_v14) = _
  generalize Cert.KernelIdeal.Hand.W0 (F := Ideal) m ρ c = X
  after_results
  funext i
  rfl

theorem kW4_v23 : (show FVec Ideal Cert.KernelIdeal.S8192 .f32 from Cert.KernelIdeal.Hand.W4 (F := Ideal) m ρ c (Proc.devRef .tc Cert.KernelIdeal.main_v23))
    = fun i => Cert.Proof.Chain.clip (wpre (show FVec Ideal Cert.KernelIdeal.S8192x3 .f32 from Cert.KernelIdeal.Hand.W0 (F := Ideal) m ρ c (Proc.devRef .tc Cert.KernelIdeal.main_arg5)) i) := by
  show StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (Cert.KernelIdeal.Hand.W0 (F := Ideal) m ρ c)))) (Proc.devRef .tc Cert.KernelIdeal.main_v23) = _
  generalize Cert.KernelIdeal.Hand.W0 (F := Ideal) m ρ c = X
  after_results
  funext i
  rfl

theorem kW4_v14 : (show FVec Ideal Cert.KernelIdeal.S8192 .f32 from Cert.KernelIdeal.Hand.W4 (F := Ideal) m ρ c (Proc.devRef .tc Cert.KernelIdeal.main_v14))
    = fun i => Cert.Proof.Chain.clip (hpre (show FVec Ideal Cert.KernelIdeal.S8192x3 .f32 from Cert.KernelIdeal.Hand.W0 (F := Ideal) m ρ c (Proc.devRef .tc Cert.KernelIdeal.main_arg5)) i) :=
  (StableHlo.after_of_forall_not_mem (b := Proc.devRef .tc Cert.KernelIdeal.main_v14) _ _ (List.forall_iff_forall_mem.mp (by
    simp only [Cert.KernelIdeal.Gen.hostOps0_3, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))).trans
  ((StableHlo.after_of_forall_not_mem (b := Proc.devRef .tc Cert.KernelIdeal.main_v14) _ _ (List.forall_iff_forall_mem.mp (by
    simp only [Cert.KernelIdeal.Gen.hostOps0_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))).trans (kW2_v14 m ρ c))
end Kernel

section Reference
variable (m' : (ℓ : Loc Cert.ReferenceIdeal.nD Cert.ReferenceIdeal.τ Cert.ReferenceIdeal.sig) → Buf (Elt Ideal) ℓ) (c : Dev Cert.ReferenceIdeal.nD)

theorem rW1_v13 : (Cert.ReferenceIdeal.HandRead.W1 m' c (Proc.devRef .tc main_v13) : (⟨S8192, .f32⟩ : BufTy).Contents (Elt Ideal))
    = fun i => Cert.Proof.Chain.clip (hpre (Cert.ReferenceIdeal.HandRead.W0 m' c (Proc.devRef .tc main_arg5) : (⟨S8192x3, .f32⟩ : BufTy).Contents (Elt Ideal)) i) := by
  show (StableHlo.after ValueP.ops_part0 (Cert.ReferenceIdeal.HandRead.W0 m' c) (Proc.devRef .tc main_v13) : (⟨S8192, .f32⟩ : BufTy).Contents (Elt Ideal)) = _
  generalize Cert.ReferenceIdeal.HandRead.W0 m' c = X
  after_results
  funext i
  rfl

theorem rW1_v22 : (Cert.ReferenceIdeal.HandRead.W1 m' c (Proc.devRef .tc main_v22) : (⟨S8192, .f32⟩ : BufTy).Contents (Elt Ideal))
    = fun i => Cert.Proof.Chain.clip (wpre (Cert.ReferenceIdeal.HandRead.W0 m' c (Proc.devRef .tc main_arg5) : (⟨S8192x3, .f32⟩ : BufTy).Contents (Elt Ideal)) i) := by
  show (StableHlo.after ValueP.ops_part0 (Cert.ReferenceIdeal.HandRead.W0 m' c) (Proc.devRef .tc main_v22) : (⟨S8192, .f32⟩ : BufTy).Contents (Elt Ideal)) = _
  generalize Cert.ReferenceIdeal.HandRead.W0 m' c = X
  after_results
  funext i
  rfl
end Reference

end Cert.Proof.Pre

end
-- ==== Proof.PrefixFinite.lean ====
/-
  Finiteness of the argument arrays, read back from the precondition.

  The precondition states that a conjunction, over the 23 float argument arrays, of "every entry x has
  |x| < +∞" is true.  At the extended reals |x| is max x (-x), +∞ is ⊤, and max x (-x) < ⊤ excludes
  both x = ⊤ and x = ⊥ (for which -x = ⊤).  So every entry of every argument array is a real number.
-/
import proofs.«120270_j2259152797813_2_alg».proof.Pre_finite_inputs
import Idealize.ShloMosaic.Lib.ReduceAll
import Idealize.ShloMosaic.Lib.ValueIdx
import Idealize.ShloMosaic.PureOps.Ideal.Laws

open Idealize.ShloMosaic

namespace Cert.Proof.Finite

open Cert.Pre_finite_inputs

/-- The scalar shape has exactly one index. -/
instance : Subsingleton S_.Idx := ⟨fun a b => funext fun d => d.elim0⟩

/-- The pattern 0x7F800000 (exponent all ones, significand zero, sign clear) denotes +∞. -/
theorem inf_bits : Ideal.ofBits .f32 0x7F800000#32 = (⊤ : EReal) := by
  simp [Ideal.ofBits, Ideal.ieee]

/-- An extended real whose absolute value max x (-x) lies below ⊤ is neither ⊤ nor ⊥. -/
theorem ereal_real_of_abs_lt_top (x : EReal) (h : max x (-x) < ⊤) : x ≠ ⊤ ∧ x ≠ ⊥ := by
  induction x using EReal.rec with
  | bot => simp at h
  | coe r => exact ⟨EReal.coe_ne_top r, EReal.coe_ne_bot r⟩
  | top => simp at h

/-- One entry: the comparison |x| < +∞ answering true says x is a real number. -/
theorem elem_finite (x : Ideal .f32)
    (h : FloatOps.cmpf .olt (FloatOps.hostAbsf x) (FloatOps.ofBits .f32 0x7F800000#32 : Ideal .f32) = 1#1) :
    x ≠ ⊤ ∧ x ≠ ⊥ := by
  refine ereal_real_of_abs_lt_top x ?_
  have h' : Ideal.cmp .olt (max x (-x)) (Ideal.ofBits .f32 0x7F800000#32) = 1#1 := h
  rw [inf_bits] at h'
  by_contra hn
  have h0 : Ideal.cmp .olt (max x (-x)) ⊤ = 0#1 := by simp [Ideal.cmp, hn]
  rw [h0] at h'
  exact absurd h' (by decide)

/-- One array of any shape: if the conjunction over all entries of |x| < +∞ is true, every entry is a
    real number.  The conjunction is a reduction by "and" over all axes into the scalar shape. -/
theorem all_finite {s : Shape} {axes : List (Fin s.rank)} (a : FVec Ideal s .f32)
    (hb : S_.BroadcastsInDim s (![] : Fin 0 → Fin s.rank)) (hr : s.ReducesTo axes S_) (h0 : 0 < S_.numel)
    (init : IVec S_ 1) (j : S_.Idx)
    (h : Host.reduce IntOp.andi (cmpf .olt (Host.absf a) (broadcastInDim s ![] hb (constant S_ .f32 0x7F800000#32)))
      init hr h0 j = 1#1)
    (i : s.Idx) : a i ≠ ⊤ ∧ a i ≠ ⊥ :=
  elem_finite (a i) (Host.reduce_andi_all _ _ hr h0 _ h i)

section
variable [Cert.Pre_finite_inputs.Facts]

/-- The precondition, unfolded once: it is the left-nested conjunction of the 23 per-array conjunctions,
    so all 23 hold, and each gives that array's entries real. -/
theorem finite_all (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1) :
      (∀ i, a0 i ≠ ⊤ ∧ a0 i ≠ ⊥) ∧
      (∀ i, a1 i ≠ ⊤ ∧ a1 i ≠ ⊥) ∧
      (∀ i, a2 i ≠ ⊤ ∧ a2 i ≠ ⊥) ∧
      (∀ i, a3 i ≠ ⊤ ∧ a3 i ≠ ⊥) ∧
      (∀ i, a4 i ≠ ⊤ ∧ a4 i ≠ ⊥) ∧
      (∀ i, a5 i ≠ ⊤ ∧ a5 i ≠ ⊥) ∧
      (∀ i, a6 i ≠ ⊤ ∧ a6 i ≠ ⊥) ∧
      (∀ i, a7 i ≠ ⊤ ∧ a7 i ≠ ⊥) ∧
      (∀ i, a8 i ≠ ⊤ ∧ a8 i ≠ ⊥) ∧
      (∀ i, a9 i ≠ ⊤ ∧ a9 i ≠ ⊥) ∧
      (∀ i, a10 i ≠ ⊤ ∧ a10 i ≠ ⊥) ∧
      (∀ i, a11 i ≠ ⊤ ∧ a11 i ≠ ⊥) ∧
      (∀ i, a12 i ≠ ⊤ ∧ a12 i ≠ ⊥) ∧
      (∀ i, a13 i ≠ ⊤ ∧ a13 i ≠ ⊥) ∧
      (∀ i, a14 i ≠ ⊤ ∧ a14 i ≠ ⊥) ∧
      (∀ i, a15 i ≠ ⊤ ∧ a15 i ≠ ⊥) ∧
      (∀ i, a16 i ≠ ⊤ ∧ a16 i ≠ ⊥) ∧
      (∀ i, a17 i ≠ ⊤ ∧ a17 i ≠ ⊥) ∧
      (∀ i, a18 i ≠ ⊤ ∧ a18 i ≠ ⊥) ∧
      (∀ i, a19 i ≠ ⊤ ∧ a19 i ≠ ⊥) ∧
      (∀ i, a20 i ≠ ⊤ ∧ a20 i ≠ ⊥) ∧
      (∀ i, a21 i ≠ ⊤ ∧ a21 i ≠ ⊥) ∧
      (∀ i, a22 i ≠ ⊤ ∧ a22 i ≠ ⊥) := by
  have h := congrFun hfn ValueIdx.ix0
  unfold fn fn_part1 fn_part2 fn_part3 fn_part4 fn_part5 fn_part6 at h
  dsimp only [andi] at h
  simp only [IntOp.andi_eq_one] at h
  obtain ⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩ := h
  exact ⟨fun i => all_finite a0 _ _ _ _ _ h0 i,
    fun i => all_finite a1 _ _ _ _ _ h1 i,
    fun i => all_finite a2 _ _ _ _ _ h2 i,
    fun i => all_finite a3 _ _ _ _ _ h3 i,
    fun i => all_finite a4 _ _ _ _ _ h4 i,
    fun i => all_finite a5 _ _ _ _ _ h5 i,
    fun i => all_finite a6 _ _ _ _ _ h6 i,
    fun i => all_finite a7 _ _ _ _ _ h7 i,
    fun i => all_finite a8 _ _ _ _ _ h8 i,
    fun i => all_finite a9 _ _ _ _ _ h9 i,
    fun i => all_finite a10 _ _ _ _ _ h10 i,
    fun i => all_finite a11 _ _ _ _ _ h11 i,
    fun i => all_finite a12 _ _ _ _ _ h12 i,
    fun i => all_finite a13 _ _ _ _ _ h13 i,
    fun i => all_finite a14 _ _ _ _ _ h14 i,
    fun i => all_finite a15 _ _ _ _ _ h15 i,
    fun i => all_finite a16 _ _ _ _ _ h16 i,
    fun i => all_finite a17 _ _ _ _ _ h17 i,
    fun i => all_finite a18 _ _ _ _ _ h18 i,
    fun i => all_finite a19 _ _ _ _ _ h19 i,
    fun i => all_finite a20 _ _ _ _ _ h20 i,
    fun i => all_finite a21 _ _ _ _ _ h21 i,
    fun i => all_finite a22 _ _ _ _ _ h22 i⟩

/-- Every entry of argument 0 is a real number. -/
theorem finite_arg0 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S1x256x56x56.Idx) : a0 i ≠ ⊤ ∧ a0 i ≠ ⊥ :=
  (finite_all a0 a1 a2 a3 a4 a5 a6 a7 a8 a9 a10 a11 a12 a13 a14 a15 a16 a17 a18 a19 a20 a21 a22 hfn).1 i

/-- Every entry of argument 1 is a real number. -/
theorem finite_arg1 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S1x512x28x28.Idx) : a1 i ≠ ⊤ ∧ a1 i ≠ ⊥ :=
  (finite_all a0 a1 a2 a3 a4 a5 a6 a7 a8 a9 a10 a11 a12 a13 a14 a15 a16 a17 a18 a19 a20 a21 a22 hfn).2.1 i

/-- Every entry of argument 2 is a real number. -/
theorem finite_arg2 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S1x1024x14x14.Idx) : a2 i ≠ ⊤ ∧ a2 i ≠ ⊥ :=
  (finite_all a0 a1 a2 a3 a4 a5 a6 a7 a8 a9 a10 a11 a12 a13 a14 a15 a16 a17 a18 a19 a20 a21 a22 hfn).2.2.1 i

/-- Every entry of argument 3 is a real number. -/
theorem finite_arg3 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S1x2048x7x7.Idx) : a3 i ≠ ⊤ ∧ a3 i ≠ ⊥ :=
  (finite_all a0 a1 a2 a3 a4 a5 a6 a7 a8 a9 a10 a11 a12 a13 a14 a15 a16 a17 a18 a19 a20 a21 a22 hfn).2.2.2.1 i

/-- Every entry of argument 4 is a real number. -/
theorem finite_arg4 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S8192x8192.Idx) : a4 i ≠ ⊤ ∧ a4 i ≠ ⊥ :=
  (finite_all a0 a1 a2 a3 a4 a5 a6 a7 a8 a9 a10 a11 a12 a13 a14 a15 a16 a17 a18 a19 a20 a21 a22 hfn).2.2.2.2.1 i

/-- Every entry of argument 5 is a real number. -/
theorem finite_arg5 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S8192x3.Idx) : a5 i ≠ ⊤ ∧ a5 i ≠ ⊥ :=
  (finite_all a0 a1 a2 a3 a4 a5 a6 a7 a8 a9 a10 a11 a12 a13 a14 a15 a16 a17 a18 a19 a20 a21 a22 hfn).2.2.2.2.2.1 i

/-- Every entry of argument 6 is a real number. -/
theorem finite_arg6 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S8192x128.Idx) : a6 i ≠ ⊤ ∧ a6 i ≠ ⊥ :=
  (finite_all a0 a1 a2 a3 a4 a5 a6 a7 a8 a9 a10 a11 a12 a13 a14 a15 a16 a17 a18 a19 a20 a21 a22 hfn).2.2.2.2.2.2.1 i

/-- Every entry of argument 7 is a real number. -/
theorem finite_arg7 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S3840x128.Idx) : a7 i ≠ ⊤ ∧ a7 i ≠ ⊥ :=
  (finite_all a0 a1 a2 a3 a4 a5 a6 a7 a8 a9 a10 a11 a12 a13 a14 a15 a16 a17 a18 a19 a20 a21 a22 hfn).2.2.2.2.2.2.2.1 i

/-- Every entry of argument 8 is a real number. -/
theorem finite_arg8 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S259x128.Idx) : a8 i ≠ ⊤ ∧ a8 i ≠ ⊥ :=
  (finite_all a0 a1 a2 a3 a4 a5 a6 a7 a8 a9 a10 a11 a12 a13 a14 a15 a16 a17 a18 a19 a20 a21 a22 hfn).2.2.2.2.2.2.2.2.1 i

/-- Every entry of argument 9 is a real number. -/
theorem finite_arg9 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S259x128.Idx) : a9 i ≠ ⊤ ∧ a9 i ≠ ⊥ :=
  (finite_all a0 a1 a2 a3 a4 a5 a6 a7 a8 a9 a10 a11 a12 a13 a14 a15 a16 a17 a18 a19 a20 a21 a22 hfn).2.2.2.2.2.2.2.2.2.1 i

/-- Every entry of argument 10 is a real number. -/
theorem finite_arg10 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S128x128.Idx) : a10 i ≠ ⊤ ∧ a10 i ≠ ⊥ :=
  (finite_all a0 a1 a2 a3 a4 a5 a6 a7 a8 a9 a10 a11 a12 a13 a14 a15 a16 a17 a18 a19 a20 a21 a22 hfn).2.2.2.2.2.2.2.2.2.2.1 i

/-- Every entry of argument 11 is a real number. -/
theorem finite_arg11 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S128x128.Idx) : a11 i ≠ ⊤ ∧ a11 i ≠ ⊥ :=
  (finite_all a0 a1 a2 a3 a4 a5 a6 a7 a8 a9 a10 a11 a12 a13 a14 a15 a16 a17 a18 a19 a20 a21 a22 hfn).2.2.2.2.2.2.2.2.2.2.2.1 i

/-- Every entry of argument 12 is a real number. -/
theorem finite_arg12 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S259x128.Idx) : a12 i ≠ ⊤ ∧ a12 i ≠ ⊥ :=
  (finite_all a0 a1 a2 a3 a4 a5 a6 a7 a8 a9 a10 a11 a12 a13 a14 a15 a16 a17 a18 a19 a20 a21 a22 hfn).2.2.2.2.2.2.2.2.2.2.2.2.1 i

/-- Every entry of argument 13 is a real number. -/
theorem finite_arg13 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S128x128.Idx) : a13 i ≠ ⊤ ∧ a13 i ≠ ⊥ :=
  (finite_all a0 a1 a2 a3 a4 a5 a6 a7 a8 a9 a10 a11 a12 a13 a14 a15 a16 a17 a18 a19 a20 a21 a22 hfn).2.2.2.2.2.2.2.2.2.2.2.2.2.1 i

/-- Every entry of argument 14 is a real number. -/
theorem finite_arg14 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S128x128.Idx) : a14 i ≠ ⊤ ∧ a14 i ≠ ⊥ :=
  (finite_all a0 a1 a2 a3 a4 a5 a6 a7 a8 a9 a10 a11 a12 a13 a14 a15 a16 a17 a18 a19 a20 a21 a22 hfn).2.2.2.2.2.2.2.2.2.2.2.2.2.2.1 i

/-- Every entry of argument 15 is a real number. -/
theorem finite_arg15 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S128x128.Idx) : a15 i ≠ ⊤ ∧ a15 i ≠ ⊥ :=
  (finite_all a0 a1 a2 a3 a4 a5 a6 a7 a8 a9 a10 a11 a12 a13 a14 a15 a16 a17 a18 a19 a20 a21 a22 hfn).2.2.2.2.2.2.2.2.2.2.2.2.2.2.2.1 i

/-- Every entry of argument 16 is a real number. -/
theorem finite_arg16 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S128x128.Idx) : a16 i ≠ ⊤ ∧ a16 i ≠ ⊥ :=
  (finite_all a0 a1 a2 a3 a4 a5 a6 a7 a8 a9 a10 a11 a12 a13 a14 a15 a16 a17 a18 a19 a20 a21 a22 hfn).2.2.2.2.2.2.2.2.2.2.2.2.2.2.2.2.1 i

/-- Every entry of argument 17 is a real number. -/
theorem finite_arg17 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S128x128.Idx) : a17 i ≠ ⊤ ∧ a17 i ≠ ⊥ :=
  (finite_all a0 a1 a2 a3 a4 a5 a6 a7 a8 a9 a10 a11 a12 a13 a14 a15 a16 a17 a18 a19 a20 a21 a22 hfn).2.2.2.2.2.2.2.2.2.2.2.2.2.2.2.2.2.1 i

/-- Every entry of argument 18 is a real number. -/
theorem finite_arg18 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S128x128.Idx) : a18 i ≠ ⊤ ∧ a18 i ≠ ⊥ :=
  (finite_all a0 a1 a2 a3 a4 a5 a6 a7 a8 a9 a10 a11 a12 a13 a14 a15 a16 a17 a18 a19 a20 a21 a22 hfn).2.2.2.2.2.2.2.2.2.2.2.2.2.2.2.2.2.2.1 i

/-- Every entry of argument 19 is a real number. -/
theorem finite_arg19 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S128x128.Idx) : a19 i ≠ ⊤ ∧ a19 i ≠ ⊥ :=
  (finite_all a0 a1 a2 a3 a4 a5 a6 a7 a8 a9 a10 a11 a12 a13 a14 a15 a16 a17 a18 a19 a20 a21 a22 hfn).2.2.2.2.2.2.2.2.2.2.2.2.2.2.2.2.2.2.2.1 i

/-- Every entry of argument 20 is a real number. -/
theorem finite_arg20 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S128x128.Idx) : a20 i ≠ ⊤ ∧ a20 i ≠ ⊥ :=
  (finite_all a0 a1 a2 a3 a4 a5 a6 a7 a8 a9 a10 a11 a12 a13 a14 a15 a16 a17 a18 a19 a20 a21 a22 hfn).2.2.2.2.2.2.2.2.2.2.2.2.2.2.2.2.2.2.2.2.1 i

/-- Every entry of argument 21 is a real number. -/
theorem finite_arg21 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S128x3.Idx) : a21 i ≠ ⊤ ∧ a21 i ≠ ⊥ :=
  (finite_all a0 a1 a2 a3 a4 a5 a6 a7 a8 a9 a10 a11 a12 a13 a14 a15 a16 a17 a18 a19 a20 a21 a22 hfn).2.2.2.2.2.2.2.2.2.2.2.2.2.2.2.2.2.2.2.2.2.1 i

/-- Every entry of argument 22 is a real number. -/
theorem finite_arg22 (a0 : FVec Ideal S1x256x56x56 .f32) (a1 : FVec Ideal S1x512x28x28 .f32) (a2 : FVec Ideal S1x1024x14x14 .f32) (a3 : FVec Ideal S1x2048x7x7 .f32) (a4 : FVec Ideal S8192x8192 .f32) (a5 : FVec Ideal S8192x3 .f32) (a6 : FVec Ideal S8192x128 .f32) (a7 : FVec Ideal S3840x128 .f32) (a8 : FVec Ideal S259x128 .f32) (a9 : FVec Ideal S259x128 .f32) (a10 : FVec Ideal S128x128 .f32) (a11 : FVec Ideal S128x128 .f32) (a12 : FVec Ideal S259x128 .f32) (a13 : FVec Ideal S128x128 .f32) (a14 : FVec Ideal S128x128 .f32) (a15 : FVec Ideal S128x128 .f32) (a16 : FVec Ideal S128x128 .f32) (a17 : FVec Ideal S128x128 .f32) (a18 : FVec Ideal S128x128 .f32) (a19 : FVec Ideal S128x128 .f32) (a20 : FVec Ideal S128x128 .f32) (a21 : FVec Ideal S128x3 .f32) (a22 : FVec Ideal S128x3 .f32)
    (hfn : Cert.Pre_finite_inputs.fn (F := Ideal) a0 a1 a2 a3 a4 a5 a6 a7 a8 a9 a10 a11 a12 a13 a14 a15 a16 a17 a18 a19 a20 a21 a22 = fun _ => 1#1)
    (i : S128x3.Idx) : a22 i ≠ ⊤ ∧ a22 i ≠ ⊥ :=
  (finite_all a0 a1 a2 a3 a4 a5 a6 a7 a8 a9 a10 a11 a12 a13 a14 a15 a16 a17 a18 a19 a20 a21 a22 hfn).2.2.2.2.2.2.2.2.2.2.2.2.2.2.2.2.2.2.2.2.2.2 i

end

end Cert.Proof.Finite
-- ==== Proof.Prefix.lean ====
import proofs.«120270_j2259152797813_2_alg».proof.Proof.KI.Total
import proofs.«120270_j2259152797813_2_alg».proof.Proof.Ref.Total
import proofs.«120270_j2259152797813_2_alg».proof.Proof.PrefixPre
import proofs.«120270_j2259152797813_2_alg».proof.Proof.PrefixFinite
import proofs.«120270_j2259152797813_2_alg».proof.Defs

set_option maxRecDepth 16384

noncomputable section

namespace Cert.Proof.Prefix

open Idealize.ShloMosaic Idealize.ShloMosaic.TcCoe Idealize.SL.Sem Idealize.ShloMosaic.StableHlo
open Idealize.ShloMosaic.ValueIdx

set_option maxHeartbeats 4000000 in
/-- The projected vertex features agree: the kernel program's sum of the four maps' selection products and the
    reference's product of the sampled, concatenated features with the linear layer hold the same array.  At every
    vertex and output column both are the sum over the four maps of the map's four-corner weighted sample combined
    with the map's rows of the linear layer; the corners and the weights are the same functions of the vertex's two
    clipped image coordinates on both sides, and the arguments agree. -/
theorem projected_eq [hKernelIdeal : Cert.KernelIdeal.Facts] [hReferenceIdeal : Cert.ReferenceIdeal.Facts] [hPre_finite_inputs : Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (c : Dev Cert.KernelIdeal.nD) :
    (Cert.KernelIdeal.Hand.W21 (F := Ideal) m ρ c (Proc.devRef .tc Cert.KernelIdeal.main_v272) : Cert.KernelIdeal.S8192x128.Idx → EReal)
      = (StableHlo.after (Cert.ReferenceIdeal.ValueP.ops (F := Ideal)) (launchContents m' c) (Proc.devRef .tc Cert.ReferenceIdeal.main_v460) : Cert.ReferenceIdeal.S8192x128.Idx → EReal) := by
  funext i
  obtain ⟨v, j, rfl⟩ : ∃ (v : Fin 8192) (j : Fin 128), i = ix2 v j := ⟨i 0, i 1, eq_ix2 i⟩
  obtain ⟨g0, g1, g2, g3, -, g5, -, g7, -⟩ := hagree c
  -- the two clipped image coordinates of the vertex, from the kernel program's run
  have kx := congrFun (Cert.Proof.Pre.kW4_v23 m ρ c) (ix1 v)
  have ky := congrFun (Cert.Proof.Pre.kW4_v14 m ρ c) (ix1 v)
  obtain ⟨x, ex⟩ : ∃ x : EReal, x = (show Cert.KernelIdeal.S8192.Idx → EReal from Cert.KernelIdeal.Hand.W4 (F := Ideal) m ρ c (Proc.devRef .tc Cert.KernelIdeal.main_v23)) (ix1 v) := ⟨_, rfl⟩
  obtain ⟨y, ey⟩ : ∃ y : EReal, y = (show Cert.KernelIdeal.S8192.Idx → EReal from Cert.KernelIdeal.Hand.W4 (F := Ideal) m ρ c (Proc.devRef .tc Cert.KernelIdeal.main_v14)) (ix1 v) := ⟨_, rfl⟩
  have hx : ∃ r : ℝ, x = (r : EReal) ∧ 0 ≤ r ∧ r ≤ 223 := by
    obtain ⟨r, hr, h0, h1⟩ := Cert.Proof.Chain.clip_real (Cert.Proof.Pre.wpre (show FVec Ideal Cert.KernelIdeal.S8192x3 .f32 from Cert.KernelIdeal.Hand.W0 (F := Ideal) m ρ c (Proc.devRef .tc Cert.KernelIdeal.main_arg5)) (ix1 v))
    exact ⟨r, (ex.trans kx).trans hr, h0, h1⟩
  have hy : ∃ r : ℝ, y = (r : EReal) ∧ 0 ≤ r ∧ r ≤ 223 := by
    obtain ⟨r, hr, h0, h1⟩ := Cert.Proof.Chain.clip_real (Cert.Proof.Pre.hpre (show FVec Ideal Cert.KernelIdeal.S8192x3 .f32 from Cert.KernelIdeal.Hand.W0 (F := Ideal) m ρ c (Proc.devRef .tc Cert.KernelIdeal.main_arg5)) (ix1 v))
    exact ⟨r, (ey.trans ky).trans hr, h0, h1⟩
  -- the same two numbers from the reference's run
  have ex' : x = (show Cert.ReferenceIdeal.S8192.Idx → EReal from Cert.ReferenceIdeal.HandRead.R m' c Cert.ReferenceIdeal.main_v22) (ix1 v) := by
    rw [ex]
    refine kx.trans ?_
    rw [Cert.ReferenceIdeal.HandRead.R_W1 m' c Cert.ReferenceIdeal.main_v22 (by decide) (by decide) (by decide) (by decide) (by decide) (by decide) (by decide) (by decide) (by decide)]
    rw [Cert.Proof.Pre.rW1_v22 m' c]
    show _ = Cert.Proof.Chain.clip (Cert.Proof.Pre.wpre (m' ((c.tc : Thread Cert.ReferenceIdeal.nD Cert.ReferenceIdeal.τ).loc Cert.ReferenceIdeal.main_arg5)) (ix1 v))
    rw [g5]
  have ey' : y = (show Cert.ReferenceIdeal.S8192.Idx → EReal from Cert.ReferenceIdeal.HandRead.R m' c Cert.ReferenceIdeal.main_v13) (ix1 v) := by
    rw [ey]
    refine ky.trans ?_
    rw [Cert.ReferenceIdeal.HandRead.R_W1 m' c Cert.ReferenceIdeal.main_v13 (by decide) (by decide) (by decide) (by decide) (by decide) (by decide) (by decide) (by decide) (by decide)]
    rw [Cert.Proof.Pre.rW1_v13 m' c]
    show _ = Cert.Proof.Chain.clip (Cert.Proof.Pre.hpre (m' ((c.tc : Thread Cert.ReferenceIdeal.nD Cert.ReferenceIdeal.τ).loc Cert.ReferenceIdeal.main_arg5)) (ix1 v))
    rw [g5]
  -- every entry of the four maps and of the linear layer is a real number
  have hF0 : ∀ i, (show Cert.KernelIdeal.S1x256x56x56.Idx → EReal from Cert.KernelIdeal.Hand.W0 (F := Ideal) m ρ c (Proc.devRef .tc Cert.KernelIdeal.main_arg0)) i ≠ ⊤ ∧ (show Cert.KernelIdeal.S1x256x56x56.Idx → EReal from Cert.KernelIdeal.Hand.W0 (F := Ideal) m ρ c (Proc.devRef .tc Cert.KernelIdeal.main_arg0)) i ≠ ⊥ := fun i => Cert.Proof.Finite.finite_arg0 _ _ _ _ _ _ _ _ _ _ _ _ _ _ _ _ _ _ _ _ _ _ _ (hpre c) i
  have hF1 : ∀ i, (show Cert.KernelIdeal.S1x512x28x28.Idx → EReal from Cert.KernelIdeal.Hand.W0 (F := Ideal) m ρ c (Proc.devRef .tc Cert.KernelIdeal.main_arg1)) i ≠ ⊤ ∧ (show Cert.KernelIdeal.S1x512x28x28.Idx → EReal from Cert.KernelIdeal.Hand.W0 (F := Ideal) m ρ c (Proc.devRef .tc Cert.KernelIdeal.main_arg1)) i ≠ ⊥ := fun i => Cert.Proof.Finite.finite_arg1 _ _ _ _ _ _ _ _ _ _ _ _ _ _ _ _ _ _ _ _ _ _ _ (hpre c) i
  have hF2 : ∀ i, (show Cert.KernelIdeal.S1x1024x14x14.Idx → EReal from Cert.KernelIdeal.Hand.W0 (F := Ideal) m ρ c (Proc.devRef .tc Cert.KernelIdeal.main_arg2)) i ≠ ⊤ ∧ (show Cert.KernelIdeal.S1x1024x14x14.Idx → EReal from Cert.KernelIdeal.Hand.W0 (F := Ideal) m ρ c (Proc.devRef .tc Cert.KernelIdeal.main_arg2)) i ≠ ⊥ := fun i => Cert.Proof.Finite.finite_arg2 _ _ _ _ _ _ _ _ _ _ _ _ _ _ _ _ _ _ _ _ _ _ _ (hpre c) i
  have hF3 : ∀ i, (show Cert.KernelIdeal.S1x2048x7x7.Idx → EReal from Cert.KernelIdeal.Hand.W0 (F := Ideal) m ρ c (Proc.devRef .tc Cert.KernelIdeal.main_arg3)) i ≠ ⊤ ∧ (show Cert.KernelIdeal.S1x2048x7x7.Idx → EReal from Cert.KernelIdeal.Hand.W0 (F := Ideal) m ρ c (Proc.devRef .tc Cert.KernelIdeal.main_arg3)) i ≠ ⊥ := fun i => Cert.Proof.Finite.finite_arg3 _ _ _ _ _ _ _ _ _ _ _ _ _ _ _ _ _ _ _ _ _ _ _ (hpre c) i
  have hL : ∀ i, (show Cert.KernelIdeal.S3840x128.Idx → EReal from Cert.KernelIdeal.Hand.W0 (F := Ideal) m ρ c (Proc.devRef .tc Cert.KernelIdeal.main_arg7)) i ≠ ⊤ ∧ (show Cert.KernelIdeal.S3840x128.Idx → EReal from Cert.KernelIdeal.Hand.W0 (F := Ideal) m ρ c (Proc.devRef .tc Cert.KernelIdeal.main_arg7)) i ≠ ⊥ := fun i => Cert.Proof.Finite.finite_arg7 _ _ _ _ _ _ _ _ _ _ _ _ _ _ _ _ _ _ _ _ _ _ _ (hpre c) i
  -- both sides as the sum of the four maps' terms
  refine (Cert.KernelIdeal.Hand.kernel_total m ρ c v j hF0 hF1 hF2 hF3 hL x y ex ey hx hy).trans ?_
  refine Eq.trans ?_ (Cert.ReferenceIdeal.HandRead.ref_total m' c v j x y ex' ey' hx hy).symm
  -- the arguments agree
  show (((Cert.Proof.Chain.mapTerm (C := 256) (s := 56) (by decide) 0x40800000#32 55#32
          (fun (ch : Fin 256) (X Y : Fin 56) => (show Cert.KernelIdeal.S1x256x56x56.Idx → EReal from Cert.KernelIdeal.Hand.W0 (F := Ideal) m ρ c (Proc.devRef .tc Cert.KernelIdeal.main_arg0)) (ix4 (0 : Fin 1) ch X Y))
          (fun (ch : Fin 256) => (show Cert.KernelIdeal.S3840x128.Idx → EReal from Cert.KernelIdeal.Hand.W0 (F := Ideal) m ρ c (Proc.devRef .tc Cert.KernelIdeal.main_arg7)) (ix2 (⟨0 + ch.val, by have := ch.isLt; omega⟩ : Fin 3840) j)) x y)
      + (Cert.Proof.Chain.mapTerm (C := 512) (s := 28) (by decide) 0x41000000#32 27#32
          (fun (ch : Fin 512) (X Y : Fin 28) => (show Cert.KernelIdeal.S1x512x28x28.Idx → EReal from Cert.KernelIdeal.Hand.W0 (F := Ideal) m ρ c (Proc.devRef .tc Cert.KernelIdeal.main_arg1)) (ix4 (0 : Fin 1) ch X Y))
          (fun (ch : Fin 512) => (show Cert.KernelIdeal.S3840x128.Idx → EReal from Cert.KernelIdeal.Hand.W0 (F := Ideal) m ρ c (Proc.devRef .tc Cert.KernelIdeal.main_arg7)) (ix2 (⟨256 + ch.val, by have := ch.isLt; omega⟩ : Fin 3840) j)) x y))
      + (Cert.Proof.Chain.mapTerm (C := 1024) (s := 14) (by decide) 0x41800000#32 13#32
          (fun (ch : Fin 1024) (X Y : Fin 14) => (show Cert.KernelIdeal.S1x1024x14x14.Idx → EReal from Cert.KernelIdeal.Hand.W0 (F := Ideal) m ρ c (Proc.devRef .tc Cert.KernelIdeal.main_arg2)) (ix4 (0 : Fin 1) ch X Y))
          (fun (ch : Fin 1024) => (show Cert.KernelIdeal.S3840x128.Idx → EReal from Cert.KernelIdeal.Hand.W0 (F := Ideal) m ρ c (Proc.devRef .tc Cert.KernelIdeal.main_arg7)) (ix2 (⟨768 + ch.val, by have := ch.isLt; omega⟩ : Fin 3840) j)) x y))
      + (Cert.Proof.Chain.mapTerm (C := 2048) (s := 7) (by decide) 0x42000000#32 6#32
          (fun (ch : Fin 2048) (X Y : Fin 7) => (show Cert.KernelIdeal.S1x2048x7x7.Idx → EReal from Cert.KernelIdeal.Hand.W0 (F := Ideal) m ρ c (Proc.devRef .tc Cert.KernelIdeal.main_arg3)) (ix4 (0 : Fin 1) ch X Y))
          (fun (ch : Fin 2048) => (show Cert.KernelIdeal.S3840x128.Idx → EReal from Cert.KernelIdeal.Hand.W0 (F := Ideal) m ρ c (Proc.devRef .tc Cert.KernelIdeal.main_arg7)) (ix2 (⟨1792 + ch.val, by have := ch.isLt; omega⟩ : Fin 3840) j)) x y)
    = (((Cert.Proof.Chain.mapTerm (C := 256) (s := 56) (by decide) 0x40800000#32 55#32
          (fun (ch : Fin 256) (X Y : Fin 56) => (show Cert.ReferenceIdeal.S1x256x56x56.Idx → EReal from m' ((c.tc : Thread Cert.ReferenceIdeal.nD Cert.ReferenceIdeal.τ).loc Cert.ReferenceIdeal.main_arg0)) (ix4 (0 : Fin 1) ch X Y))
          (fun (ch : Fin 256) => (show Cert.ReferenceIdeal.S3840x128.Idx → EReal from m' ((c.tc : Thread Cert.ReferenceIdeal.nD Cert.ReferenceIdeal.τ).loc Cert.ReferenceIdeal.main_arg7)) (ix2 (⟨0 + ch.val, by have := ch.isLt; omega⟩ : Fin 3840) j)) x y)
      + (Cert.Proof.Chain.mapTerm (C := 512) (s := 28) (by decide) 0x41000000#32 27#32
          (fun (ch : Fin 512) (X Y : Fin 28) => (show Cert.ReferenceIdeal.S1x512x28x28.Idx → EReal from m' ((c.tc : Thread Cert.ReferenceIdeal.nD Cert.ReferenceIdeal.τ).loc Cert.ReferenceIdeal.main_arg1)) (ix4 (0 : Fin 1) ch X Y))
          (fun (ch : Fin 512) => (show Cert.ReferenceIdeal.S3840x128.Idx → EReal from m' ((c.tc : Thread Cert.ReferenceIdeal.nD Cert.ReferenceIdeal.τ).loc Cert.ReferenceIdeal.main_arg7)) (ix2 (⟨256 + ch.val, by have := ch.isLt; omega⟩ : Fin 3840) j)) x y))
      + (Cert.Proof.Chain.mapTerm (C := 1024) (s := 14) (by decide) 0x41800000#32 13#32
          (fun (ch : Fin 1024) (X Y : Fin 14) => (show Cert.ReferenceIdeal.S1x1024x14x14.Idx → EReal from m' ((c.tc : Thread Cert.ReferenceIdeal.nD Cert.ReferenceIdeal.τ).loc Cert.ReferenceIdeal.main_arg2)) (ix4 (0 : Fin 1) ch X Y))
          (fun (ch : Fin 1024) => (show Cert.ReferenceIdeal.S3840x128.Idx → EReal from m' ((c.tc : Thread Cert.ReferenceIdeal.nD Cert.ReferenceIdeal.τ).loc Cert.ReferenceIdeal.main_arg7)) (ix2 (⟨768 + ch.val, by have := ch.isLt; omega⟩ : Fin 3840) j)) x y))
      + (Cert.Proof.Chain.mapTerm (C := 2048) (s := 7) (by decide) 0x42000000#32 6#32
          (fun (ch : Fin 2048) (X Y : Fin 7) => (show Cert.ReferenceIdeal.S1x2048x7x7.Idx → EReal from m' ((c.tc : Thread Cert.ReferenceIdeal.nD Cert.ReferenceIdeal.τ).loc Cert.ReferenceIdeal.main_arg3)) (ix4 (0 : Fin 1) ch X Y))
          (fun (ch : Fin 2048) => (show Cert.ReferenceIdeal.S3840x128.Idx → EReal from m' ((c.tc : Thread Cert.ReferenceIdeal.nD Cert.ReferenceIdeal.τ).loc Cert.ReferenceIdeal.main_arg7)) (ix2 (⟨1792 + ch.val, by have := ch.isLt; omega⟩ : Fin 3840) j)) x y)
  rw [g0, g1, g2, g3, g7]

end Cert.Proof.Prefix

end
-- ==== Proof.ValueA.lean ====
/-
  The value claim: run from memories that agree on the arguments, all float inputs finite, the idealized kernel
  program and the idealized reference end with the same two results.  Both results are the common tail function
  (Proof/TailSpec.lean) of the argument arrays and of the projected features: for the kernel program by its regions'
  closed forms (Proof/TailK.lean), for the reference by its own operations (Proof/TailRef.lean); and the two programs
  compute the same projected features (Proof/Prefix.lean) — sampling four corners per feature map and projecting
  afterwards is projecting every position first and selecting by one-hot weights.
-/
import proofs.«120270_j2259152797813_2_alg».proof.Defs
import proofs.«120270_j2259152797813_2_alg».proof.Proof.Gen.KernelIdeal
import proofs.«120270_j2259152797813_2_alg».proof.Proof.Gen.ReferenceIdeal
import proofs.«120270_j2259152797813_2_alg».proof.Proof.Gen.Pre_finite_inputs
import proofs.«120270_j2259152797813_2_alg».proof.Proof.KI.Run
import proofs.«120270_j2259152797813_2_alg».proof.Proof.TailK
import proofs.«120270_j2259152797813_2_alg».proof.Proof.TailRef
import proofs.«120270_j2259152797813_2_alg».proof.Proof.Prefix

set_option maxRecDepth 16384
set_option maxHeartbeats 4000000

noncomputable section

namespace Cert.Proof.Value

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (hpre : Cert.Pre_KernelIdeal m)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
  (c : Dev Cert.KernelIdeal.nD)

include hagree in
theorem e4 : Cert.Proof.TailRef.tA (Cert.Proof.TailRef.U9 (launchContents m' c)) = Cert.Proof.TailK.aa4 m c :=
  (Cert.Proof.TailRef.U9_args (launchContents m' c) 4).trans (hagree c).2.2.2.2.1
include hagree in
theorem e5 : Cert.Proof.TailRef.t5 (Cert.Proof.TailRef.U9 (launchContents m' c)) = Cert.Proof.TailK.aa5 m c :=
  (Cert.Proof.TailRef.U9_args (launchContents m' c) 5).trans (hagree c).2.2.2.2.2.1
include hagree in
theorem e6 : Cert.Proof.TailRef.t6 (Cert.Proof.TailRef.U9 (launchContents m' c)) = Cert.Proof.TailK.aa6 m c :=
  (Cert.Proof.TailRef.U9_args (launchContents m' c) 6).trans (hagree c).2.2.2.2.2.2.1
include hagree in
theorem e8 : Cert.Proof.TailRef.t8 (Cert.Proof.TailRef.U9 (launchContents m' c)) = Cert.Proof.TailK.aa8 m c :=
  (Cert.Proof.TailRef.U9_args (launchContents m' c) 8).trans (hagree c).2.2.2.2.2.2.2.2.1
include hagree in
theorem e9 : Cert.Proof.TailRef.t9 (Cert.Proof.TailRef.U9 (launchContents m' c)) = Cert.Proof.TailK.aa9 m c :=
  (Cert.Proof.TailRef.U9_args (launchContents m' c) 9).trans (hagree c).2.2.2.2.2.2.2.2.2.1
include hagree in
theorem e10 : Cert.Proof.TailRef.t10 (Cert.Proof.TailRef.U9 (launchContents m' c)) = Cert.Proof.TailK.aa10 m c :=
  (Cert.Proof.TailRef.U9_args (launchContents m' c) 10).trans (hagree c).2.2.2.2.2.2.2.2.2.2.1
include hagree in
theorem e11 : Cert.Proof.TailRef.t11 (Cert.Proof.TailRef.U9 (launchContents m' c)) = Cert.Proof.TailK.aa11 m c :=
  (Cert.Proof.TailRef.U9_args (launchContents m' c) 11).trans (hagree c).2.2.2.2.2.2.2.2.2.2.2.1
include hagree in
theorem e12 : Cert.Proof.TailRef.t12 (Cert.Proof.TailRef.U9 (launchContents m' c)) = Cert.Proof.TailK.aa12 m c :=
  (Cert.Proof.TailRef.U9_args (launchContents m' c) 12).trans (hagree c).2.2.2.2.2.2.2.2.2.2.2.2.1
include hagree in
theorem e13 : Cert.Proof.TailRef.t13 (Cert.Proof.TailRef.U9 (launchContents m' c)) = Cert.Proof.TailK.aa13 m c :=
  (Cert.Proof.TailRef.U9_args (launchContents m' c) 13).trans (hagree c).2.2.2.2.2.2.2.2.2.2.2.2.2.1
include hagree in
theorem e14 : Cert.Proof.TailRef.t14 (Cert.Proof.TailRef.U9 (launchContents m' c)) = Cert.Proof.TailK.aa14 m c :=
  (Cert.Proof.TailRef.U9_args (launchContents m' c) 14).trans (hagree c).2.2.2.2.2.2.2.2.2.2.2.2.2.2.1
include hagree in
theorem e15 : Cert.Proof.TailRef.t15 (Cert.Proof.TailRef.U9 (launchContents m' c)) = Cert.Proof.TailK.aa15 m c :=
  (Cert.Proof.TailRef.U9_args (launchContents m' c) 15).trans (hagree c).2.2.2.2.2.2.2.2.2.2.2.2.2.2.2.1
include hagree in
theorem e16 : Cert.Proof.TailRef.t16 (Cert.Proof.TailRef.U9 (launchContents m' c)) = Cert.Proof.TailK.aa16 m c :=
  (Cert.Proof.TailRef.U9_args (launchContents m' c) 16).trans (hagree c).2.2.2.2.2.2.2.2.2.2.2.2.2.2.2.2.1
include hagree in
theorem e17 : Cert.Proof.TailRef.t17 (Cert.Proof.TailRef.U9 (launchContents m' c)) = Cert.Proof.TailK.aa17 m c :=
  (Cert.Proof.TailRef.U9_args (launchContents m' c) 17).trans (hagree c).2.2.2.2.2.2.2.2.2.2.2.2.2.2.2.2.2.1
include hagree in
theorem e18 : Cert.Proof.TailRef.t18 (Cert.Proof.TailRef.U9 (launchContents m' c)) = Cert.Proof.TailK.aa18 m c :=
  (Cert.Proof.TailRef.U9_args (launchContents m' c) 18).trans (hagree c).2.2.2.2.2.2.2.2.2.2.2.2.2.2.2.2.2.2.1
include hagree in
theorem e19 : Cert.Proof.TailRef.t19 (Cert.Proof.TailRef.U9 (launchContents m' c)) = Cert.Proof.TailK.aa19 m c :=
  (Cert.Proof.TailRef.U9_args (launchContents m' c) 19).trans (hagree c).2.2.2.2.2.2.2.2.2.2.2.2.2.2.2.2.2.2.2.1
include hagree in
theorem e20 : Cert.Proof.TailRef.t20 (Cert.Proof.TailRef.U9 (launchContents m' c)) = Cert.Proof.TailK.aa20 m c :=
  (Cert.Proof.TailRef.U9_args (launchContents m' c) 20).trans (hagree c).2.2.2.2.2.2.2.2.2.2.2.2.2.2.2.2.2.2.2.2.1
include hagree in
theorem e21 : Cert.Proof.TailRef.t21 (Cert.Proof.TailRef.U9 (launchContents m' c)) = Cert.Proof.TailK.aa21 m c :=
  (Cert.Proof.TailRef.U9_args (launchContents m' c) 21).trans (hagree c).2.2.2.2.2.2.2.2.2.2.2.2.2.2.2.2.2.2.2.2.2.1
include hagree in
theorem e22 : Cert.Proof.TailRef.t22 (Cert.Proof.TailRef.U9 (launchContents m' c)) = Cert.Proof.TailK.aa22 m c :=
  (Cert.Proof.TailRef.U9_args (launchContents m' c) 22).trans (hagree c).2.2.2.2.2.2.2.2.2.2.2.2.2.2.2.2.2.2.2.2.2.2
include hpre hagree in
/-- The two programs' projected features agree. -/
theorem eP : Cert.Proof.TailRef.tP (Cert.Proof.TailRef.U9 (launchContents m' c)) = Cert.Proof.TailK.PP m ρ c :=
  calc Cert.Proof.TailRef.tP (Cert.Proof.TailRef.U9 (launchContents m' c))
      = Cert.Proof.TailRef.Y8 (Cert.Proof.TailRef.U9 (launchContents m' c)) (Proc.devRef .tc Cert.ReferenceIdeal.main_v460) := (Cert.Proof.TailRef.Y8_v460 (Cert.Proof.TailRef.U9 (launchContents m' c))).symm
    _ = after (Cert.ReferenceIdeal.ValueP.ops (F := Ideal)) (launchContents m' c) (Proc.devRef .tc Cert.ReferenceIdeal.main_v460) :=
        (congrFun (Cert.Proof.TailRef.after_ops_Y8 (launchContents m' c)) (Proc.devRef .tc Cert.ReferenceIdeal.main_v460)).symm
    _ = Cert.Proof.TailK.PP m ρ c := (Cert.Proof.Prefix.projected_eq m ρ m' hpre hagree c).symm

include hpre hagree in
theorem eX : Cert.Proof.TailRef.tX (Cert.Proof.TailRef.U9 (launchContents m' c)) = Cert.Proof.TailSpec.tailX (Cert.Proof.TailK.aa4 m c) (Cert.Proof.TailK.aa5 m c) (Cert.Proof.TailK.aa6 m c) (Cert.Proof.TailK.PP m ρ c) (Cert.Proof.TailK.aa8 m c) (Cert.Proof.TailK.aa9 m c) (Cert.Proof.TailK.aa12 m c) (Cert.Proof.TailK.aa10 m c) (Cert.Proof.TailK.aa11 m c) (Cert.Proof.TailK.aa13 m c) (Cert.Proof.TailK.aa14 m c) (Cert.Proof.TailK.aa15 m c) (Cert.Proof.TailK.aa16 m c) (Cert.Proof.TailK.aa17 m c) (Cert.Proof.TailK.aa18 m c) (Cert.Proof.TailK.aa19 m c) (Cert.Proof.TailK.aa20 m c) := by
  show Cert.Proof.TailSpec.tailX (Cert.Proof.TailRef.tA (Cert.Proof.TailRef.U9 (launchContents m' c))) (Cert.Proof.TailRef.t5 (Cert.Proof.TailRef.U9 (launchContents m' c))) (Cert.Proof.TailRef.t6 (Cert.Proof.TailRef.U9 (launchContents m' c))) (Cert.Proof.TailRef.tP (Cert.Proof.TailRef.U9 (launchContents m' c))) (Cert.Proof.TailRef.t8 (Cert.Proof.TailRef.U9 (launchContents m' c))) (Cert.Proof.TailRef.t9 (Cert.Proof.TailRef.U9 (launchContents m' c))) (Cert.Proof.TailRef.t12 (Cert.Proof.TailRef.U9 (launchContents m' c))) (Cert.Proof.TailRef.t10 (Cert.Proof.TailRef.U9 (launchContents m' c))) (Cert.Proof.TailRef.t11 (Cert.Proof.TailRef.U9 (launchContents m' c))) (Cert.Proof.TailRef.t13 (Cert.Proof.TailRef.U9 (launchContents m' c))) (Cert.Proof.TailRef.t14 (Cert.Proof.TailRef.U9 (launchContents m' c))) (Cert.Proof.TailRef.t15 (Cert.Proof.TailRef.U9 (launchContents m' c))) (Cert.Proof.TailRef.t16 (Cert.Proof.TailRef.U9 (launchContents m' c))) (Cert.Proof.TailRef.t17 (Cert.Proof.TailRef.U9 (launchContents m' c))) (Cert.Proof.TailRef.t18 (Cert.Proof.TailRef.U9 (launchContents m' c))) (Cert.Proof.TailRef.t19 (Cert.Proof.TailRef.U9 (launchContents m' c))) (Cert.Proof.TailRef.t20 (Cert.Proof.TailRef.U9 (launchContents m' c))) = _
  rw [e4 m m' hagree c, e5 m m' hagree c, e6 m m' hagree c, eP m ρ m' hpre hagree c, e8 m m' hagree c, e9 m m' hagree c, e12 m m' hagree c, e10 m m' hagree c, e11 m m' hagree c, e13 m m' hagree c, e14 m m' hagree c, e15 m m' hagree c, e16 m m' hagree c, e17 m m' hagree c, e18 m m' hagree c, e19 m m' hagree c, e20 m m' hagree c]

include hpre hagree in
/-- The second result (the refined features). -/
theorem result1_eq : (show Cert.Proof.TailSpec.V128 from after (Cert.ReferenceIdeal.ValueP.ops (F := Ideal)) (launchContents m' c) (Proc.devRef .tc Cert.ReferenceIdeal.main_v495))
    = (show Cert.Proof.TailSpec.V128 from Cert.KernelIdeal.Hand.W35 (F := Ideal) m ρ c (Proc.devRef .tc Cert.KernelIdeal.main_v301)) :=
  calc (show Cert.Proof.TailSpec.V128 from after (Cert.ReferenceIdeal.ValueP.ops (F := Ideal)) (launchContents m' c) (Proc.devRef .tc Cert.ReferenceIdeal.main_v495))
      = (show Cert.Proof.TailSpec.V128 from Cert.Proof.TailRef.Y8 (Cert.Proof.TailRef.U9 (launchContents m' c)) (Proc.devRef .tc Cert.ReferenceIdeal.main_v495)) :=
        congrFun (Cert.Proof.TailRef.after_ops_Y8 (launchContents m' c)) (Proc.devRef .tc Cert.ReferenceIdeal.main_v495)
    _ = Cert.Proof.TailRef.tX (Cert.Proof.TailRef.U9 (launchContents m' c)) := Cert.Proof.TailRef.ref_tailX (Cert.Proof.TailRef.U9 (launchContents m' c))
    _ = Cert.Proof.TailSpec.tailX (Cert.Proof.TailK.aa4 m c) (Cert.Proof.TailK.aa5 m c) (Cert.Proof.TailK.aa6 m c) (Cert.Proof.TailK.PP m ρ c) (Cert.Proof.TailK.aa8 m c) (Cert.Proof.TailK.aa9 m c) (Cert.Proof.TailK.aa12 m c) (Cert.Proof.TailK.aa10 m c) (Cert.Proof.TailK.aa11 m c) (Cert.Proof.TailK.aa13 m c) (Cert.Proof.TailK.aa14 m c) (Cert.Proof.TailK.aa15 m c) (Cert.Proof.TailK.aa16 m c) (Cert.Proof.TailK.aa17 m c) (Cert.Proof.TailK.aa18 m c) (Cert.Proof.TailK.aa19 m c) (Cert.Proof.TailK.aa20 m c) := eX m ρ m' hpre hagree c
    _ = (show Cert.Proof.TailSpec.V128 from Cert.KernelIdeal.Hand.W35 (F := Ideal) m ρ c (Proc.devRef .tc Cert.KernelIdeal.main_v301)) := (Cert.Proof.TailK.kernel_tailX m ρ c).symm

include hpre hagree in
/-- The first result (the moved vertex positions). -/
theorem result0_eq : (show Cert.Proof.TailSpec.V3 from after (Cert.ReferenceIdeal.ValueP.ops (F := Ideal)) (launchContents m' c) (Proc.devRef .tc Cert.ReferenceIdeal.main_v502))
    = (show Cert.Proof.TailSpec.V3 from Cert.KernelIdeal.Hand.W35 (F := Ideal) m ρ c (Proc.devRef .tc Cert.KernelIdeal.main_v307)) :=
  calc (show Cert.Proof.TailSpec.V3 from after (Cert.ReferenceIdeal.ValueP.ops (F := Ideal)) (launchContents m' c) (Proc.devRef .tc Cert.ReferenceIdeal.main_v502))
      = (show Cert.Proof.TailSpec.V3 from Cert.Proof.TailRef.Y8 (Cert.Proof.TailRef.U9 (launchContents m' c)) (Proc.devRef .tc Cert.ReferenceIdeal.main_v502)) :=
        congrFun (Cert.Proof.TailRef.after_ops_Y8 (launchContents m' c)) (Proc.devRef .tc Cert.ReferenceIdeal.main_v502)
    _ = Cert.Proof.TailSpec.tailY (Cert.Proof.TailRef.tA (Cert.Proof.TailRef.U9 (launchContents m' c))) (Cert.Proof.TailRef.t5 (Cert.Proof.TailRef.U9 (launchContents m' c))) (Cert.Proof.TailRef.tX (Cert.Proof.TailRef.U9 (launchContents m' c))) (Cert.Proof.TailRef.t21 (Cert.Proof.TailRef.U9 (launchContents m' c))) (Cert.Proof.TailRef.t22 (Cert.Proof.TailRef.U9 (launchContents m' c))) := Cert.Proof.TailRef.ref_tailY (Cert.Proof.TailRef.U9 (launchContents m' c))
    _ = Cert.Proof.TailSpec.tailY (Cert.Proof.TailK.aa4 m c) (Cert.Proof.TailK.aa5 m c) (Cert.Proof.TailSpec.tailX (Cert.Proof.TailK.aa4 m c) (Cert.Proof.TailK.aa5 m c) (Cert.Proof.TailK.aa6 m c) (Cert.Proof.TailK.PP m ρ c) (Cert.Proof.TailK.aa8 m c) (Cert.Proof.TailK.aa9 m c) (Cert.Proof.TailK.aa12 m c) (Cert.Proof.TailK.aa10 m c) (Cert.Proof.TailK.aa11 m c) (Cert.Proof.TailK.aa13 m c) (Cert.Proof.TailK.aa14 m c) (Cert.Proof.TailK.aa15 m c) (Cert.Proof.TailK.aa16 m c) (Cert.Proof.TailK.aa17 m c) (Cert.Proof.TailK.aa18 m c) (Cert.Proof.TailK.aa19 m c) (Cert.Proof.TailK.aa20 m c)) (Cert.Proof.TailK.aa21 m c) (Cert.Proof.TailK.aa22 m c) := by
        rw [eX m ρ m' hpre hagree c, e4 m m' hagree c, e5 m m' hagree c, e21 m m' hagree c, e22 m m' hagree c]
    _ = (show Cert.Proof.TailSpec.V3 from Cert.KernelIdeal.Hand.W35 (F := Ideal) m ρ c (Proc.devRef .tc Cert.KernelIdeal.main_v307)) := (Cert.Proof.TailK.kernel_tailY m ρ c).symm

end Cert.Proof.Value

end
-- ==== Proof.Value.lean ====
/-
  The value claim assembled: the kernel program's run ends with its two results at the last boundary's contents,
  the reference's run with its two results at its operations' fold, and the two pairs are equal (Proof/ValueA.lean).
-/
import proofs.«120270_j2259152797813_2_alg».proof.Proof.ValueA

set_option maxRecDepth 16384
set_option maxHeartbeats 4000000

noncomputable section

namespace Cert.Proof

open Idealize.ShloMosaic Idealize.ShloMosaic.TcCoe Idealize.SL.Sem

/-- THE VALUE CLAIM. -/
theorem algebraic : Cert.algebraic_KernelIdeal_ReferenceIdeal := by
  intro m ρ m' ρ' hpre hagree
  refine ⟨fun c => Cert.KernelIdeal.Hand.W35 (F := Ideal) m ρ c (Proc.devRef .tc Cert.KernelIdeal.main_v307),
    fun c => Cert.KernelIdeal.Hand.W35 (F := Ideal) m ρ c (Proc.devRef .tc Cert.KernelIdeal.main_v301), ?_, ?_⟩
  · exact (θ_run (Cert.KernelIdeal.defs (F := Ideal)) _ _).mono (fun r h c =>
      ⟨h c _ (Cert.KernelIdeal.Hand.mem_uc Cert.KernelIdeal.main_v307 (by decide)), h c _ (Cert.KernelIdeal.Hand.mem_uc Cert.KernelIdeal.main_v301 (by decide)),
       (h c _ (Cert.KernelIdeal.Hand.mem_uc Cert.KernelIdeal.main_arg0 (by decide))).trans (Cert.KernelIdeal.Hand.Wend_args (F := Ideal) m ρ c 0),
       (h c _ (Cert.KernelIdeal.Hand.mem_uc Cert.KernelIdeal.main_arg1 (by decide))).trans (Cert.KernelIdeal.Hand.Wend_args (F := Ideal) m ρ c 1),
       (h c _ (Cert.KernelIdeal.Hand.mem_uc Cert.KernelIdeal.main_arg2 (by decide))).trans (Cert.KernelIdeal.Hand.Wend_args (F := Ideal) m ρ c 2),
       (h c _ (Cert.KernelIdeal.Hand.mem_uc Cert.KernelIdeal.main_arg3 (by decide))).trans (Cert.KernelIdeal.Hand.Wend_args (F := Ideal) m ρ c 3),
       (h c _ (Cert.KernelIdeal.Hand.mem_uc Cert.KernelIdeal.main_arg4 (by decide))).trans (Cert.KernelIdeal.Hand.Wend_args (F := Ideal) m ρ c 4),
       (h c _ (Cert.KernelIdeal.Hand.mem_uc Cert.KernelIdeal.main_arg5 (by decide))).trans (Cert.KernelIdeal.Hand.Wend_args (F := Ideal) m ρ c 5),
       (h c _ (Cert.KernelIdeal.Hand.mem_uc Cert.KernelIdeal.main_arg6 (by decide))).trans (Cert.KernelIdeal.Hand.Wend_args (F := Ideal) m ρ c 6),
       (h c _ (Cert.KernelIdeal.Hand.mem_uc Cert.KernelIdeal.main_arg7 (by decide))).trans (Cert.KernelIdeal.Hand.Wend_args (F := Ideal) m ρ c 7),
       (h c _ (Cert.KernelIdeal.Hand.mem_uc Cert.KernelIdeal.main_arg8 (by decide))).trans (Cert.KernelIdeal.Hand.Wend_args (F := Ideal) m ρ c 8),
       (h c _ (Cert.KernelIdeal.Hand.mem_uc Cert.KernelIdeal.main_arg9 (by decide))).trans (Cert.KernelIdeal.Hand.Wend_args (F := Ideal) m ρ c 9),
       (h c _ (Cert.KernelIdeal.Hand.mem_uc Cert.KernelIdeal.main_arg10 (by decide))).trans (Cert.KernelIdeal.Hand.Wend_args (F := Ideal) m ρ c 10),
       (h c _ (Cert.KernelIdeal.Hand.mem_uc Cert.KernelIdeal.main_arg11 (by decide))).trans (Cert.KernelIdeal.Hand.Wend_args (F := Ideal) m ρ c 11),
       (h c _ (Cert.KernelIdeal.Hand.mem_uc Cert.KernelIdeal.main_arg12 (by decide))).trans (Cert.KernelIdeal.Hand.Wend_args (F := Ideal) m ρ c 12),
       (h c _ (Cert.KernelIdeal.Hand.mem_uc Cert.KernelIdeal.main_arg13 (by decide))).trans (Cert.KernelIdeal.Hand.Wend_args (F := Ideal) m ρ c 13),
       (h c _ (Cert.KernelIdeal.Hand.mem_uc Cert.KernelIdeal.main_arg14 (by decide))).trans (Cert.KernelIdeal.Hand.Wend_args (F := Ideal) m ρ c 14),
       (h c _ (Cert.KernelIdeal.Hand.mem_uc Cert.KernelIdeal.main_arg15 (by decide))).trans (Cert.KernelIdeal.Hand.Wend_args (F := Ideal) m ρ c 15),
       (h c _ (Cert.KernelIdeal.Hand.mem_uc Cert.KernelIdeal.main_arg16 (by decide))).trans (Cert.KernelIdeal.Hand.Wend_args (F := Ideal) m ρ c 16),
       (h c _ (Cert.KernelIdeal.Hand.mem_uc Cert.KernelIdeal.main_arg17 (by decide))).trans (Cert.KernelIdeal.Hand.Wend_args (F := Ideal) m ρ c 17),
       (h c _ (Cert.KernelIdeal.Hand.mem_uc Cert.KernelIdeal.main_arg18 (by decide))).trans (Cert.KernelIdeal.Hand.Wend_args (F := Ideal) m ρ c 18),
       (h c _ (Cert.KernelIdeal.Hand.mem_uc Cert.KernelIdeal.main_arg19 (by decide))).trans (Cert.KernelIdeal.Hand.Wend_args (F := Ideal) m ρ c 19),
       (h c _ (Cert.KernelIdeal.Hand.mem_uc Cert.KernelIdeal.main_arg20 (by decide))).trans (Cert.KernelIdeal.Hand.Wend_args (F := Ideal) m ρ c 20),
       (h c _ (Cert.KernelIdeal.Hand.mem_uc Cert.KernelIdeal.main_arg21 (by decide))).trans (Cert.KernelIdeal.Hand.Wend_args (F := Ideal) m ρ c 21),
       (h c _ (Cert.KernelIdeal.Hand.mem_uc Cert.KernelIdeal.main_arg22 (by decide))).trans (Cert.KernelIdeal.Hand.Wend_args (F := Ideal) m ρ c 22)⟩)
      (Cert.KernelIdeal.Hand.run_all (F := Ideal) m ρ)
  · exact (θ_run (Cert.ReferenceIdeal.defs (F := Ideal)) _ _).mono (fun r h c =>
      ⟨(h c).1.trans (Value.result0_eq m ρ m' hpre hagree c), (h c).2.1.trans (Value.result1_eq m ρ m' hpre hagree c), (h c).2.2⟩)
      (Cert.ReferenceIdeal.ValueP.run (F := Ideal) m' ρ')

end Cert.Proof

end
-- ==== Proof.LibOneHotSelect.lean ====
/-
  Selecting rows by one-hot weights commutes with a linear map.

  Let `f i s` be a feature of channel `i` at position `s`, `l i` a weight of channel `i`, and let finitely many
  corners `k` each name a position `p k` and carry a weight `w k`.  Sampling first and projecting afterwards,
  `Σ_i (Σ_k w k · f i (p k)) · l i`, equals projecting every position first, `g s = Σ_i f i s · l i`, and then
  multiplying by the selection row whose entry at `s` is the sum of the weights of the corners sitting at `s`:
  `Σ_s (Σ_k [s = p k] · w k) · g s`.  Corners that share a position add their weights in the selection row, which
  is what distributivity gives on the sampling side.  Over the real numbers this is an exchange of finite sums; over
  the extended reals it holds for finite entries, where the operations are the real ones.
-/
import Mathlib.Data.EReal.Inv
import Mathlib.Algebra.BigOperators.Group.Finset.Basic
import Mathlib.Algebra.BigOperators.Ring.Finset
import Mathlib.Algebra.BigOperators.Fin

namespace Cert.LibOneHotSelect

open Finset

variable {ι σ κ : Type} [Fintype ι] [Fintype σ] [DecidableEq σ] [Fintype κ]

/-- Over the reals: sampling the corners and then projecting is projecting every position and then applying the
    one-hot selection row. -/
theorem select_project_real (f : ι → σ → ℝ) (l : ι → ℝ) (w : κ → ℝ) (p : κ → σ) :
    ∑ i, (∑ k, w k * f i (p k)) * l i
      = ∑ s, (∑ k, (if s = p k then (1 : ℝ) else 0) * w k) * (∑ i, f i s * l i) := by
  have hR : ∀ s : σ, (∑ k, (if s = p k then (1 : ℝ) else 0) * w k) * (∑ i, f i s * l i)
      = ∑ k, (if s = p k then w k * (∑ i, f i s * l i) else 0) := by
    intro s
    rw [Finset.sum_mul]
    refine Finset.sum_congr rfl fun k _ => ?_
    split_ifs <;> ring
  simp_rw [hR]
  rw [Finset.sum_comm]
  have hK : ∀ k : κ, (∑ s, (if s = p k then w k * (∑ i, f i s * l i) else 0)) = w k * (∑ i, f i (p k) * l i) := by
    intro k
    rw [Finset.sum_ite_eq' Finset.univ (p k) fun s => w k * (∑ i, f i s * l i)]
    simp
  simp_rw [hK]
  simp_rw [Finset.sum_mul, Finset.mul_sum]
  rw [Finset.sum_comm]
  refine Finset.sum_congr rfl fun k _ => Finset.sum_congr rfl fun i _ => ?_
  ring

/-- The coercion of the reals into the extended reals goes through finite sums. -/
theorem coe_sum {α : Type} (s : Finset α) (g : α → ℝ) : ((∑ a ∈ s, g a : ℝ) : EReal) = ∑ a ∈ s, (g a : EReal) := by
  classical
  induction s using Finset.induction_on with
  | empty => simp
  | insert a s ha ih => rw [Finset.sum_insert ha, Finset.sum_insert ha, EReal.coe_add, ih]

/-- Over the extended reals, for finite features, weights and corner weights. -/
theorem select_project (f : ι → σ → ℝ) (l : ι → ℝ) (w : κ → ℝ) (p : κ → σ) :
    ∑ i, (∑ k, (w k : EReal) * (f i (p k) : EReal)) * (l i : EReal)
      = ∑ s, (∑ k, (if s = p k then (1 : EReal) else 0) * (w k : EReal)) * (∑ i, (f i s : EReal) * (l i : EReal)) := by
  have hite : ∀ (s : σ) (k : κ), (if s = p k then (1 : EReal) else 0) = (((if s = p k then (1 : ℝ) else 0) : ℝ) : EReal) := by
    intro s k; split_ifs <;> simp
  simp_rw [hite, ← EReal.coe_mul, ← coe_sum, ← EReal.coe_mul, ← coe_sum]
  exact congrArg _ (select_project_real f l w p)

/-- The selection row sees nothing at a position where no corner sits: a padded position contributes zero whatever
    the padded map holds there (here: for the finite entries of the padded map). -/
theorem selection_zero_of_forall_ne (w : κ → ℝ) (p : κ → σ) (s : σ) (h : ∀ k, s ≠ p k) :
    (∑ k, (if s = p k then (1 : EReal) else 0) * (w k : EReal)) = 0 := by
  refine Finset.sum_eq_zero fun k _ => ?_
  rw [if_neg (h k), zero_mul]

end Cert.LibOneHotSelect
-- ==== Proof.lean ====
/-
  The certificate of the mesh-refinement stage: a perspective projection of 8192 vertices onto four backbone feature
  maps with one bilinear sample per map (integer corner weights), a linear projection of the 3840 sampled channels
  to 128, three residual blocks of two graph convolutions relu(x W0 + A (x W1)) each over the 8192 x 8192 adjacency,
  and a last graph convolution to 3 columns under tanh, added to the vertex positions.

  The kernel program runs eleven kernel regions among host operations: four one-hot selection kernels (one per
  feature map: the map is projected to 128 channels FIRST, every vertex tile then multiplies its selection matrix
  with the projected map), and seven adjacency products accumulated over two halves of the contracted axis in a
  scratch accumulator, the sum with x W0 and the relu applied at the second half.

  The three frames: every weakly fair execution of each program terminates, nothing faulting, with the argument
  arrays unchanged.  For the two kernel programs (one text, read at the word level and at the extended reals) the
  frame is the run of @main's thirty-five segments in order (Proof/K/Run.lean, Proof/KI/Run.lean), each region's
  body run at every grid point (Proof/K/R0 … R10, Proof/KI/R0 … R10); for the reference it is the run of its host
  operations (Proof/RefFrame.lean).  The idealization rewrote nothing, so `preserves` is trivial.

  The value claim (Proof/Value.lean): both results are one tail function (Proof/TailSpec.lean) of the argument arrays
  and of the projected features — for the kernel program by its adjacency regions' closed forms (Proof/KI/R4Final …,
  Proof/Tail.lean, Proof/TailK.lean), for the reference by its own operations (Proof/TailRef.lean) — and the two
  programs compute the same projected features (Proof/Prefix.lean): sampling four integer-weighted corners per
  feature map and projecting afterwards is projecting every position first and selecting by one-hot weights, the
  corner coordinates staying inside each map because the image coordinates are clipped.
-/
import proofs.«120270_j2259152797813_2_alg».proof.Defs
import proofs.«120270_j2259152797813_2_alg».proof.Proof.Gen.Kernel
import proofs.«120270_j2259152797813_2_alg».proof.Proof.Gen.KernelIdeal
import proofs.«120270_j2259152797813_2_alg».proof.Proof.Gen.ReferenceIdeal
import proofs.«120270_j2259152797813_2_alg».proof.Proof.Gen.Pre_finite_inputs
import proofs.«120270_j2259152797813_2_alg».proof.Proof.K.Run
import proofs.«120270_j2259152797813_2_alg».proof.Proof.KI.Run
import proofs.«120270_j2259152797813_2_alg».proof.Proof.RefFrame
import proofs.«120270_j2259152797813_2_alg».proof.Proof.Value
import proofs.«120270_j2259152797813_2_alg».proof.Proof.LibOneHotSelect
import proofs.«120270_j2259152797813_2_alg».proof.Proof.LibGridCoordinate
import proofs.«120270_j2259152797813_2_alg».proof.Proof.LibGatherPoints
import Idealize.ShloMosaic.Adequacy
import Idealize.ShloMosaic.Init

noncomputable section

namespace Cert.Proof

open Idealize.ShloMosaic Idealize.SL.Sem

theorem frame_k : Cert.frame_Kernel :=
  fun m ρ _ => Cert.Kernel.Hand.frame (F := Bits) m ρ

theorem frame_ki : Cert.frame_KernelIdeal :=
  fun m ρ _ => Cert.KernelIdeal.Hand.frame (F := Ideal) m ρ

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, trivial, algebraic⟩

end Cert.Proof

end
